-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x100 : Shape := ⟨2, ![1000000, 100]⟩
abbrev S100000x100 : Shape := ⟨2, ![100000, 100]⟩
abbrev S200x1 : Shape := ⟨2, ![200, 1]⟩
abbrev S1 : Shape := ⟨1, ![1]⟩
abbrev S_ : Shape := ⟨0, ![]⟩

class Facts : Prop where
  bcast_S_S1000000x100 : S_.BroadcastsInDim S1000000x100 (![] : Fin 0 → Fin S1000000x100.rank)
  reducesTo_S1000000x100_S_d0_1 : S1000000x100.ReducesTo [0, 1] S_
  h_S_ : 0 < S_.numel
  bcast_S_S100000x100 : S_.BroadcastsInDim S100000x100 (![] : Fin 0 → Fin S100000x100.rank)
  reducesTo_S100000x100_S_d0_1 : S100000x100.ReducesTo [0, 1] S_
  bcast_S_S200x1 : S_.BroadcastsInDim S200x1 (![] : Fin 0 → Fin S200x1.rank)
  reducesTo_S200x1_S_d0_1 : S200x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_arg1 : IVec S16384 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg0 main_v19
  let main_c_7 : IVec S_ 32 := constantI S_ 32 999999#32
  let main_v21 : IVec S16384 32 := broadcastInDim S16384 ![] bcast_S_S16384 main_c_7
  let main_v22 : IVec S16384 1 := cmpi .sle main_arg0 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  let main_c_9 : IVec S_ 32 := constantI S_ 32 0#32
  let main_v26 : IVec S16384 32 := broadcastInDim S16384 ![] bcast_S_S16384 main_c_9
  let main_v27 : IVec S16384 1 := cmpi .sge main_arg1 main_v26
  let main_c_10 : IVec S_ 32 := constantI S_ 32 99999#32
  let main_v28 : IVec S16384 32 := broadcastInDim S16384 ![] bcast_S_S16384 main_c_10
  let main_v29 : IVec S16384 1 := cmpi .sle main_arg1 main_v28
  let main_v30 : IVec S16384 1 := andi main_v27 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v25 main_v31
  main_v32

def fn {F : FTy → Type} [FloatOps F] (main_arg0 : IVec S16384 32) (main_arg1 : IVec S16384 32) (main_arg2 : FVec F S1000000x100 .f32) (main_arg3 : FVec F S100000x100 .f32) (main_arg4 : FVec F S200x1 .f32) (main_arg5 : FVec F S1 .f32) : IVec S_ 1 :=
  let main_v0 : FVec F S1000000x100 .f32 := Host.absf main_arg2
  let main_cst : FVec F S_ .f32 := constant S_ .f32 0x7F800000#32
  let main_v1 : FVec F S1000000x100 .f32 := broadcastInDim S1000000x100 ![] bcast_S_S1000000x100 main_cst
  let main_v2 : IVec S1000000x100 1 := cmpf .olt main_v0 main_v1
  let main_c : IVec S_ 1 := constantI S_ 1 1#1
  let main_v3 : IVec S_ 1 := (fun x v => Host.reduce IntOp.andi x v reducesTo_S1000000x100_S_d0_1 h_S_) main_v2 main_c
  let main_v4 : FVec F S100000x100 .f32 := Host.absf main_arg3
  let main_cst_0 : FVec F S_ .f32 := constant S_ .f32 0x7F800000#32
  let main_v5 : FVec F S100000x100 .f32 := broadcastInDim S100000x100 ![] bcast_S_S100000x100 main_cst_0
  let main_v6 : IVec S100000x100 1 := cmpf .olt main_v4 main_v5
  let main_c_1 : IVec S_ 1 := constantI S_ 1 1#1
  let main_v7 : IVec S_ 1 := (fun x v => Host.reduce IntOp.andi x v reducesTo_S100000x100_S_d0_1 h_S_) main_v6 main_c_1
  let main_v8 : IVec S_ 1 := andi main_v3 main_v7
  let main_v9 : FVec F S200x1 .f32 := Host.absf main_arg4
  let main_cst_2 : FVec F S_ .f32 := constant S_ .f32 0x7F800000#32
  let main_v10 : FVec F S200x1 .f32 := broadcastInDim S200x1 ![] bcast_S_S200x1 main_cst_2
  let main_v11 : IVec S200x1 1 := cmpf .olt main_v9 main_v10
  let main_c_3 : IVec S_ 1 := constantI S_ 1 1#1
  let main_v12 : IVec S_ 1 := (fun x v => Host.reduce IntOp.andi x v reducesTo_S200x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_arg1 main_v13 main_v16
-- ==== Kernel.lean ====
abbrev S16384 : Shape := ⟨1, ![16384]⟩
abbrev S1000000x100 : Shape := ⟨2, ![1000000, 100]⟩
abbrev S100000x100 : Shape := ⟨2, ![100000, 100]⟩
abbrev S200x1 : Shape := ⟨2, ![200, 1]⟩
abbrev S1 : Shape := ⟨1, ![1]⟩
abbrev S100x1 : Shape := ⟨2, ![100, 1]⟩
abbrev S1x100 : Shape := ⟨2, ![1, 100]⟩
abbrev S100x1000000 : Shape := ⟨2, ![100, 1000000]⟩
abbrev S1000448 : Shape := ⟨1, ![1000448]⟩
abbrev S100x16384 : Shape := ⟨2, ![100, 16384]⟩
abbrev S1x16384 : Shape := ⟨2, ![1, 16384]⟩
abbrev S7816x128 : Shape := ⟨2, ![7816, 128]⟩
abbrev S512 : Shape := ⟨1, ![512]⟩
abbrev S128x128 : Shape := ⟨2, ![128, 128]⟩
abbrev S_ : Shape := ⟨0, ![]⟩
abbrev S16 : Shape := ⟨1, ![16]⟩
abbrev S128 : Shape := ⟨1, ![128]⟩
abbrev S1x16 : Shape := ⟨2, ![1, 16]⟩
abbrev S100x100000 : Shape := ⟨2, ![100, 100000]⟩
abbrev S100352 : Shape := ⟨1, ![100352]⟩
abbrev S784x128 : Shape := ⟨2, ![784, 128]⟩

abbrev nBuf : Table → Nat
  | .hbm => 19
  | .local .tc .vmem => 10
  | .local .scVector .vmem => 14
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x100, .f32⟩
  | .hbm, ⟨3, _⟩ => ⟨S100000x100, .f32⟩
  | .hbm, ⟨4, _⟩ => ⟨S200x1, .f32⟩
  | .hbm, ⟨5, _⟩ => ⟨S1, .f32⟩
  | .hbm, ⟨6, _⟩ => ⟨S100x1, .f32⟩
  | .hbm, ⟨7, _⟩ => ⟨S1x100, .f32⟩
  | .hbm, ⟨8, _⟩ => ⟨S100x1, .f32⟩
  | .hbm, ⟨9, _⟩ => ⟨S1x100, .f32⟩
  | .hbm, ⟨10, _⟩ => ⟨S100x1000000, .f32⟩
  | .hbm, ⟨11, _⟩ => ⟨S1000448, .f32⟩
  | .hbm, ⟨12, _⟩ => ⟨S7816x128, .f32⟩
  | .hbm, ⟨13, _⟩ => ⟨S16384, .f32⟩
  | .hbm, ⟨14, _⟩ => ⟨S16384, .f32⟩
  | .hbm, ⟨15, _⟩ => ⟨S100x100000, .f32⟩
  | .hbm, ⟨16, _⟩ => ⟨S100352, .f32⟩
  | .hbm, ⟨17, _⟩ => ⟨S784x128, .f32⟩
  | .hbm, ⟨18, _⟩ => ⟨S16384, .f32⟩
  | .local .tc .vmem, ⟨0, _⟩ => ⟨S100x16384, .f32⟩
  | .local .tc .vmem, ⟨1, _⟩ => ⟨S100x16384, .f32⟩
  | .local .tc .vmem, ⟨2, _⟩ => ⟨S1x100, .f32⟩
  | .local .tc .vmem, ⟨3, _⟩ => ⟨S16384, .f32⟩
  | .local .tc .vmem, ⟨4, _⟩ => ⟨S16384, .f32⟩
  | .local .tc .vmem, ⟨5, _⟩ => ⟨S100x16384, .f32⟩
  | .local .tc .vmem, ⟨6, _⟩ => ⟨S100x16384, .f32⟩
  | .local .tc .vmem, ⟨7, _⟩ => ⟨S1x100, .f32⟩
  | .local .tc .vmem, ⟨8, _⟩ => ⟨S16384, .f32⟩
  | .local .tc .vmem, ⟨9, _⟩ => ⟨S16384, .f32⟩
  | .local .scVector .vmem, ⟨0, _⟩ => ⟨S512, .i32⟩
  | .local .scVector .vmem, ⟨1, _⟩ => ⟨S512, .i32⟩
  | .local .scVector .vmem, ⟨2, _⟩ => ⟨S128x128, .f32⟩
  | .local .scVector .vmem, ⟨3, _⟩ => ⟨S128x128, .f32⟩
  | .local .scVector .vmem, ⟨4, _⟩ => ⟨S512, .f32⟩
  | .local .scVector .vmem, ⟨5, _⟩ => ⟨S512, .f32⟩
  | .local .scVector .vmem, ⟨6, _⟩ => ⟨S512, .f32⟩
  | .local .scVector .vmem, ⟨7, _⟩ => ⟨S512, .i32⟩
  | .local .scVector .vmem, ⟨8, _⟩ => ⟨S512, .i32⟩
  | .local .scVector .vmem, ⟨9, _⟩ => ⟨S128x128, .f32⟩
  | .local .scVector .vmem, ⟨10, _⟩ => ⟨S128x128, .f32⟩
  | .local .scVector .vmem, ⟨11, _⟩ => ⟨S512, .f32⟩
  | .local .scVector .vmem, ⟨12, _⟩ => ⟨S512, .f32⟩
  | .local .scVector .vmem, ⟨13, _⟩ => ⟨S512, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_arg0_scv : Ref sig .scVector := ⟨.hbm, 0, rfl⟩
abbrev main_v6_scv : Ref sig .scVector := ⟨.hbm, 12, rfl⟩
abbrev main_v7_scv : Ref sig .scVector := ⟨.hbm, 13, rfl⟩
abbrev main_v8_scv : Ref sig .scVector := ⟨.hbm, 14, rfl⟩
abbrev main_arg1_scv : Ref sig .scVector := ⟨.hbm, 1, rfl⟩
abbrev main_v11_scv : Ref sig .scVector := ⟨.hbm, 17, rfl⟩
abbrev main_v12_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc3_scratch0 : Ref sig .scVector := ⟨.vmem, 7, rfl⟩
abbrev cc3_scratch1 : Ref sig .scVector := ⟨.vmem, 8, rfl⟩
abbrev cc3_scratch2 : Ref sig .scVector := ⟨.vmem, 9, rfl⟩
abbrev cc3_scratch3 : Ref sig .scVector := ⟨.vmem, 10, rfl⟩
abbrev cc3_scratch4 : Ref sig .scVector := ⟨.vmem, 11, rfl⟩
abbrev cc3_scratch5 : Ref sig .scVector := ⟨.vmem, 12, rfl⟩
abbrev cc3_scratch6 : Ref sig .scVector := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S100x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_71 : BitVec 32 := 0#32
  let c8_i32 : BitVec 32 := 8#32
  let v234 : BitVec 32 := Scalar.addi c0_i32_71 c8_i32
  let c1_i32 : BitVec 32 := 1#32
  ⟨c0_i32_71, v234, c1_i32⟩
def k1_mult1 (k1_t1 : Fin k1_t1_loop.trips) : BitVec 32 :=
  let c0_i32_101 : BitVec 32 := 0#32
  let c0_i32_71 : BitVec 32 := 0#32
  let c1_i32 : BitVec 32 := 1#32
  let arg15 : BitVec 32 := Scf.iv c0_i32_71 c1_i32 k1_t1
  let c16_i32 : BitVec 32 := 16#32
  let v252 : BitVec 32 := Scalar.muli arg15 c16_i32
  let v253 : BitVec 32 := Scalar.addi c0_i32_101 v252
  v253
def k1_off2 (k1_t1 : Fin k1_t1_loop.trips) : Fin 1 → Nat :=
  let c0_i32_101 : BitVec 32 := 0#32
  let c0_i32_71 : BitVec 32 := 0#32
  let c1_i32 : BitVec 32 := 1#32
  let arg15 : BitVec 32 := Scf.iv c0_i32_71 c1_i32 k1_t1
  let c16_i32 : BitVec 32 := 16#32
  let v252 : BitVec 32 := Scalar.muli arg15 c16_i32
  let v253 : BitVec 32 := Scalar.addi c0_i32_101 v252
  let v254 : BitVec 32 := v253
  let v255 : Index := Scalar.indexCast v254
  ![v255.toNat]
def k1_mult2 (v264 : BitVec 32) : BitVec 32 :=
  let c127_i32 : BitVec 32 := 127#32
  let v265 : BitVec 32 := Scalar.andi v264 c127_i32
  let c112_i32 : BitVec 32 := 112#32
  let v266 : BitVec 32 := Scalar.andi v265 c112_i32
  v266

def k1_off3 (k1_t1 : Fin k1_t1_loop.trips) (v264 : BitVec 32) : Fin 2 → Nat :=
  let c0_i32_71 : BitVec 32 := 0#32
  let c1_i32 : BitVec 32 := 1#32
  let arg15 : BitVec 32 := Scf.iv c0_i32_71 c1_i32 k1_t1
  let c16_i32_102 : BitVec 32 := 16#32
  let v261 : BitVec 32 := Scalar.muli arg15 c16_i32_102
  let c0_i32_103 : BitVec 32 := 0#32
  let v262 : BitVec 32 := Scalar.addi v261 c0_i32_103
  let v268 : Index := Scalar.indexCast v262
  let c127_i32 : BitVec 32 := 127#32
  let v265 : BitVec 32 := Scalar.andi v264 c127_i32
  let c112_i32 : BitVec 32 := 112#32
  let v266 : BitVec 32 := Scalar.andi v265 c112_i32
  let v267 : BitVec 32 := v266
  let v269 : Index := Scalar.indexCast v267
  ![v268.toNat, v269.toNat]
def k1_off4 (v264 : BitVec 32) : Fin 1 → Nat :=
  let c0_i32_109 : BitVec 32 := 0#32
  let c127_i32 : BitVec 32 := 127#32
  let v265 : BitVec 32 := Scalar.andi v264 c127_i32
  let c15_i32 : BitVec 32 := 15#32
  let v278 : BitVec 32 := Scalar.andi v265 c15_i32
  let c0_i32_106 : BitVec 32 := 0#32
  let v279 : BitVec 32 := Scalar.subi v278 c0_i32_106
  let c16_i32_107 : BitVec 32 := 16#32
  let v280 : BitVec 32 := Scalar.addi v279 c16_i32_107
  let c15_i32_108 : BitVec 32 := 15#32
  let v281 : BitVec 32 := Scalar.andi v280 c15_i32_108
  let v282 : BitVec 32 := Scalar.addi c0_i32_109 v281
  let v283 : Index := Scalar.indexCast v282
  ![v283.toNat]

def k1_chk1 (k1_t1 : Fin k1_t1_loop.trips) (v264 : BitVec 32) : Prop :=
  (16 ∣ (k1_mult2 v264).toNat) ∧
  (∀ a, (k1_off3 k1_t1 v264) a + S1x16.size a ≤ S128x128.size a) ∧
  (∀ a, (k1_off4 v264) a + S16.size a ≤ S512.size a)
instance k1_chk1.dec : ∀ (k1_t1 : Fin k1_t1_loop.trips) (v264 : BitVec 32), Decidable (k1_chk1 k1_t1 v264) := fun k1_t1 v264 => decidable_of_iff' _ (Iff.of_eq (k1_chk1.eq_1 k1_t1 v264))
theorem k1_mult2_dvd : ∀ (k1_t1 : Fin k1_t1_loop.trips) (v264 : BitVec 32) (k1_hw1 : k1_chk1 k1_t1 v264), 16 ∣ (k1_mult2 v264).toNat := fun k1_t1 v264 k1_hw1 => k1_hw1.1
theorem k1_off3_inb : ∀ (k1_t1 : Fin k1_t1_loop.trips) (v264 : BitVec 32) (k1_hw1 : k1_chk1 k1_t1 v264), ∀ a, (k1_off3 k1_t1 v264) a + S1x16.size a ≤ S128x128.size a := fun k1_t1 v264 k1_hw1 => k1_hw1.2.1
theorem k1_off4_inb : ∀ (k1_t1 : Fin k1_t1_loop.trips) (v264 : BitVec 32) (k1_hw1 : k1_chk1 k1_t1 v264), ∀ a, (k1_off4 v264) a + S16.size a ≤ S512.size a := fun k1_t1 v264 k1_hw1 => k1_hw1.2.2

def k1_mult3 (v293 : BitVec 32) : BitVec 32 :=
  let c127_i32_113 : BitVec 32 := 127#32
  let v294 : BitVec 32 := Scalar.andi v293 c127_i32_113
  let c112_i32_114 : BitVec 32 := 112#32
  let v295 : BitVec 32 := Scalar.andi v294 c112_i32_114
  v295

def k1_off5 (k1_t1 : Fin k1_t1_loop.trips) (v293 : BitVec 32) : Fin 2 → Nat :=
  let c0_i32_71 : BitVec 32 := 0#32
  let c1_i32 : BitVec 32 := 1#32
  let arg15 : BitVec 32 := Scf.iv c0_i32_71 c1_i32 k1_t1
  let c16_i32_111 : BitVec 32 := 16#32
  let v290 : BitVec 32 := Scalar.muli arg15 c16_i32_111
  let c1_i32_112 : BitVec 32 := 1#32
  let v291 : BitVec 32 := Scalar.addi v290 c1_i32_112
  let v297 : Index := Scalar.indexCast v291
  let c127_i32_113 : BitVec 32 := 127#32
  let v294 : BitVec 32 := Scalar.andi v293 c127_i32_113
  let c112_i32_114 : BitVec 32 := 112#32
  let v295 : BitVec 32 := Scalar.andi v294 c112_i32_114
  let v296 : BitVec 32 := v295
  let v298 : Index := Scalar.indexCast v296
  ![v297.toNat, v298.toNat]
def k1_off6 (v293 : BitVec 32) : Fin 1 → Nat :=
  let c32_i32 : BitVec 32 := 32#32
  let c127_i32_113 : BitVec 32 := 127#32
  let v294 : BitVec 32 := Scalar.andi v293 c127_i32_113
  let c15_i32_117 : BitVec 32 := 15#32
  let v307 : BitVec 32 := Scalar.andi v294 c15_i32_117
  let c1_i32_118 : BitVec 32 := 1#32
  let v308 : BitVec 32 := Scalar.subi v307 c1_i32_118
  let c16_i32_119 : BitVec 32 := 16#32
  let v309 : BitVec 32 := Scalar.addi v308 c16_i32_119
  let c15_i32_120 : BitVec 32 := 15#32
  let v310 : BitVec 32 := Scalar.andi v309 c15_i32_120
  let v311 : BitVec 32 := Scalar.addi c32_i32 v310
  let v312 : Index := Scalar.indexCast v311
  ![v312.toNat]

def k1_chk2 (k1_t1 : Fin k1_t1_loop.trips) (v293 : BitVec 32) : Prop :=
  (16 ∣ (k1_mult3 v293).toNat) ∧
  (∀ a, (k1_off5 k1_t1 v293) a + S1x16.size a ≤ S128x128.size a) ∧
  (∀ a, (k1_off6 v293) a + S16.size a ≤ S512.size a)
instance k1_chk2.dec : ∀ (k1_t1 : Fin k1_t1_loop.trips) (v293 : BitVec 32), Decidable (k1_chk2 k1_t1 v293) := fun k1_t1 v293 => decidable_of_iff' _ (Iff.of_eq (k1_chk2.eq_1 k1_t1 v293))
theorem k1_mult3_dvd : ∀ (k1_t1 : Fin k1_t1_loop.trips) (v293 : BitVec 32) (k1_hw2 : k1_chk2 k1_t1 v293), 16 ∣ (k1_mult3 v293).toNat := fun k1_t1 v293 k1_hw2 => k1_hw2.1
theorem k1_off5_inb : ∀ (k1_t1 : Fin k1_t1_loop.trips) (v293 : BitVec 32) (k1_hw2 : k1_chk2 k1_t1 v293), ∀ a, (k1_off5 k1_t1 v293) a + S1x16.size a ≤ S128x128.size a := fun k1_t1 v293 k1_hw2 => k1_hw2.2.1
theorem k1_off6_inb : ∀ (k1_t1 : Fin k1_t1_loop.trips) (v293 : BitVec 32) (k1_hw2 : k1_chk2 k1_t1 v293), ∀ a, (k1_off6 v293) a + S16.size a ≤ S512.size a := fun k1_t1 v293 k1_hw2 => k1_hw2.2.2

def k1_mult4 (v322 : BitVec 32) : BitVec 32 :=
  let c127_i32_124 : BitVec 32 := 127#32
  let v323 : BitVec 32 := Scalar.andi v322 c127_i32_124
  let c112_i32_125 : BitVec 32 := 112#32
  let v324 : BitVec 32 := Scalar.andi v323 c112_i32_125
  v324

def k1_off7 (k1_t1 : Fin k1_t1_loop.trips) (v322 : BitVec 32) : Fin 2 → Nat :=
  let c0_i32_71 : BitVec 32 := 0#32
  let c1_i32 : BitVec 32 := 1#32
  let arg15 : BitVec 32 := Scf.iv c0_i32_71 c1_i32 k1_t1
  let c16_i32_122 : BitVec 32 := 16#32
  let v319 : BitVec 32 := Scalar.muli arg15 c16_i32_122
  let c2_i32_123 : BitVec 32 := 2#32
  let v320 : BitVec 32 := Scalar.addi v319 c2_i32_123
  let v326 : Index := Scalar.indexCast v320
  let c127_i32_124 : BitVec 32 := 127#32
  let v323 : BitVec 32 := Scalar.andi v322 c127_i32_124
  let c112_i32_125 : BitVec 32 := 112#32
  let v324 : BitVec 32 := Scalar.andi v323 c112_i32_125
  let v325 : BitVec 32 := v324
  let v327 : Index := Scalar.indexCast v325
  ![v326.toNat, v327.toNat]
def k1_off8 (v322 : BitVec 32) : Fin 1 → Nat :=
  let c64_i32 : BitVec 32 := 64#32
  let c127_i32_124 : BitVec 32 := 127#32
  let v323 : BitVec 32 := Scalar.andi v322 c127_i32_124
  let c15_i32_128 : BitVec 32 := 15#32
  let v336 : BitVec 32 := Scalar.andi v323 c15_i32_128
  let c2_i32_129 : BitVec 32 := 2#32
  let v337 : BitVec 32 := Scalar.subi v336 c2_i32_129
  let c16_i32_130 : BitVec 32 := 16#32
  let v338 : BitVec 32 := Scalar.addi v337 c16_i32_130
  let c15_i32_131 : BitVec 32 := 15#32
  let v339 : BitVec 32 := Scalar.andi v338 c15_i32_131
  let v340 : BitVec 32 := Scalar.addi c64_i32 v339
  let v341 : Index := Scalar.indexCast v340
  ![v341.toNat]

def k1_chk3 (k1_t1 : Fin k1_t1_loop.trips) (v322 : BitVec 32) : Prop :=
  (16 ∣ (k1_mult4 v322).toNat) ∧
  (∀ a, (k1_off7 k1_t1 v322) a + S1x16.size a ≤ S128x128.size a) ∧
  (∀ a, (k1_off8 v322) a + S16.size a ≤ S512.size a)
instance k1_chk3.dec : ∀ (k1_t1 : Fin k1_t1_loop.trips) (v322 : BitVec 32), Decidable (k1_chk3 k1_t1 v322) := fun k1_t1 v322 => decidable_of_iff' _ (Iff.of_eq (k1_chk3.eq_1 k1_t1 v322))
theorem k1_mult4_dvd : ∀ (k1_t1 : Fin k1_t1_loop.trips) (v322 : BitVec 32) (k1_hw3 : k1_chk3 k1_t1 v322), 16 ∣ (k1_mult4 v322).toNat := fun k1_t1 v322 k1_hw3 => k1_hw3.1
theorem k1_off7_inb : ∀ (k1_t1 : Fin k1_t1_loop.trips) (v322 : BitVec 32) (k1_hw3 : k1_chk3 k1_t1 v322), ∀ a, (k1_off7 k1_t1 v322) a + S1x16.size a ≤ S128x128.size a := fun k1_t1 v322 k1_hw3 => k1_hw3.2.1
theorem k1_off8_inb : ∀ (k1_t1 : Fin k1_t1_loop.trips) (v322 : BitVec 32) (k1_hw3 : k1_chk3 k1_t1 v322), ∀ a, (k1_off8 v322) a + S16.size a ≤ S512.size a := fun k1_t1 v322 k1_hw3 => k1_hw3.2.2

def k1_mult5 (v351 : BitVec 32) : BitVec 32 :=
  let c127_i32_134 : BitVec 32 := 127#32
  let v352 : BitVec 32 := Scalar.andi v351 c127_i32_134
  let c112_i32_135 : BitVec 32 := 112#32
  let v353 : BitVec 32 := Scalar.andi v352 c112_i32_135
  v353

def k1_off9 (k1_t1 : Fin k1_t1_loop.trips) (v351 : BitVec 32) : Fin 2 → Nat :=
  let c0_i32_71 : BitVec 32 := 0#32
  let c1_i32 : BitVec 32 := 1#32
  let arg15 : BitVec 32 := Scf.iv c0_i32_71 c1_i32 k1_t1
  let c16_i32_133 : BitVec 32 := 16#32
  let v348 : BitVec 32 := Scalar.muli arg15 c16_i32_133
  let c3_i32 : BitVec 32 := 3#32
  let v349 : BitVec 32 := Scalar.addi v348 c3_i32
  let v355 : Index := Scalar.indexCast v349
  let c127_i32_134 : BitVec 32 := 127#32
  let v352 : BitVec 32 := Scalar.andi v351 c127_i32_134
  let c112_i32_135 : BitVec 32 := 112#32
  let v353 : BitVec 32 := Scalar.andi v352 c112_i32_135
  let v354 : BitVec 32 := v353
  let v356 : Index := Scalar.indexCast v354
  ![v355.toNat, v356.toNat]
def k1_off10 (v351 : BitVec 32) : Fin 1 → Nat :=
  let c96_i32 : BitVec 32 := 96#32
  let c127_i32_134 : BitVec 32 := 127#32
  let v352 : BitVec 32 := Scalar.andi v351 c127_i32_134
  let c15_i32_138 : BitVec 32 := 15#32
  let v365 : BitVec 32 := Scalar.andi v352 c15_i32_138
  let c3_i32_139 : BitVec 32 := 3#32
  let v366 : BitVec 32 := Scalar.subi v365 c3_i32_139
  let c16_i32_140 : BitVec 32 := 16#32
  let v367 : BitVec 32 := Scalar.addi v366 c16_i32_140
  let c15_i32_141 : BitVec 32 := 15#32
  let v368 : BitVec 32 := Scalar.andi v367 c15_i32_141
  let v369 : BitVec 32 := Scalar.addi c96_i32 v368
  let v370 : Index := Scalar.indexCast v369
  ![v370.toNat]

def k1_chk4 (k1_t1 : Fin k1_t1_loop.trips) (v351 : BitVec 32) : Prop :=
  (16 ∣ (k1_mult5 v351).toNat) ∧
  (∀ a, (k1_off9 k1_t1 v351) a + S1x16.size a ≤ S128x128.size a) ∧
  (∀ a, (k1_off10 v351) a + S16.size a ≤ S512.size a)
instance k1_chk4.dec : ∀ (k1_t1 : Fin k1_t1_loop.trips) (v351 : BitVec 32), Decidable (k1_chk4 k1_t1 v351) := fun k1_t1 v351 => decidable_of_iff' _ (Iff.of_eq (k1_chk4.eq_1 k1_t1 v351))
theorem k1_mult5_dvd : ∀ (k1_t1 : Fin k1_t1_loop.trips) (v351 : BitVec 32) (k1_hw4 : k1_chk4 k1_t1 v351), 16 ∣ (k1_mult5 v351).toNat := fun k1_t1 v351 k1_hw4 => k1_hw4.1
theorem k1_off9_inb : ∀ (k1_t1 : Fin k1_t1_loop.trips) (v351 : BitVec 32) (k1_hw4 : k1_chk4 k1_t1 v351), ∀ a, (k1_off9 k1_t1 v351) a + S1x16.size a ≤ S128x128.size a := fun k1_t1 v351 k1_hw4 => k1_hw4.2.1
theorem k1_off10_inb : ∀ (k1_t1 : Fin k1_t1_loop.trips) (v351 : BitVec 32) (k1_hw4 : k1_chk4 k1_t1 v351), ∀ a, (k1_off10 v351) a + S16.size a ≤ S512.size a := fun k1_t1 v351 k1_hw4 => k1_hw4.2.2

def k1_mult6 (v380 : BitVec 32) : BitVec 32 :=
  let c127_i32_144 : BitVec 32 := 127#32
  let v381 : BitVec 32 := Scalar.andi v380 c127_i32_144
  let c112_i32_145 : BitVec 32 := 112#32
  let v382 : BitVec 32 := Scalar.andi v381 c112_i32_145
  v382

def k1_off11 (k1_t1 : Fin k1_t1_loop.trips) (v380 : BitVec 32) : Fin 2 → Nat :=
  let c0_i32_71 : BitVec 32 := 0#32
  let c1_i32 : BitVec 32 := 1#32
  let arg15 : BitVec 32 := Scf.iv c0_i32_71 c1_i32 k1_t1
  let c16_i32_143 : BitVec 32 := 16#32
  let v377 : BitVec 32 := Scalar.muli arg15 c16_i32_143
  let c4_i32 : BitVec 32 := 4#32
  let v378 : BitVec 32 := Scalar.addi v377 c4_i32
  let v384 : Index := Scalar.indexCast v378
  let c127_i32_144 : BitVec 32 := 127#32
  let v381 : BitVec 32 := Scalar.andi v380 c127_i32_144
  let c112_i32_145 : BitVec 32 := 112#32
  let v382 : BitVec 32 := Scalar.andi v381 c112_i32_145
  let v383 : BitVec 32 := v382
  let v385 : Index := Scalar.indexCast v383
  ![v384.toNat, v385.toNat]
def k1_off12 (v380 : BitVec 32) : Fin 1 → Nat :=
  let c128_i32_152 : BitVec 32 := 128#32
  let c127_i32_144 : BitVec 32 := 127#32
  let v381 : BitVec 32 := Scalar.andi v380 c127_i32_144
  let c15_i32_148 : BitVec 32 := 15#32
  let v394 : BitVec 32 := Scalar.andi v381 c15_i32_148
  let c4_i32_149 : BitVec 32 := 4#32
  let v395 : BitVec 32 := Scalar.subi v394 c4_i32_149
  let c16_i32_150 : BitVec 32 := 16#32
  let v396 : BitVec 32 := Scalar.addi v395 c16_i32_150
  let c15_i32_151 : BitVec 32 := 15#32
  let v397 : BitVec 32 := Scalar.andi v396 c15_i32_151
  let v398 : BitVec 32 := Scalar.addi c128_i32_152 v397
  let v399 : Index := Scalar.indexCast v398
  ![v399.toNat]

def k1_chk5 (k1_t1 : Fin k1_t1_loop.trips) (v380 : BitVec 32) : Prop :=
  (16 ∣ (k1_mult6 v380).toNat) ∧
  (∀ a, (k1_off11 k1_t1 v380) a + S1x16.size a ≤ S128x128.size a) ∧
  (∀ a, (k1_off12 v380) a + S16.size a ≤ S512.size a)
instance k1_chk5.dec : ∀ (k1_t1 : Fin k1_t1_loop.trips) (v380 : BitVec 32), Decidable (k1_chk5 k1_t1 v380) := fun k1_t1 v380 => decidable_of_iff' _ (Iff.of_eq (k1_chk5.eq_1 k1_t1 v380))
theorem k1_mult6_dvd : ∀ (k1_t1 : Fin k1_t1_loop.trips) (v380 : BitVec 32) (k1_hw5 : k1_chk5 k1_t1 v380), 16 ∣ (k1_mult6 v380).toNat := fun k1_t1 v380 k1_hw5 => k1_hw5.1
theorem k1_off11_inb : ∀ (k1_t1 : Fin k1_t1_loop.trips) (v380 : BitVec 32) (k1_hw5 : k1_chk5 k1_t1 v380), ∀ a, (k1_off11 k1_t1 v380) a + S1x16.size a ≤ S128x128.size a := fun k1_t1 v380 k1_hw5 => k1_hw5.2.1
theorem k1_off12_inb : ∀ (k1_t1 : Fin k1_t1_loop.trips) (v380 : BitVec 32) (k1_hw5 : k1_chk5 k1_t1 v380), ∀ a, (k1_off12 v380) a + S16.size a ≤ S512.size a := fun k1_t1 v380 k1_hw5 => k1_hw5.2.2

def k1_mult7 (v409 : BitVec 32) : BitVec 32 :=
  let c127_i32_155 : BitVec 32 := 127#32
  let v410 : BitVec 32 := Scalar.andi v409 c127_i32_155
  let c112_i32_156 : BitVec 32 := 112#32
  let v411 : BitVec 32 := Scalar.andi v410 c112_i32_156
  v411

def k1_off13 (k1_t1 : Fin k1_t1_loop.trips) (v409 : BitVec 32) : Fin 2 → Nat :=
  let c0_i32_71 : BitVec 32 := 0#32
  let c1_i32 : BitVec 32 := 1#32
  let arg15 : BitVec 32 := Scf.iv c0_i32_71 c1_i32 k1_t1
  let c16_i32_154 : BitVec 32 := 16#32
  let v406 : BitVec 32 := Scalar.muli arg15 c16_i32_154
  let c5_i32 : BitVec 32 := 5#32
  let v407 : BitVec 32 := Scalar.addi v406 c5_i32
  let v413 : Index := Scalar.indexCast v407
  let c127_i32_155 : BitVec 32 := 127#32
  let v410 : BitVec 32 := Scalar.andi v409 c127_i32_155
  let c112_i32_156 : BitVec 32 := 112#32
  let v411 : BitVec 32 := Scalar.andi v410 c112_i32_156
  let v412 : BitVec 32 := v411
  let v414 : Index := Scalar.indexCast v412
  ![v413.toNat, v414.toNat]
def k1_off14 (v409 : BitVec 32) : Fin 1 → Nat :=
  let c160_i32 : BitVec 32 := 160#32
  let c127_i32_155 : BitVec 32 := 127#32
  let v410 : BitVec 32 := Scalar.andi v409 c127_i32_155
  let c15_i32_159 : BitVec 32 := 15#32
  let v423 : BitVec 32 := Scalar.andi v410 c15_i32_159
  let c5_i32_160 : BitVec 32 := 5#32
  let v424 : BitVec 32 := Scalar.subi v423 c5_i32_160
  let c16_i32_161 : BitVec 32 := 16#32
  let v425 : BitVec 32 := Scalar.addi v424 c16_i32_161
  let c15_i32_162 : BitVec 32 := 15#32
  let v426 : BitVec 32 := Scalar.andi v425 c15_i32_162
  let v427 : BitVec 32 := Scalar.addi c160_i32 v426
  let v428 : Index := Scalar.indexCast v427
  ![v428.toNat]

def k1_chk6 (k1_t1 : Fin k1_t1_loop.trips) (v409 : BitVec 32) : Prop :=
  (16 ∣ (k1_mult7 v409).toNat) ∧
  (∀ a, (k1_off13 k1_t1 v409) a + S1x16.size a ≤ S128x128.size a) ∧
  (∀ a, (k1_off14 v409) a + S16.size a ≤ S512.size a)
instance k1_chk6.dec : ∀ (k1_t1 : Fin k1_t1_loop.trips) (v409 : BitVec 32), Decidable (k1_chk6 k1_t1 v409) := fun k1_t1 v409 => decidable_of_iff' _ (Iff.of_eq (k1_chk6.eq_1 k1_t1 v409))
theorem k1_mult7_dvd : ∀ (k1_t1 : Fin k1_t1_loop.trips) (v409 : BitVec 32) (k1_hw6 : k1_chk6 k1_t1 v409), 16 ∣ (k1_mult7 v409).toNat := fun k1_t1 v409 k1_hw6 => k1_hw6.1
theorem k1_off13_inb : ∀ (k1_t1 : Fin k1_t1_loop.trips) (v409 : BitVec 32) (k1_hw6 : k1_chk6 k1_t1 v409), ∀ a, (k1_off13 k1_t1 v409) a + S1x16.size a ≤ S128x128.size a := fun k1_t1 v409 k1_hw6 => k1_hw6.2.1
theorem k1_off14_inb : ∀ (k1_t1 : Fin k1_t1_loop.trips) (v409 : BitVec 32) (k1_hw6 : k1_chk6 k1_t1 v409), ∀ a, (k1_off14 v409) a + S16.size a ≤ S512.size a := fun k1_t1 v409 k1_hw6 => k1_hw6.2.2

def k1_mult8 (v438 : BitVec 32) : BitVec 32 :=
  let c127_i32_165 : BitVec 32 := 127#32
  let v439 : BitVec 32 := Scalar.andi v438 c127_i32_165
  let c112_i32_166 : BitVec 32 := 112#32
  let v440 : BitVec 32 := Scalar.andi v439 c112_i32_166
  v440

def k1_off15 (k1_t1 : Fin k1_t1_loop.trips) (v438 : BitVec 32) : Fin 2 → Nat :=
  let c0_i32_71 : BitVec 32 := 0#32
  let c1_i32 : BitVec 32 := 1#32
  let arg15 : BitVec 32 := Scf.iv c0_i32_71 c1_i32 k1_t1
  let c16_i32_164 : BitVec 32 := 16#32
  let v435 : BitVec 32 := Scalar.muli arg15 c16_i32_164
  let c6_i32 : BitVec 32 := 6#32
  let v436 : BitVec 32 := Scalar.addi v435 c6_i32
  let v442 : Index := Scalar.indexCast v436
  let c127_i32_165 : BitVec 32 := 127#32
  let v439 : BitVec 32 := Scalar.andi v438 c127_i32_165
  let c112_i32_166 : BitVec 32 := 112#32
  let v440 : BitVec 32 := Scalar.andi v439 c112_i32_166
  let v441 : BitVec 32 := v440
  let v443 : Index := Scalar.indexCast v441
  ![v442.toNat, v443.toNat]
def k1_off16 (v438 : BitVec 32) : Fin 1 → Nat :=
  let c192_i32 : BitVec 32 := 192#32
  let c127_i32_165 : BitVec 32 := 127#32
  let v439 : BitVec 32 := Scalar.andi v438 c127_i32_165
  let c15_i32_169 : BitVec 32 := 15#32
  let v452 : BitVec 32 := Scalar.andi v439 c15_i32_169
  let c6_i32_170 : BitVec 32 := 6#32
  let v453 : BitVec 32 := Scalar.subi v452 c6_i32_170
  let c16_i32_171 : BitVec 32 := 16#32
  let v454 : BitVec 32 := Scalar.addi v453 c16_i32_171
  let c15_i32_172 : BitVec 32 := 15#32
  let v455 : BitVec 32 := Scalar.andi v454 c15_i32_172
  let v456 : BitVec 32 := Scalar.addi c192_i32 v455
  let v457 : Index := Scalar.indexCast v456
  ![v457.toNat]

def k1_chk7 (k1_t1 : Fin k1_t1_loop.trips) (v438 : BitVec 32) : Prop :=
  (16 ∣ (k1_mult8 v438).toNat) ∧
  (∀ a, (k1_off15 k1_t1 v438) a + S1x16.size a ≤ S128x128.size a) ∧
  (∀ a, (k1_off16 v438) a + S16.size a ≤ S512.size a)
instance k1_chk7.dec : ∀ (k1_t1 : Fin k1_t1_loop.trips) (v438 : BitVec 32), Decidable (k1_chk7 k1_t1 v438) := fun k1_t1 v438 => decidable_of_iff' _ (Iff.of_eq (k1_chk7.eq_1 k1_t1 v438))
theorem k1_mult8_dvd : ∀ (k1_t1 : Fin k1_t1_loop.trips) (v438 : BitVec 32) (k1_hw7 : k1_chk7 k1_t1 v438), 16 ∣ (k1_mult8 v438).toNat := fun k1_t1 v438 k1_hw7 => k1_hw7.1
theorem k1_off15_inb : ∀ (k1_t1 : Fin k1_t1_loop.trips) (v438 : BitVec 32) (k1_hw7 : k1_chk7 k1_t1 v438), ∀ a, (k1_off15 k1_t1 v438) a + S1x16.size a ≤ S128x128.size a := fun k1_t1 v438 k1_hw7 => k1_hw7.2.1
theorem k1_off16_inb : ∀ (k1_t1 : Fin k1_t1_loop.trips) (v438 : BitVec 32) (k1_hw7 : k1_chk7 k1_t1 v438), ∀ a, (k1_off16 v438) a + S16.size a ≤ S512.size a := fun k1_t1 v438 k1_hw7 => k1_hw7.2.2

def k1_mult9 (v467 : BitVec 32) : BitVec 32 :=
  let c127_i32_176 : BitVec 32 := 127#32
  let v468 : BitVec 32 := Scalar.andi v467 c127_i32_176
  let c112_i32_177 : BitVec 32 := 112#32
  let v469 : BitVec 32 := Scalar.andi v468 c112_i32_177
  v469

def k1_off17 (k1_t1 : Fin k1_t1_loop.trips) (v467 : BitVec 32) : Fin 2 → Nat :=
  let c0_i32_71 : BitVec 32 := 0#32
  let c1_i32 : BitVec 32 := 1#32
  let arg15 : BitVec 32 := Scf.iv c0_i32_71 c1_i32 k1_t1
  let c16_i32_174 : BitVec 32 := 16#32
  let v464 : BitVec 32 := Scalar.muli arg15 c16_i32_174
  let c7_i32_175 : BitVec 32 := 7#32
  let v465 : BitVec 32 := Scalar.addi v464 c7_i32_175
  let v471 : Index := Scalar.indexCast v465
  let c127_i32_176 : BitVec 32 := 127#32
  let v468 : BitVec 32 := Scalar.andi v467 c127_i32_176
  let c112_i32_177 : BitVec 32 := 112#32
  let v469 : BitVec 32 := Scalar.andi v468 c112_i32_177
  let v470 : BitVec 32 := v469
  let v472 : Index := Scalar.indexCast v470
  ![v471.toNat, v472.toNat]
def k1_off18 (v467 : BitVec 32) : Fin 1 → Nat :=
  let c224_i32 : BitVec 32 := 224#32
  let c127_i32_176 : BitVec 32 := 127#32
  let v468 : BitVec 32 := Scalar.andi v467 c127_i32_176
  let c15_i32_180 : BitVec 32 := 15#32
  let v481 : BitVec 32 := Scalar.andi v468 c15_i32_180
  let c7_i32_181 : BitVec 32 := 7#32
  let v482 : BitVec 32 := Scalar.subi v481 c7_i32_181
  let c16_i32_182 : BitVec 32 := 16#32
  let v483 : BitVec 32 := Scalar.addi v482 c16_i32_182
  let c15_i32_183 : BitVec 32 := 15#32
  let v484 : BitVec 32 := Scalar.andi v483 c15_i32_183
  let v485 : BitVec 32 := Scalar.addi c224_i32 v484
  let v486 : Index := Scalar.indexCast v485
  ![v486.toNat]

def k1_chk8 (k1_t1 : Fin k1_t1_loop.trips) (v467 : BitVec 32) : Prop :=
  (16 ∣ (k1_mult9 v467).toNat) ∧
  (∀ a, (k1_off17 k1_t1 v467) a + S1x16.size a ≤ S128x128.size a) ∧
  (∀ a, (k1_off18 v467) a + S16.size a ≤ S512.size a)
instance k1_chk8.dec : ∀ (k1_t1 : Fin k1_t1_loop.trips) (v467 : BitVec 32), Decidable (k1_chk8 k1_t1 v467) := fun k1_t1 v467 => decidable_of_iff' _ (Iff.of_eq (k1_chk8.eq_1 k1_t1 v467))
theorem k1_mult9_dvd : ∀ (k1_t1 : Fin k1_t1_loop.trips) (v467 : BitVec 32) (k1_hw8 : k1_chk8 k1_t1 v467), 16 ∣ (k1_mult9 v467).toNat := fun k1_t1 v467 k1_hw8 => k1_hw8.1
theorem k1_off17_inb : ∀ (k1_t1 : Fin k1_t1_loop.trips) (v467 : BitVec 32) (k1_hw8 : k1_chk8 k1_t1 v467), ∀ a, (k1_off17 k1_t1 v467) a + S1x16.size a ≤ S128x128.size a := fun k1_t1 v467 k1_hw8 => k1_hw8.2.1
theorem k1_off18_inb : ∀ (k1_t1 : Fin k1_t1_loop.trips) (v467 : BitVec 32) (k1_hw8 : k1_chk8 k1_t1 v467), ∀ a, (k1_off18 v467) a + S16.size a ≤ S512.size a := fun k1_t1 v467 k1_hw8 => k1_hw8.2.2

def k1_mult10 (v496 : BitVec 32) : BitVec 32 :=
  let c127_i32_187 : BitVec 32 := 127#32
  let v497 : BitVec 32 := Scalar.andi v496 c127_i32_187
  let c112_i32_188 : BitVec 32 := 112#32
  let v498 : BitVec 32 := Scalar.andi v497 c112_i32_188
  v498

def k1_off19 (k1_t1 : Fin k1_t1_loop.trips) (v496 : BitVec 32) : Fin 2 → Nat :=
  let c0_i32_71 : BitVec 32 := 0#32
  let c1_i32 : BitVec 32 := 1#32
  let arg15 : BitVec 32 := Scf.iv c0_i32_71 c1_i32 k1_t1
  let c16_i32_185 : BitVec 32 := 16#32
  let v493 : BitVec 32 := Scalar.muli arg15 c16_i32_185
  let c8_i32_186 : BitVec 32 := 8#32
  let v494 : BitVec 32 := Scalar.addi v493 c8_i32_186
  let v500 : Index := Scalar.indexCast v494
  let c127_i32_187 : BitVec 32 := 127#32
  let v497 : BitVec 32 := Scalar.andi v496 c127_i32_187
  let c112_i32_188 : BitVec 32 := 112#32
  let v498 : BitVec 32 := Scalar.andi v497 c112_i32_188
  let v499 : BitVec 32 := v498
  let v501 : Index := Scalar.indexCast v499
  ![v500.toNat, v501.toNat]
def k1_off20 (v496 : BitVec 32) : Fin 1 → Nat :=
  let c256_i32_195 : BitVec 32 := 256#32
  let c127_i32_187 : BitVec 32 := 127#32
  let v497 : BitVec 32 := Scalar.andi v496 c127_i32_187
  let c15_i32_191 : BitVec 32 := 15#32
  let v510 : BitVec 32 := Scalar.andi v497 c15_i32_191
  let c8_i32_192 : BitVec 32 := 8#32
  let v511 : BitVec 32 := Scalar.subi v510 c8_i32_192
  let c16_i32_193 : BitVec 32 := 16#32
  let v512 : BitVec 32 := Scalar.addi v511 c16_i32_193
  let c15_i32_194 : BitVec 32 := 15#32
  let v513 : BitVec 32 := Scalar.andi v512 c15_i32_194
  let v514 : BitVec 32 := Scalar.addi c256_i32_195 v513
  let v515 : Index := Scalar.indexCast v514
  ![v515.toNat]

def k1_chk9 (k1_t1 : Fin k1_t1_loop.trips) (v496 : BitVec 32) : Prop :=
  (16 ∣ (k1_mult10 v496).toNat) ∧
  (∀ a, (k1_off19 k1_t1 v496) a + S1x16.size a ≤ S128x128.size a) ∧
  (∀ a, (k1_off20 v496) a + S16.size a ≤ S512.size a)
instance k1_chk9.dec : ∀ (k1_t1 : Fin k1_t1_loop.trips) (v496 : BitVec 32), Decidable (k1_chk9 k1_t1 v496) := fun k1_t1 v496 => decidable_of_iff' _ (Iff.of_eq (k1_chk9.eq_1 k1_t1 v496))
theorem k1_mult10_dvd : ∀ (k1_t1 : Fin k1_t1_loop.trips) (v496 : BitVec 32) (k1_hw9 : k1_chk9 k1_t1 v496), 16 ∣ (k1_mult10 v496).toNat := fun k1_t1 v496 k1_hw9 => k1_hw9.1
theorem k1_off19_inb : ∀ (k1_t1 : Fin k1_t1_loop.trips) (v496 : BitVec 32) (k1_hw9 : k1_chk9 k1_t1 v496), ∀ a, (k1_off19 k1_t1 v496) a + S1x16.size a ≤ S128x128.size a := fun k1_t1 v496 k1_hw9 => k1_hw9.2.1
theorem k1_off20_inb : ∀ (k1_t1 : Fin k1_t1_loop.trips) (v496 : BitVec 32) (k1_hw9 : k1_chk9 k1_t1 v496), ∀ a, (k1_off20 v496) a + S16.size a ≤ S512.size a := fun k1_t1 v496 k1_hw9 => k1_hw9.2.2

def k1_mult11 (v525 : BitVec 32) : BitVec 32 :=
  let c127_i32_198 : BitVec 32 := 127#32
  let v526 : BitVec 32 := Scalar.andi v525 c127_i32_198
  let c112_i32_199 : BitVec 32 := 112#32
  let v527 : BitVec 32 := Scalar.andi v526 c112_i32_199
  v527

def k1_off21 (k1_t1 : Fin k1_t1_loop.trips) (v525 : BitVec 32) : Fin 2 → Nat :=
  let c0_i32_71 : BitVec 32 := 0#32
  let c1_i32 : BitVec 32 := 1#32
  let arg15 : BitVec 32 := Scf.iv c0_i32_71 c1_i32 k1_t1
  let c16_i32_197 : BitVec 32 := 16#32
  let v522 : BitVec 32 := Scalar.muli arg15 c16_i32_197
  let c9_i32 : BitVec 32 := 9#32
  let v523 : BitVec 32 := Scalar.addi v522 c9_i32
  let v529 : Index := Scalar.indexCast v523
  let c127_i32_198 : BitVec 32 := 127#32
  let v526 : BitVec 32 := Scalar.andi v525 c127_i32_198
  let c112_i32_199 : BitVec 32 := 112#32
  let v527 : BitVec 32 := Scalar.andi v526 c112_i32_199
  let v528 : BitVec 32 := v527
  let v530 : Index := Scalar.indexCast v528
  ![v529.toNat, v530.toNat]
def k1_off22 (v525 : BitVec 32) : Fin 1 → Nat :=
  let c288_i32 : BitVec 32 := 288#32
  let c127_i32_198 : BitVec 32 := 127#32
  let v526 : BitVec 32 := Scalar.andi v525 c127_i32_198
  let c15_i32_202 : BitVec 32 := 15#32
  let v539 : BitVec 32 := Scalar.andi v526 c15_i32_202
  let c9_i32_203 : BitVec 32 := 9#32
  let v540 : BitVec 32 := Scalar.subi v539 c9_i32_203
  let c16_i32_204 : BitVec 32 := 16#32
  let v541 : BitVec 32 := Scalar.addi v540 c16_i32_204
  let c15_i32_205 : BitVec 32 := 15#32
  let v542 : BitVec 32 := Scalar.andi v541 c15_i32_205
  let v543 : BitVec 32 := Scalar.addi c288_i32 v542
  let v544 : Index := Scalar.indexCast v543
  ![v544.toNat]

def k1_chk10 (k1_t1 : Fin k1_t1_loop.trips) (v525 : BitVec 32) : Prop :=
  (16 ∣ (k1_mult11 v525).toNat) ∧
  (∀ a, (k1_off21 k1_t1 v525) a + S1x16.size a ≤ S128x128.size a) ∧
  (∀ a, (k1_off22 v525) a + S16.size a ≤ S512.size a)
instance k1_chk10.dec : ∀ (k1_t1 : Fin k1_t1_loop.trips) (v525 : BitVec 32), Decidable (k1_chk10 k1_t1 v525) := fun k1_t1 v525 => decidable_of_iff' _ (Iff.of_eq (k1_chk10.eq_1 k1_t1 v525))
theorem k1_mult11_dvd : ∀ (k1_t1 : Fin k1_t1_loop.trips) (v525 : BitVec 32) (k1_hw10 : k1_chk10 k1_t1 v525), 16 ∣ (k1_mult11 v525).toNat := fun k1_t1 v525 k1_hw10 => k1_hw10.1
theorem k1_off21_inb : ∀ (k1_t1 : Fin k1_t1_loop.trips) (v525 : BitVec 32) (k1_hw10 : k1_chk10 k1_t1 v525), ∀ a, (k1_off21 k1_t1 v525) a + S1x16.size a ≤ S128x128.size a := fun k1_t1 v525 k1_hw10 => k1_hw10.2.1
theorem k1_off22_inb : ∀ (k1_t1 : Fin k1_t1_loop.trips) (v525 : BitVec 32) (k1_hw10 : k1_chk10 k1_t1 v525), ∀ a, (k1_off22 v525) a + S16.size a ≤ S512.size a := fun k1_t1 v525 k1_hw10 => k1_hw10.2.2

def k1_mult12 (v554 : BitVec 32) : BitVec 32 :=
  let c127_i32_208 : BitVec 32 := 127#32
  let v555 : BitVec 32 := Scalar.andi v554 c127_i32_208
  let c112_i32_209 : BitVec 32 := 112#32
  let v556 : BitVec 32 := Scalar.andi v555 c112_i32_209
  v556

def k1_off23 (k1_t1 : Fin k1_t1_loop.trips) (v554 : BitVec 32) : Fin 2 → Nat :=
  let c0_i32_71 : BitVec 32 := 0#32
  let c1_i32 : BitVec 32 := 1#32
  let arg15 : BitVec 32 := Scf.iv c0_i32_71 c1_i32 k1_t1
  let c16_i32_207 : BitVec 32 := 16#32
  let v551 : BitVec 32 := Scalar.muli arg15 c16_i32_207
  let c10_i32 : BitVec 32 := 10#32
  let v552 : BitVec 32 := Scalar.addi v551 c10_i32
  let v558 : Index := Scalar.indexCast v552
  let c127_i32_208 : BitVec 32 := 127#32
  let v555 : BitVec 32 := Scalar.andi v554 c127_i32_208
  let c112_i32_209 : BitVec 32 := 112#32
  let v556 : BitVec 32 := Scalar.andi v555 c112_i32_209
  let v557 : BitVec 32 := v556
  let v559 : Index := Scalar.indexCast v557
  ![v558.toNat, v559.toNat]
def k1_off24 (v554 : BitVec 32) : Fin 1 → Nat :=
  let c320_i32 : BitVec 32 := 320#32
  let c127_i32_208 : BitVec 32 := 127#32
  let v555 : BitVec 32 := Scalar.andi v554 c127_i32_208
  let c15_i32_212 : BitVec 32 := 15#32
  let v568 : BitVec 32 := Scalar.andi v555 c15_i32_212
  let c10_i32_213 : BitVec 32 := 10#32
  let v569 : BitVec 32 := Scalar.subi v568 c10_i32_213
  let c16_i32_214 : BitVec 32 := 16#32
  let v570 : BitVec 32 := Scalar.addi v569 c16_i32_214
  let c15_i32_215 : BitVec 32 := 15#32
  let v571 : BitVec 32 := Scalar.andi v570 c15_i32_215
  let v572 : BitVec 32 := Scalar.addi c320_i32 v571
  let v573 : Index := Scalar.indexCast v572
  ![v573.toNat]

def k1_chk11 (k1_t1 : Fin k1_t1_loop.trips) (v554 : BitVec 32) : Prop :=
  (16 ∣ (k1_mult12 v554).toNat) ∧
  (∀ a, (k1_off23 k1_t1 v554) a + S1x16.size a ≤ S128x128.size a) ∧
  (∀ a, (k1_off24 v554) a + S16.size a ≤ S512.size a)
instance k1_chk11.dec : ∀ (k1_t1 : Fin k1_t1_loop.trips) (v554 : BitVec 32), Decidable (k1_chk11 k1_t1 v554) := fun k1_t1 v554 => decidable_of_iff' _ (Iff.of_eq (k1_chk11.eq_1 k1_t1 v554))
theorem k1_mult12_dvd : ∀ (k1_t1 : Fin k1_t1_loop.trips) (v554 : BitVec 32) (k1_hw11 : k1_chk11 k1_t1 v554), 16 ∣ (k1_mult12 v554).toNat := fun k1_t1 v554 k1_hw11 => k1_hw11.1
theorem k1_off23_inb : ∀ (k1_t1 : Fin k1_t1_loop.trips) (v554 : BitVec 32) (k1_hw11 : k1_chk11 k1_t1 v554), ∀ a, (k1_off23 k1_t1 v554) a + S1x16.size a ≤ S128x128.size a := fun k1_t1 v554 k1_hw11 => k1_hw11.2.1
theorem k1_off24_inb : ∀ (k1_t1 : Fin k1_t1_loop.trips) (v554 : BitVec 32) (k1_hw11 : k1_chk11 k1_t1 v554), ∀ a, (k1_off24 v554) a + S16.size a ≤ S512.size a := fun k1_t1 v554 k1_hw11 => k1_hw11.2.2

def k1_mult13 (v583 : BitVec 32) : BitVec 32 :=
  let c127_i32_218 : BitVec 32 := 127#32
  let v584 : BitVec 32 := Scalar.andi v583 c127_i32_218
  let c112_i32_219 : BitVec 32 := 112#32
  let v585 : BitVec 32 := Scalar.andi v584 c112_i32_219
  v585

def k1_off25 (k1_t1 : Fin k1_t1_loop.trips) (v583 : BitVec 32) : Fin 2 → Nat :=
  let c0_i32_71 : BitVec 32 := 0#32
  let c1_i32 : BitVec 32 := 1#32
  let arg15 : BitVec 32 := Scf.iv c0_i32_71 c1_i32 k1_t1
  let c16_i32_217 : BitVec 32 := 16#32
  let v580 : BitVec 32 := Scalar.muli arg15 c16_i32_217
  let c11_i32 : BitVec 32 := 11#32
  let v581 : BitVec 32 := Scalar.addi v580 c11_i32
  let v587 : Index := Scalar.indexCast v581
  let c127_i32_218 : BitVec 32 := 127#32
  let v584 : BitVec 32 := Scalar.andi v583 c127_i32_218
  let c112_i32_219 : BitVec 32 := 112#32
  let v585 : BitVec 32 := Scalar.andi v584 c112_i32_219
  let v586 : BitVec 32 := v585
  let v588 : Index := Scalar.indexCast v586
  ![v587.toNat, v588.toNat]
def k1_off26 (v583 : BitVec 32) : Fin 1 → Nat :=
  let c352_i32 : BitVec 32 := 352#32
  let c127_i32_218 : BitVec 32 := 127#32
  let v584 : BitVec 32 := Scalar.andi v583 c127_i32_218
  let c15_i32_222 : BitVec 32 := 15#32
  let v597 : BitVec 32 := Scalar.andi v584 c15_i32_222
  let c11_i32_223 : BitVec 32 := 11#32
  let v598 : BitVec 32 := Scalar.subi v597 c11_i32_223
  let c16_i32_224 : BitVec 32 := 16#32
  let v599 : BitVec 32 := Scalar.addi v598 c16_i32_224
  let c15_i32_225 : BitVec 32 := 15#32
  let v600 : BitVec 32 := Scalar.andi v599 c15_i32_225
  let v601 : BitVec 32 := Scalar.addi c352_i32 v600
  let v602 : Index := Scalar.indexCast v601
  ![v602.toNat]

def k1_chk12 (k1_t1 : Fin k1_t1_loop.trips) (v583 : BitVec 32) : Prop :=
  (16 ∣ (k1_mult13 v583).toNat) ∧
  (∀ a, (k1_off25 k1_t1 v583) a + S1x16.size a ≤ S128x128.size a) ∧
  (∀ a, (k1_off26 v583) a + S16.size a ≤ S512.size a)
instance k1_chk12.dec : ∀ (k1_t1 : Fin k1_t1_loop.trips) (v583 : BitVec 32), Decidable (k1_chk12 k1_t1 v583) := fun k1_t1 v583 => decidable_of_iff' _ (Iff.of_eq (k1_chk12.eq_1 k1_t1 v583))
theorem k1_mult13_dvd : ∀ (k1_t1 : Fin k1_t1_loop.trips) (v583 : BitVec 32) (k1_hw12 : k1_chk12 k1_t1 v583), 16 ∣ (k1_mult13 v583).toNat := fun k1_t1 v583 k1_hw12 => k1_hw12.1
theorem k1_off25_inb : ∀ (k1_t1 : Fin k1_t1_loop.trips) (v583 : BitVec 32) (k1_hw12 : k1_chk12 k1_t1 v583), ∀ a, (k1_off25 k1_t1 v583) a + S1x16.size a ≤ S128x128.size a := fun k1_t1 v583 k1_hw12 => k1_hw12.2.1
theorem k1_off26_inb : ∀ (k1_t1 : Fin k1_t1_loop.trips) (v583 : BitVec 32) (k1_hw12 : k1_chk12 k1_t1 v583), ∀ a, (k1_off26 v583) a + S16.size a ≤ S512.size a := fun k1_t1 v583 k1_hw12 => k1_hw12.2.2

def k1_mult14 (v612 : BitVec 32) : BitVec 32 :=
  let c127_i32_228 : BitVec 32 := 127#32
  let v613 : BitVec 32 := Scalar.andi v612 c127_i32_228
  let c112_i32_229 : BitVec 32 := 112#32
  let v614 : BitVec 32 := Scalar.andi v613 c112_i32_229
  v614

def k1_off27 (k1_t1 : Fin k1_t1_loop.trips) (v612 : BitVec 32) : Fin 2 → Nat :=
  let c0_i32_71 : BitVec 32 := 0#32
  let c1_i32 : BitVec 32 := 1#32
  let arg15 : BitVec 32 := Scf.iv c0_i32_71 c1_i32 k1_t1
  let c16_i32_227 : BitVec 32 := 16#32
  let v609 : BitVec 32 := Scalar.muli arg15 c16_i32_227
  let c12_i32 : BitVec 32 := 12#32
  let v610 : BitVec 32 := Scalar.addi v609 c12_i32
  let v616 : Index := Scalar.indexCast v610
  let c127_i32_228 : BitVec 32 := 127#32
  let v613 : BitVec 32 := Scalar.andi v612 c127_i32_228
  let c112_i32_229 : BitVec 32 := 112#32
  let v614 : BitVec 32 := Scalar.andi v613 c112_i32_229
  let v615 : BitVec 32 := v614
  let v617 : Index := Scalar.indexCast v615
  ![v616.toNat, v617.toNat]
def k1_off28 (v612 : BitVec 32) : Fin 1 → Nat :=
  let c384_i32_236 : BitVec 32 := 384#32
  let c127_i32_228 : BitVec 32 := 127#32
  let v613 : BitVec 32 := Scalar.andi v612 c127_i32_228
  let c15_i32_232 : BitVec 32 := 15#32
  let v626 : BitVec 32 := Scalar.andi v613 c15_i32_232
  let c12_i32_233 : BitVec 32 := 12#32
  let v627 : BitVec 32 := Scalar.subi v626 c12_i32_233
  let c16_i32_234 : BitVec 32 := 16#32
  let v628 : BitVec 32 := Scalar.addi v627 c16_i32_234
  let c15_i32_235 : BitVec 32 := 15#32
  let v629 : BitVec 32 := Scalar.andi v628 c15_i32_235
  let v630 : BitVec 32 := Scalar.addi c384_i32_236 v629
  let v631 : Index := Scalar.indexCast v630
  ![v631.toNat]

def k1_chk13 (k1_t1 : Fin k1_t1_loop.trips) (v612 : BitVec 32) : Prop :=
  (16 ∣ (k1_mult14 v612).toNat) ∧
  (∀ a, (k1_off27 k1_t1 v612) a + S1x16.size a ≤ S128x128.size a) ∧
  (∀ a, (k1_off28 v612) a + S16.size a ≤ S512.size a)
instance k1_chk13.dec : ∀ (k1_t1 : Fin k1_t1_loop.trips) (v612 : BitVec 32), Decidable (k1_chk13 k1_t1 v612) := fun k1_t1 v612 => decidable_of_iff' _ (Iff.of_eq (k1_chk13.eq_1 k1_t1 v612))
theorem k1_mult14_dvd : ∀ (k1_t1 : Fin k1_t1_loop.trips) (v612 : BitVec 32) (k1_hw13 : k1_chk13 k1_t1 v612), 16 ∣ (k1_mult14 v612).toNat := fun k1_t1 v612 k1_hw13 => k1_hw13.1
theorem k1_off27_inb : ∀ (k1_t1 : Fin k1_t1_loop.trips) (v612 : BitVec 32) (k1_hw13 : k1_chk13 k1_t1 v612), ∀ a, (k1_off27 k1_t1 v612) a + S1x16.size a ≤ S128x128.size a := fun k1_t1 v612 k1_hw13 => k1_hw13.2.1
theorem k1_off28_inb : ∀ (k1_t1 : Fin k1_t1_loop.trips) (v612 : BitVec 32) (k1_hw13 : k1_chk13 k1_t1 v612), ∀ a, (k1_off28 v612) a + S16.size a ≤ S512.size a := fun k1_t1 v612 k1_hw13 => k1_hw13.2.2

def k1_mult15 (v641 : BitVec 32) : BitVec 32 :=
  let c127_i32_239 : BitVec 32 := 127#32
  let v642 : BitVec 32 := Scalar.andi v641 c127_i32_239
  let c112_i32_240 : BitVec 32 := 112#32
  let v643 : BitVec 32 := Scalar.andi v642 c112_i32_240
  v643

def k1_off29 (k1_t1 : Fin k1_t1_loop.trips) (v641 : BitVec 32) : Fin 2 → Nat :=
  let c0_i32_71 : BitVec 32 := 0#32
  let c1_i32 : BitVec 32 := 1#32
  let arg15 : BitVec 32 := Scf.iv c0_i32_71 c1_i32 k1_t1
  let c16_i32_238 : BitVec 32 := 16#32
  let v638 : BitVec 32 := Scalar.muli arg15 c16_i32_238
  let c13_i32 : BitVec 32 := 13#32
  let v639 : BitVec 32 := Scalar.addi v638 c13_i32
  let v645 : Index := Scalar.indexCast v639
  let c127_i32_239 : BitVec 32 := 127#32
  let v642 : BitVec 32 := Scalar.andi v641 c127_i32_239
  let c112_i32_240 : BitVec 32 := 112#32
  let v643 : BitVec 32 := Scalar.andi v642 c112_i32_240
  let v644 : BitVec 32 := v643
  let v646 : Index := Scalar.indexCast v644
  ![v645.toNat, v646.toNat]
def k1_off30 (v641 : BitVec 32) : Fin 1 → Nat :=
  let c416_i32 : BitVec 32 := 416#32
  let c127_i32_239 : BitVec 32 := 127#32
  let v642 : BitVec 32 := Scalar.andi v641 c127_i32_239
  let c15_i32_243 : BitVec 32 := 15#32
  let v655 : BitVec 32 := Scalar.andi v642 c15_i32_243
  let c13_i32_244 : BitVec 32 := 13#32
  let v656 : BitVec 32 := Scalar.subi v655 c13_i32_244
  let c16_i32_245 : BitVec 32 := 16#32
  let v657 : BitVec 32 := Scalar.addi v656 c16_i32_245
  let c15_i32_246 : BitVec 32 := 15#32
  let v658 : BitVec 32 := Scalar.andi v657 c15_i32_246
  let v659 : BitVec 32 := Scalar.addi c416_i32 v658
  let v660 : Index := Scalar.indexCast v659
  ![v660.toNat]

def k1_chk14 (k1_t1 : Fin k1_t1_loop.trips) (v641 : BitVec 32) : Prop :=
  (16 ∣ (k1_mult15 v641).toNat) ∧
  (∀ a, (k1_off29 k1_t1 v641) a + S1x16.size a ≤ S128x128.size a) ∧
  (∀ a, (k1_off30 v641) a + S16.size a ≤ S512.size a)
instance k1_chk14.dec : ∀ (k1_t1 : Fin k1_t1_loop.trips) (v641 : BitVec 32), Decidable (k1_chk14 k1_t1 v641) := fun k1_t1 v641 => decidable_of_iff' _ (Iff.of_eq (k1_chk14.eq_1 k1_t1 v641))
theorem k1_mult15_dvd : ∀ (k1_t1 : Fin k1_t1_loop.trips) (v641 : BitVec 32) (k1_hw14 : k1_chk14 k1_t1 v641), 16 ∣ (k1_mult15 v641).toNat := fun k1_t1 v641 k1_hw14 => k1_hw14.1
theorem k1_off29_inb : ∀ (k1_t1 : Fin k1_t1_loop.trips) (v641 : BitVec 32) (k1_hw14 : k1_chk14 k1_t1 v641), ∀ a, (k1_off29 k1_t1 v641) a + S1x16.size a ≤ S128x128.size a := fun k1_t1 v641 k1_hw14 => k1_hw14.2.1
theorem k1_off30_inb : ∀ (k1_t1 : Fin k1_t1_loop.trips) (v641 : BitVec 32) (k1_hw14 : k1_chk14 k1_t1 v641), ∀ a, (k1_off30 v641) a + S16.size a ≤ S512.size a := fun k1_t1 v641 k1_hw14 => k1_hw14.2.2

def k1_mult16 (v670 : BitVec 32) : BitVec 32 :=
  let c127_i32_249 : BitVec 32 := 127#32
  let v671 : BitVec 32 := Scalar.andi v670 c127_i32_249
  let c112_i32_250 : BitVec 32 := 112#32
  let v672 : BitVec 32 := Scalar.andi v671 c112_i32_250
  v672

def k1_off31 (k1_t1 : Fin k1_t1_loop.trips) (v670 : BitVec 32) : Fin 2 → Nat :=
  let c0_i32_71 : BitVec 32 := 0#32
  let c1_i32 : BitVec 32 := 1#32
  let arg15 : BitVec 32 := Scf.iv c0_i32_71 c1_i32 k1_t1
  let c16_i32_248 : BitVec 32 := 16#32
  let v667 : BitVec 32 := Scalar.muli arg15 c16_i32_248
  let c14_i32 : BitVec 32 := 14#32
  let v668 : BitVec 32 := Scalar.addi v667 c14_i32
  let v674 : Index := Scalar.indexCast v668
  let c127_i32_249 : BitVec 32 := 127#32
  let v671 : BitVec 32 := Scalar.andi v670 c127_i32_249
  let c112_i32_250 : BitVec 32 := 112#32
  let v672 : BitVec 32 := Scalar.andi v671 c112_i32_250
  let v673 : BitVec 32 := v672
  let v675 : Index := Scalar.indexCast v673
  ![v674.toNat, v675.toNat]
def k1_off32 (v670 : BitVec 32) : Fin 1 → Nat :=
  let c448_i32 : BitVec 32 := 448#32
  let c127_i32_249 : BitVec 32 := 127#32
  let v671 : BitVec 32 := Scalar.andi v670 c127_i32_249
  let c15_i32_253 : BitVec 32 := 15#32
  let v684 : BitVec 32 := Scalar.andi v671 c15_i32_253
  let c14_i32_254 : BitVec 32 := 14#32
  let v685 : BitVec 32 := Scalar.subi v684 c14_i32_254
  let c16_i32_255 : BitVec 32 := 16#32
  let v686 : BitVec 32 := Scalar.addi v685 c16_i32_255
  let c15_i32_256 : BitVec 32 := 15#32
  let v687 : BitVec 32 := Scalar.andi v686 c15_i32_256
  let v688 : BitVec 32 := Scalar.addi c448_i32 v687
  let v689 : Index := Scalar.indexCast v688
  ![v689.toNat]

def k1_chk15 (k1_t1 : Fin k1_t1_loop.trips) (v670 : BitVec 32) : Prop :=
  (16 ∣ (k1_mult16 v670).toNat) ∧
  (∀ a, (k1_off31 k1_t1 v670) a + S1x16.size a ≤ S128x128.size a) ∧
  (∀ a, (k1_off32 v670) a + S16.size a ≤ S512.size a)
instance k1_chk15.dec : ∀ (k1_t1 : Fin k1_t1_loop.trips) (v670 : BitVec 32), Decidable (k1_chk15 k1_t1 v670) := fun k1_t1 v670 => decidable_of_iff' _ (Iff.of_eq (k1_chk15.eq_1 k1_t1 v670))
theorem k1_mult16_dvd : ∀ (k1_t1 : Fin k1_t1_loop.trips) (v670 : BitVec 32) (k1_hw15 : k1_chk15 k1_t1 v670), 16 ∣ (k1_mult16 v670).toNat := fun k1_t1 v670 k1_hw15 => k1_hw15.1
theorem k1_off31_inb : ∀ (k1_t1 : Fin k1_t1_loop.trips) (v670 : BitVec 32) (k1_hw15 : k1_chk15 k1_t1 v670), ∀ a, (k1_off31 k1_t1 v670) a + S1x16.size a ≤ S128x128.size a := fun k1_t1 v670 k1_hw15 => k1_hw15.2.1
theorem k1_off32_inb : ∀ (k1_t1 : Fin k1_t1_loop.trips) (v670 : BitVec 32) (k1_hw15 : k1_chk15 k1_t1 v670), ∀ a, (k1_off32 v670) a + S16.size a ≤ S512.size a := fun k1_t1 v670 k1_hw15 => k1_hw15.2.2

def k1_mult17 (v699 : BitVec 32) : BitVec 32 :=
  let c127_i32_260 : BitVec 32 := 127#32
  let v700 : BitVec 32 := Scalar.andi v699 c127_i32_260
  let c112_i32_261 : BitVec 32 := 112#32
  let v701 : BitVec 32 := Scalar.andi v700 c112_i32_261
  v701

def k1_off33 (k1_t1 : Fin k1_t1_loop.trips) (v699 : BitVec 32) : Fin 2 → Nat :=
  let c0_i32_71 : BitVec 32 := 0#32
  let c1_i32 : BitVec 32 := 1#32
  let arg15 : BitVec 32 := Scf.iv c0_i32_71 c1_i32 k1_t1
  let c16_i32_258 : BitVec 32 := 16#32
  let v696 : BitVec 32 := Scalar.muli arg15 c16_i32_258
  let c15_i32_259 : BitVec 32 := 15#32
  let v697 : BitVec 32 := Scalar.addi v696 c15_i32_259
  let v703 : Index := Scalar.indexCast v697
  let c127_i32_260 : BitVec 32 := 127#32
  let v700 : BitVec 32 := Scalar.andi v699 c127_i32_260
  let c112_i32_261 : BitVec 32 := 112#32
  let v701 : BitVec 32 := Scalar.andi v700 c112_i32_261
  let v702 : BitVec 32 := v701
  let v704 : Index := Scalar.indexCast v702
  ![v703.toNat, v704.toNat]
def k1_off34 (v699 : BitVec 32) : Fin 1 → Nat :=
  let c480_i32 : BitVec 32 := 480#32
  let c127_i32_260 : BitVec 32 := 127#32
  let v700 : BitVec 32 := Scalar.andi v699 c127_i32_260
  let c15_i32_264 : BitVec 32 := 15#32
  let v713 : BitVec 32 := Scalar.andi v700 c15_i32_264
  let c15_i32_265 : BitVec 32 := 15#32
  let v714 : BitVec 32 := Scalar.subi v713 c15_i32_265
  let c16_i32_266 : BitVec 32 := 16#32
  let v715 : BitVec 32 := Scalar.addi v714 c16_i32_266
  let c15_i32_267 : BitVec 32 := 15#32
  let v716 : BitVec 32 := Scalar.andi v715 c15_i32_267
  let v717 : BitVec 32 := Scalar.addi c480_i32 v716
  let v718 : Index := Scalar.indexCast v717
  ![v718.toNat]

def k1_chk16 (k1_t1 : Fin k1_t1_loop.trips) (v699 : BitVec 32) : Prop :=
  (16 ∣ (k1_mult17 v699).toNat) ∧
  (∀ a, (k1_off33 k1_t1 v699) a + S1x16.size a ≤ S128x128.size a) ∧
  (∀ a, (k1_off34 v699) a + S16.size a ≤ S512.size a)
instance k1_chk16.dec : ∀ (k1_t1 : Fin k1_t1_loop.trips) (v699 : BitVec 32), Decidable (k1_chk16 k1_t1 v699) := fun k1_t1 v699 => decidable_of_iff' _ (Iff.of_eq (k1_chk16.eq_1 k1_t1 v699))
theorem k1_mult17_dvd : ∀ (k1_t1 : Fin k1_t1_loop.trips) (v699 : BitVec 32) (k1_hw16 : k1_chk16 k1_t1 v699), 16 ∣ (k1_mult17 v699).toNat := fun k1_t1 v699 k1_hw16 => k1_hw16.1
theorem k1_off33_inb : ∀ (k1_t1 : Fin k1_t1_loop.trips) (v699 : BitVec 32) (k1_hw16 : k1_chk16 k1_t1 v699), ∀ a, (k1_off33 k1_t1 v699) a + S1x16.size a ≤ S128x128.size a := fun k1_t1 v699 k1_hw16 => k1_hw16.2.1
theorem k1_off34_inb : ∀ (k1_t1 : Fin k1_t1_loop.trips) (v699 : BitVec 32) (k1_hw16 : k1_chk16 k1_t1 v699), ∀ a, (k1_off34 v699) a + S16.size a ≤ S512.size a := fun k1_t1 v699 k1_hw16 => k1_hw16.2.2

def k1_off35 (k1_t1 : Fin k1_t1_loop.trips) : Fin 1 → Nat :=
  let c0_i32_101 : BitVec 32 := 0#32
  let c0_i32_71 : BitVec 32 := 0#32
  let c1_i32 : BitVec 32 := 1#32
  let arg15 : BitVec 32 := Scf.iv c0_i32_71 c1_i32 k1_t1
  let c16_i32 : BitVec 32 := 16#32
  let v252 : BitVec 32 := Scalar.muli arg15 c16_i32
  let v253 : BitVec 32 := Scalar.addi c0_i32_101 v252
  let v254 : BitVec 32 := v253
  let v725 : Index := Scalar.indexCast v254
  ![v725.toNat]
@[reducible] def k1_t2_loop : Scf.Loop 32 :=
  let c0_i32_79 : BitVec 32 := 0#32
  let c8_i32_80 : BitVec 32 := 8#32
  let v240 : BitVec 32 := Scalar.addi c0_i32_79 c8_i32_80
  let c1_i32_81 : BitVec 32 := 1#32
  ⟨c0_i32_79, v240, c1_i32_81⟩
def k1_mult18 (k1_t2 : Fin k1_t2_loop.trips) : BitVec 32 :=
  let c128_i32_101 : BitVec 32 := 128#32
  let c0_i32_79 : BitVec 32 := 0#32
  let c1_i32_81 : BitVec 32 := 1#32
  let arg15 : BitVec 32 := Scf.iv c0_i32_79 c1_i32_81 k1_t2
  let c16_i32 : BitVec 32 := 16#32
  let v252 : BitVec 32 := Scalar.muli arg15 c16_i32
  let v253 : BitVec 32 := Scalar.addi c128_i32_101 v252
  v253
def k1_off36 (k1_t2 : Fin k1_t2_loop.trips) : Fin 1 → Nat :=
  let c128_i32_101 : BitVec 32 := 128#32
  let c0_i32_79 : BitVec 32 := 0#32
  let c1_i32_81 : BitVec 32 := 1#32
  let arg15 : BitVec 32 := Scf.iv c0_i32_79 c1_i32_81 k1_t2
  let c16_i32 : BitVec 32 := 16#32
  let v252 : BitVec 32 := Scalar.muli arg15 c16_i32
  let v253 : BitVec 32 := Scalar.addi c128_i32_101 v252
  let v254 : BitVec 32 := v253
  let v255 : Index := Scalar.indexCast v254
  ![v255.toNat]
def k1_mult19 (v264 : BitVec 32) : BitVec 32 :=
  let c127_i32 : BitVec 32 := 127#32
  let v265 : BitVec 32 := Scalar.andi v264 c127_i32
  let c112_i32 : BitVec 32 := 112#32
  let v266 : BitVec 32 := Scalar.andi v265 c112_i32
  v266

def k1_off37 (k1_t2 : Fin k1_t2_loop.trips) (v264 : BitVec 32) : Fin 2 → Nat :=
  let c0_i32_79 : BitVec 32 := 0#32
  let c1_i32_81 : BitVec 32 := 1#32
  let arg15 : BitVec 32 := Scf.iv c0_i32_79 c1_i32_81 k1_t2
  let c16_i32_102 : BitVec 32 := 16#32
  let v261 : BitVec 32 := Scalar.muli arg15 c16_i32_102
  let c0_i32_103 : BitVec 32 := 0#32
  let v262 : BitVec 32 := Scalar.addi v261 c0_i32_103
  let v268 : Index := Scalar.indexCast v262
  let c127_i32 : BitVec 32 := 127#32
  let v265 : BitVec 32 := Scalar.andi v264 c127_i32
  let c112_i32 : BitVec 32 := 112#32
  let v266 : BitVec 32 := Scalar.andi v265 c112_i32
  let v267 : BitVec 32 := v266
  let v269 : Index := Scalar.indexCast v267
  ![v268.toNat, v269.toNat]
def k1_off38 (v264 : BitVec 32) : Fin 1 → Nat :=
  let c0_i32_109 : BitVec 32 := 0#32
  let c127_i32 : BitVec 32 := 127#32
  let v265 : BitVec 32 := Scalar.andi v264 c127_i32
  let c15_i32 : BitVec 32 := 15#32
  let v278 : BitVec 32 := Scalar.andi v265 c15_i32
  let c0_i32_106 : BitVec 32 := 0#32
  let v279 : BitVec 32 := Scalar.subi v278 c0_i32_106
  let c16_i32_107 : BitVec 32 := 16#32
  let v280 : BitVec 32 := Scalar.addi v279 c16_i32_107
  let c15_i32_108 : BitVec 32 := 15#32
  let v281 : BitVec 32 := Scalar.andi v280 c15_i32_108
  let v282 : BitVec 32 := Scalar.addi c0_i32_109 v281
  let v283 : Index := Scalar.indexCast v282
  ![v283.toNat]

def k1_chk17 (k1_t2 : Fin k1_t2_loop.trips) (v264 : BitVec 32) : Prop :=
  (16 ∣ (k1_mult19 v264).toNat) ∧
  (∀ a, (k1_off37 k1_t2 v264) a + S1x16.size a ≤ S128x128.size a) ∧
  (∀ a, (k1_off38 v264) a + S16.size a ≤ S512.size a)
instance k1_chk17.dec : ∀ (k1_t2 : Fin k1_t2_loop.trips) (v264 : BitVec 32), Decidable (k1_chk17 k1_t2 v264) := fun k1_t2 v264 => decidable_of_iff' _ (Iff.of_eq (k1_chk17.eq_1 k1_t2 v264))
theorem k1_mult19_dvd : ∀ (k1_t2 : Fin k1_t2_loop.trips) (v264 : BitVec 32) (k1_hw17 : k1_chk17 k1_t2 v264), 16 ∣ (k1_mult19 v264).toNat := fun k1_t2 v264 k1_hw17 => k1_hw17.1
theorem k1_off37_inb : ∀ (k1_t2 : Fin k1_t2_loop.trips) (v264 : BitVec 32) (k1_hw17 : k1_chk17 k1_t2 v264), ∀ a, (k1_off37 k1_t2 v264) a + S1x16.size a ≤ S128x128.size a := fun k1_t2 v264 k1_hw17 => k1_hw17.2.1
theorem k1_off38_inb : ∀ (k1_t2 : Fin k1_t2_loop.trips) (v264 : BitVec 32) (k1_hw17 : k1_chk17 k1_t2 v264), ∀ a, (k1_off38 v264) a + S16.size a ≤ S512.size a := fun k1_t2 v264 k1_hw17 => k1_hw17.2.2

def k1_mult20 (v293 : BitVec 32) : BitVec 32 :=
  let c127_i32_113 : BitVec 32 := 127#32
  let v294 : BitVec 32 := Scalar.andi v293 c127_i32_113
  let c112_i32_114 : BitVec 32 := 112#32
  let v295 : BitVec 32 := Scalar.andi v294 c112_i32_114
  v295

def k1_off39 (k1_t2 : Fin k1_t2_loop.trips) (v293 : BitVec 32) : Fin 2 → Nat :=
  let c0_i32_79 : BitVec 32 := 0#32
  let c1_i32_81 : BitVec 32 := 1#32
  let arg15 : BitVec 32 := Scf.iv c0_i32_79 c1_i32_81 k1_t2
  let c16_i32_111 : BitVec 32 := 16#32
  let v290 : BitVec 32 := Scalar.muli arg15 c16_i32_111
  let c1_i32_112 : BitVec 32 := 1#32
  let v291 : BitVec 32 := Scalar.addi v290 c1_i32_112
  let v297 : Index := Scalar.indexCast v291
  let c127_i32_113 : BitVec 32 := 127#32
  let v294 : BitVec 32 := Scalar.andi v293 c127_i32_113
  let c112_i32_114 : BitVec 32 := 112#32
  let v295 : BitVec 32 := Scalar.andi v294 c112_i32_114
  let v296 : BitVec 32 := v295
  let v298 : Index := Scalar.indexCast v296
  ![v297.toNat, v298.toNat]
def k1_off40 (v293 : BitVec 32) : Fin 1 → Nat :=
  let c32_i32 : BitVec 32 := 32#32
  let c127_i32_113 : BitVec 32 := 127#32
  let v294 : BitVec 32 := Scalar.andi v293 c127_i32_113
  let c15_i32_117 : BitVec 32 := 15#32
  let v307 : BitVec 32 := Scalar.andi v294 c15_i32_117
  let c1_i32_118 : BitVec 32 := 1#32
  let v308 : BitVec 32 := Scalar.subi v307 c1_i32_118
  let c16_i32_119 : BitVec 32 := 16#32
  let v309 : BitVec 32 := Scalar.addi v308 c16_i32_119
  let c15_i32_120 : BitVec 32 := 15#32
  let v310 : BitVec 32 := Scalar.andi v309 c15_i32_120
  let v311 : BitVec 32 := Scalar.addi c32_i32 v310
  let v312 : Index := Scalar.indexCast v311
  ![v312.toNat]

def k1_chk18 (k1_t2 : Fin k1_t2_loop.trips) (v293 : BitVec 32) : Prop :=
  (16 ∣ (k1_mult20 v293).toNat) ∧
  (∀ a, (k1_off39 k1_t2 v293) a + S1x16.size a ≤ S128x128.size a) ∧
  (∀ a, (k1_off40 v293) a + S16.size a ≤ S512.size a)
instance k1_chk18.dec : ∀ (k1_t2 : Fin k1_t2_loop.trips) (v293 : BitVec 32), Decidable (k1_chk18 k1_t2 v293) := fun k1_t2 v293 => decidable_of_iff' _ (Iff.of_eq (k1_chk18.eq_1 k1_t2 v293))
theorem k1_mult20_dvd : ∀ (k1_t2 : Fin k1_t2_loop.trips) (v293 : BitVec 32) (k1_hw18 : k1_chk18 k1_t2 v293), 16 ∣ (k1_mult20 v293).toNat := fun k1_t2 v293 k1_hw18 => k1_hw18.1
theorem k1_off39_inb : ∀ (k1_t2 : Fin k1_t2_loop.trips) (v293 : BitVec 32) (k1_hw18 : k1_chk18 k1_t2 v293), ∀ a, (k1_off39 k1_t2 v293) a + S1x16.size a ≤ S128x128.size a := fun k1_t2 v293 k1_hw18 => k1_hw18.2.1
theorem k1_off40_inb : ∀ (k1_t2 : Fin k1_t2_loop.trips) (v293 : BitVec 32) (k1_hw18 : k1_chk18 k1_t2 v293), ∀ a, (k1_off40 v293) a + S16.size a ≤ S512.size a := fun k1_t2 v293 k1_hw18 => k1_hw18.2.2

def k1_mult21 (v322 : BitVec 32) : BitVec 32 :=
  let c127_i32_124 : BitVec 32 := 127#32
  let v323 : BitVec 32 := Scalar.andi v322 c127_i32_124
  let c112_i32_125 : BitVec 32 := 112#32
  let v324 : BitVec 32 := Scalar.andi v323 c112_i32_125
  v324

def k1_off41 (k1_t2 : Fin k1_t2_loop.trips) (v322 : BitVec 32) : Fin 2 → Nat :=
  let c0_i32_79 : BitVec 32 := 0#32
  let c1_i32_81 : BitVec 32 := 1#32
  let arg15 : BitVec 32 := Scf.iv c0_i32_79 c1_i32_81 k1_t2
  let c16_i32_122 : BitVec 32 := 16#32
  let v319 : BitVec 32 := Scalar.muli arg15 c16_i32_122
  let c2_i32_123 : BitVec 32 := 2#32
  let v320 : BitVec 32 := Scalar.addi v319 c2_i32_123
  let v326 : Index := Scalar.indexCast v320
  let c127_i32_124 : BitVec 32 := 127#32
  let v323 : BitVec 32 := Scalar.andi v322 c127_i32_124
  let c112_i32_125 : BitVec 32 := 112#32
  let v324 : BitVec 32 := Scalar.andi v323 c112_i32_125
  let v325 : BitVec 32 := v324
  let v327 : Index := Scalar.indexCast v325
  ![v326.toNat, v327.toNat]
def k1_off42 (v322 : BitVec 32) : Fin 1 → Nat :=
  let c64_i32 : BitVec 32 := 64#32
  let c127_i32_124 : BitVec 32 := 127#32
  let v323 : BitVec 32 := Scalar.andi v322 c127_i32_124
  let c15_i32_128 : BitVec 32 := 15#32
  let v336 : BitVec 32 := Scalar.andi v323 c15_i32_128
  let c2_i32_129 : BitVec 32 := 2#32
  let v337 : BitVec 32 := Scalar.subi v336 c2_i32_129
  let c16_i32_130 : BitVec 32 := 16#32
  let v338 : BitVec 32 := Scalar.addi v337 c16_i32_130
  let c15_i32_131 : BitVec 32 := 15#32
  let v339 : BitVec 32 := Scalar.andi v338 c15_i32_131
  let v340 : BitVec 32 := Scalar.addi c64_i32 v339
  let v341 : Index := Scalar.indexCast v340
  ![v341.toNat]

def k1_chk19 (k1_t2 : Fin k1_t2_loop.trips) (v322 : BitVec 32) : Prop :=
  (16 ∣ (k1_mult21 v322).toNat) ∧
  (∀ a, (k1_off41 k1_t2 v322) a + S1x16.size a ≤ S128x128.size a) ∧
  (∀ a, (k1_off42 v322) a + S16.size a ≤ S512.size a)
instance k1_chk19.dec : ∀ (k1_t2 : Fin k1_t2_loop.trips) (v322 : BitVec 32), Decidable (k1_chk19 k1_t2 v322) := fun k1_t2 v322 => decidable_of_iff' _ (Iff.of_eq (k1_chk19.eq_1 k1_t2 v322))
theorem k1_mult21_dvd : ∀ (k1_t2 : Fin k1_t2_loop.trips) (v322 : BitVec 32) (k1_hw19 : k1_chk19 k1_t2 v322), 16 ∣ (k1_mult21 v322).toNat := fun k1_t2 v322 k1_hw19 => k1_hw19.1
theorem k1_off41_inb : ∀ (k1_t2 : Fin k1_t2_loop.trips) (v322 : BitVec 32) (k1_hw19 : k1_chk19 k1_t2 v322), ∀ a, (k1_off41 k1_t2 v322) a + S1x16.size a ≤ S128x128.size a := fun k1_t2 v322 k1_hw19 => k1_hw19.2.1
theorem k1_off42_inb : ∀ (k1_t2 : Fin k1_t2_loop.trips) (v322 : BitVec 32) (k1_hw19 : k1_chk19 k1_t2 v322), ∀ a, (k1_off42 v322) a + S16.size a ≤ S512.size a := fun k1_t2 v322 k1_hw19 => k1_hw19.2.2

def k1_mult22 (v351 : BitVec 32) : BitVec 32 :=
  let c127_i32_134 : BitVec 32 := 127#32
  let v352 : BitVec 32 := Scalar.andi v351 c127_i32_134
  let c112_i32_135 : BitVec 32 := 112#32
  let v353 : BitVec 32 := Scalar.andi v352 c112_i32_135
  v353

def k1_off43 (k1_t2 : Fin k1_t2_loop.trips) (v351 : BitVec 32) : Fin 2 → Nat :=
  let c0_i32_79 : BitVec 32 := 0#32
  let c1_i32_81 : BitVec 32 := 1#32
  let arg15 : BitVec 32 := Scf.iv c0_i32_79 c1_i32_81 k1_t2
  let c16_i32_133 : BitVec 32 := 16#32
  let v348 : BitVec 32 := Scalar.muli arg15 c16_i32_133
  let c3_i32 : BitVec 32 := 3#32
  let v349 : BitVec 32 := Scalar.addi v348 c3_i32
  let v355 : Index := Scalar.indexCast v349
  let c127_i32_134 : BitVec 32 := 127#32
  let v352 : BitVec 32 := Scalar.andi v351 c127_i32_134
  let c112_i32_135 : BitVec 32 := 112#32
  let v353 : BitVec 32 := Scalar.andi v352 c112_i32_135
  let v354 : BitVec 32 := v353
  let v356 : Index := Scalar.indexCast v354
  ![v355.toNat, v356.toNat]
def k1_off44 (v351 : BitVec 32) : Fin 1 → Nat :=
  let c96_i32 : BitVec 32 := 96#32
  let c127_i32_134 : BitVec 32 := 127#32
  let v352 : BitVec 32 := Scalar.andi v351 c127_i32_134
  let c15_i32_138 : BitVec 32 := 15#32
  let v365 : BitVec 32 := Scalar.andi v352 c15_i32_138
  let c3_i32_139 : BitVec 32 := 3#32
  let v366 : BitVec 32 := Scalar.subi v365 c3_i32_139
  let c16_i32_140 : BitVec 32 := 16#32
  let v367 : BitVec 32 := Scalar.addi v366 c16_i32_140
  let c15_i32_141 : BitVec 32 := 15#32
  let v368 : BitVec 32 := Scalar.andi v367 c15_i32_141
  let v369 : BitVec 32 := Scalar.addi c96_i32 v368
  let v370 : Index := Scalar.indexCast v369
  ![v370.toNat]

def k1_chk20 (k1_t2 : Fin k1_t2_loop.trips) (v351 : BitVec 32) : Prop :=
  (16 ∣ (k1_mult22 v351).toNat) ∧
  (∀ a, (k1_off43 k1_t2 v351) a + S1x16.size a ≤ S128x128.size a) ∧
  (∀ a, (k1_off44 v351) a + S16.size a ≤ S512.size a)
instance k1_chk20.dec : ∀ (k1_t2 : Fin k1_t2_loop.trips) (v351 : BitVec 32), Decidable (k1_chk20 k1_t2 v351) := fun k1_t2 v351 => decidable_of_iff' _ (Iff.of_eq (k1_chk20.eq_1 k1_t2 v351))
theorem k1_mult22_dvd : ∀ (k1_t2 : Fin k1_t2_loop.trips) (v351 : BitVec 32) (k1_hw20 : k1_chk20 k1_t2 v351), 16 ∣ (k1_mult22 v351).toNat := fun k1_t2 v351 k1_hw20 => k1_hw20.1
theorem k1_off43_inb : ∀ (k1_t2 : Fin k1_t2_loop.trips) (v351 : BitVec 32) (k1_hw20 : k1_chk20 k1_t2 v351), ∀ a, (k1_off43 k1_t2 v351) a + S1x16.size a ≤ S128x128.size a := fun k1_t2 v351 k1_hw20 => k1_hw20.2.1
theorem k1_off44_inb : ∀ (k1_t2 : Fin k1_t2_loop.trips) (v351 : BitVec 32) (k1_hw20 : k1_chk20 k1_t2 v351), ∀ a, (k1_off44 v351) a + S16.size a ≤ S512.size a := fun k1_t2 v351 k1_hw20 => k1_hw20.2.2

def k1_mult23 (v380 : BitVec 32) : BitVec 32 :=
  let c127_i32_144 : BitVec 32 := 127#32
  let v381 : BitVec 32 := Scalar.andi v380 c127_i32_144
  let c112_i32_145 : BitVec 32 := 112#32
  let v382 : BitVec 32 := Scalar.andi v381 c112_i32_145
  v382

def k1_off45 (k1_t2 : Fin k1_t2_loop.trips) (v380 : BitVec 32) : Fin 2 → Nat :=
  let c0_i32_79 : BitVec 32 := 0#32
  let c1_i32_81 : BitVec 32 := 1#32
  let arg15 : BitVec 32 := Scf.iv c0_i32_79 c1_i32_81 k1_t2
  let c16_i32_143 : BitVec 32 := 16#32
  let v377 : BitVec 32 := Scalar.muli arg15 c16_i32_143
  let c4_i32 : BitVec 32 := 4#32
  let v378 : BitVec 32 := Scalar.addi v377 c4_i32
  let v384 : Index := Scalar.indexCast v378
  let c127_i32_144 : BitVec 32 := 127#32
  let v381 : BitVec 32 := Scalar.andi v380 c127_i32_144
  let c112_i32_145 : BitVec 32 := 112#32
  let v382 : BitVec 32 := Scalar.andi v381 c112_i32_145
  let v383 : BitVec 32 := v382
  let v385 : Index := Scalar.indexCast v383
  ![v384.toNat, v385.toNat]
def k1_off46 (v380 : BitVec 32) : Fin 1 → Nat :=
  let c128_i32_152 : BitVec 32 := 128#32
  let c127_i32_144 : BitVec 32 := 127#32
  let v381 : BitVec 32 := Scalar.andi v380 c127_i32_144
  let c15_i32_148 : BitVec 32 := 15#32
  let v394 : BitVec 32 := Scalar.andi v381 c15_i32_148
  let c4_i32_149 : BitVec 32 := 4#32
  let v395 : BitVec 32 := Scalar.subi v394 c4_i32_149
  let c16_i32_150 : BitVec 32 := 16#32
  let v396 : BitVec 32 := Scalar.addi v395 c16_i32_150
  let c15_i32_151 : BitVec 32 := 15#32
  let v397 : BitVec 32 := Scalar.andi v396 c15_i32_151
  let v398 : BitVec 32 := Scalar.addi c128_i32_152 v397
  let v399 : Index := Scalar.indexCast v398
  ![v399.toNat]

def k1_chk21 (k1_t2 : Fin k1_t2_loop.trips) (v380 : BitVec 32) : Prop :=
  (16 ∣ (k1_mult23 v380).toNat) ∧
  (∀ a, (k1_off45 k1_t2 v380) a + S1x16.size a ≤ S128x128.size a) ∧
  (∀ a, (k1_off46 v380) a + S16.size a ≤ S512.size a)
instance k1_chk21.dec : ∀ (k1_t2 : Fin k1_t2_loop.trips) (v380 : BitVec 32), Decidable (k1_chk21 k1_t2 v380) := fun k1_t2 v380 => decidable_of_iff' _ (Iff.of_eq (k1_chk21.eq_1 k1_t2 v380))
theorem k1_mult23_dvd : ∀ (k1_t2 : Fin k1_t2_loop.trips) (v380 : BitVec 32) (k1_hw21 : k1_chk21 k1_t2 v380), 16 ∣ (k1_mult23 v380).toNat := fun k1_t2 v380 k1_hw21 => k1_hw21.1
theorem k1_off45_inb : ∀ (k1_t2 : Fin k1_t2_loop.trips) (v380 : BitVec 32) (k1_hw21 : k1_chk21 k1_t2 v380), ∀ a, (k1_off45 k1_t2 v380) a + S1x16.size a ≤ S128x128.size a := fun k1_t2 v380 k1_hw21 => k1_hw21.2.1
theorem k1_off46_inb : ∀ (k1_t2 : Fin k1_t2_loop.trips) (v380 : BitVec 32) (k1_hw21 : k1_chk21 k1_t2 v380), ∀ a, (k1_off46 v380) a + S16.size a ≤ S512.size a := fun k1_t2 v380 k1_hw21 => k1_hw21.2.2

def k1_mult24 (v409 : BitVec 32) : BitVec 32 :=
  let c127_i32_155 : BitVec 32 := 127#32
  let v410 : BitVec 32 := Scalar.andi v409 c127_i32_155
  let c112_i32_156 : BitVec 32 := 112#32
  let v411 : BitVec 32 := Scalar.andi v410 c112_i32_156
  v411

def k1_off47 (k1_t2 : Fin k1_t2_loop.trips) (v409 : BitVec 32) : Fin 2 → Nat :=
  let c0_i32_79 : BitVec 32 := 0#32
  let c1_i32_81 : BitVec 32 := 1#32
  let arg15 : BitVec 32 := Scf.iv c0_i32_79 c1_i32_81 k1_t2
  let c16_i32_154 : BitVec 32 := 16#32
  let v406 : BitVec 32 := Scalar.muli arg15 c16_i32_154
  let c5_i32 : BitVec 32 := 5#32
  let v407 : BitVec 32 := Scalar.addi v406 c5_i32
  let v413 : Index := Scalar.indexCast v407
  let c127_i32_155 : BitVec 32 := 127#32
  let v410 : BitVec 32 := Scalar.andi v409 c127_i32_155
  let c112_i32_156 : BitVec 32 := 112#32
  let v411 : BitVec 32 := Scalar.andi v410 c112_i32_156
  let v412 : BitVec 32 := v411
  let v414 : Index := Scalar.indexCast v412
  ![v413.toNat, v414.toNat]
def k1_off48 (v409 : BitVec 32) : Fin 1 → Nat :=
  let c160_i32 : BitVec 32 := 160#32
  let c127_i32_155 : BitVec 32 := 127#32
  let v410 : BitVec 32 := Scalar.andi v409 c127_i32_155
  let c15_i32_159 : BitVec 32 := 15#32
  let v423 : BitVec 32 := Scalar.andi v410 c15_i32_159
  let c5_i32_160 : BitVec 32 := 5#32
  let v424 : BitVec 32 := Scalar.subi v423 c5_i32_160
  let c16_i32_161 : BitVec 32 := 16#32
  let v425 : BitVec 32 := Scalar.addi v424 c16_i32_161
  let c15_i32_162 : BitVec 32 := 15#32
  let v426 : BitVec 32 := Scalar.andi v425 c15_i32_162
  let v427 : BitVec 32 := Scalar.addi c160_i32 v426
  let v428 : Index := Scalar.indexCast v427
  ![v428.toNat]

def k1_chk22 (k1_t2 : Fin k1_t2_loop.trips) (v409 : BitVec 32) : Prop :=
  (16 ∣ (k1_mult24 v409).toNat) ∧
  (∀ a, (k1_off47 k1_t2 v409) a + S1x16.size a ≤ S128x128.size a) ∧
  (∀ a, (k1_off48 v409) a + S16.size a ≤ S512.size a)
instance k1_chk22.dec : ∀ (k1_t2 : Fin k1_t2_loop.trips) (v409 : BitVec 32), Decidable (k1_chk22 k1_t2 v409) := fun k1_t2 v409 => decidable_of_iff' _ (Iff.of_eq (k1_chk22.eq_1 k1_t2 v409))
theorem k1_mult24_dvd : ∀ (k1_t2 : Fin k1_t2_loop.trips) (v409 : BitVec 32) (k1_hw22 : k1_chk22 k1_t2 v409), 16 ∣ (k1_mult24 v409).toNat := fun k1_t2 v409 k1_hw22 => k1_hw22.1
theorem k1_off47_inb : ∀ (k1_t2 : Fin k1_t2_loop.trips) (v409 : BitVec 32) (k1_hw22 : k1_chk22 k1_t2 v409), ∀ a, (k1_off47 k1_t2 v409) a + S1x16.size a ≤ S128x128.size a := fun k1_t2 v409 k1_hw22 => k1_hw22.2.1
theorem k1_off48_inb : ∀ (k1_t2 : Fin k1_t2_loop.trips) (v409 : BitVec 32) (k1_hw22 : k1_chk22 k1_t2 v409), ∀ a, (k1_off48 v409) a + S16.size a ≤ S512.size a := fun k1_t2 v409 k1_hw22 => k1_hw22.2.2

def k1_mult25 (v438 : BitVec 32) : BitVec 32 :=
  let c127_i32_165 : BitVec 32 := 127#32
  let v439 : BitVec 32 := Scalar.andi v438 c127_i32_165
  let c112_i32_166 : BitVec 32 := 112#32
  let v440 : BitVec 32 := Scalar.andi v439 c112_i32_166
  v440

def k1_off49 (k1_t2 : Fin k1_t2_loop.trips) (v438 : BitVec 32) : Fin 2 → Nat :=
  let c0_i32_79 : BitVec 32 := 0#32
  let c1_i32_81 : BitVec 32 := 1#32
  let arg15 : BitVec 32 := Scf.iv c0_i32_79 c1_i32_81 k1_t2
  let c16_i32_164 : BitVec 32 := 16#32
  let v435 : BitVec 32 := Scalar.muli arg15 c16_i32_164
  let c6_i32 : BitVec 32 := 6#32
  let v436 : BitVec 32 := Scalar.addi v435 c6_i32
  let v442 : Index := Scalar.indexCast v436
  let c127_i32_165 : BitVec 32 := 127#32
  let v439 : BitVec 32 := Scalar.andi v438 c127_i32_165
  let c112_i32_166 : BitVec 32 := 112#32
  let v440 : BitVec 32 := Scalar.andi v439 c112_i32_166
  let v441 : BitVec 32 := v440
  let v443 : Index := Scalar.indexCast v441
  ![v442.toNat, v443.toNat]
def k1_off50 (v438 : BitVec 32) : Fin 1 → Nat :=
  let c192_i32 : BitVec 32 := 192#32
  let c127_i32_165 : BitVec 32 := 127#32
  let v439 : BitVec 32 := Scalar.andi v438 c127_i32_165
  let c15_i32_169 : BitVec 32 := 15#32
  let v452 : BitVec 32 := Scalar.andi v439 c15_i32_169
  let c6_i32_170 : BitVec 32 := 6#32
  let v453 : BitVec 32 := Scalar.subi v452 c6_i32_170
  let c16_i32_171 : BitVec 32 := 16#32
  let v454 : BitVec 32 := Scalar.addi v453 c16_i32_171
  let c15_i32_172 : BitVec 32 := 15#32
  let v455 : BitVec 32 := Scalar.andi v454 c15_i32_172
  let v456 : BitVec 32 := Scalar.addi c192_i32 v455
  let v457 : Index := Scalar.indexCast v456
  ![v457.toNat]

def k1_chk23 (k1_t2 : Fin k1_t2_loop.trips) (v438 : BitVec 32) : Prop :=
  (16 ∣ (k1_mult25 v438).toNat) ∧
  (∀ a, (k1_off49 k1_t2 v438) a + S1x16.size a ≤ S128x128.size a) ∧
  (∀ a, (k1_off50 v438) a + S16.size a ≤ S512.size a)
instance k1_chk23.dec : ∀ (k1_t2 : Fin k1_t2_loop.trips) (v438 : BitVec 32), Decidable (k1_chk23 k1_t2 v438) := fun k1_t2 v438 => decidable_of_iff' _ (Iff.of_eq (k1_chk23.eq_1 k1_t2 v438))
theorem k1_mult25_dvd : ∀ (k1_t2 : Fin k1_t2_loop.trips) (v438 : BitVec 32) (k1_hw23 : k1_chk23 k1_t2 v438), 16 ∣ (k1_mult25 v438).toNat := fun k1_t2 v438 k1_hw23 => k1_hw23.1
theorem k1_off49_inb : ∀ (k1_t2 : Fin k1_t2_loop.trips) (v438 : BitVec 32) (k1_hw23 : k1_chk23 k1_t2 v438), ∀ a, (k1_off49 k1_t2 v438) a + S1x16.size a ≤ S128x128.size a := fun k1_t2 v438 k1_hw23 => k1_hw23.2.1
theorem k1_off50_inb : ∀ (k1_t2 : Fin k1_t2_loop.trips) (v438 : BitVec 32) (k1_hw23 : k1_chk23 k1_t2 v438), ∀ a, (k1_off50 v438) a + S16.size a ≤ S512.size a := fun k1_t2 v438 k1_hw23 => k1_hw23.2.2

def k1_mult26 (v467 : BitVec 32) : BitVec 32 :=
  let c127_i32_176 : BitVec 32 := 127#32
  let v468 : BitVec 32 := Scalar.andi v467 c127_i32_176
  let c112_i32_177 : BitVec 32 := 112#32
  let v469 : BitVec 32 := Scalar.andi v468 c112_i32_177
  v469

def k1_off51 (k1_t2 : Fin k1_t2_loop.trips) (v467 : BitVec 32) : Fin 2 → Nat :=
  let c0_i32_79 : BitVec 32 := 0#32
  let c1_i32_81 : BitVec 32 := 1#32
  let arg15 : BitVec 32 := Scf.iv c0_i32_79 c1_i32_81 k1_t2
  let c16_i32_174 : BitVec 32 := 16#32
  let v464 : BitVec 32 := Scalar.muli arg15 c16_i32_174
  let c7_i32_175 : BitVec 32 := 7#32
  let v465 : BitVec 32 := Scalar.addi v464 c7_i32_175
  let v471 : Index := Scalar.indexCast v465
  let c127_i32_176 : BitVec 32 := 127#32
  let v468 : BitVec 32 := Scalar.andi v467 c127_i32_176
  let c112_i32_177 : BitVec 32 := 112#32
  let v469 : BitVec 32 := Scalar.andi v468 c112_i32_177
  let v470 : BitVec 32 := v469
  let v472 : Index := Scalar.indexCast v470
  ![v471.toNat, v472.toNat]
def k1_off52 (v467 : BitVec 32) : Fin 1 → Nat :=
  let c224_i32 : BitVec 32 := 224#32
  let c127_i32_176 : BitVec 32 := 127#32
  let v468 : BitVec 32 := Scalar.andi v467 c127_i32_176
  let c15_i32_180 : BitVec 32 := 15#32
  let v481 : BitVec 32 := Scalar.andi v468 c15_i32_180
  let c7_i32_181 : BitVec 32 := 7#32
  let v482 : BitVec 32 := Scalar.subi v481 c7_i32_181
  let c16_i32_182 : BitVec 32 := 16#32
  let v483 : BitVec 32 := Scalar.addi v482 c16_i32_182
  let c15_i32_183 : BitVec 32 := 15#32
  let v484 : BitVec 32 := Scalar.andi v483 c15_i32_183
  let v485 : BitVec 32 := Scalar.addi c224_i32 v484
  let v486 : Index := Scalar.indexCast v485
  ![v486.toNat]

def k1_chk24 (k1_t2 : Fin k1_t2_loop.trips) (v467 : BitVec 32) : Prop :=
  (16 ∣ (k1_mult26 v467).toNat) ∧
  (∀ a, (k1_off51 k1_t2 v467) a + S1x16.size a ≤ S128x128.size a) ∧
  (∀ a, (k1_off52 v467) a + S16.size a ≤ S512.size a)
instance k1_chk24.dec : ∀ (k1_t2 : Fin k1_t2_loop.trips) (v467 : BitVec 32), Decidable (k1_chk24 k1_t2 v467) := fun k1_t2 v467 => decidable_of_iff' _ (Iff.of_eq (k1_chk24.eq_1 k1_t2 v467))
theorem k1_mult26_dvd : ∀ (k1_t2 : Fin k1_t2_loop.trips) (v467 : BitVec 32) (k1_hw24 : k1_chk24 k1_t2 v467), 16 ∣ (k1_mult26 v467).toNat := fun k1_t2 v467 k1_hw24 => k1_hw24.1
theorem k1_off51_inb : ∀ (k1_t2 : Fin k1_t2_loop.trips) (v467 : BitVec 32) (k1_hw24 : k1_chk24 k1_t2 v467), ∀ a, (k1_off51 k1_t2 v467) a + S1x16.size a ≤ S128x128.size a := fun k1_t2 v467 k1_hw24 => k1_hw24.2.1
theorem k1_off52_inb : ∀ (k1_t2 : Fin k1_t2_loop.trips) (v467 : BitVec 32) (k1_hw24 : k1_chk24 k1_t2 v467), ∀ a, (k1_off52 v467) a + S16.size a ≤ S512.size a := fun k1_t2 v467 k1_hw24 => k1_hw24.2.2

def k1_mult27 (v496 : BitVec 32) : BitVec 32 :=
  let c127_i32_187 : BitVec 32 := 127#32
  let v497 : BitVec 32 := Scalar.andi v496 c127_i32_187
  let c112_i32_188 : BitVec 32 := 112#32
  let v498 : BitVec 32 := Scalar.andi v497 c112_i32_188
  v498

def k1_off53 (k1_t2 : Fin k1_t2_loop.trips) (v496 : BitVec 32) : Fin 2 → Nat :=
  let c0_i32_79 : BitVec 32 := 0#32
  let c1_i32_81 : BitVec 32 := 1#32
  let arg15 : BitVec 32 := Scf.iv c0_i32_79 c1_i32_81 k1_t2
  let c16_i32_185 : BitVec 32 := 16#32
  let v493 : BitVec 32 := Scalar.muli arg15 c16_i32_185
  let c8_i32_186 : BitVec 32 := 8#32
  let v494 : BitVec 32 := Scalar.addi v493 c8_i32_186
  let v500 : Index := Scalar.indexCast v494
  let c127_i32_187 : BitVec 32 := 127#32
  let v497 : BitVec 32 := Scalar.andi v496 c127_i32_187
  let c112_i32_188 : BitVec 32 := 112#32
  let v498 : BitVec 32 := Scalar.andi v497 c112_i32_188
  let v499 : BitVec 32 := v498
  let v501 : Index := Scalar.indexCast v499
  ![v500.toNat, v501.toNat]
def k1_off54 (v496 : BitVec 32) : Fin 1 → Nat :=
  let c256_i32_195 : BitVec 32 := 256#32
  let c127_i32_187 : BitVec 32 := 127#32
  let v497 : BitVec 32 := Scalar.andi v496 c127_i32_187
  let c15_i32_191 : BitVec 32 := 15#32
  let v510 : BitVec 32 := Scalar.andi v497 c15_i32_191
  let c8_i32_192 : BitVec 32 := 8#32
  let v511 : BitVec 32 := Scalar.subi v510 c8_i32_192
  let c16_i32_193 : BitVec 32 := 16#32
  let v512 : BitVec 32 := Scalar.addi v511 c16_i32_193
  let c15_i32_194 : BitVec 32 := 15#32
  let v513 : BitVec 32 := Scalar.andi v512 c15_i32_194
  let v514 : BitVec 32 := Scalar.addi c256_i32_195 v513
  let v515 : Index := Scalar.indexCast v514
  ![v515.toNat]

def k1_chk25 (k1_t2 : Fin k1_t2_loop.trips) (v496 : BitVec 32) : Prop :=
  (16 ∣ (k1_mult27 v496).toNat) ∧
  (∀ a, (k1_off53 k1_t2 v496) a + S1x16.size a ≤ S128x128.size a) ∧
  (∀ a, (k1_off54 v496) a + S16.size a ≤ S512.size a)
instance k1_chk25.dec : ∀ (k1_t2 : Fin k1_t2_loop.trips) (v496 : BitVec 32), Decidable (k1_chk25 k1_t2 v496) := fun k1_t2 v496 => decidable_of_iff' _ (Iff.of_eq (k1_chk25.eq_1 k1_t2 v496))
theorem k1_mult27_dvd : ∀ (k1_t2 : Fin k1_t2_loop.trips) (v496 : BitVec 32) (k1_hw25 : k1_chk25 k1_t2 v496), 16 ∣ (k1_mult27 v496).toNat := fun k1_t2 v496 k1_hw25 => k1_hw25.1
theorem k1_off53_inb : ∀ (k1_t2 : Fin k1_t2_loop.trips) (v496 : BitVec 32) (k1_hw25 : k1_chk25 k1_t2 v496), ∀ a, (k1_off53 k1_t2 v496) a + S1x16.size a ≤ S128x128.size a := fun k1_t2 v496 k1_hw25 => k1_hw25.2.1
theorem k1_off54_inb : ∀ (k1_t2 : Fin k1_t2_loop.trips) (v496 : BitVec 32) (k1_hw25 : k1_chk25 k1_t2 v496), ∀ a, (k1_off54 v496) a + S16.size a ≤ S512.size a := fun k1_t2 v496 k1_hw25 => k1_hw25.2.2

def k1_mult28 (v525 : BitVec 32) : BitVec 32 :=
  let c127_i32_198 : BitVec 32 := 127#32
  let v526 : BitVec 32 := Scalar.andi v525 c127_i32_198
  let c112_i32_199 : BitVec 32 := 112#32
  let v527 : BitVec 32 := Scalar.andi v526 c112_i32_199
  v527

def k1_off55 (k1_t2 : Fin k1_t2_loop.trips) (v525 : BitVec 32) : Fin 2 → Nat :=
  let c0_i32_79 : BitVec 32 := 0#32
  let c1_i32_81 : BitVec 32 := 1#32
  let arg15 : BitVec 32 := Scf.iv c0_i32_79 c1_i32_81 k1_t2
  let c16_i32_197 : BitVec 32 := 16#32
  let v522 : BitVec 32 := Scalar.muli arg15 c16_i32_197
  let c9_i32 : BitVec 32 := 9#32
  let v523 : BitVec 32 := Scalar.addi v522 c9_i32
  let v529 : Index := Scalar.indexCast v523
  let c127_i32_198 : BitVec 32 := 127#32
  let v526 : BitVec 32 := Scalar.andi v525 c127_i32_198
  let c112_i32_199 : BitVec 32 := 112#32
  let v527 : BitVec 32 := Scalar.andi v526 c112_i32_199
  let v528 : BitVec 32 := v527
  let v530 : Index := Scalar.indexCast v528
  ![v529.toNat, v530.toNat]
def k1_off56 (v525 : BitVec 32) : Fin 1 → Nat :=
  let c288_i32 : BitVec 32 := 288#32
  let c127_i32_198 : BitVec 32 := 127#32
  let v526 : BitVec 32 := Scalar.andi v525 c127_i32_198
  let c15_i32_202 : BitVec 32 := 15#32
  let v539 : BitVec 32 := Scalar.andi v526 c15_i32_202
  let c9_i32_203 : BitVec 32 := 9#32
  let v540 : BitVec 32 := Scalar.subi v539 c9_i32_203
  let c16_i32_204 : BitVec 32 := 16#32
  let v541 : BitVec 32 := Scalar.addi v540 c16_i32_204
  let c15_i32_205 : BitVec 32 := 15#32
  let v542 : BitVec 32 := Scalar.andi v541 c15_i32_205
  let v543 : BitVec 32 := Scalar.addi c288_i32 v542
  let v544 : Index := Scalar.indexCast v543
  ![v544.toNat]

def k1_chk26 (k1_t2 : Fin k1_t2_loop.trips) (v525 : BitVec 32) : Prop :=
  (16 ∣ (k1_mult28 v525).toNat) ∧
  (∀ a, (k1_off55 k1_t2 v525) a + S1x16.size a ≤ S128x128.size a) ∧
  (∀ a, (k1_off56 v525) a + S16.size a ≤ S512.size a)
instance k1_chk26.dec : ∀ (k1_t2 : Fin k1_t2_loop.trips) (v525 : BitVec 32), Decidable (k1_chk26 k1_t2 v525) := fun k1_t2 v525 => decidable_of_iff' _ (Iff.of_eq (k1_chk26.eq_1 k1_t2 v525))
theorem k1_mult28_dvd : ∀ (k1_t2 : Fin k1_t2_loop.trips) (v525 : BitVec 32) (k1_hw26 : k1_chk26 k1_t2 v525), 16 ∣ (k1_mult28 v525).toNat := fun k1_t2 v525 k1_hw26 => k1_hw26.1
theorem k1_off55_inb : ∀ (k1_t2 : Fin k1_t2_loop.trips) (v525 : BitVec 32) (k1_hw26 : k1_chk26 k1_t2 v525), ∀ a, (k1_off55 k1_t2 v525) a + S1x16.size a ≤ S128x128.size a := fun k1_t2 v525 k1_hw26 => k1_hw26.2.1
theorem k1_off56_inb : ∀ (k1_t2 : Fin k1_t2_loop.trips) (v525 : BitVec 32) (k1_hw26 : k1_chk26 k1_t2 v525), ∀ a, (k1_off56 v525) a + S16.size a ≤ S512.size a := fun k1_t2 v525 k1_hw26 => k1_hw26.2.2

def k1_mult29 (v554 : BitVec 32) : BitVec 32 :=
  let c127_i32_208 : BitVec 32 := 127#32
  let v555 : BitVec 32 := Scalar.andi v554 c127_i32_208
  let c112_i32_209 : BitVec 32 := 112#32
  let v556 : BitVec 32 := Scalar.andi v555 c112_i32_209
  v556

def k1_off57 (k1_t2 : Fin k1_t2_loop.trips) (v554 : BitVec 32) : Fin 2 → Nat :=
  let c0_i32_79 : BitVec 32 := 0#32
  let c1_i32_81 : BitVec 32 := 1#32
  let arg15 : BitVec 32 := Scf.iv c0_i32_79 c1_i32_81 k1_t2
  let c16_i32_207 : BitVec 32 := 16#32
  let v551 : BitVec 32 := Scalar.muli arg15 c16_i32_207
  let c10_i32 : BitVec 32 := 10#32
  let v552 : BitVec 32 := Scalar.addi v551 c10_i32
  let v558 : Index := Scalar.indexCast v552
  let c127_i32_208 : BitVec 32 := 127#32
  let v555 : BitVec 32 := Scalar.andi v554 c127_i32_208
  let c112_i32_209 : BitVec 32 := 112#32
  let v556 : BitVec 32 := Scalar.andi v555 c112_i32_209
  let v557 : BitVec 32 := v556
  let v559 : Index := Scalar.indexCast v557
  ![v558.toNat, v559.toNat]
def k1_off58 (v554 : BitVec 32) : Fin 1 → Nat :=
  let c320_i32 : BitVec 32 := 320#32
  let c127_i32_208 : BitVec 32 := 127#32
  let v555 : BitVec 32 := Scalar.andi v554 c127_i32_208
  let c15_i32_212 : BitVec 32 := 15#32
  let v568 : BitVec 32 := Scalar.andi v555 c15_i32_212
  let c10_i32_213 : BitVec 32 := 10#32
  let v569 : BitVec 32 := Scalar.subi v568 c10_i32_213
  let c16_i32_214 : BitVec 32 := 16#32
  let v570 : BitVec 32 := Scalar.addi v569 c16_i32_214
  let c15_i32_215 : BitVec 32 := 15#32
  let v571 : BitVec 32 := Scalar.andi v570 c15_i32_215
  let v572 : BitVec 32 := Scalar.addi c320_i32 v571
  let v573 : Index := Scalar.indexCast v572
  ![v573.toNat]

def k1_chk27 (k1_t2 : Fin k1_t2_loop.trips) (v554 : BitVec 32) : Prop :=
  (16 ∣ (k1_mult29 v554).toNat) ∧
  (∀ a, (k1_off57 k1_t2 v554) a + S1x16.size a ≤ S128x128.size a) ∧
  (∀ a, (k1_off58 v554) a + S16.size a ≤ S512.size a)
instance k1_chk27.dec : ∀ (k1_t2 : Fin k1_t2_loop.trips) (v554 : BitVec 32), Decidable (k1_chk27 k1_t2 v554) := fun k1_t2 v554 => decidable_of_iff' _ (Iff.of_eq (k1_chk27.eq_1 k1_t2 v554))
theorem k1_mult29_dvd : ∀ (k1_t2 : Fin k1_t2_loop.trips) (v554 : BitVec 32) (k1_hw27 : k1_chk27 k1_t2 v554), 16 ∣ (k1_mult29 v554).toNat := fun k1_t2 v554 k1_hw27 => k1_hw27.1
theorem k1_off57_inb : ∀ (k1_t2 : Fin k1_t2_loop.trips) (v554 : BitVec 32) (k1_hw27 : k1_chk27 k1_t2 v554), ∀ a, (k1_off57 k1_t2 v554) a + S1x16.size a ≤ S128x128.size a := fun k1_t2 v554 k1_hw27 => k1_hw27.2.1
theorem k1_off58_inb : ∀ (k1_t2 : Fin k1_t2_loop.trips) (v554 : BitVec 32) (k1_hw27 : k1_chk27 k1_t2 v554), ∀ a, (k1_off58 v554) a + S16.size a ≤ S512.size a := fun k1_t2 v554 k1_hw27 => k1_hw27.2.2

def k1_mult30 (v583 : BitVec 32) : BitVec 32 :=
  let c127_i32_218 : BitVec 32 := 127#32
  let v584 : BitVec 32 := Scalar.andi v583 c127_i32_218
  let c112_i32_219 : BitVec 32 := 112#32
  let v585 : BitVec 32 := Scalar.andi v584 c112_i32_219
  v585

def k1_off59 (k1_t2 : Fin k1_t2_loop.trips) (v583 : BitVec 32) : Fin 2 → Nat :=
  let c0_i32_79 : BitVec 32 := 0#32
  let c1_i32_81 : BitVec 32 := 1#32
  let arg15 : BitVec 32 := Scf.iv c0_i32_79 c1_i32_81 k1_t2
  let c16_i32_217 : BitVec 32 := 16#32
  let v580 : BitVec 32 := Scalar.muli arg15 c16_i32_217
  let c11_i32 : BitVec 32 := 11#32
  let v581 : BitVec 32 := Scalar.addi v580 c11_i32
  let v587 : Index := Scalar.indexCast v581
  let c127_i32_218 : BitVec 32 := 127#32
  let v584 : BitVec 32 := Scalar.andi v583 c127_i32_218
  let c112_i32_219 : BitVec 32 := 112#32
  let v585 : BitVec 32 := Scalar.andi v584 c112_i32_219
  let v586 : BitVec 32 := v585
  let v588 : Index := Scalar.indexCast v586
  ![v587.toNat, v588.toNat]
def k1_off60 (v583 : BitVec 32) : Fin 1 → Nat :=
  let c352_i32 : BitVec 32 := 352#32
  let c127_i32_218 : BitVec 32 := 127#32
  let v584 : BitVec 32 := Scalar.andi v583 c127_i32_218
  let c15_i32_222 : BitVec 32 := 15#32
  let v597 : BitVec 32 := Scalar.andi v584 c15_i32_222
  let c11_i32_223 : BitVec 32 := 11#32
  let v598 : BitVec 32 := Scalar.subi v597 c11_i32_223
  let c16_i32_224 : BitVec 32 := 16#32
  let v599 : BitVec 32 := Scalar.addi v598 c16_i32_224
  let c15_i32_225 : BitVec 32 := 15#32
  let v600 : BitVec 32 := Scalar.andi v599 c15_i32_225
  let v601 : BitVec 32 := Scalar.addi c352_i32 v600
  let v602 : Index := Scalar.indexCast v601
  ![v602.toNat]

def k1_chk28 (k1_t2 : Fin k1_t2_loop.trips) (v583 : BitVec 32) : Prop :=
  (16 ∣ (k1_mult30 v583).toNat) ∧
  (∀ a, (k1_off59 k1_t2 v583) a + S1x16.size a ≤ S128x128.size a) ∧
  (∀ a, (k1_off60 v583) a + S16.size a ≤ S512.size a)
instance k1_chk28.dec : ∀ (k1_t2 : Fin k1_t2_loop.trips) (v583 : BitVec 32), Decidable (k1_chk28 k1_t2 v583) := fun k1_t2 v583 => decidable_of_iff' _ (Iff.of_eq (k1_chk28.eq_1 k1_t2 v583))
theorem k1_mult30_dvd : ∀ (k1_t2 : Fin k1_t2_loop.trips) (v583 : BitVec 32) (k1_hw28 : k1_chk28 k1_t2 v583), 16 ∣ (k1_mult30 v583).toNat := fun k1_t2 v583 k1_hw28 => k1_hw28.1
theorem k1_off59_inb : ∀ (k1_t2 : Fin k1_t2_loop.trips) (v583 : BitVec 32) (k1_hw28 : k1_chk28 k1_t2 v583), ∀ a, (k1_off59 k1_t2 v583) a + S1x16.size a ≤ S128x128.size a := fun k1_t2 v583 k1_hw28 => k1_hw28.2.1
theorem k1_off60_inb : ∀ (k1_t2 : Fin k1_t2_loop.trips) (v583 : BitVec 32) (k1_hw28 : k1_chk28 k1_t2 v583), ∀ a, (k1_off60 v583) a + S16.size a ≤ S512.size a := fun k1_t2 v583 k1_hw28 => k1_hw28.2.2

def k1_mult31 (v612 : BitVec 32) : BitVec 32 :=
  let c127_i32_228 : BitVec 32 := 127#32
  let v613 : BitVec 32 := Scalar.andi v612 c127_i32_228
  let c112_i32_229 : BitVec 32 := 112#32
  let v614 : BitVec 32 := Scalar.andi v613 c112_i32_229
  v614

def k1_off61 (k1_t2 : Fin k1_t2_loop.trips) (v612 : BitVec 32) : Fin 2 → Nat :=
  let c0_i32_79 : BitVec 32 := 0#32
  let c1_i32_81 : BitVec 32 := 1#32
  let arg15 : BitVec 32 := Scf.iv c0_i32_79 c1_i32_81 k1_t2
  let c16_i32_227 : BitVec 32 := 16#32
  let v609 : BitVec 32 := Scalar.muli arg15 c16_i32_227
  let c12_i32 : BitVec 32 := 12#32
  let v610 : BitVec 32 := Scalar.addi v609 c12_i32
  let v616 : Index := Scalar.indexCast v610
  let c127_i32_228 : BitVec 32 := 127#32
  let v613 : BitVec 32 := Scalar.andi v612 c127_i32_228
  let c112_i32_229 : BitVec 32 := 112#32
  let v614 : BitVec 32 := Scalar.andi v613 c112_i32_229
  let v615 : BitVec 32 := v614
  let v617 : Index := Scalar.indexCast v615
  ![v616.toNat, v617.toNat]
def k1_off62 (v612 : BitVec 32) : Fin 1 → Nat :=
  let c384_i32_236 : BitVec 32 := 384#32
  let c127_i32_228 : BitVec 32 := 127#32
  let v613 : BitVec 32 := Scalar.andi v612 c127_i32_228
  let c15_i32_232 : BitVec 32 := 15#32
  let v626 : BitVec 32 := Scalar.andi v613 c15_i32_232
  let c12_i32_233 : BitVec 32 := 12#32
  let v627 : BitVec 32 := Scalar.subi v626 c12_i32_233
  let c16_i32_234 : BitVec 32 := 16#32
  let v628 : BitVec 32 := Scalar.addi v627 c16_i32_234
  let c15_i32_235 : BitVec 32 := 15#32
  let v629 : BitVec 32 := Scalar.andi v628 c15_i32_235
  let v630 : BitVec 32 := Scalar.addi c384_i32_236 v629
  let v631 : Index := Scalar.indexCast v630
  ![v631.toNat]

def k1_chk29 (k1_t2 : Fin k1_t2_loop.trips) (v612 : BitVec 32) : Prop :=
  (16 ∣ (k1_mult31 v612).toNat) ∧
  (∀ a, (k1_off61 k1_t2 v612) a + S1x16.size a ≤ S128x128.size a) ∧
  (∀ a, (k1_off62 v612) a + S16.size a ≤ S512.size a)
instance k1_chk29.dec : ∀ (k1_t2 : Fin k1_t2_loop.trips) (v612 : BitVec 32), Decidable (k1_chk29 k1_t2 v612) := fun k1_t2 v612 => decidable_of_iff' _ (Iff.of_eq (k1_chk29.eq_1 k1_t2 v612))
theorem k1_mult31_dvd : ∀ (k1_t2 : Fin k1_t2_loop.trips) (v612 : BitVec 32) (k1_hw29 : k1_chk29 k1_t2 v612), 16 ∣ (k1_mult31 v612).toNat := fun k1_t2 v612 k1_hw29 => k1_hw29.1
theorem k1_off61_inb : ∀ (k1_t2 : Fin k1_t2_loop.trips) (v612 : BitVec 32) (k1_hw29 : k1_chk29 k1_t2 v612), ∀ a, (k1_off61 k1_t2 v612) a + S1x16.size a ≤ S128x128.size a := fun k1_t2 v612 k1_hw29 => k1_hw29.2.1
theorem k1_off62_inb : ∀ (k1_t2 : Fin k1_t2_loop.trips) (v612 : BitVec 32) (k1_hw29 : k1_chk29 k1_t2 v612), ∀ a, (k1_off62 v612) a + S16.size a ≤ S512.size a := fun k1_t2 v612 k1_hw29 => k1_hw29.2.2

def k1_mult32 (v641 : BitVec 32) : BitVec 32 :=
  let c127_i32_239 : BitVec 32 := 127#32
  let v642 : BitVec 32 := Scalar.andi v641 c127_i32_239
  let c112_i32_240 : BitVec 32 := 112#32
  let v643 : BitVec 32 := Scalar.andi v642 c112_i32_240
  v643

def k1_off63 (k1_t2 : Fin k1_t2_loop.trips) (v641 : BitVec 32) : Fin 2 → Nat :=
  let c0_i32_79 : BitVec 32 := 0#32
  let c1_i32_81 : BitVec 32 := 1#32
  let arg15 : BitVec 32 := Scf.iv c0_i32_79 c1_i32_81 k1_t2
  let c16_i32_238 : BitVec 32 := 16#32
  let v638 : BitVec 32 := Scalar.muli arg15 c16_i32_238
  let c13_i32 : BitVec 32 := 13#32
  let v639 : BitVec 32 := Scalar.addi v638 c13_i32
  let v645 : Index := Scalar.indexCast v639
  let c127_i32_239 : BitVec 32 := 127#32
  let v642 : BitVec 32 := Scalar.andi v641 c127_i32_239
  let c112_i32_240 : BitVec 32 := 112#32
  let v643 : BitVec 32 := Scalar.andi v642 c112_i32_240
  let v644 : BitVec 32 := v643
  let v646 : Index := Scalar.indexCast v644
  ![v645.toNat, v646.toNat]
def k1_off64 (v641 : BitVec 32) : Fin 1 → Nat :=
  let c416_i32 : BitVec 32 := 416#32
  let c127_i32_239 : BitVec 32 := 127#32
  let v642 : BitVec 32 := Scalar.andi v641 c127_i32_239
  let c15_i32_243 : BitVec 32 := 15#32
  let v655 : BitVec 32 := Scalar.andi v642 c15_i32_243
  let c13_i32_244 : BitVec 32 := 13#32
  let v656 : BitVec 32 := Scalar.subi v655 c13_i32_244
  let c16_i32_245 : BitVec 32 := 16#32
  let v657 : BitVec 32 := Scalar.addi v656 c16_i32_245
  let c15_i32_246 : BitVec 32 := 15#32
  let v658 : BitVec 32 := Scalar.andi v657 c15_i32_246
  let v659 : BitVec 32 := Scalar.addi c416_i32 v658
  let v660 : Index := Scalar.indexCast v659
  ![v660.toNat]

def k1_chk30 (k1_t2 : Fin k1_t2_loop.trips) (v641 : BitVec 32) : Prop :=
  (16 ∣ (k1_mult32 v641).toNat) ∧
  (∀ a, (k1_off63 k1_t2 v641) a + S1x16.size a ≤ S128x128.size a) ∧
  (∀ a, (k1_off64 v641) a + S16.size a ≤ S512.size a)
instance k1_chk30.dec : ∀ (k1_t2 : Fin k1_t2_loop.trips) (v641 : BitVec 32), Decidable (k1_chk30 k1_t2 v641) := fun k1_t2 v641 => decidable_of_iff' _ (Iff.of_eq (k1_chk30.eq_1 k1_t2 v641))
theorem k1_mult32_dvd : ∀ (k1_t2 : Fin k1_t2_loop.trips) (v641 : BitVec 32) (k1_hw30 : k1_chk30 k1_t2 v641), 16 ∣ (k1_mult32 v641).toNat := fun k1_t2 v641 k1_hw30 => k1_hw30.1
theorem k1_off63_inb : ∀ (k1_t2 : Fin k1_t2_loop.trips) (v641 : BitVec 32) (k1_hw30 : k1_chk30 k1_t2 v641), ∀ a, (k1_off63 k1_t2 v641) a + S1x16.size a ≤ S128x128.size a := fun k1_t2 v641 k1_hw30 => k1_hw30.2.1
theorem k1_off64_inb : ∀ (k1_t2 : Fin k1_t2_loop.trips) (v641 : BitVec 32) (k1_hw30 : k1_chk30 k1_t2 v641), ∀ a, (k1_off64 v641) a + S16.size a ≤ S512.size a := fun k1_t2 v641 k1_hw30 => k1_hw30.2.2

def k1_mult33 (v670 : BitVec 32) : BitVec 32 :=
  let c127_i32_249 : BitVec 32 := 127#32
  let v671 : BitVec 32 := Scalar.andi v670 c127_i32_249
  let c112_i32_250 : BitVec 32 := 112#32
  let v672 : BitVec 32 := Scalar.andi v671 c112_i32_250
  v672

def k1_off65 (k1_t2 : Fin k1_t2_loop.trips) (v670 : BitVec 32) : Fin 2 → Nat :=
  let c0_i32_79 : BitVec 32 := 0#32
  let c1_i32_81 : BitVec 32 := 1#32
  let arg15 : BitVec 32 := Scf.iv c0_i32_79 c1_i32_81 k1_t2
  let c16_i32_248 : BitVec 32 := 16#32
  let v667 : BitVec 32 := Scalar.muli arg15 c16_i32_248
  let c14_i32 : BitVec 32 := 14#32
  let v668 : BitVec 32 := Scalar.addi v667 c14_i32
  let v674 : Index := Scalar.indexCast v668
  let c127_i32_249 : BitVec 32 := 127#32
  let v671 : BitVec 32 := Scalar.andi v670 c127_i32_249
  let c112_i32_250 : BitVec 32 := 112#32
  let v672 : BitVec 32 := Scalar.andi v671 c112_i32_250
  let v673 : BitVec 32 := v672
  let v675 : Index := Scalar.indexCast v673
  ![v674.toNat, v675.toNat]
def k1_off66 (v670 : BitVec 32) : Fin 1 → Nat :=
  let c448_i32 : BitVec 32 := 448#32
  let c127_i32_249 : BitVec 32 := 127#32
  let v671 : BitVec 32 := Scalar.andi v670 c127_i32_249
  let c15_i32_253 : BitVec 32 := 15#32
  let v684 : BitVec 32 := Scalar.andi v671 c15_i32_253
  let c14_i32_254 : BitVec 32 := 14#32
  let v685 : BitVec 32 := Scalar.subi v684 c14_i32_254
  let c16_i32_255 : BitVec 32 := 16#32
  let v686 : BitVec 32 := Scalar.addi v685 c16_i32_255
  let c15_i32_256 : BitVec 32 := 15#32
  let v687 : BitVec 32 := Scalar.andi v686 c15_i32_256
  let v688 : BitVec 32 := Scalar.addi c448_i32 v687
  let v689 : Index := Scalar.indexCast v688
  ![v689.toNat]

def k1_chk31 (k1_t2 : Fin k1_t2_loop.trips) (v670 : BitVec 32) : Prop :=
  (16 ∣ (k1_mult33 v670).toNat) ∧
  (∀ a, (k1_off65 k1_t2 v670) a + S1x16.size a ≤ S128x128.size a) ∧
  (∀ a, (k1_off66 v670) a + S16.size a ≤ S512.size a)
instance k1_chk31.dec : ∀ (k1_t2 : Fin k1_t2_loop.trips) (v670 : BitVec 32), Decidable (k1_chk31 k1_t2 v670) := fun k1_t2 v670 => decidable_of_iff' _ (Iff.of_eq (k1_chk31.eq_1 k1_t2 v670))
theorem k1_mult33_dvd : ∀ (k1_t2 : Fin k1_t2_loop.trips) (v670 : BitVec 32) (k1_hw31 : k1_chk31 k1_t2 v670), 16 ∣ (k1_mult33 v670).toNat := fun k1_t2 v670 k1_hw31 => k1_hw31.1
theorem k1_off65_inb : ∀ (k1_t2 : Fin k1_t2_loop.trips) (v670 : BitVec 32) (k1_hw31 : k1_chk31 k1_t2 v670), ∀ a, (k1_off65 k1_t2 v670) a + S1x16.size a ≤ S128x128.size a := fun k1_t2 v670 k1_hw31 => k1_hw31.2.1
theorem k1_off66_inb : ∀ (k1_t2 : Fin k1_t2_loop.trips) (v670 : BitVec 32) (k1_hw31 : k1_chk31 k1_t2 v670), ∀ a, (k1_off66 v670) a + S16.size a ≤ S512.size a := fun k1_t2 v670 k1_hw31 => k1_hw31.2.2

def k1_mult34 (v699 : BitVec 32) : BitVec 32 :=
  let c127_i32_260 : BitVec 32 := 127#32
  let v700 : BitVec 32 := Scalar.andi v699 c127_i32_260
  let c112_i32_261 : BitVec 32 := 112#32
  let v701 : BitVec 32 := Scalar.andi v700 c112_i32_261
  v701

def k1_off67 (k1_t2 : Fin k1_t2_loop.trips) (v699 : BitVec 32) : Fin 2 → Nat :=
  let c0_i32_79 : BitVec 32 := 0#32
  let c1_i32_81 : BitVec 32 := 1#32
  let arg15 : BitVec 32 := Scf.iv c0_i32_79 c1_i32_81 k1_t2
  let c16_i32_258 : BitVec 32 := 16#32
  let v696 : BitVec 32 := Scalar.muli arg15 c16_i32_258
  let c15_i32_259 : BitVec 32 := 15#32
  let v697 : BitVec 32 := Scalar.addi v696 c15_i32_259
  let v703 : Index := Scalar.indexCast v697
  let c127_i32_260 : BitVec 32 := 127#32
  let v700 : BitVec 32 := Scalar.andi v699 c127_i32_260
  let c112_i32_261 : BitVec 32 := 112#32
  let v701 : BitVec 32 := Scalar.andi v700 c112_i32_261
  let v702 : BitVec 32 := v701
  let v704 : Index := Scalar.indexCast v702
  ![v703.toNat, v704.toNat]
def k1_off68 (v699 : BitVec 32) : Fin 1 → Nat :=
  let c480_i32 : BitVec 32 := 480#32
  let c127_i32_260 : BitVec 32 := 127#32
  let v700 : BitVec 32 := Scalar.andi v699 c127_i32_260
  let c15_i32_264 : BitVec 32 := 15#32
  let v713 : BitVec 32 := Scalar.andi v700 c15_i32_264
  let c15_i32_265 : BitVec 32 := 15#32
  let v714 : BitVec 32 := Scalar.subi v713 c15_i32_265
  let c16_i32_266 : BitVec 32 := 16#32
  let v715 : BitVec 32 := Scalar.addi v714 c16_i32_266
  let c15_i32_267 : BitVec 32 := 15#32
  let v716 : BitVec 32 := Scalar.andi v715 c15_i32_267
  let v717 : BitVec 32 := Scalar.addi c480_i32 v716
  let v718 : Index := Scalar.indexCast v717
  ![v718.toNat]

def k1_chk32 (k1_t2 : Fin k1_t2_loop.trips) (v699 : BitVec 32) : Prop :=
  (16 ∣ (k1_mult34 v699).toNat) ∧
  (∀ a, (k1_off67 k1_t2 v699) a + S1x16.size a ≤ S128x128.size a) ∧
  (∀ a, (k1_off68 v699) a + S16.size a ≤ S512.size a)
instance k1_chk32.dec : ∀ (k1_t2 : Fin k1_t2_loop.trips) (v699 : BitVec 32), Decidable (k1_chk32 k1_t2 v699) := fun k1_t2 v699 => decidable_of_iff' _ (Iff.of_eq (k1_chk32.eq_1 k1_t2 v699))
theorem k1_mult34_dvd : ∀ (k1_t2 : Fin k1_t2_loop.trips) (v699 : BitVec 32) (k1_hw32 : k1_chk32 k1_t2 v699), 16 ∣ (k1_mult34 v699).toNat := fun k1_t2 v699 k1_hw32 => k1_hw32.1
theorem k1_off67_inb : ∀ (k1_t2 : Fin k1_t2_loop.trips) (v699 : BitVec 32) (k1_hw32 : k1_chk32 k1_t2 v699), ∀ a, (k1_off67 k1_t2 v699) a + S1x16.size a ≤ S128x128.size a := fun k1_t2 v699 k1_hw32 => k1_hw32.2.1
theorem k1_off68_inb : ∀ (k1_t2 : Fin k1_t2_loop.trips) (v699 : BitVec 32) (k1_hw32 : k1_chk32 k1_t2 v699), ∀ a, (k1_off68 v699) a + S16.size a ≤ S512.size a := fun k1_t2 v699 k1_hw32 => k1_hw32.2.2

def k1_off69 (k1_t2 : Fin k1_t2_loop.trips) : Fin 1 → Nat :=
  let c128_i32_101 : BitVec 32 := 128#32
  let c0_i32_79 : BitVec 32 := 0#32
  let c1_i32_81 : BitVec 32 := 1#32
  let arg15 : BitVec 32 := Scf.iv c0_i32_79 c1_i32_81 k1_t2
  let c16_i32 : BitVec 32 := 16#32
  let v252 : BitVec 32 := Scalar.muli arg15 c16_i32
  let v253 : BitVec 32 := Scalar.addi c128_i32_101 v252
  let v254 : BitVec 32 := v253
  let v725 : Index := Scalar.indexCast v254
  ![v725.toNat]
@[reducible] def k1_t3_loop : Scf.Loop 32 :=
  let c0_i32_89 : BitVec 32 := 0#32
  let c8_i32_90 : BitVec 32 := 8#32
  let v246 : BitVec 32 := Scalar.addi c0_i32_89 c8_i32_90
  let c1_i32_91 : BitVec 32 := 1#32
  ⟨c0_i32_89, v246, c1_i32_91⟩
def k1_mult35 (k1_t3 : Fin k1_t3_loop.trips) : BitVec 32 :=
  let c256_i32_101 : BitVec 32 := 256#32
  let c0_i32_89 : BitVec 32 := 0#32
  let c1_i32_91 : BitVec 32 := 1#32
  let arg15 : BitVec 32 := Scf.iv c0_i32_89 c1_i32_91 k1_t3
  let c16_i32 : BitVec 32 := 16#32
  let v252 : BitVec 32 := Scalar.muli arg15 c16_i32
  let v253 : BitVec 32 := Scalar.addi c256_i32_101 v252
  v253
def k1_off70 (k1_t3 : Fin k1_t3_loop.trips) : Fin 1 → Nat :=
  let c256_i32_101 : BitVec 32 := 256#32
  let c0_i32_89 : BitVec 32 := 0#32
  let c1_i32_91 : BitVec 32 := 1#32
  let arg15 : BitVec 32 := Scf.iv c0_i32_89 c1_i32_91 k1_t3
  let c16_i32 : BitVec 32 := 16#32
  let v252 : BitVec 32 := Scalar.muli arg15 c16_i32
  let v253 : BitVec 32 := Scalar.addi c256_i32_101 v252
  let v254 : BitVec 32 := v253
  let v255 : Index := Scalar.indexCast v254
  ![v255.toNat]
def k1_mult36 (v264 : BitVec 32) : BitVec 32 :=
  let c127_i32 : BitVec 32 := 127#32
  let v265 : BitVec 32 := Scalar.andi v264 c127_i32
  let c112_i32 : BitVec 32 := 112#32
  let v266 : BitVec 32 := Scalar.andi v265 c112_i32
  v266

def k1_off71 (k1_t3 : Fin k1_t3_loop.trips) (v264 : BitVec 32) : Fin 2 → Nat :=
  let c0_i32_89 : BitVec 32 := 0#32
  let c1_i32_91 : BitVec 32 := 1#32
  let arg15 : BitVec 32 := Scf.iv c0_i32_89 c1_i32_91 k1_t3
  let c16_i32_102 : BitVec 32 := 16#32
  let v261 : BitVec 32 := Scalar.muli arg15 c16_i32_102
  let c0_i32_103 : BitVec 32 := 0#32
  let v262 : BitVec 32 := Scalar.addi v261 c0_i32_103
  let v268 : Index := Scalar.indexCast v262
  let c127_i32 : BitVec 32 := 127#32
  let v265 : BitVec 32 := Scalar.andi v264 c127_i32
  let c112_i32 : BitVec 32 := 112#32
  let v266 : BitVec 32 := Scalar.andi v265 c112_i32
  let v267 : BitVec 32 := v266
  let v269 : Index := Scalar.indexCast v267
  ![v268.toNat, v269.toNat]
def k1_off72 (v264 : BitVec 32) : Fin 1 → Nat :=
  let c0_i32_109 : BitVec 32 := 0#32
  let c127_i32 : BitVec 32 := 127#32
  let v265 : BitVec 32 := Scalar.andi v264 c127_i32
  let c15_i32 : BitVec 32 := 15#32
  let v278 : BitVec 32 := Scalar.andi v265 c15_i32
  let c0_i32_106 : BitVec 32 := 0#32
  let v279 : BitVec 32 := Scalar.subi v278 c0_i32_106
  let c16_i32_107 : BitVec 32 := 16#32
  let v280 : BitVec 32 := Scalar.addi v279 c16_i32_107
  let c15_i32_108 : BitVec 32 := 15#32
  let v281 : BitVec 32 := Scalar.andi v280 c15_i32_108
  let v282 : BitVec 32 := Scalar.addi c0_i32_109 v281
  let v283 : Index := Scalar.indexCast v282
  ![v283.toNat]

def k1_chk33 (k1_t3 : Fin k1_t3_loop.trips) (v264 : BitVec 32) : Prop :=
  (16 ∣ (k1_mult36 v264).toNat) ∧
  (∀ a, (k1_off71 k1_t3 v264) a + S1x16.size a ≤ S128x128.size a) ∧
  (∀ a, (k1_off72 v264) a + S16.size a ≤ S512.size a)
instance k1_chk33.dec : ∀ (k1_t3 : Fin k1_t3_loop.trips) (v264 : BitVec 32), Decidable (k1_chk33 k1_t3 v264) := fun k1_t3 v264 => decidable_of_iff' _ (Iff.of_eq (k1_chk33.eq_1 k1_t3 v264))
theorem k1_mult36_dvd : ∀ (k1_t3 : Fin k1_t3_loop.trips) (v264 : BitVec 32) (k1_hw33 : k1_chk33 k1_t3 v264), 16 ∣ (k1_mult36 v264).toNat := fun k1_t3 v264 k1_hw33 => k1_hw33.1
theorem k1_off71_inb : ∀ (k1_t3 : Fin k1_t3_loop.trips) (v264 : BitVec 32) (k1_hw33 : k1_chk33 k1_t3 v264), ∀ a, (k1_off71 k1_t3 v264) a + S1x16.size a ≤ S128x128.size a := fun k1_t3 v264 k1_hw33 => k1_hw33.2.1
theorem k1_off72_inb : ∀ (k1_t3 : Fin k1_t3_loop.trips) (v264 : BitVec 32) (k1_hw33 : k1_chk33 k1_t3 v264), ∀ a, (k1_off72 v264) a + S16.size a ≤ S512.size a := fun k1_t3 v264 k1_hw33 => k1_hw33.2.2

def k1_mult37 (v293 : BitVec 32) : BitVec 32 :=
  let c127_i32_113 : BitVec 32 := 127#32
  let v294 : BitVec 32 := Scalar.andi v293 c127_i32_113
  let c112_i32_114 : BitVec 32 := 112#32
  let v295 : BitVec 32 := Scalar.andi v294 c112_i32_114
  v295

def k1_off73 (k1_t3 : Fin k1_t3_loop.trips) (v293 : BitVec 32) : Fin 2 → Nat :=
  let c0_i32_89 : BitVec 32 := 0#32
  let c1_i32_91 : BitVec 32 := 1#32
  let arg15 : BitVec 32 := Scf.iv c0_i32_89 c1_i32_91 k1_t3
  let c16_i32_111 : BitVec 32 := 16#32
  let v290 : BitVec 32 := Scalar.muli arg15 c16_i32_111
  let c1_i32_112 : BitVec 32 := 1#32
  let v291 : BitVec 32 := Scalar.addi v290 c1_i32_112
  let v297 : Index := Scalar.indexCast v291
  let c127_i32_113 : BitVec 32 := 127#32
  let v294 : BitVec 32 := Scalar.andi v293 c127_i32_113
  let c112_i32_114 : BitVec 32 := 112#32
  let v295 : BitVec 32 := Scalar.andi v294 c112_i32_114
  let v296 : BitVec 32 := v295
  let v298 : Index := Scalar.indexCast v296
  ![v297.toNat, v298.toNat]
def k1_off74 (v293 : BitVec 32) : Fin 1 → Nat :=
  let c32_i32 : BitVec 32 := 32#32
  let c127_i32_113 : BitVec 32 := 127#32
  let v294 : BitVec 32 := Scalar.andi v293 c127_i32_113
  let c15_i32_117 : BitVec 32 := 15#32
  let v307 : BitVec 32 := Scalar.andi v294 c15_i32_117
  let c1_i32_118 : BitVec 32 := 1#32
  let v308 : BitVec 32 := Scalar.subi v307 c1_i32_118
  let c16_i32_119 : BitVec 32 := 16#32
  let v309 : BitVec 32 := Scalar.addi v308 c16_i32_119
  let c15_i32_120 : BitVec 32 := 15#32
  let v310 : BitVec 32 := Scalar.andi v309 c15_i32_120
  let v311 : BitVec 32 := Scalar.addi c32_i32 v310
  let v312 : Index := Scalar.indexCast v311
  ![v312.toNat]

def k1_chk34 (k1_t3 : Fin k1_t3_loop.trips) (v293 : BitVec 32) : Prop :=
  (16 ∣ (k1_mult37 v293).toNat) ∧
  (∀ a, (k1_off73 k1_t3 v293) a + S1x16.size a ≤ S128x128.size a) ∧
  (∀ a, (k1_off74 v293) a + S16.size a ≤ S512.size a)
instance k1_chk34.dec : ∀ (k1_t3 : Fin k1_t3_loop.trips) (v293 : BitVec 32), Decidable (k1_chk34 k1_t3 v293) := fun k1_t3 v293 => decidable_of_iff' _ (Iff.of_eq (k1_chk34.eq_1 k1_t3 v293))
theorem k1_mult37_dvd : ∀ (k1_t3 : Fin k1_t3_loop.trips) (v293 : BitVec 32) (k1_hw34 : k1_chk34 k1_t3 v293), 16 ∣ (k1_mult37 v293).toNat := fun k1_t3 v293 k1_hw34 => k1_hw34.1
theorem k1_off73_inb : ∀ (k1_t3 : Fin k1_t3_loop.trips) (v293 : BitVec 32) (k1_hw34 : k1_chk34 k1_t3 v293), ∀ a, (k1_off73 k1_t3 v293) a + S1x16.size a ≤ S128x128.size a := fun k1_t3 v293 k1_hw34 => k1_hw34.2.1
theorem k1_off74_inb : ∀ (k1_t3 : Fin k1_t3_loop.trips) (v293 : BitVec 32) (k1_hw34 : k1_chk34 k1_t3 v293), ∀ a, (k1_off74 v293) a + S16.size a ≤ S512.size a := fun k1_t3 v293 k1_hw34 => k1_hw34.2.2

def k1_mult38 (v322 : BitVec 32) : BitVec 32 :=
  let c127_i32_124 : BitVec 32 := 127#32
  let v323 : BitVec 32 := Scalar.andi v322 c127_i32_124
  let c112_i32_125 : BitVec 32 := 112#32
  let v324 : BitVec 32 := Scalar.andi v323 c112_i32_125
  v324

def k1_off75 (k1_t3 : Fin k1_t3_loop.trips) (v322 : BitVec 32) : Fin 2 → Nat :=
  let c0_i32_89 : BitVec 32 := 0#32
  let c1_i32_91 : BitVec 32 := 1#32
  let arg15 : BitVec 32 := Scf.iv c0_i32_89 c1_i32_91 k1_t3
  let c16_i32_122 : BitVec 32 := 16#32
  let v319 : BitVec 32 := Scalar.muli arg15 c16_i32_122
  let c2_i32_123 : BitVec 32 := 2#32
  let v320 : BitVec 32 := Scalar.addi v319 c2_i32_123
  let v326 : Index := Scalar.indexCast v320
  let c127_i32_124 : BitVec 32 := 127#32
  let v323 : BitVec 32 := Scalar.andi v322 c127_i32_124
  let c112_i32_125 : BitVec 32 := 112#32
  let v324 : BitVec 32 := Scalar.andi v323 c112_i32_125
  let v325 : BitVec 32 := v324
  let v327 : Index := Scalar.indexCast v325
  ![v326.toNat, v327.toNat]
def k1_off76 (v322 : BitVec 32) : Fin 1 → Nat :=
  let c64_i32 : BitVec 32 := 64#32
  let c127_i32_124 : BitVec 32 := 127#32
  let v323 : BitVec 32 := Scalar.andi v322 c127_i32_124
  let c15_i32_128 : BitVec 32 := 15#32
  let v336 : BitVec 32 := Scalar.andi v323 c15_i32_128
  let c2_i32_129 : BitVec 32 := 2#32
  let v337 : BitVec 32 := Scalar.subi v336 c2_i32_129
  let c16_i32_130 : BitVec 32 := 16#32
  let v338 : BitVec 32 := Scalar.addi v337 c16_i32_130
  let c15_i32_131 : BitVec 32 := 15#32
  let v339 : BitVec 32 := Scalar.andi v338 c15_i32_131
  let v340 : BitVec 32 := Scalar.addi c64_i32 v339
  let v341 : Index := Scalar.indexCast v340
  ![v341.toNat]

def k1_chk35 (k1_t3 : Fin k1_t3_loop.trips) (v322 : BitVec 32) : Prop :=
  (16 ∣ (k1_mult38 v322).toNat) ∧
  (∀ a, (k1_off75 k1_t3 v322) a + S1x16.size a ≤ S128x128.size a) ∧
  (∀ a, (k1_off76 v322) a + S16.size a ≤ S512.size a)
instance k1_chk35.dec : ∀ (k1_t3 : Fin k1_t3_loop.trips) (v322 : BitVec 32), Decidable (k1_chk35 k1_t3 v322) := fun k1_t3 v322 => decidable_of_iff' _ (Iff.of_eq (k1_chk35.eq_1 k1_t3 v322))
theorem k1_mult38_dvd : ∀ (k1_t3 : Fin k1_t3_loop.trips) (v322 : BitVec 32) (k1_hw35 : k1_chk35 k1_t3 v322), 16 ∣ (k1_mult38 v322).toNat := fun k1_t3 v322 k1_hw35 => k1_hw35.1
theorem k1_off75_inb : ∀ (k1_t3 : Fin k1_t3_loop.trips) (v322 : BitVec 32) (k1_hw35 : k1_chk35 k1_t3 v322), ∀ a, (k1_off75 k1_t3 v322) a + S1x16.size a ≤ S128x128.size a := fun k1_t3 v322 k1_hw35 => k1_hw35.2.1
theorem k1_off76_inb : ∀ (k1_t3 : Fin k1_t3_loop.trips) (v322 : BitVec 32) (k1_hw35 : k1_chk35 k1_t3 v322), ∀ a, (k1_off76 v322) a + S16.size a ≤ S512.size a := fun k1_t3 v322 k1_hw35 => k1_hw35.2.2

def k1_mult39 (v351 : BitVec 32) : BitVec 32 :=
  let c127_i32_134 : BitVec 32 := 127#32
  let v352 : BitVec 32 := Scalar.andi v351 c127_i32_134
  let c112_i32_135 : BitVec 32 := 112#32
  let v353 : BitVec 32 := Scalar.andi v352 c112_i32_135
  v353

def k1_off77 (k1_t3 : Fin k1_t3_loop.trips) (v351 : BitVec 32) : Fin 2 → Nat :=
  let c0_i32_89 : BitVec 32 := 0#32
  let c1_i32_91 : BitVec 32 := 1#32
  let arg15 : BitVec 32 := Scf.iv c0_i32_89 c1_i32_91 k1_t3
  let c16_i32_133 : BitVec 32 := 16#32
  let v348 : BitVec 32 := Scalar.muli arg15 c16_i32_133
  let c3_i32 : BitVec 32 := 3#32
  let v349 : BitVec 32 := Scalar.addi v348 c3_i32
  let v355 : Index := Scalar.indexCast v349
  let c127_i32_134 : BitVec 32 := 127#32
  let v352 : BitVec 32 := Scalar.andi v351 c127_i32_134
  let c112_i32_135 : BitVec 32 := 112#32
  let v353 : BitVec 32 := Scalar.andi v352 c112_i32_135
  let v354 : BitVec 32 := v353
  let v356 : Index := Scalar.indexCast v354
  ![v355.toNat, v356.toNat]
def k1_off78 (v351 : BitVec 32) : Fin 1 → Nat :=
  let c96_i32 : BitVec 32 := 96#32
  let c127_i32_134 : BitVec 32 := 127#32
  let v352 : BitVec 32 := Scalar.andi v351 c127_i32_134
  let c15_i32_138 : BitVec 32 := 15#32
  let v365 : BitVec 32 := Scalar.andi v352 c15_i32_138
  let c3_i32_139 : BitVec 32 := 3#32
  let v366 : BitVec 32 := Scalar.subi v365 c3_i32_139
  let c16_i32_140 : BitVec 32 := 16#32
  let v367 : BitVec 32 := Scalar.addi v366 c16_i32_140
  let c15_i32_141 : BitVec 32 := 15#32
  let v368 : BitVec 32 := Scalar.andi v367 c15_i32_141
  let v369 : BitVec 32 := Scalar.addi c96_i32 v368
  let v370 : Index := Scalar.indexCast v369
  ![v370.toNat]

def k1_chk36 (k1_t3 : Fin k1_t3_loop.trips) (v351 : BitVec 32) : Prop :=
  (16 ∣ (k1_mult39 v351).toNat) ∧
  (∀ a, (k1_off77 k1_t3 v351) a + S1x16.size a ≤ S128x128.size a) ∧
  (∀ a, (k1_off78 v351) a + S16.size a ≤ S512.size a)
instance k1_chk36.dec : ∀ (k1_t3 : Fin k1_t3_loop.trips) (v351 : BitVec 32), Decidable (k1_chk36 k1_t3 v351) := fun k1_t3 v351 => decidable_of_iff' _ (Iff.of_eq (k1_chk36.eq_1 k1_t3 v351))
theorem k1_mult39_dvd : ∀ (k1_t3 : Fin k1_t3_loop.trips) (v351 : BitVec 32) (k1_hw36 : k1_chk36 k1_t3 v351), 16 ∣ (k1_mult39 v351).toNat := fun k1_t3 v351 k1_hw36 => k1_hw36.1
theorem k1_off77_inb : ∀ (k1_t3 : Fin k1_t3_loop.trips) (v351 : BitVec 32) (k1_hw36 : k1_chk36 k1_t3 v351), ∀ a, (k1_off77 k1_t3 v351) a + S1x16.size a ≤ S128x128.size a := fun k1_t3 v351 k1_hw36 => k1_hw36.2.1
theorem k1_off78_inb : ∀ (k1_t3 : Fin k1_t3_loop.trips) (v351 : BitVec 32) (k1_hw36 : k1_chk36 k1_t3 v351), ∀ a, (k1_off78 v351) a + S16.size a ≤ S512.size a := fun k1_t3 v351 k1_hw36 => k1_hw36.2.2

def k1_mult40 (v380 : BitVec 32) : BitVec 32 :=
  let c127_i32_144 : BitVec 32 := 127#32
  let v381 : BitVec 32 := Scalar.andi v380 c127_i32_144
  let c112_i32_145 : BitVec 32 := 112#32
  let v382 : BitVec 32 := Scalar.andi v381 c112_i32_145
  v382

def k1_off79 (k1_t3 : Fin k1_t3_loop.trips) (v380 : BitVec 32) : Fin 2 → Nat :=
  let c0_i32_89 : BitVec 32 := 0#32
  let c1_i32_91 : BitVec 32 := 1#32
  let arg15 : BitVec 32 := Scf.iv c0_i32_89 c1_i32_91 k1_t3
  let c16_i32_143 : BitVec 32 := 16#32
  let v377 : BitVec 32 := Scalar.muli arg15 c16_i32_143
  let c4_i32 : BitVec 32 := 4#32
  let v378 : BitVec 32 := Scalar.addi v377 c4_i32
  let v384 : Index := Scalar.indexCast v378
  let c127_i32_144 : BitVec 32 := 127#32
  let v381 : BitVec 32 := Scalar.andi v380 c127_i32_144
  let c112_i32_145 : BitVec 32 := 112#32
  let v382 : BitVec 32 := Scalar.andi v381 c112_i32_145
  let v383 : BitVec 32 := v382
  let v385 : Index := Scalar.indexCast v383
  ![v384.toNat, v385.toNat]
def k1_off80 (v380 : BitVec 32) : Fin 1 → Nat :=
  let c128_i32_152 : BitVec 32 := 128#32
  let c127_i32_144 : BitVec 32 := 127#32
  let v381 : BitVec 32 := Scalar.andi v380 c127_i32_144
  let c15_i32_148 : BitVec 32 := 15#32
  let v394 : BitVec 32 := Scalar.andi v381 c15_i32_148
  let c4_i32_149 : BitVec 32 := 4#32
  let v395 : BitVec 32 := Scalar.subi v394 c4_i32_149
  let c16_i32_150 : BitVec 32 := 16#32
  let v396 : BitVec 32 := Scalar.addi v395 c16_i32_150
  let c15_i32_151 : BitVec 32 := 15#32
  let v397 : BitVec 32 := Scalar.andi v396 c15_i32_151
  let v398 : BitVec 32 := Scalar.addi c128_i32_152 v397
  let v399 : Index := Scalar.indexCast v398
  ![v399.toNat]

def k1_chk37 (k1_t3 : Fin k1_t3_loop.trips) (v380 : BitVec 32) : Prop :=
  (16 ∣ (k1_mult40 v380).toNat) ∧
  (∀ a, (k1_off79 k1_t3 v380) a + S1x16.size a ≤ S128x128.size a) ∧
  (∀ a, (k1_off80 v380) a + S16.size a ≤ S512.size a)
instance k1_chk37.dec : ∀ (k1_t3 : Fin k1_t3_loop.trips) (v380 : BitVec 32), Decidable (k1_chk37 k1_t3 v380) := fun k1_t3 v380 => decidable_of_iff' _ (Iff.of_eq (k1_chk37.eq_1 k1_t3 v380))
theorem k1_mult40_dvd : ∀ (k1_t3 : Fin k1_t3_loop.trips) (v380 : BitVec 32) (k1_hw37 : k1_chk37 k1_t3 v380), 16 ∣ (k1_mult40 v380).toNat := fun k1_t3 v380 k1_hw37 => k1_hw37.1
theorem k1_off79_inb : ∀ (k1_t3 : Fin k1_t3_loop.trips) (v380 : BitVec 32) (k1_hw37 : k1_chk37 k1_t3 v380), ∀ a, (k1_off79 k1_t3 v380) a + S1x16.size a ≤ S128x128.size a := fun k1_t3 v380 k1_hw37 => k1_hw37.2.1
theorem k1_off80_inb : ∀ (k1_t3 : Fin k1_t3_loop.trips) (v380 : BitVec 32) (k1_hw37 : k1_chk37 k1_t3 v380), ∀ a, (k1_off80 v380) a + S16.size a ≤ S512.size a := fun k1_t3 v380 k1_hw37 => k1_hw37.2.2

def k1_mult41 (v409 : BitVec 32) : BitVec 32 :=
  let c127_i32_155 : BitVec 32 := 127#32
  let v410 : BitVec 32 := Scalar.andi v409 c127_i32_155
  let c112_i32_156 : BitVec 32 := 112#32
  let v411 : BitVec 32 := Scalar.andi v410 c112_i32_156
  v411

def k1_off81 (k1_t3 : Fin k1_t3_loop.trips) (v409 : BitVec 32) : Fin 2 → Nat :=
  let c0_i32_89 : BitVec 32 := 0#32
  let c1_i32_91 : BitVec 32 := 1#32
  let arg15 : BitVec 32 := Scf.iv c0_i32_89 c1_i32_91 k1_t3
  let c16_i32_154 : BitVec 32 := 16#32
  let v406 : BitVec 32 := Scalar.muli arg15 c16_i32_154
  let c5_i32 : BitVec 32 := 5#32
  let v407 : BitVec 32 := Scalar.addi v406 c5_i32
  let v413 : Index := Scalar.indexCast v407
  let c127_i32_155 : BitVec 32 := 127#32
  let v410 : BitVec 32 := Scalar.andi v409 c127_i32_155
  let c112_i32_156 : BitVec 32 := 112#32
  let v411 : BitVec 32 := Scalar.andi v410 c112_i32_156
  let v412 : BitVec 32 := v411
  let v414 : Index := Scalar.indexCast v412
  ![v413.toNat, v414.toNat]
def k1_off82 (v409 : BitVec 32) : Fin 1 → Nat :=
  let c160_i32 : BitVec 32 := 160#32
  let c127_i32_155 : BitVec 32 := 127#32
  let v410 : BitVec 32 := Scalar.andi v409 c127_i32_155
  let c15_i32_159 : BitVec 32 := 15#32
  let v423 : BitVec 32 := Scalar.andi v410 c15_i32_159
  let c5_i32_160 : BitVec 32 := 5#32
  let v424 : BitVec 32 := Scalar.subi v423 c5_i32_160
  let c16_i32_161 : BitVec 32 := 16#32
  let v425 : BitVec 32 := Scalar.addi v424 c16_i32_161
  let c15_i32_162 : BitVec 32 := 15#32
  let v426 : BitVec 32 := Scalar.andi v425 c15_i32_162
  let v427 : BitVec 32 := Scalar.addi c160_i32 v426
  let v428 : Index := Scalar.indexCast v427
  ![v428.toNat]

def k1_chk38 (k1_t3 : Fin k1_t3_loop.trips) (v409 : BitVec 32) : Prop :=
  (16 ∣ (k1_mult41 v409).toNat) ∧
  (∀ a, (k1_off81 k1_t3 v409) a + S1x16.size a ≤ S128x128.size a) ∧
  (∀ a, (k1_off82 v409) a + S16.size a ≤ S512.size a)
instance k1_chk38.dec : ∀ (k1_t3 : Fin k1_t3_loop.trips) (v409 : BitVec 32), Decidable (k1_chk38 k1_t3 v409) := fun k1_t3 v409 => decidable_of_iff' _ (Iff.of_eq (k1_chk38.eq_1 k1_t3 v409))
theorem k1_mult41_dvd : ∀ (k1_t3 : Fin k1_t3_loop.trips) (v409 : BitVec 32) (k1_hw38 : k1_chk38 k1_t3 v409), 16 ∣ (k1_mult41 v409).toNat := fun k1_t3 v409 k1_hw38 => k1_hw38.1
theorem k1_off81_inb : ∀ (k1_t3 : Fin k1_t3_loop.trips) (v409 : BitVec 32) (k1_hw38 : k1_chk38 k1_t3 v409), ∀ a, (k1_off81 k1_t3 v409) a + S1x16.size a ≤ S128x128.size a := fun k1_t3 v409 k1_hw38 => k1_hw38.2.1
theorem k1_off82_inb : ∀ (k1_t3 : Fin k1_t3_loop.trips) (v409 : BitVec 32) (k1_hw38 : k1_chk38 k1_t3 v409), ∀ a, (k1_off82 v409) a + S16.size a ≤ S512.size a := fun k1_t3 v409 k1_hw38 => k1_hw38.2.2

def k1_mult42 (v438 : BitVec 32) : BitVec 32 :=
  let c127_i32_165 : BitVec 32 := 127#32
  let v439 : BitVec 32 := Scalar.andi v438 c127_i32_165
  let c112_i32_166 : BitVec 32 := 112#32
  let v440 : BitVec 32 := Scalar.andi v439 c112_i32_166
  v440

def k1_off83 (k1_t3 : Fin k1_t3_loop.trips) (v438 : BitVec 32) : Fin 2 → Nat :=
  let c0_i32_89 : BitVec 32 := 0#32
  let c1_i32_91 : BitVec 32 := 1#32
  let arg15 : BitVec 32 := Scf.iv c0_i32_89 c1_i32_91 k1_t3
  let c16_i32_164 : BitVec 32 := 16#32
  let v435 : BitVec 32 := Scalar.muli arg15 c16_i32_164
  let c6_i32 : BitVec 32 := 6#32
  let v436 : BitVec 32 := Scalar.addi v435 c6_i32
  let v442 : Index := Scalar.indexCast v436
  let c127_i32_165 : BitVec 32 := 127#32
  let v439 : BitVec 32 := Scalar.andi v438 c127_i32_165
  let c112_i32_166 : BitVec 32 := 112#32
  let v440 : BitVec 32 := Scalar.andi v439 c112_i32_166
  let v441 : BitVec 32 := v440
  let v443 : Index := Scalar.indexCast v441
  ![v442.toNat, v443.toNat]
def k1_off84 (v438 : BitVec 32) : Fin 1 → Nat :=
  let c192_i32 : BitVec 32 := 192#32
  let c127_i32_165 : BitVec 32 := 127#32
  let v439 : BitVec 32 := Scalar.andi v438 c127_i32_165
  let c15_i32_169 : BitVec 32 := 15#32
  let v452 : BitVec 32 := Scalar.andi v439 c15_i32_169
  let c6_i32_170 : BitVec 32 := 6#32
  let v453 : BitVec 32 := Scalar.subi v452 c6_i32_170
  let c16_i32_171 : BitVec 32 := 16#32
  let v454 : BitVec 32 := Scalar.addi v453 c16_i32_171
  let c15_i32_172 : BitVec 32 := 15#32
  let v455 : BitVec 32 := Scalar.andi v454 c15_i32_172
  let v456 : BitVec 32 := Scalar.addi c192_i32 v455
  let v457 : Index := Scalar.indexCast v456
  ![v457.toNat]

def k1_chk39 (k1_t3 : Fin k1_t3_loop.trips) (v438 : BitVec 32) : Prop :=
  (16 ∣ (k1_mult42 v438).toNat) ∧
  (∀ a, (k1_off83 k1_t3 v438) a + S1x16.size a ≤ S128x128.size a) ∧
  (∀ a, (k1_off84 v438) a + S16.size a ≤ S512.size a)
instance k1_chk39.dec : ∀ (k1_t3 : Fin k1_t3_loop.trips) (v438 : BitVec 32), Decidable (k1_chk39 k1_t3 v438) := fun k1_t3 v438 => decidable_of_iff' _ (Iff.of_eq (k1_chk39.eq_1 k1_t3 v438))
theorem k1_mult42_dvd : ∀ (k1_t3 : Fin k1_t3_loop.trips) (v438 : BitVec 32) (k1_hw39 : k1_chk39 k1_t3 v438), 16 ∣ (k1_mult42 v438).toNat := fun k1_t3 v438 k1_hw39 => k1_hw39.1
theorem k1_off83_inb : ∀ (k1_t3 : Fin k1_t3_loop.trips) (v438 : BitVec 32) (k1_hw39 : k1_chk39 k1_t3 v438), ∀ a, (k1_off83 k1_t3 v438) a + S1x16.size a ≤ S128x128.size a := fun k1_t3 v438 k1_hw39 => k1_hw39.2.1
theorem k1_off84_inb : ∀ (k1_t3 : Fin k1_t3_loop.trips) (v438 : BitVec 32) (k1_hw39 : k1_chk39 k1_t3 v438), ∀ a, (k1_off84 v438) a + S16.size a ≤ S512.size a := fun k1_t3 v438 k1_hw39 => k1_hw39.2.2

def k1_mult43 (v467 : BitVec 32) : BitVec 32 :=
  let c127_i32_176 : BitVec 32 := 127#32
  let v468 : BitVec 32 := Scalar.andi v467 c127_i32_176
  let c112_i32_177 : BitVec 32 := 112#32
  let v469 : BitVec 32 := Scalar.andi v468 c112_i32_177
  v469

def k1_off85 (k1_t3 : Fin k1_t3_loop.trips) (v467 : BitVec 32) : Fin 2 → Nat :=
  let c0_i32_89 : BitVec 32 := 0#32
  let c1_i32_91 : BitVec 32 := 1#32
  let arg15 : BitVec 32 := Scf.iv c0_i32_89 c1_i32_91 k1_t3
  let c16_i32_174 : BitVec 32 := 16#32
  let v464 : BitVec 32 := Scalar.muli arg15 c16_i32_174
  let c7_i32_175 : BitVec 32 := 7#32
  let v465 : BitVec 32 := Scalar.addi v464 c7_i32_175
  let v471 : Index := Scalar.indexCast v465
  let c127_i32_176 : BitVec 32 := 127#32
  let v468 : BitVec 32 := Scalar.andi v467 c127_i32_176
  let c112_i32_177 : BitVec 32 := 112#32
  let v469 : BitVec 32 := Scalar.andi v468 c112_i32_177
  let v470 : BitVec 32 := v469
  let v472 : Index := Scalar.indexCast v470
  ![v471.toNat, v472.toNat]
def k1_off86 (v467 : BitVec 32) : Fin 1 → Nat :=
  let c224_i32 : BitVec 32 := 224#32
  let c127_i32_176 : BitVec 32 := 127#32
  let v468 : BitVec 32 := Scalar.andi v467 c127_i32_176
  let c15_i32_180 : BitVec 32 := 15#32
  let v481 : BitVec 32 := Scalar.andi v468 c15_i32_180
  let c7_i32_181 : BitVec 32 := 7#32
  let v482 : BitVec 32 := Scalar.subi v481 c7_i32_181
  let c16_i32_182 : BitVec 32 := 16#32
  let v483 : BitVec 32 := Scalar.addi v482 c16_i32_182
  let c15_i32_183 : BitVec 32 := 15#32
  let v484 : BitVec 32 := Scalar.andi v483 c15_i32_183
  let v485 : BitVec 32 := Scalar.addi c224_i32 v484
  let v486 : Index := Scalar.indexCast v485
  ![v486.toNat]

def k1_chk40 (k1_t3 : Fin k1_t3_loop.trips) (v467 : BitVec 32) : Prop :=
  (16 ∣ (k1_mult43 v467).toNat) ∧
  (∀ a, (k1_off85 k1_t3 v467) a + S1x16.size a ≤ S128x128.size a) ∧
  (∀ a, (k1_off86 v467) a + S16.size a ≤ S512.size a)
instance k1_chk40.dec : ∀ (k1_t3 : Fin k1_t3_loop.trips) (v467 : BitVec 32), Decidable (k1_chk40 k1_t3 v467) := fun k1_t3 v467 => decidable_of_iff' _ (Iff.of_eq (k1_chk40.eq_1 k1_t3 v467))
theorem k1_mult43_dvd : ∀ (k1_t3 : Fin k1_t3_loop.trips) (v467 : BitVec 32) (k1_hw40 : k1_chk40 k1_t3 v467), 16 ∣ (k1_mult43 v467).toNat := fun k1_t3 v467 k1_hw40 => k1_hw40.1
theorem k1_off85_inb : ∀ (k1_t3 : Fin k1_t3_loop.trips) (v467 : BitVec 32) (k1_hw40 : k1_chk40 k1_t3 v467), ∀ a, (k1_off85 k1_t3 v467) a + S1x16.size a ≤ S128x128.size a := fun k1_t3 v467 k1_hw40 => k1_hw40.2.1
theorem k1_off86_inb : ∀ (k1_t3 : Fin k1_t3_loop.trips) (v467 : BitVec 32) (k1_hw40 : k1_chk40 k1_t3 v467), ∀ a, (k1_off86 v467) a + S16.size a ≤ S512.size a := fun k1_t3 v467 k1_hw40 => k1_hw40.2.2

def k1_mult44 (v496 : BitVec 32) : BitVec 32 :=
  let c127_i32_187 : BitVec 32 := 127#32
  let v497 : BitVec 32 := Scalar.andi v496 c127_i32_187
  let c112_i32_188 : BitVec 32 := 112#32
  let v498 : BitVec 32 := Scalar.andi v497 c112_i32_188
  v498

def k1_off87 (k1_t3 : Fin k1_t3_loop.trips) (v496 : BitVec 32) : Fin 2 → Nat :=
  let c0_i32_89 : BitVec 32 := 0#32
  let c1_i32_91 : BitVec 32 := 1#32
  let arg15 : BitVec 32 := Scf.iv c0_i32_89 c1_i32_91 k1_t3
  let c16_i32_185 : BitVec 32 := 16#32
  let v493 : BitVec 32 := Scalar.muli arg15 c16_i32_185
  let c8_i32_186 : BitVec 32 := 8#32
  let v494 : BitVec 32 := Scalar.addi v493 c8_i32_186
  let v500 : Index := Scalar.indexCast v494
  let c127_i32_187 : BitVec 32 := 127#32
  let v497 : BitVec 32 := Scalar.andi v496 c127_i32_187
  let c112_i32_188 : BitVec 32 := 112#32
  let v498 : BitVec 32 := Scalar.andi v497 c112_i32_188
  let v499 : BitVec 32 := v498
  let v501 : Index := Scalar.indexCast v499
  ![v500.toNat, v501.toNat]
def k1_off88 (v496 : BitVec 32) : Fin 1 → Nat :=
  let c256_i32_195 : BitVec 32 := 256#32
  let c127_i32_187 : BitVec 32 := 127#32
  let v497 : BitVec 32 := Scalar.andi v496 c127_i32_187
  let c15_i32_191 : BitVec 32 := 15#32
  let v510 : BitVec 32 := Scalar.andi v497 c15_i32_191
  let c8_i32_192 : BitVec 32 := 8#32
  let v511 : BitVec 32 := Scalar.subi v510 c8_i32_192
  let c16_i32_193 : BitVec 32 := 16#32
  let v512 : BitVec 32 := Scalar.addi v511 c16_i32_193
  let c15_i32_194 : BitVec 32 := 15#32
  let v513 : BitVec 32 := Scalar.andi v512 c15_i32_194
  let v514 : BitVec 32 := Scalar.addi c256_i32_195 v513
  let v515 : Index := Scalar.indexCast v514
  ![v515.toNat]

def k1_chk41 (k1_t3 : Fin k1_t3_loop.trips) (v496 : BitVec 32) : Prop :=
  (16 ∣ (k1_mult44 v496).toNat) ∧
  (∀ a, (k1_off87 k1_t3 v496) a + S1x16.size a ≤ S128x128.size a) ∧
  (∀ a, (k1_off88 v496) a + S16.size a ≤ S512.size a)
instance k1_chk41.dec : ∀ (k1_t3 : Fin k1_t3_loop.trips) (v496 : BitVec 32), Decidable (k1_chk41 k1_t3 v496) := fun k1_t3 v496 => decidable_of_iff' _ (Iff.of_eq (k1_chk41.eq_1 k1_t3 v496))
theorem k1_mult44_dvd : ∀ (k1_t3 : Fin k1_t3_loop.trips) (v496 : BitVec 32) (k1_hw41 : k1_chk41 k1_t3 v496), 16 ∣ (k1_mult44 v496).toNat := fun k1_t3 v496 k1_hw41 => k1_hw41.1
theorem k1_off87_inb : ∀ (k1_t3 : Fin k1_t3_loop.trips) (v496 : BitVec 32) (k1_hw41 : k1_chk41 k1_t3 v496), ∀ a, (k1_off87 k1_t3 v496) a + S1x16.size a ≤ S128x128.size a := fun k1_t3 v496 k1_hw41 => k1_hw41.2.1
theorem k1_off88_inb : ∀ (k1_t3 : Fin k1_t3_loop.trips) (v496 : BitVec 32) (k1_hw41 : k1_chk41 k1_t3 v496), ∀ a, (k1_off88 v496) a + S16.size a ≤ S512.size a := fun k1_t3 v496 k1_hw41 => k1_hw41.2.2

def k1_mult45 (v525 : BitVec 32) : BitVec 32 :=
  let c127_i32_198 : BitVec 32 := 127#32
  let v526 : BitVec 32 := Scalar.andi v525 c127_i32_198
  let c112_i32_199 : BitVec 32 := 112#32
  let v527 : BitVec 32 := Scalar.andi v526 c112_i32_199
  v527

def k1_off89 (k1_t3 : Fin k1_t3_loop.trips) (v525 : BitVec 32) : Fin 2 → Nat :=
  let c0_i32_89 : BitVec 32 := 0#32
  let c1_i32_91 : BitVec 32 := 1#32
  let arg15 : BitVec 32 := Scf.iv c0_i32_89 c1_i32_91 k1_t3
  let c16_i32_197 : BitVec 32 := 16#32
  let v522 : BitVec 32 := Scalar.muli arg15 c16_i32_197
  let c9_i32 : BitVec 32 := 9#32
  let v523 : BitVec 32 := Scalar.addi v522 c9_i32
  let v529 : Index := Scalar.indexCast v523
  let c127_i32_198 : BitVec 32 := 127#32
  let v526 : BitVec 32 := Scalar.andi v525 c127_i32_198
  let c112_i32_199 : BitVec 32 := 112#32
  let v527 : BitVec 32 := Scalar.andi v526 c112_i32_199
  let v528 : BitVec 32 := v527
  let v530 : Index := Scalar.indexCast v528
  ![v529.toNat, v530.toNat]
def k1_off90 (v525 : BitVec 32) : Fin 1 → Nat :=
  let c288_i32 : BitVec 32 := 288#32
  let c127_i32_198 : BitVec 32 := 127#32
  let v526 : BitVec 32 := Scalar.andi v525 c127_i32_198
  let c15_i32_202 : BitVec 32 := 15#32
  let v539 : BitVec 32 := Scalar.andi v526 c15_i32_202
  let c9_i32_203 : BitVec 32 := 9#32
  let v540 : BitVec 32 := Scalar.subi v539 c9_i32_203
  let c16_i32_204 : BitVec 32 := 16#32
  let v541 : BitVec 32 := Scalar.addi v540 c16_i32_204
  let c15_i32_205 : BitVec 32 := 15#32
  let v542 : BitVec 32 := Scalar.andi v541 c15_i32_205
  let v543 : BitVec 32 := Scalar.addi c288_i32 v542
  let v544 : Index := Scalar.indexCast v543
  ![v544.toNat]

def k1_chk42 (k1_t3 : Fin k1_t3_loop.trips) (v525 : BitVec 32) : Prop :=
  (16 ∣ (k1_mult45 v525).toNat) ∧
  (∀ a, (k1_off89 k1_t3 v525) a + S1x16.size a ≤ S128x128.size a) ∧
  (∀ a, (k1_off90 v525) a + S16.size a ≤ S512.size a)
instance k1_chk42.dec : ∀ (k1_t3 : Fin k1_t3_loop.trips) (v525 : BitVec 32), Decidable (k1_chk42 k1_t3 v525) := fun k1_t3 v525 => decidable_of_iff' _ (Iff.of_eq (k1_chk42.eq_1 k1_t3 v525))
theorem k1_mult45_dvd : ∀ (k1_t3 : Fin k1_t3_loop.trips) (v525 : BitVec 32) (k1_hw42 : k1_chk42 k1_t3 v525), 16 ∣ (k1_mult45 v525).toNat := fun k1_t3 v525 k1_hw42 => k1_hw42.1
theorem k1_off89_inb : ∀ (k1_t3 : Fin k1_t3_loop.trips) (v525 : BitVec 32) (k1_hw42 : k1_chk42 k1_t3 v525), ∀ a, (k1_off89 k1_t3 v525) a + S1x16.size a ≤ S128x128.size a := fun k1_t3 v525 k1_hw42 => k1_hw42.2.1
theorem k1_off90_inb : ∀ (k1_t3 : Fin k1_t3_loop.trips) (v525 : BitVec 32) (k1_hw42 : k1_chk42 k1_t3 v525), ∀ a, (k1_off90 v525) a + S16.size a ≤ S512.size a := fun k1_t3 v525 k1_hw42 => k1_hw42.2.2

def k1_mult46 (v554 : BitVec 32) : BitVec 32 :=
  let c127_i32_208 : BitVec 32 := 127#32
  let v555 : BitVec 32 := Scalar.andi v554 c127_i32_208
  let c112_i32_209 : BitVec 32 := 112#32
  let v556 : BitVec 32 := Scalar.andi v555 c112_i32_209
  v556

def k1_off91 (k1_t3 : Fin k1_t3_loop.trips) (v554 : BitVec 32) : Fin 2 → Nat :=
  let c0_i32_89 : BitVec 32 := 0#32
  let c1_i32_91 : BitVec 32 := 1#32
  let arg15 : BitVec 32 := Scf.iv c0_i32_89 c1_i32_91 k1_t3
  let c16_i32_207 : BitVec 32 := 16#32
  let v551 : BitVec 32 := Scalar.muli arg15 c16_i32_207
  let c10_i32 : BitVec 32 := 10#32
  let v552 : BitVec 32 := Scalar.addi v551 c10_i32
  let v558 : Index := Scalar.indexCast v552
  let c127_i32_208 : BitVec 32 := 127#32
  let v555 : BitVec 32 := Scalar.andi v554 c127_i32_208
  let c112_i32_209 : BitVec 32 := 112#32
  let v556 : BitVec 32 := Scalar.andi v555 c112_i32_209
  let v557 : BitVec 32 := v556
  let v559 : Index := Scalar.indexCast v557
  ![v558.toNat, v559.toNat]
def k1_off92 (v554 : BitVec 32) : Fin 1 → Nat :=
  let c320_i32 : BitVec 32 := 320#32
  let c127_i32_208 : BitVec 32 := 127#32
  let v555 : BitVec 32 := Scalar.andi v554 c127_i32_208
  let c15_i32_212 : BitVec 32 := 15#32
  let v568 : BitVec 32 := Scalar.andi v555 c15_i32_212
  let c10_i32_213 : BitVec 32 := 10#32
  let v569 : BitVec 32 := Scalar.subi v568 c10_i32_213
  let c16_i32_214 : BitVec 32 := 16#32
  let v570 : BitVec 32 := Scalar.addi v569 c16_i32_214
  let c15_i32_215 : BitVec 32 := 15#32
  let v571 : BitVec 32 := Scalar.andi v570 c15_i32_215
  let v572 : BitVec 32 := Scalar.addi c320_i32 v571
  let v573 : Index := Scalar.indexCast v572
  ![v573.toNat]

def k1_chk43 (k1_t3 : Fin k1_t3_loop.trips) (v554 : BitVec 32) : Prop :=
  (16 ∣ (k1_mult46 v554).toNat) ∧
  (∀ a, (k1_off91 k1_t3 v554) a + S1x16.size a ≤ S128x128.size a) ∧
  (∀ a, (k1_off92 v554) a + S16.size a ≤ S512.size a)
instance k1_chk43.dec : ∀ (k1_t3 : Fin k1_t3_loop.trips) (v554 : BitVec 32), Decidable (k1_chk43 k1_t3 v554) := fun k1_t3 v554 => decidable_of_iff' _ (Iff.of_eq (k1_chk43.eq_1 k1_t3 v554))
theorem k1_mult46_dvd : ∀ (k1_t3 : Fin k1_t3_loop.trips) (v554 : BitVec 32) (k1_hw43 : k1_chk43 k1_t3 v554), 16 ∣ (k1_mult46 v554).toNat := fun k1_t3 v554 k1_hw43 => k1_hw43.1
theorem k1_off91_inb : ∀ (k1_t3 : Fin k1_t3_loop.trips) (v554 : BitVec 32) (k1_hw43 : k1_chk43 k1_t3 v554), ∀ a, (k1_off91 k1_t3 v554) a + S1x16.size a ≤ S128x128.size a := fun k1_t3 v554 k1_hw43 => k1_hw43.2.1
theorem k1_off92_inb : ∀ (k1_t3 : Fin k1_t3_loop.trips) (v554 : BitVec 32) (k1_hw43 : k1_chk43 k1_t3 v554), ∀ a, (k1_off92 v554) a + S16.size a ≤ S512.size a := fun k1_t3 v554 k1_hw43 => k1_hw43.2.2

def k1_mult47 (v583 : BitVec 32) : BitVec 32 :=
  let c127_i32_218 : BitVec 32 := 127#32
  let v584 : BitVec 32 := Scalar.andi v583 c127_i32_218
  let c112_i32_219 : BitVec 32 := 112#32
  let v585 : BitVec 32 := Scalar.andi v584 c112_i32_219
  v585

def k1_off93 (k1_t3 : Fin k1_t3_loop.trips) (v583 : BitVec 32) : Fin 2 → Nat :=
  let c0_i32_89 : BitVec 32 := 0#32
  let c1_i32_91 : BitVec 32 := 1#32
  let arg15 : BitVec 32 := Scf.iv c0_i32_89 c1_i32_91 k1_t3
  let c16_i32_217 : BitVec 32 := 16#32
  let v580 : BitVec 32 := Scalar.muli arg15 c16_i32_217
  let c11_i32 : BitVec 32 := 11#32
  let v581 : BitVec 32 := Scalar.addi v580 c11_i32
  let v587 : Index := Scalar.indexCast v581
  let c127_i32_218 : BitVec 32 := 127#32
  let v584 : BitVec 32 := Scalar.andi v583 c127_i32_218
  let c112_i32_219 : BitVec 32 := 112#32
  let v585 : BitVec 32 := Scalar.andi v584 c112_i32_219
  let v586 : BitVec 32 := v585
  let v588 : Index := Scalar.indexCast v586
  ![v587.toNat, v588.toNat]
def k1_off94 (v583 : BitVec 32) : Fin 1 → Nat :=
  let c352_i32 : BitVec 32 := 352#32
  let c127_i32_218 : BitVec 32 := 127#32
  let v584 : BitVec 32 := Scalar.andi v583 c127_i32_218
  let c15_i32_222 : BitVec 32 := 15#32
  let v597 : BitVec 32 := Scalar.andi v584 c15_i32_222
  let c11_i32_223 : BitVec 32 := 11#32
  let v598 : BitVec 32 := Scalar.subi v597 c11_i32_223
  let c16_i32_224 : BitVec 32 := 16#32
  let v599 : BitVec 32 := Scalar.addi v598 c16_i32_224
  let c15_i32_225 : BitVec 32 := 15#32
  let v600 : BitVec 32 := Scalar.andi v599 c15_i32_225
  let v601 : BitVec 32 := Scalar.addi c352_i32 v600
  let v602 : Index := Scalar.indexCast v601
  ![v602.toNat]

def k1_chk44 (k1_t3 : Fin k1_t3_loop.trips) (v583 : BitVec 32) : Prop :=
  (16 ∣ (k1_mult47 v583).toNat) ∧
  (∀ a, (k1_off93 k1_t3 v583) a + S1x16.size a ≤ S128x128.size a) ∧
  (∀ a, (k1_off94 v583) a + S16.size a ≤ S512.size a)
instance k1_chk44.dec : ∀ (k1_t3 : Fin k1_t3_loop.trips) (v583 : BitVec 32), Decidable (k1_chk44 k1_t3 v583) := fun k1_t3 v583 => decidable_of_iff' _ (Iff.of_eq (k1_chk44.eq_1 k1_t3 v583))
theorem k1_mult47_dvd : ∀ (k1_t3 : Fin k1_t3_loop.trips) (v583 : BitVec 32) (k1_hw44 : k1_chk44 k1_t3 v583), 16 ∣ (k1_mult47 v583).toNat := fun k1_t3 v583 k1_hw44 => k1_hw44.1
theorem k1_off93_inb : ∀ (k1_t3 : Fin k1_t3_loop.trips) (v583 : BitVec 32) (k1_hw44 : k1_chk44 k1_t3 v583), ∀ a, (k1_off93 k1_t3 v583) a + S1x16.size a ≤ S128x128.size a := fun k1_t3 v583 k1_hw44 => k1_hw44.2.1
theorem k1_off94_inb : ∀ (k1_t3 : Fin k1_t3_loop.trips) (v583 : BitVec 32) (k1_hw44 : k1_chk44 k1_t3 v583), ∀ a, (k1_off94 v583) a + S16.size a ≤ S512.size a := fun k1_t3 v583 k1_hw44 => k1_hw44.2.2

def k1_mult48 (v612 : BitVec 32) : BitVec 32 :=
  let c127_i32_228 : BitVec 32 := 127#32
  let v613 : BitVec 32 := Scalar.andi v612 c127_i32_228
  let c112_i32_229 : BitVec 32 := 112#32
  let v614 : BitVec 32 := Scalar.andi v613 c112_i32_229
  v614

def k1_off95 (k1_t3 : Fin k1_t3_loop.trips) (v612 : BitVec 32) : Fin 2 → Nat :=
  let c0_i32_89 : BitVec 32 := 0#32
  let c1_i32_91 : BitVec 32 := 1#32
  let arg15 : BitVec 32 := Scf.iv c0_i32_89 c1_i32_91 k1_t3
  let c16_i32_227 : BitVec 32 := 16#32
  let v609 : BitVec 32 := Scalar.muli arg15 c16_i32_227
  let c12_i32 : BitVec 32 := 12#32
  let v610 : BitVec 32 := Scalar.addi v609 c12_i32
  let v616 : Index := Scalar.indexCast v610
  let c127_i32_228 : BitVec 32 := 127#32
  let v613 : BitVec 32 := Scalar.andi v612 c127_i32_228
  let c112_i32_229 : BitVec 32 := 112#32
  let v614 : BitVec 32 := Scalar.andi v613 c112_i32_229
  let v615 : BitVec 32 := v614
  let v617 : Index := Scalar.indexCast v615
  ![v616.toNat, v617.toNat]
def k1_off96 (v612 : BitVec 32) : Fin 1 → Nat :=
  let c384_i32_236 : BitVec 32 := 384#32
  let c127_i32_228 : BitVec 32 := 127#32
  let v613 : BitVec 32 := Scalar.andi v612 c127_i32_228
  let c15_i32_232 : BitVec 32 := 15#32
  let v626 : BitVec 32 := Scalar.andi v613 c15_i32_232
  let c12_i32_233 : BitVec 32 := 12#32
  let v627 : BitVec 32 := Scalar.subi v626 c12_i32_233
  let c16_i32_234 : BitVec 32 := 16#32
  let v628 : BitVec 32 := Scalar.addi v627 c16_i32_234
  let c15_i32_235 : BitVec 32 := 15#32
  let v629 : BitVec 32 := Scalar.andi v628 c15_i32_235
  let v630 : BitVec 32 := Scalar.addi c384_i32_236 v629
  let v631 : Index := Scalar.indexCast v630
  ![v631.toNat]

def k1_chk45 (k1_t3 : Fin k1_t3_loop.trips) (v612 : BitVec 32) : Prop :=
  (16 ∣ (k1_mult48 v612).toNat) ∧
  (∀ a, (k1_off95 k1_t3 v612) a + S1x16.size a ≤ S128x128.size a) ∧
  (∀ a, (k1_off96 v612) a + S16.size a ≤ S512.size a)
instance k1_chk45.dec : ∀ (k1_t3 : Fin k1_t3_loop.trips) (v612 : BitVec 32), Decidable (k1_chk45 k1_t3 v612) := fun k1_t3 v612 => decidable_of_iff' _ (Iff.of_eq (k1_chk45.eq_1 k1_t3 v612))
theorem k1_mult48_dvd : ∀ (k1_t3 : Fin k1_t3_loop.trips) (v612 : BitVec 32) (k1_hw45 : k1_chk45 k1_t3 v612), 16 ∣ (k1_mult48 v612).toNat := fun k1_t3 v612 k1_hw45 => k1_hw45.1
theorem k1_off95_inb : ∀ (k1_t3 : Fin k1_t3_loop.trips) (v612 : BitVec 32) (k1_hw45 : k1_chk45 k1_t3 v612), ∀ a, (k1_off95 k1_t3 v612) a + S1x16.size a ≤ S128x128.size a := fun k1_t3 v612 k1_hw45 => k1_hw45.2.1
theorem k1_off96_inb : ∀ (k1_t3 : Fin k1_t3_loop.trips) (v612 : BitVec 32) (k1_hw45 : k1_chk45 k1_t3 v612), ∀ a, (k1_off96 v612) a + S16.size a ≤ S512.size a := fun k1_t3 v612 k1_hw45 => k1_hw45.2.2

def k1_mult49 (v641 : BitVec 32) : BitVec 32 :=
  let c127_i32_239 : BitVec 32 := 127#32
  let v642 : BitVec 32 := Scalar.andi v641 c127_i32_239
  let c112_i32_240 : BitVec 32 := 112#32
  let v643 : BitVec 32 := Scalar.andi v642 c112_i32_240
  v643

def k1_off97 (k1_t3 : Fin k1_t3_loop.trips) (v641 : BitVec 32) : Fin 2 → Nat :=
  let c0_i32_89 : BitVec 32 := 0#32
  let c1_i32_91 : BitVec 32 := 1#32
  let arg15 : BitVec 32 := Scf.iv c0_i32_89 c1_i32_91 k1_t3
  let c16_i32_238 : BitVec 32 := 16#32
  let v638 : BitVec 32 := Scalar.muli arg15 c16_i32_238
  let c13_i32 : BitVec 32 := 13#32
  let v639 : BitVec 32 := Scalar.addi v638 c13_i32
  let v645 : Index := Scalar.indexCast v639
  let c127_i32_239 : BitVec 32 := 127#32
  let v642 : BitVec 32 := Scalar.andi v641 c127_i32_239
  let c112_i32_240 : BitVec 32 := 112#32
  let v643 : BitVec 32 := Scalar.andi v642 c112_i32_240
  let v644 : BitVec 32 := v643
  let v646 : Index := Scalar.indexCast v644
  ![v645.toNat, v646.toNat]
def k1_off98 (v641 : BitVec 32) : Fin 1 → Nat :=
  let c416_i32 : BitVec 32 := 416#32
  let c127_i32_239 : BitVec 32 := 127#32
  let v642 : BitVec 32 := Scalar.andi v641 c127_i32_239
  let c15_i32_243 : BitVec 32 := 15#32
  let v655 : BitVec 32 := Scalar.andi v642 c15_i32_243
  let c13_i32_244 : BitVec 32 := 13#32
  let v656 : BitVec 32 := Scalar.subi v655 c13_i32_244
  let c16_i32_245 : BitVec 32 := 16#32
  let v657 : BitVec 32 := Scalar.addi v656 c16_i32_245
  let c15_i32_246 : BitVec 32 := 15#32
  let v658 : BitVec 32 := Scalar.andi v657 c15_i32_246
  let v659 : BitVec 32 := Scalar.addi c416_i32 v658
  let v660 : Index := Scalar.indexCast v659
  ![v660.toNat]

def k1_chk46 (k1_t3 : Fin k1_t3_loop.trips) (v641 : BitVec 32) : Prop :=
  (16 ∣ (k1_mult49 v641).toNat) ∧
  (∀ a, (k1_off97 k1_t3 v641) a + S1x16.size a ≤ S128x128.size a) ∧
  (∀ a, (k1_off98 v641) a + S16.size a ≤ S512.size a)
instance k1_chk46.dec : ∀ (k1_t3 : Fin k1_t3_loop.trips) (v641 : BitVec 32), Decidable (k1_chk46 k1_t3 v641) := fun k1_t3 v641 => decidable_of_iff' _ (Iff.of_eq (k1_chk46.eq_1 k1_t3 v641))
theorem k1_mult49_dvd : ∀ (k1_t3 : Fin k1_t3_loop.trips) (v641 : BitVec 32) (k1_hw46 : k1_chk46 k1_t3 v641), 16 ∣ (k1_mult49 v641).toNat := fun k1_t3 v641 k1_hw46 => k1_hw46.1
theorem k1_off97_inb : ∀ (k1_t3 : Fin k1_t3_loop.trips) (v641 : BitVec 32) (k1_hw46 : k1_chk46 k1_t3 v641), ∀ a, (k1_off97 k1_t3 v641) a + S1x16.size a ≤ S128x128.size a := fun k1_t3 v641 k1_hw46 => k1_hw46.2.1
theorem k1_off98_inb : ∀ (k1_t3 : Fin k1_t3_loop.trips) (v641 : BitVec 32) (k1_hw46 : k1_chk46 k1_t3 v641), ∀ a, (k1_off98 v641) a + S16.size a ≤ S512.size a := fun k1_t3 v641 k1_hw46 => k1_hw46.2.2

def k1_mult50 (v670 : BitVec 32) : BitVec 32 :=
  let c127_i32_249 : BitVec 32 := 127#32
  let v671 : BitVec 32 := Scalar.andi v670 c127_i32_249
  let c112_i32_250 : BitVec 32 := 112#32
  let v672 : BitVec 32 := Scalar.andi v671 c112_i32_250
  v672

def k1_off99 (k1_t3 : Fin k1_t3_loop.trips) (v670 : BitVec 32) : Fin 2 → Nat :=
  let c0_i32_89 : BitVec 32 := 0#32
  let c1_i32_91 : BitVec 32 := 1#32
  let arg15 : BitVec 32 := Scf.iv c0_i32_89 c1_i32_91 k1_t3
  let c16_i32_248 : BitVec 32 := 16#32
  let v667 : BitVec 32 := Scalar.muli arg15 c16_i32_248
  let c14_i32 : BitVec 32 := 14#32
  let v668 : BitVec 32 := Scalar.addi v667 c14_i32
  let v674 : Index := Scalar.indexCast v668
  let c127_i32_249 : BitVec 32 := 127#32
  let v671 : BitVec 32 := Scalar.andi v670 c127_i32_249
  let c112_i32_250 : BitVec 32 := 112#32
  let v672 : BitVec 32 := Scalar.andi v671 c112_i32_250
  let v673 : BitVec 32 := v672
  let v675 : Index := Scalar.indexCast v673
  ![v674.toNat, v675.toNat]
def k1_off100 (v670 : BitVec 32) : Fin 1 → Nat :=
  let c448_i32 : BitVec 32 := 448#32
  let c127_i32_249 : BitVec 32 := 127#32
  let v671 : BitVec 32 := Scalar.andi v670 c127_i32_249
  let c15_i32_253 : BitVec 32 := 15#32
  let v684 : BitVec 32 := Scalar.andi v671 c15_i32_253
  let c14_i32_254 : BitVec 32 := 14#32
  let v685 : BitVec 32 := Scalar.subi v684 c14_i32_254
  let c16_i32_255 : BitVec 32 := 16#32
  let v686 : BitVec 32 := Scalar.addi v685 c16_i32_255
  let c15_i32_256 : BitVec 32 := 15#32
  let v687 : BitVec 32 := Scalar.andi v686 c15_i32_256
  let v688 : BitVec 32 := Scalar.addi c448_i32 v687
  let v689 : Index := Scalar.indexCast v688
  ![v689.toNat]

def k1_chk47 (k1_t3 : Fin k1_t3_loop.trips) (v670 : BitVec 32) : Prop :=
  (16 ∣ (k1_mult50 v670).toNat) ∧
  (∀ a, (k1_off99 k1_t3 v670) a + S1x16.size a ≤ S128x128.size a) ∧
  (∀ a, (k1_off100 v670) a + S16.size a ≤ S512.size a)
instance k1_chk47.dec : ∀ (k1_t3 : Fin k1_t3_loop.trips) (v670 : BitVec 32), Decidable (k1_chk47 k1_t3 v670) := fun k1_t3 v670 => decidable_of_iff' _ (Iff.of_eq (k1_chk47.eq_1 k1_t3 v670))
theorem k1_mult50_dvd : ∀ (k1_t3 : Fin k1_t3_loop.trips) (v670 : BitVec 32) (k1_hw47 : k1_chk47 k1_t3 v670), 16 ∣ (k1_mult50 v670).toNat := fun k1_t3 v670 k1_hw47 => k1_hw47.1
theorem k1_off99_inb : ∀ (k1_t3 : Fin k1_t3_loop.trips) (v670 : BitVec 32) (k1_hw47 : k1_chk47 k1_t3 v670), ∀ a, (k1_off99 k1_t3 v670) a + S1x16.size a ≤ S128x128.size a := fun k1_t3 v670 k1_hw47 => k1_hw47.2.1
theorem k1_off100_inb : ∀ (k1_t3 : Fin k1_t3_loop.trips) (v670 : BitVec 32) (k1_hw47 : k1_chk47 k1_t3 v670), ∀ a, (k1_off100 v670) a + S16.size a ≤ S512.size a := fun k1_t3 v670 k1_hw47 => k1_hw47.2.2

def k1_mult51 (v699 : BitVec 32) : BitVec 32 :=
  let c127_i32_260 : BitVec 32 := 127#32
  let v700 : BitVec 32 := Scalar.andi v699 c127_i32_260
  let c112_i32_261 : BitVec 32 := 112#32
  let v701 : BitVec 32 := Scalar.andi v700 c112_i32_261
  v701

def k1_off101 (k1_t3 : Fin k1_t3_loop.trips) (v699 : BitVec 32) : Fin 2 → Nat :=
  let c0_i32_89 : BitVec 32 := 0#32
  let c1_i32_91 : BitVec 32 := 1#32
  let arg15 : BitVec 32 := Scf.iv c0_i32_89 c1_i32_91 k1_t3
  let c16_i32_258 : BitVec 32 := 16#32
  let v696 : BitVec 32 := Scalar.muli arg15 c16_i32_258
  let c15_i32_259 : BitVec 32 := 15#32
  let v697 : BitVec 32 := Scalar.addi v696 c15_i32_259
  let v703 : Index := Scalar.indexCast v697
  let c127_i32_260 : BitVec 32 := 127#32
  let v700 : BitVec 32 := Scalar.andi v699 c127_i32_260
  let c112_i32_261 : BitVec 32 := 112#32
  let v701 : BitVec 32 := Scalar.andi v700 c112_i32_261
  let v702 : BitVec 32 := v701
  let v704 : Index := Scalar.indexCast v702
  ![v703.toNat, v704.toNat]
def k1_off102 (v699 : BitVec 32) : Fin 1 → Nat :=
  let c480_i32 : BitVec 32 := 480#32
  let c127_i32_260 : BitVec 32 := 127#32
  let v700 : BitVec 32 := Scalar.andi v699 c127_i32_260
  let c15_i32_264 : BitVec 32 := 15#32
  let v713 : BitVec 32 := Scalar.andi v700 c15_i32_264
  let c15_i32_265 : BitVec 32 := 15#32
  let v714 : BitVec 32 := Scalar.subi v713 c15_i32_265
  let c16_i32_266 : BitVec 32 := 16#32
  let v715 : BitVec 32 := Scalar.addi v714 c16_i32_266
  let c15_i32_267 : BitVec 32 := 15#32
  let v716 : BitVec 32 := Scalar.andi v715 c15_i32_267
  let v717 : BitVec 32 := Scalar.addi c480_i32 v716
  let v718 : Index := Scalar.indexCast v717
  ![v718.toNat]

def k1_chk48 (k1_t3 : Fin k1_t3_loop.trips) (v699 : BitVec 32) : Prop :=
  (16 ∣ (k1_mult51 v699).toNat) ∧
  (∀ a, (k1_off101 k1_t3 v699) a + S1x16.size a ≤ S128x128.size a) ∧
  (∀ a, (k1_off102 v699) a + S16.size a ≤ S512.size a)
instance k1_chk48.dec : ∀ (k1_t3 : Fin k1_t3_loop.trips) (v699 : BitVec 32), Decidable (k1_chk48 k1_t3 v699) := fun k1_t3 v699 => decidable_of_iff' _ (Iff.of_eq (k1_chk48.eq_1 k1_t3 v699))
theorem k1_mult51_dvd : ∀ (k1_t3 : Fin k1_t3_loop.trips) (v699 : BitVec 32) (k1_hw48 : k1_chk48 k1_t3 v699), 16 ∣ (k1_mult51 v699).toNat := fun k1_t3 v699 k1_hw48 => k1_hw48.1
theorem k1_off101_inb : ∀ (k1_t3 : Fin k1_t3_loop.trips) (v699 : BitVec 32) (k1_hw48 : k1_chk48 k1_t3 v699), ∀ a, (k1_off101 k1_t3 v699) a + S1x16.size a ≤ S128x128.size a := fun k1_t3 v699 k1_hw48 => k1_hw48.2.1
theorem k1_off102_inb : ∀ (k1_t3 : Fin k1_t3_loop.trips) (v699 : BitVec 32) (k1_hw48 : k1_chk48 k1_t3 v699), ∀ a, (k1_off102 v699) a + S16.size a ≤ S512.size a := fun k1_t3 v699 k1_hw48 => k1_hw48.2.2

def k1_off103 (k1_t3 : Fin k1_t3_loop.trips) : Fin 1 → Nat :=
  let c256_i32_101 : BitVec 32 := 256#32
  let c0_i32_89 : BitVec 32 := 0#32
  let c1_i32_91 : BitVec 32 := 1#32
  let arg15 : BitVec 32 := Scf.iv c0_i32_89 c1_i32_91 k1_t3
  let c16_i32 : BitVec 32 := 16#32
  let v252 : BitVec 32 := Scalar.muli arg15 c16_i32
  let v253 : BitVec 32 := Scalar.addi c256_i32_101 v252
  let v254 : BitVec 32 := v253
  let v725 : Index := Scalar.indexCast v254
  ![v725.toNat]
@[reducible] def k1_t4_loop : Scf.Loop 32 :=
  let c0_i32_97 : BitVec 32 := 0#32
  let c8_i32_98 : BitVec 32 := 8#32
  let v250 : BitVec 32 := Scalar.addi c0_i32_97 c8_i32_98
  let c1_i32_99 : BitVec 32 := 1#32
  ⟨c0_i32_97, v250, c1_i32_99⟩
def k1_mult52 (k1_t4 : Fin k1_t4_loop.trips) : BitVec 32 :=
  let c384_i32_101 : BitVec 32 := 384#32
  let c0_i32_97 : BitVec 32 := 0#32
  let c1_i32_99 : BitVec 32 := 1#32
  let arg15 : BitVec 32 := Scf.iv c0_i32_97 c1_i32_99 k1_t4
  let c16_i32 : BitVec 32 := 16#32
  let v252 : BitVec 32 := Scalar.muli arg15 c16_i32
  let v253 : BitVec 32 := Scalar.addi c384_i32_101 v252
  v253
def k1_off104 (k1_t4 : Fin k1_t4_loop.trips) : Fin 1 → Nat :=
  let c384_i32_101 : BitVec 32 := 384#32
  let c0_i32_97 : BitVec 32 := 0#32
  let c1_i32_99 : BitVec 32 := 1#32
  let arg15 : BitVec 32 := Scf.iv c0_i32_97 c1_i32_99 k1_t4
  let c16_i32 : BitVec 32 := 16#32
  let v252 : BitVec 32 := Scalar.muli arg15 c16_i32
  let v253 : BitVec 32 := Scalar.addi c384_i32_101 v252
  let v254 : BitVec 32 := v253
  let v255 : Index := Scalar.indexCast v254
  ![v255.toNat]
def k1_mult53 (v264 : BitVec 32) : BitVec 32 :=
  let c127_i32 : BitVec 32 := 127#32
  let v265 : BitVec 32 := Scalar.andi v264 c127_i32
  let c112_i32 : BitVec 32 := 112#32
  let v266 : BitVec 32 := Scalar.andi v265 c112_i32
  v266

def k1_off105 (k1_t4 : Fin k1_t4_loop.trips) (v264 : BitVec 32) : Fin 2 → Nat :=
  let c0_i32_97 : BitVec 32 := 0#32
  let c1_i32_99 : BitVec 32 := 1#32
  let arg15 : BitVec 32 := Scf.iv c0_i32_97 c1_i32_99 k1_t4
  let c16_i32_102 : BitVec 32 := 16#32
  let v261 : BitVec 32 := Scalar.muli arg15 c16_i32_102
  let c0_i32_103 : BitVec 32 := 0#32
  let v262 : BitVec 32 := Scalar.addi v261 c0_i32_103
  let v268 : Index := Scalar.indexCast v262
  let c127_i32 : BitVec 32 := 127#32
  let v265 : BitVec 32 := Scalar.andi v264 c127_i32
  let c112_i32 : BitVec 32 := 112#32
  let v266 : BitVec 32 := Scalar.andi v265 c112_i32
  let v267 : BitVec 32 := v266
  let v269 : Index := Scalar.indexCast v267
  ![v268.toNat, v269.toNat]
def k1_off106 (v264 : BitVec 32) : Fin 1 → Nat :=
  let c0_i32_109 : BitVec 32 := 0#32
  let c127_i32 : BitVec 32 := 127#32
  let v265 : BitVec 32 := Scalar.andi v264 c127_i32
  let c15_i32 : BitVec 32 := 15#32
  let v278 : BitVec 32 := Scalar.andi v265 c15_i32
  let c0_i32_106 : BitVec 32 := 0#32
  let v279 : BitVec 32 := Scalar.subi v278 c0_i32_106
  let c16_i32_107 : BitVec 32 := 16#32
  let v280 : BitVec 32 := Scalar.addi v279 c16_i32_107
  let c15_i32_108 : BitVec 32 := 15#32
  let v281 : BitVec 32 := Scalar.andi v280 c15_i32_108
  let v282 : BitVec 32 := Scalar.addi c0_i32_109 v281
  let v283 : Index := Scalar.indexCast v282
  ![v283.toNat]

def k1_chk49 (k1_t4 : Fin k1_t4_loop.trips) (v264 : BitVec 32) : Prop :=
  (16 ∣ (k1_mult53 v264).toNat) ∧
  (∀ a, (k1_off105 k1_t4 v264) a + S1x16.size a ≤ S128x128.size a) ∧
  (∀ a, (k1_off106 v264) a + S16.size a ≤ S512.size a)
instance k1_chk49.dec : ∀ (k1_t4 : Fin k1_t4_loop.trips) (v264 : BitVec 32), Decidable (k1_chk49 k1_t4 v264) := fun k1_t4 v264 => decidable_of_iff' _ (Iff.of_eq (k1_chk49.eq_1 k1_t4 v264))
theorem k1_mult53_dvd : ∀ (k1_t4 : Fin k1_t4_loop.trips) (v264 : BitVec 32) (k1_hw49 : k1_chk49 k1_t4 v264), 16 ∣ (k1_mult53 v264).toNat := fun k1_t4 v264 k1_hw49 => k1_hw49.1
theorem k1_off105_inb : ∀ (k1_t4 : Fin k1_t4_loop.trips) (v264 : BitVec 32) (k1_hw49 : k1_chk49 k1_t4 v264), ∀ a, (k1_off105 k1_t4 v264) a + S1x16.size a ≤ S128x128.size a := fun k1_t4 v264 k1_hw49 => k1_hw49.2.1
theorem k1_off106_inb : ∀ (k1_t4 : Fin k1_t4_loop.trips) (v264 : BitVec 32) (k1_hw49 : k1_chk49 k1_t4 v264), ∀ a, (k1_off106 v264) a + S16.size a ≤ S512.size a := fun k1_t4 v264 k1_hw49 => k1_hw49.2.2

def k1_mult54 (v293 : BitVec 32) : BitVec 32 :=
  let c127_i32_113 : BitVec 32 := 127#32
  let v294 : BitVec 32 := Scalar.andi v293 c127_i32_113
  let c112_i32_114 : BitVec 32 := 112#32
  let v295 : BitVec 32 := Scalar.andi v294 c112_i32_114
  v295

def k1_off107 (k1_t4 : Fin k1_t4_loop.trips) (v293 : BitVec 32) : Fin 2 → Nat :=
  let c0_i32_97 : BitVec 32 := 0#32
  let c1_i32_99 : BitVec 32 := 1#32
  let arg15 : BitVec 32 := Scf.iv c0_i32_97 c1_i32_99 k1_t4
  let c16_i32_111 : BitVec 32 := 16#32
  let v290 : BitVec 32 := Scalar.muli arg15 c16_i32_111
  let c1_i32_112 : BitVec 32 := 1#32
  let v291 : BitVec 32 := Scalar.addi v290 c1_i32_112
  let v297 : Index := Scalar.indexCast v291
  let c127_i32_113 : BitVec 32 := 127#32
  let v294 : BitVec 32 := Scalar.andi v293 c127_i32_113
  let c112_i32_114 : BitVec 32 := 112#32
  let v295 : BitVec 32 := Scalar.andi v294 c112_i32_114
  let v296 : BitVec 32 := v295
  let v298 : Index := Scalar.indexCast v296
  ![v297.toNat, v298.toNat]
def k1_off108 (v293 : BitVec 32) : Fin 1 → Nat :=
  let c32_i32 : BitVec 32 := 32#32
  let c127_i32_113 : BitVec 32 := 127#32
  let v294 : BitVec 32 := Scalar.andi v293 c127_i32_113
  let c15_i32_117 : BitVec 32 := 15#32
  let v307 : BitVec 32 := Scalar.andi v294 c15_i32_117
  let c1_i32_118 : BitVec 32 := 1#32
  let v308 : BitVec 32 := Scalar.subi v307 c1_i32_118
  let c16_i32_119 : BitVec 32 := 16#32
  let v309 : BitVec 32 := Scalar.addi v308 c16_i32_119
  let c15_i32_120 : BitVec 32 := 15#32
  let v310 : BitVec 32 := Scalar.andi v309 c15_i32_120
  let v311 : BitVec 32 := Scalar.addi c32_i32 v310
  let v312 : Index := Scalar.indexCast v311
  ![v312.toNat]

def k1_chk50 (k1_t4 : Fin k1_t4_loop.trips) (v293 : BitVec 32) : Prop :=
  (16 ∣ (k1_mult54 v293).toNat) ∧
  (∀ a, (k1_off107 k1_t4 v293) a + S1x16.size a ≤ S128x128.size a) ∧
  (∀ a, (k1_off108 v293) a + S16.size a ≤ S512.size a)
instance k1_chk50.dec : ∀ (k1_t4 : Fin k1_t4_loop.trips) (v293 : BitVec 32), Decidable (k1_chk50 k1_t4 v293) := fun k1_t4 v293 => decidable_of_iff' _ (Iff.of_eq (k1_chk50.eq_1 k1_t4 v293))
theorem k1_mult54_dvd : ∀ (k1_t4 : Fin k1_t4_loop.trips) (v293 : BitVec 32) (k1_hw50 : k1_chk50 k1_t4 v293), 16 ∣ (k1_mult54 v293).toNat := fun k1_t4 v293 k1_hw50 => k1_hw50.1
theorem k1_off107_inb : ∀ (k1_t4 : Fin k1_t4_loop.trips) (v293 : BitVec 32) (k1_hw50 : k1_chk50 k1_t4 v293), ∀ a, (k1_off107 k1_t4 v293) a + S1x16.size a ≤ S128x128.size a := fun k1_t4 v293 k1_hw50 => k1_hw50.2.1
theorem k1_off108_inb : ∀ (k1_t4 : Fin k1_t4_loop.trips) (v293 : BitVec 32) (k1_hw50 : k1_chk50 k1_t4 v293), ∀ a, (k1_off108 v293) a + S16.size a ≤ S512.size a := fun k1_t4 v293 k1_hw50 => k1_hw50.2.2

def k1_mult55 (v322 : BitVec 32) : BitVec 32 :=
  let c127_i32_124 : BitVec 32 := 127#32
  let v323 : BitVec 32 := Scalar.andi v322 c127_i32_124
  let c112_i32_125 : BitVec 32 := 112#32
  let v324 : BitVec 32 := Scalar.andi v323 c112_i32_125
  v324

def k1_off109 (k1_t4 : Fin k1_t4_loop.trips) (v322 : BitVec 32) : Fin 2 → Nat :=
  let c0_i32_97 : BitVec 32 := 0#32
  let c1_i32_99 : BitVec 32 := 1#32
  let arg15 : BitVec 32 := Scf.iv c0_i32_97 c1_i32_99 k1_t4
  let c16_i32_122 : BitVec 32 := 16#32
  let v319 : BitVec 32 := Scalar.muli arg15 c16_i32_122
  let c2_i32_123 : BitVec 32 := 2#32
  let v320 : BitVec 32 := Scalar.addi v319 c2_i32_123
  let v326 : Index := Scalar.indexCast v320
  let c127_i32_124 : BitVec 32 := 127#32
  let v323 : BitVec 32 := Scalar.andi v322 c127_i32_124
  let c112_i32_125 : BitVec 32 := 112#32
  let v324 : BitVec 32 := Scalar.andi v323 c112_i32_125
  let v325 : BitVec 32 := v324
  let v327 : Index := Scalar.indexCast v325
  ![v326.toNat, v327.toNat]
def k1_off110 (v322 : BitVec 32) : Fin 1 → Nat :=
  let c64_i32 : BitVec 32 := 64#32
  let c127_i32_124 : BitVec 32 := 127#32
  let v323 : BitVec 32 := Scalar.andi v322 c127_i32_124
  let c15_i32_128 : BitVec 32 := 15#32
  let v336 : BitVec 32 := Scalar.andi v323 c15_i32_128
  let c2_i32_129 : BitVec 32 := 2#32
  let v337 : BitVec 32 := Scalar.subi v336 c2_i32_129
  let c16_i32_130 : BitVec 32 := 16#32
  let v338 : BitVec 32 := Scalar.addi v337 c16_i32_130
  let c15_i32_131 : BitVec 32 := 15#32
  let v339 : BitVec 32 := Scalar.andi v338 c15_i32_131
  let v340 : BitVec 32 := Scalar.addi c64_i32 v339
  let v341 : Index := Scalar.indexCast v340
  ![v341.toNat]

def k1_chk51 (k1_t4 : Fin k1_t4_loop.trips) (v322 : BitVec 32) : Prop :=
  (16 ∣ (k1_mult55 v322).toNat) ∧
  (∀ a, (k1_off109 k1_t4 v322) a + S1x16.size a ≤ S128x128.size a) ∧
  (∀ a, (k1_off110 v322) a + S16.size a ≤ S512.size a)
instance k1_chk51.dec : ∀ (k1_t4 : Fin k1_t4_loop.trips) (v322 : BitVec 32), Decidable (k1_chk51 k1_t4 v322) := fun k1_t4 v322 => decidable_of_iff' _ (Iff.of_eq (k1_chk51.eq_1 k1_t4 v322))
theorem k1_mult55_dvd : ∀ (k1_t4 : Fin k1_t4_loop.trips) (v322 : BitVec 32) (k1_hw51 : k1_chk51 k1_t4 v322), 16 ∣ (k1_mult55 v322).toNat := fun k1_t4 v322 k1_hw51 => k1_hw51.1
theorem k1_off109_inb : ∀ (k1_t4 : Fin k1_t4_loop.trips) (v322 : BitVec 32) (k1_hw51 : k1_chk51 k1_t4 v322), ∀ a, (k1_off109 k1_t4 v322) a + S1x16.size a ≤ S128x128.size a := fun k1_t4 v322 k1_hw51 => k1_hw51.2.1
theorem k1_off110_inb : ∀ (k1_t4 : Fin k1_t4_loop.trips) (v322 : BitVec 32) (k1_hw51 : k1_chk51 k1_t4 v322), ∀ a, (k1_off110 v322) a + S16.size a ≤ S512.size a := fun k1_t4 v322 k1_hw51 => k1_hw51.2.2

def k1_mult56 (v351 : BitVec 32) : BitVec 32 :=
  let c127_i32_134 : BitVec 32 := 127#32
  let v352 : BitVec 32 := Scalar.andi v351 c127_i32_134
  let c112_i32_135 : BitVec 32 := 112#32
  let v353 : BitVec 32 := Scalar.andi v352 c112_i32_135
  v353

def k1_off111 (k1_t4 : Fin k1_t4_loop.trips) (v351 : BitVec 32) : Fin 2 → Nat :=
  let c0_i32_97 : BitVec 32 := 0#32
  let c1_i32_99 : BitVec 32 := 1#32
  let arg15 : BitVec 32 := Scf.iv c0_i32_97 c1_i32_99 k1_t4
  let c16_i32_133 : BitVec 32 := 16#32
  let v348 : BitVec 32 := Scalar.muli arg15 c16_i32_133
  let c3_i32 : BitVec 32 := 3#32
  let v349 : BitVec 32 := Scalar.addi v348 c3_i32
  let v355 : Index := Scalar.indexCast v349
  let c127_i32_134 : BitVec 32 := 127#32
  let v352 : BitVec 32 := Scalar.andi v351 c127_i32_134
  let c112_i32_135 : BitVec 32 := 112#32
  let v353 : BitVec 32 := Scalar.andi v352 c112_i32_135
  let v354 : BitVec 32 := v353
  let v356 : Index := Scalar.indexCast v354
  ![v355.toNat, v356.toNat]
def k1_off112 (v351 : BitVec 32) : Fin 1 → Nat :=
  let c96_i32 : BitVec 32 := 96#32
  let c127_i32_134 : BitVec 32 := 127#32
  let v352 : BitVec 32 := Scalar.andi v351 c127_i32_134
  let c15_i32_138 : BitVec 32 := 15#32
  let v365 : BitVec 32 := Scalar.andi v352 c15_i32_138
  let c3_i32_139 : BitVec 32 := 3#32
  let v366 : BitVec 32 := Scalar.subi v365 c3_i32_139
  let c16_i32_140 : BitVec 32 := 16#32
  let v367 : BitVec 32 := Scalar.addi v366 c16_i32_140
  let c15_i32_141 : BitVec 32 := 15#32
  let v368 : BitVec 32 := Scalar.andi v367 c15_i32_141
  let v369 : BitVec 32 := Scalar.addi c96_i32 v368
  let v370 : Index := Scalar.indexCast v369
  ![v370.toNat]

def k1_chk52 (k1_t4 : Fin k1_t4_loop.trips) (v351 : BitVec 32) : Prop :=
  (16 ∣ (k1_mult56 v351).toNat) ∧
  (∀ a, (k1_off111 k1_t4 v351) a + S1x16.size a ≤ S128x128.size a) ∧
  (∀ a, (k1_off112 v351) a + S16.size a ≤ S512.size a)
instance k1_chk52.dec : ∀ (k1_t4 : Fin k1_t4_loop.trips) (v351 : BitVec 32), Decidable (k1_chk52 k1_t4 v351) := fun k1_t4 v351 => decidable_of_iff' _ (Iff.of_eq (k1_chk52.eq_1 k1_t4 v351))
theorem k1_mult56_dvd : ∀ (k1_t4 : Fin k1_t4_loop.trips) (v351 : BitVec 32) (k1_hw52 : k1_chk52 k1_t4 v351), 16 ∣ (k1_mult56 v351).toNat := fun k1_t4 v351 k1_hw52 => k1_hw52.1
theorem k1_off111_inb : ∀ (k1_t4 : Fin k1_t4_loop.trips) (v351 : BitVec 32) (k1_hw52 : k1_chk52 k1_t4 v351), ∀ a, (k1_off111 k1_t4 v351) a + S1x16.size a ≤ S128x128.size a := fun k1_t4 v351 k1_hw52 => k1_hw52.2.1
theorem k1_off112_inb : ∀ (k1_t4 : Fin k1_t4_loop.trips) (v351 : BitVec 32) (k1_hw52 : k1_chk52 k1_t4 v351), ∀ a, (k1_off112 v351) a + S16.size a ≤ S512.size a := fun k1_t4 v351 k1_hw52 => k1_hw52.2.2

def k1_mult57 (v380 : BitVec 32) : BitVec 32 :=
  let c127_i32_144 : BitVec 32 := 127#32
  let v381 : BitVec 32 := Scalar.andi v380 c127_i32_144
  let c112_i32_145 : BitVec 32 := 112#32
  let v382 : BitVec 32 := Scalar.andi v381 c112_i32_145
  v382

def k1_off113 (k1_t4 : Fin k1_t4_loop.trips) (v380 : BitVec 32) : Fin 2 → Nat :=
  let c0_i32_97 : BitVec 32 := 0#32
  let c1_i32_99 : BitVec 32 := 1#32
  let arg15 : BitVec 32 := Scf.iv c0_i32_97 c1_i32_99 k1_t4
  let c16_i32_143 : BitVec 32 := 16#32
  let v377 : BitVec 32 := Scalar.muli arg15 c16_i32_143
  let c4_i32 : BitVec 32 := 4#32
  let v378 : BitVec 32 := Scalar.addi v377 c4_i32
  let v384 : Index := Scalar.indexCast v378
  let c127_i32_144 : BitVec 32 := 127#32
  let v381 : BitVec 32 := Scalar.andi v380 c127_i32_144
  let c112_i32_145 : BitVec 32 := 112#32
  let v382 : BitVec 32 := Scalar.andi v381 c112_i32_145
  let v383 : BitVec 32 := v382
  let v385 : Index := Scalar.indexCast v383
  ![v384.toNat, v385.toNat]
def k1_off114 (v380 : BitVec 32) : Fin 1 → Nat :=
  let c128_i32_152 : BitVec 32 := 128#32
  let c127_i32_144 : BitVec 32 := 127#32
  let v381 : BitVec 32 := Scalar.andi v380 c127_i32_144
  let c15_i32_148 : BitVec 32 := 15#32
  let v394 : BitVec 32 := Scalar.andi v381 c15_i32_148
  let c4_i32_149 : BitVec 32 := 4#32
  let v395 : BitVec 32 := Scalar.subi v394 c4_i32_149
  let c16_i32_150 : BitVec 32 := 16#32
  let v396 : BitVec 32 := Scalar.addi v395 c16_i32_150
  let c15_i32_151 : BitVec 32 := 15#32
  let v397 : BitVec 32 := Scalar.andi v396 c15_i32_151
  let v398 : BitVec 32 := Scalar.addi c128_i32_152 v397
  let v399 : Index := Scalar.indexCast v398
  ![v399.toNat]

def k1_chk53 (k1_t4 : Fin k1_t4_loop.trips) (v380 : BitVec 32) : Prop :=
  (16 ∣ (k1_mult57 v380).toNat) ∧
  (∀ a, (k1_off113 k1_t4 v380) a + S1x16.size a ≤ S128x128.size a) ∧
  (∀ a, (k1_off114 v380) a + S16.size a ≤ S512.size a)
instance k1_chk53.dec : ∀ (k1_t4 : Fin k1_t4_loop.trips) (v380 : BitVec 32), Decidable (k1_chk53 k1_t4 v380) := fun k1_t4 v380 => decidable_of_iff' _ (Iff.of_eq (k1_chk53.eq_1 k1_t4 v380))
theorem k1_mult57_dvd : ∀ (k1_t4 : Fin k1_t4_loop.trips) (v380 : BitVec 32) (k1_hw53 : k1_chk53 k1_t4 v380), 16 ∣ (k1_mult57 v380).toNat := fun k1_t4 v380 k1_hw53 => k1_hw53.1
theorem k1_off113_inb : ∀ (k1_t4 : Fin k1_t4_loop.trips) (v380 : BitVec 32) (k1_hw53 : k1_chk53 k1_t4 v380), ∀ a, (k1_off113 k1_t4 v380) a + S1x16.size a ≤ S128x128.size a := fun k1_t4 v380 k1_hw53 => k1_hw53.2.1
theorem k1_off114_inb : ∀ (k1_t4 : Fin k1_t4_loop.trips) (v380 : BitVec 32) (k1_hw53 : k1_chk53 k1_t4 v380), ∀ a, (k1_off114 v380) a + S16.size a ≤ S512.size a := fun k1_t4 v380 k1_hw53 => k1_hw53.2.2

def k1_mult58 (v409 : BitVec 32) : BitVec 32 :=
  let c127_i32_155 : BitVec 32 := 127#32
  let v410 : BitVec 32 := Scalar.andi v409 c127_i32_155
  let c112_i32_156 : BitVec 32 := 112#32
  let v411 : BitVec 32 := Scalar.andi v410 c112_i32_156
  v411

def k1_off115 (k1_t4 : Fin k1_t4_loop.trips) (v409 : BitVec 32) : Fin 2 → Nat :=
  let c0_i32_97 : BitVec 32 := 0#32
  let c1_i32_99 : BitVec 32 := 1#32
  let arg15 : BitVec 32 := Scf.iv c0_i32_97 c1_i32_99 k1_t4
  let c16_i32_154 : BitVec 32 := 16#32
  let v406 : BitVec 32 := Scalar.muli arg15 c16_i32_154
  let c5_i32 : BitVec 32 := 5#32
  let v407 : BitVec 32 := Scalar.addi v406 c5_i32
  let v413 : Index := Scalar.indexCast v407
  let c127_i32_155 : BitVec 32 := 127#32
  let v410 : BitVec 32 := Scalar.andi v409 c127_i32_155
  let c112_i32_156 : BitVec 32 := 112#32
  let v411 : BitVec 32 := Scalar.andi v410 c112_i32_156
  let v412 : BitVec 32 := v411
  let v414 : Index := Scalar.indexCast v412
  ![v413.toNat, v414.toNat]
def k1_off116 (v409 : BitVec 32) : Fin 1 → Nat :=
  let c160_i32 : BitVec 32 := 160#32
  let c127_i32_155 : BitVec 32 := 127#32
  let v410 : BitVec 32 := Scalar.andi v409 c127_i32_155
  let c15_i32_159 : BitVec 32 := 15#32
  let v423 : BitVec 32 := Scalar.andi v410 c15_i32_159
  let c5_i32_160 : BitVec 32 := 5#32
  let v424 : BitVec 32 := Scalar.subi v423 c5_i32_160
  let c16_i32_161 : BitVec 32 := 16#32
  let v425 : BitVec 32 := Scalar.addi v424 c16_i32_161
  let c15_i32_162 : BitVec 32 := 15#32
  let v426 : BitVec 32 := Scalar.andi v425 c15_i32_162
  let v427 : BitVec 32 := Scalar.addi c160_i32 v426
  let v428 : Index := Scalar.indexCast v427
  ![v428.toNat]

def k1_chk54 (k1_t4 : Fin k1_t4_loop.trips) (v409 : BitVec 32) : Prop :=
  (16 ∣ (k1_mult58 v409).toNat) ∧
  (∀ a, (k1_off115 k1_t4 v409) a + S1x16.size a ≤ S128x128.size a) ∧
  (∀ a, (k1_off116 v409) a + S16.size a ≤ S512.size a)
instance k1_chk54.dec : ∀ (k1_t4 : Fin k1_t4_loop.trips) (v409 : BitVec 32), Decidable (k1_chk54 k1_t4 v409) := fun k1_t4 v409 => decidable_of_iff' _ (Iff.of_eq (k1_chk54.eq_1 k1_t4 v409))
theorem k1_mult58_dvd : ∀ (k1_t4 : Fin k1_t4_loop.trips) (v409 : BitVec 32) (k1_hw54 : k1_chk54 k1_t4 v409), 16 ∣ (k1_mult58 v409).toNat := fun k1_t4 v409 k1_hw54 => k1_hw54.1
theorem k1_off115_inb : ∀ (k1_t4 : Fin k1_t4_loop.trips) (v409 : BitVec 32) (k1_hw54 : k1_chk54 k1_t4 v409), ∀ a, (k1_off115 k1_t4 v409) a + S1x16.size a ≤ S128x128.size a := fun k1_t4 v409 k1_hw54 => k1_hw54.2.1
theorem k1_off116_inb : ∀ (k1_t4 : Fin k1_t4_loop.trips) (v409 : BitVec 32) (k1_hw54 : k1_chk54 k1_t4 v409), ∀ a, (k1_off116 v409) a + S16.size a ≤ S512.size a := fun k1_t4 v409 k1_hw54 => k1_hw54.2.2

def k1_mult59 (v438 : BitVec 32) : BitVec 32 :=
  let c127_i32_165 : BitVec 32 := 127#32
  let v439 : BitVec 32 := Scalar.andi v438 c127_i32_165
  let c112_i32_166 : BitVec 32 := 112#32
  let v440 : BitVec 32 := Scalar.andi v439 c112_i32_166
  v440

def k1_off117 (k1_t4 : Fin k1_t4_loop.trips) (v438 : BitVec 32) : Fin 2 → Nat :=
  let c0_i32_97 : BitVec 32 := 0#32
  let c1_i32_99 : BitVec 32 := 1#32
  let arg15 : BitVec 32 := Scf.iv c0_i32_97 c1_i32_99 k1_t4
  let c16_i32_164 : BitVec 32 := 16#32
  let v435 : BitVec 32 := Scalar.muli arg15 c16_i32_164
  let c6_i32 : BitVec 32 := 6#32
  let v436 : BitVec 32 := Scalar.addi v435 c6_i32
  let v442 : Index := Scalar.indexCast v436
  let c127_i32_165 : BitVec 32 := 127#32
  let v439 : BitVec 32 := Scalar.andi v438 c127_i32_165
  let c112_i32_166 : BitVec 32 := 112#32
  let v440 : BitVec 32 := Scalar.andi v439 c112_i32_166
  let v441 : BitVec 32 := v440
  let v443 : Index := Scalar.indexCast v441
  ![v442.toNat, v443.toNat]
def k1_off118 (v438 : BitVec 32) : Fin 1 → Nat :=
  let c192_i32 : BitVec 32 := 192#32
  let c127_i32_165 : BitVec 32 := 127#32
  let v439 : BitVec 32 := Scalar.andi v438 c127_i32_165
  let c15_i32_169 : BitVec 32 := 15#32
  let v452 : BitVec 32 := Scalar.andi v439 c15_i32_169
  let c6_i32_170 : BitVec 32 := 6#32
  let v453 : BitVec 32 := Scalar.subi v452 c6_i32_170
  let c16_i32_171 : BitVec 32 := 16#32
  let v454 : BitVec 32 := Scalar.addi v453 c16_i32_171
  let c15_i32_172 : BitVec 32 := 15#32
  let v455 : BitVec 32 := Scalar.andi v454 c15_i32_172
  let v456 : BitVec 32 := Scalar.addi c192_i32 v455
  let v457 : Index := Scalar.indexCast v456
  ![v457.toNat]

def k1_chk55 (k1_t4 : Fin k1_t4_loop.trips) (v438 : BitVec 32) : Prop :=
  (16 ∣ (k1_mult59 v438).toNat) ∧
  (∀ a, (k1_off117 k1_t4 v438) a + S1x16.size a ≤ S128x128.size a) ∧
  (∀ a, (k1_off118 v438) a + S16.size a ≤ S512.size a)
instance k1_chk55.dec : ∀ (k1_t4 : Fin k1_t4_loop.trips) (v438 : BitVec 32), Decidable (k1_chk55 k1_t4 v438) := fun k1_t4 v438 => decidable_of_iff' _ (Iff.of_eq (k1_chk55.eq_1 k1_t4 v438))
theorem k1_mult59_dvd : ∀ (k1_t4 : Fin k1_t4_loop.trips) (v438 : BitVec 32) (k1_hw55 : k1_chk55 k1_t4 v438), 16 ∣ (k1_mult59 v438).toNat := fun k1_t4 v438 k1_hw55 => k1_hw55.1
theorem k1_off117_inb : ∀ (k1_t4 : Fin k1_t4_loop.trips) (v438 : BitVec 32) (k1_hw55 : k1_chk55 k1_t4 v438), ∀ a, (k1_off117 k1_t4 v438) a + S1x16.size a ≤ S128x128.size a := fun k1_t4 v438 k1_hw55 => k1_hw55.2.1
theorem k1_off118_inb : ∀ (k1_t4 : Fin k1_t4_loop.trips) (v438 : BitVec 32) (k1_hw55 : k1_chk55 k1_t4 v438), ∀ a, (k1_off118 v438) a + S16.size a ≤ S512.size a := fun k1_t4 v438 k1_hw55 => k1_hw55.2.2

def k1_mult60 (v467 : BitVec 32) : BitVec 32 :=
  let c127_i32_176 : BitVec 32 := 127#32
  let v468 : BitVec 32 := Scalar.andi v467 c127_i32_176
  let c112_i32_177 : BitVec 32 := 112#32
  let v469 : BitVec 32 := Scalar.andi v468 c112_i32_177
  v469

def k1_off119 (k1_t4 : Fin k1_t4_loop.trips) (v467 : BitVec 32) : Fin 2 → Nat :=
  let c0_i32_97 : BitVec 32 := 0#32
  let c1_i32_99 : BitVec 32 := 1#32
  let arg15 : BitVec 32 := Scf.iv c0_i32_97 c1_i32_99 k1_t4
  let c16_i32_174 : BitVec 32 := 16#32
  let v464 : BitVec 32 := Scalar.muli arg15 c16_i32_174
  let c7_i32_175 : BitVec 32 := 7#32
  let v465 : BitVec 32 := Scalar.addi v464 c7_i32_175
  let v471 : Index := Scalar.indexCast v465
  let c127_i32_176 : BitVec 32 := 127#32
  let v468 : BitVec 32 := Scalar.andi v467 c127_i32_176
  let c112_i32_177 : BitVec 32 := 112#32
  let v469 : BitVec 32 := Scalar.andi v468 c112_i32_177
  let v470 : BitVec 32 := v469
  let v472 : Index := Scalar.indexCast v470
  ![v471.toNat, v472.toNat]
def k1_off120 (v467 : BitVec 32) : Fin 1 → Nat :=
  let c224_i32 : BitVec 32 := 224#32
  let c127_i32_176 : BitVec 32 := 127#32
  let v468 : BitVec 32 := Scalar.andi v467 c127_i32_176
  let c15_i32_180 : BitVec 32 := 15#32
  let v481 : BitVec 32 := Scalar.andi v468 c15_i32_180
  let c7_i32_181 : BitVec 32 := 7#32
  let v482 : BitVec 32 := Scalar.subi v481 c7_i32_181
  let c16_i32_182 : BitVec 32 := 16#32
  let v483 : BitVec 32 := Scalar.addi v482 c16_i32_182
  let c15_i32_183 : BitVec 32 := 15#32
  let v484 : BitVec 32 := Scalar.andi v483 c15_i32_183
  let v485 : BitVec 32 := Scalar.addi c224_i32 v484
  let v486 : Index := Scalar.indexCast v485
  ![v486.toNat]

def k1_chk56 (k1_t4 : Fin k1_t4_loop.trips) (v467 : BitVec 32) : Prop :=
  (16 ∣ (k1_mult60 v467).toNat) ∧
  (∀ a, (k1_off119 k1_t4 v467) a + S1x16.size a ≤ S128x128.size a) ∧
  (∀ a, (k1_off120 v467) a + S16.size a ≤ S512.size a)
instance k1_chk56.dec : ∀ (k1_t4 : Fin k1_t4_loop.trips) (v467 : BitVec 32), Decidable (k1_chk56 k1_t4 v467) := fun k1_t4 v467 => decidable_of_iff' _ (Iff.of_eq (k1_chk56.eq_1 k1_t4 v467))
theorem k1_mult60_dvd : ∀ (k1_t4 : Fin k1_t4_loop.trips) (v467 : BitVec 32) (k1_hw56 : k1_chk56 k1_t4 v467), 16 ∣ (k1_mult60 v467).toNat := fun k1_t4 v467 k1_hw56 => k1_hw56.1
theorem k1_off119_inb : ∀ (k1_t4 : Fin k1_t4_loop.trips) (v467 : BitVec 32) (k1_hw56 : k1_chk56 k1_t4 v467), ∀ a, (k1_off119 k1_t4 v467) a + S1x16.size a ≤ S128x128.size a := fun k1_t4 v467 k1_hw56 => k1_hw56.2.1
theorem k1_off120_inb : ∀ (k1_t4 : Fin k1_t4_loop.trips) (v467 : BitVec 32) (k1_hw56 : k1_chk56 k1_t4 v467), ∀ a, (k1_off120 v467) a + S16.size a ≤ S512.size a := fun k1_t4 v467 k1_hw56 => k1_hw56.2.2

def k1_mult61 (v496 : BitVec 32) : BitVec 32 :=
  let c127_i32_187 : BitVec 32 := 127#32
  let v497 : BitVec 32 := Scalar.andi v496 c127_i32_187
  let c112_i32_188 : BitVec 32 := 112#32
  let v498 : BitVec 32 := Scalar.andi v497 c112_i32_188
  v498

def k1_off121 (k1_t4 : Fin k1_t4_loop.trips) (v496 : BitVec 32) : Fin 2 → Nat :=
  let c0_i32_97 : BitVec 32 := 0#32
  let c1_i32_99 : BitVec 32 := 1#32
  let arg15 : BitVec 32 := Scf.iv c0_i32_97 c1_i32_99 k1_t4
  let c16_i32_185 : BitVec 32 := 16#32
  let v493 : BitVec 32 := Scalar.muli arg15 c16_i32_185
  let c8_i32_186 : BitVec 32 := 8#32
  let v494 : BitVec 32 := Scalar.addi v493 c8_i32_186
  let v500 : Index := Scalar.indexCast v494
  let c127_i32_187 : BitVec 32 := 127#32
  let v497 : BitVec 32 := Scalar.andi v496 c127_i32_187
  let c112_i32_188 : BitVec 32 := 112#32
  let v498 : BitVec 32 := Scalar.andi v497 c112_i32_188
  let v499 : BitVec 32 := v498
  let v501 : Index := Scalar.indexCast v499
  ![v500.toNat, v501.toNat]
def k1_off122 (v496 : BitVec 32) : Fin 1 → Nat :=
  let c256_i32_195 : BitVec 32 := 256#32
  let c127_i32_187 : BitVec 32 := 127#32
  let v497 : BitVec 32 := Scalar.andi v496 c127_i32_187
  let c15_i32_191 : BitVec 32 := 15#32
  let v510 : BitVec 32 := Scalar.andi v497 c15_i32_191
  let c8_i32_192 : BitVec 32 := 8#32
  let v511 : BitVec 32 := Scalar.subi v510 c8_i32_192
  let c16_i32_193 : BitVec 32 := 16#32
  let v512 : BitVec 32 := Scalar.addi v511 c16_i32_193
  let c15_i32_194 : BitVec 32 := 15#32
  let v513 : BitVec 32 := Scalar.andi v512 c15_i32_194
  let v514 : BitVec 32 := Scalar.addi c256_i32_195 v513
  let v515 : Index := Scalar.indexCast v514
  ![v515.toNat]

def k1_chk57 (k1_t4 : Fin k1_t4_loop.trips) (v496 : BitVec 32) : Prop :=
  (16 ∣ (k1_mult61 v496).toNat) ∧
  (∀ a, (k1_off121 k1_t4 v496) a + S1x16.size a ≤ S128x128.size a) ∧
  (∀ a, (k1_off122 v496) a + S16.size a ≤ S512.size a)
instance k1_chk57.dec : ∀ (k1_t4 : Fin k1_t4_loop.trips) (v496 : BitVec 32), Decidable (k1_chk57 k1_t4 v496) := fun k1_t4 v496 => decidable_of_iff' _ (Iff.of_eq (k1_chk57.eq_1 k1_t4 v496))
theorem k1_mult61_dvd : ∀ (k1_t4 : Fin k1_t4_loop.trips) (v496 : BitVec 32) (k1_hw57 : k1_chk57 k1_t4 v496), 16 ∣ (k1_mult61 v496).toNat := fun k1_t4 v496 k1_hw57 => k1_hw57.1
theorem k1_off121_inb : ∀ (k1_t4 : Fin k1_t4_loop.trips) (v496 : BitVec 32) (k1_hw57 : k1_chk57 k1_t4 v496), ∀ a, (k1_off121 k1_t4 v496) a + S1x16.size a ≤ S128x128.size a := fun k1_t4 v496 k1_hw57 => k1_hw57.2.1
theorem k1_off122_inb : ∀ (k1_t4 : Fin k1_t4_loop.trips) (v496 : BitVec 32) (k1_hw57 : k1_chk57 k1_t4 v496), ∀ a, (k1_off122 v496) a + S16.size a ≤ S512.size a := fun k1_t4 v496 k1_hw57 => k1_hw57.2.2

def k1_mult62 (v525 : BitVec 32) : BitVec 32 :=
  let c127_i32_198 : BitVec 32 := 127#32
  let v526 : BitVec 32 := Scalar.andi v525 c127_i32_198
  let c112_i32_199 : BitVec 32 := 112#32
  let v527 : BitVec 32 := Scalar.andi v526 c112_i32_199
  v527

def k1_off123 (k1_t4 : Fin k1_t4_loop.trips) (v525 : BitVec 32) : Fin 2 → Nat :=
  let c0_i32_97 : BitVec 32 := 0#32
  let c1_i32_99 : BitVec 32 := 1#32
  let arg15 : BitVec 32 := Scf.iv c0_i32_97 c1_i32_99 k1_t4
  let c16_i32_197 : BitVec 32 := 16#32
  let v522 : BitVec 32 := Scalar.muli arg15 c16_i32_197
  let c9_i32 : BitVec 32 := 9#32
  let v523 : BitVec 32 := Scalar.addi v522 c9_i32
  let v529 : Index := Scalar.indexCast v523
  let c127_i32_198 : BitVec 32 := 127#32
  let v526 : BitVec 32 := Scalar.andi v525 c127_i32_198
  let c112_i32_199 : BitVec 32 := 112#32
  let v527 : BitVec 32 := Scalar.andi v526 c112_i32_199
  let v528 : BitVec 32 := v527
  let v530 : Index := Scalar.indexCast v528
  ![v529.toNat, v530.toNat]
def k1_off124 (v525 : BitVec 32) : Fin 1 → Nat :=
  let c288_i32 : BitVec 32 := 288#32
  let c127_i32_198 : BitVec 32 := 127#32
  let v526 : BitVec 32 := Scalar.andi v525 c127_i32_198
  let c15_i32_202 : BitVec 32 := 15#32
  let v539 : BitVec 32 := Scalar.andi v526 c15_i32_202
  let c9_i32_203 : BitVec 32 := 9#32
  let v540 : BitVec 32 := Scalar.subi v539 c9_i32_203
  let c16_i32_204 : BitVec 32 := 16#32
  let v541 : BitVec 32 := Scalar.addi v540 c16_i32_204
  let c15_i32_205 : BitVec 32 := 15#32
  let v542 : BitVec 32 := Scalar.andi v541 c15_i32_205
  let v543 : BitVec 32 := Scalar.addi c288_i32 v542
  let v544 : Index := Scalar.indexCast v543
  ![v544.toNat]

def k1_chk58 (k1_t4 : Fin k1_t4_loop.trips) (v525 : BitVec 32) : Prop :=
  (16 ∣ (k1_mult62 v525).toNat) ∧
  (∀ a, (k1_off123 k1_t4 v525) a + S1x16.size a ≤ S128x128.size a) ∧
  (∀ a, (k1_off124 v525) a + S16.size a ≤ S512.size a)
instance k1_chk58.dec : ∀ (k1_t4 : Fin k1_t4_loop.trips) (v525 : BitVec 32), Decidable (k1_chk58 k1_t4 v525) := fun k1_t4 v525 => decidable_of_iff' _ (Iff.of_eq (k1_chk58.eq_1 k1_t4 v525))
theorem k1_mult62_dvd : ∀ (k1_t4 : Fin k1_t4_loop.trips) (v525 : BitVec 32) (k1_hw58 : k1_chk58 k1_t4 v525), 16 ∣ (k1_mult62 v525).toNat := fun k1_t4 v525 k1_hw58 => k1_hw58.1
theorem k1_off123_inb : ∀ (k1_t4 : Fin k1_t4_loop.trips) (v525 : BitVec 32) (k1_hw58 : k1_chk58 k1_t4 v525), ∀ a, (k1_off123 k1_t4 v525) a + S1x16.size a ≤ S128x128.size a := fun k1_t4 v525 k1_hw58 => k1_hw58.2.1
theorem k1_off124_inb : ∀ (k1_t4 : Fin k1_t4_loop.trips) (v525 : BitVec 32) (k1_hw58 : k1_chk58 k1_t4 v525), ∀ a, (k1_off124 v525) a + S16.size a ≤ S512.size a := fun k1_t4 v525 k1_hw58 => k1_hw58.2.2

def k1_mult63 (v554 : BitVec 32) : BitVec 32 :=
  let c127_i32_208 : BitVec 32 := 127#32
  let v555 : BitVec 32 := Scalar.andi v554 c127_i32_208
  let c112_i32_209 : BitVec 32 := 112#32
  let v556 : BitVec 32 := Scalar.andi v555 c112_i32_209
  v556

def k1_off125 (k1_t4 : Fin k1_t4_loop.trips) (v554 : BitVec 32) : Fin 2 → Nat :=
  let c0_i32_97 : BitVec 32 := 0#32
  let c1_i32_99 : BitVec 32 := 1#32
  let arg15 : BitVec 32 := Scf.iv c0_i32_97 c1_i32_99 k1_t4
  let c16_i32_207 : BitVec 32 := 16#32
  let v551 : BitVec 32 := Scalar.muli arg15 c16_i32_207
  let c10_i32 : BitVec 32 := 10#32
  let v552 : BitVec 32 := Scalar.addi v551 c10_i32
  let v558 : Index := Scalar.indexCast v552
  let c127_i32_208 : BitVec 32 := 127#32
  let v555 : BitVec 32 := Scalar.andi v554 c127_i32_208
  let c112_i32_209 : BitVec 32 := 112#32
  let v556 : BitVec 32 := Scalar.andi v555 c112_i32_209
  let v557 : BitVec 32 := v556
  let v559 : Index := Scalar.indexCast v557
  ![v558.toNat, v559.toNat]
def k1_off126 (v554 : BitVec 32) : Fin 1 → Nat :=
  let c320_i32 : BitVec 32 := 320#32
  let c127_i32_208 : BitVec 32 := 127#32
  let v555 : BitVec 32 := Scalar.andi v554 c127_i32_208
  let c15_i32_212 : BitVec 32 := 15#32
  let v568 : BitVec 32 := Scalar.andi v555 c15_i32_212
  let c10_i32_213 : BitVec 32 := 10#32
  let v569 : BitVec 32 := Scalar.subi v568 c10_i32_213
  let c16_i32_214 : BitVec 32 := 16#32
  let v570 : BitVec 32 := Scalar.addi v569 c16_i32_214
  let c15_i32_215 : BitVec 32 := 15#32
  let v571 : BitVec 32 := Scalar.andi v570 c15_i32_215
  let v572 : BitVec 32 := Scalar.addi c320_i32 v571
  let v573 : Index := Scalar.indexCast v572
  ![v573.toNat]

def k1_chk59 (k1_t4 : Fin k1_t4_loop.trips) (v554 : BitVec 32) : Prop :=
  (16 ∣ (k1_mult63 v554).toNat) ∧
  (∀ a, (k1_off125 k1_t4 v554) a + S1x16.size a ≤ S128x128.size a) ∧
  (∀ a, (k1_off126 v554) a + S16.size a ≤ S512.size a)
instance k1_chk59.dec : ∀ (k1_t4 : Fin k1_t4_loop.trips) (v554 : BitVec 32), Decidable (k1_chk59 k1_t4 v554) := fun k1_t4 v554 => decidable_of_iff' _ (Iff.of_eq (k1_chk59.eq_1 k1_t4 v554))
theorem k1_mult63_dvd : ∀ (k1_t4 : Fin k1_t4_loop.trips) (v554 : BitVec 32) (k1_hw59 : k1_chk59 k1_t4 v554), 16 ∣ (k1_mult63 v554).toNat := fun k1_t4 v554 k1_hw59 => k1_hw59.1
theorem k1_off125_inb : ∀ (k1_t4 : Fin k1_t4_loop.trips) (v554 : BitVec 32) (k1_hw59 : k1_chk59 k1_t4 v554), ∀ a, (k1_off125 k1_t4 v554) a + S1x16.size a ≤ S128x128.size a := fun k1_t4 v554 k1_hw59 => k1_hw59.2.1
theorem k1_off126_inb : ∀ (k1_t4 : Fin k1_t4_loop.trips) (v554 : BitVec 32) (k1_hw59 : k1_chk59 k1_t4 v554), ∀ a, (k1_off126 v554) a + S16.size a ≤ S512.size a := fun k1_t4 v554 k1_hw59 => k1_hw59.2.2

def k1_mult64 (v583 : BitVec 32) : BitVec 32 :=
  let c127_i32_218 : BitVec 32 := 127#32
  let v584 : BitVec 32 := Scalar.andi v583 c127_i32_218
  let c112_i32_219 : BitVec 32 := 112#32
  let v585 : BitVec 32 := Scalar.andi v584 c112_i32_219
  v585

def k1_off127 (k1_t4 : Fin k1_t4_loop.trips) (v583 : BitVec 32) : Fin 2 → Nat :=
  let c0_i32_97 : BitVec 32 := 0#32
  let c1_i32_99 : BitVec 32 := 1#32
  let arg15 : BitVec 32 := Scf.iv c0_i32_97 c1_i32_99 k1_t4
  let c16_i32_217 : BitVec 32 := 16#32
  let v580 : BitVec 32 := Scalar.muli arg15 c16_i32_217
  let c11_i32 : BitVec 32 := 11#32
  let v581 : BitVec 32 := Scalar.addi v580 c11_i32
  let v587 : Index := Scalar.indexCast v581
  let c127_i32_218 : BitVec 32 := 127#32
  let v584 : BitVec 32 := Scalar.andi v583 c127_i32_218
  let c112_i32_219 : BitVec 32 := 112#32
  let v585 : BitVec 32 := Scalar.andi v584 c112_i32_219
  let v586 : BitVec 32 := v585
  let v588 : Index := Scalar.indexCast v586
  ![v587.toNat, v588.toNat]
def k1_off128 (v583 : BitVec 32) : Fin 1 → Nat :=
  let c352_i32 : BitVec 32 := 352#32
  let c127_i32_218 : BitVec 32 := 127#32
  let v584 : BitVec 32 := Scalar.andi v583 c127_i32_218
  let c15_i32_222 : BitVec 32 := 15#32
  let v597 : BitVec 32 := Scalar.andi v584 c15_i32_222
  let c11_i32_223 : BitVec 32 := 11#32
  let v598 : BitVec 32 := Scalar.subi v597 c11_i32_223
  let c16_i32_224 : BitVec 32 := 16#32
  let v599 : BitVec 32 := Scalar.addi v598 c16_i32_224
  let c15_i32_225 : BitVec 32 := 15#32
  let v600 : BitVec 32 := Scalar.andi v599 c15_i32_225
  let v601 : BitVec 32 := Scalar.addi c352_i32 v600
  let v602 : Index := Scalar.indexCast v601
  ![v602.toNat]

def k1_chk60 (k1_t4 : Fin k1_t4_loop.trips) (v583 : BitVec 32) : Prop :=
  (16 ∣ (k1_mult64 v583).toNat) ∧
  (∀ a, (k1_off127 k1_t4 v583) a + S1x16.size a ≤ S128x128.size a) ∧
  (∀ a, (k1_off128 v583) a + S16.size a ≤ S512.size a)
instance k1_chk60.dec : ∀ (k1_t4 : Fin k1_t4_loop.trips) (v583 : BitVec 32), Decidable (k1_chk60 k1_t4 v583) := fun k1_t4 v583 => decidable_of_iff' _ (Iff.of_eq (k1_chk60.eq_1 k1_t4 v583))
theorem k1_mult64_dvd : ∀ (k1_t4 : Fin k1_t4_loop.trips) (v583 : BitVec 32) (k1_hw60 : k1_chk60 k1_t4 v583), 16 ∣ (k1_mult64 v583).toNat := fun k1_t4 v583 k1_hw60 => k1_hw60.1
theorem k1_off127_inb : ∀ (k1_t4 : Fin k1_t4_loop.trips) (v583 : BitVec 32) (k1_hw60 : k1_chk60 k1_t4 v583), ∀ a, (k1_off127 k1_t4 v583) a + S1x16.size a ≤ S128x128.size a := fun k1_t4 v583 k1_hw60 => k1_hw60.2.1
theorem k1_off128_inb : ∀ (k1_t4 : Fin k1_t4_loop.trips) (v583 : BitVec 32) (k1_hw60 : k1_chk60 k1_t4 v583), ∀ a, (k1_off128 v583) a + S16.size a ≤ S512.size a := fun k1_t4 v583 k1_hw60 => k1_hw60.2.2

def k1_mult65 (v612 : BitVec 32) : BitVec 32 :=
  let c127_i32_228 : BitVec 32 := 127#32
  let v613 : BitVec 32 := Scalar.andi v612 c127_i32_228
  let c112_i32_229 : BitVec 32 := 112#32
  let v614 : BitVec 32 := Scalar.andi v613 c112_i32_229
  v614

def k1_off129 (k1_t4 : Fin k1_t4_loop.trips) (v612 : BitVec 32) : Fin 2 → Nat :=
  let c0_i32_97 : BitVec 32 := 0#32
  let c1_i32_99 : BitVec 32 := 1#32
  let arg15 : BitVec 32 := Scf.iv c0_i32_97 c1_i32_99 k1_t4
  let c16_i32_227 : BitVec 32 := 16#32
  let v609 : BitVec 32 := Scalar.muli arg15 c16_i32_227
  let c12_i32 : BitVec 32 := 12#32
  let v610 : BitVec 32 := Scalar.addi v609 c12_i32
  let v616 : Index := Scalar.indexCast v610
  let c127_i32_228 : BitVec 32 := 127#32
  let v613 : BitVec 32 := Scalar.andi v612 c127_i32_228
  let c112_i32_229 : BitVec 32 := 112#32
  let v614 : BitVec 32 := Scalar.andi v613 c112_i32_229
  let v615 : BitVec 32 := v614
  let v617 : Index := Scalar.indexCast v615
  ![v616.toNat, v617.toNat]
def k1_off130 (v612 : BitVec 32) : Fin 1 → Nat :=
  let c384_i32_236 : BitVec 32 := 384#32
  let c127_i32_228 : BitVec 32 := 127#32
  let v613 : BitVec 32 := Scalar.andi v612 c127_i32_228
  let c15_i32_232 : BitVec 32 := 15#32
  let v626 : BitVec 32 := Scalar.andi v613 c15_i32_232
  let c12_i32_233 : BitVec 32 := 12#32
  let v627 : BitVec 32 := Scalar.subi v626 c12_i32_233
  let c16_i32_234 : BitVec 32 := 16#32
  let v628 : BitVec 32 := Scalar.addi v627 c16_i32_234
  let c15_i32_235 : BitVec 32 := 15#32
  let v629 : BitVec 32 := Scalar.andi v628 c15_i32_235
  let v630 : BitVec 32 := Scalar.addi c384_i32_236 v629
  let v631 : Index := Scalar.indexCast v630
  ![v631.toNat]

def k1_chk61 (k1_t4 : Fin k1_t4_loop.trips) (v612 : BitVec 32) : Prop :=
  (16 ∣ (k1_mult65 v612).toNat) ∧
  (∀ a, (k1_off129 k1_t4 v612) a + S1x16.size a ≤ S128x128.size a) ∧
  (∀ a, (k1_off130 v612) a + S16.size a ≤ S512.size a)
instance k1_chk61.dec : ∀ (k1_t4 : Fin k1_t4_loop.trips) (v612 : BitVec 32), Decidable (k1_chk61 k1_t4 v612) := fun k1_t4 v612 => decidable_of_iff' _ (Iff.of_eq (k1_chk61.eq_1 k1_t4 v612))
theorem k1_mult65_dvd : ∀ (k1_t4 : Fin k1_t4_loop.trips) (v612 : BitVec 32) (k1_hw61 : k1_chk61 k1_t4 v612), 16 ∣ (k1_mult65 v612).toNat := fun k1_t4 v612 k1_hw61 => k1_hw61.1
theorem k1_off129_inb : ∀ (k1_t4 : Fin k1_t4_loop.trips) (v612 : BitVec 32) (k1_hw61 : k1_chk61 k1_t4 v612), ∀ a, (k1_off129 k1_t4 v612) a + S1x16.size a ≤ S128x128.size a := fun k1_t4 v612 k1_hw61 => k1_hw61.2.1
theorem k1_off130_inb : ∀ (k1_t4 : Fin k1_t4_loop.trips) (v612 : BitVec 32) (k1_hw61 : k1_chk61 k1_t4 v612), ∀ a, (k1_off130 v612) a + S16.size a ≤ S512.size a := fun k1_t4 v612 k1_hw61 => k1_hw61.2.2

def k1_mult66 (v641 : BitVec 32) : BitVec 32 :=
  let c127_i32_239 : BitVec 32 := 127#32
  let v642 : BitVec 32 := Scalar.andi v641 c127_i32_239
  let c112_i32_240 : BitVec 32 := 112#32
  let v643 : BitVec 32 := Scalar.andi v642 c112_i32_240
  v643

def k1_off131 (k1_t4 : Fin k1_t4_loop.trips) (v641 : BitVec 32) : Fin 2 → Nat :=
  let c0_i32_97 : BitVec 32 := 0#32
  let c1_i32_99 : BitVec 32 := 1#32
  let arg15 : BitVec 32 := Scf.iv c0_i32_97 c1_i32_99 k1_t4
  let c16_i32_238 : BitVec 32 := 16#32
  let v638 : BitVec 32 := Scalar.muli arg15 c16_i32_238
  let c13_i32 : BitVec 32 := 13#32
  let v639 : BitVec 32 := Scalar.addi v638 c13_i32
  let v645 : Index := Scalar.indexCast v639
  let c127_i32_239 : BitVec 32 := 127#32
  let v642 : BitVec 32 := Scalar.andi v641 c127_i32_239
  let c112_i32_240 : BitVec 32 := 112#32
  let v643 : BitVec 32 := Scalar.andi v642 c112_i32_240
  let v644 : BitVec 32 := v643
  let v646 : Index := Scalar.indexCast v644
  ![v645.toNat, v646.toNat]
def k1_off132 (v641 : BitVec 32) : Fin 1 → Nat :=
  let c416_i32 : BitVec 32 := 416#32
  let c127_i32_239 : BitVec 32 := 127#32
  let v642 : BitVec 32 := Scalar.andi v641 c127_i32_239
  let c15_i32_243 : BitVec 32 := 15#32
  let v655 : BitVec 32 := Scalar.andi v642 c15_i32_243
  let c13_i32_244 : BitVec 32 := 13#32
  let v656 : BitVec 32 := Scalar.subi v655 c13_i32_244
  let c16_i32_245 : BitVec 32 := 16#32
  let v657 : BitVec 32 := Scalar.addi v656 c16_i32_245
  let c15_i32_246 : BitVec 32 := 15#32
  let v658 : BitVec 32 := Scalar.andi v657 c15_i32_246
  let v659 : BitVec 32 := Scalar.addi c416_i32 v658
  let v660 : Index := Scalar.indexCast v659
  ![v660.toNat]

def k1_chk62 (k1_t4 : Fin k1_t4_loop.trips) (v641 : BitVec 32) : Prop :=
  (16 ∣ (k1_mult66 v641).toNat) ∧
  (∀ a, (k1_off131 k1_t4 v641) a + S1x16.size a ≤ S128x128.size a) ∧
  (∀ a, (k1_off132 v641) a + S16.size a ≤ S512.size a)
instance k1_chk62.dec : ∀ (k1_t4 : Fin k1_t4_loop.trips) (v641 : BitVec 32), Decidable (k1_chk62 k1_t4 v641) := fun k1_t4 v641 => decidable_of_iff' _ (Iff.of_eq (k1_chk62.eq_1 k1_t4 v641))
theorem k1_mult66_dvd : ∀ (k1_t4 : Fin k1_t4_loop.trips) (v641 : BitVec 32) (k1_hw62 : k1_chk62 k1_t4 v641), 16 ∣ (k1_mult66 v641).toNat := fun k1_t4 v641 k1_hw62 => k1_hw62.1
theorem k1_off131_inb : ∀ (k1_t4 : Fin k1_t4_loop.trips) (v641 : BitVec 32) (k1_hw62 : k1_chk62 k1_t4 v641), ∀ a, (k1_off131 k1_t4 v641) a + S1x16.size a ≤ S128x128.size a := fun k1_t4 v641 k1_hw62 => k1_hw62.2.1
theorem k1_off132_inb : ∀ (k1_t4 : Fin k1_t4_loop.trips) (v641 : BitVec 32) (k1_hw62 : k1_chk62 k1_t4 v641), ∀ a, (k1_off132 v641) a + S16.size a ≤ S512.size a := fun k1_t4 v641 k1_hw62 => k1_hw62.2.2

def k1_mult67 (v670 : BitVec 32) : BitVec 32 :=
  let c127_i32_249 : BitVec 32 := 127#32
  let v671 : BitVec 32 := Scalar.andi v670 c127_i32_249
  let c112_i32_250 : BitVec 32 := 112#32
  let v672 : BitVec 32 := Scalar.andi v671 c112_i32_250
  v672

def k1_off133 (k1_t4 : Fin k1_t4_loop.trips) (v670 : BitVec 32) : Fin 2 → Nat :=
  let c0_i32_97 : BitVec 32 := 0#32
  let c1_i32_99 : BitVec 32 := 1#32
  let arg15 : BitVec 32 := Scf.iv c0_i32_97 c1_i32_99 k1_t4
  let c16_i32_248 : BitVec 32 := 16#32
  let v667 : BitVec 32 := Scalar.muli arg15 c16_i32_248
  let c14_i32 : BitVec 32 := 14#32
  let v668 : BitVec 32 := Scalar.addi v667 c14_i32
  let v674 : Index := Scalar.indexCast v668
  let c127_i32_249 : BitVec 32 := 127#32
  let v671 : BitVec 32 := Scalar.andi v670 c127_i32_249
  let c112_i32_250 : BitVec 32 := 112#32
  let v672 : BitVec 32 := Scalar.andi v671 c112_i32_250
  let v673 : BitVec 32 := v672
  let v675 : Index := Scalar.indexCast v673
  ![v674.toNat, v675.toNat]
def k1_off134 (v670 : BitVec 32) : Fin 1 → Nat :=
  let c448_i32 : BitVec 32 := 448#32
  let c127_i32_249 : BitVec 32 := 127#32
  let v671 : BitVec 32 := Scalar.andi v670 c127_i32_249
  let c15_i32_253 : BitVec 32 := 15#32
  let v684 : BitVec 32 := Scalar.andi v671 c15_i32_253
  let c14_i32_254 : BitVec 32 := 14#32
  let v685 : BitVec 32 := Scalar.subi v684 c14_i32_254
  let c16_i32_255 : BitVec 32 := 16#32
  let v686 : BitVec 32 := Scalar.addi v685 c16_i32_255
  let c15_i32_256 : BitVec 32 := 15#32
  let v687 : BitVec 32 := Scalar.andi v686 c15_i32_256
  let v688 : BitVec 32 := Scalar.addi c448_i32 v687
  let v689 : Index := Scalar.indexCast v688
  ![v689.toNat]

def k1_chk63 (k1_t4 : Fin k1_t4_loop.trips) (v670 : BitVec 32) : Prop :=
  (16 ∣ (k1_mult67 v670).toNat) ∧
  (∀ a, (k1_off133 k1_t4 v670) a + S1x16.size a ≤ S128x128.size a) ∧
  (∀ a, (k1_off134 v670) a + S16.size a ≤ S512.size a)
instance k1_chk63.dec : ∀ (k1_t4 : Fin k1_t4_loop.trips) (v670 : BitVec 32), Decidable (k1_chk63 k1_t4 v670) := fun k1_t4 v670 => decidable_of_iff' _ (Iff.of_eq (k1_chk63.eq_1 k1_t4 v670))
theorem k1_mult67_dvd : ∀ (k1_t4 : Fin k1_t4_loop.trips) (v670 : BitVec 32) (k1_hw63 : k1_chk63 k1_t4 v670), 16 ∣ (k1_mult67 v670).toNat := fun k1_t4 v670 k1_hw63 => k1_hw63.1
theorem k1_off133_inb : ∀ (k1_t4 : Fin k1_t4_loop.trips) (v670 : BitVec 32) (k1_hw63 : k1_chk63 k1_t4 v670), ∀ a, (k1_off133 k1_t4 v670) a + S1x16.size a ≤ S128x128.size a := fun k1_t4 v670 k1_hw63 => k1_hw63.2.1
theorem k1_off134_inb : ∀ (k1_t4 : Fin k1_t4_loop.trips) (v670 : BitVec 32) (k1_hw63 : k1_chk63 k1_t4 v670), ∀ a, (k1_off134 v670) a + S16.size a ≤ S512.size a := fun k1_t4 v670 k1_hw63 => k1_hw63.2.2

def k1_mult68 (v699 : BitVec 32) : BitVec 32 :=
  let c127_i32_260 : BitVec 32 := 127#32
  let v700 : BitVec 32 := Scalar.andi v699 c127_i32_260
  let c112_i32_261 : BitVec 32 := 112#32
  let v701 : BitVec 32 := Scalar.andi v700 c112_i32_261
  v701

def k1_off135 (k1_t4 : Fin k1_t4_loop.trips) (v699 : BitVec 32) : Fin 2 → Nat :=
  let c0_i32_97 : BitVec 32 := 0#32
  let c1_i32_99 : BitVec 32 := 1#32
  let arg15 : BitVec 32 := Scf.iv c0_i32_97 c1_i32_99 k1_t4
  let c16_i32_258 : BitVec 32 := 16#32
  let v696 : BitVec 32 := Scalar.muli arg15 c16_i32_258
  let c15_i32_259 : BitVec 32 := 15#32
  let v697 : BitVec 32 := Scalar.addi v696 c15_i32_259
  let v703 : Index := Scalar.indexCast v697
  let c127_i32_260 : BitVec 32 := 127#32
  let v700 : BitVec 32 := Scalar.andi v699 c127_i32_260
  let c112_i32_261 : BitVec 32 := 112#32
  let v701 : BitVec 32 := Scalar.andi v700 c112_i32_261
  let v702 : BitVec 32 := v701
  let v704 : Index := Scalar.indexCast v702
  ![v703.toNat, v704.toNat]
def k1_off136 (v699 : BitVec 32) : Fin 1 → Nat :=
  let c480_i32 : BitVec 32 := 480#32
  let c127_i32_260 : BitVec 32 := 127#32
  let v700 : BitVec 32 := Scalar.andi v699 c127_i32_260
  let c15_i32_264 : BitVec 32 := 15#32
  let v713 : BitVec 32 := Scalar.andi v700 c15_i32_264
  let c15_i32_265 : BitVec 32 := 15#32
  let v714 : BitVec 32 := Scalar.subi v713 c15_i32_265
  let c16_i32_266 : BitVec 32 := 16#32
  let v715 : BitVec 32 := Scalar.addi v714 c16_i32_266
  let c15_i32_267 : BitVec 32 := 15#32
  let v716 : BitVec 32 := Scalar.andi v715 c15_i32_267
  let v717 : BitVec 32 := Scalar.addi c480_i32 v716
  let v718 : Index := Scalar.indexCast v717
  ![v718.toNat]

def k1_chk64 (k1_t4 : Fin k1_t4_loop.trips) (v699 : BitVec 32) : Prop :=
  (16 ∣ (k1_mult68 v699).toNat) ∧
  (∀ a, (k1_off135 k1_t4 v699) a + S1x16.size a ≤ S128x128.size a) ∧
  (∀ a, (k1_off136 v699) a + S16.size a ≤ S512.size a)
instance k1_chk64.dec : ∀ (k1_t4 : Fin k1_t4_loop.trips) (v699 : BitVec 32), Decidable (k1_chk64 k1_t4 v699) := fun k1_t4 v699 => decidable_of_iff' _ (Iff.of_eq (k1_chk64.eq_1 k1_t4 v699))
theorem k1_mult68_dvd : ∀ (k1_t4 : Fin k1_t4_loop.trips) (v699 : BitVec 32) (k1_hw64 : k1_chk64 k1_t4 v699), 16 ∣ (k1_mult68 v699).toNat := fun k1_t4 v699 k1_hw64 => k1_hw64.1
theorem k1_off135_inb : ∀ (k1_t4 : Fin k1_t4_loop.trips) (v699 : BitVec 32) (k1_hw64 : k1_chk64 k1_t4 v699), ∀ a, (k1_off135 k1_t4 v699) a + S1x16.size a ≤ S128x128.size a := fun k1_t4 v699 k1_hw64 => k1_hw64.2.1
theorem k1_off136_inb : ∀ (k1_t4 : Fin k1_t4_loop.trips) (v699 : BitVec 32) (k1_hw64 : k1_chk64 k1_t4 v699), ∀ a, (k1_off136 v699) a + S16.size a ≤ S512.size a := fun k1_t4 v699 k1_hw64 => k1_hw64.2.2

def k1_off137 (k1_t4 : Fin k1_t4_loop.trips) : Fin 1 → Nat :=
  let c384_i32_101 : BitVec 32 := 384#32
  let c0_i32_97 : BitVec 32 := 0#32
  let c1_i32_99 : BitVec 32 := 1#32
  let arg15 : BitVec 32 := Scf.iv c0_i32_97 c1_i32_99 k1_t4
  let c16_i32 : BitVec 32 := 16#32
  let v252 : BitVec 32 := Scalar.muli arg15 c16_i32
  let v253 : BitVec 32 := Scalar.addi c384_i32_101 v252
  let v254 : BitVec 32 := v253
  let v725 : Index := Scalar.indexCast v254
  ![v725.toNat]
abbrev grid2 : Pipeline.Grid := ⟨1, ![7], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S100x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S16384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k3_t1_loop : Scf.Loop 32 :=
  let c0_i32_71 : BitVec 32 := 0#32
  let c8_i32 : BitVec 32 := 8#32
  let v234 : BitVec 32 := Scalar.addi c0_i32_71 c8_i32
  let c1_i32 : BitVec 32 := 1#32
  ⟨c0_i32_71, v234, c1_i32⟩
def k3_mult1 (k3_t1 : Fin k3_t1_loop.trips) : BitVec 32 :=
  let c0_i32_101 : BitVec 32 := 0#32
  let c0_i32_71 : BitVec 32 := 0#32
  let c1_i32 : BitVec 32 := 1#32
  let arg15 : BitVec 32 := Scf.iv c0_i32_71 c1_i32 k3_t1
  let c16_i32 : BitVec 32 := 16#32
  let v252 : BitVec 32 := Scalar.muli arg15 c16_i32
  let v253 : BitVec 32 := Scalar.addi c0_i32_101 v252
  v253
def k3_off2 (k3_t1 : Fin k3_t1_loop.trips) : Fin 1 → Nat :=
  let c0_i32_101 : BitVec 32 := 0#32
  let c0_i32_71 : BitVec 32 := 0#32
  let c1_i32 : BitVec 32 := 1#32
  let arg15 : BitVec 32 := Scf.iv c0_i32_71 c1_i32 k3_t1
  let c16_i32 : BitVec 32 := 16#32
  let v252 : BitVec 32 := Scalar.muli arg15 c16_i32
  let v253 : BitVec 32 := Scalar.addi c0_i32_101 v252
  let v254 : BitVec 32 := v253
  let v255 : Index := Scalar.indexCast v254
  ![v255.toNat]
def k3_mult2 (v264 : BitVec 32) : BitVec 32 :=
  let c127_i32 : BitVec 32 := 127#32
  let v265 : BitVec 32 := Scalar.andi v264 c127_i32
  let c112_i32 : BitVec 32 := 112#32
  let v266 : BitVec 32 := Scalar.andi v265 c112_i32
  v266

def k3_off3 (k3_t1 : Fin k3_t1_loop.trips) (v264 : BitVec 32) : Fin 2 → Nat :=
  let c0_i32_71 : BitVec 32 := 0#32
  let c1_i32 : BitVec 32 := 1#32
  let arg15 : BitVec 32 := Scf.iv c0_i32_71 c1_i32 k3_t1
  let c16_i32_102 : BitVec 32 := 16#32
  let v261 : BitVec 32 := Scalar.muli arg15 c16_i32_102
  let c0_i32_103 : BitVec 32 := 0#32
  let v262 : BitVec 32 := Scalar.addi v261 c0_i32_103
  let v268 : Index := Scalar.indexCast v262
  let c127_i32 : BitVec 32 := 127#32
  let v265 : BitVec 32 := Scalar.andi v264 c127_i32
  let c112_i32 : BitVec 32 := 112#32
  let v266 : BitVec 32 := Scalar.andi v265 c112_i32
  let v267 : BitVec 32 := v266
  let v269 : Index := Scalar.indexCast v267
  ![v268.toNat, v269.toNat]
def k3_off4 (v264 : BitVec 32) : Fin 1 → Nat :=
  let c0_i32_109 : BitVec 32 := 0#32
  let c127_i32 : BitVec 32 := 127#32
  let v265 : BitVec 32 := Scalar.andi v264 c127_i32
  let c15_i32 : BitVec 32 := 15#32
  let v278 : BitVec 32 := Scalar.andi v265 c15_i32
  let c0_i32_106 : BitVec 32 := 0#32
  let v279 : BitVec 32 := Scalar.subi v278 c0_i32_106
  let c16_i32_107 : BitVec 32 := 16#32
  let v280 : BitVec 32 := Scalar.addi v279 c16_i32_107
  let c15_i32_108 : BitVec 32 := 15#32
  let v281 : BitVec 32 := Scalar.andi v280 c15_i32_108
  let v282 : BitVec 32 := Scalar.addi c0_i32_109 v281
  let v283 : Index := Scalar.indexCast v282
  ![v283.toNat]

def k3_chk1 (k3_t1 : Fin k3_t1_loop.trips) (v264 : BitVec 32) : Prop :=
  (16 ∣ (k3_mult2 v264).toNat) ∧
  (∀ a, (k3_off3 k3_t1 v264) a + S1x16.size a ≤ S128x128.size a) ∧
  (∀ a, (k3_off4 v264) a + S16.size a ≤ S512.size a)
instance k3_chk1.dec : ∀ (k3_t1 : Fin k3_t1_loop.trips) (v264 : BitVec 32), Decidable (k3_chk1 k3_t1 v264) := fun k3_t1 v264 => decidable_of_iff' _ (Iff.of_eq (k3_chk1.eq_1 k3_t1 v264))
theorem k3_mult2_dvd : ∀ (k3_t1 : Fin k3_t1_loop.trips) (v264 : BitVec 32) (k3_hw1 : k3_chk1 k3_t1 v264), 16 ∣ (k3_mult2 v264).toNat := fun k3_t1 v264 k3_hw1 => k3_hw1.1
theorem k3_off3_inb : ∀ (k3_t1 : Fin k3_t1_loop.trips) (v264 : BitVec 32) (k3_hw1 : k3_chk1 k3_t1 v264), ∀ a, (k3_off3 k3_t1 v264) a + S1x16.size a ≤ S128x128.size a := fun k3_t1 v264 k3_hw1 => k3_hw1.2.1
theorem k3_off4_inb : ∀ (k3_t1 : Fin k3_t1_loop.trips) (v264 : BitVec 32) (k3_hw1 : k3_chk1 k3_t1 v264), ∀ a, (k3_off4 v264) a + S16.size a ≤ S512.size a := fun k3_t1 v264 k3_hw1 => k3_hw1.2.2

def k3_mult3 (v293 : BitVec 32) : BitVec 32 :=
  let c127_i32_113 : BitVec 32 := 127#32
  let v294 : BitVec 32 := Scalar.andi v293 c127_i32_113
  let c112_i32_114 : BitVec 32 := 112#32
  let v295 : BitVec 32 := Scalar.andi v294 c112_i32_114
  v295

def k3_off5 (k3_t1 : Fin k3_t1_loop.trips) (v293 : BitVec 32) : Fin 2 → Nat :=
  let c0_i32_71 : BitVec 32 := 0#32
  let c1_i32 : BitVec 32 := 1#32
  let arg15 : BitVec 32 := Scf.iv c0_i32_71 c1_i32 k3_t1
  let c16_i32_111 : BitVec 32 := 16#32
  let v290 : BitVec 32 := Scalar.muli arg15 c16_i32_111
  let c1_i32_112 : BitVec 32 := 1#32
  let v291 : BitVec 32 := Scalar.addi v290 c1_i32_112
  let v297 : Index := Scalar.indexCast v291
  let c127_i32_113 : BitVec 32 := 127#32
  let v294 : BitVec 32 := Scalar.andi v293 c127_i32_113
  let c112_i32_114 : BitVec 32 := 112#32
  let v295 : BitVec 32 := Scalar.andi v294 c112_i32_114
  let v296 : BitVec 32 := v295
  let v298 : Index := Scalar.indexCast v296
  ![v297.toNat, v298.toNat]
def k3_off6 (v293 : BitVec 32) : Fin 1 → Nat :=
  let c32_i32 : BitVec 32 := 32#32
  let c127_i32_113 : BitVec 32 := 127#32
  let v294 : BitVec 32 := Scalar.andi v293 c127_i32_113
  let c15_i32_117 : BitVec 32 := 15#32
  let v307 : BitVec 32 := Scalar.andi v294 c15_i32_117
  let c1_i32_118 : BitVec 32 := 1#32
  let v308 : BitVec 32 := Scalar.subi v307 c1_i32_118
  let c16_i32_119 : BitVec 32 := 16#32
  let v309 : BitVec 32 := Scalar.addi v308 c16_i32_119
  let c15_i32_120 : BitVec 32 := 15#32
  let v310 : BitVec 32 := Scalar.andi v309 c15_i32_120
  let v311 : BitVec 32 := Scalar.addi c32_i32 v310
  let v312 : Index := Scalar.indexCast v311
  ![v312.toNat]

def k3_chk2 (k3_t1 : Fin k3_t1_loop.trips) (v293 : BitVec 32) : Prop :=
  (16 ∣ (k3_mult3 v293).toNat) ∧
  (∀ a, (k3_off5 k3_t1 v293) a + S1x16.size a ≤ S128x128.size a) ∧
  (∀ a, (k3_off6 v293) a + S16.size a ≤ S512.size a)
instance k3_chk2.dec : ∀ (k3_t1 : Fin k3_t1_loop.trips) (v293 : BitVec 32), Decidable (k3_chk2 k3_t1 v293) := fun k3_t1 v293 => decidable_of_iff' _ (Iff.of_eq (k3_chk2.eq_1 k3_t1 v293))
theorem k3_mult3_dvd : ∀ (k3_t1 : Fin k3_t1_loop.trips) (v293 : BitVec 32) (k3_hw2 : k3_chk2 k3_t1 v293), 16 ∣ (k3_mult3 v293).toNat := fun k3_t1 v293 k3_hw2 => k3_hw2.1
theorem k3_off5_inb : ∀ (k3_t1 : Fin k3_t1_loop.trips) (v293 : BitVec 32) (k3_hw2 : k3_chk2 k3_t1 v293), ∀ a, (k3_off5 k3_t1 v293) a + S1x16.size a ≤ S128x128.size a := fun k3_t1 v293 k3_hw2 => k3_hw2.2.1
theorem k3_off6_inb : ∀ (k3_t1 : Fin k3_t1_loop.trips) (v293 : BitVec 32) (k3_hw2 : k3_chk2 k3_t1 v293), ∀ a, (k3_off6 v293) a + S16.size a ≤ S512.size a := fun k3_t1 v293 k3_hw2 => k3_hw2.2.2

def k3_mult4 (v322 : BitVec 32) : BitVec 32 :=
  let c127_i32_124 : BitVec 32 := 127#32
  let v323 : BitVec 32 := Scalar.andi v322 c127_i32_124
  let c112_i32_125 : BitVec 32 := 112#32
  let v324 : BitVec 32 := Scalar.andi v323 c112_i32_125
  v324

def k3_off7 (k3_t1 : Fin k3_t1_loop.trips) (v322 : BitVec 32) : Fin 2 → Nat :=
  let c0_i32_71 : BitVec 32 := 0#32
  let c1_i32 : BitVec 32 := 1#32
  let arg15 : BitVec 32 := Scf.iv c0_i32_71 c1_i32 k3_t1
  let c16_i32_122 : BitVec 32 := 16#32
  let v319 : BitVec 32 := Scalar.muli arg15 c16_i32_122
  let c2_i32_123 : BitVec 32 := 2#32
  let v320 : BitVec 32 := Scalar.addi v319 c2_i32_123
  let v326 : Index := Scalar.indexCast v320
  let c127_i32_124 : BitVec 32 := 127#32
  let v323 : BitVec 32 := Scalar.andi v322 c127_i32_124
  let c112_i32_125 : BitVec 32 := 112#32
  let v324 : BitVec 32 := Scalar.andi v323 c112_i32_125
  let v325 : BitVec 32 := v324
  let v327 : Index := Scalar.indexCast v325
  ![v326.toNat, v327.toNat]
def k3_off8 (v322 : BitVec 32) : Fin 1 → Nat :=
  let c64_i32 : BitVec 32 := 64#32
  let c127_i32_124 : BitVec 32 := 127#32
  let v323 : BitVec 32 := Scalar.andi v322 c127_i32_124
  let c15_i32_128 : BitVec 32 := 15#32
  let v336 : BitVec 32 := Scalar.andi v323 c15_i32_128
  let c2_i32_129 : BitVec 32 := 2#32
  let v337 : BitVec 32 := Scalar.subi v336 c2_i32_129
  let c16_i32_130 : BitVec 32 := 16#32
  let v338 : BitVec 32 := Scalar.addi v337 c16_i32_130
  let c15_i32_131 : BitVec 32 := 15#32
  let v339 : BitVec 32 := Scalar.andi v338 c15_i32_131
  let v340 : BitVec 32 := Scalar.addi c64_i32 v339
  let v341 : Index := Scalar.indexCast v340
  ![v341.toNat]

def k3_chk3 (k3_t1 : Fin k3_t1_loop.trips) (v322 : BitVec 32) : Prop :=
  (16 ∣ (k3_mult4 v322).toNat) ∧
  (∀ a, (k3_off7 k3_t1 v322) a + S1x16.size a ≤ S128x128.size a) ∧
  (∀ a, (k3_off8 v322) a + S16.size a ≤ S512.size a)
instance k3_chk3.dec : ∀ (k3_t1 : Fin k3_t1_loop.trips) (v322 : BitVec 32), Decidable (k3_chk3 k3_t1 v322) := fun k3_t1 v322 => decidable_of_iff' _ (Iff.of_eq (k3_chk3.eq_1 k3_t1 v322))
theorem k3_mult4_dvd : ∀ (k3_t1 : Fin k3_t1_loop.trips) (v322 : BitVec 32) (k3_hw3 : k3_chk3 k3_t1 v322), 16 ∣ (k3_mult4 v322).toNat := fun k3_t1 v322 k3_hw3 => k3_hw3.1
theorem k3_off7_inb : ∀ (k3_t1 : Fin k3_t1_loop.trips) (v322 : BitVec 32) (k3_hw3 : k3_chk3 k3_t1 v322), ∀ a, (k3_off7 k3_t1 v322) a + S1x16.size a ≤ S128x128.size a := fun k3_t1 v322 k3_hw3 => k3_hw3.2.1
theorem k3_off8_inb : ∀ (k3_t1 : Fin k3_t1_loop.trips) (v322 : BitVec 32) (k3_hw3 : k3_chk3 k3_t1 v322), ∀ a, (k3_off8 v322) a + S16.size a ≤ S512.size a := fun k3_t1 v322 k3_hw3 => k3_hw3.2.2

def k3_mult5 (v351 : BitVec 32) : BitVec 32 :=
  let c127_i32_134 : BitVec 32 := 127#32
  let v352 : BitVec 32 := Scalar.andi v351 c127_i32_134
  let c112_i32_135 : BitVec 32 := 112#32
  let v353 : BitVec 32 := Scalar.andi v352 c112_i32_135
  v353

def k3_off9 (k3_t1 : Fin k3_t1_loop.trips) (v351 : BitVec 32) : Fin 2 → Nat :=
  let c0_i32_71 : BitVec 32 := 0#32
  let c1_i32 : BitVec 32 := 1#32
  let arg15 : BitVec 32 := Scf.iv c0_i32_71 c1_i32 k3_t1
  let c16_i32_133 : BitVec 32 := 16#32
  let v348 : BitVec 32 := Scalar.muli arg15 c16_i32_133
  let c3_i32 : BitVec 32 := 3#32
  let v349 : BitVec 32 := Scalar.addi v348 c3_i32
  let v355 : Index := Scalar.indexCast v349
  let c127_i32_134 : BitVec 32 := 127#32
  let v352 : BitVec 32 := Scalar.andi v351 c127_i32_134
  let c112_i32_135 : BitVec 32 := 112#32
  let v353 : BitVec 32 := Scalar.andi v352 c112_i32_135
  let v354 : BitVec 32 := v353
  let v356 : Index := Scalar.indexCast v354
  ![v355.toNat, v356.toNat]
def k3_off10 (v351 : BitVec 32) : Fin 1 → Nat :=
  let c96_i32 : BitVec 32 := 96#32
  let c127_i32_134 : BitVec 32 := 127#32
  let v352 : BitVec 32 := Scalar.andi v351 c127_i32_134
  let c15_i32_138 : BitVec 32 := 15#32
  let v365 : BitVec 32 := Scalar.andi v352 c15_i32_138
  let c3_i32_139 : BitVec 32 := 3#32
  let v366 : BitVec 32 := Scalar.subi v365 c3_i32_139
  let c16_i32_140 : BitVec 32 := 16#32
  let v367 : BitVec 32 := Scalar.addi v366 c16_i32_140
  let c15_i32_141 : BitVec 32 := 15#32
  let v368 : BitVec 32 := Scalar.andi v367 c15_i32_141
  let v369 : BitVec 32 := Scalar.addi c96_i32 v368
  let v370 : Index := Scalar.indexCast v369
  ![v370.toNat]

def k3_chk4 (k3_t1 : Fin k3_t1_loop.trips) (v351 : BitVec 32) : Prop :=
  (16 ∣ (k3_mult5 v351).toNat) ∧
  (∀ a, (k3_off9 k3_t1 v351) a + S1x16.size a ≤ S128x128.size a) ∧
  (∀ a, (k3_off10 v351) a + S16.size a ≤ S512.size a)
instance k3_chk4.dec : ∀ (k3_t1 : Fin k3_t1_loop.trips) (v351 : BitVec 32), Decidable (k3_chk4 k3_t1 v351) := fun k3_t1 v351 => decidable_of_iff' _ (Iff.of_eq (k3_chk4.eq_1 k3_t1 v351))
theorem k3_mult5_dvd : ∀ (k3_t1 : Fin k3_t1_loop.trips) (v351 : BitVec 32) (k3_hw4 : k3_chk4 k3_t1 v351), 16 ∣ (k3_mult5 v351).toNat := fun k3_t1 v351 k3_hw4 => k3_hw4.1
theorem k3_off9_inb : ∀ (k3_t1 : Fin k3_t1_loop.trips) (v351 : BitVec 32) (k3_hw4 : k3_chk4 k3_t1 v351), ∀ a, (k3_off9 k3_t1 v351) a + S1x16.size a ≤ S128x128.size a := fun k3_t1 v351 k3_hw4 => k3_hw4.2.1
theorem k3_off10_inb : ∀ (k3_t1 : Fin k3_t1_loop.trips) (v351 : BitVec 32) (k3_hw4 : k3_chk4 k3_t1 v351), ∀ a, (k3_off10 v351) a + S16.size a ≤ S512.size a := fun k3_t1 v351 k3_hw4 => k3_hw4.2.2

def k3_mult6 (v380 : BitVec 32) : BitVec 32 :=
  let c127_i32_144 : BitVec 32 := 127#32
  let v381 : BitVec 32 := Scalar.andi v380 c127_i32_144
  let c112_i32_145 : BitVec 32 := 112#32
  let v382 : BitVec 32 := Scalar.andi v381 c112_i32_145
  v382

def k3_off11 (k3_t1 : Fin k3_t1_loop.trips) (v380 : BitVec 32) : Fin 2 → Nat :=
  let c0_i32_71 : BitVec 32 := 0#32
  let c1_i32 : BitVec 32 := 1#32
  let arg15 : BitVec 32 := Scf.iv c0_i32_71 c1_i32 k3_t1
  let c16_i32_143 : BitVec 32 := 16#32
  let v377 : BitVec 32 := Scalar.muli arg15 c16_i32_143
  let c4_i32 : BitVec 32 := 4#32
  let v378 : BitVec 32 := Scalar.addi v377 c4_i32
  let v384 : Index := Scalar.indexCast v378
  let c127_i32_144 : BitVec 32 := 127#32
  let v381 : BitVec 32 := Scalar.andi v380 c127_i32_144
  let c112_i32_145 : BitVec 32 := 112#32
  let v382 : BitVec 32 := Scalar.andi v381 c112_i32_145
  let v383 : BitVec 32 := v382
  let v385 : Index := Scalar.indexCast v383
  ![v384.toNat, v385.toNat]
def k3_off12 (v380 : BitVec 32) : Fin 1 → Nat :=
  let c128_i32_152 : BitVec 32 := 128#32
  let c127_i32_144 : BitVec 32 := 127#32
  let v381 : BitVec 32 := Scalar.andi v380 c127_i32_144
  let c15_i32_148 : BitVec 32 := 15#32
  let v394 : BitVec 32 := Scalar.andi v381 c15_i32_148
  let c4_i32_149 : BitVec 32 := 4#32
  let v395 : BitVec 32 := Scalar.subi v394 c4_i32_149
  let c16_i32_150 : BitVec 32 := 16#32
  let v396 : BitVec 32 := Scalar.addi v395 c16_i32_150
  let c15_i32_151 : BitVec 32 := 15#32
  let v397 : BitVec 32 := Scalar.andi v396 c15_i32_151
  let v398 : BitVec 32 := Scalar.addi c128_i32_152 v397
  let v399 : Index := Scalar.indexCast v398
  ![v399.toNat]

def k3_chk5 (k3_t1 : Fin k3_t1_loop.trips) (v380 : BitVec 32) : Prop :=
  (16 ∣ (k3_mult6 v380).toNat) ∧
  (∀ a, (k3_off11 k3_t1 v380) a + S1x16.size a ≤ S128x128.size a) ∧
  (∀ a, (k3_off12 v380) a + S16.size a ≤ S512.size a)
instance k3_chk5.dec : ∀ (k3_t1 : Fin k3_t1_loop.trips) (v380 : BitVec 32), Decidable (k3_chk5 k3_t1 v380) := fun k3_t1 v380 => decidable_of_iff' _ (Iff.of_eq (k3_chk5.eq_1 k3_t1 v380))
theorem k3_mult6_dvd : ∀ (k3_t1 : Fin k3_t1_loop.trips) (v380 : BitVec 32) (k3_hw5 : k3_chk5 k3_t1 v380), 16 ∣ (k3_mult6 v380).toNat := fun k3_t1 v380 k3_hw5 => k3_hw5.1
theorem k3_off11_inb : ∀ (k3_t1 : Fin k3_t1_loop.trips) (v380 : BitVec 32) (k3_hw5 : k3_chk5 k3_t1 v380), ∀ a, (k3_off11 k3_t1 v380) a + S1x16.size a ≤ S128x128.size a := fun k3_t1 v380 k3_hw5 => k3_hw5.2.1
theorem k3_off12_inb : ∀ (k3_t1 : Fin k3_t1_loop.trips) (v380 : BitVec 32) (k3_hw5 : k3_chk5 k3_t1 v380), ∀ a, (k3_off12 v380) a + S16.size a ≤ S512.size a := fun k3_t1 v380 k3_hw5 => k3_hw5.2.2

def k3_mult7 (v409 : BitVec 32) : BitVec 32 :=
  let c127_i32_155 : BitVec 32 := 127#32
  let v410 : BitVec 32 := Scalar.andi v409 c127_i32_155
  let c112_i32_156 : BitVec 32 := 112#32
  let v411 : BitVec 32 := Scalar.andi v410 c112_i32_156
  v411

def k3_off13 (k3_t1 : Fin k3_t1_loop.trips) (v409 : BitVec 32) : Fin 2 → Nat :=
  let c0_i32_71 : BitVec 32 := 0#32
  let c1_i32 : BitVec 32 := 1#32
  let arg15 : BitVec 32 := Scf.iv c0_i32_71 c1_i32 k3_t1
  let c16_i32_154 : BitVec 32 := 16#32
  let v406 : BitVec 32 := Scalar.muli arg15 c16_i32_154
  let c5_i32 : BitVec 32 := 5#32
  let v407 : BitVec 32 := Scalar.addi v406 c5_i32
  let v413 : Index := Scalar.indexCast v407
  let c127_i32_155 : BitVec 32 := 127#32
  let v410 : BitVec 32 := Scalar.andi v409 c127_i32_155
  let c112_i32_156 : BitVec 32 := 112#32
  let v411 : BitVec 32 := Scalar.andi v410 c112_i32_156
  let v412 : BitVec 32 := v411
  let v414 : Index := Scalar.indexCast v412
  ![v413.toNat, v414.toNat]
def k3_off14 (v409 : BitVec 32) : Fin 1 → Nat :=
  let c160_i32 : BitVec 32 := 160#32
  let c127_i32_155 : BitVec 32 := 127#32
  let v410 : BitVec 32 := Scalar.andi v409 c127_i32_155
  let c15_i32_159 : BitVec 32 := 15#32
  let v423 : BitVec 32 := Scalar.andi v410 c15_i32_159
  let c5_i32_160 : BitVec 32 := 5#32
  let v424 : BitVec 32 := Scalar.subi v423 c5_i32_160
  let c16_i32_161 : BitVec 32 := 16#32
  let v425 : BitVec 32 := Scalar.addi v424 c16_i32_161
  let c15_i32_162 : BitVec 32 := 15#32
  let v426 : BitVec 32 := Scalar.andi v425 c15_i32_162
  let v427 : BitVec 32 := Scalar.addi c160_i32 v426
  let v428 : Index := Scalar.indexCast v427
  ![v428.toNat]

def k3_chk6 (k3_t1 : Fin k3_t1_loop.trips) (v409 : BitVec 32) : Prop :=
  (16 ∣ (k3_mult7 v409).toNat) ∧
  (∀ a, (k3_off13 k3_t1 v409) a + S1x16.size a ≤ S128x128.size a) ∧
  (∀ a, (k3_off14 v409) a + S16.size a ≤ S512.size a)
instance k3_chk6.dec : ∀ (k3_t1 : Fin k3_t1_loop.trips) (v409 : BitVec 32), Decidable (k3_chk6 k3_t1 v409) := fun k3_t1 v409 => decidable_of_iff' _ (Iff.of_eq (k3_chk6.eq_1 k3_t1 v409))
theorem k3_mult7_dvd : ∀ (k3_t1 : Fin k3_t1_loop.trips) (v409 : BitVec 32) (k3_hw6 : k3_chk6 k3_t1 v409), 16 ∣ (k3_mult7 v409).toNat := fun k3_t1 v409 k3_hw6 => k3_hw6.1
theorem k3_off13_inb : ∀ (k3_t1 : Fin k3_t1_loop.trips) (v409 : BitVec 32) (k3_hw6 : k3_chk6 k3_t1 v409), ∀ a, (k3_off13 k3_t1 v409) a + S1x16.size a ≤ S128x128.size a := fun k3_t1 v409 k3_hw6 => k3_hw6.2.1
theorem k3_off14_inb : ∀ (k3_t1 : Fin k3_t1_loop.trips) (v409 : BitVec 32) (k3_hw6 : k3_chk6 k3_t1 v409), ∀ a, (k3_off14 v409) a + S16.size a ≤ S512.size a := fun k3_t1 v409 k3_hw6 => k3_hw6.2.2

def k3_mult8 (v438 : BitVec 32) : BitVec 32 :=
  let c127_i32_165 : BitVec 32 := 127#32
  let v439 : BitVec 32 := Scalar.andi v438 c127_i32_165
  let c112_i32_166 : BitVec 32 := 112#32
  let v440 : BitVec 32 := Scalar.andi v439 c112_i32_166
  v440

def k3_off15 (k3_t1 : Fin k3_t1_loop.trips) (v438 : BitVec 32) : Fin 2 → Nat :=
  let c0_i32_71 : BitVec 32 := 0#32
  let c1_i32 : BitVec 32 := 1#32
  let arg15 : BitVec 32 := Scf.iv c0_i32_71 c1_i32 k3_t1
  let c16_i32_164 : BitVec 32 := 16#32
  let v435 : BitVec 32 := Scalar.muli arg15 c16_i32_164
  let c6_i32 : BitVec 32 := 6#32
  let v436 : BitVec 32 := Scalar.addi v435 c6_i32
  let v442 : Index := Scalar.indexCast v436
  let c127_i32_165 : BitVec 32 := 127#32
  let v439 : BitVec 32 := Scalar.andi v438 c127_i32_165
  let c112_i32_166 : BitVec 32 := 112#32
  let v440 : BitVec 32 := Scalar.andi v439 c112_i32_166
  let v441 : BitVec 32 := v440
  let v443 : Index := Scalar.indexCast v441
  ![v442.toNat, v443.toNat]
def k3_off16 (v438 : BitVec 32) : Fin 1 → Nat :=
  let c192_i32 : BitVec 32 := 192#32
  let c127_i32_165 : BitVec 32 := 127#32
  let v439 : BitVec 32 := Scalar.andi v438 c127_i32_165
  let c15_i32_169 : BitVec 32 := 15#32
  let v452 : BitVec 32 := Scalar.andi v439 c15_i32_169
  let c6_i32_170 : BitVec 32 := 6#32
  let v453 : BitVec 32 := Scalar.subi v452 c6_i32_170
  let c16_i32_171 : BitVec 32 := 16#32
  let v454 : BitVec 32 := Scalar.addi v453 c16_i32_171
  let c15_i32_172 : BitVec 32 := 15#32
  let v455 : BitVec 32 := Scalar.andi v454 c15_i32_172
  let v456 : BitVec 32 := Scalar.addi c192_i32 v455
  let v457 : Index := Scalar.indexCast v456
  ![v457.toNat]

def k3_chk7 (k3_t1 : Fin k3_t1_loop.trips) (v438 : BitVec 32) : Prop :=
  (16 ∣ (k3_mult8 v438).toNat) ∧
  (∀ a, (k3_off15 k3_t1 v438) a + S1x16.size a ≤ S128x128.size a) ∧
  (∀ a, (k3_off16 v438) a + S16.size a ≤ S512.size a)
instance k3_chk7.dec : ∀ (k3_t1 : Fin k3_t1_loop.trips) (v438 : BitVec 32), Decidable (k3_chk7 k3_t1 v438) := fun k3_t1 v438 => decidable_of_iff' _ (Iff.of_eq (k3_chk7.eq_1 k3_t1 v438))
theorem k3_mult8_dvd : ∀ (k3_t1 : Fin k3_t1_loop.trips) (v438 : BitVec 32) (k3_hw7 : k3_chk7 k3_t1 v438), 16 ∣ (k3_mult8 v438).toNat := fun k3_t1 v438 k3_hw7 => k3_hw7.1
theorem k3_off15_inb : ∀ (k3_t1 : Fin k3_t1_loop.trips) (v438 : BitVec 32) (k3_hw7 : k3_chk7 k3_t1 v438), ∀ a, (k3_off15 k3_t1 v438) a + S1x16.size a ≤ S128x128.size a := fun k3_t1 v438 k3_hw7 => k3_hw7.2.1
theorem k3_off16_inb : ∀ (k3_t1 : Fin k3_t1_loop.trips) (v438 : BitVec 32) (k3_hw7 : k3_chk7 k3_t1 v438), ∀ a, (k3_off16 v438) a + S16.size a ≤ S512.size a := fun k3_t1 v438 k3_hw7 => k3_hw7.2.2

def k3_mult9 (v467 : BitVec 32) : BitVec 32 :=
  let c127_i32_176 : BitVec 32 := 127#32
  let v468 : BitVec 32 := Scalar.andi v467 c127_i32_176
  let c112_i32_177 : BitVec 32 := 112#32
  let v469 : BitVec 32 := Scalar.andi v468 c112_i32_177
  v469

def k3_off17 (k3_t1 : Fin k3_t1_loop.trips) (v467 : BitVec 32) : Fin 2 → Nat :=
  let c0_i32_71 : BitVec 32 := 0#32
  let c1_i32 : BitVec 32 := 1#32
  let arg15 : BitVec 32 := Scf.iv c0_i32_71 c1_i32 k3_t1
  let c16_i32_174 : BitVec 32 := 16#32
  let v464 : BitVec 32 := Scalar.muli arg15 c16_i32_174
  let c7_i32_175 : BitVec 32 := 7#32
  let v465 : BitVec 32 := Scalar.addi v464 c7_i32_175
  let v471 : Index := Scalar.indexCast v465
  let c127_i32_176 : BitVec 32 := 127#32
  let v468 : BitVec 32 := Scalar.andi v467 c127_i32_176
  let c112_i32_177 : BitVec 32 := 112#32
  let v469 : BitVec 32 := Scalar.andi v468 c112_i32_177
  let v470 : BitVec 32 := v469
  let v472 : Index := Scalar.indexCast v470
  ![v471.toNat, v472.toNat]
def k3_off18 (v467 : BitVec 32) : Fin 1 → Nat :=
  let c224_i32 : BitVec 32 := 224#32
  let c127_i32_176 : BitVec 32 := 127#32
  let v468 : BitVec 32 := Scalar.andi v467 c127_i32_176
  let c15_i32_180 : BitVec 32 := 15#32
  let v481 : BitVec 32 := Scalar.andi v468 c15_i32_180
  let c7_i32_181 : BitVec 32 := 7#32
  let v482 : BitVec 32 := Scalar.subi v481 c7_i32_181
  let c16_i32_182 : BitVec 32 := 16#32
  let v483 : BitVec 32 := Scalar.addi v482 c16_i32_182
  let c15_i32_183 : BitVec 32 := 15#32
  let v484 : BitVec 32 := Scalar.andi v483 c15_i32_183
  let v485 : BitVec 32 := Scalar.addi c224_i32 v484
  let v486 : Index := Scalar.indexCast v485
  ![v486.toNat]

def k3_chk8 (k3_t1 : Fin k3_t1_loop.trips) (v467 : BitVec 32) : Prop :=
  (16 ∣ (k3_mult9 v467).toNat) ∧
  (∀ a, (k3_off17 k3_t1 v467) a + S1x16.size a ≤ S128x128.size a) ∧
  (∀ a, (k3_off18 v467) a + S16.size a ≤ S512.size a)
instance k3_chk8.dec : ∀ (k3_t1 : Fin k3_t1_loop.trips) (v467 : BitVec 32), Decidable (k3_chk8 k3_t1 v467) := fun k3_t1 v467 => decidable_of_iff' _ (Iff.of_eq (k3_chk8.eq_1 k3_t1 v467))
theorem k3_mult9_dvd : ∀ (k3_t1 : Fin k3_t1_loop.trips) (v467 : BitVec 32) (k3_hw8 : k3_chk8 k3_t1 v467), 16 ∣ (k3_mult9 v467).toNat := fun k3_t1 v467 k3_hw8 => k3_hw8.1
theorem k3_off17_inb : ∀ (k3_t1 : Fin k3_t1_loop.trips) (v467 : BitVec 32) (k3_hw8 : k3_chk8 k3_t1 v467), ∀ a, (k3_off17 k3_t1 v467) a + S1x16.size a ≤ S128x128.size a := fun k3_t1 v467 k3_hw8 => k3_hw8.2.1
theorem k3_off18_inb : ∀ (k3_t1 : Fin k3_t1_loop.trips) (v467 : BitVec 32) (k3_hw8 : k3_chk8 k3_t1 v467), ∀ a, (k3_off18 v467) a + S16.size a ≤ S512.size a := fun k3_t1 v467 k3_hw8 => k3_hw8.2.2

def k3_mult10 (v496 : BitVec 32) : BitVec 32 :=
  let c127_i32_187 : BitVec 32 := 127#32
  let v497 : BitVec 32 := Scalar.andi v496 c127_i32_187
  let c112_i32_188 : BitVec 32 := 112#32
  let v498 : BitVec 32 := Scalar.andi v497 c112_i32_188
  v498

def k3_off19 (k3_t1 : Fin k3_t1_loop.trips) (v496 : BitVec 32) : Fin 2 → Nat :=
  let c0_i32_71 : BitVec 32 := 0#32
  let c1_i32 : BitVec 32 := 1#32
  let arg15 : BitVec 32 := Scf.iv c0_i32_71 c1_i32 k3_t1
  let c16_i32_185 : BitVec 32 := 16#32
  let v493 : BitVec 32 := Scalar.muli arg15 c16_i32_185
  let c8_i32_186 : BitVec 32 := 8#32
  let v494 : BitVec 32 := Scalar.addi v493 c8_i32_186
  let v500 : Index := Scalar.indexCast v494
  let c127_i32_187 : BitVec 32 := 127#32
  let v497 : BitVec 32 := Scalar.andi v496 c127_i32_187
  let c112_i32_188 : BitVec 32 := 112#32
  let v498 : BitVec 32 := Scalar.andi v497 c112_i32_188
  let v499 : BitVec 32 := v498
  let v501 : Index := Scalar.indexCast v499
  ![v500.toNat, v501.toNat]
def k3_off20 (v496 : BitVec 32) : Fin 1 → Nat :=
  let c256_i32_195 : BitVec 32 := 256#32
  let c127_i32_187 : BitVec 32 := 127#32
  let v497 : BitVec 32 := Scalar.andi v496 c127_i32_187
  let c15_i32_191 : BitVec 32 := 15#32
  let v510 : BitVec 32 := Scalar.andi v497 c15_i32_191
  let c8_i32_192 : BitVec 32 := 8#32
  let v511 : BitVec 32 := Scalar.subi v510 c8_i32_192
  let c16_i32_193 : BitVec 32 := 16#32
  let v512 : BitVec 32 := Scalar.addi v511 c16_i32_193
  let c15_i32_194 : BitVec 32 := 15#32
  let v513 : BitVec 32 := Scalar.andi v512 c15_i32_194
  let v514 : BitVec 32 := Scalar.addi c256_i32_195 v513
  let v515 : Index := Scalar.indexCast v514
  ![v515.toNat]

def k3_chk9 (k3_t1 : Fin k3_t1_loop.trips) (v496 : BitVec 32) : Prop :=
  (16 ∣ (k3_mult10 v496).toNat) ∧
  (∀ a, (k3_off19 k3_t1 v496) a + S1x16.size a ≤ S128x128.size a) ∧
  (∀ a, (k3_off20 v496) a + S16.size a ≤ S512.size a)
instance k3_chk9.dec : ∀ (k3_t1 : Fin k3_t1_loop.trips) (v496 : BitVec 32), Decidable (k3_chk9 k3_t1 v496) := fun k3_t1 v496 => decidable_of_iff' _ (Iff.of_eq (k3_chk9.eq_1 k3_t1 v496))
theorem k3_mult10_dvd : ∀ (k3_t1 : Fin k3_t1_loop.trips) (v496 : BitVec 32) (k3_hw9 : k3_chk9 k3_t1 v496), 16 ∣ (k3_mult10 v496).toNat := fun k3_t1 v496 k3_hw9 => k3_hw9.1
theorem k3_off19_inb : ∀ (k3_t1 : Fin k3_t1_loop.trips) (v496 : BitVec 32) (k3_hw9 : k3_chk9 k3_t1 v496), ∀ a, (k3_off19 k3_t1 v496) a + S1x16.size a ≤ S128x128.size a := fun k3_t1 v496 k3_hw9 => k3_hw9.2.1
theorem k3_off20_inb : ∀ (k3_t1 : Fin k3_t1_loop.trips) (v496 : BitVec 32) (k3_hw9 : k3_chk9 k3_t1 v496), ∀ a, (k3_off20 v496) a + S16.size a ≤ S512.size a := fun k3_t1 v496 k3_hw9 => k3_hw9.2.2

def k3_mult11 (v525 : BitVec 32) : BitVec 32 :=
  let c127_i32_198 : BitVec 32 := 127#32
  let v526 : BitVec 32 := Scalar.andi v525 c127_i32_198
  let c112_i32_199 : BitVec 32 := 112#32
  let v527 : BitVec 32 := Scalar.andi v526 c112_i32_199
  v527

def k3_off21 (k3_t1 : Fin k3_t1_loop.trips) (v525 : BitVec 32) : Fin 2 → Nat :=
  let c0_i32_71 : BitVec 32 := 0#32
  let c1_i32 : BitVec 32 := 1#32
  let arg15 : BitVec 32 := Scf.iv c0_i32_71 c1_i32 k3_t1
  let c16_i32_197 : BitVec 32 := 16#32
  let v522 : BitVec 32 := Scalar.muli arg15 c16_i32_197
  let c9_i32 : BitVec 32 := 9#32
  let v523 : BitVec 32 := Scalar.addi v522 c9_i32
  let v529 : Index := Scalar.indexCast v523
  let c127_i32_198 : BitVec 32 := 127#32
  let v526 : BitVec 32 := Scalar.andi v525 c127_i32_198
  let c112_i32_199 : BitVec 32 := 112#32
  let v527 : BitVec 32 := Scalar.andi v526 c112_i32_199
  let v528 : BitVec 32 := v527
  let v530 : Index := Scalar.indexCast v528
  ![v529.toNat, v530.toNat]
def k3_off22 (v525 : BitVec 32) : Fin 1 → Nat :=
  let c288_i32 : BitVec 32 := 288#32
  let c127_i32_198 : BitVec 32 := 127#32
  let v526 : BitVec 32 := Scalar.andi v525 c127_i32_198
  let c15_i32_202 : BitVec 32 := 15#32
  let v539 : BitVec 32 := Scalar.andi v526 c15_i32_202
  let c9_i32_203 : BitVec 32 := 9#32
  let v540 : BitVec 32 := Scalar.subi v539 c9_i32_203
  let c16_i32_204 : BitVec 32 := 16#32
  let v541 : BitVec 32 := Scalar.addi v540 c16_i32_204
  let c15_i32_205 : BitVec 32 := 15#32
  let v542 : BitVec 32 := Scalar.andi v541 c15_i32_205
  let v543 : BitVec 32 := Scalar.addi c288_i32 v542
  let v544 : Index := Scalar.indexCast v543
  ![v544.toNat]

def k3_chk10 (k3_t1 : Fin k3_t1_loop.trips) (v525 : BitVec 32) : Prop :=
  (16 ∣ (k3_mult11 v525).toNat) ∧
  (∀ a, (k3_off21 k3_t1 v525) a + S1x16.size a ≤ S128x128.size a) ∧
  (∀ a, (k3_off22 v525) a + S16.size a ≤ S512.size a)
instance k3_chk10.dec : ∀ (k3_t1 : Fin k3_t1_loop.trips) (v525 : BitVec 32), Decidable (k3_chk10 k3_t1 v525) := fun k3_t1 v525 => decidable_of_iff' _ (Iff.of_eq (k3_chk10.eq_1 k3_t1 v525))
theorem k3_mult11_dvd : ∀ (k3_t1 : Fin k3_t1_loop.trips) (v525 : BitVec 32) (k3_hw10 : k3_chk10 k3_t1 v525), 16 ∣ (k3_mult11 v525).toNat := fun k3_t1 v525 k3_hw10 => k3_hw10.1
theorem k3_off21_inb : ∀ (k3_t1 : Fin k3_t1_loop.trips) (v525 : BitVec 32) (k3_hw10 : k3_chk10 k3_t1 v525), ∀ a, (k3_off21 k3_t1 v525) a + S1x16.size a ≤ S128x128.size a := fun k3_t1 v525 k3_hw10 => k3_hw10.2.1
theorem k3_off22_inb : ∀ (k3_t1 : Fin k3_t1_loop.trips) (v525 : BitVec 32) (k3_hw10 : k3_chk10 k3_t1 v525), ∀ a, (k3_off22 v525) a + S16.size a ≤ S512.size a := fun k3_t1 v525 k3_hw10 => k3_hw10.2.2

def k3_mult12 (v554 : BitVec 32) : BitVec 32 :=
  let c127_i32_208 : BitVec 32 := 127#32
  let v555 : BitVec 32 := Scalar.andi v554 c127_i32_208
  let c112_i32_209 : BitVec 32 := 112#32
  let v556 : BitVec 32 := Scalar.andi v555 c112_i32_209
  v556

def k3_off23 (k3_t1 : Fin k3_t1_loop.trips) (v554 : BitVec 32) : Fin 2 → Nat :=
  let c0_i32_71 : BitVec 32 := 0#32
  let c1_i32 : BitVec 32 := 1#32
  let arg15 : BitVec 32 := Scf.iv c0_i32_71 c1_i32 k3_t1
  let c16_i32_207 : BitVec 32 := 16#32
  let v551 : BitVec 32 := Scalar.muli arg15 c16_i32_207
  let c10_i32 : BitVec 32 := 10#32
  let v552 : BitVec 32 := Scalar.addi v551 c10_i32
  let v558 : Index := Scalar.indexCast v552
  let c127_i32_208 : BitVec 32 := 127#32
  let v555 : BitVec 32 := Scalar.andi v554 c127_i32_208
  let c112_i32_209 : BitVec 32 := 112#32
  let v556 : BitVec 32 := Scalar.andi v555 c112_i32_209
  let v557 : BitVec 32 := v556
  let v559 : Index := Scalar.indexCast v557
  ![v558.toNat, v559.toNat]
def k3_off24 (v554 : BitVec 32) : Fin 1 → Nat :=
  let c320_i32 : BitVec 32 := 320#32
  let c127_i32_208 : BitVec 32 := 127#32
  let v555 : BitVec 32 := Scalar.andi v554 c127_i32_208
  let c15_i32_212 : BitVec 32 := 15#32
  let v568 : BitVec 32 := Scalar.andi v555 c15_i32_212
  let c10_i32_213 : BitVec 32 := 10#32
  let v569 : BitVec 32 := Scalar.subi v568 c10_i32_213
  let c16_i32_214 : BitVec 32 := 16#32
  let v570 : BitVec 32 := Scalar.addi v569 c16_i32_214
  let c15_i32_215 : BitVec 32 := 15#32
  let v571 : BitVec 32 := Scalar.andi v570 c15_i32_215
  let v572 : BitVec 32 := Scalar.addi c320_i32 v571
  let v573 : Index := Scalar.indexCast v572
  ![v573.toNat]

def k3_chk11 (k3_t1 : Fin k3_t1_loop.trips) (v554 : BitVec 32) : Prop :=
  (16 ∣ (k3_mult12 v554).toNat) ∧
  (∀ a, (k3_off23 k3_t1 v554) a + S1x16.size a ≤ S128x128.size a) ∧
  (∀ a, (k3_off24 v554) a + S16.size a ≤ S512.size a)
instance k3_chk11.dec : ∀ (k3_t1 : Fin k3_t1_loop.trips) (v554 : BitVec 32), Decidable (k3_chk11 k3_t1 v554) := fun k3_t1 v554 => decidable_of_iff' _ (Iff.of_eq (k3_chk11.eq_1 k3_t1 v554))
theorem k3_mult12_dvd : ∀ (k3_t1 : Fin k3_t1_loop.trips) (v554 : BitVec 32) (k3_hw11 : k3_chk11 k3_t1 v554), 16 ∣ (k3_mult12 v554).toNat := fun k3_t1 v554 k3_hw11 => k3_hw11.1
theorem k3_off23_inb : ∀ (k3_t1 : Fin k3_t1_loop.trips) (v554 : BitVec 32) (k3_hw11 : k3_chk11 k3_t1 v554), ∀ a, (k3_off23 k3_t1 v554) a + S1x16.size a ≤ S128x128.size a := fun k3_t1 v554 k3_hw11 => k3_hw11.2.1
theorem k3_off24_inb : ∀ (k3_t1 : Fin k3_t1_loop.trips) (v554 : BitVec 32) (k3_hw11 : k3_chk11 k3_t1 v554), ∀ a, (k3_off24 v554) a + S16.size a ≤ S512.size a := fun k3_t1 v554 k3_hw11 => k3_hw11.2.2

def k3_mult13 (v583 : BitVec 32) : BitVec 32 :=
  let c127_i32_218 : BitVec 32 := 127#32
  let v584 : BitVec 32 := Scalar.andi v583 c127_i32_218
  let c112_i32_219 : BitVec 32 := 112#32
  let v585 : BitVec 32 := Scalar.andi v584 c112_i32_219
  v585

def k3_off25 (k3_t1 : Fin k3_t1_loop.trips) (v583 : BitVec 32) : Fin 2 → Nat :=
  let c0_i32_71 : BitVec 32 := 0#32
  let c1_i32 : BitVec 32 := 1#32
  let arg15 : BitVec 32 := Scf.iv c0_i32_71 c1_i32 k3_t1
  let c16_i32_217 : BitVec 32 := 16#32
  let v580 : BitVec 32 := Scalar.muli arg15 c16_i32_217
  let c11_i32 : BitVec 32 := 11#32
  let v581 : BitVec 32 := Scalar.addi v580 c11_i32
  let v587 : Index := Scalar.indexCast v581
  let c127_i32_218 : BitVec 32 := 127#32
  let v584 : BitVec 32 := Scalar.andi v583 c127_i32_218
  let c112_i32_219 : BitVec 32 := 112#32
  let v585 : BitVec 32 := Scalar.andi v584 c112_i32_219
  let v586 : BitVec 32 := v585
  let v588 : Index := Scalar.indexCast v586
  ![v587.toNat, v588.toNat]
def k3_off26 (v583 : BitVec 32) : Fin 1 → Nat :=
  let c352_i32 : BitVec 32 := 352#32
  let c127_i32_218 : BitVec 32 := 127#32
  let v584 : BitVec 32 := Scalar.andi v583 c127_i32_218
  let c15_i32_222 : BitVec 32 := 15#32
  let v597 : BitVec 32 := Scalar.andi v584 c15_i32_222
  let c11_i32_223 : BitVec 32 := 11#32
  let v598 : BitVec 32 := Scalar.subi v597 c11_i32_223
  let c16_i32_224 : BitVec 32 := 16#32
  let v599 : BitVec 32 := Scalar.addi v598 c16_i32_224
  let c15_i32_225 : BitVec 32 := 15#32
  let v600 : BitVec 32 := Scalar.andi v599 c15_i32_225
  let v601 : BitVec 32 := Scalar.addi c352_i32 v600
  let v602 : Index := Scalar.indexCast v601
  ![v602.toNat]

def k3_chk12 (k3_t1 : Fin k3_t1_loop.trips) (v583 : BitVec 32) : Prop :=
  (16 ∣ (k3_mult13 v583).toNat) ∧
  (∀ a, (k3_off25 k3_t1 v583) a + S1x16.size a ≤ S128x128.size a) ∧
  (∀ a, (k3_off26 v583) a + S16.size a ≤ S512.size a)
instance k3_chk12.dec : ∀ (k3_t1 : Fin k3_t1_loop.trips) (v583 : BitVec 32), Decidable (k3_chk12 k3_t1 v583) := fun k3_t1 v583 => decidable_of_iff' _ (Iff.of_eq (k3_chk12.eq_1 k3_t1 v583))
theorem k3_mult13_dvd : ∀ (k3_t1 : Fin k3_t1_loop.trips) (v583 : BitVec 32) (k3_hw12 : k3_chk12 k3_t1 v583), 16 ∣ (k3_mult13 v583).toNat := fun k3_t1 v583 k3_hw12 => k3_hw12.1
theorem k3_off25_inb : ∀ (k3_t1 : Fin k3_t1_loop.trips) (v583 : BitVec 32) (k3_hw12 : k3_chk12 k3_t1 v583), ∀ a, (k3_off25 k3_t1 v583) a + S1x16.size a ≤ S128x128.size a := fun k3_t1 v583 k3_hw12 => k3_hw12.2.1
theorem k3_off26_inb : ∀ (k3_t1 : Fin k3_t1_loop.trips) (v583 : BitVec 32) (k3_hw12 : k3_chk12 k3_t1 v583), ∀ a, (k3_off26 v583) a + S16.size a ≤ S512.size a := fun k3_t1 v583 k3_hw12 => k3_hw12.2.2

def k3_mult14 (v612 : BitVec 32) : BitVec 32 :=
  let c127_i32_228 : BitVec 32 := 127#32
  let v613 : BitVec 32 := Scalar.andi v612 c127_i32_228
  let c112_i32_229 : BitVec 32 := 112#32
  let v614 : BitVec 32 := Scalar.andi v613 c112_i32_229
  v614

def k3_off27 (k3_t1 : Fin k3_t1_loop.trips) (v612 : BitVec 32) : Fin 2 → Nat :=
  let c0_i32_71 : BitVec 32 := 0#32
  let c1_i32 : BitVec 32 := 1#32
  let arg15 : BitVec 32 := Scf.iv c0_i32_71 c1_i32 k3_t1
  let c16_i32_227 : BitVec 32 := 16#32
  let v609 : BitVec 32 := Scalar.muli arg15 c16_i32_227
  let c12_i32 : BitVec 32 := 12#32
  let v610 : BitVec 32 := Scalar.addi v609 c12_i32
  let v616 : Index := Scalar.indexCast v610
  let c127_i32_228 : BitVec 32 := 127#32
  let v613 : BitVec 32 := Scalar.andi v612 c127_i32_228
  let c112_i32_229 : BitVec 32 := 112#32
  let v614 : BitVec 32 := Scalar.andi v613 c112_i32_229
  let v615 : BitVec 32 := v614
  let v617 : Index := Scalar.indexCast v615
  ![v616.toNat, v617.toNat]
def k3_off28 (v612 : BitVec 32) : Fin 1 → Nat :=
  let c384_i32_236 : BitVec 32 := 384#32
  let c127_i32_228 : BitVec 32 := 127#32
  let v613 : BitVec 32 := Scalar.andi v612 c127_i32_228
  let c15_i32_232 : BitVec 32 := 15#32
  let v626 : BitVec 32 := Scalar.andi v613 c15_i32_232
  let c12_i32_233 : BitVec 32 := 12#32
  let v627 : BitVec 32 := Scalar.subi v626 c12_i32_233
  let c16_i32_234 : BitVec 32 := 16#32
  let v628 : BitVec 32 := Scalar.addi v627 c16_i32_234
  let c15_i32_235 : BitVec 32 := 15#32
  let v629 : BitVec 32 := Scalar.andi v628 c15_i32_235
  let v630 : BitVec 32 := Scalar.addi c384_i32_236 v629
  let v631 : Index := Scalar.indexCast v630
  ![v631.toNat]

def k3_chk13 (k3_t1 : Fin k3_t1_loop.trips) (v612 : BitVec 32) : Prop :=
  (16 ∣ (k3_mult14 v612).toNat) ∧
  (∀ a, (k3_off27 k3_t1 v612) a + S1x16.size a ≤ S128x128.size a) ∧
  (∀ a, (k3_off28 v612) a + S16.size a ≤ S512.size a)
instance k3_chk13.dec : ∀ (k3_t1 : Fin k3_t1_loop.trips) (v612 : BitVec 32), Decidable (k3_chk13 k3_t1 v612) := fun k3_t1 v612 => decidable_of_iff' _ (Iff.of_eq (k3_chk13.eq_1 k3_t1 v612))
theorem k3_mult14_dvd : ∀ (k3_t1 : Fin k3_t1_loop.trips) (v612 : BitVec 32) (k3_hw13 : k3_chk13 k3_t1 v612), 16 ∣ (k3_mult14 v612).toNat := fun k3_t1 v612 k3_hw13 => k3_hw13.1
theorem k3_off27_inb : ∀ (k3_t1 : Fin k3_t1_loop.trips) (v612 : BitVec 32) (k3_hw13 : k3_chk13 k3_t1 v612), ∀ a, (k3_off27 k3_t1 v612) a + S1x16.size a ≤ S128x128.size a := fun k3_t1 v612 k3_hw13 => k3_hw13.2.1
theorem k3_off28_inb : ∀ (k3_t1 : Fin k3_t1_loop.trips) (v612 : BitVec 32) (k3_hw13 : k3_chk13 k3_t1 v612), ∀ a, (k3_off28 v612) a + S16.size a ≤ S512.size a := fun k3_t1 v612 k3_hw13 => k3_hw13.2.2

def k3_mult15 (v641 : BitVec 32) : BitVec 32 :=
  let c127_i32_239 : BitVec 32 := 127#32
  let v642 : BitVec 32 := Scalar.andi v641 c127_i32_239
  let c112_i32_240 : BitVec 32 := 112#32
  let v643 : BitVec 32 := Scalar.andi v642 c112_i32_240
  v643

def k3_off29 (k3_t1 : Fin k3_t1_loop.trips) (v641 : BitVec 32) : Fin 2 → Nat :=
  let c0_i32_71 : BitVec 32 := 0#32
  let c1_i32 : BitVec 32 := 1#32
  let arg15 : BitVec 32 := Scf.iv c0_i32_71 c1_i32 k3_t1
  let c16_i32_238 : BitVec 32 := 16#32
  let v638 : BitVec 32 := Scalar.muli arg15 c16_i32_238
  let c13_i32 : BitVec 32 := 13#32
  let v639 : BitVec 32 := Scalar.addi v638 c13_i32
  let v645 : Index := Scalar.indexCast v639
  let c127_i32_239 : BitVec 32 := 127#32
  let v642 : BitVec 32 := Scalar.andi v641 c127_i32_239
  let c112_i32_240 : BitVec 32 := 112#32
  let v643 : BitVec 32 := Scalar.andi v642 c112_i32_240
  let v644 : BitVec 32 := v643
  let v646 : Index := Scalar.indexCast v644
  ![v645.toNat, v646.toNat]
def k3_off30 (v641 : BitVec 32) : Fin 1 → Nat :=
  let c416_i32 : BitVec 32 := 416#32
  let c127_i32_239 : BitVec 32 := 127#32
  let v642 : BitVec 32 := Scalar.andi v641 c127_i32_239
  let c15_i32_243 : BitVec 32 := 15#32
  let v655 : BitVec 32 := Scalar.andi v642 c15_i32_243
  let c13_i32_244 : BitVec 32 := 13#32
  let v656 : BitVec 32 := Scalar.subi v655 c13_i32_244
  let c16_i32_245 : BitVec 32 := 16#32
  let v657 : BitVec 32 := Scalar.addi v656 c16_i32_245
  let c15_i32_246 : BitVec 32 := 15#32
  let v658 : BitVec 32 := Scalar.andi v657 c15_i32_246
  let v659 : BitVec 32 := Scalar.addi c416_i32 v658
  let v660 : Index := Scalar.indexCast v659
  ![v660.toNat]

def k3_chk14 (k3_t1 : Fin k3_t1_loop.trips) (v641 : BitVec 32) : Prop :=
  (16 ∣ (k3_mult15 v641).toNat) ∧
  (∀ a, (k3_off29 k3_t1 v641) a + S1x16.size a ≤ S128x128.size a) ∧
  (∀ a, (k3_off30 v641) a + S16.size a ≤ S512.size a)
instance k3_chk14.dec : ∀ (k3_t1 : Fin k3_t1_loop.trips) (v641 : BitVec 32), Decidable (k3_chk14 k3_t1 v641) := fun k3_t1 v641 => decidable_of_iff' _ (Iff.of_eq (k3_chk14.eq_1 k3_t1 v641))
theorem k3_mult15_dvd : ∀ (k3_t1 : Fin k3_t1_loop.trips) (v641 : BitVec 32) (k3_hw14 : k3_chk14 k3_t1 v641), 16 ∣ (k3_mult15 v641).toNat := fun k3_t1 v641 k3_hw14 => k3_hw14.1
theorem k3_off29_inb : ∀ (k3_t1 : Fin k3_t1_loop.trips) (v641 : BitVec 32) (k3_hw14 : k3_chk14 k3_t1 v641), ∀ a, (k3_off29 k3_t1 v641) a + S1x16.size a ≤ S128x128.size a := fun k3_t1 v641 k3_hw14 => k3_hw14.2.1
theorem k3_off30_inb : ∀ (k3_t1 : Fin k3_t1_loop.trips) (v641 : BitVec 32) (k3_hw14 : k3_chk14 k3_t1 v641), ∀ a, (k3_off30 v641) a + S16.size a ≤ S512.size a := fun k3_t1 v641 k3_hw14 => k3_hw14.2.2

def k3_mult16 (v670 : BitVec 32) : BitVec 32 :=
  let c127_i32_249 : BitVec 32 := 127#32
  let v671 : BitVec 32 := Scalar.andi v670 c127_i32_249
  let c112_i32_250 : BitVec 32 := 112#32
  let v672 : BitVec 32 := Scalar.andi v671 c112_i32_250
  v672

def k3_off31 (k3_t1 : Fin k3_t1_loop.trips) (v670 : BitVec 32) : Fin 2 → Nat :=
  let c0_i32_71 : BitVec 32 := 0#32
  let c1_i32 : BitVec 32 := 1#32
  let arg15 : BitVec 32 := Scf.iv c0_i32_71 c1_i32 k3_t1
  let c16_i32_248 : BitVec 32 := 16#32
  let v667 : BitVec 32 := Scalar.muli arg15 c16_i32_248
  let c14_i32 : BitVec 32 := 14#32
  let v668 : BitVec 32 := Scalar.addi v667 c14_i32
  let v674 : Index := Scalar.indexCast v668
  let c127_i32_249 : BitVec 32 := 127#32
  let v671 : BitVec 32 := Scalar.andi v670 c127_i32_249
  let c112_i32_250 : BitVec 32 := 112#32
  let v672 : BitVec 32 := Scalar.andi v671 c112_i32_250
  let v673 : BitVec 32 := v672
  let v675 : Index := Scalar.indexCast v673
  ![v674.toNat, v675.toNat]
def k3_off32 (v670 : BitVec 32) : Fin 1 → Nat :=
  let c448_i32 : BitVec 32 := 448#32
  let c127_i32_249 : BitVec 32 := 127#32
  let v671 : BitVec 32 := Scalar.andi v670 c127_i32_249
  let c15_i32_253 : BitVec 32 := 15#32
  let v684 : BitVec 32 := Scalar.andi v671 c15_i32_253
  let c14_i32_254 : BitVec 32 := 14#32
  let v685 : BitVec 32 := Scalar.subi v684 c14_i32_254
  let c16_i32_255 : BitVec 32 := 16#32
  let v686 : BitVec 32 := Scalar.addi v685 c16_i32_255
  let c15_i32_256 : BitVec 32 := 15#32
  let v687 : BitVec 32 := Scalar.andi v686 c15_i32_256
  let v688 : BitVec 32 := Scalar.addi c448_i32 v687
  let v689 : Index := Scalar.indexCast v688
  ![v689.toNat]

def k3_chk15 (k3_t1 : Fin k3_t1_loop.trips) (v670 : BitVec 32) : Prop :=
  (16 ∣ (k3_mult16 v670).toNat) ∧
  (∀ a, (k3_off31 k3_t1 v670) a + S1x16.size a ≤ S128x128.size a) ∧
  (∀ a, (k3_off32 v670) a + S16.size a ≤ S512.size a)
instance k3_chk15.dec : ∀ (k3_t1 : Fin k3_t1_loop.trips) (v670 : BitVec 32), Decidable (k3_chk15 k3_t1 v670) := fun k3_t1 v670 => decidable_of_iff' _ (Iff.of_eq (k3_chk15.eq_1 k3_t1 v670))
theorem k3_mult16_dvd : ∀ (k3_t1 : Fin k3_t1_loop.trips) (v670 : BitVec 32) (k3_hw15 : k3_chk15 k3_t1 v670), 16 ∣ (k3_mult16 v670).toNat := fun k3_t1 v670 k3_hw15 => k3_hw15.1
theorem k3_off31_inb : ∀ (k3_t1 : Fin k3_t1_loop.trips) (v670 : BitVec 32) (k3_hw15 : k3_chk15 k3_t1 v670), ∀ a, (k3_off31 k3_t1 v670) a + S1x16.size a ≤ S128x128.size a := fun k3_t1 v670 k3_hw15 => k3_hw15.2.1
theorem k3_off32_inb : ∀ (k3_t1 : Fin k3_t1_loop.trips) (v670 : BitVec 32) (k3_hw15 : k3_chk15 k3_t1 v670), ∀ a, (k3_off32 v670) a + S16.size a ≤ S512.size a := fun k3_t1 v670 k3_hw15 => k3_hw15.2.2

def k3_mult17 (v699 : BitVec 32) : BitVec 32 :=
  let c127_i32_260 : BitVec 32 := 127#32
  let v700 : BitVec 32 := Scalar.andi v699 c127_i32_260
  let c112_i32_261 : BitVec 32 := 112#32
  let v701 : BitVec 32 := Scalar.andi v700 c112_i32_261
  v701

def k3_off33 (k3_t1 : Fin k3_t1_loop.trips) (v699 : BitVec 32) : Fin 2 → Nat :=
  let c0_i32_71 : BitVec 32 := 0#32
  let c1_i32 : BitVec 32 := 1#32
  let arg15 : BitVec 32 := Scf.iv c0_i32_71 c1_i32 k3_t1
  let c16_i32_258 : BitVec 32 := 16#32
  let v696 : BitVec 32 := Scalar.muli arg15 c16_i32_258
  let c15_i32_259 : BitVec 32 := 15#32
  let v697 : BitVec 32 := Scalar.addi v696 c15_i32_259
  let v703 : Index := Scalar.indexCast v697
  let c127_i32_260 : BitVec 32 := 127#32
  let v700 : BitVec 32 := Scalar.andi v699 c127_i32_260
  let c112_i32_261 : BitVec 32 := 112#32
  let v701 : BitVec 32 := Scalar.andi v700 c112_i32_261
  let v702 : BitVec 32 := v701
  let v704 : Index := Scalar.indexCast v702
  ![v703.toNat, v704.toNat]
def k3_off34 (v699 : BitVec 32) : Fin 1 → Nat :=
  let c480_i32 : BitVec 32 := 480#32
  let c127_i32_260 : BitVec 32 := 127#32
  let v700 : BitVec 32 := Scalar.andi v699 c127_i32_260
  let c15_i32_264 : BitVec 32 := 15#32
  let v713 : BitVec 32 := Scalar.andi v700 c15_i32_264
  let c15_i32_265 : BitVec 32 := 15#32
  let v714 : BitVec 32 := Scalar.subi v713 c15_i32_265
  let c16_i32_266 : BitVec 32 := 16#32
  let v715 : BitVec 32 := Scalar.addi v714 c16_i32_266
  let c15_i32_267 : BitVec 32 := 15#32
  let v716 : BitVec 32 := Scalar.andi v715 c15_i32_267
  let v717 : BitVec 32 := Scalar.addi c480_i32 v716
  let v718 : Index := Scalar.indexCast v717
  ![v718.toNat]

def k3_chk16 (k3_t1 : Fin k3_t1_loop.trips) (v699 : BitVec 32) : Prop :=
  (16 ∣ (k3_mult17 v699).toNat) ∧
  (∀ a, (k3_off33 k3_t1 v699) a + S1x16.size a ≤ S128x128.size a) ∧
  (∀ a, (k3_off34 v699) a + S16.size a ≤ S512.size a)
instance k3_chk16.dec : ∀ (k3_t1 : Fin k3_t1_loop.trips) (v699 : BitVec 32), Decidable (k3_chk16 k3_t1 v699) := fun k3_t1 v699 => decidable_of_iff' _ (Iff.of_eq (k3_chk16.eq_1 k3_t1 v699))
theorem k3_mult17_dvd : ∀ (k3_t1 : Fin k3_t1_loop.trips) (v699 : BitVec 32) (k3_hw16 : k3_chk16 k3_t1 v699), 16 ∣ (k3_mult17 v699).toNat := fun k3_t1 v699 k3_hw16 => k3_hw16.1
theorem k3_off33_inb : ∀ (k3_t1 : Fin k3_t1_loop.trips) (v699 : BitVec 32) (k3_hw16 : k3_chk16 k3_t1 v699), ∀ a, (k3_off33 k3_t1 v699) a + S1x16.size a ≤ S128x128.size a := fun k3_t1 v699 k3_hw16 => k3_hw16.2.1
theorem k3_off34_inb : ∀ (k3_t1 : Fin k3_t1_loop.trips) (v699 : BitVec 32) (k3_hw16 : k3_chk16 k3_t1 v699), ∀ a, (k3_off34 v699) a + S16.size a ≤ S512.size a := fun k3_t1 v699 k3_hw16 => k3_hw16.2.2

def k3_off35 (k3_t1 : Fin k3_t1_loop.trips) : Fin 1 → Nat :=
  let c0_i32_101 : BitVec 32 := 0#32
  let c0_i32_71 : BitVec 32 := 0#32
  let c1_i32 : BitVec 32 := 1#32
  let arg15 : BitVec 32 := Scf.iv c0_i32_71 c1_i32 k3_t1
  let c16_i32 : BitVec 32 := 16#32
  let v252 : BitVec 32 := Scalar.muli arg15 c16_i32
  let v253 : BitVec 32 := Scalar.addi c0_i32_101 v252
  let v254 : BitVec 32 := v253
  let v725 : Index := Scalar.indexCast v254
  ![v725.toNat]
@[reducible] def k3_t2_loop : Scf.Loop 32 :=
  let c0_i32_79 : BitVec 32 := 0#32
  let c8_i32_80 : BitVec 32 := 8#32
  let v240 : BitVec 32 := Scalar.addi c0_i32_79 c8_i32_80
  let c1_i32_81 : BitVec 32 := 1#32
  ⟨c0_i32_79, v240, c1_i32_81⟩
def k3_mult18 (k3_t2 : Fin k3_t2_loop.trips) : BitVec 32 :=
  let c128_i32_101 : BitVec 32 := 128#32
  let c0_i32_79 : BitVec 32 := 0#32
  let c1_i32_81 : BitVec 32 := 1#32
  let arg15 : BitVec 32 := Scf.iv c0_i32_79 c1_i32_81 k3_t2
  let c16_i32 : BitVec 32 := 16#32
  let v252 : BitVec 32 := Scalar.muli arg15 c16_i32
  let v253 : BitVec 32 := Scalar.addi c128_i32_101 v252
  v253
def k3_off36 (k3_t2 : Fin k3_t2_loop.trips) : Fin 1 → Nat :=
  let c128_i32_101 : BitVec 32 := 128#32
  let c0_i32_79 : BitVec 32 := 0#32
  let c1_i32_81 : BitVec 32 := 1#32
  let arg15 : BitVec 32 := Scf.iv c0_i32_79 c1_i32_81 k3_t2
  let c16_i32 : BitVec 32 := 16#32
  let v252 : BitVec 32 := Scalar.muli arg15 c16_i32
  let v253 : BitVec 32 := Scalar.addi c128_i32_101 v252
  let v254 : BitVec 32 := v253
  let v255 : Index := Scalar.indexCast v254
  ![v255.toNat]
def k3_mult19 (v264 : BitVec 32) : BitVec 32 :=
  let c127_i32 : BitVec 32 := 127#32
  let v265 : BitVec 32 := Scalar.andi v264 c127_i32
  let c112_i32 : BitVec 32 := 112#32
  let v266 : BitVec 32 := Scalar.andi v265 c112_i32
  v266

def k3_off37 (k3_t2 : Fin k3_t2_loop.trips) (v264 : BitVec 32) : Fin 2 → Nat :=
  let c0_i32_79 : BitVec 32 := 0#32
  let c1_i32_81 : BitVec 32 := 1#32
  let arg15 : BitVec 32 := Scf.iv c0_i32_79 c1_i32_81 k3_t2
  let c16_i32_102 : BitVec 32 := 16#32
  let v261 : BitVec 32 := Scalar.muli arg15 c16_i32_102
  let c0_i32_103 : BitVec 32 := 0#32
  let v262 : BitVec 32 := Scalar.addi v261 c0_i32_103
  let v268 : Index := Scalar.indexCast v262
  let c127_i32 : BitVec 32 := 127#32
  let v265 : BitVec 32 := Scalar.andi v264 c127_i32
  let c112_i32 : BitVec 32 := 112#32
  let v266 : BitVec 32 := Scalar.andi v265 c112_i32
  let v267 : BitVec 32 := v266
  let v269 : Index := Scalar.indexCast v267
  ![v268.toNat, v269.toNat]
def k3_off38 (v264 : BitVec 32) : Fin 1 → Nat :=
  let c0_i32_109 : BitVec 32 := 0#32
  let c127_i32 : BitVec 32 := 127#32
  let v265 : BitVec 32 := Scalar.andi v264 c127_i32
  let c15_i32 : BitVec 32 := 15#32
  let v278 : BitVec 32 := Scalar.andi v265 c15_i32
  let c0_i32_106 : BitVec 32 := 0#32
  let v279 : BitVec 32 := Scalar.subi v278 c0_i32_106
  let c16_i32_107 : BitVec 32 := 16#32
  let v280 : BitVec 32 := Scalar.addi v279 c16_i32_107
  let c15_i32_108 : BitVec 32 := 15#32
  let v281 : BitVec 32 := Scalar.andi v280 c15_i32_108
  let v282 : BitVec 32 := Scalar.addi c0_i32_109 v281
  let v283 : Index := Scalar.indexCast v282
  ![v283.toNat]

def k3_chk17 (k3_t2 : Fin k3_t2_loop.trips) (v264 : BitVec 32) : Prop :=
  (16 ∣ (k3_mult19 v264).toNat) ∧
  (∀ a, (k3_off37 k3_t2 v264) a + S1x16.size a ≤ S128x128.size a) ∧
  (∀ a, (k3_off38 v264) a + S16.size a ≤ S512.size a)
instance k3_chk17.dec : ∀ (k3_t2 : Fin k3_t2_loop.trips) (v264 : BitVec 32), Decidable (k3_chk17 k3_t2 v264) := fun k3_t2 v264 => decidable_of_iff' _ (Iff.of_eq (k3_chk17.eq_1 k3_t2 v264))
theorem k3_mult19_dvd : ∀ (k3_t2 : Fin k3_t2_loop.trips) (v264 : BitVec 32) (k3_hw17 : k3_chk17 k3_t2 v264), 16 ∣ (k3_mult19 v264).toNat := fun k3_t2 v264 k3_hw17 => k3_hw17.1
theorem k3_off37_inb : ∀ (k3_t2 : Fin k3_t2_loop.trips) (v264 : BitVec 32) (k3_hw17 : k3_chk17 k3_t2 v264), ∀ a, (k3_off37 k3_t2 v264) a + S1x16.size a ≤ S128x128.size a := fun k3_t2 v264 k3_hw17 => k3_hw17.2.1
theorem k3_off38_inb : ∀ (k3_t2 : Fin k3_t2_loop.trips) (v264 : BitVec 32) (k3_hw17 : k3_chk17 k3_t2 v264), ∀ a, (k3_off38 v264) a + S16.size a ≤ S512.size a := fun k3_t2 v264 k3_hw17 => k3_hw17.2.2

def k3_mult20 (v293 : BitVec 32) : BitVec 32 :=
  let c127_i32_113 : BitVec 32 := 127#32
  let v294 : BitVec 32 := Scalar.andi v293 c127_i32_113
  let c112_i32_114 : BitVec 32 := 112#32
  let v295 : BitVec 32 := Scalar.andi v294 c112_i32_114
  v295

def k3_off39 (k3_t2 : Fin k3_t2_loop.trips) (v293 : BitVec 32) : Fin 2 → Nat :=
  let c0_i32_79 : BitVec 32 := 0#32
  let c1_i32_81 : BitVec 32 := 1#32
  let arg15 : BitVec 32 := Scf.iv c0_i32_79 c1_i32_81 k3_t2
  let c16_i32_111 : BitVec 32 := 16#32
  let v290 : BitVec 32 := Scalar.muli arg15 c16_i32_111
  let c1_i32_112 : BitVec 32 := 1#32
  let v291 : BitVec 32 := Scalar.addi v290 c1_i32_112
  let v297 : Index := Scalar.indexCast v291
  let c127_i32_113 : BitVec 32 := 127#32
  let v294 : BitVec 32 := Scalar.andi v293 c127_i32_113
  let c112_i32_114 : BitVec 32 := 112#32
  let v295 : BitVec 32 := Scalar.andi v294 c112_i32_114
  let v296 : BitVec 32 := v295
  let v298 : Index := Scalar.indexCast v296
  ![v297.toNat, v298.toNat]
def k3_off40 (v293 : BitVec 32) : Fin 1 → Nat :=
  let c32_i32 : BitVec 32 := 32#32
  let c127_i32_113 : BitVec 32 := 127#32
  let v294 : BitVec 32 := Scalar.andi v293 c127_i32_113
  let c15_i32_117 : BitVec 32 := 15#32
  let v307 : BitVec 32 := Scalar.andi v294 c15_i32_117
  let c1_i32_118 : BitVec 32 := 1#32
  let v308 : BitVec 32 := Scalar.subi v307 c1_i32_118
  let c16_i32_119 : BitVec 32 := 16#32
  let v309 : BitVec 32 := Scalar.addi v308 c16_i32_119
  let c15_i32_120 : BitVec 32 := 15#32
  let v310 : BitVec 32 := Scalar.andi v309 c15_i32_120
  let v311 : BitVec 32 := Scalar.addi c32_i32 v310
  let v312 : Index := Scalar.indexCast v311
  ![v312.toNat]

def k3_chk18 (k3_t2 : Fin k3_t2_loop.trips) (v293 : BitVec 32) : Prop :=
  (16 ∣ (k3_mult20 v293).toNat) ∧
  (∀ a, (k3_off39 k3_t2 v293) a + S1x16.size a ≤ S128x128.size a) ∧
  (∀ a, (k3_off40 v293) a + S16.size a ≤ S512.size a)
instance k3_chk18.dec : ∀ (k3_t2 : Fin k3_t2_loop.trips) (v293 : BitVec 32), Decidable (k3_chk18 k3_t2 v293) := fun k3_t2 v293 => decidable_of_iff' _ (Iff.of_eq (k3_chk18.eq_1 k3_t2 v293))
theorem k3_mult20_dvd : ∀ (k3_t2 : Fin k3_t2_loop.trips) (v293 : BitVec 32) (k3_hw18 : k3_chk18 k3_t2 v293), 16 ∣ (k3_mult20 v293).toNat := fun k3_t2 v293 k3_hw18 => k3_hw18.1
theorem k3_off39_inb : ∀ (k3_t2 : Fin k3_t2_loop.trips) (v293 : BitVec 32) (k3_hw18 : k3_chk18 k3_t2 v293), ∀ a, (k3_off39 k3_t2 v293) a + S1x16.size a ≤ S128x128.size a := fun k3_t2 v293 k3_hw18 => k3_hw18.2.1
theorem k3_off40_inb : ∀ (k3_t2 : Fin k3_t2_loop.trips) (v293 : BitVec 32) (k3_hw18 : k3_chk18 k3_t2 v293), ∀ a, (k3_off40 v293) a + S16.size a ≤ S512.size a := fun k3_t2 v293 k3_hw18 => k3_hw18.2.2

def k3_mult21 (v322 : BitVec 32) : BitVec 32 :=
  let c127_i32_124 : BitVec 32 := 127#32
  let v323 : BitVec 32 := Scalar.andi v322 c127_i32_124
  let c112_i32_125 : BitVec 32 := 112#32
  let v324 : BitVec 32 := Scalar.andi v323 c112_i32_125
  v324

def k3_off41 (k3_t2 : Fin k3_t2_loop.trips) (v322 : BitVec 32) : Fin 2 → Nat :=
  let c0_i32_79 : BitVec 32 := 0#32
  let c1_i32_81 : BitVec 32 := 1#32
  let arg15 : BitVec 32 := Scf.iv c0_i32_79 c1_i32_81 k3_t2
  let c16_i32_122 : BitVec 32 := 16#32
  let v319 : BitVec 32 := Scalar.muli arg15 c16_i32_122
  let c2_i32_123 : BitVec 32 := 2#32
  let v320 : BitVec 32 := Scalar.addi v319 c2_i32_123
  let v326 : Index := Scalar.indexCast v320
  let c127_i32_124 : BitVec 32 := 127#32
  let v323 : BitVec 32 := Scalar.andi v322 c127_i32_124
  let c112_i32_125 : BitVec 32 := 112#32
  let v324 : BitVec 32 := Scalar.andi v323 c112_i32_125
  let v325 : BitVec 32 := v324
  let v327 : Index := Scalar.indexCast v325
  ![v326.toNat, v327.toNat]
def k3_off42 (v322 : BitVec 32) : Fin 1 → Nat :=
  let c64_i32 : BitVec 32 := 64#32
  let c127_i32_124 : BitVec 32 := 127#32
  let v323 : BitVec 32 := Scalar.andi v322 c127_i32_124
  let c15_i32_128 : BitVec 32 := 15#32
  let v336 : BitVec 32 := Scalar.andi v323 c15_i32_128
  let c2_i32_129 : BitVec 32 := 2#32
  let v337 : BitVec 32 := Scalar.subi v336 c2_i32_129
  let c16_i32_130 : BitVec 32 := 16#32
  let v338 : BitVec 32 := Scalar.addi v337 c16_i32_130
  let c15_i32_131 : BitVec 32 := 15#32
  let v339 : BitVec 32 := Scalar.andi v338 c15_i32_131
  let v340 : BitVec 32 := Scalar.addi c64_i32 v339
  let v341 : Index := Scalar.indexCast v340
  ![v341.toNat]

def k3_chk19 (k3_t2 : Fin k3_t2_loop.trips) (v322 : BitVec 32) : Prop :=
  (16 ∣ (k3_mult21 v322).toNat) ∧
  (∀ a, (k3_off41 k3_t2 v322) a + S1x16.size a ≤ S128x128.size a) ∧
  (∀ a, (k3_off42 v322) a + S16.size a ≤ S512.size a)
instance k3_chk19.dec : ∀ (k3_t2 : Fin k3_t2_loop.trips) (v322 : BitVec 32), Decidable (k3_chk19 k3_t2 v322) := fun k3_t2 v322 => decidable_of_iff' _ (Iff.of_eq (k3_chk19.eq_1 k3_t2 v322))
theorem k3_mult21_dvd : ∀ (k3_t2 : Fin k3_t2_loop.trips) (v322 : BitVec 32) (k3_hw19 : k3_chk19 k3_t2 v322), 16 ∣ (k3_mult21 v322).toNat := fun k3_t2 v322 k3_hw19 => k3_hw19.1
theorem k3_off41_inb : ∀ (k3_t2 : Fin k3_t2_loop.trips) (v322 : BitVec 32) (k3_hw19 : k3_chk19 k3_t2 v322), ∀ a, (k3_off41 k3_t2 v322) a + S1x16.size a ≤ S128x128.size a := fun k3_t2 v322 k3_hw19 => k3_hw19.2.1
theorem k3_off42_inb : ∀ (k3_t2 : Fin k3_t2_loop.trips) (v322 : BitVec 32) (k3_hw19 : k3_chk19 k3_t2 v322), ∀ a, (k3_off42 v322) a + S16.size a ≤ S512.size a := fun k3_t2 v322 k3_hw19 => k3_hw19.2.2

def k3_mult22 (v351 : BitVec 32) : BitVec 32 :=
  let c127_i32_134 : BitVec 32 := 127#32
  let v352 : BitVec 32 := Scalar.andi v351 c127_i32_134
  let c112_i32_135 : BitVec 32 := 112#32
  let v353 : BitVec 32 := Scalar.andi v352 c112_i32_135
  v353

def k3_off43 (k3_t2 : Fin k3_t2_loop.trips) (v351 : BitVec 32) : Fin 2 → Nat :=
  let c0_i32_79 : BitVec 32 := 0#32
  let c1_i32_81 : BitVec 32 := 1#32
  let arg15 : BitVec 32 := Scf.iv c0_i32_79 c1_i32_81 k3_t2
  let c16_i32_133 : BitVec 32 := 16#32
  let v348 : BitVec 32 := Scalar.muli arg15 c16_i32_133
  let c3_i32 : BitVec 32 := 3#32
  let v349 : BitVec 32 := Scalar.addi v348 c3_i32
  let v355 : Index := Scalar.indexCast v349
  let c127_i32_134 : BitVec 32 := 127#32
  let v352 : BitVec 32 := Scalar.andi v351 c127_i32_134
  let c112_i32_135 : BitVec 32 := 112#32
  let v353 : BitVec 32 := Scalar.andi v352 c112_i32_135
  let v354 : BitVec 32 := v353
  let v356 : Index := Scalar.indexCast v354
  ![v355.toNat, v356.toNat]
def k3_off44 (v351 : BitVec 32) : Fin 1 → Nat :=
  let c96_i32 : BitVec 32 := 96#32
  let c127_i32_134 : BitVec 32 := 127#32
  let v352 : BitVec 32 := Scalar.andi v351 c127_i32_134
  let c15_i32_138 : BitVec 32 := 15#32
  let v365 : BitVec 32 := Scalar.andi v352 c15_i32_138
  let c3_i32_139 : BitVec 32 := 3#32
  let v366 : BitVec 32 := Scalar.subi v365 c3_i32_139
  let c16_i32_140 : BitVec 32 := 16#32
  let v367 : BitVec 32 := Scalar.addi v366 c16_i32_140
  let c15_i32_141 : BitVec 32 := 15#32
  let v368 : BitVec 32 := Scalar.andi v367 c15_i32_141
  let v369 : BitVec 32 := Scalar.addi c96_i32 v368
  let v370 : Index := Scalar.indexCast v369
  ![v370.toNat]

def k3_chk20 (k3_t2 : Fin k3_t2_loop.trips) (v351 : BitVec 32) : Prop :=
  (16 ∣ (k3_mult22 v351).toNat) ∧
  (∀ a, (k3_off43 k3_t2 v351) a + S1x16.size a ≤ S128x128.size a) ∧
  (∀ a, (k3_off44 v351) a + S16.size a ≤ S512.size a)
instance k3_chk20.dec : ∀ (k3_t2 : Fin k3_t2_loop.trips) (v351 : BitVec 32), Decidable (k3_chk20 k3_t2 v351) := fun k3_t2 v351 => decidable_of_iff' _ (Iff.of_eq (k3_chk20.eq_1 k3_t2 v351))
theorem k3_mult22_dvd : ∀ (k3_t2 : Fin k3_t2_loop.trips) (v351 : BitVec 32) (k3_hw20 : k3_chk20 k3_t2 v351), 16 ∣ (k3_mult22 v351).toNat := fun k3_t2 v351 k3_hw20 => k3_hw20.1
theorem k3_off43_inb : ∀ (k3_t2 : Fin k3_t2_loop.trips) (v351 : BitVec 32) (k3_hw20 : k3_chk20 k3_t2 v351), ∀ a, (k3_off43 k3_t2 v351) a + S1x16.size a ≤ S128x128.size a := fun k3_t2 v351 k3_hw20 => k3_hw20.2.1
theorem k3_off44_inb : ∀ (k3_t2 : Fin k3_t2_loop.trips) (v351 : BitVec 32) (k3_hw20 : k3_chk20 k3_t2 v351), ∀ a, (k3_off44 v351) a + S16.size a ≤ S512.size a := fun k3_t2 v351 k3_hw20 => k3_hw20.2.2

def k3_mult23 (v380 : BitVec 32) : BitVec 32 :=
  let c127_i32_144 : BitVec 32 := 127#32
  let v381 : BitVec 32 := Scalar.andi v380 c127_i32_144
  let c112_i32_145 : BitVec 32 := 112#32
  let v382 : BitVec 32 := Scalar.andi v381 c112_i32_145
  v382

def k3_off45 (k3_t2 : Fin k3_t2_loop.trips) (v380 : BitVec 32) : Fin 2 → Nat :=
  let c0_i32_79 : BitVec 32 := 0#32
  let c1_i32_81 : BitVec 32 := 1#32
  let arg15 : BitVec 32 := Scf.iv c0_i32_79 c1_i32_81 k3_t2
  let c16_i32_143 : BitVec 32 := 16#32
  let v377 : BitVec 32 := Scalar.muli arg15 c16_i32_143
  let c4_i32 : BitVec 32 := 4#32
  let v378 : BitVec 32 := Scalar.addi v377 c4_i32
  let v384 : Index := Scalar.indexCast v378
  let c127_i32_144 : BitVec 32 := 127#32
  let v381 : BitVec 32 := Scalar.andi v380 c127_i32_144
  let c112_i32_145 : BitVec 32 := 112#32
  let v382 : BitVec 32 := Scalar.andi v381 c112_i32_145
  let v383 : BitVec 32 := v382
  let v385 : Index := Scalar.indexCast v383
  ![v384.toNat, v385.toNat]
def k3_off46 (v380 : BitVec 32) : Fin 1 → Nat :=
  let c128_i32_152 : BitVec 32 := 128#32
  let c127_i32_144 : BitVec 32 := 127#32
  let v381 : BitVec 32 := Scalar.andi v380 c127_i32_144
  let c15_i32_148 : BitVec 32 := 15#32
  let v394 : BitVec 32 := Scalar.andi v381 c15_i32_148
  let c4_i32_149 : BitVec 32 := 4#32
  let v395 : BitVec 32 := Scalar.subi v394 c4_i32_149
  let c16_i32_150 : BitVec 32 := 16#32
  let v396 : BitVec 32 := Scalar.addi v395 c16_i32_150
  let c15_i32_151 : BitVec 32 := 15#32
  let v397 : BitVec 32 := Scalar.andi v396 c15_i32_151
  let v398 : BitVec 32 := Scalar.addi c128_i32_152 v397
  let v399 : Index := Scalar.indexCast v398
  ![v399.toNat]

def k3_chk21 (k3_t2 : Fin k3_t2_loop.trips) (v380 : BitVec 32) : Prop :=
  (16 ∣ (k3_mult23 v380).toNat) ∧
  (∀ a, (k3_off45 k3_t2 v380) a + S1x16.size a ≤ S128x128.size a) ∧
  (∀ a, (k3_off46 v380) a + S16.size a ≤ S512.size a)
instance k3_chk21.dec : ∀ (k3_t2 : Fin k3_t2_loop.trips) (v380 : BitVec 32), Decidable (k3_chk21 k3_t2 v380) := fun k3_t2 v380 => decidable_of_iff' _ (Iff.of_eq (k3_chk21.eq_1 k3_t2 v380))
theorem k3_mult23_dvd : ∀ (k3_t2 : Fin k3_t2_loop.trips) (v380 : BitVec 32) (k3_hw21 : k3_chk21 k3_t2 v380), 16 ∣ (k3_mult23 v380).toNat := fun k3_t2 v380 k3_hw21 => k3_hw21.1
theorem k3_off45_inb : ∀ (k3_t2 : Fin k3_t2_loop.trips) (v380 : BitVec 32) (k3_hw21 : k3_chk21 k3_t2 v380), ∀ a, (k3_off45 k3_t2 v380) a + S1x16.size a ≤ S128x128.size a := fun k3_t2 v380 k3_hw21 => k3_hw21.2.1
theorem k3_off46_inb : ∀ (k3_t2 : Fin k3_t2_loop.trips) (v380 : BitVec 32) (k3_hw21 : k3_chk21 k3_t2 v380), ∀ a, (k3_off46 v380) a + S16.size a ≤ S512.size a := fun k3_t2 v380 k3_hw21 => k3_hw21.2.2

def k3_mult24 (v409 : BitVec 32) : BitVec 32 :=
  let c127_i32_155 : BitVec 32 := 127#32
  let v410 : BitVec 32 := Scalar.andi v409 c127_i32_155
  let c112_i32_156 : BitVec 32 := 112#32
  let v411 : BitVec 32 := Scalar.andi v410 c112_i32_156
  v411

def k3_off47 (k3_t2 : Fin k3_t2_loop.trips) (v409 : BitVec 32) : Fin 2 → Nat :=
  let c0_i32_79 : BitVec 32 := 0#32
  let c1_i32_81 : BitVec 32 := 1#32
  let arg15 : BitVec 32 := Scf.iv c0_i32_79 c1_i32_81 k3_t2
  let c16_i32_154 : BitVec 32 := 16#32
  let v406 : BitVec 32 := Scalar.muli arg15 c16_i32_154
  let c5_i32 : BitVec 32 := 5#32
  let v407 : BitVec 32 := Scalar.addi v406 c5_i32
  let v413 : Index := Scalar.indexCast v407
  let c127_i32_155 : BitVec 32 := 127#32
  let v410 : BitVec 32 := Scalar.andi v409 c127_i32_155
  let c112_i32_156 : BitVec 32 := 112#32
  let v411 : BitVec 32 := Scalar.andi v410 c112_i32_156
  let v412 : BitVec 32 := v411
  let v414 : Index := Scalar.indexCast v412
  ![v413.toNat, v414.toNat]
def k3_off48 (v409 : BitVec 32) : Fin 1 → Nat :=
  let c160_i32 : BitVec 32 := 160#32
  let c127_i32_155 : BitVec 32 := 127#32
  let v410 : BitVec 32 := Scalar.andi v409 c127_i32_155
  let c15_i32_159 : BitVec 32 := 15#32
  let v423 : BitVec 32 := Scalar.andi v410 c15_i32_159
  let c5_i32_160 : BitVec 32 := 5#32
  let v424 : BitVec 32 := Scalar.subi v423 c5_i32_160
  let c16_i32_161 : BitVec 32 := 16#32
  let v425 : BitVec 32 := Scalar.addi v424 c16_i32_161
  let c15_i32_162 : BitVec 32 := 15#32
  let v426 : BitVec 32 := Scalar.andi v425 c15_i32_162
  let v427 : BitVec 32 := Scalar.addi c160_i32 v426
  let v428 : Index := Scalar.indexCast v427
  ![v428.toNat]

def k3_chk22 (k3_t2 : Fin k3_t2_loop.trips) (v409 : BitVec 32) : Prop :=
  (16 ∣ (k3_mult24 v409).toNat) ∧
  (∀ a, (k3_off47 k3_t2 v409) a + S1x16.size a ≤ S128x128.size a) ∧
  (∀ a, (k3_off48 v409) a + S16.size a ≤ S512.size a)
instance k3_chk22.dec : ∀ (k3_t2 : Fin k3_t2_loop.trips) (v409 : BitVec 32), Decidable (k3_chk22 k3_t2 v409) := fun k3_t2 v409 => decidable_of_iff' _ (Iff.of_eq (k3_chk22.eq_1 k3_t2 v409))
theorem k3_mult24_dvd : ∀ (k3_t2 : Fin k3_t2_loop.trips) (v409 : BitVec 32) (k3_hw22 : k3_chk22 k3_t2 v409), 16 ∣ (k3_mult24 v409).toNat := fun k3_t2 v409 k3_hw22 => k3_hw22.1
theorem k3_off47_inb : ∀ (k3_t2 : Fin k3_t2_loop.trips) (v409 : BitVec 32) (k3_hw22 : k3_chk22 k3_t2 v409), ∀ a, (k3_off47 k3_t2 v409) a + S1x16.size a ≤ S128x128.size a := fun k3_t2 v409 k3_hw22 => k3_hw22.2.1
theorem k3_off48_inb : ∀ (k3_t2 : Fin k3_t2_loop.trips) (v409 : BitVec 32) (k3_hw22 : k3_chk22 k3_t2 v409), ∀ a, (k3_off48 v409) a + S16.size a ≤ S512.size a := fun k3_t2 v409 k3_hw22 => k3_hw22.2.2

def k3_mult25 (v438 : BitVec 32) : BitVec 32 :=
  let c127_i32_165 : BitVec 32 := 127#32
  let v439 : BitVec 32 := Scalar.andi v438 c127_i32_165
  let c112_i32_166 : BitVec 32 := 112#32
  let v440 : BitVec 32 := Scalar.andi v439 c112_i32_166
  v440

def k3_off49 (k3_t2 : Fin k3_t2_loop.trips) (v438 : BitVec 32) : Fin 2 → Nat :=
  let c0_i32_79 : BitVec 32 := 0#32
  let c1_i32_81 : BitVec 32 := 1#32
  let arg15 : BitVec 32 := Scf.iv c0_i32_79 c1_i32_81 k3_t2
  let c16_i32_164 : BitVec 32 := 16#32
  let v435 : BitVec 32 := Scalar.muli arg15 c16_i32_164
  let c6_i32 : BitVec 32 := 6#32
  let v436 : BitVec 32 := Scalar.addi v435 c6_i32
  let v442 : Index := Scalar.indexCast v436
  let c127_i32_165 : BitVec 32 := 127#32
  let v439 : BitVec 32 := Scalar.andi v438 c127_i32_165
  let c112_i32_166 : BitVec 32 := 112#32
  let v440 : BitVec 32 := Scalar.andi v439 c112_i32_166
  let v441 : BitVec 32 := v440
  let v443 : Index := Scalar.indexCast v441
  ![v442.toNat, v443.toNat]
def k3_off50 (v438 : BitVec 32) : Fin 1 → Nat :=
  let c192_i32 : BitVec 32 := 192#32
  let c127_i32_165 : BitVec 32 := 127#32
  let v439 : BitVec 32 := Scalar.andi v438 c127_i32_165
  let c15_i32_169 : BitVec 32 := 15#32
  let v452 : BitVec 32 := Scalar.andi v439 c15_i32_169
  let c6_i32_170 : BitVec 32 := 6#32
  let v453 : BitVec 32 := Scalar.subi v452 c6_i32_170
  let c16_i32_171 : BitVec 32 := 16#32
  let v454 : BitVec 32 := Scalar.addi v453 c16_i32_171
  let c15_i32_172 : BitVec 32 := 15#32
  let v455 : BitVec 32 := Scalar.andi v454 c15_i32_172
  let v456 : BitVec 32 := Scalar.addi c192_i32 v455
  let v457 : Index := Scalar.indexCast v456
  ![v457.toNat]

def k3_chk23 (k3_t2 : Fin k3_t2_loop.trips) (v438 : BitVec 32) : Prop :=
  (16 ∣ (k3_mult25 v438).toNat) ∧
  (∀ a, (k3_off49 k3_t2 v438) a + S1x16.size a ≤ S128x128.size a) ∧
  (∀ a, (k3_off50 v438) a + S16.size a ≤ S512.size a)
instance k3_chk23.dec : ∀ (k3_t2 : Fin k3_t2_loop.trips) (v438 : BitVec 32), Decidable (k3_chk23 k3_t2 v438) := fun k3_t2 v438 => decidable_of_iff' _ (Iff.of_eq (k3_chk23.eq_1 k3_t2 v438))
theorem k3_mult25_dvd : ∀ (k3_t2 : Fin k3_t2_loop.trips) (v438 : BitVec 32) (k3_hw23 : k3_chk23 k3_t2 v438), 16 ∣ (k3_mult25 v438).toNat := fun k3_t2 v438 k3_hw23 => k3_hw23.1
theorem k3_off49_inb : ∀ (k3_t2 : Fin k3_t2_loop.trips) (v438 : BitVec 32) (k3_hw23 : k3_chk23 k3_t2 v438), ∀ a, (k3_off49 k3_t2 v438) a + S1x16.size a ≤ S128x128.size a := fun k3_t2 v438 k3_hw23 => k3_hw23.2.1
theorem k3_off50_inb : ∀ (k3_t2 : Fin k3_t2_loop.trips) (v438 : BitVec 32) (k3_hw23 : k3_chk23 k3_t2 v438), ∀ a, (k3_off50 v438) a + S16.size a ≤ S512.size a := fun k3_t2 v438 k3_hw23 => k3_hw23.2.2

def k3_mult26 (v467 : BitVec 32) : BitVec 32 :=
  let c127_i32_176 : BitVec 32 := 127#32
  let v468 : BitVec 32 := Scalar.andi v467 c127_i32_176
  let c112_i32_177 : BitVec 32 := 112#32
  let v469 : BitVec 32 := Scalar.andi v468 c112_i32_177
  v469

def k3_off51 (k3_t2 : Fin k3_t2_loop.trips) (v467 : BitVec 32) : Fin 2 → Nat :=
  let c0_i32_79 : BitVec 32 := 0#32
  let c1_i32_81 : BitVec 32 := 1#32
  let arg15 : BitVec 32 := Scf.iv c0_i32_79 c1_i32_81 k3_t2
  let c16_i32_174 : BitVec 32 := 16#32
  let v464 : BitVec 32 := Scalar.muli arg15 c16_i32_174
  let c7_i32_175 : BitVec 32 := 7#32
  let v465 : BitVec 32 := Scalar.addi v464 c7_i32_175
  let v471 : Index := Scalar.indexCast v465
  let c127_i32_176 : BitVec 32 := 127#32
  let v468 : BitVec 32 := Scalar.andi v467 c127_i32_176
  let c112_i32_177 : BitVec 32 := 112#32
  let v469 : BitVec 32 := Scalar.andi v468 c112_i32_177
  let v470 : BitVec 32 := v469
  let v472 : Index := Scalar.indexCast v470
  ![v471.toNat, v472.toNat]
def k3_off52 (v467 : BitVec 32) : Fin 1 → Nat :=
  let c224_i32 : BitVec 32 := 224#32
  let c127_i32_176 : BitVec 32 := 127#32
  let v468 : BitVec 32 := Scalar.andi v467 c127_i32_176
  let c15_i32_180 : BitVec 32 := 15#32
  let v481 : BitVec 32 := Scalar.andi v468 c15_i32_180
  let c7_i32_181 : BitVec 32 := 7#32
  let v482 : BitVec 32 := Scalar.subi v481 c7_i32_181
  let c16_i32_182 : BitVec 32 := 16#32
  let v483 : BitVec 32 := Scalar.addi v482 c16_i32_182
  let c15_i32_183 : BitVec 32 := 15#32
  let v484 : BitVec 32 := Scalar.andi v483 c15_i32_183
  let v485 : BitVec 32 := Scalar.addi c224_i32 v484
  let v486 : Index := Scalar.indexCast v485
  ![v486.toNat]

def k3_chk24 (k3_t2 : Fin k3_t2_loop.trips) (v467 : BitVec 32) : Prop :=
  (16 ∣ (k3_mult26 v467).toNat) ∧
  (∀ a, (k3_off51 k3_t2 v467) a + S1x16.size a ≤ S128x128.size a) ∧
  (∀ a, (k3_off52 v467) a + S16.size a ≤ S512.size a)
instance k3_chk24.dec : ∀ (k3_t2 : Fin k3_t2_loop.trips) (v467 : BitVec 32), Decidable (k3_chk24 k3_t2 v467) := fun k3_t2 v467 => decidable_of_iff' _ (Iff.of_eq (k3_chk24.eq_1 k3_t2 v467))
theorem k3_mult26_dvd : ∀ (k3_t2 : Fin k3_t2_loop.trips) (v467 : BitVec 32) (k3_hw24 : k3_chk24 k3_t2 v467), 16 ∣ (k3_mult26 v467).toNat := fun k3_t2 v467 k3_hw24 => k3_hw24.1
theorem k3_off51_inb : ∀ (k3_t2 : Fin k3_t2_loop.trips) (v467 : BitVec 32) (k3_hw24 : k3_chk24 k3_t2 v467), ∀ a, (k3_off51 k3_t2 v467) a + S1x16.size a ≤ S128x128.size a := fun k3_t2 v467 k3_hw24 => k3_hw24.2.1
theorem k3_off52_inb : ∀ (k3_t2 : Fin k3_t2_loop.trips) (v467 : BitVec 32) (k3_hw24 : k3_chk24 k3_t2 v467), ∀ a, (k3_off52 v467) a + S16.size a ≤ S512.size a := fun k3_t2 v467 k3_hw24 => k3_hw24.2.2

def k3_mult27 (v496 : BitVec 32) : BitVec 32 :=
  let c127_i32_187 : BitVec 32 := 127#32
  let v497 : BitVec 32 := Scalar.andi v496 c127_i32_187
  let c112_i32_188 : BitVec 32 := 112#32
  let v498 : BitVec 32 := Scalar.andi v497 c112_i32_188
  v498

def k3_off53 (k3_t2 : Fin k3_t2_loop.trips) (v496 : BitVec 32) : Fin 2 → Nat :=
  let c0_i32_79 : BitVec 32 := 0#32
  let c1_i32_81 : BitVec 32 := 1#32
  let arg15 : BitVec 32 := Scf.iv c0_i32_79 c1_i32_81 k3_t2
  let c16_i32_185 : BitVec 32 := 16#32
  let v493 : BitVec 32 := Scalar.muli arg15 c16_i32_185
  let c8_i32_186 : BitVec 32 := 8#32
  let v494 : BitVec 32 := Scalar.addi v493 c8_i32_186
  let v500 : Index := Scalar.indexCast v494
  let c127_i32_187 : BitVec 32 := 127#32
  let v497 : BitVec 32 := Scalar.andi v496 c127_i32_187
  let c112_i32_188 : BitVec 32 := 112#32
  let v498 : BitVec 32 := Scalar.andi v497 c112_i32_188
  let v499 : BitVec 32 := v498
  let v501 : Index := Scalar.indexCast v499
  ![v500.toNat, v501.toNat]
def k3_off54 (v496 : BitVec 32) : Fin 1 → Nat :=
  let c256_i32_195 : BitVec 32 := 256#32
  let c127_i32_187 : BitVec 32 := 127#32
  let v497 : BitVec 32 := Scalar.andi v496 c127_i32_187
  let c15_i32_191 : BitVec 32 := 15#32
  let v510 : BitVec 32 := Scalar.andi v497 c15_i32_191
  let c8_i32_192 : BitVec 32 := 8#32
  let v511 : BitVec 32 := Scalar.subi v510 c8_i32_192
  let c16_i32_193 : BitVec 32 := 16#32
  let v512 : BitVec 32 := Scalar.addi v511 c16_i32_193
  let c15_i32_194 : BitVec 32 := 15#32
  let v513 : BitVec 32 := Scalar.andi v512 c15_i32_194
  let v514 : BitVec 32 := Scalar.addi c256_i32_195 v513
  let v515 : Index := Scalar.indexCast v514
  ![v515.toNat]

def k3_chk25 (k3_t2 : Fin k3_t2_loop.trips) (v496 : BitVec 32) : Prop :=
  (16 ∣ (k3_mult27 v496).toNat) ∧
  (∀ a, (k3_off53 k3_t2 v496) a + S1x16.size a ≤ S128x128.size a) ∧
  (∀ a, (k3_off54 v496) a + S16.size a ≤ S512.size a)
instance k3_chk25.dec : ∀ (k3_t2 : Fin k3_t2_loop.trips) (v496 : BitVec 32), Decidable (k3_chk25 k3_t2 v496) := fun k3_t2 v496 => decidable_of_iff' _ (Iff.of_eq (k3_chk25.eq_1 k3_t2 v496))
theorem k3_mult27_dvd : ∀ (k3_t2 : Fin k3_t2_loop.trips) (v496 : BitVec 32) (k3_hw25 : k3_chk25 k3_t2 v496), 16 ∣ (k3_mult27 v496).toNat := fun k3_t2 v496 k3_hw25 => k3_hw25.1
theorem k3_off53_inb : ∀ (k3_t2 : Fin k3_t2_loop.trips) (v496 : BitVec 32) (k3_hw25 : k3_chk25 k3_t2 v496), ∀ a, (k3_off53 k3_t2 v496) a + S1x16.size a ≤ S128x128.size a := fun k3_t2 v496 k3_hw25 => k3_hw25.2.1
theorem k3_off54_inb : ∀ (k3_t2 : Fin k3_t2_loop.trips) (v496 : BitVec 32) (k3_hw25 : k3_chk25 k3_t2 v496), ∀ a, (k3_off54 v496) a + S16.size a ≤ S512.size a := fun k3_t2 v496 k3_hw25 => k3_hw25.2.2

def k3_mult28 (v525 : BitVec 32) : BitVec 32 :=
  let c127_i32_198 : BitVec 32 := 127#32
  let v526 : BitVec 32 := Scalar.andi v525 c127_i32_198
  let c112_i32_199 : BitVec 32 := 112#32
  let v527 : BitVec 32 := Scalar.andi v526 c112_i32_199
  v527

def k3_off55 (k3_t2 : Fin k3_t2_loop.trips) (v525 : BitVec 32) : Fin 2 → Nat :=
  let c0_i32_79 : BitVec 32 := 0#32
  let c1_i32_81 : BitVec 32 := 1#32
  let arg15 : BitVec 32 := Scf.iv c0_i32_79 c1_i32_81 k3_t2
  let c16_i32_197 : BitVec 32 := 16#32
  let v522 : BitVec 32 := Scalar.muli arg15 c16_i32_197
  let c9_i32 : BitVec 32 := 9#32
  let v523 : BitVec 32 := Scalar.addi v522 c9_i32
  let v529 : Index := Scalar.indexCast v523
  let c127_i32_198 : BitVec 32 := 127#32
  let v526 : BitVec 32 := Scalar.andi v525 c127_i32_198
  let c112_i32_199 : BitVec 32 := 112#32
  let v527 : BitVec 32 := Scalar.andi v526 c112_i32_199
  let v528 : BitVec 32 := v527
  let v530 : Index := Scalar.indexCast v528
  ![v529.toNat, v530.toNat]
def k3_off56 (v525 : BitVec 32) : Fin 1 → Nat :=
  let c288_i32 : BitVec 32 := 288#32
  let c127_i32_198 : BitVec 32 := 127#32
  let v526 : BitVec 32 := Scalar.andi v525 c127_i32_198
  let c15_i32_202 : BitVec 32 := 15#32
  let v539 : BitVec 32 := Scalar.andi v526 c15_i32_202
  let c9_i32_203 : BitVec 32 := 9#32
  let v540 : BitVec 32 := Scalar.subi v539 c9_i32_203
  let c16_i32_204 : BitVec 32 := 16#32
  let v541 : BitVec 32 := Scalar.addi v540 c16_i32_204
  let c15_i32_205 : BitVec 32 := 15#32
  let v542 : BitVec 32 := Scalar.andi v541 c15_i32_205
  let v543 : BitVec 32 := Scalar.addi c288_i32 v542
  let v544 : Index := Scalar.indexCast v543
  ![v544.toNat]

def k3_chk26 (k3_t2 : Fin k3_t2_loop.trips) (v525 : BitVec 32) : Prop :=
  (16 ∣ (k3_mult28 v525).toNat) ∧
  (∀ a, (k3_off55 k3_t2 v525) a + S1x16.size a ≤ S128x128.size a) ∧
  (∀ a, (k3_off56 v525) a + S16.size a ≤ S512.size a)
instance k3_chk26.dec : ∀ (k3_t2 : Fin k3_t2_loop.trips) (v525 : BitVec 32), Decidable (k3_chk26 k3_t2 v525) := fun k3_t2 v525 => decidable_of_iff' _ (Iff.of_eq (k3_chk26.eq_1 k3_t2 v525))
theorem k3_mult28_dvd : ∀ (k3_t2 : Fin k3_t2_loop.trips) (v525 : BitVec 32) (k3_hw26 : k3_chk26 k3_t2 v525), 16 ∣ (k3_mult28 v525).toNat := fun k3_t2 v525 k3_hw26 => k3_hw26.1
theorem k3_off55_inb : ∀ (k3_t2 : Fin k3_t2_loop.trips) (v525 : BitVec 32) (k3_hw26 : k3_chk26 k3_t2 v525), ∀ a, (k3_off55 k3_t2 v525) a + S1x16.size a ≤ S128x128.size a := fun k3_t2 v525 k3_hw26 => k3_hw26.2.1
theorem k3_off56_inb : ∀ (k3_t2 : Fin k3_t2_loop.trips) (v525 : BitVec 32) (k3_hw26 : k3_chk26 k3_t2 v525), ∀ a, (k3_off56 v525) a + S16.size a ≤ S512.size a := fun k3_t2 v525 k3_hw26 => k3_hw26.2.2

def k3_mult29 (v554 : BitVec 32) : BitVec 32 :=
  let c127_i32_208 : BitVec 32 := 127#32
  let v555 : BitVec 32 := Scalar.andi v554 c127_i32_208
  let c112_i32_209 : BitVec 32 := 112#32
  let v556 : BitVec 32 := Scalar.andi v555 c112_i32_209
  v556

def k3_off57 (k3_t2 : Fin k3_t2_loop.trips) (v554 : BitVec 32) : Fin 2 → Nat :=
  let c0_i32_79 : BitVec 32 := 0#32
  let c1_i32_81 : BitVec 32 := 1#32
  let arg15 : BitVec 32 := Scf.iv c0_i32_79 c1_i32_81 k3_t2
  let c16_i32_207 : BitVec 32 := 16#32
  let v551 : BitVec 32 := Scalar.muli arg15 c16_i32_207
  let c10_i32 : BitVec 32 := 10#32
  let v552 : BitVec 32 := Scalar.addi v551 c10_i32
  let v558 : Index := Scalar.indexCast v552
  let c127_i32_208 : BitVec 32 := 127#32
  let v555 : BitVec 32 := Scalar.andi v554 c127_i32_208
  let c112_i32_209 : BitVec 32 := 112#32
  let v556 : BitVec 32 := Scalar.andi v555 c112_i32_209
  let v557 : BitVec 32 := v556
  let v559 : Index := Scalar.indexCast v557
  ![v558.toNat, v559.toNat]
def k3_off58 (v554 : BitVec 32) : Fin 1 → Nat :=
  let c320_i32 : BitVec 32 := 320#32
  let c127_i32_208 : BitVec 32 := 127#32
  let v555 : BitVec 32 := Scalar.andi v554 c127_i32_208
  let c15_i32_212 : BitVec 32 := 15#32
  let v568 : BitVec 32 := Scalar.andi v555 c15_i32_212
  let c10_i32_213 : BitVec 32 := 10#32
  let v569 : BitVec 32 := Scalar.subi v568 c10_i32_213
  let c16_i32_214 : BitVec 32 := 16#32
  let v570 : BitVec 32 := Scalar.addi v569 c16_i32_214
  let c15_i32_215 : BitVec 32 := 15#32
  let v571 : BitVec 32 := Scalar.andi v570 c15_i32_215
  let v572 : BitVec 32 := Scalar.addi c320_i32 v571
  let v573 : Index := Scalar.indexCast v572
  ![v573.toNat]

def k3_chk27 (k3_t2 : Fin k3_t2_loop.trips) (v554 : BitVec 32) : Prop :=
  (16 ∣ (k3_mult29 v554).toNat) ∧
  (∀ a, (k3_off57 k3_t2 v554) a + S1x16.size a ≤ S128x128.size a) ∧
  (∀ a, (k3_off58 v554) a + S16.size a ≤ S512.size a)
instance k3_chk27.dec : ∀ (k3_t2 : Fin k3_t2_loop.trips) (v554 : BitVec 32), Decidable (k3_chk27 k3_t2 v554) := fun k3_t2 v554 => decidable_of_iff' _ (Iff.of_eq (k3_chk27.eq_1 k3_t2 v554))
theorem k3_mult29_dvd : ∀ (k3_t2 : Fin k3_t2_loop.trips) (v554 : BitVec 32) (k3_hw27 : k3_chk27 k3_t2 v554), 16 ∣ (k3_mult29 v554).toNat := fun k3_t2 v554 k3_hw27 => k3_hw27.1
theorem k3_off57_inb : ∀ (k3_t2 : Fin k3_t2_loop.trips) (v554 : BitVec 32) (k3_hw27 : k3_chk27 k3_t2 v554), ∀ a, (k3_off57 k3_t2 v554) a + S1x16.size a ≤ S128x128.size a := fun k3_t2 v554 k3_hw27 => k3_hw27.2.1
theorem k3_off58_inb : ∀ (k3_t2 : Fin k3_t2_loop.trips) (v554 : BitVec 32) (k3_hw27 : k3_chk27 k3_t2 v554), ∀ a, (k3_off58 v554) a + S16.size a ≤ S512.size a := fun k3_t2 v554 k3_hw27 => k3_hw27.2.2

def k3_mult30 (v583 : BitVec 32) : BitVec 32 :=
  let c127_i32_218 : BitVec 32 := 127#32
  let v584 : BitVec 32 := Scalar.andi v583 c127_i32_218
  let c112_i32_219 : BitVec 32 := 112#32
  let v585 : BitVec 32 := Scalar.andi v584 c112_i32_219
  v585

def k3_off59 (k3_t2 : Fin k3_t2_loop.trips) (v583 : BitVec 32) : Fin 2 → Nat :=
  let c0_i32_79 : BitVec 32 := 0#32
  let c1_i32_81 : BitVec 32 := 1#32
  let arg15 : BitVec 32 := Scf.iv c0_i32_79 c1_i32_81 k3_t2
  let c16_i32_217 : BitVec 32 := 16#32
  let v580 : BitVec 32 := Scalar.muli arg15 c16_i32_217
  let c11_i32 : BitVec 32 := 11#32
  let v581 : BitVec 32 := Scalar.addi v580 c11_i32
  let v587 : Index := Scalar.indexCast v581
  let c127_i32_218 : BitVec 32 := 127#32
  let v584 : BitVec 32 := Scalar.andi v583 c127_i32_218
  let c112_i32_219 : BitVec 32 := 112#32
  let v585 : BitVec 32 := Scalar.andi v584 c112_i32_219
  let v586 : BitVec 32 := v585
  let v588 : Index := Scalar.indexCast v586
  ![v587.toNat, v588.toNat]
def k3_off60 (v583 : BitVec 32) : Fin 1 → Nat :=
  let c352_i32 : BitVec 32 := 352#32
  let c127_i32_218 : BitVec 32 := 127#32
  let v584 : BitVec 32 := Scalar.andi v583 c127_i32_218
  let c15_i32_222 : BitVec 32 := 15#32
  let v597 : BitVec 32 := Scalar.andi v584 c15_i32_222
  let c11_i32_223 : BitVec 32 := 11#32
  let v598 : BitVec 32 := Scalar.subi v597 c11_i32_223
  let c16_i32_224 : BitVec 32 := 16#32
  let v599 : BitVec 32 := Scalar.addi v598 c16_i32_224
  let c15_i32_225 : BitVec 32 := 15#32
  let v600 : BitVec 32 := Scalar.andi v599 c15_i32_225
  let v601 : BitVec 32 := Scalar.addi c352_i32 v600
  let v602 : Index := Scalar.indexCast v601
  ![v602.toNat]

def k3_chk28 (k3_t2 : Fin k3_t2_loop.trips) (v583 : BitVec 32) : Prop :=
  (16 ∣ (k3_mult30 v583).toNat) ∧
  (∀ a, (k3_off59 k3_t2 v583) a + S1x16.size a ≤ S128x128.size a) ∧
  (∀ a, (k3_off60 v583) a + S16.size a ≤ S512.size a)
instance k3_chk28.dec : ∀ (k3_t2 : Fin k3_t2_loop.trips) (v583 : BitVec 32), Decidable (k3_chk28 k3_t2 v583) := fun k3_t2 v583 => decidable_of_iff' _ (Iff.of_eq (k3_chk28.eq_1 k3_t2 v583))
theorem k3_mult30_dvd : ∀ (k3_t2 : Fin k3_t2_loop.trips) (v583 : BitVec 32) (k3_hw28 : k3_chk28 k3_t2 v583), 16 ∣ (k3_mult30 v583).toNat := fun k3_t2 v583 k3_hw28 => k3_hw28.1
theorem k3_off59_inb : ∀ (k3_t2 : Fin k3_t2_loop.trips) (v583 : BitVec 32) (k3_hw28 : k3_chk28 k3_t2 v583), ∀ a, (k3_off59 k3_t2 v583) a + S1x16.size a ≤ S128x128.size a := fun k3_t2 v583 k3_hw28 => k3_hw28.2.1
theorem k3_off60_inb : ∀ (k3_t2 : Fin k3_t2_loop.trips) (v583 : BitVec 32) (k3_hw28 : k3_chk28 k3_t2 v583), ∀ a, (k3_off60 v583) a + S16.size a ≤ S512.size a := fun k3_t2 v583 k3_hw28 => k3_hw28.2.2

def k3_mult31 (v612 : BitVec 32) : BitVec 32 :=
  let c127_i32_228 : BitVec 32 := 127#32
  let v613 : BitVec 32 := Scalar.andi v612 c127_i32_228
  let c112_i32_229 : BitVec 32 := 112#32
  let v614 : BitVec 32 := Scalar.andi v613 c112_i32_229
  v614

def k3_off61 (k3_t2 : Fin k3_t2_loop.trips) (v612 : BitVec 32) : Fin 2 → Nat :=
  let c0_i32_79 : BitVec 32 := 0#32
  let c1_i32_81 : BitVec 32 := 1#32
  let arg15 : BitVec 32 := Scf.iv c0_i32_79 c1_i32_81 k3_t2
  let c16_i32_227 : BitVec 32 := 16#32
  let v609 : BitVec 32 := Scalar.muli arg15 c16_i32_227
  let c12_i32 : BitVec 32 := 12#32
  let v610 : BitVec 32 := Scalar.addi v609 c12_i32
  let v616 : Index := Scalar.indexCast v610
  let c127_i32_228 : BitVec 32 := 127#32
  let v613 : BitVec 32 := Scalar.andi v612 c127_i32_228
  let c112_i32_229 : BitVec 32 := 112#32
  let v614 : BitVec 32 := Scalar.andi v613 c112_i32_229
  let v615 : BitVec 32 := v614
  let v617 : Index := Scalar.indexCast v615
  ![v616.toNat, v617.toNat]
def k3_off62 (v612 : BitVec 32) : Fin 1 → Nat :=
  let c384_i32_236 : BitVec 32 := 384#32
  let c127_i32_228 : BitVec 32 := 127#32
  let v613 : BitVec 32 := Scalar.andi v612 c127_i32_228
  let c15_i32_232 : BitVec 32 := 15#32
  let v626 : BitVec 32 := Scalar.andi v613 c15_i32_232
  let c12_i32_233 : BitVec 32 := 12#32
  let v627 : BitVec 32 := Scalar.subi v626 c12_i32_233
  let c16_i32_234 : BitVec 32 := 16#32
  let v628 : BitVec 32 := Scalar.addi v627 c16_i32_234
  let c15_i32_235 : BitVec 32 := 15#32
  let v629 : BitVec 32 := Scalar.andi v628 c15_i32_235
  let v630 : BitVec 32 := Scalar.addi c384_i32_236 v629
  let v631 : Index := Scalar.indexCast v630
  ![v631.toNat]

def k3_chk29 (k3_t2 : Fin k3_t2_loop.trips) (v612 : BitVec 32) : Prop :=
  (16 ∣ (k3_mult31 v612).toNat) ∧
  (∀ a, (k3_off61 k3_t2 v612) a + S1x16.size a ≤ S128x128.size a) ∧
  (∀ a, (k3_off62 v612) a + S16.size a ≤ S512.size a)
instance k3_chk29.dec : ∀ (k3_t2 : Fin k3_t2_loop.trips) (v612 : BitVec 32), Decidable (k3_chk29 k3_t2 v612) := fun k3_t2 v612 => decidable_of_iff' _ (Iff.of_eq (k3_chk29.eq_1 k3_t2 v612))
theorem k3_mult31_dvd : ∀ (k3_t2 : Fin k3_t2_loop.trips) (v612 : BitVec 32) (k3_hw29 : k3_chk29 k3_t2 v612), 16 ∣ (k3_mult31 v612).toNat := fun k3_t2 v612 k3_hw29 => k3_hw29.1
theorem k3_off61_inb : ∀ (k3_t2 : Fin k3_t2_loop.trips) (v612 : BitVec 32) (k3_hw29 : k3_chk29 k3_t2 v612), ∀ a, (k3_off61 k3_t2 v612) a + S1x16.size a ≤ S128x128.size a := fun k3_t2 v612 k3_hw29 => k3_hw29.2.1
theorem k3_off62_inb : ∀ (k3_t2 : Fin k3_t2_loop.trips) (v612 : BitVec 32) (k3_hw29 : k3_chk29 k3_t2 v612), ∀ a, (k3_off62 v612) a + S16.size a ≤ S512.size a := fun k3_t2 v612 k3_hw29 => k3_hw29.2.2

def k3_mult32 (v641 : BitVec 32) : BitVec 32 :=
  let c127_i32_239 : BitVec 32 := 127#32
  let v642 : BitVec 32 := Scalar.andi v641 c127_i32_239
  let c112_i32_240 : BitVec 32 := 112#32
  let v643 : BitVec 32 := Scalar.andi v642 c112_i32_240
  v643

def k3_off63 (k3_t2 : Fin k3_t2_loop.trips) (v641 : BitVec 32) : Fin 2 → Nat :=
  let c0_i32_79 : BitVec 32 := 0#32
  let c1_i32_81 : BitVec 32 := 1#32
  let arg15 : BitVec 32 := Scf.iv c0_i32_79 c1_i32_81 k3_t2
  let c16_i32_238 : BitVec 32 := 16#32
  let v638 : BitVec 32 := Scalar.muli arg15 c16_i32_238
  let c13_i32 : BitVec 32 := 13#32
  let v639 : BitVec 32 := Scalar.addi v638 c13_i32
  let v645 : Index := Scalar.indexCast v639
  let c127_i32_239 : BitVec 32 := 127#32
  let v642 : BitVec 32 := Scalar.andi v641 c127_i32_239
  let c112_i32_240 : BitVec 32 := 112#32
  let v643 : BitVec 32 := Scalar.andi v642 c112_i32_240
  let v644 : BitVec 32 := v643
  let v646 : Index := Scalar.indexCast v644
  ![v645.toNat, v646.toNat]
def k3_off64 (v641 : BitVec 32) : Fin 1 → Nat :=
  let c416_i32 : BitVec 32 := 416#32
  let c127_i32_239 : BitVec 32 := 127#32
  let v642 : BitVec 32 := Scalar.andi v641 c127_i32_239
  let c15_i32_243 : BitVec 32 := 15#32
  let v655 : BitVec 32 := Scalar.andi v642 c15_i32_243
  let c13_i32_244 : BitVec 32 := 13#32
  let v656 : BitVec 32 := Scalar.subi v655 c13_i32_244
  let c16_i32_245 : BitVec 32 := 16#32
  let v657 : BitVec 32 := Scalar.addi v656 c16_i32_245
  let c15_i32_246 : BitVec 32 := 15#32
  let v658 : BitVec 32 := Scalar.andi v657 c15_i32_246
  let v659 : BitVec 32 := Scalar.addi c416_i32 v658
  let v660 : Index := Scalar.indexCast v659
  ![v660.toNat]

def k3_chk30 (k3_t2 : Fin k3_t2_loop.trips) (v641 : BitVec 32) : Prop :=
  (16 ∣ (k3_mult32 v641).toNat) ∧
  (∀ a, (k3_off63 k3_t2 v641) a + S1x16.size a ≤ S128x128.size a) ∧
  (∀ a, (k3_off64 v641) a + S16.size a ≤ S512.size a)
instance k3_chk30.dec : ∀ (k3_t2 : Fin k3_t2_loop.trips) (v641 : BitVec 32), Decidable (k3_chk30 k3_t2 v641) := fun k3_t2 v641 => decidable_of_iff' _ (Iff.of_eq (k3_chk30.eq_1 k3_t2 v641))
theorem k3_mult32_dvd : ∀ (k3_t2 : Fin k3_t2_loop.trips) (v641 : BitVec 32) (k3_hw30 : k3_chk30 k3_t2 v641), 16 ∣ (k3_mult32 v641).toNat := fun k3_t2 v641 k3_hw30 => k3_hw30.1
theorem k3_off63_inb : ∀ (k3_t2 : Fin k3_t2_loop.trips) (v641 : BitVec 32) (k3_hw30 : k3_chk30 k3_t2 v641), ∀ a, (k3_off63 k3_t2 v641) a + S1x16.size a ≤ S128x128.size a := fun k3_t2 v641 k3_hw30 => k3_hw30.2.1
theorem k3_off64_inb : ∀ (k3_t2 : Fin k3_t2_loop.trips) (v641 : BitVec 32) (k3_hw30 : k3_chk30 k3_t2 v641), ∀ a, (k3_off64 v641) a + S16.size a ≤ S512.size a := fun k3_t2 v641 k3_hw30 => k3_hw30.2.2

def k3_mult33 (v670 : BitVec 32) : BitVec 32 :=
  let c127_i32_249 : BitVec 32 := 127#32
  let v671 : BitVec 32 := Scalar.andi v670 c127_i32_249
  let c112_i32_250 : BitVec 32 := 112#32
  let v672 : BitVec 32 := Scalar.andi v671 c112_i32_250
  v672

def k3_off65 (k3_t2 : Fin k3_t2_loop.trips) (v670 : BitVec 32) : Fin 2 → Nat :=
  let c0_i32_79 : BitVec 32 := 0#32
  let c1_i32_81 : BitVec 32 := 1#32
  let arg15 : BitVec 32 := Scf.iv c0_i32_79 c1_i32_81 k3_t2
  let c16_i32_248 : BitVec 32 := 16#32
  let v667 : BitVec 32 := Scalar.muli arg15 c16_i32_248
  let c14_i32 : BitVec 32 := 14#32
  let v668 : BitVec 32 := Scalar.addi v667 c14_i32
  let v674 : Index := Scalar.indexCast v668
  let c127_i32_249 : BitVec 32 := 127#32
  let v671 : BitVec 32 := Scalar.andi v670 c127_i32_249
  let c112_i32_250 : BitVec 32 := 112#32
  let v672 : BitVec 32 := Scalar.andi v671 c112_i32_250
  let v673 : BitVec 32 := v672
  let v675 : Index := Scalar.indexCast v673
  ![v674.toNat, v675.toNat]
def k3_off66 (v670 : BitVec 32) : Fin 1 → Nat :=
  let c448_i32 : BitVec 32 := 448#32
  let c127_i32_249 : BitVec 32 := 127#32
  let v671 : BitVec 32 := Scalar.andi v670 c127_i32_249
  let c15_i32_253 : BitVec 32 := 15#32
  let v684 : BitVec 32 := Scalar.andi v671 c15_i32_253
  let c14_i32_254 : BitVec 32 := 14#32
  let v685 : BitVec 32 := Scalar.subi v684 c14_i32_254
  let c16_i32_255 : BitVec 32 := 16#32
  let v686 : BitVec 32 := Scalar.addi v685 c16_i32_255
  let c15_i32_256 : BitVec 32 := 15#32
  let v687 : BitVec 32 := Scalar.andi v686 c15_i32_256
  let v688 : BitVec 32 := Scalar.addi c448_i32 v687
  let v689 : Index := Scalar.indexCast v688
  ![v689.toNat]

def k3_chk31 (k3_t2 : Fin k3_t2_loop.trips) (v670 : BitVec 32) : Prop :=
  (16 ∣ (k3_mult33 v670).toNat) ∧
  (∀ a, (k3_off65 k3_t2 v670) a + S1x16.size a ≤ S128x128.size a) ∧
  (∀ a, (k3_off66 v670) a + S16.size a ≤ S512.size a)
instance k3_chk31.dec : ∀ (k3_t2 : Fin k3_t2_loop.trips) (v670 : BitVec 32), Decidable (k3_chk31 k3_t2 v670) := fun k3_t2 v670 => decidable_of_iff' _ (Iff.of_eq (k3_chk31.eq_1 k3_t2 v670))
theorem k3_mult33_dvd : ∀ (k3_t2 : Fin k3_t2_loop.trips) (v670 : BitVec 32) (k3_hw31 : k3_chk31 k3_t2 v670), 16 ∣ (k3_mult33 v670).toNat := fun k3_t2 v670 k3_hw31 => k3_hw31.1
theorem k3_off65_inb : ∀ (k3_t2 : Fin k3_t2_loop.trips) (v670 : BitVec 32) (k3_hw31 : k3_chk31 k3_t2 v670), ∀ a, (k3_off65 k3_t2 v670) a + S1x16.size a ≤ S128x128.size a := fun k3_t2 v670 k3_hw31 => k3_hw31.2.1
theorem k3_off66_inb : ∀ (k3_t2 : Fin k3_t2_loop.trips) (v670 : BitVec 32) (k3_hw31 : k3_chk31 k3_t2 v670), ∀ a, (k3_off66 v670) a + S16.size a ≤ S512.size a := fun k3_t2 v670 k3_hw31 => k3_hw31.2.2

def k3_mult34 (v699 : BitVec 32) : BitVec 32 :=
  let c127_i32_260 : BitVec 32 := 127#32
  let v700 : BitVec 32 := Scalar.andi v699 c127_i32_260
  let c112_i32_261 : BitVec 32 := 112#32
  let v701 : BitVec 32 := Scalar.andi v700 c112_i32_261
  v701

def k3_off67 (k3_t2 : Fin k3_t2_loop.trips) (v699 : BitVec 32) : Fin 2 → Nat :=
  let c0_i32_79 : BitVec 32 := 0#32
  let c1_i32_81 : BitVec 32 := 1#32
  let arg15 : BitVec 32 := Scf.iv c0_i32_79 c1_i32_81 k3_t2
  let c16_i32_258 : BitVec 32 := 16#32
  let v696 : BitVec 32 := Scalar.muli arg15 c16_i32_258
  let c15_i32_259 : BitVec 32 := 15#32
  let v697 : BitVec 32 := Scalar.addi v696 c15_i32_259
  let v703 : Index := Scalar.indexCast v697
  let c127_i32_260 : BitVec 32 := 127#32
  let v700 : BitVec 32 := Scalar.andi v699 c127_i32_260
  let c112_i32_261 : BitVec 32 := 112#32
  let v701 : BitVec 32 := Scalar.andi v700 c112_i32_261
  let v702 : BitVec 32 := v701
  let v704 : Index := Scalar.indexCast v702
  ![v703.toNat, v704.toNat]
def k3_off68 (v699 : BitVec 32) : Fin 1 → Nat :=
  let c480_i32 : BitVec 32 := 480#32
  let c127_i32_260 : BitVec 32 := 127#32
  let v700 : BitVec 32 := Scalar.andi v699 c127_i32_260
  let c15_i32_264 : BitVec 32 := 15#32
  let v713 : BitVec 32 := Scalar.andi v700 c15_i32_264
  let c15_i32_265 : BitVec 32 := 15#32
  let v714 : BitVec 32 := Scalar.subi v713 c15_i32_265
  let c16_i32_266 : BitVec 32 := 16#32
  let v715 : BitVec 32 := Scalar.addi v714 c16_i32_266
  let c15_i32_267 : BitVec 32 := 15#32
  let v716 : BitVec 32 := Scalar.andi v715 c15_i32_267
  let v717 : BitVec 32 := Scalar.addi c480_i32 v716
  let v718 : Index := Scalar.indexCast v717
  ![v718.toNat]

def k3_chk32 (k3_t2 : Fin k3_t2_loop.trips) (v699 : BitVec 32) : Prop :=
  (16 ∣ (k3_mult34 v699).toNat) ∧
  (∀ a, (k3_off67 k3_t2 v699) a + S1x16.size a ≤ S128x128.size a) ∧
  (∀ a, (k3_off68 v699) a + S16.size a ≤ S512.size a)
instance k3_chk32.dec : ∀ (k3_t2 : Fin k3_t2_loop.trips) (v699 : BitVec 32), Decidable (k3_chk32 k3_t2 v699) := fun k3_t2 v699 => decidable_of_iff' _ (Iff.of_eq (k3_chk32.eq_1 k3_t2 v699))
theorem k3_mult34_dvd : ∀ (k3_t2 : Fin k3_t2_loop.trips) (v699 : BitVec 32) (k3_hw32 : k3_chk32 k3_t2 v699), 16 ∣ (k3_mult34 v699).toNat := fun k3_t2 v699 k3_hw32 => k3_hw32.1
theorem k3_off67_inb : ∀ (k3_t2 : Fin k3_t2_loop.trips) (v699 : BitVec 32) (k3_hw32 : k3_chk32 k3_t2 v699), ∀ a, (k3_off67 k3_t2 v699) a + S1x16.size a ≤ S128x128.size a := fun k3_t2 v699 k3_hw32 => k3_hw32.2.1
theorem k3_off68_inb : ∀ (k3_t2 : Fin k3_t2_loop.trips) (v699 : BitVec 32) (k3_hw32 : k3_chk32 k3_t2 v699), ∀ a, (k3_off68 v699) a + S16.size a ≤ S512.size a := fun k3_t2 v699 k3_hw32 => k3_hw32.2.2

def k3_off69 (k3_t2 : Fin k3_t2_loop.trips) : Fin 1 → Nat :=
  let c128_i32_101 : BitVec 32 := 128#32
  let c0_i32_79 : BitVec 32 := 0#32
  let c1_i32_81 : BitVec 32 := 1#32
  let arg15 : BitVec 32 := Scf.iv c0_i32_79 c1_i32_81 k3_t2
  let c16_i32 : BitVec 32 := 16#32
  let v252 : BitVec 32 := Scalar.muli arg15 c16_i32
  let v253 : BitVec 32 := Scalar.addi c128_i32_101 v252
  let v254 : BitVec 32 := v253
  let v725 : Index := Scalar.indexCast v254
  ![v725.toNat]
@[reducible] def k3_t3_loop : Scf.Loop 32 :=
  let c0_i32_89 : BitVec 32 := 0#32
  let c8_i32_90 : BitVec 32 := 8#32
  let v246 : BitVec 32 := Scalar.addi c0_i32_89 c8_i32_90
  let c1_i32_91 : BitVec 32 := 1#32
  ⟨c0_i32_89, v246, c1_i32_91⟩
def k3_mult35 (k3_t3 : Fin k3_t3_loop.trips) : BitVec 32 :=
  let c256_i32_101 : BitVec 32 := 256#32
  let c0_i32_89 : BitVec 32 := 0#32
  let c1_i32_91 : BitVec 32 := 1#32
  let arg15 : BitVec 32 := Scf.iv c0_i32_89 c1_i32_91 k3_t3
  let c16_i32 : BitVec 32 := 16#32
  let v252 : BitVec 32 := Scalar.muli arg15 c16_i32
  let v253 : BitVec 32 := Scalar.addi c256_i32_101 v252
  v253
def k3_off70 (k3_t3 : Fin k3_t3_loop.trips) : Fin 1 → Nat :=
  let c256_i32_101 : BitVec 32 := 256#32
  let c0_i32_89 : BitVec 32 := 0#32
  let c1_i32_91 : BitVec 32 := 1#32
  let arg15 : BitVec 32 := Scf.iv c0_i32_89 c1_i32_91 k3_t3
  let c16_i32 : BitVec 32 := 16#32
  let v252 : BitVec 32 := Scalar.muli arg15 c16_i32
  let v253 : BitVec 32 := Scalar.addi c256_i32_101 v252
  let v254 : BitVec 32 := v253
  let v255 : Index := Scalar.indexCast v254
  ![v255.toNat]
def k3_mult36 (v264 : BitVec 32) : BitVec 32 :=
  let c127_i32 : BitVec 32 := 127#32
  let v265 : BitVec 32 := Scalar.andi v264 c127_i32
  let c112_i32 : BitVec 32 := 112#32
  let v266 : BitVec 32 := Scalar.andi v265 c112_i32
  v266

def k3_off71 (k3_t3 : Fin k3_t3_loop.trips) (v264 : BitVec 32) : Fin 2 → Nat :=
  let c0_i32_89 : BitVec 32 := 0#32
  let c1_i32_91 : BitVec 32 := 1#32
  let arg15 : BitVec 32 := Scf.iv c0_i32_89 c1_i32_91 k3_t3
  let c16_i32_102 : BitVec 32 := 16#32
  let v261 : BitVec 32 := Scalar.muli arg15 c16_i32_102
  let c0_i32_103 : BitVec 32 := 0#32
  let v262 : BitVec 32 := Scalar.addi v261 c0_i32_103
  let v268 : Index := Scalar.indexCast v262
  let c127_i32 : BitVec 32 := 127#32
  let v265 : BitVec 32 := Scalar.andi v264 c127_i32
  let c112_i32 : BitVec 32 := 112#32
  let v266 : BitVec 32 := Scalar.andi v265 c112_i32
  let v267 : BitVec 32 := v266
  let v269 : Index := Scalar.indexCast v267
  ![v268.toNat, v269.toNat]
def k3_off72 (v264 : BitVec 32) : Fin 1 → Nat :=
  let c0_i32_109 : BitVec 32 := 0#32
  let c127_i32 : BitVec 32 := 127#32
  let v265 : BitVec 32 := Scalar.andi v264 c127_i32
  let c15_i32 : BitVec 32 := 15#32
  let v278 : BitVec 32 := Scalar.andi v265 c15_i32
  let c0_i32_106 : BitVec 32 := 0#32
  let v279 : BitVec 32 := Scalar.subi v278 c0_i32_106
  let c16_i32_107 : BitVec 32 := 16#32
  let v280 : BitVec 32 := Scalar.addi v279 c16_i32_107
  let c15_i32_108 : BitVec 32 := 15#32
  let v281 : BitVec 32 := Scalar.andi v280 c15_i32_108
  let v282 : BitVec 32 := Scalar.addi c0_i32_109 v281
  let v283 : Index := Scalar.indexCast v282
  ![v283.toNat]

def k3_chk33 (k3_t3 : Fin k3_t3_loop.trips) (v264 : BitVec 32) : Prop :=
  (16 ∣ (k3_mult36 v264).toNat) ∧
  (∀ a, (k3_off71 k3_t3 v264) a + S1x16.size a ≤ S128x128.size a) ∧
  (∀ a, (k3_off72 v264) a + S16.size a ≤ S512.size a)
instance k3_chk33.dec : ∀ (k3_t3 : Fin k3_t3_loop.trips) (v264 : BitVec 32), Decidable (k3_chk33 k3_t3 v264) := fun k3_t3 v264 => decidable_of_iff' _ (Iff.of_eq (k3_chk33.eq_1 k3_t3 v264))
theorem k3_mult36_dvd : ∀ (k3_t3 : Fin k3_t3_loop.trips) (v264 : BitVec 32) (k3_hw33 : k3_chk33 k3_t3 v264), 16 ∣ (k3_mult36 v264).toNat := fun k3_t3 v264 k3_hw33 => k3_hw33.1
theorem k3_off71_inb : ∀ (k3_t3 : Fin k3_t3_loop.trips) (v264 : BitVec 32) (k3_hw33 : k3_chk33 k3_t3 v264), ∀ a, (k3_off71 k3_t3 v264) a + S1x16.size a ≤ S128x128.size a := fun k3_t3 v264 k3_hw33 => k3_hw33.2.1
theorem k3_off72_inb : ∀ (k3_t3 : Fin k3_t3_loop.trips) (v264 : BitVec 32) (k3_hw33 : k3_chk33 k3_t3 v264), ∀ a, (k3_off72 v264) a + S16.size a ≤ S512.size a := fun k3_t3 v264 k3_hw33 => k3_hw33.2.2

def k3_mult37 (v293 : BitVec 32) : BitVec 32 :=
  let c127_i32_113 : BitVec 32 := 127#32
  let v294 : BitVec 32 := Scalar.andi v293 c127_i32_113
  let c112_i32_114 : BitVec 32 := 112#32
  let v295 : BitVec 32 := Scalar.andi v294 c112_i32_114
  v295

def k3_off73 (k3_t3 : Fin k3_t3_loop.trips) (v293 : BitVec 32) : Fin 2 → Nat :=
  let c0_i32_89 : BitVec 32 := 0#32
  let c1_i32_91 : BitVec 32 := 1#32
  let arg15 : BitVec 32 := Scf.iv c0_i32_89 c1_i32_91 k3_t3
  let c16_i32_111 : BitVec 32 := 16#32
  let v290 : BitVec 32 := Scalar.muli arg15 c16_i32_111
  let c1_i32_112 : BitVec 32 := 1#32
  let v291 : BitVec 32 := Scalar.addi v290 c1_i32_112
  let v297 : Index := Scalar.indexCast v291
  let c127_i32_113 : BitVec 32 := 127#32
  let v294 : BitVec 32 := Scalar.andi v293 c127_i32_113
  let c112_i32_114 : BitVec 32 := 112#32
  let v295 : BitVec 32 := Scalar.andi v294 c112_i32_114
  let v296 : BitVec 32 := v295
  let v298 : Index := Scalar.indexCast v296
  ![v297.toNat, v298.toNat]
def k3_off74 (v293 : BitVec 32) : Fin 1 → Nat :=
  let c32_i32 : BitVec 32 := 32#32
  let c127_i32_113 : BitVec 32 := 127#32
  let v294 : BitVec 32 := Scalar.andi v293 c127_i32_113
  let c15_i32_117 : BitVec 32 := 15#32
  let v307 : BitVec 32 := Scalar.andi v294 c15_i32_117
  let c1_i32_118 : BitVec 32 := 1#32
  let v308 : BitVec 32 := Scalar.subi v307 c1_i32_118
  let c16_i32_119 : BitVec 32 := 16#32
  let v309 : BitVec 32 := Scalar.addi v308 c16_i32_119
  let c15_i32_120 : BitVec 32 := 15#32
  let v310 : BitVec 32 := Scalar.andi v309 c15_i32_120
  let v311 : BitVec 32 := Scalar.addi c32_i32 v310
  let v312 : Index := Scalar.indexCast v311
  ![v312.toNat]

def k3_chk34 (k3_t3 : Fin k3_t3_loop.trips) (v293 : BitVec 32) : Prop :=
  (16 ∣ (k3_mult37 v293).toNat) ∧
  (∀ a, (k3_off73 k3_t3 v293) a + S1x16.size a ≤ S128x128.size a) ∧
  (∀ a, (k3_off74 v293) a + S16.size a ≤ S512.size a)
instance k3_chk34.dec : ∀ (k3_t3 : Fin k3_t3_loop.trips) (v293 : BitVec 32), Decidable (k3_chk34 k3_t3 v293) := fun k3_t3 v293 => decidable_of_iff' _ (Iff.of_eq (k3_chk34.eq_1 k3_t3 v293))
theorem k3_mult37_dvd : ∀ (k3_t3 : Fin k3_t3_loop.trips) (v293 : BitVec 32) (k3_hw34 : k3_chk34 k3_t3 v293), 16 ∣ (k3_mult37 v293).toNat := fun k3_t3 v293 k3_hw34 => k3_hw34.1
theorem k3_off73_inb : ∀ (k3_t3 : Fin k3_t3_loop.trips) (v293 : BitVec 32) (k3_hw34 : k3_chk34 k3_t3 v293), ∀ a, (k3_off73 k3_t3 v293) a + S1x16.size a ≤ S128x128.size a := fun k3_t3 v293 k3_hw34 => k3_hw34.2.1
theorem k3_off74_inb : ∀ (k3_t3 : Fin k3_t3_loop.trips) (v293 : BitVec 32) (k3_hw34 : k3_chk34 k3_t3 v293), ∀ a, (k3_off74 v293) a + S16.size a ≤ S512.size a := fun k3_t3 v293 k3_hw34 => k3_hw34.2.2

def k3_mult38 (v322 : BitVec 32) : BitVec 32 :=
  let c127_i32_124 : BitVec 32 := 127#32
  let v323 : BitVec 32 := Scalar.andi v322 c127_i32_124
  let c112_i32_125 : BitVec 32 := 112#32
  let v324 : BitVec 32 := Scalar.andi v323 c112_i32_125
  v324

def k3_off75 (k3_t3 : Fin k3_t3_loop.trips) (v322 : BitVec 32) : Fin 2 → Nat :=
  let c0_i32_89 : BitVec 32 := 0#32
  let c1_i32_91 : BitVec 32 := 1#32
  let arg15 : BitVec 32 := Scf.iv c0_i32_89 c1_i32_91 k3_t3
  let c16_i32_122 : BitVec 32 := 16#32
  let v319 : BitVec 32 := Scalar.muli arg15 c16_i32_122
  let c2_i32_123 : BitVec 32 := 2#32
  let v320 : BitVec 32 := Scalar.addi v319 c2_i32_123
  let v326 : Index := Scalar.indexCast v320
  let c127_i32_124 : BitVec 32 := 127#32
  let v323 : BitVec 32 := Scalar.andi v322 c127_i32_124
  let c112_i32_125 : BitVec 32 := 112#32
  let v324 : BitVec 32 := Scalar.andi v323 c112_i32_125
  let v325 : BitVec 32 := v324
  let v327 : Index := Scalar.indexCast v325
  ![v326.toNat, v327.toNat]
def k3_off76 (v322 : BitVec 32) : Fin 1 → Nat :=
  let c64_i32 : BitVec 32 := 64#32
  let c127_i32_124 : BitVec 32 := 127#32
  let v323 : BitVec 32 := Scalar.andi v322 c127_i32_124
  let c15_i32_128 : BitVec 32 := 15#32
  let v336 : BitVec 32 := Scalar.andi v323 c15_i32_128
  let c2_i32_129 : BitVec 32 := 2#32
  let v337 : BitVec 32 := Scalar.subi v336 c2_i32_129
  let c16_i32_130 : BitVec 32 := 16#32
  let v338 : BitVec 32 := Scalar.addi v337 c16_i32_130
  let c15_i32_131 : BitVec 32 := 15#32
  let v339 : BitVec 32 := Scalar.andi v338 c15_i32_131
  let v340 : BitVec 32 := Scalar.addi c64_i32 v339
  let v341 : Index := Scalar.indexCast v340
  ![v341.toNat]

def k3_chk35 (k3_t3 : Fin k3_t3_loop.trips) (v322 : BitVec 32) : Prop :=
  (16 ∣ (k3_mult38 v322).toNat) ∧
  (∀ a, (k3_off75 k3_t3 v322) a + S1x16.size a ≤ S128x128.size a) ∧
  (∀ a, (k3_off76 v322) a + S16.size a ≤ S512.size a)
instance k3_chk35.dec : ∀ (k3_t3 : Fin k3_t3_loop.trips) (v322 : BitVec 32), Decidable (k3_chk35 k3_t3 v322) := fun k3_t3 v322 => decidable_of_iff' _ (Iff.of_eq (k3_chk35.eq_1 k3_t3 v322))
theorem k3_mult38_dvd : ∀ (k3_t3 : Fin k3_t3_loop.trips) (v322 : BitVec 32) (k3_hw35 : k3_chk35 k3_t3 v322), 16 ∣ (k3_mult38 v322).toNat := fun k3_t3 v322 k3_hw35 => k3_hw35.1
theorem k3_off75_inb : ∀ (k3_t3 : Fin k3_t3_loop.trips) (v322 : BitVec 32) (k3_hw35 : k3_chk35 k3_t3 v322), ∀ a, (k3_off75 k3_t3 v322) a + S1x16.size a ≤ S128x128.size a := fun k3_t3 v322 k3_hw35 => k3_hw35.2.1
theorem k3_off76_inb : ∀ (k3_t3 : Fin k3_t3_loop.trips) (v322 : BitVec 32) (k3_hw35 : k3_chk35 k3_t3 v322), ∀ a, (k3_off76 v322) a + S16.size a ≤ S512.size a := fun k3_t3 v322 k3_hw35 => k3_hw35.2.2

def k3_mult39 (v351 : BitVec 32) : BitVec 32 :=
  let c127_i32_134 : BitVec 32 := 127#32
  let v352 : BitVec 32 := Scalar.andi v351 c127_i32_134
  let c112_i32_135 : BitVec 32 := 112#32
  let v353 : BitVec 32 := Scalar.andi v352 c112_i32_135
  v353

def k3_off77 (k3_t3 : Fin k3_t3_loop.trips) (v351 : BitVec 32) : Fin 2 → Nat :=
  let c0_i32_89 : BitVec 32 := 0#32
  let c1_i32_91 : BitVec 32 := 1#32
  let arg15 : BitVec 32 := Scf.iv c0_i32_89 c1_i32_91 k3_t3
  let c16_i32_133 : BitVec 32 := 16#32
  let v348 : BitVec 32 := Scalar.muli arg15 c16_i32_133
  let c3_i32 : BitVec 32 := 3#32
  let v349 : BitVec 32 := Scalar.addi v348 c3_i32
  let v355 : Index := Scalar.indexCast v349
  let c127_i32_134 : BitVec 32 := 127#32
  let v352 : BitVec 32 := Scalar.andi v351 c127_i32_134
  let c112_i32_135 : BitVec 32 := 112#32
  let v353 : BitVec 32 := Scalar.andi v352 c112_i32_135
  let v354 : BitVec 32 := v353
  let v356 : Index := Scalar.indexCast v354
  ![v355.toNat, v356.toNat]
def k3_off78 (v351 : BitVec 32) : Fin 1 → Nat :=
  let c96_i32 : BitVec 32 := 96#32
  let c127_i32_134 : BitVec 32 := 127#32
  let v352 : BitVec 32 := Scalar.andi v351 c127_i32_134
  let c15_i32_138 : BitVec 32 := 15#32
  let v365 : BitVec 32 := Scalar.andi v352 c15_i32_138
  let c3_i32_139 : BitVec 32 := 3#32
  let v366 : BitVec 32 := Scalar.subi v365 c3_i32_139
  let c16_i32_140 : BitVec 32 := 16#32
  let v367 : BitVec 32 := Scalar.addi v366 c16_i32_140
  let c15_i32_141 : BitVec 32 := 15#32
  let v368 : BitVec 32 := Scalar.andi v367 c15_i32_141
  let v369 : BitVec 32 := Scalar.addi c96_i32 v368
  let v370 : Index := Scalar.indexCast v369
  ![v370.toNat]

def k3_chk36 (k3_t3 : Fin k3_t3_loop.trips) (v351 : BitVec 32) : Prop :=
  (16 ∣ (k3_mult39 v351).toNat) ∧
  (∀ a, (k3_off77 k3_t3 v351) a + S1x16.size a ≤ S128x128.size a) ∧
  (∀ a, (k3_off78 v351) a + S16.size a ≤ S512.size a)
instance k3_chk36.dec : ∀ (k3_t3 : Fin k3_t3_loop.trips) (v351 : BitVec 32), Decidable (k3_chk36 k3_t3 v351) := fun k3_t3 v351 => decidable_of_iff' _ (Iff.of_eq (k3_chk36.eq_1 k3_t3 v351))
theorem k3_mult39_dvd : ∀ (k3_t3 : Fin k3_t3_loop.trips) (v351 : BitVec 32) (k3_hw36 : k3_chk36 k3_t3 v351), 16 ∣ (k3_mult39 v351).toNat := fun k3_t3 v351 k3_hw36 => k3_hw36.1
theorem k3_off77_inb : ∀ (k3_t3 : Fin k3_t3_loop.trips) (v351 : BitVec 32) (k3_hw36 : k3_chk36 k3_t3 v351), ∀ a, (k3_off77 k3_t3 v351) a + S1x16.size a ≤ S128x128.size a := fun k3_t3 v351 k3_hw36 => k3_hw36.2.1
theorem k3_off78_inb : ∀ (k3_t3 : Fin k3_t3_loop.trips) (v351 : BitVec 32) (k3_hw36 : k3_chk36 k3_t3 v351), ∀ a, (k3_off78 v351) a + S16.size a ≤ S512.size a := fun k3_t3 v351 k3_hw36 => k3_hw36.2.2

def k3_mult40 (v380 : BitVec 32) : BitVec 32 :=
  let c127_i32_144 : BitVec 32 := 127#32
  let v381 : BitVec 32 := Scalar.andi v380 c127_i32_144
  let c112_i32_145 : BitVec 32 := 112#32
  let v382 : BitVec 32 := Scalar.andi v381 c112_i32_145
  v382

def k3_off79 (k3_t3 : Fin k3_t3_loop.trips) (v380 : BitVec 32) : Fin 2 → Nat :=
  let c0_i32_89 : BitVec 32 := 0#32
  let c1_i32_91 : BitVec 32 := 1#32
  let arg15 : BitVec 32 := Scf.iv c0_i32_89 c1_i32_91 k3_t3
  let c16_i32_143 : BitVec 32 := 16#32
  let v377 : BitVec 32 := Scalar.muli arg15 c16_i32_143
  let c4_i32 : BitVec 32 := 4#32
  let v378 : BitVec 32 := Scalar.addi v377 c4_i32
  let v384 : Index := Scalar.indexCast v378
  let c127_i32_144 : BitVec 32 := 127#32
  let v381 : BitVec 32 := Scalar.andi v380 c127_i32_144
  let c112_i32_145 : BitVec 32 := 112#32
  let v382 : BitVec 32 := Scalar.andi v381 c112_i32_145
  let v383 : BitVec 32 := v382
  let v385 : Index := Scalar.indexCast v383
  ![v384.toNat, v385.toNat]
def k3_off80 (v380 : BitVec 32) : Fin 1 → Nat :=
  let c128_i32_152 : BitVec 32 := 128#32
  let c127_i32_144 : BitVec 32 := 127#32
  let v381 : BitVec 32 := Scalar.andi v380 c127_i32_144
  let c15_i32_148 : BitVec 32 := 15#32
  let v394 : BitVec 32 := Scalar.andi v381 c15_i32_148
  let c4_i32_149 : BitVec 32 := 4#32
  let v395 : BitVec 32 := Scalar.subi v394 c4_i32_149
  let c16_i32_150 : BitVec 32 := 16#32
  let v396 : BitVec 32 := Scalar.addi v395 c16_i32_150
  let c15_i32_151 : BitVec 32 := 15#32
  let v397 : BitVec 32 := Scalar.andi v396 c15_i32_151
  let v398 : BitVec 32 := Scalar.addi c128_i32_152 v397
  let v399 : Index := Scalar.indexCast v398
  ![v399.toNat]

def k3_chk37 (k3_t3 : Fin k3_t3_loop.trips) (v380 : BitVec 32) : Prop :=
  (16 ∣ (k3_mult40 v380).toNat) ∧
  (∀ a, (k3_off79 k3_t3 v380) a + S1x16.size a ≤ S128x128.size a) ∧
  (∀ a, (k3_off80 v380) a + S16.size a ≤ S512.size a)
instance k3_chk37.dec : ∀ (k3_t3 : Fin k3_t3_loop.trips) (v380 : BitVec 32), Decidable (k3_chk37 k3_t3 v380) := fun k3_t3 v380 => decidable_of_iff' _ (Iff.of_eq (k3_chk37.eq_1 k3_t3 v380))
theorem k3_mult40_dvd : ∀ (k3_t3 : Fin k3_t3_loop.trips) (v380 : BitVec 32) (k3_hw37 : k3_chk37 k3_t3 v380), 16 ∣ (k3_mult40 v380).toNat := fun k3_t3 v380 k3_hw37 => k3_hw37.1
theorem k3_off79_inb : ∀ (k3_t3 : Fin k3_t3_loop.trips) (v380 : BitVec 32) (k3_hw37 : k3_chk37 k3_t3 v380), ∀ a, (k3_off79 k3_t3 v380) a + S1x16.size a ≤ S128x128.size a := fun k3_t3 v380 k3_hw37 => k3_hw37.2.1
theorem k3_off80_inb : ∀ (k3_t3 : Fin k3_t3_loop.trips) (v380 : BitVec 32) (k3_hw37 : k3_chk37 k3_t3 v380), ∀ a, (k3_off80 v380) a + S16.size a ≤ S512.size a := fun k3_t3 v380 k3_hw37 => k3_hw37.2.2

def k3_mult41 (v409 : BitVec 32) : BitVec 32 :=
  let c127_i32_155 : BitVec 32 := 127#32
  let v410 : BitVec 32 := Scalar.andi v409 c127_i32_155
  let c112_i32_156 : BitVec 32 := 112#32
  let v411 : BitVec 32 := Scalar.andi v410 c112_i32_156
  v411

def k3_off81 (k3_t3 : Fin k3_t3_loop.trips) (v409 : BitVec 32) : Fin 2 → Nat :=
  let c0_i32_89 : BitVec 32 := 0#32
  let c1_i32_91 : BitVec 32 := 1#32
  let arg15 : BitVec 32 := Scf.iv c0_i32_89 c1_i32_91 k3_t3
  let c16_i32_154 : BitVec 32 := 16#32
  let v406 : BitVec 32 := Scalar.muli arg15 c16_i32_154
  let c5_i32 : BitVec 32 := 5#32
  let v407 : BitVec 32 := Scalar.addi v406 c5_i32
  let v413 : Index := Scalar.indexCast v407
  let c127_i32_155 : BitVec 32 := 127#32
  let v410 : BitVec 32 := Scalar.andi v409 c127_i32_155
  let c112_i32_156 : BitVec 32 := 112#32
  let v411 : BitVec 32 := Scalar.andi v410 c112_i32_156
  let v412 : BitVec 32 := v411
  let v414 : Index := Scalar.indexCast v412
  ![v413.toNat, v414.toNat]
def k3_off82 (v409 : BitVec 32) : Fin 1 → Nat :=
  let c160_i32 : BitVec 32 := 160#32
  let c127_i32_155 : BitVec 32 := 127#32
  let v410 : BitVec 32 := Scalar.andi v409 c127_i32_155
  let c15_i32_159 : BitVec 32 := 15#32
  let v423 : BitVec 32 := Scalar.andi v410 c15_i32_159
  let c5_i32_160 : BitVec 32 := 5#32
  let v424 : BitVec 32 := Scalar.subi v423 c5_i32_160
  let c16_i32_161 : BitVec 32 := 16#32
  let v425 : BitVec 32 := Scalar.addi v424 c16_i32_161
  let c15_i32_162 : BitVec 32 := 15#32
  let v426 : BitVec 32 := Scalar.andi v425 c15_i32_162
  let v427 : BitVec 32 := Scalar.addi c160_i32 v426
  let v428 : Index := Scalar.indexCast v427
  ![v428.toNat]

def k3_chk38 (k3_t3 : Fin k3_t3_loop.trips) (v409 : BitVec 32) : Prop :=
  (16 ∣ (k3_mult41 v409).toNat) ∧
  (∀ a, (k3_off81 k3_t3 v409) a + S1x16.size a ≤ S128x128.size a) ∧
  (∀ a, (k3_off82 v409) a + S16.size a ≤ S512.size a)
instance k3_chk38.dec : ∀ (k3_t3 : Fin k3_t3_loop.trips) (v409 : BitVec 32), Decidable (k3_chk38 k3_t3 v409) := fun k3_t3 v409 => decidable_of_iff' _ (Iff.of_eq (k3_chk38.eq_1 k3_t3 v409))
theorem k3_mult41_dvd : ∀ (k3_t3 : Fin k3_t3_loop.trips) (v409 : BitVec 32) (k3_hw38 : k3_chk38 k3_t3 v409), 16 ∣ (k3_mult41 v409).toNat := fun k3_t3 v409 k3_hw38 => k3_hw38.1
theorem k3_off81_inb : ∀ (k3_t3 : Fin k3_t3_loop.trips) (v409 : BitVec 32) (k3_hw38 : k3_chk38 k3_t3 v409), ∀ a, (k3_off81 k3_t3 v409) a + S1x16.size a ≤ S128x128.size a := fun k3_t3 v409 k3_hw38 => k3_hw38.2.1
theorem k3_off82_inb : ∀ (k3_t3 : Fin k3_t3_loop.trips) (v409 : BitVec 32) (k3_hw38 : k3_chk38 k3_t3 v409), ∀ a, (k3_off82 v409) a + S16.size a ≤ S512.size a := fun k3_t3 v409 k3_hw38 => k3_hw38.2.2

def k3_mult42 (v438 : BitVec 32) : BitVec 32 :=
  let c127_i32_165 : BitVec 32 := 127#32
  let v439 : BitVec 32 := Scalar.andi v438 c127_i32_165
  let c112_i32_166 : BitVec 32 := 112#32
  let v440 : BitVec 32 := Scalar.andi v439 c112_i32_166
  v440

def k3_off83 (k3_t3 : Fin k3_t3_loop.trips) (v438 : BitVec 32) : Fin 2 → Nat :=
  let c0_i32_89 : BitVec 32 := 0#32
  let c1_i32_91 : BitVec 32 := 1#32
  let arg15 : BitVec 32 := Scf.iv c0_i32_89 c1_i32_91 k3_t3
  let c16_i32_164 : BitVec 32 := 16#32
  let v435 : BitVec 32 := Scalar.muli arg15 c16_i32_164
  let c6_i32 : BitVec 32 := 6#32
  let v436 : BitVec 32 := Scalar.addi v435 c6_i32
  let v442 : Index := Scalar.indexCast v436
  let c127_i32_165 : BitVec 32 := 127#32
  let v439 : BitVec 32 := Scalar.andi v438 c127_i32_165
  let c112_i32_166 : BitVec 32 := 112#32
  let v440 : BitVec 32 := Scalar.andi v439 c112_i32_166
  let v441 : BitVec 32 := v440
  let v443 : Index := Scalar.indexCast v441
  ![v442.toNat, v443.toNat]
def k3_off84 (v438 : BitVec 32) : Fin 1 → Nat :=
  let c192_i32 : BitVec 32 := 192#32
  let c127_i32_165 : BitVec 32 := 127#32
  let v439 : BitVec 32 := Scalar.andi v438 c127_i32_165
  let c15_i32_169 : BitVec 32 := 15#32
  let v452 : BitVec 32 := Scalar.andi v439 c15_i32_169
  let c6_i32_170 : BitVec 32 := 6#32
  let v453 : BitVec 32 := Scalar.subi v452 c6_i32_170
  let c16_i32_171 : BitVec 32 := 16#32
  let v454 : BitVec 32 := Scalar.addi v453 c16_i32_171
  let c15_i32_172 : BitVec 32 := 15#32
  let v455 : BitVec 32 := Scalar.andi v454 c15_i32_172
  let v456 : BitVec 32 := Scalar.addi c192_i32 v455
  let v457 : Index := Scalar.indexCast v456
  ![v457.toNat]

def k3_chk39 (k3_t3 : Fin k3_t3_loop.trips) (v438 : BitVec 32) : Prop :=
  (16 ∣ (k3_mult42 v438).toNat) ∧
  (∀ a, (k3_off83 k3_t3 v438) a + S1x16.size a ≤ S128x128.size a) ∧
  (∀ a, (k3_off84 v438) a + S16.size a ≤ S512.size a)
instance k3_chk39.dec : ∀ (k3_t3 : Fin k3_t3_loop.trips) (v438 : BitVec 32), Decidable (k3_chk39 k3_t3 v438) := fun k3_t3 v438 => decidable_of_iff' _ (Iff.of_eq (k3_chk39.eq_1 k3_t3 v438))
theorem k3_mult42_dvd : ∀ (k3_t3 : Fin k3_t3_loop.trips) (v438 : BitVec 32) (k3_hw39 : k3_chk39 k3_t3 v438), 16 ∣ (k3_mult42 v438).toNat := fun k3_t3 v438 k3_hw39 => k3_hw39.1
theorem k3_off83_inb : ∀ (k3_t3 : Fin k3_t3_loop.trips) (v438 : BitVec 32) (k3_hw39 : k3_chk39 k3_t3 v438), ∀ a, (k3_off83 k3_t3 v438) a + S1x16.size a ≤ S128x128.size a := fun k3_t3 v438 k3_hw39 => k3_hw39.2.1
theorem k3_off84_inb : ∀ (k3_t3 : Fin k3_t3_loop.trips) (v438 : BitVec 32) (k3_hw39 : k3_chk39 k3_t3 v438), ∀ a, (k3_off84 v438) a + S16.size a ≤ S512.size a := fun k3_t3 v438 k3_hw39 => k3_hw39.2.2

def k3_mult43 (v467 : BitVec 32) : BitVec 32 :=
  let c127_i32_176 : BitVec 32 := 127#32
  let v468 : BitVec 32 := Scalar.andi v467 c127_i32_176
  let c112_i32_177 : BitVec 32 := 112#32
  let v469 : BitVec 32 := Scalar.andi v468 c112_i32_177
  v469

def k3_off85 (k3_t3 : Fin k3_t3_loop.trips) (v467 : BitVec 32) : Fin 2 → Nat :=
  let c0_i32_89 : BitVec 32 := 0#32
  let c1_i32_91 : BitVec 32 := 1#32
  let arg15 : BitVec 32 := Scf.iv c0_i32_89 c1_i32_91 k3_t3
  let c16_i32_174 : BitVec 32 := 16#32
  let v464 : BitVec 32 := Scalar.muli arg15 c16_i32_174
  let c7_i32_175 : BitVec 32 := 7#32
  let v465 : BitVec 32 := Scalar.addi v464 c7_i32_175
  let v471 : Index := Scalar.indexCast v465
  let c127_i32_176 : BitVec 32 := 127#32
  let v468 : BitVec 32 := Scalar.andi v467 c127_i32_176
  let c112_i32_177 : BitVec 32 := 112#32
  let v469 : BitVec 32 := Scalar.andi v468 c112_i32_177
  let v470 : BitVec 32 := v469
  let v472 : Index := Scalar.indexCast v470
  ![v471.toNat, v472.toNat]
def k3_off86 (v467 : BitVec 32) : Fin 1 → Nat :=
  let c224_i32 : BitVec 32 := 224#32
  let c127_i32_176 : BitVec 32 := 127#32
  let v468 : BitVec 32 := Scalar.andi v467 c127_i32_176
  let c15_i32_180 : BitVec 32 := 15#32
  let v481 : BitVec 32 := Scalar.andi v468 c15_i32_180
  let c7_i32_181 : BitVec 32 := 7#32
  let v482 : BitVec 32 := Scalar.subi v481 c7_i32_181
  let c16_i32_182 : BitVec 32 := 16#32
  let v483 : BitVec 32 := Scalar.addi v482 c16_i32_182
  let c15_i32_183 : BitVec 32 := 15#32
  let v484 : BitVec 32 := Scalar.andi v483 c15_i32_183
  let v485 : BitVec 32 := Scalar.addi c224_i32 v484
  let v486 : Index := Scalar.indexCast v485
  ![v486.toNat]

def k3_chk40 (k3_t3 : Fin k3_t3_loop.trips) (v467 : BitVec 32) : Prop :=
  (16 ∣ (k3_mult43 v467).toNat) ∧
  (∀ a, (k3_off85 k3_t3 v467) a + S1x16.size a ≤ S128x128.size a) ∧
  (∀ a, (k3_off86 v467) a + S16.size a ≤ S512.size a)
instance k3_chk40.dec : ∀ (k3_t3 : Fin k3_t3_loop.trips) (v467 : BitVec 32), Decidable (k3_chk40 k3_t3 v467) := fun k3_t3 v467 => decidable_of_iff' _ (Iff.of_eq (k3_chk40.eq_1 k3_t3 v467))
theorem k3_mult43_dvd : ∀ (k3_t3 : Fin k3_t3_loop.trips) (v467 : BitVec 32) (k3_hw40 : k3_chk40 k3_t3 v467), 16 ∣ (k3_mult43 v467).toNat := fun k3_t3 v467 k3_hw40 => k3_hw40.1
theorem k3_off85_inb : ∀ (k3_t3 : Fin k3_t3_loop.trips) (v467 : BitVec 32) (k3_hw40 : k3_chk40 k3_t3 v467), ∀ a, (k3_off85 k3_t3 v467) a + S1x16.size a ≤ S128x128.size a := fun k3_t3 v467 k3_hw40 => k3_hw40.2.1
theorem k3_off86_inb : ∀ (k3_t3 : Fin k3_t3_loop.trips) (v467 : BitVec 32) (k3_hw40 : k3_chk40 k3_t3 v467), ∀ a, (k3_off86 v467) a + S16.size a ≤ S512.size a := fun k3_t3 v467 k3_hw40 => k3_hw40.2.2

def k3_mult44 (v496 : BitVec 32) : BitVec 32 :=
  let c127_i32_187 : BitVec 32 := 127#32
  let v497 : BitVec 32 := Scalar.andi v496 c127_i32_187
  let c112_i32_188 : BitVec 32 := 112#32
  let v498 : BitVec 32 := Scalar.andi v497 c112_i32_188
  v498

def k3_off87 (k3_t3 : Fin k3_t3_loop.trips) (v496 : BitVec 32) : Fin 2 → Nat :=
  let c0_i32_89 : BitVec 32 := 0#32
  let c1_i32_91 : BitVec 32 := 1#32
  let arg15 : BitVec 32 := Scf.iv c0_i32_89 c1_i32_91 k3_t3
  let c16_i32_185 : BitVec 32 := 16#32
  let v493 : BitVec 32 := Scalar.muli arg15 c16_i32_185
  let c8_i32_186 : BitVec 32 := 8#32
  let v494 : BitVec 32 := Scalar.addi v493 c8_i32_186
  let v500 : Index := Scalar.indexCast v494
  let c127_i32_187 : BitVec 32 := 127#32
  let v497 : BitVec 32 := Scalar.andi v496 c127_i32_187
  let c112_i32_188 : BitVec 32 := 112#32
  let v498 : BitVec 32 := Scalar.andi v497 c112_i32_188
  let v499 : BitVec 32 := v498
  let v501 : Index := Scalar.indexCast v499
  ![v500.toNat, v501.toNat]
def k3_off88 (v496 : BitVec 32) : Fin 1 → Nat :=
  let c256_i32_195 : BitVec 32 := 256#32
  let c127_i32_187 : BitVec 32 := 127#32
  let v497 : BitVec 32 := Scalar.andi v496 c127_i32_187
  let c15_i32_191 : BitVec 32 := 15#32
  let v510 : BitVec 32 := Scalar.andi v497 c15_i32_191
  let c8_i32_192 : BitVec 32 := 8#32
  let v511 : BitVec 32 := Scalar.subi v510 c8_i32_192
  let c16_i32_193 : BitVec 32 := 16#32
  let v512 : BitVec 32 := Scalar.addi v511 c16_i32_193
  let c15_i32_194 : BitVec 32 := 15#32
  let v513 : BitVec 32 := Scalar.andi v512 c15_i32_194
  let v514 : BitVec 32 := Scalar.addi c256_i32_195 v513
  let v515 : Index := Scalar.indexCast v514
  ![v515.toNat]

def k3_chk41 (k3_t3 : Fin k3_t3_loop.trips) (v496 : BitVec 32) : Prop :=
  (16 ∣ (k3_mult44 v496).toNat) ∧
  (∀ a, (k3_off87 k3_t3 v496) a + S1x16.size a ≤ S128x128.size a) ∧
  (∀ a, (k3_off88 v496) a + S16.size a ≤ S512.size a)
instance k3_chk41.dec : ∀ (k3_t3 : Fin k3_t3_loop.trips) (v496 : BitVec 32), Decidable (k3_chk41 k3_t3 v496) := fun k3_t3 v496 => decidable_of_iff' _ (Iff.of_eq (k3_chk41.eq_1 k3_t3 v496))
theorem k3_mult44_dvd : ∀ (k3_t3 : Fin k3_t3_loop.trips) (v496 : BitVec 32) (k3_hw41 : k3_chk41 k3_t3 v496), 16 ∣ (k3_mult44 v496).toNat := fun k3_t3 v496 k3_hw41 => k3_hw41.1
theorem k3_off87_inb : ∀ (k3_t3 : Fin k3_t3_loop.trips) (v496 : BitVec 32) (k3_hw41 : k3_chk41 k3_t3 v496), ∀ a, (k3_off87 k3_t3 v496) a + S1x16.size a ≤ S128x128.size a := fun k3_t3 v496 k3_hw41 => k3_hw41.2.1
theorem k3_off88_inb : ∀ (k3_t3 : Fin k3_t3_loop.trips) (v496 : BitVec 32) (k3_hw41 : k3_chk41 k3_t3 v496), ∀ a, (k3_off88 v496) a + S16.size a ≤ S512.size a := fun k3_t3 v496 k3_hw41 => k3_hw41.2.2

def k3_mult45 (v525 : BitVec 32) : BitVec 32 :=
  let c127_i32_198 : BitVec 32 := 127#32
  let v526 : BitVec 32 := Scalar.andi v525 c127_i32_198
  let c112_i32_199 : BitVec 32 := 112#32
  let v527 : BitVec 32 := Scalar.andi v526 c112_i32_199
  v527

def k3_off89 (k3_t3 : Fin k3_t3_loop.trips) (v525 : BitVec 32) : Fin 2 → Nat :=
  let c0_i32_89 : BitVec 32 := 0#32
  let c1_i32_91 : BitVec 32 := 1#32
  let arg15 : BitVec 32 := Scf.iv c0_i32_89 c1_i32_91 k3_t3
  let c16_i32_197 : BitVec 32 := 16#32
  let v522 : BitVec 32 := Scalar.muli arg15 c16_i32_197
  let c9_i32 : BitVec 32 := 9#32
  let v523 : BitVec 32 := Scalar.addi v522 c9_i32
  let v529 : Index := Scalar.indexCast v523
  let c127_i32_198 : BitVec 32 := 127#32
  let v526 : BitVec 32 := Scalar.andi v525 c127_i32_198
  let c112_i32_199 : BitVec 32 := 112#32
  let v527 : BitVec 32 := Scalar.andi v526 c112_i32_199
  let v528 : BitVec 32 := v527
  let v530 : Index := Scalar.indexCast v528
  ![v529.toNat, v530.toNat]
def k3_off90 (v525 : BitVec 32) : Fin 1 → Nat :=
  let c288_i32 : BitVec 32 := 288#32
  let c127_i32_198 : BitVec 32 := 127#32
  let v526 : BitVec 32 := Scalar.andi v525 c127_i32_198
  let c15_i32_202 : BitVec 32 := 15#32
  let v539 : BitVec 32 := Scalar.andi v526 c15_i32_202
  let c9_i32_203 : BitVec 32 := 9#32
  let v540 : BitVec 32 := Scalar.subi v539 c9_i32_203
  let c16_i32_204 : BitVec 32 := 16#32
  let v541 : BitVec 32 := Scalar.addi v540 c16_i32_204
  let c15_i32_205 : BitVec 32 := 15#32
  let v542 : BitVec 32 := Scalar.andi v541 c15_i32_205
  let v543 : BitVec 32 := Scalar.addi c288_i32 v542
  let v544 : Index := Scalar.indexCast v543
  ![v544.toNat]

def k3_chk42 (k3_t3 : Fin k3_t3_loop.trips) (v525 : BitVec 32) : Prop :=
  (16 ∣ (k3_mult45 v525).toNat) ∧
  (∀ a, (k3_off89 k3_t3 v525) a + S1x16.size a ≤ S128x128.size a) ∧
  (∀ a, (k3_off90 v525) a + S16.size a ≤ S512.size a)
instance k3_chk42.dec : ∀ (k3_t3 : Fin k3_t3_loop.trips) (v525 : BitVec 32), Decidable (k3_chk42 k3_t3 v525) := fun k3_t3 v525 => decidable_of_iff' _ (Iff.of_eq (k3_chk42.eq_1 k3_t3 v525))
theorem k3_mult45_dvd : ∀ (k3_t3 : Fin k3_t3_loop.trips) (v525 : BitVec 32) (k3_hw42 : k3_chk42 k3_t3 v525), 16 ∣ (k3_mult45 v525).toNat := fun k3_t3 v525 k3_hw42 => k3_hw42.1
theorem k3_off89_inb : ∀ (k3_t3 : Fin k3_t3_loop.trips) (v525 : BitVec 32) (k3_hw42 : k3_chk42 k3_t3 v525), ∀ a, (k3_off89 k3_t3 v525) a + S1x16.size a ≤ S128x128.size a := fun k3_t3 v525 k3_hw42 => k3_hw42.2.1
theorem k3_off90_inb : ∀ (k3_t3 : Fin k3_t3_loop.trips) (v525 : BitVec 32) (k3_hw42 : k3_chk42 k3_t3 v525), ∀ a, (k3_off90 v525) a + S16.size a ≤ S512.size a := fun k3_t3 v525 k3_hw42 => k3_hw42.2.2

def k3_mult46 (v554 : BitVec 32) : BitVec 32 :=
  let c127_i32_208 : BitVec 32 := 127#32
  let v555 : BitVec 32 := Scalar.andi v554 c127_i32_208
  let c112_i32_209 : BitVec 32 := 112#32
  let v556 : BitVec 32 := Scalar.andi v555 c112_i32_209
  v556

def k3_off91 (k3_t3 : Fin k3_t3_loop.trips) (v554 : BitVec 32) : Fin 2 → Nat :=
  let c0_i32_89 : BitVec 32 := 0#32
  let c1_i32_91 : BitVec 32 := 1#32
  let arg15 : BitVec 32 := Scf.iv c0_i32_89 c1_i32_91 k3_t3
  let c16_i32_207 : BitVec 32 := 16#32
  let v551 : BitVec 32 := Scalar.muli arg15 c16_i32_207
  let c10_i32 : BitVec 32 := 10#32
  let v552 : BitVec 32 := Scalar.addi v551 c10_i32
  let v558 : Index := Scalar.indexCast v552
  let c127_i32_208 : BitVec 32 := 127#32
  let v555 : BitVec 32 := Scalar.andi v554 c127_i32_208
  let c112_i32_209 : BitVec 32 := 112#32
  let v556 : BitVec 32 := Scalar.andi v555 c112_i32_209
  let v557 : BitVec 32 := v556
  let v559 : Index := Scalar.indexCast v557
  ![v558.toNat, v559.toNat]
def k3_off92 (v554 : BitVec 32) : Fin 1 → Nat :=
  let c320_i32 : BitVec 32 := 320#32
  let c127_i32_208 : BitVec 32 := 127#32
  let v555 : BitVec 32 := Scalar.andi v554 c127_i32_208
  let c15_i32_212 : BitVec 32 := 15#32
  let v568 : BitVec 32 := Scalar.andi v555 c15_i32_212
  let c10_i32_213 : BitVec 32 := 10#32
  let v569 : BitVec 32 := Scalar.subi v568 c10_i32_213
  let c16_i32_214 : BitVec 32 := 16#32
  let v570 : BitVec 32 := Scalar.addi v569 c16_i32_214
  let c15_i32_215 : BitVec 32 := 15#32
  let v571 : BitVec 32 := Scalar.andi v570 c15_i32_215
  let v572 : BitVec 32 := Scalar.addi c320_i32 v571
  let v573 : Index := Scalar.indexCast v572
  ![v573.toNat]

def k3_chk43 (k3_t3 : Fin k3_t3_loop.trips) (v554 : BitVec 32) : Prop :=
  (16 ∣ (k3_mult46 v554).toNat) ∧
  (∀ a, (k3_off91 k3_t3 v554) a + S1x16.size a ≤ S128x128.size a) ∧
  (∀ a, (k3_off92 v554) a + S16.size a ≤ S512.size a)
instance k3_chk43.dec : ∀ (k3_t3 : Fin k3_t3_loop.trips) (v554 : BitVec 32), Decidable (k3_chk43 k3_t3 v554) := fun k3_t3 v554 => decidable_of_iff' _ (Iff.of_eq (k3_chk43.eq_1 k3_t3 v554))
theorem k3_mult46_dvd : ∀ (k3_t3 : Fin k3_t3_loop.trips) (v554 : BitVec 32) (k3_hw43 : k3_chk43 k3_t3 v554), 16 ∣ (k3_mult46 v554).toNat := fun k3_t3 v554 k3_hw43 => k3_hw43.1
theorem k3_off91_inb : ∀ (k3_t3 : Fin k3_t3_loop.trips) (v554 : BitVec 32) (k3_hw43 : k3_chk43 k3_t3 v554), ∀ a, (k3_off91 k3_t3 v554) a + S1x16.size a ≤ S128x128.size a := fun k3_t3 v554 k3_hw43 => k3_hw43.2.1
theorem k3_off92_inb : ∀ (k3_t3 : Fin k3_t3_loop.trips) (v554 : BitVec 32) (k3_hw43 : k3_chk43 k3_t3 v554), ∀ a, (k3_off92 v554) a + S16.size a ≤ S512.size a := fun k3_t3 v554 k3_hw43 => k3_hw43.2.2

def k3_mult47 (v583 : BitVec 32) : BitVec 32 :=
  let c127_i32_218 : BitVec 32 := 127#32
  let v584 : BitVec 32 := Scalar.andi v583 c127_i32_218
  let c112_i32_219 : BitVec 32 := 112#32
  let v585 : BitVec 32 := Scalar.andi v584 c112_i32_219
  v585

def k3_off93 (k3_t3 : Fin k3_t3_loop.trips) (v583 : BitVec 32) : Fin 2 → Nat :=
  let c0_i32_89 : BitVec 32 := 0#32
  let c1_i32_91 : BitVec 32 := 1#32
  let arg15 : BitVec 32 := Scf.iv c0_i32_89 c1_i32_91 k3_t3
  let c16_i32_217 : BitVec 32 := 16#32
  let v580 : BitVec 32 := Scalar.muli arg15 c16_i32_217
  let c11_i32 : BitVec 32 := 11#32
  let v581 : BitVec 32 := Scalar.addi v580 c11_i32
  let v587 : Index := Scalar.indexCast v581
  let c127_i32_218 : BitVec 32 := 127#32
  let v584 : BitVec 32 := Scalar.andi v583 c127_i32_218
  let c112_i32_219 : BitVec 32 := 112#32
  let v585 : BitVec 32 := Scalar.andi v584 c112_i32_219
  let v586 : BitVec 32 := v585
  let v588 : Index := Scalar.indexCast v586
  ![v587.toNat, v588.toNat]
def k3_off94 (v583 : BitVec 32) : Fin 1 → Nat :=
  let c352_i32 : BitVec 32 := 352#32
  let c127_i32_218 : BitVec 32 := 127#32
  let v584 : BitVec 32 := Scalar.andi v583 c127_i32_218
  let c15_i32_222 : BitVec 32 := 15#32
  let v597 : BitVec 32 := Scalar.andi v584 c15_i32_222
  let c11_i32_223 : BitVec 32 := 11#32
  let v598 : BitVec 32 := Scalar.subi v597 c11_i32_223
  let c16_i32_224 : BitVec 32 := 16#32
  let v599 : BitVec 32 := Scalar.addi v598 c16_i32_224
  let c15_i32_225 : BitVec 32 := 15#32
  let v600 : BitVec 32 := Scalar.andi v599 c15_i32_225
  let v601 : BitVec 32 := Scalar.addi c352_i32 v600
  let v602 : Index := Scalar.indexCast v601
  ![v602.toNat]

def k3_chk44 (k3_t3 : Fin k3_t3_loop.trips) (v583 : BitVec 32) : Prop :=
  (16 ∣ (k3_mult47 v583).toNat) ∧
  (∀ a, (k3_off93 k3_t3 v583) a + S1x16.size a ≤ S128x128.size a) ∧
  (∀ a, (k3_off94 v583) a + S16.size a ≤ S512.size a)
instance k3_chk44.dec : ∀ (k3_t3 : Fin k3_t3_loop.trips) (v583 : BitVec 32), Decidable (k3_chk44 k3_t3 v583) := fun k3_t3 v583 => decidable_of_iff' _ (Iff.of_eq (k3_chk44.eq_1 k3_t3 v583))
theorem k3_mult47_dvd : ∀ (k3_t3 : Fin k3_t3_loop.trips) (v583 : BitVec 32) (k3_hw44 : k3_chk44 k3_t3 v583), 16 ∣ (k3_mult47 v583).toNat := fun k3_t3 v583 k3_hw44 => k3_hw44.1
theorem k3_off93_inb : ∀ (k3_t3 : Fin k3_t3_loop.trips) (v583 : BitVec 32) (k3_hw44 : k3_chk44 k3_t3 v583), ∀ a, (k3_off93 k3_t3 v583) a + S1x16.size a ≤ S128x128.size a := fun k3_t3 v583 k3_hw44 => k3_hw44.2.1
theorem k3_off94_inb : ∀ (k3_t3 : Fin k3_t3_loop.trips) (v583 : BitVec 32) (k3_hw44 : k3_chk44 k3_t3 v583), ∀ a, (k3_off94 v583) a + S16.size a ≤ S512.size a := fun k3_t3 v583 k3_hw44 => k3_hw44.2.2

def k3_mult48 (v612 : BitVec 32) : BitVec 32 :=
  let c127_i32_228 : BitVec 32 := 127#32
  let v613 : BitVec 32 := Scalar.andi v612 c127_i32_228
  let c112_i32_229 : BitVec 32 := 112#32
  let v614 : BitVec 32 := Scalar.andi v613 c112_i32_229
  v614

def k3_off95 (k3_t3 : Fin k3_t3_loop.trips) (v612 : BitVec 32) : Fin 2 → Nat :=
  let c0_i32_89 : BitVec 32 := 0#32
  let c1_i32_91 : BitVec 32 := 1#32
  let arg15 : BitVec 32 := Scf.iv c0_i32_89 c1_i32_91 k3_t3
  let c16_i32_227 : BitVec 32 := 16#32
  let v609 : BitVec 32 := Scalar.muli arg15 c16_i32_227
  let c12_i32 : BitVec 32 := 12#32
  let v610 : BitVec 32 := Scalar.addi v609 c12_i32
  let v616 : Index := Scalar.indexCast v610
  let c127_i32_228 : BitVec 32 := 127#32
  let v613 : BitVec 32 := Scalar.andi v612 c127_i32_228
  let c112_i32_229 : BitVec 32 := 112#32
  let v614 : BitVec 32 := Scalar.andi v613 c112_i32_229
  let v615 : BitVec 32 := v614
  let v617 : Index := Scalar.indexCast v615
  ![v616.toNat, v617.toNat]
def k3_off96 (v612 : BitVec 32) : Fin 1 → Nat :=
  let c384_i32_236 : BitVec 32 := 384#32
  let c127_i32_228 : BitVec 32 := 127#32
  let v613 : BitVec 32 := Scalar.andi v612 c127_i32_228
  let c15_i32_232 : BitVec 32 := 15#32
  let v626 : BitVec 32 := Scalar.andi v613 c15_i32_232
  let c12_i32_233 : BitVec 32 := 12#32
  let v627 : BitVec 32 := Scalar.subi v626 c12_i32_233
  let c16_i32_234 : BitVec 32 := 16#32
  let v628 : BitVec 32 := Scalar.addi v627 c16_i32_234
  let c15_i32_235 : BitVec 32 := 15#32
  let v629 : BitVec 32 := Scalar.andi v628 c15_i32_235
  let v630 : BitVec 32 := Scalar.addi c384_i32_236 v629
  let v631 : Index := Scalar.indexCast v630
  ![v631.toNat]

def k3_chk45 (k3_t3 : Fin k3_t3_loop.trips) (v612 : BitVec 32) : Prop :=
  (16 ∣ (k3_mult48 v612).toNat) ∧
  (∀ a, (k3_off95 k3_t3 v612) a + S1x16.size a ≤ S128x128.size a) ∧
  (∀ a, (k3_off96 v612) a + S16.size a ≤ S512.size a)
instance k3_chk45.dec : ∀ (k3_t3 : Fin k3_t3_loop.trips) (v612 : BitVec 32), Decidable (k3_chk45 k3_t3 v612) := fun k3_t3 v612 => decidable_of_iff' _ (Iff.of_eq (k3_chk45.eq_1 k3_t3 v612))
theorem k3_mult48_dvd : ∀ (k3_t3 : Fin k3_t3_loop.trips) (v612 : BitVec 32) (k3_hw45 : k3_chk45 k3_t3 v612), 16 ∣ (k3_mult48 v612).toNat := fun k3_t3 v612 k3_hw45 => k3_hw45.1
theorem k3_off95_inb : ∀ (k3_t3 : Fin k3_t3_loop.trips) (v612 : BitVec 32) (k3_hw45 : k3_chk45 k3_t3 v612), ∀ a, (k3_off95 k3_t3 v612) a + S1x16.size a ≤ S128x128.size a := fun k3_t3 v612 k3_hw45 => k3_hw45.2.1
theorem k3_off96_inb : ∀ (k3_t3 : Fin k3_t3_loop.trips) (v612 : BitVec 32) (k3_hw45 : k3_chk45 k3_t3 v612), ∀ a, (k3_off96 v612) a + S16.size a ≤ S512.size a := fun k3_t3 v612 k3_hw45 => k3_hw45.2.2

def k3_mult49 (v641 : BitVec 32) : BitVec 32 :=
  let c127_i32_239 : BitVec 32 := 127#32
  let v642 : BitVec 32 := Scalar.andi v641 c127_i32_239
  let c112_i32_240 : BitVec 32 := 112#32
  let v643 : BitVec 32 := Scalar.andi v642 c112_i32_240
  v643

def k3_off97 (k3_t3 : Fin k3_t3_loop.trips) (v641 : BitVec 32) : Fin 2 → Nat :=
  let c0_i32_89 : BitVec 32 := 0#32
  let c1_i32_91 : BitVec 32 := 1#32
  let arg15 : BitVec 32 := Scf.iv c0_i32_89 c1_i32_91 k3_t3
  let c16_i32_238 : BitVec 32 := 16#32
  let v638 : BitVec 32 := Scalar.muli arg15 c16_i32_238
  let c13_i32 : BitVec 32 := 13#32
  let v639 : BitVec 32 := Scalar.addi v638 c13_i32
  let v645 : Index := Scalar.indexCast v639
  let c127_i32_239 : BitVec 32 := 127#32
  let v642 : BitVec 32 := Scalar.andi v641 c127_i32_239
  let c112_i32_240 : BitVec 32 := 112#32
  let v643 : BitVec 32 := Scalar.andi v642 c112_i32_240
  let v644 : BitVec 32 := v643
  let v646 : Index := Scalar.indexCast v644
  ![v645.toNat, v646.toNat]
def k3_off98 (v641 : BitVec 32) : Fin 1 → Nat :=
  let c416_i32 : BitVec 32 := 416#32
  let c127_i32_239 : BitVec 32 := 127#32
  let v642 : BitVec 32 := Scalar.andi v641 c127_i32_239
  let c15_i32_243 : BitVec 32 := 15#32
  let v655 : BitVec 32 := Scalar.andi v642 c15_i32_243
  let c13_i32_244 : BitVec 32 := 13#32
  let v656 : BitVec 32 := Scalar.subi v655 c13_i32_244
  let c16_i32_245 : BitVec 32 := 16#32
  let v657 : BitVec 32 := Scalar.addi v656 c16_i32_245
  let c15_i32_246 : BitVec 32 := 15#32
  let v658 : BitVec 32 := Scalar.andi v657 c15_i32_246
  let v659 : BitVec 32 := Scalar.addi c416_i32 v658
  let v660 : Index := Scalar.indexCast v659
  ![v660.toNat]

def k3_chk46 (k3_t3 : Fin k3_t3_loop.trips) (v641 : BitVec 32) : Prop :=
  (16 ∣ (k3_mult49 v641).toNat) ∧
  (∀ a, (k3_off97 k3_t3 v641) a + S1x16.size a ≤ S128x128.size a) ∧
  (∀ a, (k3_off98 v641) a + S16.size a ≤ S512.size a)
instance k3_chk46.dec : ∀ (k3_t3 : Fin k3_t3_loop.trips) (v641 : BitVec 32), Decidable (k3_chk46 k3_t3 v641) := fun k3_t3 v641 => decidable_of_iff' _ (Iff.of_eq (k3_chk46.eq_1 k3_t3 v641))
theorem k3_mult49_dvd : ∀ (k3_t3 : Fin k3_t3_loop.trips) (v641 : BitVec 32) (k3_hw46 : k3_chk46 k3_t3 v641), 16 ∣ (k3_mult49 v641).toNat := fun k3_t3 v641 k3_hw46 => k3_hw46.1
theorem k3_off97_inb : ∀ (k3_t3 : Fin k3_t3_loop.trips) (v641 : BitVec 32) (k3_hw46 : k3_chk46 k3_t3 v641), ∀ a, (k3_off97 k3_t3 v641) a + S1x16.size a ≤ S128x128.size a := fun k3_t3 v641 k3_hw46 => k3_hw46.2.1
theorem k3_off98_inb : ∀ (k3_t3 : Fin k3_t3_loop.trips) (v641 : BitVec 32) (k3_hw46 : k3_chk46 k3_t3 v641), ∀ a, (k3_off98 v641) a + S16.size a ≤ S512.size a := fun k3_t3 v641 k3_hw46 => k3_hw46.2.2

def k3_mult50 (v670 : BitVec 32) : BitVec 32 :=
  let c127_i32_249 : BitVec 32 := 127#32
  let v671 : BitVec 32 := Scalar.andi v670 c127_i32_249
  let c112_i32_250 : BitVec 32 := 112#32
  let v672 : BitVec 32 := Scalar.andi v671 c112_i32_250
  v672

def k3_off99 (k3_t3 : Fin k3_t3_loop.trips) (v670 : BitVec 32) : Fin 2 → Nat :=
  let c0_i32_89 : BitVec 32 := 0#32
  let c1_i32_91 : BitVec 32 := 1#32
  let arg15 : BitVec 32 := Scf.iv c0_i32_89 c1_i32_91 k3_t3
  let c16_i32_248 : BitVec 32 := 16#32
  let v667 : BitVec 32 := Scalar.muli arg15 c16_i32_248
  let c14_i32 : BitVec 32 := 14#32
  let v668 : BitVec 32 := Scalar.addi v667 c14_i32
  let v674 : Index := Scalar.indexCast v668
  let c127_i32_249 : BitVec 32 := 127#32
  let v671 : BitVec 32 := Scalar.andi v670 c127_i32_249
  let c112_i32_250 : BitVec 32 := 112#32
  let v672 : BitVec 32 := Scalar.andi v671 c112_i32_250
  let v673 : BitVec 32 := v672
  let v675 : Index := Scalar.indexCast v673
  ![v674.toNat, v675.toNat]
def k3_off100 (v670 : BitVec 32) : Fin 1 → Nat :=
  let c448_i32 : BitVec 32 := 448#32
  let c127_i32_249 : BitVec 32 := 127#32
  let v671 : BitVec 32 := Scalar.andi v670 c127_i32_249
  let c15_i32_253 : BitVec 32 := 15#32
  let v684 : BitVec 32 := Scalar.andi v671 c15_i32_253
  let c14_i32_254 : BitVec 32 := 14#32
  let v685 : BitVec 32 := Scalar.subi v684 c14_i32_254
  let c16_i32_255 : BitVec 32 := 16#32
  let v686 : BitVec 32 := Scalar.addi v685 c16_i32_255
  let c15_i32_256 : BitVec 32 := 15#32
  let v687 : BitVec 32 := Scalar.andi v686 c15_i32_256
  let v688 : BitVec 32 := Scalar.addi c448_i32 v687
  let v689 : Index := Scalar.indexCast v688
  ![v689.toNat]

def k3_chk47 (k3_t3 : Fin k3_t3_loop.trips) (v670 : BitVec 32) : Prop :=
  (16 ∣ (k3_mult50 v670).toNat) ∧
  (∀ a, (k3_off99 k3_t3 v670) a + S1x16.size a ≤ S128x128.size a) ∧
  (∀ a, (k3_off100 v670) a + S16.size a ≤ S512.size a)
instance k3_chk47.dec : ∀ (k3_t3 : Fin k3_t3_loop.trips) (v670 : BitVec 32), Decidable (k3_chk47 k3_t3 v670) := fun k3_t3 v670 => decidable_of_iff' _ (Iff.of_eq (k3_chk47.eq_1 k3_t3 v670))
theorem k3_mult50_dvd : ∀ (k3_t3 : Fin k3_t3_loop.trips) (v670 : BitVec 32) (k3_hw47 : k3_chk47 k3_t3 v670), 16 ∣ (k3_mult50 v670).toNat := fun k3_t3 v670 k3_hw47 => k3_hw47.1
theorem k3_off99_inb : ∀ (k3_t3 : Fin k3_t3_loop.trips) (v670 : BitVec 32) (k3_hw47 : k3_chk47 k3_t3 v670), ∀ a, (k3_off99 k3_t3 v670) a + S1x16.size a ≤ S128x128.size a := fun k3_t3 v670 k3_hw47 => k3_hw47.2.1
theorem k3_off100_inb : ∀ (k3_t3 : Fin k3_t3_loop.trips) (v670 : BitVec 32) (k3_hw47 : k3_chk47 k3_t3 v670), ∀ a, (k3_off100 v670) a + S16.size a ≤ S512.size a := fun k3_t3 v670 k3_hw47 => k3_hw47.2.2

def k3_mult51 (v699 : BitVec 32) : BitVec 32 :=
  let c127_i32_260 : BitVec 32 := 127#32
  let v700 : BitVec 32 := Scalar.andi v699 c127_i32_260
  let c112_i32_261 : BitVec 32 := 112#32
  let v701 : BitVec 32 := Scalar.andi v700 c112_i32_261
  v701

def k3_off101 (k3_t3 : Fin k3_t3_loop.trips) (v699 : BitVec 32) : Fin 2 → Nat :=
  let c0_i32_89 : BitVec 32 := 0#32
  let c1_i32_91 : BitVec 32 := 1#32
  let arg15 : BitVec 32 := Scf.iv c0_i32_89 c1_i32_91 k3_t3
  let c16_i32_258 : BitVec 32 := 16#32
  let v696 : BitVec 32 := Scalar.muli arg15 c16_i32_258
  let c15_i32_259 : BitVec 32 := 15#32
  let v697 : BitVec 32 := Scalar.addi v696 c15_i32_259
  let v703 : Index := Scalar.indexCast v697
  let c127_i32_260 : BitVec 32 := 127#32
  let v700 : BitVec 32 := Scalar.andi v699 c127_i32_260
  let c112_i32_261 : BitVec 32 := 112#32
  let v701 : BitVec 32 := Scalar.andi v700 c112_i32_261
  let v702 : BitVec 32 := v701
  let v704 : Index := Scalar.indexCast v702
  ![v703.toNat, v704.toNat]
def k3_off102 (v699 : BitVec 32) : Fin 1 → Nat :=
  let c480_i32 : BitVec 32 := 480#32
  let c127_i32_260 : BitVec 32 := 127#32
  let v700 : BitVec 32 := Scalar.andi v699 c127_i32_260
  let c15_i32_264 : BitVec 32 := 15#32
  let v713 : BitVec 32 := Scalar.andi v700 c15_i32_264
  let c15_i32_265 : BitVec 32 := 15#32
  let v714 : BitVec 32 := Scalar.subi v713 c15_i32_265
  let c16_i32_266 : BitVec 32 := 16#32
  let v715 : BitVec 32 := Scalar.addi v714 c16_i32_266
  let c15_i32_267 : BitVec 32 := 15#32
  let v716 : BitVec 32 := Scalar.andi v715 c15_i32_267
  let v717 : BitVec 32 := Scalar.addi c480_i32 v716
  let v718 : Index := Scalar.indexCast v717
  ![v718.toNat]

def k3_chk48 (k3_t3 : Fin k3_t3_loop.trips) (v699 : BitVec 32) : Prop :=
  (16 ∣ (k3_mult51 v699).toNat) ∧
  (∀ a, (k3_off101 k3_t3 v699) a + S1x16.size a ≤ S128x128.size a) ∧
  (∀ a, (k3_off102 v699) a + S16.size a ≤ S512.size a)
instance k3_chk48.dec : ∀ (k3_t3 : Fin k3_t3_loop.trips) (v699 : BitVec 32), Decidable (k3_chk48 k3_t3 v699) := fun k3_t3 v699 => decidable_of_iff' _ (Iff.of_eq (k3_chk48.eq_1 k3_t3 v699))
theorem k3_mult51_dvd : ∀ (k3_t3 : Fin k3_t3_loop.trips) (v699 : BitVec 32) (k3_hw48 : k3_chk48 k3_t3 v699), 16 ∣ (k3_mult51 v699).toNat := fun k3_t3 v699 k3_hw48 => k3_hw48.1
theorem k3_off101_inb : ∀ (k3_t3 : Fin k3_t3_loop.trips) (v699 : BitVec 32) (k3_hw48 : k3_chk48 k3_t3 v699), ∀ a, (k3_off101 k3_t3 v699) a + S1x16.size a ≤ S128x128.size a := fun k3_t3 v699 k3_hw48 => k3_hw48.2.1
theorem k3_off102_inb : ∀ (k3_t3 : Fin k3_t3_loop.trips) (v699 : BitVec 32) (k3_hw48 : k3_chk48 k3_t3 v699), ∀ a, (k3_off102 v699) a + S16.size a ≤ S512.size a := fun k3_t3 v699 k3_hw48 => k3_hw48.2.2

def k3_off103 (k3_t3 : Fin k3_t3_loop.trips) : Fin 1 → Nat :=
  let c256_i32_101 : BitVec 32 := 256#32
  let c0_i32_89 : BitVec 32 := 0#32
  let c1_i32_91 : BitVec 32 := 1#32
  let arg15 : BitVec 32 := Scf.iv c0_i32_89 c1_i32_91 k3_t3
  let c16_i32 : BitVec 32 := 16#32
  let v252 : BitVec 32 := Scalar.muli arg15 c16_i32
  let v253 : BitVec 32 := Scalar.addi c256_i32_101 v252
  let v254 : BitVec 32 := v253
  let v725 : Index := Scalar.indexCast v254
  ![v725.toNat]
@[reducible] def k3_t4_loop : Scf.Loop 32 :=
  let c0_i32_97 : BitVec 32 := 0#32
  let c8_i32_98 : BitVec 32 := 8#32
  let v250 : BitVec 32 := Scalar.addi c0_i32_97 c8_i32_98
  let c1_i32_99 : BitVec 32 := 1#32
  ⟨c0_i32_97, v250, c1_i32_99⟩
def k3_mult52 (k3_t4 : Fin k3_t4_loop.trips) : BitVec 32 :=
  let c384_i32_101 : BitVec 32 := 384#32
  let c0_i32_97 : BitVec 32 := 0#32
  let c1_i32_99 : BitVec 32 := 1#32
  let arg15 : BitVec 32 := Scf.iv c0_i32_97 c1_i32_99 k3_t4
  let c16_i32 : BitVec 32 := 16#32
  let v252 : BitVec 32 := Scalar.muli arg15 c16_i32
  let v253 : BitVec 32 := Scalar.addi c384_i32_101 v252
  v253
def k3_off104 (k3_t4 : Fin k3_t4_loop.trips) : Fin 1 → Nat :=
  let c384_i32_101 : BitVec 32 := 384#32
  let c0_i32_97 : BitVec 32 := 0#32
  let c1_i32_99 : BitVec 32 := 1#32
  let arg15 : BitVec 32 := Scf.iv c0_i32_97 c1_i32_99 k3_t4
  let c16_i32 : BitVec 32 := 16#32
  let v252 : BitVec 32 := Scalar.muli arg15 c16_i32
  let v253 : BitVec 32 := Scalar.addi c384_i32_101 v252
  let v254 : BitVec 32 := v253
  let v255 : Index := Scalar.indexCast v254
  ![v255.toNat]
def k3_mult53 (v264 : BitVec 32) : BitVec 32 :=
  let c127_i32 : BitVec 32 := 127#32
  let v265 : BitVec 32 := Scalar.andi v264 c127_i32
  let c112_i32 : BitVec 32 := 112#32
  let v266 : BitVec 32 := Scalar.andi v265 c112_i32
  v266

def k3_off105 (k3_t4 : Fin k3_t4_loop.trips) (v264 : BitVec 32) : Fin 2 → Nat :=
  let c0_i32_97 : BitVec 32 := 0#32
  let c1_i32_99 : BitVec 32 := 1#32
  let arg15 : BitVec 32 := Scf.iv c0_i32_97 c1_i32_99 k3_t4
  let c16_i32_102 : BitVec 32 := 16#32
  let v261 : BitVec 32 := Scalar.muli arg15 c16_i32_102
  let c0_i32_103 : BitVec 32 := 0#32
  let v262 : BitVec 32 := Scalar.addi v261 c0_i32_103
  let v268 : Index := Scalar.indexCast v262
  let c127_i32 : BitVec 32 := 127#32
  let v265 : BitVec 32 := Scalar.andi v264 c127_i32
  let c112_i32 : BitVec 32 := 112#32
  let v266 : BitVec 32 := Scalar.andi v265 c112_i32
  let v267 : BitVec 32 := v266
  let v269 : Index := Scalar.indexCast v267
  ![v268.toNat, v269.toNat]
def k3_off106 (v264 : BitVec 32) : Fin 1 → Nat :=
  let c0_i32_109 : BitVec 32 := 0#32
  let c127_i32 : BitVec 32 := 127#32
  let v265 : BitVec 32 := Scalar.andi v264 c127_i32
  let c15_i32 : BitVec 32 := 15#32
  let v278 : BitVec 32 := Scalar.andi v265 c15_i32
  let c0_i32_106 : BitVec 32 := 0#32
  let v279 : BitVec 32 := Scalar.subi v278 c0_i32_106
  let c16_i32_107 : BitVec 32 := 16#32
  let v280 : BitVec 32 := Scalar.addi v279 c16_i32_107
  let c15_i32_108 : BitVec 32 := 15#32
  let v281 : BitVec 32 := Scalar.andi v280 c15_i32_108
  let v282 : BitVec 32 := Scalar.addi c0_i32_109 v281
  let v283 : Index := Scalar.indexCast v282
  ![v283.toNat]

def k3_chk49 (k3_t4 : Fin k3_t4_loop.trips) (v264 : BitVec 32) : Prop :=
  (16 ∣ (k3_mult53 v264).toNat) ∧
  (∀ a, (k3_off105 k3_t4 v264) a + S1x16.size a ≤ S128x128.size a) ∧
  (∀ a, (k3_off106 v264) a + S16.size a ≤ S512.size a)
instance k3_chk49.dec : ∀ (k3_t4 : Fin k3_t4_loop.trips) (v264 : BitVec 32), Decidable (k3_chk49 k3_t4 v264) := fun k3_t4 v264 => decidable_of_iff' _ (Iff.of_eq (k3_chk49.eq_1 k3_t4 v264))
theorem k3_mult53_dvd : ∀ (k3_t4 : Fin k3_t4_loop.trips) (v264 : BitVec 32) (k3_hw49 : k3_chk49 k3_t4 v264), 16 ∣ (k3_mult53 v264).toNat := fun k3_t4 v264 k3_hw49 => k3_hw49.1
theorem k3_off105_inb : ∀ (k3_t4 : Fin k3_t4_loop.trips) (v264 : BitVec 32) (k3_hw49 : k3_chk49 k3_t4 v264), ∀ a, (k3_off105 k3_t4 v264) a + S1x16.size a ≤ S128x128.size a := fun k3_t4 v264 k3_hw49 => k3_hw49.2.1
theorem k3_off106_inb : ∀ (k3_t4 : Fin k3_t4_loop.trips) (v264 : BitVec 32) (k3_hw49 : k3_chk49 k3_t4 v264), ∀ a, (k3_off106 v264) a + S16.size a ≤ S512.size a := fun k3_t4 v264 k3_hw49 => k3_hw49.2.2

def k3_mult54 (v293 : BitVec 32) : BitVec 32 :=
  let c127_i32_113 : BitVec 32 := 127#32
  let v294 : BitVec 32 := Scalar.andi v293 c127_i32_113
  let c112_i32_114 : BitVec 32 := 112#32
  let v295 : BitVec 32 := Scalar.andi v294 c112_i32_114
  v295

def k3_off107 (k3_t4 : Fin k3_t4_loop.trips) (v293 : BitVec 32) : Fin 2 → Nat :=
  let c0_i32_97 : BitVec 32 := 0#32
  let c1_i32_99 : BitVec 32 := 1#32
  let arg15 : BitVec 32 := Scf.iv c0_i32_97 c1_i32_99 k3_t4
  let c16_i32_111 : BitVec 32 := 16#32
  let v290 : BitVec 32 := Scalar.muli arg15 c16_i32_111
  let c1_i32_112 : BitVec 32 := 1#32
  let v291 : BitVec 32 := Scalar.addi v290 c1_i32_112
  let v297 : Index := Scalar.indexCast v291
  let c127_i32_113 : BitVec 32 := 127#32
  let v294 : BitVec 32 := Scalar.andi v293 c127_i32_113
  let c112_i32_114 : BitVec 32 := 112#32
  let v295 : BitVec 32 := Scalar.andi v294 c112_i32_114
  let v296 : BitVec 32 := v295
  let v298 : Index := Scalar.indexCast v296
  ![v297.toNat, v298.toNat]
def k3_off108 (v293 : BitVec 32) : Fin 1 → Nat :=
  let c32_i32 : BitVec 32 := 32#32
  let c127_i32_113 : BitVec 32 := 127#32
  let v294 : BitVec 32 := Scalar.andi v293 c127_i32_113
  let c15_i32_117 : BitVec 32 := 15#32
  let v307 : BitVec 32 := Scalar.andi v294 c15_i32_117
  let c1_i32_118 : BitVec 32 := 1#32
  let v308 : BitVec 32 := Scalar.subi v307 c1_i32_118
  let c16_i32_119 : BitVec 32 := 16#32
  let v309 : BitVec 32 := Scalar.addi v308 c16_i32_119
  let c15_i32_120 : BitVec 32 := 15#32
  let v310 : BitVec 32 := Scalar.andi v309 c15_i32_120
  let v311 : BitVec 32 := Scalar.addi c32_i32 v310
  let v312 : Index := Scalar.indexCast v311
  ![v312.toNat]

def k3_chk50 (k3_t4 : Fin k3_t4_loop.trips) (v293 : BitVec 32) : Prop :=
  (16 ∣ (k3_mult54 v293).toNat) ∧
  (∀ a, (k3_off107 k3_t4 v293) a + S1x16.size a ≤ S128x128.size a) ∧
  (∀ a, (k3_off108 v293) a + S16.size a ≤ S512.size a)
instance k3_chk50.dec : ∀ (k3_t4 : Fin k3_t4_loop.trips) (v293 : BitVec 32), Decidable (k3_chk50 k3_t4 v293) := fun k3_t4 v293 => decidable_of_iff' _ (Iff.of_eq (k3_chk50.eq_1 k3_t4 v293))
theorem k3_mult54_dvd : ∀ (k3_t4 : Fin k3_t4_loop.trips) (v293 : BitVec 32) (k3_hw50 : k3_chk50 k3_t4 v293), 16 ∣ (k3_mult54 v293).toNat := fun k3_t4 v293 k3_hw50 => k3_hw50.1
theorem k3_off107_inb : ∀ (k3_t4 : Fin k3_t4_loop.trips) (v293 : BitVec 32) (k3_hw50 : k3_chk50 k3_t4 v293), ∀ a, (k3_off107 k3_t4 v293) a + S1x16.size a ≤ S128x128.size a := fun k3_t4 v293 k3_hw50 => k3_hw50.2.1
theorem k3_off108_inb : ∀ (k3_t4 : Fin k3_t4_loop.trips) (v293 : BitVec 32) (k3_hw50 : k3_chk50 k3_t4 v293), ∀ a, (k3_off108 v293) a + S16.size a ≤ S512.size a := fun k3_t4 v293 k3_hw50 => k3_hw50.2.2

def k3_mult55 (v322 : BitVec 32) : BitVec 32 :=
  let c127_i32_124 : BitVec 32 := 127#32
  let v323 : BitVec 32 := Scalar.andi v322 c127_i32_124
  let c112_i32_125 : BitVec 32 := 112#32
  let v324 : BitVec 32 := Scalar.andi v323 c112_i32_125
  v324

def k3_off109 (k3_t4 : Fin k3_t4_loop.trips) (v322 : BitVec 32) : Fin 2 → Nat :=
  let c0_i32_97 : BitVec 32 := 0#32
  let c1_i32_99 : BitVec 32 := 1#32
  let arg15 : BitVec 32 := Scf.iv c0_i32_97 c1_i32_99 k3_t4
  let c16_i32_122 : BitVec 32 := 16#32
  let v319 : BitVec 32 := Scalar.muli arg15 c16_i32_122
  let c2_i32_123 : BitVec 32 := 2#32
  let v320 : BitVec 32 := Scalar.addi v319 c2_i32_123
  let v326 : Index := Scalar.indexCast v320
  let c127_i32_124 : BitVec 32 := 127#32
  let v323 : BitVec 32 := Scalar.andi v322 c127_i32_124
  let c112_i32_125 : BitVec 32 := 112#32
  let v324 : BitVec 32 := Scalar.andi v323 c112_i32_125
  let v325 : BitVec 32 := v324
  let v327 : Index := Scalar.indexCast v325
  ![v326.toNat, v327.toNat]
def k3_off110 (v322 : BitVec 32) : Fin 1 → Nat :=
  let c64_i32 : BitVec 32 := 64#32
  let c127_i32_124 : BitVec 32 := 127#32
  let v323 : BitVec 32 := Scalar.andi v322 c127_i32_124
  let c15_i32_128 : BitVec 32 := 15#32
  let v336 : BitVec 32 := Scalar.andi v323 c15_i32_128
  let c2_i32_129 : BitVec 32 := 2#32
  let v337 : BitVec 32 := Scalar.subi v336 c2_i32_129
  let c16_i32_130 : BitVec 32 := 16#32
  let v338 : BitVec 32 := Scalar.addi v337 c16_i32_130
  let c15_i32_131 : BitVec 32 := 15#32
  let v339 : BitVec 32 := Scalar.andi v338 c15_i32_131
  let v340 : BitVec 32 := Scalar.addi c64_i32 v339
  let v341 : Index := Scalar.indexCast v340
  ![v341.toNat]

def k3_chk51 (k3_t4 : Fin k3_t4_loop.trips) (v322 : BitVec 32) : Prop :=
  (16 ∣ (k3_mult55 v322).toNat) ∧
  (∀ a, (k3_off109 k3_t4 v322) a + S1x16.size a ≤ S128x128.size a) ∧
  (∀ a, (k3_off110 v322) a + S16.size a ≤ S512.size a)
instance k3_chk51.dec : ∀ (k3_t4 : Fin k3_t4_loop.trips) (v322 : BitVec 32), Decidable (k3_chk51 k3_t4 v322) := fun k3_t4 v322 => decidable_of_iff' _ (Iff.of_eq (k3_chk51.eq_1 k3_t4 v322))
theorem k3_mult55_dvd : ∀ (k3_t4 : Fin k3_t4_loop.trips) (v322 : BitVec 32) (k3_hw51 : k3_chk51 k3_t4 v322), 16 ∣ (k3_mult55 v322).toNat := fun k3_t4 v322 k3_hw51 => k3_hw51.1
theorem k3_off109_inb : ∀ (k3_t4 : Fin k3_t4_loop.trips) (v322 : BitVec 32) (k3_hw51 : k3_chk51 k3_t4 v322), ∀ a, (k3_off109 k3_t4 v322) a + S1x16.size a ≤ S128x128.size a := fun k3_t4 v322 k3_hw51 => k3_hw51.2.1
theorem k3_off110_inb : ∀ (k3_t4 : Fin k3_t4_loop.trips) (v322 : BitVec 32) (k3_hw51 : k3_chk51 k3_t4 v322), ∀ a, (k3_off110 v322) a + S16.size a ≤ S512.size a := fun k3_t4 v322 k3_hw51 => k3_hw51.2.2

def k3_mult56 (v351 : BitVec 32) : BitVec 32 :=
  let c127_i32_134 : BitVec 32 := 127#32
  let v352 : BitVec 32 := Scalar.andi v351 c127_i32_134
  let c112_i32_135 : BitVec 32 := 112#32
  let v353 : BitVec 32 := Scalar.andi v352 c112_i32_135
  v353

def k3_off111 (k3_t4 : Fin k3_t4_loop.trips) (v351 : BitVec 32) : Fin 2 → Nat :=
  let c0_i32_97 : BitVec 32 := 0#32
  let c1_i32_99 : BitVec 32 := 1#32
  let arg15 : BitVec 32 := Scf.iv c0_i32_97 c1_i32_99 k3_t4
  let c16_i32_133 : BitVec 32 := 16#32
  let v348 : BitVec 32 := Scalar.muli arg15 c16_i32_133
  let c3_i32 : BitVec 32 := 3#32
  let v349 : BitVec 32 := Scalar.addi v348 c3_i32
  let v355 : Index := Scalar.indexCast v349
  let c127_i32_134 : BitVec 32 := 127#32
  let v352 : BitVec 32 := Scalar.andi v351 c127_i32_134
  let c112_i32_135 : BitVec 32 := 112#32
  let v353 : BitVec 32 := Scalar.andi v352 c112_i32_135
  let v354 : BitVec 32 := v353
  let v356 : Index := Scalar.indexCast v354
  ![v355.toNat, v356.toNat]
def k3_off112 (v351 : BitVec 32) : Fin 1 → Nat :=
  let c96_i32 : BitVec 32 := 96#32
  let c127_i32_134 : BitVec 32 := 127#32
  let v352 : BitVec 32 := Scalar.andi v351 c127_i32_134
  let c15_i32_138 : BitVec 32 := 15#32
  let v365 : BitVec 32 := Scalar.andi v352 c15_i32_138
  let c3_i32_139 : BitVec 32 := 3#32
  let v366 : BitVec 32 := Scalar.subi v365 c3_i32_139
  let c16_i32_140 : BitVec 32 := 16#32
  let v367 : BitVec 32 := Scalar.addi v366 c16_i32_140
  let c15_i32_141 : BitVec 32 := 15#32
  let v368 : BitVec 32 := Scalar.andi v367 c15_i32_141
  let v369 : BitVec 32 := Scalar.addi c96_i32 v368
  let v370 : Index := Scalar.indexCast v369
  ![v370.toNat]

def k3_chk52 (k3_t4 : Fin k3_t4_loop.trips) (v351 : BitVec 32) : Prop :=
  (16 ∣ (k3_mult56 v351).toNat) ∧
  (∀ a, (k3_off111 k3_t4 v351) a + S1x16.size a ≤ S128x128.size a) ∧
  (∀ a, (k3_off112 v351) a + S16.size a ≤ S512.size a)
instance k3_chk52.dec : ∀ (k3_t4 : Fin k3_t4_loop.trips) (v351 : BitVec 32), Decidable (k3_chk52 k3_t4 v351) := fun k3_t4 v351 => decidable_of_iff' _ (Iff.of_eq (k3_chk52.eq_1 k3_t4 v351))
theorem k3_mult56_dvd : ∀ (k3_t4 : Fin k3_t4_loop.trips) (v351 : BitVec 32) (k3_hw52 : k3_chk52 k3_t4 v351), 16 ∣ (k3_mult56 v351).toNat := fun k3_t4 v351 k3_hw52 => k3_hw52.1
theorem k3_off111_inb : ∀ (k3_t4 : Fin k3_t4_loop.trips) (v351 : BitVec 32) (k3_hw52 : k3_chk52 k3_t4 v351), ∀ a, (k3_off111 k3_t4 v351) a + S1x16.size a ≤ S128x128.size a := fun k3_t4 v351 k3_hw52 => k3_hw52.2.1
theorem k3_off112_inb : ∀ (k3_t4 : Fin k3_t4_loop.trips) (v351 : BitVec 32) (k3_hw52 : k3_chk52 k3_t4 v351), ∀ a, (k3_off112 v351) a + S16.size a ≤ S512.size a := fun k3_t4 v351 k3_hw52 => k3_hw52.2.2

def k3_mult57 (v380 : BitVec 32) : BitVec 32 :=
  let c127_i32_144 : BitVec 32 := 127#32
  let v381 : BitVec 32 := Scalar.andi v380 c127_i32_144
  let c112_i32_145 : BitVec 32 := 112#32
  let v382 : BitVec 32 := Scalar.andi v381 c112_i32_145
  v382

def k3_off113 (k3_t4 : Fin k3_t4_loop.trips) (v380 : BitVec 32) : Fin 2 → Nat :=
  let c0_i32_97 : BitVec 32 := 0#32
  let c1_i32_99 : BitVec 32 := 1#32
  let arg15 : BitVec 32 := Scf.iv c0_i32_97 c1_i32_99 k3_t4
  let c16_i32_143 : BitVec 32 := 16#32
  let v377 : BitVec 32 := Scalar.muli arg15 c16_i32_143
  let c4_i32 : BitVec 32 := 4#32
  let v378 : BitVec 32 := Scalar.addi v377 c4_i32
  let v384 : Index := Scalar.indexCast v378
  let c127_i32_144 : BitVec 32 := 127#32
  let v381 : BitVec 32 := Scalar.andi v380 c127_i32_144
  let c112_i32_145 : BitVec 32 := 112#32
  let v382 : BitVec 32 := Scalar.andi v381 c112_i32_145
  let v383 : BitVec 32 := v382
  let v385 : Index := Scalar.indexCast v383
  ![v384.toNat, v385.toNat]
def k3_off114 (v380 : BitVec 32) : Fin 1 → Nat :=
  let c128_i32_152 : BitVec 32 := 128#32
  let c127_i32_144 : BitVec 32 := 127#32
  let v381 : BitVec 32 := Scalar.andi v380 c127_i32_144
  let c15_i32_148 : BitVec 32 := 15#32
  let v394 : BitVec 32 := Scalar.andi v381 c15_i32_148
  let c4_i32_149 : BitVec 32 := 4#32
  let v395 : BitVec 32 := Scalar.subi v394 c4_i32_149
  let c16_i32_150 : BitVec 32 := 16#32
  let v396 : BitVec 32 := Scalar.addi v395 c16_i32_150
  let c15_i32_151 : BitVec 32 := 15#32
  let v397 : BitVec 32 := Scalar.andi v396 c15_i32_151
  let v398 : BitVec 32 := Scalar.addi c128_i32_152 v397
  let v399 : Index := Scalar.indexCast v398
  ![v399.toNat]

def k3_chk53 (k3_t4 : Fin k3_t4_loop.trips) (v380 : BitVec 32) : Prop :=
  (16 ∣ (k3_mult57 v380).toNat) ∧
  (∀ a, (k3_off113 k3_t4 v380) a + S1x16.size a ≤ S128x128.size a) ∧
  (∀ a, (k3_off114 v380) a + S16.size a ≤ S512.size a)
instance k3_chk53.dec : ∀ (k3_t4 : Fin k3_t4_loop.trips) (v380 : BitVec 32), Decidable (k3_chk53 k3_t4 v380) := fun k3_t4 v380 => decidable_of_iff' _ (Iff.of_eq (k3_chk53.eq_1 k3_t4 v380))
theorem k3_mult57_dvd : ∀ (k3_t4 : Fin k3_t4_loop.trips) (v380 : BitVec 32) (k3_hw53 : k3_chk53 k3_t4 v380), 16 ∣ (k3_mult57 v380).toNat := fun k3_t4 v380 k3_hw53 => k3_hw53.1
theorem k3_off113_inb : ∀ (k3_t4 : Fin k3_t4_loop.trips) (v380 : BitVec 32) (k3_hw53 : k3_chk53 k3_t4 v380), ∀ a, (k3_off113 k3_t4 v380) a + S1x16.size a ≤ S128x128.size a := fun k3_t4 v380 k3_hw53 => k3_hw53.2.1
theorem k3_off114_inb : ∀ (k3_t4 : Fin k3_t4_loop.trips) (v380 : BitVec 32) (k3_hw53 : k3_chk53 k3_t4 v380), ∀ a, (k3_off114 v380) a + S16.size a ≤ S512.size a := fun k3_t4 v380 k3_hw53 => k3_hw53.2.2

def k3_mult58 (v409 : BitVec 32) : BitVec 32 :=
  let c127_i32_155 : BitVec 32 := 127#32
  let v410 : BitVec 32 := Scalar.andi v409 c127_i32_155
  let c112_i32_156 : BitVec 32 := 112#32
  let v411 : BitVec 32 := Scalar.andi v410 c112_i32_156
  v411

def k3_off115 (k3_t4 : Fin k3_t4_loop.trips) (v409 : BitVec 32) : Fin 2 → Nat :=
  let c0_i32_97 : BitVec 32 := 0#32
  let c1_i32_99 : BitVec 32 := 1#32
  let arg15 : BitVec 32 := Scf.iv c0_i32_97 c1_i32_99 k3_t4
  let c16_i32_154 : BitVec 32 := 16#32
  let v406 : BitVec 32 := Scalar.muli arg15 c16_i32_154
  let c5_i32 : BitVec 32 := 5#32
  let v407 : BitVec 32 := Scalar.addi v406 c5_i32
  let v413 : Index := Scalar.indexCast v407
  let c127_i32_155 : BitVec 32 := 127#32
  let v410 : BitVec 32 := Scalar.andi v409 c127_i32_155
  let c112_i32_156 : BitVec 32 := 112#32
  let v411 : BitVec 32 := Scalar.andi v410 c112_i32_156
  let v412 : BitVec 32 := v411
  let v414 : Index := Scalar.indexCast v412
  ![v413.toNat, v414.toNat]
def k3_off116 (v409 : BitVec 32) : Fin 1 → Nat :=
  let c160_i32 : BitVec 32 := 160#32
  let c127_i32_155 : BitVec 32 := 127#32
  let v410 : BitVec 32 := Scalar.andi v409 c127_i32_155
  let c15_i32_159 : BitVec 32 := 15#32
  let v423 : BitVec 32 := Scalar.andi v410 c15_i32_159
  let c5_i32_160 : BitVec 32 := 5#32
  let v424 : BitVec 32 := Scalar.subi v423 c5_i32_160
  let c16_i32_161 : BitVec 32 := 16#32
  let v425 : BitVec 32 := Scalar.addi v424 c16_i32_161
  let c15_i32_162 : BitVec 32 := 15#32
  let v426 : BitVec 32 := Scalar.andi v425 c15_i32_162
  let v427 : BitVec 32 := Scalar.addi c160_i32 v426
  let v428 : Index := Scalar.indexCast v427
  ![v428.toNat]

def k3_chk54 (k3_t4 : Fin k3_t4_loop.trips) (v409 : BitVec 32) : Prop :=
  (16 ∣ (k3_mult58 v409).toNat) ∧
  (∀ a, (k3_off115 k3_t4 v409) a + S1x16.size a ≤ S128x128.size a) ∧
  (∀ a, (k3_off116 v409) a + S16.size a ≤ S512.size a)
instance k3_chk54.dec : ∀ (k3_t4 : Fin k3_t4_loop.trips) (v409 : BitVec 32), Decidable (k3_chk54 k3_t4 v409) := fun k3_t4 v409 => decidable_of_iff' _ (Iff.of_eq (k3_chk54.eq_1 k3_t4 v409))
theorem k3_mult58_dvd : ∀ (k3_t4 : Fin k3_t4_loop.trips) (v409 : BitVec 32) (k3_hw54 : k3_chk54 k3_t4 v409), 16 ∣ (k3_mult58 v409).toNat := fun k3_t4 v409 k3_hw54 => k3_hw54.1
theorem k3_off115_inb : ∀ (k3_t4 : Fin k3_t4_loop.trips) (v409 : BitVec 32) (k3_hw54 : k3_chk54 k3_t4 v409), ∀ a, (k3_off115 k3_t4 v409) a + S1x16.size a ≤ S128x128.size a := fun k3_t4 v409 k3_hw54 => k3_hw54.2.1
theorem k3_off116_inb : ∀ (k3_t4 : Fin k3_t4_loop.trips) (v409 : BitVec 32) (k3_hw54 : k3_chk54 k3_t4 v409), ∀ a, (k3_off116 v409) a + S16.size a ≤ S512.size a := fun k3_t4 v409 k3_hw54 => k3_hw54.2.2

def k3_mult59 (v438 : BitVec 32) : BitVec 32 :=
  let c127_i32_165 : BitVec 32 := 127#32
  let v439 : BitVec 32 := Scalar.andi v438 c127_i32_165
  let c112_i32_166 : BitVec 32 := 112#32
  let v440 : BitVec 32 := Scalar.andi v439 c112_i32_166
  v440

def k3_off117 (k3_t4 : Fin k3_t4_loop.trips) (v438 : BitVec 32) : Fin 2 → Nat :=
  let c0_i32_97 : BitVec 32 := 0#32
  let c1_i32_99 : BitVec 32 := 1#32
  let arg15 : BitVec 32 := Scf.iv c0_i32_97 c1_i32_99 k3_t4
  let c16_i32_164 : BitVec 32 := 16#32
  let v435 : BitVec 32 := Scalar.muli arg15 c16_i32_164
  let c6_i32 : BitVec 32 := 6#32
  let v436 : BitVec 32 := Scalar.addi v435 c6_i32
  let v442 : Index := Scalar.indexCast v436
  let c127_i32_165 : BitVec 32 := 127#32
  let v439 : BitVec 32 := Scalar.andi v438 c127_i32_165
  let c112_i32_166 : BitVec 32 := 112#32
  let v440 : BitVec 32 := Scalar.andi v439 c112_i32_166
  let v441 : BitVec 32 := v440
  let v443 : Index := Scalar.indexCast v441
  ![v442.toNat, v443.toNat]
def k3_off118 (v438 : BitVec 32) : Fin 1 → Nat :=
  let c192_i32 : BitVec 32 := 192#32
  let c127_i32_165 : BitVec 32 := 127#32
  let v439 : BitVec 32 := Scalar.andi v438 c127_i32_165
  let c15_i32_169 : BitVec 32 := 15#32
  let v452 : BitVec 32 := Scalar.andi v439 c15_i32_169
  let c6_i32_170 : BitVec 32 := 6#32
  let v453 : BitVec 32 := Scalar.subi v452 c6_i32_170
  let c16_i32_171 : BitVec 32 := 16#32
  let v454 : BitVec 32 := Scalar.addi v453 c16_i32_171
  let c15_i32_172 : BitVec 32 := 15#32
  let v455 : BitVec 32 := Scalar.andi v454 c15_i32_172
  let v456 : BitVec 32 := Scalar.addi c192_i32 v455
  let v457 : Index := Scalar.indexCast v456
  ![v457.toNat]

def k3_chk55 (k3_t4 : Fin k3_t4_loop.trips) (v438 : BitVec 32) : Prop :=
  (16 ∣ (k3_mult59 v438).toNat) ∧
  (∀ a, (k3_off117 k3_t4 v438) a + S1x16.size a ≤ S128x128.size a) ∧
  (∀ a, (k3_off118 v438) a + S16.size a ≤ S512.size a)
instance k3_chk55.dec : ∀ (k3_t4 : Fin k3_t4_loop.trips) (v438 : BitVec 32), Decidable (k3_chk55 k3_t4 v438) := fun k3_t4 v438 => decidable_of_iff' _ (Iff.of_eq (k3_chk55.eq_1 k3_t4 v438))
theorem k3_mult59_dvd : ∀ (k3_t4 : Fin k3_t4_loop.trips) (v438 : BitVec 32) (k3_hw55 : k3_chk55 k3_t4 v438), 16 ∣ (k3_mult59 v438).toNat := fun k3_t4 v438 k3_hw55 => k3_hw55.1
theorem k3_off117_inb : ∀ (k3_t4 : Fin k3_t4_loop.trips) (v438 : BitVec 32) (k3_hw55 : k3_chk55 k3_t4 v438), ∀ a, (k3_off117 k3_t4 v438) a + S1x16.size a ≤ S128x128.size a := fun k3_t4 v438 k3_hw55 => k3_hw55.2.1
theorem k3_off118_inb : ∀ (k3_t4 : Fin k3_t4_loop.trips) (v438 : BitVec 32) (k3_hw55 : k3_chk55 k3_t4 v438), ∀ a, (k3_off118 v438) a + S16.size a ≤ S512.size a := fun k3_t4 v438 k3_hw55 => k3_hw55.2.2

def k3_mult60 (v467 : BitVec 32) : BitVec 32 :=
  let c127_i32_176 : BitVec 32 := 127#32
  let v468 : BitVec 32 := Scalar.andi v467 c127_i32_176
  let c112_i32_177 : BitVec 32 := 112#32
  let v469 : BitVec 32 := Scalar.andi v468 c112_i32_177
  v469

def k3_off119 (k3_t4 : Fin k3_t4_loop.trips) (v467 : BitVec 32) : Fin 2 → Nat :=
  let c0_i32_97 : BitVec 32 := 0#32
  let c1_i32_99 : BitVec 32 := 1#32
  let arg15 : BitVec 32 := Scf.iv c0_i32_97 c1_i32_99 k3_t4
  let c16_i32_174 : BitVec 32 := 16#32
  let v464 : BitVec 32 := Scalar.muli arg15 c16_i32_174
  let c7_i32_175 : BitVec 32 := 7#32
  let v465 : BitVec 32 := Scalar.addi v464 c7_i32_175
  let v471 : Index := Scalar.indexCast v465
  let c127_i32_176 : BitVec 32 := 127#32
  let v468 : BitVec 32 := Scalar.andi v467 c127_i32_176
  let c112_i32_177 : BitVec 32 := 112#32
  let v469 : BitVec 32 := Scalar.andi v468 c112_i32_177
  let v470 : BitVec 32 := v469
  let v472 : Index := Scalar.indexCast v470
  ![v471.toNat, v472.toNat]
def k3_off120 (v467 : BitVec 32) : Fin 1 → Nat :=
  let c224_i32 : BitVec 32 := 224#32
  let c127_i32_176 : BitVec 32 := 127#32
  let v468 : BitVec 32 := Scalar.andi v467 c127_i32_176
  let c15_i32_180 : BitVec 32 := 15#32
  let v481 : BitVec 32 := Scalar.andi v468 c15_i32_180
  let c7_i32_181 : BitVec 32 := 7#32
  let v482 : BitVec 32 := Scalar.subi v481 c7_i32_181
  let c16_i32_182 : BitVec 32 := 16#32
  let v483 : BitVec 32 := Scalar.addi v482 c16_i32_182
  let c15_i32_183 : BitVec 32 := 15#32
  let v484 : BitVec 32 := Scalar.andi v483 c15_i32_183
  let v485 : BitVec 32 := Scalar.addi c224_i32 v484
  let v486 : Index := Scalar.indexCast v485
  ![v486.toNat]

def k3_chk56 (k3_t4 : Fin k3_t4_loop.trips) (v467 : BitVec 32) : Prop :=
  (16 ∣ (k3_mult60 v467).toNat) ∧
  (∀ a, (k3_off119 k3_t4 v467) a + S1x16.size a ≤ S128x128.size a) ∧
  (∀ a, (k3_off120 v467) a + S16.size a ≤ S512.size a)
instance k3_chk56.dec : ∀ (k3_t4 : Fin k3_t4_loop.trips) (v467 : BitVec 32), Decidable (k3_chk56 k3_t4 v467) := fun k3_t4 v467 => decidable_of_iff' _ (Iff.of_eq (k3_chk56.eq_1 k3_t4 v467))
theorem k3_mult60_dvd : ∀ (k3_t4 : Fin k3_t4_loop.trips) (v467 : BitVec 32) (k3_hw56 : k3_chk56 k3_t4 v467), 16 ∣ (k3_mult60 v467).toNat := fun k3_t4 v467 k3_hw56 => k3_hw56.1
theorem k3_off119_inb : ∀ (k3_t4 : Fin k3_t4_loop.trips) (v467 : BitVec 32) (k3_hw56 : k3_chk56 k3_t4 v467), ∀ a, (k3_off119 k3_t4 v467) a + S1x16.size a ≤ S128x128.size a := fun k3_t4 v467 k3_hw56 => k3_hw56.2.1
theorem k3_off120_inb : ∀ (k3_t4 : Fin k3_t4_loop.trips) (v467 : BitVec 32) (k3_hw56 : k3_chk56 k3_t4 v467), ∀ a, (k3_off120 v467) a + S16.size a ≤ S512.size a := fun k3_t4 v467 k3_hw56 => k3_hw56.2.2

def k3_mult61 (v496 : BitVec 32) : BitVec 32 :=
  let c127_i32_187 : BitVec 32 := 127#32
  let v497 : BitVec 32 := Scalar.andi v496 c127_i32_187
  let c112_i32_188 : BitVec 32 := 112#32
  let v498 : BitVec 32 := Scalar.andi v497 c112_i32_188
  v498

def k3_off121 (k3_t4 : Fin k3_t4_loop.trips) (v496 : BitVec 32) : Fin 2 → Nat :=
  let c0_i32_97 : BitVec 32 := 0#32
  let c1_i32_99 : BitVec 32 := 1#32
  let arg15 : BitVec 32 := Scf.iv c0_i32_97 c1_i32_99 k3_t4
  let c16_i32_185 : BitVec 32 := 16#32
  let v493 : BitVec 32 := Scalar.muli arg15 c16_i32_185
  let c8_i32_186 : BitVec 32 := 8#32
  let v494 : BitVec 32 := Scalar.addi v493 c8_i32_186
  let v500 : Index := Scalar.indexCast v494
  let c127_i32_187 : BitVec 32 := 127#32
  let v497 : BitVec 32 := Scalar.andi v496 c127_i32_187
  let c112_i32_188 : BitVec 32 := 112#32
  let v498 : BitVec 32 := Scalar.andi v497 c112_i32_188
  let v499 : BitVec 32 := v498
  let v501 : Index := Scalar.indexCast v499
  ![v500.toNat, v501.toNat]
def k3_off122 (v496 : BitVec 32) : Fin 1 → Nat :=
  let c256_i32_195 : BitVec 32 := 256#32
  let c127_i32_187 : BitVec 32 := 127#32
  let v497 : BitVec 32 := Scalar.andi v496 c127_i32_187
  let c15_i32_191 : BitVec 32 := 15#32
  let v510 : BitVec 32 := Scalar.andi v497 c15_i32_191
  let c8_i32_192 : BitVec 32 := 8#32
  let v511 : BitVec 32 := Scalar.subi v510 c8_i32_192
  let c16_i32_193 : BitVec 32 := 16#32
  let v512 : BitVec 32 := Scalar.addi v511 c16_i32_193
  let c15_i32_194 : BitVec 32 := 15#32
  let v513 : BitVec 32 := Scalar.andi v512 c15_i32_194
  let v514 : BitVec 32 := Scalar.addi c256_i32_195 v513
  let v515 : Index := Scalar.indexCast v514
  ![v515.toNat]

def k3_chk57 (k3_t4 : Fin k3_t4_loop.trips) (v496 : BitVec 32) : Prop :=
  (16 ∣ (k3_mult61 v496).toNat) ∧
  (∀ a, (k3_off121 k3_t4 v496) a + S1x16.size a ≤ S128x128.size a) ∧
  (∀ a, (k3_off122 v496) a + S16.size a ≤ S512.size a)
instance k3_chk57.dec : ∀ (k3_t4 : Fin k3_t4_loop.trips) (v496 : BitVec 32), Decidable (k3_chk57 k3_t4 v496) := fun k3_t4 v496 => decidable_of_iff' _ (Iff.of_eq (k3_chk57.eq_1 k3_t4 v496))
theorem k3_mult61_dvd : ∀ (k3_t4 : Fin k3_t4_loop.trips) (v496 : BitVec 32) (k3_hw57 : k3_chk57 k3_t4 v496), 16 ∣ (k3_mult61 v496).toNat := fun k3_t4 v496 k3_hw57 => k3_hw57.1
theorem k3_off121_inb : ∀ (k3_t4 : Fin k3_t4_loop.trips) (v496 : BitVec 32) (k3_hw57 : k3_chk57 k3_t4 v496), ∀ a, (k3_off121 k3_t4 v496) a + S1x16.size a ≤ S128x128.size a := fun k3_t4 v496 k3_hw57 => k3_hw57.2.1
theorem k3_off122_inb : ∀ (k3_t4 : Fin k3_t4_loop.trips) (v496 : BitVec 32) (k3_hw57 : k3_chk57 k3_t4 v496), ∀ a, (k3_off122 v496) a + S16.size a ≤ S512.size a := fun k3_t4 v496 k3_hw57 => k3_hw57.2.2

def k3_mult62 (v525 : BitVec 32) : BitVec 32 :=
  let c127_i32_198 : BitVec 32 := 127#32
  let v526 : BitVec 32 := Scalar.andi v525 c127_i32_198
  let c112_i32_199 : BitVec 32 := 112#32
  let v527 : BitVec 32 := Scalar.andi v526 c112_i32_199
  v527

def k3_off123 (k3_t4 : Fin k3_t4_loop.trips) (v525 : BitVec 32) : Fin 2 → Nat :=
  let c0_i32_97 : BitVec 32 := 0#32
  let c1_i32_99 : BitVec 32 := 1#32
  let arg15 : BitVec 32 := Scf.iv c0_i32_97 c1_i32_99 k3_t4
  let c16_i32_197 : BitVec 32 := 16#32
  let v522 : BitVec 32 := Scalar.muli arg15 c16_i32_197
  let c9_i32 : BitVec 32 := 9#32
  let v523 : BitVec 32 := Scalar.addi v522 c9_i32
  let v529 : Index := Scalar.indexCast v523
  let c127_i32_198 : BitVec 32 := 127#32
  let v526 : BitVec 32 := Scalar.andi v525 c127_i32_198
  let c112_i32_199 : BitVec 32 := 112#32
  let v527 : BitVec 32 := Scalar.andi v526 c112_i32_199
  let v528 : BitVec 32 := v527
  let v530 : Index := Scalar.indexCast v528
  ![v529.toNat, v530.toNat]
def k3_off124 (v525 : BitVec 32) : Fin 1 → Nat :=
  let c288_i32 : BitVec 32 := 288#32
  let c127_i32_198 : BitVec 32 := 127#32
  let v526 : BitVec 32 := Scalar.andi v525 c127_i32_198
  let c15_i32_202 : BitVec 32 := 15#32
  let v539 : BitVec 32 := Scalar.andi v526 c15_i32_202
  let c9_i32_203 : BitVec 32 := 9#32
  let v540 : BitVec 32 := Scalar.subi v539 c9_i32_203
  let c16_i32_204 : BitVec 32 := 16#32
  let v541 : BitVec 32 := Scalar.addi v540 c16_i32_204
  let c15_i32_205 : BitVec 32 := 15#32
  let v542 : BitVec 32 := Scalar.andi v541 c15_i32_205
  let v543 : BitVec 32 := Scalar.addi c288_i32 v542
  let v544 : Index := Scalar.indexCast v543
  ![v544.toNat]

def k3_chk58 (k3_t4 : Fin k3_t4_loop.trips) (v525 : BitVec 32) : Prop :=
  (16 ∣ (k3_mult62 v525).toNat) ∧
  (∀ a, (k3_off123 k3_t4 v525) a + S1x16.size a ≤ S128x128.size a) ∧
  (∀ a, (k3_off124 v525) a + S16.size a ≤ S512.size a)
instance k3_chk58.dec : ∀ (k3_t4 : Fin k3_t4_loop.trips) (v525 : BitVec 32), Decidable (k3_chk58 k3_t4 v525) := fun k3_t4 v525 => decidable_of_iff' _ (Iff.of_eq (k3_chk58.eq_1 k3_t4 v525))
theorem k3_mult62_dvd : ∀ (k3_t4 : Fin k3_t4_loop.trips) (v525 : BitVec 32) (k3_hw58 : k3_chk58 k3_t4 v525), 16 ∣ (k3_mult62 v525).toNat := fun k3_t4 v525 k3_hw58 => k3_hw58.1
theorem k3_off123_inb : ∀ (k3_t4 : Fin k3_t4_loop.trips) (v525 : BitVec 32) (k3_hw58 : k3_chk58 k3_t4 v525), ∀ a, (k3_off123 k3_t4 v525) a + S1x16.size a ≤ S128x128.size a := fun k3_t4 v525 k3_hw58 => k3_hw58.2.1
theorem k3_off124_inb : ∀ (k3_t4 : Fin k3_t4_loop.trips) (v525 : BitVec 32) (k3_hw58 : k3_chk58 k3_t4 v525), ∀ a, (k3_off124 v525) a + S16.size a ≤ S512.size a := fun k3_t4 v525 k3_hw58 => k3_hw58.2.2

def k3_mult63 (v554 : BitVec 32) : BitVec 32 :=
  let c127_i32_208 : BitVec 32 := 127#32
  let v555 : BitVec 32 := Scalar.andi v554 c127_i32_208
  let c112_i32_209 : BitVec 32 := 112#32
  let v556 : BitVec 32 := Scalar.andi v555 c112_i32_209
  v556

def k3_off125 (k3_t4 : Fin k3_t4_loop.trips) (v554 : BitVec 32) : Fin 2 → Nat :=
  let c0_i32_97 : BitVec 32 := 0#32
  let c1_i32_99 : BitVec 32 := 1#32
  let arg15 : BitVec 32 := Scf.iv c0_i32_97 c1_i32_99 k3_t4
  let c16_i32_207 : BitVec 32 := 16#32
  let v551 : BitVec 32 := Scalar.muli arg15 c16_i32_207
  let c10_i32 : BitVec 32 := 10#32
  let v552 : BitVec 32 := Scalar.addi v551 c10_i32
  let v558 : Index := Scalar.indexCast v552
  let c127_i32_208 : BitVec 32 := 127#32
  let v555 : BitVec 32 := Scalar.andi v554 c127_i32_208
  let c112_i32_209 : BitVec 32 := 112#32
  let v556 : BitVec 32 := Scalar.andi v555 c112_i32_209
  let v557 : BitVec 32 := v556
  let v559 : Index := Scalar.indexCast v557
  ![v558.toNat, v559.toNat]
def k3_off126 (v554 : BitVec 32) : Fin 1 → Nat :=
  let c320_i32 : BitVec 32 := 320#32
  let c127_i32_208 : BitVec 32 := 127#32
  let v555 : BitVec 32 := Scalar.andi v554 c127_i32_208
  let c15_i32_212 : BitVec 32 := 15#32
  let v568 : BitVec 32 := Scalar.andi v555 c15_i32_212
  let c10_i32_213 : BitVec 32 := 10#32
  let v569 : BitVec 32 := Scalar.subi v568 c10_i32_213
  let c16_i32_214 : BitVec 32 := 16#32
  let v570 : BitVec 32 := Scalar.addi v569 c16_i32_214
  let c15_i32_215 : BitVec 32 := 15#32
  let v571 : BitVec 32 := Scalar.andi v570 c15_i32_215
  let v572 : BitVec 32 := Scalar.addi c320_i32 v571
  let v573 : Index := Scalar.indexCast v572
  ![v573.toNat]

def k3_chk59 (k3_t4 : Fin k3_t4_loop.trips) (v554 : BitVec 32) : Prop :=
  (16 ∣ (k3_mult63 v554).toNat) ∧
  (∀ a, (k3_off125 k3_t4 v554) a + S1x16.size a ≤ S128x128.size a) ∧
  (∀ a, (k3_off126 v554) a + S16.size a ≤ S512.size a)
instance k3_chk59.dec : ∀ (k3_t4 : Fin k3_t4_loop.trips) (v554 : BitVec 32), Decidable (k3_chk59 k3_t4 v554) := fun k3_t4 v554 => decidable_of_iff' _ (Iff.of_eq (k3_chk59.eq_1 k3_t4 v554))
theorem k3_mult63_dvd : ∀ (k3_t4 : Fin k3_t4_loop.trips) (v554 : BitVec 32) (k3_hw59 : k3_chk59 k3_t4 v554), 16 ∣ (k3_mult63 v554).toNat := fun k3_t4 v554 k3_hw59 => k3_hw59.1
theorem k3_off125_inb : ∀ (k3_t4 : Fin k3_t4_loop.trips) (v554 : BitVec 32) (k3_hw59 : k3_chk59 k3_t4 v554), ∀ a, (k3_off125 k3_t4 v554) a + S1x16.size a ≤ S128x128.size a := fun k3_t4 v554 k3_hw59 => k3_hw59.2.1
theorem k3_off126_inb : ∀ (k3_t4 : Fin k3_t4_loop.trips) (v554 : BitVec 32) (k3_hw59 : k3_chk59 k3_t4 v554), ∀ a, (k3_off126 v554) a + S16.size a ≤ S512.size a := fun k3_t4 v554 k3_hw59 => k3_hw59.2.2

def k3_mult64 (v583 : BitVec 32) : BitVec 32 :=
  let c127_i32_218 : BitVec 32 := 127#32
  let v584 : BitVec 32 := Scalar.andi v583 c127_i32_218
  let c112_i32_219 : BitVec 32 := 112#32
  let v585 : BitVec 32 := Scalar.andi v584 c112_i32_219
  v585

def k3_off127 (k3_t4 : Fin k3_t4_loop.trips) (v583 : BitVec 32) : Fin 2 → Nat :=
  let c0_i32_97 : BitVec 32 := 0#32
  let c1_i32_99 : BitVec 32 := 1#32
  let arg15 : BitVec 32 := Scf.iv c0_i32_97 c1_i32_99 k3_t4
  let c16_i32_217 : BitVec 32 := 16#32
  let v580 : BitVec 32 := Scalar.muli arg15 c16_i32_217
  let c11_i32 : BitVec 32 := 11#32
  let v581 : BitVec 32 := Scalar.addi v580 c11_i32
  let v587 : Index := Scalar.indexCast v581
  let c127_i32_218 : BitVec 32 := 127#32
  let v584 : BitVec 32 := Scalar.andi v583 c127_i32_218
  let c112_i32_219 : BitVec 32 := 112#32
  let v585 : BitVec 32 := Scalar.andi v584 c112_i32_219
  let v586 : BitVec 32 := v585
  let v588 : Index := Scalar.indexCast v586
  ![v587.toNat, v588.toNat]
def k3_off128 (v583 : BitVec 32) : Fin 1 → Nat :=
  let c352_i32 : BitVec 32 := 352#32
  let c127_i32_218 : BitVec 32 := 127#32
  let v584 : BitVec 32 := Scalar.andi v583 c127_i32_218
  let c15_i32_222 : BitVec 32 := 15#32
  let v597 : BitVec 32 := Scalar.andi v584 c15_i32_222
  let c11_i32_223 : BitVec 32 := 11#32
  let v598 : BitVec 32 := Scalar.subi v597 c11_i32_223
  let c16_i32_224 : BitVec 32 := 16#32
  let v599 : BitVec 32 := Scalar.addi v598 c16_i32_224
  let c15_i32_225 : BitVec 32 := 15#32
  let v600 : BitVec 32 := Scalar.andi v599 c15_i32_225
  let v601 : BitVec 32 := Scalar.addi c352_i32 v600
  let v602 : Index := Scalar.indexCast v601
  ![v602.toNat]

def k3_chk60 (k3_t4 : Fin k3_t4_loop.trips) (v583 : BitVec 32) : Prop :=
  (16 ∣ (k3_mult64 v583).toNat) ∧
  (∀ a, (k3_off127 k3_t4 v583) a + S1x16.size a ≤ S128x128.size a) ∧
  (∀ a, (k3_off128 v583) a + S16.size a ≤ S512.size a)
instance k3_chk60.dec : ∀ (k3_t4 : Fin k3_t4_loop.trips) (v583 : BitVec 32), Decidable (k3_chk60 k3_t4 v583) := fun k3_t4 v583 => decidable_of_iff' _ (Iff.of_eq (k3_chk60.eq_1 k3_t4 v583))
theorem k3_mult64_dvd : ∀ (k3_t4 : Fin k3_t4_loop.trips) (v583 : BitVec 32) (k3_hw60 : k3_chk60 k3_t4 v583), 16 ∣ (k3_mult64 v583).toNat := fun k3_t4 v583 k3_hw60 => k3_hw60.1
theorem k3_off127_inb : ∀ (k3_t4 : Fin k3_t4_loop.trips) (v583 : BitVec 32) (k3_hw60 : k3_chk60 k3_t4 v583), ∀ a, (k3_off127 k3_t4 v583) a + S1x16.size a ≤ S128x128.size a := fun k3_t4 v583 k3_hw60 => k3_hw60.2.1
theorem k3_off128_inb : ∀ (k3_t4 : Fin k3_t4_loop.trips) (v583 : BitVec 32) (k3_hw60 : k3_chk60 k3_t4 v583), ∀ a, (k3_off128 v583) a + S16.size a ≤ S512.size a := fun k3_t4 v583 k3_hw60 => k3_hw60.2.2

def k3_mult65 (v612 : BitVec 32) : BitVec 32 :=
  let c127_i32_228 : BitVec 32 := 127#32
  let v613 : BitVec 32 := Scalar.andi v612 c127_i32_228
  let c112_i32_229 : BitVec 32 := 112#32
  let v614 : BitVec 32 := Scalar.andi v613 c112_i32_229
  v614

def k3_off129 (k3_t4 : Fin k3_t4_loop.trips) (v612 : BitVec 32) : Fin 2 → Nat :=
  let c0_i32_97 : BitVec 32 := 0#32
  let c1_i32_99 : BitVec 32 := 1#32
  let arg15 : BitVec 32 := Scf.iv c0_i32_97 c1_i32_99 k3_t4
  let c16_i32_227 : BitVec 32 := 16#32
  let v609 : BitVec 32 := Scalar.muli arg15 c16_i32_227
  let c12_i32 : BitVec 32 := 12#32
  let v610 : BitVec 32 := Scalar.addi v609 c12_i32
  let v616 : Index := Scalar.indexCast v610
  let c127_i32_228 : BitVec 32 := 127#32
  let v613 : BitVec 32 := Scalar.andi v612 c127_i32_228
  let c112_i32_229 : BitVec 32 := 112#32
  let v614 : BitVec 32 := Scalar.andi v613 c112_i32_229
  let v615 : BitVec 32 := v614
  let v617 : Index := Scalar.indexCast v615
  ![v616.toNat, v617.toNat]
def k3_off130 (v612 : BitVec 32) : Fin 1 → Nat :=
  let c384_i32_236 : BitVec 32 := 384#32
  let c127_i32_228 : BitVec 32 := 127#32
  let v613 : BitVec 32 := Scalar.andi v612 c127_i32_228
  let c15_i32_232 : BitVec 32 := 15#32
  let v626 : BitVec 32 := Scalar.andi v613 c15_i32_232
  let c12_i32_233 : BitVec 32 := 12#32
  let v627 : BitVec 32 := Scalar.subi v626 c12_i32_233
  let c16_i32_234 : BitVec 32 := 16#32
  let v628 : BitVec 32 := Scalar.addi v627 c16_i32_234
  let c15_i32_235 : BitVec 32 := 15#32
  let v629 : BitVec 32 := Scalar.andi v628 c15_i32_235
  let v630 : BitVec 32 := Scalar.addi c384_i32_236 v629
  let v631 : Index := Scalar.indexCast v630
  ![v631.toNat]

def k3_chk61 (k3_t4 : Fin k3_t4_loop.trips) (v612 : BitVec 32) : Prop :=
  (16 ∣ (k3_mult65 v612).toNat) ∧
  (∀ a, (k3_off129 k3_t4 v612) a + S1x16.size a ≤ S128x128.size a) ∧
  (∀ a, (k3_off130 v612) a + S16.size a ≤ S512.size a)
instance k3_chk61.dec : ∀ (k3_t4 : Fin k3_t4_loop.trips) (v612 : BitVec 32), Decidable (k3_chk61 k3_t4 v612) := fun k3_t4 v612 => decidable_of_iff' _ (Iff.of_eq (k3_chk61.eq_1 k3_t4 v612))
theorem k3_mult65_dvd : ∀ (k3_t4 : Fin k3_t4_loop.trips) (v612 : BitVec 32) (k3_hw61 : k3_chk61 k3_t4 v612), 16 ∣ (k3_mult65 v612).toNat := fun k3_t4 v612 k3_hw61 => k3_hw61.1
theorem k3_off129_inb : ∀ (k3_t4 : Fin k3_t4_loop.trips) (v612 : BitVec 32) (k3_hw61 : k3_chk61 k3_t4 v612), ∀ a, (k3_off129 k3_t4 v612) a + S1x16.size a ≤ S128x128.size a := fun k3_t4 v612 k3_hw61 => k3_hw61.2.1
theorem k3_off130_inb : ∀ (k3_t4 : Fin k3_t4_loop.trips) (v612 : BitVec 32) (k3_hw61 : k3_chk61 k3_t4 v612), ∀ a, (k3_off130 v612) a + S16.size a ≤ S512.size a := fun k3_t4 v612 k3_hw61 => k3_hw61.2.2

def k3_mult66 (v641 : BitVec 32) : BitVec 32 :=
  let c127_i32_239 : BitVec 32 := 127#32
  let v642 : BitVec 32 := Scalar.andi v641 c127_i32_239
  let c112_i32_240 : BitVec 32 := 112#32
  let v643 : BitVec 32 := Scalar.andi v642 c112_i32_240
  v643

def k3_off131 (k3_t4 : Fin k3_t4_loop.trips) (v641 : BitVec 32) : Fin 2 → Nat :=
  let c0_i32_97 : BitVec 32 := 0#32
  let c1_i32_99 : BitVec 32 := 1#32
  let arg15 : BitVec 32 := Scf.iv c0_i32_97 c1_i32_99 k3_t4
  let c16_i32_238 : BitVec 32 := 16#32
  let v638 : BitVec 32 := Scalar.muli arg15 c16_i32_238
  let c13_i32 : BitVec 32 := 13#32
  let v639 : BitVec 32 := Scalar.addi v638 c13_i32
  let v645 : Index := Scalar.indexCast v639
  let c127_i32_239 : BitVec 32 := 127#32
  let v642 : BitVec 32 := Scalar.andi v641 c127_i32_239
  let c112_i32_240 : BitVec 32 := 112#32
  let v643 : BitVec 32 := Scalar.andi v642 c112_i32_240
  let v644 : BitVec 32 := v643
  let v646 : Index := Scalar.indexCast v644
  ![v645.toNat, v646.toNat]
def k3_off132 (v641 : BitVec 32) : Fin 1 → Nat :=
  let c416_i32 : BitVec 32 := 416#32
  let c127_i32_239 : BitVec 32 := 127#32
  let v642 : BitVec 32 := Scalar.andi v641 c127_i32_239
  let c15_i32_243 : BitVec 32 := 15#32
  let v655 : BitVec 32 := Scalar.andi v642 c15_i32_243
  let c13_i32_244 : BitVec 32 := 13#32
  let v656 : BitVec 32 := Scalar.subi v655 c13_i32_244
  let c16_i32_245 : BitVec 32 := 16#32
  let v657 : BitVec 32 := Scalar.addi v656 c16_i32_245
  let c15_i32_246 : BitVec 32 := 15#32
  let v658 : BitVec 32 := Scalar.andi v657 c15_i32_246
  let v659 : BitVec 32 := Scalar.addi c416_i32 v658
  let v660 : Index := Scalar.indexCast v659
  ![v660.toNat]

def k3_chk62 (k3_t4 : Fin k3_t4_loop.trips) (v641 : BitVec 32) : Prop :=
  (16 ∣ (k3_mult66 v641).toNat) ∧
  (∀ a, (k3_off131 k3_t4 v641) a + S1x16.size a ≤ S128x128.size a) ∧
  (∀ a, (k3_off132 v641) a + S16.size a ≤ S512.size a)
instance k3_chk62.dec : ∀ (k3_t4 : Fin k3_t4_loop.trips) (v641 : BitVec 32), Decidable (k3_chk62 k3_t4 v641) := fun k3_t4 v641 => decidable_of_iff' _ (Iff.of_eq (k3_chk62.eq_1 k3_t4 v641))
theorem k3_mult66_dvd : ∀ (k3_t4 : Fin k3_t4_loop.trips) (v641 : BitVec 32) (k3_hw62 : k3_chk62 k3_t4 v641), 16 ∣ (k3_mult66 v641).toNat := fun k3_t4 v641 k3_hw62 => k3_hw62.1
theorem k3_off131_inb : ∀ (k3_t4 : Fin k3_t4_loop.trips) (v641 : BitVec 32) (k3_hw62 : k3_chk62 k3_t4 v641), ∀ a, (k3_off131 k3_t4 v641) a + S1x16.size a ≤ S128x128.size a := fun k3_t4 v641 k3_hw62 => k3_hw62.2.1
theorem k3_off132_inb : ∀ (k3_t4 : Fin k3_t4_loop.trips) (v641 : BitVec 32) (k3_hw62 : k3_chk62 k3_t4 v641), ∀ a, (k3_off132 v641) a + S16.size a ≤ S512.size a := fun k3_t4 v641 k3_hw62 => k3_hw62.2.2

def k3_mult67 (v670 : BitVec 32) : BitVec 32 :=
  let c127_i32_249 : BitVec 32 := 127#32
  let v671 : BitVec 32 := Scalar.andi v670 c127_i32_249
  let c112_i32_250 : BitVec 32 := 112#32
  let v672 : BitVec 32 := Scalar.andi v671 c112_i32_250
  v672

def k3_off133 (k3_t4 : Fin k3_t4_loop.trips) (v670 : BitVec 32) : Fin 2 → Nat :=
  let c0_i32_97 : BitVec 32 := 0#32
  let c1_i32_99 : BitVec 32 := 1#32
  let arg15 : BitVec 32 := Scf.iv c0_i32_97 c1_i32_99 k3_t4
  let c16_i32_248 : BitVec 32 := 16#32
  let v667 : BitVec 32 := Scalar.muli arg15 c16_i32_248
  let c14_i32 : BitVec 32 := 14#32
  let v668 : BitVec 32 := Scalar.addi v667 c14_i32
  let v674 : Index := Scalar.indexCast v668
  let c127_i32_249 : BitVec 32 := 127#32
  let v671 : BitVec 32 := Scalar.andi v670 c127_i32_249
  let c112_i32_250 : BitVec 32 := 112#32
  let v672 : BitVec 32 := Scalar.andi v671 c112_i32_250
  let v673 : BitVec 32 := v672
  let v675 : Index := Scalar.indexCast v673
  ![v674.toNat, v675.toNat]
def k3_off134 (v670 : BitVec 32) : Fin 1 → Nat :=
  let c448_i32 : BitVec 32 := 448#32
  let c127_i32_249 : BitVec 32 := 127#32
  let v671 : BitVec 32 := Scalar.andi v670 c127_i32_249
  let c15_i32_253 : BitVec 32 := 15#32
  let v684 : BitVec 32 := Scalar.andi v671 c15_i32_253
  let c14_i32_254 : BitVec 32 := 14#32
  let v685 : BitVec 32 := Scalar.subi v684 c14_i32_254
  let c16_i32_255 : BitVec 32 := 16#32
  let v686 : BitVec 32 := Scalar.addi v685 c16_i32_255
  let c15_i32_256 : BitVec 32 := 15#32
  let v687 : BitVec 32 := Scalar.andi v686 c15_i32_256
  let v688 : BitVec 32 := Scalar.addi c448_i32 v687
  let v689 : Index := Scalar.indexCast v688
  ![v689.toNat]

def k3_chk63 (k3_t4 : Fin k3_t4_loop.trips) (v670 : BitVec 32) : Prop :=
  (16 ∣ (k3_mult67 v670).toNat) ∧
  (∀ a, (k3_off133 k3_t4 v670) a + S1x16.size a ≤ S128x128.size a) ∧
  (∀ a, (k3_off134 v670) a + S16.size a ≤ S512.size a)
instance k3_chk63.dec : ∀ (k3_t4 : Fin k3_t4_loop.trips) (v670 : BitVec 32), Decidable (k3_chk63 k3_t4 v670) := fun k3_t4 v670 => decidable_of_iff' _ (Iff.of_eq (k3_chk63.eq_1 k3_t4 v670))
theorem k3_mult67_dvd : ∀ (k3_t4 : Fin k3_t4_loop.trips) (v670 : BitVec 32) (k3_hw63 : k3_chk63 k3_t4 v670), 16 ∣ (k3_mult67 v670).toNat := fun k3_t4 v670 k3_hw63 => k3_hw63.1
theorem k3_off133_inb : ∀ (k3_t4 : Fin k3_t4_loop.trips) (v670 : BitVec 32) (k3_hw63 : k3_chk63 k3_t4 v670), ∀ a, (k3_off133 k3_t4 v670) a + S1x16.size a ≤ S128x128.size a := fun k3_t4 v670 k3_hw63 => k3_hw63.2.1
theorem k3_off134_inb : ∀ (k3_t4 : Fin k3_t4_loop.trips) (v670 : BitVec 32) (k3_hw63 : k3_chk63 k3_t4 v670), ∀ a, (k3_off134 v670) a + S16.size a ≤ S512.size a := fun k3_t4 v670 k3_hw63 => k3_hw63.2.2

def k3_mult68 (v699 : BitVec 32) : BitVec 32 :=
  let c127_i32_260 : BitVec 32 := 127#32
  let v700 : BitVec 32 := Scalar.andi v699 c127_i32_260
  let c112_i32_261 : BitVec 32 := 112#32
  let v701 : BitVec 32 := Scalar.andi v700 c112_i32_261
  v701

def k3_off135 (k3_t4 : Fin k3_t4_loop.trips) (v699 : BitVec 32) : Fin 2 → Nat :=
  let c0_i32_97 : BitVec 32 := 0#32
  let c1_i32_99 : BitVec 32 := 1#32
  let arg15 : BitVec 32 := Scf.iv c0_i32_97 c1_i32_99 k3_t4
  let c16_i32_258 : BitVec 32 := 16#32
  let v696 : BitVec 32 := Scalar.muli arg15 c16_i32_258
  let c15_i32_259 : BitVec 32 := 15#32
  let v697 : BitVec 32 := Scalar.addi v696 c15_i32_259
  let v703 : Index := Scalar.indexCast v697
  let c127_i32_260 : BitVec 32 := 127#32
  let v700 : BitVec 32 := Scalar.andi v699 c127_i32_260
  let c112_i32_261 : BitVec 32 := 112#32
  let v701 : BitVec 32 := Scalar.andi v700 c112_i32_261
  let v702 : BitVec 32 := v701
  let v704 : Index := Scalar.indexCast v702
  ![v703.toNat, v704.toNat]
def k3_off136 (v699 : BitVec 32) : Fin 1 → Nat :=
  let c480_i32 : BitVec 32 := 480#32
  let c127_i32_260 : BitVec 32 := 127#32
  let v700 : BitVec 32 := Scalar.andi v699 c127_i32_260
  let c15_i32_264 : BitVec 32 := 15#32
  let v713 : BitVec 32 := Scalar.andi v700 c15_i32_264
  let c15_i32_265 : BitVec 32 := 15#32
  let v714 : BitVec 32 := Scalar.subi v713 c15_i32_265
  let c16_i32_266 : BitVec 32 := 16#32
  let v715 : BitVec 32 := Scalar.addi v714 c16_i32_266
  let c15_i32_267 : BitVec 32 := 15#32
  let v716 : BitVec 32 := Scalar.andi v715 c15_i32_267
  let v717 : BitVec 32 := Scalar.addi c480_i32 v716
  let v718 : Index := Scalar.indexCast v717
  ![v718.toNat]

def k3_chk64 (k3_t4 : Fin k3_t4_loop.trips) (v699 : BitVec 32) : Prop :=
  (16 ∣ (k3_mult68 v699).toNat) ∧
  (∀ a, (k3_off135 k3_t4 v699) a + S1x16.size a ≤ S128x128.size a) ∧
  (∀ a, (k3_off136 v699) a + S16.size a ≤ S512.size a)
instance k3_chk64.dec : ∀ (k3_t4 : Fin k3_t4_loop.trips) (v699 : BitVec 32), Decidable (k3_chk64 k3_t4 v699) := fun k3_t4 v699 => decidable_of_iff' _ (Iff.of_eq (k3_chk64.eq_1 k3_t4 v699))
theorem k3_mult68_dvd : ∀ (k3_t4 : Fin k3_t4_loop.trips) (v699 : BitVec 32) (k3_hw64 : k3_chk64 k3_t4 v699), 16 ∣ (k3_mult68 v699).toNat := fun k3_t4 v699 k3_hw64 => k3_hw64.1
theorem k3_off135_inb : ∀ (k3_t4 : Fin k3_t4_loop.trips) (v699 : BitVec 32) (k3_hw64 : k3_chk64 k3_t4 v699), ∀ a, (k3_off135 k3_t4 v699) a + S1x16.size a ≤ S128x128.size a := fun k3_t4 v699 k3_hw64 => k3_hw64.2.1
theorem k3_off136_inb : ∀ (k3_t4 : Fin k3_t4_loop.trips) (v699 : BitVec 32) (k3_hw64 : k3_chk64 k3_t4 v699), ∀ a, (k3_off136 v699) a + S16.size a ≤ S512.size a := fun k3_t4 v699 k3_hw64 => k3_hw64.2.2

def k3_off137 (k3_t4 : Fin k3_t4_loop.trips) : Fin 1 → Nat :=
  let c384_i32_101 : BitVec 32 := 384#32
  let c0_i32_97 : BitVec 32 := 0#32
  let c1_i32_99 : BitVec 32 := 1#32
  let arg15 : BitVec 32 := Scf.iv c0_i32_97 c1_i32_99 k3_t4
  let c16_i32 : BitVec 32 := 16#32
  let v252 : BitVec 32 := Scalar.muli arg15 c16_i32
  let v253 : BitVec 32 := Scalar.addi c384_i32_101 v252
  let v254 : BitVec 32 := v253
  let v725 : Index := Scalar.indexCast v254
  ![v725.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S200x1_S100x1_0_0 : S200x1.Slices ![0, 0] S100x1
  transposes_S100x1_S1x100_1_0 : S100x1.Transposes [1, 0] S1x100
  slices_S200x1_S100x1_100_0 : S200x1.Slices ![100, 0] S100x1
  transposes_S1000000x100_S100x1000000_1_0 : S1000000x100.Transposes [1, 0] S100x1000000
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S100x16384_S100x16384_0_0 : ∀ a, (![0, 0] : Fin 2 → Nat) a + S100x16384.size a ≤ S100x16384.size a
  h_S100x16384 : 0 < S100x16384.numel
  shapeCasts_S100x16384_S100x16384 : S100x16384.ShapeCasts S100x16384
  shapeCasts_S1x16384_S16384 : S1x16384.ShapeCasts S16384
  inb_S16384_S16384_0 : ∀ a, (![0] : Fin 1 → Nat) a + S16384.size a ≤ S16384.size a
  h_S16384 : 0 < S16384.numel
  shapeCasts_S1000448_S7816x128 : S1000448.ShapeCasts S7816x128
  bcast_S1_S16384_0 : S1.BroadcastsInDim S16384 (![0] : Fin 1 → Fin S16384.rank)
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  iota_S16_d0_w32_scVector : S16.Iotas .scVector 32 [0]
  inb_S512_S128_0 : ∀ a, (![0] : Fin 1 → Nat) a + S128.size a ≤ S512.size a
  inb_S7816x128_S7816x128_0_0 : ∀ a, (![0, 0] : Fin 2 → Nat) a + S7816x128.size a ≤ S7816x128.size a
  gathers_S7816x128_S128x128 : S7816x128.Gathers 0 S128x128
  inb_S512_S128_128 : ∀ a, (![128] : Fin 1 → Nat) a + S128.size a ≤ S512.size a
  slices_S16_o0_S1 : S16.Slices ![0] S1
  inpos_S1_p0 : ∀ a, (![0] : Fin 1 → Nat) a < S1.size a
  h_S1x16 : 0 < S1x16.numel
  shapeCasts_S1x16_S16 : S1x16.ShapeCasts S16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S512_S128_256 : ∀ a, (![256] : Fin 1 → Nat) a + S128.size a ≤ S512.size a
  inb_S512_S128_384 : ∀ a, (![384] : Fin 1 → Nat) a + S128.size a ≤ S512.size a
  transposes_S100000x100_S100x100000_1_0 : S100000x100.Transposes [1, 0] S100x100000
  shapeCasts_S100352_S784x128 : S100352.ShapeCasts S784x128
  inb_S784x128_S784x128_0_0 : ∀ a, (![0, 0] : Fin 2 → Nat) a + S784x128.size a ≤ S784x128.size a
  gathers_S784x128_S128x128 : S784x128.Gathers 0 S128x128
  dot_S1x100_S100x16384_S1x16384_1_0_0_1_n_n_wf : DotDims.WF S1x100 S100x16384 S1x16384 [1] [0] [0] [1] [] []
  hcc1_scratch7 : 5 + S_.numel ≤ 20
  hcc1_scratch8 : 6 + S_.numel ≤ 20
  hcc1_scoped0 : 7 + S_.numel ≤ 20
  hcc1_scoped1 : 8 + S_.numel ≤ 20
  hcc1_scoped2 : 9 + S_.numel ≤ 20
  hcc3_scratch7 : 15 + S_.numel ≤ 20
  hcc3_scratch8 : 16 + S_.numel ≤ 20
  hcc3_scoped0 : 17 + S_.numel ≤ 20
  hcc3_scoped1 : 18 + S_.numel ≤ 20
  hcc3_scoped2 : 19 + S_.numel ≤ 20
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S100x16384.size a < S100x1000000.size a
  hwx0_0 : ∀ i : grid0.Coords, EltTy.bits .f32 = 32 ∨ (Rect.unit (s := S100x1000000) (fun a => cc0_transform_0 i a * S100x16384.size a) (fun a => (Pipeline.Clip.of (cc0_transform_0 i a) (S100x16384.size a) (S100x1000000.size a)).extent (S100x16384.size a)) fun a => Pipeline.Clip.inb (Pipeline.Clip.ok_of (hstart0_0 i a))).WholeWords (EltTy.packing .f32)
  hwxs0_0 : ∀ i : grid0.Coords, EltTy.bits .f32 = 32 ∨ (Rect.unit (s := S100x16384) (fun _ => 0) (fun a => (Pipeline.Clip.of (cc0_transform_0 i a) (S100x16384.size a) (S100x1000000.size a)).extent (S100x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x100.size a ≤ S1x100.size a
  hwx0_1 : ∀ i : grid0.Coords, EltTy.bits .f32 = 32 ∨ (Rect.block (s := S1x100) S1x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16384.size a < S1000448.size a
  hwx0_2 : ∀ i : grid0.Coords, EltTy.bits .f32 = 32 ∨ (Rect.unit (s := S1000448) (fun a => cc0_transform_2 i a * S16384.size a) (fun a => (Pipeline.Clip.of (cc0_transform_2 i a) (S16384.size a) (S1000448.size a)).extent (S16384.size a)) fun a => Pipeline.Clip.inb (Pipeline.Clip.ok_of (hstart0_2 i a))).WholeWords (EltTy.packing .f32)
  hwxs0_2 : ∀ i : grid0.Coords, EltTy.bits .f32 = 32 ∨ (Rect.unit (s := S16384) (fun _ => 0) (fun a => (Pipeline.Clip.of (cc0_transform_2 i a) (S16384.size a) (S1000448.size a)).extent (S16384.size a)) fun a => (Nat.zero_add _).trans_le (Pipeline.Clip.extent_le (Pipeline.Clip.ok_of (hstart0_2 i a)))).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a
  k1_t1_ok : k1_t1_loop.OK
  k1_mult1_dvd : ∀ k1_t1 : Fin k1_t1_loop.trips, 16 ∣ (k1_mult1 k1_t1).toNat
  k1_off2_inb : ∀ k1_t1 : Fin k1_t1_loop.trips, ∀ a, (k1_off2 k1_t1) a + S16.size a ≤ S512.size a
  k1_off35_inb : ∀ k1_t1 : Fin k1_t1_loop.trips, ∀ a, (k1_off35 k1_t1) a + S16.size a ≤ S512.size a
  k1_t2_ok : k1_t2_loop.OK
  k1_mult18_dvd : ∀ k1_t2 : Fin k1_t2_loop.trips, 16 ∣ (k1_mult18 k1_t2).toNat
  k1_off36_inb : ∀ k1_t2 : Fin k1_t2_loop.trips, ∀ a, (k1_off36 k1_t2) a + S16.size a ≤ S512.size a
  k1_off69_inb : ∀ k1_t2 : Fin k1_t2_loop.trips, ∀ a, (k1_off69 k1_t2) a + S16.size a ≤ S512.size a
  k1_t3_ok : k1_t3_loop.OK
  k1_mult35_dvd : ∀ k1_t3 : Fin k1_t3_loop.trips, 16 ∣ (k1_mult35 k1_t3).toNat
  k1_off70_inb : ∀ k1_t3 : Fin k1_t3_loop.trips, ∀ a, (k1_off70 k1_t3) a + S16.size a ≤ S512.size a
  k1_off103_inb : ∀ k1_t3 : Fin k1_t3_loop.trips, ∀ a, (k1_off103 k1_t3) a + S16.size a ≤ S512.size a
  k1_t4_ok : k1_t4_loop.OK
  k1_mult52_dvd : ∀ k1_t4 : Fin k1_t4_loop.trips, 16 ∣ (k1_mult52 k1_t4).toNat
  k1_off104_inb : ∀ k1_t4 : Fin k1_t4_loop.trips, ∀ a, (k1_off104 k1_t4) a + S16.size a ≤ S512.size a
  k1_off137_inb : ∀ k1_t4 : Fin k1_t4_loop.trips, ∀ a, (k1_off137 k1_t4) a + S16.size a ≤ S512.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S100x16384.size a < S100x100000.size a
  hwx2_0 : ∀ i : grid2.Coords, EltTy.bits .f32 = 32 ∨ (Rect.unit (s := S100x100000) (fun a => cc2_transform_0 i a * S100x16384.size a) (fun a => (Pipeline.Clip.of (cc2_transform_0 i a) (S100x16384.size a) (S100x100000.size a)).extent (S100x16384.size a)) fun a => Pipeline.Clip.inb (Pipeline.Clip.ok_of (hstart2_0 i a))).WholeWords (EltTy.packing .f32)
  hwxs2_0 : ∀ i : grid2.Coords, EltTy.bits .f32 = 32 ∨ (Rect.unit (s := S100x16384) (fun _ => 0) (fun a => (Pipeline.Clip.of (cc2_transform_0 i a) (S100x16384.size a) (S100x100000.size a)).extent (S100x16384.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x100.size a ≤ S1x100.size a
  hwx2_1 : ∀ i : grid2.Coords, EltTy.bits .f32 = 32 ∨ (Rect.block (s := S1x100) S1x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S16384.size a < S100352.size a
  hwx2_2 : ∀ i : grid2.Coords, EltTy.bits .f32 = 32 ∨ (Rect.unit (s := S100352) (fun a => cc2_transform_2 i a * S16384.size a) (fun a => (Pipeline.Clip.of (cc2_transform_2 i a) (S16384.size a) (S100352.size a)).extent (S16384.size a)) fun a => Pipeline.Clip.inb (Pipeline.Clip.ok_of (hstart2_2 i a))).WholeWords (EltTy.packing .f32)
  hwxs2_2 : ∀ i : grid2.Coords, EltTy.bits .f32 = 32 ∨ (Rect.unit (s := S16384) (fun _ => 0) (fun a => (Pipeline.Clip.of (cc2_transform_2 i a) (S16384.size a) (S100352.size a)).extent (S16384.size a)) fun a => (Nat.zero_add _).trans_le (Pipeline.Clip.extent_le (Pipeline.Clip.ok_of (hstart2_2 i a)))).WholeWords (EltTy.packing .f32)
  hcore3 : grid3.bound 0 ≤ τ.nSC
  hsub3 : grid3.bound 1 ≤ τ.nSub
  k3_off1_inb : ∀ i : grid3.Coords, ∀ a, (k3_off1 i) a + S512.size a ≤ S16384.size a
  k3_t1_ok : k3_t1_loop.OK
  k3_mult1_dvd : ∀ k3_t1 : Fin k3_t1_loop.trips, 16 ∣ (k3_mult1 k3_t1).toNat
  k3_off2_inb : ∀ k3_t1 : Fin k3_t1_loop.trips, ∀ a, (k3_off2 k3_t1) a + S16.size a ≤ S512.size a
  k3_off35_inb : ∀ k3_t1 : Fin k3_t1_loop.trips, ∀ a, (k3_off35 k3_t1) a + S16.size a ≤ S512.size a
  k3_t2_ok : k3_t2_loop.OK
  k3_mult18_dvd : ∀ k3_t2 : Fin k3_t2_loop.trips, 16 ∣ (k3_mult18 k3_t2).toNat
  k3_off36_inb : ∀ k3_t2 : Fin k3_t2_loop.trips, ∀ a, (k3_off36 k3_t2) a + S16.size a ≤ S512.size a
  k3_off69_inb : ∀ k3_t2 : Fin k3_t2_loop.trips, ∀ a, (k3_off69 k3_t2) a + S16.size a ≤ S512.size a
  k3_t3_ok : k3_t3_loop.OK
  k3_mult35_dvd : ∀ k3_t3 : Fin k3_t3_loop.trips, 16 ∣ (k3_mult35 k3_t3).toNat
  k3_off70_inb : ∀ k3_t3 : Fin k3_t3_loop.trips, ∀ a, (k3_off70 k3_t3) a + S16.size a ≤ S512.size a
  k3_off103_inb : ∀ k3_t3 : Fin k3_t3_loop.trips, ∀ a, (k3_off103 k3_t3) a + S16.size a ≤ S512.size a
  k3_t4_ok : k3_t4_loop.OK
  k3_mult52_dvd : ∀ k3_t4 : Fin k3_t4_loop.trips, 16 ∣ (k3_mult52 k3_t4).toNat
  k3_off104_inb : ∀ k3_t4 : Fin k3_t4_loop.trips, ∀ a, (k3_off104 k3_t4) a + S16.size a ≤ S512.size a
  k3_off137_inb : ∀ k3_t4 : Fin k3_t4_loop.trips, ∀ a, (k3_off137 k3_t4) a + S16.size a ≤ S512.size a

variable [Facts₀]

abbrev cc1_scratch7 : DmaSems sig S_ := SemArray.consecutive 5 S_ hcc1_scratch7
abbrev cc1_scratch8 : DmaSems sig S_ := SemArray.consecutive 6 S_ hcc1_scratch8
abbrev cc1_scoped0 : DmaSems sig S_ := SemArray.consecutive 7 S_ hcc1_scoped0
abbrev cc1_scoped1 : DmaSems sig S_ := SemArray.consecutive 8 S_ hcc1_scoped1
abbrev cc1_scoped2 : DmaSems sig S_ := SemArray.consecutive 9 S_ hcc1_scoped2
abbrev cc3_scratch7 : DmaSems sig S_ := SemArray.consecutive 15 S_ hcc3_scratch7
abbrev cc3_scratch8 : DmaSems sig S_ := SemArray.consecutive 16 S_ hcc3_scratch8
abbrev cc3_scoped0 : DmaSems sig S_ := SemArray.consecutive 17 S_ hcc3_scoped0
abbrev cc3_scoped1 : DmaSems sig S_ := SemArray.consecutive 18 S_ hcc3_scoped1
abbrev cc3_scoped2 : DmaSems sig S_ := SemArray.consecutive 19 S_ hcc3_scoped2
def dot_S1x100_S100x16384_S1x16384_1_0_0_1_n_n : DotDims S1x100 S100x16384 S1x16384 where
  lhsContracting := [1]
  rhsContracting := [0]
  lhsNonContracting := [0]
  rhsNonContracting := [1]
  lhsBatch := []
  rhsBatch := []
  wf := dot_S1x100_S100x16384_S1x16384_1_0_0_1_n_n_wf

abbrev win0_0 : Pipeline.Window sig grid0 :=
  Pipeline.Window.ofSpecClip (Memref.whole main_v4) S100x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S1x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v5) S16384.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpecClip (Memref.whole main_v9) S100x16384.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v3) S1x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpecClip (Memref.whole main_v10) S16384.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384 : Shape := ⟨1, ![16384]⟩
abbrev S1000000x100 : Shape := ⟨2, ![1000000, 100]⟩
abbrev S100000x100 : Shape := ⟨2, ![100000, 100]⟩
abbrev S200x1 : Shape := ⟨2, ![200, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x100 : Shape := ⟨2, ![16384, 100]⟩
abbrev S16384x200 : Shape := ⟨2, ![16384, 200]⟩

abbrev nBuf : Space → Nat
  | .hbm => 58
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x100, .f32⟩
  | .hbm, ⟨3, _⟩ => ⟨S100000x100, .f32⟩
  | .hbm, ⟨4, _⟩ => ⟨S200x1, .f32⟩
  | .hbm, ⟨5, _⟩ => ⟨S1, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x100, .f32⟩
  | .hbm, ⟨25, _⟩ => ⟨S16384x100, .i1⟩
  | .hbm, ⟨26, _⟩ => ⟨S_, .f32⟩
  | .hbm, ⟨27, _⟩ => ⟨S16384x100, .f32⟩
  | .hbm, ⟨28, _⟩ => ⟨S16384x100, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S1x1, .i32⟩
  | .hbm, ⟨42, _⟩ => ⟨S16384x1, .i32⟩
  | .hbm, ⟨43, _⟩ => ⟨S16384x1, .i1⟩
  | .hbm, ⟨44, _⟩ => ⟨S16384x1, .i1⟩
  | .hbm, ⟨45, _⟩ => ⟨S_, .i1⟩
  | .hbm, ⟨46, _⟩ => ⟨S16384, .i1⟩
  | .hbm, ⟨47, _⟩ => ⟨S16384x100, .f32⟩
  | .hbm, ⟨48, _⟩ => ⟨S16384x100, .i1⟩
  | .hbm, ⟨49, _⟩ => ⟨S_, .f32⟩
  | .hbm, ⟨50, _⟩ => ⟨S16384x100, .f32⟩
  | .hbm, ⟨51, _⟩ => ⟨S16384x100, .f32⟩
  | .hbm, ⟨52, _⟩ => ⟨S16384x200, .f32⟩
  | .hbm, ⟨53, _⟩ => ⟨S16384x1, .f32⟩
  | .hbm, ⟨54, _⟩ => ⟨S1x1, .f32⟩
  | .hbm, ⟨55, _⟩ => ⟨S16384x1, .f32⟩
  | .hbm, ⟨56, _⟩ => ⟨S16384x1, .f32⟩
  | .hbm, ⟨57, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x100_0 : S16384.BroadcastsInDim S16384x100 (![0] : Fin 1 → Fin S16384x100.rank)
  bcast_S_S16384x100 : S_.BroadcastsInDim S16384x100 (![] : Fin 0 → Fin S16384x100.rank)
  concatenates_S16384x100_S16384x100_S16384x200_d1 : Shape.Concatenates [S16384x100, S16384x100] S16384x200 1
  shapeCasts_S16384x1_S16384 : S16384x1.ShapeCasts S16384
  gather_S1000000x100_S16384x1_S16384x100_1_0_n_n_0_1_1100_wf : GatherDims.WF S1000000x100 S16384x1 S16384x100 [1] [0] [] [0] [] 1 ![1, 100]
  gather_S100000x100_S16384x1_S16384x100_1_0_n_n_0_1_1100_wf : GatherDims.WF S100000x100 S16384x1 S16384x100 [1] [0] [] [0] [] 1 ![1, 100]
  dot_S16384x200_S200x1_S16384x1_1_0_0_1_n_n_wf : DotDims.WF S16384x200 S200x1 S16384x1 [1] [0] [0] [1] [] []

variable [Facts₀]

def gather_S1000000x100_S16384x1_S16384x100_1_0_n_n_0_1_1100 : GatherDims S1000000x100 S16384x1 S16384x100 where
  offsetDims := [1]
  collapsedSliceDims := [0]
  operandBatchingDims := []
  startIndicesBatchingDims := []
  startIndexMap := [0]
  indexVectorDim := 1
  sliceSizes := ![1, 100]
  wf := gather_S1000000x100_S16384x1_S16384x100_1_0_n_n_0_1_1100_wf
def gather_S100000x100_S16384x1_S16384x100_1_0_n_n_0_1_1100 : GatherDims S100000x100 S16384x1 S16384x100 where
  offsetDims := [1]
  collapsedSliceDims := [0]
  operandBatchingDims := []
  startIndicesBatchingDims := []
  startIndexMap := [0]
  indexVectorDim := 1
  sliceSizes := ![1, 100]
  wf := gather_S100000x100_S16384x1_S16384x100_1_0_n_n_0_1_1100_wf
def dot_S16384x200_S200x1_S16384x1_1_0_0_1_n_n : DotDims S16384x200 S200x1 S16384x1 where
  lhsContracting := [1]
  rhsContracting := [0]
  lhsNonContracting := [0]
  rhsNonContracting := [1]
  lhsBatch := []
  rhsBatch := []
  wf := dot_S16384x200_S200x1_S16384x1_1_0_0_1_n_n_wf

class Facts : Prop extends Facts₀ where

variable [Facts]
-- ==== Proof.Common.lean ====
/-
  Names shared by the modules of this certificate: the program as the launch theorem sees it, and the resource
  algebra of the proof — the handshakes' rounds, the staging cells' rounds of the two TensorCore regions, and the
  counters of the tiles' own copies.
-/
import proofs.«204913_g64682207478566_cont_9to1c4b_713_31_alg».proof.Defs
import proofs.«204913_g64682207478566_cont_9to1c4b_713_31_alg».proof.Proof.Gen.KernelIdeal
import Idealize.ShloMosaic.Lib.SparseCore.Launch
import Idealize.ShloMosaic.Lib.Pipeline.Kit

noncomputable section

namespace Cert.KernelIdeal.Common

open Cert.KernelIdeal Cert.KernelIdeal.Gen

open Idealize.ShloMosaic
open Idealize.ShloMosaic.SparseCore.Cfg (HIx)
open Idealize.SL Idealize.SL.RA Idealize.SL.BI
open Idealize.SL.Sem
open Idealize.ShloMosaic.Rounds

variable {F : FTy → Type}

/-- The label signature with the two TensorCore regions. -/
abbrev ΛP : Labels := Pipeline.Sig Λ₀ (Fin 2) fun p => (pcfgs (F := F) p).Adm
/-- The two SparseCore calls. -/
abbrev K : SparseCore.Cfg τ sig (ΛP (F := F)) 2 := sc (F := F)
/-- The body table below the SparseCore dispatch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds. -/
abbrev UH : Type := URounds (GSem nD τ sig) ℕ
/-- The staging cells' rounds. -/
abbrev UP : Type := URounds (GSem nD τ sig) Unit
/-- The proof's algebra: handshakes, staging cells, counters. -/
abbrev UU : Type := UH × (UP × Counters)

/-- The machine's algebra over it. -/
abbrev 𝕄F (F : FTy → Type) : Type := MT nD τ sig (HIx 2) (Elt F) ℕ UU ℕ

/-- The handshakes' component. -/
abbrev EH : Emb UH (𝕄F F) := embL
/-- The staging cells' component. -/
def EP : Emb UP (𝕄F F) := (Emb.inl : Emb UP (UP × Counters)).trans embR

instance EP_landsIn : (EP (F := F)).LandsIn (upEmb : UEmb _ (𝕄F F)) := by
  unfold EP; infer_instance

theorem nCore_eq (q : Fin 2) : (K (F := F)).nCore q = 2 := by
  match q with
  | 0 => rfl
  | 1 => rfl
theorem nSub_eq (q : Fin 2) : (K (F := F)).nSub q = 16 := by
  match q with
  | 0 => rfl
  | 1 => rfl

end Cert.KernelIdeal.Common

end
-- ==== Proof.Vals.lean ====
/-
  The values the parts of the kernel hand one another, generic in the float instance.
  * A TensorCore region's output array: block t is the one-matmul payload of SOME staged input block that agrees
    with the input array on the columns that lie inside it (the last block overhangs the array).
  * A SparseCore tile's 512 results: the base value plus the table entry the id selects, row id / 128 and
    lane id % 128 of the table reshaped to 128 lanes.
-/
import proofs.«204913_g64682207478566_cont_9to1c4b_713_31_alg».proof.Proof.Common
import proofs.«204913_g64682207478566_cont_9to1c4b_713_31_alg».proof.Proof.Gen.KernelIdeal.Skeleton
import Idealize.ShloMosaic.Lib.ValueIdx

noncomputable section

namespace Cert.KernelIdeal.Vals

open Cert.KernelIdeal Cert.KernelIdeal.Gen Cert.KernelIdeal.Common
open Idealize.ShloMosaic Idealize.ShloMosaic.ValueIdx

variable {F : FTy → Type} [FloatOps F]

/-- Row of a 128-lane table a word selects, in a table of `R` rows. -/
def trow (R : Nat) (hR : 0 < R) (v : BitVec 32) : Fin R := ⟨v.toNat / 128 % R, Nat.mod_lt _ hR⟩
/-- Lane of a 128-lane table a word selects. -/
def tlane (v : BitVec 32) : Fin 128 := ⟨v.toNat % 128, Nat.mod_lt _ (by decide)⟩

/-- Entry `r` of the 512 batch rows of the tile at grid coordinates `L` (both kernels' tiles take the same rows). -/
def bidx (L : grid1.Coords) (r : Fin 512) : S16384.Idx :=
  ix1 ⟨(k1_off1 L) 0 + r.val, by
    have h : (k1_off1 L) 0 + 512 ≤ 16384 := k1_off1_inb L 0
    omega⟩

/-- What a tile leaves in its 512 output entries: base value plus selected table entry. -/
def TileVal {R : Nat} (hR : 0 < R) (L : grid1.Coords) (ids : S16384.Idx → BitVec 32) (bs : S16384.Idx → F .f32)
    (tbl : (⟨2, ![R, 128]⟩ : Shape).Idx → F .f32) (f : S16384.Idx → F .f32) : Prop :=
  ∀ r : Fin 512, f (bidx L r) = FloatOps.addf (bs (bidx L r)) (tbl (ix2 (trow R hR (ids (bidx L r))) (tlane (ids (bidx L r)))))

/-- What TensorCore region 0 leaves in its output array `f5` (1000448 entries, 62 blocks of 16384), from the
    weight row `W1` and the transposed table `X4` (1000000 columns). -/
def Reg0Val (W1 : S1x100.Idx → F .f32) (X4 : S100x1000000.Idx → F .f32) (f5 : S1000448.Idx → F .f32) : Prop :=
  ∃ X : Fin 62 → FVec F S100x16384 .f32,
    (∀ (t : Fin 62) (f : Fin 100) (col : Fin 16384) (h : 16384 * t.val + col.val < 1000000), X t (ix2 f col) = X4 (ix2 f ⟨16384 * t.val + col.val, h⟩))
    ∧ ∀ (t : Fin 62) (col : Fin 16384) (h : 16384 * t.val + col.val < 1000448), f5 (ix1 ⟨16384 * t.val + col.val, h⟩) = k0_pay1 W1 (X t) (ix1 col)

/-- The same for region 1 (100352 entries, 7 blocks; 100000 columns). -/
def Reg1Val (W3 : S1x100.Idx → F .f32) (X9 : S100x100000.Idx → F .f32) (f10 : S100352.Idx → F .f32) : Prop :=
  ∃ X : Fin 7 → FVec F S100x16384 .f32,
    (∀ (t : Fin 7) (f : Fin 100) (col : Fin 16384) (h : 16384 * t.val + col.val < 100000), X t (ix2 f col) = X9 (ix2 f ⟨16384 * t.val + col.val, h⟩))
    ∧ ∀ (t : Fin 7) (col : Fin 16384) (h : 16384 * t.val + col.val < 100352), f10 (ix1 ⟨16384 * t.val + col.val, h⟩) = k2_pay1 W3 (X t) (ix1 col)

end Cert.KernelIdeal.Vals

end
-- ==== Proof.Shares.lean ====
/-
  Read shares for many readers at once: a share halved `n` times has 2^n leaves, and a points-to at the share
  is the separating conjunction of the points-to's at its leaves.  The 32 tiles of a SparseCore call each read
  the same arrays whole; each is handed one leaf of depth 5.
-/
import Idealize.ShloMosaic.Lib.SparseCore.Launch

noncomputable section

namespace Cert.Proof.Shares

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Leaf `i` of the depth-`n` halving of the share `q`: the first 2^n leaves lie in the left half. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Leaves of depth `n + 1` are the leaves of the two halves. -/
def halves (n : ℕ) : Fin (2 ^ n) ⊕ Fin (2 ^ n) ≃ Fin (2 ^ (n + 1)) := finSumFinEquiv.trans (finCongr (by omega))

theorem halves_inl (n : ℕ) (i : Fin (2 ^ n)) : (halves n (Sum.inl i)).val = i.val := by simp [halves]
theorem halves_inr (n : ℕ) (i : Fin (2 ^ n)) : (halves n (Sum.inr i)).val = 2 ^ n + i.val := by simp [halves]; omega

theorem leaf_inl (n : ℕ) (q : PosShare TreeShare) (i : Fin (2 ^ n)) : leaf (n + 1) q (halves n (Sum.inl i)) = leaf n q.left i := by
  have h : (halves n (Sum.inl i)).val < 2 ^ n := by rw [halves_inl]; exact i.isLt
  have e : (⟨(halves n (Sum.inl i)).val, h⟩ : Fin (2 ^ n)) = i := Fin.ext (halves_inl n i)
  rw [leaf, dif_pos h, e]
theorem leaf_inr (n : ℕ) (q : PosShare TreeShare) (i : Fin (2 ^ n)) : leaf (n + 1) q (halves n (Sum.inr i)) = leaf n q.right i := by
  have h : ¬(halves n (Sum.inr i)).val < 2 ^ n := by rw [halves_inr]; omega
  have e : (⟨(halves n (Sum.inr i)).val - 2 ^ n, by have := (halves n (Sum.inr i)).isLt; omega⟩ : Fin (2 ^ n)) = i :=
    Fin.ext (by simp only [halves_inr]; omega)
  rw [leaf, dif_neg h, e]

/-- A points-to at a share is all its leaves' at once. -/
theorem pointsTo_leaves {ℓ : Loc nD τ sig} (I : Finset (Idx ℓ)) (f : Buf Val ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (halves n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

end Cert.Proof.Shares

end
-- ==== Proof.PayM.lean ====
/-
  What the two SparseCore calls hand their tiles and get back.
  Call 0 adds to the bias the entry of the projected user table each user id selects; call 1 adds to that the
  entry of the projected course table each course id selects.  Tile (c, s) works on batch rows
  [512·(2s + c), 512·(2s + c) + 512).  Every tile reads the ids, the table and the base array whole, through a
  thirty-second share; it owns its 512 rows of the output array.  A call's operands for one SparseCore are its
  sixteen tiles' operands side by side, so the split among the tiles is the identity.
-/
import proofs.«204913_g64682207478566_cont_9to1c4b_713_31_alg».proof.Proof.Common
import proofs.«204913_g64682207478566_cont_9to1c4b_713_31_alg».proof.Proof.Vals
import proofs.«204913_g64682207478566_cont_9to1c4b_713_31_alg».proof.Proof.Shares

noncomputable section

namespace Cert.KernelIdeal.PayM

open Cert.KernelIdeal Cert.KernelIdeal.Gen Cert.KernelIdeal.Common Cert.KernelIdeal.Vals

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Shares

variable {F : FTy → Type} [FloatOps F]

local notation "𝕄" => 𝕄F F

variable (m : (ℓ : Loc nD τ sig) → Buf (Elt F) ℓ)

/-- A TensorCore buffer's location on device `d`. -/
abbrev loc (d : Dev nD) (b : Ref sig .tc) : Loc nD τ sig := (SparseCore.T d).loc b

/-! ## The host operations' values -/

/-- The first half of the weight column as a row. -/
def W1 (d : Dev nD) : FVec F S1x100 .f32 :=
  transpose S1x100 [1, 0] (extractStridedSlice S100x1 ![0, 0] (m (loc d main_arg4) : FVec F S200x1 .f32) slices_S200x1_S100x1_0_0) transposes_S100x1_S1x100_1_0
/-- The second half of the weight column as a row. -/
def W3 (d : Dev nD) : FVec F S1x100 .f32 :=
  transpose S1x100 [1, 0] (extractStridedSlice S100x1 ![100, 0] (m (loc d main_arg4) : FVec F S200x1 .f32) slices_S200x1_S100x1_100_0) transposes_S100x1_S1x100_1_0
/-- The user table transposed. -/
def X4 (d : Dev nD) : FVec F S100x1000000 .f32 :=
  transpose S100x1000000 [1, 0] (m (loc d main_arg2) : FVec F S1000000x100 .f32) transposes_S1000000x100_S100x1000000_1_0
/-- The course table transposed. -/
def X9 (d : Dev nD) : FVec F S100x100000 .f32 :=
  transpose S100x100000 [1, 0] (m (loc d main_arg3) : FVec F S100000x100 .f32) transposes_S100000x100_S100x100000_1_0
/-- The bias, broadcast over the batch. -/
def B7 (d : Dev nD) : FVec F S16384 .f32 :=
  broadcastInDim S16384 ![0] bcast_S1_S16384_0 (m (loc d main_arg5) : FVec F S1 .f32)

/-- The projected user table as the gather sees it: region 0's output reshaped to 128 lanes. -/
def Tbl6 (d : Dev nD) (tbl : FVec F S7816x128 .f32) : Prop :=
  ∃ f5 : FVec F S1000448 .f32, Reg0Val (W1 m d) (X4 m d) f5 ∧ tbl = shapeCast S7816x128 f5 shapeCasts_S1000448_S7816x128
/-- The projected course table as the gather sees it. -/
def Tbl11 (d : Dev nD) (tbl : FVec F S784x128 .f32) : Prop :=
  ∃ f10 : FVec F S100352 .f32, Reg1Val (W3 m d) (X9 m d) f10 ∧ tbl = shapeCast S784x128 f10 shapeCasts_S100352_S784x128

/-! ## Tiles -/

/-- The grid coordinates of tile `(c, s)`. -/
def coords (c : Fin 2) (s : Fin 16) : grid1.Coords :=
  fun | 0 => c | 1 => s | ⟨_ + 2, h⟩ => absurd h (Nat.not_lt.2 (Nat.le_add_left _ _))

/-- The tile's number among the 32. -/
def wid (c : Fin 2) (s : Fin 16) : Fin (2 ^ 5) := ⟨2 * s.val + c.val, by have := c.isLt; have := s.isLt; omega⟩

/-- A tile's share of an array all tiles read. -/
abbrev lf (q : PosShare TreeShare) (c : Fin 2) (s : Fin 16) : PosShare TreeShare := leaf 5 q (wid c s)

/-- The tile's 512 rows of a batch-sized array. -/
abbrev rowSet (L : grid1.Coords) : Finset S16384.Idx :=
  ((Memref.whole (main_v8_scv : Ref sig .scVector) : Memref sig .scVector .hbm S16384 .f32).view.slice (Rect.unit (s := S16384) (k1_off1 L) S512.size (k1_off1_inb L))).set

/-- Call 0's result on a tile's rows. -/
def Acc8 (d : Dev nD) (L : grid1.Coords) (f : FVec F S16384 .f32) : Prop :=
  ∃ tbl, Tbl6 m d tbl ∧ TileVal (R := 7816) (by decide) L (m (loc d main_arg0) : IVec S16384 32) (B7 m d) tbl f
/-- Call 0's result on every tile's rows. -/
def Acc8All (d : Dev nD) (f : FVec F S16384 .f32) : Prop := ∀ c s, Acc8 m d (coords c s) f
/-- Call 1's result on a tile's rows. -/
def Out12 (d : Dev nD) (L : grid1.Coords) (f : FVec F S16384 .f32) : Prop :=
  ∃ tbl bs, Tbl11 m d tbl ∧ Acc8All m d bs ∧ TileVal (R := 784) (by decide) L (m (loc d main_arg1) : IVec S16384 32) bs tbl f
/-- Call 1's result on every tile's rows. -/
def Out12All (d : Dev nD) (f : FVec F S16384 .f32) : Prop := ∀ c s, Out12 m d (coords c s) f

/-- What tile `(c, s)` is handed at call 0. -/
def go0 (d : Dev nD) (c : Fin 2) (s : Fin 16) : sProp 𝕄 :=
  iprop((loc d main_arg0 ↦{lf fullShare.right c s} m (loc d main_arg0))
    ∗ (∃ tbl : Buf (Elt F) (loc d main_v6), (loc d main_v6 ↦{lf fullShare c s} tbl) ∗ ⌜Tbl6 m d tbl⌝)
    ∗ (loc d main_v7 ↦{lf fullShare c s} (B7 m d : Buf (Elt F) (loc d main_v7)))
    ∗ (loc d main_v8 ↦[rowSet (coords c s)]{fullShare} m (loc d main_v8)))
/-- What it hands back. -/
def td0 (d : Dev nD) (c : Fin 2) (s : Fin 16) : sProp 𝕄 :=
  iprop(∃ f : Buf (Elt F) (loc d main_v8), (loc d main_v8 ↦[rowSet (coords c s)]{fullShare} f) ∗ ⌜Acc8 m d (coords c s) f⌝)
/-- What tile `(c, s)` is handed at call 1. -/
def go1 (d : Dev nD) (c : Fin 2) (s : Fin 16) : sProp 𝕄 :=
  iprop((loc d main_arg1 ↦{lf fullShare.right c s} m (loc d main_arg1))
    ∗ (∃ tbl : Buf (Elt F) (loc d main_v11), (loc d main_v11 ↦{lf fullShare c s} tbl) ∗ ⌜Tbl11 m d tbl⌝)
    ∗ (∃ bs : Buf (Elt F) (loc d main_v8), (loc d main_v8 ↦{lf fullShare c s} bs) ∗ ⌜Acc8All m d bs⌝)
    ∗ (loc d main_v12 ↦[rowSet (coords c s)]{fullShare} m (loc d main_v12)))
/-- What it hands back. -/
def td1 (d : Dev nD) (c : Fin 2) (s : Fin 16) : sProp 𝕄 :=
  iprop(∃ f : Buf (Elt F) (loc d main_v12), (loc d main_v12 ↦[rowSet (coords c s)]{fullShare} f) ∗ ⌜Out12 m d (coords c s) f⌝)

/-- The calls' operands and results. -/
def P : (K (F := F)).Pay (nD := nD) (Val := Elt F) (Name := ℕ) (U := UU) where
  go := fun q d c i => match q with
    | 0 => go0 m d (Fin.cast (nCore_eq 0) c) (Fin.cast (nSub_eq 0) i)
    | 1 => go1 m d (Fin.cast (nCore_eq 1) c) (Fin.cast (nSub_eq 1) i)
  td := fun q d c i => match q with
    | 0 => td0 m d (Fin.cast (nCore_eq 0) c) (Fin.cast (nSub_eq 0) i)
    | 1 => td1 m d (Fin.cast (nCore_eq 1) c) (Fin.cast (nSub_eq 1) i)
  st := fun q d c => match q with
    | 0 => bigSep Finset.univ fun i : Fin ((K (F := F)).nSub 0) => go0 m d (Fin.cast (nCore_eq 0) c) (Fin.cast (nSub_eq 0) i)
    | 1 => bigSep Finset.univ fun i : Fin ((K (F := F)).nSub 1) => go1 m d (Fin.cast (nCore_eq 1) c) (Fin.cast (nSub_eq 1) i)
  dn := fun q d c => match q with
    | 0 => bigSep Finset.univ fun i : Fin ((K (F := F)).nSub 0) => td0 m d (Fin.cast (nCore_eq 0) c) (Fin.cast (nSub_eq 0) i)
    | 1 => bigSep Finset.univ fun i : Fin ((K (F := F)).nSub 1) => td1 m d (Fin.cast (nCore_eq 1) c) (Fin.cast (nSub_eq 1) i)
  x := fun _ _ => iprop(emp)

instance P_storable : (P (F := F) m).IsStorable where
  st q d c := match q with
    | 0 => by unfold P go0; infer_instance
    | 1 => by unfold P go1; infer_instance
  dn q d c := match q with
    | 0 => by unfold P td0; infer_instance
    | 1 => by unfold P td1; infer_instance
  go q d c i := match q with
    | 0 => by unfold P go0; infer_instance
    | 1 => by unfold P go1; infer_instance
  td q d c i := match q with
    | 0 => by unfold P td0; infer_instance
    | 1 => by unfold P td1; infer_instance

/-- A SparseCore's operands are its tiles' operands: the split is the identity. -/
theorem vecSplit (q : Fin 2) : (K (F := F)).VecSplit' (P m) q := by
  intro d c
  match q with
  | 0 =>
    show (bigSep Finset.univ fun i : Fin ((K (F := F)).nSub 0) => go0 m d (Fin.cast (nCore_eq 0) c) (Fin.cast (nSub_eq 0) i)) ⊢ |={Set.univ}=> iprop(
      (bigSep Finset.univ fun i : Fin ((K (F := F)).nSub 0) => go0 m d (Fin.cast (nCore_eq 0) c) (Fin.cast (nSub_eq 0) i))
      ∗ ((bigSep Finset.univ fun i : Fin ((K (F := F)).nSub 0) => td0 m d (Fin.cast (nCore_eq 0) c) (Fin.cast (nSub_eq 0) i))
          -∗ bigSep Finset.univ fun i : Fin ((K (F := F)).nSub 0) => td0 m d (Fin.cast (nCore_eq 0) c) (Fin.cast (nSub_eq 0) i)))
    iintro H; imodintro
    isplitl [H]; · iexact H
    iintro H; iexact H
  | 1 =>
    show (bigSep Finset.univ fun i : Fin ((K (F := F)).nSub 1) => go1 m d (Fin.cast (nCore_eq 1) c) (Fin.cast (nSub_eq 1) i)) ⊢ |={Set.univ}=> iprop(
      (bigSep Finset.univ fun i : Fin ((K (F := F)).nSub 1) => go1 m d (Fin.cast (nCore_eq 1) c) (Fin.cast (nSub_eq 1) i))
      ∗ ((bigSep Finset.univ fun i : Fin ((K (F := F)).nSub 1) => td1 m d (Fin.cast (nCore_eq 1) c) (Fin.cast (nSub_eq 1) i))
          -∗ bigSep Finset.univ fun i : Fin ((K (F := F)).nSub 1) => td1 m d (Fin.cast (nCore_eq 1) c) (Fin.cast (nSub_eq 1) i)))
    iintro H; imodintro
    isplitl [H]; · iexact H
    iintro H; iexact H

end Cert.KernelIdeal.PayM

end
-- ==== Proof.TileObl.lean ====
/-
  The two SparseCore kernels' tasks as the launch theorem asks for them, from the proof of one tile's body.
  The body's proof is stated for any shares of the arrays the tile reads and for the tile's own rows of the
  output; here it is met with what the call hands the tile, and its result is packed as what the tile hands back.
-/
import proofs.«204913_g64682207478566_cont_9to1c4b_713_31_alg».proof.Proof.PayM

noncomputable section

namespace Cert.KernelIdeal.TileObl

open Cert.KernelIdeal Cert.KernelIdeal.Gen Cert.KernelIdeal.Common Cert.KernelIdeal.Vals Cert.KernelIdeal.PayM

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => 𝕄F F

abbrev cV (L : grid1.Coords) : Fin τ.nSC := (L 0).castLE hcore1
abbrev jV (L : grid1.Coords) : Fin τ.nSub := (L 1).castLE hsub1

/-- One tile's task of kernel 1, proved: from read shares of the ids, the table and the base array and the tile's
    rows of the output, to the same with the rows at base plus selected table entry. -/
abbrev Body1 (F : FTy → Type) [FloatOps F] : Prop :=
  ∀ (d : Dev nD) (L : grid1.Coords) (qi qt qb : PosShare TreeShare)
    (ids : Buf (Elt F) (loc d main_arg0)) (tbl : Buf (Elt F) (loc d main_v6)) (bs : Buf (Elt F) (loc d main_v7)) (o0 : Buf (Elt F) (loc d main_v8))
    (_hin : ∀ j, ((ids : IVec S16384 32) j).toNat ≤ 999999) (O : CellTallies nD τ sig (HIx 2)) (W : Waits sig (HIx 2)) (_hO : ∀ g, O g none = 0),
    iprop(levAts (K (F := F)).L (K (F := F)).lev ∗ emp
        ∗ ((loc d main_arg0 ↦{qi} ids) ∗ (loc d main_v6 ↦{qt} tbl) ∗ (loc d main_v7 ↦{qb} bs) ∗ (loc d main_v8 ↦[rowSet L]{fullShare} o0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_gather_body L (Memref.whole main_arg0_scv) (Memref.isWhole_whole _) (Memref.whole main_v6_scv) (Memref.isWhole_whole _)
            (Memref.whole main_v7_scv) (Memref.isWhole_whole _) (Memref.whole main_v8_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) cc1_scratch7 cc1_scratch8 cc1_scoped0 cc1_scoped1 cc1_scoped2)
          fun _ => iprop(((loc d main_arg0 ↦{qi} ids) ∗ (loc d main_v6 ↦{qt} tbl) ∗ (loc d main_v7 ↦{qb} bs)
              ∗ ∃ f : Buf (Elt F) (loc d main_v8), (loc d main_v8 ↦[rowSet L]{fullShare} f)
                  ∗ ⌜TileVal (R := 7816) (by decide) L (ids : IVec S16384 32) (bs : FVec F S16384 .f32) (tbl : FVec F S7816x128 .f32) (f : FVec F S16384 .f32)⌝)
            ∗ scopedBufs (V d (cV L) (jV L)) ∗ scopedSems0 (V d (cV L) (jV L))
            ∗ ∃ W', ⌜∀ p ∈ W', p ∈ W ∨ p.2 = none⌝ ∗ owes (V d (cV L) (jV L)) O W') : sProp (𝕄F F))

/-- One tile's task of kernel 3, proved: the same over the course ids, the course table, call 0's result and the
    final output. -/
abbrev Body3 (F : FTy → Type) [FloatOps F] : Prop :=
  ∀ (d : Dev nD) (L : grid1.Coords) (qi qt qb : PosShare TreeShare)
    (ids : Buf (Elt F) (loc d main_arg1)) (tbl : Buf (Elt F) (loc d main_v11)) (bs : Buf (Elt F) (loc d main_v8)) (o0 : Buf (Elt F) (loc d main_v12))
    (_hin : ∀ j, ((ids : IVec S16384 32) j).toNat ≤ 99999) (O : CellTallies nD τ sig (HIx 2)) (W : Waits sig (HIx 2)) (_hO : ∀ g, O g none = 0),
    iprop(levAts (K (F := F)).L (K (F := F)).lev ∗ emp
        ∗ ((loc d main_arg1 ↦{qi} ids) ∗ (loc d main_v11 ↦{qt} tbl) ∗ (loc d main_v8 ↦{qb} bs) ∗ (loc d main_v12 ↦[rowSet L]{fullShare} o0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc3__sc_gather_body L (Memref.whole main_arg1_scv) (Memref.isWhole_whole _) (Memref.whole main_v11_scv) (Memref.isWhole_whole _)
            (Memref.whole main_v8_scv) (Memref.isWhole_whole _) (Memref.whole main_v12_scv) (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) cc3_scratch7 cc3_scratch8 cc3_scoped0 cc3_scoped1 cc3_scoped2)
          fun _ => iprop(((loc d main_arg1 ↦{qi} ids) ∗ (loc d main_v11 ↦{qt} tbl) ∗ (loc d main_v8 ↦{qb} bs)
              ∗ ∃ f : Buf (Elt F) (loc d main_v12), (loc d main_v12 ↦[rowSet L]{fullShare} f)
                  ∗ ⌜TileVal (R := 784) (by decide) L (ids : IVec S16384 32) (bs : FVec F S16384 .f32) (tbl : FVec F S784x128 .f32) (f : FVec F S16384 .f32)⌝)
            ∗ scopedBufs (V d (cV L) (jV L)) ∗ scopedSems0 (V d (cV L) (jV L))
            ∗ ∃ W', ⌜∀ p ∈ W', p ∈ W ∨ p.2 = none⌝ ∗ owes (V d (cV L) (jV L)) O W') : sProp (𝕄F F))

variable (m : (ℓ : Loc nD τ sig) → Buf (Elt F) ℓ)

/-- What the proof asks of the launch memory: the ids name rows of their tables. -/
def PreOK : Prop :=
  (∀ (d : Dev nD) j, ((m (loc d main_arg0) : IVec S16384 32) j).toNat ≤ 999999) ∧ (∀ (d : Dev nD) j, ((m (loc d main_arg1) : IVec S16384 32) j).toNat ≤ 99999)

theorem defs₀_k1 (c : Fin τ.nSC) (s : Fin τ.nSub) :
    defs₀ (F := F) (.scVector c s) 1 ()
      = SparseCore.onTile hcore1 hsub1 (fun c s => cc1__sc_gather_body (fun | 0 => c | 1 => s | ⟨_ + 2, h⟩ => absurd h (Nat.not_lt.2 (Nat.le_add_left _ _)))
          (Memref.whole main_arg0_scv) (Memref.isWhole_whole _) (Memref.whole main_v6_scv) (Memref.isWhole_whole _)
          (Memref.whole main_v7_scv) (Memref.isWhole_whole _) (Memref.whole main_v8_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _) cc1_scratch7 cc1_scratch8 cc1_scoped0 cc1_scoped1 cc1_scoped2) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem td0_intro (d : Dev nD) (c : Fin 2) (s : Fin 16) (f : Buf (Elt F) (loc d main_v8)) (h : Acc8 m d (coords c s) f) :
    (loc d main_v8 ↦[rowSet (coords c s)]{fullShare} f : sProp 𝕄) ⊢ td0 m d c s := by
  unfold td0
  iintro H
  iexists f; isplitl [H]; · iexact H
  ipureintro; exact h

theorem td1_intro (d : Dev nD) (c : Fin 2) (s : Fin 16) (f : Buf (Elt F) (loc d main_v12)) (h : Out12 m d (coords c s) f) :
    (loc d main_v12 ↦[rowSet (coords c s)]{fullShare} f : sProp 𝕄) ⊢ td1 m d c s := by
  unfold td1
  iintro H
  iexists f; isplitl [H]; · iexact H
  ipureintro; exact h

set_option maxRecDepth 16384 in
theorem tileObl0 (hb : Body1 F) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_k1]; simp only [SparseCore.onTile, hci, and_self, ↓reduceDIte]
  show iprop(levAts (K (F := F)).L (K (F := F)).lev ∗ emp ∗ go0 m d (Fin.cast (nCore_eq 0) c) (Fin.cast (nSub_eq 0) i) ∗ _ ∗ _ ∗ _) ⊢ _
  unfold go0
  iintro ⟨#Hlv, -, ⟨Hi, ⟨%tbl, Ht, %hT⟩, Hb, Ho⟩, Hbufs, Hsems, HO⟩
  iapply (wp_mono frame _ _ fun _ => obl_post (q := (0 : Fin 2)))
  iapply (wp_wand_r frame _ Set.univ)
  isplitl [Hi Ht Hb Ho Hbufs Hsems HO]
  · iapply (hb d (coords (Fin.cast (nCore_eq 0) c) (Fin.cast (nSub_eq 0) i)) _ _ _ _ tbl _ _ (hpre.1 d) O W hO)
    isplitr; · iexact Hlv
    isplitr; · iempintro
    isplitl [Hi Ht Hb Ho]
    · isplitl [Hi]; · iexact Hi
      isplitl [Ht]; · iexact Ht
      isplitl [Hb]; · iexact Hb
      iexact Ho
    isplitl [Hbufs]; · iexact Hbufs
    isplitl [Hsems]; · iexact Hsems
    iexact HO
  iintro %_ ⟨⟨-, -, -, %f, Hf, %hf⟩, Hbufs, Hsems, HW⟩
  isplitl [Hf]
  · iapply (show (loc d main_v8 ↦[rowSet (coords (Fin.cast (nCore_eq 0) c) (Fin.cast (nSub_eq 0) i))]{fullShare} f : sProp 𝕄) ⊢ (P m).td 0 d c i from
      td0_intro m d _ _ f ⟨tbl, hT, hf⟩)
    iexact Hf
  isplitl [Hbufs]; · iexact Hbufs
  isplitl [Hsems]; · iexact Hsems
  iexact HW

theorem defs₀_k3 (c : Fin τ.nSC) (s : Fin τ.nSub) :
    defs₀ (F := F) (.scVector c s) 3 ()
      = SparseCore.onTile hcore3 hsub3 (fun c s => cc3__sc_gather_body (fun | 0 => c | 1 => s | ⟨_ + 2, h⟩ => absurd h (Nat.not_lt.2 (Nat.le_add_left _ _)))
          (Memref.whole main_arg1_scv) (Memref.isWhole_whole _) (Memref.whole main_v11_scv) (Memref.isWhole_whole _)
          (Memref.whole main_v8_scv) (Memref.isWhole_whole _) (Memref.whole main_v12_scv) (Memref.isWhole_whole _)
          (Memref.whole cc3_scratch0) (Memref.isWhole_whole _) (Memref.whole cc3_scratch1) (Memref.isWhole_whole _)
          (Memref.whole cc3_scratch2) (Memref.isWhole_whole _) (Memref.whole cc3_scratch3) (Memref.isWhole_whole _)
          (Memref.whole cc3_scratch4) (Memref.isWhole_whole _) (Memref.whole cc3_scratch5) (Memref.isWhole_whole _)
          (Memref.whole cc3_scratch6) (Memref.isWhole_whole _) cc3_scratch7 cc3_scratch8 cc3_scoped0 cc3_scoped1 cc3_scoped2) ⟨⟩ c s := rfl

set_option maxRecDepth 16384 in
theorem tileObl1 (hb : Body3 F) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_k3]; simp only [SparseCore.onTile, hci, and_self, ↓reduceDIte]
  show iprop(levAts (K (F := F)).L (K (F := F)).lev ∗ emp ∗ go1 m d (Fin.cast (nCore_eq 1) c) (Fin.cast (nSub_eq 1) i) ∗ _ ∗ _ ∗ _) ⊢ _
  unfold go1
  iintro ⟨#Hlv, -, ⟨Hi, ⟨%tbl, Ht, %hT⟩, ⟨%bs, Hb, %hB⟩, Ho⟩, Hbufs, Hsems, HO⟩
  iapply (wp_mono frame _ _ fun _ => obl_post (q := (1 : Fin 2)))
  iapply (wp_wand_r frame _ Set.univ)
  isplitl [Hi Ht Hb Ho Hbufs Hsems HO]
  · iapply (hb d (coords (Fin.cast (nCore_eq 1) c) (Fin.cast (nSub_eq 1) i)) _ _ _ _ tbl bs _ (hpre.2 d) O W hO)
    isplitr; · iexact Hlv
    isplitr; · iempintro
    isplitl [Hi Ht Hb Ho]
    · isplitl [Hi]; · iexact Hi
      isplitl [Ht]; · iexact Ht
      isplitl [Hb]; · iexact Hb
      iexact Ho
    isplitl [Hbufs]; · iexact Hbufs
    isplitl [Hsems]; · iexact Hsems
    iexact HO
  iintro %_ ⟨⟨-, -, -, %f, Hf, %hf⟩, Hbufs, Hsems, HW⟩
  isplitl [Hf]
  · iapply (show (loc d main_v12 ↦[rowSet (coords (Fin.cast (nCore_eq 1) c) (Fin.cast (nSub_eq 1) i))]{fullShare} f : sProp 𝕄) ⊢ (P m).td 1 d c i from
      td1_intro m d _ _ f ⟨tbl, bs, hT, hB, hf⟩)
    iexact Hf
  isplitl [Hbufs]; · iexact Hbufs
  isplitl [Hsems]; · iexact Hsems
  iexact HW

end Cert.KernelIdeal.TileObl

end
-- ==== Proof.HloStep.lean ====
/-
  One host operation run on buffers held one by one: a unary operation reads its operand at any share and
  overwrites its result buffer, held whole; a reshape likewise.  (The library's rule is stated over a valuation of
  all buffers; here the valuation is the launch one, updated at the two buffers.)
-/
import Idealize.ShloMosaic.Lib.StableHlo.Run

noncomputable section

namespace Cert.Proof.HloStep

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {α : Type}

/-- A host operation on two buffers `x ≠ y` that writes `y` only, at a valuation with `x` at `cx` and `y` at `cy`. -/
theorem wp_two {hp : c.2.kind.runsHlo = true} (op : HloOp τ sig Val) (x y : DevRef τ sig) (hxy : x ≠ y)
    (hb : op.bufs = {x, y}) (hw : op.writes = {y}) (hf : op.fresh = ∅)
    (V₀ : Valuation τ sig Val) (qx : PosShare TreeShare) (cx : x.ty.Contents Val) (cy : y.ty.Contents Val) (ry : y.ty.Contents Val)
    (hr : ∀ F : Valuation τ sig Val, F x = cx → op.result F y = ry)
    {k : Prog (TpuEff nD τ sig Val Λ c.2) α} {Q : α → sProp 𝕄} :
    iprop(boundary c ∗ (((c.1, x) : Loc nD τ sig) ↦{qx} cx) ∗ (((c.1, y) : Loc nD τ sig) ↦{fullShare} cy))
      ⊢ iprop(((boundary c ∗ (((c.1, x) : Loc nD τ sig) ↦{qx} cx) ∗ (((c.1, y) : Loc nD τ sig) ↦{fullShare} ry))
              -∗ wp frame (wpE defs 𝒱 c bd) E k Q)
        -∗ wp frame (wpE defs 𝒱 c bd) E (hlo hp op fun _ => k) Q) := by
  classical
  let F : Valuation τ sig Val := Function.update (Function.update V₀ x cx) y cy
  have hFy : F y = cy := Function.update_self ..
  have hFx : F x = cx := by
    show Function.update (Function.update V₀ x cx) y cy x = cx
    rw [Function.update_of_ne hxy, Function.update_self]
  let q : DevRef τ sig → PosShare TreeShare := fun b => if b = y then fullShare else qx
  have hqy : q y = fullShare := if_pos rfl
  have hqx : q x = qx := if_neg hxy
  have hxn : x ∉ ({y} : Finset (DevRef τ sig)) := fun h => hxy (Finset.mem_singleton.mp h)
  have e1 : (bigSep op.bufs fun b => (((c.1, b) : Loc nD τ sig) ↦{q b} F b : sProp 𝕄))
      = iprop((((c.1, x) : Loc nD τ sig) ↦{qx} cx) ∗ (((c.1, y) : Loc nD τ sig) ↦{fullShare} cy)) := by
    rw [hb, bigSep_insert hxn, bigSep_singleton, hqx, hqy, hFx, hFy]; rfl
  have hrx : op.result F x = cx := by rw [op.result_of_not_mem F (by rw [hw]; exact hxn), hFx]
  have e2 : (bigSep op.bufs fun b => (((c.1, b) : Loc nD τ sig) ↦{q b} op.result F b : sProp 𝕄))
      = iprop((((c.1, x) : Loc nD τ sig) ↦{qx} cx) ∗ (((c.1, y) : Loc nD τ sig) ↦{fullShare} ry)) := by
    rw [hb, bigSep_insert hxn, bigSep_singleton, hqx, hqy, hrx, hr F hFx]; rfl
  iintro ⟨Hb, Hx, Hy⟩ Hk
  iapply (wp_hlo 𝒱 c bd E (op := op) (q := q) (F := F) (fun b hbw => by rw [hw] at hbw; rw [Finset.mem_singleton.mp hbw]; exact hqy) hf) $$ [Hb Hx Hy]
  · isplitl [Hb]; · iexact Hb
    rw [e1]
    isplitl [Hx]; · iexact Hx
    iexact Hy
  rw [e2]
  iintro ⟨Hb, Hx, Hy⟩
  iapply Hk
  isplitl [Hb]; · iexact Hb
  isplitl [Hx]; · iexact Hx
  iexact Hy

/-- A unary host operation: the operand at any share, the result buffer whole. -/
theorem wp_unary {hp : c.2.kind.runsHlo = true} (x y : Ref sig .tc) (f : x.ty.Contents Val → y.ty.Contents Val) (hx hy) (hxy : x ≠ y)
    (V₀ : Valuation τ sig Val) (qx : PosShare TreeShare) (cx : x.ty.Contents Val) (cy : y.ty.Contents Val)
    {k : Prog (TpuEff nD τ sig Val Λ c.2) α} {Q : α → sProp 𝕄} :
    iprop(boundary c ∗ (((c.1, Proc.devRef .tc x) : Loc nD τ sig) ↦{qx} cx) ∗ (((c.1, Proc.devRef .tc y) : Loc nD τ sig) ↦{fullShare} cy))
      ⊢ iprop(((boundary c ∗ (((c.1, Proc.devRef .tc x) : Loc nD τ sig) ↦{qx} cx) ∗ (((c.1, Proc.devRef .tc y) : Loc nD τ sig) ↦{fullShare} f cx))
              -∗ wp frame (wpE defs 𝒱 c bd) E k Q)
        -∗ wp frame (wpE defs 𝒱 c bd) E (hlo hp (StableHlo.unary x y f hx hy) fun _ => k) Q) :=
  wp_two 𝒱 c bd E (StableHlo.unary x y f hx hy) (Proc.devRef .tc x) (Proc.devRef .tc y) (fun e => hxy (Proc.devRef_injective _ e)) rfl rfl rfl V₀ qx cx cy (f cx)
    (fun F h => by rw [StableHlo.unary_result, h])

/-- A reshape: the operand at any share, the result buffer whole. -/
theorem wp_reshape {hp : c.2.kind.runsHlo = true} (x y : Ref sig .tc) (he : x.ty.elt = y.ty.elt) (hn : x.ty.shape.ShapeCasts y.ty.shape) (hx hy) (hxy : x ≠ y)
    (V₀ : Valuation τ sig Val) (qx : PosShare TreeShare) (cx : x.ty.Contents Val) (cy : y.ty.Contents Val)
    {k : Prog (TpuEff nD τ sig Val Λ c.2) α} {Q : α → sProp 𝕄} :
    iprop(boundary c ∗ (((c.1, Proc.devRef .tc x) : Loc nD τ sig) ↦{qx} cx) ∗ (((c.1, Proc.devRef .tc y) : Loc nD τ sig) ↦{fullShare} cy))
      ⊢ iprop(((boundary c ∗ (((c.1, Proc.devRef .tc x) : Loc nD τ sig) ↦{qx} cx)
                  ∗ (((c.1, Proc.devRef .tc y) : Loc nD τ sig) ↦{fullShare} (fun i => he ▸ shapeCast y.ty.shape cx hn i)))
              -∗ wp frame (wpE defs 𝒱 c bd) E k Q)
        -∗ wp frame (wpE defs 𝒱 c bd) E (hlo hp (StableHlo.reshape x y he hn hx hy) fun _ => k) Q) :=
  wp_two 𝒱 c bd E (StableHlo.reshape x y he hn hx hy) (Proc.devRef .tc x) (Proc.devRef .tc y) (fun e => hxy (Proc.devRef_injective _ e)) rfl rfl rfl V₀ qx cx cy _
    (fun F h => by rw [StableHlo.reshape_result, h])

end Cert.Proof.HloStep

end
-- ==== Proof.HMain.lean ====
/-
  @main on the TensorCore, through the launch theorem's eyes: five host operations, TensorCore region 0, a reshape
  and the bias broadcast, SparseCore call 0, a transpose, TensorCore region 1, a reshape, SparseCore call 1.
  The arrays are held one by one.  Of each id array the TensorCore keeps a half share for itself and hands the
  other half to the call's tiles; the tables, the bias and call 0's result it hands out whole.  What comes back
  from a call is the result array with the pure fact about its contents.
-/
import proofs.«204913_g64682207478566_cont_9to1c4b_713_31_alg».proof.Proof.PayM
import proofs.«204913_g64682207478566_cont_9to1c4b_713_31_alg».proof.Proof.HloStep
import proofs.«204913_g64682207478566_cont_9to1c4b_713_31_alg».proof.Proof.Gen.KernelIdeal.Launch

noncomputable section

namespace Cert.KernelIdeal.HMain

open Cert.KernelIdeal Cert.KernelIdeal.Gen Cert.KernelIdeal.Common Cert.KernelIdeal.Vals Cert.KernelIdeal.PayM

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Shares

variable {F : FTy → Type} [FloatOps F]

local notation "𝕄" => 𝕄F F

variable (m : (ℓ : Loc nD τ sig) → Buf (Elt F) ℓ) (ρ : Dev nD → PrngReg)

/-- The TensorCore's arrays, one by one. -/
theorem unscopedBufs_eq (d : Dev nD) (W : (b : Ref sig .tc) → Buf (Elt F) ((d.tc : Thread nD τ).loc b)) :
    (unscopedBufs d W : sProp 𝕄) = iprop((loc d main_arg0 ↦{fullShare} W main_arg0) ∗ (loc d main_arg1 ↦{fullShare} W main_arg1)
      ∗ (loc d main_arg2 ↦{fullShare} W main_arg2) ∗ (loc d main_arg3 ↦{fullShare} W main_arg3) ∗ (loc d main_arg4 ↦{fullShare} W main_arg4)
      ∗ (loc d main_arg5 ↦{fullShare} W main_arg5) ∗ (loc d main_v0 ↦{fullShare} W main_v0) ∗ (loc d main_v1 ↦{fullShare} W main_v1)
      ∗ (loc d main_v2 ↦{fullShare} W main_v2) ∗ (loc d main_v3 ↦{fullShare} W main_v3) ∗ (loc d main_v4 ↦{fullShare} W main_v4)
      ∗ (loc d main_v5 ↦{fullShare} W main_v5) ∗ (loc d main_v6 ↦{fullShare} W main_v6) ∗ (loc d main_v7 ↦{fullShare} W main_v7)
      ∗ (loc d main_v8 ↦{fullShare} W main_v8) ∗ (loc d main_v9 ↦{fullShare} W main_v9) ∗ (loc d main_v10 ↦{fullShare} W main_v10)
      ∗ (loc d main_v11 ↦{fullShare} W main_v11) ∗ (loc d main_v12 ↦{fullShare} W main_v12)) := by
  unfold unscopedBufs
  rw [show (Finset.univ.filter fun b : Ref sig .tc => ¬ b.isScoped) = {main_arg0, main_arg1, main_arg2, main_arg3, main_arg4, main_arg5, main_v0, main_v1, main_v2,
      main_v3, main_v4, main_v5, main_v6, main_v7, main_v8, main_v9, main_v10, main_v11, main_v12} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What the TensorCore owes before call `n`, with its bound on the recorded pairs. -/
abbrev tcOwes (d : Dev nD) (n : ℕ) : sProp 𝕄 :=
  iprop(∃ W, ⌜(K (F := F)).WBelow (SparseCore.T d) W (8 * n)⌝ ∗ owes (SparseCore.T d) ((K (F := F)).Otc d n) W)

/-- TensorCore region 0, proved: from the transposed user table, the first weight row and the output array, through the
    62 grid points, to the output array at the blocks' payloads. -/
abbrev Region0 (F : FTy → Type) [FloatOps F] : Prop :=
  ∀ (lv : GSem nD τ sig → HIx 2 → ℕ) (_hlv : (K (F := F)).Refines lv) (d : Dev nD) (X4 : S100x1000000.Idx → F .f32) (W1 : S1x100.Idx → F .f32)
    (Φ : PUnit → sProp (𝕄F F)),
    iprop(levAts (K (F := F)).L lv ∗ boundary (SparseCore.T d) ∗ tcOwes d 0
        ∗ Pipeline.cellsGhost cfgs EP 0 d ∗ Pipeline.toksInit cfgs EP 0 d
        ∗ (loc d main_v4 ↦{fullShare} X4) ∗ (loc d main_v1 ↦{fullShare} W1) ∗ (∃ f, loc d main_v5 ↦{fullShare} f)
        ∗ (∀ f5, ⌜Reg0Val W1 X4 f5⌝ -∗ iprop(boundary (SparseCore.T d) ∗ tcOwes d 0 ∗ (loc d main_v4 ↦{fullShare} X4) ∗ (loc d main_v1 ↦{fullShare} W1)
            ∗ (loc d main_v5 ↦{fullShare} f5)) -∗ Φ ⟨⟩))
      ⊢ wp frame (wpE ((K (F := F)).defs (D (F := F))) 𝒱 (SparseCore.T d) none) Set.univ (Prog.lift (.customCall (SparseCore.inner (Pipeline.entry 0)) ())) Φ

/-- TensorCore region 1, proved. -/
abbrev Region1 (F : FTy → Type) [FloatOps F] : Prop :=
  ∀ (lv : GSem nD τ sig → HIx 2 → ℕ) (_hlv : (K (F := F)).Refines lv) (d : Dev nD) (X9 : S100x100000.Idx → F .f32) (W3 : S1x100.Idx → F .f32)
    (Φ : PUnit → sProp (𝕄F F)),
    iprop(levAts (K (F := F)).L lv ∗ boundary (SparseCore.T d) ∗ tcOwes d 1
        ∗ Pipeline.cellsGhost cfgs EP 1 d ∗ Pipeline.toksInit cfgs EP 1 d
        ∗ (loc d main_v9 ↦{fullShare} X9) ∗ (loc d main_v3 ↦{fullShare} W3) ∗ (∃ f, loc d main_v10 ↦{fullShare} f)
        ∗ (∀ f10, ⌜Reg1Val W3 X9 f10⌝ -∗ iprop(boundary (SparseCore.T d) ∗ tcOwes d 1 ∗ (loc d main_v9 ↦{fullShare} X9) ∗ (loc d main_v3 ↦{fullShare} W3)
            ∗ (loc d main_v10 ↦{fullShare} f10)) -∗ Φ ⟨⟩))
      ⊢ wp frame (wpE ((K (F := F)).defs (D (F := F))) 𝒱 (SparseCore.T d) none) Set.univ (Prog.lift (.customCall (SparseCore.inner (Pipeline.entry 1)) ())) Φ

/-- The split of call `q`'s operands among the tiles, and the join of their results. -/
abbrev Split0 (F : FTy → Type) [FloatOps F] (m : (ℓ : Loc nD τ sig) → Buf (Elt F) ℓ) : Prop :=
  ∀ (d : Dev nD) (tbl : Buf (Elt F) (loc d main_v6)) (_hT : Tbl6 m d tbl),
    iprop((loc d main_arg0 ↦{fullShare.right} m (loc d main_arg0)) ∗ (loc d main_v6 ↦{fullShare} tbl)
        ∗ (loc d main_v7 ↦{fullShare} (B7 m d : Buf (Elt F) (loc d main_v7))) ∗ (loc d main_v8 ↦{fullShare} m (loc d main_v8)))
      ⊢ (bigSep Finset.univ fun c : Fin ((K (F := F)).nCore 0) => (P m).st 0 d c : sProp (𝕄F F))
abbrev Join0 (F : FTy → Type) [FloatOps F] (m : (ℓ : Loc nD τ sig) → Buf (Elt F) ℓ) : Prop :=
  ∀ (d : Dev nD), (bigSep Finset.univ fun c : Fin ((K (F := F)).nCore 0) => (P m).dn 0 d c : sProp (𝕄F F))
      ⊢ iprop(∃ f : Buf (Elt F) (loc d main_v8), (loc d main_v8 ↦{fullShare} f) ∗ ⌜Acc8All m d f⌝)
abbrev Split1 (F : FTy → Type) [FloatOps F] (m : (ℓ : Loc nD τ sig) → Buf (Elt F) ℓ) : Prop :=
  ∀ (d : Dev nD) (tbl : Buf (Elt F) (loc d main_v11)) (_hT : Tbl11 m d tbl) (bs : Buf (Elt F) (loc d main_v8)) (_hB : Acc8All m d bs),
    iprop((loc d main_arg1 ↦{fullShare.right} m (loc d main_arg1)) ∗ (loc d main_v11 ↦{fullShare} tbl)
        ∗ (loc d main_v8 ↦{fullShare} bs) ∗ (loc d main_v12 ↦{fullShare} m (loc d main_v12)))
      ⊢ (bigSep Finset.univ fun c : Fin ((K (F := F)).nCore 1) => (P m).st 1 d c : sProp (𝕄F F))
abbrev Join1 (F : FTy → Type) [FloatOps F] (m : (ℓ : Loc nD τ sig) → Buf (Elt F) ℓ) : Prop :=
  ∀ (d : Dev nD), (bigSep Finset.univ fun c : Fin ((K (F := F)).nCore 1) => (P m).dn 1 d c : sProp (𝕄F F))
      ⊢ iprop(∃ f : Buf (Elt F) (loc d main_v12), (loc d main_v12 ↦{fullShare} f) ∗ ⌜Out12All m d f⌝)

/-- What the launch funds for @main: the two regions' staging cells and duty tokens. -/
def G (d : Dev nD) : sProp 𝕄 :=
  iprop(Pipeline.cellsGhost cfgs EP 0 d ∗ Pipeline.toksInit cfgs EP 0 d ∗ Pipeline.cellsGhost cfgs EP 1 d ∗ Pipeline.toksInit cfgs EP 1 d)

/-- What @main ends with: the arguments at the launch contents, the result at the two calls' value. -/
def FIN (d : Dev nD) : sProp 𝕄 :=
  iprop((loc d main_arg0 ↦{fullShare.left} m (loc d main_arg0)) ∗ (loc d main_arg1 ↦{fullShare.left} m (loc d main_arg1))
    ∗ (loc d main_arg2 ↦{fullShare} m (loc d main_arg2)) ∗ (loc d main_arg3 ↦{fullShare} m (loc d main_arg3))
    ∗ (loc d main_arg4 ↦{fullShare} m (loc d main_arg4)) ∗ (loc d main_arg5 ↦{fullShare} m (loc d main_arg5))
    ∗ ∃ f : Buf (Elt F) (loc d main_v12), (loc d main_v12 ↦{fullShare} f) ∗ ⌜Out12All m d f⌝)

theorem tcSt_split (d : Dev nD) (n : ℕ) : ((K (F := F)).tcSt EH d n : sProp 𝕄) = iprop(tcOwes d n
    ∗ atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1))) := rfl

set_option maxRecDepth 16384 in
theorem hmain (hr0 : Region0 F) (hr1 : Region1 F) (hs0 : Split0 F m) (hj0 : Join0 F m) (hs1 : Split1 F m) (hj1 : Join1 F m)
    (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d) := by
  unfold SparseCore.Cfg.tcRes G
  rw [unscopedBufs_eq, tcSt_split]
  simp only [main, wp_bind, wp_pure]
  iintro ⟨#Hctx, ⟨HO, Hst⟩, ⟨Hb, ⟨Ha0, Ha1, Ha2, Ha3, Ha4, Ha5, Hv0, Hv1, Hv2, Hv3, Hv4, Hv5, Hv6, Hv7, Hv8, Hv9, Hv10, Hv11, Hv12⟩, -, -⟩, ⟨Hg0, Ht0, Hg1, Ht1⟩⟩
  ihave Hlev := (SparseCore.Cfg.ctx_levAts κ) $$ Hctx
  -- the two halves of the weight column as rows; the user table transposed
  iapply (Cert.Proof.HloStep.wp_unary 𝒱 (SparseCore.T d) none Set.univ main_arg4 main_v0 _ _ _ (by decide) (fun b => m (d, b)) fullShare _ _) $$ [Hb Ha4 Hv0]
  · isplitl [Hb]; · iexact Hb
    isplitl [Ha4]; · iexact Ha4
    iexact Hv0
  iintro ⟨Hb, Ha4, Hv0⟩; rw [wp_ret]; imodintro
  iapply (Cert.Proof.HloStep.wp_unary 𝒱 (SparseCore.T d) none Set.univ main_v0 main_v1 _ _ _ (by decide) (fun b => m (d, b)) fullShare _ _) $$ [Hb Hv0 Hv1]
  · isplitl [Hb]; · iexact Hb
    isplitl [Hv0]; · iexact Hv0
    iexact Hv1
  iintro ⟨Hb, Hv0, Hv1⟩; rw [wp_ret]; imodintro
  iapply (Cert.Proof.HloStep.wp_unary 𝒱 (SparseCore.T d) none Set.univ main_arg4 main_v2 _ _ _ (by decide) (fun b => m (d, b)) fullShare _ _) $$ [Hb Ha4 Hv2]
  · isplitl [Hb]; · iexact Hb
    isplitl [Ha4]; · iexact Ha4
    iexact Hv2
  iintro ⟨Hb, Ha4, Hv2⟩; rw [wp_ret]; imodintro
  iapply (Cert.Proof.HloStep.wp_unary 𝒱 (SparseCore.T d) none Set.univ main_v2 main_v3 _ _ _ (by decide) (fun b => m (d, b)) fullShare _ _) $$ [Hb Hv2 Hv3]
  · isplitl [Hb]; · iexact Hb
    isplitl [Hv2]; · iexact Hv2
    iexact Hv3
  iintro ⟨Hb, Hv2, Hv3⟩; rw [wp_ret]; imodintro
  iapply (Cert.Proof.HloStep.wp_unary 𝒱 (SparseCore.T d) none Set.univ main_arg2 main_v4 _ _ _ (by decide) (fun b => m (d, b)) fullShare _ _) $$ [Hb Ha2 Hv4]
  · isplitl [Hb]; · iexact Hb
    isplitl [Ha2]; · iexact Ha2
    iexact Hv4
  iintro ⟨Hb, Ha2, Hv4⟩; rw [wp_ret]; imodintro
  -- region 0: the user table projected
  iapply (wp_wand_r frame _ Set.univ)
  isplitl [Hb HO Hg0 Ht0 Hv4 Hv1 Hv5]
  · iapply (hr0 (K (F := F)).lev (by sl_refines_lev) d (X4 m d) (W1 m d)
      (fun _ => iprop(∃ f5 : Buf (Elt F) (loc d main_v5), ⌜Reg0Val (W1 m d) (X4 m d) f5⌝ ∗ boundary (SparseCore.T d) ∗ tcOwes d 0
        ∗ (loc d main_v4 ↦{fullShare} (X4 m d : Buf (Elt F) (loc d main_v4))) ∗ (loc d main_v1 ↦{fullShare} (W1 m d : Buf (Elt F) (loc d main_v1))) ∗ (loc d main_v5 ↦{fullShare} f5))))
    isplitr; · iexact Hlev
    isplitl [Hb]; · iexact Hb
    isplitl [HO]; · iexact HO
    isplitl [Hg0]; · iexact Hg0
    isplitl [Ht0]; · iexact Ht0
    isplitl [Hv4]; · iexact Hv4
    isplitl [Hv1]; · iexact Hv1
    isplitl [Hv5]; · iexists _; iexact Hv5
    iintro %f5 %hR H
    iexists f5; isplitr; · ipureintro; exact hR
    iexact H
  iintro %_ ⟨%f5, %hR5, Hb, HO, Hv4, Hv1, Hv5⟩
  iapply (Cert.Proof.HloStep.wp_reshape 𝒱 (SparseCore.T d) none Set.univ main_v5 main_v6 _ _ _ _ (by decide) (fun b => m (d, b)) fullShare _ _) $$ [Hb Hv5 Hv6]
  · isplitl [Hb]; · iexact Hb
    isplitl [Hv5]; · iexact Hv5
    iexact Hv6
  iintro ⟨Hb, Hv5, Hv6⟩; rw [wp_ret]; imodintro
  iapply (Cert.Proof.HloStep.wp_unary 𝒱 (SparseCore.T d) none Set.univ main_arg5 main_v7 _ _ _ (by decide) (fun b => m (d, b)) fullShare _ _) $$ [Hb Ha5 Hv7]
  · isplitl [Hb]; · iexact Hb
    isplitl [Ha5]; · iexact Ha5
    iexact Hv7
  iintro ⟨Hb, Ha5, Hv7⟩; rw [wp_ret]; imodintro
  -- call 0
  ihave H := (pointsTo_share (PosShare.mem_left_op_right fullShare)).1 $$ Ha0
  icases H with ⟨Ha0l, Ha0r⟩
  iapply ((K (F := F)).wp_run (D (F := F)) 𝒱 (EH := EH) (P := P m) κ d 0) $$ [HO Hst Ha0l Ha0r Ha1 Ha2 Ha3 Ha4 Ha5 Hb Hv6 Hv7 Hv8 Hv9 Hv3 Hv10 Hv11 Hv12 Hg1 Ht1]
  isplitr; · iexact Hctx
  isplitl [HO Hst]
  · rw [tcSt_split]; isplitl [HO]; · iexact HO
    iexact Hst
  isplitl [Ha0r Hv6 Hv7 Hv8]
  · iapply (hs0 d _ ⟨f5, hR5, rfl⟩)
    isplitl [Ha0r]; · iexact Ha0r
    isplitl [Hv6]; · iexact Hv6
    isplitl [Hv7]; · iexact Hv7
    iexact Hv8
  iintro ⟨Hst, Hdn⟩
  ihave H := (hj0 d) $$ Hdn
  icases H with ⟨%f8, Hv8, %hA8⟩
  ihave H := (Entails.of_eq (tcSt_split (F := F) d ((0 : Fin 2).val + 1))) $$ Hst
  icases H with ⟨HO, Hst⟩
  -- the course table transposed; region 1
  iapply (Cert.Proof.HloStep.wp_unary 𝒱 (SparseCore.T d) none Set.univ main_arg3 main_v9 _ _ _ (by decide) (fun b => m (d, b)) fullShare _ _) $$ [Hb Ha3 Hv9]
  · isplitl [Hb]; · iexact Hb
    isplitl [Ha3]; · iexact Ha3
    iexact Hv9
  iintro ⟨Hb, Ha3, Hv9⟩; rw [wp_ret]; imodintro
  iapply (wp_wand_r frame _ Set.univ)
  isplitl [Hb HO Hg1 Ht1 Hv9 Hv3 Hv10]
  · iapply (hr1 (K (F := F)).lev (by sl_refines_lev) d (X9 m d) (W3 m d)
      (fun _ => iprop(∃ f10 : Buf (Elt F) (loc d main_v10), ⌜Reg1Val (W3 m d) (X9 m d) f10⌝ ∗ boundary (SparseCore.T d) ∗ tcOwes d 1
        ∗ (loc d main_v9 ↦{fullShare} (X9 m d : Buf (Elt F) (loc d main_v9))) ∗ (loc d main_v3 ↦{fullShare} (W3 m d : Buf (Elt F) (loc d main_v3))) ∗ (loc d main_v10 ↦{fullShare} f10))))
    isplitr; · iexact Hlev
    isplitl [Hb]; · iexact Hb
    isplitl [HO]; · iexact HO
    isplitl [Hg1]; · iexact Hg1
    isplitl [Ht1]; · iexact Ht1
    isplitl [Hv9]; · iexact Hv9
    isplitl [Hv3]; · iexact Hv3
    isplitl [Hv10]; · iexists _; iexact Hv10
    iintro %f10 %hR H
    iexists f10; isplitr; · ipureintro; exact hR
    iexact H
  iintro %_ ⟨%f10, %hR10, Hb, HO, Hv9, Hv3, Hv10⟩
  iapply (Cert.Proof.HloStep.wp_reshape 𝒱 (SparseCore.T d) none Set.univ main_v10 main_v11 _ _ _ _ (by decide) (fun b => m (d, b)) fullShare _ _) $$ [Hb Hv10 Hv11]
  · isplitl [Hb]; · iexact Hb
    isplitl [Hv10]; · iexact Hv10
    iexact Hv11
  iintro ⟨Hb, Hv10, Hv11⟩; rw [wp_ret]; imodintro
  -- call 1
  ihave H := (pointsTo_share (PosShare.mem_left_op_right fullShare)).1 $$ Ha1
  icases H with ⟨Ha1l, Ha1r⟩
  iapply ((K (F := F)).wp_run (D (F := F)) 𝒱 (EH := EH) (P := P m) κ d 1) $$ [HO Hst Ha0l Ha1l Ha1r Ha2 Ha3 Ha4 Ha5 Hv8 Hv11 Hv12]
  isplitr; · iexact Hctx
  isplitl [HO Hst]
  · rw [tcSt_split]; isplitl [HO]; · iexact HO
    iexact Hst
  isplitl [Ha1r Hv11 Hv8 Hv12]
  · iapply (hs1 d _ ⟨f10, hR10, rfl⟩ f8 hA8)
    isplitl [Ha1r]; · iexact Ha1r
    isplitl [Hv11]; · iexact Hv11
    isplitl [Hv8]; · iexact Hv8
    iexact Hv12
  iintro ⟨Hst, Hdn⟩
  ihave H := (hj1 d) $$ Hdn
  icases H with ⟨%f12, Hv12, %hA12⟩
  imodintro
  isplitl [Hst]; · iexact Hst
  unfold FIN
  isplitl [Ha0l]; · iexact Ha0l
  isplitl [Ha1l]; · iexact Ha1l
  isplitl [Ha2]; · iexact Ha2
  isplitl [Ha3]; · iexact Ha3
  isplitl [Ha4]; · iexact Ha4
  isplitl [Ha5]; · iexact Ha5
  iexists f12; isplitl [Hv12]; · iexact Hv12
  ipureintro; exact hA12

end Cert.KernelIdeal.HMain

end
-- ==== Proof.Run.lean ====
/-
  The whole program's run: the launch theorem applied to the tiles' tasks, the trivial split, @main's proof, the
  launch element (handshakes' rounds; the two regions' staging cells funded; counters) and the reading of the final
  memory: the six arguments unchanged, the result array at the two calls' value on every tile's rows.
-/
import proofs.«204913_g64682207478566_cont_9to1c4b_713_31_alg».proof.Proof.HMain
import proofs.«204913_g64682207478566_cont_9to1c4b_713_31_alg».proof.Proof.TileObl

noncomputable section

namespace Cert.KernelIdeal.Run

open Cert.KernelIdeal Cert.KernelIdeal.Gen Cert.KernelIdeal.Common Cert.KernelIdeal.Vals Cert.KernelIdeal.PayM Cert.KernelIdeal.HMain Cert.KernelIdeal.TileObl

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => 𝕄F F

variable (m : (ℓ : Loc nD τ sig) → Buf (Elt F) ℓ) (ρ : Dev nD → PrngReg)

/-! ## The launch element -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch element: the handshakes' rounds, the staging cells' rounds, the counters. -/
def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem bigSep_two (Φ : Fin 2 → sProp 𝕄) : bigSep Finset.univ Φ = iprop(Φ 0 ∗ Φ 1) :=
  bigSep_univ_eq_bigSepL [(0 : Fin 2), (1 : Fin 2)] (by decide) (by decide) Φ

theorem ghost_one (c : Dev nD) :
    iprop((bigSep Finset.univ fun p : Fin 2 => Pipeline.cellsGhost cfgs (EP (F := F)) p c)
        ∗ (bigSep Finset.univ fun p : Fin 2 => (Pipeline.toksInit cfgs (EP (F := F)) p c : sProp 𝕄)))
      ⊢ (G (F := F) c : sProp 𝕄) := by
  rw [bigSep_two, bigSep_two]; unfold G
  iintro ⟨⟨Hg0, Hg1⟩, ⟨Ht0, Ht1⟩⟩
  isplitl [Hg0]; · iexact Hg0
  isplitl [Ht0]; · iexact Ht0
  isplitl [Hg1]; · iexact Hg1
  iexact Ht1

/-- The funded staging cells and duty tokens, regrouped per device. -/
theorem ghost_G :
    iprop((bigSep Finset.univ fun c : Dev nD => bigSep Finset.univ fun p : Fin 2 => Pipeline.cellsGhost cfgs (EP (F := F)) p c)
        ∗ (bigSep Finset.univ fun c : Dev nD => bigSep Finset.univ fun p : Fin 2 => (Pipeline.toksInit cfgs (EP (F := F)) p c : sProp 𝕄)))
      ⊢ (bigSep Finset.univ fun c : Dev nD => G (F := F) c : sProp 𝕄) := by
  rw [← bigSep_sep']
  exact bigSep_mono fun c _ => ghost_one c

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HR⟩
  ihave H2 := (own_pair_emb (embR : Emb (UP × Counters) 𝕄) (initOf (Pipeline.cells cfgs cellOf_inj) (Pipeline.launchToks cfgs cellOf_inj)) (1 : Counters)) $$ HR
  icases H2 with ⟨HP, -⟩
  ihave HP' := (show (BI.own (((Emb.inl : Emb UP (UP × Counters)).trans (embR : Emb (UP × Counters) 𝕄)) (initOf (Pipeline.cells cfgs cellOf_inj) (Pipeline.launchToks cfgs cellOf_inj))) : sProp 𝕄)
      ⊢ BI.own ((EP (F := F)) (initOf (Pipeline.cells cfgs cellOf_inj) (Pipeline.launchToks cfgs cellOf_inj))) from BI.Entails.refl _) $$ HP
  imod (Pipeline.fund_ghost (nD := nD) (τ := τ) cfgs (EP (F := F)) cellOf_inj) $$ HP' with ⟨Hg, Ht⟩
  imodintro
  isplitl [HH]; · iexact HH
  isplitl [Hg Ht]
  · iapply (ghost_G (F := F))
    isplitl [Hg]; · iexact Hg
    iexact Ht
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

/-! ## What the final memory says -/

def fq (d : Dev nD) (s' : Phys nD τ sig (Elt F)) : Prop :=
  s'.mem.mem (loc d main_arg0) = m (loc d main_arg0) ∧ s'.mem.mem (loc d main_arg1) = m (loc d main_arg1)
  ∧ s'.mem.mem (loc d main_arg2) = m (loc d main_arg2) ∧ s'.mem.mem (loc d main_arg3) = m (loc d main_arg3)
  ∧ s'.mem.mem (loc d main_arg4) = m (loc d main_arg4) ∧ s'.mem.mem (loc d main_arg5) = m (loc d main_arg5)
  ∧ Out12All m d (s'.mem.mem (loc d main_v12))

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, H2, H3, H4, H5, %f, H12, %hf⟩, HSI⟩
  ihave H := (persistent_entails_right (SI_pointsTo_agree (st := s') (ℓ := loc d main_arg0) (I := Finset.univ) (q := fullShare.left) (f := m (loc d main_arg0)))) $$ [HSI H0]
  · isplitl [HSI] <;> iassumption
  icases H with ⟨%h0, HSI, -⟩
  ihave H := (persistent_entails_right (SI_pointsTo_agree (st := s') (ℓ := loc d main_arg1) (I := Finset.univ) (q := fullShare.left) (f := m (loc d main_arg1)))) $$ [HSI H1]
  · isplitl [HSI] <;> iassumption
  icases H with ⟨%h1, HSI, -⟩
  ihave H := (persistent_entails_right (SI_pointsTo_agree (st := s') (ℓ := loc d main_arg2) (I := Finset.univ) (q := fullShare) (f := m (loc d main_arg2)))) $$ [HSI H2]
  · isplitl [HSI] <;> iassumption
  icases H with ⟨%h2, HSI, -⟩
  ihave H := (persistent_entails_right (SI_pointsTo_agree (st := s') (ℓ := loc d main_arg3) (I := Finset.univ) (q := fullShare) (f := m (loc d main_arg3)))) $$ [HSI H3]
  · isplitl [HSI] <;> iassumption
  icases H with ⟨%h3, HSI, -⟩
  ihave H := (persistent_entails_right (SI_pointsTo_agree (st := s') (ℓ := loc d main_arg4) (I := Finset.univ) (q := fullShare) (f := m (loc d main_arg4)))) $$ [HSI H4]
  · isplitl [HSI] <;> iassumption
  icases H with ⟨%h4, HSI, -⟩
  ihave H := (persistent_entails_right (SI_pointsTo_agree (st := s') (ℓ := loc d main_arg5) (I := Finset.univ) (q := fullShare) (f := m (loc d main_arg5)))) $$ [HSI H5]
  · isplitl [HSI] <;> iassumption
  icases H with ⟨%h5, HSI, -⟩
  ihave H := (SI_pointsTo_agree (st := s') (ℓ := loc d main_v12) (I := Finset.univ) (q := fullShare) (f := f)) $$ [HSI H12]
  · isplitl [HSI] <;> iassumption
  icases H with %h12
  ipureintro
  have e12 : s'.mem.mem (loc d main_v12) = f := funext fun i => h12 i (Finset.mem_univ i)
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i), e12.symm ▸ hf⟩

/-! ## The run -/

/-- Every final memory: the arguments unchanged, the result at the calls' value. -/
def QC : PUnit × MemSt nD τ sig (Elt F) → Prop := fun r => ∀ c : Dev nD,
  r.2.mem (loc c main_arg0) = m (loc c main_arg0) ∧ r.2.mem (loc c main_arg1) = m (loc c main_arg1)
  ∧ r.2.mem (loc c main_arg2) = m (loc c main_arg2) ∧ r.2.mem (loc c main_arg3) = m (loc c main_arg3)
  ∧ r.2.mem (loc c main_arg4) = m (loc c main_arg4) ∧ r.2.mem (loc c main_arg5) = m (loc c main_arg5)
  ∧ Out12All m c (r.2.mem (loc c main_v12))

theorem run_main [∀ e, Nonempty (Elt F e)] (hb1 : Body1 F) (hb3 : Body3 F) (hr0 : Region0 F) (hr1 : Region1 F)
    (hs0 : Split0 F m) (hj0 : Join0 F m) (hs1 : Split1 F m) (hj1 : Join1 F m) (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m hb1 hpre | 1 => tileObl1 m hb3 hpre)
    (fun q _ => SparseCore.Cfg.VecSplit.of_plain (vecSplit m q))
    m ρ main (G (F := F)) (FIN m) (u₀ (F := F)) (sep_elim_left.trans (hu₀ m)) (hmain m ρ hr0 hr1 hs0 hj0 hs1 hj1) (fq m) (hfin m) (QC m) (fun _ h => h)

end Cert.KernelIdeal.Run

end
-- ==== Proof.RegBody.lean ====
import proofs.«204913_g64682207478566_cont_9to1c4b_713_31_alg».proof.Proof.Common
import proofs.«204913_g64682207478566_cont_9to1c4b_713_31_alg».proof.Proof.Vals
import proofs.«204913_g64682207478566_cont_9to1c4b_713_31_alg».proof.Proof.Gen.KernelIdeal.Launch
import proofs.«204913_g64682207478566_cont_9to1c4b_713_31_alg».proof.Proof.Gen.KernelIdeal.Skeleton
import proofs.«204913_g64682207478566_cont_9to1c4b_713_31_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.RegBody

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => Common.𝕄F F

/-! ## The one-matmul body on whole staging memrefs

Both TensorCore calls run the same body: it loads the weight row and the staged block of the transposed table
whole, and stores their product over the whole output block. -/

theorem hz1 : (![0] : Fin 1 → Nat) = fun _ => 0 := funext fun a => by fin_cases a; rfl
theorem hz2 : (![0, 0] : Fin 2 → Nat) = fun _ => 0 := funext fun a => by fin_cases a <;> rfl

/-- The body of custom_call 0: the two inputs' memrefs are left as found, the output's holds the product. -/
theorem sound_kernel0 (c : Dev nD) (E : Set ℕ) (i : grid0.Coords)
    (arg1 : Memref sig .tc .vmem S100x16384 .f32) (harg1 : arg1.IsWhole) (arg2 : Memref sig .tc .vmem S1x100 .f32) (harg2 : arg2.IsWhole)
    (arg3 : Memref sig .tc .vmem S16384 .f32) (harg3 : arg3.IsWhole)
    (x0 : Vec F S100x16384 .f32) (w0 : Vec F S1x100 .f32) (Kont : PUnit → sProp 𝕄) :
    iprop(owns (c : Thread nD τ) arg1 fullShare x0 ∗ owns (c : Thread nD τ) arg2 fullShare w0 ∗ (∃ y, owns (c : Thread nD τ) arg3 fullShare y)
        ∗ (iprop(owns (c : Thread nD τ) arg1 fullShare x0 ∗ owns (c : Thread nD τ) arg2 fullShare w0
            ∗ owns (c : Thread nD τ) arg3 fullShare (k0_pay1 w0 x0)) -∗ Kont ⟨⟩))
      ⊢ wp frame (wpE (defs₀ (F := F)) Variants.none c none) E (cc0__mv_body i arg1 harg1 arg2 harg2 arg3 harg3) Kont := by
  simp only [cc0__mv_body_eq_skeleton]; unfold cc0__mv_body_skel
  unfold owns
  iintro ⟨⟨%f0, %hf0, H0⟩, ⟨%f1, %hf1, H1⟩, ⟨%y, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz1 inb_S16384_S16384_0 y⟩),
    View.canon_unit_zero hz1]
  show k0_pay1 (F := F) (View.ld (arg2.view.read (Elt F) f1) (Rect.unit (s := S1x100) ![0, 0] S1x100.size inb_S1x100_S1x100_0_0))
      (View.ld (arg1.view.read (Elt F) f0) (Rect.unit (s := S100x16384) ![0, 0] S100x16384.size inb_S100x16384_S100x16384_0_0)) = _
  rw [View.ld_unit_zero hz2, View.ld_unit_zero hz2]

/-- The body of custom_call 2: the two inputs' memrefs are left as found, the output's holds the product. -/
theorem sound_kernel2 (c : Dev nD) (E : Set ℕ) (i : grid2.Coords)
    (arg1 : Memref sig .tc .vmem S100x16384 .f32) (harg1 : arg1.IsWhole) (arg2 : Memref sig .tc .vmem S1x100 .f32) (harg2 : arg2.IsWhole)
    (arg3 : Memref sig .tc .vmem S16384 .f32) (harg3 : arg3.IsWhole)
    (x0 : Vec F S100x16384 .f32) (w0 : Vec F S1x100 .f32) (Kont : PUnit → sProp 𝕄) :
    iprop(owns (c : Thread nD τ) arg1 fullShare x0 ∗ owns (c : Thread nD τ) arg2 fullShare w0 ∗ (∃ y, owns (c : Thread nD τ) arg3 fullShare y)
        ∗ (iprop(owns (c : Thread nD τ) arg1 fullShare x0 ∗ owns (c : Thread nD τ) arg2 fullShare w0
            ∗ owns (c : Thread nD τ) arg3 fullShare (k2_pay1 w0 x0)) -∗ Kont ⟨⟩))
      ⊢ wp frame (wpE (defs₀ (F := F)) Variants.none c none) E (cc2__mv_body i arg1 harg1 arg2 harg2 arg3 harg3) Kont := by
  simp only [cc2__mv_body_eq_skeleton]; unfold cc2__mv_body_skel
  unfold owns
  iintro ⟨⟨%f0, %hf0, H0⟩, ⟨%f1, %hf1, H1⟩, ⟨%y, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz1 inb_S16384_S16384_0 y⟩),
    View.canon_unit_zero hz1]
  show k2_pay1 (F := F) (View.ld (arg2.view.read (Elt F) f1) (Rect.unit (s := S1x100) ![0, 0] S1x100.size inb_S1x100_S1x100_0_0))
      (View.ld (arg1.view.read (Elt F) f0) (Rect.unit (s := S100x16384) ![0, 0] S100x16384.size inb_S100x16384_S100x16384_0_0)) = _
  rw [View.ld_unit_zero hz2, View.ld_unit_zero hz2]

end Cert.KernelIdeal.RegBody

end
-- ==== Proof.RegData.lean ====
import proofs.«204913_g64682207478566_cont_9to1c4b_713_31_alg».proof.Proof.Common
import proofs.«204913_g64682207478566_cont_9to1c4b_713_31_alg».proof.Proof.Vals
import proofs.«204913_g64682207478566_cont_9to1c4b_713_31_alg».proof.Proof.Gen.KernelIdeal.Launch
import proofs.«204913_g64682207478566_cont_9to1c4b_713_31_alg».proof.Proof.Gen.KernelIdeal.Skeleton
import proofs.«204913_g64682207478566_cont_9to1c4b_713_31_alg».proof.Proof.Gen.KernelIdeal.Points
import proofs.«204913_g64682207478566_cont_9to1c4b_713_31_alg».proof.Proof.RegBody
import Idealize.ShloMosaic.Lib.Pipeline.FrameBody
import Idealize.ShloMosaic.Lib.Pipeline.Value
import Idealize.ShloMosaic.Lib.Tactic

set_option maxRecDepth 16384

noncomputable section

namespace Cert.KernelIdeal.RegData

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => Common.𝕄F F

open Cert.KernelIdeal.RegBody

/-! ## The two TensorCore calls' proof data

What the body leaves in the output's staging buffer is constrained, not named: the last block of the transposed
table overhangs the array, the staged words past the array's end are whatever the staging buffer held, and the
product of those columns depends on them. The input windows are left as found. -/

section Call0

variable (A4 : S100x1000000.Idx → F .f32) (A1 : S1x100.Idx → F .f32) (A5 : S1000448.Idx → F .f32)

/-- The staged block of the transposed table at point `t`: the array's columns inside the array, `d` past its end. -/
def fetchedX0 (t : Fin cfg0.N) (d : S100x16384.Idx → F .f32) : S100x16384.Idx → F .f32 :=
  win0_0.fill (grid0.coords t) d ((win0_0.blk t).view.read (Elt F) A4)
/-- The staged weight row. -/
def fetchedW0 (t : Fin cfg0.N) (d : S1x100.Idx → F .f32) : S1x100.Idx → F .f32 :=
  win0_1.fill (grid0.coords t) d ((win0_1.blk t).view.read (Elt F) A1)

/-- What the body may leave in the output block at point `t`: the product of the weight row and some staged block. -/
def Out0 (t : Fin cfg0.N) (X : S16384.Idx → F .f32) : Prop :=
  ∃ d d1, X = k0_pay1 (fetchedW0 A1 t d1) (fetchedX0 A4 t d)

/-- The relational proof data of the first call on core `c`, owing `O` throughout with recorded pairs within `B`. -/
def rd0 (c : Dev nD) (O : CellTallies nD τ sig (HIx 2)) (B : Set (SemLoc sig × HIx 2)) :
    RDat τ (Elt F) (HIx 2) ℕ UU ℕ cfg0 c where
  A w := match w with
    | ⟨0, _⟩ => A4
    | ⟨1, _⟩ => A1
    | ⟨2, _⟩ => A5
  after w t Y X := match w with
    | ⟨0, _⟩ => X = Y
    | ⟨1, _⟩ => X = Y
    | ⟨2, _⟩ => Out0 A4 A1 t X
  Φ _ := Pipeline.scopedRest spec0 c
  q _ := fullShare
  owed _ := O
  recorded _ := B

/-- The body at point `t`, on the staging buffers the pipeline calls it with: whatever the input buffers hold they
    still hold; the output buffer holds their product. -/
theorem sound_body0 (c : Dev nD) (O : CellTallies nD τ sig (HIx 2)) (B : Set (SemLoc sig × HIx 2)) (t : Fin cfg0.N)
    (Y : (w : Fin cfg0.W) → (cfg0.win w).block.Idx → Elt F (cfg0.win w).elt) (hY : ∀ w, (rd0 A4 A1 A5 c O B).Finds w t (Y w)) :
    iprop((rd0 A4 A1 A5 c O B).Φ t.castSucc ∗ (rd0 A4 A1 A5 c O B).owesAt none t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rd0 A4 A1 A5 c O B).Φ t.succ ∗ (rd0 A4 A1 A5 c O B).owesAt none t.succ
            ∗ (∃ X, ⌜(rd0 A4 A1 A5 c O B).after 0 t (Y 0) X⌝ ∗ owns (c : Thread nD τ) (st0_0 t) fullShare X)
            ∗ (∃ X, ⌜(rd0 A4 A1 A5 c O B).after 1 t (Y 1) X⌝ ∗ owns (c : Thread nD τ) (st0_1 t) fullShare X)
            ∗ (∃ X, ⌜(rd0 A4 A1 A5 c O B).after 2 t (Y 2) X⌝ ∗ owns (c : Thread nD τ) (st0_2 t) fullShare X))) := by
  obtain ⟨d, hd⟩ := ((rd0 A4 A1 A5 c O B).finds_of_fetch (fetch0_0 t) (Y 0)).mp (hY 0)
  obtain ⟨d1, hd1⟩ := RDat.finds_in_eq_fetched (rd0 A4 A1 A5 c O B) 1 rfl (fun _ _ _ => rfl) (fun _ _ _ h => h) t (Y 1) (hY 1)
  unfold bodyAt0
  rw [show (rd0 A4 A1 A5 c O B).Φ t.succ = (rd0 A4 A1 A5 c O B).Φ t.castSucc from rfl,
    show (rd0 A4 A1 A5 c O B).owesAt none t.succ = (rd0 A4 A1 A5 c O B).owesAt none t.castSucc from rfl]
  iintro ⟨HΦ, Ho, H0, H1, H2⟩
  iapply (sound_kernel0 c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  swap; · iexact H2
  ipureintro
  exact ⟨d, d1, by rw [hd, hd1]; rfl⟩

theorem body_obligation0 (c : Dev nD) (O : CellTallies nD τ sig (HIx 2)) (B : Set (SemLoc sig × HIx 2)) :
    (rd0 A4 A1 A5 c O B).BodyObligation (defs₀ (F := F)) Variants.none none Set.univ := fun t Y hY => by
  rw [bigSep_W0, bigSep_W0]
  exact sound_body0 A4 A1 A5 c O B t Y hY

end Call0

section Call2

variable (A9 : S100x100000.Idx → F .f32) (A3 : S1x100.Idx → F .f32) (A10 : S100352.Idx → F .f32)

/-- The staged block of the transposed table at point `t`: the array's columns inside the array, `d` past its end. -/
def fetchedX2 (t : Fin cfg2.N) (d : S100x16384.Idx → F .f32) : S100x16384.Idx → F .f32 :=
  win2_0.fill (grid2.coords t) d ((win2_0.blk t).view.read (Elt F) A9)
/-- The staged weight row. -/
def fetchedW2 (t : Fin cfg2.N) (d : S1x100.Idx → F .f32) : S1x100.Idx → F .f32 :=
  win2_1.fill (grid2.coords t) d ((win2_1.blk t).view.read (Elt F) A3)

/-- What the body may leave in the output block at point `t`: the product of the weight row and some staged block. -/
def Out2 (t : Fin cfg2.N) (X : S16384.Idx → F .f32) : Prop :=
  ∃ d d1, X = k2_pay1 (fetchedW2 A3 t d1) (fetchedX2 A9 t d)

/-- The relational proof data of the second call on core `c`, owing `O` throughout with recorded pairs within `B`. -/
def rd2 (c : Dev nD) (O : CellTallies nD τ sig (HIx 2)) (B : Set (SemLoc sig × HIx 2)) :
    RDat τ (Elt F) (HIx 2) ℕ UU ℕ cfg2 c where
  A w := match w with
    | ⟨0, _⟩ => A9
    | ⟨1, _⟩ => A3
    | ⟨2, _⟩ => A10
  after w t Y X := match w with
    | ⟨0, _⟩ => X = Y
    | ⟨1, _⟩ => X = Y
    | ⟨2, _⟩ => Out2 A9 A3 t X
  Φ _ := Pipeline.scopedRest spec2 c
  q _ := fullShare
  owed _ := O
  recorded _ := B

/-- The body at point `t`, on the staging buffers the pipeline calls it with: whatever the input buffers hold they
    still hold; the output buffer holds their product. -/
theorem sound_body2 (c : Dev nD) (O : CellTallies nD τ sig (HIx 2)) (B : Set (SemLoc sig × HIx 2)) (t : Fin cfg2.N)
    (Y : (w : Fin cfg2.W) → (cfg2.win w).block.Idx → Elt F (cfg2.win w).elt) (hY : ∀ w, (rd2 A9 A3 A10 c O B).Finds w t (Y w)) :
    iprop((rd2 A9 A3 A10 c O B).Φ t.castSucc ∗ (rd2 A9 A3 A10 c O B).owesAt none t.castSucc
        ∗ owns (c : Thread nD τ) (st2_0 t) fullShare (Y 0) ∗ owns (c : Thread nD τ) (st2_1 t) fullShare (Y 1)
        ∗ owns (c : Thread nD τ) (st2_2 t) fullShare (Y 2))
      ⊢ wp frame (wpE (defs₀ (F := F)) Variants.none c none) Set.univ (bodyAt2 t) (fun _ =>
          iprop((rd2 A9 A3 A10 c O B).Φ t.succ ∗ (rd2 A9 A3 A10 c O B).owesAt none t.succ
            ∗ (∃ X, ⌜(rd2 A9 A3 A10 c O B).after 0 t (Y 0) X⌝ ∗ owns (c : Thread nD τ) (st2_0 t) fullShare X)
            ∗ (∃ X, ⌜(rd2 A9 A3 A10 c O B).after 1 t (Y 1) X⌝ ∗ owns (c : Thread nD τ) (st2_1 t) fullShare X)
            ∗ (∃ X, ⌜(rd2 A9 A3 A10 c O B).after 2 t (Y 2) X⌝ ∗ owns (c : Thread nD τ) (st2_2 t) fullShare X))) := by
  obtain ⟨d, hd⟩ := ((rd2 A9 A3 A10 c O B).finds_of_fetch (fetch2_0 t) (Y 0)).mp (hY 0)
  obtain ⟨d1, hd1⟩ := RDat.finds_in_eq_fetched (rd2 A9 A3 A10 c O B) 1 rfl (fun _ _ _ => rfl) (fun _ _ _ h => h) t (Y 1) (hY 1)
  unfold bodyAt2
  rw [show (rd2 A9 A3 A10 c O B).Φ t.succ = (rd2 A9 A3 A10 c O B).Φ t.castSucc from rfl,
    show (rd2 A9 A3 A10 c O B).owesAt none t.succ = (rd2 A9 A3 A10 c O B).owesAt none t.castSucc from rfl]
  iintro ⟨HΦ, Ho, H0, H1, H2⟩
  iapply (sound_kernel2 c Set.univ (grid2.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  swap; · iexact H2
  ipureintro
  exact ⟨d, d1, by rw [hd, hd1]; rfl⟩

theorem body_obligation2 (c : Dev nD) (O : CellTallies nD τ sig (HIx 2)) (B : Set (SemLoc sig × HIx 2)) :
    (rd2 A9 A3 A10 c O B).BodyObligation (defs₀ (F := F)) Variants.none none Set.univ := fun t Y hY => by
  rw [bigSep_W2, bigSep_W2]
  exact sound_body2 A9 A3 A10 c O B t Y hY

end Call2

end Cert.KernelIdeal.RegData

end
-- ==== Proof.RegVal.lean ====
import proofs.«204913_g64682207478566_cont_9to1c4b_713_31_alg».proof.Proof.Common
import proofs.«204913_g64682207478566_cont_9to1c4b_713_31_alg».proof.Proof.Vals
import proofs.«204913_g64682207478566_cont_9to1c4b_713_31_alg».proof.Proof.Gen.KernelIdeal.Launch
import proofs.«204913_g64682207478566_cont_9to1c4b_713_31_alg».proof.Proof.Gen.KernelIdeal.Skeleton
import proofs.«204913_g64682207478566_cont_9to1c4b_713_31_alg».proof.Proof.Gen.KernelIdeal.Points
import proofs.«204913_g64682207478566_cont_9to1c4b_713_31_alg».proof.Proof.RegData
import Idealize.ShloMosaic.Lib.Pipeline.FrameBody
import Idealize.ShloMosaic.Lib.Pipeline.Value
import Idealize.ShloMosaic.Lib.Tactic

set_option maxRecDepth 16384

noncomputable section

namespace Cert.KernelIdeal.RegVal

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => Common.𝕄F F

open Cert.KernelIdeal.RegData
open Idealize.ShloMosaic.ValueIdx

/-! ## What the two TensorCore calls leave in their output arrays -/

section Call0

variable (A4 : S100x1000000.Idx → F .f32) (A1 : S1x100.Idx → F .f32) (A5 : S1000448.Idx → F .f32)

/-- The index maps and cuts of the three windows, decided over the grid: the table's block `t` is columns
    `16384 t …` cut at the table's 1000000 columns, the weight row is the one block, the output's block `t` is
    elements `16384 t …` cut at its 1000448 elements. -/
theorem idxX0 : ∀ t : Fin cfg0.N, win0_0.index t (0 : Fin 2) = 0 ∧ win0_0.index t (1 : Fin 2) = t.val
    ∧ win0_0.xsize (grid0.coords t) (0 : Fin 2) = 100
    ∧ win0_0.xsize (grid0.coords t) (1 : Fin 2) = (if 16384 * (t.val + 1) ≤ 1000000 then 16384 else 1000000 - 16384 * t.val) :=
  (by decide +kernel : ∀ t : Fin grid0.N, _)
theorem idxW0 : ∀ t : Fin cfg0.N, win0_1.index t (0 : Fin 2) = 0 ∧ win0_1.index t (1 : Fin 2) = 0
    ∧ win0_1.xsize (grid0.coords t) (0 : Fin 2) = 1 ∧ win0_1.xsize (grid0.coords t) (1 : Fin 2) = 100 :=
  (by decide +kernel : ∀ t : Fin grid0.N, _)
theorem idxY0 : ∀ t : Fin cfg0.N, win0_2.index t (0 : Fin 1) = t.val
    ∧ win0_2.xsize (grid0.coords t) (0 : Fin 1) = (if 16384 * (t.val + 1) ≤ 1000448 then 16384 else 1000448 - 16384 * t.val) :=
  (by decide +kernel : ∀ t : Fin grid0.N, _)

/-- The staged block of the table agrees with the table on the columns inside it. -/
theorem fetchedX0_in (t : Fin cfg0.N) (d : S100x16384.Idx → F .f32) (f : Fin 100) (col : Fin 16384)
    (h : 16384 * t.val + col.val < 1000000) :
    fetchedX0 A4 t d (ix2 f col) = A4 (ix2 f ⟨16384 * t.val + col.val, h⟩) := by
  obtain ⟨e0, e1, e2, e3⟩ := idxX0 t
  have hf : f.val < win0_0.xsize (grid0.coords t) (0 : Fin 2) := by rw [e2]; exact f.isLt
  have hc : col.val < win0_0.xsize (grid0.coords t) (1 : Fin 2) := by rw [e3]; have := col.isLt; split <;> omega
  let j : (win0_0.xblock (grid0.coords t)).Idx := fun a => match a with | ⟨0, _⟩ => ⟨f.val, hf⟩ | ⟨1, _⟩ => ⟨col.val, hc⟩
  have hj : (ix2 f col : S100x16384.Idx) = win0_0.xinj (grid0.coords t) j := by
    funext a; match a with | ⟨0, _⟩ => rfl | ⟨1, _⟩ => rfl
  have hemb : (win0_0.blk t).view.emb j = (ix2 f ⟨16384 * t.val + col.val, h⟩ : S100x1000000.Idx) := by
    funext a; apply Fin.ext
    match a with
    | ⟨0, _⟩ => show win0_0.index t (0 : Fin 2) * 100 + 1 * f.val = f.val; omega
    | ⟨1, _⟩ => show win0_0.index t (1 : Fin 2) * 16384 + 1 * col.val = 16384 * t.val + col.val; omega
  unfold fetchedX0
  rw [hj, win0_0.fill_xinj, View.read_apply, hemb]
  rfl

/-- The staged weight row is the weight row. -/
theorem fetchedW0_eq (t : Fin cfg0.N) (d : S1x100.Idx → F .f32) : fetchedW0 A1 t d = A1 := by
  obtain ⟨e0, e1, e2, e3⟩ := idxW0 t
  funext i
  have h0 : (i 0).val < win0_1.xsize (grid0.coords t) (0 : Fin 2) := by rw [e2]; exact (i 0).isLt
  have h1 : (i 1).val < win0_1.xsize (grid0.coords t) (1 : Fin 2) := by rw [e3]; exact (i 1).isLt
  let j : (win0_1.xblock (grid0.coords t)).Idx := fun a => match a with | ⟨0, _⟩ => ⟨(i 0).val, h0⟩ | ⟨1, _⟩ => ⟨(i 1).val, h1⟩
  have hj : i = win0_1.xinj (grid0.coords t) j := by
    funext a; match a with | ⟨0, _⟩ => rfl | ⟨1, _⟩ => rfl
  have hemb : (win0_1.blk t).view.emb j = i := by
    funext a; apply Fin.ext
    have b0 : (i 0).val < 1 := (i 0).isLt
    match a with
    | ⟨0, _⟩ => show win0_1.index t (0 : Fin 2) * 1 + 1 * (i 0).val = (i 0).val; omega
    | ⟨1, _⟩ => show win0_1.index t (1 : Fin 2) * 100 + 1 * (i 1).val = (i 1).val; omega
  calc fetchedW0 A1 t d i = win0_1.fill (grid0.coords t) d ((win0_1.blk t).view.read (Elt F) A1) (win0_1.xinj (grid0.coords t) j) := by
        rw [← hj]; rfl
    _ = (win0_1.blk t).view.read (Elt F) A1 j := win0_1.fill_xinj _ _ _ _
    _ = A1 i := by rw [View.read_apply, hemb]; rfl

/-- Element `16384 t + col` of the output array after block `t` was written back over it: the staging buffer's
    element `col`. -/
theorem write_at (t : Fin cfg0.N) (G₀ : S1000448.Idx → F .f32) (Xo : S16384.Idx → F .f32) (col : Fin 16384)
    (h : 16384 * t.val + col.val < 1000448) :
    (win0_2.blk t).view.write (Elt F) G₀ (win0_2.cut (grid0.coords t) Xo) Finset.univ (ix1 ⟨16384 * t.val + col.val, h⟩) = Xo (ix1 col) := by
  obtain ⟨e0, e1⟩ := idxY0 t
  have hc : col.val < win0_2.xsize (grid0.coords t) (0 : Fin 1) := by rw [e1]; have := col.isLt; split <;> omega
  let j : (win0_2.xblock (grid0.coords t)).Idx := fun a => match a with | ⟨0, _⟩ => ⟨col.val, hc⟩
  have hj : (ix1 col : S16384.Idx) = win0_2.xinj (grid0.coords t) j := by
    funext a; match a with | ⟨0, _⟩ => rfl
  have hemb : (win0_2.blk t).view.emb j = (ix1 ⟨16384 * t.val + col.val, h⟩ : S1000448.Idx) := by
    funext a; apply Fin.ext
    match a with
    | ⟨0, _⟩ => show win0_2.index t (0 : Fin 1) * 16384 + 1 * col.val = 16384 * t.val + col.val; omega
  rw [← hemb, View.write_emb_of_mem _ _ (Finset.mem_univ j), hj]
  rfl

/-- and elements of earlier blocks are as they were. -/
theorem write_off (t : Fin cfg0.N) (G₀ : S1000448.Idx → F .f32) (w : (win0_2.xblock (grid0.coords t)).Idx → F .f32) (n : Fin 1000448)
    (h : n.val < 16384 * t.val) :
    (win0_2.blk t).view.write (Elt F) G₀ w Finset.univ (ix1 n) = G₀ (ix1 n) := by
  obtain ⟨e0, e1⟩ := idxY0 t
  refine View.write_of_not_mem _ _ _ ?_
  rw [View.setOn_univ]
  show (ix1 n : S1000448.Idx) ∉ ((View.whole main_v5).slice (win0_2.rect t)).set
  rw [View.set_slice_whole, Rect.mem_set_unit]
  intro hm
  have := (hm (0 : Fin 1)).1
  change win0_2.index t (0 : Fin 1) * 16384 ≤ n.val at this
  omega

/-- WHAT THE WRITE-BACKS BELOW POINT `T` LEAVE: each block `t < T` of the output array is the product of the weight
    row and some staged block that agrees with the table on the columns inside it. -/
theorem arrAt_val (c : Dev nD) (O : CellTallies nD τ sig (HIx 2)) (B : Set (SemLoc sig × HIx 2)) :
    ∀ (T : ℕ), T ≤ 62 → ∀ G, (rd0 A4 A1 A5 c O B).ArrAt 2 T G →
      ∃ X : Fin 62 → FVec F S100x16384 .f32,
        (∀ t : Fin 62, t.val < T → ∀ (f : Fin 100) (col : Fin 16384) (h : 16384 * t.val + col.val < 1000000),
            X t (ix2 f col) = A4 (ix2 f ⟨16384 * t.val + col.val, h⟩))
        ∧ ∀ t : Fin 62, t.val < T → ∀ (col : Fin 16384) (h : 16384 * t.val + col.val < 1000448),
            G (ix1 ⟨16384 * t.val + col.val, h⟩) = k0_pay1 A1 (X t) (ix1 col) := by
  intro T
  induction T with
  | zero =>
    intro _ G _
    exact ⟨fun _ _ => A4 (ix2 ⟨0, by omega⟩ ⟨0, by omega⟩), fun t ht => absurd ht (Nat.not_lt_zero _), fun t ht => absurd ht (Nat.not_lt_zero _)⟩
  | succ T ih =>
    intro hT G hG
    have hN : cfg0.N = 62 := N_0
    have hlt : T < cfg0.N := by rw [hN]; omega
    have hT' : T < 62 := by omega
    rw [show T + 1 = (⟨T, hlt⟩ : Fin cfg0.N).val + 1 from rfl, RDat.ArrAt_succ, if_pos (flush0_2 _)] at hG
    obtain ⟨G₀, Xo, hG₀, ⟨Y, -, d, d1, hX⟩, rfl⟩ := hG
    obtain ⟨X, hXa, hXv⟩ := ih (by omega) G₀ hG₀
    refine ⟨Function.update X ⟨T, hT'⟩ (fetchedX0 A4 ⟨T, hlt⟩ d), ?_, ?_⟩
    · intro t ht f col h
      by_cases e : t = ⟨T, hT'⟩
      · subst e; rw [Function.update_self]; exact fetchedX0_in A4 ⟨T, hlt⟩ d f col h
      · have : t.val ≠ T := fun h' => e (Fin.ext h')
        rw [Function.update_of_ne e]; exact hXa t (by omega) f col h
    · intro t ht col h
      by_cases e : t = ⟨T, hT'⟩
      · subst e
        rw [Function.update_self, write_at ⟨T, hlt⟩ G₀ Xo col h, hX, fetchedW0_eq]
      · have hne : t.val ≠ T := fun h' => e (Fin.ext h')
        have hcol := col.isLt
        rw [Function.update_of_ne e, ← hXv t (by omega) col h]
        exact write_off ⟨T, hlt⟩ G₀ _ ⟨16384 * t.val + col.val, h⟩ (by show 16384 * t.val + col.val < 16384 * T; omega)

/-- The output array after the call. -/
theorem val0 (c : Dev nD) (O : CellTallies nD τ sig (HIx 2)) (B : Set (SemLoc sig × HIx 2)) (G : S1000448.Idx → F .f32)
    (h : (rd0 A4 A1 A5 c O B).ArrAt 2 cfg0.N G) : Vals.Reg0Val A1 A4 G := by
  have hN : cfg0.N = 62 := N_0
  rw [hN] at h
  obtain ⟨X, hXa, hXv⟩ := arrAt_val A4 A1 A5 c O B 62 le_rfl G h
  exact ⟨X, fun t f col hh => hXa t t.isLt f col hh, fun t col hh => hXv t t.isLt col hh⟩

end Call0

section Call2

variable (A9 : S100x100000.Idx → F .f32) (A3 : S1x100.Idx → F .f32) (A10 : S100352.Idx → F .f32)

/-- The index maps and cuts of the three windows, decided over the grid: the table's block `t` is columns
    `16384 t …` cut at the table's 100000 columns, the weight row is the one block, the output's block `t` is
    elements `16384 t …` cut at its 100352 elements. -/
theorem idxX2 : ∀ t : Fin cfg2.N, win2_0.index t (0 : Fin 2) = 0 ∧ win2_0.index t (1 : Fin 2) = t.val
    ∧ win2_0.xsize (grid2.coords t) (0 : Fin 2) = 100
    ∧ win2_0.xsize (grid2.coords t) (1 : Fin 2) = (if 16384 * (t.val + 1) ≤ 100000 then 16384 else 100000 - 16384 * t.val) :=
  (by decide +kernel : ∀ t : Fin grid2.N, _)
theorem idxW2 : ∀ t : Fin cfg2.N, win2_1.index t (0 : Fin 2) = 0 ∧ win2_1.index t (1 : Fin 2) = 0
    ∧ win2_1.xsize (grid2.coords t) (0 : Fin 2) = 1 ∧ win2_1.xsize (grid2.coords t) (1 : Fin 2) = 100 :=
  (by decide +kernel : ∀ t : Fin grid2.N, _)
theorem idxY2 : ∀ t : Fin cfg2.N, win2_2.index t (0 : Fin 1) = t.val
    ∧ win2_2.xsize (grid2.coords t) (0 : Fin 1) = (if 16384 * (t.val + 1) ≤ 100352 then 16384 else 100352 - 16384 * t.val) :=
  (by decide +kernel : ∀ t : Fin grid2.N, _)

/-- The staged block of the table agrees with the table on the columns inside it. -/
theorem fetchedX2_in (t : Fin cfg2.N) (d : S100x16384.Idx → F .f32) (f : Fin 100) (col : Fin 16384)
    (h : 16384 * t.val + col.val < 100000) :
    fetchedX2 A9 t d (ix2 f col) = A9 (ix2 f ⟨16384 * t.val + col.val, h⟩) := by
  obtain ⟨e0, e1, e2, e3⟩ := idxX2 t
  have hf : f.val < win2_0.xsize (grid2.coords t) (0 : Fin 2) := by rw [e2]; exact f.isLt
  have hc : col.val < win2_0.xsize (grid2.coords t) (1 : Fin 2) := by rw [e3]; have := col.isLt; split <;> omega
  let j : (win2_0.xblock (grid2.coords t)).Idx := fun a => match a with | ⟨0, _⟩ => ⟨f.val, hf⟩ | ⟨1, _⟩ => ⟨col.val, hc⟩
  have hj : (ix2 f col : S100x16384.Idx) = win2_0.xinj (grid2.coords t) j := by
    funext a; match a with | ⟨0, _⟩ => rfl | ⟨1, _⟩ => rfl
  have hemb : (win2_0.blk t).view.emb j = (ix2 f ⟨16384 * t.val + col.val, h⟩ : S100x100000.Idx) := by
    funext a; apply Fin.ext
    match a with
    | ⟨0, _⟩ => show win2_0.index t (0 : Fin 2) * 100 + 1 * f.val = f.val; omega
    | ⟨1, _⟩ => show win2_0.index t (1 : Fin 2) * 16384 + 1 * col.val = 16384 * t.val + col.val; omega
  unfold fetchedX2
  rw [hj, win2_0.fill_xinj, View.read_apply, hemb]
  rfl

/-- The staged weight row is the weight row. -/
theorem fetchedW2_eq (t : Fin cfg2.N) (d : S1x100.Idx → F .f32) : fetchedW2 A3 t d = A3 := by
  obtain ⟨e0, e1, e2, e3⟩ := idxW2 t
  funext i
  have h0 : (i 0).val < win2_1.xsize (grid2.coords t) (0 : Fin 2) := by rw [e2]; exact (i 0).isLt
  have h1 : (i 1).val < win2_1.xsize (grid2.coords t) (1 : Fin 2) := by rw [e3]; exact (i 1).isLt
  let j : (win2_1.xblock (grid2.coords t)).Idx := fun a => match a with | ⟨0, _⟩ => ⟨(i 0).val, h0⟩ | ⟨1, _⟩ => ⟨(i 1).val, h1⟩
  have hj : i = win2_1.xinj (grid2.coords t) j := by
    funext a; match a with | ⟨0, _⟩ => rfl | ⟨1, _⟩ => rfl
  have hemb : (win2_1.blk t).view.emb j = i := by
    funext a; apply Fin.ext
    have b0 : (i 0).val < 1 := (i 0).isLt
    match a with
    | ⟨0, _⟩ => show win2_1.index t (0 : Fin 2) * 1 + 1 * (i 0).val = (i 0).val; omega
    | ⟨1, _⟩ => show win2_1.index t (1 : Fin 2) * 100 + 1 * (i 1).val = (i 1).val; omega
  calc fetchedW2 A3 t d i = win2_1.fill (grid2.coords t) d ((win2_1.blk t).view.read (Elt F) A3) (win2_1.xinj (grid2.coords t) j) := by
        rw [← hj]; rfl
    _ = (win2_1.blk t).view.read (Elt F) A3 j := win2_1.fill_xinj _ _ _ _
    _ = A3 i := by rw [View.read_apply, hemb]; rfl

/-- Element `16384 t + col` of the output array after block `t` was written back over it: the staging buffer's
    element `col`. -/
theorem write_at2 (t : Fin cfg2.N) (G₀ : S100352.Idx → F .f32) (Xo : S16384.Idx → F .f32) (col : Fin 16384)
    (h : 16384 * t.val + col.val < 100352) :
    (win2_2.blk t).view.write (Elt F) G₀ (win2_2.cut (grid2.coords t) Xo) Finset.univ (ix1 ⟨16384 * t.val + col.val, h⟩) = Xo (ix1 col) := by
  obtain ⟨e0, e1⟩ := idxY2 t
  have hc : col.val < win2_2.xsize (grid2.coords t) (0 : Fin 1) := by rw [e1]; have := col.isLt; split <;> omega
  let j : (win2_2.xblock (grid2.coords t)).Idx := fun a => match a with | ⟨0, _⟩ => ⟨col.val, hc⟩
  have hj : (ix1 col : S16384.Idx) = win2_2.xinj (grid2.coords t) j := by
    funext a; match a with | ⟨0, _⟩ => rfl
  have hemb : (win2_2.blk t).view.emb j = (ix1 ⟨16384 * t.val + col.val, h⟩ : S100352.Idx) := by
    funext a; apply Fin.ext
    match a with
    | ⟨0, _⟩ => show win2_2.index t (0 : Fin 1) * 16384 + 1 * col.val = 16384 * t.val + col.val; omega
  rw [← hemb, View.write_emb_of_mem _ _ (Finset.mem_univ j), hj]
  rfl

/-- and elements of earlier blocks are as they were. -/
theorem write_off2 (t : Fin cfg2.N) (G₀ : S100352.Idx → F .f32) (w : (win2_2.xblock (grid2.coords t)).Idx → F .f32) (n : Fin 100352)
    (h : n.val < 16384 * t.val) :
    (win2_2.blk t).view.write (Elt F) G₀ w Finset.univ (ix1 n) = G₀ (ix1 n) := by
  obtain ⟨e0, e1⟩ := idxY2 t
  refine View.write_of_not_mem _ _ _ ?_
  rw [View.setOn_univ]
  show (ix1 n : S100352.Idx) ∉ ((View.whole main_v10).slice (win2_2.rect t)).set
  rw [View.set_slice_whole, Rect.mem_set_unit]
  intro hm
  have := (hm (0 : Fin 1)).1
  change win2_2.index t (0 : Fin 1) * 16384 ≤ n.val at this
  omega

/-- WHAT THE WRITE-BACKS BELOW POINT `T` LEAVE: each block `t < T` of the output array is the product of the weight
    row and some staged block that agrees with the table on the columns inside it. -/
theorem arrAt_val2 (c : Dev nD) (O : CellTallies nD τ sig (HIx 2)) (B : Set (SemLoc sig × HIx 2)) :
    ∀ (T : ℕ), T ≤ 7 → ∀ G, (rd2 A9 A3 A10 c O B).ArrAt 2 T G →
      ∃ X : Fin 7 → FVec F S100x16384 .f32,
        (∀ t : Fin 7, t.val < T → ∀ (f : Fin 100) (col : Fin 16384) (h : 16384 * t.val + col.val < 100000),
            X t (ix2 f col) = A9 (ix2 f ⟨16384 * t.val + col.val, h⟩))
        ∧ ∀ t : Fin 7, t.val < T → ∀ (col : Fin 16384) (h : 16384 * t.val + col.val < 100352),
            G (ix1 ⟨16384 * t.val + col.val, h⟩) = k2_pay1 A3 (X t) (ix1 col) := by
  intro T
  induction T with
  | zero =>
    intro _ G _
    exact ⟨fun _ _ => A9 (ix2 ⟨0, by omega⟩ ⟨0, by omega⟩), fun t ht => absurd ht (Nat.not_lt_zero _), fun t ht => absurd ht (Nat.not_lt_zero _)⟩
  | succ T ih =>
    intro hT G hG
    have hN : cfg2.N = 7 := N_2
    have hlt : T < cfg2.N := by rw [hN]; omega
    have hT' : T < 7 := by omega
    rw [show T + 1 = (⟨T, hlt⟩ : Fin cfg2.N).val + 1 from rfl, RDat.ArrAt_succ, if_pos (flush2_2 _)] at hG
    obtain ⟨G₀, Xo, hG₀, ⟨Y, -, d, d1, hX⟩, rfl⟩ := hG
    obtain ⟨X, hXa, hXv⟩ := ih (by omega) G₀ hG₀
    refine ⟨Function.update X ⟨T, hT'⟩ (fetchedX2 A9 ⟨T, hlt⟩ d), ?_, ?_⟩
    · intro t ht f col h
      by_cases e : t = ⟨T, hT'⟩
      · subst e; rw [Function.update_self]; exact fetchedX2_in A9 ⟨T, hlt⟩ d f col h
      · have : t.val ≠ T := fun h' => e (Fin.ext h')
        rw [Function.update_of_ne e]; exact hXa t (by omega) f col h
    · intro t ht col h
      by_cases e : t = ⟨T, hT'⟩
      · subst e
        rw [Function.update_self, write_at2 ⟨T, hlt⟩ G₀ Xo col h, hX, fetchedW2_eq]
      · have hne : t.val ≠ T := fun h' => e (Fin.ext h')
        have hcol := col.isLt
        rw [Function.update_of_ne e, ← hXv t (by omega) col h]
        exact write_off2 ⟨T, hlt⟩ G₀ _ ⟨16384 * t.val + col.val, h⟩ (by show 16384 * t.val + col.val < 16384 * T; omega)

/-- The output array after the call. -/
theorem val2 (c : Dev nD) (O : CellTallies nD τ sig (HIx 2)) (B : Set (SemLoc sig × HIx 2)) (G : S100352.Idx → F .f32)
    (h : (rd2 A9 A3 A10 c O B).ArrAt 2 cfg2.N G) : Vals.Reg1Val A3 A9 G := by
  have hN : cfg2.N = 7 := N_2
  rw [hN] at h
  obtain ⟨X, hXa, hXv⟩ := arrAt_val2 A9 A3 A10 c O B 7 le_rfl G h
  exact ⟨X, fun t f col hh => hXa t t.isLt f col hh, fun t col hh => hXv t t.isLt col hh⟩

end Call2

end Cert.KernelIdeal.RegVal

end
-- ==== Proof.Regions.lean ====
import proofs.«204913_g64682207478566_cont_9to1c4b_713_31_alg».proof.Proof.Common
import proofs.«204913_g64682207478566_cont_9to1c4b_713_31_alg».proof.Proof.Vals
import proofs.«204913_g64682207478566_cont_9to1c4b_713_31_alg».proof.Proof.Gen.KernelIdeal.Launch
import proofs.«204913_g64682207478566_cont_9to1c4b_713_31_alg».proof.Proof.Gen.KernelIdeal.Skeleton
import proofs.«204913_g64682207478566_cont_9to1c4b_713_31_alg».proof.Proof.Gen.KernelIdeal.Points
import proofs.«204913_g64682207478566_cont_9to1c4b_713_31_alg».proof.Proof.RegData
import proofs.«204913_g64682207478566_cont_9to1c4b_713_31_alg».proof.Proof.RegVal
import Idealize.ShloMosaic.Lib.Pipeline.Regions
import Idealize.ShloMosaic.Lib.SparseCore.Launch
import Idealize.ShloMosaic.Lib.Pipeline.FrameBody
import Idealize.ShloMosaic.Lib.Pipeline.Value
import Idealize.ShloMosaic.Lib.Tactic

set_option maxRecDepth 16384

noncomputable section

namespace Cert.KernelIdeal.Regions

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => Common.𝕄F F

open Cert.KernelIdeal.RegData

/-! ## The two TensorCore calls as steps of @main beside the SparseCore calls -/

/-- Neither call prefetches a table. -/
abbrev adm : (p : Fin 2) → (pcfgs (F := F) p).Adm := fun p => (cfgs p).toPCfg_adm

/-- What the TensorCore owes before SparseCore call `n`, its recorded pairs bounded: the first conjunct of its state
    between calls. -/
def tcOwes (d : Dev nD) (n : ℕ) : sProp 𝕄 :=
  iprop(∃ W, ⌜(K (F := F)).WBelow (SparseCore.T d : Thread nD τ) W (8 * n)⌝ ∗ owes (SparseCore.T d : Thread nD τ) ((K (F := F)).Otc d n) W)

/-- The pairs at or below a level. -/
def Bnd (d : Dev nD) (b : ℕ) : Set (SemLoc sig × HIx 2) := {p | (K (F := F)).lev ((SparseCore.T d : Thread nD τ), p.1) p.2 ≤ b}

/-- The TensorCore owes nothing at the index of a kernel's own waits. -/
theorem mem_Bnd (d : Dev nD) (b : ℕ) (p : SemLoc sig × HIx 2) :
    p ∈ Bnd (F := F) d b ↔ (K (F := F)).lev ((SparseCore.T d : Thread nD τ), p.1) p.2 ≤ b := Iff.rfl

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

section Data

variable (A4 : S100x1000000.Idx → F .f32) (A1 : S1x100.Idx → F .f32) (A5 : S1000448.Idx → F .f32)
  (A9 : S100x100000.Idx → F .f32) (A3 : S1x100.Idx → F .f32) (A10 : S100352.Idx → F .f32)

/-- Both calls' proof data: the first entered owing what the TensorCore owes before SparseCore call 0, the second
    before call 1. -/
def rdats : (p : Fin 2) → (c : Dev nD) → RDat τ (Elt F) (HIx 2) ℕ UU ℕ (Pipeline.pin (pcfgs (F := F)) adm p) c
  | ⟨0, _⟩ => fun c => rd0 A4 A1 A5 c ((K (F := F)).Otc c 0) (Bnd (F := F) c (8 * 0))
  | ⟨1, _⟩ => fun c => rd2 A9 A3 A10 c ((K (F := F)).Otc c 1) (Bnd (F := F) c (8 * 1))

/-- One set of admissible tables pins each pipeline to its printed configuration. -/
theorem pin_eq : Pipeline.pin (pcfgs (F := F)) adm = cfgs := rfl

/-- A TensorCore call's line of @main is the call's line below the SparseCore dispatch, lifted. -/
theorem lift_entry (p : Fin 2) :
    (Prog.lift (.customCall (SparseCore.inner (Pipeline.entry p)) ()) : Prog (TpuEff nD τ sig (Elt F) (SparseCore.Sig (ΛP (F := F)) 2) .tc) PUnit)
      = SparseCore.liftProg (Prog.lift (.customCall (Pipeline.entry p) ())) := rfl

/-! ### TensorCore call 0 (custom_call 0) -/

theorem rdats_0 (c : Dev nD) : rdats A4 A1 A5 A9 A3 A10 0 c = rd0 A4 A1 A5 c ((K (F := F)).Otc c 0) (Bnd (F := F) c (8 * 0)) := rfl

theorem rd0_Φ (c : Dev nD) (O : CellTallies nD τ sig (HIx 2)) (B : Set (SemLoc sig × HIx 2)) (t : Fin (cfg0.N + 1)) :
    (rd0 A4 A1 A5 c O B).Φ t = Pipeline.scopedRest spec0 c := rfl

theorem arrays0_eq (c : Dev nD) (O : CellTallies nD τ sig (HIx 2)) (B : Set (SemLoc sig × HIx 2))
    (G : (w : Fin cfg0.W) → Buf (Elt F) ((cfg0.win w).arr.view.loc (c.tc : Thread nD τ))) :
    (rd0 A4 A1 A5 c O B).arrays G
      = iprop(((SparseCore.T c : Thread nD τ).loc main_v4 ↦{fullShare} G 0) ∗ ((SparseCore.T c : Thread nD τ).loc main_v1 ↦{fullShare} G 1) ∗ ((SparseCore.T c : Thread nD τ).loc main_v5 ↦{fullShare} G 2)) := by
  unfold RDat.arrays; rw [bigSep_W0, (arr_whole0 0).set_eq_univ, (arr_whole0 1).set_eq_univ, (arr_whole0 2).set_eq_univ]; rfl

theorem arraysAt0_eq (c : Dev nD) (O : CellTallies nD τ sig (HIx 2)) (B : Set (SemLoc sig × HIx 2)) (n : ℕ) :
    (rd0 A4 A1 A5 c O B).arraysAt n
      = iprop((∃ G, ⌜(rd0 A4 A1 A5 c O B).ArrAt 0 n G⌝ ∗ ((SparseCore.T c : Thread nD τ).loc main_v4 ↦{fullShare} G))
          ∗ (∃ G, ⌜(rd0 A4 A1 A5 c O B).ArrAt 1 n G⌝ ∗ ((SparseCore.T c : Thread nD τ).loc main_v1 ↦{fullShare} G))
          ∗ (∃ G, ⌜(rd0 A4 A1 A5 c O B).ArrAt 2 n G⌝ ∗ ((SparseCore.T c : Thread nD τ).loc main_v5 ↦{fullShare} G))) := by
  unfold RDat.arraysAt; rw [bigSep_W0, (arr_whole0 0).set_eq_univ, (arr_whole0 1).set_eq_univ, (arr_whole0 2).set_eq_univ]; rfl

/-- The thread state the call is entered from: what the TensorCore owes before SparseCore call 0, and the call's
    three arrays whole. -/
def pre0 (c : Dev nD) : sProp 𝕄 :=
  iprop(tcOwes c 0 ∗ ((SparseCore.T c : Thread nD τ).loc main_v4 ↦{fullShare} A4) ∗ ((SparseCore.T c : Thread nD τ).loc main_v1 ↦{fullShare} A1)
    ∗ ((SparseCore.T c : Thread nD τ).loc main_v5 ↦{fullShare} A5))
/-- The state it leaves: the same owed, the inputs as they were, the output at what the write-backs may leave. -/
def post0 (c : Dev nD) : sProp 𝕄 :=
  iprop(tcOwes c 0 ∗ ((SparseCore.T c : Thread nD τ).loc main_v4 ↦{fullShare} A4) ∗ ((SparseCore.T c : Thread nD τ).loc main_v1 ↦{fullShare} A1)
    ∗ ∃ fo, ⌜(rd0 A4 A1 A5 c ((K (F := F)).Otc c 0) (Bnd (F := F) c (8 * 0))).ArrAt 2 cfg0.N fo⌝ ∗ ((SparseCore.T c : Thread nD τ).loc main_v5 ↦{fullShare} fo))

include A4 A1 A5 A9 A3 A10 in
set_option backward.isDefEq.respectTransparency.types false in
theorem hwaits0 (lv : GSem nD τ sig → HIx 2 → ℕ) (hlv : (K (F := F)).Refines lv) (c : Dev nD) :
    (levAts (K (F := F)).L lv : sProp 𝕄) ⊢ Pipeline.RDat.cellsWaits (Pipeline.pin (pcfgs (F := F)) adm) (rdats A4 A1 A5 A9 A3 A10) (none : HIx 2) 0 c :=
  Pipeline.RDat.cellsWaits_intro (Pipeline.pin (pcfgs (F := F)) adm) (rdats A4 A1 A5 A9 A3 A10) (none : HIx 2) 0 c
    (R := levAts (K (F := F)).L lv) fun w s t =>
      show (levAts (K (F := F)).L lv : sProp 𝕄) ⊢ MayWait (SparseCore.T c : Thread nD τ) _ none ((K (F := F)).Otc c 0) from
        (K (F := F)).mayWait_none _ (Otc_none c 0) lv hlv

include A4 A1 A5 A9 A3 A10 in
set_option backward.isDefEq.respectTransparency.types false in
theorem hentry0 (lv : GSem nD τ sig → HIx 2 → ℕ) (c : Dev nD) :
    iprop(pre0 A4 A1 A5 c ∗ Pipeline.ownSems0 (fun k : PEmpty => k.elim) c ∗ levAts (K (F := F)).L lv)
      ⊢ |={Set.univ}=> iprop(((rdats A4 A1 A5 A9 A3 A10) 0 c).arrays ((rdats A4 A1 A5 A9 A3 A10) 0 c).A ∗ Pipeline.prefHeld (pcfgs (F := F) 0).pre c (fun _ => fullShare) (adm 0).1
        ∗ ((rdats A4 A1 A5 A9 A3 A10) 0 c).owesAt (none : HIx 2) 0 ∗ (iprop(emp) : sProp 𝕄) ∗ (iprop(emp) : sProp 𝕄)) := by
  rw [rdats_0, arrays0_eq]
  unfold pre0
  iintro ⟨⟨HO, H4, H1, H5⟩, -, -⟩
  imodintro
  isplitl [H4 H1 H5]
  · isplitl [H4]; · iexact H4
    isplitl [H1]; · iexact H1
    iexact H5
  isplitr; · unfold Pipeline.prefHeld; rw [show (Finset.univ : Finset (Fin 0)) = ∅ from rfl, BI.bigSep_empty]; iempintro
  isplitl [HO]
  · unfold tcOwes RDat.owesAt Pipeline.owesWithin
    icases HO with ⟨%W, %hW, HO⟩; iexists W; isplitr
    · ipureintro; exact fun p hp => Or.inl ((mem_Bnd c (8 * 0) p).mpr (hW p hp))
    iexact HO
  isplitr <;> iempintro

include A4 A1 A5 A9 A3 A10 in
set_option backward.isDefEq.respectTransparency.types false in
theorem hexit0 (c : Dev nD) :
    iprop(((rdats A4 A1 A5 A9 A3 A10) 0 c).arraysAt (Pipeline.pin (pcfgs (F := F)) adm 0).N ∗ ((rdats A4 A1 A5 A9 A3 A10) 0 c).owesAt (none : HIx 2) (Fin.last (Pipeline.pin (pcfgs (F := F)) adm 0).N)
        ∗ (iprop(emp) : sProp 𝕄) ∗ (iprop(emp) : sProp 𝕄))
      ⊢ |={Set.univ}=> post0 A4 A1 A5 c := by
  rw [rdats_0, arraysAt0_eq]
  unfold post0
  iintro ⟨⟨⟨%F0, %h0, H4⟩, ⟨%F1, %h1, H1⟩, ⟨%F2, %h2, H5⟩⟩, HO, -, -⟩
  rw [RDat.ArrAt_in _ 0 rfl] at h0
  rw [RDat.ArrAt_in _ 1 rfl] at h1
  subst h0; subst h1
  imodintro
  isplitl [HO]
  · unfold tcOwes RDat.owesAt Pipeline.owesWithin
    icases HO with ⟨%W, %hW, HO⟩; iexists W; isplitr
    · ipureintro
      intro p hp
      rcases hW hp with h | ⟨w, s, rfl⟩
      · exact (mem_Bnd c (8 * 0) p).mp h
      · exact Nat.zero_le _
    iexact HO
  isplitl [H4]; · iexact H4
  isplitl [H1]; · iexact H1
  iexists F2; isplitr; · ipureintro; exact h2
  iexact H5

set_option backward.isDefEq.respectTransparency.types false in
set_option maxHeartbeats 1000000 in
/-- The call as a step of @main: entered holding its three arrays whole, left holding the inputs as they were and the
    output at what the write-backs may leave. -/
def reg0 (lv : GSem nD τ sig → HIx 2 → ℕ) (hlv : (K (F := F)).Refines lv) :
    Pipeline.RDat.RegionSeg (pcfgs (F := F)) adm (rdats A4 A1 A5 A9 A3 A10) (none : HIx 2) defs₀ 𝒱₀ (K (F := F)).L lv 0 where
  win := launch0.win.to₀
  block_pos := launch0.block_pos
  stage_whole := launch0.stage_whole
  K := PEmpty
  osem k := k.elim
  ho := Pipeline.OwnSemFacts.none _
  hbody c := body_obligation0 A4 A1 A5 c ((K (F := F)).Otc c 0) (Bnd (F := F) c (8 * 0))
  hwaits c := hwaits0 A4 A1 A5 A9 A3 A10 lv hlv c
  pre := pre0 A4 A1 A5
  post := post0 A4 A1 A5
  X _ := iprop(emp)
  Y _ := iprop(emp)
  Z _ := iprop(emp)
  hentry c := hentry0 A4 A1 A5 A9 A3 A10 lv c
  hin c := by
    rw [rdats_0, rd0_Φ]
    iintro ⟨-, -, Hr⟩; iexact Hr
  hout c := by
    rw [Pipeline.ownSems0_none, rdats_0, rd0_Φ]
    iintro Hr
    isplitr; · iempintro
    isplitr; · iempintro
    iexact Hr
  hexit c := hexit0 A4 A1 A5 A9 A3 A10 c

include A4 A1 A5 A9 A3 A10 in
set_option backward.isDefEq.respectTransparency.types false in
set_option maxHeartbeats 2000000 in
/-- The call below the SparseCore dispatch: the region rule at its record. -/
theorem region0_inner (lv : GSem nD τ sig → HIx 2 → ℕ) (hlv : (K (F := F)).Refines lv) (d : Dev nD) :
    iprop(levAts (K (F := F)).L lv ∗ boundary (SparseCore.T d : Thread nD τ) ∗ pre0 A4 A1 A5 d
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (SparseCore.T d) none) Set.univ
          (Prog.op (.customCall (Pipeline.entry 0) ()) Prog.ret)
          (fun _ => iprop(boundary (SparseCore.T d : Thread nD τ) ∗ post0 A4 A1 A5 d)) := by
  have h := Pipeline.RDat.RegionSeg.wp (pcfgs (F := F)) adm (rdats A4 A1 A5 A9 A3 A10) (none : HIx 2) cellOf_inj (EP (F := F)) defs₀ 𝒱₀
      (K (F := F)).L lv (reg0 A4 A1 A5 A9 A3 A10 lv hlv) d none (fun u hu => nomatch hu) Prog.ret
      (fun _ => iprop(boundary (SparseCore.T d : Thread nD τ) ∗ post0 A4 A1 A5 d))
  rw [show (reg0 A4 A1 A5 A9 A3 A10 lv hlv).pre = pre0 A4 A1 A5 from rfl, show (reg0 A4 A1 A5 A9 A3 A10 lv hlv).post = post0 A4 A1 A5 from rfl] at h
  refine BIBase.Entails.trans ?_ h
  iintro ⟨Hlev, Hb, Hpre, Hg, Htk⟩
  isplitr
  · iintro H; rw [wp_ret]; imodintro; iexact H
  isplitl [Hb]; · iexact Hb
  isplitl [Hpre]; · iexact Hpre
  isplitl [Hlev]; · iexact Hlev
  isplitl [Hg]; · iexact Hg
  iexact Htk

include A4 A1 A5 A9 A3 A10 in
set_option backward.isDefEq.respectTransparency.types false in
set_option maxHeartbeats 2000000 in
/-- The same as the line of @main beside the SparseCore calls. -/
theorem region0_arr (lv : GSem nD τ sig → HIx 2 → ℕ) (hlv : (K (F := F)).Refines lv) (d : Dev nD) :
    iprop(levAts (K (F := F)).L lv ∗ boundary (SparseCore.T d : Thread nD τ) ∗ pre0 A4 A1 A5 d
        ∗ Pipeline.cellsGhost cfgs (EP (F := F)) 0 d ∗ Pipeline.toksInit cfgs (EP (F := F)) 0 d)
      ⊢ wp frame (wpE ((K (F := F)).defs D) 𝒱 (SparseCore.T d) none) Set.univ
          (Prog.lift (.customCall (SparseCore.inner (Pipeline.entry 0)) ()))
          (fun _ => iprop(boundary (SparseCore.T d : Thread nD τ) ∗ post0 A4 A1 A5 d)) := by
  rw [lift_entry]
  exact (region0_inner A4 A1 A5 A9 A3 A10 lv hlv d).trans
    ((K (F := F)).wp_liftProg D 𝒱 (SparseCore.T d) Set.univ none _ _)

/-! ### TensorCore call 1 (custom_call 2) -/

theorem rdats_1 (c : Dev nD) : rdats A4 A1 A5 A9 A3 A10 1 c = rd2 A9 A3 A10 c ((K (F := F)).Otc c 1) (Bnd (F := F) c (8 * 1)) := rfl

theorem rd2_Φ (c : Dev nD) (O : CellTallies nD τ sig (HIx 2)) (B : Set (SemLoc sig × HIx 2)) (t : Fin (cfg2.N + 1)) :
    (rd2 A9 A3 A10 c O B).Φ t = Pipeline.scopedRest spec2 c := rfl

theorem arrays1_eq (c : Dev nD) (O : CellTallies nD τ sig (HIx 2)) (B : Set (SemLoc sig × HIx 2))
    (G : (w : Fin cfg2.W) → Buf (Elt F) ((cfg2.win w).arr.view.loc (c.tc : Thread nD τ))) :
    (rd2 A9 A3 A10 c O B).arrays G
      = iprop(((SparseCore.T c : Thread nD τ).loc main_v9 ↦{fullShare} G 0) ∗ ((SparseCore.T c : Thread nD τ).loc main_v3 ↦{fullShare} G 1) ∗ ((SparseCore.T c : Thread nD τ).loc main_v10 ↦{fullShare} G 2)) := by
  unfold RDat.arrays; rw [bigSep_W2, (arr_whole2 0).set_eq_univ, (arr_whole2 1).set_eq_univ, (arr_whole2 2).set_eq_univ]; rfl

theorem arraysAt1_eq (c : Dev nD) (O : CellTallies nD τ sig (HIx 2)) (B : Set (SemLoc sig × HIx 2)) (n : ℕ) :
    (rd2 A9 A3 A10 c O B).arraysAt n
      = iprop((∃ G, ⌜(rd2 A9 A3 A10 c O B).ArrAt 0 n G⌝ ∗ ((SparseCore.T c : Thread nD τ).loc main_v9 ↦{fullShare} G))
          ∗ (∃ G, ⌜(rd2 A9 A3 A10 c O B).ArrAt 1 n G⌝ ∗ ((SparseCore.T c : Thread nD τ).loc main_v3 ↦{fullShare} G))
          ∗ (∃ G, ⌜(rd2 A9 A3 A10 c O B).ArrAt 2 n G⌝ ∗ ((SparseCore.T c : Thread nD τ).loc main_v10 ↦{fullShare} G))) := by
  unfold RDat.arraysAt; rw [bigSep_W2, (arr_whole2 0).set_eq_univ, (arr_whole2 1).set_eq_univ, (arr_whole2 2).set_eq_univ]; rfl

/-- The thread state the call is entered from: what the TensorCore owes before SparseCore call 1, and the call's
    three arrays whole. -/
def pre1 (c : Dev nD) : sProp 𝕄 :=
  iprop(tcOwes c 1 ∗ ((SparseCore.T c : Thread nD τ).loc main_v9 ↦{fullShare} A9) ∗ ((SparseCore.T c : Thread nD τ).loc main_v3 ↦{fullShare} A3)
    ∗ ((SparseCore.T c : Thread nD τ).loc main_v10 ↦{fullShare} A10))
/-- The state it leaves: the same owed, the inputs as they were, the output at what the write-backs may leave. -/
def post1 (c : Dev nD) : sProp 𝕄 :=
  iprop(tcOwes c 1 ∗ ((SparseCore.T c : Thread nD τ).loc main_v9 ↦{fullShare} A9) ∗ ((SparseCore.T c : Thread nD τ).loc main_v3 ↦{fullShare} A3)
    ∗ ∃ fo, ⌜(rd2 A9 A3 A10 c ((K (F := F)).Otc c 1) (Bnd (F := F) c (8 * 1))).ArrAt 2 cfg2.N fo⌝ ∗ ((SparseCore.T c : Thread nD τ).loc main_v10 ↦{fullShare} fo))

include A4 A1 A5 A9 A3 A10 in
set_option backward.isDefEq.respectTransparency.types false in
theorem hwaits1 (lv : GSem nD τ sig → HIx 2 → ℕ) (hlv : (K (F := F)).Refines lv) (c : Dev nD) :
    (levAts (K (F := F)).L lv : sProp 𝕄) ⊢ Pipeline.RDat.cellsWaits (Pipeline.pin (pcfgs (F := F)) adm) (rdats A4 A1 A5 A9 A3 A10) (none : HIx 2) 1 c :=
  Pipeline.RDat.cellsWaits_intro (Pipeline.pin (pcfgs (F := F)) adm) (rdats A4 A1 A5 A9 A3 A10) (none : HIx 2) 1 c
    (R := levAts (K (F := F)).L lv) fun w s t =>
      show (levAts (K (F := F)).L lv : sProp 𝕄) ⊢ MayWait (SparseCore.T c : Thread nD τ) _ none ((K (F := F)).Otc c 1) from
        (K (F := F)).mayWait_none _ (Otc_none c 1) lv hlv

include A4 A1 A5 A9 A3 A10 in
set_option backward.isDefEq.respectTransparency.types false in
theorem hentry1 (lv : GSem nD τ sig → HIx 2 → ℕ) (c : Dev nD) :
    iprop(pre1 A9 A3 A10 c ∗ Pipeline.ownSems0 (fun k : PEmpty => k.elim) c ∗ levAts (K (F := F)).L lv)
      ⊢ |={Set.univ}=> iprop(((rdats A4 A1 A5 A9 A3 A10) 1 c).arrays ((rdats A4 A1 A5 A9 A3 A10) 1 c).A ∗ Pipeline.prefHeld (pcfgs (F := F) 1).pre c (fun _ => fullShare) (adm 1).1
        ∗ ((rdats A4 A1 A5 A9 A3 A10) 1 c).owesAt (none : HIx 2) 0 ∗ (iprop(emp) : sProp 𝕄) ∗ (iprop(emp) : sProp 𝕄)) := by
  rw [rdats_1, arrays1_eq]
  unfold pre1
  iintro ⟨⟨HO, H4, H1, H5⟩, -, -⟩
  imodintro
  isplitl [H4 H1 H5]
  · isplitl [H4]; · iexact H4
    isplitl [H1]; · iexact H1
    iexact H5
  isplitr; · unfold Pipeline.prefHeld; rw [show (Finset.univ : Finset (Fin 0)) = ∅ from rfl, BI.bigSep_empty]; iempintro
  isplitl [HO]
  · unfold tcOwes RDat.owesAt Pipeline.owesWithin
    icases HO with ⟨%W, %hW, HO⟩; iexists W; isplitr
    · ipureintro; exact fun p hp => Or.inl ((mem_Bnd c (8 * 1) p).mpr (hW p hp))
    iexact HO
  isplitr <;> iempintro

include A4 A1 A5 A9 A3 A10 in
set_option backward.isDefEq.respectTransparency.types false in
theorem hexit1 (c : Dev nD) :
    iprop(((rdats A4 A1 A5 A9 A3 A10) 1 c).arraysAt (Pipeline.pin (pcfgs (F := F)) adm 1).N ∗ ((rdats A4 A1 A5 A9 A3 A10) 1 c).owesAt (none : HIx 2) (Fin.last (Pipeline.pin (pcfgs (F := F)) adm 1).N)
        ∗ (iprop(emp) : sProp 𝕄) ∗ (iprop(emp) : sProp 𝕄))
      ⊢ |={Set.univ}=> post1 A9 A3 A10 c := by
  rw [rdats_1, arraysAt1_eq]
  unfold post1
  iintro ⟨⟨⟨%F0, %h0, H4⟩, ⟨%F1, %h1, H1⟩, ⟨%F2, %h2, H5⟩⟩, HO, -, -⟩
  rw [RDat.ArrAt_in _ 0 rfl] at h0
  rw [RDat.ArrAt_in _ 1 rfl] at h1
  subst h0; subst h1
  imodintro
  isplitl [HO]
  · unfold tcOwes RDat.owesAt Pipeline.owesWithin
    icases HO with ⟨%W, %hW, HO⟩; iexists W; isplitr
    · ipureintro
      intro p hp
      rcases hW hp with h | ⟨w, s, rfl⟩
      · exact (mem_Bnd c (8 * 1) p).mp h
      · exact Nat.zero_le _
    iexact HO
  isplitl [H4]; · iexact H4
  isplitl [H1]; · iexact H1
  iexists F2; isplitr; · ipureintro; exact h2
  iexact H5

set_option backward.isDefEq.respectTransparency.types false in
set_option maxHeartbeats 1000000 in
/-- The call as a step of @main: entered holding its three arrays whole, left holding the inputs as they were and the
    output at what the write-backs may leave. -/
def reg1 (lv : GSem nD τ sig → HIx 2 → ℕ) (hlv : (K (F := F)).Refines lv) :
    Pipeline.RDat.RegionSeg (pcfgs (F := F)) adm (rdats A4 A1 A5 A9 A3 A10) (none : HIx 2) defs₀ 𝒱₀ (K (F := F)).L lv 1 where
  win := launch2.win.to₀
  block_pos := launch2.block_pos
  stage_whole := launch2.stage_whole
  K := PEmpty
  osem k := k.elim
  ho := Pipeline.OwnSemFacts.none _
  hbody c := body_obligation2 A9 A3 A10 c ((K (F := F)).Otc c 1) (Bnd (F := F) c (8 * 1))
  hwaits c := hwaits1 A4 A1 A5 A9 A3 A10 lv hlv c
  pre := pre1 A9 A3 A10
  post := post1 A9 A3 A10
  X _ := iprop(emp)
  Y _ := iprop(emp)
  Z _ := iprop(emp)
  hentry c := hentry1 A4 A1 A5 A9 A3 A10 lv c
  hin c := by
    rw [rdats_1, rd2_Φ]
    iintro ⟨-, -, Hr⟩; iexact Hr
  hout c := by
    rw [Pipeline.ownSems0_none, rdats_1, rd2_Φ]
    iintro Hr
    isplitr; · iempintro
    isplitr; · iempintro
    iexact Hr
  hexit c := hexit1 A4 A1 A5 A9 A3 A10 c

include A4 A1 A5 A9 A3 A10 in
set_option backward.isDefEq.respectTransparency.types false in
set_option maxHeartbeats 2000000 in
/-- The call below the SparseCore dispatch: the region rule at its record. -/
theorem region1_inner (lv : GSem nD τ sig → HIx 2 → ℕ) (hlv : (K (F := F)).Refines lv) (d : Dev nD) :
    iprop(levAts (K (F := F)).L lv ∗ boundary (SparseCore.T d : Thread nD τ) ∗ pre1 A9 A3 A10 d
        ∗ Pipeline.cellsGhost (Pipeline.pin (pcfgs (F := F)) adm) (EP (F := F)) 1 d ∗ Pipeline.toksInit (Pipeline.pin (pcfgs (F := F)) adm) (EP (F := F)) 1 d)
      ⊢ wp frame (wpE (D (F := F)) 𝒱 (SparseCore.T d) none) Set.univ
          (Prog.op (.customCall (Pipeline.entry 1) ()) Prog.ret)
          (fun _ => iprop(boundary (SparseCore.T d : Thread nD τ) ∗ post1 A9 A3 A10 d)) := by
  have h := Pipeline.RDat.RegionSeg.wp (pcfgs (F := F)) adm (rdats A4 A1 A5 A9 A3 A10) (none : HIx 2) cellOf_inj (EP (F := F)) defs₀ 𝒱₀
      (K (F := F)).L lv (reg1 A4 A1 A5 A9 A3 A10 lv hlv) d none (fun u hu => nomatch hu) Prog.ret
      (fun _ => iprop(boundary (SparseCore.T d : Thread nD τ) ∗ post1 A9 A3 A10 d))
  rw [show (reg1 A4 A1 A5 A9 A3 A10 lv hlv).pre = pre1 A9 A3 A10 from rfl, show (reg1 A4 A1 A5 A9 A3 A10 lv hlv).post = post1 A9 A3 A10 from rfl] at h
  refine BIBase.Entails.trans ?_ h
  iintro ⟨Hlev, Hb, Hpre, Hg, Htk⟩
  isplitr
  · iintro H; rw [wp_ret]; imodintro; iexact H
  isplitl [Hb]; · iexact Hb
  isplitl [Hpre]; · iexact Hpre
  isplitl [Hlev]; · iexact Hlev
  isplitl [Hg]; · iexact Hg
  iexact Htk

include A4 A1 A5 A9 A3 A10 in
set_option backward.isDefEq.respectTransparency.types false in
set_option maxHeartbeats 2000000 in
/-- The same as the line of @main beside the SparseCore calls. -/
theorem region1_arr (lv : GSem nD τ sig → HIx 2 → ℕ) (hlv : (K (F := F)).Refines lv) (d : Dev nD) :
    iprop(levAts (K (F := F)).L lv ∗ boundary (SparseCore.T d : Thread nD τ) ∗ pre1 A9 A3 A10 d
        ∗ Pipeline.cellsGhost cfgs (EP (F := F)) 1 d ∗ Pipeline.toksInit cfgs (EP (F := F)) 1 d)
      ⊢ wp frame (wpE ((K (F := F)).defs D) 𝒱 (SparseCore.T d) none) Set.univ
          (Prog.lift (.customCall (SparseCore.inner (Pipeline.entry 1)) ()))
          (fun _ => iprop(boundary (SparseCore.T d : Thread nD τ) ∗ post1 A9 A3 A10 d)) := by
  rw [lift_entry]
  exact (region1_inner A4 A1 A5 A9 A3 A10 lv hlv d).trans
    ((K (F := F)).wp_liftProg D 𝒱 (SparseCore.T d) Set.univ none _ _)

end Data

section Lines

open Idealize.ShloMosaic.ValueIdx

set_option backward.isDefEq.respectTransparency.types false in
set_option maxHeartbeats 2000000 in
/-- TensorCore CALL 0 AS A LINE OF @main on the TensorCore of `d`, between SparseCore calls: from the level facts, the
    region boundary, what the TensorCore owes before SparseCore call 0, the call's staging cells' ghost state, the table
    and the weight row at their contents and the output array at any, the line runs to a continuation that is handed the
    boundary, the same owed, the inputs unchanged, and the output array with every block the product of the weight row and
    a staged block that agrees with the table on the columns inside it. -/
theorem region0 (lv : GSem nD τ sig → HIx 2 → ℕ) (hlv : (K (F := F)).Refines lv) (d : Dev nD)
    (X4 : S100x1000000.Idx → F .f32) (W1 : S1x100.Idx → F .f32) (Φ : PUnit → sProp 𝕄) :
    iprop(levAts (K (F := F)).L lv ∗ boundary (SparseCore.T d : Thread nD τ) ∗ tcOwes d 0
        ∗ Pipeline.cellsGhost cfgs (EP (F := F)) 0 d ∗ Pipeline.toksInit cfgs (EP (F := F)) 0 d
        ∗ ((SparseCore.T d : Thread nD τ).loc main_v4 ↦{fullShare} X4) ∗ ((SparseCore.T d : Thread nD τ).loc main_v1 ↦{fullShare} W1) ∗ (∃ f, (SparseCore.T d : Thread nD τ).loc main_v5 ↦{fullShare} f)
        ∗ (∀ fo, ⌜Vals.Reg0Val W1 X4 fo⌝ -∗ iprop(boundary (SparseCore.T d : Thread nD τ) ∗ tcOwes d 0
            ∗ ((SparseCore.T d : Thread nD τ).loc main_v4 ↦{fullShare} X4) ∗ ((SparseCore.T d : Thread nD τ).loc main_v1 ↦{fullShare} W1) ∗ ((SparseCore.T d : Thread nD τ).loc main_v5 ↦{fullShare} fo)) -∗ Φ ⟨⟩))
      ⊢ wp frame (wpE ((K (F := F)).defs D) 𝒱 (SparseCore.T d) none) Set.univ
          (Prog.lift (.customCall (SparseCore.inner (Pipeline.entry 0)) ())) Φ := by
  iintro ⟨Hlev, Hb, HO, Hg, Htk, H4, H1, ⟨%Ao, H5⟩, Hk⟩
  iapply (wp_wand_r frame _ Set.univ)
  isplitr [Hk]
  · iapply (region0_arr X4 W1 Ao (fun _ => W1 (ix2 (0 : Fin 1) (0 : Fin 100))) W1 (fun _ => W1 (ix2 (0 : Fin 1) (0 : Fin 100))) lv hlv d)
    unfold pre0
    isplitl [Hlev]; · iexact Hlev
    isplitl [Hb]; · iexact Hb
    isplitl [HO H4 H1 H5]
    · isplitl [HO]; · iexact HO
      isplitl [H4]; · iexact H4
      isplitl [H1]; · iexact H1
      iexact H5
    isplitl [Hg]; · iexact Hg
    iexact Htk
  · iintro %_ ⟨Hb, Hpost⟩
    unfold post0
    icases Hpost with ⟨HO, H4, H1, ⟨%fo, %ho, H5⟩⟩
    iapply Hk $$ %fo %(RegVal.val0 X4 W1 Ao d _ _ fo ho)
    isplitl [Hb]; · iexact Hb
    isplitl [HO]; · iexact HO
    isplitl [H4]; · iexact H4
    isplitl [H1]; · iexact H1
    iexact H5

set_option backward.isDefEq.respectTransparency.types false in
set_option maxHeartbeats 2000000 in
/-- TensorCore CALL 1 AS A LINE OF @main on the TensorCore of `d`, between SparseCore calls: from the level facts, the
    region boundary, what the TensorCore owes before SparseCore call 1, the call's staging cells' ghost state, the table
    and the weight row at their contents and the output array at any, the line runs to a continuation that is handed the
    boundary, the same owed, the inputs unchanged, and the output array with every block the product of the weight row and
    a staged block that agrees with the table on the columns inside it. -/
theorem region1 (lv : GSem nD τ sig → HIx 2 → ℕ) (hlv : (K (F := F)).Refines lv) (d : Dev nD)
    (X9 : S100x100000.Idx → F .f32) (W3 : S1x100.Idx → F .f32) (Φ : PUnit → sProp 𝕄) :
    iprop(levAts (K (F := F)).L lv ∗ boundary (SparseCore.T d : Thread nD τ) ∗ tcOwes d 1
        ∗ Pipeline.cellsGhost cfgs (EP (F := F)) 1 d ∗ Pipeline.toksInit cfgs (EP (F := F)) 1 d
        ∗ ((SparseCore.T d : Thread nD τ).loc main_v9 ↦{fullShare} X9) ∗ ((SparseCore.T d : Thread nD τ).loc main_v3 ↦{fullShare} W3) ∗ (∃ f, (SparseCore.T d : Thread nD τ).loc main_v10 ↦{fullShare} f)
        ∗ (∀ fo, ⌜Vals.Reg1Val W3 X9 fo⌝ -∗ iprop(boundary (SparseCore.T d : Thread nD τ) ∗ tcOwes d 1
            ∗ ((SparseCore.T d : Thread nD τ).loc main_v9 ↦{fullShare} X9) ∗ ((SparseCore.T d : Thread nD τ).loc main_v3 ↦{fullShare} W3) ∗ ((SparseCore.T d : Thread nD τ).loc main_v10 ↦{fullShare} fo)) -∗ Φ ⟨⟩))
      ⊢ wp frame (wpE ((K (F := F)).defs D) 𝒱 (SparseCore.T d) none) Set.univ
          (Prog.lift (.customCall (SparseCore.inner (Pipeline.entry 1)) ())) Φ := by
  iintro ⟨Hlev, Hb, HO, Hg, Htk, H4, H1, ⟨%Ao, H5⟩, Hk⟩
  iapply (wp_wand_r frame _ Set.univ)
  isplitr [Hk]
  · iapply (region1_arr (fun _ => W3 (ix2 (0 : Fin 1) (0 : Fin 100))) W3 (fun _ => W3 (ix2 (0 : Fin 1) (0 : Fin 100))) X9 W3 Ao lv hlv d)
    unfold pre1
    isplitl [Hlev]; · iexact Hlev
    isplitl [Hb]; · iexact Hb
    isplitl [HO H4 H1 H5]
    · isplitl [HO]; · iexact HO
      isplitl [H4]; · iexact H4
      isplitl [H1]; · iexact H1
      iexact H5
    isplitl [Hg]; · iexact Hg
    iexact Htk
  · iintro %_ ⟨Hb, Hpost⟩
    unfold post1
    icases Hpost with ⟨HO, H4, H1, ⟨%fo, %ho, H5⟩⟩
    iapply Hk $$ %fo %(RegVal.val2 X9 W3 Ao d _ _ fo ho)
    isplitl [Hb]; · iexact Hb
    isplitl [HO]; · iexact HO
    isplitl [H4]; · iexact H4
    isplitl [H1]; · iexact H1
    iexact H5

end Lines

end Cert.KernelIdeal.Regions

end
-- ==== Proof.ChkLib.lean ====
/-
  Word arithmetic used by the lane side conditions of the two gather bodies.

  An id word v is split as  v = 128 · (v / 128) + (v mod 128):  the quotient names a 128-lane row of the
  reshaped table, the remainder a lane of that row.  The remainder is split again as
  (v mod 128) = 16 · q + r  with  16 · q = (v &&& 127) &&& 112  (a multiple of 16, at most 112) and
  r = (v &&& 127) &&& 15  (at most 15).  Everything below is a consequence of these two decompositions
  and of the fact that none of the 32-bit sums involved wraps.
-/
import Mathlib
import Idealize.ShloMosaic.PureOps
import Idealize.ShloMosaic.Lib.Scf

namespace Cert.Proof.ChkLib

open Idealize.ShloMosaic

/-- The facts about the residues below 128, checked residue by residue: masking with 112 gives a
    multiple of 16 that is at most 112, the parts masked by 112 and by 15 add up to the residue, and the
    part masked by 15 is the residue modulo 16. -/
theorem residue_facts : ∀ n, n < 128 → 16 ∣ (n &&& 112) ∧ (n &&& 112) ≤ 112 ∧ (n &&& 112) + (n &&& 15) = n ∧ (n &&& 15) = n % 16 := by
  decide

/-- Masking a word with 127 is reduction modulo 128. -/
theorem toNat_and_127 (v : BitVec 32) : (v &&& 127#32).toNat = v.toNat % 128 := by
  rw [BitVec.toNat_and]
  exact Nat.and_two_pow_sub_one_eq_mod v.toNat 7

/-- The lane residue is below 128. -/
theorem toNat_and_127_lt (v : BitVec 32) : (v &&& 127#32).toNat < 128 := by
  rw [toNat_and_127]; exact Nat.mod_lt _ (by decide)

/-- The 16-lane group offset of a word, as a natural number. -/
theorem toNat_and_127_112 (v : BitVec 32) : ((v &&& 127#32) &&& 112#32).toNat = (v.toNat % 128) &&& 112 := by
  rw [BitVec.toNat_and, toNat_and_127]; rfl

/-- The position inside the 16-lane group, as a natural number. -/
theorem toNat_and_127_15 (v : BitVec 32) : ((v &&& 127#32) &&& 15#32).toNat = (v.toNat % 128) &&& 15 := by
  rw [BitVec.toNat_and, toNat_and_127]; rfl

/-- The group offset is a multiple of 16. -/
theorem dvd_and_127_112 (v : BitVec 32) : 16 ∣ ((v &&& 127#32) &&& 112#32).toNat := by
  rw [toNat_and_127_112]
  exact (residue_facts _ (Nat.mod_lt _ (by decide))).1

/-- The group offset is at most 112. -/
theorem and_127_112_le (v : BitVec 32) : ((v &&& 127#32) &&& 112#32).toNat ≤ 112 := by
  rw [toNat_and_127_112]
  exact (residue_facts _ (Nat.mod_lt _ (by decide))).2.1

/-- The 16 lanes starting at the group offset lie in a row of 128. -/
theorem and_127_112_inb (v : BitVec 32) : ((v &&& 127#32) &&& 112#32).toNat + 16 ≤ 128 := by
  have := and_127_112_le v; omega

/-- Group offset plus position in the group is the lane residue. -/
theorem and_112_add_and_15 (v : BitVec 32) :
    ((v &&& 127#32) &&& 112#32).toNat + ((v &&& 127#32) &&& 15#32).toNat = v.toNat % 128 := by
  rw [toNat_and_127_112, toNat_and_127_15]
  exact (residue_facts _ (Nat.mod_lt _ (by decide))).2.2.1

/-- The position in the group is the id modulo 16. -/
theorem toNat_and_127_15_eq_mod (v : BitVec 32) : ((v &&& 127#32) &&& 15#32).toNat = v.toNat % 16 := by
  rw [toNat_and_127_15, (residue_facts _ (Nat.mod_lt _ (by decide))).2.2.2]
  omega

/-- The group offset in closed form: sixteen times the group index. -/
theorem toNat_and_127_112_eq (v : BitVec 32) : ((v &&& 127#32) &&& 112#32).toNat = 16 * (v.toNat % 128 / 16) := by
  have h := and_112_add_and_15 v
  have h' := toNat_and_127_15_eq_mod v
  omega

/-- Masking any word with 15 leaves at most 15. -/
theorem and_15_le (x : BitVec 32) : (x &&& 15#32).toNat ≤ 15 := by
  rw [BitVec.toNat_and]; exact Nat.and_le_right

/-- A base offset of at most 480 plus a word masked with 15 does not wrap, and the 16 lanes from the sum lie
    inside a buffer of 512 words. -/
theorem base_add_and_15_inb (c x : BitVec 32) (hc : c.toNat ≤ 480) : (c + (x &&& 15#32)).toNat + 16 ≤ 512 := by
  have h := and_15_le x
  rw [BitVec.toNat_add]
  omega

/-- The induction variable of a loop from 0 by steps of 1 is the trip number. -/
theorem toNat_iv (t : Nat) (ht : t < 8) : (Scf.iv 0#32 1#32 t).toNat = t := by
  unfold Scf.iv
  rw [BitVec.toNat_add, BitVec.toNat_mul, BitVec.toNat_ofNat, BitVec.toNat_ofNat, BitVec.toNat_ofNat]
  omega

/-- Row 16 t + j of a 128-row buffer, for a trip t < 8 and a lane j ≤ 15: the 32-bit product and sum do
    not wrap. -/
theorem row_toNat (t : Nat) (ht : t < 8) (j : BitVec 32) (hj : j.toNat ≤ 15) :
    (Scf.iv 0#32 1#32 t * 16#32 + j).toNat = 16 * t + j.toNat := by
  rw [BitVec.toNat_add, BitVec.toNat_mul, toNat_iv t ht, BitVec.toNat_ofNat]
  omega

/-- and the row is one of the 128. -/
theorem row_inb (t : Nat) (ht : t < 8) (j : BitVec 32) (hj : j.toNat ≤ 15) :
    (Scf.iv 0#32 1#32 t * 16#32 + j).toNat + 1 ≤ 128 := by
  rw [row_toNat t ht j hj]; omega

/-- The chunk loops run eight trips. -/
theorem trips_eq_8 : Scf.trips (0#32 : BitVec 32) (0#32 + 8#32) 1#32 = 8 := by
  decide

/-! ### Row numbers of id words -/

/-- Shifting a word right by 7 on the vector unit is division by 128. -/
theorem toNat_shrui_7 (v : BitVec 32) : (IntOp.shrui .vector v 7#32).toNat = v.toNat / 128 := by
  unfold IntOp.shrui
  rw [if_pos (by decide)]
  show (v >>> (7#32).toNat).toNat = _
  rw [BitVec.toNat_ushiftRight, Nat.shiftRight_eq_div_pow]
  rfl

/-- A user id in range selects one of the 7816 rows of the reshaped table. -/
theorem shrui_7_lt_of_le_999999 (v : BitVec 32) (h : v.toNat ≤ 999999) : (IntOp.shrui .vector v 7#32).toNat < 7816 := by
  rw [toNat_shrui_7]; omega

/-- A course id in range selects one of the 784 rows of the reshaped table. -/
theorem shrui_7_lt_of_le_99999 (v : BitVec 32) (h : v.toNat ≤ 99999) : (IntOp.shrui .vector v 7#32).toNat < 784 := by
  rw [toNat_shrui_7]; omega

/-- An id is its row times 128 plus its lane. -/
theorem row_lane_decomp (v : BitVec 32) :
    128 * (IntOp.shrui .vector v 7#32).toNat + (v &&& 127#32).toNat = v.toNat := by
  rw [toNat_shrui_7, toNat_and_127]; omega

end Cert.Proof.ChkLib
-- ==== Proof.ChkK1.lean ====
/-
  The side conditions the gather body assumes of each id word it reads, for every word and every trip.

  In trip t of a chunk loop (eight trips), lane j of the sixteen reads row 16 t + j of a 128 x 128 buffer at the
  sixteen lanes starting at (v &&& 127) &&& 112, and sixteen words of a 512-word buffer starting at
  32 j + ((((v &&& 127) &&& 15) - j + 16) &&& 15).  The first start is a multiple of 16 and at most 112; the row is
  at most 16 * 7 + 15 = 127; the second start is at most 480 + 15.  None of the sums wraps in 32 bits.  Each
  statement below instantiates the general facts of ChkLib at its lane's constants j and 32 j.
-/
import proofs.«204913_g64682207478566_cont_9to1c4b_713_31_alg».proof.KernelIdeal
import proofs.«204913_g64682207478566_cont_9to1c4b_713_31_alg».proof.Proof.ChkLib

namespace Cert.KernelIdeal.ChkK1

open Idealize.ShloMosaic Cert.Proof.ChkLib

/-- Chunk loop 1 runs eight trips. -/
theorem lt8_1 (t : Fin k1_t1_loop.trips) : t.val < 8 := lt_of_lt_of_eq t.isLt trips_eq_8
/-- Chunk loop 2 runs eight trips. -/
theorem lt8_2 (t : Fin k1_t2_loop.trips) : t.val < 8 := lt_of_lt_of_eq t.isLt trips_eq_8
/-- Chunk loop 3 runs eight trips. -/
theorem lt8_3 (t : Fin k1_t3_loop.trips) : t.val < 8 := lt_of_lt_of_eq t.isLt trips_eq_8
/-- Chunk loop 4 runs eight trips. -/
theorem lt8_4 (t : Fin k1_t4_loop.trips) : t.val < 8 := lt_of_lt_of_eq t.isLt trips_eq_8

/-- Chunk loop 1, lane 0. -/
theorem chk1 : ∀ (t : Fin k1_t1_loop.trips) (v : BitVec 32), k1_chk1 t v := fun t v =>
  ⟨dvd_and_127_112 v,
   Fin.forall_fin_two.2 ⟨row_inb t.val (lt8_1 t) 0#32 (by decide), and_127_112_inb v⟩,
   Fin.forall_fin_one.2 (base_add_and_15_inb 0#32 _ (by decide))⟩

/-- Chunk loop 1, lane 1. -/
theorem chk2 : ∀ (t : Fin k1_t1_loop.trips) (v : BitVec 32), k1_chk2 t v := fun t v =>
  ⟨dvd_and_127_112 v,
   Fin.forall_fin_two.2 ⟨row_inb t.val (lt8_1 t) 1#32 (by decide), and_127_112_inb v⟩,
   Fin.forall_fin_one.2 (base_add_and_15_inb 32#32 _ (by decide))⟩

/-- Chunk loop 1, lane 2. -/
theorem chk3 : ∀ (t : Fin k1_t1_loop.trips) (v : BitVec 32), k1_chk3 t v := fun t v =>
  ⟨dvd_and_127_112 v,
   Fin.forall_fin_two.2 ⟨row_inb t.val (lt8_1 t) 2#32 (by decide), and_127_112_inb v⟩,
   Fin.forall_fin_one.2 (base_add_and_15_inb 64#32 _ (by decide))⟩

/-- Chunk loop 1, lane 3. -/
theorem chk4 : ∀ (t : Fin k1_t1_loop.trips) (v : BitVec 32), k1_chk4 t v := fun t v =>
  ⟨dvd_and_127_112 v,
   Fin.forall_fin_two.2 ⟨row_inb t.val (lt8_1 t) 3#32 (by decide), and_127_112_inb v⟩,
   Fin.forall_fin_one.2 (base_add_and_15_inb 96#32 _ (by decide))⟩

/-- Chunk loop 1, lane 4. -/
theorem chk5 : ∀ (t : Fin k1_t1_loop.trips) (v : BitVec 32), k1_chk5 t v := fun t v =>
  ⟨dvd_and_127_112 v,
   Fin.forall_fin_two.2 ⟨row_inb t.val (lt8_1 t) 4#32 (by decide), and_127_112_inb v⟩,
   Fin.forall_fin_one.2 (base_add_and_15_inb 128#32 _ (by decide))⟩

/-- Chunk loop 1, lane 5. -/
theorem chk6 : ∀ (t : Fin k1_t1_loop.trips) (v : BitVec 32), k1_chk6 t v := fun t v =>
  ⟨dvd_and_127_112 v,
   Fin.forall_fin_two.2 ⟨row_inb t.val (lt8_1 t) 5#32 (by decide), and_127_112_inb v⟩,
   Fin.forall_fin_one.2 (base_add_and_15_inb 160#32 _ (by decide))⟩

/-- Chunk loop 1, lane 6. -/
theorem chk7 : ∀ (t : Fin k1_t1_loop.trips) (v : BitVec 32), k1_chk7 t v := fun t v =>
  ⟨dvd_and_127_112 v,
   Fin.forall_fin_two.2 ⟨row_inb t.val (lt8_1 t) 6#32 (by decide), and_127_112_inb v⟩,
   Fin.forall_fin_one.2 (base_add_and_15_inb 192#32 _ (by decide))⟩

/-- Chunk loop 1, lane 7. -/
theorem chk8 : ∀ (t : Fin k1_t1_loop.trips) (v : BitVec 32), k1_chk8 t v := fun t v =>
  ⟨dvd_and_127_112 v,
   Fin.forall_fin_two.2 ⟨row_inb t.val (lt8_1 t) 7#32 (by decide), and_127_112_inb v⟩,
   Fin.forall_fin_one.2 (base_add_and_15_inb 224#32 _ (by decide))⟩

/-- Chunk loop 1, lane 8. -/
theorem chk9 : ∀ (t : Fin k1_t1_loop.trips) (v : BitVec 32), k1_chk9 t v := fun t v =>
  ⟨dvd_and_127_112 v,
   Fin.forall_fin_two.2 ⟨row_inb t.val (lt8_1 t) 8#32 (by decide), and_127_112_inb v⟩,
   Fin.forall_fin_one.2 (base_add_and_15_inb 256#32 _ (by decide))⟩

/-- Chunk loop 1, lane 9. -/
theorem chk10 : ∀ (t : Fin k1_t1_loop.trips) (v : BitVec 32), k1_chk10 t v := fun t v =>
  ⟨dvd_and_127_112 v,
   Fin.forall_fin_two.2 ⟨row_inb t.val (lt8_1 t) 9#32 (by decide), and_127_112_inb v⟩,
   Fin.forall_fin_one.2 (base_add_and_15_inb 288#32 _ (by decide))⟩

/-- Chunk loop 1, lane 10. -/
theorem chk11 : ∀ (t : Fin k1_t1_loop.trips) (v : BitVec 32), k1_chk11 t v := fun t v =>
  ⟨dvd_and_127_112 v,
   Fin.forall_fin_two.2 ⟨row_inb t.val (lt8_1 t) 10#32 (by decide), and_127_112_inb v⟩,
   Fin.forall_fin_one.2 (base_add_and_15_inb 320#32 _ (by decide))⟩

/-- Chunk loop 1, lane 11. -/
theorem chk12 : ∀ (t : Fin k1_t1_loop.trips) (v : BitVec 32), k1_chk12 t v := fun t v =>
  ⟨dvd_and_127_112 v,
   Fin.forall_fin_two.2 ⟨row_inb t.val (lt8_1 t) 11#32 (by decide), and_127_112_inb v⟩,
   Fin.forall_fin_one.2 (base_add_and_15_inb 352#32 _ (by decide))⟩

/-- Chunk loop 1, lane 12. -/
theorem chk13 : ∀ (t : Fin k1_t1_loop.trips) (v : BitVec 32), k1_chk13 t v := fun t v =>
  ⟨dvd_and_127_112 v,
   Fin.forall_fin_two.2 ⟨row_inb t.val (lt8_1 t) 12#32 (by decide), and_127_112_inb v⟩,
   Fin.forall_fin_one.2 (base_add_and_15_inb 384#32 _ (by decide))⟩

/-- Chunk loop 1, lane 13. -/
theorem chk14 : ∀ (t : Fin k1_t1_loop.trips) (v : BitVec 32), k1_chk14 t v := fun t v =>
  ⟨dvd_and_127_112 v,
   Fin.forall_fin_two.2 ⟨row_inb t.val (lt8_1 t) 13#32 (by decide), and_127_112_inb v⟩,
   Fin.forall_fin_one.2 (base_add_and_15_inb 416#32 _ (by decide))⟩

/-- Chunk loop 1, lane 14. -/
theorem chk15 : ∀ (t : Fin k1_t1_loop.trips) (v : BitVec 32), k1_chk15 t v := fun t v =>
  ⟨dvd_and_127_112 v,
   Fin.forall_fin_two.2 ⟨row_inb t.val (lt8_1 t) 14#32 (by decide), and_127_112_inb v⟩,
   Fin.forall_fin_one.2 (base_add_and_15_inb 448#32 _ (by decide))⟩

/-- Chunk loop 1, lane 15. -/
theorem chk16 : ∀ (t : Fin k1_t1_loop.trips) (v : BitVec 32), k1_chk16 t v := fun t v =>
  ⟨dvd_and_127_112 v,
   Fin.forall_fin_two.2 ⟨row_inb t.val (lt8_1 t) 15#32 (by decide), and_127_112_inb v⟩,
   Fin.forall_fin_one.2 (base_add_and_15_inb 480#32 _ (by decide))⟩

/-- Chunk loop 2, lane 0. -/
theorem chk17 : ∀ (t : Fin k1_t2_loop.trips) (v : BitVec 32), k1_chk17 t v := fun t v =>
  ⟨dvd_and_127_112 v,
   Fin.forall_fin_two.2 ⟨row_inb t.val (lt8_2 t) 0#32 (by decide), and_127_112_inb v⟩,
   Fin.forall_fin_one.2 (base_add_and_15_inb 0#32 _ (by decide))⟩

/-- Chunk loop 2, lane 1. -/
theorem chk18 : ∀ (t : Fin k1_t2_loop.trips) (v : BitVec 32), k1_chk18 t v := fun t v =>
  ⟨dvd_and_127_112 v,
   Fin.forall_fin_two.2 ⟨row_inb t.val (lt8_2 t) 1#32 (by decide), and_127_112_inb v⟩,
   Fin.forall_fin_one.2 (base_add_and_15_inb 32#32 _ (by decide))⟩

/-- Chunk loop 2, lane 2. -/
theorem chk19 : ∀ (t : Fin k1_t2_loop.trips) (v : BitVec 32), k1_chk19 t v := fun t v =>
  ⟨dvd_and_127_112 v,
   Fin.forall_fin_two.2 ⟨row_inb t.val (lt8_2 t) 2#32 (by decide), and_127_112_inb v⟩,
   Fin.forall_fin_one.2 (base_add_and_15_inb 64#32 _ (by decide))⟩

/-- Chunk loop 2, lane 3. -/
theorem chk20 : ∀ (t : Fin k1_t2_loop.trips) (v : BitVec 32), k1_chk20 t v := fun t v =>
  ⟨dvd_and_127_112 v,
   Fin.forall_fin_two.2 ⟨row_inb t.val (lt8_2 t) 3#32 (by decide), and_127_112_inb v⟩,
   Fin.forall_fin_one.2 (base_add_and_15_inb 96#32 _ (by decide))⟩

/-- Chunk loop 2, lane 4. -/
theorem chk21 : ∀ (t : Fin k1_t2_loop.trips) (v : BitVec 32), k1_chk21 t v := fun t v =>
  ⟨dvd_and_127_112 v,
   Fin.forall_fin_two.2 ⟨row_inb t.val (lt8_2 t) 4#32 (by decide), and_127_112_inb v⟩,
   Fin.forall_fin_one.2 (base_add_and_15_inb 128#32 _ (by decide))⟩

/-- Chunk loop 2, lane 5. -/
theorem chk22 : ∀ (t : Fin k1_t2_loop.trips) (v : BitVec 32), k1_chk22 t v := fun t v =>
  ⟨dvd_and_127_112 v,
   Fin.forall_fin_two.2 ⟨row_inb t.val (lt8_2 t) 5#32 (by decide), and_127_112_inb v⟩,
   Fin.forall_fin_one.2 (base_add_and_15_inb 160#32 _ (by decide))⟩

/-- Chunk loop 2, lane 6. -/
theorem chk23 : ∀ (t : Fin k1_t2_loop.trips) (v : BitVec 32), k1_chk23 t v := fun t v =>
  ⟨dvd_and_127_112 v,
   Fin.forall_fin_two.2 ⟨row_inb t.val (lt8_2 t) 6#32 (by decide), and_127_112_inb v⟩,
   Fin.forall_fin_one.2 (base_add_and_15_inb 192#32 _ (by decide))⟩

/-- Chunk loop 2, lane 7. -/
theorem chk24 : ∀ (t : Fin k1_t2_loop.trips) (v : BitVec 32), k1_chk24 t v := fun t v =>
  ⟨dvd_and_127_112 v,
   Fin.forall_fin_two.2 ⟨row_inb t.val (lt8_2 t) 7#32 (by decide), and_127_112_inb v⟩,
   Fin.forall_fin_one.2 (base_add_and_15_inb 224#32 _ (by decide))⟩

/-- Chunk loop 2, lane 8. -/
theorem chk25 : ∀ (t : Fin k1_t2_loop.trips) (v : BitVec 32), k1_chk25 t v := fun t v =>
  ⟨dvd_and_127_112 v,
   Fin.forall_fin_two.2 ⟨row_inb t.val (lt8_2 t) 8#32 (by decide), and_127_112_inb v⟩,
   Fin.forall_fin_one.2 (base_add_and_15_inb 256#32 _ (by decide))⟩

/-- Chunk loop 2, lane 9. -/
theorem chk26 : ∀ (t : Fin k1_t2_loop.trips) (v : BitVec 32), k1_chk26 t v := fun t v =>
  ⟨dvd_and_127_112 v,
   Fin.forall_fin_two.2 ⟨row_inb t.val (lt8_2 t) 9#32 (by decide), and_127_112_inb v⟩,
   Fin.forall_fin_one.2 (base_add_and_15_inb 288#32 _ (by decide))⟩

/-- Chunk loop 2, lane 10. -/
theorem chk27 : ∀ (t : Fin k1_t2_loop.trips) (v : BitVec 32), k1_chk27 t v := fun t v =>
  ⟨dvd_and_127_112 v,
   Fin.forall_fin_two.2 ⟨row_inb t.val (lt8_2 t) 10#32 (by decide), and_127_112_inb v⟩,
   Fin.forall_fin_one.2 (base_add_and_15_inb 320#32 _ (by decide))⟩

/-- Chunk loop 2, lane 11. -/
theorem chk28 : ∀ (t : Fin k1_t2_loop.trips) (v : BitVec 32), k1_chk28 t v := fun t v =>
  ⟨dvd_and_127_112 v,
   Fin.forall_fin_two.2 ⟨row_inb t.val (lt8_2 t) 11#32 (by decide), and_127_112_inb v⟩,
   Fin.forall_fin_one.2 (base_add_and_15_inb 352#32 _ (by decide))⟩

/-- Chunk loop 2, lane 12. -/
theorem chk29 : ∀ (t : Fin k1_t2_loop.trips) (v : BitVec 32), k1_chk29 t v := fun t v =>
  ⟨dvd_and_127_112 v,
   Fin.forall_fin_two.2 ⟨row_inb t.val (lt8_2 t) 12#32 (by decide), and_127_112_inb v⟩,
   Fin.forall_fin_one.2 (base_add_and_15_inb 384#32 _ (by decide))⟩

/-- Chunk loop 2, lane 13. -/
theorem chk30 : ∀ (t : Fin k1_t2_loop.trips) (v : BitVec 32), k1_chk30 t v := fun t v =>
  ⟨dvd_and_127_112 v,
   Fin.forall_fin_two.2 ⟨row_inb t.val (lt8_2 t) 13#32 (by decide), and_127_112_inb v⟩,
   Fin.forall_fin_one.2 (base_add_and_15_inb 416#32 _ (by decide))⟩

/-- Chunk loop 2, lane 14. -/
theorem chk31 : ∀ (t : Fin k1_t2_loop.trips) (v : BitVec 32), k1_chk31 t v := fun t v =>
  ⟨dvd_and_127_112 v,
   Fin.forall_fin_two.2 ⟨row_inb t.val (lt8_2 t) 14#32 (by decide), and_127_112_inb v⟩,
   Fin.forall_fin_one.2 (base_add_and_15_inb 448#32 _ (by decide))⟩

/-- Chunk loop 2, lane 15. -/
theorem chk32 : ∀ (t : Fin k1_t2_loop.trips) (v : BitVec 32), k1_chk32 t v := fun t v =>
  ⟨dvd_and_127_112 v,
   Fin.forall_fin_two.2 ⟨row_inb t.val (lt8_2 t) 15#32 (by decide), and_127_112_inb v⟩,
   Fin.forall_fin_one.2 (base_add_and_15_inb 480#32 _ (by decide))⟩

/-- Chunk loop 3, lane 0. -/
theorem chk33 : ∀ (t : Fin k1_t3_loop.trips) (v : BitVec 32), k1_chk33 t v := fun t v =>
  ⟨dvd_and_127_112 v,
   Fin.forall_fin_two.2 ⟨row_inb t.val (lt8_3 t) 0#32 (by decide), and_127_112_inb v⟩,
   Fin.forall_fin_one.2 (base_add_and_15_inb 0#32 _ (by decide))⟩

/-- Chunk loop 3, lane 1. -/
theorem chk34 : ∀ (t : Fin k1_t3_loop.trips) (v : BitVec 32), k1_chk34 t v := fun t v =>
  ⟨dvd_and_127_112 v,
   Fin.forall_fin_two.2 ⟨row_inb t.val (lt8_3 t) 1#32 (by decide), and_127_112_inb v⟩,
   Fin.forall_fin_one.2 (base_add_and_15_inb 32#32 _ (by decide))⟩

/-- Chunk loop 3, lane 2. -/
theorem chk35 : ∀ (t : Fin k1_t3_loop.trips) (v : BitVec 32), k1_chk35 t v := fun t v =>
  ⟨dvd_and_127_112 v,
   Fin.forall_fin_two.2 ⟨row_inb t.val (lt8_3 t) 2#32 (by decide), and_127_112_inb v⟩,
   Fin.forall_fin_one.2 (base_add_and_15_inb 64#32 _ (by decide))⟩

/-- Chunk loop 3, lane 3. -/
theorem chk36 : ∀ (t : Fin k1_t3_loop.trips) (v : BitVec 32), k1_chk36 t v := fun t v =>
  ⟨dvd_and_127_112 v,
   Fin.forall_fin_two.2 ⟨row_inb t.val (lt8_3 t) 3#32 (by decide), and_127_112_inb v⟩,
   Fin.forall_fin_one.2 (base_add_and_15_inb 96#32 _ (by decide))⟩

/-- Chunk loop 3, lane 4. -/
theorem chk37 : ∀ (t : Fin k1_t3_loop.trips) (v : BitVec 32), k1_chk37 t v := fun t v =>
  ⟨dvd_and_127_112 v,
   Fin.forall_fin_two.2 ⟨row_inb t.val (lt8_3 t) 4#32 (by decide), and_127_112_inb v⟩,
   Fin.forall_fin_one.2 (base_add_and_15_inb 128#32 _ (by decide))⟩

/-- Chunk loop 3, lane 5. -/
theorem chk38 : ∀ (t : Fin k1_t3_loop.trips) (v : BitVec 32), k1_chk38 t v := fun t v =>
  ⟨dvd_and_127_112 v,
   Fin.forall_fin_two.2 ⟨row_inb t.val (lt8_3 t) 5#32 (by decide), and_127_112_inb v⟩,
   Fin.forall_fin_one.2 (base_add_and_15_inb 160#32 _ (by decide))⟩

/-- Chunk loop 3, lane 6. -/
theorem chk39 : ∀ (t : Fin k1_t3_loop.trips) (v : BitVec 32), k1_chk39 t v := fun t v =>
  ⟨dvd_and_127_112 v,
   Fin.forall_fin_two.2 ⟨row_inb t.val (lt8_3 t) 6#32 (by decide), and_127_112_inb v⟩,
   Fin.forall_fin_one.2 (base_add_and_15_inb 192#32 _ (by decide))⟩

/-- Chunk loop 3, lane 7. -/
theorem chk40 : ∀ (t : Fin k1_t3_loop.trips) (v : BitVec 32), k1_chk40 t v := fun t v =>
  ⟨dvd_and_127_112 v,
   Fin.forall_fin_two.2 ⟨row_inb t.val (lt8_3 t) 7#32 (by decide), and_127_112_inb v⟩,
   Fin.forall_fin_one.2 (base_add_and_15_inb 224#32 _ (by decide))⟩

/-- Chunk loop 3, lane 8. -/
theorem chk41 : ∀ (t : Fin k1_t3_loop.trips) (v : BitVec 32), k1_chk41 t v := fun t v =>
  ⟨dvd_and_127_112 v,
   Fin.forall_fin_two.2 ⟨row_inb t.val (lt8_3 t) 8#32 (by decide), and_127_112_inb v⟩,
   Fin.forall_fin_one.2 (base_add_and_15_inb 256#32 _ (by decide))⟩

/-- Chunk loop 3, lane 9. -/
theorem chk42 : ∀ (t : Fin k1_t3_loop.trips) (v : BitVec 32), k1_chk42 t v := fun t v =>
  ⟨dvd_and_127_112 v,
   Fin.forall_fin_two.2 ⟨row_inb t.val (lt8_3 t) 9#32 (by decide), and_127_112_inb v⟩,
   Fin.forall_fin_one.2 (base_add_and_15_inb 288#32 _ (by decide))⟩

/-- Chunk loop 3, lane 10. -/
theorem chk43 : ∀ (t : Fin k1_t3_loop.trips) (v : BitVec 32), k1_chk43 t v := fun t v =>
  ⟨dvd_and_127_112 v,
   Fin.forall_fin_two.2 ⟨row_inb t.val (lt8_3 t) 10#32 (by decide), and_127_112_inb v⟩,
   Fin.forall_fin_one.2 (base_add_and_15_inb 320#32 _ (by decide))⟩

/-- Chunk loop 3, lane 11. -/
theorem chk44 : ∀ (t : Fin k1_t3_loop.trips) (v : BitVec 32), k1_chk44 t v := fun t v =>
  ⟨dvd_and_127_112 v,
   Fin.forall_fin_two.2 ⟨row_inb t.val (lt8_3 t) 11#32 (by decide), and_127_112_inb v⟩,
   Fin.forall_fin_one.2 (base_add_and_15_inb 352#32 _ (by decide))⟩

/-- Chunk loop 3, lane 12. -/
theorem chk45 : ∀ (t : Fin k1_t3_loop.trips) (v : BitVec 32), k1_chk45 t v := fun t v =>
  ⟨dvd_and_127_112 v,
   Fin.forall_fin_two.2 ⟨row_inb t.val (lt8_3 t) 12#32 (by decide), and_127_112_inb v⟩,
   Fin.forall_fin_one.2 (base_add_and_15_inb 384#32 _ (by decide))⟩

/-- Chunk loop 3, lane 13. -/
theorem chk46 : ∀ (t : Fin k1_t3_loop.trips) (v : BitVec 32), k1_chk46 t v := fun t v =>
  ⟨dvd_and_127_112 v,
   Fin.forall_fin_two.2 ⟨row_inb t.val (lt8_3 t) 13#32 (by decide), and_127_112_inb v⟩,
   Fin.forall_fin_one.2 (base_add_and_15_inb 416#32 _ (by decide))⟩

/-- Chunk loop 3, lane 14. -/
theorem chk47 : ∀ (t : Fin k1_t3_loop.trips) (v : BitVec 32), k1_chk47 t v := fun t v =>
  ⟨dvd_and_127_112 v,
   Fin.forall_fin_two.2 ⟨row_inb t.val (lt8_3 t) 14#32 (by decide), and_127_112_inb v⟩,
   Fin.forall_fin_one.2 (base_add_and_15_inb 448#32 _ (by decide))⟩

/-- Chunk loop 3, lane 15. -/
theorem chk48 : ∀ (t : Fin k1_t3_loop.trips) (v : BitVec 32), k1_chk48 t v := fun t v =>
  ⟨dvd_and_127_112 v,
   Fin.forall_fin_two.2 ⟨row_inb t.val (lt8_3 t) 15#32 (by decide), and_127_112_inb v⟩,
   Fin.forall_fin_one.2 (base_add_and_15_inb 480#32 _ (by decide))⟩

/-- Chunk loop 4, lane 0. -/
theorem chk49 : ∀ (t : Fin k1_t4_loop.trips) (v : BitVec 32), k1_chk49 t v := fun t v =>
  ⟨dvd_and_127_112 v,
   Fin.forall_fin_two.2 ⟨row_inb t.val (lt8_4 t) 0#32 (by decide), and_127_112_inb v⟩,
   Fin.forall_fin_one.2 (base_add_and_15_inb 0#32 _ (by decide))⟩

/-- Chunk loop 4, lane 1. -/
theorem chk50 : ∀ (t : Fin k1_t4_loop.trips) (v : BitVec 32), k1_chk50 t v := fun t v =>
  ⟨dvd_and_127_112 v,
   Fin.forall_fin_two.2 ⟨row_inb t.val (lt8_4 t) 1#32 (by decide), and_127_112_inb v⟩,
   Fin.forall_fin_one.2 (base_add_and_15_inb 32#32 _ (by decide))⟩

/-- Chunk loop 4, lane 2. -/
theorem chk51 : ∀ (t : Fin k1_t4_loop.trips) (v : BitVec 32), k1_chk51 t v := fun t v =>
  ⟨dvd_and_127_112 v,
   Fin.forall_fin_two.2 ⟨row_inb t.val (lt8_4 t) 2#32 (by decide), and_127_112_inb v⟩,
   Fin.forall_fin_one.2 (base_add_and_15_inb 64#32 _ (by decide))⟩

/-- Chunk loop 4, lane 3. -/
theorem chk52 : ∀ (t : Fin k1_t4_loop.trips) (v : BitVec 32), k1_chk52 t v := fun t v =>
  ⟨dvd_and_127_112 v,
   Fin.forall_fin_two.2 ⟨row_inb t.val (lt8_4 t) 3#32 (by decide), and_127_112_inb v⟩,
   Fin.forall_fin_one.2 (base_add_and_15_inb 96#32 _ (by decide))⟩

/-- Chunk loop 4, lane 4. -/
theorem chk53 : ∀ (t : Fin k1_t4_loop.trips) (v : BitVec 32), k1_chk53 t v := fun t v =>
  ⟨dvd_and_127_112 v,
   Fin.forall_fin_two.2 ⟨row_inb t.val (lt8_4 t) 4#32 (by decide), and_127_112_inb v⟩,
   Fin.forall_fin_one.2 (base_add_and_15_inb 128#32 _ (by decide))⟩

/-- Chunk loop 4, lane 5. -/
theorem chk54 : ∀ (t : Fin k1_t4_loop.trips) (v : BitVec 32), k1_chk54 t v := fun t v =>
  ⟨dvd_and_127_112 v,
   Fin.forall_fin_two.2 ⟨row_inb t.val (lt8_4 t) 5#32 (by decide), and_127_112_inb v⟩,
   Fin.forall_fin_one.2 (base_add_and_15_inb 160#32 _ (by decide))⟩

/-- Chunk loop 4, lane 6. -/
theorem chk55 : ∀ (t : Fin k1_t4_loop.trips) (v : BitVec 32), k1_chk55 t v := fun t v =>
  ⟨dvd_and_127_112 v,
   Fin.forall_fin_two.2 ⟨row_inb t.val (lt8_4 t) 6#32 (by decide), and_127_112_inb v⟩,
   Fin.forall_fin_one.2 (base_add_and_15_inb 192#32 _ (by decide))⟩

/-- Chunk loop 4, lane 7. -/
theorem chk56 : ∀ (t : Fin k1_t4_loop.trips) (v : BitVec 32), k1_chk56 t v := fun t v =>
  ⟨dvd_and_127_112 v,
   Fin.forall_fin_two.2 ⟨row_inb t.val (lt8_4 t) 7#32 (by decide), and_127_112_inb v⟩,
   Fin.forall_fin_one.2 (base_add_and_15_inb 224#32 _ (by decide))⟩

/-- Chunk loop 4, lane 8. -/
theorem chk57 : ∀ (t : Fin k1_t4_loop.trips) (v : BitVec 32), k1_chk57 t v := fun t v =>
  ⟨dvd_and_127_112 v,
   Fin.forall_fin_two.2 ⟨row_inb t.val (lt8_4 t) 8#32 (by decide), and_127_112_inb v⟩,
   Fin.forall_fin_one.2 (base_add_and_15_inb 256#32 _ (by decide))⟩

/-- Chunk loop 4, lane 9. -/
theorem chk58 : ∀ (t : Fin k1_t4_loop.trips) (v : BitVec 32), k1_chk58 t v := fun t v =>
  ⟨dvd_and_127_112 v,
   Fin.forall_fin_two.2 ⟨row_inb t.val (lt8_4 t) 9#32 (by decide), and_127_112_inb v⟩,
   Fin.forall_fin_one.2 (base_add_and_15_inb 288#32 _ (by decide))⟩

/-- Chunk loop 4, lane 10. -/
theorem chk59 : ∀ (t : Fin k1_t4_loop.trips) (v : BitVec 32), k1_chk59 t v := fun t v =>
  ⟨dvd_and_127_112 v,
   Fin.forall_fin_two.2 ⟨row_inb t.val (lt8_4 t) 10#32 (by decide), and_127_112_inb v⟩,
   Fin.forall_fin_one.2 (base_add_and_15_inb 320#32 _ (by decide))⟩

/-- Chunk loop 4, lane 11. -/
theorem chk60 : ∀ (t : Fin k1_t4_loop.trips) (v : BitVec 32), k1_chk60 t v := fun t v =>
  ⟨dvd_and_127_112 v,
   Fin.forall_fin_two.2 ⟨row_inb t.val (lt8_4 t) 11#32 (by decide), and_127_112_inb v⟩,
   Fin.forall_fin_one.2 (base_add_and_15_inb 352#32 _ (by decide))⟩

/-- Chunk loop 4, lane 12. -/
theorem chk61 : ∀ (t : Fin k1_t4_loop.trips) (v : BitVec 32), k1_chk61 t v := fun t v =>
  ⟨dvd_and_127_112 v,
   Fin.forall_fin_two.2 ⟨row_inb t.val (lt8_4 t) 12#32 (by decide), and_127_112_inb v⟩,
   Fin.forall_fin_one.2 (base_add_and_15_inb 384#32 _ (by decide))⟩

/-- Chunk loop 4, lane 13. -/
theorem chk62 : ∀ (t : Fin k1_t4_loop.trips) (v : BitVec 32), k1_chk62 t v := fun t v =>
  ⟨dvd_and_127_112 v,
   Fin.forall_fin_two.2 ⟨row_inb t.val (lt8_4 t) 13#32 (by decide), and_127_112_inb v⟩,
   Fin.forall_fin_one.2 (base_add_and_15_inb 416#32 _ (by decide))⟩

/-- Chunk loop 4, lane 14. -/
theorem chk63 : ∀ (t : Fin k1_t4_loop.trips) (v : BitVec 32), k1_chk63 t v := fun t v =>
  ⟨dvd_and_127_112 v,
   Fin.forall_fin_two.2 ⟨row_inb t.val (lt8_4 t) 14#32 (by decide), and_127_112_inb v⟩,
   Fin.forall_fin_one.2 (base_add_and_15_inb 448#32 _ (by decide))⟩

/-- Chunk loop 4, lane 15. -/
theorem chk64 : ∀ (t : Fin k1_t4_loop.trips) (v : BitVec 32), k1_chk64 t v := fun t v =>
  ⟨dvd_and_127_112 v,
   Fin.forall_fin_two.2 ⟨row_inb t.val (lt8_4 t) 15#32 (by decide), and_127_112_inb v⟩,
   Fin.forall_fin_one.2 (base_add_and_15_inb 480#32 _ (by decide))⟩

end Cert.KernelIdeal.ChkK1
-- ==== Proof.ChkK3.lean ====
/-
  The side conditions the gather body assumes of each id word it reads, for every word and every trip.

  In trip t of a chunk loop (eight trips), lane j of the sixteen reads row 16 t + j of a 128 x 128 buffer at the
  sixteen lanes starting at (v &&& 127) &&& 112, and sixteen words of a 512-word buffer starting at
  32 j + ((((v &&& 127) &&& 15) - j + 16) &&& 15).  The first start is a multiple of 16 and at most 112; the row is
  at most 16 * 7 + 15 = 127; the second start is at most 480 + 15.  None of the sums wraps in 32 bits.  Each
  statement below instantiates the general facts of ChkLib at its lane's constants j and 32 j.
-/
import proofs.«204913_g64682207478566_cont_9to1c4b_713_31_alg».proof.KernelIdeal
import proofs.«204913_g64682207478566_cont_9to1c4b_713_31_alg».proof.Proof.ChkLib

namespace Cert.KernelIdeal.ChkK3

open Idealize.ShloMosaic Cert.Proof.ChkLib

/-- Chunk loop 1 runs eight trips. -/
theorem lt8_1 (t : Fin k3_t1_loop.trips) : t.val < 8 := lt_of_lt_of_eq t.isLt trips_eq_8
/-- Chunk loop 2 runs eight trips. -/
theorem lt8_2 (t : Fin k3_t2_loop.trips) : t.val < 8 := lt_of_lt_of_eq t.isLt trips_eq_8
/-- Chunk loop 3 runs eight trips. -/
theorem lt8_3 (t : Fin k3_t3_loop.trips) : t.val < 8 := lt_of_lt_of_eq t.isLt trips_eq_8
/-- Chunk loop 4 runs eight trips. -/
theorem lt8_4 (t : Fin k3_t4_loop.trips) : t.val < 8 := lt_of_lt_of_eq t.isLt trips_eq_8

/-- Chunk loop 1, lane 0. -/
theorem chk1 : ∀ (t : Fin k3_t1_loop.trips) (v : BitVec 32), k3_chk1 t v := fun t v =>
  ⟨dvd_and_127_112 v,
   Fin.forall_fin_two.2 ⟨row_inb t.val (lt8_1 t) 0#32 (by decide), and_127_112_inb v⟩,
   Fin.forall_fin_one.2 (base_add_and_15_inb 0#32 _ (by decide))⟩

/-- Chunk loop 1, lane 1. -/
theorem chk2 : ∀ (t : Fin k3_t1_loop.trips) (v : BitVec 32), k3_chk2 t v := fun t v =>
  ⟨dvd_and_127_112 v,
   Fin.forall_fin_two.2 ⟨row_inb t.val (lt8_1 t) 1#32 (by decide), and_127_112_inb v⟩,
   Fin.forall_fin_one.2 (base_add_and_15_inb 32#32 _ (by decide))⟩

/-- Chunk loop 1, lane 2. -/
theorem chk3 : ∀ (t : Fin k3_t1_loop.trips) (v : BitVec 32), k3_chk3 t v := fun t v =>
  ⟨dvd_and_127_112 v,
   Fin.forall_fin_two.2 ⟨row_inb t.val (lt8_1 t) 2#32 (by decide), and_127_112_inb v⟩,
   Fin.forall_fin_one.2 (base_add_and_15_inb 64#32 _ (by decide))⟩

/-- Chunk loop 1, lane 3. -/
theorem chk4 : ∀ (t : Fin k3_t1_loop.trips) (v : BitVec 32), k3_chk4 t v := fun t v =>
  ⟨dvd_and_127_112 v,
   Fin.forall_fin_two.2 ⟨row_inb t.val (lt8_1 t) 3#32 (by decide), and_127_112_inb v⟩,
   Fin.forall_fin_one.2 (base_add_and_15_inb 96#32 _ (by decide))⟩

/-- Chunk loop 1, lane 4. -/
theorem chk5 : ∀ (t : Fin k3_t1_loop.trips) (v : BitVec 32), k3_chk5 t v := fun t v =>
  ⟨dvd_and_127_112 v,
   Fin.forall_fin_two.2 ⟨row_inb t.val (lt8_1 t) 4#32 (by decide), and_127_112_inb v⟩,
   Fin.forall_fin_one.2 (base_add_and_15_inb 128#32 _ (by decide))⟩

/-- Chunk loop 1, lane 5. -/
theorem chk6 : ∀ (t : Fin k3_t1_loop.trips) (v : BitVec 32), k3_chk6 t v := fun t v =>
  ⟨dvd_and_127_112 v,
   Fin.forall_fin_two.2 ⟨row_inb t.val (lt8_1 t) 5#32 (by decide), and_127_112_inb v⟩,
   Fin.forall_fin_one.2 (base_add_and_15_inb 160#32 _ (by decide))⟩

/-- Chunk loop 1, lane 6. -/
theorem chk7 : ∀ (t : Fin k3_t1_loop.trips) (v : BitVec 32), k3_chk7 t v := fun t v =>
  ⟨dvd_and_127_112 v,
   Fin.forall_fin_two.2 ⟨row_inb t.val (lt8_1 t) 6#32 (by decide), and_127_112_inb v⟩,
   Fin.forall_fin_one.2 (base_add_and_15_inb 192#32 _ (by decide))⟩

/-- Chunk loop 1, lane 7. -/
theorem chk8 : ∀ (t : Fin k3_t1_loop.trips) (v : BitVec 32), k3_chk8 t v := fun t v =>
  ⟨dvd_and_127_112 v,
   Fin.forall_fin_two.2 ⟨row_inb t.val (lt8_1 t) 7#32 (by decide), and_127_112_inb v⟩,
   Fin.forall_fin_one.2 (base_add_and_15_inb 224#32 _ (by decide))⟩

/-- Chunk loop 1, lane 8. -/
theorem chk9 : ∀ (t : Fin k3_t1_loop.trips) (v : BitVec 32), k3_chk9 t v := fun t v =>
  ⟨dvd_and_127_112 v,
   Fin.forall_fin_two.2 ⟨row_inb t.val (lt8_1 t) 8#32 (by decide), and_127_112_inb v⟩,
   Fin.forall_fin_one.2 (base_add_and_15_inb 256#32 _ (by decide))⟩

/-- Chunk loop 1, lane 9. -/
theorem chk10 : ∀ (t : Fin k3_t1_loop.trips) (v : BitVec 32), k3_chk10 t v := fun t v =>
  ⟨dvd_and_127_112 v,
   Fin.forall_fin_two.2 ⟨row_inb t.val (lt8_1 t) 9#32 (by decide), and_127_112_inb v⟩,
   Fin.forall_fin_one.2 (base_add_and_15_inb 288#32 _ (by decide))⟩

/-- Chunk loop 1, lane 10. -/
theorem chk11 : ∀ (t : Fin k3_t1_loop.trips) (v : BitVec 32), k3_chk11 t v := fun t v =>
  ⟨dvd_and_127_112 v,
   Fin.forall_fin_two.2 ⟨row_inb t.val (lt8_1 t) 10#32 (by decide), and_127_112_inb v⟩,
   Fin.forall_fin_one.2 (base_add_and_15_inb 320#32 _ (by decide))⟩

/-- Chunk loop 1, lane 11. -/
theorem chk12 : ∀ (t : Fin k3_t1_loop.trips) (v : BitVec 32), k3_chk12 t v := fun t v =>
  ⟨dvd_and_127_112 v,
   Fin.forall_fin_two.2 ⟨row_inb t.val (lt8_1 t) 11#32 (by decide), and_127_112_inb v⟩,
   Fin.forall_fin_one.2 (base_add_and_15_inb 352#32 _ (by decide))⟩

/-- Chunk loop 1, lane 12. -/
theorem chk13 : ∀ (t : Fin k3_t1_loop.trips) (v : BitVec 32), k3_chk13 t v := fun t v =>
  ⟨dvd_and_127_112 v,
   Fin.forall_fin_two.2 ⟨row_inb t.val (lt8_1 t) 12#32 (by decide), and_127_112_inb v⟩,
   Fin.forall_fin_one.2 (base_add_and_15_inb 384#32 _ (by decide))⟩

/-- Chunk loop 1, lane 13. -/
theorem chk14 : ∀ (t : Fin k3_t1_loop.trips) (v : BitVec 32), k3_chk14 t v := fun t v =>
  ⟨dvd_and_127_112 v,
   Fin.forall_fin_two.2 ⟨row_inb t.val (lt8_1 t) 13#32 (by decide), and_127_112_inb v⟩,
   Fin.forall_fin_one.2 (base_add_and_15_inb 416#32 _ (by decide))⟩

/-- Chunk loop 1, lane 14. -/
theorem chk15 : ∀ (t : Fin k3_t1_loop.trips) (v : BitVec 32), k3_chk15 t v := fun t v =>
  ⟨dvd_and_127_112 v,
   Fin.forall_fin_two.2 ⟨row_inb t.val (lt8_1 t) 14#32 (by decide), and_127_112_inb v⟩,
   Fin.forall_fin_one.2 (base_add_and_15_inb 448#32 _ (by decide))⟩

/-- Chunk loop 1, lane 15. -/
theorem chk16 : ∀ (t : Fin k3_t1_loop.trips) (v : BitVec 32), k3_chk16 t v := fun t v =>
  ⟨dvd_and_127_112 v,
   Fin.forall_fin_two.2 ⟨row_inb t.val (lt8_1 t) 15#32 (by decide), and_127_112_inb v⟩,
   Fin.forall_fin_one.2 (base_add_and_15_inb 480#32 _ (by decide))⟩

/-- Chunk loop 2, lane 0. -/
theorem chk17 : ∀ (t : Fin k3_t2_loop.trips) (v : BitVec 32), k3_chk17 t v := fun t v =>
  ⟨dvd_and_127_112 v,
   Fin.forall_fin_two.2 ⟨row_inb t.val (lt8_2 t) 0#32 (by decide), and_127_112_inb v⟩,
   Fin.forall_fin_one.2 (base_add_and_15_inb 0#32 _ (by decide))⟩

/-- Chunk loop 2, lane 1. -/
theorem chk18 : ∀ (t : Fin k3_t2_loop.trips) (v : BitVec 32), k3_chk18 t v := fun t v =>
  ⟨dvd_and_127_112 v,
   Fin.forall_fin_two.2 ⟨row_inb t.val (lt8_2 t) 1#32 (by decide), and_127_112_inb v⟩,
   Fin.forall_fin_one.2 (base_add_and_15_inb 32#32 _ (by decide))⟩

/-- Chunk loop 2, lane 2. -/
theorem chk19 : ∀ (t : Fin k3_t2_loop.trips) (v : BitVec 32), k3_chk19 t v := fun t v =>
  ⟨dvd_and_127_112 v,
   Fin.forall_fin_two.2 ⟨row_inb t.val (lt8_2 t) 2#32 (by decide), and_127_112_inb v⟩,
   Fin.forall_fin_one.2 (base_add_and_15_inb 64#32 _ (by decide))⟩

/-- Chunk loop 2, lane 3. -/
theorem chk20 : ∀ (t : Fin k3_t2_loop.trips) (v : BitVec 32), k3_chk20 t v := fun t v =>
  ⟨dvd_and_127_112 v,
   Fin.forall_fin_two.2 ⟨row_inb t.val (lt8_2 t) 3#32 (by decide), and_127_112_inb v⟩,
   Fin.forall_fin_one.2 (base_add_and_15_inb 96#32 _ (by decide))⟩

/-- Chunk loop 2, lane 4. -/
theorem chk21 : ∀ (t : Fin k3_t2_loop.trips) (v : BitVec 32), k3_chk21 t v := fun t v =>
  ⟨dvd_and_127_112 v,
   Fin.forall_fin_two.2 ⟨row_inb t.val (lt8_2 t) 4#32 (by decide), and_127_112_inb v⟩,
   Fin.forall_fin_one.2 (base_add_and_15_inb 128#32 _ (by decide))⟩

/-- Chunk loop 2, lane 5. -/
theorem chk22 : ∀ (t : Fin k3_t2_loop.trips) (v : BitVec 32), k3_chk22 t v := fun t v =>
  ⟨dvd_and_127_112 v,
   Fin.forall_fin_two.2 ⟨row_inb t.val (lt8_2 t) 5#32 (by decide), and_127_112_inb v⟩,
   Fin.forall_fin_one.2 (base_add_and_15_inb 160#32 _ (by decide))⟩

/-- Chunk loop 2, lane 6. -/
theorem chk23 : ∀ (t : Fin k3_t2_loop.trips) (v : BitVec 32), k3_chk23 t v := fun t v =>
  ⟨dvd_and_127_112 v,
   Fin.forall_fin_two.2 ⟨row_inb t.val (lt8_2 t) 6#32 (by decide), and_127_112_inb v⟩,
   Fin.forall_fin_one.2 (base_add_and_15_inb 192#32 _ (by decide))⟩

/-- Chunk loop 2, lane 7. -/
theorem chk24 : ∀ (t : Fin k3_t2_loop.trips) (v : BitVec 32), k3_chk24 t v := fun t v =>
  ⟨dvd_and_127_112 v,
   Fin.forall_fin_two.2 ⟨row_inb t.val (lt8_2 t) 7#32 (by decide), and_127_112_inb v⟩,
   Fin.forall_fin_one.2 (base_add_and_15_inb 224#32 _ (by decide))⟩

/-- Chunk loop 2, lane 8. -/
theorem chk25 : ∀ (t : Fin k3_t2_loop.trips) (v : BitVec 32), k3_chk25 t v := fun t v =>
  ⟨dvd_and_127_112 v,
   Fin.forall_fin_two.2 ⟨row_inb t.val (lt8_2 t) 8#32 (by decide), and_127_112_inb v⟩,
   Fin.forall_fin_one.2 (base_add_and_15_inb 256#32 _ (by decide))⟩

/-- Chunk loop 2, lane 9. -/
theorem chk26 : ∀ (t : Fin k3_t2_loop.trips) (v : BitVec 32), k3_chk26 t v := fun t v =>
  ⟨dvd_and_127_112 v,
   Fin.forall_fin_two.2 ⟨row_inb t.val (lt8_2 t) 9#32 (by decide), and_127_112_inb v⟩,
   Fin.forall_fin_one.2 (base_add_and_15_inb 288#32 _ (by decide))⟩

/-- Chunk loop 2, lane 10. -/
theorem chk27 : ∀ (t : Fin k3_t2_loop.trips) (v : BitVec 32), k3_chk27 t v := fun t v =>
  ⟨dvd_and_127_112 v,
   Fin.forall_fin_two.2 ⟨row_inb t.val (lt8_2 t) 10#32 (by decide), and_127_112_inb v⟩,
   Fin.forall_fin_one.2 (base_add_and_15_inb 320#32 _ (by decide))⟩

/-- Chunk loop 2, lane 11. -/
theorem chk28 : ∀ (t : Fin k3_t2_loop.trips) (v : BitVec 32), k3_chk28 t v := fun t v =>
  ⟨dvd_and_127_112 v,
   Fin.forall_fin_two.2 ⟨row_inb t.val (lt8_2 t) 11#32 (by decide), and_127_112_inb v⟩,
   Fin.forall_fin_one.2 (base_add_and_15_inb 352#32 _ (by decide))⟩

/-- Chunk loop 2, lane 12. -/
theorem chk29 : ∀ (t : Fin k3_t2_loop.trips) (v : BitVec 32), k3_chk29 t v := fun t v =>
  ⟨dvd_and_127_112 v,
   Fin.forall_fin_two.2 ⟨row_inb t.val (lt8_2 t) 12#32 (by decide), and_127_112_inb v⟩,
   Fin.forall_fin_one.2 (base_add_and_15_inb 384#32 _ (by decide))⟩

/-- Chunk loop 2, lane 13. -/
theorem chk30 : ∀ (t : Fin k3_t2_loop.trips) (v : BitVec 32), k3_chk30 t v := fun t v =>
  ⟨dvd_and_127_112 v,
   Fin.forall_fin_two.2 ⟨row_inb t.val (lt8_2 t) 13#32 (by decide), and_127_112_inb v⟩,
   Fin.forall_fin_one.2 (base_add_and_15_inb 416#32 _ (by decide))⟩

/-- Chunk loop 2, lane 14. -/
theorem chk31 : ∀ (t : Fin k3_t2_loop.trips) (v : BitVec 32), k3_chk31 t v := fun t v =>
  ⟨dvd_and_127_112 v,
   Fin.forall_fin_two.2 ⟨row_inb t.val (lt8_2 t) 14#32 (by decide), and_127_112_inb v⟩,
   Fin.forall_fin_one.2 (base_add_and_15_inb 448#32 _ (by decide))⟩

/-- Chunk loop 2, lane 15. -/
theorem chk32 : ∀ (t : Fin k3_t2_loop.trips) (v : BitVec 32), k3_chk32 t v := fun t v =>
  ⟨dvd_and_127_112 v,
   Fin.forall_fin_two.2 ⟨row_inb t.val (lt8_2 t) 15#32 (by decide), and_127_112_inb v⟩,
   Fin.forall_fin_one.2 (base_add_and_15_inb 480#32 _ (by decide))⟩

/-- Chunk loop 3, lane 0. -/
theorem chk33 : ∀ (t : Fin k3_t3_loop.trips) (v : BitVec 32), k3_chk33 t v := fun t v =>
  ⟨dvd_and_127_112 v,
   Fin.forall_fin_two.2 ⟨row_inb t.val (lt8_3 t) 0#32 (by decide), and_127_112_inb v⟩,
   Fin.forall_fin_one.2 (base_add_and_15_inb 0#32 _ (by decide))⟩

/-- Chunk loop 3, lane 1. -/
theorem chk34 : ∀ (t : Fin k3_t3_loop.trips) (v : BitVec 32), k3_chk34 t v := fun t v =>
  ⟨dvd_and_127_112 v,
   Fin.forall_fin_two.2 ⟨row_inb t.val (lt8_3 t) 1#32 (by decide), and_127_112_inb v⟩,
   Fin.forall_fin_one.2 (base_add_and_15_inb 32#32 _ (by decide))⟩

/-- Chunk loop 3, lane 2. -/
theorem chk35 : ∀ (t : Fin k3_t3_loop.trips) (v : BitVec 32), k3_chk35 t v := fun t v =>
  ⟨dvd_and_127_112 v,
   Fin.forall_fin_two.2 ⟨row_inb t.val (lt8_3 t) 2#32 (by decide), and_127_112_inb v⟩,
   Fin.forall_fin_one.2 (base_add_and_15_inb 64#32 _ (by decide))⟩

/-- Chunk loop 3, lane 3. -/
theorem chk36 : ∀ (t : Fin k3_t3_loop.trips) (v : BitVec 32), k3_chk36 t v := fun t v =>
  ⟨dvd_and_127_112 v,
   Fin.forall_fin_two.2 ⟨row_inb t.val (lt8_3 t) 3#32 (by decide), and_127_112_inb v⟩,
   Fin.forall_fin_one.2 (base_add_and_15_inb 96#32 _ (by decide))⟩

/-- Chunk loop 3, lane 4. -/
theorem chk37 : ∀ (t : Fin k3_t3_loop.trips) (v : BitVec 32), k3_chk37 t v := fun t v =>
  ⟨dvd_and_127_112 v,
   Fin.forall_fin_two.2 ⟨row_inb t.val (lt8_3 t) 4#32 (by decide), and_127_112_inb v⟩,
   Fin.forall_fin_one.2 (base_add_and_15_inb 128#32 _ (by decide))⟩

/-- Chunk loop 3, lane 5. -/
theorem chk38 : ∀ (t : Fin k3_t3_loop.trips) (v : BitVec 32), k3_chk38 t v := fun t v =>
  ⟨dvd_and_127_112 v,
   Fin.forall_fin_two.2 ⟨row_inb t.val (lt8_3 t) 5#32 (by decide), and_127_112_inb v⟩,
   Fin.forall_fin_one.2 (base_add_and_15_inb 160#32 _ (by decide))⟩

/-- Chunk loop 3, lane 6. -/
theorem chk39 : ∀ (t : Fin k3_t3_loop.trips) (v : BitVec 32), k3_chk39 t v := fun t v =>
  ⟨dvd_and_127_112 v,
   Fin.forall_fin_two.2 ⟨row_inb t.val (lt8_3 t) 6#32 (by decide), and_127_112_inb v⟩,
   Fin.forall_fin_one.2 (base_add_and_15_inb 192#32 _ (by decide))⟩

/-- Chunk loop 3, lane 7. -/
theorem chk40 : ∀ (t : Fin k3_t3_loop.trips) (v : BitVec 32), k3_chk40 t v := fun t v =>
  ⟨dvd_and_127_112 v,
   Fin.forall_fin_two.2 ⟨row_inb t.val (lt8_3 t) 7#32 (by decide), and_127_112_inb v⟩,
   Fin.forall_fin_one.2 (base_add_and_15_inb 224#32 _ (by decide))⟩

/-- Chunk loop 3, lane 8. -/
theorem chk41 : ∀ (t : Fin k3_t3_loop.trips) (v : BitVec 32), k3_chk41 t v := fun t v =>
  ⟨dvd_and_127_112 v,
   Fin.forall_fin_two.2 ⟨row_inb t.val (lt8_3 t) 8#32 (by decide), and_127_112_inb v⟩,
   Fin.forall_fin_one.2 (base_add_and_15_inb 256#32 _ (by decide))⟩

/-- Chunk loop 3, lane 9. -/
theorem chk42 : ∀ (t : Fin k3_t3_loop.trips) (v : BitVec 32), k3_chk42 t v := fun t v =>
  ⟨dvd_and_127_112 v,
   Fin.forall_fin_two.2 ⟨row_inb t.val (lt8_3 t) 9#32 (by decide), and_127_112_inb v⟩,
   Fin.forall_fin_one.2 (base_add_and_15_inb 288#32 _ (by decide))⟩

/-- Chunk loop 3, lane 10. -/
theorem chk43 : ∀ (t : Fin k3_t3_loop.trips) (v : BitVec 32), k3_chk43 t v := fun t v =>
  ⟨dvd_and_127_112 v,
   Fin.forall_fin_two.2 ⟨row_inb t.val (lt8_3 t) 10#32 (by decide), and_127_112_inb v⟩,
   Fin.forall_fin_one.2 (base_add_and_15_inb 320#32 _ (by decide))⟩

/-- Chunk loop 3, lane 11. -/
theorem chk44 : ∀ (t : Fin k3_t3_loop.trips) (v : BitVec 32), k3_chk44 t v := fun t v =>
  ⟨dvd_and_127_112 v,
   Fin.forall_fin_two.2 ⟨row_inb t.val (lt8_3 t) 11#32 (by decide), and_127_112_inb v⟩,
   Fin.forall_fin_one.2 (base_add_and_15_inb 352#32 _ (by decide))⟩

/-- Chunk loop 3, lane 12. -/
theorem chk45 : ∀ (t : Fin k3_t3_loop.trips) (v : BitVec 32), k3_chk45 t v := fun t v =>
  ⟨dvd_and_127_112 v,
   Fin.forall_fin_two.2 ⟨row_inb t.val (lt8_3 t) 12#32 (by decide), and_127_112_inb v⟩,
   Fin.forall_fin_one.2 (base_add_and_15_inb 384#32 _ (by decide))⟩

/-- Chunk loop 3, lane 13. -/
theorem chk46 : ∀ (t : Fin k3_t3_loop.trips) (v : BitVec 32), k3_chk46 t v := fun t v =>
  ⟨dvd_and_127_112 v,
   Fin.forall_fin_two.2 ⟨row_inb t.val (lt8_3 t) 13#32 (by decide), and_127_112_inb v⟩,
   Fin.forall_fin_one.2 (base_add_and_15_inb 416#32 _ (by decide))⟩

/-- Chunk loop 3, lane 14. -/
theorem chk47 : ∀ (t : Fin k3_t3_loop.trips) (v : BitVec 32), k3_chk47 t v := fun t v =>
  ⟨dvd_and_127_112 v,
   Fin.forall_fin_two.2 ⟨row_inb t.val (lt8_3 t) 14#32 (by decide), and_127_112_inb v⟩,
   Fin.forall_fin_one.2 (base_add_and_15_inb 448#32 _ (by decide))⟩

/-- Chunk loop 3, lane 15. -/
theorem chk48 : ∀ (t : Fin k3_t3_loop.trips) (v : BitVec 32), k3_chk48 t v := fun t v =>
  ⟨dvd_and_127_112 v,
   Fin.forall_fin_two.2 ⟨row_inb t.val (lt8_3 t) 15#32 (by decide), and_127_112_inb v⟩,
   Fin.forall_fin_one.2 (base_add_and_15_inb 480#32 _ (by decide))⟩

/-- Chunk loop 4, lane 0. -/
theorem chk49 : ∀ (t : Fin k3_t4_loop.trips) (v : BitVec 32), k3_chk49 t v := fun t v =>
  ⟨dvd_and_127_112 v,
   Fin.forall_fin_two.2 ⟨row_inb t.val (lt8_4 t) 0#32 (by decide), and_127_112_inb v⟩,
   Fin.forall_fin_one.2 (base_add_and_15_inb 0#32 _ (by decide))⟩

/-- Chunk loop 4, lane 1. -/
theorem chk50 : ∀ (t : Fin k3_t4_loop.trips) (v : BitVec 32), k3_chk50 t v := fun t v =>
  ⟨dvd_and_127_112 v,
   Fin.forall_fin_two.2 ⟨row_inb t.val (lt8_4 t) 1#32 (by decide), and_127_112_inb v⟩,
   Fin.forall_fin_one.2 (base_add_and_15_inb 32#32 _ (by decide))⟩

/-- Chunk loop 4, lane 2. -/
theorem chk51 : ∀ (t : Fin k3_t4_loop.trips) (v : BitVec 32), k3_chk51 t v := fun t v =>
  ⟨dvd_and_127_112 v,
   Fin.forall_fin_two.2 ⟨row_inb t.val (lt8_4 t) 2#32 (by decide), and_127_112_inb v⟩,
   Fin.forall_fin_one.2 (base_add_and_15_inb 64#32 _ (by decide))⟩

/-- Chunk loop 4, lane 3. -/
theorem chk52 : ∀ (t : Fin k3_t4_loop.trips) (v : BitVec 32), k3_chk52 t v := fun t v =>
  ⟨dvd_and_127_112 v,
   Fin.forall_fin_two.2 ⟨row_inb t.val (lt8_4 t) 3#32 (by decide), and_127_112_inb v⟩,
   Fin.forall_fin_one.2 (base_add_and_15_inb 96#32 _ (by decide))⟩

/-- Chunk loop 4, lane 4. -/
theorem chk53 : ∀ (t : Fin k3_t4_loop.trips) (v : BitVec 32), k3_chk53 t v := fun t v =>
  ⟨dvd_and_127_112 v,
   Fin.forall_fin_two.2 ⟨row_inb t.val (lt8_4 t) 4#32 (by decide), and_127_112_inb v⟩,
   Fin.forall_fin_one.2 (base_add_and_15_inb 128#32 _ (by decide))⟩

/-- Chunk loop 4, lane 5. -/
theorem chk54 : ∀ (t : Fin k3_t4_loop.trips) (v : BitVec 32), k3_chk54 t v := fun t v =>
  ⟨dvd_and_127_112 v,
   Fin.forall_fin_two.2 ⟨row_inb t.val (lt8_4 t) 5#32 (by decide), and_127_112_inb v⟩,
   Fin.forall_fin_one.2 (base_add_and_15_inb 160#32 _ (by decide))⟩

/-- Chunk loop 4, lane 6. -/
theorem chk55 : ∀ (t : Fin k3_t4_loop.trips) (v : BitVec 32), k3_chk55 t v := fun t v =>
  ⟨dvd_and_127_112 v,
   Fin.forall_fin_two.2 ⟨row_inb t.val (lt8_4 t) 6#32 (by decide), and_127_112_inb v⟩,
   Fin.forall_fin_one.2 (base_add_and_15_inb 192#32 _ (by decide))⟩

/-- Chunk loop 4, lane 7. -/
theorem chk56 : ∀ (t : Fin k3_t4_loop.trips) (v : BitVec 32), k3_chk56 t v := fun t v =>
  ⟨dvd_and_127_112 v,
   Fin.forall_fin_two.2 ⟨row_inb t.val (lt8_4 t) 7#32 (by decide), and_127_112_inb v⟩,
   Fin.forall_fin_one.2 (base_add_and_15_inb 224#32 _ (by decide))⟩

/-- Chunk loop 4, lane 8. -/
theorem chk57 : ∀ (t : Fin k3_t4_loop.trips) (v : BitVec 32), k3_chk57 t v := fun t v =>
  ⟨dvd_and_127_112 v,
   Fin.forall_fin_two.2 ⟨row_inb t.val (lt8_4 t) 8#32 (by decide), and_127_112_inb v⟩,
   Fin.forall_fin_one.2 (base_add_and_15_inb 256#32 _ (by decide))⟩

/-- Chunk loop 4, lane 9. -/
theorem chk58 : ∀ (t : Fin k3_t4_loop.trips) (v : BitVec 32), k3_chk58 t v := fun t v =>
  ⟨dvd_and_127_112 v,
   Fin.forall_fin_two.2 ⟨row_inb t.val (lt8_4 t) 9#32 (by decide), and_127_112_inb v⟩,
   Fin.forall_fin_one.2 (base_add_and_15_inb 288#32 _ (by decide))⟩

/-- Chunk loop 4, lane 10. -/
theorem chk59 : ∀ (t : Fin k3_t4_loop.trips) (v : BitVec 32), k3_chk59 t v := fun t v =>
  ⟨dvd_and_127_112 v,
   Fin.forall_fin_two.2 ⟨row_inb t.val (lt8_4 t) 10#32 (by decide), and_127_112_inb v⟩,
   Fin.forall_fin_one.2 (base_add_and_15_inb 320#32 _ (by decide))⟩

/-- Chunk loop 4, lane 11. -/
theorem chk60 : ∀ (t : Fin k3_t4_loop.trips) (v : BitVec 32), k3_chk60 t v := fun t v =>
  ⟨dvd_and_127_112 v,
   Fin.forall_fin_two.2 ⟨row_inb t.val (lt8_4 t) 11#32 (by decide), and_127_112_inb v⟩,
   Fin.forall_fin_one.2 (base_add_and_15_inb 352#32 _ (by decide))⟩

/-- Chunk loop 4, lane 12. -/
theorem chk61 : ∀ (t : Fin k3_t4_loop.trips) (v : BitVec 32), k3_chk61 t v := fun t v =>
  ⟨dvd_and_127_112 v,
   Fin.forall_fin_two.2 ⟨row_inb t.val (lt8_4 t) 12#32 (by decide), and_127_112_inb v⟩,
   Fin.forall_fin_one.2 (base_add_and_15_inb 384#32 _ (by decide))⟩

/-- Chunk loop 4, lane 13. -/
theorem chk62 : ∀ (t : Fin k3_t4_loop.trips) (v : BitVec 32), k3_chk62 t v := fun t v =>
  ⟨dvd_and_127_112 v,
   Fin.forall_fin_two.2 ⟨row_inb t.val (lt8_4 t) 13#32 (by decide), and_127_112_inb v⟩,
   Fin.forall_fin_one.2 (base_add_and_15_inb 416#32 _ (by decide))⟩

/-- Chunk loop 4, lane 14. -/
theorem chk63 : ∀ (t : Fin k3_t4_loop.trips) (v : BitVec 32), k3_chk63 t v := fun t v =>
  ⟨dvd_and_127_112 v,
   Fin.forall_fin_two.2 ⟨row_inb t.val (lt8_4 t) 14#32 (by decide), and_127_112_inb v⟩,
   Fin.forall_fin_one.2 (base_add_and_15_inb 448#32 _ (by decide))⟩

/-- Chunk loop 4, lane 15. -/
theorem chk64 : ∀ (t : Fin k3_t4_loop.trips) (v : BitVec 32), k3_chk64 t v := fun t v =>
  ⟨dvd_and_127_112 v,
   Fin.forall_fin_two.2 ⟨row_inb t.val (lt8_4 t) 15#32 (by decide), and_127_112_inb v⟩,
   Fin.forall_fin_one.2 (base_add_and_15_inb 480#32 _ (by decide))⟩

end Cert.KernelIdeal.ChkK3
-- ==== Proof.KernelIdeal.TileK1Defs.lean ====
/-
  One vector subcore's task of the first gather kernel: the names it is stated in, and the subcore's own scratch — seven
  buffers and five DMA semaphores of this kernel — peeled out of what a subcore owns (the second kernel's scratch stays
  in the remainder).
-/
import proofs.«204913_g64682207478566_cont_9to1c4b_713_31_alg».proof.Proof.Common
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import proofs.«204913_g64682207478566_cont_9to1c4b_713_31_alg».proof.Proof.Gen.KernelIdeal

noncomputable section

namespace Cert.KernelIdeal.TileK1

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays and the tile -/

abbrev iLoc (d : Dev nD) : Loc nD τ sig := (SparseCore.T d).loc main_arg0
abbrev tLoc (d : Dev nD) : Loc nD τ sig := (SparseCore.T d).loc main_v6
abbrev bLoc (d : Dev nD) : Loc nD τ sig := (SparseCore.T d).loc main_v7
abbrev oLoc (d : Dev nD) : Loc nD τ sig := (SparseCore.T d).loc main_v8

abbrev cV (L : grid1.Coords) : Fin τ.nSC := (L 0).castLE hcore1
abbrev jV (L : grid1.Coords) : Fin τ.nSub := (L 1).castLE hsub1

/-- The tile's 512 rows of the output, as the body slices them. -/
abbrev oRowSet (L : grid1.Coords) : Finset S16384.Idx :=
  ((Memref.whole main_v8_scv : Memref sig .scVector .hbm S16384 .f32).view.slice (Rect.unit (s := S16384) (k1_off1 L) S512.size (k1_off1_inb L))).set

abbrev cell (d : Dev nD) (L : grid1.Coords) (s : DmaSem sig) : GSem nD τ sig := (V d (cV L) (jV L), .dma s)

theorem cell_ne (thr : Thread nD τ) {a b : SemLoc sig} (h : a ≠ b) : ((thr, a) : GSem nD τ sig) ≠ (thr, b) :=
  fun e => h (congrArg Prod.snd e)

/-- The side conditions the body assumes at its 64 lane reads (four chunks of sixteen lanes), each for every trip and word. -/
structure ChkAll : Prop where
  h1 : ∀ t v, k1_chk1 t v
  h2 : ∀ t v, k1_chk2 t v
  h3 : ∀ t v, k1_chk3 t v
  h4 : ∀ t v, k1_chk4 t v
  h5 : ∀ t v, k1_chk5 t v
  h6 : ∀ t v, k1_chk6 t v
  h7 : ∀ t v, k1_chk7 t v
  h8 : ∀ t v, k1_chk8 t v
  h9 : ∀ t v, k1_chk9 t v
  h10 : ∀ t v, k1_chk10 t v
  h11 : ∀ t v, k1_chk11 t v
  h12 : ∀ t v, k1_chk12 t v
  h13 : ∀ t v, k1_chk13 t v
  h14 : ∀ t v, k1_chk14 t v
  h15 : ∀ t v, k1_chk15 t v
  h16 : ∀ t v, k1_chk16 t v
  h17 : ∀ t v, k1_chk17 t v
  h18 : ∀ t v, k1_chk18 t v
  h19 : ∀ t v, k1_chk19 t v
  h20 : ∀ t v, k1_chk20 t v
  h21 : ∀ t v, k1_chk21 t v
  h22 : ∀ t v, k1_chk22 t v
  h23 : ∀ t v, k1_chk23 t v
  h24 : ∀ t v, k1_chk24 t v
  h25 : ∀ t v, k1_chk25 t v
  h26 : ∀ t v, k1_chk26 t v
  h27 : ∀ t v, k1_chk27 t v
  h28 : ∀ t v, k1_chk28 t v
  h29 : ∀ t v, k1_chk29 t v
  h30 : ∀ t v, k1_chk30 t v
  h31 : ∀ t v, k1_chk31 t v
  h32 : ∀ t v, k1_chk32 t v
  h33 : ∀ t v, k1_chk33 t v
  h34 : ∀ t v, k1_chk34 t v
  h35 : ∀ t v, k1_chk35 t v
  h36 : ∀ t v, k1_chk36 t v
  h37 : ∀ t v, k1_chk37 t v
  h38 : ∀ t v, k1_chk38 t v
  h39 : ∀ t v, k1_chk39 t v
  h40 : ∀ t v, k1_chk40 t v
  h41 : ∀ t v, k1_chk41 t v
  h42 : ∀ t v, k1_chk42 t v
  h43 : ∀ t v, k1_chk43 t v
  h44 : ∀ t v, k1_chk44 t v
  h45 : ∀ t v, k1_chk45 t v
  h46 : ∀ t v, k1_chk46 t v
  h47 : ∀ t v, k1_chk47 t v
  h48 : ∀ t v, k1_chk48 t v
  h49 : ∀ t v, k1_chk49 t v
  h50 : ∀ t v, k1_chk50 t v
  h51 : ∀ t v, k1_chk51 t v
  h52 : ∀ t v, k1_chk52 t v
  h53 : ∀ t v, k1_chk53 t v
  h54 : ∀ t v, k1_chk54 t v
  h55 : ∀ t v, k1_chk55 t v
  h56 : ∀ t v, k1_chk56 t v
  h57 : ∀ t v, k1_chk57 t v
  h58 : ∀ t v, k1_chk58 t v
  h59 : ∀ t v, k1_chk59 t v
  h60 : ∀ t v, k1_chk60 t v
  h61 : ∀ t v, k1_chk61 t v
  h62 : ∀ t v, k1_chk62 t v
  h63 : ∀ t v, k1_chk63 t v
  h64 : ∀ t v, k1_chk64 t v

variable (d : Dev nD) (L : grid1.Coords)

/-- The five DMA semaphores of this kernel are among the subcore's own: they, at zero, and the rest. -/
theorem ownSems0_V :
    (ownSems0 (V d (cV L) (jV L)) : sProp 𝕄)
      = iprop(semVal (cell d L cc1_scratch7.sem) 0 ∗ semVal (cell d L cc1_scratch8.sem) 0 ∗ semVal (cell d L cc1_scoped0.sem) 0 ∗ semVal (cell d L cc1_scoped1.sem) 0 ∗ semVal (cell d L cc1_scoped2.sem) 0
          ∗ bigSep ((((((ownCells (V d (cV L) (jV L))).erase (cell d L cc1_scratch7.sem)).erase (cell d L cc1_scratch8.sem)).erase (cell d L cc1_scoped0.sem)).erase (cell d L cc1_scoped1.sem)).erase (cell d L cc1_scoped2.sem)) fun g => semVal g 0) := by
  unfold SparseCore.Cfg.ownSems0
  rw [SparseCore.bigSep_erase' ((mem_ownCells (g := (cell d L cc1_scratch7.sem))).mpr ⟨rfl, by show (SemLoc.dma cc1_scratch7.sem : SemLoc sig).isScoped .scVector = true; decide⟩),
    SparseCore.bigSep_erase' (Finset.mem_erase.mpr ⟨cell_ne _ (by decide), (mem_ownCells (g := (cell d L cc1_scratch8.sem))).mpr ⟨rfl, by show (SemLoc.dma cc1_scratch8.sem : SemLoc sig).isScoped .scVector = true; decide⟩⟩),
    SparseCore.bigSep_erase' (Finset.mem_erase.mpr ⟨cell_ne _ (by decide), Finset.mem_erase.mpr ⟨cell_ne _ (by decide), (mem_ownCells (g := (cell d L cc1_scoped0.sem))).mpr ⟨rfl, by show (SemLoc.dma cc1_scoped0.sem : SemLoc sig).isScoped .scVector = true; decide⟩⟩⟩),
    SparseCore.bigSep_erase' (Finset.mem_erase.mpr ⟨cell_ne _ (by decide), Finset.mem_erase.mpr ⟨cell_ne _ (by decide), Finset.mem_erase.mpr ⟨cell_ne _ (by decide), (mem_ownCells (g := (cell d L cc1_scoped1.sem))).mpr ⟨rfl, by show (SemLoc.dma cc1_scoped1.sem : SemLoc sig).isScoped .scVector = true; decide⟩⟩⟩⟩),
    SparseCore.bigSep_erase' (Finset.mem_erase.mpr ⟨cell_ne _ (by decide), Finset.mem_erase.mpr ⟨cell_ne _ (by decide), Finset.mem_erase.mpr ⟨cell_ne _ (by decide), Finset.mem_erase.mpr ⟨cell_ne _ (by decide), (mem_ownCells (g := (cell d L cc1_scoped2.sem))).mpr ⟨rfl, by show (SemLoc.dma cc1_scoped2.sem : SemLoc sig).isScoped .scVector = true; decide⟩⟩⟩⟩⟩)]

/-- The seven scratch buffers of this kernel are among the subcore's own: they, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f) ∗ (∃ f, (V d (cV L) (jV L)).loc cc1_scratch6 ↦{fullShare} f)
          ∗ bigSep ((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := ((Proc.scVector (cV L) (jV L)).devRef cc1_scratch6)) rfl⟩⟩⟩⟩⟩⟩)]

end Cert.KernelIdeal.TileK1

end
-- ==== Proof.KernelIdeal.TileK1.lean ====
/-
  One vector subcore's task of the first gather kernel, run from its resources to its resources (the frame): the two
  fetches of the tile's 512 ids and base values, the row numbers (each id shifted right by 7, hence below the table's
  row count), the four indirect gathers of 128 table rows into two buffers on two semaphores — one gather per semaphore
  at a time, the buffer untouched between a gather's issue and its wait —, the four loops of eight trips over the
  gathered rows, and the copy of the 512 results to the tile's rows of the output.
-/
import proofs.«204913_g64682207478566_cont_9to1c4b_713_31_alg».proof.Proof.KernelIdeal.TileK1Defs
import proofs.«204913_g64682207478566_cont_9to1c4b_713_31_alg».proof.Proof.Gen.KernelIdeal.Skeleton
import proofs.«204913_g64682207478566_cont_9to1c4b_713_31_alg».proof.Proof.ChkLib
import Idealize.ShloMosaic.Lib.Pipeline.Value

noncomputable section

namespace Cert.KernelIdeal.TileK1

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Lean Elab Tactic Meta in
/-- Unfold, in the goal, the auxiliary value definitions the symbolic run made for the enclosing declaration. -/
elab "delta_run" : tactic => do
  let some decl ← Term.getDeclName? | throwError "delta_run: no enclosing declaration"
  let pre := decl ++ `sl
  let g ← getMainGoal
  let g' ← g.deltaTarget (fun n => pre.isPrefixOf n)
  replaceMainGoal [g']

variable {F : FTy → Type}

local notation "𝕄" => MT nD τ sig (HIx 2) (Elt F) ℕ UU ℕ

local notation "iV" => (Memref.whole Cert.KernelIdeal.main_arg0_scv : Memref Cert.KernelIdeal.sig Kind.scVector Space.hbm Cert.KernelIdeal.S16384 EltTy.i32)
local notation "tV" => (Memref.whole Cert.KernelIdeal.main_v6_scv : Memref Cert.KernelIdeal.sig Kind.scVector Space.hbm Cert.KernelIdeal.S7816x128 EltTy.f32)
local notation "bV" => (Memref.whole Cert.KernelIdeal.main_v7_scv : Memref Cert.KernelIdeal.sig Kind.scVector Space.hbm Cert.KernelIdeal.S16384 EltTy.f32)
local notation "oV" => (Memref.whole Cert.KernelIdeal.main_v8_scv : Memref Cert.KernelIdeal.sig Kind.scVector Space.hbm Cert.KernelIdeal.S16384 EltTy.f32)
local notation "a6" => (Memref.whole Cert.KernelIdeal.cc1_scratch0 : Memref Cert.KernelIdeal.sig Kind.scVector Space.vmem Cert.KernelIdeal.S512 EltTy.i32)
local notation "a7" => (Memref.whole Cert.KernelIdeal.cc1_scratch1 : Memref Cert.KernelIdeal.sig Kind.scVector Space.vmem Cert.KernelIdeal.S512 EltTy.i32)
local notation "a8" => (Memref.whole Cert.KernelIdeal.cc1_scratch2 : Memref Cert.KernelIdeal.sig Kind.scVector Space.vmem Cert.KernelIdeal.S128x128 EltTy.f32)
local notation "a9" => (Memref.whole Cert.KernelIdeal.cc1_scratch3 : Memref Cert.KernelIdeal.sig Kind.scVector Space.vmem Cert.KernelIdeal.S128x128 EltTy.f32)
local notation "a10" => (Memref.whole Cert.KernelIdeal.cc1_scratch4 : Memref Cert.KernelIdeal.sig Kind.scVector Space.vmem Cert.KernelIdeal.S512 EltTy.f32)
local notation "a11" => (Memref.whole Cert.KernelIdeal.cc1_scratch5 : Memref Cert.KernelIdeal.sig Kind.scVector Space.vmem Cert.KernelIdeal.S512 EltTy.f32)
local notation "a12" => (Memref.whole Cert.KernelIdeal.cc1_scratch6 : Memref Cert.KernelIdeal.sig Kind.scVector Space.vmem Cert.KernelIdeal.S512 EltTy.f32)

variable [FloatOps F]
variable (d : Dev nD) (L : grid1.Coords)

/-- The tile's rows of the output, as the body's copy-out addresses them. -/
abbrev oRowK (L : grid1.Coords) : Memref sig .scVector .hbm S512 .f32 :=
  (oV).slice (Rect.unit (s := S16384) (k1_off1 L) S512.size (k1_off1_inb L)) (fun _ => rfl)

omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_bV (q : PosShare TreeShare) (f : Buf (Elt F) (bLoc d)) :
    ((bV).view.loc (V d (cV L) (jV L)) ↦{q} f : sProp 𝕄) = bLoc d ↦{q} f := rfl

/-- What a chunk's loop touches, buffer A: the ids, the base values, the gathered rows, the rotate buffer and the output
    buffer of the tile, each at some contents. -/
def invA (d : Dev nD) (L : grid1.Coords) (_ : Nat) (_ : BitVec 32) : sProp 𝕄 :=
  iprop((∃ f, (a6).view.loc (V d (cV L) (jV L)) ↦{fullShare} f) ∗ (∃ f, (a10).view.loc (V d (cV L) (jV L)) ↦{fullShare} f)
    ∗ (∃ f, (a8).view.loc (V d (cV L) (jV L)) ↦{fullShare} f) ∗ (∃ f, (a11).view.loc (V d (cV L) (jV L)) ↦{fullShare} f)
    ∗ (∃ f, (a12).view.loc (V d (cV L) (jV L)) ↦{fullShare} f))
/-- The same over buffer B. -/
def invB (d : Dev nD) (L : grid1.Coords) (_ : Nat) (_ : BitVec 32) : sProp 𝕄 :=
  iprop((∃ f, (a6).view.loc (V d (cV L) (jV L)) ↦{fullShare} f) ∗ (∃ f, (a10).view.loc (V d (cV L) (jV L)) ↦{fullShare} f)
    ∗ (∃ f, (a9).view.loc (V d (cV L) (jV L)) ↦{fullShare} f) ∗ (∃ f, (a11).view.loc (V d (cV L) (jV L)) ↦{fullShare} f)
    ∗ (∃ f, (a12).view.loc (V d (cV L) (jV L)) ↦{fullShare} f))

set_option maxHeartbeats 4000000 in
theorem tile_frame (qi qt qb : PosShare TreeShare)
    (ids : Buf (Elt F) (iLoc d)) (tbl : Buf (Elt F) (tLoc d)) (bs : Buf (Elt F) (bLoc d)) (o0 : Buf (Elt F) (oLoc d))
    (hin : ∀ j, (ids j).toNat ≤ 999999) (hchk : ChkAll) (hF : (K (F := F)).Facts)
    (O : CellTallies nD τ sig (HIx 2)) (W : Waits sig (HIx 2)) (hO : ∀ g, O g none = 0) :
    iprop(levAts (K (F := F)).L (K (F := F)).lev ∗ emp ∗ (((iLoc d ↦{qi} ids : sProp 𝕄)) ∗ (tLoc d ↦{qt} tbl) ∗ (bLoc d ↦{qb} bs) ∗ (oLoc d ↦[oRowSet L]{fullShare} o0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2)
          fun _ => iprop(((iLoc d ↦{qi} ids) ∗ (tLoc d ↦{qt} tbl) ∗ (bLoc d ↦{qb} bs) ∗ ∃ f, (oLoc d ↦[oRowSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Hb, Ho⟩, ⟨⟨%f6, H6⟩, ⟨%f7, H7⟩, ⟨%f8, H8⟩, ⟨%f9, H9⟩, ⟨%f10, H10⟩, ⟨%f11, H11⟩, ⟨%f12, H12⟩, Hbufs⟩, ⟨Hs13, Hs14, Hr0, Hr1, Hr2, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Hb' := (Entails.of_eq (pts_bV (F := F) d L _ _).symm) $$ Hb
  ihave Ho' := (Entails.of_eq (pts_oRowK (F := F) d L _).symm) $$ Ho
  ihave H6' := (Entails.of_eq (show ((V d (cV L) (jV L)).loc cc1_scratch0 ↦{fullShare} f6 : sProp 𝕄) = ((a6).view.loc (V d (cV L) (jV L)) ↦{fullShare} f6) from rfl)) $$ H6
  ihave H7' := (Entails.of_eq (show ((V d (cV L) (jV L)).loc cc1_scratch1 ↦{fullShare} f7 : sProp 𝕄) = ((a7).view.loc (V d (cV L) (jV L)) ↦{fullShare} f7) from rfl)) $$ H7
  ihave H8' := (Entails.of_eq (show ((V d (cV L) (jV L)).loc cc1_scratch2 ↦{fullShare} f8 : sProp 𝕄) = ((a8).view.loc (V d (cV L) (jV L)) ↦{fullShare} f8) from rfl)) $$ H8
  ihave H9' := (Entails.of_eq (show ((V d (cV L) (jV L)).loc cc1_scratch3 ↦{fullShare} f9 : sProp 𝕄) = ((a9).view.loc (V d (cV L) (jV L)) ↦{fullShare} f9) from rfl)) $$ H9
  ihave H10' := (Entails.of_eq (show ((V d (cV L) (jV L)).loc cc1_scratch4 ↦{fullShare} f10 : sProp 𝕄) = ((a10).view.loc (V d (cV L) (jV L)) ↦{fullShare} f10) from rfl)) $$ H10
  ihave H11' := (Entails.of_eq (show ((V d (cV L) (jV L)).loc cc1_scratch5 ↦{fullShare} f11 : sProp 𝕄) = ((a11).view.loc (V d (cV L) (jV L)) ↦{fullShare} f11) from rfl)) $$ H11
  ihave H12' := (Entails.of_eq (show ((V d (cV L) (jV L)).loc cc1_scratch6 ↦{fullShare} f12 : sProp 𝕄) = ((a12).view.loc (V d (cV L) (jV L)) ↦{fullShare} f12) from rfl)) $$ H12
  sl_exec
  -- what the prologue left in the row list: at every position the id there, shifted right by 7
  have hdma : ∀ y, (tile_frame.sl.dma0 d L ids y).toNat ≤ 999999 := fun y => by
    unfold tile_frame.sl.dma0
    rw [ReadAs.apply_same, View.read_apply]
    exact hin _
  have hrow : ∀ y : S512.Idx, (a7).view.read (Elt F) ((a7).view.writes (Elt F) (a7).view.junk (tile_frame.sl.H7'_32 d L ids f6)) y
      = IntOp.shrui .vector (tile_frame.sl.dma0 d L ids y) 7#32 := by
    intro y
    refine View.read_writes_apply_of_pieces (Val := Elt F) (a7).view _ (fun y => (IntOp.shrui .vector (tile_frame.sl.dma0 d L ids y) 7#32 : Elt F .i32)) _ ?_ y ?_
    · unfold tile_frame.sl.H7'_32
      simp only [List.forall_mem_cons, List.not_mem_nil, false_imp_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals (intro x; delta_run; simp only [k1_pay347, shapeCast_self, View.write_whole_univ, View.readAt_apply, View.read_whole, shrui, broadcast]; try rfl)
    · unfold tile_frame.sl.H7'_32
      exact View.cover_of_tiled _ ![16] rfl y
  have hset8 : (a8).view.set = Finset.univ := View.set_whole _
  have hset9 : (a9).view.set = Finset.univ := View.set_whole _
  have hinK : ∀ (off : Fin 1 → Nat) (inb : ∀ a, off a + S128.size a ≤ S512.size a) (h1 : ∀ a, (Rect.unit (s := S512) off S128.size inb).stride a = 1) x,
      (((a7).slice (Rect.unit (s := S512) off S128.size inb) h1).view.read (Elt F) ((a7).view.writes (Elt F) (a7).view.junk (tile_frame.sl.H7'_32 d L ids f6)) x).toNat < S7816x128.size gathers_S7816x128_S128x128.axis := by
    intro off inb h1 x
    have e : ((a7).slice (Rect.unit (s := S512) off S128.size inb) h1).view.read (Elt F) ((a7).view.writes (Elt F) (a7).view.junk (tile_frame.sl.H7'_32 d L ids f6)) x
        = (a7).view.read (Elt F) ((a7).view.writes (Elt F) (a7).view.junk (tile_frame.sl.H7'_32 d L ids f6)) ((Rect.unit (s := S512) off S128.size inb).toLoadRect.idx x) := rfl
    rw [e, hrow]
    exact Cert.Proof.ChkLib.shrui_7_lt_of_le_999999 _ (hdma _)
  -- the table's share and the row list's, halved: one half per semaphore
  ihave Hts := (pointsTo_share (PosShare.mem_left_op_right qt)).1 $$ Ht'
  icases Hts with ⟨HtL, HtR⟩
  ihave H7s := (pointsTo_share (PosShare.mem_left_op_right fullShare)).1 $$ H7'
  icases H7s with ⟨H7L, H7R⟩
  sl_exec
  -- chunk 0's loop
  sl_for (invA (F := F) d L) $$ [H6' H10' H8' H11' H12']
  case region =>
    intro k acc
    unfold invA
    iintro ⟨⟨%g6, H6⟩, ⟨%g10, H10⟩, ⟨%gB, HB⟩, ⟨%g11, H11⟩, ⟨%g12, H12⟩⟩
    sl_exec (disch := first | sl_exact (hchk.h1 _ _) | sl_exact (hchk.h2 _ _) | sl_exact (hchk.h3 _ _) | sl_exact (hchk.h4 _ _) | sl_exact (hchk.h5 _ _) | sl_exact (hchk.h6 _ _) | sl_exact (hchk.h7 _ _) | sl_exact (hchk.h8 _ _) | sl_exact (hchk.h9 _ _) | sl_exact (hchk.h10 _ _) | sl_exact (hchk.h11 _ _) | sl_exact (hchk.h12 _ _) | sl_exact (hchk.h13 _ _) | sl_exact (hchk.h14 _ _) | sl_exact (hchk.h15 _ _) | sl_exact (hchk.h16 _ _))
    sl_step
    isplitl [H6]; · iexists _; iexact H6
    isplitl [H10]; · iexists _; iexact H10
    isplitl [HB]; · iexists _; iexact HB
    isplitl [H11]; · iexists _; iexact H11
    iexists _; iexact H12
  · unfold invA
    isplitl [H6']; · iexists _; iexact H6'
    isplitl [H10']; · iexists _; iexact H10'
    isplitl [H8']; · iexists _; iexact H8'
    isplitl [H11']; · iexists _; iexact H11'
    iexists _; iexact H12'
  iintro %_ HI
  unfold invA
  icases HI with ⟨⟨%h6_1, H6'⟩, ⟨%h10_1, H10'⟩, ⟨%hB_1, H8'⟩, ⟨%h11_1, H11'⟩, ⟨%h12_1, H12'⟩⟩
  sl_exec
  -- chunk 1's loop
  sl_for (invB (F := F) d L) $$ [H6' H10' H9' H11' H12']
  case region =>
    intro k acc
    unfold invB
    iintro ⟨⟨%g6, H6⟩, ⟨%g10, H10⟩, ⟨%gB, HB⟩, ⟨%g11, H11⟩, ⟨%g12, H12⟩⟩
    sl_exec (disch := first | sl_exact (hchk.h17 _ _) | sl_exact (hchk.h18 _ _) | sl_exact (hchk.h19 _ _) | sl_exact (hchk.h20 _ _) | sl_exact (hchk.h21 _ _) | sl_exact (hchk.h22 _ _) | sl_exact (hchk.h23 _ _) | sl_exact (hchk.h24 _ _) | sl_exact (hchk.h25 _ _) | sl_exact (hchk.h26 _ _) | sl_exact (hchk.h27 _ _) | sl_exact (hchk.h28 _ _) | sl_exact (hchk.h29 _ _) | sl_exact (hchk.h30 _ _) | sl_exact (hchk.h31 _ _) | sl_exact (hchk.h32 _ _))
    sl_step
    isplitl [H6]; · iexists _; iexact H6
    isplitl [H10]; · iexists _; iexact H10
    isplitl [HB]; · iexists _; iexact HB
    isplitl [H11]; · iexists _; iexact H11
    iexists _; iexact H12
  · unfold invB
    isplitl [H6']; · iexists _; iexact H6'
    isplitl [H10']; · iexists _; iexact H10'
    isplitl [H9']; · iexists _; iexact H9'
    isplitl [H11']; · iexists _; iexact H11'
    iexists _; iexact H12'
  iintro %_ HI
  unfold invB
  icases HI with ⟨⟨%h6_2, H6'⟩, ⟨%h10_2, H10'⟩, ⟨%hB_2, H9'⟩, ⟨%h11_2, H11'⟩, ⟨%h12_2, H12'⟩⟩
  sl_exec
  -- chunk 2's loop
  sl_for (invA (F := F) d L) $$ [H6' H10' H8' H11' H12']
  case region =>
    intro k acc
    unfold invA
    iintro ⟨⟨%g6, H6⟩, ⟨%g10, H10⟩, ⟨%gB, HB⟩, ⟨%g11, H11⟩, ⟨%g12, H12⟩⟩
    sl_exec (disch := first | sl_exact (hchk.h33 _ _) | sl_exact (hchk.h34 _ _) | sl_exact (hchk.h35 _ _) | sl_exact (hchk.h36 _ _) | sl_exact (hchk.h37 _ _) | sl_exact (hchk.h38 _ _) | sl_exact (hchk.h39 _ _) | sl_exact (hchk.h40 _ _) | sl_exact (hchk.h41 _ _) | sl_exact (hchk.h42 _ _) | sl_exact (hchk.h43 _ _) | sl_exact (hchk.h44 _ _) | sl_exact (hchk.h45 _ _) | sl_exact (hchk.h46 _ _) | sl_exact (hchk.h47 _ _) | sl_exact (hchk.h48 _ _))
    sl_step
    isplitl [H6]; · iexists _; iexact H6
    isplitl [H10]; · iexists _; iexact H10
    isplitl [HB]; · iexists _; iexact HB
    isplitl [H11]; · iexists _; iexact H11
    iexists _; iexact H12
  · unfold invA
    isplitl [H6']; · iexists _; iexact H6'
    isplitl [H10']; · iexists _; iexact H10'
    isplitl [H8']; · iexists _; iexact H8'
    isplitl [H11']; · iexists _; iexact H11'
    iexists _; iexact H12'
  iintro %_ HI
  unfold invA
  icases HI with ⟨⟨%h6_3, H6'⟩, ⟨%h10_3, H10'⟩, ⟨%hB_3, H8'⟩, ⟨%h11_3, H11'⟩, ⟨%h12_3, H12'⟩⟩
  sl_exec
  -- chunk 3's loop
  sl_for (invB (F := F) d L) $$ [H6' H10' H9' H11' H12']
  case region =>
    intro k acc
    unfold invB
    iintro ⟨⟨%g6, H6⟩, ⟨%g10, H10⟩, ⟨%gB, HB⟩, ⟨%g11, H11⟩, ⟨%g12, H12⟩⟩
    sl_exec (disch := first | sl_exact (hchk.h49 _ _) | sl_exact (hchk.h50 _ _) | sl_exact (hchk.h51 _ _) | sl_exact (hchk.h52 _ _) | sl_exact (hchk.h53 _ _) | sl_exact (hchk.h54 _ _) | sl_exact (hchk.h55 _ _) | sl_exact (hchk.h56 _ _) | sl_exact (hchk.h57 _ _) | sl_exact (hchk.h58 _ _) | sl_exact (hchk.h59 _ _) | sl_exact (hchk.h60 _ _) | sl_exact (hchk.h61 _ _) | sl_exact (hchk.h62 _ _) | sl_exact (hchk.h63 _ _) | sl_exact (hchk.h64 _ _))
    sl_step
    isplitl [H6]; · iexists _; iexact H6
    isplitl [H10]; · iexists _; iexact H10
    isplitl [HB]; · iexists _; iexact HB
    isplitl [H11]; · iexists _; iexact H11
    iexists _; iexact H12
  · unfold invB
    isplitl [H6']; · iexists _; iexact H6'
    isplitl [H10']; · iexists _; iexact H10'
    isplitl [H9']; · iexists _; iexact H9'
    isplitl [H11']; · iexists _; iexact H11'
    iexists _; iexact H12'
  iintro %_ HI
  unfold invB
  icases HI with ⟨⟨%h6_4, H6'⟩, ⟨%h10_4, H10'⟩, ⟨%hB_4, H9'⟩, ⟨%h11_4, H11'⟩, ⟨%h12_4, H12'⟩⟩
  sl_exec
  sl_step
  ihave Ht := (pointsTo_share (PosShare.mem_left_op_right qt)).2 $$ [HtL HtR]; · isplitl [HtL] <;> iassumption
  ihave H7 := (pointsTo_share (PosShare.mem_left_op_right fullShare)).2 $$ [H7L H7R]; · isplitl [H7L] <;> iassumption
  isplitl [Hi' Ht Hb' Ho']
  · isplitl [Hi']; · iexact Hi'
    isplitl [Ht]; · iexact Ht
    isplitl [Hb']; · iexact Hb'
    iexists _; iexact Ho'
  isplitl [H6' H7 H8' H9' H10' H11' H12' Hbufs]
  · isplitl [H6']; · iexists _; iexact H6'
    isplitl [H7]; · iexists _; iexact H7
    isplitl [H8']; · iexists _; iexact H8'
    isplitl [H9']; · iexists _; iexact H9'
    isplitl [H10']; · iexists _; iexact H10'
    isplitl [H11']; · iexists _; iexact H11'
    isplitl [H12']; · iexists _; iexact H12'
    iexact Hbufs
  isplitl [Hs13 Hs14 Hr0 Hr1 Hr2 Hsems]
  · isplitl [Hs13]; · iexact Hs13
    isplitl [Hs14]; · iexact Hs14
    isplitl [Hr0]; · iexact Hr0
    isplitl [Hr1]; · iexact Hr1
    isplitl [Hr2]; · iexact Hr2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.TileK1

end
-- ==== Proof.IdBits.lean ====
/-
  Closed forms, as natural numbers, of the word expressions the gather body computes from an id word v.

  With r = v mod 16 the position of the id inside its 16-lane group and j ≤ 15 a lane number, the body forms
  (((v &&& 127) &&& 15) - j + 16) &&& 15: in 32-bit arithmetic r - j may wrap below zero, but adding 16 and
  keeping the low four bits gives (r + 16 - j) mod 16 whichever way, because 2^32 is a multiple of 16.
-/
import proofs.«204913_g64682207478566_cont_9to1c4b_713_31_alg».proof.Proof.ChkLib

namespace Cert.Proof.IdBits

open Idealize.ShloMosaic Cert.Proof.ChkLib

/-- Masking a word with 15 is reduction modulo 16. -/
theorem toNat_and_15 (x : BitVec 32) : (x &&& 15#32).toNat = x.toNat % 16 := by
  rw [BitVec.toNat_and]
  exact Nat.and_two_pow_sub_one_eq_mod x.toNat 4

/-- The rotated position: for x, j at most 15, the low four bits of x - j + 16 are (x + 16 - j) mod 16. -/
theorem rot_toNat (x j : BitVec 32) (hx : x.toNat ≤ 15) (hj : j.toNat ≤ 15) :
    ((x - j + 16#32) &&& 15#32).toNat = (x.toNat + 16 - j.toNat) % 16 := by
  rw [toNat_and_15, BitVec.toNat_add, BitVec.toNat_sub, BitVec.toNat_ofNat]
  omega

/-- The rotated position of an id word. -/
theorem pos_toNat (v j : BitVec 32) (hj : j.toNat ≤ 15) :
    ((((v &&& 127#32) &&& 15#32) - j + 16#32) &&& 15#32).toNat = (v.toNat % 16 + 16 - j.toNat) % 16 := by
  rw [rot_toNat _ _ (and_15_le _) hj, toNat_and_127_15_eq_mod]

/-- The rotated position is below 16. -/
theorem pos_lt (v j : BitVec 32) :
    ((((v &&& 127#32) &&& 15#32) - j + 16#32) &&& 15#32).toNat < 16 := by
  have := and_15_le (((v &&& 127#32) &&& 15#32) - j + 16#32); omega

/-- The start of the 16 words read from the 512-word buffer: the base plus the rotated position, without wrap. -/
theorem start_toNat (c v j : BitVec 32) (hc : c.toNat ≤ 480) (hj : j.toNat ≤ 15) :
    (c + ((((v &&& 127#32) &&& 15#32) - j + 16#32) &&& 15#32)).toNat
      = c.toNat + (v.toNat % 16 + 16 - j.toNat) % 16 := by
  rw [BitVec.toNat_add, pos_toNat v j hj]
  omega

/-- Lane j of the 16 words read from that start is the word at base + 16 when the id's position r is below j,
    and at base otherwise, plus r: (r + 16 - j) mod 16 + j = r or r + 16. -/
theorem pos_add_lane (r j : Nat) (hr : r < 16) (hj : j ≤ 15) :
    (r + 16 - j) % 16 + j = if j ≤ r then r else r + 16 := by
  split <;> omega

/-- The row of the id and its lane inside the row recover the id: for an id in the user range the row is one of
    the 7816 and 128 row + lane = id. -/
theorem user_row_lane (v : BitVec 32) (h : v.toNat ≤ 999999) :
    v.toNat / 128 < 7816 ∧ 128 * (v.toNat / 128) + v.toNat % 128 = v.toNat := by
  constructor <;> omega

/-- The same for an id in the course range and the 784 rows. -/
theorem course_row_lane (v : BitVec 32) (h : v.toNat ≤ 99999) :
    v.toNat / 128 < 784 ∧ 128 * (v.toNat / 128) + v.toNat % 128 = v.toNat := by
  constructor <;> omega

/-- The lane of an id inside its row is its 16-lane group offset plus its position in the group, both read off
    the id directly: 16 (v mod 128 / 16) + v mod 16 = v mod 128. -/
theorem lane_decomp (n : Nat) : 16 * (n % 128 / 16) + n % 16 = n % 128 := by
  omega

end Cert.Proof.IdBits
-- ==== Proof.LaneLib.lean ====
/-
  What the per-lane code of the gather body computes.

  The rotation.  A 16-vector w is stored twice, at entries [b, b + 16) and [b + 16, b + 32) of a buffer, so that
  entry b + k holds w[k mod 16] for k < 32.  Reading 16 entries from b + p, lane j of what is read is entry
  b + p + j.  With p = (r + 16 - j) mod 16, p + j is r or r + 16: lane j holds w[r].

  The lane updates.  With iota the vector of lane numbers, the update of lane j,
  select (iota = j) (res + t) res, adds t to res at lane j only; after the sixteen updates lane l of the
  result is base[l] + t_l[l].
-/
import Mathlib
import Idealize.ShloMosaic.Lib.Writes
import Idealize.ShloMosaic.Lib.ValueIdx
import Idealize.ShloMosaic.Lib.Pipeline.Value

noncomputable section

namespace Cert.Proof.LaneLib

open Idealize.ShloMosaic Idealize.ShloMosaic.ValueIdx

/-- A buffer of 512 entries. -/
abbrev S512 : Shape := ⟨1, ![512]⟩
/-- A vector of 16 lanes. -/
abbrev S16 : Shape := ⟨1, ![16]⟩

/-! ## The lane updates -/

section Step

variable {F : FTy → Type} [FloatOps F]

/-- A select on the equality of two words is the "if" on it. -/
theorem select_cmpi_eq {α : Type} (x y : BitVec 32) (a b : α) :
    Scalar.select (IntOp.cmpi .eq x y) a b = if x = y then a else b := by
  show (if BitVec.ofBool (x == y) = 1#1 then a else b) = _
  by_cases h : x = y
  · subst h; simp
  · have hb : (x == y) = false := beq_eq_false_iff_ne.mpr h
    rw [hb, if_neg h]
    simp

/-- A vector select on "lane word = j" at a lane. -/
theorem select_lane {s : Shape} {α : Type} (iota : IVec s 32) (j : BitVec 32) (a b : s.Idx → α) (l : s.Idx) :
    select (cmpi .eq iota (broadcast s j)) a b l = if iota l = j then a l else b l :=
  select_cmpi_eq _ _ _ _

/-- The update of lane j: add t to res where the lane word is j. -/
def step (iota : IVec S16 32) (j : BitVec 32) (res t : FVec F S16 .f32) : FVec F S16 .f32 :=
  select (cmpi .eq iota (broadcast S16 j)) (addf res t) res

theorem step_apply (iota : IVec S16 32) (j : BitVec 32) (res t : FVec F S16 .f32) (l : S16.Idx) :
    step iota j res t l = if iota l = j then FloatOps.addf (res l) (t l) else res l :=
  select_lane iota j (addf res t) res l

/-- At the lane whose word is j the update adds; -/
theorem step_apply_eq (iota : IVec S16 32) (j : BitVec 32) (res t : FVec F S16 .f32) (l : S16.Idx) (h : iota l = j) :
    step iota j res t l = FloatOps.addf (res l) (t l) := by
  rw [step_apply, if_pos h]

/-- at every other lane it leaves res. -/
theorem step_apply_ne (iota : IVec S16 32) (j : BitVec 32) (res t : FVec F S16 .f32) (l : S16.Idx) (h : iota l ≠ j) :
    step iota j res t l = res l := by
  rw [step_apply, if_neg h]

/-- Lane numbers below 16 are different words. -/
theorem ofNat_ne_of_lt {a b : Nat} (ha : a < 16) (hb : b < 16) (h : a ≠ b) : BitVec.ofNat 32 a ≠ BitVec.ofNat 32 b := by
  intro e
  have := congrArg BitVec.toNat e
  rw [BitVec.toNat_ofNat, BitVec.toNat_ofNat] at this
  omega

/-- The sixteen updates in lane order, from base, with the sixteen addends t 0 … t 15. -/
def steps (iota : IVec S16 32) (base : FVec F S16 .f32) (t : Fin 16 → FVec F S16 .f32) : (n : Nat) → n ≤ 16 → FVec F S16 .f32
  | 0, _ => base
  | n + 1, h => step iota (BitVec.ofNat 32 n) (steps iota base t n (Nat.le_of_succ_le h)) (t ⟨n, h⟩)

/-- After the first n updates lane l has had its addend added if l < n, and is the base value otherwise. -/
theorem steps_apply (iota : IVec S16 32) (hiota : ∀ l : S16.Idx, iota l = BitVec.ofNat 32 (l 0).val)
    (base : FVec F S16 .f32) (t : Fin 16 → FVec F S16 .f32) (l : S16.Idx) :
    ∀ (n : Nat) (h : n ≤ 16), steps iota base t n h l
      = if (l 0).val < n then FloatOps.addf (base l) (t (l 0) l) else base l
  | 0, _ => by simp [steps]
  | n + 1, h => by
    have hl : (l 0).val < 16 := (l 0).isLt
    rw [steps, step_apply, steps_apply iota hiota base t l n (Nat.le_of_succ_le h), hiota l]
    by_cases e : (l 0).val = n
    · have e' : (l 0 : Fin 16) = ⟨n, h⟩ := Fin.ext e
      rw [if_pos (by rw [e]), if_neg (by omega), if_pos (by omega), e']
      rfl
    · rw [if_neg (ofNat_ne_of_lt hl (by omega) e)]
      by_cases c : (l 0).val < n
      · rw [if_pos c, if_pos (by omega)]
      · rw [if_neg c, if_neg (by omega)]

/-- After all sixteen, every lane has had its own addend added. -/
theorem steps16_apply (iota : IVec S16 32) (hiota : ∀ l : S16.Idx, iota l = BitVec.ofNat 32 (l 0).val)
    (base : FVec F S16 .f32) (t : Fin 16 → FVec F S16 .f32) (l : S16.Idx) :
    steps iota base t 16 (Nat.le_refl 16) l = FloatOps.addf (base l) (t (l 0) l) := by
  rw [steps_apply iota hiota base t l 16 (Nat.le_refl 16), if_pos (show (l 0).val < 16 from (l 0).isLt)]

/-- The sixteen updates written out: lane l of the result is base[l] plus lane l of the l-th addend. -/
theorem nested16_apply (iota : IVec S16 32) (hiota : ∀ l : S16.Idx, iota l = BitVec.ofNat 32 (l 0).val)
    (base t0 t1 t2 t3 t4 t5 t6 t7 t8 t9 t10 t11 t12 t13 t14 t15 : FVec F S16 .f32) (l : S16.Idx) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) l
      = FloatOps.addf (base l) ((![t0, t1, t2, t3, t4, t5, t6, t7, t8, t9, t10, t11, t12, t13, t14, t15] : Fin 16 → FVec F S16 .f32) (l 0) l) :=
  steps16_apply iota hiota base ![t0, t1, t2, t3, t4, t5, t6, t7, t8, t9, t10, t11, t12, t13, t14, t15] l

/-- The same at a lane whose number is known. -/
theorem nested16_apply_at (iota : IVec S16 32) (hiota : ∀ l : S16.Idx, iota l = BitVec.ofNat 32 (l 0).val)
    (base t0 t1 t2 t3 t4 t5 t6 t7 t8 t9 t10 t11 t12 t13 t14 t15 : FVec F S16 .f32) (j : Fin 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 j)
      = FloatOps.addf (base (ix1 j)) ((![t0, t1, t2, t3, t4, t5, t6, t7, t8, t9, t10, t11, t12, t13, t14, t15] : Fin 16 → FVec F S16 .f32) j (ix1 j)) :=
  nested16_apply iota hiota base t0 t1 t2 t3 t4 t5 t6 t7 t8 t9 t10 t11 t12 t13 t14 t15 (ix1 j)

end Step

/-! ## Reading a lane, a row of one, the lane numbers -/

section Access

variable {α : Type}

/-- A vector of one lane. -/
abbrev S1 : Shape := ⟨1, ![1]⟩
/-- One row of 16 lanes. -/
abbrev S1x16 : Shape := ⟨2, ![1, 16]⟩

/-- The one entry of the one-lane slice at offset j is entry j. -/
theorem extract_lane (v : S16.Idx → α) (j : Nat) (hj : j < 16) (h : S16.Slices ![j] S1)
    (h' : ∀ a, (![0] : Fin 1 → Nat) a < S1.size a) :
    extractAt ![0] (extractStridedSlice S1 ![j] v h) h' = v (ix1 (⟨j, hj⟩ : Fin 16)) := by
  unfold extractAt
  exact extractStridedSlice_apply ![j] v h (fun a => ⟨(![0] : Fin 1 → Nat) a, h' a⟩) (ix1 (⟨j, hj⟩ : Fin 16)) (by
    intro a
    obtain rfl : a = (0 : Fin 1) := Subsingleton.elim _ _
    show j = j + 0
    rfl)

/-- A row of one read as a vector: lane k is entry (0, k). -/
theorem row_cast_apply (v : S1x16.Idx → α) (h : S1x16.ShapeCasts S16) (k : Fin 16) :
    shapeCast S16 v h (ix1 k) = v (ix2 (0 : Fin 1) k) :=
  shapeCast_apply v h (ix1 k) (ix2 (0 : Fin 1) k) (by
    rw [Shape.rowMajor_val_two, Shape.rowMajor_val_one]
    show 0 * 16 + k.val = k.val
    omega)

/-- The lane-number vector holds each lane's number. -/
theorem iota_lane (κ : Kind) (h : S16.Iotas κ 32 [0]) (l : S16.Idx) :
    iota κ S16 32 [0] h l = BitVec.ofNat 32 (l 0).val :=
  iota_single_apply κ S16 32 0 h l

end Access

/-! ## The rotation -/

section Rot

variable {sig : RefSig} {κ : Kind} {sp : Space} {e : EltTy} {Val : EltTy → Type}

/-- Reading through a rectangle of a view is reading the view at the rectangle's elements. -/
theorem read_slice_apply {s : Shape} (v : View sig κ sp s e) (r : Rect s) (g : v.ty.Contents Val) (x : r.shape.Idx) :
    (v.slice r).read Val g x = v.read Val g (r.emb x) := rfl

/-- Lane j of the 16 entries read from b + (r + 16 - j) mod 16, after w was stored at [b, b + 16) and then at
    [b + 16, b + 32), is w[r].  The offsets are given by their values so that any spelling of them matches. -/
theorem rot_read (v : View sig κ sp S512 e) (f : v.ty.Contents Val) (w : S16.Idx → Val e)
    (b j r : Nat) (hj : j < 16) (hr : r < 16)
    (off0 off1 offp : Fin 1 → Nat) (h0 : off0 0 = b) (h1 : off1 0 = b + 16) (hp : offp 0 = b + (r + 16 - j) % 16)
    (inb0 : ∀ a, off0 a + S16.size a ≤ S512.size a) (inb1 : ∀ a, off1 a + S16.size a ≤ S512.size a)
    (inbp : ∀ a, offp a + S16.size a ≤ S512.size a)
    (L : List (View.Piece Val S512 e)) (x : S16.Idx) (hx : (x 0).val = j) :
    (v.slice (Rect.unit (s := S512) offp S16.size inbp)).read Val
        (v.writes Val f (⟨Rect.unit (s := S512) off1 S16.size inb1, w⟩ :: ⟨Rect.unit (s := S512) off0 S16.size inb0, w⟩ :: L)) x
      = w (ix1 (⟨r, hr⟩ : Fin 16)) := by
  rw [read_slice_apply]
  by_cases c : j ≤ r
  · -- the entry is b + r, under the first store only
    have e : (Rect.unit (s := S512) offp S16.size inbp).emb x
        = (Rect.unit (s := S512) off0 S16.size inb0).emb (ix1 (⟨r, hr⟩ : Fin 16)) := by
      funext a
      obtain rfl : a = (0 : Fin 1) := Subsingleton.elim _ _
      refine Fin.ext ?_
      rw [Rect.emb_apply, Rect.emb_apply]
      show offp 0 + 1 * (x 0).val = off0 0 + 1 * r
      rw [hp, h0, hx]; omega
    rw [e, View.writes_cons, View.read_slice_write_of_not_mem _ _ _ _ (by
      rw [Rect.map_emb_univ, Rect.mem_set_unit]
      intro hm
      have := (hm 0).1
      rw [Rect.emb_apply] at this
      have h' : off1 0 ≤ off0 0 + 1 * r := this
      rw [h0, h1] at h'; omega)]
    exact View.read_writes_cons_emb v f (Rect.unit (s := S512) off0 S16.size inb0) w L (ix1 (⟨r, hr⟩ : Fin 16))
  · -- the entry is b + 16 + r, under the second store
    have e : (Rect.unit (s := S512) offp S16.size inbp).emb x
        = (Rect.unit (s := S512) off1 S16.size inb1).emb (ix1 (⟨r, hr⟩ : Fin 16)) := by
      funext a
      obtain rfl : a = (0 : Fin 1) := Subsingleton.elim _ _
      refine Fin.ext ?_
      rw [Rect.emb_apply, Rect.emb_apply]
      show offp 0 + 1 * (x 0).val = off1 0 + 1 * r
      rw [hp, h1, hx]; omega
    rw [e]
    exact View.read_writes_cons_emb v f (Rect.unit (s := S512) off1 S16.size inb1) w _ (ix1 (⟨r, hr⟩ : Fin 16))

/-- The rotation with the stored vector a row of one read as a vector: lane j of what is read is entry (0, r) of
    the row. -/
theorem rot_read_row (v : View sig κ sp S512 e) (f : v.ty.Contents Val) (row : S1x16.Idx → Val e)
    (hc : S1x16.ShapeCasts S16)
    (b j r : Nat) (hj : j < 16) (hr : r < 16)
    (off0 off1 offp : Fin 1 → Nat) (h0 : off0 0 = b) (h1 : off1 0 = b + 16) (hp : offp 0 = b + (r + 16 - j) % 16)
    (inb0 : ∀ a, off0 a + S16.size a ≤ S512.size a) (inb1 : ∀ a, off1 a + S16.size a ≤ S512.size a)
    (inbp : ∀ a, offp a + S16.size a ≤ S512.size a)
    (L : List (View.Piece Val S512 e)) (x : S16.Idx) (hx : (x 0).val = j) :
    (v.slice (Rect.unit (s := S512) offp S16.size inbp)).read Val
        (v.writes Val f (⟨Rect.unit (s := S512) off1 S16.size inb1, shapeCast S16 row hc⟩
          :: ⟨Rect.unit (s := S512) off0 S16.size inb0, shapeCast S16 row hc⟩ :: L)) x
      = row (ix2 (0 : Fin 1) (⟨r, hr⟩ : Fin 16)) := by
  rw [rot_read v f (shapeCast S16 row hc) b j r hj hr off0 off1 offp h0 h1 hp inb0 inb1 inbp L x hx]
  exact row_cast_apply row hc ⟨r, hr⟩

/-- A table of 128 rows of 128 lanes. -/
abbrev S128x128 : Shape := ⟨2, ![128, 128]⟩

/-- Sixteen lanes of one row of the table, read through the rectangle at (R, C): lane k is entry (R, C + k). -/
theorem row_piece_read (v : View sig κ sp S128x128 e) (g : v.ty.Contents Val) (off : Fin 2 → Nat) (R C : Nat)
    (h0 : off 0 = R) (h1 : off 1 = C) (inb : ∀ a, off a + S1x16.size a ≤ S128x128.size a)
    (k : Fin 16) (hR : R < 128) (hC : C + k.val < 128) :
    (v.slice (Rect.unit (s := S128x128) off S1x16.size inb)).read Val g (ix2 (0 : Fin 1) k)
      = v.read Val g (ix2 (⟨R, hR⟩ : Fin 128) (⟨C + k.val, hC⟩ : Fin 128)) := by
  rw [read_slice_apply]
  refine congrArg (v.read Val g) (funext fun a => Fin.ext ?_)
  rw [Rect.emb_apply]
  match a with
  | ⟨0, _⟩ => show off 0 + 1 * 0 = R; omega
  | ⟨1, _⟩ => show off 1 + 1 * k.val = C + k.val; omega

end Rot

end Cert.Proof.LaneLib

end
-- ==== Proof.LanePayK1.lean ====
/-
  The gather body's per-lane values in normal form: casts of a vector to its own shape dropped, and each lane
  update select (lane = j) (res + t) res written as the update step of lane j.
-/
import proofs.«204913_g64682207478566_cont_9to1c4b_713_31_alg».proof.Proof.Gen.KernelIdeal.Skeleton
import proofs.«204913_g64682207478566_cont_9to1c4b_713_31_alg».proof.Proof.LaneLib

noncomputable section

namespace Cert.KernelIdeal.LanePayK1

open Cert.KernelIdeal Cert.KernelIdeal.Gen
open Idealize.ShloMosaic Idealize.ShloMosaic.ValueIdx
open Cert.Proof

variable {F : FTy → Type} [FloatOps F]

theorem k1_pay1_nf (v256 : Vec F S16 .i32) :
    k1_pay1 v256 = v256 := by
  unfold k1_pay1
  first | rfl | (simp only [shapeCast_self, LaneLib.step]; first | done | rfl)

theorem k1_pay2_nf (v256 : Vec F S16 .i32) :
    k1_pay2 v256 = extractStridedSlice S1 ![0] v256 slices_S16_o0_S1 := by
  unfold k1_pay2
  first | rfl | (simp only [k1_pay1_nf, shapeCast_self, LaneLib.step]; first | done | rfl)

theorem k1_pay3_nf (v270 : Vec F S1x16 .f32) :
    k1_pay3 v270 = shapeCast S16 v270 shapeCasts_S1x16_S16 := by
  unfold k1_pay3
  first | rfl | (simp only [shapeCast_self, LaneLib.step]; first | done | rfl)

theorem k1_pay4_nf (v270 : Vec F S1x16 .f32) :
    k1_pay4 v270 = shapeCast S16 v270 shapeCasts_S1x16_S16 := by
  unfold k1_pay4
  first | rfl | (simp only [k1_pay3_nf, shapeCast_self, LaneLib.step]; first | done | rfl)

theorem k1_pay5_nf (v270 : Vec F S1x16 .f32) :
    k1_pay5 v270 = shapeCast S16 v270 shapeCasts_S1x16_S16 := by
  unfold k1_pay5
  first | rfl | (simp only [k1_pay3_nf, shapeCast_self, LaneLib.step]; first | done | rfl)

theorem k1_pay6_nf (v227 : IVec S16 32) (v259 : Vec F S16 .f32) (v284 : Vec F S16 .f32) :
    k1_pay6 v227 v259 v284 = LaneLib.step v227 0#32 v259 v284 := by
  unfold k1_pay6
  first | rfl | (simp only [shapeCast_self, LaneLib.step]; first | done | rfl)

theorem k1_pay7_nf (v257 : IVec S16 32) :
    k1_pay7 v257 = extractStridedSlice S1 ![1] v257 slices_S16_o1_S1 := by
  unfold k1_pay7
  first | rfl | (simp only [shapeCast_self, LaneLib.step]; first | done | rfl)

theorem k1_pay8_nf (v299 : Vec F S1x16 .f32) :
    k1_pay8 v299 = shapeCast S16 v299 shapeCasts_S1x16_S16 := by
  unfold k1_pay8
  first | rfl | (simp only [shapeCast_self, LaneLib.step]; first | done | rfl)

theorem k1_pay9_nf (v299 : Vec F S1x16 .f32) :
    k1_pay9 v299 = shapeCast S16 v299 shapeCasts_S1x16_S16 := by
  unfold k1_pay9
  first | rfl | (simp only [k1_pay8_nf, shapeCast_self, LaneLib.step]; first | done | rfl)

theorem k1_pay10_nf (v299 : Vec F S1x16 .f32) :
    k1_pay10 v299 = shapeCast S16 v299 shapeCasts_S1x16_S16 := by
  unfold k1_pay10
  first | rfl | (simp only [k1_pay8_nf, shapeCast_self, LaneLib.step]; first | done | rfl)

theorem k1_pay11_nf (v227 : IVec S16 32) (v289 : FVec F S16 .f32) (v313 : Vec F S16 .f32) :
    k1_pay11 v227 v289 v313 = LaneLib.step v227 1#32 v289 v313 := by
  unfold k1_pay11
  first | rfl | (simp only [shapeCast_self, LaneLib.step]; first | done | rfl)

theorem k1_pay12_nf (v257 : IVec S16 32) :
    k1_pay12 v257 = extractStridedSlice S1 ![2] v257 slices_S16_o2_S1 := by
  unfold k1_pay12
  first | rfl | (simp only [shapeCast_self, LaneLib.step]; first | done | rfl)

theorem k1_pay13_nf (v328 : Vec F S1x16 .f32) :
    k1_pay13 v328 = shapeCast S16 v328 shapeCasts_S1x16_S16 := by
  unfold k1_pay13
  first | rfl | (simp only [shapeCast_self, LaneLib.step]; first | done | rfl)

theorem k1_pay14_nf (v328 : Vec F S1x16 .f32) :
    k1_pay14 v328 = shapeCast S16 v328 shapeCasts_S1x16_S16 := by
  unfold k1_pay14
  first | rfl | (simp only [k1_pay13_nf, shapeCast_self, LaneLib.step]; first | done | rfl)

theorem k1_pay15_nf (v329 : FVec F S16 .f32) :
    k1_pay15 v329 = v329 := by
  unfold k1_pay15
  first | rfl | (simp only [shapeCast_self, LaneLib.step]; first | done | rfl)

theorem k1_pay16_nf (v227 : IVec S16 32) (v318 : FVec F S16 .f32) (v342 : Vec F S16 .f32) :
    k1_pay16 v227 v318 v342 = LaneLib.step v227 2#32 v318 v342 := by
  unfold k1_pay16
  first | rfl | (simp only [shapeCast_self, LaneLib.step]; first | done | rfl)

theorem k1_pay17_nf (v257 : IVec S16 32) :
    k1_pay17 v257 = extractStridedSlice S1 ![3] v257 slices_S16_o3_S1 := by
  unfold k1_pay17
  first | rfl | (simp only [shapeCast_self, LaneLib.step]; first | done | rfl)

theorem k1_pay18_nf (v357 : Vec F S1x16 .f32) :
    k1_pay18 v357 = shapeCast S16 v357 shapeCasts_S1x16_S16 := by
  unfold k1_pay18
  first | rfl | (simp only [shapeCast_self, LaneLib.step]; first | done | rfl)

theorem k1_pay19_nf (v357 : Vec F S1x16 .f32) :
    k1_pay19 v357 = shapeCast S16 v357 shapeCasts_S1x16_S16 := by
  unfold k1_pay19
  first | rfl | (simp only [k1_pay18_nf, shapeCast_self, LaneLib.step]; first | done | rfl)

theorem k1_pay20_nf (v357 : Vec F S1x16 .f32) :
    k1_pay20 v357 = shapeCast S16 v357 shapeCasts_S1x16_S16 := by
  unfold k1_pay20
  first | rfl | (simp only [k1_pay18_nf, shapeCast_self, LaneLib.step]; first | done | rfl)

theorem k1_pay21_nf (v257 : IVec S16 32) :
    k1_pay21 v257 = extractStridedSlice S1 ![4] v257 slices_S16_o4_S1 := by
  unfold k1_pay21
  first | rfl | (simp only [shapeCast_self, LaneLib.step]; first | done | rfl)

theorem k1_pay22_nf (v386 : Vec F S1x16 .f32) :
    k1_pay22 v386 = shapeCast S16 v386 shapeCasts_S1x16_S16 := by
  unfold k1_pay22
  first | rfl | (simp only [shapeCast_self, LaneLib.step]; first | done | rfl)

theorem k1_pay23_nf (v386 : Vec F S1x16 .f32) :
    k1_pay23 v386 = shapeCast S16 v386 shapeCasts_S1x16_S16 := by
  unfold k1_pay23
  first | rfl | (simp only [k1_pay22_nf, shapeCast_self, LaneLib.step]; first | done | rfl)

theorem k1_pay24_nf (v386 : Vec F S1x16 .f32) :
    k1_pay24 v386 = shapeCast S16 v386 shapeCasts_S1x16_S16 := by
  unfold k1_pay24
  first | rfl | (simp only [k1_pay22_nf, shapeCast_self, LaneLib.step]; first | done | rfl)

theorem k1_pay25_nf (v227 : IVec S16 32) (v347 : FVec F S16 .f32) (v371 : Vec F S16 .f32) (v400 : Vec F S16 .f32) :
    k1_pay25 v227 v347 v371 v400 = LaneLib.step v227 4#32 (LaneLib.step v227 3#32 v347 v371) v400 := by
  unfold k1_pay25
  first | rfl | (simp only [shapeCast_self, LaneLib.step]; first | done | rfl)

theorem k1_pay26_nf (v257 : IVec S16 32) :
    k1_pay26 v257 = extractStridedSlice S1 ![5] v257 slices_S16_o5_S1 := by
  unfold k1_pay26
  first | rfl | (simp only [shapeCast_self, LaneLib.step]; first | done | rfl)

theorem k1_pay27_nf (v415 : Vec F S1x16 .f32) :
    k1_pay27 v415 = shapeCast S16 v415 shapeCasts_S1x16_S16 := by
  unfold k1_pay27
  first | rfl | (simp only [shapeCast_self, LaneLib.step]; first | done | rfl)

theorem k1_pay28_nf (v415 : Vec F S1x16 .f32) :
    k1_pay28 v415 = shapeCast S16 v415 shapeCasts_S1x16_S16 := by
  unfold k1_pay28
  first | rfl | (simp only [k1_pay27_nf, shapeCast_self, LaneLib.step]; first | done | rfl)

theorem k1_pay29_nf (v415 : Vec F S1x16 .f32) :
    k1_pay29 v415 = shapeCast S16 v415 shapeCasts_S1x16_S16 := by
  unfold k1_pay29
  first | rfl | (simp only [k1_pay27_nf, shapeCast_self, LaneLib.step]; first | done | rfl)

theorem k1_pay30_nf (v227 : IVec S16 32) (v405 : FVec F S16 .f32) (v429 : Vec F S16 .f32) :
    k1_pay30 v227 v405 v429 = LaneLib.step v227 5#32 v405 v429 := by
  unfold k1_pay30
  first | rfl | (simp only [shapeCast_self, LaneLib.step]; first | done | rfl)

theorem k1_pay31_nf (v257 : IVec S16 32) :
    k1_pay31 v257 = extractStridedSlice S1 ![6] v257 slices_S16_o6_S1 := by
  unfold k1_pay31
  first | rfl | (simp only [shapeCast_self, LaneLib.step]; first | done | rfl)

theorem k1_pay32_nf (v444 : Vec F S1x16 .f32) :
    k1_pay32 v444 = shapeCast S16 v444 shapeCasts_S1x16_S16 := by
  unfold k1_pay32
  first | rfl | (simp only [shapeCast_self, LaneLib.step]; first | done | rfl)

theorem k1_pay33_nf (v444 : Vec F S1x16 .f32) :
    k1_pay33 v444 = shapeCast S16 v444 shapeCasts_S1x16_S16 := by
  unfold k1_pay33
  first | rfl | (simp only [k1_pay32_nf, shapeCast_self, LaneLib.step]; first | done | rfl)

theorem k1_pay34_nf (v445 : FVec F S16 .f32) :
    k1_pay34 v445 = v445 := by
  unfold k1_pay34
  first | rfl | (simp only [shapeCast_self, LaneLib.step]; first | done | rfl)

theorem k1_pay35_nf (v227 : IVec S16 32) (v434 : FVec F S16 .f32) (v458 : Vec F S16 .f32) :
    k1_pay35 v227 v434 v458 = LaneLib.step v227 6#32 v434 v458 := by
  unfold k1_pay35
  first | rfl | (simp only [shapeCast_self, LaneLib.step]; first | done | rfl)

theorem k1_pay36_nf (v257 : IVec S16 32) :
    k1_pay36 v257 = extractStridedSlice S1 ![7] v257 slices_S16_o7_S1 := by
  unfold k1_pay36
  first | rfl | (simp only [shapeCast_self, LaneLib.step]; first | done | rfl)

theorem k1_pay37_nf (v473 : Vec F S1x16 .f32) :
    k1_pay37 v473 = shapeCast S16 v473 shapeCasts_S1x16_S16 := by
  unfold k1_pay37
  first | rfl | (simp only [shapeCast_self, LaneLib.step]; first | done | rfl)

theorem k1_pay38_nf (v473 : Vec F S1x16 .f32) :
    k1_pay38 v473 = shapeCast S16 v473 shapeCasts_S1x16_S16 := by
  unfold k1_pay38
  first | rfl | (simp only [k1_pay37_nf, shapeCast_self, LaneLib.step]; first | done | rfl)

theorem k1_pay39_nf (v473 : Vec F S1x16 .f32) :
    k1_pay39 v473 = shapeCast S16 v473 shapeCasts_S1x16_S16 := by
  unfold k1_pay39
  first | rfl | (simp only [k1_pay37_nf, shapeCast_self, LaneLib.step]; first | done | rfl)

theorem k1_pay40_nf (v487 : Vec F S16 .f32) :
    k1_pay40 v487 = v487 := by
  unfold k1_pay40
  first | rfl | (simp only [shapeCast_self, LaneLib.step]; first | done | rfl)

theorem k1_pay41_nf (v257 : IVec S16 32) :
    k1_pay41 v257 = extractStridedSlice S1 ![8] v257 slices_S16_o8_S1 := by
  unfold k1_pay41
  first | rfl | (simp only [shapeCast_self, LaneLib.step]; first | done | rfl)

theorem k1_pay42_nf (v502 : Vec F S1x16 .f32) :
    k1_pay42 v502 = shapeCast S16 v502 shapeCasts_S1x16_S16 := by
  unfold k1_pay42
  first | rfl | (simp only [shapeCast_self, LaneLib.step]; first | done | rfl)

theorem k1_pay43_nf (v502 : Vec F S1x16 .f32) :
    k1_pay43 v502 = shapeCast S16 v502 shapeCasts_S1x16_S16 := by
  unfold k1_pay43
  first | rfl | (simp only [k1_pay42_nf, shapeCast_self, LaneLib.step]; first | done | rfl)

theorem k1_pay44_nf (v502 : Vec F S1x16 .f32) :
    k1_pay44 v502 = shapeCast S16 v502 shapeCasts_S1x16_S16 := by
  unfold k1_pay44
  first | rfl | (simp only [k1_pay42_nf, shapeCast_self, LaneLib.step]; first | done | rfl)

theorem k1_pay45_nf (v227 : IVec S16 32) (v463 : FVec F S16 .f32) (v488 : FVec F S16 .f32) (c7_i32_184 : BitVec 32) (v516 : Vec F S16 .f32) :
    k1_pay45 v227 v463 v488 c7_i32_184 v516 = LaneLib.step v227 8#32 (LaneLib.step v227 c7_i32_184 v463 v488) v516 := by
  unfold k1_pay45
  first | rfl | (simp only [shapeCast_self, LaneLib.step]; first | done | rfl)

theorem k1_pay46_nf (v257 : IVec S16 32) :
    k1_pay46 v257 = extractStridedSlice S1 ![9] v257 slices_S16_o9_S1 := by
  unfold k1_pay46
  first | rfl | (simp only [shapeCast_self, LaneLib.step]; first | done | rfl)

theorem k1_pay47_nf (v531 : Vec F S1x16 .f32) :
    k1_pay47 v531 = shapeCast S16 v531 shapeCasts_S1x16_S16 := by
  unfold k1_pay47
  first | rfl | (simp only [shapeCast_self, LaneLib.step]; first | done | rfl)

theorem k1_pay48_nf (v531 : Vec F S1x16 .f32) :
    k1_pay48 v531 = shapeCast S16 v531 shapeCasts_S1x16_S16 := by
  unfold k1_pay48
  first | rfl | (simp only [k1_pay47_nf, shapeCast_self, LaneLib.step]; first | done | rfl)

theorem k1_pay49_nf (v531 : Vec F S1x16 .f32) :
    k1_pay49 v531 = shapeCast S16 v531 shapeCasts_S1x16_S16 := by
  unfold k1_pay49
  first | rfl | (simp only [k1_pay47_nf, shapeCast_self, LaneLib.step]; first | done | rfl)

theorem k1_pay50_nf (v227 : IVec S16 32) (v521 : FVec F S16 .f32) (v545 : Vec F S16 .f32) :
    k1_pay50 v227 v521 v545 = LaneLib.step v227 9#32 v521 v545 := by
  unfold k1_pay50
  first | rfl | (simp only [shapeCast_self, LaneLib.step]; first | done | rfl)

theorem k1_pay51_nf (v257 : IVec S16 32) :
    k1_pay51 v257 = extractStridedSlice S1 ![10] v257 slices_S16_o10_S1 := by
  unfold k1_pay51
  first | rfl | (simp only [shapeCast_self, LaneLib.step]; first | done | rfl)

theorem k1_pay52_nf (v560 : Vec F S1x16 .f32) :
    k1_pay52 v560 = shapeCast S16 v560 shapeCasts_S1x16_S16 := by
  unfold k1_pay52
  first | rfl | (simp only [shapeCast_self, LaneLib.step]; first | done | rfl)

theorem k1_pay53_nf (v560 : Vec F S1x16 .f32) :
    k1_pay53 v560 = shapeCast S16 v560 shapeCasts_S1x16_S16 := by
  unfold k1_pay53
  first | rfl | (simp only [k1_pay52_nf, shapeCast_self, LaneLib.step]; first | done | rfl)

theorem k1_pay54_nf (v560 : Vec F S1x16 .f32) :
    k1_pay54 v560 = shapeCast S16 v560 shapeCasts_S1x16_S16 := by
  unfold k1_pay54
  first | rfl | (simp only [k1_pay52_nf, shapeCast_self, LaneLib.step]; first | done | rfl)

theorem k1_pay55_nf (v257 : IVec S16 32) :
    k1_pay55 v257 = extractStridedSlice S1 ![11] v257 slices_S16_o11_S1 := by
  unfold k1_pay55
  first | rfl | (simp only [shapeCast_self, LaneLib.step]; first | done | rfl)

theorem k1_pay56_nf (v589 : Vec F S1x16 .f32) :
    k1_pay56 v589 = shapeCast S16 v589 shapeCasts_S1x16_S16 := by
  unfold k1_pay56
  first | rfl | (simp only [shapeCast_self, LaneLib.step]; first | done | rfl)

theorem k1_pay57_nf (v589 : Vec F S1x16 .f32) :
    k1_pay57 v589 = shapeCast S16 v589 shapeCasts_S1x16_S16 := by
  unfold k1_pay57
  first | rfl | (simp only [k1_pay56_nf, shapeCast_self, LaneLib.step]; first | done | rfl)

theorem k1_pay58_nf (v589 : Vec F S1x16 .f32) :
    k1_pay58 v589 = shapeCast S16 v589 shapeCasts_S1x16_S16 := by
  unfold k1_pay58
  first | rfl | (simp only [k1_pay56_nf, shapeCast_self, LaneLib.step]; first | done | rfl)

theorem k1_pay59_nf (v227 : IVec S16 32) (v550 : FVec F S16 .f32) (v574 : Vec F S16 .f32) (v603 : Vec F S16 .f32) :
    k1_pay59 v227 v550 v574 v603 = LaneLib.step v227 11#32 (LaneLib.step v227 10#32 v550 v574) v603 := by
  unfold k1_pay59
  first | rfl | (simp only [shapeCast_self, LaneLib.step]; first | done | rfl)

theorem k1_pay60_nf (v257 : IVec S16 32) :
    k1_pay60 v257 = extractStridedSlice S1 ![12] v257 slices_S16_o12_S1 := by
  unfold k1_pay60
  first | rfl | (simp only [shapeCast_self, LaneLib.step]; first | done | rfl)

theorem k1_pay61_nf (v618 : Vec F S1x16 .f32) :
    k1_pay61 v618 = shapeCast S16 v618 shapeCasts_S1x16_S16 := by
  unfold k1_pay61
  first | rfl | (simp only [shapeCast_self, LaneLib.step]; first | done | rfl)

theorem k1_pay62_nf (v618 : Vec F S1x16 .f32) :
    k1_pay62 v618 = shapeCast S16 v618 shapeCasts_S1x16_S16 := by
  unfold k1_pay62
  first | rfl | (simp only [k1_pay61_nf, shapeCast_self, LaneLib.step]; first | done | rfl)

theorem k1_pay63_nf (v618 : Vec F S1x16 .f32) :
    k1_pay63 v618 = shapeCast S16 v618 shapeCasts_S1x16_S16 := by
  unfold k1_pay63
  first | rfl | (simp only [k1_pay61_nf, shapeCast_self, LaneLib.step]; first | done | rfl)

theorem k1_pay64_nf (v227 : IVec S16 32) (v608 : FVec F S16 .f32) (v632 : Vec F S16 .f32) :
    k1_pay64 v227 v608 v632 = LaneLib.step v227 12#32 v608 v632 := by
  unfold k1_pay64
  first | rfl | (simp only [shapeCast_self, LaneLib.step]; first | done | rfl)

theorem k1_pay65_nf (v257 : IVec S16 32) :
    k1_pay65 v257 = extractStridedSlice S1 ![13] v257 slices_S16_o13_S1 := by
  unfold k1_pay65
  first | rfl | (simp only [shapeCast_self, LaneLib.step]; first | done | rfl)

theorem k1_pay66_nf (v647 : Vec F S1x16 .f32) :
    k1_pay66 v647 = shapeCast S16 v647 shapeCasts_S1x16_S16 := by
  unfold k1_pay66
  first | rfl | (simp only [shapeCast_self, LaneLib.step]; first | done | rfl)

theorem k1_pay67_nf (v648 : FVec F S16 .f32) :
    k1_pay67 v648 = v648 := by
  unfold k1_pay67
  first | rfl | (simp only [shapeCast_self, LaneLib.step]; first | done | rfl)

theorem k1_pay68_nf (v648 : FVec F S16 .f32) :
    k1_pay68 v648 = v648 := by
  unfold k1_pay68
  first | rfl | (simp only [shapeCast_self, LaneLib.step]; first | done | rfl)

theorem k1_pay69_nf (v227 : IVec S16 32) (v637 : FVec F S16 .f32) (v661 : Vec F S16 .f32) :
    k1_pay69 v227 v637 v661 = LaneLib.step v227 13#32 v637 v661 := by
  unfold k1_pay69
  first | rfl | (simp only [shapeCast_self, LaneLib.step]; first | done | rfl)

theorem k1_pay70_nf (v257 : IVec S16 32) :
    k1_pay70 v257 = extractStridedSlice S1 ![14] v257 slices_S16_o14_S1 := by
  unfold k1_pay70
  first | rfl | (simp only [shapeCast_self, LaneLib.step]; first | done | rfl)

theorem k1_pay71_nf (v676 : Vec F S1x16 .f32) :
    k1_pay71 v676 = shapeCast S16 v676 shapeCasts_S1x16_S16 := by
  unfold k1_pay71
  first | rfl | (simp only [shapeCast_self, LaneLib.step]; first | done | rfl)

theorem k1_pay72_nf (v676 : Vec F S1x16 .f32) :
    k1_pay72 v676 = shapeCast S16 v676 shapeCasts_S1x16_S16 := by
  unfold k1_pay72
  first | rfl | (simp only [k1_pay71_nf, shapeCast_self, LaneLib.step]; first | done | rfl)

theorem k1_pay73_nf (v676 : Vec F S1x16 .f32) :
    k1_pay73 v676 = shapeCast S16 v676 shapeCasts_S1x16_S16 := by
  unfold k1_pay73
  first | rfl | (simp only [k1_pay71_nf, shapeCast_self, LaneLib.step]; first | done | rfl)

theorem k1_pay74_nf (v257 : IVec S16 32) :
    k1_pay74 v257 = extractStridedSlice S1 ![15] v257 slices_S16_o15_S1 := by
  unfold k1_pay74
  first | rfl | (simp only [shapeCast_self, LaneLib.step]; first | done | rfl)

theorem k1_pay75_nf (v705 : Vec F S1x16 .f32) :
    k1_pay75 v705 = shapeCast S16 v705 shapeCasts_S1x16_S16 := by
  unfold k1_pay75
  first | rfl | (simp only [shapeCast_self, LaneLib.step]; first | done | rfl)

theorem k1_pay76_nf (v705 : Vec F S1x16 .f32) :
    k1_pay76 v705 = shapeCast S16 v705 shapeCasts_S1x16_S16 := by
  unfold k1_pay76
  first | rfl | (simp only [k1_pay75_nf, shapeCast_self, LaneLib.step]; first | done | rfl)

theorem k1_pay77_nf (v705 : Vec F S1x16 .f32) :
    k1_pay77 v705 = shapeCast S16 v705 shapeCasts_S1x16_S16 := by
  unfold k1_pay77
  first | rfl | (simp only [k1_pay75_nf, shapeCast_self, LaneLib.step]; first | done | rfl)

theorem k1_pay78_nf (v227 : IVec S16 32) (v666 : FVec F S16 .f32) (v690 : Vec F S16 .f32) (v719 : Vec F S16 .f32) :
    k1_pay78 v227 v666 v690 v719 = LaneLib.step v227 15#32 (LaneLib.step v227 14#32 v666 v690) v719 := by
  unfold k1_pay78
  first | rfl | (simp only [shapeCast_self, LaneLib.step]; first | done | rfl)

theorem k1_pay79_nf (v256 : Vec F S16 .i32) :
    k1_pay79 v256 = v256 := by
  unfold k1_pay79
  first | rfl | (simp only [shapeCast_self, LaneLib.step]; first | done | rfl)

theorem k1_pay80_nf (v256 : Vec F S16 .i32) :
    k1_pay80 v256 = extractStridedSlice S1 ![0] v256 slices_S16_o0_S1 := by
  unfold k1_pay80
  first | rfl | (simp only [k1_pay79_nf, shapeCast_self, LaneLib.step]; first | done | rfl)

theorem k1_pay81_nf (v270 : Vec F S1x16 .f32) :
    k1_pay81 v270 = shapeCast S16 v270 shapeCasts_S1x16_S16 := by
  unfold k1_pay81
  first | rfl | (simp only [shapeCast_self, LaneLib.step]; first | done | rfl)

theorem k1_pay82_nf (v270 : Vec F S1x16 .f32) :
    k1_pay82 v270 = shapeCast S16 v270 shapeCasts_S1x16_S16 := by
  unfold k1_pay82
  first | rfl | (simp only [k1_pay81_nf, shapeCast_self, LaneLib.step]; first | done | rfl)

theorem k1_pay83_nf (v270 : Vec F S1x16 .f32) :
    k1_pay83 v270 = shapeCast S16 v270 shapeCasts_S1x16_S16 := by
  unfold k1_pay83
  first | rfl | (simp only [k1_pay81_nf, shapeCast_self, LaneLib.step]; first | done | rfl)

theorem k1_pay84_nf (v227 : IVec S16 32) (v259 : Vec F S16 .f32) (v284 : Vec F S16 .f32) :
    k1_pay84 v227 v259 v284 = LaneLib.step v227 0#32 v259 v284 := by
  unfold k1_pay84
  first | rfl | (simp only [shapeCast_self, LaneLib.step]; first | done | rfl)

theorem k1_pay85_nf (v257 : IVec S16 32) :
    k1_pay85 v257 = extractStridedSlice S1 ![1] v257 slices_S16_o1_S1 := by
  unfold k1_pay85
  first | rfl | (simp only [shapeCast_self, LaneLib.step]; first | done | rfl)

theorem k1_pay86_nf (v299 : Vec F S1x16 .f32) :
    k1_pay86 v299 = shapeCast S16 v299 shapeCasts_S1x16_S16 := by
  unfold k1_pay86
  first | rfl | (simp only [shapeCast_self, LaneLib.step]; first | done | rfl)

theorem k1_pay87_nf (v299 : Vec F S1x16 .f32) :
    k1_pay87 v299 = shapeCast S16 v299 shapeCasts_S1x16_S16 := by
  unfold k1_pay87
  first | rfl | (simp only [k1_pay86_nf, shapeCast_self, LaneLib.step]; first | done | rfl)

theorem k1_pay88_nf (v299 : Vec F S1x16 .f32) :
    k1_pay88 v299 = shapeCast S16 v299 shapeCasts_S1x16_S16 := by
  unfold k1_pay88
  first | rfl | (simp only [k1_pay86_nf, shapeCast_self, LaneLib.step]; first | done | rfl)

theorem k1_pay89_nf (v227 : IVec S16 32) (v289 : FVec F S16 .f32) (v313 : Vec F S16 .f32) :
    k1_pay89 v227 v289 v313 = LaneLib.step v227 1#32 v289 v313 := by
  unfold k1_pay89
  first | rfl | (simp only [shapeCast_self, LaneLib.step]; first | done | rfl)

theorem k1_pay90_nf (v257 : IVec S16 32) :
    k1_pay90 v257 = extractStridedSlice S1 ![2] v257 slices_S16_o2_S1 := by
  unfold k1_pay90
  first | rfl | (simp only [shapeCast_self, LaneLib.step]; first | done | rfl)

theorem k1_pay91_nf (v328 : Vec F S1x16 .f32) :
    k1_pay91 v328 = shapeCast S16 v328 shapeCasts_S1x16_S16 := by
  unfold k1_pay91
  first | rfl | (simp only [shapeCast_self, LaneLib.step]; first | done | rfl)

theorem k1_pay92_nf (v328 : Vec F S1x16 .f32) :
    k1_pay92 v328 = shapeCast S16 v328 shapeCasts_S1x16_S16 := by
  unfold k1_pay92
  first | rfl | (simp only [k1_pay91_nf, shapeCast_self, LaneLib.step]; first | done | rfl)

theorem k1_pay93_nf (v329 : FVec F S16 .f32) :
    k1_pay93 v329 = v329 := by
  unfold k1_pay93
  first | rfl | (simp only [shapeCast_self, LaneLib.step]; first | done | rfl)

theorem k1_pay94_nf (v227 : IVec S16 32) (v318 : FVec F S16 .f32) (v342 : Vec F S16 .f32) :
    k1_pay94 v227 v318 v342 = LaneLib.step v227 2#32 v318 v342 := by
  unfold k1_pay94
  first | rfl | (simp only [shapeCast_self, LaneLib.step]; first | done | rfl)

theorem k1_pay95_nf (v257 : IVec S16 32) :
    k1_pay95 v257 = extractStridedSlice S1 ![3] v257 slices_S16_o3_S1 := by
  unfold k1_pay95
  first | rfl | (simp only [shapeCast_self, LaneLib.step]; first | done | rfl)

theorem k1_pay96_nf (v357 : Vec F S1x16 .f32) :
    k1_pay96 v357 = shapeCast S16 v357 shapeCasts_S1x16_S16 := by
  unfold k1_pay96
  first | rfl | (simp only [shapeCast_self, LaneLib.step]; first | done | rfl)

theorem k1_pay97_nf (v357 : Vec F S1x16 .f32) :
    k1_pay97 v357 = shapeCast S16 v357 shapeCasts_S1x16_S16 := by
  unfold k1_pay97
  first | rfl | (simp only [k1_pay96_nf, shapeCast_self, LaneLib.step]; first | done | rfl)

theorem k1_pay98_nf (v357 : Vec F S1x16 .f32) :
    k1_pay98 v357 = shapeCast S16 v357 shapeCasts_S1x16_S16 := by
  unfold k1_pay98
  first | rfl | (simp only [k1_pay96_nf, shapeCast_self, LaneLib.step]; first | done | rfl)

theorem k1_pay99_nf (v257 : IVec S16 32) :
    k1_pay99 v257 = extractStridedSlice S1 ![4] v257 slices_S16_o4_S1 := by
  unfold k1_pay99
  first | rfl | (simp only [shapeCast_self, LaneLib.step]; first | done | rfl)

theorem k1_pay100_nf (v386 : Vec F S1x16 .f32) :
    k1_pay100 v386 = shapeCast S16 v386 shapeCasts_S1x16_S16 := by
  unfold k1_pay100
  first | rfl | (simp only [shapeCast_self, LaneLib.step]; first | done | rfl)

theorem k1_pay101_nf (v386 : Vec F S1x16 .f32) :
    k1_pay101 v386 = shapeCast S16 v386 shapeCasts_S1x16_S16 := by
  unfold k1_pay101
  first | rfl | (simp only [k1_pay100_nf, shapeCast_self, LaneLib.step]; first | done | rfl)

theorem k1_pay102_nf (v386 : Vec F S1x16 .f32) :
    k1_pay102 v386 = shapeCast S16 v386 shapeCasts_S1x16_S16 := by
  unfold k1_pay102
  first | rfl | (simp only [k1_pay100_nf, shapeCast_self, LaneLib.step]; first | done | rfl)

theorem k1_pay103_nf (v227 : IVec S16 32) (v347 : FVec F S16 .f32) (v371 : Vec F S16 .f32) (v400 : Vec F S16 .f32) :
    k1_pay103 v227 v347 v371 v400 = LaneLib.step v227 4#32 (LaneLib.step v227 3#32 v347 v371) v400 := by
  unfold k1_pay103
  first | rfl | (simp only [shapeCast_self, LaneLib.step]; first | done | rfl)

theorem k1_pay104_nf (v257 : IVec S16 32) :
    k1_pay104 v257 = extractStridedSlice S1 ![5] v257 slices_S16_o5_S1 := by
  unfold k1_pay104
  first | rfl | (simp only [shapeCast_self, LaneLib.step]; first | done | rfl)

theorem k1_pay105_nf (v415 : Vec F S1x16 .f32) :
    k1_pay105 v415 = shapeCast S16 v415 shapeCasts_S1x16_S16 := by
  unfold k1_pay105
  first | rfl | (simp only [shapeCast_self, LaneLib.step]; first | done | rfl)

theorem k1_pay106_nf (v415 : Vec F S1x16 .f32) :
    k1_pay106 v415 = shapeCast S16 v415 shapeCasts_S1x16_S16 := by
  unfold k1_pay106
  first | rfl | (simp only [k1_pay105_nf, shapeCast_self, LaneLib.step]; first | done | rfl)

theorem k1_pay107_nf (v415 : Vec F S1x16 .f32) :
    k1_pay107 v415 = shapeCast S16 v415 shapeCasts_S1x16_S16 := by
  unfold k1_pay107
  first | rfl | (simp only [k1_pay105_nf, shapeCast_self, LaneLib.step]; first | done | rfl)

theorem k1_pay108_nf (v227 : IVec S16 32) (v405 : FVec F S16 .f32) (v429 : Vec F S16 .f32) :
    k1_pay108 v227 v405 v429 = LaneLib.step v227 5#32 v405 v429 := by
  unfold k1_pay108
  first | rfl | (simp only [shapeCast_self, LaneLib.step]; first | done | rfl)

theorem k1_pay109_nf (v257 : IVec S16 32) :
    k1_pay109 v257 = extractStridedSlice S1 ![6] v257 slices_S16_o6_S1 := by
  unfold k1_pay109
  first | rfl | (simp only [shapeCast_self, LaneLib.step]; first | done | rfl)

theorem k1_pay110_nf (v444 : Vec F S1x16 .f32) :
    k1_pay110 v444 = shapeCast S16 v444 shapeCasts_S1x16_S16 := by
  unfold k1_pay110
  first | rfl | (simp only [shapeCast_self, LaneLib.step]; first | done | rfl)

theorem k1_pay111_nf (v444 : Vec F S1x16 .f32) :
    k1_pay111 v444 = shapeCast S16 v444 shapeCasts_S1x16_S16 := by
  unfold k1_pay111
  first | rfl | (simp only [k1_pay110_nf, shapeCast_self, LaneLib.step]; first | done | rfl)

theorem k1_pay112_nf (v445 : FVec F S16 .f32) :
    k1_pay112 v445 = v445 := by
  unfold k1_pay112
  first | rfl | (simp only [shapeCast_self, LaneLib.step]; first | done | rfl)

theorem k1_pay113_nf (v227 : IVec S16 32) (v434 : FVec F S16 .f32) (v458 : Vec F S16 .f32) :
    k1_pay113 v227 v434 v458 = LaneLib.step v227 6#32 v434 v458 := by
  unfold k1_pay113
  first | rfl | (simp only [shapeCast_self, LaneLib.step]; first | done | rfl)

theorem k1_pay114_nf (v257 : IVec S16 32) :
    k1_pay114 v257 = extractStridedSlice S1 ![7] v257 slices_S16_o7_S1 := by
  unfold k1_pay114
  first | rfl | (simp only [shapeCast_self, LaneLib.step]; first | done | rfl)

theorem k1_pay115_nf (v473 : Vec F S1x16 .f32) :
    k1_pay115 v473 = shapeCast S16 v473 shapeCasts_S1x16_S16 := by
  unfold k1_pay115
  first | rfl | (simp only [shapeCast_self, LaneLib.step]; first | done | rfl)

theorem k1_pay116_nf (v473 : Vec F S1x16 .f32) :
    k1_pay116 v473 = shapeCast S16 v473 shapeCasts_S1x16_S16 := by
  unfold k1_pay116
  first | rfl | (simp only [k1_pay115_nf, shapeCast_self, LaneLib.step]; first | done | rfl)

theorem k1_pay117_nf (v473 : Vec F S1x16 .f32) :
    k1_pay117 v473 = shapeCast S16 v473 shapeCasts_S1x16_S16 := by
  unfold k1_pay117
  first | rfl | (simp only [k1_pay115_nf, shapeCast_self, LaneLib.step]; first | done | rfl)

theorem k1_pay118_nf (v487 : Vec F S16 .f32) :
    k1_pay118 v487 = v487 := by
  unfold k1_pay118
  first | rfl | (simp only [shapeCast_self, LaneLib.step]; first | done | rfl)

theorem k1_pay119_nf (v257 : IVec S16 32) :
    k1_pay119 v257 = extractStridedSlice S1 ![8] v257 slices_S16_o8_S1 := by
  unfold k1_pay119
  first | rfl | (simp only [shapeCast_self, LaneLib.step]; first | done | rfl)

theorem k1_pay120_nf (v502 : Vec F S1x16 .f32) :
    k1_pay120 v502 = shapeCast S16 v502 shapeCasts_S1x16_S16 := by
  unfold k1_pay120
  first | rfl | (simp only [shapeCast_self, LaneLib.step]; first | done | rfl)

theorem k1_pay121_nf (v502 : Vec F S1x16 .f32) :
    k1_pay121 v502 = shapeCast S16 v502 shapeCasts_S1x16_S16 := by
  unfold k1_pay121
  first | rfl | (simp only [k1_pay120_nf, shapeCast_self, LaneLib.step]; first | done | rfl)

theorem k1_pay122_nf (v502 : Vec F S1x16 .f32) :
    k1_pay122 v502 = shapeCast S16 v502 shapeCasts_S1x16_S16 := by
  unfold k1_pay122
  first | rfl | (simp only [k1_pay120_nf, shapeCast_self, LaneLib.step]; first | done | rfl)

theorem k1_pay123_nf (v227 : IVec S16 32) (v463 : FVec F S16 .f32) (v488 : FVec F S16 .f32) (c7_i32_184 : BitVec 32) (v516 : Vec F S16 .f32) :
    k1_pay123 v227 v463 v488 c7_i32_184 v516 = LaneLib.step v227 8#32 (LaneLib.step v227 c7_i32_184 v463 v488) v516 := by
  unfold k1_pay123
  first | rfl | (simp only [shapeCast_self, LaneLib.step]; first | done | rfl)

theorem k1_pay124_nf (v257 : IVec S16 32) :
    k1_pay124 v257 = extractStridedSlice S1 ![9] v257 slices_S16_o9_S1 := by
  unfold k1_pay124
  first | rfl | (simp only [shapeCast_self, LaneLib.step]; first | done | rfl)

theorem k1_pay125_nf (v531 : Vec F S1x16 .f32) :
    k1_pay125 v531 = shapeCast S16 v531 shapeCasts_S1x16_S16 := by
  unfold k1_pay125
  first | rfl | (simp only [shapeCast_self, LaneLib.step]; first | done | rfl)

theorem k1_pay126_nf (v531 : Vec F S1x16 .f32) :
    k1_pay126 v531 = shapeCast S16 v531 shapeCasts_S1x16_S16 := by
  unfold k1_pay126
  first | rfl | (simp only [k1_pay125_nf, shapeCast_self, LaneLib.step]; first | done | rfl)

theorem k1_pay127_nf (v531 : Vec F S1x16 .f32) :
    k1_pay127 v531 = shapeCast S16 v531 shapeCasts_S1x16_S16 := by
  unfold k1_pay127
  first | rfl | (simp only [k1_pay125_nf, shapeCast_self, LaneLib.step]; first | done | rfl)

theorem k1_pay128_nf (v227 : IVec S16 32) (v521 : FVec F S16 .f32) (v545 : Vec F S16 .f32) :
    k1_pay128 v227 v521 v545 = LaneLib.step v227 9#32 v521 v545 := by
  unfold k1_pay128
  first | rfl | (simp only [shapeCast_self, LaneLib.step]; first | done | rfl)

theorem k1_pay129_nf (v257 : IVec S16 32) :
    k1_pay129 v257 = extractStridedSlice S1 ![10] v257 slices_S16_o10_S1 := by
  unfold k1_pay129
  first | rfl | (simp only [shapeCast_self, LaneLib.step]; first | done | rfl)

theorem k1_pay130_nf (v560 : Vec F S1x16 .f32) :
    k1_pay130 v560 = shapeCast S16 v560 shapeCasts_S1x16_S16 := by
  unfold k1_pay130
  first | rfl | (simp only [shapeCast_self, LaneLib.step]; first | done | rfl)

theorem k1_pay131_nf (v560 : Vec F S1x16 .f32) :
    k1_pay131 v560 = shapeCast S16 v560 shapeCasts_S1x16_S16 := by
  unfold k1_pay131
  first | rfl | (simp only [k1_pay130_nf, shapeCast_self, LaneLib.step]; first | done | rfl)

theorem k1_pay132_nf (v560 : Vec F S1x16 .f32) :
    k1_pay132 v560 = shapeCast S16 v560 shapeCasts_S1x16_S16 := by
  unfold k1_pay132
  first | rfl | (simp only [k1_pay130_nf, shapeCast_self, LaneLib.step]; first | done | rfl)

theorem k1_pay133_nf (v257 : IVec S16 32) :
    k1_pay133 v257 = extractStridedSlice S1 ![11] v257 slices_S16_o11_S1 := by
  unfold k1_pay133
  first | rfl | (simp only [shapeCast_self, LaneLib.step]; first | done | rfl)

theorem k1_pay134_nf (v589 : Vec F S1x16 .f32) :
    k1_pay134 v589 = shapeCast S16 v589 shapeCasts_S1x16_S16 := by
  unfold k1_pay134
  first | rfl | (simp only [shapeCast_self, LaneLib.step]; first | done | rfl)

theorem k1_pay135_nf (v589 : Vec F S1x16 .f32) :
    k1_pay135 v589 = shapeCast S16 v589 shapeCasts_S1x16_S16 := by
  unfold k1_pay135
  first | rfl | (simp only [k1_pay134_nf, shapeCast_self, LaneLib.step]; first | done | rfl)

theorem k1_pay136_nf (v589 : Vec F S1x16 .f32) :
    k1_pay136 v589 = shapeCast S16 v589 shapeCasts_S1x16_S16 := by
  unfold k1_pay136
  first | rfl | (simp only [k1_pay134_nf, shapeCast_self, LaneLib.step]; first | done | rfl)

theorem k1_pay137_nf (v227 : IVec S16 32) (v550 : FVec F S16 .f32) (v574 : Vec F S16 .f32) (v603 : Vec F S16 .f32) :
    k1_pay137 v227 v550 v574 v603 = LaneLib.step v227 11#32 (LaneLib.step v227 10#32 v550 v574) v603 := by
  unfold k1_pay137
  first | rfl | (simp only [shapeCast_self, LaneLib.step]; first | done | rfl)

theorem k1_pay138_nf (v257 : IVec S16 32) :
    k1_pay138 v257 = extractStridedSlice S1 ![12] v257 slices_S16_o12_S1 := by
  unfold k1_pay138
  first | rfl | (simp only [shapeCast_self, LaneLib.step]; first | done | rfl)

theorem k1_pay139_nf (v618 : Vec F S1x16 .f32) :
    k1_pay139 v618 = shapeCast S16 v618 shapeCasts_S1x16_S16 := by
  unfold k1_pay139
  first | rfl | (simp only [shapeCast_self, LaneLib.step]; first | done | rfl)

theorem k1_pay140_nf (v618 : Vec F S1x16 .f32) :
    k1_pay140 v618 = shapeCast S16 v618 shapeCasts_S1x16_S16 := by
  unfold k1_pay140
  first | rfl | (simp only [k1_pay139_nf, shapeCast_self, LaneLib.step]; first | done | rfl)

theorem k1_pay141_nf (v618 : Vec F S1x16 .f32) :
    k1_pay141 v618 = shapeCast S16 v618 shapeCasts_S1x16_S16 := by
  unfold k1_pay141
  first | rfl | (simp only [k1_pay139_nf, shapeCast_self, LaneLib.step]; first | done | rfl)

theorem k1_pay142_nf (v227 : IVec S16 32) (v608 : FVec F S16 .f32) (v632 : Vec F S16 .f32) :
    k1_pay142 v227 v608 v632 = LaneLib.step v227 12#32 v608 v632 := by
  unfold k1_pay142
  first | rfl | (simp only [shapeCast_self, LaneLib.step]; first | done | rfl)

theorem k1_pay143_nf (v257 : IVec S16 32) :
    k1_pay143 v257 = extractStridedSlice S1 ![13] v257 slices_S16_o13_S1 := by
  unfold k1_pay143
  first | rfl | (simp only [shapeCast_self, LaneLib.step]; first | done | rfl)

theorem k1_pay144_nf (v647 : Vec F S1x16 .f32) :
    k1_pay144 v647 = shapeCast S16 v647 shapeCasts_S1x16_S16 := by
  unfold k1_pay144
  first | rfl | (simp only [shapeCast_self, LaneLib.step]; first | done | rfl)

theorem k1_pay145_nf (v648 : FVec F S16 .f32) :
    k1_pay145 v648 = v648 := by
  unfold k1_pay145
  first | rfl | (simp only [shapeCast_self, LaneLib.step]; first | done | rfl)

theorem k1_pay146_nf (v648 : FVec F S16 .f32) :
    k1_pay146 v648 = v648 := by
  unfold k1_pay146
  first | rfl | (simp only [shapeCast_self, LaneLib.step]; first | done | rfl)

theorem k1_pay147_nf (v227 : IVec S16 32) (v637 : FVec F S16 .f32) (v661 : Vec F S16 .f32) :
    k1_pay147 v227 v637 v661 = LaneLib.step v227 13#32 v637 v661 := by
  unfold k1_pay147
  first | rfl | (simp only [shapeCast_self, LaneLib.step]; first | done | rfl)

theorem k1_pay148_nf (v257 : IVec S16 32) :
    k1_pay148 v257 = extractStridedSlice S1 ![14] v257 slices_S16_o14_S1 := by
  unfold k1_pay148
  first | rfl | (simp only [shapeCast_self, LaneLib.step]; first | done | rfl)

theorem k1_pay149_nf (v676 : Vec F S1x16 .f32) :
    k1_pay149 v676 = shapeCast S16 v676 shapeCasts_S1x16_S16 := by
  unfold k1_pay149
  first | rfl | (simp only [shapeCast_self, LaneLib.step]; first | done | rfl)

theorem k1_pay150_nf (v676 : Vec F S1x16 .f32) :
    k1_pay150 v676 = shapeCast S16 v676 shapeCasts_S1x16_S16 := by
  unfold k1_pay150
  first | rfl | (simp only [k1_pay149_nf, shapeCast_self, LaneLib.step]; first | done | rfl)

theorem k1_pay151_nf (v676 : Vec F S1x16 .f32) :
    k1_pay151 v676 = shapeCast S16 v676 shapeCasts_S1x16_S16 := by
  unfold k1_pay151
  first | rfl | (simp only [k1_pay149_nf, shapeCast_self, LaneLib.step]; first | done | rfl)

theorem k1_pay152_nf (v257 : IVec S16 32) :
    k1_pay152 v257 = extractStridedSlice S1 ![15] v257 slices_S16_o15_S1 := by
  unfold k1_pay152
  first | rfl | (simp only [shapeCast_self, LaneLib.step]; first | done | rfl)

theorem k1_pay153_nf (v705 : Vec F S1x16 .f32) :
    k1_pay153 v705 = shapeCast S16 v705 shapeCasts_S1x16_S16 := by
  unfold k1_pay153
  first | rfl | (simp only [shapeCast_self, LaneLib.step]; first | done | rfl)

theorem k1_pay154_nf (v705 : Vec F S1x16 .f32) :
    k1_pay154 v705 = shapeCast S16 v705 shapeCasts_S1x16_S16 := by
  unfold k1_pay154
  first | rfl | (simp only [k1_pay153_nf, shapeCast_self, LaneLib.step]; first | done | rfl)

theorem k1_pay155_nf (v705 : Vec F S1x16 .f32) :
    k1_pay155 v705 = shapeCast S16 v705 shapeCasts_S1x16_S16 := by
  unfold k1_pay155
  first | rfl | (simp only [k1_pay153_nf, shapeCast_self, LaneLib.step]; first | done | rfl)

theorem k1_pay156_nf (v227 : IVec S16 32) (v666 : FVec F S16 .f32) (v690 : Vec F S16 .f32) (v719 : Vec F S16 .f32) :
    k1_pay156 v227 v666 v690 v719 = LaneLib.step v227 15#32 (LaneLib.step v227 14#32 v666 v690) v719 := by
  unfold k1_pay156
  first | rfl | (simp only [shapeCast_self, LaneLib.step]; first | done | rfl)

theorem k1_pay157_nf (v256 : Vec F S16 .i32) :
    k1_pay157 v256 = v256 := by
  unfold k1_pay157
  first | rfl | (simp only [shapeCast_self, LaneLib.step]; first | done | rfl)

theorem k1_pay158_nf (v256 : Vec F S16 .i32) :
    k1_pay158 v256 = extractStridedSlice S1 ![0] v256 slices_S16_o0_S1 := by
  unfold k1_pay158
  first | rfl | (simp only [k1_pay157_nf, shapeCast_self, LaneLib.step]; first | done | rfl)

theorem k1_pay159_nf (v270 : Vec F S1x16 .f32) :
    k1_pay159 v270 = shapeCast S16 v270 shapeCasts_S1x16_S16 := by
  unfold k1_pay159
  first | rfl | (simp only [shapeCast_self, LaneLib.step]; first | done | rfl)

theorem k1_pay160_nf (v270 : Vec F S1x16 .f32) :
    k1_pay160 v270 = shapeCast S16 v270 shapeCasts_S1x16_S16 := by
  unfold k1_pay160
  first | rfl | (simp only [k1_pay159_nf, shapeCast_self, LaneLib.step]; first | done | rfl)

theorem k1_pay161_nf (v270 : Vec F S1x16 .f32) :
    k1_pay161 v270 = shapeCast S16 v270 shapeCasts_S1x16_S16 := by
  unfold k1_pay161
  first | rfl | (simp only [k1_pay159_nf, shapeCast_self, LaneLib.step]; first | done | rfl)

theorem k1_pay162_nf (v227 : IVec S16 32) (v259 : Vec F S16 .f32) (v284 : Vec F S16 .f32) :
    k1_pay162 v227 v259 v284 = LaneLib.step v227 0#32 v259 v284 := by
  unfold k1_pay162
  first | rfl | (simp only [shapeCast_self, LaneLib.step]; first | done | rfl)

theorem k1_pay163_nf (v257 : IVec S16 32) :
    k1_pay163 v257 = extractStridedSlice S1 ![1] v257 slices_S16_o1_S1 := by
  unfold k1_pay163
  first | rfl | (simp only [shapeCast_self, LaneLib.step]; first | done | rfl)

theorem k1_pay164_nf (v299 : Vec F S1x16 .f32) :
    k1_pay164 v299 = shapeCast S16 v299 shapeCasts_S1x16_S16 := by
  unfold k1_pay164
  first | rfl | (simp only [shapeCast_self, LaneLib.step]; first | done | rfl)

theorem k1_pay165_nf (v299 : Vec F S1x16 .f32) :
    k1_pay165 v299 = shapeCast S16 v299 shapeCasts_S1x16_S16 := by
  unfold k1_pay165
  first | rfl | (simp only [k1_pay164_nf, shapeCast_self, LaneLib.step]; first | done | rfl)

theorem k1_pay166_nf (v299 : Vec F S1x16 .f32) :
    k1_pay166 v299 = shapeCast S16 v299 shapeCasts_S1x16_S16 := by
  unfold k1_pay166
  first | rfl | (simp only [k1_pay164_nf, shapeCast_self, LaneLib.step]; first | done | rfl)

theorem k1_pay167_nf (v227 : IVec S16 32) (v289 : FVec F S16 .f32) (v313 : Vec F S16 .f32) :
    k1_pay167 v227 v289 v313 = LaneLib.step v227 1#32 v289 v313 := by
  unfold k1_pay167
  first | rfl | (simp only [shapeCast_self, LaneLib.step]; first | done | rfl)

theorem k1_pay168_nf (v257 : IVec S16 32) :
    k1_pay168 v257 = extractStridedSlice S1 ![2] v257 slices_S16_o2_S1 := by
  unfold k1_pay168
  first | rfl | (simp only [shapeCast_self, LaneLib.step]; first | done | rfl)

theorem k1_pay169_nf (v328 : Vec F S1x16 .f32) :
    k1_pay169 v328 = shapeCast S16 v328 shapeCasts_S1x16_S16 := by
  unfold k1_pay169
  first | rfl | (simp only [shapeCast_self, LaneLib.step]; first | done | rfl)

theorem k1_pay170_nf (v328 : Vec F S1x16 .f32) :
    k1_pay170 v328 = shapeCast S16 v328 shapeCasts_S1x16_S16 := by
  unfold k1_pay170
  first | rfl | (simp only [k1_pay169_nf, shapeCast_self, LaneLib.step]; first | done | rfl)

theorem k1_pay171_nf (v329 : FVec F S16 .f32) :
    k1_pay171 v329 = v329 := by
  unfold k1_pay171
  first | rfl | (simp only [shapeCast_self, LaneLib.step]; first | done | rfl)

theorem k1_pay172_nf (v227 : IVec S16 32) (v318 : FVec F S16 .f32) (v342 : Vec F S16 .f32) :
    k1_pay172 v227 v318 v342 = LaneLib.step v227 2#32 v318 v342 := by
  unfold k1_pay172
  first | rfl | (simp only [shapeCast_self, LaneLib.step]; first | done | rfl)

theorem k1_pay173_nf (v257 : IVec S16 32) :
    k1_pay173 v257 = extractStridedSlice S1 ![3] v257 slices_S16_o3_S1 := by
  unfold k1_pay173
  first | rfl | (simp only [shapeCast_self, LaneLib.step]; first | done | rfl)

theorem k1_pay174_nf (v357 : Vec F S1x16 .f32) :
    k1_pay174 v357 = shapeCast S16 v357 shapeCasts_S1x16_S16 := by
  unfold k1_pay174
  first | rfl | (simp only [shapeCast_self, LaneLib.step]; first | done | rfl)

theorem k1_pay175_nf (v357 : Vec F S1x16 .f32) :
    k1_pay175 v357 = shapeCast S16 v357 shapeCasts_S1x16_S16 := by
  unfold k1_pay175
  first | rfl | (simp only [k1_pay174_nf, shapeCast_self, LaneLib.step]; first | done | rfl)

theorem k1_pay176_nf (v357 : Vec F S1x16 .f32) :
    k1_pay176 v357 = shapeCast S16 v357 shapeCasts_S1x16_S16 := by
  unfold k1_pay176
  first | rfl | (simp only [k1_pay174_nf, shapeCast_self, LaneLib.step]; first | done | rfl)

theorem k1_pay177_nf (v257 : IVec S16 32) :
    k1_pay177 v257 = extractStridedSlice S1 ![4] v257 slices_S16_o4_S1 := by
  unfold k1_pay177
  first | rfl | (simp only [shapeCast_self, LaneLib.step]; first | done | rfl)

theorem k1_pay178_nf (v386 : Vec F S1x16 .f32) :
    k1_pay178 v386 = shapeCast S16 v386 shapeCasts_S1x16_S16 := by
  unfold k1_pay178
  first | rfl | (simp only [shapeCast_self, LaneLib.step]; first | done | rfl)

theorem k1_pay179_nf (v386 : Vec F S1x16 .f32) :
    k1_pay179 v386 = shapeCast S16 v386 shapeCasts_S1x16_S16 := by
  unfold k1_pay179
  first | rfl | (simp only [k1_pay178_nf, shapeCast_self, LaneLib.step]; first | done | rfl)

theorem k1_pay180_nf (v386 : Vec F S1x16 .f32) :
    k1_pay180 v386 = shapeCast S16 v386 shapeCasts_S1x16_S16 := by
  unfold k1_pay180
  first | rfl | (simp only [k1_pay178_nf, shapeCast_self, LaneLib.step]; first | done | rfl)

theorem k1_pay181_nf (v227 : IVec S16 32) (v347 : FVec F S16 .f32) (v371 : Vec F S16 .f32) (v400 : Vec F S16 .f32) :
    k1_pay181 v227 v347 v371 v400 = LaneLib.step v227 4#32 (LaneLib.step v227 3#32 v347 v371) v400 := by
  unfold k1_pay181
  first | rfl | (simp only [shapeCast_self, LaneLib.step]; first | done | rfl)

theorem k1_pay182_nf (v257 : IVec S16 32) :
    k1_pay182 v257 = extractStridedSlice S1 ![5] v257 slices_S16_o5_S1 := by
  unfold k1_pay182
  first | rfl | (simp only [shapeCast_self, LaneLib.step]; first | done | rfl)

theorem k1_pay183_nf (v415 : Vec F S1x16 .f32) :
    k1_pay183 v415 = shapeCast S16 v415 shapeCasts_S1x16_S16 := by
  unfold k1_pay183
  first | rfl | (simp only [shapeCast_self, LaneLib.step]; first | done | rfl)

theorem k1_pay184_nf (v415 : Vec F S1x16 .f32) :
    k1_pay184 v415 = shapeCast S16 v415 shapeCasts_S1x16_S16 := by
  unfold k1_pay184
  first | rfl | (simp only [k1_pay183_nf, shapeCast_self, LaneLib.step]; first | done | rfl)

theorem k1_pay185_nf (v415 : Vec F S1x16 .f32) :
    k1_pay185 v415 = shapeCast S16 v415 shapeCasts_S1x16_S16 := by
  unfold k1_pay185
  first | rfl | (simp only [k1_pay183_nf, shapeCast_self, LaneLib.step]; first | done | rfl)

theorem k1_pay186_nf (v227 : IVec S16 32) (v405 : FVec F S16 .f32) (v429 : Vec F S16 .f32) :
    k1_pay186 v227 v405 v429 = LaneLib.step v227 5#32 v405 v429 := by
  unfold k1_pay186
  first | rfl | (simp only [shapeCast_self, LaneLib.step]; first | done | rfl)

theorem k1_pay187_nf (v257 : IVec S16 32) :
    k1_pay187 v257 = extractStridedSlice S1 ![6] v257 slices_S16_o6_S1 := by
  unfold k1_pay187
  first | rfl | (simp only [shapeCast_self, LaneLib.step]; first | done | rfl)

theorem k1_pay188_nf (v444 : Vec F S1x16 .f32) :
    k1_pay188 v444 = shapeCast S16 v444 shapeCasts_S1x16_S16 := by
  unfold k1_pay188
  first | rfl | (simp only [shapeCast_self, LaneLib.step]; first | done | rfl)

theorem k1_pay189_nf (v444 : Vec F S1x16 .f32) :
    k1_pay189 v444 = shapeCast S16 v444 shapeCasts_S1x16_S16 := by
  unfold k1_pay189
  first | rfl | (simp only [k1_pay188_nf, shapeCast_self, LaneLib.step]; first | done | rfl)

theorem k1_pay190_nf (v445 : FVec F S16 .f32) :
    k1_pay190 v445 = v445 := by
  unfold k1_pay190
  first | rfl | (simp only [shapeCast_self, LaneLib.step]; first | done | rfl)

theorem k1_pay191_nf (v227 : IVec S16 32) (v434 : FVec F S16 .f32) (v458 : Vec F S16 .f32) :
    k1_pay191 v227 v434 v458 = LaneLib.step v227 6#32 v434 v458 := by
  unfold k1_pay191
  first | rfl | (simp only [shapeCast_self, LaneLib.step]; first | done | rfl)

theorem k1_pay192_nf (v257 : IVec S16 32) :
    k1_pay192 v257 = extractStridedSlice S1 ![7] v257 slices_S16_o7_S1 := by
  unfold k1_pay192
  first | rfl | (simp only [shapeCast_self, LaneLib.step]; first | done | rfl)

theorem k1_pay193_nf (v473 : Vec F S1x16 .f32) :
    k1_pay193 v473 = shapeCast S16 v473 shapeCasts_S1x16_S16 := by
  unfold k1_pay193
  first | rfl | (simp only [shapeCast_self, LaneLib.step]; first | done | rfl)

theorem k1_pay194_nf (v473 : Vec F S1x16 .f32) :
    k1_pay194 v473 = shapeCast S16 v473 shapeCasts_S1x16_S16 := by
  unfold k1_pay194
  first | rfl | (simp only [k1_pay193_nf, shapeCast_self, LaneLib.step]; first | done | rfl)

theorem k1_pay195_nf (v473 : Vec F S1x16 .f32) :
    k1_pay195 v473 = shapeCast S16 v473 shapeCasts_S1x16_S16 := by
  unfold k1_pay195
  first | rfl | (simp only [k1_pay193_nf, shapeCast_self, LaneLib.step]; first | done | rfl)

theorem k1_pay196_nf (v487 : Vec F S16 .f32) :
    k1_pay196 v487 = v487 := by
  unfold k1_pay196
  first | rfl | (simp only [shapeCast_self, LaneLib.step]; first | done | rfl)

theorem k1_pay197_nf (v257 : IVec S16 32) :
    k1_pay197 v257 = extractStridedSlice S1 ![8] v257 slices_S16_o8_S1 := by
  unfold k1_pay197
  first | rfl | (simp only [shapeCast_self, LaneLib.step]; first | done | rfl)

theorem k1_pay198_nf (v502 : Vec F S1x16 .f32) :
    k1_pay198 v502 = shapeCast S16 v502 shapeCasts_S1x16_S16 := by
  unfold k1_pay198
  first | rfl | (simp only [shapeCast_self, LaneLib.step]; first | done | rfl)

theorem k1_pay199_nf (v502 : Vec F S1x16 .f32) :
    k1_pay199 v502 = shapeCast S16 v502 shapeCasts_S1x16_S16 := by
  unfold k1_pay199
  first | rfl | (simp only [k1_pay198_nf, shapeCast_self, LaneLib.step]; first | done | rfl)

theorem k1_pay200_nf (v502 : Vec F S1x16 .f32) :
    k1_pay200 v502 = shapeCast S16 v502 shapeCasts_S1x16_S16 := by
  unfold k1_pay200
  first | rfl | (simp only [k1_pay198_nf, shapeCast_self, LaneLib.step]; first | done | rfl)

theorem k1_pay201_nf (v227 : IVec S16 32) (v463 : FVec F S16 .f32) (v488 : FVec F S16 .f32) (c7_i32_184 : BitVec 32) (v516 : Vec F S16 .f32) :
    k1_pay201 v227 v463 v488 c7_i32_184 v516 = LaneLib.step v227 8#32 (LaneLib.step v227 c7_i32_184 v463 v488) v516 := by
  unfold k1_pay201
  first | rfl | (simp only [shapeCast_self, LaneLib.step]; first | done | rfl)

theorem k1_pay202_nf (v257 : IVec S16 32) :
    k1_pay202 v257 = extractStridedSlice S1 ![9] v257 slices_S16_o9_S1 := by
  unfold k1_pay202
  first | rfl | (simp only [shapeCast_self, LaneLib.step]; first | done | rfl)

theorem k1_pay203_nf (v531 : Vec F S1x16 .f32) :
    k1_pay203 v531 = shapeCast S16 v531 shapeCasts_S1x16_S16 := by
  unfold k1_pay203
  first | rfl | (simp only [shapeCast_self, LaneLib.step]; first | done | rfl)

theorem k1_pay204_nf (v531 : Vec F S1x16 .f32) :
    k1_pay204 v531 = shapeCast S16 v531 shapeCasts_S1x16_S16 := by
  unfold k1_pay204
  first | rfl | (simp only [k1_pay203_nf, shapeCast_self, LaneLib.step]; first | done | rfl)

theorem k1_pay205_nf (v531 : Vec F S1x16 .f32) :
    k1_pay205 v531 = shapeCast S16 v531 shapeCasts_S1x16_S16 := by
  unfold k1_pay205
  first | rfl | (simp only [k1_pay203_nf, shapeCast_self, LaneLib.step]; first | done | rfl)

theorem k1_pay206_nf (v227 : IVec S16 32) (v521 : FVec F S16 .f32) (v545 : Vec F S16 .f32) :
    k1_pay206 v227 v521 v545 = LaneLib.step v227 9#32 v521 v545 := by
  unfold k1_pay206
  first | rfl | (simp only [shapeCast_self, LaneLib.step]; first | done | rfl)

theorem k1_pay207_nf (v257 : IVec S16 32) :
    k1_pay207 v257 = extractStridedSlice S1 ![10] v257 slices_S16_o10_S1 := by
  unfold k1_pay207
  first | rfl | (simp only [shapeCast_self, LaneLib.step]; first | done | rfl)

theorem k1_pay208_nf (v560 : Vec F S1x16 .f32) :
    k1_pay208 v560 = shapeCast S16 v560 shapeCasts_S1x16_S16 := by
  unfold k1_pay208
  first | rfl | (simp only [shapeCast_self, LaneLib.step]; first | done | rfl)

theorem k1_pay209_nf (v560 : Vec F S1x16 .f32) :
    k1_pay209 v560 = shapeCast S16 v560 shapeCasts_S1x16_S16 := by
  unfold k1_pay209
  first | rfl | (simp only [k1_pay208_nf, shapeCast_self, LaneLib.step]; first | done | rfl)

theorem k1_pay210_nf (v560 : Vec F S1x16 .f32) :
    k1_pay210 v560 = shapeCast S16 v560 shapeCasts_S1x16_S16 := by
  unfold k1_pay210
  first | rfl | (simp only [k1_pay208_nf, shapeCast_self, LaneLib.step]; first | done | rfl)

theorem k1_pay211_nf (v257 : IVec S16 32) :
    k1_pay211 v257 = extractStridedSlice S1 ![11] v257 slices_S16_o11_S1 := by
  unfold k1_pay211
  first | rfl | (simp only [shapeCast_self, LaneLib.step]; first | done | rfl)

theorem k1_pay212_nf (v589 : Vec F S1x16 .f32) :
    k1_pay212 v589 = shapeCast S16 v589 shapeCasts_S1x16_S16 := by
  unfold k1_pay212
  first | rfl | (simp only [shapeCast_self, LaneLib.step]; first | done | rfl)

theorem k1_pay213_nf (v589 : Vec F S1x16 .f32) :
    k1_pay213 v589 = shapeCast S16 v589 shapeCasts_S1x16_S16 := by
  unfold k1_pay213
  first | rfl | (simp only [k1_pay212_nf, shapeCast_self, LaneLib.step]; first | done | rfl)

theorem k1_pay214_nf (v589 : Vec F S1x16 .f32) :
    k1_pay214 v589 = shapeCast S16 v589 shapeCasts_S1x16_S16 := by
  unfold k1_pay214
  first | rfl | (simp only [k1_pay212_nf, shapeCast_self, LaneLib.step]; first | done | rfl)

theorem k1_pay215_nf (v227 : IVec S16 32) (v550 : FVec F S16 .f32) (v574 : Vec F S16 .f32) (v603 : Vec F S16 .f32) :
    k1_pay215 v227 v550 v574 v603 = LaneLib.step v227 11#32 (LaneLib.step v227 10#32 v550 v574) v603 := by
  unfold k1_pay215
  first | rfl | (simp only [shapeCast_self, LaneLib.step]; first | done | rfl)

theorem k1_pay216_nf (v257 : IVec S16 32) :
    k1_pay216 v257 = extractStridedSlice S1 ![12] v257 slices_S16_o12_S1 := by
  unfold k1_pay216
  first | rfl | (simp only [shapeCast_self, LaneLib.step]; first | done | rfl)

theorem k1_pay217_nf (v618 : Vec F S1x16 .f32) :
    k1_pay217 v618 = shapeCast S16 v618 shapeCasts_S1x16_S16 := by
  unfold k1_pay217
  first | rfl | (simp only [shapeCast_self, LaneLib.step]; first | done | rfl)

theorem k1_pay218_nf (v618 : Vec F S1x16 .f32) :
    k1_pay218 v618 = shapeCast S16 v618 shapeCasts_S1x16_S16 := by
  unfold k1_pay218
  first | rfl | (simp only [k1_pay217_nf, shapeCast_self, LaneLib.step]; first | done | rfl)

theorem k1_pay219_nf (v618 : Vec F S1x16 .f32) :
    k1_pay219 v618 = shapeCast S16 v618 shapeCasts_S1x16_S16 := by
  unfold k1_pay219
  first | rfl | (simp only [k1_pay217_nf, shapeCast_self, LaneLib.step]; first | done | rfl)

theorem k1_pay220_nf (v227 : IVec S16 32) (v608 : FVec F S16 .f32) (v632 : Vec F S16 .f32) :
    k1_pay220 v227 v608 v632 = LaneLib.step v227 12#32 v608 v632 := by
  unfold k1_pay220
  first | rfl | (simp only [shapeCast_self, LaneLib.step]; first | done | rfl)

theorem k1_pay221_nf (v257 : IVec S16 32) :
    k1_pay221 v257 = extractStridedSlice S1 ![13] v257 slices_S16_o13_S1 := by
  unfold k1_pay221
  first | rfl | (simp only [shapeCast_self, LaneLib.step]; first | done | rfl)

theorem k1_pay222_nf (v647 : Vec F S1x16 .f32) :
    k1_pay222 v647 = shapeCast S16 v647 shapeCasts_S1x16_S16 := by
  unfold k1_pay222
  first | rfl | (simp only [shapeCast_self, LaneLib.step]; first | done | rfl)

theorem k1_pay223_nf (v648 : FVec F S16 .f32) :
    k1_pay223 v648 = v648 := by
  unfold k1_pay223
  first | rfl | (simp only [shapeCast_self, LaneLib.step]; first | done | rfl)

theorem k1_pay224_nf (v648 : FVec F S16 .f32) :
    k1_pay224 v648 = v648 := by
  unfold k1_pay224
  first | rfl | (simp only [shapeCast_self, LaneLib.step]; first | done | rfl)

theorem k1_pay225_nf (v227 : IVec S16 32) (v637 : FVec F S16 .f32) (v661 : Vec F S16 .f32) :
    k1_pay225 v227 v637 v661 = LaneLib.step v227 13#32 v637 v661 := by
  unfold k1_pay225
  first | rfl | (simp only [shapeCast_self, LaneLib.step]; first | done | rfl)

theorem k1_pay226_nf (v257 : IVec S16 32) :
    k1_pay226 v257 = extractStridedSlice S1 ![14] v257 slices_S16_o14_S1 := by
  unfold k1_pay226
  first | rfl | (simp only [shapeCast_self, LaneLib.step]; first | done | rfl)

theorem k1_pay227_nf (v676 : Vec F S1x16 .f32) :
    k1_pay227 v676 = shapeCast S16 v676 shapeCasts_S1x16_S16 := by
  unfold k1_pay227
  first | rfl | (simp only [shapeCast_self, LaneLib.step]; first | done | rfl)

theorem k1_pay228_nf (v676 : Vec F S1x16 .f32) :
    k1_pay228 v676 = shapeCast S16 v676 shapeCasts_S1x16_S16 := by
  unfold k1_pay228
  first | rfl | (simp only [k1_pay227_nf, shapeCast_self, LaneLib.step]; first | done | rfl)

theorem k1_pay229_nf (v676 : Vec F S1x16 .f32) :
    k1_pay229 v676 = shapeCast S16 v676 shapeCasts_S1x16_S16 := by
  unfold k1_pay229
  first | rfl | (simp only [k1_pay227_nf, shapeCast_self, LaneLib.step]; first | done | rfl)

theorem k1_pay230_nf (v257 : IVec S16 32) :
    k1_pay230 v257 = extractStridedSlice S1 ![15] v257 slices_S16_o15_S1 := by
  unfold k1_pay230
  first | rfl | (simp only [shapeCast_self, LaneLib.step]; first | done | rfl)

theorem k1_pay231_nf (v705 : Vec F S1x16 .f32) :
    k1_pay231 v705 = shapeCast S16 v705 shapeCasts_S1x16_S16 := by
  unfold k1_pay231
  first | rfl | (simp only [shapeCast_self, LaneLib.step]; first | done | rfl)

theorem k1_pay232_nf (v705 : Vec F S1x16 .f32) :
    k1_pay232 v705 = shapeCast S16 v705 shapeCasts_S1x16_S16 := by
  unfold k1_pay232
  first | rfl | (simp only [k1_pay231_nf, shapeCast_self, LaneLib.step]; first | done | rfl)

theorem k1_pay233_nf (v705 : Vec F S1x16 .f32) :
    k1_pay233 v705 = shapeCast S16 v705 shapeCasts_S1x16_S16 := by
  unfold k1_pay233
  first | rfl | (simp only [k1_pay231_nf, shapeCast_self, LaneLib.step]; first | done | rfl)

theorem k1_pay234_nf (v227 : IVec S16 32) (v666 : FVec F S16 .f32) (v690 : Vec F S16 .f32) (v719 : Vec F S16 .f32) :
    k1_pay234 v227 v666 v690 v719 = LaneLib.step v227 15#32 (LaneLib.step v227 14#32 v666 v690) v719 := by
  unfold k1_pay234
  first | rfl | (simp only [shapeCast_self, LaneLib.step]; first | done | rfl)

theorem k1_pay235_nf (v256 : Vec F S16 .i32) :
    k1_pay235 v256 = v256 := by
  unfold k1_pay235
  first | rfl | (simp only [shapeCast_self, LaneLib.step]; first | done | rfl)

theorem k1_pay236_nf (v256 : Vec F S16 .i32) :
    k1_pay236 v256 = extractStridedSlice S1 ![0] v256 slices_S16_o0_S1 := by
  unfold k1_pay236
  first | rfl | (simp only [k1_pay235_nf, shapeCast_self, LaneLib.step]; first | done | rfl)

theorem k1_pay237_nf (v270 : Vec F S1x16 .f32) :
    k1_pay237 v270 = shapeCast S16 v270 shapeCasts_S1x16_S16 := by
  unfold k1_pay237
  first | rfl | (simp only [shapeCast_self, LaneLib.step]; first | done | rfl)

theorem k1_pay238_nf (v270 : Vec F S1x16 .f32) :
    k1_pay238 v270 = shapeCast S16 v270 shapeCasts_S1x16_S16 := by
  unfold k1_pay238
  first | rfl | (simp only [k1_pay237_nf, shapeCast_self, LaneLib.step]; first | done | rfl)

theorem k1_pay239_nf (v270 : Vec F S1x16 .f32) :
    k1_pay239 v270 = shapeCast S16 v270 shapeCasts_S1x16_S16 := by
  unfold k1_pay239
  first | rfl | (simp only [k1_pay237_nf, shapeCast_self, LaneLib.step]; first | done | rfl)

theorem k1_pay240_nf (v227 : IVec S16 32) (v259 : Vec F S16 .f32) (v284 : Vec F S16 .f32) :
    k1_pay240 v227 v259 v284 = LaneLib.step v227 0#32 v259 v284 := by
  unfold k1_pay240
  first | rfl | (simp only [shapeCast_self, LaneLib.step]; first | done | rfl)

theorem k1_pay241_nf (v257 : IVec S16 32) :
    k1_pay241 v257 = extractStridedSlice S1 ![1] v257 slices_S16_o1_S1 := by
  unfold k1_pay241
  first | rfl | (simp only [shapeCast_self, LaneLib.step]; first | done | rfl)

theorem k1_pay242_nf (v299 : Vec F S1x16 .f32) :
    k1_pay242 v299 = shapeCast S16 v299 shapeCasts_S1x16_S16 := by
  unfold k1_pay242
  first | rfl | (simp only [shapeCast_self, LaneLib.step]; first | done | rfl)

theorem k1_pay243_nf (v299 : Vec F S1x16 .f32) :
    k1_pay243 v299 = shapeCast S16 v299 shapeCasts_S1x16_S16 := by
  unfold k1_pay243
  first | rfl | (simp only [k1_pay242_nf, shapeCast_self, LaneLib.step]; first | done | rfl)

theorem k1_pay244_nf (v299 : Vec F S1x16 .f32) :
    k1_pay244 v299 = shapeCast S16 v299 shapeCasts_S1x16_S16 := by
  unfold k1_pay244
  first | rfl | (simp only [k1_pay242_nf, shapeCast_self, LaneLib.step]; first | done | rfl)

theorem k1_pay245_nf (v227 : IVec S16 32) (v289 : FVec F S16 .f32) (v313 : Vec F S16 .f32) :
    k1_pay245 v227 v289 v313 = LaneLib.step v227 1#32 v289 v313 := by
  unfold k1_pay245
  first | rfl | (simp only [shapeCast_self, LaneLib.step]; first | done | rfl)

theorem k1_pay246_nf (v257 : IVec S16 32) :
    k1_pay246 v257 = extractStridedSlice S1 ![2] v257 slices_S16_o2_S1 := by
  unfold k1_pay246
  first | rfl | (simp only [shapeCast_self, LaneLib.step]; first | done | rfl)

theorem k1_pay247_nf (v328 : Vec F S1x16 .f32) :
    k1_pay247 v328 = shapeCast S16 v328 shapeCasts_S1x16_S16 := by
  unfold k1_pay247
  first | rfl | (simp only [shapeCast_self, LaneLib.step]; first | done | rfl)

theorem k1_pay248_nf (v328 : Vec F S1x16 .f32) :
    k1_pay248 v328 = shapeCast S16 v328 shapeCasts_S1x16_S16 := by
  unfold k1_pay248
  first | rfl | (simp only [k1_pay247_nf, shapeCast_self, LaneLib.step]; first | done | rfl)

theorem k1_pay249_nf (v329 : FVec F S16 .f32) :
    k1_pay249 v329 = v329 := by
  unfold k1_pay249
  first | rfl | (simp only [shapeCast_self, LaneLib.step]; first | done | rfl)

theorem k1_pay250_nf (v227 : IVec S16 32) (v318 : FVec F S16 .f32) (v342 : Vec F S16 .f32) :
    k1_pay250 v227 v318 v342 = LaneLib.step v227 2#32 v318 v342 := by
  unfold k1_pay250
  first | rfl | (simp only [shapeCast_self, LaneLib.step]; first | done | rfl)

theorem k1_pay251_nf (v257 : IVec S16 32) :
    k1_pay251 v257 = extractStridedSlice S1 ![3] v257 slices_S16_o3_S1 := by
  unfold k1_pay251
  first | rfl | (simp only [shapeCast_self, LaneLib.step]; first | done | rfl)

theorem k1_pay252_nf (v357 : Vec F S1x16 .f32) :
    k1_pay252 v357 = shapeCast S16 v357 shapeCasts_S1x16_S16 := by
  unfold k1_pay252
  first | rfl | (simp only [shapeCast_self, LaneLib.step]; first | done | rfl)

theorem k1_pay253_nf (v357 : Vec F S1x16 .f32) :
    k1_pay253 v357 = shapeCast S16 v357 shapeCasts_S1x16_S16 := by
  unfold k1_pay253
  first | rfl | (simp only [k1_pay252_nf, shapeCast_self, LaneLib.step]; first | done | rfl)

theorem k1_pay254_nf (v357 : Vec F S1x16 .f32) :
    k1_pay254 v357 = shapeCast S16 v357 shapeCasts_S1x16_S16 := by
  unfold k1_pay254
  first | rfl | (simp only [k1_pay252_nf, shapeCast_self, LaneLib.step]; first | done | rfl)

theorem k1_pay255_nf (v257 : IVec S16 32) :
    k1_pay255 v257 = extractStridedSlice S1 ![4] v257 slices_S16_o4_S1 := by
  unfold k1_pay255
  first | rfl | (simp only [shapeCast_self, LaneLib.step]; first | done | rfl)

theorem k1_pay256_nf (v386 : Vec F S1x16 .f32) :
    k1_pay256 v386 = shapeCast S16 v386 shapeCasts_S1x16_S16 := by
  unfold k1_pay256
  first | rfl | (simp only [shapeCast_self, LaneLib.step]; first | done | rfl)

theorem k1_pay257_nf (v386 : Vec F S1x16 .f32) :
    k1_pay257 v386 = shapeCast S16 v386 shapeCasts_S1x16_S16 := by
  unfold k1_pay257
  first | rfl | (simp only [k1_pay256_nf, shapeCast_self, LaneLib.step]; first | done | rfl)

theorem k1_pay258_nf (v386 : Vec F S1x16 .f32) :
    k1_pay258 v386 = shapeCast S16 v386 shapeCasts_S1x16_S16 := by
  unfold k1_pay258
  first | rfl | (simp only [k1_pay256_nf, shapeCast_self, LaneLib.step]; first | done | rfl)

theorem k1_pay259_nf (v227 : IVec S16 32) (v347 : FVec F S16 .f32) (v371 : Vec F S16 .f32) (v400 : Vec F S16 .f32) :
    k1_pay259 v227 v347 v371 v400 = LaneLib.step v227 4#32 (LaneLib.step v227 3#32 v347 v371) v400 := by
  unfold k1_pay259
  first | rfl | (simp only [shapeCast_self, LaneLib.step]; first | done | rfl)

theorem k1_pay260_nf (v257 : IVec S16 32) :
    k1_pay260 v257 = extractStridedSlice S1 ![5] v257 slices_S16_o5_S1 := by
  unfold k1_pay260
  first | rfl | (simp only [shapeCast_self, LaneLib.step]; first | done | rfl)

theorem k1_pay261_nf (v415 : Vec F S1x16 .f32) :
    k1_pay261 v415 = shapeCast S16 v415 shapeCasts_S1x16_S16 := by
  unfold k1_pay261
  first | rfl | (simp only [shapeCast_self, LaneLib.step]; first | done | rfl)

theorem k1_pay262_nf (v415 : Vec F S1x16 .f32) :
    k1_pay262 v415 = shapeCast S16 v415 shapeCasts_S1x16_S16 := by
  unfold k1_pay262
  first | rfl | (simp only [k1_pay261_nf, shapeCast_self, LaneLib.step]; first | done | rfl)

theorem k1_pay263_nf (v415 : Vec F S1x16 .f32) :
    k1_pay263 v415 = shapeCast S16 v415 shapeCasts_S1x16_S16 := by
  unfold k1_pay263
  first | rfl | (simp only [k1_pay261_nf, shapeCast_self, LaneLib.step]; first | done | rfl)

theorem k1_pay264_nf (v227 : IVec S16 32) (v405 : FVec F S16 .f32) (v429 : Vec F S16 .f32) :
    k1_pay264 v227 v405 v429 = LaneLib.step v227 5#32 v405 v429 := by
  unfold k1_pay264
  first | rfl | (simp only [shapeCast_self, LaneLib.step]; first | done | rfl)

theorem k1_pay265_nf (v257 : IVec S16 32) :
    k1_pay265 v257 = extractStridedSlice S1 ![6] v257 slices_S16_o6_S1 := by
  unfold k1_pay265
  first | rfl | (simp only [shapeCast_self, LaneLib.step]; first | done | rfl)

theorem k1_pay266_nf (v444 : Vec F S1x16 .f32) :
    k1_pay266 v444 = shapeCast S16 v444 shapeCasts_S1x16_S16 := by
  unfold k1_pay266
  first | rfl | (simp only [shapeCast_self, LaneLib.step]; first | done | rfl)

theorem k1_pay267_nf (v444 : Vec F S1x16 .f32) :
    k1_pay267 v444 = shapeCast S16 v444 shapeCasts_S1x16_S16 := by
  unfold k1_pay267
  first | rfl | (simp only [k1_pay266_nf, shapeCast_self, LaneLib.step]; first | done | rfl)

theorem k1_pay268_nf (v445 : FVec F S16 .f32) :
    k1_pay268 v445 = v445 := by
  unfold k1_pay268
  first | rfl | (simp only [shapeCast_self, LaneLib.step]; first | done | rfl)

theorem k1_pay269_nf (v227 : IVec S16 32) (v434 : FVec F S16 .f32) (v458 : Vec F S16 .f32) :
    k1_pay269 v227 v434 v458 = LaneLib.step v227 6#32 v434 v458 := by
  unfold k1_pay269
  first | rfl | (simp only [shapeCast_self, LaneLib.step]; first | done | rfl)

theorem k1_pay270_nf (v257 : IVec S16 32) :
    k1_pay270 v257 = extractStridedSlice S1 ![7] v257 slices_S16_o7_S1 := by
  unfold k1_pay270
  first | rfl | (simp only [shapeCast_self, LaneLib.step]; first | done | rfl)

theorem k1_pay271_nf (v473 : Vec F S1x16 .f32) :
    k1_pay271 v473 = shapeCast S16 v473 shapeCasts_S1x16_S16 := by
  unfold k1_pay271
  first | rfl | (simp only [shapeCast_self, LaneLib.step]; first | done | rfl)

theorem k1_pay272_nf (v473 : Vec F S1x16 .f32) :
    k1_pay272 v473 = shapeCast S16 v473 shapeCasts_S1x16_S16 := by
  unfold k1_pay272
  first | rfl | (simp only [k1_pay271_nf, shapeCast_self, LaneLib.step]; first | done | rfl)

theorem k1_pay273_nf (v473 : Vec F S1x16 .f32) :
    k1_pay273 v473 = shapeCast S16 v473 shapeCasts_S1x16_S16 := by
  unfold k1_pay273
  first | rfl | (simp only [k1_pay271_nf, shapeCast_self, LaneLib.step]; first | done | rfl)

theorem k1_pay274_nf (v487 : Vec F S16 .f32) :
    k1_pay274 v487 = v487 := by
  unfold k1_pay274
  first | rfl | (simp only [shapeCast_self, LaneLib.step]; first | done | rfl)

theorem k1_pay275_nf (v257 : IVec S16 32) :
    k1_pay275 v257 = extractStridedSlice S1 ![8] v257 slices_S16_o8_S1 := by
  unfold k1_pay275
  first | rfl | (simp only [shapeCast_self, LaneLib.step]; first | done | rfl)

theorem k1_pay276_nf (v502 : Vec F S1x16 .f32) :
    k1_pay276 v502 = shapeCast S16 v502 shapeCasts_S1x16_S16 := by
  unfold k1_pay276
  first | rfl | (simp only [shapeCast_self, LaneLib.step]; first | done | rfl)

theorem k1_pay277_nf (v502 : Vec F S1x16 .f32) :
    k1_pay277 v502 = shapeCast S16 v502 shapeCasts_S1x16_S16 := by
  unfold k1_pay277
  first | rfl | (simp only [k1_pay276_nf, shapeCast_self, LaneLib.step]; first | done | rfl)

theorem k1_pay278_nf (v502 : Vec F S1x16 .f32) :
    k1_pay278 v502 = shapeCast S16 v502 shapeCasts_S1x16_S16 := by
  unfold k1_pay278
  first | rfl | (simp only [k1_pay276_nf, shapeCast_self, LaneLib.step]; first | done | rfl)

theorem k1_pay279_nf (v227 : IVec S16 32) (v463 : FVec F S16 .f32) (v488 : FVec F S16 .f32) (c7_i32_184 : BitVec 32) (v516 : Vec F S16 .f32) :
    k1_pay279 v227 v463 v488 c7_i32_184 v516 = LaneLib.step v227 8#32 (LaneLib.step v227 c7_i32_184 v463 v488) v516 := by
  unfold k1_pay279
  first | rfl | (simp only [shapeCast_self, LaneLib.step]; first | done | rfl)

theorem k1_pay280_nf (v257 : IVec S16 32) :
    k1_pay280 v257 = extractStridedSlice S1 ![9] v257 slices_S16_o9_S1 := by
  unfold k1_pay280
  first | rfl | (simp only [shapeCast_self, LaneLib.step]; first | done | rfl)

theorem k1_pay281_nf (v531 : Vec F S1x16 .f32) :
    k1_pay281 v531 = shapeCast S16 v531 shapeCasts_S1x16_S16 := by
  unfold k1_pay281
  first | rfl | (simp only [shapeCast_self, LaneLib.step]; first | done | rfl)

theorem k1_pay282_nf (v531 : Vec F S1x16 .f32) :
    k1_pay282 v531 = shapeCast S16 v531 shapeCasts_S1x16_S16 := by
  unfold k1_pay282
  first | rfl | (simp only [k1_pay281_nf, shapeCast_self, LaneLib.step]; first | done | rfl)

theorem k1_pay283_nf (v531 : Vec F S1x16 .f32) :
    k1_pay283 v531 = shapeCast S16 v531 shapeCasts_S1x16_S16 := by
  unfold k1_pay283
  first | rfl | (simp only [k1_pay281_nf, shapeCast_self, LaneLib.step]; first | done | rfl)

theorem k1_pay284_nf (v227 : IVec S16 32) (v521 : FVec F S16 .f32) (v545 : Vec F S16 .f32) :
    k1_pay284 v227 v521 v545 = LaneLib.step v227 9#32 v521 v545 := by
  unfold k1_pay284
  first | rfl | (simp only [shapeCast_self, LaneLib.step]; first | done | rfl)

theorem k1_pay285_nf (v257 : IVec S16 32) :
    k1_pay285 v257 = extractStridedSlice S1 ![10] v257 slices_S16_o10_S1 := by
  unfold k1_pay285
  first | rfl | (simp only [shapeCast_self, LaneLib.step]; first | done | rfl)

theorem k1_pay286_nf (v560 : Vec F S1x16 .f32) :
    k1_pay286 v560 = shapeCast S16 v560 shapeCasts_S1x16_S16 := by
  unfold k1_pay286
  first | rfl | (simp only [shapeCast_self, LaneLib.step]; first | done | rfl)

theorem k1_pay287_nf (v560 : Vec F S1x16 .f32) :
    k1_pay287 v560 = shapeCast S16 v560 shapeCasts_S1x16_S16 := by
  unfold k1_pay287
  first | rfl | (simp only [k1_pay286_nf, shapeCast_self, LaneLib.step]; first | done | rfl)

theorem k1_pay288_nf (v560 : Vec F S1x16 .f32) :
    k1_pay288 v560 = shapeCast S16 v560 shapeCasts_S1x16_S16 := by
  unfold k1_pay288
  first | rfl | (simp only [k1_pay286_nf, shapeCast_self, LaneLib.step]; first | done | rfl)

theorem k1_pay289_nf (v257 : IVec S16 32) :
    k1_pay289 v257 = extractStridedSlice S1 ![11] v257 slices_S16_o11_S1 := by
  unfold k1_pay289
  first | rfl | (simp only [shapeCast_self, LaneLib.step]; first | done | rfl)

theorem k1_pay290_nf (v589 : Vec F S1x16 .f32) :
    k1_pay290 v589 = shapeCast S16 v589 shapeCasts_S1x16_S16 := by
  unfold k1_pay290
  first | rfl | (simp only [shapeCast_self, LaneLib.step]; first | done | rfl)

theorem k1_pay291_nf (v589 : Vec F S1x16 .f32) :
    k1_pay291 v589 = shapeCast S16 v589 shapeCasts_S1x16_S16 := by
  unfold k1_pay291
  first | rfl | (simp only [k1_pay290_nf, shapeCast_self, LaneLib.step]; first | done | rfl)

theorem k1_pay292_nf (v589 : Vec F S1x16 .f32) :
    k1_pay292 v589 = shapeCast S16 v589 shapeCasts_S1x16_S16 := by
  unfold k1_pay292
  first | rfl | (simp only [k1_pay290_nf, shapeCast_self, LaneLib.step]; first | done | rfl)

theorem k1_pay293_nf (v227 : IVec S16 32) (v550 : FVec F S16 .f32) (v574 : Vec F S16 .f32) (v603 : Vec F S16 .f32) :
    k1_pay293 v227 v550 v574 v603 = LaneLib.step v227 11#32 (LaneLib.step v227 10#32 v550 v574) v603 := by
  unfold k1_pay293
  first | rfl | (simp only [shapeCast_self, LaneLib.step]; first | done | rfl)

theorem k1_pay294_nf (v257 : IVec S16 32) :
    k1_pay294 v257 = extractStridedSlice S1 ![12] v257 slices_S16_o12_S1 := by
  unfold k1_pay294
  first | rfl | (simp only [shapeCast_self, LaneLib.step]; first | done | rfl)

theorem k1_pay295_nf (v618 : Vec F S1x16 .f32) :
    k1_pay295 v618 = shapeCast S16 v618 shapeCasts_S1x16_S16 := by
  unfold k1_pay295
  first | rfl | (simp only [shapeCast_self, LaneLib.step]; first | done | rfl)

theorem k1_pay296_nf (v618 : Vec F S1x16 .f32) :
    k1_pay296 v618 = shapeCast S16 v618 shapeCasts_S1x16_S16 := by
  unfold k1_pay296
  first | rfl | (simp only [k1_pay295_nf, shapeCast_self, LaneLib.step]; first | done | rfl)

theorem k1_pay297_nf (v618 : Vec F S1x16 .f32) :
    k1_pay297 v618 = shapeCast S16 v618 shapeCasts_S1x16_S16 := by
  unfold k1_pay297
  first | rfl | (simp only [k1_pay295_nf, shapeCast_self, LaneLib.step]; first | done | rfl)

theorem k1_pay298_nf (v227 : IVec S16 32) (v608 : FVec F S16 .f32) (v632 : Vec F S16 .f32) :
    k1_pay298 v227 v608 v632 = LaneLib.step v227 12#32 v608 v632 := by
  unfold k1_pay298
  first | rfl | (simp only [shapeCast_self, LaneLib.step]; first | done | rfl)

theorem k1_pay299_nf (v257 : IVec S16 32) :
    k1_pay299 v257 = extractStridedSlice S1 ![13] v257 slices_S16_o13_S1 := by
  unfold k1_pay299
  first | rfl | (simp only [shapeCast_self, LaneLib.step]; first | done | rfl)

theorem k1_pay300_nf (v647 : Vec F S1x16 .f32) :
    k1_pay300 v647 = shapeCast S16 v647 shapeCasts_S1x16_S16 := by
  unfold k1_pay300
  first | rfl | (simp only [shapeCast_self, LaneLib.step]; first | done | rfl)

theorem k1_pay301_nf (v648 : FVec F S16 .f32) :
    k1_pay301 v648 = v648 := by
  unfold k1_pay301
  first | rfl | (simp only [shapeCast_self, LaneLib.step]; first | done | rfl)

theorem k1_pay302_nf (v648 : FVec F S16 .f32) :
    k1_pay302 v648 = v648 := by
  unfold k1_pay302
  first | rfl | (simp only [shapeCast_self, LaneLib.step]; first | done | rfl)

theorem k1_pay303_nf (v227 : IVec S16 32) (v637 : FVec F S16 .f32) (v661 : Vec F S16 .f32) :
    k1_pay303 v227 v637 v661 = LaneLib.step v227 13#32 v637 v661 := by
  unfold k1_pay303
  first | rfl | (simp only [shapeCast_self, LaneLib.step]; first | done | rfl)

theorem k1_pay304_nf (v257 : IVec S16 32) :
    k1_pay304 v257 = extractStridedSlice S1 ![14] v257 slices_S16_o14_S1 := by
  unfold k1_pay304
  first | rfl | (simp only [shapeCast_self, LaneLib.step]; first | done | rfl)

theorem k1_pay305_nf (v676 : Vec F S1x16 .f32) :
    k1_pay305 v676 = shapeCast S16 v676 shapeCasts_S1x16_S16 := by
  unfold k1_pay305
  first | rfl | (simp only [shapeCast_self, LaneLib.step]; first | done | rfl)

theorem k1_pay306_nf (v676 : Vec F S1x16 .f32) :
    k1_pay306 v676 = shapeCast S16 v676 shapeCasts_S1x16_S16 := by
  unfold k1_pay306
  first | rfl | (simp only [k1_pay305_nf, shapeCast_self, LaneLib.step]; first | done | rfl)

theorem k1_pay307_nf (v676 : Vec F S1x16 .f32) :
    k1_pay307 v676 = shapeCast S16 v676 shapeCasts_S1x16_S16 := by
  unfold k1_pay307
  first | rfl | (simp only [k1_pay305_nf, shapeCast_self, LaneLib.step]; first | done | rfl)

theorem k1_pay308_nf (v257 : IVec S16 32) :
    k1_pay308 v257 = extractStridedSlice S1 ![15] v257 slices_S16_o15_S1 := by
  unfold k1_pay308
  first | rfl | (simp only [shapeCast_self, LaneLib.step]; first | done | rfl)

theorem k1_pay309_nf (v705 : Vec F S1x16 .f32) :
    k1_pay309 v705 = shapeCast S16 v705 shapeCasts_S1x16_S16 := by
  unfold k1_pay309
  first | rfl | (simp only [shapeCast_self, LaneLib.step]; first | done | rfl)

theorem k1_pay310_nf (v705 : Vec F S1x16 .f32) :
    k1_pay310 v705 = shapeCast S16 v705 shapeCasts_S1x16_S16 := by
  unfold k1_pay310
  first | rfl | (simp only [k1_pay309_nf, shapeCast_self, LaneLib.step]; first | done | rfl)

theorem k1_pay311_nf (v705 : Vec F S1x16 .f32) :
    k1_pay311 v705 = shapeCast S16 v705 shapeCasts_S1x16_S16 := by
  unfold k1_pay311
  first | rfl | (simp only [k1_pay309_nf, shapeCast_self, LaneLib.step]; first | done | rfl)

theorem k1_pay312_nf (v227 : IVec S16 32) (v666 : FVec F S16 .f32) (v690 : Vec F S16 .f32) (v719 : Vec F S16 .f32) :
    k1_pay312 v227 v666 v690 v719 = LaneLib.step v227 15#32 (LaneLib.step v227 14#32 v666 v690) v719 := by
  unfold k1_pay312
  first | rfl | (simp only [shapeCast_self, LaneLib.step]; first | done | rfl)

theorem k1_pay317_nf (v27 : IVec S16 32) :
    k1_pay317 v27 = v27 := by
  unfold k1_pay317
  first | rfl | (simp only [shapeCast_self, LaneLib.step]; first | done | rfl)

theorem k1_pay329_nf (v104 : IVec S16 32) :
    k1_pay329 v104 = v104 := by
  unfold k1_pay329
  first | rfl | (simp only [shapeCast_self, LaneLib.step]; first | done | rfl)

theorem k1_pay341_nf (v181 : IVec S16 32) :
    k1_pay341 v181 = v181 := by
  unfold k1_pay341
  first | rfl | (simp only [shapeCast_self, LaneLib.step]; first | done | rfl)

end Cert.KernelIdeal.LanePayK1

end
-- ==== Proof.LaneTrip.lean ====
/-
  One lane of one trip of a chunk loop, in closed form.

  The id word w of lane j selects lane w mod 128 of the gathered row 16 k + j.  The body reads the sixteen-lane group
  of that row starting at 16 ((w mod 128) / 16), stores it twice at [32 j, 32 j + 32) of the rotate buffer and reads
  sixteen entries from 32 j + ((w mod 16) + 16 - j) mod 16: lane j of what it reads is the group's entry w mod 16,
  the row's entry w mod 128.
-/
import proofs.«204913_g64682207478566_cont_9to1c4b_713_31_alg».proof.Proof.LaneLib
import proofs.«204913_g64682207478566_cont_9to1c4b_713_31_alg».proof.Proof.IdBits

noncomputable section

namespace Cert.Proof.LaneTrip

open Idealize.ShloMosaic Idealize.ShloMosaic.ValueIdx Cert.Proof.LaneLib

variable {sig : RefSig} {κ : Kind} {sp : Space} {e : EltTy} {Val : EltTy → Type}

/-- Sixteen entries of a 512-entry buffer read from an offset: lane l is the entry at offset + l. -/
theorem chunk_read {e' : EltTy} (v : View sig κ sp S512 e') (g : v.ty.Contents Val) (off : Fin 1 → Nat) (b : Nat) (hb : off 0 = b)
    (inb : ∀ a, off a + S16.size a ≤ S512.size a) (l : Fin 16) (h : b + l.val < 512) :
    (v.slice (Rect.unit (s := S512) off S16.size inb)).read Val g (ix1 l) = v.read Val g (ix1 (⟨b + l.val, h⟩ : Fin 512)) := by
  rw [read_slice_apply]
  refine congrArg (v.read Val g) (funext fun a => Fin.ext ?_)
  obtain rfl : a = (0 : Fin 1) := Subsingleton.elim _ _
  rw [Rect.emb_apply]
  show off 0 + 1 * l.val = b + l.val
  omega

/-- Lane j of the rotated read is the gathered row's entry at the id's lane. -/
theorem lane_value (v11 : View sig κ sp S512 e) (g11 : v11.ty.Contents Val)
    (v8 : View sig κ sp S128x128 e) (gB : v8.ty.Contents Val)
    (L : List (View.Piece Val S512 e))
    (offA : Fin 2 → Nat) (offB off0 off1 : Fin 1 → Nat)
    (inbA : ∀ a, offA a + S1x16.size a ≤ S128x128.size a)
    (inbB : ∀ a, offB a + S16.size a ≤ S512.size a) (inb0 : ∀ a, off0 a + S16.size a ≤ S512.size a)
    (inb1 : ∀ a, off1 a + S16.size a ≤ S512.size a) (hc : S1x16.ShapeCasts S16)
    (k j : Nat) (w : BitVec 32) (hk : k < 8) (hj : j < 16)
    (hA0 : offA 0 = 16 * k + j) (hA1 : offA 1 = ((w &&& 127#32) &&& 112#32).toNat)
    (hB : offB 0 = 32 * j + (w.toNat % 16 + 16 - j) % 16) (h0 : off0 0 = 32 * j) (h1 : off1 0 = 32 * j + 16)
    (hrow : 16 * k + j < 128) :
    (v11.slice (Rect.unit (s := S512) offB S16.size inbB)).read Val
        (v11.writes Val g11
          (⟨Rect.unit (s := S512) off1 S16.size inb1,
              shapeCast S16 ((v8.slice (Rect.unit (s := S128x128) offA S1x16.size inbA)).read Val gB) hc⟩
            :: ⟨Rect.unit (s := S512) off0 S16.size inb0,
              shapeCast S16 ((v8.slice (Rect.unit (s := S128x128) offA S1x16.size inbA)).read Val gB) hc⟩ :: L))
        (ix1 (⟨j, hj⟩ : Fin 16))
      = v8.read Val gB (ix2 (⟨16 * k + j, hrow⟩ : Fin 128) (⟨w.toNat % 128, Nat.mod_lt _ (by decide)⟩ : Fin 128)) := by
  have hr : w.toNat % 16 < 16 := Nat.mod_lt _ (by decide)
  rw [rot_read_row v11 g11 _ hc (32 * j) j (w.toNat % 16) hj hr off0 off1 offB h0 h1 hB inb0 inb1 inbB L
    (ix1 (⟨j, hj⟩ : Fin 16)) rfl]
  have hsum := ChkLib.and_112_add_and_15 w
  have hmod := ChkLib.toNat_and_127_15_eq_mod w
  have hC : ((w &&& 127#32) &&& 112#32).toNat + (⟨w.toNat % 16, hr⟩ : Fin 16).val < 128 := by
    show ((w &&& 127#32) &&& 112#32).toNat + w.toNat % 16 < 128
    have := Nat.mod_lt w.toNat (show 0 < 128 by decide)
    omega
  rw [row_piece_read v8 gB offA (16 * k + j) ((w &&& 127#32) &&& 112#32).toNat hA0 hA1 inbA ⟨w.toNat % 16, hr⟩ hrow hC]
  refine congrArg (v8.read Val gB) (congrArg (ix2 (⟨16 * k + j, hrow⟩ : Fin 128)) (Fin.ext ?_))
  show ((w &&& 127#32) &&& 112#32).toNat + w.toNat % 16 = w.toNat % 128
  omega

/-- The same with the id word identified: if the word the lane extracted is w', the entry is at lane w' mod 128. -/
theorem lane_value_at (v11 : View sig κ sp S512 e) (g11 : v11.ty.Contents Val)
    (v8 : View sig κ sp S128x128 e) (gB : v8.ty.Contents Val)
    (L : List (View.Piece Val S512 e))
    (offA : Fin 2 → Nat) (offB off0 off1 : Fin 1 → Nat)
    (inbA : ∀ a, offA a + S1x16.size a ≤ S128x128.size a)
    (inbB : ∀ a, offB a + S16.size a ≤ S512.size a) (inb0 : ∀ a, off0 a + S16.size a ≤ S512.size a)
    (inb1 : ∀ a, off1 a + S16.size a ≤ S512.size a) (hc : S1x16.ShapeCasts S16)
    (k j : Nat) (w w' : BitVec 32) (hk : k < 8) (hj : j < 16)
    (hA0 : offA 0 = 16 * k + j) (hA1 : offA 1 = ((w &&& 127#32) &&& 112#32).toNat)
    (hB : offB 0 = 32 * j + (w.toNat % 16 + 16 - j) % 16) (h0 : off0 0 = 32 * j) (h1 : off1 0 = 32 * j + 16)
    (hrow : 16 * k + j < 128) (hw : w = w') :
    (v11.slice (Rect.unit (s := S512) offB S16.size inbB)).read Val
        (v11.writes Val g11
          (⟨Rect.unit (s := S512) off1 S16.size inb1,
              shapeCast S16 ((v8.slice (Rect.unit (s := S128x128) offA S1x16.size inbA)).read Val gB) hc⟩
            :: ⟨Rect.unit (s := S512) off0 S16.size inb0,
              shapeCast S16 ((v8.slice (Rect.unit (s := S128x128) offA S1x16.size inbA)).read Val gB) hc⟩ :: L))
        (ix1 (⟨j, hj⟩ : Fin 16))
      = v8.read Val gB (ix2 (⟨16 * k + j, hrow⟩ : Fin 128) (⟨w'.toNat % 128, Nat.mod_lt _ (by decide)⟩ : Fin 128)) := by
  subst hw
  exact lane_value v11 g11 v8 gB L offA offB off0 off1 inbA inbB inb0 inb1 hc k j w hk hj hA0 hA1 hB h0 h1 hrow

end Cert.Proof.LaneTrip

end
-- ==== Proof.LaneSteps.lean ====
/-
  The sixteen lane updates at one lane: lane j of the result is the base value plus lane j of the j-th addend.
-/
import proofs.«204913_g64682207478566_cont_9to1c4b_713_31_alg».proof.Proof.LaneLib

noncomputable section

namespace Cert.Proof.LaneSteps

open Idealize.ShloMosaic Idealize.ShloMosaic.ValueIdx Cert.Proof.LaneLib

variable {F : FTy → Type} [FloatOps F]

theorem nested16_at_0 (iota : IVec S16 32) (hiota : ∀ l : S16.Idx, iota l = BitVec.ofNat 32 (l 0).val)
    (base t0 t1 t2 t3 t4 t5 t6 t7 t8 t9 t10 t11 t12 t13 t14 t15 : FVec F S16 .f32) (hj : 0 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨0, hj⟩ : Fin 16))
      = FloatOps.addf (base (ix1 (⟨0, hj⟩ : Fin 16))) (t0 (ix1 (⟨0, hj⟩ : Fin 16))) :=
  nested16_apply_at iota hiota base t0 t1 t2 t3 t4 t5 t6 t7 t8 t9 t10 t11 t12 t13 t14 t15 ⟨0, hj⟩

theorem nested16_at_1 (iota : IVec S16 32) (hiota : ∀ l : S16.Idx, iota l = BitVec.ofNat 32 (l 0).val)
    (base t0 t1 t2 t3 t4 t5 t6 t7 t8 t9 t10 t11 t12 t13 t14 t15 : FVec F S16 .f32) (hj : 1 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨1, hj⟩ : Fin 16))
      = FloatOps.addf (base (ix1 (⟨1, hj⟩ : Fin 16))) (t1 (ix1 (⟨1, hj⟩ : Fin 16))) :=
  nested16_apply_at iota hiota base t0 t1 t2 t3 t4 t5 t6 t7 t8 t9 t10 t11 t12 t13 t14 t15 ⟨1, hj⟩

theorem nested16_at_2 (iota : IVec S16 32) (hiota : ∀ l : S16.Idx, iota l = BitVec.ofNat 32 (l 0).val)
    (base t0 t1 t2 t3 t4 t5 t6 t7 t8 t9 t10 t11 t12 t13 t14 t15 : FVec F S16 .f32) (hj : 2 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨2, hj⟩ : Fin 16))
      = FloatOps.addf (base (ix1 (⟨2, hj⟩ : Fin 16))) (t2 (ix1 (⟨2, hj⟩ : Fin 16))) :=
  nested16_apply_at iota hiota base t0 t1 t2 t3 t4 t5 t6 t7 t8 t9 t10 t11 t12 t13 t14 t15 ⟨2, hj⟩

theorem nested16_at_3 (iota : IVec S16 32) (hiota : ∀ l : S16.Idx, iota l = BitVec.ofNat 32 (l 0).val)
    (base t0 t1 t2 t3 t4 t5 t6 t7 t8 t9 t10 t11 t12 t13 t14 t15 : FVec F S16 .f32) (hj : 3 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨3, hj⟩ : Fin 16))
      = FloatOps.addf (base (ix1 (⟨3, hj⟩ : Fin 16))) (t3 (ix1 (⟨3, hj⟩ : Fin 16))) :=
  nested16_apply_at iota hiota base t0 t1 t2 t3 t4 t5 t6 t7 t8 t9 t10 t11 t12 t13 t14 t15 ⟨3, hj⟩

theorem nested16_at_4 (iota : IVec S16 32) (hiota : ∀ l : S16.Idx, iota l = BitVec.ofNat 32 (l 0).val)
    (base t0 t1 t2 t3 t4 t5 t6 t7 t8 t9 t10 t11 t12 t13 t14 t15 : FVec F S16 .f32) (hj : 4 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨4, hj⟩ : Fin 16))
      = FloatOps.addf (base (ix1 (⟨4, hj⟩ : Fin 16))) (t4 (ix1 (⟨4, hj⟩ : Fin 16))) :=
  nested16_apply_at iota hiota base t0 t1 t2 t3 t4 t5 t6 t7 t8 t9 t10 t11 t12 t13 t14 t15 ⟨4, hj⟩

theorem nested16_at_5 (iota : IVec S16 32) (hiota : ∀ l : S16.Idx, iota l = BitVec.ofNat 32 (l 0).val)
    (base t0 t1 t2 t3 t4 t5 t6 t7 t8 t9 t10 t11 t12 t13 t14 t15 : FVec F S16 .f32) (hj : 5 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨5, hj⟩ : Fin 16))
      = FloatOps.addf (base (ix1 (⟨5, hj⟩ : Fin 16))) (t5 (ix1 (⟨5, hj⟩ : Fin 16))) :=
  nested16_apply_at iota hiota base t0 t1 t2 t3 t4 t5 t6 t7 t8 t9 t10 t11 t12 t13 t14 t15 ⟨5, hj⟩

theorem nested16_at_6 (iota : IVec S16 32) (hiota : ∀ l : S16.Idx, iota l = BitVec.ofNat 32 (l 0).val)
    (base t0 t1 t2 t3 t4 t5 t6 t7 t8 t9 t10 t11 t12 t13 t14 t15 : FVec F S16 .f32) (hj : 6 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨6, hj⟩ : Fin 16))
      = FloatOps.addf (base (ix1 (⟨6, hj⟩ : Fin 16))) (t6 (ix1 (⟨6, hj⟩ : Fin 16))) :=
  nested16_apply_at iota hiota base t0 t1 t2 t3 t4 t5 t6 t7 t8 t9 t10 t11 t12 t13 t14 t15 ⟨6, hj⟩

theorem nested16_at_7 (iota : IVec S16 32) (hiota : ∀ l : S16.Idx, iota l = BitVec.ofNat 32 (l 0).val)
    (base t0 t1 t2 t3 t4 t5 t6 t7 t8 t9 t10 t11 t12 t13 t14 t15 : FVec F S16 .f32) (hj : 7 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨7, hj⟩ : Fin 16))
      = FloatOps.addf (base (ix1 (⟨7, hj⟩ : Fin 16))) (t7 (ix1 (⟨7, hj⟩ : Fin 16))) :=
  nested16_apply_at iota hiota base t0 t1 t2 t3 t4 t5 t6 t7 t8 t9 t10 t11 t12 t13 t14 t15 ⟨7, hj⟩

theorem nested16_at_8 (iota : IVec S16 32) (hiota : ∀ l : S16.Idx, iota l = BitVec.ofNat 32 (l 0).val)
    (base t0 t1 t2 t3 t4 t5 t6 t7 t8 t9 t10 t11 t12 t13 t14 t15 : FVec F S16 .f32) (hj : 8 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨8, hj⟩ : Fin 16))
      = FloatOps.addf (base (ix1 (⟨8, hj⟩ : Fin 16))) (t8 (ix1 (⟨8, hj⟩ : Fin 16))) :=
  nested16_apply_at iota hiota base t0 t1 t2 t3 t4 t5 t6 t7 t8 t9 t10 t11 t12 t13 t14 t15 ⟨8, hj⟩

theorem nested16_at_9 (iota : IVec S16 32) (hiota : ∀ l : S16.Idx, iota l = BitVec.ofNat 32 (l 0).val)
    (base t0 t1 t2 t3 t4 t5 t6 t7 t8 t9 t10 t11 t12 t13 t14 t15 : FVec F S16 .f32) (hj : 9 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨9, hj⟩ : Fin 16))
      = FloatOps.addf (base (ix1 (⟨9, hj⟩ : Fin 16))) (t9 (ix1 (⟨9, hj⟩ : Fin 16))) :=
  nested16_apply_at iota hiota base t0 t1 t2 t3 t4 t5 t6 t7 t8 t9 t10 t11 t12 t13 t14 t15 ⟨9, hj⟩

theorem nested16_at_10 (iota : IVec S16 32) (hiota : ∀ l : S16.Idx, iota l = BitVec.ofNat 32 (l 0).val)
    (base t0 t1 t2 t3 t4 t5 t6 t7 t8 t9 t10 t11 t12 t13 t14 t15 : FVec F S16 .f32) (hj : 10 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨10, hj⟩ : Fin 16))
      = FloatOps.addf (base (ix1 (⟨10, hj⟩ : Fin 16))) (t10 (ix1 (⟨10, hj⟩ : Fin 16))) :=
  nested16_apply_at iota hiota base t0 t1 t2 t3 t4 t5 t6 t7 t8 t9 t10 t11 t12 t13 t14 t15 ⟨10, hj⟩

theorem nested16_at_11 (iota : IVec S16 32) (hiota : ∀ l : S16.Idx, iota l = BitVec.ofNat 32 (l 0).val)
    (base t0 t1 t2 t3 t4 t5 t6 t7 t8 t9 t10 t11 t12 t13 t14 t15 : FVec F S16 .f32) (hj : 11 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨11, hj⟩ : Fin 16))
      = FloatOps.addf (base (ix1 (⟨11, hj⟩ : Fin 16))) (t11 (ix1 (⟨11, hj⟩ : Fin 16))) :=
  nested16_apply_at iota hiota base t0 t1 t2 t3 t4 t5 t6 t7 t8 t9 t10 t11 t12 t13 t14 t15 ⟨11, hj⟩

theorem nested16_at_12 (iota : IVec S16 32) (hiota : ∀ l : S16.Idx, iota l = BitVec.ofNat 32 (l 0).val)
    (base t0 t1 t2 t3 t4 t5 t6 t7 t8 t9 t10 t11 t12 t13 t14 t15 : FVec F S16 .f32) (hj : 12 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨12, hj⟩ : Fin 16))
      = FloatOps.addf (base (ix1 (⟨12, hj⟩ : Fin 16))) (t12 (ix1 (⟨12, hj⟩ : Fin 16))) :=
  nested16_apply_at iota hiota base t0 t1 t2 t3 t4 t5 t6 t7 t8 t9 t10 t11 t12 t13 t14 t15 ⟨12, hj⟩

theorem nested16_at_13 (iota : IVec S16 32) (hiota : ∀ l : S16.Idx, iota l = BitVec.ofNat 32 (l 0).val)
    (base t0 t1 t2 t3 t4 t5 t6 t7 t8 t9 t10 t11 t12 t13 t14 t15 : FVec F S16 .f32) (hj : 13 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨13, hj⟩ : Fin 16))
      = FloatOps.addf (base (ix1 (⟨13, hj⟩ : Fin 16))) (t13 (ix1 (⟨13, hj⟩ : Fin 16))) :=
  nested16_apply_at iota hiota base t0 t1 t2 t3 t4 t5 t6 t7 t8 t9 t10 t11 t12 t13 t14 t15 ⟨13, hj⟩

theorem nested16_at_14 (iota : IVec S16 32) (hiota : ∀ l : S16.Idx, iota l = BitVec.ofNat 32 (l 0).val)
    (base t0 t1 t2 t3 t4 t5 t6 t7 t8 t9 t10 t11 t12 t13 t14 t15 : FVec F S16 .f32) (hj : 14 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨14, hj⟩ : Fin 16))
      = FloatOps.addf (base (ix1 (⟨14, hj⟩ : Fin 16))) (t14 (ix1 (⟨14, hj⟩ : Fin 16))) :=
  nested16_apply_at iota hiota base t0 t1 t2 t3 t4 t5 t6 t7 t8 t9 t10 t11 t12 t13 t14 t15 ⟨14, hj⟩

theorem nested16_at_15 (iota : IVec S16 32) (hiota : ∀ l : S16.Idx, iota l = BitVec.ofNat 32 (l 0).val)
    (base t0 t1 t2 t3 t4 t5 t6 t7 t8 t9 t10 t11 t12 t13 t14 t15 : FVec F S16 .f32) (hj : 15 < 16) :
    (step iota 15#32 (step iota 14#32 (step iota 13#32 (step iota 12#32 (step iota 11#32 (step iota 10#32 (step iota 9#32 (step iota 8#32 (step iota 7#32 (step iota 6#32 (step iota 5#32 (step iota 4#32 (step iota 3#32 (step iota 2#32 (step iota 1#32 (step iota 0#32 base t0) t1) t2) t3) t4) t5) t6) t7) t8) t9) t10) t11) t12) t13) t14) t15) (ix1 (⟨15, hj⟩ : Fin 16))
      = FloatOps.addf (base (ix1 (⟨15, hj⟩ : Fin 16))) (t15 (ix1 (⟨15, hj⟩ : Fin 16))) :=
  nested16_apply_at iota hiota base t0 t1 t2 t3 t4 t5 t6 t7 t8 t9 t10 t11 t12 t13 t14 t15 ⟨15, hj⟩

end Cert.Proof.LaneSteps

end
-- ==== Proof.KernelIdeal.RegionK1.lean ====
/-
  The four chunk loops of the first gather kernel's tile, one trip each at a symbolic trip: a trip reads sixteen ids and
  base values, and for lane j takes the sixteen-lane group of the gathered row 16 k + j that holds the id's lane, stores
  it twice in the rotate buffer at [32 j, 32 j + 32), and reads sixteen lanes from 32 j + ((id mod 16) - j mod 16): lane
  j of that read is the group's entry (id mod 16), that is the row's entry at the id's lane (id mod 128). The select
  keeps the other lanes, so after sixteen steps lane l holds base[l] plus its own row's entry.
-/
import proofs.«204913_g64682207478566_cont_9to1c4b_713_31_alg».proof.Proof.KernelIdeal.TileK1Defs
import proofs.«204913_g64682207478566_cont_9to1c4b_713_31_alg».proof.Proof.Gen.KernelIdeal.Skeleton
import proofs.«204913_g64682207478566_cont_9to1c4b_713_31_alg».proof.Proof.ChkLib
import Idealize.ShloMosaic.Lib.Pipeline.Value
import Idealize.ShloMosaic.Lib.ValueIdx
import proofs.«204913_g64682207478566_cont_9to1c4b_713_31_alg».proof.Proof.IdBits
import proofs.«204913_g64682207478566_cont_9to1c4b_713_31_alg».proof.Proof.LaneLib
import proofs.«204913_g64682207478566_cont_9to1c4b_713_31_alg».proof.Proof.LanePayK1
import proofs.«204913_g64682207478566_cont_9to1c4b_713_31_alg».proof.Proof.LaneTrip
import proofs.«204913_g64682207478566_cont_9to1c4b_713_31_alg».proof.Proof.LaneSteps

noncomputable section

namespace Cert.KernelIdeal.TileK1

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof

open Lean Elab Tactic Meta in
/-- Unfold, in the goal, the named auxiliary value definitions the symbolic run made for the enclosing declaration. -/
elab "delta_sl " "[" ids:ident,* "]" : tactic => do
  let some decl ← Term.getDeclName? | throwError "delta_sl: no enclosing declaration"
  let pre := decl ++ `sl
  let names := ids.getElems.map (·.getId)
  let g ← getMainGoal
  let g' ← g.deltaTarget (fun n => names.any (fun m => n == pre ++ m))
  replaceMainGoal [g']

variable {F : FTy → Type}

local notation "𝕄" => MT nD τ sig (HIx 2) (Elt F) ℕ UU ℕ

local notation "iV" => (Memref.whole Cert.KernelIdeal.main_arg0_scv : Memref Cert.KernelIdeal.sig Kind.scVector Space.hbm Cert.KernelIdeal.S16384 EltTy.i32)
local notation "tV" => (Memref.whole Cert.KernelIdeal.main_v6_scv : Memref Cert.KernelIdeal.sig Kind.scVector Space.hbm Cert.KernelIdeal.S7816x128 EltTy.f32)
local notation "bV" => (Memref.whole Cert.KernelIdeal.main_v7_scv : Memref Cert.KernelIdeal.sig Kind.scVector Space.hbm Cert.KernelIdeal.S16384 EltTy.f32)
local notation "oV" => (Memref.whole Cert.KernelIdeal.main_v8_scv : Memref Cert.KernelIdeal.sig Kind.scVector Space.hbm Cert.KernelIdeal.S16384 EltTy.f32)
local notation "a6" => (Memref.whole Cert.KernelIdeal.cc1_scratch0 : Memref Cert.KernelIdeal.sig Kind.scVector Space.vmem Cert.KernelIdeal.S512 EltTy.i32)
local notation "a7" => (Memref.whole Cert.KernelIdeal.cc1_scratch1 : Memref Cert.KernelIdeal.sig Kind.scVector Space.vmem Cert.KernelIdeal.S512 EltTy.i32)
local notation "a8" => (Memref.whole Cert.KernelIdeal.cc1_scratch2 : Memref Cert.KernelIdeal.sig Kind.scVector Space.vmem Cert.KernelIdeal.S128x128 EltTy.f32)
local notation "a9" => (Memref.whole Cert.KernelIdeal.cc1_scratch3 : Memref Cert.KernelIdeal.sig Kind.scVector Space.vmem Cert.KernelIdeal.S128x128 EltTy.f32)
local notation "a10" => (Memref.whole Cert.KernelIdeal.cc1_scratch4 : Memref Cert.KernelIdeal.sig Kind.scVector Space.vmem Cert.KernelIdeal.S512 EltTy.f32)
local notation "a11" => (Memref.whole Cert.KernelIdeal.cc1_scratch5 : Memref Cert.KernelIdeal.sig Kind.scVector Space.vmem Cert.KernelIdeal.S512 EltTy.f32)
local notation "a12" => (Memref.whole Cert.KernelIdeal.cc1_scratch6 : Memref Cert.KernelIdeal.sig Kind.scVector Space.vmem Cert.KernelIdeal.S512 EltTy.f32)

variable [FloatOps F]
variable (d : Dev nD) (L : grid1.Coords)

/-- What a trip's sixteen results are: lane `l` of trip `k` of chunk `c` is the base value at entry `128 c + 16 k + l` plus the
    gathered buffer's row `16 k + l` at the lane the id at that entry selects (the id modulo 128). -/
def LaneOK (c k : Nat) (i6 : S512.Idx → BitVec 32) (b10 : S512.Idx → F .f32) (rB : S128x128.Idx → F .f32) (v : S16.Idx → F .f32) : Prop :=
  ∀ (l : Fin 16) (h1 : 128 * c + 16 * k + l.val < 512) (h2 : 16 * k + l.val < 128),
    v (ix1 l) = FloatOps.addf (b10 (ix1 ⟨128 * c + 16 * k + l.val, h1⟩))
      (rB (ix2 ⟨16 * k + l.val, h2⟩ ⟨(i6 (ix1 ⟨128 * c + 16 * k + l.val, h1⟩)).toNat % 128, Nat.mod_lt _ (by decide)⟩))

set_option maxHeartbeats 4000000 in
/-- Trip `k` of chunk 0's loop: the ids, the base values and the gathered rows are read only; the trip stores its sixteen
    results, each the base value plus the gathered row's entry at the id's lane. -/
theorem region1 (hchk : ChkAll) (k : Fin k1_t1_loop.trips) (acc : BitVec 32)
    (g6 : Buf (Elt F) ((a6).view.loc (V d (cV L) (jV L)))) (g10 : Buf (Elt F) ((a10).view.loc (V d (cV L) (jV L)))) (gB : Buf (Elt F) ((a8).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a8).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k1_t1_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a8).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k1_off35 k) S16.size (k1_off35_inb k), v⟩])
                ∗ ⌜LaneOK 0 k.val ((a6).view.read (Elt F) g6) ((a10).view.read (Elt F) g10) ((a8).view.read (Elt F) gB) v⌝) := by
  iintro ⟨H6, H10, HB, H11, H12⟩
  sl_exec (disch := first | sl_exact (hchk.h1 _ _) | sl_exact (hchk.h2 _ _) | sl_exact (hchk.h3 _ _) | sl_exact (hchk.h4 _ _) | sl_exact (hchk.h5 _ _) | sl_exact (hchk.h6 _ _) | sl_exact (hchk.h7 _ _) | sl_exact (hchk.h8 _ _) | sl_exact (hchk.h9 _ _) | sl_exact (hchk.h10 _ _) | sl_exact (hchk.h11 _ _) | sl_exact (hchk.h12 _ _) | sl_exact (hchk.h13 _ _) | sl_exact (hchk.h14 _ _) | sl_exact (hchk.h15 _ _) | sl_exact (hchk.h16 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k1_t1_abs.2.1
  have hoff : (k1_off2 k) 0 = 128 * 0 + 16 * k.val := by
    rw [k1_off2_eq]
    show 16 * k.val = 128 * 0 + 16 * k.val
    omega
  have hid : ∀ (j : Fin 16) (h : 128 * 0 + 16 * k.val + j.val < 512),
      (((a6).view.slice (Rect.unit (s := S512) (k1_off2 k) S16.size (k1_off2_inb k))).read (Elt F) g6) (ix1 j) = (a6).view.read (Elt F) g6 (ix1 ⟨128 * 0 + 16 * k.val + j.val, h⟩) :=
    fun j h => LaneTrip.chunk_read (a6).view g6 (k1_off2 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
  obtain ⟨j, hj⟩ := l
  interval_cases j
  · rw [LaneSteps.nested16_at_0 _ hiota]
    refine congrArg₂ FloatOps.addf (LaneTrip.chunk_read (a10).view g10 (k1_off2 k) _ hoff _ ⟨0, hj⟩ h1) ?_
    have hA0 : ∀ w : BitVec 32, (k1_off3 k w) 0 = 16 * k.val + 0 := fun w => ChkLib.row_toNat k.val hk 0#32 (by decide)
    have hA1 : ∀ w : BitVec 32, (k1_off3 k w) 1 = ((w &&& 127#32) &&& 112#32).toNat := fun w => rfl
    have hB : ∀ w : BitVec 32, (k1_off4 w) 0 = 32 * 0 + (w.toNat % 16 + 16 - 0) % 16 :=
      fun w => IdBits.start_toNat 0#32 w 0#32 (by decide) (by decide)
    have hw : region1.sl.v264 d L k g6 = (a6).view.read (Elt F) g6 (ix1 ⟨128 * 0 + 16 * k.val + 0, h1⟩) := by
      delta_sl [v264]
      simp only [LanePayK1.k1_pay2_nf, LanePayK1.k1_pay1_nf, View.readAt_rect]
      exact (LaneLib.extract_lane (((a6).view.slice (Rect.unit (s := S512) (k1_off2 k) S16.size (k1_off2_inb k))).read (Elt F) g6) 0 (by decide) _ _).trans (hid ⟨0, by decide⟩ h1)
    delta_sl [v284, H11_2, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off3 k (region1.sl.v264 d L k g6)) (k1_off4 (region1.sl.v264 d L k g6)) ![0] ![16] _ _ _ _ shapeCasts_S1x16_S16 k.val 0 (region1.sl.v264 d L k g6) _ hk (by decide) (hA0 _) (hA1 _) (hB _) rfl rfl h2 hw
  · rw [LaneSteps.nested16_at_1 _ hiota]
    refine congrArg₂ FloatOps.addf (LaneTrip.chunk_read (a10).view g10 (k1_off2 k) _ hoff _ ⟨1, hj⟩ h1) ?_
    have hA0 : ∀ w : BitVec 32, (k1_off5 k w) 0 = 16 * k.val + 1 := fun w => ChkLib.row_toNat k.val hk 1#32 (by decide)
    have hA1 : ∀ w : BitVec 32, (k1_off5 k w) 1 = ((w &&& 127#32) &&& 112#32).toNat := fun w => rfl
    have hB : ∀ w : BitVec 32, (k1_off6 w) 0 = 32 * 1 + (w.toNat % 16 + 16 - 1) % 16 :=
      fun w => IdBits.start_toNat 32#32 w 1#32 (by decide) (by decide)
    have hw : region1.sl.v293 d L k g6 = (a6).view.read (Elt F) g6 (ix1 ⟨128 * 0 + 16 * k.val + 1, h1⟩) := by
      delta_sl [v293, r]
      simp only [LanePayK1.k1_pay7_nf, LanePayK1.k1_pay1_nf, View.readAt_rect]
      exact (LaneLib.extract_lane (((a6).view.slice (Rect.unit (s := S512) (k1_off2 k) S16.size (k1_off2_inb k))).read (Elt F) g6) 1 (by decide) _ _).trans (hid ⟨1, by decide⟩ h1)
    delta_sl [v313, H11_4, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off5 k (region1.sl.v293 d L k g6)) (k1_off6 (region1.sl.v293 d L k g6)) ![32] ![48] _ _ _ _ shapeCasts_S1x16_S16 k.val 1 (region1.sl.v293 d L k g6) _ hk (by decide) (hA0 _) (hA1 _) (hB _) rfl rfl h2 hw
  · rw [LaneSteps.nested16_at_2 _ hiota]
    refine congrArg₂ FloatOps.addf (LaneTrip.chunk_read (a10).view g10 (k1_off2 k) _ hoff _ ⟨2, hj⟩ h1) ?_
    have hA0 : ∀ w : BitVec 32, (k1_off7 k w) 0 = 16 * k.val + 2 := fun w => ChkLib.row_toNat k.val hk 2#32 (by decide)
    have hA1 : ∀ w : BitVec 32, (k1_off7 k w) 1 = ((w &&& 127#32) &&& 112#32).toNat := fun w => rfl
    have hB : ∀ w : BitVec 32, (k1_off8 w) 0 = 32 * 2 + (w.toNat % 16 + 16 - 2) % 16 :=
      fun w => IdBits.start_toNat 64#32 w 2#32 (by decide) (by decide)
    have hw : region1.sl.v322 d L k g6 = (a6).view.read (Elt F) g6 (ix1 ⟨128 * 0 + 16 * k.val + 2, h1⟩) := by
      delta_sl [v322, r]
      simp only [LanePayK1.k1_pay12_nf, LanePayK1.k1_pay1_nf, View.readAt_rect]
      exact (LaneLib.extract_lane (((a6).view.slice (Rect.unit (s := S512) (k1_off2 k) S16.size (k1_off2_inb k))).read (Elt F) g6) 2 (by decide) _ _).trans (hid ⟨2, by decide⟩ h1)
    delta_sl [v342, H11_6, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off7 k (region1.sl.v322 d L k g6)) (k1_off8 (region1.sl.v322 d L k g6)) ![64] ![80] _ _ _ _ shapeCasts_S1x16_S16 k.val 2 (region1.sl.v322 d L k g6) _ hk (by decide) (hA0 _) (hA1 _) (hB _) rfl rfl h2 hw
  · rw [LaneSteps.nested16_at_3 _ hiota]
    refine congrArg₂ FloatOps.addf (LaneTrip.chunk_read (a10).view g10 (k1_off2 k) _ hoff _ ⟨3, hj⟩ h1) ?_
    have hA0 : ∀ w : BitVec 32, (k1_off9 k w) 0 = 16 * k.val + 3 := fun w => ChkLib.row_toNat k.val hk 3#32 (by decide)
    have hA1 : ∀ w : BitVec 32, (k1_off9 k w) 1 = ((w &&& 127#32) &&& 112#32).toNat := fun w => rfl
    have hB : ∀ w : BitVec 32, (k1_off10 w) 0 = 32 * 3 + (w.toNat % 16 + 16 - 3) % 16 :=
      fun w => IdBits.start_toNat 96#32 w 3#32 (by decide) (by decide)
    have hw : region1.sl.v351 d L k g6 = (a6).view.read (Elt F) g6 (ix1 ⟨128 * 0 + 16 * k.val + 3, h1⟩) := by
      delta_sl [v351, r]
      simp only [LanePayK1.k1_pay17_nf, LanePayK1.k1_pay1_nf, View.readAt_rect]
      exact (LaneLib.extract_lane (((a6).view.slice (Rect.unit (s := S512) (k1_off2 k) S16.size (k1_off2_inb k))).read (Elt F) g6) 3 (by decide) _ _).trans (hid ⟨3, by decide⟩ h1)
    delta_sl [v371, H11_8, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off9 k (region1.sl.v351 d L k g6)) (k1_off10 (region1.sl.v351 d L k g6)) ![96] ![112] _ _ _ _ shapeCasts_S1x16_S16 k.val 3 (region1.sl.v351 d L k g6) _ hk (by decide) (hA0 _) (hA1 _) (hB _) rfl rfl h2 hw
  · rw [LaneSteps.nested16_at_4 _ hiota]
    refine congrArg₂ FloatOps.addf (LaneTrip.chunk_read (a10).view g10 (k1_off2 k) _ hoff _ ⟨4, hj⟩ h1) ?_
    have hA0 : ∀ w : BitVec 32, (k1_off11 k w) 0 = 16 * k.val + 4 := fun w => ChkLib.row_toNat k.val hk 4#32 (by decide)
    have hA1 : ∀ w : BitVec 32, (k1_off11 k w) 1 = ((w &&& 127#32) &&& 112#32).toNat := fun w => rfl
    have hB : ∀ w : BitVec 32, (k1_off12 w) 0 = 32 * 4 + (w.toNat % 16 + 16 - 4) % 16 :=
      fun w => IdBits.start_toNat 128#32 w 4#32 (by decide) (by decide)
    have hw : region1.sl.v380 d L k g6 = (a6).view.read (Elt F) g6 (ix1 ⟨128 * 0 + 16 * k.val + 4, h1⟩) := by
      delta_sl [v380, r]
      simp only [LanePayK1.k1_pay21_nf, LanePayK1.k1_pay1_nf, View.readAt_rect]
      exact (LaneLib.extract_lane (((a6).view.slice (Rect.unit (s := S512) (k1_off2 k) S16.size (k1_off2_inb k))).read (Elt F) g6) 4 (by decide) _ _).trans (hid ⟨4, by decide⟩ h1)
    delta_sl [v400, H11_10, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off11 k (region1.sl.v380 d L k g6)) (k1_off12 (region1.sl.v380 d L k g6)) ![128] ![144] _ _ _ _ shapeCasts_S1x16_S16 k.val 4 (region1.sl.v380 d L k g6) _ hk (by decide) (hA0 _) (hA1 _) (hB _) rfl rfl h2 hw
  · rw [LaneSteps.nested16_at_5 _ hiota]
    refine congrArg₂ FloatOps.addf (LaneTrip.chunk_read (a10).view g10 (k1_off2 k) _ hoff _ ⟨5, hj⟩ h1) ?_
    have hA0 : ∀ w : BitVec 32, (k1_off13 k w) 0 = 16 * k.val + 5 := fun w => ChkLib.row_toNat k.val hk 5#32 (by decide)
    have hA1 : ∀ w : BitVec 32, (k1_off13 k w) 1 = ((w &&& 127#32) &&& 112#32).toNat := fun w => rfl
    have hB : ∀ w : BitVec 32, (k1_off14 w) 0 = 32 * 5 + (w.toNat % 16 + 16 - 5) % 16 :=
      fun w => IdBits.start_toNat 160#32 w 5#32 (by decide) (by decide)
    have hw : region1.sl.v409 d L k g6 = (a6).view.read (Elt F) g6 (ix1 ⟨128 * 0 + 16 * k.val + 5, h1⟩) := by
      delta_sl [v409, r]
      simp only [LanePayK1.k1_pay26_nf, LanePayK1.k1_pay1_nf, View.readAt_rect]
      exact (LaneLib.extract_lane (((a6).view.slice (Rect.unit (s := S512) (k1_off2 k) S16.size (k1_off2_inb k))).read (Elt F) g6) 5 (by decide) _ _).trans (hid ⟨5, by decide⟩ h1)
    delta_sl [v429, H11_12, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off13 k (region1.sl.v409 d L k g6)) (k1_off14 (region1.sl.v409 d L k g6)) ![160] ![176] _ _ _ _ shapeCasts_S1x16_S16 k.val 5 (region1.sl.v409 d L k g6) _ hk (by decide) (hA0 _) (hA1 _) (hB _) rfl rfl h2 hw
  · rw [LaneSteps.nested16_at_6 _ hiota]
    refine congrArg₂ FloatOps.addf (LaneTrip.chunk_read (a10).view g10 (k1_off2 k) _ hoff _ ⟨6, hj⟩ h1) ?_
    have hA0 : ∀ w : BitVec 32, (k1_off15 k w) 0 = 16 * k.val + 6 := fun w => ChkLib.row_toNat k.val hk 6#32 (by decide)
    have hA1 : ∀ w : BitVec 32, (k1_off15 k w) 1 = ((w &&& 127#32) &&& 112#32).toNat := fun w => rfl
    have hB : ∀ w : BitVec 32, (k1_off16 w) 0 = 32 * 6 + (w.toNat % 16 + 16 - 6) % 16 :=
      fun w => IdBits.start_toNat 192#32 w 6#32 (by decide) (by decide)
    have hw : region1.sl.v438 d L k g6 = (a6).view.read (Elt F) g6 (ix1 ⟨128 * 0 + 16 * k.val + 6, h1⟩) := by
      delta_sl [v438, r]
      simp only [LanePayK1.k1_pay31_nf, LanePayK1.k1_pay1_nf, View.readAt_rect]
      exact (LaneLib.extract_lane (((a6).view.slice (Rect.unit (s := S512) (k1_off2 k) S16.size (k1_off2_inb k))).read (Elt F) g6) 6 (by decide) _ _).trans (hid ⟨6, by decide⟩ h1)
    delta_sl [v458, H11_14, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off15 k (region1.sl.v438 d L k g6)) (k1_off16 (region1.sl.v438 d L k g6)) ![192] ![208] _ _ _ _ shapeCasts_S1x16_S16 k.val 6 (region1.sl.v438 d L k g6) _ hk (by decide) (hA0 _) (hA1 _) (hB _) rfl rfl h2 hw
  · rw [LaneSteps.nested16_at_7 _ hiota]
    refine congrArg₂ FloatOps.addf (LaneTrip.chunk_read (a10).view g10 (k1_off2 k) _ hoff _ ⟨7, hj⟩ h1) ?_
    have hA0 : ∀ w : BitVec 32, (k1_off17 k w) 0 = 16 * k.val + 7 := fun w => ChkLib.row_toNat k.val hk 7#32 (by decide)
    have hA1 : ∀ w : BitVec 32, (k1_off17 k w) 1 = ((w &&& 127#32) &&& 112#32).toNat := fun w => rfl
    have hB : ∀ w : BitVec 32, (k1_off18 w) 0 = 32 * 7 + (w.toNat % 16 + 16 - 7) % 16 :=
      fun w => IdBits.start_toNat 224#32 w 7#32 (by decide) (by decide)
    have hw : region1.sl.v467 d L k g6 = (a6).view.read (Elt F) g6 (ix1 ⟨128 * 0 + 16 * k.val + 7, h1⟩) := by
      delta_sl [v467, r]
      simp only [LanePayK1.k1_pay36_nf, LanePayK1.k1_pay1_nf, View.readAt_rect]
      exact (LaneLib.extract_lane (((a6).view.slice (Rect.unit (s := S512) (k1_off2 k) S16.size (k1_off2_inb k))).read (Elt F) g6) 7 (by decide) _ _).trans (hid ⟨7, by decide⟩ h1)
    delta_sl [v487, H11_16, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off17 k (region1.sl.v467 d L k g6)) (k1_off18 (region1.sl.v467 d L k g6)) ![224] ![240] _ _ _ _ shapeCasts_S1x16_S16 k.val 7 (region1.sl.v467 d L k g6) _ hk (by decide) (hA0 _) (hA1 _) (hB _) rfl rfl h2 hw
  · rw [LaneSteps.nested16_at_8 _ hiota]
    refine congrArg₂ FloatOps.addf (LaneTrip.chunk_read (a10).view g10 (k1_off2 k) _ hoff _ ⟨8, hj⟩ h1) ?_
    have hA0 : ∀ w : BitVec 32, (k1_off19 k w) 0 = 16 * k.val + 8 := fun w => ChkLib.row_toNat k.val hk 8#32 (by decide)
    have hA1 : ∀ w : BitVec 32, (k1_off19 k w) 1 = ((w &&& 127#32) &&& 112#32).toNat := fun w => rfl
    have hB : ∀ w : BitVec 32, (k1_off20 w) 0 = 32 * 8 + (w.toNat % 16 + 16 - 8) % 16 :=
      fun w => IdBits.start_toNat 256#32 w 8#32 (by decide) (by decide)
    have hw : region1.sl.v496 d L k g6 = (a6).view.read (Elt F) g6 (ix1 ⟨128 * 0 + 16 * k.val + 8, h1⟩) := by
      delta_sl [v496, r]
      simp only [LanePayK1.k1_pay41_nf, LanePayK1.k1_pay1_nf, View.readAt_rect]
      exact (LaneLib.extract_lane (((a6).view.slice (Rect.unit (s := S512) (k1_off2 k) S16.size (k1_off2_inb k))).read (Elt F) g6) 8 (by decide) _ _).trans (hid ⟨8, by decide⟩ h1)
    delta_sl [v516, H11_18, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off19 k (region1.sl.v496 d L k g6)) (k1_off20 (region1.sl.v496 d L k g6)) ![256] ![272] _ _ _ _ shapeCasts_S1x16_S16 k.val 8 (region1.sl.v496 d L k g6) _ hk (by decide) (hA0 _) (hA1 _) (hB _) rfl rfl h2 hw
  · rw [LaneSteps.nested16_at_9 _ hiota]
    refine congrArg₂ FloatOps.addf (LaneTrip.chunk_read (a10).view g10 (k1_off2 k) _ hoff _ ⟨9, hj⟩ h1) ?_
    have hA0 : ∀ w : BitVec 32, (k1_off21 k w) 0 = 16 * k.val + 9 := fun w => ChkLib.row_toNat k.val hk 9#32 (by decide)
    have hA1 : ∀ w : BitVec 32, (k1_off21 k w) 1 = ((w &&& 127#32) &&& 112#32).toNat := fun w => rfl
    have hB : ∀ w : BitVec 32, (k1_off22 w) 0 = 32 * 9 + (w.toNat % 16 + 16 - 9) % 16 :=
      fun w => IdBits.start_toNat 288#32 w 9#32 (by decide) (by decide)
    have hw : region1.sl.v525 d L k g6 = (a6).view.read (Elt F) g6 (ix1 ⟨128 * 0 + 16 * k.val + 9, h1⟩) := by
      delta_sl [v525, r]
      simp only [LanePayK1.k1_pay46_nf, LanePayK1.k1_pay1_nf, View.readAt_rect]
      exact (LaneLib.extract_lane (((a6).view.slice (Rect.unit (s := S512) (k1_off2 k) S16.size (k1_off2_inb k))).read (Elt F) g6) 9 (by decide) _ _).trans (hid ⟨9, by decide⟩ h1)
    delta_sl [v545, H11_20, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off21 k (region1.sl.v525 d L k g6)) (k1_off22 (region1.sl.v525 d L k g6)) ![288] ![304] _ _ _ _ shapeCasts_S1x16_S16 k.val 9 (region1.sl.v525 d L k g6) _ hk (by decide) (hA0 _) (hA1 _) (hB _) rfl rfl h2 hw
  · rw [LaneSteps.nested16_at_10 _ hiota]
    refine congrArg₂ FloatOps.addf (LaneTrip.chunk_read (a10).view g10 (k1_off2 k) _ hoff _ ⟨10, hj⟩ h1) ?_
    have hA0 : ∀ w : BitVec 32, (k1_off23 k w) 0 = 16 * k.val + 10 := fun w => ChkLib.row_toNat k.val hk 10#32 (by decide)
    have hA1 : ∀ w : BitVec 32, (k1_off23 k w) 1 = ((w &&& 127#32) &&& 112#32).toNat := fun w => rfl
    have hB : ∀ w : BitVec 32, (k1_off24 w) 0 = 32 * 10 + (w.toNat % 16 + 16 - 10) % 16 :=
      fun w => IdBits.start_toNat 320#32 w 10#32 (by decide) (by decide)
    have hw : region1.sl.v554 d L k g6 = (a6).view.read (Elt F) g6 (ix1 ⟨128 * 0 + 16 * k.val + 10, h1⟩) := by
      delta_sl [v554, r]
      simp only [LanePayK1.k1_pay51_nf, LanePayK1.k1_pay1_nf, View.readAt_rect]
      exact (LaneLib.extract_lane (((a6).view.slice (Rect.unit (s := S512) (k1_off2 k) S16.size (k1_off2_inb k))).read (Elt F) g6) 10 (by decide) _ _).trans (hid ⟨10, by decide⟩ h1)
    delta_sl [v574, H11_22, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off23 k (region1.sl.v554 d L k g6)) (k1_off24 (region1.sl.v554 d L k g6)) ![320] ![336] _ _ _ _ shapeCasts_S1x16_S16 k.val 10 (region1.sl.v554 d L k g6) _ hk (by decide) (hA0 _) (hA1 _) (hB _) rfl rfl h2 hw
  · rw [LaneSteps.nested16_at_11 _ hiota]
    refine congrArg₂ FloatOps.addf (LaneTrip.chunk_read (a10).view g10 (k1_off2 k) _ hoff _ ⟨11, hj⟩ h1) ?_
    have hA0 : ∀ w : BitVec 32, (k1_off25 k w) 0 = 16 * k.val + 11 := fun w => ChkLib.row_toNat k.val hk 11#32 (by decide)
    have hA1 : ∀ w : BitVec 32, (k1_off25 k w) 1 = ((w &&& 127#32) &&& 112#32).toNat := fun w => rfl
    have hB : ∀ w : BitVec 32, (k1_off26 w) 0 = 32 * 11 + (w.toNat % 16 + 16 - 11) % 16 :=
      fun w => IdBits.start_toNat 352#32 w 11#32 (by decide) (by decide)
    have hw : region1.sl.v583 d L k g6 = (a6).view.read (Elt F) g6 (ix1 ⟨128 * 0 + 16 * k.val + 11, h1⟩) := by
      delta_sl [v583, r]
      simp only [LanePayK1.k1_pay55_nf, LanePayK1.k1_pay1_nf, View.readAt_rect]
      exact (LaneLib.extract_lane (((a6).view.slice (Rect.unit (s := S512) (k1_off2 k) S16.size (k1_off2_inb k))).read (Elt F) g6) 11 (by decide) _ _).trans (hid ⟨11, by decide⟩ h1)
    delta_sl [v603, H11_24, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off25 k (region1.sl.v583 d L k g6)) (k1_off26 (region1.sl.v583 d L k g6)) ![352] ![368] _ _ _ _ shapeCasts_S1x16_S16 k.val 11 (region1.sl.v583 d L k g6) _ hk (by decide) (hA0 _) (hA1 _) (hB _) rfl rfl h2 hw
  · rw [LaneSteps.nested16_at_12 _ hiota]
    refine congrArg₂ FloatOps.addf (LaneTrip.chunk_read (a10).view g10 (k1_off2 k) _ hoff _ ⟨12, hj⟩ h1) ?_
    have hA0 : ∀ w : BitVec 32, (k1_off27 k w) 0 = 16 * k.val + 12 := fun w => ChkLib.row_toNat k.val hk 12#32 (by decide)
    have hA1 : ∀ w : BitVec 32, (k1_off27 k w) 1 = ((w &&& 127#32) &&& 112#32).toNat := fun w => rfl
    have hB : ∀ w : BitVec 32, (k1_off28 w) 0 = 32 * 12 + (w.toNat % 16 + 16 - 12) % 16 :=
      fun w => IdBits.start_toNat 384#32 w 12#32 (by decide) (by decide)
    have hw : region1.sl.v612 d L k g6 = (a6).view.read (Elt F) g6 (ix1 ⟨128 * 0 + 16 * k.val + 12, h1⟩) := by
      delta_sl [v612, r]
      simp only [LanePayK1.k1_pay60_nf, LanePayK1.k1_pay1_nf, View.readAt_rect]
      exact (LaneLib.extract_lane (((a6).view.slice (Rect.unit (s := S512) (k1_off2 k) S16.size (k1_off2_inb k))).read (Elt F) g6) 12 (by decide) _ _).trans (hid ⟨12, by decide⟩ h1)
    delta_sl [v632, H11_26, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off27 k (region1.sl.v612 d L k g6)) (k1_off28 (region1.sl.v612 d L k g6)) ![384] ![400] _ _ _ _ shapeCasts_S1x16_S16 k.val 12 (region1.sl.v612 d L k g6) _ hk (by decide) (hA0 _) (hA1 _) (hB _) rfl rfl h2 hw
  · rw [LaneSteps.nested16_at_13 _ hiota]
    refine congrArg₂ FloatOps.addf (LaneTrip.chunk_read (a10).view g10 (k1_off2 k) _ hoff _ ⟨13, hj⟩ h1) ?_
    have hA0 : ∀ w : BitVec 32, (k1_off29 k w) 0 = 16 * k.val + 13 := fun w => ChkLib.row_toNat k.val hk 13#32 (by decide)
    have hA1 : ∀ w : BitVec 32, (k1_off29 k w) 1 = ((w &&& 127#32) &&& 112#32).toNat := fun w => rfl
    have hB : ∀ w : BitVec 32, (k1_off30 w) 0 = 32 * 13 + (w.toNat % 16 + 16 - 13) % 16 :=
      fun w => IdBits.start_toNat 416#32 w 13#32 (by decide) (by decide)
    have hw : region1.sl.v641 d L k g6 = (a6).view.read (Elt F) g6 (ix1 ⟨128 * 0 + 16 * k.val + 13, h1⟩) := by
      delta_sl [v641, r]
      simp only [LanePayK1.k1_pay65_nf, LanePayK1.k1_pay1_nf, View.readAt_rect]
      exact (LaneLib.extract_lane (((a6).view.slice (Rect.unit (s := S512) (k1_off2 k) S16.size (k1_off2_inb k))).read (Elt F) g6) 13 (by decide) _ _).trans (hid ⟨13, by decide⟩ h1)
    delta_sl [v661, H11_28, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off29 k (region1.sl.v641 d L k g6)) (k1_off30 (region1.sl.v641 d L k g6)) ![416] ![432] _ _ _ _ shapeCasts_S1x16_S16 k.val 13 (region1.sl.v641 d L k g6) _ hk (by decide) (hA0 _) (hA1 _) (hB _) rfl rfl h2 hw
  · rw [LaneSteps.nested16_at_14 _ hiota]
    refine congrArg₂ FloatOps.addf (LaneTrip.chunk_read (a10).view g10 (k1_off2 k) _ hoff _ ⟨14, hj⟩ h1) ?_
    have hA0 : ∀ w : BitVec 32, (k1_off31 k w) 0 = 16 * k.val + 14 := fun w => ChkLib.row_toNat k.val hk 14#32 (by decide)
    have hA1 : ∀ w : BitVec 32, (k1_off31 k w) 1 = ((w &&& 127#32) &&& 112#32).toNat := fun w => rfl
    have hB : ∀ w : BitVec 32, (k1_off32 w) 0 = 32 * 14 + (w.toNat % 16 + 16 - 14) % 16 :=
      fun w => IdBits.start_toNat 448#32 w 14#32 (by decide) (by decide)
    have hw : region1.sl.v670 d L k g6 = (a6).view.read (Elt F) g6 (ix1 ⟨128 * 0 + 16 * k.val + 14, h1⟩) := by
      delta_sl [v670, r]
      simp only [LanePayK1.k1_pay70_nf, LanePayK1.k1_pay1_nf, View.readAt_rect]
      exact (LaneLib.extract_lane (((a6).view.slice (Rect.unit (s := S512) (k1_off2 k) S16.size (k1_off2_inb k))).read (Elt F) g6) 14 (by decide) _ _).trans (hid ⟨14, by decide⟩ h1)
    delta_sl [v690, H11_30, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off31 k (region1.sl.v670 d L k g6)) (k1_off32 (region1.sl.v670 d L k g6)) ![448] ![464] _ _ _ _ shapeCasts_S1x16_S16 k.val 14 (region1.sl.v670 d L k g6) _ hk (by decide) (hA0 _) (hA1 _) (hB _) rfl rfl h2 hw
  · rw [LaneSteps.nested16_at_15 _ hiota]
    refine congrArg₂ FloatOps.addf (LaneTrip.chunk_read (a10).view g10 (k1_off2 k) _ hoff _ ⟨15, hj⟩ h1) ?_
    have hA0 : ∀ w : BitVec 32, (k1_off33 k w) 0 = 16 * k.val + 15 := fun w => ChkLib.row_toNat k.val hk 15#32 (by decide)
    have hA1 : ∀ w : BitVec 32, (k1_off33 k w) 1 = ((w &&& 127#32) &&& 112#32).toNat := fun w => rfl
    have hB : ∀ w : BitVec 32, (k1_off34 w) 0 = 32 * 15 + (w.toNat % 16 + 16 - 15) % 16 :=
      fun w => IdBits.start_toNat 480#32 w 15#32 (by decide) (by decide)
    have hw : region1.sl.v699 d L k g6 = (a6).view.read (Elt F) g6 (ix1 ⟨128 * 0 + 16 * k.val + 15, h1⟩) := by
      delta_sl [v699, r]
      simp only [LanePayK1.k1_pay74_nf, LanePayK1.k1_pay1_nf, View.readAt_rect]
      exact (LaneLib.extract_lane (((a6).view.slice (Rect.unit (s := S512) (k1_off2 k) S16.size (k1_off2_inb k))).read (Elt F) g6) 15 (by decide) _ _).trans (hid ⟨15, by decide⟩ h1)
    delta_sl [v719, H11_32, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off33 k (region1.sl.v699 d L k g6)) (k1_off34 (region1.sl.v699 d L k g6)) ![480] ![496] _ _ _ _ shapeCasts_S1x16_S16 k.val 15 (region1.sl.v699 d L k g6) _ hk (by decide) (hA0 _) (hA1 _) (hB _) rfl rfl h2 hw

set_option maxHeartbeats 4000000 in
/-- Trip `k` of chunk 1's loop: the ids, the base values and the gathered rows are read only; the trip stores its sixteen
    results, each the base value plus the gathered row's entry at the id's lane. -/
theorem region2 (hchk : ChkAll) (k : Fin k1_t2_loop.trips) (acc : BitVec 32)
    (g6 : Buf (Elt F) ((a6).view.loc (V d (cV L) (jV L)))) (g10 : Buf (Elt F) ((a10).view.loc (V d (cV L) (jV L)))) (gB : Buf (Elt F) ((a9).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a9).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k1_t2_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a9).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k1_off69 k) S16.size (k1_off69_inb k), v⟩])
                ∗ ⌜LaneOK 1 k.val ((a6).view.read (Elt F) g6) ((a10).view.read (Elt F) g10) ((a9).view.read (Elt F) gB) v⌝) := by
  iintro ⟨H6, H10, HB, H11, H12⟩
  sl_exec (disch := first | sl_exact (hchk.h17 _ _) | sl_exact (hchk.h18 _ _) | sl_exact (hchk.h19 _ _) | sl_exact (hchk.h20 _ _) | sl_exact (hchk.h21 _ _) | sl_exact (hchk.h22 _ _) | sl_exact (hchk.h23 _ _) | sl_exact (hchk.h24 _ _) | sl_exact (hchk.h25 _ _) | sl_exact (hchk.h26 _ _) | sl_exact (hchk.h27 _ _) | sl_exact (hchk.h28 _ _) | sl_exact (hchk.h29 _ _) | sl_exact (hchk.h30 _ _) | sl_exact (hchk.h31 _ _) | sl_exact (hchk.h32 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k1_t2_abs.2.1
  have hoff : (k1_off36 k) 0 = 128 * 1 + 16 * k.val := by
    rw [k1_off36_eq]
    show 16 * k.val + 128 = 128 * 1 + 16 * k.val
    omega
  have hid : ∀ (j : Fin 16) (h : 128 * 1 + 16 * k.val + j.val < 512),
      (((a6).view.slice (Rect.unit (s := S512) (k1_off36 k) S16.size (k1_off36_inb k))).read (Elt F) g6) (ix1 j) = (a6).view.read (Elt F) g6 (ix1 ⟨128 * 1 + 16 * k.val + j.val, h⟩) :=
    fun j h => LaneTrip.chunk_read (a6).view g6 (k1_off36 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
  obtain ⟨j, hj⟩ := l
  interval_cases j
  · rw [LaneSteps.nested16_at_0 _ hiota]
    refine congrArg₂ FloatOps.addf (LaneTrip.chunk_read (a10).view g10 (k1_off36 k) _ hoff _ ⟨0, hj⟩ h1) ?_
    have hA0 : ∀ w : BitVec 32, (k1_off37 k w) 0 = 16 * k.val + 0 := fun w => ChkLib.row_toNat k.val hk 0#32 (by decide)
    have hA1 : ∀ w : BitVec 32, (k1_off37 k w) 1 = ((w &&& 127#32) &&& 112#32).toNat := fun w => rfl
    have hB : ∀ w : BitVec 32, (k1_off38 w) 0 = 32 * 0 + (w.toNat % 16 + 16 - 0) % 16 :=
      fun w => IdBits.start_toNat 0#32 w 0#32 (by decide) (by decide)
    have hw : region2.sl.v264 d L k g6 = (a6).view.read (Elt F) g6 (ix1 ⟨128 * 1 + 16 * k.val + 0, h1⟩) := by
      delta_sl [v264]
      simp only [LanePayK1.k1_pay80_nf, LanePayK1.k1_pay79_nf, View.readAt_rect]
      exact (LaneLib.extract_lane (((a6).view.slice (Rect.unit (s := S512) (k1_off36 k) S16.size (k1_off36_inb k))).read (Elt F) g6) 0 (by decide) _ _).trans (hid ⟨0, by decide⟩ h1)
    delta_sl [v284, H11_2, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off37 k (region2.sl.v264 d L k g6)) (k1_off38 (region2.sl.v264 d L k g6)) ![0] ![16] _ _ _ _ shapeCasts_S1x16_S16 k.val 0 (region2.sl.v264 d L k g6) _ hk (by decide) (hA0 _) (hA1 _) (hB _) rfl rfl h2 hw
  · rw [LaneSteps.nested16_at_1 _ hiota]
    refine congrArg₂ FloatOps.addf (LaneTrip.chunk_read (a10).view g10 (k1_off36 k) _ hoff _ ⟨1, hj⟩ h1) ?_
    have hA0 : ∀ w : BitVec 32, (k1_off39 k w) 0 = 16 * k.val + 1 := fun w => ChkLib.row_toNat k.val hk 1#32 (by decide)
    have hA1 : ∀ w : BitVec 32, (k1_off39 k w) 1 = ((w &&& 127#32) &&& 112#32).toNat := fun w => rfl
    have hB : ∀ w : BitVec 32, (k1_off40 w) 0 = 32 * 1 + (w.toNat % 16 + 16 - 1) % 16 :=
      fun w => IdBits.start_toNat 32#32 w 1#32 (by decide) (by decide)
    have hw : region2.sl.v293 d L k g6 = (a6).view.read (Elt F) g6 (ix1 ⟨128 * 1 + 16 * k.val + 1, h1⟩) := by
      delta_sl [v293, r]
      simp only [LanePayK1.k1_pay85_nf, LanePayK1.k1_pay79_nf, View.readAt_rect]
      exact (LaneLib.extract_lane (((a6).view.slice (Rect.unit (s := S512) (k1_off36 k) S16.size (k1_off36_inb k))).read (Elt F) g6) 1 (by decide) _ _).trans (hid ⟨1, by decide⟩ h1)
    delta_sl [v313, H11_4, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off39 k (region2.sl.v293 d L k g6)) (k1_off40 (region2.sl.v293 d L k g6)) ![32] ![48] _ _ _ _ shapeCasts_S1x16_S16 k.val 1 (region2.sl.v293 d L k g6) _ hk (by decide) (hA0 _) (hA1 _) (hB _) rfl rfl h2 hw
  · rw [LaneSteps.nested16_at_2 _ hiota]
    refine congrArg₂ FloatOps.addf (LaneTrip.chunk_read (a10).view g10 (k1_off36 k) _ hoff _ ⟨2, hj⟩ h1) ?_
    have hA0 : ∀ w : BitVec 32, (k1_off41 k w) 0 = 16 * k.val + 2 := fun w => ChkLib.row_toNat k.val hk 2#32 (by decide)
    have hA1 : ∀ w : BitVec 32, (k1_off41 k w) 1 = ((w &&& 127#32) &&& 112#32).toNat := fun w => rfl
    have hB : ∀ w : BitVec 32, (k1_off42 w) 0 = 32 * 2 + (w.toNat % 16 + 16 - 2) % 16 :=
      fun w => IdBits.start_toNat 64#32 w 2#32 (by decide) (by decide)
    have hw : region2.sl.v322 d L k g6 = (a6).view.read (Elt F) g6 (ix1 ⟨128 * 1 + 16 * k.val + 2, h1⟩) := by
      delta_sl [v322, r]
      simp only [LanePayK1.k1_pay90_nf, LanePayK1.k1_pay79_nf, View.readAt_rect]
      exact (LaneLib.extract_lane (((a6).view.slice (Rect.unit (s := S512) (k1_off36 k) S16.size (k1_off36_inb k))).read (Elt F) g6) 2 (by decide) _ _).trans (hid ⟨2, by decide⟩ h1)
    delta_sl [v342, H11_6, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off41 k (region2.sl.v322 d L k g6)) (k1_off42 (region2.sl.v322 d L k g6)) ![64] ![80] _ _ _ _ shapeCasts_S1x16_S16 k.val 2 (region2.sl.v322 d L k g6) _ hk (by decide) (hA0 _) (hA1 _) (hB _) rfl rfl h2 hw
  · rw [LaneSteps.nested16_at_3 _ hiota]
    refine congrArg₂ FloatOps.addf (LaneTrip.chunk_read (a10).view g10 (k1_off36 k) _ hoff _ ⟨3, hj⟩ h1) ?_
    have hA0 : ∀ w : BitVec 32, (k1_off43 k w) 0 = 16 * k.val + 3 := fun w => ChkLib.row_toNat k.val hk 3#32 (by decide)
    have hA1 : ∀ w : BitVec 32, (k1_off43 k w) 1 = ((w &&& 127#32) &&& 112#32).toNat := fun w => rfl
    have hB : ∀ w : BitVec 32, (k1_off44 w) 0 = 32 * 3 + (w.toNat % 16 + 16 - 3) % 16 :=
      fun w => IdBits.start_toNat 96#32 w 3#32 (by decide) (by decide)
    have hw : region2.sl.v351 d L k g6 = (a6).view.read (Elt F) g6 (ix1 ⟨128 * 1 + 16 * k.val + 3, h1⟩) := by
      delta_sl [v351, r]
      simp only [LanePayK1.k1_pay95_nf, LanePayK1.k1_pay79_nf, View.readAt_rect]
      exact (LaneLib.extract_lane (((a6).view.slice (Rect.unit (s := S512) (k1_off36 k) S16.size (k1_off36_inb k))).read (Elt F) g6) 3 (by decide) _ _).trans (hid ⟨3, by decide⟩ h1)
    delta_sl [v371, H11_8, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off43 k (region2.sl.v351 d L k g6)) (k1_off44 (region2.sl.v351 d L k g6)) ![96] ![112] _ _ _ _ shapeCasts_S1x16_S16 k.val 3 (region2.sl.v351 d L k g6) _ hk (by decide) (hA0 _) (hA1 _) (hB _) rfl rfl h2 hw
  · rw [LaneSteps.nested16_at_4 _ hiota]
    refine congrArg₂ FloatOps.addf (LaneTrip.chunk_read (a10).view g10 (k1_off36 k) _ hoff _ ⟨4, hj⟩ h1) ?_
    have hA0 : ∀ w : BitVec 32, (k1_off45 k w) 0 = 16 * k.val + 4 := fun w => ChkLib.row_toNat k.val hk 4#32 (by decide)
    have hA1 : ∀ w : BitVec 32, (k1_off45 k w) 1 = ((w &&& 127#32) &&& 112#32).toNat := fun w => rfl
    have hB : ∀ w : BitVec 32, (k1_off46 w) 0 = 32 * 4 + (w.toNat % 16 + 16 - 4) % 16 :=
      fun w => IdBits.start_toNat 128#32 w 4#32 (by decide) (by decide)
    have hw : region2.sl.v380 d L k g6 = (a6).view.read (Elt F) g6 (ix1 ⟨128 * 1 + 16 * k.val + 4, h1⟩) := by
      delta_sl [v380, r]
      simp only [LanePayK1.k1_pay99_nf, LanePayK1.k1_pay79_nf, View.readAt_rect]
      exact (LaneLib.extract_lane (((a6).view.slice (Rect.unit (s := S512) (k1_off36 k) S16.size (k1_off36_inb k))).read (Elt F) g6) 4 (by decide) _ _).trans (hid ⟨4, by decide⟩ h1)
    delta_sl [v400, H11_10, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off45 k (region2.sl.v380 d L k g6)) (k1_off46 (region2.sl.v380 d L k g6)) ![128] ![144] _ _ _ _ shapeCasts_S1x16_S16 k.val 4 (region2.sl.v380 d L k g6) _ hk (by decide) (hA0 _) (hA1 _) (hB _) rfl rfl h2 hw
  · rw [LaneSteps.nested16_at_5 _ hiota]
    refine congrArg₂ FloatOps.addf (LaneTrip.chunk_read (a10).view g10 (k1_off36 k) _ hoff _ ⟨5, hj⟩ h1) ?_
    have hA0 : ∀ w : BitVec 32, (k1_off47 k w) 0 = 16 * k.val + 5 := fun w => ChkLib.row_toNat k.val hk 5#32 (by decide)
    have hA1 : ∀ w : BitVec 32, (k1_off47 k w) 1 = ((w &&& 127#32) &&& 112#32).toNat := fun w => rfl
    have hB : ∀ w : BitVec 32, (k1_off48 w) 0 = 32 * 5 + (w.toNat % 16 + 16 - 5) % 16 :=
      fun w => IdBits.start_toNat 160#32 w 5#32 (by decide) (by decide)
    have hw : region2.sl.v409 d L k g6 = (a6).view.read (Elt F) g6 (ix1 ⟨128 * 1 + 16 * k.val + 5, h1⟩) := by
      delta_sl [v409, r]
      simp only [LanePayK1.k1_pay104_nf, LanePayK1.k1_pay79_nf, View.readAt_rect]
      exact (LaneLib.extract_lane (((a6).view.slice (Rect.unit (s := S512) (k1_off36 k) S16.size (k1_off36_inb k))).read (Elt F) g6) 5 (by decide) _ _).trans (hid ⟨5, by decide⟩ h1)
    delta_sl [v429, H11_12, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off47 k (region2.sl.v409 d L k g6)) (k1_off48 (region2.sl.v409 d L k g6)) ![160] ![176] _ _ _ _ shapeCasts_S1x16_S16 k.val 5 (region2.sl.v409 d L k g6) _ hk (by decide) (hA0 _) (hA1 _) (hB _) rfl rfl h2 hw
  · rw [LaneSteps.nested16_at_6 _ hiota]
    refine congrArg₂ FloatOps.addf (LaneTrip.chunk_read (a10).view g10 (k1_off36 k) _ hoff _ ⟨6, hj⟩ h1) ?_
    have hA0 : ∀ w : BitVec 32, (k1_off49 k w) 0 = 16 * k.val + 6 := fun w => ChkLib.row_toNat k.val hk 6#32 (by decide)
    have hA1 : ∀ w : BitVec 32, (k1_off49 k w) 1 = ((w &&& 127#32) &&& 112#32).toNat := fun w => rfl
    have hB : ∀ w : BitVec 32, (k1_off50 w) 0 = 32 * 6 + (w.toNat % 16 + 16 - 6) % 16 :=
      fun w => IdBits.start_toNat 192#32 w 6#32 (by decide) (by decide)
    have hw : region2.sl.v438 d L k g6 = (a6).view.read (Elt F) g6 (ix1 ⟨128 * 1 + 16 * k.val + 6, h1⟩) := by
      delta_sl [v438, r]
      simp only [LanePayK1.k1_pay109_nf, LanePayK1.k1_pay79_nf, View.readAt_rect]
      exact (LaneLib.extract_lane (((a6).view.slice (Rect.unit (s := S512) (k1_off36 k) S16.size (k1_off36_inb k))).read (Elt F) g6) 6 (by decide) _ _).trans (hid ⟨6, by decide⟩ h1)
    delta_sl [v458, H11_14, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off49 k (region2.sl.v438 d L k g6)) (k1_off50 (region2.sl.v438 d L k g6)) ![192] ![208] _ _ _ _ shapeCasts_S1x16_S16 k.val 6 (region2.sl.v438 d L k g6) _ hk (by decide) (hA0 _) (hA1 _) (hB _) rfl rfl h2 hw
  · rw [LaneSteps.nested16_at_7 _ hiota]
    refine congrArg₂ FloatOps.addf (LaneTrip.chunk_read (a10).view g10 (k1_off36 k) _ hoff _ ⟨7, hj⟩ h1) ?_
    have hA0 : ∀ w : BitVec 32, (k1_off51 k w) 0 = 16 * k.val + 7 := fun w => ChkLib.row_toNat k.val hk 7#32 (by decide)
    have hA1 : ∀ w : BitVec 32, (k1_off51 k w) 1 = ((w &&& 127#32) &&& 112#32).toNat := fun w => rfl
    have hB : ∀ w : BitVec 32, (k1_off52 w) 0 = 32 * 7 + (w.toNat % 16 + 16 - 7) % 16 :=
      fun w => IdBits.start_toNat 224#32 w 7#32 (by decide) (by decide)
    have hw : region2.sl.v467 d L k g6 = (a6).view.read (Elt F) g6 (ix1 ⟨128 * 1 + 16 * k.val + 7, h1⟩) := by
      delta_sl [v467, r]
      simp only [LanePayK1.k1_pay114_nf, LanePayK1.k1_pay79_nf, View.readAt_rect]
      exact (LaneLib.extract_lane (((a6).view.slice (Rect.unit (s := S512) (k1_off36 k) S16.size (k1_off36_inb k))).read (Elt F) g6) 7 (by decide) _ _).trans (hid ⟨7, by decide⟩ h1)
    delta_sl [v487, H11_16, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off51 k (region2.sl.v467 d L k g6)) (k1_off52 (region2.sl.v467 d L k g6)) ![224] ![240] _ _ _ _ shapeCasts_S1x16_S16 k.val 7 (region2.sl.v467 d L k g6) _ hk (by decide) (hA0 _) (hA1 _) (hB _) rfl rfl h2 hw
  · rw [LaneSteps.nested16_at_8 _ hiota]
    refine congrArg₂ FloatOps.addf (LaneTrip.chunk_read (a10).view g10 (k1_off36 k) _ hoff _ ⟨8, hj⟩ h1) ?_
    have hA0 : ∀ w : BitVec 32, (k1_off53 k w) 0 = 16 * k.val + 8 := fun w => ChkLib.row_toNat k.val hk 8#32 (by decide)
    have hA1 : ∀ w : BitVec 32, (k1_off53 k w) 1 = ((w &&& 127#32) &&& 112#32).toNat := fun w => rfl
    have hB : ∀ w : BitVec 32, (k1_off54 w) 0 = 32 * 8 + (w.toNat % 16 + 16 - 8) % 16 :=
      fun w => IdBits.start_toNat 256#32 w 8#32 (by decide) (by decide)
    have hw : region2.sl.v496 d L k g6 = (a6).view.read (Elt F) g6 (ix1 ⟨128 * 1 + 16 * k.val + 8, h1⟩) := by
      delta_sl [v496, r]
      simp only [LanePayK1.k1_pay119_nf, LanePayK1.k1_pay79_nf, View.readAt_rect]
      exact (LaneLib.extract_lane (((a6).view.slice (Rect.unit (s := S512) (k1_off36 k) S16.size (k1_off36_inb k))).read (Elt F) g6) 8 (by decide) _ _).trans (hid ⟨8, by decide⟩ h1)
    delta_sl [v516, H11_18, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off53 k (region2.sl.v496 d L k g6)) (k1_off54 (region2.sl.v496 d L k g6)) ![256] ![272] _ _ _ _ shapeCasts_S1x16_S16 k.val 8 (region2.sl.v496 d L k g6) _ hk (by decide) (hA0 _) (hA1 _) (hB _) rfl rfl h2 hw
  · rw [LaneSteps.nested16_at_9 _ hiota]
    refine congrArg₂ FloatOps.addf (LaneTrip.chunk_read (a10).view g10 (k1_off36 k) _ hoff _ ⟨9, hj⟩ h1) ?_
    have hA0 : ∀ w : BitVec 32, (k1_off55 k w) 0 = 16 * k.val + 9 := fun w => ChkLib.row_toNat k.val hk 9#32 (by decide)
    have hA1 : ∀ w : BitVec 32, (k1_off55 k w) 1 = ((w &&& 127#32) &&& 112#32).toNat := fun w => rfl
    have hB : ∀ w : BitVec 32, (k1_off56 w) 0 = 32 * 9 + (w.toNat % 16 + 16 - 9) % 16 :=
      fun w => IdBits.start_toNat 288#32 w 9#32 (by decide) (by decide)
    have hw : region2.sl.v525 d L k g6 = (a6).view.read (Elt F) g6 (ix1 ⟨128 * 1 + 16 * k.val + 9, h1⟩) := by
      delta_sl [v525, r]
      simp only [LanePayK1.k1_pay124_nf, LanePayK1.k1_pay79_nf, View.readAt_rect]
      exact (LaneLib.extract_lane (((a6).view.slice (Rect.unit (s := S512) (k1_off36 k) S16.size (k1_off36_inb k))).read (Elt F) g6) 9 (by decide) _ _).trans (hid ⟨9, by decide⟩ h1)
    delta_sl [v545, H11_20, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off55 k (region2.sl.v525 d L k g6)) (k1_off56 (region2.sl.v525 d L k g6)) ![288] ![304] _ _ _ _ shapeCasts_S1x16_S16 k.val 9 (region2.sl.v525 d L k g6) _ hk (by decide) (hA0 _) (hA1 _) (hB _) rfl rfl h2 hw
  · rw [LaneSteps.nested16_at_10 _ hiota]
    refine congrArg₂ FloatOps.addf (LaneTrip.chunk_read (a10).view g10 (k1_off36 k) _ hoff _ ⟨10, hj⟩ h1) ?_
    have hA0 : ∀ w : BitVec 32, (k1_off57 k w) 0 = 16 * k.val + 10 := fun w => ChkLib.row_toNat k.val hk 10#32 (by decide)
    have hA1 : ∀ w : BitVec 32, (k1_off57 k w) 1 = ((w &&& 127#32) &&& 112#32).toNat := fun w => rfl
    have hB : ∀ w : BitVec 32, (k1_off58 w) 0 = 32 * 10 + (w.toNat % 16 + 16 - 10) % 16 :=
      fun w => IdBits.start_toNat 320#32 w 10#32 (by decide) (by decide)
    have hw : region2.sl.v554 d L k g6 = (a6).view.read (Elt F) g6 (ix1 ⟨128 * 1 + 16 * k.val + 10, h1⟩) := by
      delta_sl [v554, r]
      simp only [LanePayK1.k1_pay129_nf, LanePayK1.k1_pay79_nf, View.readAt_rect]
      exact (LaneLib.extract_lane (((a6).view.slice (Rect.unit (s := S512) (k1_off36 k) S16.size (k1_off36_inb k))).read (Elt F) g6) 10 (by decide) _ _).trans (hid ⟨10, by decide⟩ h1)
    delta_sl [v574, H11_22, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off57 k (region2.sl.v554 d L k g6)) (k1_off58 (region2.sl.v554 d L k g6)) ![320] ![336] _ _ _ _ shapeCasts_S1x16_S16 k.val 10 (region2.sl.v554 d L k g6) _ hk (by decide) (hA0 _) (hA1 _) (hB _) rfl rfl h2 hw
  · rw [LaneSteps.nested16_at_11 _ hiota]
    refine congrArg₂ FloatOps.addf (LaneTrip.chunk_read (a10).view g10 (k1_off36 k) _ hoff _ ⟨11, hj⟩ h1) ?_
    have hA0 : ∀ w : BitVec 32, (k1_off59 k w) 0 = 16 * k.val + 11 := fun w => ChkLib.row_toNat k.val hk 11#32 (by decide)
    have hA1 : ∀ w : BitVec 32, (k1_off59 k w) 1 = ((w &&& 127#32) &&& 112#32).toNat := fun w => rfl
    have hB : ∀ w : BitVec 32, (k1_off60 w) 0 = 32 * 11 + (w.toNat % 16 + 16 - 11) % 16 :=
      fun w => IdBits.start_toNat 352#32 w 11#32 (by decide) (by decide)
    have hw : region2.sl.v583 d L k g6 = (a6).view.read (Elt F) g6 (ix1 ⟨128 * 1 + 16 * k.val + 11, h1⟩) := by
      delta_sl [v583, r]
      simp only [LanePayK1.k1_pay133_nf, LanePayK1.k1_pay79_nf, View.readAt_rect]
      exact (LaneLib.extract_lane (((a6).view.slice (Rect.unit (s := S512) (k1_off36 k) S16.size (k1_off36_inb k))).read (Elt F) g6) 11 (by decide) _ _).trans (hid ⟨11, by decide⟩ h1)
    delta_sl [v603, H11_24, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off59 k (region2.sl.v583 d L k g6)) (k1_off60 (region2.sl.v583 d L k g6)) ![352] ![368] _ _ _ _ shapeCasts_S1x16_S16 k.val 11 (region2.sl.v583 d L k g6) _ hk (by decide) (hA0 _) (hA1 _) (hB _) rfl rfl h2 hw
  · rw [LaneSteps.nested16_at_12 _ hiota]
    refine congrArg₂ FloatOps.addf (LaneTrip.chunk_read (a10).view g10 (k1_off36 k) _ hoff _ ⟨12, hj⟩ h1) ?_
    have hA0 : ∀ w : BitVec 32, (k1_off61 k w) 0 = 16 * k.val + 12 := fun w => ChkLib.row_toNat k.val hk 12#32 (by decide)
    have hA1 : ∀ w : BitVec 32, (k1_off61 k w) 1 = ((w &&& 127#32) &&& 112#32).toNat := fun w => rfl
    have hB : ∀ w : BitVec 32, (k1_off62 w) 0 = 32 * 12 + (w.toNat % 16 + 16 - 12) % 16 :=
      fun w => IdBits.start_toNat 384#32 w 12#32 (by decide) (by decide)
    have hw : region2.sl.v612 d L k g6 = (a6).view.read (Elt F) g6 (ix1 ⟨128 * 1 + 16 * k.val + 12, h1⟩) := by
      delta_sl [v612, r]
      simp only [LanePayK1.k1_pay138_nf, LanePayK1.k1_pay79_nf, View.readAt_rect]
      exact (LaneLib.extract_lane (((a6).view.slice (Rect.unit (s := S512) (k1_off36 k) S16.size (k1_off36_inb k))).read (Elt F) g6) 12 (by decide) _ _).trans (hid ⟨12, by decide⟩ h1)
    delta_sl [v632, H11_26, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off61 k (region2.sl.v612 d L k g6)) (k1_off62 (region2.sl.v612 d L k g6)) ![384] ![400] _ _ _ _ shapeCasts_S1x16_S16 k.val 12 (region2.sl.v612 d L k g6) _ hk (by decide) (hA0 _) (hA1 _) (hB _) rfl rfl h2 hw
  · rw [LaneSteps.nested16_at_13 _ hiota]
    refine congrArg₂ FloatOps.addf (LaneTrip.chunk_read (a10).view g10 (k1_off36 k) _ hoff _ ⟨13, hj⟩ h1) ?_
    have hA0 : ∀ w : BitVec 32, (k1_off63 k w) 0 = 16 * k.val + 13 := fun w => ChkLib.row_toNat k.val hk 13#32 (by decide)
    have hA1 : ∀ w : BitVec 32, (k1_off63 k w) 1 = ((w &&& 127#32) &&& 112#32).toNat := fun w => rfl
    have hB : ∀ w : BitVec 32, (k1_off64 w) 0 = 32 * 13 + (w.toNat % 16 + 16 - 13) % 16 :=
      fun w => IdBits.start_toNat 416#32 w 13#32 (by decide) (by decide)
    have hw : region2.sl.v641 d L k g6 = (a6).view.read (Elt F) g6 (ix1 ⟨128 * 1 + 16 * k.val + 13, h1⟩) := by
      delta_sl [v641, r]
      simp only [LanePayK1.k1_pay143_nf, LanePayK1.k1_pay79_nf, View.readAt_rect]
      exact (LaneLib.extract_lane (((a6).view.slice (Rect.unit (s := S512) (k1_off36 k) S16.size (k1_off36_inb k))).read (Elt F) g6) 13 (by decide) _ _).trans (hid ⟨13, by decide⟩ h1)
    delta_sl [v661, H11_28, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off63 k (region2.sl.v641 d L k g6)) (k1_off64 (region2.sl.v641 d L k g6)) ![416] ![432] _ _ _ _ shapeCasts_S1x16_S16 k.val 13 (region2.sl.v641 d L k g6) _ hk (by decide) (hA0 _) (hA1 _) (hB _) rfl rfl h2 hw
  · rw [LaneSteps.nested16_at_14 _ hiota]
    refine congrArg₂ FloatOps.addf (LaneTrip.chunk_read (a10).view g10 (k1_off36 k) _ hoff _ ⟨14, hj⟩ h1) ?_
    have hA0 : ∀ w : BitVec 32, (k1_off65 k w) 0 = 16 * k.val + 14 := fun w => ChkLib.row_toNat k.val hk 14#32 (by decide)
    have hA1 : ∀ w : BitVec 32, (k1_off65 k w) 1 = ((w &&& 127#32) &&& 112#32).toNat := fun w => rfl
    have hB : ∀ w : BitVec 32, (k1_off66 w) 0 = 32 * 14 + (w.toNat % 16 + 16 - 14) % 16 :=
      fun w => IdBits.start_toNat 448#32 w 14#32 (by decide) (by decide)
    have hw : region2.sl.v670 d L k g6 = (a6).view.read (Elt F) g6 (ix1 ⟨128 * 1 + 16 * k.val + 14, h1⟩) := by
      delta_sl [v670, r]
      simp only [LanePayK1.k1_pay148_nf, LanePayK1.k1_pay79_nf, View.readAt_rect]
      exact (LaneLib.extract_lane (((a6).view.slice (Rect.unit (s := S512) (k1_off36 k) S16.size (k1_off36_inb k))).read (Elt F) g6) 14 (by decide) _ _).trans (hid ⟨14, by decide⟩ h1)
    delta_sl [v690, H11_30, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off65 k (region2.sl.v670 d L k g6)) (k1_off66 (region2.sl.v670 d L k g6)) ![448] ![464] _ _ _ _ shapeCasts_S1x16_S16 k.val 14 (region2.sl.v670 d L k g6) _ hk (by decide) (hA0 _) (hA1 _) (hB _) rfl rfl h2 hw
  · rw [LaneSteps.nested16_at_15 _ hiota]
    refine congrArg₂ FloatOps.addf (LaneTrip.chunk_read (a10).view g10 (k1_off36 k) _ hoff _ ⟨15, hj⟩ h1) ?_
    have hA0 : ∀ w : BitVec 32, (k1_off67 k w) 0 = 16 * k.val + 15 := fun w => ChkLib.row_toNat k.val hk 15#32 (by decide)
    have hA1 : ∀ w : BitVec 32, (k1_off67 k w) 1 = ((w &&& 127#32) &&& 112#32).toNat := fun w => rfl
    have hB : ∀ w : BitVec 32, (k1_off68 w) 0 = 32 * 15 + (w.toNat % 16 + 16 - 15) % 16 :=
      fun w => IdBits.start_toNat 480#32 w 15#32 (by decide) (by decide)
    have hw : region2.sl.v699 d L k g6 = (a6).view.read (Elt F) g6 (ix1 ⟨128 * 1 + 16 * k.val + 15, h1⟩) := by
      delta_sl [v699, r]
      simp only [LanePayK1.k1_pay152_nf, LanePayK1.k1_pay79_nf, View.readAt_rect]
      exact (LaneLib.extract_lane (((a6).view.slice (Rect.unit (s := S512) (k1_off36 k) S16.size (k1_off36_inb k))).read (Elt F) g6) 15 (by decide) _ _).trans (hid ⟨15, by decide⟩ h1)
    delta_sl [v719, H11_32, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off67 k (region2.sl.v699 d L k g6)) (k1_off68 (region2.sl.v699 d L k g6)) ![480] ![496] _ _ _ _ shapeCasts_S1x16_S16 k.val 15 (region2.sl.v699 d L k g6) _ hk (by decide) (hA0 _) (hA1 _) (hB _) rfl rfl h2 hw

set_option maxHeartbeats 4000000 in
/-- Trip `k` of chunk 2's loop: the ids, the base values and the gathered rows are read only; the trip stores its sixteen
    results, each the base value plus the gathered row's entry at the id's lane. -/
theorem region3 (hchk : ChkAll) (k : Fin k1_t3_loop.trips) (acc : BitVec 32)
    (g6 : Buf (Elt F) ((a6).view.loc (V d (cV L) (jV L)))) (g10 : Buf (Elt F) ((a10).view.loc (V d (cV L) (jV L)))) (gB : Buf (Elt F) ((a8).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a8).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k1_t3_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a8).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k1_off103 k) S16.size (k1_off103_inb k), v⟩])
                ∗ ⌜LaneOK 2 k.val ((a6).view.read (Elt F) g6) ((a10).view.read (Elt F) g10) ((a8).view.read (Elt F) gB) v⌝) := by
  iintro ⟨H6, H10, HB, H11, H12⟩
  sl_exec (disch := first | sl_exact (hchk.h33 _ _) | sl_exact (hchk.h34 _ _) | sl_exact (hchk.h35 _ _) | sl_exact (hchk.h36 _ _) | sl_exact (hchk.h37 _ _) | sl_exact (hchk.h38 _ _) | sl_exact (hchk.h39 _ _) | sl_exact (hchk.h40 _ _) | sl_exact (hchk.h41 _ _) | sl_exact (hchk.h42 _ _) | sl_exact (hchk.h43 _ _) | sl_exact (hchk.h44 _ _) | sl_exact (hchk.h45 _ _) | sl_exact (hchk.h46 _ _) | sl_exact (hchk.h47 _ _) | sl_exact (hchk.h48 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k1_t3_abs.2.1
  have hoff : (k1_off70 k) 0 = 128 * 2 + 16 * k.val := by
    rw [k1_off70_eq]
    show 16 * k.val + 256 = 128 * 2 + 16 * k.val
    omega
  have hid : ∀ (j : Fin 16) (h : 128 * 2 + 16 * k.val + j.val < 512),
      (((a6).view.slice (Rect.unit (s := S512) (k1_off70 k) S16.size (k1_off70_inb k))).read (Elt F) g6) (ix1 j) = (a6).view.read (Elt F) g6 (ix1 ⟨128 * 2 + 16 * k.val + j.val, h⟩) :=
    fun j h => LaneTrip.chunk_read (a6).view g6 (k1_off70 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
  obtain ⟨j, hj⟩ := l
  interval_cases j
  · rw [LaneSteps.nested16_at_0 _ hiota]
    refine congrArg₂ FloatOps.addf (LaneTrip.chunk_read (a10).view g10 (k1_off70 k) _ hoff _ ⟨0, hj⟩ h1) ?_
    have hA0 : ∀ w : BitVec 32, (k1_off71 k w) 0 = 16 * k.val + 0 := fun w => ChkLib.row_toNat k.val hk 0#32 (by decide)
    have hA1 : ∀ w : BitVec 32, (k1_off71 k w) 1 = ((w &&& 127#32) &&& 112#32).toNat := fun w => rfl
    have hB : ∀ w : BitVec 32, (k1_off72 w) 0 = 32 * 0 + (w.toNat % 16 + 16 - 0) % 16 :=
      fun w => IdBits.start_toNat 0#32 w 0#32 (by decide) (by decide)
    have hw : region3.sl.v264 d L k g6 = (a6).view.read (Elt F) g6 (ix1 ⟨128 * 2 + 16 * k.val + 0, h1⟩) := by
      delta_sl [v264]
      simp only [LanePayK1.k1_pay158_nf, LanePayK1.k1_pay157_nf, View.readAt_rect]
      exact (LaneLib.extract_lane (((a6).view.slice (Rect.unit (s := S512) (k1_off70 k) S16.size (k1_off70_inb k))).read (Elt F) g6) 0 (by decide) _ _).trans (hid ⟨0, by decide⟩ h1)
    delta_sl [v284, H11_2, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off71 k (region3.sl.v264 d L k g6)) (k1_off72 (region3.sl.v264 d L k g6)) ![0] ![16] _ _ _ _ shapeCasts_S1x16_S16 k.val 0 (region3.sl.v264 d L k g6) _ hk (by decide) (hA0 _) (hA1 _) (hB _) rfl rfl h2 hw
  · rw [LaneSteps.nested16_at_1 _ hiota]
    refine congrArg₂ FloatOps.addf (LaneTrip.chunk_read (a10).view g10 (k1_off70 k) _ hoff _ ⟨1, hj⟩ h1) ?_
    have hA0 : ∀ w : BitVec 32, (k1_off73 k w) 0 = 16 * k.val + 1 := fun w => ChkLib.row_toNat k.val hk 1#32 (by decide)
    have hA1 : ∀ w : BitVec 32, (k1_off73 k w) 1 = ((w &&& 127#32) &&& 112#32).toNat := fun w => rfl
    have hB : ∀ w : BitVec 32, (k1_off74 w) 0 = 32 * 1 + (w.toNat % 16 + 16 - 1) % 16 :=
      fun w => IdBits.start_toNat 32#32 w 1#32 (by decide) (by decide)
    have hw : region3.sl.v293 d L k g6 = (a6).view.read (Elt F) g6 (ix1 ⟨128 * 2 + 16 * k.val + 1, h1⟩) := by
      delta_sl [v293, r]
      simp only [LanePayK1.k1_pay163_nf, LanePayK1.k1_pay157_nf, View.readAt_rect]
      exact (LaneLib.extract_lane (((a6).view.slice (Rect.unit (s := S512) (k1_off70 k) S16.size (k1_off70_inb k))).read (Elt F) g6) 1 (by decide) _ _).trans (hid ⟨1, by decide⟩ h1)
    delta_sl [v313, H11_4, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off73 k (region3.sl.v293 d L k g6)) (k1_off74 (region3.sl.v293 d L k g6)) ![32] ![48] _ _ _ _ shapeCasts_S1x16_S16 k.val 1 (region3.sl.v293 d L k g6) _ hk (by decide) (hA0 _) (hA1 _) (hB _) rfl rfl h2 hw
  · rw [LaneSteps.nested16_at_2 _ hiota]
    refine congrArg₂ FloatOps.addf (LaneTrip.chunk_read (a10).view g10 (k1_off70 k) _ hoff _ ⟨2, hj⟩ h1) ?_
    have hA0 : ∀ w : BitVec 32, (k1_off75 k w) 0 = 16 * k.val + 2 := fun w => ChkLib.row_toNat k.val hk 2#32 (by decide)
    have hA1 : ∀ w : BitVec 32, (k1_off75 k w) 1 = ((w &&& 127#32) &&& 112#32).toNat := fun w => rfl
    have hB : ∀ w : BitVec 32, (k1_off76 w) 0 = 32 * 2 + (w.toNat % 16 + 16 - 2) % 16 :=
      fun w => IdBits.start_toNat 64#32 w 2#32 (by decide) (by decide)
    have hw : region3.sl.v322 d L k g6 = (a6).view.read (Elt F) g6 (ix1 ⟨128 * 2 + 16 * k.val + 2, h1⟩) := by
      delta_sl [v322, r]
      simp only [LanePayK1.k1_pay168_nf, LanePayK1.k1_pay157_nf, View.readAt_rect]
      exact (LaneLib.extract_lane (((a6).view.slice (Rect.unit (s := S512) (k1_off70 k) S16.size (k1_off70_inb k))).read (Elt F) g6) 2 (by decide) _ _).trans (hid ⟨2, by decide⟩ h1)
    delta_sl [v342, H11_6, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off75 k (region3.sl.v322 d L k g6)) (k1_off76 (region3.sl.v322 d L k g6)) ![64] ![80] _ _ _ _ shapeCasts_S1x16_S16 k.val 2 (region3.sl.v322 d L k g6) _ hk (by decide) (hA0 _) (hA1 _) (hB _) rfl rfl h2 hw
  · rw [LaneSteps.nested16_at_3 _ hiota]
    refine congrArg₂ FloatOps.addf (LaneTrip.chunk_read (a10).view g10 (k1_off70 k) _ hoff _ ⟨3, hj⟩ h1) ?_
    have hA0 : ∀ w : BitVec 32, (k1_off77 k w) 0 = 16 * k.val + 3 := fun w => ChkLib.row_toNat k.val hk 3#32 (by decide)
    have hA1 : ∀ w : BitVec 32, (k1_off77 k w) 1 = ((w &&& 127#32) &&& 112#32).toNat := fun w => rfl
    have hB : ∀ w : BitVec 32, (k1_off78 w) 0 = 32 * 3 + (w.toNat % 16 + 16 - 3) % 16 :=
      fun w => IdBits.start_toNat 96#32 w 3#32 (by decide) (by decide)
    have hw : region3.sl.v351 d L k g6 = (a6).view.read (Elt F) g6 (ix1 ⟨128 * 2 + 16 * k.val + 3, h1⟩) := by
      delta_sl [v351, r]
      simp only [LanePayK1.k1_pay173_nf, LanePayK1.k1_pay157_nf, View.readAt_rect]
      exact (LaneLib.extract_lane (((a6).view.slice (Rect.unit (s := S512) (k1_off70 k) S16.size (k1_off70_inb k))).read (Elt F) g6) 3 (by decide) _ _).trans (hid ⟨3, by decide⟩ h1)
    delta_sl [v371, H11_8, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off77 k (region3.sl.v351 d L k g6)) (k1_off78 (region3.sl.v351 d L k g6)) ![96] ![112] _ _ _ _ shapeCasts_S1x16_S16 k.val 3 (region3.sl.v351 d L k g6) _ hk (by decide) (hA0 _) (hA1 _) (hB _) rfl rfl h2 hw
  · rw [LaneSteps.nested16_at_4 _ hiota]
    refine congrArg₂ FloatOps.addf (LaneTrip.chunk_read (a10).view g10 (k1_off70 k) _ hoff _ ⟨4, hj⟩ h1) ?_
    have hA0 : ∀ w : BitVec 32, (k1_off79 k w) 0 = 16 * k.val + 4 := fun w => ChkLib.row_toNat k.val hk 4#32 (by decide)
    have hA1 : ∀ w : BitVec 32, (k1_off79 k w) 1 = ((w &&& 127#32) &&& 112#32).toNat := fun w => rfl
    have hB : ∀ w : BitVec 32, (k1_off80 w) 0 = 32 * 4 + (w.toNat % 16 + 16 - 4) % 16 :=
      fun w => IdBits.start_toNat 128#32 w 4#32 (by decide) (by decide)
    have hw : region3.sl.v380 d L k g6 = (a6).view.read (Elt F) g6 (ix1 ⟨128 * 2 + 16 * k.val + 4, h1⟩) := by
      delta_sl [v380, r]
      simp only [LanePayK1.k1_pay177_nf, LanePayK1.k1_pay157_nf, View.readAt_rect]
      exact (LaneLib.extract_lane (((a6).view.slice (Rect.unit (s := S512) (k1_off70 k) S16.size (k1_off70_inb k))).read (Elt F) g6) 4 (by decide) _ _).trans (hid ⟨4, by decide⟩ h1)
    delta_sl [v400, H11_10, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off79 k (region3.sl.v380 d L k g6)) (k1_off80 (region3.sl.v380 d L k g6)) ![128] ![144] _ _ _ _ shapeCasts_S1x16_S16 k.val 4 (region3.sl.v380 d L k g6) _ hk (by decide) (hA0 _) (hA1 _) (hB _) rfl rfl h2 hw
  · rw [LaneSteps.nested16_at_5 _ hiota]
    refine congrArg₂ FloatOps.addf (LaneTrip.chunk_read (a10).view g10 (k1_off70 k) _ hoff _ ⟨5, hj⟩ h1) ?_
    have hA0 : ∀ w : BitVec 32, (k1_off81 k w) 0 = 16 * k.val + 5 := fun w => ChkLib.row_toNat k.val hk 5#32 (by decide)
    have hA1 : ∀ w : BitVec 32, (k1_off81 k w) 1 = ((w &&& 127#32) &&& 112#32).toNat := fun w => rfl
    have hB : ∀ w : BitVec 32, (k1_off82 w) 0 = 32 * 5 + (w.toNat % 16 + 16 - 5) % 16 :=
      fun w => IdBits.start_toNat 160#32 w 5#32 (by decide) (by decide)
    have hw : region3.sl.v409 d L k g6 = (a6).view.read (Elt F) g6 (ix1 ⟨128 * 2 + 16 * k.val + 5, h1⟩) := by
      delta_sl [v409, r]
      simp only [LanePayK1.k1_pay182_nf, LanePayK1.k1_pay157_nf, View.readAt_rect]
      exact (LaneLib.extract_lane (((a6).view.slice (Rect.unit (s := S512) (k1_off70 k) S16.size (k1_off70_inb k))).read (Elt F) g6) 5 (by decide) _ _).trans (hid ⟨5, by decide⟩ h1)
    delta_sl [v429, H11_12, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off81 k (region3.sl.v409 d L k g6)) (k1_off82 (region3.sl.v409 d L k g6)) ![160] ![176] _ _ _ _ shapeCasts_S1x16_S16 k.val 5 (region3.sl.v409 d L k g6) _ hk (by decide) (hA0 _) (hA1 _) (hB _) rfl rfl h2 hw
  · rw [LaneSteps.nested16_at_6 _ hiota]
    refine congrArg₂ FloatOps.addf (LaneTrip.chunk_read (a10).view g10 (k1_off70 k) _ hoff _ ⟨6, hj⟩ h1) ?_
    have hA0 : ∀ w : BitVec 32, (k1_off83 k w) 0 = 16 * k.val + 6 := fun w => ChkLib.row_toNat k.val hk 6#32 (by decide)
    have hA1 : ∀ w : BitVec 32, (k1_off83 k w) 1 = ((w &&& 127#32) &&& 112#32).toNat := fun w => rfl
    have hB : ∀ w : BitVec 32, (k1_off84 w) 0 = 32 * 6 + (w.toNat % 16 + 16 - 6) % 16 :=
      fun w => IdBits.start_toNat 192#32 w 6#32 (by decide) (by decide)
    have hw : region3.sl.v438 d L k g6 = (a6).view.read (Elt F) g6 (ix1 ⟨128 * 2 + 16 * k.val + 6, h1⟩) := by
      delta_sl [v438, r]
      simp only [LanePayK1.k1_pay187_nf, LanePayK1.k1_pay157_nf, View.readAt_rect]
      exact (LaneLib.extract_lane (((a6).view.slice (Rect.unit (s := S512) (k1_off70 k) S16.size (k1_off70_inb k))).read (Elt F) g6) 6 (by decide) _ _).trans (hid ⟨6, by decide⟩ h1)
    delta_sl [v458, H11_14, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off83 k (region3.sl.v438 d L k g6)) (k1_off84 (region3.sl.v438 d L k g6)) ![192] ![208] _ _ _ _ shapeCasts_S1x16_S16 k.val 6 (region3.sl.v438 d L k g6) _ hk (by decide) (hA0 _) (hA1 _) (hB _) rfl rfl h2 hw
  · rw [LaneSteps.nested16_at_7 _ hiota]
    refine congrArg₂ FloatOps.addf (LaneTrip.chunk_read (a10).view g10 (k1_off70 k) _ hoff _ ⟨7, hj⟩ h1) ?_
    have hA0 : ∀ w : BitVec 32, (k1_off85 k w) 0 = 16 * k.val + 7 := fun w => ChkLib.row_toNat k.val hk 7#32 (by decide)
    have hA1 : ∀ w : BitVec 32, (k1_off85 k w) 1 = ((w &&& 127#32) &&& 112#32).toNat := fun w => rfl
    have hB : ∀ w : BitVec 32, (k1_off86 w) 0 = 32 * 7 + (w.toNat % 16 + 16 - 7) % 16 :=
      fun w => IdBits.start_toNat 224#32 w 7#32 (by decide) (by decide)
    have hw : region3.sl.v467 d L k g6 = (a6).view.read (Elt F) g6 (ix1 ⟨128 * 2 + 16 * k.val + 7, h1⟩) := by
      delta_sl [v467, r]
      simp only [LanePayK1.k1_pay192_nf, LanePayK1.k1_pay157_nf, View.readAt_rect]
      exact (LaneLib.extract_lane (((a6).view.slice (Rect.unit (s := S512) (k1_off70 k) S16.size (k1_off70_inb k))).read (Elt F) g6) 7 (by decide) _ _).trans (hid ⟨7, by decide⟩ h1)
    delta_sl [v487, H11_16, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off85 k (region3.sl.v467 d L k g6)) (k1_off86 (region3.sl.v467 d L k g6)) ![224] ![240] _ _ _ _ shapeCasts_S1x16_S16 k.val 7 (region3.sl.v467 d L k g6) _ hk (by decide) (hA0 _) (hA1 _) (hB _) rfl rfl h2 hw
  · rw [LaneSteps.nested16_at_8 _ hiota]
    refine congrArg₂ FloatOps.addf (LaneTrip.chunk_read (a10).view g10 (k1_off70 k) _ hoff _ ⟨8, hj⟩ h1) ?_
    have hA0 : ∀ w : BitVec 32, (k1_off87 k w) 0 = 16 * k.val + 8 := fun w => ChkLib.row_toNat k.val hk 8#32 (by decide)
    have hA1 : ∀ w : BitVec 32, (k1_off87 k w) 1 = ((w &&& 127#32) &&& 112#32).toNat := fun w => rfl
    have hB : ∀ w : BitVec 32, (k1_off88 w) 0 = 32 * 8 + (w.toNat % 16 + 16 - 8) % 16 :=
      fun w => IdBits.start_toNat 256#32 w 8#32 (by decide) (by decide)
    have hw : region3.sl.v496 d L k g6 = (a6).view.read (Elt F) g6 (ix1 ⟨128 * 2 + 16 * k.val + 8, h1⟩) := by
      delta_sl [v496, r]
      simp only [LanePayK1.k1_pay197_nf, LanePayK1.k1_pay157_nf, View.readAt_rect]
      exact (LaneLib.extract_lane (((a6).view.slice (Rect.unit (s := S512) (k1_off70 k) S16.size (k1_off70_inb k))).read (Elt F) g6) 8 (by decide) _ _).trans (hid ⟨8, by decide⟩ h1)
    delta_sl [v516, H11_18, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off87 k (region3.sl.v496 d L k g6)) (k1_off88 (region3.sl.v496 d L k g6)) ![256] ![272] _ _ _ _ shapeCasts_S1x16_S16 k.val 8 (region3.sl.v496 d L k g6) _ hk (by decide) (hA0 _) (hA1 _) (hB _) rfl rfl h2 hw
  · rw [LaneSteps.nested16_at_9 _ hiota]
    refine congrArg₂ FloatOps.addf (LaneTrip.chunk_read (a10).view g10 (k1_off70 k) _ hoff _ ⟨9, hj⟩ h1) ?_
    have hA0 : ∀ w : BitVec 32, (k1_off89 k w) 0 = 16 * k.val + 9 := fun w => ChkLib.row_toNat k.val hk 9#32 (by decide)
    have hA1 : ∀ w : BitVec 32, (k1_off89 k w) 1 = ((w &&& 127#32) &&& 112#32).toNat := fun w => rfl
    have hB : ∀ w : BitVec 32, (k1_off90 w) 0 = 32 * 9 + (w.toNat % 16 + 16 - 9) % 16 :=
      fun w => IdBits.start_toNat 288#32 w 9#32 (by decide) (by decide)
    have hw : region3.sl.v525 d L k g6 = (a6).view.read (Elt F) g6 (ix1 ⟨128 * 2 + 16 * k.val + 9, h1⟩) := by
      delta_sl [v525, r]
      simp only [LanePayK1.k1_pay202_nf, LanePayK1.k1_pay157_nf, View.readAt_rect]
      exact (LaneLib.extract_lane (((a6).view.slice (Rect.unit (s := S512) (k1_off70 k) S16.size (k1_off70_inb k))).read (Elt F) g6) 9 (by decide) _ _).trans (hid ⟨9, by decide⟩ h1)
    delta_sl [v545, H11_20, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off89 k (region3.sl.v525 d L k g6)) (k1_off90 (region3.sl.v525 d L k g6)) ![288] ![304] _ _ _ _ shapeCasts_S1x16_S16 k.val 9 (region3.sl.v525 d L k g6) _ hk (by decide) (hA0 _) (hA1 _) (hB _) rfl rfl h2 hw
  · rw [LaneSteps.nested16_at_10 _ hiota]
    refine congrArg₂ FloatOps.addf (LaneTrip.chunk_read (a10).view g10 (k1_off70 k) _ hoff _ ⟨10, hj⟩ h1) ?_
    have hA0 : ∀ w : BitVec 32, (k1_off91 k w) 0 = 16 * k.val + 10 := fun w => ChkLib.row_toNat k.val hk 10#32 (by decide)
    have hA1 : ∀ w : BitVec 32, (k1_off91 k w) 1 = ((w &&& 127#32) &&& 112#32).toNat := fun w => rfl
    have hB : ∀ w : BitVec 32, (k1_off92 w) 0 = 32 * 10 + (w.toNat % 16 + 16 - 10) % 16 :=
      fun w => IdBits.start_toNat 320#32 w 10#32 (by decide) (by decide)
    have hw : region3.sl.v554 d L k g6 = (a6).view.read (Elt F) g6 (ix1 ⟨128 * 2 + 16 * k.val + 10, h1⟩) := by
      delta_sl [v554, r]
      simp only [LanePayK1.k1_pay207_nf, LanePayK1.k1_pay157_nf, View.readAt_rect]
      exact (LaneLib.extract_lane (((a6).view.slice (Rect.unit (s := S512) (k1_off70 k) S16.size (k1_off70_inb k))).read (Elt F) g6) 10 (by decide) _ _).trans (hid ⟨10, by decide⟩ h1)
    delta_sl [v574, H11_22, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off91 k (region3.sl.v554 d L k g6)) (k1_off92 (region3.sl.v554 d L k g6)) ![320] ![336] _ _ _ _ shapeCasts_S1x16_S16 k.val 10 (region3.sl.v554 d L k g6) _ hk (by decide) (hA0 _) (hA1 _) (hB _) rfl rfl h2 hw
  · rw [LaneSteps.nested16_at_11 _ hiota]
    refine congrArg₂ FloatOps.addf (LaneTrip.chunk_read (a10).view g10 (k1_off70 k) _ hoff _ ⟨11, hj⟩ h1) ?_
    have hA0 : ∀ w : BitVec 32, (k1_off93 k w) 0 = 16 * k.val + 11 := fun w => ChkLib.row_toNat k.val hk 11#32 (by decide)
    have hA1 : ∀ w : BitVec 32, (k1_off93 k w) 1 = ((w &&& 127#32) &&& 112#32).toNat := fun w => rfl
    have hB : ∀ w : BitVec 32, (k1_off94 w) 0 = 32 * 11 + (w.toNat % 16 + 16 - 11) % 16 :=
      fun w => IdBits.start_toNat 352#32 w 11#32 (by decide) (by decide)
    have hw : region3.sl.v583 d L k g6 = (a6).view.read (Elt F) g6 (ix1 ⟨128 * 2 + 16 * k.val + 11, h1⟩) := by
      delta_sl [v583, r]
      simp only [LanePayK1.k1_pay211_nf, LanePayK1.k1_pay157_nf, View.readAt_rect]
      exact (LaneLib.extract_lane (((a6).view.slice (Rect.unit (s := S512) (k1_off70 k) S16.size (k1_off70_inb k))).read (Elt F) g6) 11 (by decide) _ _).trans (hid ⟨11, by decide⟩ h1)
    delta_sl [v603, H11_24, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off93 k (region3.sl.v583 d L k g6)) (k1_off94 (region3.sl.v583 d L k g6)) ![352] ![368] _ _ _ _ shapeCasts_S1x16_S16 k.val 11 (region3.sl.v583 d L k g6) _ hk (by decide) (hA0 _) (hA1 _) (hB _) rfl rfl h2 hw
  · rw [LaneSteps.nested16_at_12 _ hiota]
    refine congrArg₂ FloatOps.addf (LaneTrip.chunk_read (a10).view g10 (k1_off70 k) _ hoff _ ⟨12, hj⟩ h1) ?_
    have hA0 : ∀ w : BitVec 32, (k1_off95 k w) 0 = 16 * k.val + 12 := fun w => ChkLib.row_toNat k.val hk 12#32 (by decide)
    have hA1 : ∀ w : BitVec 32, (k1_off95 k w) 1 = ((w &&& 127#32) &&& 112#32).toNat := fun w => rfl
    have hB : ∀ w : BitVec 32, (k1_off96 w) 0 = 32 * 12 + (w.toNat % 16 + 16 - 12) % 16 :=
      fun w => IdBits.start_toNat 384#32 w 12#32 (by decide) (by decide)
    have hw : region3.sl.v612 d L k g6 = (a6).view.read (Elt F) g6 (ix1 ⟨128 * 2 + 16 * k.val + 12, h1⟩) := by
      delta_sl [v612, r]
      simp only [LanePayK1.k1_pay216_nf, LanePayK1.k1_pay157_nf, View.readAt_rect]
      exact (LaneLib.extract_lane (((a6).view.slice (Rect.unit (s := S512) (k1_off70 k) S16.size (k1_off70_inb k))).read (Elt F) g6) 12 (by decide) _ _).trans (hid ⟨12, by decide⟩ h1)
    delta_sl [v632, H11_26, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off95 k (region3.sl.v612 d L k g6)) (k1_off96 (region3.sl.v612 d L k g6)) ![384] ![400] _ _ _ _ shapeCasts_S1x16_S16 k.val 12 (region3.sl.v612 d L k g6) _ hk (by decide) (hA0 _) (hA1 _) (hB _) rfl rfl h2 hw
  · rw [LaneSteps.nested16_at_13 _ hiota]
    refine congrArg₂ FloatOps.addf (LaneTrip.chunk_read (a10).view g10 (k1_off70 k) _ hoff _ ⟨13, hj⟩ h1) ?_
    have hA0 : ∀ w : BitVec 32, (k1_off97 k w) 0 = 16 * k.val + 13 := fun w => ChkLib.row_toNat k.val hk 13#32 (by decide)
    have hA1 : ∀ w : BitVec 32, (k1_off97 k w) 1 = ((w &&& 127#32) &&& 112#32).toNat := fun w => rfl
    have hB : ∀ w : BitVec 32, (k1_off98 w) 0 = 32 * 13 + (w.toNat % 16 + 16 - 13) % 16 :=
      fun w => IdBits.start_toNat 416#32 w 13#32 (by decide) (by decide)
    have hw : region3.sl.v641 d L k g6 = (a6).view.read (Elt F) g6 (ix1 ⟨128 * 2 + 16 * k.val + 13, h1⟩) := by
      delta_sl [v641, r]
      simp only [LanePayK1.k1_pay221_nf, LanePayK1.k1_pay157_nf, View.readAt_rect]
      exact (LaneLib.extract_lane (((a6).view.slice (Rect.unit (s := S512) (k1_off70 k) S16.size (k1_off70_inb k))).read (Elt F) g6) 13 (by decide) _ _).trans (hid ⟨13, by decide⟩ h1)
    delta_sl [v661, H11_28, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off97 k (region3.sl.v641 d L k g6)) (k1_off98 (region3.sl.v641 d L k g6)) ![416] ![432] _ _ _ _ shapeCasts_S1x16_S16 k.val 13 (region3.sl.v641 d L k g6) _ hk (by decide) (hA0 _) (hA1 _) (hB _) rfl rfl h2 hw
  · rw [LaneSteps.nested16_at_14 _ hiota]
    refine congrArg₂ FloatOps.addf (LaneTrip.chunk_read (a10).view g10 (k1_off70 k) _ hoff _ ⟨14, hj⟩ h1) ?_
    have hA0 : ∀ w : BitVec 32, (k1_off99 k w) 0 = 16 * k.val + 14 := fun w => ChkLib.row_toNat k.val hk 14#32 (by decide)
    have hA1 : ∀ w : BitVec 32, (k1_off99 k w) 1 = ((w &&& 127#32) &&& 112#32).toNat := fun w => rfl
    have hB : ∀ w : BitVec 32, (k1_off100 w) 0 = 32 * 14 + (w.toNat % 16 + 16 - 14) % 16 :=
      fun w => IdBits.start_toNat 448#32 w 14#32 (by decide) (by decide)
    have hw : region3.sl.v670 d L k g6 = (a6).view.read (Elt F) g6 (ix1 ⟨128 * 2 + 16 * k.val + 14, h1⟩) := by
      delta_sl [v670, r]
      simp only [LanePayK1.k1_pay226_nf, LanePayK1.k1_pay157_nf, View.readAt_rect]
      exact (LaneLib.extract_lane (((a6).view.slice (Rect.unit (s := S512) (k1_off70 k) S16.size (k1_off70_inb k))).read (Elt F) g6) 14 (by decide) _ _).trans (hid ⟨14, by decide⟩ h1)
    delta_sl [v690, H11_30, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off99 k (region3.sl.v670 d L k g6)) (k1_off100 (region3.sl.v670 d L k g6)) ![448] ![464] _ _ _ _ shapeCasts_S1x16_S16 k.val 14 (region3.sl.v670 d L k g6) _ hk (by decide) (hA0 _) (hA1 _) (hB _) rfl rfl h2 hw
  · rw [LaneSteps.nested16_at_15 _ hiota]
    refine congrArg₂ FloatOps.addf (LaneTrip.chunk_read (a10).view g10 (k1_off70 k) _ hoff _ ⟨15, hj⟩ h1) ?_
    have hA0 : ∀ w : BitVec 32, (k1_off101 k w) 0 = 16 * k.val + 15 := fun w => ChkLib.row_toNat k.val hk 15#32 (by decide)
    have hA1 : ∀ w : BitVec 32, (k1_off101 k w) 1 = ((w &&& 127#32) &&& 112#32).toNat := fun w => rfl
    have hB : ∀ w : BitVec 32, (k1_off102 w) 0 = 32 * 15 + (w.toNat % 16 + 16 - 15) % 16 :=
      fun w => IdBits.start_toNat 480#32 w 15#32 (by decide) (by decide)
    have hw : region3.sl.v699 d L k g6 = (a6).view.read (Elt F) g6 (ix1 ⟨128 * 2 + 16 * k.val + 15, h1⟩) := by
      delta_sl [v699, r]
      simp only [LanePayK1.k1_pay230_nf, LanePayK1.k1_pay157_nf, View.readAt_rect]
      exact (LaneLib.extract_lane (((a6).view.slice (Rect.unit (s := S512) (k1_off70 k) S16.size (k1_off70_inb k))).read (Elt F) g6) 15 (by decide) _ _).trans (hid ⟨15, by decide⟩ h1)
    delta_sl [v719, H11_32, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off101 k (region3.sl.v699 d L k g6)) (k1_off102 (region3.sl.v699 d L k g6)) ![480] ![496] _ _ _ _ shapeCasts_S1x16_S16 k.val 15 (region3.sl.v699 d L k g6) _ hk (by decide) (hA0 _) (hA1 _) (hB _) rfl rfl h2 hw

set_option maxHeartbeats 4000000 in
/-- Trip `k` of chunk 3's loop: the ids, the base values and the gathered rows are read only; the trip stores its sixteen
    results, each the base value plus the gathered row's entry at the id's lane. -/
theorem region4 (hchk : ChkAll) (k : Fin k1_t4_loop.trips) (acc : BitVec 32)
    (g6 : Buf (Elt F) ((a6).view.loc (V d (cV L) (jV L)))) (g10 : Buf (Elt F) ((a10).view.loc (V d (cV L) (jV L)))) (gB : Buf (Elt F) ((a9).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a9).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k1_t4_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a9).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k1_off137 k) S16.size (k1_off137_inb k), v⟩])
                ∗ ⌜LaneOK 3 k.val ((a6).view.read (Elt F) g6) ((a10).view.read (Elt F) g10) ((a9).view.read (Elt F) gB) v⌝) := by
  iintro ⟨H6, H10, HB, H11, H12⟩
  sl_exec (disch := first | sl_exact (hchk.h49 _ _) | sl_exact (hchk.h50 _ _) | sl_exact (hchk.h51 _ _) | sl_exact (hchk.h52 _ _) | sl_exact (hchk.h53 _ _) | sl_exact (hchk.h54 _ _) | sl_exact (hchk.h55 _ _) | sl_exact (hchk.h56 _ _) | sl_exact (hchk.h57 _ _) | sl_exact (hchk.h58 _ _) | sl_exact (hchk.h59 _ _) | sl_exact (hchk.h60 _ _) | sl_exact (hchk.h61 _ _) | sl_exact (hchk.h62 _ _) | sl_exact (hchk.h63 _ _) | sl_exact (hchk.h64 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k1_t4_abs.2.1
  have hoff : (k1_off104 k) 0 = 128 * 3 + 16 * k.val := by
    rw [k1_off104_eq]
    show 16 * k.val + 384 = 128 * 3 + 16 * k.val
    omega
  have hid : ∀ (j : Fin 16) (h : 128 * 3 + 16 * k.val + j.val < 512),
      (((a6).view.slice (Rect.unit (s := S512) (k1_off104 k) S16.size (k1_off104_inb k))).read (Elt F) g6) (ix1 j) = (a6).view.read (Elt F) g6 (ix1 ⟨128 * 3 + 16 * k.val + j.val, h⟩) :=
    fun j h => LaneTrip.chunk_read (a6).view g6 (k1_off104 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
  obtain ⟨j, hj⟩ := l
  interval_cases j
  · rw [LaneSteps.nested16_at_0 _ hiota]
    refine congrArg₂ FloatOps.addf (LaneTrip.chunk_read (a10).view g10 (k1_off104 k) _ hoff _ ⟨0, hj⟩ h1) ?_
    have hA0 : ∀ w : BitVec 32, (k1_off105 k w) 0 = 16 * k.val + 0 := fun w => ChkLib.row_toNat k.val hk 0#32 (by decide)
    have hA1 : ∀ w : BitVec 32, (k1_off105 k w) 1 = ((w &&& 127#32) &&& 112#32).toNat := fun w => rfl
    have hB : ∀ w : BitVec 32, (k1_off106 w) 0 = 32 * 0 + (w.toNat % 16 + 16 - 0) % 16 :=
      fun w => IdBits.start_toNat 0#32 w 0#32 (by decide) (by decide)
    have hw : region4.sl.v264 d L k g6 = (a6).view.read (Elt F) g6 (ix1 ⟨128 * 3 + 16 * k.val + 0, h1⟩) := by
      delta_sl [v264]
      simp only [LanePayK1.k1_pay236_nf, LanePayK1.k1_pay235_nf, View.readAt_rect]
      exact (LaneLib.extract_lane (((a6).view.slice (Rect.unit (s := S512) (k1_off104 k) S16.size (k1_off104_inb k))).read (Elt F) g6) 0 (by decide) _ _).trans (hid ⟨0, by decide⟩ h1)
    delta_sl [v284, H11_2, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off105 k (region4.sl.v264 d L k g6)) (k1_off106 (region4.sl.v264 d L k g6)) ![0] ![16] _ _ _ _ shapeCasts_S1x16_S16 k.val 0 (region4.sl.v264 d L k g6) _ hk (by decide) (hA0 _) (hA1 _) (hB _) rfl rfl h2 hw
  · rw [LaneSteps.nested16_at_1 _ hiota]
    refine congrArg₂ FloatOps.addf (LaneTrip.chunk_read (a10).view g10 (k1_off104 k) _ hoff _ ⟨1, hj⟩ h1) ?_
    have hA0 : ∀ w : BitVec 32, (k1_off107 k w) 0 = 16 * k.val + 1 := fun w => ChkLib.row_toNat k.val hk 1#32 (by decide)
    have hA1 : ∀ w : BitVec 32, (k1_off107 k w) 1 = ((w &&& 127#32) &&& 112#32).toNat := fun w => rfl
    have hB : ∀ w : BitVec 32, (k1_off108 w) 0 = 32 * 1 + (w.toNat % 16 + 16 - 1) % 16 :=
      fun w => IdBits.start_toNat 32#32 w 1#32 (by decide) (by decide)
    have hw : region4.sl.v293 d L k g6 = (a6).view.read (Elt F) g6 (ix1 ⟨128 * 3 + 16 * k.val + 1, h1⟩) := by
      delta_sl [v293, r]
      simp only [LanePayK1.k1_pay241_nf, LanePayK1.k1_pay235_nf, View.readAt_rect]
      exact (LaneLib.extract_lane (((a6).view.slice (Rect.unit (s := S512) (k1_off104 k) S16.size (k1_off104_inb k))).read (Elt F) g6) 1 (by decide) _ _).trans (hid ⟨1, by decide⟩ h1)
    delta_sl [v313, H11_4, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off107 k (region4.sl.v293 d L k g6)) (k1_off108 (region4.sl.v293 d L k g6)) ![32] ![48] _ _ _ _ shapeCasts_S1x16_S16 k.val 1 (region4.sl.v293 d L k g6) _ hk (by decide) (hA0 _) (hA1 _) (hB _) rfl rfl h2 hw
  · rw [LaneSteps.nested16_at_2 _ hiota]
    refine congrArg₂ FloatOps.addf (LaneTrip.chunk_read (a10).view g10 (k1_off104 k) _ hoff _ ⟨2, hj⟩ h1) ?_
    have hA0 : ∀ w : BitVec 32, (k1_off109 k w) 0 = 16 * k.val + 2 := fun w => ChkLib.row_toNat k.val hk 2#32 (by decide)
    have hA1 : ∀ w : BitVec 32, (k1_off109 k w) 1 = ((w &&& 127#32) &&& 112#32).toNat := fun w => rfl
    have hB : ∀ w : BitVec 32, (k1_off110 w) 0 = 32 * 2 + (w.toNat % 16 + 16 - 2) % 16 :=
      fun w => IdBits.start_toNat 64#32 w 2#32 (by decide) (by decide)
    have hw : region4.sl.v322 d L k g6 = (a6).view.read (Elt F) g6 (ix1 ⟨128 * 3 + 16 * k.val + 2, h1⟩) := by
      delta_sl [v322, r]
      simp only [LanePayK1.k1_pay246_nf, LanePayK1.k1_pay235_nf, View.readAt_rect]
      exact (LaneLib.extract_lane (((a6).view.slice (Rect.unit (s := S512) (k1_off104 k) S16.size (k1_off104_inb k))).read (Elt F) g6) 2 (by decide) _ _).trans (hid ⟨2, by decide⟩ h1)
    delta_sl [v342, H11_6, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off109 k (region4.sl.v322 d L k g6)) (k1_off110 (region4.sl.v322 d L k g6)) ![64] ![80] _ _ _ _ shapeCasts_S1x16_S16 k.val 2 (region4.sl.v322 d L k g6) _ hk (by decide) (hA0 _) (hA1 _) (hB _) rfl rfl h2 hw
  · rw [LaneSteps.nested16_at_3 _ hiota]
    refine congrArg₂ FloatOps.addf (LaneTrip.chunk_read (a10).view g10 (k1_off104 k) _ hoff _ ⟨3, hj⟩ h1) ?_
    have hA0 : ∀ w : BitVec 32, (k1_off111 k w) 0 = 16 * k.val + 3 := fun w => ChkLib.row_toNat k.val hk 3#32 (by decide)
    have hA1 : ∀ w : BitVec 32, (k1_off111 k w) 1 = ((w &&& 127#32) &&& 112#32).toNat := fun w => rfl
    have hB : ∀ w : BitVec 32, (k1_off112 w) 0 = 32 * 3 + (w.toNat % 16 + 16 - 3) % 16 :=
      fun w => IdBits.start_toNat 96#32 w 3#32 (by decide) (by decide)
    have hw : region4.sl.v351 d L k g6 = (a6).view.read (Elt F) g6 (ix1 ⟨128 * 3 + 16 * k.val + 3, h1⟩) := by
      delta_sl [v351, r]
      simp only [LanePayK1.k1_pay251_nf, LanePayK1.k1_pay235_nf, View.readAt_rect]
      exact (LaneLib.extract_lane (((a6).view.slice (Rect.unit (s := S512) (k1_off104 k) S16.size (k1_off104_inb k))).read (Elt F) g6) 3 (by decide) _ _).trans (hid ⟨3, by decide⟩ h1)
    delta_sl [v371, H11_8, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off111 k (region4.sl.v351 d L k g6)) (k1_off112 (region4.sl.v351 d L k g6)) ![96] ![112] _ _ _ _ shapeCasts_S1x16_S16 k.val 3 (region4.sl.v351 d L k g6) _ hk (by decide) (hA0 _) (hA1 _) (hB _) rfl rfl h2 hw
  · rw [LaneSteps.nested16_at_4 _ hiota]
    refine congrArg₂ FloatOps.addf (LaneTrip.chunk_read (a10).view g10 (k1_off104 k) _ hoff _ ⟨4, hj⟩ h1) ?_
    have hA0 : ∀ w : BitVec 32, (k1_off113 k w) 0 = 16 * k.val + 4 := fun w => ChkLib.row_toNat k.val hk 4#32 (by decide)
    have hA1 : ∀ w : BitVec 32, (k1_off113 k w) 1 = ((w &&& 127#32) &&& 112#32).toNat := fun w => rfl
    have hB : ∀ w : BitVec 32, (k1_off114 w) 0 = 32 * 4 + (w.toNat % 16 + 16 - 4) % 16 :=
      fun w => IdBits.start_toNat 128#32 w 4#32 (by decide) (by decide)
    have hw : region4.sl.v380 d L k g6 = (a6).view.read (Elt F) g6 (ix1 ⟨128 * 3 + 16 * k.val + 4, h1⟩) := by
      delta_sl [v380, r]
      simp only [LanePayK1.k1_pay255_nf, LanePayK1.k1_pay235_nf, View.readAt_rect]
      exact (LaneLib.extract_lane (((a6).view.slice (Rect.unit (s := S512) (k1_off104 k) S16.size (k1_off104_inb k))).read (Elt F) g6) 4 (by decide) _ _).trans (hid ⟨4, by decide⟩ h1)
    delta_sl [v400, H11_10, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off113 k (region4.sl.v380 d L k g6)) (k1_off114 (region4.sl.v380 d L k g6)) ![128] ![144] _ _ _ _ shapeCasts_S1x16_S16 k.val 4 (region4.sl.v380 d L k g6) _ hk (by decide) (hA0 _) (hA1 _) (hB _) rfl rfl h2 hw
  · rw [LaneSteps.nested16_at_5 _ hiota]
    refine congrArg₂ FloatOps.addf (LaneTrip.chunk_read (a10).view g10 (k1_off104 k) _ hoff _ ⟨5, hj⟩ h1) ?_
    have hA0 : ∀ w : BitVec 32, (k1_off115 k w) 0 = 16 * k.val + 5 := fun w => ChkLib.row_toNat k.val hk 5#32 (by decide)
    have hA1 : ∀ w : BitVec 32, (k1_off115 k w) 1 = ((w &&& 127#32) &&& 112#32).toNat := fun w => rfl
    have hB : ∀ w : BitVec 32, (k1_off116 w) 0 = 32 * 5 + (w.toNat % 16 + 16 - 5) % 16 :=
      fun w => IdBits.start_toNat 160#32 w 5#32 (by decide) (by decide)
    have hw : region4.sl.v409 d L k g6 = (a6).view.read (Elt F) g6 (ix1 ⟨128 * 3 + 16 * k.val + 5, h1⟩) := by
      delta_sl [v409, r]
      simp only [LanePayK1.k1_pay260_nf, LanePayK1.k1_pay235_nf, View.readAt_rect]
      exact (LaneLib.extract_lane (((a6).view.slice (Rect.unit (s := S512) (k1_off104 k) S16.size (k1_off104_inb k))).read (Elt F) g6) 5 (by decide) _ _).trans (hid ⟨5, by decide⟩ h1)
    delta_sl [v429, H11_12, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off115 k (region4.sl.v409 d L k g6)) (k1_off116 (region4.sl.v409 d L k g6)) ![160] ![176] _ _ _ _ shapeCasts_S1x16_S16 k.val 5 (region4.sl.v409 d L k g6) _ hk (by decide) (hA0 _) (hA1 _) (hB _) rfl rfl h2 hw
  · rw [LaneSteps.nested16_at_6 _ hiota]
    refine congrArg₂ FloatOps.addf (LaneTrip.chunk_read (a10).view g10 (k1_off104 k) _ hoff _ ⟨6, hj⟩ h1) ?_
    have hA0 : ∀ w : BitVec 32, (k1_off117 k w) 0 = 16 * k.val + 6 := fun w => ChkLib.row_toNat k.val hk 6#32 (by decide)
    have hA1 : ∀ w : BitVec 32, (k1_off117 k w) 1 = ((w &&& 127#32) &&& 112#32).toNat := fun w => rfl
    have hB : ∀ w : BitVec 32, (k1_off118 w) 0 = 32 * 6 + (w.toNat % 16 + 16 - 6) % 16 :=
      fun w => IdBits.start_toNat 192#32 w 6#32 (by decide) (by decide)
    have hw : region4.sl.v438 d L k g6 = (a6).view.read (Elt F) g6 (ix1 ⟨128 * 3 + 16 * k.val + 6, h1⟩) := by
      delta_sl [v438, r]
      simp only [LanePayK1.k1_pay265_nf, LanePayK1.k1_pay235_nf, View.readAt_rect]
      exact (LaneLib.extract_lane (((a6).view.slice (Rect.unit (s := S512) (k1_off104 k) S16.size (k1_off104_inb k))).read (Elt F) g6) 6 (by decide) _ _).trans (hid ⟨6, by decide⟩ h1)
    delta_sl [v458, H11_14, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off117 k (region4.sl.v438 d L k g6)) (k1_off118 (region4.sl.v438 d L k g6)) ![192] ![208] _ _ _ _ shapeCasts_S1x16_S16 k.val 6 (region4.sl.v438 d L k g6) _ hk (by decide) (hA0 _) (hA1 _) (hB _) rfl rfl h2 hw
  · rw [LaneSteps.nested16_at_7 _ hiota]
    refine congrArg₂ FloatOps.addf (LaneTrip.chunk_read (a10).view g10 (k1_off104 k) _ hoff _ ⟨7, hj⟩ h1) ?_
    have hA0 : ∀ w : BitVec 32, (k1_off119 k w) 0 = 16 * k.val + 7 := fun w => ChkLib.row_toNat k.val hk 7#32 (by decide)
    have hA1 : ∀ w : BitVec 32, (k1_off119 k w) 1 = ((w &&& 127#32) &&& 112#32).toNat := fun w => rfl
    have hB : ∀ w : BitVec 32, (k1_off120 w) 0 = 32 * 7 + (w.toNat % 16 + 16 - 7) % 16 :=
      fun w => IdBits.start_toNat 224#32 w 7#32 (by decide) (by decide)
    have hw : region4.sl.v467 d L k g6 = (a6).view.read (Elt F) g6 (ix1 ⟨128 * 3 + 16 * k.val + 7, h1⟩) := by
      delta_sl [v467, r]
      simp only [LanePayK1.k1_pay270_nf, LanePayK1.k1_pay235_nf, View.readAt_rect]
      exact (LaneLib.extract_lane (((a6).view.slice (Rect.unit (s := S512) (k1_off104 k) S16.size (k1_off104_inb k))).read (Elt F) g6) 7 (by decide) _ _).trans (hid ⟨7, by decide⟩ h1)
    delta_sl [v487, H11_16, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off119 k (region4.sl.v467 d L k g6)) (k1_off120 (region4.sl.v467 d L k g6)) ![224] ![240] _ _ _ _ shapeCasts_S1x16_S16 k.val 7 (region4.sl.v467 d L k g6) _ hk (by decide) (hA0 _) (hA1 _) (hB _) rfl rfl h2 hw
  · rw [LaneSteps.nested16_at_8 _ hiota]
    refine congrArg₂ FloatOps.addf (LaneTrip.chunk_read (a10).view g10 (k1_off104 k) _ hoff _ ⟨8, hj⟩ h1) ?_
    have hA0 : ∀ w : BitVec 32, (k1_off121 k w) 0 = 16 * k.val + 8 := fun w => ChkLib.row_toNat k.val hk 8#32 (by decide)
    have hA1 : ∀ w : BitVec 32, (k1_off121 k w) 1 = ((w &&& 127#32) &&& 112#32).toNat := fun w => rfl
    have hB : ∀ w : BitVec 32, (k1_off122 w) 0 = 32 * 8 + (w.toNat % 16 + 16 - 8) % 16 :=
      fun w => IdBits.start_toNat 256#32 w 8#32 (by decide) (by decide)
    have hw : region4.sl.v496 d L k g6 = (a6).view.read (Elt F) g6 (ix1 ⟨128 * 3 + 16 * k.val + 8, h1⟩) := by
      delta_sl [v496, r]
      simp only [LanePayK1.k1_pay275_nf, LanePayK1.k1_pay235_nf, View.readAt_rect]
      exact (LaneLib.extract_lane (((a6).view.slice (Rect.unit (s := S512) (k1_off104 k) S16.size (k1_off104_inb k))).read (Elt F) g6) 8 (by decide) _ _).trans (hid ⟨8, by decide⟩ h1)
    delta_sl [v516, H11_18, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off121 k (region4.sl.v496 d L k g6)) (k1_off122 (region4.sl.v496 d L k g6)) ![256] ![272] _ _ _ _ shapeCasts_S1x16_S16 k.val 8 (region4.sl.v496 d L k g6) _ hk (by decide) (hA0 _) (hA1 _) (hB _) rfl rfl h2 hw
  · rw [LaneSteps.nested16_at_9 _ hiota]
    refine congrArg₂ FloatOps.addf (LaneTrip.chunk_read (a10).view g10 (k1_off104 k) _ hoff _ ⟨9, hj⟩ h1) ?_
    have hA0 : ∀ w : BitVec 32, (k1_off123 k w) 0 = 16 * k.val + 9 := fun w => ChkLib.row_toNat k.val hk 9#32 (by decide)
    have hA1 : ∀ w : BitVec 32, (k1_off123 k w) 1 = ((w &&& 127#32) &&& 112#32).toNat := fun w => rfl
    have hB : ∀ w : BitVec 32, (k1_off124 w) 0 = 32 * 9 + (w.toNat % 16 + 16 - 9) % 16 :=
      fun w => IdBits.start_toNat 288#32 w 9#32 (by decide) (by decide)
    have hw : region4.sl.v525 d L k g6 = (a6).view.read (Elt F) g6 (ix1 ⟨128 * 3 + 16 * k.val + 9, h1⟩) := by
      delta_sl [v525, r]
      simp only [LanePayK1.k1_pay280_nf, LanePayK1.k1_pay235_nf, View.readAt_rect]
      exact (LaneLib.extract_lane (((a6).view.slice (Rect.unit (s := S512) (k1_off104 k) S16.size (k1_off104_inb k))).read (Elt F) g6) 9 (by decide) _ _).trans (hid ⟨9, by decide⟩ h1)
    delta_sl [v545, H11_20, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off123 k (region4.sl.v525 d L k g6)) (k1_off124 (region4.sl.v525 d L k g6)) ![288] ![304] _ _ _ _ shapeCasts_S1x16_S16 k.val 9 (region4.sl.v525 d L k g6) _ hk (by decide) (hA0 _) (hA1 _) (hB _) rfl rfl h2 hw
  · rw [LaneSteps.nested16_at_10 _ hiota]
    refine congrArg₂ FloatOps.addf (LaneTrip.chunk_read (a10).view g10 (k1_off104 k) _ hoff _ ⟨10, hj⟩ h1) ?_
    have hA0 : ∀ w : BitVec 32, (k1_off125 k w) 0 = 16 * k.val + 10 := fun w => ChkLib.row_toNat k.val hk 10#32 (by decide)
    have hA1 : ∀ w : BitVec 32, (k1_off125 k w) 1 = ((w &&& 127#32) &&& 112#32).toNat := fun w => rfl
    have hB : ∀ w : BitVec 32, (k1_off126 w) 0 = 32 * 10 + (w.toNat % 16 + 16 - 10) % 16 :=
      fun w => IdBits.start_toNat 320#32 w 10#32 (by decide) (by decide)
    have hw : region4.sl.v554 d L k g6 = (a6).view.read (Elt F) g6 (ix1 ⟨128 * 3 + 16 * k.val + 10, h1⟩) := by
      delta_sl [v554, r]
      simp only [LanePayK1.k1_pay285_nf, LanePayK1.k1_pay235_nf, View.readAt_rect]
      exact (LaneLib.extract_lane (((a6).view.slice (Rect.unit (s := S512) (k1_off104 k) S16.size (k1_off104_inb k))).read (Elt F) g6) 10 (by decide) _ _).trans (hid ⟨10, by decide⟩ h1)
    delta_sl [v574, H11_22, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off125 k (region4.sl.v554 d L k g6)) (k1_off126 (region4.sl.v554 d L k g6)) ![320] ![336] _ _ _ _ shapeCasts_S1x16_S16 k.val 10 (region4.sl.v554 d L k g6) _ hk (by decide) (hA0 _) (hA1 _) (hB _) rfl rfl h2 hw
  · rw [LaneSteps.nested16_at_11 _ hiota]
    refine congrArg₂ FloatOps.addf (LaneTrip.chunk_read (a10).view g10 (k1_off104 k) _ hoff _ ⟨11, hj⟩ h1) ?_
    have hA0 : ∀ w : BitVec 32, (k1_off127 k w) 0 = 16 * k.val + 11 := fun w => ChkLib.row_toNat k.val hk 11#32 (by decide)
    have hA1 : ∀ w : BitVec 32, (k1_off127 k w) 1 = ((w &&& 127#32) &&& 112#32).toNat := fun w => rfl
    have hB : ∀ w : BitVec 32, (k1_off128 w) 0 = 32 * 11 + (w.toNat % 16 + 16 - 11) % 16 :=
      fun w => IdBits.start_toNat 352#32 w 11#32 (by decide) (by decide)
    have hw : region4.sl.v583 d L k g6 = (a6).view.read (Elt F) g6 (ix1 ⟨128 * 3 + 16 * k.val + 11, h1⟩) := by
      delta_sl [v583, r]
      simp only [LanePayK1.k1_pay289_nf, LanePayK1.k1_pay235_nf, View.readAt_rect]
      exact (LaneLib.extract_lane (((a6).view.slice (Rect.unit (s := S512) (k1_off104 k) S16.size (k1_off104_inb k))).read (Elt F) g6) 11 (by decide) _ _).trans (hid ⟨11, by decide⟩ h1)
    delta_sl [v603, H11_24, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off127 k (region4.sl.v583 d L k g6)) (k1_off128 (region4.sl.v583 d L k g6)) ![352] ![368] _ _ _ _ shapeCasts_S1x16_S16 k.val 11 (region4.sl.v583 d L k g6) _ hk (by decide) (hA0 _) (hA1 _) (hB _) rfl rfl h2 hw
  · rw [LaneSteps.nested16_at_12 _ hiota]
    refine congrArg₂ FloatOps.addf (LaneTrip.chunk_read (a10).view g10 (k1_off104 k) _ hoff _ ⟨12, hj⟩ h1) ?_
    have hA0 : ∀ w : BitVec 32, (k1_off129 k w) 0 = 16 * k.val + 12 := fun w => ChkLib.row_toNat k.val hk 12#32 (by decide)
    have hA1 : ∀ w : BitVec 32, (k1_off129 k w) 1 = ((w &&& 127#32) &&& 112#32).toNat := fun w => rfl
    have hB : ∀ w : BitVec 32, (k1_off130 w) 0 = 32 * 12 + (w.toNat % 16 + 16 - 12) % 16 :=
      fun w => IdBits.start_toNat 384#32 w 12#32 (by decide) (by decide)
    have hw : region4.sl.v612 d L k g6 = (a6).view.read (Elt F) g6 (ix1 ⟨128 * 3 + 16 * k.val + 12, h1⟩) := by
      delta_sl [v612, r]
      simp only [LanePayK1.k1_pay294_nf, LanePayK1.k1_pay235_nf, View.readAt_rect]
      exact (LaneLib.extract_lane (((a6).view.slice (Rect.unit (s := S512) (k1_off104 k) S16.size (k1_off104_inb k))).read (Elt F) g6) 12 (by decide) _ _).trans (hid ⟨12, by decide⟩ h1)
    delta_sl [v632, H11_26, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off129 k (region4.sl.v612 d L k g6)) (k1_off130 (region4.sl.v612 d L k g6)) ![384] ![400] _ _ _ _ shapeCasts_S1x16_S16 k.val 12 (region4.sl.v612 d L k g6) _ hk (by decide) (hA0 _) (hA1 _) (hB _) rfl rfl h2 hw
  · rw [LaneSteps.nested16_at_13 _ hiota]
    refine congrArg₂ FloatOps.addf (LaneTrip.chunk_read (a10).view g10 (k1_off104 k) _ hoff _ ⟨13, hj⟩ h1) ?_
    have hA0 : ∀ w : BitVec 32, (k1_off131 k w) 0 = 16 * k.val + 13 := fun w => ChkLib.row_toNat k.val hk 13#32 (by decide)
    have hA1 : ∀ w : BitVec 32, (k1_off131 k w) 1 = ((w &&& 127#32) &&& 112#32).toNat := fun w => rfl
    have hB : ∀ w : BitVec 32, (k1_off132 w) 0 = 32 * 13 + (w.toNat % 16 + 16 - 13) % 16 :=
      fun w => IdBits.start_toNat 416#32 w 13#32 (by decide) (by decide)
    have hw : region4.sl.v641 d L k g6 = (a6).view.read (Elt F) g6 (ix1 ⟨128 * 3 + 16 * k.val + 13, h1⟩) := by
      delta_sl [v641, r]
      simp only [LanePayK1.k1_pay299_nf, LanePayK1.k1_pay235_nf, View.readAt_rect]
      exact (LaneLib.extract_lane (((a6).view.slice (Rect.unit (s := S512) (k1_off104 k) S16.size (k1_off104_inb k))).read (Elt F) g6) 13 (by decide) _ _).trans (hid ⟨13, by decide⟩ h1)
    delta_sl [v661, H11_28, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off131 k (region4.sl.v641 d L k g6)) (k1_off132 (region4.sl.v641 d L k g6)) ![416] ![432] _ _ _ _ shapeCasts_S1x16_S16 k.val 13 (region4.sl.v641 d L k g6) _ hk (by decide) (hA0 _) (hA1 _) (hB _) rfl rfl h2 hw
  · rw [LaneSteps.nested16_at_14 _ hiota]
    refine congrArg₂ FloatOps.addf (LaneTrip.chunk_read (a10).view g10 (k1_off104 k) _ hoff _ ⟨14, hj⟩ h1) ?_
    have hA0 : ∀ w : BitVec 32, (k1_off133 k w) 0 = 16 * k.val + 14 := fun w => ChkLib.row_toNat k.val hk 14#32 (by decide)
    have hA1 : ∀ w : BitVec 32, (k1_off133 k w) 1 = ((w &&& 127#32) &&& 112#32).toNat := fun w => rfl
    have hB : ∀ w : BitVec 32, (k1_off134 w) 0 = 32 * 14 + (w.toNat % 16 + 16 - 14) % 16 :=
      fun w => IdBits.start_toNat 448#32 w 14#32 (by decide) (by decide)
    have hw : region4.sl.v670 d L k g6 = (a6).view.read (Elt F) g6 (ix1 ⟨128 * 3 + 16 * k.val + 14, h1⟩) := by
      delta_sl [v670, r]
      simp only [LanePayK1.k1_pay304_nf, LanePayK1.k1_pay235_nf, View.readAt_rect]
      exact (LaneLib.extract_lane (((a6).view.slice (Rect.unit (s := S512) (k1_off104 k) S16.size (k1_off104_inb k))).read (Elt F) g6) 14 (by decide) _ _).trans (hid ⟨14, by decide⟩ h1)
    delta_sl [v690, H11_30, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off133 k (region4.sl.v670 d L k g6)) (k1_off134 (region4.sl.v670 d L k g6)) ![448] ![464] _ _ _ _ shapeCasts_S1x16_S16 k.val 14 (region4.sl.v670 d L k g6) _ hk (by decide) (hA0 _) (hA1 _) (hB _) rfl rfl h2 hw
  · rw [LaneSteps.nested16_at_15 _ hiota]
    refine congrArg₂ FloatOps.addf (LaneTrip.chunk_read (a10).view g10 (k1_off104 k) _ hoff _ ⟨15, hj⟩ h1) ?_
    have hA0 : ∀ w : BitVec 32, (k1_off135 k w) 0 = 16 * k.val + 15 := fun w => ChkLib.row_toNat k.val hk 15#32 (by decide)
    have hA1 : ∀ w : BitVec 32, (k1_off135 k w) 1 = ((w &&& 127#32) &&& 112#32).toNat := fun w => rfl
    have hB : ∀ w : BitVec 32, (k1_off136 w) 0 = 32 * 15 + (w.toNat % 16 + 16 - 15) % 16 :=
      fun w => IdBits.start_toNat 480#32 w 15#32 (by decide) (by decide)
    have hw : region4.sl.v699 d L k g6 = (a6).view.read (Elt F) g6 (ix1 ⟨128 * 3 + 16 * k.val + 15, h1⟩) := by
      delta_sl [v699, r]
      simp only [LanePayK1.k1_pay308_nf, LanePayK1.k1_pay235_nf, View.readAt_rect]
      exact (LaneLib.extract_lane (((a6).view.slice (Rect.unit (s := S512) (k1_off104 k) S16.size (k1_off104_inb k))).read (Elt F) g6) 15 (by decide) _ _).trans (hid ⟨15, by decide⟩ h1)
    delta_sl [v719, H11_32, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off135 k (region4.sl.v699 d L k g6)) (k1_off136 (region4.sl.v699 d L k g6)) ![480] ![496] _ _ _ _ shapeCasts_S1x16_S16 k.val 15 (region4.sl.v699 d L k g6) _ hk (by decide) (hA0 _) (hA1 _) (hB _) rfl rfl h2 hw

end Cert.KernelIdeal.TileK1

end
-- ==== Proof.GatherVal.lean ====
import proofs.«204913_g64682207478566_cont_9to1c4b_713_31_alg».proof.Proof.Gen.KernelIdeal
import Idealize.ShloMosaic.Lib.SparseCore.Stream
import Idealize.ShloMosaic.Lib.ValueIdx
import Idealize.ShloMosaic.Lib.Writes
import Idealize.ShloMosaic.Lib.Pipeline.FrameBody
import Idealize.ShloMosaic.Lib.Pipeline.Value

noncomputable section

namespace Cert.KernelIdeal.GatherVal

open Cert.KernelIdeal
open Idealize.ShloMosaic Idealize.ShloMosaic.ValueIdx

/-! ## What an indirect gather of 128 rows leaves, read at an element

Row `r` of the destination is the table's row that entry `r` of the offset list names. -/

variable {F : FTy → Type} [FloatOps F]

/-- A rank-one shape's row-major position of an index is its one coordinate. -/
theorem rowMajor_symm_one {n : Nat} (k : Fin (⟨1, ![n]⟩ : Shape).numel) :
    (⟨1, ![n]⟩ : Shape).rowMajor.symm k = ix1 (⟨k.val, (lt_of_lt_of_eq k.isLt (Shape.numel_rank1 _) : k.val < n)⟩ : Fin n) := by
  refine (Equiv.symm_apply_eq _).mpr (Fin.ext ?_)
  rw [Shape.rowMajor_val_one]
  rfl

/-- The gather's payload at row `r`, lane `l`: the table at the row the list's entry `r` names, lane `l`. -/
theorem gather_apply {z : Nat} (hg : (⟨2, ![z, 128]⟩ : Shape).Gathers 0 S128x128)
    (g : (⟨2, ![z, 128]⟩ : Shape).Idx → Elt F .f32) (idx : S128.Idx → Elt F .i32)
    (hn : S128.numel = S128x128.size hg.axis') (hin : ∀ x, (idx x).toNat < (⟨2, ![z, 128]⟩ : Shape).size hg.axis)
    (r l : Fin 128) :
    SparseCore.gatherPayload hg g (SparseCore.rows idx hn hin) (ix2 r l)
      = g (ix2 ⟨(idx (ix1 r)).toNat, hin (ix1 r)⟩ l) := by
  unfold SparseCore.gatherPayload
  congr 1
  funext b; apply Fin.ext
  match b with
  | ⟨0, hb⟩ =>
    have h0 := Shape.Gathers.idx_axis hg (SparseCore.rows idx hn hin) (ix2 r l)
    have : (hg.idx (SparseCore.rows idx hn hin) (ix2 r l) hg.axis).val = (idx (ix1 r)).toNat := by
      rw [h0]
      unfold SparseCore.rows
      show (idx (S128.rowMajor.symm _)).toNat = _
      rw [rowMajor_symm_one]
      rfl
    exact this
  | ⟨1, hb⟩ =>
    exact Shape.Gathers.idx_of_ne hg (SparseCore.rows idx hn hin) (ix2 r l) ⟨1, hb⟩ (by show (1 : Nat) ≠ 0; decide)

/-! ## Reads through the slices the kernel makes -/

section Reads

variable {sig : RefSig} {κ : Kind} {sp : Space} {Val : EltTy → Type}

/-- Entry `r` of a 128-entry slice of the 512-entry row list is entry `off + r` of the list. -/
theorem slice_read_ix1 (m : Memref sig κ sp S512 .i32) (off : Fin 1 → Nat) (inb : ∀ a, off a + S128.size a ≤ S512.size a)
    (h1 : ∀ a, (Rect.unit (s := S512) off S128.size inb).stride a = 1) (fo : m.view.ty.Contents Val) (r : Fin 128) :
    (m.slice (Rect.unit (s := S512) off S128.size inb) h1).view.read Val fo (ix1 r)
      = m.view.read Val fo (ix1 ⟨off 0 + r.val, by have hi : off 0 + 128 ≤ 512 := inb 0; have hr := r.isLt; show off 0 + r.val < 512; omega⟩) := by
  have e : (m.slice (Rect.unit (s := S512) off S128.size inb) h1).view.read Val fo (ix1 r)
      = m.view.read Val fo ((Rect.unit (s := S512) off S128.size inb).toLoadRect.idx (ix1 r)) := rfl
  rw [e]
  congr 1
  funext a; apply Fin.ext
  match a with
  | ⟨0, _⟩ => show off 0 + 1 * r.val = off 0 + r.val; omega

/-- A slice that is the whole memref at zero offsets reads what the memref reads. -/
theorem read_slice_full {S : Shape} {e : EltTy} (m : Memref sig κ sp S e) {off : Fin S.rank → Nat} (h : off = fun _ => 0)
    (inb : ∀ a, off a + S.size a ≤ S.size a) (h1 : ∀ a, (Rect.unit (s := S) off S.size inb).stride a = 1) (f : m.view.ty.Contents Val) :
    (m.slice (Rect.unit (s := S) off S.size inb) h1).view.read Val f = m.view.read Val f :=
  View.ld_unit_zero h inb (m.view.read Val f)

/-- A buffer written once through the whole-shape rectangle reads the payload. -/
theorem read_writes_whole {S : Shape} {e : EltTy} (v : View sig κ sp S e) (f : v.ty.Contents Val) (w : S.Idx → Val e) :
    v.read Val (v.writes Val f [(⟨Rect.whole S, w⟩ : View.Piece Val S e)]) = w := by
  funext x
  have h := View.read_writes_cons_emb (v := v) (f := f) (Rect.whole S) w [] x
  rwa [Rect.emb_whole_apply] at h

end Reads

end Cert.KernelIdeal.GatherVal

end
-- ==== Proof.TileValLib.lean ====
import proofs.«204913_g64682207478566_cont_9to1c4b_713_31_alg».proof.Proof.Vals
import proofs.«204913_g64682207478566_cont_9to1c4b_713_31_alg».proof.Proof.ChkLib
import Idealize.ShloMosaic.Lib.Writes
import Idealize.ShloMosaic.Lib.ValueIdx

noncomputable section

namespace Cert.KernelIdeal.TileValLib

open Cert.KernelIdeal Cert.KernelIdeal.Gen Cert.KernelIdeal.Common
open Idealize.ShloMosaic Idealize.ShloMosaic.ValueIdx

/-! ## Pure steps of a tile's value: the output scratch filled sixteen lanes at a time, the tile's rows of a batch
array, and the row and lane an id selects -/

section Writes

variable {sig : RefSig} {κ : Kind} {sp : Space} {e : EltTy} {Val : EltTy → Type}

/-- Sixteen more entries of a 512-entry buffer: if the entries below `n` read `val`, and the sixteen written at `n` are
    `val`'s next sixteen, the entries below `n + 16` read `val`. -/
theorem writes_step (vw : View sig κ sp S512 e) (fo : vw.ty.Contents Val) (off : Fin 1 → Nat)
    (inb : ∀ a, off a + S16.size a ≤ S512.size a) (n : Nat) (hoff : off 0 = n)
    (v : S16.Idx → Val e) (val : Fin 512 → Val e)
    (hgood : ∀ r : Fin 512, r.val < n → vw.read Val fo (ix1 r) = val r)
    (hv : ∀ (l : Fin 16) (h : n + l.val < 512), v (ix1 l) = val ⟨n + l.val, h⟩) :
    ∀ r : Fin 512, r.val < n + 16 →
      vw.read Val (vw.writes Val fo [(⟨Rect.unit (s := S512) off S16.size inb, v⟩ : View.Piece Val S512 e)]) (ix1 r) = val r := by
  intro r hr
  by_cases h : r.val < n
  · rw [View.read_writes_apply_of_forall_not_mem (v := vw) (f := fo) (ix1 r) _ (fun p hp => by
      rw [List.mem_singleton] at hp; subst hp
      rw [Rect.mem_set_unit]
      intro hm
      have h0 := (hm (0 : Fin 1)).1
      change off 0 ≤ r.val at h0
      omega)]
    exact hgood r h
  · have hi : off 0 + 16 ≤ 512 := inb 0
    have hl : r.val - n < 16 := by omega
    have hemb : (Rect.unit (s := S512) off S16.size inb).emb (ix1 (⟨r.val - n, hl⟩ : Fin 16)) = (ix1 r : S512.Idx) := by
      funext a; apply Fin.ext
      match a with
      | ⟨0, _⟩ => show off 0 + 1 * (r.val - n) = r.val; omega
    rw [← hemb, View.read_writes_cons_emb]
    rw [hv ⟨r.val - n, hl⟩ (by show n + (r.val - n) < 512; have := r.isLt; omega)]
    congr 1
    apply Fin.ext
    show n + (r.val - n) = r.val
    omega

end Writes

section Rows

variable {sig' : RefSig} {κ : Kind} {sp : Space} {e : EltTy} {Val : EltTy → Type}

/-- Entry `r` of the tile's 512 rows of a batch array is the array's entry at the tile's row `r`. -/
theorem slice_read_bidx (m : Memref sig' κ sp S16384 e) (L : grid1.Coords)
    (h1 : ∀ a, (Rect.unit (s := S16384) (k1_off1 L) S512.size (k1_off1_inb L)).stride a = 1) (f : m.view.ty.Contents Val) (r : Fin 512) :
    (m.slice (Rect.unit (s := S16384) (k1_off1 L) S512.size (k1_off1_inb L)) h1).view.read Val f (ix1 r)
      = m.view.read Val f (Vals.bidx L r) := by
  have e0 : (m.slice (Rect.unit (s := S16384) (k1_off1 L) S512.size (k1_off1_inb L)) h1).view.read Val f (ix1 r)
      = m.view.read Val f ((Rect.unit (s := S16384) (k1_off1 L) S512.size (k1_off1_inb L)).toLoadRect.idx (ix1 r)) := rfl
  rw [e0]
  congr 1
  funext a; apply Fin.ext
  match a with
  | ⟨0, _⟩ => show (k1_off1 L) 0 + 1 * r.val = (k1_off1 L) 0 + r.val; omega

/-- The tile's copy-out, first kernel: the output array's entry at the tile's row `r` is entry `r` of what was copied. -/
theorem copyout_bidx (L : grid1.Coords)
    (h1 : ∀ a, (Rect.unit (s := S16384) (k1_off1 L) S512.size (k1_off1_inb L)).stride a = 1)
    (o0 : S16384.Idx → Val .f32) (w : S512.Idx → Val .f32) (r : Fin 512) :
    (((Memref.whole main_v8_scv : Memref sig .scVector .hbm S16384 .f32).slice
        (Rect.unit (s := S16384) (k1_off1 L) S512.size (k1_off1_inb L)) h1).view.write Val o0 w Finset.univ) (Vals.bidx L r) = w (ix1 r) := by
  have hemb : ((Memref.whole main_v8_scv : Memref sig .scVector .hbm S16384 .f32).slice
      (Rect.unit (s := S16384) (k1_off1 L) S512.size (k1_off1_inb L)) h1).view.emb (ix1 r) = Vals.bidx L r := by
    funext a; apply Fin.ext
    match a with
    | ⟨0, _⟩ => show (k1_off1 L) 0 + 1 * r.val = (k1_off1 L) 0 + r.val; omega
  rw [← hemb, View.write_emb_of_mem _ _ (Finset.mem_univ _)]
  rfl

/-- The same for the second kernel's output array. -/
theorem copyout_bidx3 (L : grid1.Coords)
    (h1 : ∀ a, (Rect.unit (s := S16384) (k1_off1 L) S512.size (k1_off1_inb L)).stride a = 1)
    (o0 : S16384.Idx → Val .f32) (w : S512.Idx → Val .f32) (r : Fin 512) :
    (((Memref.whole main_v12_scv : Memref sig .scVector .hbm S16384 .f32).slice
        (Rect.unit (s := S16384) (k1_off1 L) S512.size (k1_off1_inb L)) h1).view.write Val o0 w Finset.univ) (Vals.bidx L r) = w (ix1 r) := by
  have hemb : ((Memref.whole main_v12_scv : Memref sig .scVector .hbm S16384 .f32).slice
      (Rect.unit (s := S16384) (k1_off1 L) S512.size (k1_off1_inb L)) h1).view.emb (ix1 r) = Vals.bidx L r := by
    funext a; apply Fin.ext
    match a with
    | ⟨0, _⟩ => show (k1_off1 L) 0 + 1 * r.val = (k1_off1 L) 0 + r.val; omega
  rw [← hemb, View.write_emb_of_mem _ _ (Finset.mem_univ _)]
  rfl

/-- The copy-out as one listed write through the whole slice: the array's entry at the tile's row `r` is entry `r` of what was
    copied. -/
theorem copyout_writes_bidx (L : grid1.Coords)
    (h1 : ∀ a, (Rect.unit (s := S16384) (k1_off1 L) S512.size (k1_off1_inb L)).stride a = 1)
    (o0 : S16384.Idx → Val .f32) (w : S512.Idx → Val .f32) (r : Fin 512) :
    (((Memref.whole main_v8_scv : Memref sig .scVector .hbm S16384 .f32).slice
        (Rect.unit (s := S16384) (k1_off1 L) S512.size (k1_off1_inb L)) h1).view.writes Val o0
          [(⟨Rect.whole S512, w⟩ : View.Piece Val S512 .f32)]) (Vals.bidx L r) = w (ix1 r) := by
  have hemb : ((((Memref.whole main_v8_scv : Memref sig .scVector .hbm S16384 .f32).slice
      (Rect.unit (s := S16384) (k1_off1 L) S512.size (k1_off1_inb L)) h1).view).slice (Rect.whole S512)).emb (ix1 r) = Vals.bidx L r := by
    show ((Memref.whole main_v8_scv : Memref sig .scVector .hbm S16384 .f32).slice
      (Rect.unit (s := S16384) (k1_off1 L) S512.size (k1_off1_inb L)) h1).view.emb ((Rect.whole S512).emb (ix1 r)) = _
    rw [Rect.emb_whole_apply]
    funext a; apply Fin.ext
    match a with
    | ⟨0, _⟩ => show (k1_off1 L) 0 + 1 * r.val = (k1_off1 L) 0 + r.val; omega
  rw [View.writes_singleton, ← hemb, View.write_emb_of_mem _ _ (Finset.mem_univ _)]
  rfl

/-- The copy-out as one listed write through the whole slice: the array's entry at the tile's row `r` is entry `r` of what was
    copied. -/
theorem copyout_writes_bidx3 (L : grid1.Coords)
    (h1 : ∀ a, (Rect.unit (s := S16384) (k1_off1 L) S512.size (k1_off1_inb L)).stride a = 1)
    (o0 : S16384.Idx → Val .f32) (w : S512.Idx → Val .f32) (r : Fin 512) :
    (((Memref.whole main_v12_scv : Memref sig .scVector .hbm S16384 .f32).slice
        (Rect.unit (s := S16384) (k1_off1 L) S512.size (k1_off1_inb L)) h1).view.writes Val o0
          [(⟨Rect.whole S512, w⟩ : View.Piece Val S512 .f32)]) (Vals.bidx L r) = w (ix1 r) := by
  have hemb : ((((Memref.whole main_v12_scv : Memref sig .scVector .hbm S16384 .f32).slice
      (Rect.unit (s := S16384) (k1_off1 L) S512.size (k1_off1_inb L)) h1).view).slice (Rect.whole S512)).emb (ix1 r) = Vals.bidx L r := by
    show ((Memref.whole main_v12_scv : Memref sig .scVector .hbm S16384 .f32).slice
      (Rect.unit (s := S16384) (k1_off1 L) S512.size (k1_off1_inb L)) h1).view.emb ((Rect.whole S512).emb (ix1 r)) = _
    rw [Rect.emb_whole_apply]
    funext a; apply Fin.ext
    match a with
    | ⟨0, _⟩ => show (k1_off1 L) 0 + 1 * r.val = (k1_off1 L) 0 + r.val; omega
  rw [View.writes_singleton, ← hemb, View.write_emb_of_mem _ _ (Finset.mem_univ _)]
  rfl

end Rows

/-! ## The row and the lane an id selects -/

/-- An id in the user table's range, shifted right by seven, is the row it selects of the 7816-row table. -/
theorem shrui_eq_trow (v : BitVec 32) (h : v.toNat ≤ 999999) :
    (IntOp.shrui .vector v 7#32).toNat = (Vals.trow 7816 (by decide) v).val := by
  rw [Cert.Proof.ChkLib.toNat_shrui_7]
  show v.toNat / 128 = v.toNat / 128 % 7816
  rw [Nat.mod_eq_of_lt (by omega)]
/-- The same in the course table's range, for the 784-row table. -/
theorem shrui_eq_trow' (v : BitVec 32) (h : v.toNat ≤ 99999) :
    (IntOp.shrui .vector v 7#32).toNat = (Vals.trow 784 (by decide) v).val := by
  rw [Cert.Proof.ChkLib.toNat_shrui_7]
  show v.toNat / 128 = v.toNat / 128 % 784
  rw [Nat.mod_eq_of_lt (by omega)]
/-- An id's residue modulo 128 is the lane it selects. -/
theorem mod_eq_tlane (v : BitVec 32) : v.toNat % 128 = (Vals.tlane v).val := rfl

end Cert.KernelIdeal.TileValLib

end
-- ==== Proof.TileLink.lean ====
import proofs.«204913_g64682207478566_cont_9to1c4b_713_31_alg».proof.Proof.TileValLib
import proofs.«204913_g64682207478566_cont_9to1c4b_713_31_alg».proof.Proof.GatherVal

noncomputable section

namespace Cert.KernelIdeal.TileLink

open Cert.KernelIdeal Cert.KernelIdeal.Gen Cert.KernelIdeal.Common
open Idealize.ShloMosaic Idealize.ShloMosaic.ValueIdx

/-! ## From a tile's scratch copies to the batch arrays: the ids and base values it copied, the rows it gathered, and the
lane sum in the batch arrays' terms -/

variable {F : FTy → Type} [FloatOps F]

section Kernel1

local notation "a6" => (Memref.whole cc1_scratch0 : Memref sig Kind.scVector Space.vmem S512 EltTy.i32)
local notation "a7" => (Memref.whole cc1_scratch1 : Memref sig Kind.scVector Space.vmem S512 EltTy.i32)
local notation "a10" => (Memref.whole cc1_scratch4 : Memref sig Kind.scVector Space.vmem S512 EltTy.f32)
local notation "iV" => (Memref.whole main_arg0_scv : Memref sig Kind.scVector Space.hbm S16384 EltTy.i32)
local notation "bV" => (Memref.whole main_v7_scv : Memref sig Kind.scVector Space.hbm S16384 EltTy.f32)
local notation "tV" => (Memref.whole main_v6_scv : Memref sig Kind.scVector Space.hbm S7816x128 EltTy.f32)

/-- (L1) The ids the tile copied into its scratch: entry `r` is the batch's id at the tile's row `r`. -/
theorem ids_read1 (L : grid1.Coords)
    (h1 : ∀ a, (Rect.unit (s := S16384) (k1_off1 L) S512.size (k1_off1_inb L)).stride a = 1)
    (f6 : S512.Idx → Elt F .i32) (ids : S16384.Idx → Elt F .i32) (r : Fin 512) :
    (a6).view.read (Elt F) (View.write (Elt F) (a6).view f6
        (ReadAs.same.apply (View.read (Elt F) ((iV).slice (Rect.unit (s := S16384) (k1_off1 L) S512.size (k1_off1_inb L)) h1).view ids)) Finset.univ) (ix1 r)
      = ids (Vals.bidx L r) := by
  show (View.whole cc1_scratch0).read (Elt F) ((View.whole cc1_scratch0).write (Elt F) f6 _ Finset.univ) (ix1 r) = _
  rw [View.write_whole_univ, View.read_whole, ReadAs.apply_same, TileValLib.slice_read_bidx]
  rfl

/-- (L1) The base values likewise. -/
theorem base_read1 (L : grid1.Coords)
    (h1 : ∀ a, (Rect.unit (s := S16384) (k1_off1 L) S512.size (k1_off1_inb L)).stride a = 1)
    (f10 : S512.Idx → Elt F .f32) (bs : S16384.Idx → Elt F .f32) (r : Fin 512) :
    (a10).view.read (Elt F) (View.write (Elt F) (a10).view f10
        (ReadAs.same.apply (View.read (Elt F) ((bV).slice (Rect.unit (s := S16384) (k1_off1 L) S512.size (k1_off1_inb L)) h1).view bs)) Finset.univ) (ix1 r)
      = bs (Vals.bidx L r) := by
  show (View.whole cc1_scratch4).read (Elt F) ((View.whole cc1_scratch4).write (Elt F) f10 _ Finset.univ) (ix1 r) = _
  rw [View.write_whole_univ, View.read_whole, ReadAs.apply_same, TileValLib.slice_read_bidx]
  rfl

/-- (L2) A gathered buffer read at row `i`, lane `j`: the table at the row the id at position `off + i` of the tile selects,
    lane `j` — the row list holding every id shifted right by seven, the ids in the table's range. -/
theorem gathered_read1 {κB : Kind} {spB : Space} (vB : View sig κB spB S128x128 .f32) (junk0 : vB.ty.Contents (Elt F))
    (tbl : S7816x128.Idx → Elt F .f32) (FO : S512.Idx → Elt F .i32) (i6 : S512.Idx → BitVec 32)
    (hrow : ∀ y : S512.Idx, (a7).view.read (Elt F) FO y = IntOp.shrui .vector (i6 y) 7#32) (hlt : ∀ y, (i6 y).toNat ≤ 999999)
    (off : Fin 1 → Nat) (inb : ∀ a, off a + S128.size a ≤ S512.size a)
    (h1 : ∀ a, (Rect.unit (s := S7816x128) ![0, 0] S7816x128.size inb_S7816x128_S7816x128_0_0).stride a = 1)
    (h1' : ∀ a, (Rect.unit (s := S512) off S128.size inb).stride a = 1)
    (hn : S128.numel = S128x128.size gathers_S7816x128_S128x128.axis')
    (hin' : ∀ x, (View.read (Elt F) ((a7).slice (Rect.unit (s := S512) off S128.size inb) h1').view FO x).toNat < S7816x128.size gathers_S7816x128_S128x128.axis)
    (Lt : List (View.Piece (Elt F) S128x128 .f32)) (i j : Fin 128) :
    vB.read (Elt F) (vB.writes (Elt F) junk0 ((⟨Rect.whole S128x128, SparseCore.gatherPayload gathers_S7816x128_S128x128
          (View.read (Elt F) ((tV).slice (Rect.unit (s := S7816x128) ![0, 0] S7816x128.size inb_S7816x128_S7816x128_0_0) h1).view tbl)
          (SparseCore.rows (View.read (Elt F) ((a7).slice (Rect.unit (s := S512) off S128.size inb) h1').view FO) hn hin')⟩ : View.Piece (Elt F) S128x128 .f32) :: Lt)) (ix2 i j)
      = tbl (ix2 (Vals.trow 7816 (by decide) (i6 (ix1 ⟨off 0 + i.val, by have hi : off 0 + 128 ≤ 512 := inb 0; have := i.isLt; omega⟩))) j) := by
  have hw := View.read_writes_cons_emb (v := vB) (f := junk0) (Rect.whole S128x128)
    (SparseCore.gatherPayload gathers_S7816x128_S128x128
      (View.read (Elt F) ((tV).slice (Rect.unit (s := S7816x128) ![0, 0] S7816x128.size inb_S7816x128_S7816x128_0_0) h1).view tbl)
      (SparseCore.rows (View.read (Elt F) ((a7).slice (Rect.unit (s := S512) off S128.size inb) h1').view FO) hn hin')) Lt (ix2 i j)
  rw [Rect.emb_whole_apply] at hw
  refine hw.trans ?_
  refine (GatherVal.gather_apply gathers_S7816x128_S128x128 _ _ hn hin' i j).trans ?_
  have hrs := GatherVal.read_slice_full (Val := Elt F) (tV) (off := ![0, 0]) (funext fun a => by fin_cases a <;> rfl)
    inb_S7816x128_S7816x128_0_0 h1 tbl
  refine (congrFun hrs _).trans ?_
  show tbl _ = tbl _
  congr 1
  funext b; apply Fin.ext
  match b with
  | ⟨0, _⟩ =>
    show (View.read (Elt F) ((a7).slice (Rect.unit (s := S512) off S128.size inb) h1').view FO (ix1 i)).toNat = _
    rw [GatherVal.slice_read_ix1, hrow, TileValLib.shrui_eq_trow _ (hlt _)]
  | ⟨1, _⟩ => rfl

/-- (L3) The link: a lane's sum over the scratch copies is the batch row's base value plus the table entry its id selects. -/
theorem link1 (L : grid1.Coords) (ids : S16384.Idx → BitVec 32) (bs : S16384.Idx → F .f32) (tbl : S7816x128.Idx → F .f32)
    (i6 : S512.Idx → BitVec 32) (b10 : S512.Idx → F .f32) (rB : S128x128.Idx → F .f32) (c : Nat)
    (hi6 : ∀ r : Fin 512, i6 (ix1 r) = ids (Vals.bidx L r)) (hb10 : ∀ r : Fin 512, b10 (ix1 r) = bs (Vals.bidx L r))
    (hrB : ∀ (i j : Fin 128) (h : 128 * c + i.val < 512),
      rB (ix2 i j) = tbl (ix2 (Vals.trow 7816 (by decide) (i6 (ix1 ⟨128 * c + i.val, h⟩))) j)) :
    ∀ (k : Nat) (l : Fin 16) (h1 : 128 * c + 16 * k + l.val < 512) (h2 : 16 * k + l.val < 128),
      FloatOps.addf (b10 (ix1 ⟨128 * c + 16 * k + l.val, h1⟩))
          (rB (ix2 ⟨16 * k + l.val, h2⟩ ⟨(i6 (ix1 ⟨128 * c + 16 * k + l.val, h1⟩)).toNat % 128, Nat.mod_lt _ (by decide)⟩))
        = FloatOps.addf (bs (Vals.bidx L ⟨128 * c + 16 * k + l.val, h1⟩))
            (tbl (ix2 (Vals.trow 7816 (by decide) (ids (Vals.bidx L ⟨128 * c + 16 * k + l.val, h1⟩)))
              (Vals.tlane (ids (Vals.bidx L ⟨128 * c + 16 * k + l.val, h1⟩))))) := by
  intro k l h1 h2
  have e : (⟨128 * c + (⟨16 * k + l.val, h2⟩ : Fin 128).val, by show 128 * c + (16 * k + l.val) < 512; omega⟩ : Fin 512)
      = ⟨128 * c + 16 * k + l.val, h1⟩ := Fin.ext (by show 128 * c + (16 * k + l.val) = 128 * c + 16 * k + l.val; omega)
  rw [hb10, hrB ⟨16 * k + l.val, h2⟩ _ (by show 128 * c + (16 * k + l.val) < 512; omega), e]
  simp only [hi6]
  rfl

end Kernel1

section Kernel3

local notation "a6" => (Memref.whole cc3_scratch0 : Memref sig Kind.scVector Space.vmem S512 EltTy.i32)
local notation "a7" => (Memref.whole cc3_scratch1 : Memref sig Kind.scVector Space.vmem S512 EltTy.i32)
local notation "a10" => (Memref.whole cc3_scratch4 : Memref sig Kind.scVector Space.vmem S512 EltTy.f32)
local notation "iV" => (Memref.whole main_arg1_scv : Memref sig Kind.scVector Space.hbm S16384 EltTy.i32)
local notation "bV" => (Memref.whole main_v8_scv : Memref sig Kind.scVector Space.hbm S16384 EltTy.f32)
local notation "tV" => (Memref.whole main_v11_scv : Memref sig Kind.scVector Space.hbm S784x128 EltTy.f32)

/-- (L1) The ids the tile copied into its scratch: entry `r` is the batch's id at the tile's row `r`. -/
theorem ids_read3 (L : grid1.Coords)
    (h1 : ∀ a, (Rect.unit (s := S16384) (k1_off1 L) S512.size (k1_off1_inb L)).stride a = 1)
    (f6 : S512.Idx → Elt F .i32) (ids : S16384.Idx → Elt F .i32) (r : Fin 512) :
    (a6).view.read (Elt F) (View.write (Elt F) (a6).view f6
        (ReadAs.same.apply (View.read (Elt F) ((iV).slice (Rect.unit (s := S16384) (k1_off1 L) S512.size (k1_off1_inb L)) h1).view ids)) Finset.univ) (ix1 r)
      = ids (Vals.bidx L r) := by
  show (View.whole cc3_scratch0).read (Elt F) ((View.whole cc3_scratch0).write (Elt F) f6 _ Finset.univ) (ix1 r) = _
  rw [View.write_whole_univ, View.read_whole, ReadAs.apply_same, TileValLib.slice_read_bidx]
  rfl

/-- (L1) The base values likewise. -/
theorem base_read3 (L : grid1.Coords)
    (h1 : ∀ a, (Rect.unit (s := S16384) (k1_off1 L) S512.size (k1_off1_inb L)).stride a = 1)
    (f10 : S512.Idx → Elt F .f32) (bs : S16384.Idx → Elt F .f32) (r : Fin 512) :
    (a10).view.read (Elt F) (View.write (Elt F) (a10).view f10
        (ReadAs.same.apply (View.read (Elt F) ((bV).slice (Rect.unit (s := S16384) (k1_off1 L) S512.size (k1_off1_inb L)) h1).view bs)) Finset.univ) (ix1 r)
      = bs (Vals.bidx L r) := by
  show (View.whole cc3_scratch4).read (Elt F) ((View.whole cc3_scratch4).write (Elt F) f10 _ Finset.univ) (ix1 r) = _
  rw [View.write_whole_univ, View.read_whole, ReadAs.apply_same, TileValLib.slice_read_bidx]
  rfl

/-- (L2) A gathered buffer read at row `i`, lane `j`: the table at the row the id at position `off + i` of the tile selects,
    lane `j` — the row list holding every id shifted right by seven, the ids in the table's range. -/
theorem gathered_read3 {κB : Kind} {spB : Space} (vB : View sig κB spB S128x128 .f32) (junk0 : vB.ty.Contents (Elt F))
    (tbl : S784x128.Idx → Elt F .f32) (FO : S512.Idx → Elt F .i32) (i6 : S512.Idx → BitVec 32)
    (hrow : ∀ y : S512.Idx, (a7).view.read (Elt F) FO y = IntOp.shrui .vector (i6 y) 7#32) (hlt : ∀ y, (i6 y).toNat ≤ 99999)
    (off : Fin 1 → Nat) (inb : ∀ a, off a + S128.size a ≤ S512.size a)
    (h1 : ∀ a, (Rect.unit (s := S784x128) ![0, 0] S784x128.size inb_S784x128_S784x128_0_0).stride a = 1)
    (h1' : ∀ a, (Rect.unit (s := S512) off S128.size inb).stride a = 1)
    (hn : S128.numel = S128x128.size gathers_S784x128_S128x128.axis')
    (hin' : ∀ x, (View.read (Elt F) ((a7).slice (Rect.unit (s := S512) off S128.size inb) h1').view FO x).toNat < S784x128.size gathers_S784x128_S128x128.axis)
    (Lt : List (View.Piece (Elt F) S128x128 .f32)) (i j : Fin 128) :
    vB.read (Elt F) (vB.writes (Elt F) junk0 ((⟨Rect.whole S128x128, SparseCore.gatherPayload gathers_S784x128_S128x128
          (View.read (Elt F) ((tV).slice (Rect.unit (s := S784x128) ![0, 0] S784x128.size inb_S784x128_S784x128_0_0) h1).view tbl)
          (SparseCore.rows (View.read (Elt F) ((a7).slice (Rect.unit (s := S512) off S128.size inb) h1').view FO) hn hin')⟩ : View.Piece (Elt F) S128x128 .f32) :: Lt)) (ix2 i j)
      = tbl (ix2 (Vals.trow 784 (by decide) (i6 (ix1 ⟨off 0 + i.val, by have hi : off 0 + 128 ≤ 512 := inb 0; have := i.isLt; omega⟩))) j) := by
  have hw := View.read_writes_cons_emb (v := vB) (f := junk0) (Rect.whole S128x128)
    (SparseCore.gatherPayload gathers_S784x128_S128x128
      (View.read (Elt F) ((tV).slice (Rect.unit (s := S784x128) ![0, 0] S784x128.size inb_S784x128_S784x128_0_0) h1).view tbl)
      (SparseCore.rows (View.read (Elt F) ((a7).slice (Rect.unit (s := S512) off S128.size inb) h1').view FO) hn hin')) Lt (ix2 i j)
  rw [Rect.emb_whole_apply] at hw
  refine hw.trans ?_
  refine (GatherVal.gather_apply gathers_S784x128_S128x128 _ _ hn hin' i j).trans ?_
  have hrs := GatherVal.read_slice_full (Val := Elt F) (tV) (off := ![0, 0]) (funext fun a => by fin_cases a <;> rfl)
    inb_S784x128_S784x128_0_0 h1 tbl
  refine (congrFun hrs _).trans ?_
  show tbl _ = tbl _
  congr 1
  funext b; apply Fin.ext
  match b with
  | ⟨0, _⟩ =>
    show (View.read (Elt F) ((a7).slice (Rect.unit (s := S512) off S128.size inb) h1').view FO (ix1 i)).toNat = _
    rw [GatherVal.slice_read_ix1, hrow, TileValLib.shrui_eq_trow' _ (hlt _)]
  | ⟨1, _⟩ => rfl

/-- (L3) The link: a lane's sum over the scratch copies is the batch row's base value plus the table entry its id selects. -/
theorem link3 (L : grid1.Coords) (ids : S16384.Idx → BitVec 32) (bs : S16384.Idx → F .f32) (tbl : S784x128.Idx → F .f32)
    (i6 : S512.Idx → BitVec 32) (b10 : S512.Idx → F .f32) (rB : S128x128.Idx → F .f32) (c : Nat)
    (hi6 : ∀ r : Fin 512, i6 (ix1 r) = ids (Vals.bidx L r)) (hb10 : ∀ r : Fin 512, b10 (ix1 r) = bs (Vals.bidx L r))
    (hrB : ∀ (i j : Fin 128) (h : 128 * c + i.val < 512),
      rB (ix2 i j) = tbl (ix2 (Vals.trow 784 (by decide) (i6 (ix1 ⟨128 * c + i.val, h⟩))) j)) :
    ∀ (k : Nat) (l : Fin 16) (h1 : 128 * c + 16 * k + l.val < 512) (h2 : 16 * k + l.val < 128),
      FloatOps.addf (b10 (ix1 ⟨128 * c + 16 * k + l.val, h1⟩))
          (rB (ix2 ⟨16 * k + l.val, h2⟩ ⟨(i6 (ix1 ⟨128 * c + 16 * k + l.val, h1⟩)).toNat % 128, Nat.mod_lt _ (by decide)⟩))
        = FloatOps.addf (bs (Vals.bidx L ⟨128 * c + 16 * k + l.val, h1⟩))
            (tbl (ix2 (Vals.trow 784 (by decide) (ids (Vals.bidx L ⟨128 * c + 16 * k + l.val, h1⟩)))
              (Vals.tlane (ids (Vals.bidx L ⟨128 * c + 16 * k + l.val, h1⟩))))) := by
  intro k l h1 h2
  have e : (⟨128 * c + (⟨16 * k + l.val, h2⟩ : Fin 128).val, by show 128 * c + (16 * k + l.val) < 512; omega⟩ : Fin 512)
      = ⟨128 * c + 16 * k + l.val, h1⟩ := Fin.ext (by show 128 * c + (16 * k + l.val) = 128 * c + 16 * k + l.val; omega)
  rw [hb10, hrB ⟨16 * k + l.val, h2⟩ _ (by show 128 * c + (16 * k + l.val) < 512; omega), e]
  simp only [hi6]
  rfl

end Kernel3

end Cert.KernelIdeal.TileLink

end
-- ==== Proof.KernelIdeal.TileK1V.lean ====
/-
  One vector subcore's task of the first gather kernel with its value: as the frame, and moreover the tile's 512 output
  entries end at the base value plus the table entry the id selects. The value is carried in the loops' invariants:
  before trip g of chunk c the output buffer is right below entry 128 c + 16 g; a trip's sixteen results are right by
  the trip theorem, the gathered buffer's row r being the table's row (id at 128 c + r) / 128 and the id's lane being
  id mod 128; the copy-out moves the 512 entries to the tile's rows of the output.
-/
import proofs.«204913_g64682207478566_cont_9to1c4b_713_31_alg».proof.Proof.KernelIdeal.TileK1
import proofs.«204913_g64682207478566_cont_9to1c4b_713_31_alg».proof.Proof.KernelIdeal.RegionK1
import proofs.«204913_g64682207478566_cont_9to1c4b_713_31_alg».proof.Proof.Vals
import proofs.«204913_g64682207478566_cont_9to1c4b_713_31_alg».proof.Proof.GatherVal
import proofs.«204913_g64682207478566_cont_9to1c4b_713_31_alg».proof.Proof.TileValLib
import proofs.«204913_g64682207478566_cont_9to1c4b_713_31_alg».proof.Proof.TileLink
import proofs.«204913_g64682207478566_cont_9to1c4b_713_31_alg».proof.Proof.Gen.KernelIdeal.Skeleton
import proofs.«204913_g64682207478566_cont_9to1c4b_713_31_alg».proof.Proof.ChkLib
import Idealize.ShloMosaic.Lib.Pipeline.Value
import Idealize.ShloMosaic.Lib.ValueIdx

noncomputable section

namespace Cert.KernelIdeal.TileK1

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "iV" => (Memref.whole Cert.KernelIdeal.main_arg0_scv : Memref Cert.KernelIdeal.sig Kind.scVector Space.hbm Cert.KernelIdeal.S16384 EltTy.i32)
local notation "tV" => (Memref.whole Cert.KernelIdeal.main_v6_scv : Memref Cert.KernelIdeal.sig Kind.scVector Space.hbm Cert.KernelIdeal.S7816x128 EltTy.f32)
local notation "bV" => (Memref.whole Cert.KernelIdeal.main_v7_scv : Memref Cert.KernelIdeal.sig Kind.scVector Space.hbm Cert.KernelIdeal.S16384 EltTy.f32)
local notation "oV" => (Memref.whole Cert.KernelIdeal.main_v8_scv : Memref Cert.KernelIdeal.sig Kind.scVector Space.hbm Cert.KernelIdeal.S16384 EltTy.f32)
local notation "a6" => (Memref.whole Cert.KernelIdeal.cc1_scratch0 : Memref Cert.KernelIdeal.sig Kind.scVector Space.vmem Cert.KernelIdeal.S512 EltTy.i32)
local notation "a7" => (Memref.whole Cert.KernelIdeal.cc1_scratch1 : Memref Cert.KernelIdeal.sig Kind.scVector Space.vmem Cert.KernelIdeal.S512 EltTy.i32)
local notation "a8" => (Memref.whole Cert.KernelIdeal.cc1_scratch2 : Memref Cert.KernelIdeal.sig Kind.scVector Space.vmem Cert.KernelIdeal.S128x128 EltTy.f32)
local notation "a9" => (Memref.whole Cert.KernelIdeal.cc1_scratch3 : Memref Cert.KernelIdeal.sig Kind.scVector Space.vmem Cert.KernelIdeal.S128x128 EltTy.f32)
local notation "a10" => (Memref.whole Cert.KernelIdeal.cc1_scratch4 : Memref Cert.KernelIdeal.sig Kind.scVector Space.vmem Cert.KernelIdeal.S512 EltTy.f32)
local notation "a11" => (Memref.whole Cert.KernelIdeal.cc1_scratch5 : Memref Cert.KernelIdeal.sig Kind.scVector Space.vmem Cert.KernelIdeal.S512 EltTy.f32)
local notation "a12" => (Memref.whole Cert.KernelIdeal.cc1_scratch6 : Memref Cert.KernelIdeal.sig Kind.scVector Space.vmem Cert.KernelIdeal.S512 EltTy.f32)

variable [FloatOps F]
variable (d : Dev nD) (L : grid1.Coords)

/-- The value a tile leaves at its entry `r`: the base value there plus the table's entry at the row and lane the id selects. -/
def VAL (L : grid1.Coords) (ids : IVec S16384 32) (bs : FVec F S16384 .f32) (tbl : FVec F S7816x128 .f32) (r : Fin 512) : F .f32 :=
  FloatOps.addf (bs (Vals.bidx L r)) (tbl (ix2 (Vals.trow 7816 (by decide) (ids (Vals.bidx L r))) (Vals.tlane (ids (Vals.bidx L r)))))

/-- A chunk's loop over buffer A before trip `g`: the ids, the base values and the gathered rows as they stand, the rotate
    buffer at some contents, and the output buffer correct below entry `128 c + 16 g`. -/
def invVA (d : Dev nD) (L : grid1.Coords) (F6 : Buf (Elt F) ((a6).view.loc (V d (cV L) (jV L)))) (F10 : Buf (Elt F) ((a10).view.loc (V d (cV L) (jV L))))
    (FB : Buf (Elt F) ((a8).view.loc (V d (cV L) (jV L)))) (c : Nat) (val : Fin 512 → F .f32) (g : Nat) (_ : BitVec 32) : sProp 𝕄 :=
  iprop(((a6).view.loc (V d (cV L) (jV L)) ↦{fullShare} F6) ∗ ((a10).view.loc (V d (cV L) (jV L)) ↦{fullShare} F10) ∗ ((a8).view.loc (V d (cV L) (jV L)) ↦{fullShare} FB)
    ∗ (∃ f, (a11).view.loc (V d (cV L) (jV L)) ↦{fullShare} f)
    ∗ ∃ fo, ((a12).view.loc (V d (cV L) (jV L)) ↦{fullShare} fo) ∗ ⌜∀ r : Fin 512, r.val < 128 * c + 16 * g → (a12).view.read (Elt F) fo (ix1 r) = val r⌝)
/-- The same over buffer B. -/
def invVB (d : Dev nD) (L : grid1.Coords) (F6 : Buf (Elt F) ((a6).view.loc (V d (cV L) (jV L)))) (F10 : Buf (Elt F) ((a10).view.loc (V d (cV L) (jV L))))
    (FB : Buf (Elt F) ((a9).view.loc (V d (cV L) (jV L)))) (c : Nat) (val : Fin 512 → F .f32) (g : Nat) (_ : BitVec 32) : sProp 𝕄 :=
  iprop(((a6).view.loc (V d (cV L) (jV L)) ↦{fullShare} F6) ∗ ((a10).view.loc (V d (cV L) (jV L)) ↦{fullShare} F10) ∗ ((a9).view.loc (V d (cV L) (jV L)) ↦{fullShare} FB)
    ∗ (∃ f, (a11).view.loc (V d (cV L) (jV L)) ↦{fullShare} f)
    ∗ ∃ fo, ((a12).view.loc (V d (cV L) (jV L)) ↦{fullShare} fo) ∗ ⌜∀ r : Fin 512, r.val < 128 * c + 16 * g → (a12).view.read (Elt F) fo (ix1 r) = val r⌝)
set_option maxHeartbeats 4000000 in
theorem tile_body (qi qt qb : PosShare TreeShare)
    (ids : Buf (Elt F) (iLoc d)) (tbl : Buf (Elt F) (tLoc d)) (bs : Buf (Elt F) (bLoc d)) (o0 : Buf (Elt F) (oLoc d))
    (hin : ∀ j, (ids j).toNat ≤ 999999) (hchk : ChkAll) (hF : (K (F := F)).Facts)
    (O : CellTallies nD τ sig (HIx 2)) (W : Waits sig (HIx 2)) (hO : ∀ g, O g none = 0) :
    iprop(levAts (K (F := F)).L (K (F := F)).lev ∗ emp ∗ (((iLoc d ↦{qi} ids : sProp 𝕄)) ∗ (tLoc d ↦{qt} tbl) ∗ (bLoc d ↦{qb} bs) ∗ (oLoc d ↦[oRowSet L]{fullShare} o0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2)
          fun _ => iprop(((iLoc d ↦{qi} ids) ∗ (tLoc d ↦{qt} tbl) ∗ (bLoc d ↦{qb} bs)
              ∗ ∃ f : Buf (Elt F) (oLoc d), (oLoc d ↦[oRowSet L]{fullShare} f) ∗ ⌜Vals.TileVal (R := 7816) (by decide) L ids bs tbl f⌝)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Hb, Ho⟩, ⟨⟨%f6, H6⟩, ⟨%f7, H7⟩, ⟨%f8, H8⟩, ⟨%f9, H9⟩, ⟨%f10, H10⟩, ⟨%f11, H11⟩, ⟨%f12, H12⟩, Hbufs⟩, ⟨Hs13, Hs14, Hr0, Hr1, Hr2, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Hb' := (Entails.of_eq (pts_bV (F := F) d L _ _).symm) $$ Hb
  ihave Ho' := (Entails.of_eq (pts_oRowK (F := F) d L _).symm) $$ Ho
  ihave H6' := (Entails.of_eq (show ((V d (cV L) (jV L)).loc cc1_scratch0 ↦{fullShare} f6 : sProp 𝕄) = ((a6).view.loc (V d (cV L) (jV L)) ↦{fullShare} f6) from rfl)) $$ H6
  ihave H7' := (Entails.of_eq (show ((V d (cV L) (jV L)).loc cc1_scratch1 ↦{fullShare} f7 : sProp 𝕄) = ((a7).view.loc (V d (cV L) (jV L)) ↦{fullShare} f7) from rfl)) $$ H7
  ihave H8' := (Entails.of_eq (show ((V d (cV L) (jV L)).loc cc1_scratch2 ↦{fullShare} f8 : sProp 𝕄) = ((a8).view.loc (V d (cV L) (jV L)) ↦{fullShare} f8) from rfl)) $$ H8
  ihave H9' := (Entails.of_eq (show ((V d (cV L) (jV L)).loc cc1_scratch3 ↦{fullShare} f9 : sProp 𝕄) = ((a9).view.loc (V d (cV L) (jV L)) ↦{fullShare} f9) from rfl)) $$ H9
  ihave H10' := (Entails.of_eq (show ((V d (cV L) (jV L)).loc cc1_scratch4 ↦{fullShare} f10 : sProp 𝕄) = ((a10).view.loc (V d (cV L) (jV L)) ↦{fullShare} f10) from rfl)) $$ H10
  ihave H11' := (Entails.of_eq (show ((V d (cV L) (jV L)).loc cc1_scratch5 ↦{fullShare} f11 : sProp 𝕄) = ((a11).view.loc (V d (cV L) (jV L)) ↦{fullShare} f11) from rfl)) $$ H11
  ihave H12' := (Entails.of_eq (show ((V d (cV L) (jV L)).loc cc1_scratch6 ↦{fullShare} f12 : sProp 𝕄) = ((a12).view.loc (V d (cV L) (jV L)) ↦{fullShare} f12) from rfl)) $$ H12
  sl_exec
  -- what the prologue left in the row list: at every position the id there, shifted right by 7
  have hdma : ∀ y, (tile_body.sl.dma0 d L ids y).toNat ≤ 999999 := fun y => by
    unfold tile_body.sl.dma0
    rw [ReadAs.apply_same, View.read_apply]
    exact hin _
  have hrow : ∀ y : S512.Idx, (a7).view.read (Elt F) ((a7).view.writes (Elt F) (a7).view.junk (tile_body.sl.H7'_32 d L ids f6)) y
      = IntOp.shrui .vector (tile_body.sl.dma0 d L ids y) 7#32 := by
    intro y
    refine View.read_writes_apply_of_pieces (Val := Elt F) (a7).view _ (fun y => (IntOp.shrui .vector (tile_body.sl.dma0 d L ids y) 7#32 : Elt F .i32)) _ ?_ y ?_
    · unfold tile_body.sl.H7'_32
      simp only [List.forall_mem_cons, List.not_mem_nil, false_imp_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals (intro x; delta_run; simp only [k1_pay347, shapeCast_self, View.write_whole_univ, View.readAt_apply, View.read_whole, shrui, broadcast]; try rfl)
    · unfold tile_body.sl.H7'_32
      exact View.cover_of_tiled _ ![16] rfl y
  have hset8 : (a8).view.set = Finset.univ := View.set_whole _
  have hset9 : (a9).view.set = Finset.univ := View.set_whole _
  have hinK : ∀ (off : Fin 1 → Nat) (inb : ∀ a, off a + S128.size a ≤ S512.size a) (h1 : ∀ a, (Rect.unit (s := S512) off S128.size inb).stride a = 1) x,
      (((a7).slice (Rect.unit (s := S512) off S128.size inb) h1).view.read (Elt F) ((a7).view.writes (Elt F) (a7).view.junk (tile_body.sl.H7'_32 d L ids f6)) x).toNat < S7816x128.size gathers_S7816x128_S128x128.axis := by
    intro off inb h1 x
    have e : ((a7).slice (Rect.unit (s := S512) off S128.size inb) h1).view.read (Elt F) ((a7).view.writes (Elt F) (a7).view.junk (tile_body.sl.H7'_32 d L ids f6)) x
        = (a7).view.read (Elt F) ((a7).view.writes (Elt F) (a7).view.junk (tile_body.sl.H7'_32 d L ids f6)) ((Rect.unit (s := S512) off S128.size inb).toLoadRect.idx x) := rfl
    rw [e, hrow]
    exact Cert.Proof.ChkLib.shrui_7_lt_of_le_999999 _ (hdma _)
  -- the table's share and the row list's, halved: one half per semaphore
  ihave Hts := (pointsTo_share (PosShare.mem_left_op_right qt)).1 $$ Ht'
  icases Hts with ⟨HtL, HtR⟩
  ihave H7s := (pointsTo_share (PosShare.mem_left_op_right fullShare)).1 $$ H7'
  icases H7s with ⟨H7L, H7R⟩
  sl_exec
  -- the ids and the base values as the tile holds them
  have hi6 : ∀ r : Fin 512, (a6).view.read (Elt F) (View.write (Elt F) (a6).view f6 (tile_body.sl.dma0 d L ids) Finset.univ) (ix1 r) = ids (Vals.bidx L r) :=
    fun r => TileLink.ids_read1 L _ f6 ids r
  have hb10 : ∀ r : Fin 512, (a10).view.read (Elt F) (View.write (Elt F) (a10).view f10 (tile_body.sl.dma0_1 d L bs) Finset.univ) (ix1 r) = bs (Vals.bidx L r) :=
    fun r => TileLink.base_read1 L _ f10 bs r
  have h6eq : (a6).view.read (Elt F) (View.write (Elt F) (a6).view f6 (tile_body.sl.dma0 d L ids) Finset.univ) = tile_body.sl.dma0 d L ids := by
    simp only [Memref.view_whole, View.write_whole_univ, View.read_whole]
  have hrow' : ∀ y : S512.Idx, (a7).view.read (Elt F) ((a7).view.writes (Elt F) (a7).view.junk (tile_body.sl.H7'_32 d L ids f6)) y = IntOp.shrui .vector ((a6).view.read (Elt F) (View.write (Elt F) (a6).view f6 (tile_body.sl.dma0 d L ids) Finset.univ) y) 7#32 := by
    intro y; rw [h6eq]; exact hrow y
  have hlt' : ∀ y : S512.Idx, ((a6).view.read (Elt F) (View.write (Elt F) (a6).view f6 (tile_body.sl.dma0 d L ids) Finset.univ) y).toNat ≤ 999999 := by
    intro y; rw [h6eq]; exact hdma y
  -- chunk 0: what its buffer holds, then its loop
  have hrB1 : ∀ (i j : Fin 128) (h : 128 * 0 + i.val < 512), (a8).view.read (Elt F) ((a8).view.writes (Elt F) (a8).view.junk [⟨Rect.whole _, tile_body.sl.gather0 d L ids tbl f6 hinK⟩]) (ix2 i j)
      = tbl (ix2 (Vals.trow 7816 (by decide) ((a6).view.read (Elt F) (View.write (Elt F) (a6).view f6 (tile_body.sl.dma0 d L ids) Finset.univ) (ix1 ⟨128 * 0 + i.val, h⟩))) j) :=
    fun i j h => TileLink.gathered_read1 (a8).view _ tbl ((a7).view.writes (Elt F) (a7).view.junk (tile_body.sl.H7'_32 d L ids f6)) _ hrow' hlt' ![0] inb_S512_S128_0 _ _ _ _ _ i j
  have hlink1 := TileLink.link1 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a8).view.read (Elt F) ((a8).view.writes (Elt F) (a8).view.junk [⟨Rect.whole _, tile_body.sl.gather0 d L ids tbl f6 hinK⟩])) 0 hi6 hb10 hrB1
  sl_for (invVA (F := F) d L (View.write (Elt F) (a6).view f6 (tile_body.sl.dma0 d L ids) Finset.univ) (View.write (Elt F) (a10).view f10 (tile_body.sl.dma0_1 d L bs) Finset.univ) ((a8).view.writes (Elt F) (a8).view.junk [⟨Rect.whole _, tile_body.sl.gather0 d L ids tbl f6 hinK⟩]) 0 (VAL L ids bs tbl)) $$ [H6' H10' H8' H11' H12']
  case region =>
    intro k acc
    unfold invVA
    iintro ⟨H6, H10, HB, ⟨%g11, H11⟩, %fo, H12, %hgood⟩
    ihave Hwp := (region1 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k1_off35 k) 0 = 128 * 0 + 16 * k.val := by
      rw [k1_off35_eq]; show (16 * k.val : Nat) = _; omega
    have hstep := TileValLib.writes_step (Val := Elt F) (a12).view fo (k1_off35 k) (k1_off35_inb k) (128 * 0 + 16 * k.val) hoff v (VAL L ids bs tbl) hgood
      (fun l h => (hv l h (by omega)).trans (hlink1 k.val l h (by omega)))
    intro r hr
    exact hstep r (by omega)
  · unfold invVA
    isplitl [H6']; · iexact H6'
    isplitl [H10']; · iexact H10'
    isplitl [H8']; · iexact H8'
    isplitl [H11']; · iexists _; iexact H11'
    iexists _; isplitl [H12']; · iexact H12'
    ipureintro
    exact fun r hr => absurd hr (by omega)
  iintro %_ HI
  unfold invVA
  icases HI with ⟨H6', H10', H8', ⟨%h11_1, H11'⟩, %fo1, H12', %hgood1⟩
  sl_exec
  -- chunk 1: what its buffer holds, then its loop
  have hrB2 : ∀ (i j : Fin 128) (h : 128 * 1 + i.val < 512), (a9).view.read (Elt F) ((a9).view.writes (Elt F) (a9).view.junk [⟨Rect.whole _, tile_body.sl.gather1 d L ids tbl f6 hinK⟩]) (ix2 i j)
      = tbl (ix2 (Vals.trow 7816 (by decide) ((a6).view.read (Elt F) (View.write (Elt F) (a6).view f6 (tile_body.sl.dma0 d L ids) Finset.univ) (ix1 ⟨128 * 1 + i.val, h⟩))) j) :=
    fun i j h => TileLink.gathered_read1 (a9).view _ tbl ((a7).view.writes (Elt F) (a7).view.junk (tile_body.sl.H7'_32 d L ids f6)) _ hrow' hlt' ![128] inb_S512_S128_128 _ _ _ _ _ i j
  have hlink2 := TileLink.link1 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a9).view.read (Elt F) ((a9).view.writes (Elt F) (a9).view.junk [⟨Rect.whole _, tile_body.sl.gather1 d L ids tbl f6 hinK⟩])) 1 hi6 hb10 hrB2
  sl_for (invVB (F := F) d L (View.write (Elt F) (a6).view f6 (tile_body.sl.dma0 d L ids) Finset.univ) (View.write (Elt F) (a10).view f10 (tile_body.sl.dma0_1 d L bs) Finset.univ) ((a9).view.writes (Elt F) (a9).view.junk [⟨Rect.whole _, tile_body.sl.gather1 d L ids tbl f6 hinK⟩]) 1 (VAL L ids bs tbl)) $$ [H6' H10' H9' H11' H12']
  case region =>
    intro k acc
    unfold invVB
    iintro ⟨H6, H10, HB, ⟨%g11, H11⟩, %fo, H12, %hgood⟩
    ihave Hwp := (region2 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k1_off69 k) 0 = 128 * 1 + 16 * k.val := by
      rw [k1_off69_eq]; show (16 * k.val + 128 : Nat) = _; omega
    have hstep := TileValLib.writes_step (Val := Elt F) (a12).view fo (k1_off69 k) (k1_off69_inb k) (128 * 1 + 16 * k.val) hoff v (VAL L ids bs tbl) hgood
      (fun l h => (hv l h (by omega)).trans (hlink2 k.val l h (by omega)))
    intro r hr
    exact hstep r (by omega)
  · unfold invVB
    isplitl [H6']; · iexact H6'
    isplitl [H10']; · iexact H10'
    isplitl [H9']; · iexact H9'
    isplitl [H11']; · iexists _; iexact H11'
    iexists _; isplitl [H12']; · iexact H12'
    ipureintro
    intro r hr
    exact hgood1 r (by rw [show Scf.trips k1_t1_loop.lb k1_t1_loop.ub k1_t1_loop.st = 8 from Cert.Proof.ChkLib.trips_eq_8]; omega)
  iintro %_ HI
  unfold invVB
  icases HI with ⟨H6', H10', H9', ⟨%h11_2, H11'⟩, %fo2, H12', %hgood2⟩
  sl_exec
  -- chunk 2: what its buffer holds, then its loop
  have hrB3 : ∀ (i j : Fin 128) (h : 128 * 2 + i.val < 512), (a8).view.read (Elt F) ((a8).view.writes (Elt F) (a8).view.junk [⟨Rect.whole _, tile_body.sl.gather0_1 d L ids tbl f6 hinK⟩, ⟨Rect.whole _, tile_body.sl.gather0 d L ids tbl f6 hinK⟩]) (ix2 i j)
      = tbl (ix2 (Vals.trow 7816 (by decide) ((a6).view.read (Elt F) (View.write (Elt F) (a6).view f6 (tile_body.sl.dma0 d L ids) Finset.univ) (ix1 ⟨128 * 2 + i.val, h⟩))) j) :=
    fun i j h => TileLink.gathered_read1 (a8).view _ tbl ((a7).view.writes (Elt F) (a7).view.junk (tile_body.sl.H7'_32 d L ids f6)) _ hrow' hlt' ![256] inb_S512_S128_256 _ _ _ _ _ i j
  have hlink3 := TileLink.link1 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a8).view.read (Elt F) ((a8).view.writes (Elt F) (a8).view.junk [⟨Rect.whole _, tile_body.sl.gather0_1 d L ids tbl f6 hinK⟩, ⟨Rect.whole _, tile_body.sl.gather0 d L ids tbl f6 hinK⟩])) 2 hi6 hb10 hrB3
  sl_for (invVA (F := F) d L (View.write (Elt F) (a6).view f6 (tile_body.sl.dma0 d L ids) Finset.univ) (View.write (Elt F) (a10).view f10 (tile_body.sl.dma0_1 d L bs) Finset.univ) ((a8).view.writes (Elt F) (a8).view.junk [⟨Rect.whole _, tile_body.sl.gather0_1 d L ids tbl f6 hinK⟩, ⟨Rect.whole _, tile_body.sl.gather0 d L ids tbl f6 hinK⟩]) 2 (VAL L ids bs tbl)) $$ [H6' H10' H8' H11' H12']
  case region =>
    intro k acc
    unfold invVA
    iintro ⟨H6, H10, HB, ⟨%g11, H11⟩, %fo, H12, %hgood⟩
    ihave Hwp := (region3 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k1_off103 k) 0 = 128 * 2 + 16 * k.val := by
      rw [k1_off103_eq]; show (16 * k.val + 256 : Nat) = _; omega
    have hstep := TileValLib.writes_step (Val := Elt F) (a12).view fo (k1_off103 k) (k1_off103_inb k) (128 * 2 + 16 * k.val) hoff v (VAL L ids bs tbl) hgood
      (fun l h => (hv l h (by omega)).trans (hlink3 k.val l h (by omega)))
    intro r hr
    exact hstep r (by omega)
  · unfold invVA
    isplitl [H6']; · iexact H6'
    isplitl [H10']; · iexact H10'
    isplitl [H8']; · iexact H8'
    isplitl [H11']; · iexists _; iexact H11'
    iexists _; isplitl [H12']; · iexact H12'
    ipureintro
    intro r hr
    exact hgood2 r (by rw [show Scf.trips k1_t2_loop.lb k1_t2_loop.ub k1_t2_loop.st = 8 from Cert.Proof.ChkLib.trips_eq_8]; omega)
  iintro %_ HI
  unfold invVA
  icases HI with ⟨H6', H10', H8', ⟨%h11_3, H11'⟩, %fo3, H12', %hgood3⟩
  sl_exec
  -- chunk 3: what its buffer holds, then its loop
  have hrB4 : ∀ (i j : Fin 128) (h : 128 * 3 + i.val < 512), (a9).view.read (Elt F) ((a9).view.writes (Elt F) (a9).view.junk [⟨Rect.whole _, tile_body.sl.gather0_2 d L ids tbl f6 hinK⟩, ⟨Rect.whole _, tile_body.sl.gather1 d L ids tbl f6 hinK⟩]) (ix2 i j)
      = tbl (ix2 (Vals.trow 7816 (by decide) ((a6).view.read (Elt F) (View.write (Elt F) (a6).view f6 (tile_body.sl.dma0 d L ids) Finset.univ) (ix1 ⟨128 * 3 + i.val, h⟩))) j) :=
    fun i j h => TileLink.gathered_read1 (a9).view _ tbl ((a7).view.writes (Elt F) (a7).view.junk (tile_body.sl.H7'_32 d L ids f6)) _ hrow' hlt' ![384] inb_S512_S128_384 _ _ _ _ _ i j
  have hlink4 := TileLink.link1 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a9).view.read (Elt F) ((a9).view.writes (Elt F) (a9).view.junk [⟨Rect.whole _, tile_body.sl.gather0_2 d L ids tbl f6 hinK⟩, ⟨Rect.whole _, tile_body.sl.gather1 d L ids tbl f6 hinK⟩])) 3 hi6 hb10 hrB4
  sl_for (invVB (F := F) d L (View.write (Elt F) (a6).view f6 (tile_body.sl.dma0 d L ids) Finset.univ) (View.write (Elt F) (a10).view f10 (tile_body.sl.dma0_1 d L bs) Finset.univ) ((a9).view.writes (Elt F) (a9).view.junk [⟨Rect.whole _, tile_body.sl.gather0_2 d L ids tbl f6 hinK⟩, ⟨Rect.whole _, tile_body.sl.gather1 d L ids tbl f6 hinK⟩]) 3 (VAL L ids bs tbl)) $$ [H6' H10' H9' H11' H12']
  case region =>
    intro k acc
    unfold invVB
    iintro ⟨H6, H10, HB, ⟨%g11, H11⟩, %fo, H12, %hgood⟩
    ihave Hwp := (region4 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k1_off137 k) 0 = 128 * 3 + 16 * k.val := by
      rw [k1_off137_eq]; show (16 * k.val + 384 : Nat) = _; omega
    have hstep := TileValLib.writes_step (Val := Elt F) (a12).view fo (k1_off137 k) (k1_off137_inb k) (128 * 3 + 16 * k.val) hoff v (VAL L ids bs tbl) hgood
      (fun l h => (hv l h (by omega)).trans (hlink4 k.val l h (by omega)))
    intro r hr
    exact hstep r (by omega)
  · unfold invVB
    isplitl [H6']; · iexact H6'
    isplitl [H10']; · iexact H10'
    isplitl [H9']; · iexact H9'
    isplitl [H11']; · iexists _; iexact H11'
    iexists _; isplitl [H12']; · iexact H12'
    ipureintro
    intro r hr
    exact hgood3 r (by rw [show Scf.trips k1_t3_loop.lb k1_t3_loop.ub k1_t3_loop.st = 8 from Cert.Proof.ChkLib.trips_eq_8]; omega)
  iintro %_ HI
  unfold invVB
  icases HI with ⟨H6', H10', H9', ⟨%h11_4, H11'⟩, %fo4, H12', %hgood4⟩
  sl_exec
  sl_step
  ihave Ht := (pointsTo_share (PosShare.mem_left_op_right qt)).2 $$ [HtL HtR]; · isplitl [HtL] <;> iassumption
  ihave H7 := (pointsTo_share (PosShare.mem_left_op_right fullShare)).2 $$ [H7L H7R]; · isplitl [H7L] <;> iassumption
  isplitl [Hi' Ht Hb' Ho']
  · isplitl [Hi']; · iexact Hi'
    isplitl [Ht]; · iexact Ht
    isplitl [Hb']; · iexact Hb'
    iexists _; isplitl [Ho']; · iexact Ho'
    ipureintro
    intro r
    refine (TileValLib.copyout_writes_bidx (Val := Elt F) L _ o0 _ r).trans ?_
    show tile_body.sl.dma0_2 d L fo4 (ix1 r) = _
    unfold tile_body.sl.dma0_2
    rw [ReadAs.apply_same]
    exact hgood4 r (by rw [show Scf.trips k1_t4_loop.lb k1_t4_loop.ub k1_t4_loop.st = 8 from Cert.Proof.ChkLib.trips_eq_8]; omega)
  isplitl [H6' H7 H8' H9' H10' H11' H12' Hbufs]
  · isplitl [H6']; · iexists _; iexact H6'
    isplitl [H7]; · iexists _; iexact H7
    isplitl [H8']; · iexists _; iexact H8'
    isplitl [H9']; · iexists _; iexact H9'
    isplitl [H10']; · iexists _; iexact H10'
    isplitl [H11']; · iexists _; iexact H11'
    isplitl [H12']; · iexists _; iexact H12'
    iexact Hbufs
  isplitl [Hs13 Hs14 Hr0 Hr1 Hr2 Hsems]
  · isplitl [Hs13]; · iexact Hs13
    isplitl [Hs14]; · iexact Hs14
    isplitl [Hr0]; · iexact Hr0
    isplitl [Hr1]; · iexact Hr1
    isplitl [Hr2]; · iexact Hr2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.TileK1

end
-- ==== Proof.KernelIdeal.TileK3Defs.lean ====
/-
  One vector subcore's task of the second gather kernel: the names it is stated in, and the subcore's own scratch — seven
  buffers and five DMA semaphores of this kernel — peeled out of what a subcore owns (the first kernel's scratch stays
  in the remainder).
-/
import proofs.«204913_g64682207478566_cont_9to1c4b_713_31_alg».proof.Proof.Common
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import proofs.«204913_g64682207478566_cont_9to1c4b_713_31_alg».proof.Proof.Gen.KernelIdeal

noncomputable section

namespace Cert.KernelIdeal.TileK3

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays and the tile -/

abbrev iLoc (d : Dev nD) : Loc nD τ sig := (SparseCore.T d).loc main_arg1
abbrev tLoc (d : Dev nD) : Loc nD τ sig := (SparseCore.T d).loc main_v11
abbrev bLoc (d : Dev nD) : Loc nD τ sig := (SparseCore.T d).loc main_v8
abbrev oLoc (d : Dev nD) : Loc nD τ sig := (SparseCore.T d).loc main_v12

abbrev cV (L : grid3.Coords) : Fin τ.nSC := (L 0).castLE hcore3
abbrev jV (L : grid3.Coords) : Fin τ.nSub := (L 1).castLE hsub3

/-- The tile's 512 rows of the output, as the body slices them. -/
abbrev oRowSet (L : grid3.Coords) : Finset S16384.Idx :=
  ((Memref.whole main_v12_scv : Memref sig .scVector .hbm S16384 .f32).view.slice (Rect.unit (s := S16384) (k3_off1 L) S512.size (k3_off1_inb L))).set

abbrev cell (d : Dev nD) (L : grid3.Coords) (s : DmaSem sig) : GSem nD τ sig := (V d (cV L) (jV L), .dma s)

theorem cell_ne (thr : Thread nD τ) {a b : SemLoc sig} (h : a ≠ b) : ((thr, a) : GSem nD τ sig) ≠ (thr, b) :=
  fun e => h (congrArg Prod.snd e)

/-- The side conditions the body assumes at its 64 lane reads (four chunks of sixteen lanes), each for every trip and word. -/
structure ChkAll : Prop where
  h1 : ∀ t v, k3_chk1 t v
  h2 : ∀ t v, k3_chk2 t v
  h3 : ∀ t v, k3_chk3 t v
  h4 : ∀ t v, k3_chk4 t v
  h5 : ∀ t v, k3_chk5 t v
  h6 : ∀ t v, k3_chk6 t v
  h7 : ∀ t v, k3_chk7 t v
  h8 : ∀ t v, k3_chk8 t v
  h9 : ∀ t v, k3_chk9 t v
  h10 : ∀ t v, k3_chk10 t v
  h11 : ∀ t v, k3_chk11 t v
  h12 : ∀ t v, k3_chk12 t v
  h13 : ∀ t v, k3_chk13 t v
  h14 : ∀ t v, k3_chk14 t v
  h15 : ∀ t v, k3_chk15 t v
  h16 : ∀ t v, k3_chk16 t v
  h17 : ∀ t v, k3_chk17 t v
  h18 : ∀ t v, k3_chk18 t v
  h19 : ∀ t v, k3_chk19 t v
  h20 : ∀ t v, k3_chk20 t v
  h21 : ∀ t v, k3_chk21 t v
  h22 : ∀ t v, k3_chk22 t v
  h23 : ∀ t v, k3_chk23 t v
  h24 : ∀ t v, k3_chk24 t v
  h25 : ∀ t v, k3_chk25 t v
  h26 : ∀ t v, k3_chk26 t v
  h27 : ∀ t v, k3_chk27 t v
  h28 : ∀ t v, k3_chk28 t v
  h29 : ∀ t v, k3_chk29 t v
  h30 : ∀ t v, k3_chk30 t v
  h31 : ∀ t v, k3_chk31 t v
  h32 : ∀ t v, k3_chk32 t v
  h33 : ∀ t v, k3_chk33 t v
  h34 : ∀ t v, k3_chk34 t v
  h35 : ∀ t v, k3_chk35 t v
  h36 : ∀ t v, k3_chk36 t v
  h37 : ∀ t v, k3_chk37 t v
  h38 : ∀ t v, k3_chk38 t v
  h39 : ∀ t v, k3_chk39 t v
  h40 : ∀ t v, k3_chk40 t v
  h41 : ∀ t v, k3_chk41 t v
  h42 : ∀ t v, k3_chk42 t v
  h43 : ∀ t v, k3_chk43 t v
  h44 : ∀ t v, k3_chk44 t v
  h45 : ∀ t v, k3_chk45 t v
  h46 : ∀ t v, k3_chk46 t v
  h47 : ∀ t v, k3_chk47 t v
  h48 : ∀ t v, k3_chk48 t v
  h49 : ∀ t v, k3_chk49 t v
  h50 : ∀ t v, k3_chk50 t v
  h51 : ∀ t v, k3_chk51 t v
  h52 : ∀ t v, k3_chk52 t v
  h53 : ∀ t v, k3_chk53 t v
  h54 : ∀ t v, k3_chk54 t v
  h55 : ∀ t v, k3_chk55 t v
  h56 : ∀ t v, k3_chk56 t v
  h57 : ∀ t v, k3_chk57 t v
  h58 : ∀ t v, k3_chk58 t v
  h59 : ∀ t v, k3_chk59 t v
  h60 : ∀ t v, k3_chk60 t v
  h61 : ∀ t v, k3_chk61 t v
  h62 : ∀ t v, k3_chk62 t v
  h63 : ∀ t v, k3_chk63 t v
  h64 : ∀ t v, k3_chk64 t v

variable (d : Dev nD) (L : grid3.Coords)

/-- The five DMA semaphores of this kernel are among the subcore's own: they, at zero, and the rest. -/
theorem ownSems0_V :
    (ownSems0 (V d (cV L) (jV L)) : sProp 𝕄)
      = iprop(semVal (cell d L cc3_scratch7.sem) 0 ∗ semVal (cell d L cc3_scratch8.sem) 0 ∗ semVal (cell d L cc3_scoped0.sem) 0 ∗ semVal (cell d L cc3_scoped1.sem) 0 ∗ semVal (cell d L cc3_scoped2.sem) 0
          ∗ bigSep ((((((ownCells (V d (cV L) (jV L))).erase (cell d L cc3_scratch7.sem)).erase (cell d L cc3_scratch8.sem)).erase (cell d L cc3_scoped0.sem)).erase (cell d L cc3_scoped1.sem)).erase (cell d L cc3_scoped2.sem)) fun g => semVal g 0) := by
  unfold SparseCore.Cfg.ownSems0
  rw [SparseCore.bigSep_erase' ((mem_ownCells (g := (cell d L cc3_scratch7.sem))).mpr ⟨rfl, by show (SemLoc.dma cc3_scratch7.sem : SemLoc sig).isScoped .scVector = true; decide⟩),
    SparseCore.bigSep_erase' (Finset.mem_erase.mpr ⟨cell_ne _ (by decide), (mem_ownCells (g := (cell d L cc3_scratch8.sem))).mpr ⟨rfl, by show (SemLoc.dma cc3_scratch8.sem : SemLoc sig).isScoped .scVector = true; decide⟩⟩),
    SparseCore.bigSep_erase' (Finset.mem_erase.mpr ⟨cell_ne _ (by decide), Finset.mem_erase.mpr ⟨cell_ne _ (by decide), (mem_ownCells (g := (cell d L cc3_scoped0.sem))).mpr ⟨rfl, by show (SemLoc.dma cc3_scoped0.sem : SemLoc sig).isScoped .scVector = true; decide⟩⟩⟩),
    SparseCore.bigSep_erase' (Finset.mem_erase.mpr ⟨cell_ne _ (by decide), Finset.mem_erase.mpr ⟨cell_ne _ (by decide), Finset.mem_erase.mpr ⟨cell_ne _ (by decide), (mem_ownCells (g := (cell d L cc3_scoped1.sem))).mpr ⟨rfl, by show (SemLoc.dma cc3_scoped1.sem : SemLoc sig).isScoped .scVector = true; decide⟩⟩⟩⟩),
    SparseCore.bigSep_erase' (Finset.mem_erase.mpr ⟨cell_ne _ (by decide), Finset.mem_erase.mpr ⟨cell_ne _ (by decide), Finset.mem_erase.mpr ⟨cell_ne _ (by decide), Finset.mem_erase.mpr ⟨cell_ne _ (by decide), (mem_ownCells (g := (cell d L cc3_scoped2.sem))).mpr ⟨rfl, by show (SemLoc.dma cc3_scoped2.sem : SemLoc sig).isScoped .scVector = true; decide⟩⟩⟩⟩⟩)]

/-- The seven scratch buffers of this kernel are among the subcore's own: they, at some contents, and the rest. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f) ∗ (∃ f, (V d (cV L) (jV L)).loc cc3_scratch3 ↦{fullShare} f) ∗ (∃ f, (V d (cV L) (jV L)).loc cc3_scratch4 ↦{fullShare} f) ∗ (∃ f, (V d (cV L) (jV L)).loc cc3_scratch5 ↦{fullShare} f) ∗ (∃ f, (V d (cV L) (jV L)).loc cc3_scratch6 ↦{fullShare} f)
          ∗ bigSep ((((((((ownRefs (τ := τ) (.scVector (cV L) (jV L))).erase ((Proc.scVector (cV L) (jV L)).devRef cc3_scratch0)).erase ((Proc.scVector (cV L) (jV L)).devRef cc3_scratch1)).erase ((Proc.scVector (cV L) (jV L)).devRef cc3_scratch2)).erase ((Proc.scVector (cV L) (jV L)).devRef cc3_scratch3)).erase ((Proc.scVector (cV L) (jV L)).devRef cc3_scratch4)).erase ((Proc.scVector (cV L) (jV L)).devRef cc3_scratch5)).erase ((Proc.scVector (cV L) (jV L)).devRef cc3_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc3_scratch0)) rfl)).trans ?_
  rw [SparseCore.bigSep_erase' (Finset.mem_erase.mpr ⟨fun e => absurd (Proc.devRef_injective _ e) (show (cc3_scratch1 : Ref sig .scVector) ≠ cc3_scratch0 by decide), SparseCore.Cfg.mem_ownRefs_of_owner (p := Proc.scVector (cV L) (jV L)) (b := ((Proc.scVector (cV L) (jV L)).devRef cc3_scratch1)) rfl⟩),
    SparseCore.bigSep_erase' (Finset.mem_erase.mpr ⟨fun e => absurd (Proc.devRef_injective _ e) (show (cc3_scratch2 : Ref sig .scVector) ≠ cc3_scratch1 by decide), Finset.mem_erase.mpr ⟨fun e => absurd (Proc.devRef_injective _ e) (show (cc3_scratch2 : Ref sig .scVector) ≠ cc3_scratch0 by decide), SparseCore.Cfg.mem_ownRefs_of_owner (p := Proc.scVector (cV L) (jV L)) (b := ((Proc.scVector (cV L) (jV L)).devRef cc3_scratch2)) rfl⟩⟩),
    SparseCore.bigSep_erase' (Finset.mem_erase.mpr ⟨fun e => absurd (Proc.devRef_injective _ e) (show (cc3_scratch3 : Ref sig .scVector) ≠ cc3_scratch2 by decide), Finset.mem_erase.mpr ⟨fun e => absurd (Proc.devRef_injective _ e) (show (cc3_scratch3 : Ref sig .scVector) ≠ cc3_scratch1 by decide), Finset.mem_erase.mpr ⟨fun e => absurd (Proc.devRef_injective _ e) (show (cc3_scratch3 : Ref sig .scVector) ≠ cc3_scratch0 by decide), SparseCore.Cfg.mem_ownRefs_of_owner (p := Proc.scVector (cV L) (jV L)) (b := ((Proc.scVector (cV L) (jV L)).devRef cc3_scratch3)) rfl⟩⟩⟩),
    SparseCore.bigSep_erase' (Finset.mem_erase.mpr ⟨fun e => absurd (Proc.devRef_injective _ e) (show (cc3_scratch4 : Ref sig .scVector) ≠ cc3_scratch3 by decide), Finset.mem_erase.mpr ⟨fun e => absurd (Proc.devRef_injective _ e) (show (cc3_scratch4 : Ref sig .scVector) ≠ cc3_scratch2 by decide), Finset.mem_erase.mpr ⟨fun e => absurd (Proc.devRef_injective _ e) (show (cc3_scratch4 : Ref sig .scVector) ≠ cc3_scratch1 by decide), Finset.mem_erase.mpr ⟨fun e => absurd (Proc.devRef_injective _ e) (show (cc3_scratch4 : Ref sig .scVector) ≠ cc3_scratch0 by decide), SparseCore.Cfg.mem_ownRefs_of_owner (p := Proc.scVector (cV L) (jV L)) (b := ((Proc.scVector (cV L) (jV L)).devRef cc3_scratch4)) rfl⟩⟩⟩⟩),
    SparseCore.bigSep_erase' (Finset.mem_erase.mpr ⟨fun e => absurd (Proc.devRef_injective _ e) (show (cc3_scratch5 : Ref sig .scVector) ≠ cc3_scratch4 by decide), Finset.mem_erase.mpr ⟨fun e => absurd (Proc.devRef_injective _ e) (show (cc3_scratch5 : Ref sig .scVector) ≠ cc3_scratch3 by decide), Finset.mem_erase.mpr ⟨fun e => absurd (Proc.devRef_injective _ e) (show (cc3_scratch5 : Ref sig .scVector) ≠ cc3_scratch2 by decide), Finset.mem_erase.mpr ⟨fun e => absurd (Proc.devRef_injective _ e) (show (cc3_scratch5 : Ref sig .scVector) ≠ cc3_scratch1 by decide), Finset.mem_erase.mpr ⟨fun e => absurd (Proc.devRef_injective _ e) (show (cc3_scratch5 : Ref sig .scVector) ≠ cc3_scratch0 by decide), SparseCore.Cfg.mem_ownRefs_of_owner (p := Proc.scVector (cV L) (jV L)) (b := ((Proc.scVector (cV L) (jV L)).devRef cc3_scratch5)) rfl⟩⟩⟩⟩⟩),
    SparseCore.bigSep_erase' (Finset.mem_erase.mpr ⟨fun e => absurd (Proc.devRef_injective _ e) (show (cc3_scratch6 : Ref sig .scVector) ≠ cc3_scratch5 by decide), Finset.mem_erase.mpr ⟨fun e => absurd (Proc.devRef_injective _ e) (show (cc3_scratch6 : Ref sig .scVector) ≠ cc3_scratch4 by decide), Finset.mem_erase.mpr ⟨fun e => absurd (Proc.devRef_injective _ e) (show (cc3_scratch6 : Ref sig .scVector) ≠ cc3_scratch3 by decide), Finset.mem_erase.mpr ⟨fun e => absurd (Proc.devRef_injective _ e) (show (cc3_scratch6 : Ref sig .scVector) ≠ cc3_scratch2 by decide), Finset.mem_erase.mpr ⟨fun e => absurd (Proc.devRef_injective _ e) (show (cc3_scratch6 : Ref sig .scVector) ≠ cc3_scratch1 by decide), Finset.mem_erase.mpr ⟨fun e => absurd (Proc.devRef_injective _ e) (show (cc3_scratch6 : Ref sig .scVector) ≠ cc3_scratch0 by decide), SparseCore.Cfg.mem_ownRefs_of_owner (p := Proc.scVector (cV L) (jV L)) (b := ((Proc.scVector (cV L) (jV L)).devRef cc3_scratch6)) rfl⟩⟩⟩⟩⟩⟩)]

end Cert.KernelIdeal.TileK3

end
-- ==== Proof.KernelIdeal.TileK3.lean ====
/-
  One vector subcore's task of the second gather kernel, run from its resources to its resources (the frame): the two
  fetches of the tile's 512 ids and base values, the row numbers (each id shifted right by 7, hence below the table's
  row count), the four indirect gathers of 128 table rows into two buffers on two semaphores — one gather per semaphore
  at a time, the buffer untouched between a gather's issue and its wait —, the four loops of eight trips over the
  gathered rows, and the copy of the 512 results to the tile's rows of the output.
-/
import proofs.«204913_g64682207478566_cont_9to1c4b_713_31_alg».proof.Proof.KernelIdeal.TileK3Defs
import proofs.«204913_g64682207478566_cont_9to1c4b_713_31_alg».proof.Proof.Gen.KernelIdeal.Skeleton
import proofs.«204913_g64682207478566_cont_9to1c4b_713_31_alg».proof.Proof.ChkLib
import Idealize.ShloMosaic.Lib.Pipeline.Value

noncomputable section

namespace Cert.KernelIdeal.TileK3

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Lean Elab Tactic Meta in
/-- Unfold, in the goal, the auxiliary value definitions the symbolic run made for the enclosing declaration. -/
elab "delta_run" : tactic => do
  let some decl ← Term.getDeclName? | throwError "delta_run: no enclosing declaration"
  let pre := decl ++ `sl
  let g ← getMainGoal
  let g' ← g.deltaTarget (fun n => pre.isPrefixOf n)
  replaceMainGoal [g']

variable {F : FTy → Type}

local notation "𝕄" => MT nD τ sig (HIx 2) (Elt F) ℕ UU ℕ

local notation "iV" => (Memref.whole Cert.KernelIdeal.main_arg1_scv : Memref Cert.KernelIdeal.sig Kind.scVector Space.hbm Cert.KernelIdeal.S16384 EltTy.i32)
local notation "tV" => (Memref.whole Cert.KernelIdeal.main_v11_scv : Memref Cert.KernelIdeal.sig Kind.scVector Space.hbm Cert.KernelIdeal.S784x128 EltTy.f32)
local notation "bV" => (Memref.whole Cert.KernelIdeal.main_v8_scv : Memref Cert.KernelIdeal.sig Kind.scVector Space.hbm Cert.KernelIdeal.S16384 EltTy.f32)
local notation "oV" => (Memref.whole Cert.KernelIdeal.main_v12_scv : Memref Cert.KernelIdeal.sig Kind.scVector Space.hbm Cert.KernelIdeal.S16384 EltTy.f32)
local notation "a6" => (Memref.whole Cert.KernelIdeal.cc3_scratch0 : Memref Cert.KernelIdeal.sig Kind.scVector Space.vmem Cert.KernelIdeal.S512 EltTy.i32)
local notation "a7" => (Memref.whole Cert.KernelIdeal.cc3_scratch1 : Memref Cert.KernelIdeal.sig Kind.scVector Space.vmem Cert.KernelIdeal.S512 EltTy.i32)
local notation "a8" => (Memref.whole Cert.KernelIdeal.cc3_scratch2 : Memref Cert.KernelIdeal.sig Kind.scVector Space.vmem Cert.KernelIdeal.S128x128 EltTy.f32)
local notation "a9" => (Memref.whole Cert.KernelIdeal.cc3_scratch3 : Memref Cert.KernelIdeal.sig Kind.scVector Space.vmem Cert.KernelIdeal.S128x128 EltTy.f32)
local notation "a10" => (Memref.whole Cert.KernelIdeal.cc3_scratch4 : Memref Cert.KernelIdeal.sig Kind.scVector Space.vmem Cert.KernelIdeal.S512 EltTy.f32)
local notation "a11" => (Memref.whole Cert.KernelIdeal.cc3_scratch5 : Memref Cert.KernelIdeal.sig Kind.scVector Space.vmem Cert.KernelIdeal.S512 EltTy.f32)
local notation "a12" => (Memref.whole Cert.KernelIdeal.cc3_scratch6 : Memref Cert.KernelIdeal.sig Kind.scVector Space.vmem Cert.KernelIdeal.S512 EltTy.f32)

variable [FloatOps F]
variable (d : Dev nD) (L : grid3.Coords)

/-- The tile's rows of the output, as the body's copy-out addresses them. -/
abbrev oRowK (L : grid3.Coords) : Memref sig .scVector .hbm S512 .f32 :=
  (oV).slice (Rect.unit (s := S16384) (k3_off1 L) S512.size (k3_off1_inb L)) (fun _ => rfl)

omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_bV (q : PosShare TreeShare) (f : Buf (Elt F) (bLoc d)) :
    ((bV).view.loc (V d (cV L) (jV L)) ↦{q} f : sProp 𝕄) = bLoc d ↦{q} f := rfl

/-- What a chunk's loop touches, buffer A: the ids, the base values, the gathered rows, the rotate buffer and the output
    buffer of the tile, each at some contents. -/
def invA (d : Dev nD) (L : grid3.Coords) (_ : Nat) (_ : BitVec 32) : sProp 𝕄 :=
  iprop((∃ f, (a6).view.loc (V d (cV L) (jV L)) ↦{fullShare} f) ∗ (∃ f, (a10).view.loc (V d (cV L) (jV L)) ↦{fullShare} f)
    ∗ (∃ f, (a8).view.loc (V d (cV L) (jV L)) ↦{fullShare} f) ∗ (∃ f, (a11).view.loc (V d (cV L) (jV L)) ↦{fullShare} f)
    ∗ (∃ f, (a12).view.loc (V d (cV L) (jV L)) ↦{fullShare} f))
/-- The same over buffer B. -/
def invB (d : Dev nD) (L : grid3.Coords) (_ : Nat) (_ : BitVec 32) : sProp 𝕄 :=
  iprop((∃ f, (a6).view.loc (V d (cV L) (jV L)) ↦{fullShare} f) ∗ (∃ f, (a10).view.loc (V d (cV L) (jV L)) ↦{fullShare} f)
    ∗ (∃ f, (a9).view.loc (V d (cV L) (jV L)) ↦{fullShare} f) ∗ (∃ f, (a11).view.loc (V d (cV L) (jV L)) ↦{fullShare} f)
    ∗ (∃ f, (a12).view.loc (V d (cV L) (jV L)) ↦{fullShare} f))

set_option maxHeartbeats 4000000 in
theorem tile_frame (qi qt qb : PosShare TreeShare)
    (ids : Buf (Elt F) (iLoc d)) (tbl : Buf (Elt F) (tLoc d)) (bs : Buf (Elt F) (bLoc d)) (o0 : Buf (Elt F) (oLoc d))
    (hin : ∀ j, (ids j).toNat ≤ 99999) (hchk : ChkAll) (hF : (K (F := F)).Facts)
    (O : CellTallies nD τ sig (HIx 2)) (W : Waits sig (HIx 2)) (hO : ∀ g, O g none = 0) :
    iprop(levAts (K (F := F)).L (K (F := F)).lev ∗ emp ∗ (((iLoc d ↦{qi} ids : sProp 𝕄)) ∗ (tLoc d ↦{qt} tbl) ∗ (bLoc d ↦{qb} bs) ∗ (oLoc d ↦[oRowSet L]{fullShare} o0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__sc_gather_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2)
          fun _ => iprop(((iLoc d ↦{qi} ids) ∗ (tLoc d ↦{qt} tbl) ∗ (bLoc d ↦{qb} bs) ∗ ∃ f, (oLoc d ↦[oRowSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_gather_body_eq_skeleton]; unfold cc3__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Hb, Ho⟩, ⟨⟨%f6, H6⟩, ⟨%f7, H7⟩, ⟨%f8, H8⟩, ⟨%f9, H9⟩, ⟨%f10, H10⟩, ⟨%f11, H11⟩, ⟨%f12, H12⟩, Hbufs⟩, ⟨Hs13, Hs14, Hr0, Hr1, Hr2, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Hb' := (Entails.of_eq (pts_bV (F := F) d L _ _).symm) $$ Hb
  ihave Ho' := (Entails.of_eq (pts_oRowK (F := F) d L _).symm) $$ Ho
  ihave H6' := (Entails.of_eq (show ((V d (cV L) (jV L)).loc cc3_scratch0 ↦{fullShare} f6 : sProp 𝕄) = ((a6).view.loc (V d (cV L) (jV L)) ↦{fullShare} f6) from rfl)) $$ H6
  ihave H7' := (Entails.of_eq (show ((V d (cV L) (jV L)).loc cc3_scratch1 ↦{fullShare} f7 : sProp 𝕄) = ((a7).view.loc (V d (cV L) (jV L)) ↦{fullShare} f7) from rfl)) $$ H7
  ihave H8' := (Entails.of_eq (show ((V d (cV L) (jV L)).loc cc3_scratch2 ↦{fullShare} f8 : sProp 𝕄) = ((a8).view.loc (V d (cV L) (jV L)) ↦{fullShare} f8) from rfl)) $$ H8
  ihave H9' := (Entails.of_eq (show ((V d (cV L) (jV L)).loc cc3_scratch3 ↦{fullShare} f9 : sProp 𝕄) = ((a9).view.loc (V d (cV L) (jV L)) ↦{fullShare} f9) from rfl)) $$ H9
  ihave H10' := (Entails.of_eq (show ((V d (cV L) (jV L)).loc cc3_scratch4 ↦{fullShare} f10 : sProp 𝕄) = ((a10).view.loc (V d (cV L) (jV L)) ↦{fullShare} f10) from rfl)) $$ H10
  ihave H11' := (Entails.of_eq (show ((V d (cV L) (jV L)).loc cc3_scratch5 ↦{fullShare} f11 : sProp 𝕄) = ((a11).view.loc (V d (cV L) (jV L)) ↦{fullShare} f11) from rfl)) $$ H11
  ihave H12' := (Entails.of_eq (show ((V d (cV L) (jV L)).loc cc3_scratch6 ↦{fullShare} f12 : sProp 𝕄) = ((a12).view.loc (V d (cV L) (jV L)) ↦{fullShare} f12) from rfl)) $$ H12
  sl_exec
  -- what the prologue left in the row list: at every position the id there, shifted right by 7
  have hdma : ∀ y, (tile_frame.sl.dma0 d L ids y).toNat ≤ 99999 := fun y => by
    unfold tile_frame.sl.dma0
    rw [ReadAs.apply_same, View.read_apply]
    exact hin _
  have hrow : ∀ y : S512.Idx, (a7).view.read (Elt F) ((a7).view.writes (Elt F) (a7).view.junk (tile_frame.sl.H7'_32 d L ids f6)) y
      = IntOp.shrui .vector (tile_frame.sl.dma0 d L ids y) 7#32 := by
    intro y
    refine View.read_writes_apply_of_pieces (Val := Elt F) (a7).view _ (fun y => (IntOp.shrui .vector (tile_frame.sl.dma0 d L ids y) 7#32 : Elt F .i32)) _ ?_ y ?_
    · unfold tile_frame.sl.H7'_32
      simp only [List.forall_mem_cons, List.not_mem_nil, false_imp_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals (intro x; delta_run; simp only [k3_pay347, shapeCast_self, View.write_whole_univ, View.readAt_apply, View.read_whole, shrui, broadcast]; try rfl)
    · unfold tile_frame.sl.H7'_32
      exact View.cover_of_tiled _ ![16] rfl y
  have hset8 : (a8).view.set = Finset.univ := View.set_whole _
  have hset9 : (a9).view.set = Finset.univ := View.set_whole _
  have hinK : ∀ (off : Fin 1 → Nat) (inb : ∀ a, off a + S128.size a ≤ S512.size a) (h1 : ∀ a, (Rect.unit (s := S512) off S128.size inb).stride a = 1) x,
      (((a7).slice (Rect.unit (s := S512) off S128.size inb) h1).view.read (Elt F) ((a7).view.writes (Elt F) (a7).view.junk (tile_frame.sl.H7'_32 d L ids f6)) x).toNat < S784x128.size gathers_S784x128_S128x128.axis := by
    intro off inb h1 x
    have e : ((a7).slice (Rect.unit (s := S512) off S128.size inb) h1).view.read (Elt F) ((a7).view.writes (Elt F) (a7).view.junk (tile_frame.sl.H7'_32 d L ids f6)) x
        = (a7).view.read (Elt F) ((a7).view.writes (Elt F) (a7).view.junk (tile_frame.sl.H7'_32 d L ids f6)) ((Rect.unit (s := S512) off S128.size inb).toLoadRect.idx x) := rfl
    rw [e, hrow]
    exact Cert.Proof.ChkLib.shrui_7_lt_of_le_99999 _ (hdma _)
  -- the table's share and the row list's, halved: one half per semaphore
  ihave Hts := (pointsTo_share (PosShare.mem_left_op_right qt)).1 $$ Ht'
  icases Hts with ⟨HtL, HtR⟩
  ihave H7s := (pointsTo_share (PosShare.mem_left_op_right fullShare)).1 $$ H7'
  icases H7s with ⟨H7L, H7R⟩
  sl_exec
  -- chunk 0's loop
  sl_for (invA (F := F) d L) $$ [H6' H10' H8' H11' H12']
  case region =>
    intro k acc
    unfold invA
    iintro ⟨⟨%g6, H6⟩, ⟨%g10, H10⟩, ⟨%gB, HB⟩, ⟨%g11, H11⟩, ⟨%g12, H12⟩⟩
    sl_exec (disch := first | sl_exact (hchk.h1 _ _) | sl_exact (hchk.h2 _ _) | sl_exact (hchk.h3 _ _) | sl_exact (hchk.h4 _ _) | sl_exact (hchk.h5 _ _) | sl_exact (hchk.h6 _ _) | sl_exact (hchk.h7 _ _) | sl_exact (hchk.h8 _ _) | sl_exact (hchk.h9 _ _) | sl_exact (hchk.h10 _ _) | sl_exact (hchk.h11 _ _) | sl_exact (hchk.h12 _ _) | sl_exact (hchk.h13 _ _) | sl_exact (hchk.h14 _ _) | sl_exact (hchk.h15 _ _) | sl_exact (hchk.h16 _ _))
    sl_step
    isplitl [H6]; · iexists _; iexact H6
    isplitl [H10]; · iexists _; iexact H10
    isplitl [HB]; · iexists _; iexact HB
    isplitl [H11]; · iexists _; iexact H11
    iexists _; iexact H12
  · unfold invA
    isplitl [H6']; · iexists _; iexact H6'
    isplitl [H10']; · iexists _; iexact H10'
    isplitl [H8']; · iexists _; iexact H8'
    isplitl [H11']; · iexists _; iexact H11'
    iexists _; iexact H12'
  iintro %_ HI
  unfold invA
  icases HI with ⟨⟨%h6_1, H6'⟩, ⟨%h10_1, H10'⟩, ⟨%hB_1, H8'⟩, ⟨%h11_1, H11'⟩, ⟨%h12_1, H12'⟩⟩
  sl_exec
  -- chunk 1's loop
  sl_for (invB (F := F) d L) $$ [H6' H10' H9' H11' H12']
  case region =>
    intro k acc
    unfold invB
    iintro ⟨⟨%g6, H6⟩, ⟨%g10, H10⟩, ⟨%gB, HB⟩, ⟨%g11, H11⟩, ⟨%g12, H12⟩⟩
    sl_exec (disch := first | sl_exact (hchk.h17 _ _) | sl_exact (hchk.h18 _ _) | sl_exact (hchk.h19 _ _) | sl_exact (hchk.h20 _ _) | sl_exact (hchk.h21 _ _) | sl_exact (hchk.h22 _ _) | sl_exact (hchk.h23 _ _) | sl_exact (hchk.h24 _ _) | sl_exact (hchk.h25 _ _) | sl_exact (hchk.h26 _ _) | sl_exact (hchk.h27 _ _) | sl_exact (hchk.h28 _ _) | sl_exact (hchk.h29 _ _) | sl_exact (hchk.h30 _ _) | sl_exact (hchk.h31 _ _) | sl_exact (hchk.h32 _ _))
    sl_step
    isplitl [H6]; · iexists _; iexact H6
    isplitl [H10]; · iexists _; iexact H10
    isplitl [HB]; · iexists _; iexact HB
    isplitl [H11]; · iexists _; iexact H11
    iexists _; iexact H12
  · unfold invB
    isplitl [H6']; · iexists _; iexact H6'
    isplitl [H10']; · iexists _; iexact H10'
    isplitl [H9']; · iexists _; iexact H9'
    isplitl [H11']; · iexists _; iexact H11'
    iexists _; iexact H12'
  iintro %_ HI
  unfold invB
  icases HI with ⟨⟨%h6_2, H6'⟩, ⟨%h10_2, H10'⟩, ⟨%hB_2, H9'⟩, ⟨%h11_2, H11'⟩, ⟨%h12_2, H12'⟩⟩
  sl_exec
  -- chunk 2's loop
  sl_for (invA (F := F) d L) $$ [H6' H10' H8' H11' H12']
  case region =>
    intro k acc
    unfold invA
    iintro ⟨⟨%g6, H6⟩, ⟨%g10, H10⟩, ⟨%gB, HB⟩, ⟨%g11, H11⟩, ⟨%g12, H12⟩⟩
    sl_exec (disch := first | sl_exact (hchk.h33 _ _) | sl_exact (hchk.h34 _ _) | sl_exact (hchk.h35 _ _) | sl_exact (hchk.h36 _ _) | sl_exact (hchk.h37 _ _) | sl_exact (hchk.h38 _ _) | sl_exact (hchk.h39 _ _) | sl_exact (hchk.h40 _ _) | sl_exact (hchk.h41 _ _) | sl_exact (hchk.h42 _ _) | sl_exact (hchk.h43 _ _) | sl_exact (hchk.h44 _ _) | sl_exact (hchk.h45 _ _) | sl_exact (hchk.h46 _ _) | sl_exact (hchk.h47 _ _) | sl_exact (hchk.h48 _ _))
    sl_step
    isplitl [H6]; · iexists _; iexact H6
    isplitl [H10]; · iexists _; iexact H10
    isplitl [HB]; · iexists _; iexact HB
    isplitl [H11]; · iexists _; iexact H11
    iexists _; iexact H12
  · unfold invA
    isplitl [H6']; · iexists _; iexact H6'
    isplitl [H10']; · iexists _; iexact H10'
    isplitl [H8']; · iexists _; iexact H8'
    isplitl [H11']; · iexists _; iexact H11'
    iexists _; iexact H12'
  iintro %_ HI
  unfold invA
  icases HI with ⟨⟨%h6_3, H6'⟩, ⟨%h10_3, H10'⟩, ⟨%hB_3, H8'⟩, ⟨%h11_3, H11'⟩, ⟨%h12_3, H12'⟩⟩
  sl_exec
  -- chunk 3's loop
  sl_for (invB (F := F) d L) $$ [H6' H10' H9' H11' H12']
  case region =>
    intro k acc
    unfold invB
    iintro ⟨⟨%g6, H6⟩, ⟨%g10, H10⟩, ⟨%gB, HB⟩, ⟨%g11, H11⟩, ⟨%g12, H12⟩⟩
    sl_exec (disch := first | sl_exact (hchk.h49 _ _) | sl_exact (hchk.h50 _ _) | sl_exact (hchk.h51 _ _) | sl_exact (hchk.h52 _ _) | sl_exact (hchk.h53 _ _) | sl_exact (hchk.h54 _ _) | sl_exact (hchk.h55 _ _) | sl_exact (hchk.h56 _ _) | sl_exact (hchk.h57 _ _) | sl_exact (hchk.h58 _ _) | sl_exact (hchk.h59 _ _) | sl_exact (hchk.h60 _ _) | sl_exact (hchk.h61 _ _) | sl_exact (hchk.h62 _ _) | sl_exact (hchk.h63 _ _) | sl_exact (hchk.h64 _ _))
    sl_step
    isplitl [H6]; · iexists _; iexact H6
    isplitl [H10]; · iexists _; iexact H10
    isplitl [HB]; · iexists _; iexact HB
    isplitl [H11]; · iexists _; iexact H11
    iexists _; iexact H12
  · unfold invB
    isplitl [H6']; · iexists _; iexact H6'
    isplitl [H10']; · iexists _; iexact H10'
    isplitl [H9']; · iexists _; iexact H9'
    isplitl [H11']; · iexists _; iexact H11'
    iexists _; iexact H12'
  iintro %_ HI
  unfold invB
  icases HI with ⟨⟨%h6_4, H6'⟩, ⟨%h10_4, H10'⟩, ⟨%hB_4, H9'⟩, ⟨%h11_4, H11'⟩, ⟨%h12_4, H12'⟩⟩
  sl_exec
  sl_step
  ihave Ht := (pointsTo_share (PosShare.mem_left_op_right qt)).2 $$ [HtL HtR]; · isplitl [HtL] <;> iassumption
  ihave H7 := (pointsTo_share (PosShare.mem_left_op_right fullShare)).2 $$ [H7L H7R]; · isplitl [H7L] <;> iassumption
  isplitl [Hi' Ht Hb' Ho']
  · isplitl [Hi']; · iexact Hi'
    isplitl [Ht]; · iexact Ht
    isplitl [Hb']; · iexact Hb'
    iexists _; iexact Ho'
  isplitl [H6' H7 H8' H9' H10' H11' H12' Hbufs]
  · isplitl [H6']; · iexists _; iexact H6'
    isplitl [H7]; · iexists _; iexact H7
    isplitl [H8']; · iexists _; iexact H8'
    isplitl [H9']; · iexists _; iexact H9'
    isplitl [H10']; · iexists _; iexact H10'
    isplitl [H11']; · iexists _; iexact H11'
    isplitl [H12']; · iexists _; iexact H12'
    iexact Hbufs
  isplitl [Hs13 Hs14 Hr0 Hr1 Hr2 Hsems]
  · isplitl [Hs13]; · iexact Hs13
    isplitl [Hs14]; · iexact Hs14
    isplitl [Hr0]; · iexact Hr0
    isplitl [Hr1]; · iexact Hr1
    isplitl [Hr2]; · iexact Hr2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.TileK3

end
-- ==== Proof.LanePayK3.lean ====
/-
  The gather body's per-lane values in normal form: casts of a vector to its own shape dropped, and each lane
  update select (lane = j) (res + t) res written as the update step of lane j.
-/
import proofs.«204913_g64682207478566_cont_9to1c4b_713_31_alg».proof.Proof.Gen.KernelIdeal.Skeleton
import proofs.«204913_g64682207478566_cont_9to1c4b_713_31_alg».proof.Proof.LaneLib

noncomputable section

namespace Cert.KernelIdeal.LanePayK3

open Cert.KernelIdeal Cert.KernelIdeal.Gen
open Idealize.ShloMosaic Idealize.ShloMosaic.ValueIdx
open Cert.Proof

variable {F : FTy → Type} [FloatOps F]

theorem k3_pay1_nf (v256 : Vec F S16 .i32) :
    k3_pay1 v256 = v256 := by
  unfold k3_pay1
  first | rfl | (simp only [shapeCast_self, LaneLib.step]; first | done | rfl)

theorem k3_pay2_nf (v256 : Vec F S16 .i32) :
    k3_pay2 v256 = extractStridedSlice S1 ![0] v256 slices_S16_o0_S1 := by
  unfold k3_pay2
  first | rfl | (simp only [k3_pay1_nf, shapeCast_self, LaneLib.step]; first | done | rfl)

theorem k3_pay3_nf (v270 : Vec F S1x16 .f32) :
    k3_pay3 v270 = shapeCast S16 v270 shapeCasts_S1x16_S16 := by
  unfold k3_pay3
  first | rfl | (simp only [shapeCast_self, LaneLib.step]; first | done | rfl)

theorem k3_pay4_nf (v270 : Vec F S1x16 .f32) :
    k3_pay4 v270 = shapeCast S16 v270 shapeCasts_S1x16_S16 := by
  unfold k3_pay4
  first | rfl | (simp only [k3_pay3_nf, shapeCast_self, LaneLib.step]; first | done | rfl)

theorem k3_pay5_nf (v270 : Vec F S1x16 .f32) :
    k3_pay5 v270 = shapeCast S16 v270 shapeCasts_S1x16_S16 := by
  unfold k3_pay5
  first | rfl | (simp only [k3_pay3_nf, shapeCast_self, LaneLib.step]; first | done | rfl)

theorem k3_pay6_nf (v227 : IVec S16 32) (v259 : Vec F S16 .f32) (v284 : Vec F S16 .f32) :
    k3_pay6 v227 v259 v284 = LaneLib.step v227 0#32 v259 v284 := by
  unfold k3_pay6
  first | rfl | (simp only [shapeCast_self, LaneLib.step]; first | done | rfl)

theorem k3_pay7_nf (v257 : IVec S16 32) :
    k3_pay7 v257 = extractStridedSlice S1 ![1] v257 slices_S16_o1_S1 := by
  unfold k3_pay7
  first | rfl | (simp only [shapeCast_self, LaneLib.step]; first | done | rfl)

theorem k3_pay8_nf (v299 : Vec F S1x16 .f32) :
    k3_pay8 v299 = shapeCast S16 v299 shapeCasts_S1x16_S16 := by
  unfold k3_pay8
  first | rfl | (simp only [shapeCast_self, LaneLib.step]; first | done | rfl)

theorem k3_pay9_nf (v299 : Vec F S1x16 .f32) :
    k3_pay9 v299 = shapeCast S16 v299 shapeCasts_S1x16_S16 := by
  unfold k3_pay9
  first | rfl | (simp only [k3_pay8_nf, shapeCast_self, LaneLib.step]; first | done | rfl)

theorem k3_pay10_nf (v299 : Vec F S1x16 .f32) :
    k3_pay10 v299 = shapeCast S16 v299 shapeCasts_S1x16_S16 := by
  unfold k3_pay10
  first | rfl | (simp only [k3_pay8_nf, shapeCast_self, LaneLib.step]; first | done | rfl)

theorem k3_pay11_nf (v227 : IVec S16 32) (v289 : FVec F S16 .f32) (v313 : Vec F S16 .f32) :
    k3_pay11 v227 v289 v313 = LaneLib.step v227 1#32 v289 v313 := by
  unfold k3_pay11
  first | rfl | (simp only [shapeCast_self, LaneLib.step]; first | done | rfl)

theorem k3_pay12_nf (v257 : IVec S16 32) :
    k3_pay12 v257 = extractStridedSlice S1 ![2] v257 slices_S16_o2_S1 := by
  unfold k3_pay12
  first | rfl | (simp only [shapeCast_self, LaneLib.step]; first | done | rfl)

theorem k3_pay13_nf (v328 : Vec F S1x16 .f32) :
    k3_pay13 v328 = shapeCast S16 v328 shapeCasts_S1x16_S16 := by
  unfold k3_pay13
  first | rfl | (simp only [shapeCast_self, LaneLib.step]; first | done | rfl)

theorem k3_pay14_nf (v328 : Vec F S1x16 .f32) :
    k3_pay14 v328 = shapeCast S16 v328 shapeCasts_S1x16_S16 := by
  unfold k3_pay14
  first | rfl | (simp only [k3_pay13_nf, shapeCast_self, LaneLib.step]; first | done | rfl)

theorem k3_pay15_nf (v329 : FVec F S16 .f32) :
    k3_pay15 v329 = v329 := by
  unfold k3_pay15
  first | rfl | (simp only [shapeCast_self, LaneLib.step]; first | done | rfl)

theorem k3_pay16_nf (v227 : IVec S16 32) (v318 : FVec F S16 .f32) (v342 : Vec F S16 .f32) :
    k3_pay16 v227 v318 v342 = LaneLib.step v227 2#32 v318 v342 := by
  unfold k3_pay16
  first | rfl | (simp only [shapeCast_self, LaneLib.step]; first | done | rfl)

theorem k3_pay17_nf (v257 : IVec S16 32) :
    k3_pay17 v257 = extractStridedSlice S1 ![3] v257 slices_S16_o3_S1 := by
  unfold k3_pay17
  first | rfl | (simp only [shapeCast_self, LaneLib.step]; first | done | rfl)

theorem k3_pay18_nf (v357 : Vec F S1x16 .f32) :
    k3_pay18 v357 = shapeCast S16 v357 shapeCasts_S1x16_S16 := by
  unfold k3_pay18
  first | rfl | (simp only [shapeCast_self, LaneLib.step]; first | done | rfl)

theorem k3_pay19_nf (v357 : Vec F S1x16 .f32) :
    k3_pay19 v357 = shapeCast S16 v357 shapeCasts_S1x16_S16 := by
  unfold k3_pay19
  first | rfl | (simp only [k3_pay18_nf, shapeCast_self, LaneLib.step]; first | done | rfl)

theorem k3_pay20_nf (v357 : Vec F S1x16 .f32) :
    k3_pay20 v357 = shapeCast S16 v357 shapeCasts_S1x16_S16 := by
  unfold k3_pay20
  first | rfl | (simp only [k3_pay18_nf, shapeCast_self, LaneLib.step]; first | done | rfl)

theorem k3_pay21_nf (v257 : IVec S16 32) :
    k3_pay21 v257 = extractStridedSlice S1 ![4] v257 slices_S16_o4_S1 := by
  unfold k3_pay21
  first | rfl | (simp only [shapeCast_self, LaneLib.step]; first | done | rfl)

theorem k3_pay22_nf (v386 : Vec F S1x16 .f32) :
    k3_pay22 v386 = shapeCast S16 v386 shapeCasts_S1x16_S16 := by
  unfold k3_pay22
  first | rfl | (simp only [shapeCast_self, LaneLib.step]; first | done | rfl)

theorem k3_pay23_nf (v386 : Vec F S1x16 .f32) :
    k3_pay23 v386 = shapeCast S16 v386 shapeCasts_S1x16_S16 := by
  unfold k3_pay23
  first | rfl | (simp only [k3_pay22_nf, shapeCast_self, LaneLib.step]; first | done | rfl)

theorem k3_pay24_nf (v386 : Vec F S1x16 .f32) :
    k3_pay24 v386 = shapeCast S16 v386 shapeCasts_S1x16_S16 := by
  unfold k3_pay24
  first | rfl | (simp only [k3_pay22_nf, shapeCast_self, LaneLib.step]; first | done | rfl)

theorem k3_pay25_nf (v227 : IVec S16 32) (v347 : FVec F S16 .f32) (v371 : Vec F S16 .f32) (v400 : Vec F S16 .f32) :
    k3_pay25 v227 v347 v371 v400 = LaneLib.step v227 4#32 (LaneLib.step v227 3#32 v347 v371) v400 := by
  unfold k3_pay25
  first | rfl | (simp only [shapeCast_self, LaneLib.step]; first | done | rfl)

theorem k3_pay26_nf (v257 : IVec S16 32) :
    k3_pay26 v257 = extractStridedSlice S1 ![5] v257 slices_S16_o5_S1 := by
  unfold k3_pay26
  first | rfl | (simp only [shapeCast_self, LaneLib.step]; first | done | rfl)

theorem k3_pay27_nf (v415 : Vec F S1x16 .f32) :
    k3_pay27 v415 = shapeCast S16 v415 shapeCasts_S1x16_S16 := by
  unfold k3_pay27
  first | rfl | (simp only [shapeCast_self, LaneLib.step]; first | done | rfl)

theorem k3_pay28_nf (v415 : Vec F S1x16 .f32) :
    k3_pay28 v415 = shapeCast S16 v415 shapeCasts_S1x16_S16 := by
  unfold k3_pay28
  first | rfl | (simp only [k3_pay27_nf, shapeCast_self, LaneLib.step]; first | done | rfl)

theorem k3_pay29_nf (v415 : Vec F S1x16 .f32) :
    k3_pay29 v415 = shapeCast S16 v415 shapeCasts_S1x16_S16 := by
  unfold k3_pay29
  first | rfl | (simp only [k3_pay27_nf, shapeCast_self, LaneLib.step]; first | done | rfl)

theorem k3_pay30_nf (v227 : IVec S16 32) (v405 : FVec F S16 .f32) (v429 : Vec F S16 .f32) :
    k3_pay30 v227 v405 v429 = LaneLib.step v227 5#32 v405 v429 := by
  unfold k3_pay30
  first | rfl | (simp only [shapeCast_self, LaneLib.step]; first | done | rfl)

theorem k3_pay31_nf (v257 : IVec S16 32) :
    k3_pay31 v257 = extractStridedSlice S1 ![6] v257 slices_S16_o6_S1 := by
  unfold k3_pay31
  first | rfl | (simp only [shapeCast_self, LaneLib.step]; first | done | rfl)

theorem k3_pay32_nf (v444 : Vec F S1x16 .f32) :
    k3_pay32 v444 = shapeCast S16 v444 shapeCasts_S1x16_S16 := by
  unfold k3_pay32
  first | rfl | (simp only [shapeCast_self, LaneLib.step]; first | done | rfl)

theorem k3_pay33_nf (v444 : Vec F S1x16 .f32) :
    k3_pay33 v444 = shapeCast S16 v444 shapeCasts_S1x16_S16 := by
  unfold k3_pay33
  first | rfl | (simp only [k3_pay32_nf, shapeCast_self, LaneLib.step]; first | done | rfl)

theorem k3_pay34_nf (v445 : FVec F S16 .f32) :
    k3_pay34 v445 = v445 := by
  unfold k3_pay34
  first | rfl | (simp only [shapeCast_self, LaneLib.step]; first | done | rfl)

theorem k3_pay35_nf (v227 : IVec S16 32) (v434 : FVec F S16 .f32) (v458 : Vec F S16 .f32) :
    k3_pay35 v227 v434 v458 = LaneLib.step v227 6#32 v434 v458 := by
  unfold k3_pay35
  first | rfl | (simp only [shapeCast_self, LaneLib.step]; first | done | rfl)

theorem k3_pay36_nf (v257 : IVec S16 32) :
    k3_pay36 v257 = extractStridedSlice S1 ![7] v257 slices_S16_o7_S1 := by
  unfold k3_pay36
  first | rfl | (simp only [shapeCast_self, LaneLib.step]; first | done | rfl)

theorem k3_pay37_nf (v473 : Vec F S1x16 .f32) :
    k3_pay37 v473 = shapeCast S16 v473 shapeCasts_S1x16_S16 := by
  unfold k3_pay37
  first | rfl | (simp only [shapeCast_self, LaneLib.step]; first | done | rfl)

theorem k3_pay38_nf (v473 : Vec F S1x16 .f32) :
    k3_pay38 v473 = shapeCast S16 v473 shapeCasts_S1x16_S16 := by
  unfold k3_pay38
  first | rfl | (simp only [k3_pay37_nf, shapeCast_self, LaneLib.step]; first | done | rfl)

theorem k3_pay39_nf (v473 : Vec F S1x16 .f32) :
    k3_pay39 v473 = shapeCast S16 v473 shapeCasts_S1x16_S16 := by
  unfold k3_pay39
  first | rfl | (simp only [k3_pay37_nf, shapeCast_self, LaneLib.step]; first | done | rfl)

theorem k3_pay40_nf (v487 : Vec F S16 .f32) :
    k3_pay40 v487 = v487 := by
  unfold k3_pay40
  first | rfl | (simp only [shapeCast_self, LaneLib.step]; first | done | rfl)

theorem k3_pay41_nf (v257 : IVec S16 32) :
    k3_pay41 v257 = extractStridedSlice S1 ![8] v257 slices_S16_o8_S1 := by
  unfold k3_pay41
  first | rfl | (simp only [shapeCast_self, LaneLib.step]; first | done | rfl)

theorem k3_pay42_nf (v502 : Vec F S1x16 .f32) :
    k3_pay42 v502 = shapeCast S16 v502 shapeCasts_S1x16_S16 := by
  unfold k3_pay42
  first | rfl | (simp only [shapeCast_self, LaneLib.step]; first | done | rfl)

theorem k3_pay43_nf (v502 : Vec F S1x16 .f32) :
    k3_pay43 v502 = shapeCast S16 v502 shapeCasts_S1x16_S16 := by
  unfold k3_pay43
  first | rfl | (simp only [k3_pay42_nf, shapeCast_self, LaneLib.step]; first | done | rfl)

theorem k3_pay44_nf (v502 : Vec F S1x16 .f32) :
    k3_pay44 v502 = shapeCast S16 v502 shapeCasts_S1x16_S16 := by
  unfold k3_pay44
  first | rfl | (simp only [k3_pay42_nf, shapeCast_self, LaneLib.step]; first | done | rfl)

theorem k3_pay45_nf (v227 : IVec S16 32) (v463 : FVec F S16 .f32) (v488 : FVec F S16 .f32) (c7_i32_184 : BitVec 32) (v516 : Vec F S16 .f32) :
    k3_pay45 v227 v463 v488 c7_i32_184 v516 = LaneLib.step v227 8#32 (LaneLib.step v227 c7_i32_184 v463 v488) v516 := by
  unfold k3_pay45
  first | rfl | (simp only [shapeCast_self, LaneLib.step]; first | done | rfl)

theorem k3_pay46_nf (v257 : IVec S16 32) :
    k3_pay46 v257 = extractStridedSlice S1 ![9] v257 slices_S16_o9_S1 := by
  unfold k3_pay46
  first | rfl | (simp only [shapeCast_self, LaneLib.step]; first | done | rfl)

theorem k3_pay47_nf (v531 : Vec F S1x16 .f32) :
    k3_pay47 v531 = shapeCast S16 v531 shapeCasts_S1x16_S16 := by
  unfold k3_pay47
  first | rfl | (simp only [shapeCast_self, LaneLib.step]; first | done | rfl)

theorem k3_pay48_nf (v531 : Vec F S1x16 .f32) :
    k3_pay48 v531 = shapeCast S16 v531 shapeCasts_S1x16_S16 := by
  unfold k3_pay48
  first | rfl | (simp only [k3_pay47_nf, shapeCast_self, LaneLib.step]; first | done | rfl)

theorem k3_pay49_nf (v531 : Vec F S1x16 .f32) :
    k3_pay49 v531 = shapeCast S16 v531 shapeCasts_S1x16_S16 := by
  unfold k3_pay49
  first | rfl | (simp only [k3_pay47_nf, shapeCast_self, LaneLib.step]; first | done | rfl)

theorem k3_pay50_nf (v227 : IVec S16 32) (v521 : FVec F S16 .f32) (v545 : Vec F S16 .f32) :
    k3_pay50 v227 v521 v545 = LaneLib.step v227 9#32 v521 v545 := by
  unfold k3_pay50
  first | rfl | (simp only [shapeCast_self, LaneLib.step]; first | done | rfl)

theorem k3_pay51_nf (v257 : IVec S16 32) :
    k3_pay51 v257 = extractStridedSlice S1 ![10] v257 slices_S16_o10_S1 := by
  unfold k3_pay51
  first | rfl | (simp only [shapeCast_self, LaneLib.step]; first | done | rfl)

theorem k3_pay52_nf (v560 : Vec F S1x16 .f32) :
    k3_pay52 v560 = shapeCast S16 v560 shapeCasts_S1x16_S16 := by
  unfold k3_pay52
  first | rfl | (simp only [shapeCast_self, LaneLib.step]; first | done | rfl)

theorem k3_pay53_nf (v560 : Vec F S1x16 .f32) :
    k3_pay53 v560 = shapeCast S16 v560 shapeCasts_S1x16_S16 := by
  unfold k3_pay53
  first | rfl | (simp only [k3_pay52_nf, shapeCast_self, LaneLib.step]; first | done | rfl)

theorem k3_pay54_nf (v560 : Vec F S1x16 .f32) :
    k3_pay54 v560 = shapeCast S16 v560 shapeCasts_S1x16_S16 := by
  unfold k3_pay54
  first | rfl | (simp only [k3_pay52_nf, shapeCast_self, LaneLib.step]; first | done | rfl)

theorem k3_pay55_nf (v257 : IVec S16 32) :
    k3_pay55 v257 = extractStridedSlice S1 ![11] v257 slices_S16_o11_S1 := by
  unfold k3_pay55
  first | rfl | (simp only [shapeCast_self, LaneLib.step]; first | done | rfl)

theorem k3_pay56_nf (v589 : Vec F S1x16 .f32) :
    k3_pay56 v589 = shapeCast S16 v589 shapeCasts_S1x16_S16 := by
  unfold k3_pay56
  first | rfl | (simp only [shapeCast_self, LaneLib.step]; first | done | rfl)

theorem k3_pay57_nf (v589 : Vec F S1x16 .f32) :
    k3_pay57 v589 = shapeCast S16 v589 shapeCasts_S1x16_S16 := by
  unfold k3_pay57
  first | rfl | (simp only [k3_pay56_nf, shapeCast_self, LaneLib.step]; first | done | rfl)

theorem k3_pay58_nf (v589 : Vec F S1x16 .f32) :
    k3_pay58 v589 = shapeCast S16 v589 shapeCasts_S1x16_S16 := by
  unfold k3_pay58
  first | rfl | (simp only [k3_pay56_nf, shapeCast_self, LaneLib.step]; first | done | rfl)

theorem k3_pay59_nf (v227 : IVec S16 32) (v550 : FVec F S16 .f32) (v574 : Vec F S16 .f32) (v603 : Vec F S16 .f32) :
    k3_pay59 v227 v550 v574 v603 = LaneLib.step v227 11#32 (LaneLib.step v227 10#32 v550 v574) v603 := by
  unfold k3_pay59
  first | rfl | (simp only [shapeCast_self, LaneLib.step]; first | done | rfl)

theorem k3_pay60_nf (v257 : IVec S16 32) :
    k3_pay60 v257 = extractStridedSlice S1 ![12] v257 slices_S16_o12_S1 := by
  unfold k3_pay60
  first | rfl | (simp only [shapeCast_self, LaneLib.step]; first | done | rfl)

theorem k3_pay61_nf (v618 : Vec F S1x16 .f32) :
    k3_pay61 v618 = shapeCast S16 v618 shapeCasts_S1x16_S16 := by
  unfold k3_pay61
  first | rfl | (simp only [shapeCast_self, LaneLib.step]; first | done | rfl)

theorem k3_pay62_nf (v618 : Vec F S1x16 .f32) :
    k3_pay62 v618 = shapeCast S16 v618 shapeCasts_S1x16_S16 := by
  unfold k3_pay62
  first | rfl | (simp only [k3_pay61_nf, shapeCast_self, LaneLib.step]; first | done | rfl)

theorem k3_pay63_nf (v618 : Vec F S1x16 .f32) :
    k3_pay63 v618 = shapeCast S16 v618 shapeCasts_S1x16_S16 := by
  unfold k3_pay63
  first | rfl | (simp only [k3_pay61_nf, shapeCast_self, LaneLib.step]; first | done | rfl)

theorem k3_pay64_nf (v227 : IVec S16 32) (v608 : FVec F S16 .f32) (v632 : Vec F S16 .f32) :
    k3_pay64 v227 v608 v632 = LaneLib.step v227 12#32 v608 v632 := by
  unfold k3_pay64
  first | rfl | (simp only [shapeCast_self, LaneLib.step]; first | done | rfl)

theorem k3_pay65_nf (v257 : IVec S16 32) :
    k3_pay65 v257 = extractStridedSlice S1 ![13] v257 slices_S16_o13_S1 := by
  unfold k3_pay65
  first | rfl | (simp only [shapeCast_self, LaneLib.step]; first | done | rfl)

theorem k3_pay66_nf (v647 : Vec F S1x16 .f32) :
    k3_pay66 v647 = shapeCast S16 v647 shapeCasts_S1x16_S16 := by
  unfold k3_pay66
  first | rfl | (simp only [shapeCast_self, LaneLib.step]; first | done | rfl)

theorem k3_pay67_nf (v648 : FVec F S16 .f32) :
    k3_pay67 v648 = v648 := by
  unfold k3_pay67
  first | rfl | (simp only [shapeCast_self, LaneLib.step]; first | done | rfl)

theorem k3_pay68_nf (v648 : FVec F S16 .f32) :
    k3_pay68 v648 = v648 := by
  unfold k3_pay68
  first | rfl | (simp only [shapeCast_self, LaneLib.step]; first | done | rfl)

theorem k3_pay69_nf (v227 : IVec S16 32) (v637 : FVec F S16 .f32) (v661 : Vec F S16 .f32) :
    k3_pay69 v227 v637 v661 = LaneLib.step v227 13#32 v637 v661 := by
  unfold k3_pay69
  first | rfl | (simp only [shapeCast_self, LaneLib.step]; first | done | rfl)

theorem k3_pay70_nf (v257 : IVec S16 32) :
    k3_pay70 v257 = extractStridedSlice S1 ![14] v257 slices_S16_o14_S1 := by
  unfold k3_pay70
  first | rfl | (simp only [shapeCast_self, LaneLib.step]; first | done | rfl)

theorem k3_pay71_nf (v676 : Vec F S1x16 .f32) :
    k3_pay71 v676 = shapeCast S16 v676 shapeCasts_S1x16_S16 := by
  unfold k3_pay71
  first | rfl | (simp only [shapeCast_self, LaneLib.step]; first | done | rfl)

theorem k3_pay72_nf (v676 : Vec F S1x16 .f32) :
    k3_pay72 v676 = shapeCast S16 v676 shapeCasts_S1x16_S16 := by
  unfold k3_pay72
  first | rfl | (simp only [k3_pay71_nf, shapeCast_self, LaneLib.step]; first | done | rfl)

theorem k3_pay73_nf (v676 : Vec F S1x16 .f32) :
    k3_pay73 v676 = shapeCast S16 v676 shapeCasts_S1x16_S16 := by
  unfold k3_pay73
  first | rfl | (simp only [k3_pay71_nf, shapeCast_self, LaneLib.step]; first | done | rfl)

theorem k3_pay74_nf (v257 : IVec S16 32) :
    k3_pay74 v257 = extractStridedSlice S1 ![15] v257 slices_S16_o15_S1 := by
  unfold k3_pay74
  first | rfl | (simp only [shapeCast_self, LaneLib.step]; first | done | rfl)

theorem k3_pay75_nf (v705 : Vec F S1x16 .f32) :
    k3_pay75 v705 = shapeCast S16 v705 shapeCasts_S1x16_S16 := by
  unfold k3_pay75
  first | rfl | (simp only [shapeCast_self, LaneLib.step]; first | done | rfl)

theorem k3_pay76_nf (v705 : Vec F S1x16 .f32) :
    k3_pay76 v705 = shapeCast S16 v705 shapeCasts_S1x16_S16 := by
  unfold k3_pay76
  first | rfl | (simp only [k3_pay75_nf, shapeCast_self, LaneLib.step]; first | done | rfl)

theorem k3_pay77_nf (v705 : Vec F S1x16 .f32) :
    k3_pay77 v705 = shapeCast S16 v705 shapeCasts_S1x16_S16 := by
  unfold k3_pay77
  first | rfl | (simp only [k3_pay75_nf, shapeCast_self, LaneLib.step]; first | done | rfl)

theorem k3_pay78_nf (v227 : IVec S16 32) (v666 : FVec F S16 .f32) (v690 : Vec F S16 .f32) (v719 : Vec F S16 .f32) :
    k3_pay78 v227 v666 v690 v719 = LaneLib.step v227 15#32 (LaneLib.step v227 14#32 v666 v690) v719 := by
  unfold k3_pay78
  first | rfl | (simp only [shapeCast_self, LaneLib.step]; first | done | rfl)

theorem k3_pay79_nf (v256 : Vec F S16 .i32) :
    k3_pay79 v256 = v256 := by
  unfold k3_pay79
  first | rfl | (simp only [shapeCast_self, LaneLib.step]; first | done | rfl)

theorem k3_pay80_nf (v256 : Vec F S16 .i32) :
    k3_pay80 v256 = extractStridedSlice S1 ![0] v256 slices_S16_o0_S1 := by
  unfold k3_pay80
  first | rfl | (simp only [k3_pay79_nf, shapeCast_self, LaneLib.step]; first | done | rfl)

theorem k3_pay81_nf (v270 : Vec F S1x16 .f32) :
    k3_pay81 v270 = shapeCast S16 v270 shapeCasts_S1x16_S16 := by
  unfold k3_pay81
  first | rfl | (simp only [shapeCast_self, LaneLib.step]; first | done | rfl)

theorem k3_pay82_nf (v270 : Vec F S1x16 .f32) :
    k3_pay82 v270 = shapeCast S16 v270 shapeCasts_S1x16_S16 := by
  unfold k3_pay82
  first | rfl | (simp only [k3_pay81_nf, shapeCast_self, LaneLib.step]; first | done | rfl)

theorem k3_pay83_nf (v270 : Vec F S1x16 .f32) :
    k3_pay83 v270 = shapeCast S16 v270 shapeCasts_S1x16_S16 := by
  unfold k3_pay83
  first | rfl | (simp only [k3_pay81_nf, shapeCast_self, LaneLib.step]; first | done | rfl)

theorem k3_pay84_nf (v227 : IVec S16 32) (v259 : Vec F S16 .f32) (v284 : Vec F S16 .f32) :
    k3_pay84 v227 v259 v284 = LaneLib.step v227 0#32 v259 v284 := by
  unfold k3_pay84
  first | rfl | (simp only [shapeCast_self, LaneLib.step]; first | done | rfl)

theorem k3_pay85_nf (v257 : IVec S16 32) :
    k3_pay85 v257 = extractStridedSlice S1 ![1] v257 slices_S16_o1_S1 := by
  unfold k3_pay85
  first | rfl | (simp only [shapeCast_self, LaneLib.step]; first | done | rfl)

theorem k3_pay86_nf (v299 : Vec F S1x16 .f32) :
    k3_pay86 v299 = shapeCast S16 v299 shapeCasts_S1x16_S16 := by
  unfold k3_pay86
  first | rfl | (simp only [shapeCast_self, LaneLib.step]; first | done | rfl)

theorem k3_pay87_nf (v299 : Vec F S1x16 .f32) :
    k3_pay87 v299 = shapeCast S16 v299 shapeCasts_S1x16_S16 := by
  unfold k3_pay87
  first | rfl | (simp only [k3_pay86_nf, shapeCast_self, LaneLib.step]; first | done | rfl)

theorem k3_pay88_nf (v299 : Vec F S1x16 .f32) :
    k3_pay88 v299 = shapeCast S16 v299 shapeCasts_S1x16_S16 := by
  unfold k3_pay88
  first | rfl | (simp only [k3_pay86_nf, shapeCast_self, LaneLib.step]; first | done | rfl)

theorem k3_pay89_nf (v227 : IVec S16 32) (v289 : FVec F S16 .f32) (v313 : Vec F S16 .f32) :
    k3_pay89 v227 v289 v313 = LaneLib.step v227 1#32 v289 v313 := by
  unfold k3_pay89
  first | rfl | (simp only [shapeCast_self, LaneLib.step]; first | done | rfl)

theorem k3_pay90_nf (v257 : IVec S16 32) :
    k3_pay90 v257 = extractStridedSlice S1 ![2] v257 slices_S16_o2_S1 := by
  unfold k3_pay90
  first | rfl | (simp only [shapeCast_self, LaneLib.step]; first | done | rfl)

theorem k3_pay91_nf (v328 : Vec F S1x16 .f32) :
    k3_pay91 v328 = shapeCast S16 v328 shapeCasts_S1x16_S16 := by
  unfold k3_pay91
  first | rfl | (simp only [shapeCast_self, LaneLib.step]; first | done | rfl)

theorem k3_pay92_nf (v328 : Vec F S1x16 .f32) :
    k3_pay92 v328 = shapeCast S16 v328 shapeCasts_S1x16_S16 := by
  unfold k3_pay92
  first | rfl | (simp only [k3_pay91_nf, shapeCast_self, LaneLib.step]; first | done | rfl)

theorem k3_pay93_nf (v329 : FVec F S16 .f32) :
    k3_pay93 v329 = v329 := by
  unfold k3_pay93
  first | rfl | (simp only [shapeCast_self, LaneLib.step]; first | done | rfl)

theorem k3_pay94_nf (v227 : IVec S16 32) (v318 : FVec F S16 .f32) (v342 : Vec F S16 .f32) :
    k3_pay94 v227 v318 v342 = LaneLib.step v227 2#32 v318 v342 := by
  unfold k3_pay94
  first | rfl | (simp only [shapeCast_self, LaneLib.step]; first | done | rfl)

theorem k3_pay95_nf (v257 : IVec S16 32) :
    k3_pay95 v257 = extractStridedSlice S1 ![3] v257 slices_S16_o3_S1 := by
  unfold k3_pay95
  first | rfl | (simp only [shapeCast_self, LaneLib.step]; first | done | rfl)

theorem k3_pay96_nf (v357 : Vec F S1x16 .f32) :
    k3_pay96 v357 = shapeCast S16 v357 shapeCasts_S1x16_S16 := by
  unfold k3_pay96
  first | rfl | (simp only [shapeCast_self, LaneLib.step]; first | done | rfl)

theorem k3_pay97_nf (v357 : Vec F S1x16 .f32) :
    k3_pay97 v357 = shapeCast S16 v357 shapeCasts_S1x16_S16 := by
  unfold k3_pay97
  first | rfl | (simp only [k3_pay96_nf, shapeCast_self, LaneLib.step]; first | done | rfl)

theorem k3_pay98_nf (v357 : Vec F S1x16 .f32) :
    k3_pay98 v357 = shapeCast S16 v357 shapeCasts_S1x16_S16 := by
  unfold k3_pay98
  first | rfl | (simp only [k3_pay96_nf, shapeCast_self, LaneLib.step]; first | done | rfl)

theorem k3_pay99_nf (v257 : IVec S16 32) :
    k3_pay99 v257 = extractStridedSlice S1 ![4] v257 slices_S16_o4_S1 := by
  unfold k3_pay99
  first | rfl | (simp only [shapeCast_self, LaneLib.step]; first | done | rfl)

theorem k3_pay100_nf (v386 : Vec F S1x16 .f32) :
    k3_pay100 v386 = shapeCast S16 v386 shapeCasts_S1x16_S16 := by
  unfold k3_pay100
  first | rfl | (simp only [shapeCast_self, LaneLib.step]; first | done | rfl)

theorem k3_pay101_nf (v386 : Vec F S1x16 .f32) :
    k3_pay101 v386 = shapeCast S16 v386 shapeCasts_S1x16_S16 := by
  unfold k3_pay101
  first | rfl | (simp only [k3_pay100_nf, shapeCast_self, LaneLib.step]; first | done | rfl)

theorem k3_pay102_nf (v386 : Vec F S1x16 .f32) :
    k3_pay102 v386 = shapeCast S16 v386 shapeCasts_S1x16_S16 := by
  unfold k3_pay102
  first | rfl | (simp only [k3_pay100_nf, shapeCast_self, LaneLib.step]; first | done | rfl)

theorem k3_pay103_nf (v227 : IVec S16 32) (v347 : FVec F S16 .f32) (v371 : Vec F S16 .f32) (v400 : Vec F S16 .f32) :
    k3_pay103 v227 v347 v371 v400 = LaneLib.step v227 4#32 (LaneLib.step v227 3#32 v347 v371) v400 := by
  unfold k3_pay103
  first | rfl | (simp only [shapeCast_self, LaneLib.step]; first | done | rfl)

theorem k3_pay104_nf (v257 : IVec S16 32) :
    k3_pay104 v257 = extractStridedSlice S1 ![5] v257 slices_S16_o5_S1 := by
  unfold k3_pay104
  first | rfl | (simp only [shapeCast_self, LaneLib.step]; first | done | rfl)

theorem k3_pay105_nf (v415 : Vec F S1x16 .f32) :
    k3_pay105 v415 = shapeCast S16 v415 shapeCasts_S1x16_S16 := by
  unfold k3_pay105
  first | rfl | (simp only [shapeCast_self, LaneLib.step]; first | done | rfl)

theorem k3_pay106_nf (v415 : Vec F S1x16 .f32) :
    k3_pay106 v415 = shapeCast S16 v415 shapeCasts_S1x16_S16 := by
  unfold k3_pay106
  first | rfl | (simp only [k3_pay105_nf, shapeCast_self, LaneLib.step]; first | done | rfl)

theorem k3_pay107_nf (v415 : Vec F S1x16 .f32) :
    k3_pay107 v415 = shapeCast S16 v415 shapeCasts_S1x16_S16 := by
  unfold k3_pay107
  first | rfl | (simp only [k3_pay105_nf, shapeCast_self, LaneLib.step]; first | done | rfl)

theorem k3_pay108_nf (v227 : IVec S16 32) (v405 : FVec F S16 .f32) (v429 : Vec F S16 .f32) :
    k3_pay108 v227 v405 v429 = LaneLib.step v227 5#32 v405 v429 := by
  unfold k3_pay108
  first | rfl | (simp only [shapeCast_self, LaneLib.step]; first | done | rfl)

theorem k3_pay109_nf (v257 : IVec S16 32) :
    k3_pay109 v257 = extractStridedSlice S1 ![6] v257 slices_S16_o6_S1 := by
  unfold k3_pay109
  first | rfl | (simp only [shapeCast_self, LaneLib.step]; first | done | rfl)

theorem k3_pay110_nf (v444 : Vec F S1x16 .f32) :
    k3_pay110 v444 = shapeCast S16 v444 shapeCasts_S1x16_S16 := by
  unfold k3_pay110
  first | rfl | (simp only [shapeCast_self, LaneLib.step]; first | done | rfl)

theorem k3_pay111_nf (v444 : Vec F S1x16 .f32) :
    k3_pay111 v444 = shapeCast S16 v444 shapeCasts_S1x16_S16 := by
  unfold k3_pay111
  first | rfl | (simp only [k3_pay110_nf, shapeCast_self, LaneLib.step]; first | done | rfl)

theorem k3_pay112_nf (v445 : FVec F S16 .f32) :
    k3_pay112 v445 = v445 := by
  unfold k3_pay112
  first | rfl | (simp only [shapeCast_self, LaneLib.step]; first | done | rfl)

theorem k3_pay113_nf (v227 : IVec S16 32) (v434 : FVec F S16 .f32) (v458 : Vec F S16 .f32) :
    k3_pay113 v227 v434 v458 = LaneLib.step v227 6#32 v434 v458 := by
  unfold k3_pay113
  first | rfl | (simp only [shapeCast_self, LaneLib.step]; first | done | rfl)

theorem k3_pay114_nf (v257 : IVec S16 32) :
    k3_pay114 v257 = extractStridedSlice S1 ![7] v257 slices_S16_o7_S1 := by
  unfold k3_pay114
  first | rfl | (simp only [shapeCast_self, LaneLib.step]; first | done | rfl)

theorem k3_pay115_nf (v473 : Vec F S1x16 .f32) :
    k3_pay115 v473 = shapeCast S16 v473 shapeCasts_S1x16_S16 := by
  unfold k3_pay115
  first | rfl | (simp only [shapeCast_self, LaneLib.step]; first | done | rfl)

theorem k3_pay116_nf (v473 : Vec F S1x16 .f32) :
    k3_pay116 v473 = shapeCast S16 v473 shapeCasts_S1x16_S16 := by
  unfold k3_pay116
  first | rfl | (simp only [k3_pay115_nf, shapeCast_self, LaneLib.step]; first | done | rfl)

theorem k3_pay117_nf (v473 : Vec F S1x16 .f32) :
    k3_pay117 v473 = shapeCast S16 v473 shapeCasts_S1x16_S16 := by
  unfold k3_pay117
  first | rfl | (simp only [k3_pay115_nf, shapeCast_self, LaneLib.step]; first | done | rfl)

theorem k3_pay118_nf (v487 : Vec F S16 .f32) :
    k3_pay118 v487 = v487 := by
  unfold k3_pay118
  first | rfl | (simp only [shapeCast_self, LaneLib.step]; first | done | rfl)

theorem k3_pay119_nf (v257 : IVec S16 32) :
    k3_pay119 v257 = extractStridedSlice S1 ![8] v257 slices_S16_o8_S1 := by
  unfold k3_pay119
  first | rfl | (simp only [shapeCast_self, LaneLib.step]; first | done | rfl)

theorem k3_pay120_nf (v502 : Vec F S1x16 .f32) :
    k3_pay120 v502 = shapeCast S16 v502 shapeCasts_S1x16_S16 := by
  unfold k3_pay120
  first | rfl | (simp only [shapeCast_self, LaneLib.step]; first | done | rfl)

theorem k3_pay121_nf (v502 : Vec F S1x16 .f32) :
    k3_pay121 v502 = shapeCast S16 v502 shapeCasts_S1x16_S16 := by
  unfold k3_pay121
  first | rfl | (simp only [k3_pay120_nf, shapeCast_self, LaneLib.step]; first | done | rfl)

theorem k3_pay122_nf (v502 : Vec F S1x16 .f32) :
    k3_pay122 v502 = shapeCast S16 v502 shapeCasts_S1x16_S16 := by
  unfold k3_pay122
  first | rfl | (simp only [k3_pay120_nf, shapeCast_self, LaneLib.step]; first | done | rfl)

theorem k3_pay123_nf (v227 : IVec S16 32) (v463 : FVec F S16 .f32) (v488 : FVec F S16 .f32) (c7_i32_184 : BitVec 32) (v516 : Vec F S16 .f32) :
    k3_pay123 v227 v463 v488 c7_i32_184 v516 = LaneLib.step v227 8#32 (LaneLib.step v227 c7_i32_184 v463 v488) v516 := by
  unfold k3_pay123
  first | rfl | (simp only [shapeCast_self, LaneLib.step]; first | done | rfl)

theorem k3_pay124_nf (v257 : IVec S16 32) :
    k3_pay124 v257 = extractStridedSlice S1 ![9] v257 slices_S16_o9_S1 := by
  unfold k3_pay124
  first | rfl | (simp only [shapeCast_self, LaneLib.step]; first | done | rfl)

theorem k3_pay125_nf (v531 : Vec F S1x16 .f32) :
    k3_pay125 v531 = shapeCast S16 v531 shapeCasts_S1x16_S16 := by
  unfold k3_pay125
  first | rfl | (simp only [shapeCast_self, LaneLib.step]; first | done | rfl)

theorem k3_pay126_nf (v531 : Vec F S1x16 .f32) :
    k3_pay126 v531 = shapeCast S16 v531 shapeCasts_S1x16_S16 := by
  unfold k3_pay126
  first | rfl | (simp only [k3_pay125_nf, shapeCast_self, LaneLib.step]; first | done | rfl)

theorem k3_pay127_nf (v531 : Vec F S1x16 .f32) :
    k3_pay127 v531 = shapeCast S16 v531 shapeCasts_S1x16_S16 := by
  unfold k3_pay127
  first | rfl | (simp only [k3_pay125_nf, shapeCast_self, LaneLib.step]; first | done | rfl)

theorem k3_pay128_nf (v227 : IVec S16 32) (v521 : FVec F S16 .f32) (v545 : Vec F S16 .f32) :
    k3_pay128 v227 v521 v545 = LaneLib.step v227 9#32 v521 v545 := by
  unfold k3_pay128
  first | rfl | (simp only [shapeCast_self, LaneLib.step]; first | done | rfl)

theorem k3_pay129_nf (v257 : IVec S16 32) :
    k3_pay129 v257 = extractStridedSlice S1 ![10] v257 slices_S16_o10_S1 := by
  unfold k3_pay129
  first | rfl | (simp only [shapeCast_self, LaneLib.step]; first | done | rfl)

theorem k3_pay130_nf (v560 : Vec F S1x16 .f32) :
    k3_pay130 v560 = shapeCast S16 v560 shapeCasts_S1x16_S16 := by
  unfold k3_pay130
  first | rfl | (simp only [shapeCast_self, LaneLib.step]; first | done | rfl)

theorem k3_pay131_nf (v560 : Vec F S1x16 .f32) :
    k3_pay131 v560 = shapeCast S16 v560 shapeCasts_S1x16_S16 := by
  unfold k3_pay131
  first | rfl | (simp only [k3_pay130_nf, shapeCast_self, LaneLib.step]; first | done | rfl)

theorem k3_pay132_nf (v560 : Vec F S1x16 .f32) :
    k3_pay132 v560 = shapeCast S16 v560 shapeCasts_S1x16_S16 := by
  unfold k3_pay132
  first | rfl | (simp only [k3_pay130_nf, shapeCast_self, LaneLib.step]; first | done | rfl)

theorem k3_pay133_nf (v257 : IVec S16 32) :
    k3_pay133 v257 = extractStridedSlice S1 ![11] v257 slices_S16_o11_S1 := by
  unfold k3_pay133
  first | rfl | (simp only [shapeCast_self, LaneLib.step]; first | done | rfl)

theorem k3_pay134_nf (v589 : Vec F S1x16 .f32) :
    k3_pay134 v589 = shapeCast S16 v589 shapeCasts_S1x16_S16 := by
  unfold k3_pay134
  first | rfl | (simp only [shapeCast_self, LaneLib.step]; first | done | rfl)

theorem k3_pay135_nf (v589 : Vec F S1x16 .f32) :
    k3_pay135 v589 = shapeCast S16 v589 shapeCasts_S1x16_S16 := by
  unfold k3_pay135
  first | rfl | (simp only [k3_pay134_nf, shapeCast_self, LaneLib.step]; first | done | rfl)

theorem k3_pay136_nf (v589 : Vec F S1x16 .f32) :
    k3_pay136 v589 = shapeCast S16 v589 shapeCasts_S1x16_S16 := by
  unfold k3_pay136
  first | rfl | (simp only [k3_pay134_nf, shapeCast_self, LaneLib.step]; first | done | rfl)

theorem k3_pay137_nf (v227 : IVec S16 32) (v550 : FVec F S16 .f32) (v574 : Vec F S16 .f32) (v603 : Vec F S16 .f32) :
    k3_pay137 v227 v550 v574 v603 = LaneLib.step v227 11#32 (LaneLib.step v227 10#32 v550 v574) v603 := by
  unfold k3_pay137
  first | rfl | (simp only [shapeCast_self, LaneLib.step]; first | done | rfl)

theorem k3_pay138_nf (v257 : IVec S16 32) :
    k3_pay138 v257 = extractStridedSlice S1 ![12] v257 slices_S16_o12_S1 := by
  unfold k3_pay138
  first | rfl | (simp only [shapeCast_self, LaneLib.step]; first | done | rfl)

theorem k3_pay139_nf (v618 : Vec F S1x16 .f32) :
    k3_pay139 v618 = shapeCast S16 v618 shapeCasts_S1x16_S16 := by
  unfold k3_pay139
  first | rfl | (simp only [shapeCast_self, LaneLib.step]; first | done | rfl)

theorem k3_pay140_nf (v618 : Vec F S1x16 .f32) :
    k3_pay140 v618 = shapeCast S16 v618 shapeCasts_S1x16_S16 := by
  unfold k3_pay140
  first | rfl | (simp only [k3_pay139_nf, shapeCast_self, LaneLib.step]; first | done | rfl)

theorem k3_pay141_nf (v618 : Vec F S1x16 .f32) :
    k3_pay141 v618 = shapeCast S16 v618 shapeCasts_S1x16_S16 := by
  unfold k3_pay141
  first | rfl | (simp only [k3_pay139_nf, shapeCast_self, LaneLib.step]; first | done | rfl)

theorem k3_pay142_nf (v227 : IVec S16 32) (v608 : FVec F S16 .f32) (v632 : Vec F S16 .f32) :
    k3_pay142 v227 v608 v632 = LaneLib.step v227 12#32 v608 v632 := by
  unfold k3_pay142
  first | rfl | (simp only [shapeCast_self, LaneLib.step]; first | done | rfl)

theorem k3_pay143_nf (v257 : IVec S16 32) :
    k3_pay143 v257 = extractStridedSlice S1 ![13] v257 slices_S16_o13_S1 := by
  unfold k3_pay143
  first | rfl | (simp only [shapeCast_self, LaneLib.step]; first | done | rfl)

theorem k3_pay144_nf (v647 : Vec F S1x16 .f32) :
    k3_pay144 v647 = shapeCast S16 v647 shapeCasts_S1x16_S16 := by
  unfold k3_pay144
  first | rfl | (simp only [shapeCast_self, LaneLib.step]; first | done | rfl)

theorem k3_pay145_nf (v648 : FVec F S16 .f32) :
    k3_pay145 v648 = v648 := by
  unfold k3_pay145
  first | rfl | (simp only [shapeCast_self, LaneLib.step]; first | done | rfl)

theorem k3_pay146_nf (v648 : FVec F S16 .f32) :
    k3_pay146 v648 = v648 := by
  unfold k3_pay146
  first | rfl | (simp only [shapeCast_self, LaneLib.step]; first | done | rfl)

theorem k3_pay147_nf (v227 : IVec S16 32) (v637 : FVec F S16 .f32) (v661 : Vec F S16 .f32) :
    k3_pay147 v227 v637 v661 = LaneLib.step v227 13#32 v637 v661 := by
  unfold k3_pay147
  first | rfl | (simp only [shapeCast_self, LaneLib.step]; first | done | rfl)

theorem k3_pay148_nf (v257 : IVec S16 32) :
    k3_pay148 v257 = extractStridedSlice S1 ![14] v257 slices_S16_o14_S1 := by
  unfold k3_pay148
  first | rfl | (simp only [shapeCast_self, LaneLib.step]; first | done | rfl)

theorem k3_pay149_nf (v676 : Vec F S1x16 .f32) :
    k3_pay149 v676 = shapeCast S16 v676 shapeCasts_S1x16_S16 := by
  unfold k3_pay149
  first | rfl | (simp only [shapeCast_self, LaneLib.step]; first | done | rfl)

theorem k3_pay150_nf (v676 : Vec F S1x16 .f32) :
    k3_pay150 v676 = shapeCast S16 v676 shapeCasts_S1x16_S16 := by
  unfold k3_pay150
  first | rfl | (simp only [k3_pay149_nf, shapeCast_self, LaneLib.step]; first | done | rfl)

theorem k3_pay151_nf (v676 : Vec F S1x16 .f32) :
    k3_pay151 v676 = shapeCast S16 v676 shapeCasts_S1x16_S16 := by
  unfold k3_pay151
  first | rfl | (simp only [k3_pay149_nf, shapeCast_self, LaneLib.step]; first | done | rfl)

theorem k3_pay152_nf (v257 : IVec S16 32) :
    k3_pay152 v257 = extractStridedSlice S1 ![15] v257 slices_S16_o15_S1 := by
  unfold k3_pay152
  first | rfl | (simp only [shapeCast_self, LaneLib.step]; first | done | rfl)

theorem k3_pay153_nf (v705 : Vec F S1x16 .f32) :
    k3_pay153 v705 = shapeCast S16 v705 shapeCasts_S1x16_S16 := by
  unfold k3_pay153
  first | rfl | (simp only [shapeCast_self, LaneLib.step]; first | done | rfl)

theorem k3_pay154_nf (v705 : Vec F S1x16 .f32) :
    k3_pay154 v705 = shapeCast S16 v705 shapeCasts_S1x16_S16 := by
  unfold k3_pay154
  first | rfl | (simp only [k3_pay153_nf, shapeCast_self, LaneLib.step]; first | done | rfl)

theorem k3_pay155_nf (v705 : Vec F S1x16 .f32) :
    k3_pay155 v705 = shapeCast S16 v705 shapeCasts_S1x16_S16 := by
  unfold k3_pay155
  first | rfl | (simp only [k3_pay153_nf, shapeCast_self, LaneLib.step]; first | done | rfl)

theorem k3_pay156_nf (v227 : IVec S16 32) (v666 : FVec F S16 .f32) (v690 : Vec F S16 .f32) (v719 : Vec F S16 .f32) :
    k3_pay156 v227 v666 v690 v719 = LaneLib.step v227 15#32 (LaneLib.step v227 14#32 v666 v690) v719 := by
  unfold k3_pay156
  first | rfl | (simp only [shapeCast_self, LaneLib.step]; first | done | rfl)

theorem k3_pay157_nf (v256 : Vec F S16 .i32) :
    k3_pay157 v256 = v256 := by
  unfold k3_pay157
  first | rfl | (simp only [shapeCast_self, LaneLib.step]; first | done | rfl)

theorem k3_pay158_nf (v256 : Vec F S16 .i32) :
    k3_pay158 v256 = extractStridedSlice S1 ![0] v256 slices_S16_o0_S1 := by
  unfold k3_pay158
  first | rfl | (simp only [k3_pay157_nf, shapeCast_self, LaneLib.step]; first | done | rfl)

theorem k3_pay159_nf (v270 : Vec F S1x16 .f32) :
    k3_pay159 v270 = shapeCast S16 v270 shapeCasts_S1x16_S16 := by
  unfold k3_pay159
  first | rfl | (simp only [shapeCast_self, LaneLib.step]; first | done | rfl)

theorem k3_pay160_nf (v270 : Vec F S1x16 .f32) :
    k3_pay160 v270 = shapeCast S16 v270 shapeCasts_S1x16_S16 := by
  unfold k3_pay160
  first | rfl | (simp only [k3_pay159_nf, shapeCast_self, LaneLib.step]; first | done | rfl)

theorem k3_pay161_nf (v270 : Vec F S1x16 .f32) :
    k3_pay161 v270 = shapeCast S16 v270 shapeCasts_S1x16_S16 := by
  unfold k3_pay161
  first | rfl | (simp only [k3_pay159_nf, shapeCast_self, LaneLib.step]; first | done | rfl)

theorem k3_pay162_nf (v227 : IVec S16 32) (v259 : Vec F S16 .f32) (v284 : Vec F S16 .f32) :
    k3_pay162 v227 v259 v284 = LaneLib.step v227 0#32 v259 v284 := by
  unfold k3_pay162
  first | rfl | (simp only [shapeCast_self, LaneLib.step]; first | done | rfl)

theorem k3_pay163_nf (v257 : IVec S16 32) :
    k3_pay163 v257 = extractStridedSlice S1 ![1] v257 slices_S16_o1_S1 := by
  unfold k3_pay163
  first | rfl | (simp only [shapeCast_self, LaneLib.step]; first | done | rfl)

theorem k3_pay164_nf (v299 : Vec F S1x16 .f32) :
    k3_pay164 v299 = shapeCast S16 v299 shapeCasts_S1x16_S16 := by
  unfold k3_pay164
  first | rfl | (simp only [shapeCast_self, LaneLib.step]; first | done | rfl)

theorem k3_pay165_nf (v299 : Vec F S1x16 .f32) :
    k3_pay165 v299 = shapeCast S16 v299 shapeCasts_S1x16_S16 := by
  unfold k3_pay165
  first | rfl | (simp only [k3_pay164_nf, shapeCast_self, LaneLib.step]; first | done | rfl)

theorem k3_pay166_nf (v299 : Vec F S1x16 .f32) :
    k3_pay166 v299 = shapeCast S16 v299 shapeCasts_S1x16_S16 := by
  unfold k3_pay166
  first | rfl | (simp only [k3_pay164_nf, shapeCast_self, LaneLib.step]; first | done | rfl)

theorem k3_pay167_nf (v227 : IVec S16 32) (v289 : FVec F S16 .f32) (v313 : Vec F S16 .f32) :
    k3_pay167 v227 v289 v313 = LaneLib.step v227 1#32 v289 v313 := by
  unfold k3_pay167
  first | rfl | (simp only [shapeCast_self, LaneLib.step]; first | done | rfl)

theorem k3_pay168_nf (v257 : IVec S16 32) :
    k3_pay168 v257 = extractStridedSlice S1 ![2] v257 slices_S16_o2_S1 := by
  unfold k3_pay168
  first | rfl | (simp only [shapeCast_self, LaneLib.step]; first | done | rfl)

theorem k3_pay169_nf (v328 : Vec F S1x16 .f32) :
    k3_pay169 v328 = shapeCast S16 v328 shapeCasts_S1x16_S16 := by
  unfold k3_pay169
  first | rfl | (simp only [shapeCast_self, LaneLib.step]; first | done | rfl)

theorem k3_pay170_nf (v328 : Vec F S1x16 .f32) :
    k3_pay170 v328 = shapeCast S16 v328 shapeCasts_S1x16_S16 := by
  unfold k3_pay170
  first | rfl | (simp only [k3_pay169_nf, shapeCast_self, LaneLib.step]; first | done | rfl)

theorem k3_pay171_nf (v329 : FVec F S16 .f32) :
    k3_pay171 v329 = v329 := by
  unfold k3_pay171
  first | rfl | (simp only [shapeCast_self, LaneLib.step]; first | done | rfl)

theorem k3_pay172_nf (v227 : IVec S16 32) (v318 : FVec F S16 .f32) (v342 : Vec F S16 .f32) :
    k3_pay172 v227 v318 v342 = LaneLib.step v227 2#32 v318 v342 := by
  unfold k3_pay172
  first | rfl | (simp only [shapeCast_self, LaneLib.step]; first | done | rfl)

theorem k3_pay173_nf (v257 : IVec S16 32) :
    k3_pay173 v257 = extractStridedSlice S1 ![3] v257 slices_S16_o3_S1 := by
  unfold k3_pay173
  first | rfl | (simp only [shapeCast_self, LaneLib.step]; first | done | rfl)

theorem k3_pay174_nf (v357 : Vec F S1x16 .f32) :
    k3_pay174 v357 = shapeCast S16 v357 shapeCasts_S1x16_S16 := by
  unfold k3_pay174
  first | rfl | (simp only [shapeCast_self, LaneLib.step]; first | done | rfl)

theorem k3_pay175_nf (v357 : Vec F S1x16 .f32) :
    k3_pay175 v357 = shapeCast S16 v357 shapeCasts_S1x16_S16 := by
  unfold k3_pay175
  first | rfl | (simp only [k3_pay174_nf, shapeCast_self, LaneLib.step]; first | done | rfl)

theorem k3_pay176_nf (v357 : Vec F S1x16 .f32) :
    k3_pay176 v357 = shapeCast S16 v357 shapeCasts_S1x16_S16 := by
  unfold k3_pay176
  first | rfl | (simp only [k3_pay174_nf, shapeCast_self, LaneLib.step]; first | done | rfl)

theorem k3_pay177_nf (v257 : IVec S16 32) :
    k3_pay177 v257 = extractStridedSlice S1 ![4] v257 slices_S16_o4_S1 := by
  unfold k3_pay177
  first | rfl | (simp only [shapeCast_self, LaneLib.step]; first | done | rfl)

theorem k3_pay178_nf (v386 : Vec F S1x16 .f32) :
    k3_pay178 v386 = shapeCast S16 v386 shapeCasts_S1x16_S16 := by
  unfold k3_pay178
  first | rfl | (simp only [shapeCast_self, LaneLib.step]; first | done | rfl)

theorem k3_pay179_nf (v386 : Vec F S1x16 .f32) :
    k3_pay179 v386 = shapeCast S16 v386 shapeCasts_S1x16_S16 := by
  unfold k3_pay179
  first | rfl | (simp only [k3_pay178_nf, shapeCast_self, LaneLib.step]; first | done | rfl)

theorem k3_pay180_nf (v386 : Vec F S1x16 .f32) :
    k3_pay180 v386 = shapeCast S16 v386 shapeCasts_S1x16_S16 := by
  unfold k3_pay180
  first | rfl | (simp only [k3_pay178_nf, shapeCast_self, LaneLib.step]; first | done | rfl)

theorem k3_pay181_nf (v227 : IVec S16 32) (v347 : FVec F S16 .f32) (v371 : Vec F S16 .f32) (v400 : Vec F S16 .f32) :
    k3_pay181 v227 v347 v371 v400 = LaneLib.step v227 4#32 (LaneLib.step v227 3#32 v347 v371) v400 := by
  unfold k3_pay181
  first | rfl | (simp only [shapeCast_self, LaneLib.step]; first | done | rfl)

theorem k3_pay182_nf (v257 : IVec S16 32) :
    k3_pay182 v257 = extractStridedSlice S1 ![5] v257 slices_S16_o5_S1 := by
  unfold k3_pay182
  first | rfl | (simp only [shapeCast_self, LaneLib.step]; first | done | rfl)

theorem k3_pay183_nf (v415 : Vec F S1x16 .f32) :
    k3_pay183 v415 = shapeCast S16 v415 shapeCasts_S1x16_S16 := by
  unfold k3_pay183
  first | rfl | (simp only [shapeCast_self, LaneLib.step]; first | done | rfl)

theorem k3_pay184_nf (v415 : Vec F S1x16 .f32) :
    k3_pay184 v415 = shapeCast S16 v415 shapeCasts_S1x16_S16 := by
  unfold k3_pay184
  first | rfl | (simp only [k3_pay183_nf, shapeCast_self, LaneLib.step]; first | done | rfl)

theorem k3_pay185_nf (v415 : Vec F S1x16 .f32) :
    k3_pay185 v415 = shapeCast S16 v415 shapeCasts_S1x16_S16 := by
  unfold k3_pay185
  first | rfl | (simp only [k3_pay183_nf, shapeCast_self, LaneLib.step]; first | done | rfl)

theorem k3_pay186_nf (v227 : IVec S16 32) (v405 : FVec F S16 .f32) (v429 : Vec F S16 .f32) :
    k3_pay186 v227 v405 v429 = LaneLib.step v227 5#32 v405 v429 := by
  unfold k3_pay186
  first | rfl | (simp only [shapeCast_self, LaneLib.step]; first | done | rfl)

theorem k3_pay187_nf (v257 : IVec S16 32) :
    k3_pay187 v257 = extractStridedSlice S1 ![6] v257 slices_S16_o6_S1 := by
  unfold k3_pay187
  first | rfl | (simp only [shapeCast_self, LaneLib.step]; first | done | rfl)

theorem k3_pay188_nf (v444 : Vec F S1x16 .f32) :
    k3_pay188 v444 = shapeCast S16 v444 shapeCasts_S1x16_S16 := by
  unfold k3_pay188
  first | rfl | (simp only [shapeCast_self, LaneLib.step]; first | done | rfl)

theorem k3_pay189_nf (v444 : Vec F S1x16 .f32) :
    k3_pay189 v444 = shapeCast S16 v444 shapeCasts_S1x16_S16 := by
  unfold k3_pay189
  first | rfl | (simp only [k3_pay188_nf, shapeCast_self, LaneLib.step]; first | done | rfl)

theorem k3_pay190_nf (v445 : FVec F S16 .f32) :
    k3_pay190 v445 = v445 := by
  unfold k3_pay190
  first | rfl | (simp only [shapeCast_self, LaneLib.step]; first | done | rfl)

theorem k3_pay191_nf (v227 : IVec S16 32) (v434 : FVec F S16 .f32) (v458 : Vec F S16 .f32) :
    k3_pay191 v227 v434 v458 = LaneLib.step v227 6#32 v434 v458 := by
  unfold k3_pay191
  first | rfl | (simp only [shapeCast_self, LaneLib.step]; first | done | rfl)

theorem k3_pay192_nf (v257 : IVec S16 32) :
    k3_pay192 v257 = extractStridedSlice S1 ![7] v257 slices_S16_o7_S1 := by
  unfold k3_pay192
  first | rfl | (simp only [shapeCast_self, LaneLib.step]; first | done | rfl)

theorem k3_pay193_nf (v473 : Vec F S1x16 .f32) :
    k3_pay193 v473 = shapeCast S16 v473 shapeCasts_S1x16_S16 := by
  unfold k3_pay193
  first | rfl | (simp only [shapeCast_self, LaneLib.step]; first | done | rfl)

theorem k3_pay194_nf (v473 : Vec F S1x16 .f32) :
    k3_pay194 v473 = shapeCast S16 v473 shapeCasts_S1x16_S16 := by
  unfold k3_pay194
  first | rfl | (simp only [k3_pay193_nf, shapeCast_self, LaneLib.step]; first | done | rfl)

theorem k3_pay195_nf (v473 : Vec F S1x16 .f32) :
    k3_pay195 v473 = shapeCast S16 v473 shapeCasts_S1x16_S16 := by
  unfold k3_pay195
  first | rfl | (simp only [k3_pay193_nf, shapeCast_self, LaneLib.step]; first | done | rfl)

theorem k3_pay196_nf (v487 : Vec F S16 .f32) :
    k3_pay196 v487 = v487 := by
  unfold k3_pay196
  first | rfl | (simp only [shapeCast_self, LaneLib.step]; first | done | rfl)

theorem k3_pay197_nf (v257 : IVec S16 32) :
    k3_pay197 v257 = extractStridedSlice S1 ![8] v257 slices_S16_o8_S1 := by
  unfold k3_pay197
  first | rfl | (simp only [shapeCast_self, LaneLib.step]; first | done | rfl)

theorem k3_pay198_nf (v502 : Vec F S1x16 .f32) :
    k3_pay198 v502 = shapeCast S16 v502 shapeCasts_S1x16_S16 := by
  unfold k3_pay198
  first | rfl | (simp only [shapeCast_self, LaneLib.step]; first | done | rfl)

theorem k3_pay199_nf (v502 : Vec F S1x16 .f32) :
    k3_pay199 v502 = shapeCast S16 v502 shapeCasts_S1x16_S16 := by
  unfold k3_pay199
  first | rfl | (simp only [k3_pay198_nf, shapeCast_self, LaneLib.step]; first | done | rfl)

theorem k3_pay200_nf (v502 : Vec F S1x16 .f32) :
    k3_pay200 v502 = shapeCast S16 v502 shapeCasts_S1x16_S16 := by
  unfold k3_pay200
  first | rfl | (simp only [k3_pay198_nf, shapeCast_self, LaneLib.step]; first | done | rfl)

theorem k3_pay201_nf (v227 : IVec S16 32) (v463 : FVec F S16 .f32) (v488 : FVec F S16 .f32) (c7_i32_184 : BitVec 32) (v516 : Vec F S16 .f32) :
    k3_pay201 v227 v463 v488 c7_i32_184 v516 = LaneLib.step v227 8#32 (LaneLib.step v227 c7_i32_184 v463 v488) v516 := by
  unfold k3_pay201
  first | rfl | (simp only [shapeCast_self, LaneLib.step]; first | done | rfl)

theorem k3_pay202_nf (v257 : IVec S16 32) :
    k3_pay202 v257 = extractStridedSlice S1 ![9] v257 slices_S16_o9_S1 := by
  unfold k3_pay202
  first | rfl | (simp only [shapeCast_self, LaneLib.step]; first | done | rfl)

theorem k3_pay203_nf (v531 : Vec F S1x16 .f32) :
    k3_pay203 v531 = shapeCast S16 v531 shapeCasts_S1x16_S16 := by
  unfold k3_pay203
  first | rfl | (simp only [shapeCast_self, LaneLib.step]; first | done | rfl)

theorem k3_pay204_nf (v531 : Vec F S1x16 .f32) :
    k3_pay204 v531 = shapeCast S16 v531 shapeCasts_S1x16_S16 := by
  unfold k3_pay204
  first | rfl | (simp only [k3_pay203_nf, shapeCast_self, LaneLib.step]; first | done | rfl)

theorem k3_pay205_nf (v531 : Vec F S1x16 .f32) :
    k3_pay205 v531 = shapeCast S16 v531 shapeCasts_S1x16_S16 := by
  unfold k3_pay205
  first | rfl | (simp only [k3_pay203_nf, shapeCast_self, LaneLib.step]; first | done | rfl)

theorem k3_pay206_nf (v227 : IVec S16 32) (v521 : FVec F S16 .f32) (v545 : Vec F S16 .f32) :
    k3_pay206 v227 v521 v545 = LaneLib.step v227 9#32 v521 v545 := by
  unfold k3_pay206
  first | rfl | (simp only [shapeCast_self, LaneLib.step]; first | done | rfl)

theorem k3_pay207_nf (v257 : IVec S16 32) :
    k3_pay207 v257 = extractStridedSlice S1 ![10] v257 slices_S16_o10_S1 := by
  unfold k3_pay207
  first | rfl | (simp only [shapeCast_self, LaneLib.step]; first | done | rfl)

theorem k3_pay208_nf (v560 : Vec F S1x16 .f32) :
    k3_pay208 v560 = shapeCast S16 v560 shapeCasts_S1x16_S16 := by
  unfold k3_pay208
  first | rfl | (simp only [shapeCast_self, LaneLib.step]; first | done | rfl)

theorem k3_pay209_nf (v560 : Vec F S1x16 .f32) :
    k3_pay209 v560 = shapeCast S16 v560 shapeCasts_S1x16_S16 := by
  unfold k3_pay209
  first | rfl | (simp only [k3_pay208_nf, shapeCast_self, LaneLib.step]; first | done | rfl)

theorem k3_pay210_nf (v560 : Vec F S1x16 .f32) :
    k3_pay210 v560 = shapeCast S16 v560 shapeCasts_S1x16_S16 := by
  unfold k3_pay210
  first | rfl | (simp only [k3_pay208_nf, shapeCast_self, LaneLib.step]; first | done | rfl)

theorem k3_pay211_nf (v257 : IVec S16 32) :
    k3_pay211 v257 = extractStridedSlice S1 ![11] v257 slices_S16_o11_S1 := by
  unfold k3_pay211
  first | rfl | (simp only [shapeCast_self, LaneLib.step]; first | done | rfl)

theorem k3_pay212_nf (v589 : Vec F S1x16 .f32) :
    k3_pay212 v589 = shapeCast S16 v589 shapeCasts_S1x16_S16 := by
  unfold k3_pay212
  first | rfl | (simp only [shapeCast_self, LaneLib.step]; first | done | rfl)

theorem k3_pay213_nf (v589 : Vec F S1x16 .f32) :
    k3_pay213 v589 = shapeCast S16 v589 shapeCasts_S1x16_S16 := by
  unfold k3_pay213
  first | rfl | (simp only [k3_pay212_nf, shapeCast_self, LaneLib.step]; first | done | rfl)

theorem k3_pay214_nf (v589 : Vec F S1x16 .f32) :
    k3_pay214 v589 = shapeCast S16 v589 shapeCasts_S1x16_S16 := by
  unfold k3_pay214
  first | rfl | (simp only [k3_pay212_nf, shapeCast_self, LaneLib.step]; first | done | rfl)

theorem k3_pay215_nf (v227 : IVec S16 32) (v550 : FVec F S16 .f32) (v574 : Vec F S16 .f32) (v603 : Vec F S16 .f32) :
    k3_pay215 v227 v550 v574 v603 = LaneLib.step v227 11#32 (LaneLib.step v227 10#32 v550 v574) v603 := by
  unfold k3_pay215
  first | rfl | (simp only [shapeCast_self, LaneLib.step]; first | done | rfl)

theorem k3_pay216_nf (v257 : IVec S16 32) :
    k3_pay216 v257 = extractStridedSlice S1 ![12] v257 slices_S16_o12_S1 := by
  unfold k3_pay216
  first | rfl | (simp only [shapeCast_self, LaneLib.step]; first | done | rfl)

theorem k3_pay217_nf (v618 : Vec F S1x16 .f32) :
    k3_pay217 v618 = shapeCast S16 v618 shapeCasts_S1x16_S16 := by
  unfold k3_pay217
  first | rfl | (simp only [shapeCast_self, LaneLib.step]; first | done | rfl)

theorem k3_pay218_nf (v618 : Vec F S1x16 .f32) :
    k3_pay218 v618 = shapeCast S16 v618 shapeCasts_S1x16_S16 := by
  unfold k3_pay218
  first | rfl | (simp only [k3_pay217_nf, shapeCast_self, LaneLib.step]; first | done | rfl)

theorem k3_pay219_nf (v618 : Vec F S1x16 .f32) :
    k3_pay219 v618 = shapeCast S16 v618 shapeCasts_S1x16_S16 := by
  unfold k3_pay219
  first | rfl | (simp only [k3_pay217_nf, shapeCast_self, LaneLib.step]; first | done | rfl)

theorem k3_pay220_nf (v227 : IVec S16 32) (v608 : FVec F S16 .f32) (v632 : Vec F S16 .f32) :
    k3_pay220 v227 v608 v632 = LaneLib.step v227 12#32 v608 v632 := by
  unfold k3_pay220
  first | rfl | (simp only [shapeCast_self, LaneLib.step]; first | done | rfl)

theorem k3_pay221_nf (v257 : IVec S16 32) :
    k3_pay221 v257 = extractStridedSlice S1 ![13] v257 slices_S16_o13_S1 := by
  unfold k3_pay221
  first | rfl | (simp only [shapeCast_self, LaneLib.step]; first | done | rfl)

theorem k3_pay222_nf (v647 : Vec F S1x16 .f32) :
    k3_pay222 v647 = shapeCast S16 v647 shapeCasts_S1x16_S16 := by
  unfold k3_pay222
  first | rfl | (simp only [shapeCast_self, LaneLib.step]; first | done | rfl)

theorem k3_pay223_nf (v648 : FVec F S16 .f32) :
    k3_pay223 v648 = v648 := by
  unfold k3_pay223
  first | rfl | (simp only [shapeCast_self, LaneLib.step]; first | done | rfl)

theorem k3_pay224_nf (v648 : FVec F S16 .f32) :
    k3_pay224 v648 = v648 := by
  unfold k3_pay224
  first | rfl | (simp only [shapeCast_self, LaneLib.step]; first | done | rfl)

theorem k3_pay225_nf (v227 : IVec S16 32) (v637 : FVec F S16 .f32) (v661 : Vec F S16 .f32) :
    k3_pay225 v227 v637 v661 = LaneLib.step v227 13#32 v637 v661 := by
  unfold k3_pay225
  first | rfl | (simp only [shapeCast_self, LaneLib.step]; first | done | rfl)

theorem k3_pay226_nf (v257 : IVec S16 32) :
    k3_pay226 v257 = extractStridedSlice S1 ![14] v257 slices_S16_o14_S1 := by
  unfold k3_pay226
  first | rfl | (simp only [shapeCast_self, LaneLib.step]; first | done | rfl)

theorem k3_pay227_nf (v676 : Vec F S1x16 .f32) :
    k3_pay227 v676 = shapeCast S16 v676 shapeCasts_S1x16_S16 := by
  unfold k3_pay227
  first | rfl | (simp only [shapeCast_self, LaneLib.step]; first | done | rfl)

theorem k3_pay228_nf (v676 : Vec F S1x16 .f32) :
    k3_pay228 v676 = shapeCast S16 v676 shapeCasts_S1x16_S16 := by
  unfold k3_pay228
  first | rfl | (simp only [k3_pay227_nf, shapeCast_self, LaneLib.step]; first | done | rfl)

theorem k3_pay229_nf (v676 : Vec F S1x16 .f32) :
    k3_pay229 v676 = shapeCast S16 v676 shapeCasts_S1x16_S16 := by
  unfold k3_pay229
  first | rfl | (simp only [k3_pay227_nf, shapeCast_self, LaneLib.step]; first | done | rfl)

theorem k3_pay230_nf (v257 : IVec S16 32) :
    k3_pay230 v257 = extractStridedSlice S1 ![15] v257 slices_S16_o15_S1 := by
  unfold k3_pay230
  first | rfl | (simp only [shapeCast_self, LaneLib.step]; first | done | rfl)

theorem k3_pay231_nf (v705 : Vec F S1x16 .f32) :
    k3_pay231 v705 = shapeCast S16 v705 shapeCasts_S1x16_S16 := by
  unfold k3_pay231
  first | rfl | (simp only [shapeCast_self, LaneLib.step]; first | done | rfl)

theorem k3_pay232_nf (v705 : Vec F S1x16 .f32) :
    k3_pay232 v705 = shapeCast S16 v705 shapeCasts_S1x16_S16 := by
  unfold k3_pay232
  first | rfl | (simp only [k3_pay231_nf, shapeCast_self, LaneLib.step]; first | done | rfl)

theorem k3_pay233_nf (v705 : Vec F S1x16 .f32) :
    k3_pay233 v705 = shapeCast S16 v705 shapeCasts_S1x16_S16 := by
  unfold k3_pay233
  first | rfl | (simp only [k3_pay231_nf, shapeCast_self, LaneLib.step]; first | done | rfl)

theorem k3_pay234_nf (v227 : IVec S16 32) (v666 : FVec F S16 .f32) (v690 : Vec F S16 .f32) (v719 : Vec F S16 .f32) :
    k3_pay234 v227 v666 v690 v719 = LaneLib.step v227 15#32 (LaneLib.step v227 14#32 v666 v690) v719 := by
  unfold k3_pay234
  first | rfl | (simp only [shapeCast_self, LaneLib.step]; first | done | rfl)

theorem k3_pay235_nf (v256 : Vec F S16 .i32) :
    k3_pay235 v256 = v256 := by
  unfold k3_pay235
  first | rfl | (simp only [shapeCast_self, LaneLib.step]; first | done | rfl)

theorem k3_pay236_nf (v256 : Vec F S16 .i32) :
    k3_pay236 v256 = extractStridedSlice S1 ![0] v256 slices_S16_o0_S1 := by
  unfold k3_pay236
  first | rfl | (simp only [k3_pay235_nf, shapeCast_self, LaneLib.step]; first | done | rfl)

theorem k3_pay237_nf (v270 : Vec F S1x16 .f32) :
    k3_pay237 v270 = shapeCast S16 v270 shapeCasts_S1x16_S16 := by
  unfold k3_pay237
  first | rfl | (simp only [shapeCast_self, LaneLib.step]; first | done | rfl)

theorem k3_pay238_nf (v270 : Vec F S1x16 .f32) :
    k3_pay238 v270 = shapeCast S16 v270 shapeCasts_S1x16_S16 := by
  unfold k3_pay238
  first | rfl | (simp only [k3_pay237_nf, shapeCast_self, LaneLib.step]; first | done | rfl)

theorem k3_pay239_nf (v270 : Vec F S1x16 .f32) :
    k3_pay239 v270 = shapeCast S16 v270 shapeCasts_S1x16_S16 := by
  unfold k3_pay239
  first | rfl | (simp only [k3_pay237_nf, shapeCast_self, LaneLib.step]; first | done | rfl)

theorem k3_pay240_nf (v227 : IVec S16 32) (v259 : Vec F S16 .f32) (v284 : Vec F S16 .f32) :
    k3_pay240 v227 v259 v284 = LaneLib.step v227 0#32 v259 v284 := by
  unfold k3_pay240
  first | rfl | (simp only [shapeCast_self, LaneLib.step]; first | done | rfl)

theorem k3_pay241_nf (v257 : IVec S16 32) :
    k3_pay241 v257 = extractStridedSlice S1 ![1] v257 slices_S16_o1_S1 := by
  unfold k3_pay241
  first | rfl | (simp only [shapeCast_self, LaneLib.step]; first | done | rfl)

theorem k3_pay242_nf (v299 : Vec F S1x16 .f32) :
    k3_pay242 v299 = shapeCast S16 v299 shapeCasts_S1x16_S16 := by
  unfold k3_pay242
  first | rfl | (simp only [shapeCast_self, LaneLib.step]; first | done | rfl)

theorem k3_pay243_nf (v299 : Vec F S1x16 .f32) :
    k3_pay243 v299 = shapeCast S16 v299 shapeCasts_S1x16_S16 := by
  unfold k3_pay243
  first | rfl | (simp only [k3_pay242_nf, shapeCast_self, LaneLib.step]; first | done | rfl)

theorem k3_pay244_nf (v299 : Vec F S1x16 .f32) :
    k3_pay244 v299 = shapeCast S16 v299 shapeCasts_S1x16_S16 := by
  unfold k3_pay244
  first | rfl | (simp only [k3_pay242_nf, shapeCast_self, LaneLib.step]; first | done | rfl)

theorem k3_pay245_nf (v227 : IVec S16 32) (v289 : FVec F S16 .f32) (v313 : Vec F S16 .f32) :
    k3_pay245 v227 v289 v313 = LaneLib.step v227 1#32 v289 v313 := by
  unfold k3_pay245
  first | rfl | (simp only [shapeCast_self, LaneLib.step]; first | done | rfl)

theorem k3_pay246_nf (v257 : IVec S16 32) :
    k3_pay246 v257 = extractStridedSlice S1 ![2] v257 slices_S16_o2_S1 := by
  unfold k3_pay246
  first | rfl | (simp only [shapeCast_self, LaneLib.step]; first | done | rfl)

theorem k3_pay247_nf (v328 : Vec F S1x16 .f32) :
    k3_pay247 v328 = shapeCast S16 v328 shapeCasts_S1x16_S16 := by
  unfold k3_pay247
  first | rfl | (simp only [shapeCast_self, LaneLib.step]; first | done | rfl)

theorem k3_pay248_nf (v328 : Vec F S1x16 .f32) :
    k3_pay248 v328 = shapeCast S16 v328 shapeCasts_S1x16_S16 := by
  unfold k3_pay248
  first | rfl | (simp only [k3_pay247_nf, shapeCast_self, LaneLib.step]; first | done | rfl)

theorem k3_pay249_nf (v329 : FVec F S16 .f32) :
    k3_pay249 v329 = v329 := by
  unfold k3_pay249
  first | rfl | (simp only [shapeCast_self, LaneLib.step]; first | done | rfl)

theorem k3_pay250_nf (v227 : IVec S16 32) (v318 : FVec F S16 .f32) (v342 : Vec F S16 .f32) :
    k3_pay250 v227 v318 v342 = LaneLib.step v227 2#32 v318 v342 := by
  unfold k3_pay250
  first | rfl | (simp only [shapeCast_self, LaneLib.step]; first | done | rfl)

theorem k3_pay251_nf (v257 : IVec S16 32) :
    k3_pay251 v257 = extractStridedSlice S1 ![3] v257 slices_S16_o3_S1 := by
  unfold k3_pay251
  first | rfl | (simp only [shapeCast_self, LaneLib.step]; first | done | rfl)

theorem k3_pay252_nf (v357 : Vec F S1x16 .f32) :
    k3_pay252 v357 = shapeCast S16 v357 shapeCasts_S1x16_S16 := by
  unfold k3_pay252
  first | rfl | (simp only [shapeCast_self, LaneLib.step]; first | done | rfl)

theorem k3_pay253_nf (v357 : Vec F S1x16 .f32) :
    k3_pay253 v357 = shapeCast S16 v357 shapeCasts_S1x16_S16 := by
  unfold k3_pay253
  first | rfl | (simp only [k3_pay252_nf, shapeCast_self, LaneLib.step]; first | done | rfl)

theorem k3_pay254_nf (v357 : Vec F S1x16 .f32) :
    k3_pay254 v357 = shapeCast S16 v357 shapeCasts_S1x16_S16 := by
  unfold k3_pay254
  first | rfl | (simp only [k3_pay252_nf, shapeCast_self, LaneLib.step]; first | done | rfl)

theorem k3_pay255_nf (v257 : IVec S16 32) :
    k3_pay255 v257 = extractStridedSlice S1 ![4] v257 slices_S16_o4_S1 := by
  unfold k3_pay255
  first | rfl | (simp only [shapeCast_self, LaneLib.step]; first | done | rfl)

theorem k3_pay256_nf (v386 : Vec F S1x16 .f32) :
    k3_pay256 v386 = shapeCast S16 v386 shapeCasts_S1x16_S16 := by
  unfold k3_pay256
  first | rfl | (simp only [shapeCast_self, LaneLib.step]; first | done | rfl)

theorem k3_pay257_nf (v386 : Vec F S1x16 .f32) :
    k3_pay257 v386 = shapeCast S16 v386 shapeCasts_S1x16_S16 := by
  unfold k3_pay257
  first | rfl | (simp only [k3_pay256_nf, shapeCast_self, LaneLib.step]; first | done | rfl)

theorem k3_pay258_nf (v386 : Vec F S1x16 .f32) :
    k3_pay258 v386 = shapeCast S16 v386 shapeCasts_S1x16_S16 := by
  unfold k3_pay258
  first | rfl | (simp only [k3_pay256_nf, shapeCast_self, LaneLib.step]; first | done | rfl)

theorem k3_pay259_nf (v227 : IVec S16 32) (v347 : FVec F S16 .f32) (v371 : Vec F S16 .f32) (v400 : Vec F S16 .f32) :
    k3_pay259 v227 v347 v371 v400 = LaneLib.step v227 4#32 (LaneLib.step v227 3#32 v347 v371) v400 := by
  unfold k3_pay259
  first | rfl | (simp only [shapeCast_self, LaneLib.step]; first | done | rfl)

theorem k3_pay260_nf (v257 : IVec S16 32) :
    k3_pay260 v257 = extractStridedSlice S1 ![5] v257 slices_S16_o5_S1 := by
  unfold k3_pay260
  first | rfl | (simp only [shapeCast_self, LaneLib.step]; first | done | rfl)

theorem k3_pay261_nf (v415 : Vec F S1x16 .f32) :
    k3_pay261 v415 = shapeCast S16 v415 shapeCasts_S1x16_S16 := by
  unfold k3_pay261
  first | rfl | (simp only [shapeCast_self, LaneLib.step]; first | done | rfl)

theorem k3_pay262_nf (v415 : Vec F S1x16 .f32) :
    k3_pay262 v415 = shapeCast S16 v415 shapeCasts_S1x16_S16 := by
  unfold k3_pay262
  first | rfl | (simp only [k3_pay261_nf, shapeCast_self, LaneLib.step]; first | done | rfl)

theorem k3_pay263_nf (v415 : Vec F S1x16 .f32) :
    k3_pay263 v415 = shapeCast S16 v415 shapeCasts_S1x16_S16 := by
  unfold k3_pay263
  first | rfl | (simp only [k3_pay261_nf, shapeCast_self, LaneLib.step]; first | done | rfl)

theorem k3_pay264_nf (v227 : IVec S16 32) (v405 : FVec F S16 .f32) (v429 : Vec F S16 .f32) :
    k3_pay264 v227 v405 v429 = LaneLib.step v227 5#32 v405 v429 := by
  unfold k3_pay264
  first | rfl | (simp only [shapeCast_self, LaneLib.step]; first | done | rfl)

theorem k3_pay265_nf (v257 : IVec S16 32) :
    k3_pay265 v257 = extractStridedSlice S1 ![6] v257 slices_S16_o6_S1 := by
  unfold k3_pay265
  first | rfl | (simp only [shapeCast_self, LaneLib.step]; first | done | rfl)

theorem k3_pay266_nf (v444 : Vec F S1x16 .f32) :
    k3_pay266 v444 = shapeCast S16 v444 shapeCasts_S1x16_S16 := by
  unfold k3_pay266
  first | rfl | (simp only [shapeCast_self, LaneLib.step]; first | done | rfl)

theorem k3_pay267_nf (v444 : Vec F S1x16 .f32) :
    k3_pay267 v444 = shapeCast S16 v444 shapeCasts_S1x16_S16 := by
  unfold k3_pay267
  first | rfl | (simp only [k3_pay266_nf, shapeCast_self, LaneLib.step]; first | done | rfl)

theorem k3_pay268_nf (v445 : FVec F S16 .f32) :
    k3_pay268 v445 = v445 := by
  unfold k3_pay268
  first | rfl | (simp only [shapeCast_self, LaneLib.step]; first | done | rfl)

theorem k3_pay269_nf (v227 : IVec S16 32) (v434 : FVec F S16 .f32) (v458 : Vec F S16 .f32) :
    k3_pay269 v227 v434 v458 = LaneLib.step v227 6#32 v434 v458 := by
  unfold k3_pay269
  first | rfl | (simp only [shapeCast_self, LaneLib.step]; first | done | rfl)

theorem k3_pay270_nf (v257 : IVec S16 32) :
    k3_pay270 v257 = extractStridedSlice S1 ![7] v257 slices_S16_o7_S1 := by
  unfold k3_pay270
  first | rfl | (simp only [shapeCast_self, LaneLib.step]; first | done | rfl)

theorem k3_pay271_nf (v473 : Vec F S1x16 .f32) :
    k3_pay271 v473 = shapeCast S16 v473 shapeCasts_S1x16_S16 := by
  unfold k3_pay271
  first | rfl | (simp only [shapeCast_self, LaneLib.step]; first | done | rfl)

theorem k3_pay272_nf (v473 : Vec F S1x16 .f32) :
    k3_pay272 v473 = shapeCast S16 v473 shapeCasts_S1x16_S16 := by
  unfold k3_pay272
  first | rfl | (simp only [k3_pay271_nf, shapeCast_self, LaneLib.step]; first | done | rfl)

theorem k3_pay273_nf (v473 : Vec F S1x16 .f32) :
    k3_pay273 v473 = shapeCast S16 v473 shapeCasts_S1x16_S16 := by
  unfold k3_pay273
  first | rfl | (simp only [k3_pay271_nf, shapeCast_self, LaneLib.step]; first | done | rfl)

theorem k3_pay274_nf (v487 : Vec F S16 .f32) :
    k3_pay274 v487 = v487 := by
  unfold k3_pay274
  first | rfl | (simp only [shapeCast_self, LaneLib.step]; first | done | rfl)

theorem k3_pay275_nf (v257 : IVec S16 32) :
    k3_pay275 v257 = extractStridedSlice S1 ![8] v257 slices_S16_o8_S1 := by
  unfold k3_pay275
  first | rfl | (simp only [shapeCast_self, LaneLib.step]; first | done | rfl)

theorem k3_pay276_nf (v502 : Vec F S1x16 .f32) :
    k3_pay276 v502 = shapeCast S16 v502 shapeCasts_S1x16_S16 := by
  unfold k3_pay276
  first | rfl | (simp only [shapeCast_self, LaneLib.step]; first | done | rfl)

theorem k3_pay277_nf (v502 : Vec F S1x16 .f32) :
    k3_pay277 v502 = shapeCast S16 v502 shapeCasts_S1x16_S16 := by
  unfold k3_pay277
  first | rfl | (simp only [k3_pay276_nf, shapeCast_self, LaneLib.step]; first | done | rfl)

theorem k3_pay278_nf (v502 : Vec F S1x16 .f32) :
    k3_pay278 v502 = shapeCast S16 v502 shapeCasts_S1x16_S16 := by
  unfold k3_pay278
  first | rfl | (simp only [k3_pay276_nf, shapeCast_self, LaneLib.step]; first | done | rfl)

theorem k3_pay279_nf (v227 : IVec S16 32) (v463 : FVec F S16 .f32) (v488 : FVec F S16 .f32) (c7_i32_184 : BitVec 32) (v516 : Vec F S16 .f32) :
    k3_pay279 v227 v463 v488 c7_i32_184 v516 = LaneLib.step v227 8#32 (LaneLib.step v227 c7_i32_184 v463 v488) v516 := by
  unfold k3_pay279
  first | rfl | (simp only [shapeCast_self, LaneLib.step]; first | done | rfl)

theorem k3_pay280_nf (v257 : IVec S16 32) :
    k3_pay280 v257 = extractStridedSlice S1 ![9] v257 slices_S16_o9_S1 := by
  unfold k3_pay280
  first | rfl | (simp only [shapeCast_self, LaneLib.step]; first | done | rfl)

theorem k3_pay281_nf (v531 : Vec F S1x16 .f32) :
    k3_pay281 v531 = shapeCast S16 v531 shapeCasts_S1x16_S16 := by
  unfold k3_pay281
  first | rfl | (simp only [shapeCast_self, LaneLib.step]; first | done | rfl)

theorem k3_pay282_nf (v531 : Vec F S1x16 .f32) :
    k3_pay282 v531 = shapeCast S16 v531 shapeCasts_S1x16_S16 := by
  unfold k3_pay282
  first | rfl | (simp only [k3_pay281_nf, shapeCast_self, LaneLib.step]; first | done | rfl)

theorem k3_pay283_nf (v531 : Vec F S1x16 .f32) :
    k3_pay283 v531 = shapeCast S16 v531 shapeCasts_S1x16_S16 := by
  unfold k3_pay283
  first | rfl | (simp only [k3_pay281_nf, shapeCast_self, LaneLib.step]; first | done | rfl)

theorem k3_pay284_nf (v227 : IVec S16 32) (v521 : FVec F S16 .f32) (v545 : Vec F S16 .f32) :
    k3_pay284 v227 v521 v545 = LaneLib.step v227 9#32 v521 v545 := by
  unfold k3_pay284
  first | rfl | (simp only [shapeCast_self, LaneLib.step]; first | done | rfl)

theorem k3_pay285_nf (v257 : IVec S16 32) :
    k3_pay285 v257 = extractStridedSlice S1 ![10] v257 slices_S16_o10_S1 := by
  unfold k3_pay285
  first | rfl | (simp only [shapeCast_self, LaneLib.step]; first | done | rfl)

theorem k3_pay286_nf (v560 : Vec F S1x16 .f32) :
    k3_pay286 v560 = shapeCast S16 v560 shapeCasts_S1x16_S16 := by
  unfold k3_pay286
  first | rfl | (simp only [shapeCast_self, LaneLib.step]; first | done | rfl)

theorem k3_pay287_nf (v560 : Vec F S1x16 .f32) :
    k3_pay287 v560 = shapeCast S16 v560 shapeCasts_S1x16_S16 := by
  unfold k3_pay287
  first | rfl | (simp only [k3_pay286_nf, shapeCast_self, LaneLib.step]; first | done | rfl)

theorem k3_pay288_nf (v560 : Vec F S1x16 .f32) :
    k3_pay288 v560 = shapeCast S16 v560 shapeCasts_S1x16_S16 := by
  unfold k3_pay288
  first | rfl | (simp only [k3_pay286_nf, shapeCast_self, LaneLib.step]; first | done | rfl)

theorem k3_pay289_nf (v257 : IVec S16 32) :
    k3_pay289 v257 = extractStridedSlice S1 ![11] v257 slices_S16_o11_S1 := by
  unfold k3_pay289
  first | rfl | (simp only [shapeCast_self, LaneLib.step]; first | done | rfl)

theorem k3_pay290_nf (v589 : Vec F S1x16 .f32) :
    k3_pay290 v589 = shapeCast S16 v589 shapeCasts_S1x16_S16 := by
  unfold k3_pay290
  first | rfl | (simp only [shapeCast_self, LaneLib.step]; first | done | rfl)

theorem k3_pay291_nf (v589 : Vec F S1x16 .f32) :
    k3_pay291 v589 = shapeCast S16 v589 shapeCasts_S1x16_S16 := by
  unfold k3_pay291
  first | rfl | (simp only [k3_pay290_nf, shapeCast_self, LaneLib.step]; first | done | rfl)

theorem k3_pay292_nf (v589 : Vec F S1x16 .f32) :
    k3_pay292 v589 = shapeCast S16 v589 shapeCasts_S1x16_S16 := by
  unfold k3_pay292
  first | rfl | (simp only [k3_pay290_nf, shapeCast_self, LaneLib.step]; first | done | rfl)

theorem k3_pay293_nf (v227 : IVec S16 32) (v550 : FVec F S16 .f32) (v574 : Vec F S16 .f32) (v603 : Vec F S16 .f32) :
    k3_pay293 v227 v550 v574 v603 = LaneLib.step v227 11#32 (LaneLib.step v227 10#32 v550 v574) v603 := by
  unfold k3_pay293
  first | rfl | (simp only [shapeCast_self, LaneLib.step]; first | done | rfl)

theorem k3_pay294_nf (v257 : IVec S16 32) :
    k3_pay294 v257 = extractStridedSlice S1 ![12] v257 slices_S16_o12_S1 := by
  unfold k3_pay294
  first | rfl | (simp only [shapeCast_self, LaneLib.step]; first | done | rfl)

theorem k3_pay295_nf (v618 : Vec F S1x16 .f32) :
    k3_pay295 v618 = shapeCast S16 v618 shapeCasts_S1x16_S16 := by
  unfold k3_pay295
  first | rfl | (simp only [shapeCast_self, LaneLib.step]; first | done | rfl)

theorem k3_pay296_nf (v618 : Vec F S1x16 .f32) :
    k3_pay296 v618 = shapeCast S16 v618 shapeCasts_S1x16_S16 := by
  unfold k3_pay296
  first | rfl | (simp only [k3_pay295_nf, shapeCast_self, LaneLib.step]; first | done | rfl)

theorem k3_pay297_nf (v618 : Vec F S1x16 .f32) :
    k3_pay297 v618 = shapeCast S16 v618 shapeCasts_S1x16_S16 := by
  unfold k3_pay297
  first | rfl | (simp only [k3_pay295_nf, shapeCast_self, LaneLib.step]; first | done | rfl)

theorem k3_pay298_nf (v227 : IVec S16 32) (v608 : FVec F S16 .f32) (v632 : Vec F S16 .f32) :
    k3_pay298 v227 v608 v632 = LaneLib.step v227 12#32 v608 v632 := by
  unfold k3_pay298
  first | rfl | (simp only [shapeCast_self, LaneLib.step]; first | done | rfl)

theorem k3_pay299_nf (v257 : IVec S16 32) :
    k3_pay299 v257 = extractStridedSlice S1 ![13] v257 slices_S16_o13_S1 := by
  unfold k3_pay299
  first | rfl | (simp only [shapeCast_self, LaneLib.step]; first | done | rfl)

theorem k3_pay300_nf (v647 : Vec F S1x16 .f32) :
    k3_pay300 v647 = shapeCast S16 v647 shapeCasts_S1x16_S16 := by
  unfold k3_pay300
  first | rfl | (simp only [shapeCast_self, LaneLib.step]; first | done | rfl)

theorem k3_pay301_nf (v648 : FVec F S16 .f32) :
    k3_pay301 v648 = v648 := by
  unfold k3_pay301
  first | rfl | (simp only [shapeCast_self, LaneLib.step]; first | done | rfl)

theorem k3_pay302_nf (v648 : FVec F S16 .f32) :
    k3_pay302 v648 = v648 := by
  unfold k3_pay302
  first | rfl | (simp only [shapeCast_self, LaneLib.step]; first | done | rfl)

theorem k3_pay303_nf (v227 : IVec S16 32) (v637 : FVec F S16 .f32) (v661 : Vec F S16 .f32) :
    k3_pay303 v227 v637 v661 = LaneLib.step v227 13#32 v637 v661 := by
  unfold k3_pay303
  first | rfl | (simp only [shapeCast_self, LaneLib.step]; first | done | rfl)

theorem k3_pay304_nf (v257 : IVec S16 32) :
    k3_pay304 v257 = extractStridedSlice S1 ![14] v257 slices_S16_o14_S1 := by
  unfold k3_pay304
  first | rfl | (simp only [shapeCast_self, LaneLib.step]; first | done | rfl)

theorem k3_pay305_nf (v676 : Vec F S1x16 .f32) :
    k3_pay305 v676 = shapeCast S16 v676 shapeCasts_S1x16_S16 := by
  unfold k3_pay305
  first | rfl | (simp only [shapeCast_self, LaneLib.step]; first | done | rfl)

theorem k3_pay306_nf (v676 : Vec F S1x16 .f32) :
    k3_pay306 v676 = shapeCast S16 v676 shapeCasts_S1x16_S16 := by
  unfold k3_pay306
  first | rfl | (simp only [k3_pay305_nf, shapeCast_self, LaneLib.step]; first | done | rfl)

theorem k3_pay307_nf (v676 : Vec F S1x16 .f32) :
    k3_pay307 v676 = shapeCast S16 v676 shapeCasts_S1x16_S16 := by
  unfold k3_pay307
  first | rfl | (simp only [k3_pay305_nf, shapeCast_self, LaneLib.step]; first | done | rfl)

theorem k3_pay308_nf (v257 : IVec S16 32) :
    k3_pay308 v257 = extractStridedSlice S1 ![15] v257 slices_S16_o15_S1 := by
  unfold k3_pay308
  first | rfl | (simp only [shapeCast_self, LaneLib.step]; first | done | rfl)

theorem k3_pay309_nf (v705 : Vec F S1x16 .f32) :
    k3_pay309 v705 = shapeCast S16 v705 shapeCasts_S1x16_S16 := by
  unfold k3_pay309
  first | rfl | (simp only [shapeCast_self, LaneLib.step]; first | done | rfl)

theorem k3_pay310_nf (v705 : Vec F S1x16 .f32) :
    k3_pay310 v705 = shapeCast S16 v705 shapeCasts_S1x16_S16 := by
  unfold k3_pay310
  first | rfl | (simp only [k3_pay309_nf, shapeCast_self, LaneLib.step]; first | done | rfl)

theorem k3_pay311_nf (v705 : Vec F S1x16 .f32) :
    k3_pay311 v705 = shapeCast S16 v705 shapeCasts_S1x16_S16 := by
  unfold k3_pay311
  first | rfl | (simp only [k3_pay309_nf, shapeCast_self, LaneLib.step]; first | done | rfl)

theorem k3_pay312_nf (v227 : IVec S16 32) (v666 : FVec F S16 .f32) (v690 : Vec F S16 .f32) (v719 : Vec F S16 .f32) :
    k3_pay312 v227 v666 v690 v719 = LaneLib.step v227 15#32 (LaneLib.step v227 14#32 v666 v690) v719 := by
  unfold k3_pay312
  first | rfl | (simp only [shapeCast_self, LaneLib.step]; first | done | rfl)

theorem k3_pay317_nf (v27 : IVec S16 32) :
    k3_pay317 v27 = v27 := by
  unfold k3_pay317
  first | rfl | (simp only [shapeCast_self, LaneLib.step]; first | done | rfl)

theorem k3_pay329_nf (v104 : IVec S16 32) :
    k3_pay329 v104 = v104 := by
  unfold k3_pay329
  first | rfl | (simp only [shapeCast_self, LaneLib.step]; first | done | rfl)

theorem k3_pay341_nf (v181 : IVec S16 32) :
    k3_pay341 v181 = v181 := by
  unfold k3_pay341
  first | rfl | (simp only [shapeCast_self, LaneLib.step]; first | done | rfl)

end Cert.KernelIdeal.LanePayK3

end
-- ==== Proof.KernelIdeal.RegionK3.lean ====
/-
  The four chunk loops of the second gather kernel's tile, one trip each at a symbolic trip: a trip reads sixteen ids and
  base values, and for lane j takes the sixteen-lane group of the gathered row 16 k + j that holds the id's lane, stores
  it twice in the rotate buffer at [32 j, 32 j + 32), and reads sixteen lanes from 32 j + ((id mod 16) - j mod 16): lane
  j of that read is the group's entry (id mod 16), that is the row's entry at the id's lane (id mod 128). The select
  keeps the other lanes, so after sixteen steps lane l holds base[l] plus its own row's entry.
-/
import proofs.«204913_g64682207478566_cont_9to1c4b_713_31_alg».proof.Proof.KernelIdeal.TileK3Defs
import proofs.«204913_g64682207478566_cont_9to1c4b_713_31_alg».proof.Proof.Gen.KernelIdeal.Skeleton
import proofs.«204913_g64682207478566_cont_9to1c4b_713_31_alg».proof.Proof.ChkLib
import Idealize.ShloMosaic.Lib.Pipeline.Value
import Idealize.ShloMosaic.Lib.ValueIdx
import proofs.«204913_g64682207478566_cont_9to1c4b_713_31_alg».proof.Proof.IdBits
import proofs.«204913_g64682207478566_cont_9to1c4b_713_31_alg».proof.Proof.LaneLib
import proofs.«204913_g64682207478566_cont_9to1c4b_713_31_alg».proof.Proof.LanePayK3
import proofs.«204913_g64682207478566_cont_9to1c4b_713_31_alg».proof.Proof.LaneTrip
import proofs.«204913_g64682207478566_cont_9to1c4b_713_31_alg».proof.Proof.LaneSteps

noncomputable section

namespace Cert.KernelIdeal.TileK3

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof

open Lean Elab Tactic Meta in
/-- Unfold, in the goal, the named auxiliary value definitions the symbolic run made for the enclosing declaration. -/
elab "delta_sl " "[" ids:ident,* "]" : tactic => do
  let some decl ← Term.getDeclName? | throwError "delta_sl: no enclosing declaration"
  let pre := decl ++ `sl
  let names := ids.getElems.map (·.getId)
  let g ← getMainGoal
  let g' ← g.deltaTarget (fun n => names.any (fun m => n == pre ++ m))
  replaceMainGoal [g']

variable {F : FTy → Type}

local notation "𝕄" => MT nD τ sig (HIx 2) (Elt F) ℕ UU ℕ

local notation "iV" => (Memref.whole Cert.KernelIdeal.main_arg1_scv : Memref Cert.KernelIdeal.sig Kind.scVector Space.hbm Cert.KernelIdeal.S16384 EltTy.i32)
local notation "tV" => (Memref.whole Cert.KernelIdeal.main_v11_scv : Memref Cert.KernelIdeal.sig Kind.scVector Space.hbm Cert.KernelIdeal.S784x128 EltTy.f32)
local notation "bV" => (Memref.whole Cert.KernelIdeal.main_v8_scv : Memref Cert.KernelIdeal.sig Kind.scVector Space.hbm Cert.KernelIdeal.S16384 EltTy.f32)
local notation "oV" => (Memref.whole Cert.KernelIdeal.main_v12_scv : Memref Cert.KernelIdeal.sig Kind.scVector Space.hbm Cert.KernelIdeal.S16384 EltTy.f32)
local notation "a6" => (Memref.whole Cert.KernelIdeal.cc3_scratch0 : Memref Cert.KernelIdeal.sig Kind.scVector Space.vmem Cert.KernelIdeal.S512 EltTy.i32)
local notation "a7" => (Memref.whole Cert.KernelIdeal.cc3_scratch1 : Memref Cert.KernelIdeal.sig Kind.scVector Space.vmem Cert.KernelIdeal.S512 EltTy.i32)
local notation "a8" => (Memref.whole Cert.KernelIdeal.cc3_scratch2 : Memref Cert.KernelIdeal.sig Kind.scVector Space.vmem Cert.KernelIdeal.S128x128 EltTy.f32)
local notation "a9" => (Memref.whole Cert.KernelIdeal.cc3_scratch3 : Memref Cert.KernelIdeal.sig Kind.scVector Space.vmem Cert.KernelIdeal.S128x128 EltTy.f32)
local notation "a10" => (Memref.whole Cert.KernelIdeal.cc3_scratch4 : Memref Cert.KernelIdeal.sig Kind.scVector Space.vmem Cert.KernelIdeal.S512 EltTy.f32)
local notation "a11" => (Memref.whole Cert.KernelIdeal.cc3_scratch5 : Memref Cert.KernelIdeal.sig Kind.scVector Space.vmem Cert.KernelIdeal.S512 EltTy.f32)
local notation "a12" => (Memref.whole Cert.KernelIdeal.cc3_scratch6 : Memref Cert.KernelIdeal.sig Kind.scVector Space.vmem Cert.KernelIdeal.S512 EltTy.f32)

variable [FloatOps F]
variable (d : Dev nD) (L : grid3.Coords)

/-- What a trip's sixteen results are: lane `l` of trip `k` of chunk `c` is the base value at entry `128 c + 16 k + l` plus the
    gathered buffer's row `16 k + l` at the lane the id at that entry selects (the id modulo 128). -/
def LaneOK (c k : Nat) (i6 : S512.Idx → BitVec 32) (b10 : S512.Idx → F .f32) (rB : S128x128.Idx → F .f32) (v : S16.Idx → F .f32) : Prop :=
  ∀ (l : Fin 16) (h1 : 128 * c + 16 * k + l.val < 512) (h2 : 16 * k + l.val < 128),
    v (ix1 l) = FloatOps.addf (b10 (ix1 ⟨128 * c + 16 * k + l.val, h1⟩))
      (rB (ix2 ⟨16 * k + l.val, h2⟩ ⟨(i6 (ix1 ⟨128 * c + 16 * k + l.val, h1⟩)).toNat % 128, Nat.mod_lt _ (by decide)⟩))

set_option maxHeartbeats 4000000 in
/-- Trip `k` of chunk 0's loop: the ids, the base values and the gathered rows are read only; the trip stores its sixteen
    results, each the base value plus the gathered row's entry at the id's lane. -/
theorem region1 (hchk : ChkAll) (k : Fin k3_t1_loop.trips) (acc : BitVec 32)
    (g6 : Buf (Elt F) ((a6).view.loc (V d (cV L) (jV L)))) (g10 : Buf (Elt F) ((a10).view.loc (V d (cV L) (jV L)))) (gB : Buf (Elt F) ((a8).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a8).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k3_t1_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a8).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k3_off35 k) S16.size (k3_off35_inb k), v⟩])
                ∗ ⌜LaneOK 0 k.val ((a6).view.read (Elt F) g6) ((a10).view.read (Elt F) g10) ((a8).view.read (Elt F) gB) v⌝) := by
  iintro ⟨H6, H10, HB, H11, H12⟩
  sl_exec (disch := first | sl_exact (hchk.h1 _ _) | sl_exact (hchk.h2 _ _) | sl_exact (hchk.h3 _ _) | sl_exact (hchk.h4 _ _) | sl_exact (hchk.h5 _ _) | sl_exact (hchk.h6 _ _) | sl_exact (hchk.h7 _ _) | sl_exact (hchk.h8 _ _) | sl_exact (hchk.h9 _ _) | sl_exact (hchk.h10 _ _) | sl_exact (hchk.h11 _ _) | sl_exact (hchk.h12 _ _) | sl_exact (hchk.h13 _ _) | sl_exact (hchk.h14 _ _) | sl_exact (hchk.h15 _ _) | sl_exact (hchk.h16 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k3_t1_abs.2.1
  have hoff : (k3_off2 k) 0 = 128 * 0 + 16 * k.val := by
    rw [k3_off2_eq]
    show 16 * k.val = 128 * 0 + 16 * k.val
    omega
  have hid : ∀ (j : Fin 16) (h : 128 * 0 + 16 * k.val + j.val < 512),
      (((a6).view.slice (Rect.unit (s := S512) (k3_off2 k) S16.size (k3_off2_inb k))).read (Elt F) g6) (ix1 j) = (a6).view.read (Elt F) g6 (ix1 ⟨128 * 0 + 16 * k.val + j.val, h⟩) :=
    fun j h => LaneTrip.chunk_read (a6).view g6 (k3_off2 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
  obtain ⟨j, hj⟩ := l
  interval_cases j
  · rw [LaneSteps.nested16_at_0 _ hiota]
    refine congrArg₂ FloatOps.addf (LaneTrip.chunk_read (a10).view g10 (k3_off2 k) _ hoff _ ⟨0, hj⟩ h1) ?_
    have hA0 : ∀ w : BitVec 32, (k3_off3 k w) 0 = 16 * k.val + 0 := fun w => ChkLib.row_toNat k.val hk 0#32 (by decide)
    have hA1 : ∀ w : BitVec 32, (k3_off3 k w) 1 = ((w &&& 127#32) &&& 112#32).toNat := fun w => rfl
    have hB : ∀ w : BitVec 32, (k3_off4 w) 0 = 32 * 0 + (w.toNat % 16 + 16 - 0) % 16 :=
      fun w => IdBits.start_toNat 0#32 w 0#32 (by decide) (by decide)
    have hw : region1.sl.v264 d L k g6 = (a6).view.read (Elt F) g6 (ix1 ⟨128 * 0 + 16 * k.val + 0, h1⟩) := by
      delta_sl [v264]
      simp only [LanePayK3.k3_pay2_nf, LanePayK3.k3_pay1_nf, View.readAt_rect]
      exact (LaneLib.extract_lane (((a6).view.slice (Rect.unit (s := S512) (k3_off2 k) S16.size (k3_off2_inb k))).read (Elt F) g6) 0 (by decide) _ _).trans (hid ⟨0, by decide⟩ h1)
    delta_sl [v284, H11_2, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off3 k (region1.sl.v264 d L k g6)) (k3_off4 (region1.sl.v264 d L k g6)) ![0] ![16] _ _ _ _ shapeCasts_S1x16_S16 k.val 0 (region1.sl.v264 d L k g6) _ hk (by decide) (hA0 _) (hA1 _) (hB _) rfl rfl h2 hw
  · rw [LaneSteps.nested16_at_1 _ hiota]
    refine congrArg₂ FloatOps.addf (LaneTrip.chunk_read (a10).view g10 (k3_off2 k) _ hoff _ ⟨1, hj⟩ h1) ?_
    have hA0 : ∀ w : BitVec 32, (k3_off5 k w) 0 = 16 * k.val + 1 := fun w => ChkLib.row_toNat k.val hk 1#32 (by decide)
    have hA1 : ∀ w : BitVec 32, (k3_off5 k w) 1 = ((w &&& 127#32) &&& 112#32).toNat := fun w => rfl
    have hB : ∀ w : BitVec 32, (k3_off6 w) 0 = 32 * 1 + (w.toNat % 16 + 16 - 1) % 16 :=
      fun w => IdBits.start_toNat 32#32 w 1#32 (by decide) (by decide)
    have hw : region1.sl.v293 d L k g6 = (a6).view.read (Elt F) g6 (ix1 ⟨128 * 0 + 16 * k.val + 1, h1⟩) := by
      delta_sl [v293, r]
      simp only [LanePayK3.k3_pay7_nf, LanePayK3.k3_pay1_nf, View.readAt_rect]
      exact (LaneLib.extract_lane (((a6).view.slice (Rect.unit (s := S512) (k3_off2 k) S16.size (k3_off2_inb k))).read (Elt F) g6) 1 (by decide) _ _).trans (hid ⟨1, by decide⟩ h1)
    delta_sl [v313, H11_4, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off5 k (region1.sl.v293 d L k g6)) (k3_off6 (region1.sl.v293 d L k g6)) ![32] ![48] _ _ _ _ shapeCasts_S1x16_S16 k.val 1 (region1.sl.v293 d L k g6) _ hk (by decide) (hA0 _) (hA1 _) (hB _) rfl rfl h2 hw
  · rw [LaneSteps.nested16_at_2 _ hiota]
    refine congrArg₂ FloatOps.addf (LaneTrip.chunk_read (a10).view g10 (k3_off2 k) _ hoff _ ⟨2, hj⟩ h1) ?_
    have hA0 : ∀ w : BitVec 32, (k3_off7 k w) 0 = 16 * k.val + 2 := fun w => ChkLib.row_toNat k.val hk 2#32 (by decide)
    have hA1 : ∀ w : BitVec 32, (k3_off7 k w) 1 = ((w &&& 127#32) &&& 112#32).toNat := fun w => rfl
    have hB : ∀ w : BitVec 32, (k3_off8 w) 0 = 32 * 2 + (w.toNat % 16 + 16 - 2) % 16 :=
      fun w => IdBits.start_toNat 64#32 w 2#32 (by decide) (by decide)
    have hw : region1.sl.v322 d L k g6 = (a6).view.read (Elt F) g6 (ix1 ⟨128 * 0 + 16 * k.val + 2, h1⟩) := by
      delta_sl [v322, r]
      simp only [LanePayK3.k3_pay12_nf, LanePayK3.k3_pay1_nf, View.readAt_rect]
      exact (LaneLib.extract_lane (((a6).view.slice (Rect.unit (s := S512) (k3_off2 k) S16.size (k3_off2_inb k))).read (Elt F) g6) 2 (by decide) _ _).trans (hid ⟨2, by decide⟩ h1)
    delta_sl [v342, H11_6, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off7 k (region1.sl.v322 d L k g6)) (k3_off8 (region1.sl.v322 d L k g6)) ![64] ![80] _ _ _ _ shapeCasts_S1x16_S16 k.val 2 (region1.sl.v322 d L k g6) _ hk (by decide) (hA0 _) (hA1 _) (hB _) rfl rfl h2 hw
  · rw [LaneSteps.nested16_at_3 _ hiota]
    refine congrArg₂ FloatOps.addf (LaneTrip.chunk_read (a10).view g10 (k3_off2 k) _ hoff _ ⟨3, hj⟩ h1) ?_
    have hA0 : ∀ w : BitVec 32, (k3_off9 k w) 0 = 16 * k.val + 3 := fun w => ChkLib.row_toNat k.val hk 3#32 (by decide)
    have hA1 : ∀ w : BitVec 32, (k3_off9 k w) 1 = ((w &&& 127#32) &&& 112#32).toNat := fun w => rfl
    have hB : ∀ w : BitVec 32, (k3_off10 w) 0 = 32 * 3 + (w.toNat % 16 + 16 - 3) % 16 :=
      fun w => IdBits.start_toNat 96#32 w 3#32 (by decide) (by decide)
    have hw : region1.sl.v351 d L k g6 = (a6).view.read (Elt F) g6 (ix1 ⟨128 * 0 + 16 * k.val + 3, h1⟩) := by
      delta_sl [v351, r]
      simp only [LanePayK3.k3_pay17_nf, LanePayK3.k3_pay1_nf, View.readAt_rect]
      exact (LaneLib.extract_lane (((a6).view.slice (Rect.unit (s := S512) (k3_off2 k) S16.size (k3_off2_inb k))).read (Elt F) g6) 3 (by decide) _ _).trans (hid ⟨3, by decide⟩ h1)
    delta_sl [v371, H11_8, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off9 k (region1.sl.v351 d L k g6)) (k3_off10 (region1.sl.v351 d L k g6)) ![96] ![112] _ _ _ _ shapeCasts_S1x16_S16 k.val 3 (region1.sl.v351 d L k g6) _ hk (by decide) (hA0 _) (hA1 _) (hB _) rfl rfl h2 hw
  · rw [LaneSteps.nested16_at_4 _ hiota]
    refine congrArg₂ FloatOps.addf (LaneTrip.chunk_read (a10).view g10 (k3_off2 k) _ hoff _ ⟨4, hj⟩ h1) ?_
    have hA0 : ∀ w : BitVec 32, (k3_off11 k w) 0 = 16 * k.val + 4 := fun w => ChkLib.row_toNat k.val hk 4#32 (by decide)
    have hA1 : ∀ w : BitVec 32, (k3_off11 k w) 1 = ((w &&& 127#32) &&& 112#32).toNat := fun w => rfl
    have hB : ∀ w : BitVec 32, (k3_off12 w) 0 = 32 * 4 + (w.toNat % 16 + 16 - 4) % 16 :=
      fun w => IdBits.start_toNat 128#32 w 4#32 (by decide) (by decide)
    have hw : region1.sl.v380 d L k g6 = (a6).view.read (Elt F) g6 (ix1 ⟨128 * 0 + 16 * k.val + 4, h1⟩) := by
      delta_sl [v380, r]
      simp only [LanePayK3.k3_pay21_nf, LanePayK3.k3_pay1_nf, View.readAt_rect]
      exact (LaneLib.extract_lane (((a6).view.slice (Rect.unit (s := S512) (k3_off2 k) S16.size (k3_off2_inb k))).read (Elt F) g6) 4 (by decide) _ _).trans (hid ⟨4, by decide⟩ h1)
    delta_sl [v400, H11_10, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off11 k (region1.sl.v380 d L k g6)) (k3_off12 (region1.sl.v380 d L k g6)) ![128] ![144] _ _ _ _ shapeCasts_S1x16_S16 k.val 4 (region1.sl.v380 d L k g6) _ hk (by decide) (hA0 _) (hA1 _) (hB _) rfl rfl h2 hw
  · rw [LaneSteps.nested16_at_5 _ hiota]
    refine congrArg₂ FloatOps.addf (LaneTrip.chunk_read (a10).view g10 (k3_off2 k) _ hoff _ ⟨5, hj⟩ h1) ?_
    have hA0 : ∀ w : BitVec 32, (k3_off13 k w) 0 = 16 * k.val + 5 := fun w => ChkLib.row_toNat k.val hk 5#32 (by decide)
    have hA1 : ∀ w : BitVec 32, (k3_off13 k w) 1 = ((w &&& 127#32) &&& 112#32).toNat := fun w => rfl
    have hB : ∀ w : BitVec 32, (k3_off14 w) 0 = 32 * 5 + (w.toNat % 16 + 16 - 5) % 16 :=
      fun w => IdBits.start_toNat 160#32 w 5#32 (by decide) (by decide)
    have hw : region1.sl.v409 d L k g6 = (a6).view.read (Elt F) g6 (ix1 ⟨128 * 0 + 16 * k.val + 5, h1⟩) := by
      delta_sl [v409, r]
      simp only [LanePayK3.k3_pay26_nf, LanePayK3.k3_pay1_nf, View.readAt_rect]
      exact (LaneLib.extract_lane (((a6).view.slice (Rect.unit (s := S512) (k3_off2 k) S16.size (k3_off2_inb k))).read (Elt F) g6) 5 (by decide) _ _).trans (hid ⟨5, by decide⟩ h1)
    delta_sl [v429, H11_12, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off13 k (region1.sl.v409 d L k g6)) (k3_off14 (region1.sl.v409 d L k g6)) ![160] ![176] _ _ _ _ shapeCasts_S1x16_S16 k.val 5 (region1.sl.v409 d L k g6) _ hk (by decide) (hA0 _) (hA1 _) (hB _) rfl rfl h2 hw
  · rw [LaneSteps.nested16_at_6 _ hiota]
    refine congrArg₂ FloatOps.addf (LaneTrip.chunk_read (a10).view g10 (k3_off2 k) _ hoff _ ⟨6, hj⟩ h1) ?_
    have hA0 : ∀ w : BitVec 32, (k3_off15 k w) 0 = 16 * k.val + 6 := fun w => ChkLib.row_toNat k.val hk 6#32 (by decide)
    have hA1 : ∀ w : BitVec 32, (k3_off15 k w) 1 = ((w &&& 127#32) &&& 112#32).toNat := fun w => rfl
    have hB : ∀ w : BitVec 32, (k3_off16 w) 0 = 32 * 6 + (w.toNat % 16 + 16 - 6) % 16 :=
      fun w => IdBits.start_toNat 192#32 w 6#32 (by decide) (by decide)
    have hw : region1.sl.v438 d L k g6 = (a6).view.read (Elt F) g6 (ix1 ⟨128 * 0 + 16 * k.val + 6, h1⟩) := by
      delta_sl [v438, r]
      simp only [LanePayK3.k3_pay31_nf, LanePayK3.k3_pay1_nf, View.readAt_rect]
      exact (LaneLib.extract_lane (((a6).view.slice (Rect.unit (s := S512) (k3_off2 k) S16.size (k3_off2_inb k))).read (Elt F) g6) 6 (by decide) _ _).trans (hid ⟨6, by decide⟩ h1)
    delta_sl [v458, H11_14, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off15 k (region1.sl.v438 d L k g6)) (k3_off16 (region1.sl.v438 d L k g6)) ![192] ![208] _ _ _ _ shapeCasts_S1x16_S16 k.val 6 (region1.sl.v438 d L k g6) _ hk (by decide) (hA0 _) (hA1 _) (hB _) rfl rfl h2 hw
  · rw [LaneSteps.nested16_at_7 _ hiota]
    refine congrArg₂ FloatOps.addf (LaneTrip.chunk_read (a10).view g10 (k3_off2 k) _ hoff _ ⟨7, hj⟩ h1) ?_
    have hA0 : ∀ w : BitVec 32, (k3_off17 k w) 0 = 16 * k.val + 7 := fun w => ChkLib.row_toNat k.val hk 7#32 (by decide)
    have hA1 : ∀ w : BitVec 32, (k3_off17 k w) 1 = ((w &&& 127#32) &&& 112#32).toNat := fun w => rfl
    have hB : ∀ w : BitVec 32, (k3_off18 w) 0 = 32 * 7 + (w.toNat % 16 + 16 - 7) % 16 :=
      fun w => IdBits.start_toNat 224#32 w 7#32 (by decide) (by decide)
    have hw : region1.sl.v467 d L k g6 = (a6).view.read (Elt F) g6 (ix1 ⟨128 * 0 + 16 * k.val + 7, h1⟩) := by
      delta_sl [v467, r]
      simp only [LanePayK3.k3_pay36_nf, LanePayK3.k3_pay1_nf, View.readAt_rect]
      exact (LaneLib.extract_lane (((a6).view.slice (Rect.unit (s := S512) (k3_off2 k) S16.size (k3_off2_inb k))).read (Elt F) g6) 7 (by decide) _ _).trans (hid ⟨7, by decide⟩ h1)
    delta_sl [v487, H11_16, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off17 k (region1.sl.v467 d L k g6)) (k3_off18 (region1.sl.v467 d L k g6)) ![224] ![240] _ _ _ _ shapeCasts_S1x16_S16 k.val 7 (region1.sl.v467 d L k g6) _ hk (by decide) (hA0 _) (hA1 _) (hB _) rfl rfl h2 hw
  · rw [LaneSteps.nested16_at_8 _ hiota]
    refine congrArg₂ FloatOps.addf (LaneTrip.chunk_read (a10).view g10 (k3_off2 k) _ hoff _ ⟨8, hj⟩ h1) ?_
    have hA0 : ∀ w : BitVec 32, (k3_off19 k w) 0 = 16 * k.val + 8 := fun w => ChkLib.row_toNat k.val hk 8#32 (by decide)
    have hA1 : ∀ w : BitVec 32, (k3_off19 k w) 1 = ((w &&& 127#32) &&& 112#32).toNat := fun w => rfl
    have hB : ∀ w : BitVec 32, (k3_off20 w) 0 = 32 * 8 + (w.toNat % 16 + 16 - 8) % 16 :=
      fun w => IdBits.start_toNat 256#32 w 8#32 (by decide) (by decide)
    have hw : region1.sl.v496 d L k g6 = (a6).view.read (Elt F) g6 (ix1 ⟨128 * 0 + 16 * k.val + 8, h1⟩) := by
      delta_sl [v496, r]
      simp only [LanePayK3.k3_pay41_nf, LanePayK3.k3_pay1_nf, View.readAt_rect]
      exact (LaneLib.extract_lane (((a6).view.slice (Rect.unit (s := S512) (k3_off2 k) S16.size (k3_off2_inb k))).read (Elt F) g6) 8 (by decide) _ _).trans (hid ⟨8, by decide⟩ h1)
    delta_sl [v516, H11_18, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off19 k (region1.sl.v496 d L k g6)) (k3_off20 (region1.sl.v496 d L k g6)) ![256] ![272] _ _ _ _ shapeCasts_S1x16_S16 k.val 8 (region1.sl.v496 d L k g6) _ hk (by decide) (hA0 _) (hA1 _) (hB _) rfl rfl h2 hw
  · rw [LaneSteps.nested16_at_9 _ hiota]
    refine congrArg₂ FloatOps.addf (LaneTrip.chunk_read (a10).view g10 (k3_off2 k) _ hoff _ ⟨9, hj⟩ h1) ?_
    have hA0 : ∀ w : BitVec 32, (k3_off21 k w) 0 = 16 * k.val + 9 := fun w => ChkLib.row_toNat k.val hk 9#32 (by decide)
    have hA1 : ∀ w : BitVec 32, (k3_off21 k w) 1 = ((w &&& 127#32) &&& 112#32).toNat := fun w => rfl
    have hB : ∀ w : BitVec 32, (k3_off22 w) 0 = 32 * 9 + (w.toNat % 16 + 16 - 9) % 16 :=
      fun w => IdBits.start_toNat 288#32 w 9#32 (by decide) (by decide)
    have hw : region1.sl.v525 d L k g6 = (a6).view.read (Elt F) g6 (ix1 ⟨128 * 0 + 16 * k.val + 9, h1⟩) := by
      delta_sl [v525, r]
      simp only [LanePayK3.k3_pay46_nf, LanePayK3.k3_pay1_nf, View.readAt_rect]
      exact (LaneLib.extract_lane (((a6).view.slice (Rect.unit (s := S512) (k3_off2 k) S16.size (k3_off2_inb k))).read (Elt F) g6) 9 (by decide) _ _).trans (hid ⟨9, by decide⟩ h1)
    delta_sl [v545, H11_20, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off21 k (region1.sl.v525 d L k g6)) (k3_off22 (region1.sl.v525 d L k g6)) ![288] ![304] _ _ _ _ shapeCasts_S1x16_S16 k.val 9 (region1.sl.v525 d L k g6) _ hk (by decide) (hA0 _) (hA1 _) (hB _) rfl rfl h2 hw
  · rw [LaneSteps.nested16_at_10 _ hiota]
    refine congrArg₂ FloatOps.addf (LaneTrip.chunk_read (a10).view g10 (k3_off2 k) _ hoff _ ⟨10, hj⟩ h1) ?_
    have hA0 : ∀ w : BitVec 32, (k3_off23 k w) 0 = 16 * k.val + 10 := fun w => ChkLib.row_toNat k.val hk 10#32 (by decide)
    have hA1 : ∀ w : BitVec 32, (k3_off23 k w) 1 = ((w &&& 127#32) &&& 112#32).toNat := fun w => rfl
    have hB : ∀ w : BitVec 32, (k3_off24 w) 0 = 32 * 10 + (w.toNat % 16 + 16 - 10) % 16 :=
      fun w => IdBits.start_toNat 320#32 w 10#32 (by decide) (by decide)
    have hw : region1.sl.v554 d L k g6 = (a6).view.read (Elt F) g6 (ix1 ⟨128 * 0 + 16 * k.val + 10, h1⟩) := by
      delta_sl [v554, r]
      simp only [LanePayK3.k3_pay51_nf, LanePayK3.k3_pay1_nf, View.readAt_rect]
      exact (LaneLib.extract_lane (((a6).view.slice (Rect.unit (s := S512) (k3_off2 k) S16.size (k3_off2_inb k))).read (Elt F) g6) 10 (by decide) _ _).trans (hid ⟨10, by decide⟩ h1)
    delta_sl [v574, H11_22, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off23 k (region1.sl.v554 d L k g6)) (k3_off24 (region1.sl.v554 d L k g6)) ![320] ![336] _ _ _ _ shapeCasts_S1x16_S16 k.val 10 (region1.sl.v554 d L k g6) _ hk (by decide) (hA0 _) (hA1 _) (hB _) rfl rfl h2 hw
  · rw [LaneSteps.nested16_at_11 _ hiota]
    refine congrArg₂ FloatOps.addf (LaneTrip.chunk_read (a10).view g10 (k3_off2 k) _ hoff _ ⟨11, hj⟩ h1) ?_
    have hA0 : ∀ w : BitVec 32, (k3_off25 k w) 0 = 16 * k.val + 11 := fun w => ChkLib.row_toNat k.val hk 11#32 (by decide)
    have hA1 : ∀ w : BitVec 32, (k3_off25 k w) 1 = ((w &&& 127#32) &&& 112#32).toNat := fun w => rfl
    have hB : ∀ w : BitVec 32, (k3_off26 w) 0 = 32 * 11 + (w.toNat % 16 + 16 - 11) % 16 :=
      fun w => IdBits.start_toNat 352#32 w 11#32 (by decide) (by decide)
    have hw : region1.sl.v583 d L k g6 = (a6).view.read (Elt F) g6 (ix1 ⟨128 * 0 + 16 * k.val + 11, h1⟩) := by
      delta_sl [v583, r]
      simp only [LanePayK3.k3_pay55_nf, LanePayK3.k3_pay1_nf, View.readAt_rect]
      exact (LaneLib.extract_lane (((a6).view.slice (Rect.unit (s := S512) (k3_off2 k) S16.size (k3_off2_inb k))).read (Elt F) g6) 11 (by decide) _ _).trans (hid ⟨11, by decide⟩ h1)
    delta_sl [v603, H11_24, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off25 k (region1.sl.v583 d L k g6)) (k3_off26 (region1.sl.v583 d L k g6)) ![352] ![368] _ _ _ _ shapeCasts_S1x16_S16 k.val 11 (region1.sl.v583 d L k g6) _ hk (by decide) (hA0 _) (hA1 _) (hB _) rfl rfl h2 hw
  · rw [LaneSteps.nested16_at_12 _ hiota]
    refine congrArg₂ FloatOps.addf (LaneTrip.chunk_read (a10).view g10 (k3_off2 k) _ hoff _ ⟨12, hj⟩ h1) ?_
    have hA0 : ∀ w : BitVec 32, (k3_off27 k w) 0 = 16 * k.val + 12 := fun w => ChkLib.row_toNat k.val hk 12#32 (by decide)
    have hA1 : ∀ w : BitVec 32, (k3_off27 k w) 1 = ((w &&& 127#32) &&& 112#32).toNat := fun w => rfl
    have hB : ∀ w : BitVec 32, (k3_off28 w) 0 = 32 * 12 + (w.toNat % 16 + 16 - 12) % 16 :=
      fun w => IdBits.start_toNat 384#32 w 12#32 (by decide) (by decide)
    have hw : region1.sl.v612 d L k g6 = (a6).view.read (Elt F) g6 (ix1 ⟨128 * 0 + 16 * k.val + 12, h1⟩) := by
      delta_sl [v612, r]
      simp only [LanePayK3.k3_pay60_nf, LanePayK3.k3_pay1_nf, View.readAt_rect]
      exact (LaneLib.extract_lane (((a6).view.slice (Rect.unit (s := S512) (k3_off2 k) S16.size (k3_off2_inb k))).read (Elt F) g6) 12 (by decide) _ _).trans (hid ⟨12, by decide⟩ h1)
    delta_sl [v632, H11_26, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off27 k (region1.sl.v612 d L k g6)) (k3_off28 (region1.sl.v612 d L k g6)) ![384] ![400] _ _ _ _ shapeCasts_S1x16_S16 k.val 12 (region1.sl.v612 d L k g6) _ hk (by decide) (hA0 _) (hA1 _) (hB _) rfl rfl h2 hw
  · rw [LaneSteps.nested16_at_13 _ hiota]
    refine congrArg₂ FloatOps.addf (LaneTrip.chunk_read (a10).view g10 (k3_off2 k) _ hoff _ ⟨13, hj⟩ h1) ?_
    have hA0 : ∀ w : BitVec 32, (k3_off29 k w) 0 = 16 * k.val + 13 := fun w => ChkLib.row_toNat k.val hk 13#32 (by decide)
    have hA1 : ∀ w : BitVec 32, (k3_off29 k w) 1 = ((w &&& 127#32) &&& 112#32).toNat := fun w => rfl
    have hB : ∀ w : BitVec 32, (k3_off30 w) 0 = 32 * 13 + (w.toNat % 16 + 16 - 13) % 16 :=
      fun w => IdBits.start_toNat 416#32 w 13#32 (by decide) (by decide)
    have hw : region1.sl.v641 d L k g6 = (a6).view.read (Elt F) g6 (ix1 ⟨128 * 0 + 16 * k.val + 13, h1⟩) := by
      delta_sl [v641, r]
      simp only [LanePayK3.k3_pay65_nf, LanePayK3.k3_pay1_nf, View.readAt_rect]
      exact (LaneLib.extract_lane (((a6).view.slice (Rect.unit (s := S512) (k3_off2 k) S16.size (k3_off2_inb k))).read (Elt F) g6) 13 (by decide) _ _).trans (hid ⟨13, by decide⟩ h1)
    delta_sl [v661, H11_28, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off29 k (region1.sl.v641 d L k g6)) (k3_off30 (region1.sl.v641 d L k g6)) ![416] ![432] _ _ _ _ shapeCasts_S1x16_S16 k.val 13 (region1.sl.v641 d L k g6) _ hk (by decide) (hA0 _) (hA1 _) (hB _) rfl rfl h2 hw
  · rw [LaneSteps.nested16_at_14 _ hiota]
    refine congrArg₂ FloatOps.addf (LaneTrip.chunk_read (a10).view g10 (k3_off2 k) _ hoff _ ⟨14, hj⟩ h1) ?_
    have hA0 : ∀ w : BitVec 32, (k3_off31 k w) 0 = 16 * k.val + 14 := fun w => ChkLib.row_toNat k.val hk 14#32 (by decide)
    have hA1 : ∀ w : BitVec 32, (k3_off31 k w) 1 = ((w &&& 127#32) &&& 112#32).toNat := fun w => rfl
    have hB : ∀ w : BitVec 32, (k3_off32 w) 0 = 32 * 14 + (w.toNat % 16 + 16 - 14) % 16 :=
      fun w => IdBits.start_toNat 448#32 w 14#32 (by decide) (by decide)
    have hw : region1.sl.v670 d L k g6 = (a6).view.read (Elt F) g6 (ix1 ⟨128 * 0 + 16 * k.val + 14, h1⟩) := by
      delta_sl [v670, r]
      simp only [LanePayK3.k3_pay70_nf, LanePayK3.k3_pay1_nf, View.readAt_rect]
      exact (LaneLib.extract_lane (((a6).view.slice (Rect.unit (s := S512) (k3_off2 k) S16.size (k3_off2_inb k))).read (Elt F) g6) 14 (by decide) _ _).trans (hid ⟨14, by decide⟩ h1)
    delta_sl [v690, H11_30, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off31 k (region1.sl.v670 d L k g6)) (k3_off32 (region1.sl.v670 d L k g6)) ![448] ![464] _ _ _ _ shapeCasts_S1x16_S16 k.val 14 (region1.sl.v670 d L k g6) _ hk (by decide) (hA0 _) (hA1 _) (hB _) rfl rfl h2 hw
  · rw [LaneSteps.nested16_at_15 _ hiota]
    refine congrArg₂ FloatOps.addf (LaneTrip.chunk_read (a10).view g10 (k3_off2 k) _ hoff _ ⟨15, hj⟩ h1) ?_
    have hA0 : ∀ w : BitVec 32, (k3_off33 k w) 0 = 16 * k.val + 15 := fun w => ChkLib.row_toNat k.val hk 15#32 (by decide)
    have hA1 : ∀ w : BitVec 32, (k3_off33 k w) 1 = ((w &&& 127#32) &&& 112#32).toNat := fun w => rfl
    have hB : ∀ w : BitVec 32, (k3_off34 w) 0 = 32 * 15 + (w.toNat % 16 + 16 - 15) % 16 :=
      fun w => IdBits.start_toNat 480#32 w 15#32 (by decide) (by decide)
    have hw : region1.sl.v699 d L k g6 = (a6).view.read (Elt F) g6 (ix1 ⟨128 * 0 + 16 * k.val + 15, h1⟩) := by
      delta_sl [v699, r]
      simp only [LanePayK3.k3_pay74_nf, LanePayK3.k3_pay1_nf, View.readAt_rect]
      exact (LaneLib.extract_lane (((a6).view.slice (Rect.unit (s := S512) (k3_off2 k) S16.size (k3_off2_inb k))).read (Elt F) g6) 15 (by decide) _ _).trans (hid ⟨15, by decide⟩ h1)
    delta_sl [v719, H11_32, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off33 k (region1.sl.v699 d L k g6)) (k3_off34 (region1.sl.v699 d L k g6)) ![480] ![496] _ _ _ _ shapeCasts_S1x16_S16 k.val 15 (region1.sl.v699 d L k g6) _ hk (by decide) (hA0 _) (hA1 _) (hB _) rfl rfl h2 hw

set_option maxHeartbeats 4000000 in
/-- Trip `k` of chunk 1's loop: the ids, the base values and the gathered rows are read only; the trip stores its sixteen
    results, each the base value plus the gathered row's entry at the id's lane. -/
theorem region2 (hchk : ChkAll) (k : Fin k3_t2_loop.trips) (acc : BitVec 32)
    (g6 : Buf (Elt F) ((a6).view.loc (V d (cV L) (jV L)))) (g10 : Buf (Elt F) ((a10).view.loc (V d (cV L) (jV L)))) (gB : Buf (Elt F) ((a9).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a9).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k3_t2_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a9).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k3_off69 k) S16.size (k3_off69_inb k), v⟩])
                ∗ ⌜LaneOK 1 k.val ((a6).view.read (Elt F) g6) ((a10).view.read (Elt F) g10) ((a9).view.read (Elt F) gB) v⌝) := by
  iintro ⟨H6, H10, HB, H11, H12⟩
  sl_exec (disch := first | sl_exact (hchk.h17 _ _) | sl_exact (hchk.h18 _ _) | sl_exact (hchk.h19 _ _) | sl_exact (hchk.h20 _ _) | sl_exact (hchk.h21 _ _) | sl_exact (hchk.h22 _ _) | sl_exact (hchk.h23 _ _) | sl_exact (hchk.h24 _ _) | sl_exact (hchk.h25 _ _) | sl_exact (hchk.h26 _ _) | sl_exact (hchk.h27 _ _) | sl_exact (hchk.h28 _ _) | sl_exact (hchk.h29 _ _) | sl_exact (hchk.h30 _ _) | sl_exact (hchk.h31 _ _) | sl_exact (hchk.h32 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k3_t2_abs.2.1
  have hoff : (k3_off36 k) 0 = 128 * 1 + 16 * k.val := by
    rw [k3_off36_eq]
    show 16 * k.val + 128 = 128 * 1 + 16 * k.val
    omega
  have hid : ∀ (j : Fin 16) (h : 128 * 1 + 16 * k.val + j.val < 512),
      (((a6).view.slice (Rect.unit (s := S512) (k3_off36 k) S16.size (k3_off36_inb k))).read (Elt F) g6) (ix1 j) = (a6).view.read (Elt F) g6 (ix1 ⟨128 * 1 + 16 * k.val + j.val, h⟩) :=
    fun j h => LaneTrip.chunk_read (a6).view g6 (k3_off36 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
  obtain ⟨j, hj⟩ := l
  interval_cases j
  · rw [LaneSteps.nested16_at_0 _ hiota]
    refine congrArg₂ FloatOps.addf (LaneTrip.chunk_read (a10).view g10 (k3_off36 k) _ hoff _ ⟨0, hj⟩ h1) ?_
    have hA0 : ∀ w : BitVec 32, (k3_off37 k w) 0 = 16 * k.val + 0 := fun w => ChkLib.row_toNat k.val hk 0#32 (by decide)
    have hA1 : ∀ w : BitVec 32, (k3_off37 k w) 1 = ((w &&& 127#32) &&& 112#32).toNat := fun w => rfl
    have hB : ∀ w : BitVec 32, (k3_off38 w) 0 = 32 * 0 + (w.toNat % 16 + 16 - 0) % 16 :=
      fun w => IdBits.start_toNat 0#32 w 0#32 (by decide) (by decide)
    have hw : region2.sl.v264 d L k g6 = (a6).view.read (Elt F) g6 (ix1 ⟨128 * 1 + 16 * k.val + 0, h1⟩) := by
      delta_sl [v264]
      simp only [LanePayK3.k3_pay80_nf, LanePayK3.k3_pay79_nf, View.readAt_rect]
      exact (LaneLib.extract_lane (((a6).view.slice (Rect.unit (s := S512) (k3_off36 k) S16.size (k3_off36_inb k))).read (Elt F) g6) 0 (by decide) _ _).trans (hid ⟨0, by decide⟩ h1)
    delta_sl [v284, H11_2, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off37 k (region2.sl.v264 d L k g6)) (k3_off38 (region2.sl.v264 d L k g6)) ![0] ![16] _ _ _ _ shapeCasts_S1x16_S16 k.val 0 (region2.sl.v264 d L k g6) _ hk (by decide) (hA0 _) (hA1 _) (hB _) rfl rfl h2 hw
  · rw [LaneSteps.nested16_at_1 _ hiota]
    refine congrArg₂ FloatOps.addf (LaneTrip.chunk_read (a10).view g10 (k3_off36 k) _ hoff _ ⟨1, hj⟩ h1) ?_
    have hA0 : ∀ w : BitVec 32, (k3_off39 k w) 0 = 16 * k.val + 1 := fun w => ChkLib.row_toNat k.val hk 1#32 (by decide)
    have hA1 : ∀ w : BitVec 32, (k3_off39 k w) 1 = ((w &&& 127#32) &&& 112#32).toNat := fun w => rfl
    have hB : ∀ w : BitVec 32, (k3_off40 w) 0 = 32 * 1 + (w.toNat % 16 + 16 - 1) % 16 :=
      fun w => IdBits.start_toNat 32#32 w 1#32 (by decide) (by decide)
    have hw : region2.sl.v293 d L k g6 = (a6).view.read (Elt F) g6 (ix1 ⟨128 * 1 + 16 * k.val + 1, h1⟩) := by
      delta_sl [v293, r]
      simp only [LanePayK3.k3_pay85_nf, LanePayK3.k3_pay79_nf, View.readAt_rect]
      exact (LaneLib.extract_lane (((a6).view.slice (Rect.unit (s := S512) (k3_off36 k) S16.size (k3_off36_inb k))).read (Elt F) g6) 1 (by decide) _ _).trans (hid ⟨1, by decide⟩ h1)
    delta_sl [v313, H11_4, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off39 k (region2.sl.v293 d L k g6)) (k3_off40 (region2.sl.v293 d L k g6)) ![32] ![48] _ _ _ _ shapeCasts_S1x16_S16 k.val 1 (region2.sl.v293 d L k g6) _ hk (by decide) (hA0 _) (hA1 _) (hB _) rfl rfl h2 hw
  · rw [LaneSteps.nested16_at_2 _ hiota]
    refine congrArg₂ FloatOps.addf (LaneTrip.chunk_read (a10).view g10 (k3_off36 k) _ hoff _ ⟨2, hj⟩ h1) ?_
    have hA0 : ∀ w : BitVec 32, (k3_off41 k w) 0 = 16 * k.val + 2 := fun w => ChkLib.row_toNat k.val hk 2#32 (by decide)
    have hA1 : ∀ w : BitVec 32, (k3_off41 k w) 1 = ((w &&& 127#32) &&& 112#32).toNat := fun w => rfl
    have hB : ∀ w : BitVec 32, (k3_off42 w) 0 = 32 * 2 + (w.toNat % 16 + 16 - 2) % 16 :=
      fun w => IdBits.start_toNat 64#32 w 2#32 (by decide) (by decide)
    have hw : region2.sl.v322 d L k g6 = (a6).view.read (Elt F) g6 (ix1 ⟨128 * 1 + 16 * k.val + 2, h1⟩) := by
      delta_sl [v322, r]
      simp only [LanePayK3.k3_pay90_nf, LanePayK3.k3_pay79_nf, View.readAt_rect]
      exact (LaneLib.extract_lane (((a6).view.slice (Rect.unit (s := S512) (k3_off36 k) S16.size (k3_off36_inb k))).read (Elt F) g6) 2 (by decide) _ _).trans (hid ⟨2, by decide⟩ h1)
    delta_sl [v342, H11_6, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off41 k (region2.sl.v322 d L k g6)) (k3_off42 (region2.sl.v322 d L k g6)) ![64] ![80] _ _ _ _ shapeCasts_S1x16_S16 k.val 2 (region2.sl.v322 d L k g6) _ hk (by decide) (hA0 _) (hA1 _) (hB _) rfl rfl h2 hw
  · rw [LaneSteps.nested16_at_3 _ hiota]
    refine congrArg₂ FloatOps.addf (LaneTrip.chunk_read (a10).view g10 (k3_off36 k) _ hoff _ ⟨3, hj⟩ h1) ?_
    have hA0 : ∀ w : BitVec 32, (k3_off43 k w) 0 = 16 * k.val + 3 := fun w => ChkLib.row_toNat k.val hk 3#32 (by decide)
    have hA1 : ∀ w : BitVec 32, (k3_off43 k w) 1 = ((w &&& 127#32) &&& 112#32).toNat := fun w => rfl
    have hB : ∀ w : BitVec 32, (k3_off44 w) 0 = 32 * 3 + (w.toNat % 16 + 16 - 3) % 16 :=
      fun w => IdBits.start_toNat 96#32 w 3#32 (by decide) (by decide)
    have hw : region2.sl.v351 d L k g6 = (a6).view.read (Elt F) g6 (ix1 ⟨128 * 1 + 16 * k.val + 3, h1⟩) := by
      delta_sl [v351, r]
      simp only [LanePayK3.k3_pay95_nf, LanePayK3.k3_pay79_nf, View.readAt_rect]
      exact (LaneLib.extract_lane (((a6).view.slice (Rect.unit (s := S512) (k3_off36 k) S16.size (k3_off36_inb k))).read (Elt F) g6) 3 (by decide) _ _).trans (hid ⟨3, by decide⟩ h1)
    delta_sl [v371, H11_8, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off43 k (region2.sl.v351 d L k g6)) (k3_off44 (region2.sl.v351 d L k g6)) ![96] ![112] _ _ _ _ shapeCasts_S1x16_S16 k.val 3 (region2.sl.v351 d L k g6) _ hk (by decide) (hA0 _) (hA1 _) (hB _) rfl rfl h2 hw
  · rw [LaneSteps.nested16_at_4 _ hiota]
    refine congrArg₂ FloatOps.addf (LaneTrip.chunk_read (a10).view g10 (k3_off36 k) _ hoff _ ⟨4, hj⟩ h1) ?_
    have hA0 : ∀ w : BitVec 32, (k3_off45 k w) 0 = 16 * k.val + 4 := fun w => ChkLib.row_toNat k.val hk 4#32 (by decide)
    have hA1 : ∀ w : BitVec 32, (k3_off45 k w) 1 = ((w &&& 127#32) &&& 112#32).toNat := fun w => rfl
    have hB : ∀ w : BitVec 32, (k3_off46 w) 0 = 32 * 4 + (w.toNat % 16 + 16 - 4) % 16 :=
      fun w => IdBits.start_toNat 128#32 w 4#32 (by decide) (by decide)
    have hw : region2.sl.v380 d L k g6 = (a6).view.read (Elt F) g6 (ix1 ⟨128 * 1 + 16 * k.val + 4, h1⟩) := by
      delta_sl [v380, r]
      simp only [LanePayK3.k3_pay99_nf, LanePayK3.k3_pay79_nf, View.readAt_rect]
      exact (LaneLib.extract_lane (((a6).view.slice (Rect.unit (s := S512) (k3_off36 k) S16.size (k3_off36_inb k))).read (Elt F) g6) 4 (by decide) _ _).trans (hid ⟨4, by decide⟩ h1)
    delta_sl [v400, H11_10, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off45 k (region2.sl.v380 d L k g6)) (k3_off46 (region2.sl.v380 d L k g6)) ![128] ![144] _ _ _ _ shapeCasts_S1x16_S16 k.val 4 (region2.sl.v380 d L k g6) _ hk (by decide) (hA0 _) (hA1 _) (hB _) rfl rfl h2 hw
  · rw [LaneSteps.nested16_at_5 _ hiota]
    refine congrArg₂ FloatOps.addf (LaneTrip.chunk_read (a10).view g10 (k3_off36 k) _ hoff _ ⟨5, hj⟩ h1) ?_
    have hA0 : ∀ w : BitVec 32, (k3_off47 k w) 0 = 16 * k.val + 5 := fun w => ChkLib.row_toNat k.val hk 5#32 (by decide)
    have hA1 : ∀ w : BitVec 32, (k3_off47 k w) 1 = ((w &&& 127#32) &&& 112#32).toNat := fun w => rfl
    have hB : ∀ w : BitVec 32, (k3_off48 w) 0 = 32 * 5 + (w.toNat % 16 + 16 - 5) % 16 :=
      fun w => IdBits.start_toNat 160#32 w 5#32 (by decide) (by decide)
    have hw : region2.sl.v409 d L k g6 = (a6).view.read (Elt F) g6 (ix1 ⟨128 * 1 + 16 * k.val + 5, h1⟩) := by
      delta_sl [v409, r]
      simp only [LanePayK3.k3_pay104_nf, LanePayK3.k3_pay79_nf, View.readAt_rect]
      exact (LaneLib.extract_lane (((a6).view.slice (Rect.unit (s := S512) (k3_off36 k) S16.size (k3_off36_inb k))).read (Elt F) g6) 5 (by decide) _ _).trans (hid ⟨5, by decide⟩ h1)
    delta_sl [v429, H11_12, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off47 k (region2.sl.v409 d L k g6)) (k3_off48 (region2.sl.v409 d L k g6)) ![160] ![176] _ _ _ _ shapeCasts_S1x16_S16 k.val 5 (region2.sl.v409 d L k g6) _ hk (by decide) (hA0 _) (hA1 _) (hB _) rfl rfl h2 hw
  · rw [LaneSteps.nested16_at_6 _ hiota]
    refine congrArg₂ FloatOps.addf (LaneTrip.chunk_read (a10).view g10 (k3_off36 k) _ hoff _ ⟨6, hj⟩ h1) ?_
    have hA0 : ∀ w : BitVec 32, (k3_off49 k w) 0 = 16 * k.val + 6 := fun w => ChkLib.row_toNat k.val hk 6#32 (by decide)
    have hA1 : ∀ w : BitVec 32, (k3_off49 k w) 1 = ((w &&& 127#32) &&& 112#32).toNat := fun w => rfl
    have hB : ∀ w : BitVec 32, (k3_off50 w) 0 = 32 * 6 + (w.toNat % 16 + 16 - 6) % 16 :=
      fun w => IdBits.start_toNat 192#32 w 6#32 (by decide) (by decide)
    have hw : region2.sl.v438 d L k g6 = (a6).view.read (Elt F) g6 (ix1 ⟨128 * 1 + 16 * k.val + 6, h1⟩) := by
      delta_sl [v438, r]
      simp only [LanePayK3.k3_pay109_nf, LanePayK3.k3_pay79_nf, View.readAt_rect]
      exact (LaneLib.extract_lane (((a6).view.slice (Rect.unit (s := S512) (k3_off36 k) S16.size (k3_off36_inb k))).read (Elt F) g6) 6 (by decide) _ _).trans (hid ⟨6, by decide⟩ h1)
    delta_sl [v458, H11_14, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off49 k (region2.sl.v438 d L k g6)) (k3_off50 (region2.sl.v438 d L k g6)) ![192] ![208] _ _ _ _ shapeCasts_S1x16_S16 k.val 6 (region2.sl.v438 d L k g6) _ hk (by decide) (hA0 _) (hA1 _) (hB _) rfl rfl h2 hw
  · rw [LaneSteps.nested16_at_7 _ hiota]
    refine congrArg₂ FloatOps.addf (LaneTrip.chunk_read (a10).view g10 (k3_off36 k) _ hoff _ ⟨7, hj⟩ h1) ?_
    have hA0 : ∀ w : BitVec 32, (k3_off51 k w) 0 = 16 * k.val + 7 := fun w => ChkLib.row_toNat k.val hk 7#32 (by decide)
    have hA1 : ∀ w : BitVec 32, (k3_off51 k w) 1 = ((w &&& 127#32) &&& 112#32).toNat := fun w => rfl
    have hB : ∀ w : BitVec 32, (k3_off52 w) 0 = 32 * 7 + (w.toNat % 16 + 16 - 7) % 16 :=
      fun w => IdBits.start_toNat 224#32 w 7#32 (by decide) (by decide)
    have hw : region2.sl.v467 d L k g6 = (a6).view.read (Elt F) g6 (ix1 ⟨128 * 1 + 16 * k.val + 7, h1⟩) := by
      delta_sl [v467, r]
      simp only [LanePayK3.k3_pay114_nf, LanePayK3.k3_pay79_nf, View.readAt_rect]
      exact (LaneLib.extract_lane (((a6).view.slice (Rect.unit (s := S512) (k3_off36 k) S16.size (k3_off36_inb k))).read (Elt F) g6) 7 (by decide) _ _).trans (hid ⟨7, by decide⟩ h1)
    delta_sl [v487, H11_16, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off51 k (region2.sl.v467 d L k g6)) (k3_off52 (region2.sl.v467 d L k g6)) ![224] ![240] _ _ _ _ shapeCasts_S1x16_S16 k.val 7 (region2.sl.v467 d L k g6) _ hk (by decide) (hA0 _) (hA1 _) (hB _) rfl rfl h2 hw
  · rw [LaneSteps.nested16_at_8 _ hiota]
    refine congrArg₂ FloatOps.addf (LaneTrip.chunk_read (a10).view g10 (k3_off36 k) _ hoff _ ⟨8, hj⟩ h1) ?_
    have hA0 : ∀ w : BitVec 32, (k3_off53 k w) 0 = 16 * k.val + 8 := fun w => ChkLib.row_toNat k.val hk 8#32 (by decide)
    have hA1 : ∀ w : BitVec 32, (k3_off53 k w) 1 = ((w &&& 127#32) &&& 112#32).toNat := fun w => rfl
    have hB : ∀ w : BitVec 32, (k3_off54 w) 0 = 32 * 8 + (w.toNat % 16 + 16 - 8) % 16 :=
      fun w => IdBits.start_toNat 256#32 w 8#32 (by decide) (by decide)
    have hw : region2.sl.v496 d L k g6 = (a6).view.read (Elt F) g6 (ix1 ⟨128 * 1 + 16 * k.val + 8, h1⟩) := by
      delta_sl [v496, r]
      simp only [LanePayK3.k3_pay119_nf, LanePayK3.k3_pay79_nf, View.readAt_rect]
      exact (LaneLib.extract_lane (((a6).view.slice (Rect.unit (s := S512) (k3_off36 k) S16.size (k3_off36_inb k))).read (Elt F) g6) 8 (by decide) _ _).trans (hid ⟨8, by decide⟩ h1)
    delta_sl [v516, H11_18, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off53 k (region2.sl.v496 d L k g6)) (k3_off54 (region2.sl.v496 d L k g6)) ![256] ![272] _ _ _ _ shapeCasts_S1x16_S16 k.val 8 (region2.sl.v496 d L k g6) _ hk (by decide) (hA0 _) (hA1 _) (hB _) rfl rfl h2 hw
  · rw [LaneSteps.nested16_at_9 _ hiota]
    refine congrArg₂ FloatOps.addf (LaneTrip.chunk_read (a10).view g10 (k3_off36 k) _ hoff _ ⟨9, hj⟩ h1) ?_
    have hA0 : ∀ w : BitVec 32, (k3_off55 k w) 0 = 16 * k.val + 9 := fun w => ChkLib.row_toNat k.val hk 9#32 (by decide)
    have hA1 : ∀ w : BitVec 32, (k3_off55 k w) 1 = ((w &&& 127#32) &&& 112#32).toNat := fun w => rfl
    have hB : ∀ w : BitVec 32, (k3_off56 w) 0 = 32 * 9 + (w.toNat % 16 + 16 - 9) % 16 :=
      fun w => IdBits.start_toNat 288#32 w 9#32 (by decide) (by decide)
    have hw : region2.sl.v525 d L k g6 = (a6).view.read (Elt F) g6 (ix1 ⟨128 * 1 + 16 * k.val + 9, h1⟩) := by
      delta_sl [v525, r]
      simp only [LanePayK3.k3_pay124_nf, LanePayK3.k3_pay79_nf, View.readAt_rect]
      exact (LaneLib.extract_lane (((a6).view.slice (Rect.unit (s := S512) (k3_off36 k) S16.size (k3_off36_inb k))).read (Elt F) g6) 9 (by decide) _ _).trans (hid ⟨9, by decide⟩ h1)
    delta_sl [v545, H11_20, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off55 k (region2.sl.v525 d L k g6)) (k3_off56 (region2.sl.v525 d L k g6)) ![288] ![304] _ _ _ _ shapeCasts_S1x16_S16 k.val 9 (region2.sl.v525 d L k g6) _ hk (by decide) (hA0 _) (hA1 _) (hB _) rfl rfl h2 hw
  · rw [LaneSteps.nested16_at_10 _ hiota]
    refine congrArg₂ FloatOps.addf (LaneTrip.chunk_read (a10).view g10 (k3_off36 k) _ hoff _ ⟨10, hj⟩ h1) ?_
    have hA0 : ∀ w : BitVec 32, (k3_off57 k w) 0 = 16 * k.val + 10 := fun w => ChkLib.row_toNat k.val hk 10#32 (by decide)
    have hA1 : ∀ w : BitVec 32, (k3_off57 k w) 1 = ((w &&& 127#32) &&& 112#32).toNat := fun w => rfl
    have hB : ∀ w : BitVec 32, (k3_off58 w) 0 = 32 * 10 + (w.toNat % 16 + 16 - 10) % 16 :=
      fun w => IdBits.start_toNat 320#32 w 10#32 (by decide) (by decide)
    have hw : region2.sl.v554 d L k g6 = (a6).view.read (Elt F) g6 (ix1 ⟨128 * 1 + 16 * k.val + 10, h1⟩) := by
      delta_sl [v554, r]
      simp only [LanePayK3.k3_pay129_nf, LanePayK3.k3_pay79_nf, View.readAt_rect]
      exact (LaneLib.extract_lane (((a6).view.slice (Rect.unit (s := S512) (k3_off36 k) S16.size (k3_off36_inb k))).read (Elt F) g6) 10 (by decide) _ _).trans (hid ⟨10, by decide⟩ h1)
    delta_sl [v574, H11_22, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off57 k (region2.sl.v554 d L k g6)) (k3_off58 (region2.sl.v554 d L k g6)) ![320] ![336] _ _ _ _ shapeCasts_S1x16_S16 k.val 10 (region2.sl.v554 d L k g6) _ hk (by decide) (hA0 _) (hA1 _) (hB _) rfl rfl h2 hw
  · rw [LaneSteps.nested16_at_11 _ hiota]
    refine congrArg₂ FloatOps.addf (LaneTrip.chunk_read (a10).view g10 (k3_off36 k) _ hoff _ ⟨11, hj⟩ h1) ?_
    have hA0 : ∀ w : BitVec 32, (k3_off59 k w) 0 = 16 * k.val + 11 := fun w => ChkLib.row_toNat k.val hk 11#32 (by decide)
    have hA1 : ∀ w : BitVec 32, (k3_off59 k w) 1 = ((w &&& 127#32) &&& 112#32).toNat := fun w => rfl
    have hB : ∀ w : BitVec 32, (k3_off60 w) 0 = 32 * 11 + (w.toNat % 16 + 16 - 11) % 16 :=
      fun w => IdBits.start_toNat 352#32 w 11#32 (by decide) (by decide)
    have hw : region2.sl.v583 d L k g6 = (a6).view.read (Elt F) g6 (ix1 ⟨128 * 1 + 16 * k.val + 11, h1⟩) := by
      delta_sl [v583, r]
      simp only [LanePayK3.k3_pay133_nf, LanePayK3.k3_pay79_nf, View.readAt_rect]
      exact (LaneLib.extract_lane (((a6).view.slice (Rect.unit (s := S512) (k3_off36 k) S16.size (k3_off36_inb k))).read (Elt F) g6) 11 (by decide) _ _).trans (hid ⟨11, by decide⟩ h1)
    delta_sl [v603, H11_24, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off59 k (region2.sl.v583 d L k g6)) (k3_off60 (region2.sl.v583 d L k g6)) ![352] ![368] _ _ _ _ shapeCasts_S1x16_S16 k.val 11 (region2.sl.v583 d L k g6) _ hk (by decide) (hA0 _) (hA1 _) (hB _) rfl rfl h2 hw
  · rw [LaneSteps.nested16_at_12 _ hiota]
    refine congrArg₂ FloatOps.addf (LaneTrip.chunk_read (a10).view g10 (k3_off36 k) _ hoff _ ⟨12, hj⟩ h1) ?_
    have hA0 : ∀ w : BitVec 32, (k3_off61 k w) 0 = 16 * k.val + 12 := fun w => ChkLib.row_toNat k.val hk 12#32 (by decide)
    have hA1 : ∀ w : BitVec 32, (k3_off61 k w) 1 = ((w &&& 127#32) &&& 112#32).toNat := fun w => rfl
    have hB : ∀ w : BitVec 32, (k3_off62 w) 0 = 32 * 12 + (w.toNat % 16 + 16 - 12) % 16 :=
      fun w => IdBits.start_toNat 384#32 w 12#32 (by decide) (by decide)
    have hw : region2.sl.v612 d L k g6 = (a6).view.read (Elt F) g6 (ix1 ⟨128 * 1 + 16 * k.val + 12, h1⟩) := by
      delta_sl [v612, r]
      simp only [LanePayK3.k3_pay138_nf, LanePayK3.k3_pay79_nf, View.readAt_rect]
      exact (LaneLib.extract_lane (((a6).view.slice (Rect.unit (s := S512) (k3_off36 k) S16.size (k3_off36_inb k))).read (Elt F) g6) 12 (by decide) _ _).trans (hid ⟨12, by decide⟩ h1)
    delta_sl [v632, H11_26, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off61 k (region2.sl.v612 d L k g6)) (k3_off62 (region2.sl.v612 d L k g6)) ![384] ![400] _ _ _ _ shapeCasts_S1x16_S16 k.val 12 (region2.sl.v612 d L k g6) _ hk (by decide) (hA0 _) (hA1 _) (hB _) rfl rfl h2 hw
  · rw [LaneSteps.nested16_at_13 _ hiota]
    refine congrArg₂ FloatOps.addf (LaneTrip.chunk_read (a10).view g10 (k3_off36 k) _ hoff _ ⟨13, hj⟩ h1) ?_
    have hA0 : ∀ w : BitVec 32, (k3_off63 k w) 0 = 16 * k.val + 13 := fun w => ChkLib.row_toNat k.val hk 13#32 (by decide)
    have hA1 : ∀ w : BitVec 32, (k3_off63 k w) 1 = ((w &&& 127#32) &&& 112#32).toNat := fun w => rfl
    have hB : ∀ w : BitVec 32, (k3_off64 w) 0 = 32 * 13 + (w.toNat % 16 + 16 - 13) % 16 :=
      fun w => IdBits.start_toNat 416#32 w 13#32 (by decide) (by decide)
    have hw : region2.sl.v641 d L k g6 = (a6).view.read (Elt F) g6 (ix1 ⟨128 * 1 + 16 * k.val + 13, h1⟩) := by
      delta_sl [v641, r]
      simp only [LanePayK3.k3_pay143_nf, LanePayK3.k3_pay79_nf, View.readAt_rect]
      exact (LaneLib.extract_lane (((a6).view.slice (Rect.unit (s := S512) (k3_off36 k) S16.size (k3_off36_inb k))).read (Elt F) g6) 13 (by decide) _ _).trans (hid ⟨13, by decide⟩ h1)
    delta_sl [v661, H11_28, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off63 k (region2.sl.v641 d L k g6)) (k3_off64 (region2.sl.v641 d L k g6)) ![416] ![432] _ _ _ _ shapeCasts_S1x16_S16 k.val 13 (region2.sl.v641 d L k g6) _ hk (by decide) (hA0 _) (hA1 _) (hB _) rfl rfl h2 hw
  · rw [LaneSteps.nested16_at_14 _ hiota]
    refine congrArg₂ FloatOps.addf (LaneTrip.chunk_read (a10).view g10 (k3_off36 k) _ hoff _ ⟨14, hj⟩ h1) ?_
    have hA0 : ∀ w : BitVec 32, (k3_off65 k w) 0 = 16 * k.val + 14 := fun w => ChkLib.row_toNat k.val hk 14#32 (by decide)
    have hA1 : ∀ w : BitVec 32, (k3_off65 k w) 1 = ((w &&& 127#32) &&& 112#32).toNat := fun w => rfl
    have hB : ∀ w : BitVec 32, (k3_off66 w) 0 = 32 * 14 + (w.toNat % 16 + 16 - 14) % 16 :=
      fun w => IdBits.start_toNat 448#32 w 14#32 (by decide) (by decide)
    have hw : region2.sl.v670 d L k g6 = (a6).view.read (Elt F) g6 (ix1 ⟨128 * 1 + 16 * k.val + 14, h1⟩) := by
      delta_sl [v670, r]
      simp only [LanePayK3.k3_pay148_nf, LanePayK3.k3_pay79_nf, View.readAt_rect]
      exact (LaneLib.extract_lane (((a6).view.slice (Rect.unit (s := S512) (k3_off36 k) S16.size (k3_off36_inb k))).read (Elt F) g6) 14 (by decide) _ _).trans (hid ⟨14, by decide⟩ h1)
    delta_sl [v690, H11_30, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off65 k (region2.sl.v670 d L k g6)) (k3_off66 (region2.sl.v670 d L k g6)) ![448] ![464] _ _ _ _ shapeCasts_S1x16_S16 k.val 14 (region2.sl.v670 d L k g6) _ hk (by decide) (hA0 _) (hA1 _) (hB _) rfl rfl h2 hw
  · rw [LaneSteps.nested16_at_15 _ hiota]
    refine congrArg₂ FloatOps.addf (LaneTrip.chunk_read (a10).view g10 (k3_off36 k) _ hoff _ ⟨15, hj⟩ h1) ?_
    have hA0 : ∀ w : BitVec 32, (k3_off67 k w) 0 = 16 * k.val + 15 := fun w => ChkLib.row_toNat k.val hk 15#32 (by decide)
    have hA1 : ∀ w : BitVec 32, (k3_off67 k w) 1 = ((w &&& 127#32) &&& 112#32).toNat := fun w => rfl
    have hB : ∀ w : BitVec 32, (k3_off68 w) 0 = 32 * 15 + (w.toNat % 16 + 16 - 15) % 16 :=
      fun w => IdBits.start_toNat 480#32 w 15#32 (by decide) (by decide)
    have hw : region2.sl.v699 d L k g6 = (a6).view.read (Elt F) g6 (ix1 ⟨128 * 1 + 16 * k.val + 15, h1⟩) := by
      delta_sl [v699, r]
      simp only [LanePayK3.k3_pay152_nf, LanePayK3.k3_pay79_nf, View.readAt_rect]
      exact (LaneLib.extract_lane (((a6).view.slice (Rect.unit (s := S512) (k3_off36 k) S16.size (k3_off36_inb k))).read (Elt F) g6) 15 (by decide) _ _).trans (hid ⟨15, by decide⟩ h1)
    delta_sl [v719, H11_32, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off67 k (region2.sl.v699 d L k g6)) (k3_off68 (region2.sl.v699 d L k g6)) ![480] ![496] _ _ _ _ shapeCasts_S1x16_S16 k.val 15 (region2.sl.v699 d L k g6) _ hk (by decide) (hA0 _) (hA1 _) (hB _) rfl rfl h2 hw

set_option maxHeartbeats 4000000 in
/-- Trip `k` of chunk 2's loop: the ids, the base values and the gathered rows are read only; the trip stores its sixteen
    results, each the base value plus the gathered row's entry at the id's lane. -/
theorem region3 (hchk : ChkAll) (k : Fin k3_t3_loop.trips) (acc : BitVec 32)
    (g6 : Buf (Elt F) ((a6).view.loc (V d (cV L) (jV L)))) (g10 : Buf (Elt F) ((a10).view.loc (V d (cV L) (jV L)))) (gB : Buf (Elt F) ((a8).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a8).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k3_t3_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a8).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k3_off103 k) S16.size (k3_off103_inb k), v⟩])
                ∗ ⌜LaneOK 2 k.val ((a6).view.read (Elt F) g6) ((a10).view.read (Elt F) g10) ((a8).view.read (Elt F) gB) v⌝) := by
  iintro ⟨H6, H10, HB, H11, H12⟩
  sl_exec (disch := first | sl_exact (hchk.h33 _ _) | sl_exact (hchk.h34 _ _) | sl_exact (hchk.h35 _ _) | sl_exact (hchk.h36 _ _) | sl_exact (hchk.h37 _ _) | sl_exact (hchk.h38 _ _) | sl_exact (hchk.h39 _ _) | sl_exact (hchk.h40 _ _) | sl_exact (hchk.h41 _ _) | sl_exact (hchk.h42 _ _) | sl_exact (hchk.h43 _ _) | sl_exact (hchk.h44 _ _) | sl_exact (hchk.h45 _ _) | sl_exact (hchk.h46 _ _) | sl_exact (hchk.h47 _ _) | sl_exact (hchk.h48 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k3_t3_abs.2.1
  have hoff : (k3_off70 k) 0 = 128 * 2 + 16 * k.val := by
    rw [k3_off70_eq]
    show 16 * k.val + 256 = 128 * 2 + 16 * k.val
    omega
  have hid : ∀ (j : Fin 16) (h : 128 * 2 + 16 * k.val + j.val < 512),
      (((a6).view.slice (Rect.unit (s := S512) (k3_off70 k) S16.size (k3_off70_inb k))).read (Elt F) g6) (ix1 j) = (a6).view.read (Elt F) g6 (ix1 ⟨128 * 2 + 16 * k.val + j.val, h⟩) :=
    fun j h => LaneTrip.chunk_read (a6).view g6 (k3_off70 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
  obtain ⟨j, hj⟩ := l
  interval_cases j
  · rw [LaneSteps.nested16_at_0 _ hiota]
    refine congrArg₂ FloatOps.addf (LaneTrip.chunk_read (a10).view g10 (k3_off70 k) _ hoff _ ⟨0, hj⟩ h1) ?_
    have hA0 : ∀ w : BitVec 32, (k3_off71 k w) 0 = 16 * k.val + 0 := fun w => ChkLib.row_toNat k.val hk 0#32 (by decide)
    have hA1 : ∀ w : BitVec 32, (k3_off71 k w) 1 = ((w &&& 127#32) &&& 112#32).toNat := fun w => rfl
    have hB : ∀ w : BitVec 32, (k3_off72 w) 0 = 32 * 0 + (w.toNat % 16 + 16 - 0) % 16 :=
      fun w => IdBits.start_toNat 0#32 w 0#32 (by decide) (by decide)
    have hw : region3.sl.v264 d L k g6 = (a6).view.read (Elt F) g6 (ix1 ⟨128 * 2 + 16 * k.val + 0, h1⟩) := by
      delta_sl [v264]
      simp only [LanePayK3.k3_pay158_nf, LanePayK3.k3_pay157_nf, View.readAt_rect]
      exact (LaneLib.extract_lane (((a6).view.slice (Rect.unit (s := S512) (k3_off70 k) S16.size (k3_off70_inb k))).read (Elt F) g6) 0 (by decide) _ _).trans (hid ⟨0, by decide⟩ h1)
    delta_sl [v284, H11_2, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off71 k (region3.sl.v264 d L k g6)) (k3_off72 (region3.sl.v264 d L k g6)) ![0] ![16] _ _ _ _ shapeCasts_S1x16_S16 k.val 0 (region3.sl.v264 d L k g6) _ hk (by decide) (hA0 _) (hA1 _) (hB _) rfl rfl h2 hw
  · rw [LaneSteps.nested16_at_1 _ hiota]
    refine congrArg₂ FloatOps.addf (LaneTrip.chunk_read (a10).view g10 (k3_off70 k) _ hoff _ ⟨1, hj⟩ h1) ?_
    have hA0 : ∀ w : BitVec 32, (k3_off73 k w) 0 = 16 * k.val + 1 := fun w => ChkLib.row_toNat k.val hk 1#32 (by decide)
    have hA1 : ∀ w : BitVec 32, (k3_off73 k w) 1 = ((w &&& 127#32) &&& 112#32).toNat := fun w => rfl
    have hB : ∀ w : BitVec 32, (k3_off74 w) 0 = 32 * 1 + (w.toNat % 16 + 16 - 1) % 16 :=
      fun w => IdBits.start_toNat 32#32 w 1#32 (by decide) (by decide)
    have hw : region3.sl.v293 d L k g6 = (a6).view.read (Elt F) g6 (ix1 ⟨128 * 2 + 16 * k.val + 1, h1⟩) := by
      delta_sl [v293, r]
      simp only [LanePayK3.k3_pay163_nf, LanePayK3.k3_pay157_nf, View.readAt_rect]
      exact (LaneLib.extract_lane (((a6).view.slice (Rect.unit (s := S512) (k3_off70 k) S16.size (k3_off70_inb k))).read (Elt F) g6) 1 (by decide) _ _).trans (hid ⟨1, by decide⟩ h1)
    delta_sl [v313, H11_4, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off73 k (region3.sl.v293 d L k g6)) (k3_off74 (region3.sl.v293 d L k g6)) ![32] ![48] _ _ _ _ shapeCasts_S1x16_S16 k.val 1 (region3.sl.v293 d L k g6) _ hk (by decide) (hA0 _) (hA1 _) (hB _) rfl rfl h2 hw
  · rw [LaneSteps.nested16_at_2 _ hiota]
    refine congrArg₂ FloatOps.addf (LaneTrip.chunk_read (a10).view g10 (k3_off70 k) _ hoff _ ⟨2, hj⟩ h1) ?_
    have hA0 : ∀ w : BitVec 32, (k3_off75 k w) 0 = 16 * k.val + 2 := fun w => ChkLib.row_toNat k.val hk 2#32 (by decide)
    have hA1 : ∀ w : BitVec 32, (k3_off75 k w) 1 = ((w &&& 127#32) &&& 112#32).toNat := fun w => rfl
    have hB : ∀ w : BitVec 32, (k3_off76 w) 0 = 32 * 2 + (w.toNat % 16 + 16 - 2) % 16 :=
      fun w => IdBits.start_toNat 64#32 w 2#32 (by decide) (by decide)
    have hw : region3.sl.v322 d L k g6 = (a6).view.read (Elt F) g6 (ix1 ⟨128 * 2 + 16 * k.val + 2, h1⟩) := by
      delta_sl [v322, r]
      simp only [LanePayK3.k3_pay168_nf, LanePayK3.k3_pay157_nf, View.readAt_rect]
      exact (LaneLib.extract_lane (((a6).view.slice (Rect.unit (s := S512) (k3_off70 k) S16.size (k3_off70_inb k))).read (Elt F) g6) 2 (by decide) _ _).trans (hid ⟨2, by decide⟩ h1)
    delta_sl [v342, H11_6, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off75 k (region3.sl.v322 d L k g6)) (k3_off76 (region3.sl.v322 d L k g6)) ![64] ![80] _ _ _ _ shapeCasts_S1x16_S16 k.val 2 (region3.sl.v322 d L k g6) _ hk (by decide) (hA0 _) (hA1 _) (hB _) rfl rfl h2 hw
  · rw [LaneSteps.nested16_at_3 _ hiota]
    refine congrArg₂ FloatOps.addf (LaneTrip.chunk_read (a10).view g10 (k3_off70 k) _ hoff _ ⟨3, hj⟩ h1) ?_
    have hA0 : ∀ w : BitVec 32, (k3_off77 k w) 0 = 16 * k.val + 3 := fun w => ChkLib.row_toNat k.val hk 3#32 (by decide)
    have hA1 : ∀ w : BitVec 32, (k3_off77 k w) 1 = ((w &&& 127#32) &&& 112#32).toNat := fun w => rfl
    have hB : ∀ w : BitVec 32, (k3_off78 w) 0 = 32 * 3 + (w.toNat % 16 + 16 - 3) % 16 :=
      fun w => IdBits.start_toNat 96#32 w 3#32 (by decide) (by decide)
    have hw : region3.sl.v351 d L k g6 = (a6).view.read (Elt F) g6 (ix1 ⟨128 * 2 + 16 * k.val + 3, h1⟩) := by
      delta_sl [v351, r]
      simp only [LanePayK3.k3_pay173_nf, LanePayK3.k3_pay157_nf, View.readAt_rect]
      exact (LaneLib.extract_lane (((a6).view.slice (Rect.unit (s := S512) (k3_off70 k) S16.size (k3_off70_inb k))).read (Elt F) g6) 3 (by decide) _ _).trans (hid ⟨3, by decide⟩ h1)
    delta_sl [v371, H11_8, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off77 k (region3.sl.v351 d L k g6)) (k3_off78 (region3.sl.v351 d L k g6)) ![96] ![112] _ _ _ _ shapeCasts_S1x16_S16 k.val 3 (region3.sl.v351 d L k g6) _ hk (by decide) (hA0 _) (hA1 _) (hB _) rfl rfl h2 hw
  · rw [LaneSteps.nested16_at_4 _ hiota]
    refine congrArg₂ FloatOps.addf (LaneTrip.chunk_read (a10).view g10 (k3_off70 k) _ hoff _ ⟨4, hj⟩ h1) ?_
    have hA0 : ∀ w : BitVec 32, (k3_off79 k w) 0 = 16 * k.val + 4 := fun w => ChkLib.row_toNat k.val hk 4#32 (by decide)
    have hA1 : ∀ w : BitVec 32, (k3_off79 k w) 1 = ((w &&& 127#32) &&& 112#32).toNat := fun w => rfl
    have hB : ∀ w : BitVec 32, (k3_off80 w) 0 = 32 * 4 + (w.toNat % 16 + 16 - 4) % 16 :=
      fun w => IdBits.start_toNat 128#32 w 4#32 (by decide) (by decide)
    have hw : region3.sl.v380 d L k g6 = (a6).view.read (Elt F) g6 (ix1 ⟨128 * 2 + 16 * k.val + 4, h1⟩) := by
      delta_sl [v380, r]
      simp only [LanePayK3.k3_pay177_nf, LanePayK3.k3_pay157_nf, View.readAt_rect]
      exact (LaneLib.extract_lane (((a6).view.slice (Rect.unit (s := S512) (k3_off70 k) S16.size (k3_off70_inb k))).read (Elt F) g6) 4 (by decide) _ _).trans (hid ⟨4, by decide⟩ h1)
    delta_sl [v400, H11_10, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off79 k (region3.sl.v380 d L k g6)) (k3_off80 (region3.sl.v380 d L k g6)) ![128] ![144] _ _ _ _ shapeCasts_S1x16_S16 k.val 4 (region3.sl.v380 d L k g6) _ hk (by decide) (hA0 _) (hA1 _) (hB _) rfl rfl h2 hw
  · rw [LaneSteps.nested16_at_5 _ hiota]
    refine congrArg₂ FloatOps.addf (LaneTrip.chunk_read (a10).view g10 (k3_off70 k) _ hoff _ ⟨5, hj⟩ h1) ?_
    have hA0 : ∀ w : BitVec 32, (k3_off81 k w) 0 = 16 * k.val + 5 := fun w => ChkLib.row_toNat k.val hk 5#32 (by decide)
    have hA1 : ∀ w : BitVec 32, (k3_off81 k w) 1 = ((w &&& 127#32) &&& 112#32).toNat := fun w => rfl
    have hB : ∀ w : BitVec 32, (k3_off82 w) 0 = 32 * 5 + (w.toNat % 16 + 16 - 5) % 16 :=
      fun w => IdBits.start_toNat 160#32 w 5#32 (by decide) (by decide)
    have hw : region3.sl.v409 d L k g6 = (a6).view.read (Elt F) g6 (ix1 ⟨128 * 2 + 16 * k.val + 5, h1⟩) := by
      delta_sl [v409, r]
      simp only [LanePayK3.k3_pay182_nf, LanePayK3.k3_pay157_nf, View.readAt_rect]
      exact (LaneLib.extract_lane (((a6).view.slice (Rect.unit (s := S512) (k3_off70 k) S16.size (k3_off70_inb k))).read (Elt F) g6) 5 (by decide) _ _).trans (hid ⟨5, by decide⟩ h1)
    delta_sl [v429, H11_12, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off81 k (region3.sl.v409 d L k g6)) (k3_off82 (region3.sl.v409 d L k g6)) ![160] ![176] _ _ _ _ shapeCasts_S1x16_S16 k.val 5 (region3.sl.v409 d L k g6) _ hk (by decide) (hA0 _) (hA1 _) (hB _) rfl rfl h2 hw
  · rw [LaneSteps.nested16_at_6 _ hiota]
    refine congrArg₂ FloatOps.addf (LaneTrip.chunk_read (a10).view g10 (k3_off70 k) _ hoff _ ⟨6, hj⟩ h1) ?_
    have hA0 : ∀ w : BitVec 32, (k3_off83 k w) 0 = 16 * k.val + 6 := fun w => ChkLib.row_toNat k.val hk 6#32 (by decide)
    have hA1 : ∀ w : BitVec 32, (k3_off83 k w) 1 = ((w &&& 127#32) &&& 112#32).toNat := fun w => rfl
    have hB : ∀ w : BitVec 32, (k3_off84 w) 0 = 32 * 6 + (w.toNat % 16 + 16 - 6) % 16 :=
      fun w => IdBits.start_toNat 192#32 w 6#32 (by decide) (by decide)
    have hw : region3.sl.v438 d L k g6 = (a6).view.read (Elt F) g6 (ix1 ⟨128 * 2 + 16 * k.val + 6, h1⟩) := by
      delta_sl [v438, r]
      simp only [LanePayK3.k3_pay187_nf, LanePayK3.k3_pay157_nf, View.readAt_rect]
      exact (LaneLib.extract_lane (((a6).view.slice (Rect.unit (s := S512) (k3_off70 k) S16.size (k3_off70_inb k))).read (Elt F) g6) 6 (by decide) _ _).trans (hid ⟨6, by decide⟩ h1)
    delta_sl [v458, H11_14, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off83 k (region3.sl.v438 d L k g6)) (k3_off84 (region3.sl.v438 d L k g6)) ![192] ![208] _ _ _ _ shapeCasts_S1x16_S16 k.val 6 (region3.sl.v438 d L k g6) _ hk (by decide) (hA0 _) (hA1 _) (hB _) rfl rfl h2 hw
  · rw [LaneSteps.nested16_at_7 _ hiota]
    refine congrArg₂ FloatOps.addf (LaneTrip.chunk_read (a10).view g10 (k3_off70 k) _ hoff _ ⟨7, hj⟩ h1) ?_
    have hA0 : ∀ w : BitVec 32, (k3_off85 k w) 0 = 16 * k.val + 7 := fun w => ChkLib.row_toNat k.val hk 7#32 (by decide)
    have hA1 : ∀ w : BitVec 32, (k3_off85 k w) 1 = ((w &&& 127#32) &&& 112#32).toNat := fun w => rfl
    have hB : ∀ w : BitVec 32, (k3_off86 w) 0 = 32 * 7 + (w.toNat % 16 + 16 - 7) % 16 :=
      fun w => IdBits.start_toNat 224#32 w 7#32 (by decide) (by decide)
    have hw : region3.sl.v467 d L k g6 = (a6).view.read (Elt F) g6 (ix1 ⟨128 * 2 + 16 * k.val + 7, h1⟩) := by
      delta_sl [v467, r]
      simp only [LanePayK3.k3_pay192_nf, LanePayK3.k3_pay157_nf, View.readAt_rect]
      exact (LaneLib.extract_lane (((a6).view.slice (Rect.unit (s := S512) (k3_off70 k) S16.size (k3_off70_inb k))).read (Elt F) g6) 7 (by decide) _ _).trans (hid ⟨7, by decide⟩ h1)
    delta_sl [v487, H11_16, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off85 k (region3.sl.v467 d L k g6)) (k3_off86 (region3.sl.v467 d L k g6)) ![224] ![240] _ _ _ _ shapeCasts_S1x16_S16 k.val 7 (region3.sl.v467 d L k g6) _ hk (by decide) (hA0 _) (hA1 _) (hB _) rfl rfl h2 hw
  · rw [LaneSteps.nested16_at_8 _ hiota]
    refine congrArg₂ FloatOps.addf (LaneTrip.chunk_read (a10).view g10 (k3_off70 k) _ hoff _ ⟨8, hj⟩ h1) ?_
    have hA0 : ∀ w : BitVec 32, (k3_off87 k w) 0 = 16 * k.val + 8 := fun w => ChkLib.row_toNat k.val hk 8#32 (by decide)
    have hA1 : ∀ w : BitVec 32, (k3_off87 k w) 1 = ((w &&& 127#32) &&& 112#32).toNat := fun w => rfl
    have hB : ∀ w : BitVec 32, (k3_off88 w) 0 = 32 * 8 + (w.toNat % 16 + 16 - 8) % 16 :=
      fun w => IdBits.start_toNat 256#32 w 8#32 (by decide) (by decide)
    have hw : region3.sl.v496 d L k g6 = (a6).view.read (Elt F) g6 (ix1 ⟨128 * 2 + 16 * k.val + 8, h1⟩) := by
      delta_sl [v496, r]
      simp only [LanePayK3.k3_pay197_nf, LanePayK3.k3_pay157_nf, View.readAt_rect]
      exact (LaneLib.extract_lane (((a6).view.slice (Rect.unit (s := S512) (k3_off70 k) S16.size (k3_off70_inb k))).read (Elt F) g6) 8 (by decide) _ _).trans (hid ⟨8, by decide⟩ h1)
    delta_sl [v516, H11_18, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off87 k (region3.sl.v496 d L k g6)) (k3_off88 (region3.sl.v496 d L k g6)) ![256] ![272] _ _ _ _ shapeCasts_S1x16_S16 k.val 8 (region3.sl.v496 d L k g6) _ hk (by decide) (hA0 _) (hA1 _) (hB _) rfl rfl h2 hw
  · rw [LaneSteps.nested16_at_9 _ hiota]
    refine congrArg₂ FloatOps.addf (LaneTrip.chunk_read (a10).view g10 (k3_off70 k) _ hoff _ ⟨9, hj⟩ h1) ?_
    have hA0 : ∀ w : BitVec 32, (k3_off89 k w) 0 = 16 * k.val + 9 := fun w => ChkLib.row_toNat k.val hk 9#32 (by decide)
    have hA1 : ∀ w : BitVec 32, (k3_off89 k w) 1 = ((w &&& 127#32) &&& 112#32).toNat := fun w => rfl
    have hB : ∀ w : BitVec 32, (k3_off90 w) 0 = 32 * 9 + (w.toNat % 16 + 16 - 9) % 16 :=
      fun w => IdBits.start_toNat 288#32 w 9#32 (by decide) (by decide)
    have hw : region3.sl.v525 d L k g6 = (a6).view.read (Elt F) g6 (ix1 ⟨128 * 2 + 16 * k.val + 9, h1⟩) := by
      delta_sl [v525, r]
      simp only [LanePayK3.k3_pay202_nf, LanePayK3.k3_pay157_nf, View.readAt_rect]
      exact (LaneLib.extract_lane (((a6).view.slice (Rect.unit (s := S512) (k3_off70 k) S16.size (k3_off70_inb k))).read (Elt F) g6) 9 (by decide) _ _).trans (hid ⟨9, by decide⟩ h1)
    delta_sl [v545, H11_20, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off89 k (region3.sl.v525 d L k g6)) (k3_off90 (region3.sl.v525 d L k g6)) ![288] ![304] _ _ _ _ shapeCasts_S1x16_S16 k.val 9 (region3.sl.v525 d L k g6) _ hk (by decide) (hA0 _) (hA1 _) (hB _) rfl rfl h2 hw
  · rw [LaneSteps.nested16_at_10 _ hiota]
    refine congrArg₂ FloatOps.addf (LaneTrip.chunk_read (a10).view g10 (k3_off70 k) _ hoff _ ⟨10, hj⟩ h1) ?_
    have hA0 : ∀ w : BitVec 32, (k3_off91 k w) 0 = 16 * k.val + 10 := fun w => ChkLib.row_toNat k.val hk 10#32 (by decide)
    have hA1 : ∀ w : BitVec 32, (k3_off91 k w) 1 = ((w &&& 127#32) &&& 112#32).toNat := fun w => rfl
    have hB : ∀ w : BitVec 32, (k3_off92 w) 0 = 32 * 10 + (w.toNat % 16 + 16 - 10) % 16 :=
      fun w => IdBits.start_toNat 320#32 w 10#32 (by decide) (by decide)
    have hw : region3.sl.v554 d L k g6 = (a6).view.read (Elt F) g6 (ix1 ⟨128 * 2 + 16 * k.val + 10, h1⟩) := by
      delta_sl [v554, r]
      simp only [LanePayK3.k3_pay207_nf, LanePayK3.k3_pay157_nf, View.readAt_rect]
      exact (LaneLib.extract_lane (((a6).view.slice (Rect.unit (s := S512) (k3_off70 k) S16.size (k3_off70_inb k))).read (Elt F) g6) 10 (by decide) _ _).trans (hid ⟨10, by decide⟩ h1)
    delta_sl [v574, H11_22, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off91 k (region3.sl.v554 d L k g6)) (k3_off92 (region3.sl.v554 d L k g6)) ![320] ![336] _ _ _ _ shapeCasts_S1x16_S16 k.val 10 (region3.sl.v554 d L k g6) _ hk (by decide) (hA0 _) (hA1 _) (hB _) rfl rfl h2 hw
  · rw [LaneSteps.nested16_at_11 _ hiota]
    refine congrArg₂ FloatOps.addf (LaneTrip.chunk_read (a10).view g10 (k3_off70 k) _ hoff _ ⟨11, hj⟩ h1) ?_
    have hA0 : ∀ w : BitVec 32, (k3_off93 k w) 0 = 16 * k.val + 11 := fun w => ChkLib.row_toNat k.val hk 11#32 (by decide)
    have hA1 : ∀ w : BitVec 32, (k3_off93 k w) 1 = ((w &&& 127#32) &&& 112#32).toNat := fun w => rfl
    have hB : ∀ w : BitVec 32, (k3_off94 w) 0 = 32 * 11 + (w.toNat % 16 + 16 - 11) % 16 :=
      fun w => IdBits.start_toNat 352#32 w 11#32 (by decide) (by decide)
    have hw : region3.sl.v583 d L k g6 = (a6).view.read (Elt F) g6 (ix1 ⟨128 * 2 + 16 * k.val + 11, h1⟩) := by
      delta_sl [v583, r]
      simp only [LanePayK3.k3_pay211_nf, LanePayK3.k3_pay157_nf, View.readAt_rect]
      exact (LaneLib.extract_lane (((a6).view.slice (Rect.unit (s := S512) (k3_off70 k) S16.size (k3_off70_inb k))).read (Elt F) g6) 11 (by decide) _ _).trans (hid ⟨11, by decide⟩ h1)
    delta_sl [v603, H11_24, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off93 k (region3.sl.v583 d L k g6)) (k3_off94 (region3.sl.v583 d L k g6)) ![352] ![368] _ _ _ _ shapeCasts_S1x16_S16 k.val 11 (region3.sl.v583 d L k g6) _ hk (by decide) (hA0 _) (hA1 _) (hB _) rfl rfl h2 hw
  · rw [LaneSteps.nested16_at_12 _ hiota]
    refine congrArg₂ FloatOps.addf (LaneTrip.chunk_read (a10).view g10 (k3_off70 k) _ hoff _ ⟨12, hj⟩ h1) ?_
    have hA0 : ∀ w : BitVec 32, (k3_off95 k w) 0 = 16 * k.val + 12 := fun w => ChkLib.row_toNat k.val hk 12#32 (by decide)
    have hA1 : ∀ w : BitVec 32, (k3_off95 k w) 1 = ((w &&& 127#32) &&& 112#32).toNat := fun w => rfl
    have hB : ∀ w : BitVec 32, (k3_off96 w) 0 = 32 * 12 + (w.toNat % 16 + 16 - 12) % 16 :=
      fun w => IdBits.start_toNat 384#32 w 12#32 (by decide) (by decide)
    have hw : region3.sl.v612 d L k g6 = (a6).view.read (Elt F) g6 (ix1 ⟨128 * 2 + 16 * k.val + 12, h1⟩) := by
      delta_sl [v612, r]
      simp only [LanePayK3.k3_pay216_nf, LanePayK3.k3_pay157_nf, View.readAt_rect]
      exact (LaneLib.extract_lane (((a6).view.slice (Rect.unit (s := S512) (k3_off70 k) S16.size (k3_off70_inb k))).read (Elt F) g6) 12 (by decide) _ _).trans (hid ⟨12, by decide⟩ h1)
    delta_sl [v632, H11_26, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off95 k (region3.sl.v612 d L k g6)) (k3_off96 (region3.sl.v612 d L k g6)) ![384] ![400] _ _ _ _ shapeCasts_S1x16_S16 k.val 12 (region3.sl.v612 d L k g6) _ hk (by decide) (hA0 _) (hA1 _) (hB _) rfl rfl h2 hw
  · rw [LaneSteps.nested16_at_13 _ hiota]
    refine congrArg₂ FloatOps.addf (LaneTrip.chunk_read (a10).view g10 (k3_off70 k) _ hoff _ ⟨13, hj⟩ h1) ?_
    have hA0 : ∀ w : BitVec 32, (k3_off97 k w) 0 = 16 * k.val + 13 := fun w => ChkLib.row_toNat k.val hk 13#32 (by decide)
    have hA1 : ∀ w : BitVec 32, (k3_off97 k w) 1 = ((w &&& 127#32) &&& 112#32).toNat := fun w => rfl
    have hB : ∀ w : BitVec 32, (k3_off98 w) 0 = 32 * 13 + (w.toNat % 16 + 16 - 13) % 16 :=
      fun w => IdBits.start_toNat 416#32 w 13#32 (by decide) (by decide)
    have hw : region3.sl.v641 d L k g6 = (a6).view.read (Elt F) g6 (ix1 ⟨128 * 2 + 16 * k.val + 13, h1⟩) := by
      delta_sl [v641, r]
      simp only [LanePayK3.k3_pay221_nf, LanePayK3.k3_pay157_nf, View.readAt_rect]
      exact (LaneLib.extract_lane (((a6).view.slice (Rect.unit (s := S512) (k3_off70 k) S16.size (k3_off70_inb k))).read (Elt F) g6) 13 (by decide) _ _).trans (hid ⟨13, by decide⟩ h1)
    delta_sl [v661, H11_28, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off97 k (region3.sl.v641 d L k g6)) (k3_off98 (region3.sl.v641 d L k g6)) ![416] ![432] _ _ _ _ shapeCasts_S1x16_S16 k.val 13 (region3.sl.v641 d L k g6) _ hk (by decide) (hA0 _) (hA1 _) (hB _) rfl rfl h2 hw
  · rw [LaneSteps.nested16_at_14 _ hiota]
    refine congrArg₂ FloatOps.addf (LaneTrip.chunk_read (a10).view g10 (k3_off70 k) _ hoff _ ⟨14, hj⟩ h1) ?_
    have hA0 : ∀ w : BitVec 32, (k3_off99 k w) 0 = 16 * k.val + 14 := fun w => ChkLib.row_toNat k.val hk 14#32 (by decide)
    have hA1 : ∀ w : BitVec 32, (k3_off99 k w) 1 = ((w &&& 127#32) &&& 112#32).toNat := fun w => rfl
    have hB : ∀ w : BitVec 32, (k3_off100 w) 0 = 32 * 14 + (w.toNat % 16 + 16 - 14) % 16 :=
      fun w => IdBits.start_toNat 448#32 w 14#32 (by decide) (by decide)
    have hw : region3.sl.v670 d L k g6 = (a6).view.read (Elt F) g6 (ix1 ⟨128 * 2 + 16 * k.val + 14, h1⟩) := by
      delta_sl [v670, r]
      simp only [LanePayK3.k3_pay226_nf, LanePayK3.k3_pay157_nf, View.readAt_rect]
      exact (LaneLib.extract_lane (((a6).view.slice (Rect.unit (s := S512) (k3_off70 k) S16.size (k3_off70_inb k))).read (Elt F) g6) 14 (by decide) _ _).trans (hid ⟨14, by decide⟩ h1)
    delta_sl [v690, H11_30, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off99 k (region3.sl.v670 d L k g6)) (k3_off100 (region3.sl.v670 d L k g6)) ![448] ![464] _ _ _ _ shapeCasts_S1x16_S16 k.val 14 (region3.sl.v670 d L k g6) _ hk (by decide) (hA0 _) (hA1 _) (hB _) rfl rfl h2 hw
  · rw [LaneSteps.nested16_at_15 _ hiota]
    refine congrArg₂ FloatOps.addf (LaneTrip.chunk_read (a10).view g10 (k3_off70 k) _ hoff _ ⟨15, hj⟩ h1) ?_
    have hA0 : ∀ w : BitVec 32, (k3_off101 k w) 0 = 16 * k.val + 15 := fun w => ChkLib.row_toNat k.val hk 15#32 (by decide)
    have hA1 : ∀ w : BitVec 32, (k3_off101 k w) 1 = ((w &&& 127#32) &&& 112#32).toNat := fun w => rfl
    have hB : ∀ w : BitVec 32, (k3_off102 w) 0 = 32 * 15 + (w.toNat % 16 + 16 - 15) % 16 :=
      fun w => IdBits.start_toNat 480#32 w 15#32 (by decide) (by decide)
    have hw : region3.sl.v699 d L k g6 = (a6).view.read (Elt F) g6 (ix1 ⟨128 * 2 + 16 * k.val + 15, h1⟩) := by
      delta_sl [v699, r]
      simp only [LanePayK3.k3_pay230_nf, LanePayK3.k3_pay157_nf, View.readAt_rect]
      exact (LaneLib.extract_lane (((a6).view.slice (Rect.unit (s := S512) (k3_off70 k) S16.size (k3_off70_inb k))).read (Elt F) g6) 15 (by decide) _ _).trans (hid ⟨15, by decide⟩ h1)
    delta_sl [v719, H11_32, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off101 k (region3.sl.v699 d L k g6)) (k3_off102 (region3.sl.v699 d L k g6)) ![480] ![496] _ _ _ _ shapeCasts_S1x16_S16 k.val 15 (region3.sl.v699 d L k g6) _ hk (by decide) (hA0 _) (hA1 _) (hB _) rfl rfl h2 hw

set_option maxHeartbeats 4000000 in
/-- Trip `k` of chunk 3's loop: the ids, the base values and the gathered rows are read only; the trip stores its sixteen
    results, each the base value plus the gathered row's entry at the id's lane. -/
theorem region4 (hchk : ChkAll) (k : Fin k3_t4_loop.trips) (acc : BitVec 32)
    (g6 : Buf (Elt F) ((a6).view.loc (V d (cV L) (jV L)))) (g10 : Buf (Elt F) ((a10).view.loc (V d (cV L) (jV L)))) (gB : Buf (Elt F) ((a9).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a9).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k3_t4_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a9).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k3_off137 k) S16.size (k3_off137_inb k), v⟩])
                ∗ ⌜LaneOK 3 k.val ((a6).view.read (Elt F) g6) ((a10).view.read (Elt F) g10) ((a9).view.read (Elt F) gB) v⌝) := by
  iintro ⟨H6, H10, HB, H11, H12⟩
  sl_exec (disch := first | sl_exact (hchk.h49 _ _) | sl_exact (hchk.h50 _ _) | sl_exact (hchk.h51 _ _) | sl_exact (hchk.h52 _ _) | sl_exact (hchk.h53 _ _) | sl_exact (hchk.h54 _ _) | sl_exact (hchk.h55 _ _) | sl_exact (hchk.h56 _ _) | sl_exact (hchk.h57 _ _) | sl_exact (hchk.h58 _ _) | sl_exact (hchk.h59 _ _) | sl_exact (hchk.h60 _ _) | sl_exact (hchk.h61 _ _) | sl_exact (hchk.h62 _ _) | sl_exact (hchk.h63 _ _) | sl_exact (hchk.h64 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k3_t4_abs.2.1
  have hoff : (k3_off104 k) 0 = 128 * 3 + 16 * k.val := by
    rw [k3_off104_eq]
    show 16 * k.val + 384 = 128 * 3 + 16 * k.val
    omega
  have hid : ∀ (j : Fin 16) (h : 128 * 3 + 16 * k.val + j.val < 512),
      (((a6).view.slice (Rect.unit (s := S512) (k3_off104 k) S16.size (k3_off104_inb k))).read (Elt F) g6) (ix1 j) = (a6).view.read (Elt F) g6 (ix1 ⟨128 * 3 + 16 * k.val + j.val, h⟩) :=
    fun j h => LaneTrip.chunk_read (a6).view g6 (k3_off104 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
  obtain ⟨j, hj⟩ := l
  interval_cases j
  · rw [LaneSteps.nested16_at_0 _ hiota]
    refine congrArg₂ FloatOps.addf (LaneTrip.chunk_read (a10).view g10 (k3_off104 k) _ hoff _ ⟨0, hj⟩ h1) ?_
    have hA0 : ∀ w : BitVec 32, (k3_off105 k w) 0 = 16 * k.val + 0 := fun w => ChkLib.row_toNat k.val hk 0#32 (by decide)
    have hA1 : ∀ w : BitVec 32, (k3_off105 k w) 1 = ((w &&& 127#32) &&& 112#32).toNat := fun w => rfl
    have hB : ∀ w : BitVec 32, (k3_off106 w) 0 = 32 * 0 + (w.toNat % 16 + 16 - 0) % 16 :=
      fun w => IdBits.start_toNat 0#32 w 0#32 (by decide) (by decide)
    have hw : region4.sl.v264 d L k g6 = (a6).view.read (Elt F) g6 (ix1 ⟨128 * 3 + 16 * k.val + 0, h1⟩) := by
      delta_sl [v264]
      simp only [LanePayK3.k3_pay236_nf, LanePayK3.k3_pay235_nf, View.readAt_rect]
      exact (LaneLib.extract_lane (((a6).view.slice (Rect.unit (s := S512) (k3_off104 k) S16.size (k3_off104_inb k))).read (Elt F) g6) 0 (by decide) _ _).trans (hid ⟨0, by decide⟩ h1)
    delta_sl [v284, H11_2, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off105 k (region4.sl.v264 d L k g6)) (k3_off106 (region4.sl.v264 d L k g6)) ![0] ![16] _ _ _ _ shapeCasts_S1x16_S16 k.val 0 (region4.sl.v264 d L k g6) _ hk (by decide) (hA0 _) (hA1 _) (hB _) rfl rfl h2 hw
  · rw [LaneSteps.nested16_at_1 _ hiota]
    refine congrArg₂ FloatOps.addf (LaneTrip.chunk_read (a10).view g10 (k3_off104 k) _ hoff _ ⟨1, hj⟩ h1) ?_
    have hA0 : ∀ w : BitVec 32, (k3_off107 k w) 0 = 16 * k.val + 1 := fun w => ChkLib.row_toNat k.val hk 1#32 (by decide)
    have hA1 : ∀ w : BitVec 32, (k3_off107 k w) 1 = ((w &&& 127#32) &&& 112#32).toNat := fun w => rfl
    have hB : ∀ w : BitVec 32, (k3_off108 w) 0 = 32 * 1 + (w.toNat % 16 + 16 - 1) % 16 :=
      fun w => IdBits.start_toNat 32#32 w 1#32 (by decide) (by decide)
    have hw : region4.sl.v293 d L k g6 = (a6).view.read (Elt F) g6 (ix1 ⟨128 * 3 + 16 * k.val + 1, h1⟩) := by
      delta_sl [v293, r]
      simp only [LanePayK3.k3_pay241_nf, LanePayK3.k3_pay235_nf, View.readAt_rect]
      exact (LaneLib.extract_lane (((a6).view.slice (Rect.unit (s := S512) (k3_off104 k) S16.size (k3_off104_inb k))).read (Elt F) g6) 1 (by decide) _ _).trans (hid ⟨1, by decide⟩ h1)
    delta_sl [v313, H11_4, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off107 k (region4.sl.v293 d L k g6)) (k3_off108 (region4.sl.v293 d L k g6)) ![32] ![48] _ _ _ _ shapeCasts_S1x16_S16 k.val 1 (region4.sl.v293 d L k g6) _ hk (by decide) (hA0 _) (hA1 _) (hB _) rfl rfl h2 hw
  · rw [LaneSteps.nested16_at_2 _ hiota]
    refine congrArg₂ FloatOps.addf (LaneTrip.chunk_read (a10).view g10 (k3_off104 k) _ hoff _ ⟨2, hj⟩ h1) ?_
    have hA0 : ∀ w : BitVec 32, (k3_off109 k w) 0 = 16 * k.val + 2 := fun w => ChkLib.row_toNat k.val hk 2#32 (by decide)
    have hA1 : ∀ w : BitVec 32, (k3_off109 k w) 1 = ((w &&& 127#32) &&& 112#32).toNat := fun w => rfl
    have hB : ∀ w : BitVec 32, (k3_off110 w) 0 = 32 * 2 + (w.toNat % 16 + 16 - 2) % 16 :=
      fun w => IdBits.start_toNat 64#32 w 2#32 (by decide) (by decide)
    have hw : region4.sl.v322 d L k g6 = (a6).view.read (Elt F) g6 (ix1 ⟨128 * 3 + 16 * k.val + 2, h1⟩) := by
      delta_sl [v322, r]
      simp only [LanePayK3.k3_pay246_nf, LanePayK3.k3_pay235_nf, View.readAt_rect]
      exact (LaneLib.extract_lane (((a6).view.slice (Rect.unit (s := S512) (k3_off104 k) S16.size (k3_off104_inb k))).read (Elt F) g6) 2 (by decide) _ _).trans (hid ⟨2, by decide⟩ h1)
    delta_sl [v342, H11_6, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off109 k (region4.sl.v322 d L k g6)) (k3_off110 (region4.sl.v322 d L k g6)) ![64] ![80] _ _ _ _ shapeCasts_S1x16_S16 k.val 2 (region4.sl.v322 d L k g6) _ hk (by decide) (hA0 _) (hA1 _) (hB _) rfl rfl h2 hw
  · rw [LaneSteps.nested16_at_3 _ hiota]
    refine congrArg₂ FloatOps.addf (LaneTrip.chunk_read (a10).view g10 (k3_off104 k) _ hoff _ ⟨3, hj⟩ h1) ?_
    have hA0 : ∀ w : BitVec 32, (k3_off111 k w) 0 = 16 * k.val + 3 := fun w => ChkLib.row_toNat k.val hk 3#32 (by decide)
    have hA1 : ∀ w : BitVec 32, (k3_off111 k w) 1 = ((w &&& 127#32) &&& 112#32).toNat := fun w => rfl
    have hB : ∀ w : BitVec 32, (k3_off112 w) 0 = 32 * 3 + (w.toNat % 16 + 16 - 3) % 16 :=
      fun w => IdBits.start_toNat 96#32 w 3#32 (by decide) (by decide)
    have hw : region4.sl.v351 d L k g6 = (a6).view.read (Elt F) g6 (ix1 ⟨128 * 3 + 16 * k.val + 3, h1⟩) := by
      delta_sl [v351, r]
      simp only [LanePayK3.k3_pay251_nf, LanePayK3.k3_pay235_nf, View.readAt_rect]
      exact (LaneLib.extract_lane (((a6).view.slice (Rect.unit (s := S512) (k3_off104 k) S16.size (k3_off104_inb k))).read (Elt F) g6) 3 (by decide) _ _).trans (hid ⟨3, by decide⟩ h1)
    delta_sl [v371, H11_8, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off111 k (region4.sl.v351 d L k g6)) (k3_off112 (region4.sl.v351 d L k g6)) ![96] ![112] _ _ _ _ shapeCasts_S1x16_S16 k.val 3 (region4.sl.v351 d L k g6) _ hk (by decide) (hA0 _) (hA1 _) (hB _) rfl rfl h2 hw
  · rw [LaneSteps.nested16_at_4 _ hiota]
    refine congrArg₂ FloatOps.addf (LaneTrip.chunk_read (a10).view g10 (k3_off104 k) _ hoff _ ⟨4, hj⟩ h1) ?_
    have hA0 : ∀ w : BitVec 32, (k3_off113 k w) 0 = 16 * k.val + 4 := fun w => ChkLib.row_toNat k.val hk 4#32 (by decide)
    have hA1 : ∀ w : BitVec 32, (k3_off113 k w) 1 = ((w &&& 127#32) &&& 112#32).toNat := fun w => rfl
    have hB : ∀ w : BitVec 32, (k3_off114 w) 0 = 32 * 4 + (w.toNat % 16 + 16 - 4) % 16 :=
      fun w => IdBits.start_toNat 128#32 w 4#32 (by decide) (by decide)
    have hw : region4.sl.v380 d L k g6 = (a6).view.read (Elt F) g6 (ix1 ⟨128 * 3 + 16 * k.val + 4, h1⟩) := by
      delta_sl [v380, r]
      simp only [LanePayK3.k3_pay255_nf, LanePayK3.k3_pay235_nf, View.readAt_rect]
      exact (LaneLib.extract_lane (((a6).view.slice (Rect.unit (s := S512) (k3_off104 k) S16.size (k3_off104_inb k))).read (Elt F) g6) 4 (by decide) _ _).trans (hid ⟨4, by decide⟩ h1)
    delta_sl [v400, H11_10, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off113 k (region4.sl.v380 d L k g6)) (k3_off114 (region4.sl.v380 d L k g6)) ![128] ![144] _ _ _ _ shapeCasts_S1x16_S16 k.val 4 (region4.sl.v380 d L k g6) _ hk (by decide) (hA0 _) (hA1 _) (hB _) rfl rfl h2 hw
  · rw [LaneSteps.nested16_at_5 _ hiota]
    refine congrArg₂ FloatOps.addf (LaneTrip.chunk_read (a10).view g10 (k3_off104 k) _ hoff _ ⟨5, hj⟩ h1) ?_
    have hA0 : ∀ w : BitVec 32, (k3_off115 k w) 0 = 16 * k.val + 5 := fun w => ChkLib.row_toNat k.val hk 5#32 (by decide)
    have hA1 : ∀ w : BitVec 32, (k3_off115 k w) 1 = ((w &&& 127#32) &&& 112#32).toNat := fun w => rfl
    have hB : ∀ w : BitVec 32, (k3_off116 w) 0 = 32 * 5 + (w.toNat % 16 + 16 - 5) % 16 :=
      fun w => IdBits.start_toNat 160#32 w 5#32 (by decide) (by decide)
    have hw : region4.sl.v409 d L k g6 = (a6).view.read (Elt F) g6 (ix1 ⟨128 * 3 + 16 * k.val + 5, h1⟩) := by
      delta_sl [v409, r]
      simp only [LanePayK3.k3_pay260_nf, LanePayK3.k3_pay235_nf, View.readAt_rect]
      exact (LaneLib.extract_lane (((a6).view.slice (Rect.unit (s := S512) (k3_off104 k) S16.size (k3_off104_inb k))).read (Elt F) g6) 5 (by decide) _ _).trans (hid ⟨5, by decide⟩ h1)
    delta_sl [v429, H11_12, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off115 k (region4.sl.v409 d L k g6)) (k3_off116 (region4.sl.v409 d L k g6)) ![160] ![176] _ _ _ _ shapeCasts_S1x16_S16 k.val 5 (region4.sl.v409 d L k g6) _ hk (by decide) (hA0 _) (hA1 _) (hB _) rfl rfl h2 hw
  · rw [LaneSteps.nested16_at_6 _ hiota]
    refine congrArg₂ FloatOps.addf (LaneTrip.chunk_read (a10).view g10 (k3_off104 k) _ hoff _ ⟨6, hj⟩ h1) ?_
    have hA0 : ∀ w : BitVec 32, (k3_off117 k w) 0 = 16 * k.val + 6 := fun w => ChkLib.row_toNat k.val hk 6#32 (by decide)
    have hA1 : ∀ w : BitVec 32, (k3_off117 k w) 1 = ((w &&& 127#32) &&& 112#32).toNat := fun w => rfl
    have hB : ∀ w : BitVec 32, (k3_off118 w) 0 = 32 * 6 + (w.toNat % 16 + 16 - 6) % 16 :=
      fun w => IdBits.start_toNat 192#32 w 6#32 (by decide) (by decide)
    have hw : region4.sl.v438 d L k g6 = (a6).view.read (Elt F) g6 (ix1 ⟨128 * 3 + 16 * k.val + 6, h1⟩) := by
      delta_sl [v438, r]
      simp only [LanePayK3.k3_pay265_nf, LanePayK3.k3_pay235_nf, View.readAt_rect]
      exact (LaneLib.extract_lane (((a6).view.slice (Rect.unit (s := S512) (k3_off104 k) S16.size (k3_off104_inb k))).read (Elt F) g6) 6 (by decide) _ _).trans (hid ⟨6, by decide⟩ h1)
    delta_sl [v458, H11_14, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off117 k (region4.sl.v438 d L k g6)) (k3_off118 (region4.sl.v438 d L k g6)) ![192] ![208] _ _ _ _ shapeCasts_S1x16_S16 k.val 6 (region4.sl.v438 d L k g6) _ hk (by decide) (hA0 _) (hA1 _) (hB _) rfl rfl h2 hw
  · rw [LaneSteps.nested16_at_7 _ hiota]
    refine congrArg₂ FloatOps.addf (LaneTrip.chunk_read (a10).view g10 (k3_off104 k) _ hoff _ ⟨7, hj⟩ h1) ?_
    have hA0 : ∀ w : BitVec 32, (k3_off119 k w) 0 = 16 * k.val + 7 := fun w => ChkLib.row_toNat k.val hk 7#32 (by decide)
    have hA1 : ∀ w : BitVec 32, (k3_off119 k w) 1 = ((w &&& 127#32) &&& 112#32).toNat := fun w => rfl
    have hB : ∀ w : BitVec 32, (k3_off120 w) 0 = 32 * 7 + (w.toNat % 16 + 16 - 7) % 16 :=
      fun w => IdBits.start_toNat 224#32 w 7#32 (by decide) (by decide)
    have hw : region4.sl.v467 d L k g6 = (a6).view.read (Elt F) g6 (ix1 ⟨128 * 3 + 16 * k.val + 7, h1⟩) := by
      delta_sl [v467, r]
      simp only [LanePayK3.k3_pay270_nf, LanePayK3.k3_pay235_nf, View.readAt_rect]
      exact (LaneLib.extract_lane (((a6).view.slice (Rect.unit (s := S512) (k3_off104 k) S16.size (k3_off104_inb k))).read (Elt F) g6) 7 (by decide) _ _).trans (hid ⟨7, by decide⟩ h1)
    delta_sl [v487, H11_16, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off119 k (region4.sl.v467 d L k g6)) (k3_off120 (region4.sl.v467 d L k g6)) ![224] ![240] _ _ _ _ shapeCasts_S1x16_S16 k.val 7 (region4.sl.v467 d L k g6) _ hk (by decide) (hA0 _) (hA1 _) (hB _) rfl rfl h2 hw
  · rw [LaneSteps.nested16_at_8 _ hiota]
    refine congrArg₂ FloatOps.addf (LaneTrip.chunk_read (a10).view g10 (k3_off104 k) _ hoff _ ⟨8, hj⟩ h1) ?_
    have hA0 : ∀ w : BitVec 32, (k3_off121 k w) 0 = 16 * k.val + 8 := fun w => ChkLib.row_toNat k.val hk 8#32 (by decide)
    have hA1 : ∀ w : BitVec 32, (k3_off121 k w) 1 = ((w &&& 127#32) &&& 112#32).toNat := fun w => rfl
    have hB : ∀ w : BitVec 32, (k3_off122 w) 0 = 32 * 8 + (w.toNat % 16 + 16 - 8) % 16 :=
      fun w => IdBits.start_toNat 256#32 w 8#32 (by decide) (by decide)
    have hw : region4.sl.v496 d L k g6 = (a6).view.read (Elt F) g6 (ix1 ⟨128 * 3 + 16 * k.val + 8, h1⟩) := by
      delta_sl [v496, r]
      simp only [LanePayK3.k3_pay275_nf, LanePayK3.k3_pay235_nf, View.readAt_rect]
      exact (LaneLib.extract_lane (((a6).view.slice (Rect.unit (s := S512) (k3_off104 k) S16.size (k3_off104_inb k))).read (Elt F) g6) 8 (by decide) _ _).trans (hid ⟨8, by decide⟩ h1)
    delta_sl [v516, H11_18, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off121 k (region4.sl.v496 d L k g6)) (k3_off122 (region4.sl.v496 d L k g6)) ![256] ![272] _ _ _ _ shapeCasts_S1x16_S16 k.val 8 (region4.sl.v496 d L k g6) _ hk (by decide) (hA0 _) (hA1 _) (hB _) rfl rfl h2 hw
  · rw [LaneSteps.nested16_at_9 _ hiota]
    refine congrArg₂ FloatOps.addf (LaneTrip.chunk_read (a10).view g10 (k3_off104 k) _ hoff _ ⟨9, hj⟩ h1) ?_
    have hA0 : ∀ w : BitVec 32, (k3_off123 k w) 0 = 16 * k.val + 9 := fun w => ChkLib.row_toNat k.val hk 9#32 (by decide)
    have hA1 : ∀ w : BitVec 32, (k3_off123 k w) 1 = ((w &&& 127#32) &&& 112#32).toNat := fun w => rfl
    have hB : ∀ w : BitVec 32, (k3_off124 w) 0 = 32 * 9 + (w.toNat % 16 + 16 - 9) % 16 :=
      fun w => IdBits.start_toNat 288#32 w 9#32 (by decide) (by decide)
    have hw : region4.sl.v525 d L k g6 = (a6).view.read (Elt F) g6 (ix1 ⟨128 * 3 + 16 * k.val + 9, h1⟩) := by
      delta_sl [v525, r]
      simp only [LanePayK3.k3_pay280_nf, LanePayK3.k3_pay235_nf, View.readAt_rect]
      exact (LaneLib.extract_lane (((a6).view.slice (Rect.unit (s := S512) (k3_off104 k) S16.size (k3_off104_inb k))).read (Elt F) g6) 9 (by decide) _ _).trans (hid ⟨9, by decide⟩ h1)
    delta_sl [v545, H11_20, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off123 k (region4.sl.v525 d L k g6)) (k3_off124 (region4.sl.v525 d L k g6)) ![288] ![304] _ _ _ _ shapeCasts_S1x16_S16 k.val 9 (region4.sl.v525 d L k g6) _ hk (by decide) (hA0 _) (hA1 _) (hB _) rfl rfl h2 hw
  · rw [LaneSteps.nested16_at_10 _ hiota]
    refine congrArg₂ FloatOps.addf (LaneTrip.chunk_read (a10).view g10 (k3_off104 k) _ hoff _ ⟨10, hj⟩ h1) ?_
    have hA0 : ∀ w : BitVec 32, (k3_off125 k w) 0 = 16 * k.val + 10 := fun w => ChkLib.row_toNat k.val hk 10#32 (by decide)
    have hA1 : ∀ w : BitVec 32, (k3_off125 k w) 1 = ((w &&& 127#32) &&& 112#32).toNat := fun w => rfl
    have hB : ∀ w : BitVec 32, (k3_off126 w) 0 = 32 * 10 + (w.toNat % 16 + 16 - 10) % 16 :=
      fun w => IdBits.start_toNat 320#32 w 10#32 (by decide) (by decide)
    have hw : region4.sl.v554 d L k g6 = (a6).view.read (Elt F) g6 (ix1 ⟨128 * 3 + 16 * k.val + 10, h1⟩) := by
      delta_sl [v554, r]
      simp only [LanePayK3.k3_pay285_nf, LanePayK3.k3_pay235_nf, View.readAt_rect]
      exact (LaneLib.extract_lane (((a6).view.slice (Rect.unit (s := S512) (k3_off104 k) S16.size (k3_off104_inb k))).read (Elt F) g6) 10 (by decide) _ _).trans (hid ⟨10, by decide⟩ h1)
    delta_sl [v574, H11_22, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off125 k (region4.sl.v554 d L k g6)) (k3_off126 (region4.sl.v554 d L k g6)) ![320] ![336] _ _ _ _ shapeCasts_S1x16_S16 k.val 10 (region4.sl.v554 d L k g6) _ hk (by decide) (hA0 _) (hA1 _) (hB _) rfl rfl h2 hw
  · rw [LaneSteps.nested16_at_11 _ hiota]
    refine congrArg₂ FloatOps.addf (LaneTrip.chunk_read (a10).view g10 (k3_off104 k) _ hoff _ ⟨11, hj⟩ h1) ?_
    have hA0 : ∀ w : BitVec 32, (k3_off127 k w) 0 = 16 * k.val + 11 := fun w => ChkLib.row_toNat k.val hk 11#32 (by decide)
    have hA1 : ∀ w : BitVec 32, (k3_off127 k w) 1 = ((w &&& 127#32) &&& 112#32).toNat := fun w => rfl
    have hB : ∀ w : BitVec 32, (k3_off128 w) 0 = 32 * 11 + (w.toNat % 16 + 16 - 11) % 16 :=
      fun w => IdBits.start_toNat 352#32 w 11#32 (by decide) (by decide)
    have hw : region4.sl.v583 d L k g6 = (a6).view.read (Elt F) g6 (ix1 ⟨128 * 3 + 16 * k.val + 11, h1⟩) := by
      delta_sl [v583, r]
      simp only [LanePayK3.k3_pay289_nf, LanePayK3.k3_pay235_nf, View.readAt_rect]
      exact (LaneLib.extract_lane (((a6).view.slice (Rect.unit (s := S512) (k3_off104 k) S16.size (k3_off104_inb k))).read (Elt F) g6) 11 (by decide) _ _).trans (hid ⟨11, by decide⟩ h1)
    delta_sl [v603, H11_24, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off127 k (region4.sl.v583 d L k g6)) (k3_off128 (region4.sl.v583 d L k g6)) ![352] ![368] _ _ _ _ shapeCasts_S1x16_S16 k.val 11 (region4.sl.v583 d L k g6) _ hk (by decide) (hA0 _) (hA1 _) (hB _) rfl rfl h2 hw
  · rw [LaneSteps.nested16_at_12 _ hiota]
    refine congrArg₂ FloatOps.addf (LaneTrip.chunk_read (a10).view g10 (k3_off104 k) _ hoff _ ⟨12, hj⟩ h1) ?_
    have hA0 : ∀ w : BitVec 32, (k3_off129 k w) 0 = 16 * k.val + 12 := fun w => ChkLib.row_toNat k.val hk 12#32 (by decide)
    have hA1 : ∀ w : BitVec 32, (k3_off129 k w) 1 = ((w &&& 127#32) &&& 112#32).toNat := fun w => rfl
    have hB : ∀ w : BitVec 32, (k3_off130 w) 0 = 32 * 12 + (w.toNat % 16 + 16 - 12) % 16 :=
      fun w => IdBits.start_toNat 384#32 w 12#32 (by decide) (by decide)
    have hw : region4.sl.v612 d L k g6 = (a6).view.read (Elt F) g6 (ix1 ⟨128 * 3 + 16 * k.val + 12, h1⟩) := by
      delta_sl [v612, r]
      simp only [LanePayK3.k3_pay294_nf, LanePayK3.k3_pay235_nf, View.readAt_rect]
      exact (LaneLib.extract_lane (((a6).view.slice (Rect.unit (s := S512) (k3_off104 k) S16.size (k3_off104_inb k))).read (Elt F) g6) 12 (by decide) _ _).trans (hid ⟨12, by decide⟩ h1)
    delta_sl [v632, H11_26, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off129 k (region4.sl.v612 d L k g6)) (k3_off130 (region4.sl.v612 d L k g6)) ![384] ![400] _ _ _ _ shapeCasts_S1x16_S16 k.val 12 (region4.sl.v612 d L k g6) _ hk (by decide) (hA0 _) (hA1 _) (hB _) rfl rfl h2 hw
  · rw [LaneSteps.nested16_at_13 _ hiota]
    refine congrArg₂ FloatOps.addf (LaneTrip.chunk_read (a10).view g10 (k3_off104 k) _ hoff _ ⟨13, hj⟩ h1) ?_
    have hA0 : ∀ w : BitVec 32, (k3_off131 k w) 0 = 16 * k.val + 13 := fun w => ChkLib.row_toNat k.val hk 13#32 (by decide)
    have hA1 : ∀ w : BitVec 32, (k3_off131 k w) 1 = ((w &&& 127#32) &&& 112#32).toNat := fun w => rfl
    have hB : ∀ w : BitVec 32, (k3_off132 w) 0 = 32 * 13 + (w.toNat % 16 + 16 - 13) % 16 :=
      fun w => IdBits.start_toNat 416#32 w 13#32 (by decide) (by decide)
    have hw : region4.sl.v641 d L k g6 = (a6).view.read (Elt F) g6 (ix1 ⟨128 * 3 + 16 * k.val + 13, h1⟩) := by
      delta_sl [v641, r]
      simp only [LanePayK3.k3_pay299_nf, LanePayK3.k3_pay235_nf, View.readAt_rect]
      exact (LaneLib.extract_lane (((a6).view.slice (Rect.unit (s := S512) (k3_off104 k) S16.size (k3_off104_inb k))).read (Elt F) g6) 13 (by decide) _ _).trans (hid ⟨13, by decide⟩ h1)
    delta_sl [v661, H11_28, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off131 k (region4.sl.v641 d L k g6)) (k3_off132 (region4.sl.v641 d L k g6)) ![416] ![432] _ _ _ _ shapeCasts_S1x16_S16 k.val 13 (region4.sl.v641 d L k g6) _ hk (by decide) (hA0 _) (hA1 _) (hB _) rfl rfl h2 hw
  · rw [LaneSteps.nested16_at_14 _ hiota]
    refine congrArg₂ FloatOps.addf (LaneTrip.chunk_read (a10).view g10 (k3_off104 k) _ hoff _ ⟨14, hj⟩ h1) ?_
    have hA0 : ∀ w : BitVec 32, (k3_off133 k w) 0 = 16 * k.val + 14 := fun w => ChkLib.row_toNat k.val hk 14#32 (by decide)
    have hA1 : ∀ w : BitVec 32, (k3_off133 k w) 1 = ((w &&& 127#32) &&& 112#32).toNat := fun w => rfl
    have hB : ∀ w : BitVec 32, (k3_off134 w) 0 = 32 * 14 + (w.toNat % 16 + 16 - 14) % 16 :=
      fun w => IdBits.start_toNat 448#32 w 14#32 (by decide) (by decide)
    have hw : region4.sl.v670 d L k g6 = (a6).view.read (Elt F) g6 (ix1 ⟨128 * 3 + 16 * k.val + 14, h1⟩) := by
      delta_sl [v670, r]
      simp only [LanePayK3.k3_pay304_nf, LanePayK3.k3_pay235_nf, View.readAt_rect]
      exact (LaneLib.extract_lane (((a6).view.slice (Rect.unit (s := S512) (k3_off104 k) S16.size (k3_off104_inb k))).read (Elt F) g6) 14 (by decide) _ _).trans (hid ⟨14, by decide⟩ h1)
    delta_sl [v690, H11_30, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off133 k (region4.sl.v670 d L k g6)) (k3_off134 (region4.sl.v670 d L k g6)) ![448] ![464] _ _ _ _ shapeCasts_S1x16_S16 k.val 14 (region4.sl.v670 d L k g6) _ hk (by decide) (hA0 _) (hA1 _) (hB _) rfl rfl h2 hw
  · rw [LaneSteps.nested16_at_15 _ hiota]
    refine congrArg₂ FloatOps.addf (LaneTrip.chunk_read (a10).view g10 (k3_off104 k) _ hoff _ ⟨15, hj⟩ h1) ?_
    have hA0 : ∀ w : BitVec 32, (k3_off135 k w) 0 = 16 * k.val + 15 := fun w => ChkLib.row_toNat k.val hk 15#32 (by decide)
    have hA1 : ∀ w : BitVec 32, (k3_off135 k w) 1 = ((w &&& 127#32) &&& 112#32).toNat := fun w => rfl
    have hB : ∀ w : BitVec 32, (k3_off136 w) 0 = 32 * 15 + (w.toNat % 16 + 16 - 15) % 16 :=
      fun w => IdBits.start_toNat 480#32 w 15#32 (by decide) (by decide)
    have hw : region4.sl.v699 d L k g6 = (a6).view.read (Elt F) g6 (ix1 ⟨128 * 3 + 16 * k.val + 15, h1⟩) := by
      delta_sl [v699, r]
      simp only [LanePayK3.k3_pay308_nf, LanePayK3.k3_pay235_nf, View.readAt_rect]
      exact (LaneLib.extract_lane (((a6).view.slice (Rect.unit (s := S512) (k3_off104 k) S16.size (k3_off104_inb k))).read (Elt F) g6) 15 (by decide) _ _).trans (hid ⟨15, by decide⟩ h1)
    delta_sl [v719, H11_32, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off135 k (region4.sl.v699 d L k g6)) (k3_off136 (region4.sl.v699 d L k g6)) ![480] ![496] _ _ _ _ shapeCasts_S1x16_S16 k.val 15 (region4.sl.v699 d L k g6) _ hk (by decide) (hA0 _) (hA1 _) (hB _) rfl rfl h2 hw

end Cert.KernelIdeal.TileK3

end
-- ==== Proof.KernelIdeal.TileK3V.lean ====
/-
  One vector subcore's task of the second gather kernel with its value: as the frame, and moreover the tile's 512 output
  entries end at the base value plus the table entry the id selects. The value is carried in the loops' invariants:
  before trip g of chunk c the output buffer is right below entry 128 c + 16 g; a trip's sixteen results are right by
  the trip theorem, the gathered buffer's row r being the table's row (id at 128 c + r) / 128 and the id's lane being
  id mod 128; the copy-out moves the 512 entries to the tile's rows of the output.
-/
import proofs.«204913_g64682207478566_cont_9to1c4b_713_31_alg».proof.Proof.KernelIdeal.TileK3
import proofs.«204913_g64682207478566_cont_9to1c4b_713_31_alg».proof.Proof.KernelIdeal.RegionK3
import proofs.«204913_g64682207478566_cont_9to1c4b_713_31_alg».proof.Proof.Vals
import proofs.«204913_g64682207478566_cont_9to1c4b_713_31_alg».proof.Proof.GatherVal
import proofs.«204913_g64682207478566_cont_9to1c4b_713_31_alg».proof.Proof.TileValLib
import proofs.«204913_g64682207478566_cont_9to1c4b_713_31_alg».proof.Proof.TileLink
import proofs.«204913_g64682207478566_cont_9to1c4b_713_31_alg».proof.Proof.Gen.KernelIdeal.Skeleton
import proofs.«204913_g64682207478566_cont_9to1c4b_713_31_alg».proof.Proof.ChkLib
import Idealize.ShloMosaic.Lib.Pipeline.Value
import Idealize.ShloMosaic.Lib.ValueIdx

noncomputable section

namespace Cert.KernelIdeal.TileK3

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "iV" => (Memref.whole Cert.KernelIdeal.main_arg1_scv : Memref Cert.KernelIdeal.sig Kind.scVector Space.hbm Cert.KernelIdeal.S16384 EltTy.i32)
local notation "tV" => (Memref.whole Cert.KernelIdeal.main_v11_scv : Memref Cert.KernelIdeal.sig Kind.scVector Space.hbm Cert.KernelIdeal.S784x128 EltTy.f32)
local notation "bV" => (Memref.whole Cert.KernelIdeal.main_v8_scv : Memref Cert.KernelIdeal.sig Kind.scVector Space.hbm Cert.KernelIdeal.S16384 EltTy.f32)
local notation "oV" => (Memref.whole Cert.KernelIdeal.main_v12_scv : Memref Cert.KernelIdeal.sig Kind.scVector Space.hbm Cert.KernelIdeal.S16384 EltTy.f32)
local notation "a6" => (Memref.whole Cert.KernelIdeal.cc3_scratch0 : Memref Cert.KernelIdeal.sig Kind.scVector Space.vmem Cert.KernelIdeal.S512 EltTy.i32)
local notation "a7" => (Memref.whole Cert.KernelIdeal.cc3_scratch1 : Memref Cert.KernelIdeal.sig Kind.scVector Space.vmem Cert.KernelIdeal.S512 EltTy.i32)
local notation "a8" => (Memref.whole Cert.KernelIdeal.cc3_scratch2 : Memref Cert.KernelIdeal.sig Kind.scVector Space.vmem Cert.KernelIdeal.S128x128 EltTy.f32)
local notation "a9" => (Memref.whole Cert.KernelIdeal.cc3_scratch3 : Memref Cert.KernelIdeal.sig Kind.scVector Space.vmem Cert.KernelIdeal.S128x128 EltTy.f32)
local notation "a10" => (Memref.whole Cert.KernelIdeal.cc3_scratch4 : Memref Cert.KernelIdeal.sig Kind.scVector Space.vmem Cert.KernelIdeal.S512 EltTy.f32)
local notation "a11" => (Memref.whole Cert.KernelIdeal.cc3_scratch5 : Memref Cert.KernelIdeal.sig Kind.scVector Space.vmem Cert.KernelIdeal.S512 EltTy.f32)
local notation "a12" => (Memref.whole Cert.KernelIdeal.cc3_scratch6 : Memref Cert.KernelIdeal.sig Kind.scVector Space.vmem Cert.KernelIdeal.S512 EltTy.f32)

variable [FloatOps F]
variable (d : Dev nD) (L : grid3.Coords)

/-- The value a tile leaves at its entry `r`: the base value there plus the table's entry at the row and lane the id selects. -/
def VAL (L : grid3.Coords) (ids : IVec S16384 32) (bs : FVec F S16384 .f32) (tbl : FVec F S784x128 .f32) (r : Fin 512) : F .f32 :=
  FloatOps.addf (bs (Vals.bidx L r)) (tbl (ix2 (Vals.trow 784 (by decide) (ids (Vals.bidx L r))) (Vals.tlane (ids (Vals.bidx L r)))))

/-- A chunk's loop over buffer A before trip `g`: the ids, the base values and the gathered rows as they stand, the rotate
    buffer at some contents, and the output buffer correct below entry `128 c + 16 g`. -/
def invVA (d : Dev nD) (L : grid3.Coords) (F6 : Buf (Elt F) ((a6).view.loc (V d (cV L) (jV L)))) (F10 : Buf (Elt F) ((a10).view.loc (V d (cV L) (jV L))))
    (FB : Buf (Elt F) ((a8).view.loc (V d (cV L) (jV L)))) (c : Nat) (val : Fin 512 → F .f32) (g : Nat) (_ : BitVec 32) : sProp 𝕄 :=
  iprop(((a6).view.loc (V d (cV L) (jV L)) ↦{fullShare} F6) ∗ ((a10).view.loc (V d (cV L) (jV L)) ↦{fullShare} F10) ∗ ((a8).view.loc (V d (cV L) (jV L)) ↦{fullShare} FB)
    ∗ (∃ f, (a11).view.loc (V d (cV L) (jV L)) ↦{fullShare} f)
    ∗ ∃ fo, ((a12).view.loc (V d (cV L) (jV L)) ↦{fullShare} fo) ∗ ⌜∀ r : Fin 512, r.val < 128 * c + 16 * g → (a12).view.read (Elt F) fo (ix1 r) = val r⌝)
/-- The same over buffer B. -/
def invVB (d : Dev nD) (L : grid3.Coords) (F6 : Buf (Elt F) ((a6).view.loc (V d (cV L) (jV L)))) (F10 : Buf (Elt F) ((a10).view.loc (V d (cV L) (jV L))))
    (FB : Buf (Elt F) ((a9).view.loc (V d (cV L) (jV L)))) (c : Nat) (val : Fin 512 → F .f32) (g : Nat) (_ : BitVec 32) : sProp 𝕄 :=
  iprop(((a6).view.loc (V d (cV L) (jV L)) ↦{fullShare} F6) ∗ ((a10).view.loc (V d (cV L) (jV L)) ↦{fullShare} F10) ∗ ((a9).view.loc (V d (cV L) (jV L)) ↦{fullShare} FB)
    ∗ (∃ f, (a11).view.loc (V d (cV L) (jV L)) ↦{fullShare} f)
    ∗ ∃ fo, ((a12).view.loc (V d (cV L) (jV L)) ↦{fullShare} fo) ∗ ⌜∀ r : Fin 512, r.val < 128 * c + 16 * g → (a12).view.read (Elt F) fo (ix1 r) = val r⌝)
set_option maxHeartbeats 4000000 in
theorem tile_body (qi qt qb : PosShare TreeShare)
    (ids : Buf (Elt F) (iLoc d)) (tbl : Buf (Elt F) (tLoc d)) (bs : Buf (Elt F) (bLoc d)) (o0 : Buf (Elt F) (oLoc d))
    (hin : ∀ j, (ids j).toNat ≤ 99999) (hchk : ChkAll) (hF : (K (F := F)).Facts)
    (O : CellTallies nD τ sig (HIx 2)) (W : Waits sig (HIx 2)) (hO : ∀ g, O g none = 0) :
    iprop(levAts (K (F := F)).L (K (F := F)).lev ∗ emp ∗ (((iLoc d ↦{qi} ids : sProp 𝕄)) ∗ (tLoc d ↦{qt} tbl) ∗ (bLoc d ↦{qb} bs) ∗ (oLoc d ↦[oRowSet L]{fullShare} o0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__sc_gather_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2)
          fun _ => iprop(((iLoc d ↦{qi} ids) ∗ (tLoc d ↦{qt} tbl) ∗ (bLoc d ↦{qb} bs)
              ∗ ∃ f : Buf (Elt F) (oLoc d), (oLoc d ↦[oRowSet L]{fullShare} f) ∗ ⌜Vals.TileVal (R := 784) (by decide) L ids bs tbl f⌝)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_gather_body_eq_skeleton]; unfold cc3__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Hb, Ho⟩, ⟨⟨%f6, H6⟩, ⟨%f7, H7⟩, ⟨%f8, H8⟩, ⟨%f9, H9⟩, ⟨%f10, H10⟩, ⟨%f11, H11⟩, ⟨%f12, H12⟩, Hbufs⟩, ⟨Hs13, Hs14, Hr0, Hr1, Hr2, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Hb' := (Entails.of_eq (pts_bV (F := F) d L _ _).symm) $$ Hb
  ihave Ho' := (Entails.of_eq (pts_oRowK (F := F) d L _).symm) $$ Ho
  ihave H6' := (Entails.of_eq (show ((V d (cV L) (jV L)).loc cc3_scratch0 ↦{fullShare} f6 : sProp 𝕄) = ((a6).view.loc (V d (cV L) (jV L)) ↦{fullShare} f6) from rfl)) $$ H6
  ihave H7' := (Entails.of_eq (show ((V d (cV L) (jV L)).loc cc3_scratch1 ↦{fullShare} f7 : sProp 𝕄) = ((a7).view.loc (V d (cV L) (jV L)) ↦{fullShare} f7) from rfl)) $$ H7
  ihave H8' := (Entails.of_eq (show ((V d (cV L) (jV L)).loc cc3_scratch2 ↦{fullShare} f8 : sProp 𝕄) = ((a8).view.loc (V d (cV L) (jV L)) ↦{fullShare} f8) from rfl)) $$ H8
  ihave H9' := (Entails.of_eq (show ((V d (cV L) (jV L)).loc cc3_scratch3 ↦{fullShare} f9 : sProp 𝕄) = ((a9).view.loc (V d (cV L) (jV L)) ↦{fullShare} f9) from rfl)) $$ H9
  ihave H10' := (Entails.of_eq (show ((V d (cV L) (jV L)).loc cc3_scratch4 ↦{fullShare} f10 : sProp 𝕄) = ((a10).view.loc (V d (cV L) (jV L)) ↦{fullShare} f10) from rfl)) $$ H10
  ihave H11' := (Entails.of_eq (show ((V d (cV L) (jV L)).loc cc3_scratch5 ↦{fullShare} f11 : sProp 𝕄) = ((a11).view.loc (V d (cV L) (jV L)) ↦{fullShare} f11) from rfl)) $$ H11
  ihave H12' := (Entails.of_eq (show ((V d (cV L) (jV L)).loc cc3_scratch6 ↦{fullShare} f12 : sProp 𝕄) = ((a12).view.loc (V d (cV L) (jV L)) ↦{fullShare} f12) from rfl)) $$ H12
  sl_exec
  -- what the prologue left in the row list: at every position the id there, shifted right by 7
  have hdma : ∀ y, (tile_body.sl.dma0 d L ids y).toNat ≤ 99999 := fun y => by
    unfold tile_body.sl.dma0
    rw [ReadAs.apply_same, View.read_apply]
    exact hin _
  have hrow : ∀ y : S512.Idx, (a7).view.read (Elt F) ((a7).view.writes (Elt F) (a7).view.junk (tile_body.sl.H7'_32 d L ids f6)) y
      = IntOp.shrui .vector (tile_body.sl.dma0 d L ids y) 7#32 := by
    intro y
    refine View.read_writes_apply_of_pieces (Val := Elt F) (a7).view _ (fun y => (IntOp.shrui .vector (tile_body.sl.dma0 d L ids y) 7#32 : Elt F .i32)) _ ?_ y ?_
    · unfold tile_body.sl.H7'_32
      simp only [List.forall_mem_cons, List.not_mem_nil, false_imp_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals (intro x; delta_run; simp only [k3_pay347, shapeCast_self, View.write_whole_univ, View.readAt_apply, View.read_whole, shrui, broadcast]; try rfl)
    · unfold tile_body.sl.H7'_32
      exact View.cover_of_tiled _ ![16] rfl y
  have hset8 : (a8).view.set = Finset.univ := View.set_whole _
  have hset9 : (a9).view.set = Finset.univ := View.set_whole _
  have hinK : ∀ (off : Fin 1 → Nat) (inb : ∀ a, off a + S128.size a ≤ S512.size a) (h1 : ∀ a, (Rect.unit (s := S512) off S128.size inb).stride a = 1) x,
      (((a7).slice (Rect.unit (s := S512) off S128.size inb) h1).view.read (Elt F) ((a7).view.writes (Elt F) (a7).view.junk (tile_body.sl.H7'_32 d L ids f6)) x).toNat < S784x128.size gathers_S784x128_S128x128.axis := by
    intro off inb h1 x
    have e : ((a7).slice (Rect.unit (s := S512) off S128.size inb) h1).view.read (Elt F) ((a7).view.writes (Elt F) (a7).view.junk (tile_body.sl.H7'_32 d L ids f6)) x
        = (a7).view.read (Elt F) ((a7).view.writes (Elt F) (a7).view.junk (tile_body.sl.H7'_32 d L ids f6)) ((Rect.unit (s := S512) off S128.size inb).toLoadRect.idx x) := rfl
    rw [e, hrow]
    exact Cert.Proof.ChkLib.shrui_7_lt_of_le_99999 _ (hdma _)
  -- the table's share and the row list's, halved: one half per semaphore
  ihave Hts := (pointsTo_share (PosShare.mem_left_op_right qt)).1 $$ Ht'
  icases Hts with ⟨HtL, HtR⟩
  ihave H7s := (pointsTo_share (PosShare.mem_left_op_right fullShare)).1 $$ H7'
  icases H7s with ⟨H7L, H7R⟩
  sl_exec
  -- the ids and the base values as the tile holds them
  have hi6 : ∀ r : Fin 512, (a6).view.read (Elt F) (View.write (Elt F) (a6).view f6 (tile_body.sl.dma0 d L ids) Finset.univ) (ix1 r) = ids (Vals.bidx L r) :=
    fun r => TileLink.ids_read3 L _ f6 ids r
  have hb10 : ∀ r : Fin 512, (a10).view.read (Elt F) (View.write (Elt F) (a10).view f10 (tile_body.sl.dma0_1 d L bs) Finset.univ) (ix1 r) = bs (Vals.bidx L r) :=
    fun r => TileLink.base_read3 L _ f10 bs r
  have h6eq : (a6).view.read (Elt F) (View.write (Elt F) (a6).view f6 (tile_body.sl.dma0 d L ids) Finset.univ) = tile_body.sl.dma0 d L ids := by
    simp only [Memref.view_whole, View.write_whole_univ, View.read_whole]
  have hrow' : ∀ y : S512.Idx, (a7).view.read (Elt F) ((a7).view.writes (Elt F) (a7).view.junk (tile_body.sl.H7'_32 d L ids f6)) y = IntOp.shrui .vector ((a6).view.read (Elt F) (View.write (Elt F) (a6).view f6 (tile_body.sl.dma0 d L ids) Finset.univ) y) 7#32 := by
    intro y; rw [h6eq]; exact hrow y
  have hlt' : ∀ y : S512.Idx, ((a6).view.read (Elt F) (View.write (Elt F) (a6).view f6 (tile_body.sl.dma0 d L ids) Finset.univ) y).toNat ≤ 99999 := by
    intro y; rw [h6eq]; exact hdma y
  -- chunk 0: what its buffer holds, then its loop
  have hrB1 : ∀ (i j : Fin 128) (h : 128 * 0 + i.val < 512), (a8).view.read (Elt F) ((a8).view.writes (Elt F) (a8).view.junk [⟨Rect.whole _, tile_body.sl.gather0 d L ids tbl f6 hinK⟩]) (ix2 i j)
      = tbl (ix2 (Vals.trow 784 (by decide) ((a6).view.read (Elt F) (View.write (Elt F) (a6).view f6 (tile_body.sl.dma0 d L ids) Finset.univ) (ix1 ⟨128 * 0 + i.val, h⟩))) j) :=
    fun i j h => TileLink.gathered_read3 (a8).view _ tbl ((a7).view.writes (Elt F) (a7).view.junk (tile_body.sl.H7'_32 d L ids f6)) _ hrow' hlt' ![0] inb_S512_S128_0 _ _ _ _ _ i j
  have hlink1 := TileLink.link3 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a8).view.read (Elt F) ((a8).view.writes (Elt F) (a8).view.junk [⟨Rect.whole _, tile_body.sl.gather0 d L ids tbl f6 hinK⟩])) 0 hi6 hb10 hrB1
  sl_for (invVA (F := F) d L (View.write (Elt F) (a6).view f6 (tile_body.sl.dma0 d L ids) Finset.univ) (View.write (Elt F) (a10).view f10 (tile_body.sl.dma0_1 d L bs) Finset.univ) ((a8).view.writes (Elt F) (a8).view.junk [⟨Rect.whole _, tile_body.sl.gather0 d L ids tbl f6 hinK⟩]) 0 (VAL L ids bs tbl)) $$ [H6' H10' H8' H11' H12']
  case region =>
    intro k acc
    unfold invVA
    iintro ⟨H6, H10, HB, ⟨%g11, H11⟩, %fo, H12, %hgood⟩
    ihave Hwp := (region1 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k3_off35 k) 0 = 128 * 0 + 16 * k.val := by
      rw [k3_off35_eq]; show (16 * k.val : Nat) = _; omega
    have hstep := TileValLib.writes_step (Val := Elt F) (a12).view fo (k3_off35 k) (k3_off35_inb k) (128 * 0 + 16 * k.val) hoff v (VAL L ids bs tbl) hgood
      (fun l h => (hv l h (by omega)).trans (hlink1 k.val l h (by omega)))
    intro r hr
    exact hstep r (by omega)
  · unfold invVA
    isplitl [H6']; · iexact H6'
    isplitl [H10']; · iexact H10'
    isplitl [H8']; · iexact H8'
    isplitl [H11']; · iexists _; iexact H11'
    iexists _; isplitl [H12']; · iexact H12'
    ipureintro
    exact fun r hr => absurd hr (by omega)
  iintro %_ HI
  unfold invVA
  icases HI with ⟨H6', H10', H8', ⟨%h11_1, H11'⟩, %fo1, H12', %hgood1⟩
  sl_exec
  -- chunk 1: what its buffer holds, then its loop
  have hrB2 : ∀ (i j : Fin 128) (h : 128 * 1 + i.val < 512), (a9).view.read (Elt F) ((a9).view.writes (Elt F) (a9).view.junk [⟨Rect.whole _, tile_body.sl.gather1 d L ids tbl f6 hinK⟩]) (ix2 i j)
      = tbl (ix2 (Vals.trow 784 (by decide) ((a6).view.read (Elt F) (View.write (Elt F) (a6).view f6 (tile_body.sl.dma0 d L ids) Finset.univ) (ix1 ⟨128 * 1 + i.val, h⟩))) j) :=
    fun i j h => TileLink.gathered_read3 (a9).view _ tbl ((a7).view.writes (Elt F) (a7).view.junk (tile_body.sl.H7'_32 d L ids f6)) _ hrow' hlt' ![128] inb_S512_S128_128 _ _ _ _ _ i j
  have hlink2 := TileLink.link3 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a9).view.read (Elt F) ((a9).view.writes (Elt F) (a9).view.junk [⟨Rect.whole _, tile_body.sl.gather1 d L ids tbl f6 hinK⟩])) 1 hi6 hb10 hrB2
  sl_for (invVB (F := F) d L (View.write (Elt F) (a6).view f6 (tile_body.sl.dma0 d L ids) Finset.univ) (View.write (Elt F) (a10).view f10 (tile_body.sl.dma0_1 d L bs) Finset.univ) ((a9).view.writes (Elt F) (a9).view.junk [⟨Rect.whole _, tile_body.sl.gather1 d L ids tbl f6 hinK⟩]) 1 (VAL L ids bs tbl)) $$ [H6' H10' H9' H11' H12']
  case region =>
    intro k acc
    unfold invVB
    iintro ⟨H6, H10, HB, ⟨%g11, H11⟩, %fo, H12, %hgood⟩
    ihave Hwp := (region2 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k3_off69 k) 0 = 128 * 1 + 16 * k.val := by
      rw [k3_off69_eq]; show (16 * k.val + 128 : Nat) = _; omega
    have hstep := TileValLib.writes_step (Val := Elt F) (a12).view fo (k3_off69 k) (k3_off69_inb k) (128 * 1 + 16 * k.val) hoff v (VAL L ids bs tbl) hgood
      (fun l h => (hv l h (by omega)).trans (hlink2 k.val l h (by omega)))
    intro r hr
    exact hstep r (by omega)
  · unfold invVB
    isplitl [H6']; · iexact H6'
    isplitl [H10']; · iexact H10'
    isplitl [H9']; · iexact H9'
    isplitl [H11']; · iexists _; iexact H11'
    iexists _; isplitl [H12']; · iexact H12'
    ipureintro
    intro r hr
    exact hgood1 r (by rw [show Scf.trips k3_t1_loop.lb k3_t1_loop.ub k3_t1_loop.st = 8 from Cert.Proof.ChkLib.trips_eq_8]; omega)
  iintro %_ HI
  unfold invVB
  icases HI with ⟨H6', H10', H9', ⟨%h11_2, H11'⟩, %fo2, H12', %hgood2⟩
  sl_exec
  -- chunk 2: what its buffer holds, then its loop
  have hrB3 : ∀ (i j : Fin 128) (h : 128 * 2 + i.val < 512), (a8).view.read (Elt F) ((a8).view.writes (Elt F) (a8).view.junk [⟨Rect.whole _, tile_body.sl.gather0_1 d L ids tbl f6 hinK⟩, ⟨Rect.whole _, tile_body.sl.gather0 d L ids tbl f6 hinK⟩]) (ix2 i j)
      = tbl (ix2 (Vals.trow 784 (by decide) ((a6).view.read (Elt F) (View.write (Elt F) (a6).view f6 (tile_body.sl.dma0 d L ids) Finset.univ) (ix1 ⟨128 * 2 + i.val, h⟩))) j) :=
    fun i j h => TileLink.gathered_read3 (a8).view _ tbl ((a7).view.writes (Elt F) (a7).view.junk (tile_body.sl.H7'_32 d L ids f6)) _ hrow' hlt' ![256] inb_S512_S128_256 _ _ _ _ _ i j
  have hlink3 := TileLink.link3 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a8).view.read (Elt F) ((a8).view.writes (Elt F) (a8).view.junk [⟨Rect.whole _, tile_body.sl.gather0_1 d L ids tbl f6 hinK⟩, ⟨Rect.whole _, tile_body.sl.gather0 d L ids tbl f6 hinK⟩])) 2 hi6 hb10 hrB3
  sl_for (invVA (F := F) d L (View.write (Elt F) (a6).view f6 (tile_body.sl.dma0 d L ids) Finset.univ) (View.write (Elt F) (a10).view f10 (tile_body.sl.dma0_1 d L bs) Finset.univ) ((a8).view.writes (Elt F) (a8).view.junk [⟨Rect.whole _, tile_body.sl.gather0_1 d L ids tbl f6 hinK⟩, ⟨Rect.whole _, tile_body.sl.gather0 d L ids tbl f6 hinK⟩]) 2 (VAL L ids bs tbl)) $$ [H6' H10' H8' H11' H12']
  case region =>
    intro k acc
    unfold invVA
    iintro ⟨H6, H10, HB, ⟨%g11, H11⟩, %fo, H12, %hgood⟩
    ihave Hwp := (region3 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k3_off103 k) 0 = 128 * 2 + 16 * k.val := by
      rw [k3_off103_eq]; show (16 * k.val + 256 : Nat) = _; omega
    have hstep := TileValLib.writes_step (Val := Elt F) (a12).view fo (k3_off103 k) (k3_off103_inb k) (128 * 2 + 16 * k.val) hoff v (VAL L ids bs tbl) hgood
      (fun l h => (hv l h (by omega)).trans (hlink3 k.val l h (by omega)))
    intro r hr
    exact hstep r (by omega)
  · unfold invVA
    isplitl [H6']; · iexact H6'
    isplitl [H10']; · iexact H10'
    isplitl [H8']; · iexact H8'
    isplitl [H11']; · iexists _; iexact H11'
    iexists _; isplitl [H12']; · iexact H12'
    ipureintro
    intro r hr
    exact hgood2 r (by rw [show Scf.trips k3_t2_loop.lb k3_t2_loop.ub k3_t2_loop.st = 8 from Cert.Proof.ChkLib.trips_eq_8]; omega)
  iintro %_ HI
  unfold invVA
  icases HI with ⟨H6', H10', H8', ⟨%h11_3, H11'⟩, %fo3, H12', %hgood3⟩
  sl_exec
  -- chunk 3: what its buffer holds, then its loop
  have hrB4 : ∀ (i j : Fin 128) (h : 128 * 3 + i.val < 512), (a9).view.read (Elt F) ((a9).view.writes (Elt F) (a9).view.junk [⟨Rect.whole _, tile_body.sl.gather0_2 d L ids tbl f6 hinK⟩, ⟨Rect.whole _, tile_body.sl.gather1 d L ids tbl f6 hinK⟩]) (ix2 i j)
      = tbl (ix2 (Vals.trow 784 (by decide) ((a6).view.read (Elt F) (View.write (Elt F) (a6).view f6 (tile_body.sl.dma0 d L ids) Finset.univ) (ix1 ⟨128 * 3 + i.val, h⟩))) j) :=
    fun i j h => TileLink.gathered_read3 (a9).view _ tbl ((a7).view.writes (Elt F) (a7).view.junk (tile_body.sl.H7'_32 d L ids f6)) _ hrow' hlt' ![384] inb_S512_S128_384 _ _ _ _ _ i j
  have hlink4 := TileLink.link3 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a9).view.read (Elt F) ((a9).view.writes (Elt F) (a9).view.junk [⟨Rect.whole _, tile_body.sl.gather0_2 d L ids tbl f6 hinK⟩, ⟨Rect.whole _, tile_body.sl.gather1 d L ids tbl f6 hinK⟩])) 3 hi6 hb10 hrB4
  sl_for (invVB (F := F) d L (View.write (Elt F) (a6).view f6 (tile_body.sl.dma0 d L ids) Finset.univ) (View.write (Elt F) (a10).view f10 (tile_body.sl.dma0_1 d L bs) Finset.univ) ((a9).view.writes (Elt F) (a9).view.junk [⟨Rect.whole _, tile_body.sl.gather0_2 d L ids tbl f6 hinK⟩, ⟨Rect.whole _, tile_body.sl.gather1 d L ids tbl f6 hinK⟩]) 3 (VAL L ids bs tbl)) $$ [H6' H10' H9' H11' H12']
  case region =>
    intro k acc
    unfold invVB
    iintro ⟨H6, H10, HB, ⟨%g11, H11⟩, %fo, H12, %hgood⟩
    ihave Hwp := (region4 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k3_off137 k) 0 = 128 * 3 + 16 * k.val := by
      rw [k3_off137_eq]; show (16 * k.val + 384 : Nat) = _; omega
    have hstep := TileValLib.writes_step (Val := Elt F) (a12).view fo (k3_off137 k) (k3_off137_inb k) (128 * 3 + 16 * k.val) hoff v (VAL L ids bs tbl) hgood
      (fun l h => (hv l h (by omega)).trans (hlink4 k.val l h (by omega)))
    intro r hr
    exact hstep r (by omega)
  · unfold invVB
    isplitl [H6']; · iexact H6'
    isplitl [H10']; · iexact H10'
    isplitl [H9']; · iexact H9'
    isplitl [H11']; · iexists _; iexact H11'
    iexists _; isplitl [H12']; · iexact H12'
    ipureintro
    intro r hr
    exact hgood3 r (by rw [show Scf.trips k3_t3_loop.lb k3_t3_loop.ub k3_t3_loop.st = 8 from Cert.Proof.ChkLib.trips_eq_8]; omega)
  iintro %_ HI
  unfold invVB
  icases HI with ⟨H6', H10', H9', ⟨%h11_4, H11'⟩, %fo4, H12', %hgood4⟩
  sl_exec
  sl_step
  ihave Ht := (pointsTo_share (PosShare.mem_left_op_right qt)).2 $$ [HtL HtR]; · isplitl [HtL] <;> iassumption
  ihave H7 := (pointsTo_share (PosShare.mem_left_op_right fullShare)).2 $$ [H7L H7R]; · isplitl [H7L] <;> iassumption
  isplitl [Hi' Ht Hb' Ho']
  · isplitl [Hi']; · iexact Hi'
    isplitl [Ht]; · iexact Ht
    isplitl [Hb']; · iexact Hb'
    iexists _; isplitl [Ho']; · iexact Ho'
    ipureintro
    intro r
    refine (TileValLib.copyout_writes_bidx3 (Val := Elt F) L _ o0 _ r).trans ?_
    show tile_body.sl.dma0_2 d L fo4 (ix1 r) = _
    unfold tile_body.sl.dma0_2
    rw [ReadAs.apply_same]
    exact hgood4 r (by rw [show Scf.trips k3_t4_loop.lb k3_t4_loop.ub k3_t4_loop.st = 8 from Cert.Proof.ChkLib.trips_eq_8]; omega)
  isplitl [H6' H7 H8' H9' H10' H11' H12' Hbufs]
  · isplitl [H6']; · iexists _; iexact H6'
    isplitl [H7]; · iexists _; iexact H7
    isplitl [H8']; · iexists _; iexact H8'
    isplitl [H9']; · iexists _; iexact H9'
    isplitl [H10']; · iexists _; iexact H10'
    isplitl [H11']; · iexists _; iexact H11'
    isplitl [H12']; · iexists _; iexact H12'
    iexact Hbufs
  isplitl [Hs13 Hs14 Hr0 Hr1 Hr2 Hsems]
  · isplitl [Hs13]; · iexact Hs13
    isplitl [Hs14]; · iexact Hs14
    isplitl [Hr0]; · iexact Hr0
    isplitl [Hr1]; · iexact Hr1
    isplitl [Hr2]; · iexact Hr2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.TileK3

end
-- ==== Proof.KernelIdeal.BridgeK3.lean ====
/-
  The second gather kernel's tile, in the first's terms: both kernels cut the batch into the same 32 runs of 512 rows
  (tile (c, s) starts at row 1024 s + 512 c in both), so the rows a tile of the second kernel owns of its output are
  the rows the first kernel's tile owns, and the two tiles run on the same vector subcore.
-/
import proofs.«204913_g64682207478566_cont_9to1c4b_713_31_alg».proof.Proof.KernelIdeal.TileK3Defs
import proofs.«204913_g64682207478566_cont_9to1c4b_713_31_alg».proof.Proof.KernelIdeal.TileK1Defs
import proofs.«204913_g64682207478566_cont_9to1c4b_713_31_alg».proof.Proof.PayM

noncomputable section

namespace Cert.KernelIdeal.BridgeK3

open Cert.KernelIdeal Cert.KernelIdeal.Gen Cert.KernelIdeal.Common Cert.KernelIdeal.PayM

open Idealize.ShloMosaic

/-- The two kernels' tiles start at the same row. -/
theorem off3_eq (L : grid1.Coords) : k3_off1 L = k1_off1 L := (k3_off1_eq L).trans (k1_off1_eq L).symm

/-- A run of 512 rows is determined by where it starts. -/
theorem unit_off (o o' : Fin 1 → Nat) (e : o = o') (h : ∀ a, o a + S512.size a ≤ S16384.size a)
    (h' : ∀ a, o' a + S512.size a ≤ S16384.size a) :
    Rect.unit (s := S16384) o S512.size h = Rect.unit (s := S16384) o' S512.size h' := by
  subst e; rfl

/-- The rows of the first kernel's tile, as its body slices them, are the tile's rows. -/
theorem oRowSet1_eq (L : grid1.Coords) : TileK1.oRowSet L = rowSet L := rfl

/-- The rows of the second kernel's tile, as its body slices them, are the same rows. -/
theorem oRowSet3_eq (L : grid1.Coords) : TileK3.oRowSet L = rowSet L := by
  have e1 : rowSet L = (Rect.unit (s := S16384) (k1_off1 L) S512.size (k1_off1_inb L)).set := by
    show ((View.whole (main_v8_scv : Ref sig .scVector)).slice _).set = _
    exact View.set_slice_whole _ _
  have e3 : TileK3.oRowSet L = (Rect.unit (s := S16384) (k3_off1 L) S512.size (k3_off1_inb L)).set := by
    show ((View.whole (main_v12_scv : Ref sig .scVector)).slice _).set = _
    exact View.set_slice_whole _ _
  rw [e3, e1, unit_off _ _ (off3_eq L)]

/-- The two kernels' tiles run on the same vector subcore. -/
theorem cV_eq (L : grid1.Coords) : TileK3.cV L = TileK1.cV L := rfl
theorem jV_eq (L : grid1.Coords) : TileK3.jV L = TileK1.jV L := rfl

end Cert.KernelIdeal.BridgeK3

end
-- ==== Proof.Wire.lean ====
/-
  The pieces plugged together: the 64 side conditions of each gather kernel's lane reads, one tile's task of each kernel,
  and the two TensorCore regions, in the form the launch asks for.
-/
import proofs.«204913_g64682207478566_cont_9to1c4b_713_31_alg».proof.Proof.TileObl
import proofs.«204913_g64682207478566_cont_9to1c4b_713_31_alg».proof.Proof.HMain
import proofs.«204913_g64682207478566_cont_9to1c4b_713_31_alg».proof.Proof.Run
import proofs.«204913_g64682207478566_cont_9to1c4b_713_31_alg».proof.Proof.Regions
import proofs.«204913_g64682207478566_cont_9to1c4b_713_31_alg».proof.Proof.ChkK1
import proofs.«204913_g64682207478566_cont_9to1c4b_713_31_alg».proof.Proof.ChkK3
import proofs.«204913_g64682207478566_cont_9to1c4b_713_31_alg».proof.Proof.KernelIdeal.TileK1V
import proofs.«204913_g64682207478566_cont_9to1c4b_713_31_alg».proof.Proof.KernelIdeal.TileK3V
import proofs.«204913_g64682207478566_cont_9to1c4b_713_31_alg».proof.Proof.KernelIdeal.BridgeK3

noncomputable section

namespace Cert.KernelIdeal.Wire

open Cert.KernelIdeal Cert.KernelIdeal.Gen Cert.KernelIdeal.Common Cert.KernelIdeal.HMain Cert.KernelIdeal.TileObl

open Idealize.ShloMosaic

variable {F : FTy → Type} [FloatOps F]

theorem chk1 : Cert.KernelIdeal.TileK1.ChkAll := ⟨Cert.KernelIdeal.ChkK1.chk1, Cert.KernelIdeal.ChkK1.chk2, Cert.KernelIdeal.ChkK1.chk3, Cert.KernelIdeal.ChkK1.chk4, Cert.KernelIdeal.ChkK1.chk5, Cert.KernelIdeal.ChkK1.chk6, Cert.KernelIdeal.ChkK1.chk7, Cert.KernelIdeal.ChkK1.chk8, Cert.KernelIdeal.ChkK1.chk9, Cert.KernelIdeal.ChkK1.chk10, Cert.KernelIdeal.ChkK1.chk11, Cert.KernelIdeal.ChkK1.chk12, Cert.KernelIdeal.ChkK1.chk13, Cert.KernelIdeal.ChkK1.chk14, Cert.KernelIdeal.ChkK1.chk15, Cert.KernelIdeal.ChkK1.chk16, Cert.KernelIdeal.ChkK1.chk17, Cert.KernelIdeal.ChkK1.chk18, Cert.KernelIdeal.ChkK1.chk19, Cert.KernelIdeal.ChkK1.chk20, Cert.KernelIdeal.ChkK1.chk21, Cert.KernelIdeal.ChkK1.chk22, Cert.KernelIdeal.ChkK1.chk23, Cert.KernelIdeal.ChkK1.chk24, Cert.KernelIdeal.ChkK1.chk25, Cert.KernelIdeal.ChkK1.chk26, Cert.KernelIdeal.ChkK1.chk27, Cert.KernelIdeal.ChkK1.chk28, Cert.KernelIdeal.ChkK1.chk29, Cert.KernelIdeal.ChkK1.chk30, Cert.KernelIdeal.ChkK1.chk31, Cert.KernelIdeal.ChkK1.chk32, Cert.KernelIdeal.ChkK1.chk33, Cert.KernelIdeal.ChkK1.chk34, Cert.KernelIdeal.ChkK1.chk35, Cert.KernelIdeal.ChkK1.chk36, Cert.KernelIdeal.ChkK1.chk37, Cert.KernelIdeal.ChkK1.chk38, Cert.KernelIdeal.ChkK1.chk39, Cert.KernelIdeal.ChkK1.chk40, Cert.KernelIdeal.ChkK1.chk41, Cert.KernelIdeal.ChkK1.chk42, Cert.KernelIdeal.ChkK1.chk43, Cert.KernelIdeal.ChkK1.chk44, Cert.KernelIdeal.ChkK1.chk45, Cert.KernelIdeal.ChkK1.chk46, Cert.KernelIdeal.ChkK1.chk47, Cert.KernelIdeal.ChkK1.chk48, Cert.KernelIdeal.ChkK1.chk49, Cert.KernelIdeal.ChkK1.chk50, Cert.KernelIdeal.ChkK1.chk51, Cert.KernelIdeal.ChkK1.chk52, Cert.KernelIdeal.ChkK1.chk53, Cert.KernelIdeal.ChkK1.chk54, Cert.KernelIdeal.ChkK1.chk55, Cert.KernelIdeal.ChkK1.chk56, Cert.KernelIdeal.ChkK1.chk57, Cert.KernelIdeal.ChkK1.chk58, Cert.KernelIdeal.ChkK1.chk59, Cert.KernelIdeal.ChkK1.chk60, Cert.KernelIdeal.ChkK1.chk61, Cert.KernelIdeal.ChkK1.chk62, Cert.KernelIdeal.ChkK1.chk63, Cert.KernelIdeal.ChkK1.chk64⟩
theorem chk3 : Cert.KernelIdeal.TileK3.ChkAll := ⟨Cert.KernelIdeal.ChkK3.chk1, Cert.KernelIdeal.ChkK3.chk2, Cert.KernelIdeal.ChkK3.chk3, Cert.KernelIdeal.ChkK3.chk4, Cert.KernelIdeal.ChkK3.chk5, Cert.KernelIdeal.ChkK3.chk6, Cert.KernelIdeal.ChkK3.chk7, Cert.KernelIdeal.ChkK3.chk8, Cert.KernelIdeal.ChkK3.chk9, Cert.KernelIdeal.ChkK3.chk10, Cert.KernelIdeal.ChkK3.chk11, Cert.KernelIdeal.ChkK3.chk12, Cert.KernelIdeal.ChkK3.chk13, Cert.KernelIdeal.ChkK3.chk14, Cert.KernelIdeal.ChkK3.chk15, Cert.KernelIdeal.ChkK3.chk16, Cert.KernelIdeal.ChkK3.chk17, Cert.KernelIdeal.ChkK3.chk18, Cert.KernelIdeal.ChkK3.chk19, Cert.KernelIdeal.ChkK3.chk20, Cert.KernelIdeal.ChkK3.chk21, Cert.KernelIdeal.ChkK3.chk22, Cert.KernelIdeal.ChkK3.chk23, Cert.KernelIdeal.ChkK3.chk24, Cert.KernelIdeal.ChkK3.chk25, Cert.KernelIdeal.ChkK3.chk26, Cert.KernelIdeal.ChkK3.chk27, Cert.KernelIdeal.ChkK3.chk28, Cert.KernelIdeal.ChkK3.chk29, Cert.KernelIdeal.ChkK3.chk30, Cert.KernelIdeal.ChkK3.chk31, Cert.KernelIdeal.ChkK3.chk32, Cert.KernelIdeal.ChkK3.chk33, Cert.KernelIdeal.ChkK3.chk34, Cert.KernelIdeal.ChkK3.chk35, Cert.KernelIdeal.ChkK3.chk36, Cert.KernelIdeal.ChkK3.chk37, Cert.KernelIdeal.ChkK3.chk38, Cert.KernelIdeal.ChkK3.chk39, Cert.KernelIdeal.ChkK3.chk40, Cert.KernelIdeal.ChkK3.chk41, Cert.KernelIdeal.ChkK3.chk42, Cert.KernelIdeal.ChkK3.chk43, Cert.KernelIdeal.ChkK3.chk44, Cert.KernelIdeal.ChkK3.chk45, Cert.KernelIdeal.ChkK3.chk46, Cert.KernelIdeal.ChkK3.chk47, Cert.KernelIdeal.ChkK3.chk48, Cert.KernelIdeal.ChkK3.chk49, Cert.KernelIdeal.ChkK3.chk50, Cert.KernelIdeal.ChkK3.chk51, Cert.KernelIdeal.ChkK3.chk52, Cert.KernelIdeal.ChkK3.chk53, Cert.KernelIdeal.ChkK3.chk54, Cert.KernelIdeal.ChkK3.chk55, Cert.KernelIdeal.ChkK3.chk56, Cert.KernelIdeal.ChkK3.chk57, Cert.KernelIdeal.ChkK3.chk58, Cert.KernelIdeal.ChkK3.chk59, Cert.KernelIdeal.ChkK3.chk60, Cert.KernelIdeal.ChkK3.chk61, Cert.KernelIdeal.ChkK3.chk62, Cert.KernelIdeal.ChkK3.chk63, Cert.KernelIdeal.ChkK3.chk64⟩

theorem body1 : Body1 F := fun d L qi qt qb ids tbl bs o0 hin O W hO =>
  Cert.KernelIdeal.TileK1.tile_body d L qi qt qb ids tbl bs o0 hin chk1 Cert.KernelIdeal.Run.facts O W hO
theorem body3 : Body3 F := fun d L qi qt qb ids tbl bs o0 hin O W hO => by
  have h := Cert.KernelIdeal.TileK3.tile_body d L qi qt qb ids tbl bs o0 hin chk3 Cert.KernelIdeal.Run.facts O W hO
  simp only [Cert.KernelIdeal.BridgeK3.oRowSet3_eq] at h
  exact h

theorem reg0 : Region0 F := fun lv hlv d X4 W1 Φ => Cert.KernelIdeal.Regions.region0 lv hlv d X4 W1 Φ
theorem reg1 : Region1 F := fun lv hlv d X9 W3 Φ => Cert.KernelIdeal.Regions.region1 lv hlv d X9 W3 Φ

end Cert.KernelIdeal.Wire

end
-- ==== Proof.CommonB.lean ====
/-
  Names shared by the modules of this certificate: the program as the launch theorem sees it, and the resource
  algebra of the proof — the handshakes' rounds, the staging cells' rounds of the two TensorCore regions, and the
  counters of the tiles' own copies.
-/
import proofs.«204913_g64682207478566_cont_9to1c4b_713_31_alg».proof.Defs
import proofs.«204913_g64682207478566_cont_9to1c4b_713_31_alg».proof.Proof.Gen.Kernel
import Idealize.ShloMosaic.Lib.SparseCore.Launch
import Idealize.ShloMosaic.Lib.Pipeline.Kit

noncomputable section

namespace Cert.Kernel.Common

open Cert.Kernel Cert.Kernel.Gen

open Idealize.ShloMosaic
open Idealize.ShloMosaic.SparseCore.Cfg (HIx)
open Idealize.SL Idealize.SL.RA Idealize.SL.BI
open Idealize.SL.Sem
open Idealize.ShloMosaic.Rounds

variable {F : FTy → Type}

/-- The label signature with the two TensorCore regions. -/
abbrev ΛP : Labels := Pipeline.Sig Λ₀ (Fin 2) fun p => (pcfgs (F := F) p).Adm
/-- The two SparseCore calls. -/
abbrev K : SparseCore.Cfg τ sig (ΛP (F := F)) 2 := sc (F := F)
/-- The body table below the SparseCore dispatch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds. -/
abbrev UH : Type := URounds (GSem nD τ sig) ℕ
/-- The staging cells' rounds. -/
abbrev UP : Type := URounds (GSem nD τ sig) Unit
/-- The proof's algebra: handshakes, staging cells, counters. -/
abbrev UU : Type := UH × (UP × Counters)

/-- The machine's algebra over it. -/
abbrev 𝕄F (F : FTy → Type) : Type := MT nD τ sig (HIx 2) (Elt F) ℕ UU ℕ

/-- The handshakes' component. -/
abbrev EH : Emb UH (𝕄F F) := embL
/-- The staging cells' component. -/
def EP : Emb UP (𝕄F F) := (Emb.inl : Emb UP (UP × Counters)).trans embR

instance EP_landsIn : (EP (F := F)).LandsIn (upEmb : UEmb _ (𝕄F F)) := by
  unfold EP; infer_instance

theorem nCore_eq (q : Fin 2) : (K (F := F)).nCore q = 2 := by
  match q with
  | 0 => rfl
  | 1 => rfl
theorem nSub_eq (q : Fin 2) : (K (F := F)).nSub q = 16 := by
  match q with
  | 0 => rfl
  | 1 => rfl

end Cert.Kernel.Common

end
-- ==== Proof.ValsB.lean ====
/-
  The values the parts of the kernel hand one another, generic in the float instance.
  * A TensorCore region's output array: block t is the one-matmul payload of SOME staged input block that agrees
    with the input array on the columns that lie inside it (the last block overhangs the array).
  * A SparseCore tile's 512 results: the base value plus the table entry the id selects, row id / 128 and
    lane id % 128 of the table reshaped to 128 lanes.
-/
import proofs.«204913_g64682207478566_cont_9to1c4b_713_31_alg».proof.Proof.CommonB
import proofs.«204913_g64682207478566_cont_9to1c4b_713_31_alg».proof.Proof.Gen.Kernel.Skeleton
import Idealize.ShloMosaic.Lib.ValueIdx

noncomputable section

namespace Cert.Kernel.Vals

open Cert.Kernel Cert.Kernel.Gen Cert.Kernel.Common
open Idealize.ShloMosaic Idealize.ShloMosaic.ValueIdx

variable {F : FTy → Type} [FloatOps F]

/-- Row of a 128-lane table a word selects, in a table of `R` rows. -/
def trow (R : Nat) (hR : 0 < R) (v : BitVec 32) : Fin R := ⟨v.toNat / 128 % R, Nat.mod_lt _ hR⟩
/-- Lane of a 128-lane table a word selects. -/
def tlane (v : BitVec 32) : Fin 128 := ⟨v.toNat % 128, Nat.mod_lt _ (by decide)⟩

/-- Entry `r` of the 512 batch rows of the tile at grid coordinates `L` (both kernels' tiles take the same rows). -/
def bidx (L : grid1.Coords) (r : Fin 512) : S16384.Idx :=
  ix1 ⟨(k1_off1 L) 0 + r.val, by
    have h : (k1_off1 L) 0 + 512 ≤ 16384 := k1_off1_inb L 0
    omega⟩

/-- What a tile leaves in its 512 output entries: base value plus selected table entry. -/
def TileVal {R : Nat} (hR : 0 < R) (L : grid1.Coords) (ids : S16384.Idx → BitVec 32) (bs : S16384.Idx → F .f32)
    (tbl : (⟨2, ![R, 128]⟩ : Shape).Idx → F .f32) (f : S16384.Idx → F .f32) : Prop :=
  ∀ r : Fin 512, f (bidx L r) = FloatOps.addf (bs (bidx L r)) (tbl (ix2 (trow R hR (ids (bidx L r))) (tlane (ids (bidx L r)))))

/-- What TensorCore region 0 leaves in its output array `f5` (1000448 entries, 62 blocks of 16384), from the
    weight row `W1` and the transposed table `X4` (1000000 columns). -/
def Reg0Val (W1 : S1x100.Idx → F .f32) (X4 : S100x1000000.Idx → F .f32) (f5 : S1000448.Idx → F .f32) : Prop :=
  ∃ X : Fin 62 → FVec F S100x16384 .f32,
    (∀ (t : Fin 62) (f : Fin 100) (col : Fin 16384) (h : 16384 * t.val + col.val < 1000000), X t (ix2 f col) = X4 (ix2 f ⟨16384 * t.val + col.val, h⟩))
    ∧ ∀ (t : Fin 62) (col : Fin 16384) (h : 16384 * t.val + col.val < 1000448), f5 (ix1 ⟨16384 * t.val + col.val, h⟩) = k0_pay1 W1 (X t) (ix1 col)

/-- The same for region 1 (100352 entries, 7 blocks; 100000 columns). -/
def Reg1Val (W3 : S1x100.Idx → F .f32) (X9 : S100x100000.Idx → F .f32) (f10 : S100352.Idx → F .f32) : Prop :=
  ∃ X : Fin 7 → FVec F S100x16384 .f32,
    (∀ (t : Fin 7) (f : Fin 100) (col : Fin 16384) (h : 16384 * t.val + col.val < 100000), X t (ix2 f col) = X9 (ix2 f ⟨16384 * t.val + col.val, h⟩))
    ∧ ∀ (t : Fin 7) (col : Fin 16384) (h : 16384 * t.val + col.val < 100352), f10 (ix1 ⟨16384 * t.val + col.val, h⟩) = k2_pay1 W3 (X t) (ix1 col)

end Cert.Kernel.Vals

end
-- ==== Proof.PayMB.lean ====
/-
  What the two SparseCore calls hand their tiles and get back.
  Call 0 adds to the bias the entry of the projected user table each user id selects; call 1 adds to that the
  entry of the projected course table each course id selects.  Tile (c, s) works on batch rows
  [512·(2s + c), 512·(2s + c) + 512).  Every tile reads the ids, the table and the base array whole, through a
  thirty-second share; it owns its 512 rows of the output array.  A call's operands for one SparseCore are its
  sixteen tiles' operands side by side, so the split among the tiles is the identity.
-/
import proofs.«204913_g64682207478566_cont_9to1c4b_713_31_alg».proof.Proof.CommonB
import proofs.«204913_g64682207478566_cont_9to1c4b_713_31_alg».proof.Proof.ValsB
import proofs.«204913_g64682207478566_cont_9to1c4b_713_31_alg».proof.Proof.Shares

noncomputable section

namespace Cert.Kernel.PayM

open Cert.Kernel Cert.Kernel.Gen Cert.Kernel.Common Cert.Kernel.Vals

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Shares

variable {F : FTy → Type} [FloatOps F]

local notation "𝕄" => 𝕄F F

variable (m : (ℓ : Loc nD τ sig) → Buf (Elt F) ℓ)

/-- A TensorCore buffer's location on device `d`. -/
abbrev loc (d : Dev nD) (b : Ref sig .tc) : Loc nD τ sig := (SparseCore.T d).loc b

/-! ## The host operations' values -/

/-- The first half of the weight column as a row. -/
def W1 (d : Dev nD) : FVec F S1x100 .f32 :=
  transpose S1x100 [1, 0] (extractStridedSlice S100x1 ![0, 0] (m (loc d main_arg4) : FVec F S200x1 .f32) slices_S200x1_S100x1_0_0) transposes_S100x1_S1x100_1_0
/-- The second half of the weight column as a row. -/
def W3 (d : Dev nD) : FVec F S1x100 .f32 :=
  transpose S1x100 [1, 0] (extractStridedSlice S100x1 ![100, 0] (m (loc d main_arg4) : FVec F S200x1 .f32) slices_S200x1_S100x1_100_0) transposes_S100x1_S1x100_1_0
/-- The user table transposed. -/
def X4 (d : Dev nD) : FVec F S100x1000000 .f32 :=
  transpose S100x1000000 [1, 0] (m (loc d main_arg2) : FVec F S1000000x100 .f32) transposes_S1000000x100_S100x1000000_1_0
/-- The course table transposed. -/
def X9 (d : Dev nD) : FVec F S100x100000 .f32 :=
  transpose S100x100000 [1, 0] (m (loc d main_arg3) : FVec F S100000x100 .f32) transposes_S100000x100_S100x100000_1_0
/-- The bias, broadcast over the batch. -/
def B7 (d : Dev nD) : FVec F S16384 .f32 :=
  broadcastInDim S16384 ![0] bcast_S1_S16384_0 (m (loc d main_arg5) : FVec F S1 .f32)

/-- The projected user table as the gather sees it: region 0's output reshaped to 128 lanes. -/
def Tbl6 (d : Dev nD) (tbl : FVec F S7816x128 .f32) : Prop :=
  ∃ f5 : FVec F S1000448 .f32, Reg0Val (W1 m d) (X4 m d) f5 ∧ tbl = shapeCast S7816x128 f5 shapeCasts_S1000448_S7816x128
/-- The projected course table as the gather sees it. -/
def Tbl11 (d : Dev nD) (tbl : FVec F S784x128 .f32) : Prop :=
  ∃ f10 : FVec F S100352 .f32, Reg1Val (W3 m d) (X9 m d) f10 ∧ tbl = shapeCast S784x128 f10 shapeCasts_S100352_S784x128

/-! ## Tiles -/

/-- The grid coordinates of tile `(c, s)`. -/
def coords (c : Fin 2) (s : Fin 16) : grid1.Coords :=
  fun | 0 => c | 1 => s | ⟨_ + 2, h⟩ => absurd h (Nat.not_lt.2 (Nat.le_add_left _ _))

/-- The tile's number among the 32. -/
def wid (c : Fin 2) (s : Fin 16) : Fin (2 ^ 5) := ⟨2 * s.val + c.val, by have := c.isLt; have := s.isLt; omega⟩

/-- A tile's share of an array all tiles read. -/
abbrev lf (q : PosShare TreeShare) (c : Fin 2) (s : Fin 16) : PosShare TreeShare := leaf 5 q (wid c s)

/-- The tile's 512 rows of a batch-sized array. -/
abbrev rowSet (L : grid1.Coords) : Finset S16384.Idx :=
  ((Memref.whole (main_v8_scv : Ref sig .scVector) : Memref sig .scVector .hbm S16384 .f32).view.slice (Rect.unit (s := S16384) (k1_off1 L) S512.size (k1_off1_inb L))).set

/-- Call 0's result on a tile's rows. -/
def Acc8 (d : Dev nD) (L : grid1.Coords) (f : FVec F S16384 .f32) : Prop :=
  ∃ tbl, Tbl6 m d tbl ∧ TileVal (R := 7816) (by decide) L (m (loc d main_arg0) : IVec S16384 32) (B7 m d) tbl f
/-- Call 0's result on every tile's rows. -/
def Acc8All (d : Dev nD) (f : FVec F S16384 .f32) : Prop := ∀ c s, Acc8 m d (coords c s) f
/-- Call 1's result on a tile's rows. -/
def Out12 (d : Dev nD) (L : grid1.Coords) (f : FVec F S16384 .f32) : Prop :=
  ∃ tbl bs, Tbl11 m d tbl ∧ Acc8All m d bs ∧ TileVal (R := 784) (by decide) L (m (loc d main_arg1) : IVec S16384 32) bs tbl f
/-- Call 1's result on every tile's rows. -/
def Out12All (d : Dev nD) (f : FVec F S16384 .f32) : Prop := ∀ c s, Out12 m d (coords c s) f

/-- What tile `(c, s)` is handed at call 0. -/
def go0 (d : Dev nD) (c : Fin 2) (s : Fin 16) : sProp 𝕄 :=
  iprop((loc d main_arg0 ↦{lf fullShare.right c s} m (loc d main_arg0))
    ∗ (∃ tbl : Buf (Elt F) (loc d main_v6), (loc d main_v6 ↦{lf fullShare c s} tbl) ∗ ⌜Tbl6 m d tbl⌝)
    ∗ (loc d main_v7 ↦{lf fullShare c s} (B7 m d : Buf (Elt F) (loc d main_v7)))
    ∗ (loc d main_v8 ↦[rowSet (coords c s)]{fullShare} m (loc d main_v8)))
/-- What it hands back. -/
def td0 (d : Dev nD) (c : Fin 2) (s : Fin 16) : sProp 𝕄 :=
  iprop(∃ f : Buf (Elt F) (loc d main_v8), (loc d main_v8 ↦[rowSet (coords c s)]{fullShare} f) ∗ ⌜Acc8 m d (coords c s) f⌝)
/-- What tile `(c, s)` is handed at call 1. -/
def go1 (d : Dev nD) (c : Fin 2) (s : Fin 16) : sProp 𝕄 :=
  iprop((loc d main_arg1 ↦{lf fullShare.right c s} m (loc d main_arg1))
    ∗ (∃ tbl : Buf (Elt F) (loc d main_v11), (loc d main_v11 ↦{lf fullShare c s} tbl) ∗ ⌜Tbl11 m d tbl⌝)
    ∗ (∃ bs : Buf (Elt F) (loc d main_v8), (loc d main_v8 ↦{lf fullShare c s} bs) ∗ ⌜Acc8All m d bs⌝)
    ∗ (loc d main_v12 ↦[rowSet (coords c s)]{fullShare} m (loc d main_v12)))
/-- What it hands back. -/
def td1 (d : Dev nD) (c : Fin 2) (s : Fin 16) : sProp 𝕄 :=
  iprop(∃ f : Buf (Elt F) (loc d main_v12), (loc d main_v12 ↦[rowSet (coords c s)]{fullShare} f) ∗ ⌜Out12 m d (coords c s) f⌝)

/-- The calls' operands and results. -/
def P : (K (F := F)).Pay (nD := nD) (Val := Elt F) (Name := ℕ) (U := UU) where
  go := fun q d c i => match q with
    | 0 => go0 m d (Fin.cast (nCore_eq 0) c) (Fin.cast (nSub_eq 0) i)
    | 1 => go1 m d (Fin.cast (nCore_eq 1) c) (Fin.cast (nSub_eq 1) i)
  td := fun q d c i => match q with
    | 0 => td0 m d (Fin.cast (nCore_eq 0) c) (Fin.cast (nSub_eq 0) i)
    | 1 => td1 m d (Fin.cast (nCore_eq 1) c) (Fin.cast (nSub_eq 1) i)
  st := fun q d c => match q with
    | 0 => bigSep Finset.univ fun i : Fin ((K (F := F)).nSub 0) => go0 m d (Fin.cast (nCore_eq 0) c) (Fin.cast (nSub_eq 0) i)
    | 1 => bigSep Finset.univ fun i : Fin ((K (F := F)).nSub 1) => go1 m d (Fin.cast (nCore_eq 1) c) (Fin.cast (nSub_eq 1) i)
  dn := fun q d c => match q with
    | 0 => bigSep Finset.univ fun i : Fin ((K (F := F)).nSub 0) => td0 m d (Fin.cast (nCore_eq 0) c) (Fin.cast (nSub_eq 0) i)
    | 1 => bigSep Finset.univ fun i : Fin ((K (F := F)).nSub 1) => td1 m d (Fin.cast (nCore_eq 1) c) (Fin.cast (nSub_eq 1) i)
  x := fun _ _ => iprop(emp)

instance P_storable : (P (F := F) m).IsStorable where
  st q d c := match q with
    | 0 => by unfold P go0; infer_instance
    | 1 => by unfold P go1; infer_instance
  dn q d c := match q with
    | 0 => by unfold P td0; infer_instance
    | 1 => by unfold P td1; infer_instance
  go q d c i := match q with
    | 0 => by unfold P go0; infer_instance
    | 1 => by unfold P go1; infer_instance
  td q d c i := match q with
    | 0 => by unfold P td0; infer_instance
    | 1 => by unfold P td1; infer_instance

/-- A SparseCore's operands are its tiles' operands: the split is the identity. -/
theorem vecSplit (q : Fin 2) : (K (F := F)).VecSplit' (P m) q := by
  intro d c
  match q with
  | 0 =>
    show (bigSep Finset.univ fun i : Fin ((K (F := F)).nSub 0) => go0 m d (Fin.cast (nCore_eq 0) c) (Fin.cast (nSub_eq 0) i)) ⊢ |={Set.univ}=> iprop(
      (bigSep Finset.univ fun i : Fin ((K (F := F)).nSub 0) => go0 m d (Fin.cast (nCore_eq 0) c) (Fin.cast (nSub_eq 0) i))
      ∗ ((bigSep Finset.univ fun i : Fin ((K (F := F)).nSub 0) => td0 m d (Fin.cast (nCore_eq 0) c) (Fin.cast (nSub_eq 0) i))
          -∗ bigSep Finset.univ fun i : Fin ((K (F := F)).nSub 0) => td0 m d (Fin.cast (nCore_eq 0) c) (Fin.cast (nSub_eq 0) i)))
    iintro H; imodintro
    isplitl [H]; · iexact H
    iintro H; iexact H
  | 1 =>
    show (bigSep Finset.univ fun i : Fin ((K (F := F)).nSub 1) => go1 m d (Fin.cast (nCore_eq 1) c) (Fin.cast (nSub_eq 1) i)) ⊢ |={Set.univ}=> iprop(
      (bigSep Finset.univ fun i : Fin ((K (F := F)).nSub 1) => go1 m d (Fin.cast (nCore_eq 1) c) (Fin.cast (nSub_eq 1) i))
      ∗ ((bigSep Finset.univ fun i : Fin ((K (F := F)).nSub 1) => td1 m d (Fin.cast (nCore_eq 1) c) (Fin.cast (nSub_eq 1) i))
          -∗ bigSep Finset.univ fun i : Fin ((K (F := F)).nSub 1) => td1 m d (Fin.cast (nCore_eq 1) c) (Fin.cast (nSub_eq 1) i)))
    iintro H; imodintro
    isplitl [H]; · iexact H
    iintro H; iexact H

end Cert.Kernel.PayM

end
-- ==== Proof.TileOblB.lean ====
/-
  The two SparseCore kernels' tasks as the launch theorem asks for them, from the proof of one tile's body.
  The body's proof is stated for any shares of the arrays the tile reads and for the tile's own rows of the
  output; here it is met with what the call hands the tile, and its result is packed as what the tile hands back.
-/
import proofs.«204913_g64682207478566_cont_9to1c4b_713_31_alg».proof.Proof.PayMB

noncomputable section

namespace Cert.Kernel.TileObl

open Cert.Kernel Cert.Kernel.Gen Cert.Kernel.Common Cert.Kernel.Vals Cert.Kernel.PayM

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => 𝕄F F

abbrev cV (L : grid1.Coords) : Fin τ.nSC := (L 0).castLE hcore1
abbrev jV (L : grid1.Coords) : Fin τ.nSub := (L 1).castLE hsub1

/-- One tile's task of kernel 1, proved: from read shares of the ids, the table and the base array and the tile's
    rows of the output, to the same with the rows at base plus selected table entry. -/
abbrev Body1 (F : FTy → Type) [FloatOps F] : Prop :=
  ∀ (d : Dev nD) (L : grid1.Coords) (qi qt qb : PosShare TreeShare)
    (ids : Buf (Elt F) (loc d main_arg0)) (tbl : Buf (Elt F) (loc d main_v6)) (bs : Buf (Elt F) (loc d main_v7)) (o0 : Buf (Elt F) (loc d main_v8))
    (_hin : ∀ j, ((ids : IVec S16384 32) j).toNat ≤ 999999) (O : CellTallies nD τ sig (HIx 2)) (W : Waits sig (HIx 2)) (_hO : ∀ g, O g none = 0),
    iprop(levAts (K (F := F)).L (K (F := F)).lev ∗ emp
        ∗ ((loc d main_arg0 ↦{qi} ids) ∗ (loc d main_v6 ↦{qt} tbl) ∗ (loc d main_v7 ↦{qb} bs) ∗ (loc d main_v8 ↦[rowSet L]{fullShare} o0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_gather_body L (Memref.whole main_arg0_scv) (Memref.isWhole_whole _) (Memref.whole main_v6_scv) (Memref.isWhole_whole _)
            (Memref.whole main_v7_scv) (Memref.isWhole_whole _) (Memref.whole main_v8_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) cc1_scratch7 cc1_scratch8 cc1_scoped0 cc1_scoped1 cc1_scoped2)
          fun _ => iprop(((loc d main_arg0 ↦{qi} ids) ∗ (loc d main_v6 ↦{qt} tbl) ∗ (loc d main_v7 ↦{qb} bs)
              ∗ ∃ f : Buf (Elt F) (loc d main_v8), (loc d main_v8 ↦[rowSet L]{fullShare} f)
                  ∗ ⌜TileVal (R := 7816) (by decide) L (ids : IVec S16384 32) (bs : FVec F S16384 .f32) (tbl : FVec F S7816x128 .f32) (f : FVec F S16384 .f32)⌝)
            ∗ scopedBufs (V d (cV L) (jV L)) ∗ scopedSems0 (V d (cV L) (jV L))
            ∗ ∃ W', ⌜∀ p ∈ W', p ∈ W ∨ p.2 = none⌝ ∗ owes (V d (cV L) (jV L)) O W') : sProp (𝕄F F))

/-- One tile's task of kernel 3, proved: the same over the course ids, the course table, call 0's result and the
    final output. -/
abbrev Body3 (F : FTy → Type) [FloatOps F] : Prop :=
  ∀ (d : Dev nD) (L : grid1.Coords) (qi qt qb : PosShare TreeShare)
    (ids : Buf (Elt F) (loc d main_arg1)) (tbl : Buf (Elt F) (loc d main_v11)) (bs : Buf (Elt F) (loc d main_v8)) (o0 : Buf (Elt F) (loc d main_v12))
    (_hin : ∀ j, ((ids : IVec S16384 32) j).toNat ≤ 99999) (O : CellTallies nD τ sig (HIx 2)) (W : Waits sig (HIx 2)) (_hO : ∀ g, O g none = 0),
    iprop(levAts (K (F := F)).L (K (F := F)).lev ∗ emp
        ∗ ((loc d main_arg1 ↦{qi} ids) ∗ (loc d main_v11 ↦{qt} tbl) ∗ (loc d main_v8 ↦{qb} bs) ∗ (loc d main_v12 ↦[rowSet L]{fullShare} o0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc3__sc_gather_body L (Memref.whole main_arg1_scv) (Memref.isWhole_whole _) (Memref.whole main_v11_scv) (Memref.isWhole_whole _)
            (Memref.whole main_v8_scv) (Memref.isWhole_whole _) (Memref.whole main_v12_scv) (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) cc3_scratch7 cc3_scratch8 cc3_scoped0 cc3_scoped1 cc3_scoped2)
          fun _ => iprop(((loc d main_arg1 ↦{qi} ids) ∗ (loc d main_v11 ↦{qt} tbl) ∗ (loc d main_v8 ↦{qb} bs)
              ∗ ∃ f : Buf (Elt F) (loc d main_v12), (loc d main_v12 ↦[rowSet L]{fullShare} f)
                  ∗ ⌜TileVal (R := 784) (by decide) L (ids : IVec S16384 32) (bs : FVec F S16384 .f32) (tbl : FVec F S784x128 .f32) (f : FVec F S16384 .f32)⌝)
            ∗ scopedBufs (V d (cV L) (jV L)) ∗ scopedSems0 (V d (cV L) (jV L))
            ∗ ∃ W', ⌜∀ p ∈ W', p ∈ W ∨ p.2 = none⌝ ∗ owes (V d (cV L) (jV L)) O W') : sProp (𝕄F F))

variable (m : (ℓ : Loc nD τ sig) → Buf (Elt F) ℓ)

/-- What the proof asks of the launch memory: the ids name rows of their tables. -/
def PreOK : Prop :=
  (∀ (d : Dev nD) j, ((m (loc d main_arg0) : IVec S16384 32) j).toNat ≤ 999999) ∧ (∀ (d : Dev nD) j, ((m (loc d main_arg1) : IVec S16384 32) j).toNat ≤ 99999)

theorem defs₀_k1 (c : Fin τ.nSC) (s : Fin τ.nSub) :
    defs₀ (F := F) (.scVector c s) 1 ()
      = SparseCore.onTile hcore1 hsub1 (fun c s => cc1__sc_gather_body (fun | 0 => c | 1 => s | ⟨_ + 2, h⟩ => absurd h (Nat.not_lt.2 (Nat.le_add_left _ _)))
          (Memref.whole main_arg0_scv) (Memref.isWhole_whole _) (Memref.whole main_v6_scv) (Memref.isWhole_whole _)
          (Memref.whole main_v7_scv) (Memref.isWhole_whole _) (Memref.whole main_v8_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _) cc1_scratch7 cc1_scratch8 cc1_scoped0 cc1_scoped1 cc1_scoped2) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem td0_intro (d : Dev nD) (c : Fin 2) (s : Fin 16) (f : Buf (Elt F) (loc d main_v8)) (h : Acc8 m d (coords c s) f) :
    (loc d main_v8 ↦[rowSet (coords c s)]{fullShare} f : sProp 𝕄) ⊢ td0 m d c s := by
  unfold td0
  iintro H
  iexists f; isplitl [H]; · iexact H
  ipureintro; exact h

theorem td1_intro (d : Dev nD) (c : Fin 2) (s : Fin 16) (f : Buf (Elt F) (loc d main_v12)) (h : Out12 m d (coords c s) f) :
    (loc d main_v12 ↦[rowSet (coords c s)]{fullShare} f : sProp 𝕄) ⊢ td1 m d c s := by
  unfold td1
  iintro H
  iexists f; isplitl [H]; · iexact H
  ipureintro; exact h

set_option maxRecDepth 16384 in
theorem tileObl0 (hb : Body1 F) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_k1]; simp only [SparseCore.onTile, hci, and_self, ↓reduceDIte]
  show iprop(levAts (K (F := F)).L (K (F := F)).lev ∗ emp ∗ go0 m d (Fin.cast (nCore_eq 0) c) (Fin.cast (nSub_eq 0) i) ∗ _ ∗ _ ∗ _) ⊢ _
  unfold go0
  iintro ⟨#Hlv, -, ⟨Hi, ⟨%tbl, Ht, %hT⟩, Hb, Ho⟩, Hbufs, Hsems, HO⟩
  iapply (wp_mono frame _ _ fun _ => obl_post (q := (0 : Fin 2)))
  iapply (wp_wand_r frame _ Set.univ)
  isplitl [Hi Ht Hb Ho Hbufs Hsems HO]
  · iapply (hb d (coords (Fin.cast (nCore_eq 0) c) (Fin.cast (nSub_eq 0) i)) _ _ _ _ tbl _ _ (hpre.1 d) O W hO)
    isplitr; · iexact Hlv
    isplitr; · iempintro
    isplitl [Hi Ht Hb Ho]
    · isplitl [Hi]; · iexact Hi
      isplitl [Ht]; · iexact Ht
      isplitl [Hb]; · iexact Hb
      iexact Ho
    isplitl [Hbufs]; · iexact Hbufs
    isplitl [Hsems]; · iexact Hsems
    iexact HO
  iintro %_ ⟨⟨-, -, -, %f, Hf, %hf⟩, Hbufs, Hsems, HW⟩
  isplitl [Hf]
  · iapply (show (loc d main_v8 ↦[rowSet (coords (Fin.cast (nCore_eq 0) c) (Fin.cast (nSub_eq 0) i))]{fullShare} f : sProp 𝕄) ⊢ (P m).td 0 d c i from
      td0_intro m d _ _ f ⟨tbl, hT, hf⟩)
    iexact Hf
  isplitl [Hbufs]; · iexact Hbufs
  isplitl [Hsems]; · iexact Hsems
  iexact HW

theorem defs₀_k3 (c : Fin τ.nSC) (s : Fin τ.nSub) :
    defs₀ (F := F) (.scVector c s) 3 ()
      = SparseCore.onTile hcore3 hsub3 (fun c s => cc3__sc_gather_body (fun | 0 => c | 1 => s | ⟨_ + 2, h⟩ => absurd h (Nat.not_lt.2 (Nat.le_add_left _ _)))
          (Memref.whole main_arg1_scv) (Memref.isWhole_whole _) (Memref.whole main_v11_scv) (Memref.isWhole_whole _)
          (Memref.whole main_v8_scv) (Memref.isWhole_whole _) (Memref.whole main_v12_scv) (Memref.isWhole_whole _)
          (Memref.whole cc3_scratch0) (Memref.isWhole_whole _) (Memref.whole cc3_scratch1) (Memref.isWhole_whole _)
          (Memref.whole cc3_scratch2) (Memref.isWhole_whole _) (Memref.whole cc3_scratch3) (Memref.isWhole_whole _)
          (Memref.whole cc3_scratch4) (Memref.isWhole_whole _) (Memref.whole cc3_scratch5) (Memref.isWhole_whole _)
          (Memref.whole cc3_scratch6) (Memref.isWhole_whole _) cc3_scratch7 cc3_scratch8 cc3_scoped0 cc3_scoped1 cc3_scoped2) ⟨⟩ c s := rfl

set_option maxRecDepth 16384 in
theorem tileObl1 (hb : Body3 F) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_k3]; simp only [SparseCore.onTile, hci, and_self, ↓reduceDIte]
  show iprop(levAts (K (F := F)).L (K (F := F)).lev ∗ emp ∗ go1 m d (Fin.cast (nCore_eq 1) c) (Fin.cast (nSub_eq 1) i) ∗ _ ∗ _ ∗ _) ⊢ _
  unfold go1
  iintro ⟨#Hlv, -, ⟨Hi, ⟨%tbl, Ht, %hT⟩, ⟨%bs, Hb, %hB⟩, Ho⟩, Hbufs, Hsems, HO⟩
  iapply (wp_mono frame _ _ fun _ => obl_post (q := (1 : Fin 2)))
  iapply (wp_wand_r frame _ Set.univ)
  isplitl [Hi Ht Hb Ho Hbufs Hsems HO]
  · iapply (hb d (coords (Fin.cast (nCore_eq 1) c) (Fin.cast (nSub_eq 1) i)) _ _ _ _ tbl bs _ (hpre.2 d) O W hO)
    isplitr; · iexact Hlv
    isplitr; · iempintro
    isplitl [Hi Ht Hb Ho]
    · isplitl [Hi]; · iexact Hi
      isplitl [Ht]; · iexact Ht
      isplitl [Hb]; · iexact Hb
      iexact Ho
    isplitl [Hbufs]; · iexact Hbufs
    isplitl [Hsems]; · iexact Hsems
    iexact HO
  iintro %_ ⟨⟨-, -, -, %f, Hf, %hf⟩, Hbufs, Hsems, HW⟩
  isplitl [Hf]
  · iapply (show (loc d main_v12 ↦[rowSet (coords (Fin.cast (nCore_eq 1) c) (Fin.cast (nSub_eq 1) i))]{fullShare} f : sProp 𝕄) ⊢ (P m).td 1 d c i from
      td1_intro m d _ _ f ⟨tbl, bs, hT, hB, hf⟩)
    iexact Hf
  isplitl [Hbufs]; · iexact Hbufs
  isplitl [Hsems]; · iexact Hsems
  iexact HW

end Cert.Kernel.TileObl

end
-- ==== Proof.HMainB.lean ====
/-
  @main on the TensorCore, through the launch theorem's eyes: five host operations, TensorCore region 0, a reshape
  and the bias broadcast, SparseCore call 0, a transpose, TensorCore region 1, a reshape, SparseCore call 1.
  The arrays are held one by one.  Of each id array the TensorCore keeps a half share for itself and hands the
  other half to the call's tiles; the tables, the bias and call 0's result it hands out whole.  What comes back
  from a call is the result array with the pure fact about its contents.
-/
import proofs.«204913_g64682207478566_cont_9to1c4b_713_31_alg».proof.Proof.PayMB
import proofs.«204913_g64682207478566_cont_9to1c4b_713_31_alg».proof.Proof.HloStep
import proofs.«204913_g64682207478566_cont_9to1c4b_713_31_alg».proof.Proof.Gen.Kernel.Launch

noncomputable section

namespace Cert.Kernel.HMain

open Cert.Kernel Cert.Kernel.Gen Cert.Kernel.Common Cert.Kernel.Vals Cert.Kernel.PayM

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Shares

variable {F : FTy → Type} [FloatOps F]

local notation "𝕄" => 𝕄F F

variable (m : (ℓ : Loc nD τ sig) → Buf (Elt F) ℓ) (ρ : Dev nD → PrngReg)

/-- The TensorCore's arrays, one by one. -/
theorem unscopedBufs_eq (d : Dev nD) (W : (b : Ref sig .tc) → Buf (Elt F) ((d.tc : Thread nD τ).loc b)) :
    (unscopedBufs d W : sProp 𝕄) = iprop((loc d main_arg0 ↦{fullShare} W main_arg0) ∗ (loc d main_arg1 ↦{fullShare} W main_arg1)
      ∗ (loc d main_arg2 ↦{fullShare} W main_arg2) ∗ (loc d main_arg3 ↦{fullShare} W main_arg3) ∗ (loc d main_arg4 ↦{fullShare} W main_arg4)
      ∗ (loc d main_arg5 ↦{fullShare} W main_arg5) ∗ (loc d main_v0 ↦{fullShare} W main_v0) ∗ (loc d main_v1 ↦{fullShare} W main_v1)
      ∗ (loc d main_v2 ↦{fullShare} W main_v2) ∗ (loc d main_v3 ↦{fullShare} W main_v3) ∗ (loc d main_v4 ↦{fullShare} W main_v4)
      ∗ (loc d main_v5 ↦{fullShare} W main_v5) ∗ (loc d main_v6 ↦{fullShare} W main_v6) ∗ (loc d main_v7 ↦{fullShare} W main_v7)
      ∗ (loc d main_v8 ↦{fullShare} W main_v8) ∗ (loc d main_v9 ↦{fullShare} W main_v9) ∗ (loc d main_v10 ↦{fullShare} W main_v10)
      ∗ (loc d main_v11 ↦{fullShare} W main_v11) ∗ (loc d main_v12 ↦{fullShare} W main_v12)) := by
  unfold unscopedBufs
  rw [show (Finset.univ.filter fun b : Ref sig .tc => ¬ b.isScoped) = {main_arg0, main_arg1, main_arg2, main_arg3, main_arg4, main_arg5, main_v0, main_v1, main_v2,
      main_v3, main_v4, main_v5, main_v6, main_v7, main_v8, main_v9, main_v10, main_v11, main_v12} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What the TensorCore owes before call `n`, with its bound on the recorded pairs. -/
abbrev tcOwes (d : Dev nD) (n : ℕ) : sProp 𝕄 :=
  iprop(∃ W, ⌜(K (F := F)).WBelow (SparseCore.T d) W (8 * n)⌝ ∗ owes (SparseCore.T d) ((K (F := F)).Otc d n) W)

/-- TensorCore region 0, proved: from the transposed user table, the first weight row and the output array, through the
    62 grid points, to the output array at the blocks' payloads. -/
abbrev Region0 (F : FTy → Type) [FloatOps F] : Prop :=
  ∀ (lv : GSem nD τ sig → HIx 2 → ℕ) (_hlv : (K (F := F)).Refines lv) (d : Dev nD) (X4 : S100x1000000.Idx → F .f32) (W1 : S1x100.Idx → F .f32)
    (Φ : PUnit → sProp (𝕄F F)),
    iprop(levAts (K (F := F)).L lv ∗ boundary (SparseCore.T d) ∗ tcOwes d 0
        ∗ Pipeline.cellsGhost cfgs EP 0 d ∗ Pipeline.toksInit cfgs EP 0 d
        ∗ (loc d main_v4 ↦{fullShare} X4) ∗ (loc d main_v1 ↦{fullShare} W1) ∗ (∃ f, loc d main_v5 ↦{fullShare} f)
        ∗ (∀ f5, ⌜Reg0Val W1 X4 f5⌝ -∗ iprop(boundary (SparseCore.T d) ∗ tcOwes d 0 ∗ (loc d main_v4 ↦{fullShare} X4) ∗ (loc d main_v1 ↦{fullShare} W1)
            ∗ (loc d main_v5 ↦{fullShare} f5)) -∗ Φ ⟨⟩))
      ⊢ wp frame (wpE ((K (F := F)).defs (D (F := F))) 𝒱 (SparseCore.T d) none) Set.univ (Prog.lift (.customCall (SparseCore.inner (Pipeline.entry 0)) ())) Φ

/-- TensorCore region 1, proved. -/
abbrev Region1 (F : FTy → Type) [FloatOps F] : Prop :=
  ∀ (lv : GSem nD τ sig → HIx 2 → ℕ) (_hlv : (K (F := F)).Refines lv) (d : Dev nD) (X9 : S100x100000.Idx → F .f32) (W3 : S1x100.Idx → F .f32)
    (Φ : PUnit → sProp (𝕄F F)),
    iprop(levAts (K (F := F)).L lv ∗ boundary (SparseCore.T d) ∗ tcOwes d 1
        ∗ Pipeline.cellsGhost cfgs EP 1 d ∗ Pipeline.toksInit cfgs EP 1 d
        ∗ (loc d main_v9 ↦{fullShare} X9) ∗ (loc d main_v3 ↦{fullShare} W3) ∗ (∃ f, loc d main_v10 ↦{fullShare} f)
        ∗ (∀ f10, ⌜Reg1Val W3 X9 f10⌝ -∗ iprop(boundary (SparseCore.T d) ∗ tcOwes d 1 ∗ (loc d main_v9 ↦{fullShare} X9) ∗ (loc d main_v3 ↦{fullShare} W3)
            ∗ (loc d main_v10 ↦{fullShare} f10)) -∗ Φ ⟨⟩))
      ⊢ wp frame (wpE ((K (F := F)).defs (D (F := F))) 𝒱 (SparseCore.T d) none) Set.univ (Prog.lift (.customCall (SparseCore.inner (Pipeline.entry 1)) ())) Φ

/-- The split of call `q`'s operands among the tiles, and the join of their results. -/
abbrev Split0 (F : FTy → Type) [FloatOps F] (m : (ℓ : Loc nD τ sig) → Buf (Elt F) ℓ) : Prop :=
  ∀ (d : Dev nD) (tbl : Buf (Elt F) (loc d main_v6)) (_hT : Tbl6 m d tbl),
    iprop((loc d main_arg0 ↦{fullShare.right} m (loc d main_arg0)) ∗ (loc d main_v6 ↦{fullShare} tbl)
        ∗ (loc d main_v7 ↦{fullShare} (B7 m d : Buf (Elt F) (loc d main_v7))) ∗ (loc d main_v8 ↦{fullShare} m (loc d main_v8)))
      ⊢ (bigSep Finset.univ fun c : Fin ((K (F := F)).nCore 0) => (P m).st 0 d c : sProp (𝕄F F))
abbrev Join0 (F : FTy → Type) [FloatOps F] (m : (ℓ : Loc nD τ sig) → Buf (Elt F) ℓ) : Prop :=
  ∀ (d : Dev nD), (bigSep Finset.univ fun c : Fin ((K (F := F)).nCore 0) => (P m).dn 0 d c : sProp (𝕄F F))
      ⊢ iprop(∃ f : Buf (Elt F) (loc d main_v8), (loc d main_v8 ↦{fullShare} f) ∗ ⌜Acc8All m d f⌝)
abbrev Split1 (F : FTy → Type) [FloatOps F] (m : (ℓ : Loc nD τ sig) → Buf (Elt F) ℓ) : Prop :=
  ∀ (d : Dev nD) (tbl : Buf (Elt F) (loc d main_v11)) (_hT : Tbl11 m d tbl) (bs : Buf (Elt F) (loc d main_v8)) (_hB : Acc8All m d bs),
    iprop((loc d main_arg1 ↦{fullShare.right} m (loc d main_arg1)) ∗ (loc d main_v11 ↦{fullShare} tbl)
        ∗ (loc d main_v8 ↦{fullShare} bs) ∗ (loc d main_v12 ↦{fullShare} m (loc d main_v12)))
      ⊢ (bigSep Finset.univ fun c : Fin ((K (F := F)).nCore 1) => (P m).st 1 d c : sProp (𝕄F F))
abbrev Join1 (F : FTy → Type) [FloatOps F] (m : (ℓ : Loc nD τ sig) → Buf (Elt F) ℓ) : Prop :=
  ∀ (d : Dev nD), (bigSep Finset.univ fun c : Fin ((K (F := F)).nCore 1) => (P m).dn 1 d c : sProp (𝕄F F))
      ⊢ iprop(∃ f : Buf (Elt F) (loc d main_v12), (loc d main_v12 ↦{fullShare} f) ∗ ⌜Out12All m d f⌝)

/-- What the launch funds for @main: the two regions' staging cells and duty tokens. -/
def G (d : Dev nD) : sProp 𝕄 :=
  iprop(Pipeline.cellsGhost cfgs EP 0 d ∗ Pipeline.toksInit cfgs EP 0 d ∗ Pipeline.cellsGhost cfgs EP 1 d ∗ Pipeline.toksInit cfgs EP 1 d)

/-- What @main ends with: the arguments at the launch contents, the result at the two calls' value. -/
def FIN (d : Dev nD) : sProp 𝕄 :=
  iprop((loc d main_arg0 ↦{fullShare.left} m (loc d main_arg0)) ∗ (loc d main_arg1 ↦{fullShare.left} m (loc d main_arg1))
    ∗ (loc d main_arg2 ↦{fullShare} m (loc d main_arg2)) ∗ (loc d main_arg3 ↦{fullShare} m (loc d main_arg3))
    ∗ (loc d main_arg4 ↦{fullShare} m (loc d main_arg4)) ∗ (loc d main_arg5 ↦{fullShare} m (loc d main_arg5))
    ∗ ∃ f : Buf (Elt F) (loc d main_v12), (loc d main_v12 ↦{fullShare} f) ∗ ⌜Out12All m d f⌝)

theorem tcSt_split (d : Dev nD) (n : ℕ) : ((K (F := F)).tcSt EH d n : sProp 𝕄) = iprop(tcOwes d n
    ∗ atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1))) := rfl

set_option maxRecDepth 16384 in
theorem hmain (hr0 : Region0 F) (hr1 : Region1 F) (hs0 : Split0 F m) (hj0 : Join0 F m) (hs1 : Split1 F m) (hj1 : Join1 F m)
    (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d) := by
  unfold SparseCore.Cfg.tcRes G
  rw [unscopedBufs_eq, tcSt_split]
  simp only [main, wp_bind, wp_pure]
  iintro ⟨#Hctx, ⟨HO, Hst⟩, ⟨Hb, ⟨Ha0, Ha1, Ha2, Ha3, Ha4, Ha5, Hv0, Hv1, Hv2, Hv3, Hv4, Hv5, Hv6, Hv7, Hv8, Hv9, Hv10, Hv11, Hv12⟩, -, -⟩, ⟨Hg0, Ht0, Hg1, Ht1⟩⟩
  ihave Hlev := (SparseCore.Cfg.ctx_levAts κ) $$ Hctx
  -- the two halves of the weight column as rows; the user table transposed
  iapply (Cert.Proof.HloStep.wp_unary 𝒱 (SparseCore.T d) none Set.univ main_arg4 main_v0 _ _ _ (by decide) (fun b => m (d, b)) fullShare _ _) $$ [Hb Ha4 Hv0]
  · isplitl [Hb]; · iexact Hb
    isplitl [Ha4]; · iexact Ha4
    iexact Hv0
  iintro ⟨Hb, Ha4, Hv0⟩; rw [wp_ret]; imodintro
  iapply (Cert.Proof.HloStep.wp_unary 𝒱 (SparseCore.T d) none Set.univ main_v0 main_v1 _ _ _ (by decide) (fun b => m (d, b)) fullShare _ _) $$ [Hb Hv0 Hv1]
  · isplitl [Hb]; · iexact Hb
    isplitl [Hv0]; · iexact Hv0
    iexact Hv1
  iintro ⟨Hb, Hv0, Hv1⟩; rw [wp_ret]; imodintro
  iapply (Cert.Proof.HloStep.wp_unary 𝒱 (SparseCore.T d) none Set.univ main_arg4 main_v2 _ _ _ (by decide) (fun b => m (d, b)) fullShare _ _) $$ [Hb Ha4 Hv2]
  · isplitl [Hb]; · iexact Hb
    isplitl [Ha4]; · iexact Ha4
    iexact Hv2
  iintro ⟨Hb, Ha4, Hv2⟩; rw [wp_ret]; imodintro
  iapply (Cert.Proof.HloStep.wp_unary 𝒱 (SparseCore.T d) none Set.univ main_v2 main_v3 _ _ _ (by decide) (fun b => m (d, b)) fullShare _ _) $$ [Hb Hv2 Hv3]
  · isplitl [Hb]; · iexact Hb
    isplitl [Hv2]; · iexact Hv2
    iexact Hv3
  iintro ⟨Hb, Hv2, Hv3⟩; rw [wp_ret]; imodintro
  iapply (Cert.Proof.HloStep.wp_unary 𝒱 (SparseCore.T d) none Set.univ main_arg2 main_v4 _ _ _ (by decide) (fun b => m (d, b)) fullShare _ _) $$ [Hb Ha2 Hv4]
  · isplitl [Hb]; · iexact Hb
    isplitl [Ha2]; · iexact Ha2
    iexact Hv4
  iintro ⟨Hb, Ha2, Hv4⟩; rw [wp_ret]; imodintro
  -- region 0: the user table projected
  iapply (wp_wand_r frame _ Set.univ)
  isplitl [Hb HO Hg0 Ht0 Hv4 Hv1 Hv5]
  · iapply (hr0 (K (F := F)).lev (by sl_refines_lev) d (X4 m d) (W1 m d)
      (fun _ => iprop(∃ f5 : Buf (Elt F) (loc d main_v5), ⌜Reg0Val (W1 m d) (X4 m d) f5⌝ ∗ boundary (SparseCore.T d) ∗ tcOwes d 0
        ∗ (loc d main_v4 ↦{fullShare} (X4 m d : Buf (Elt F) (loc d main_v4))) ∗ (loc d main_v1 ↦{fullShare} (W1 m d : Buf (Elt F) (loc d main_v1))) ∗ (loc d main_v5 ↦{fullShare} f5))))
    isplitr; · iexact Hlev
    isplitl [Hb]; · iexact Hb
    isplitl [HO]; · iexact HO
    isplitl [Hg0]; · iexact Hg0
    isplitl [Ht0]; · iexact Ht0
    isplitl [Hv4]; · iexact Hv4
    isplitl [Hv1]; · iexact Hv1
    isplitl [Hv5]; · iexists _; iexact Hv5
    iintro %f5 %hR H
    iexists f5; isplitr; · ipureintro; exact hR
    iexact H
  iintro %_ ⟨%f5, %hR5, Hb, HO, Hv4, Hv1, Hv5⟩
  iapply (Cert.Proof.HloStep.wp_reshape 𝒱 (SparseCore.T d) none Set.univ main_v5 main_v6 _ _ _ _ (by decide) (fun b => m (d, b)) fullShare _ _) $$ [Hb Hv5 Hv6]
  · isplitl [Hb]; · iexact Hb
    isplitl [Hv5]; · iexact Hv5
    iexact Hv6
  iintro ⟨Hb, Hv5, Hv6⟩; rw [wp_ret]; imodintro
  iapply (Cert.Proof.HloStep.wp_unary 𝒱 (SparseCore.T d) none Set.univ main_arg5 main_v7 _ _ _ (by decide) (fun b => m (d, b)) fullShare _ _) $$ [Hb Ha5 Hv7]
  · isplitl [Hb]; · iexact Hb
    isplitl [Ha5]; · iexact Ha5
    iexact Hv7
  iintro ⟨Hb, Ha5, Hv7⟩; rw [wp_ret]; imodintro
  -- call 0
  ihave H := (pointsTo_share (PosShare.mem_left_op_right fullShare)).1 $$ Ha0
  icases H with ⟨Ha0l, Ha0r⟩
  iapply ((K (F := F)).wp_run (D (F := F)) 𝒱 (EH := EH) (P := P m) κ d 0) $$ [HO Hst Ha0l Ha0r Ha1 Ha2 Ha3 Ha4 Ha5 Hb Hv6 Hv7 Hv8 Hv9 Hv3 Hv10 Hv11 Hv12 Hg1 Ht1]
  isplitr; · iexact Hctx
  isplitl [HO Hst]
  · rw [tcSt_split]; isplitl [HO]; · iexact HO
    iexact Hst
  isplitl [Ha0r Hv6 Hv7 Hv8]
  · iapply (hs0 d _ ⟨f5, hR5, rfl⟩)
    isplitl [Ha0r]; · iexact Ha0r
    isplitl [Hv6]; · iexact Hv6
    isplitl [Hv7]; · iexact Hv7
    iexact Hv8
  iintro ⟨Hst, Hdn⟩
  ihave H := (hj0 d) $$ Hdn
  icases H with ⟨%f8, Hv8, %hA8⟩
  ihave H := (Entails.of_eq (tcSt_split (F := F) d ((0 : Fin 2).val + 1))) $$ Hst
  icases H with ⟨HO, Hst⟩
  -- the course table transposed; region 1
  iapply (Cert.Proof.HloStep.wp_unary 𝒱 (SparseCore.T d) none Set.univ main_arg3 main_v9 _ _ _ (by decide) (fun b => m (d, b)) fullShare _ _) $$ [Hb Ha3 Hv9]
  · isplitl [Hb]; · iexact Hb
    isplitl [Ha3]; · iexact Ha3
    iexact Hv9
  iintro ⟨Hb, Ha3, Hv9⟩; rw [wp_ret]; imodintro
  iapply (wp_wand_r frame _ Set.univ)
  isplitl [Hb HO Hg1 Ht1 Hv9 Hv3 Hv10]
  · iapply (hr1 (K (F := F)).lev (by sl_refines_lev) d (X9 m d) (W3 m d)
      (fun _ => iprop(∃ f10 : Buf (Elt F) (loc d main_v10), ⌜Reg1Val (W3 m d) (X9 m d) f10⌝ ∗ boundary (SparseCore.T d) ∗ tcOwes d 1
        ∗ (loc d main_v9 ↦{fullShare} (X9 m d : Buf (Elt F) (loc d main_v9))) ∗ (loc d main_v3 ↦{fullShare} (W3 m d : Buf (Elt F) (loc d main_v3))) ∗ (loc d main_v10 ↦{fullShare} f10))))
    isplitr; · iexact Hlev
    isplitl [Hb]; · iexact Hb
    isplitl [HO]; · iexact HO
    isplitl [Hg1]; · iexact Hg1
    isplitl [Ht1]; · iexact Ht1
    isplitl [Hv9]; · iexact Hv9
    isplitl [Hv3]; · iexact Hv3
    isplitl [Hv10]; · iexists _; iexact Hv10
    iintro %f10 %hR H
    iexists f10; isplitr; · ipureintro; exact hR
    iexact H
  iintro %_ ⟨%f10, %hR10, Hb, HO, Hv9, Hv3, Hv10⟩
  iapply (Cert.Proof.HloStep.wp_reshape 𝒱 (SparseCore.T d) none Set.univ main_v10 main_v11 _ _ _ _ (by decide) (fun b => m (d, b)) fullShare _ _) $$ [Hb Hv10 Hv11]
  · isplitl [Hb]; · iexact Hb
    isplitl [Hv10]; · iexact Hv10
    iexact Hv11
  iintro ⟨Hb, Hv10, Hv11⟩; rw [wp_ret]; imodintro
  -- call 1
  ihave H := (pointsTo_share (PosShare.mem_left_op_right fullShare)).1 $$ Ha1
  icases H with ⟨Ha1l, Ha1r⟩
  iapply ((K (F := F)).wp_run (D (F := F)) 𝒱 (EH := EH) (P := P m) κ d 1) $$ [HO Hst Ha0l Ha1l Ha1r Ha2 Ha3 Ha4 Ha5 Hv8 Hv11 Hv12]
  isplitr; · iexact Hctx
  isplitl [HO Hst]
  · rw [tcSt_split]; isplitl [HO]; · iexact HO
    iexact Hst
  isplitl [Ha1r Hv11 Hv8 Hv12]
  · iapply (hs1 d _ ⟨f10, hR10, rfl⟩ f8 hA8)
    isplitl [Ha1r]; · iexact Ha1r
    isplitl [Hv11]; · iexact Hv11
    isplitl [Hv8]; · iexact Hv8
    iexact Hv12
  iintro ⟨Hst, Hdn⟩
  ihave H := (hj1 d) $$ Hdn
  icases H with ⟨%f12, Hv12, %hA12⟩
  imodintro
  isplitl [Hst]; · iexact Hst
  unfold FIN
  isplitl [Ha0l]; · iexact Ha0l
  isplitl [Ha1l]; · iexact Ha1l
  isplitl [Ha2]; · iexact Ha2
  isplitl [Ha3]; · iexact Ha3
  isplitl [Ha4]; · iexact Ha4
  isplitl [Ha5]; · iexact Ha5
  iexists f12; isplitl [Hv12]; · iexact Hv12
  ipureintro; exact hA12

end Cert.Kernel.HMain

end
-- ==== Proof.RunB.lean ====
/-
  The whole program's run: the launch theorem applied to the tiles' tasks, the trivial split, @main's proof, the
  launch element (handshakes' rounds; the two regions' staging cells funded; counters) and the reading of the final
  memory: the six arguments unchanged, the result array at the two calls' value on every tile's rows.
-/
import proofs.«204913_g64682207478566_cont_9to1c4b_713_31_alg».proof.Proof.HMainB
import proofs.«204913_g64682207478566_cont_9to1c4b_713_31_alg».proof.Proof.TileOblB

noncomputable section

namespace Cert.Kernel.Run

open Cert.Kernel Cert.Kernel.Gen Cert.Kernel.Common Cert.Kernel.Vals Cert.Kernel.PayM Cert.Kernel.HMain Cert.Kernel.TileObl

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => 𝕄F F

variable (m : (ℓ : Loc nD τ sig) → Buf (Elt F) ℓ) (ρ : Dev nD → PrngReg)

/-! ## The launch element -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch element: the handshakes' rounds, the staging cells' rounds, the counters. -/
def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem bigSep_two (Φ : Fin 2 → sProp 𝕄) : bigSep Finset.univ Φ = iprop(Φ 0 ∗ Φ 1) :=
  bigSep_univ_eq_bigSepL [(0 : Fin 2), (1 : Fin 2)] (by decide) (by decide) Φ

theorem ghost_one (c : Dev nD) :
    iprop((bigSep Finset.univ fun p : Fin 2 => Pipeline.cellsGhost cfgs (EP (F := F)) p c)
        ∗ (bigSep Finset.univ fun p : Fin 2 => (Pipeline.toksInit cfgs (EP (F := F)) p c : sProp 𝕄)))
      ⊢ (G (F := F) c : sProp 𝕄) := by
  rw [bigSep_two, bigSep_two]; unfold G
  iintro ⟨⟨Hg0, Hg1⟩, ⟨Ht0, Ht1⟩⟩
  isplitl [Hg0]; · iexact Hg0
  isplitl [Ht0]; · iexact Ht0
  isplitl [Hg1]; · iexact Hg1
  iexact Ht1

/-- The funded staging cells and duty tokens, regrouped per device. -/
theorem ghost_G :
    iprop((bigSep Finset.univ fun c : Dev nD => bigSep Finset.univ fun p : Fin 2 => Pipeline.cellsGhost cfgs (EP (F := F)) p c)
        ∗ (bigSep Finset.univ fun c : Dev nD => bigSep Finset.univ fun p : Fin 2 => (Pipeline.toksInit cfgs (EP (F := F)) p c : sProp 𝕄)))
      ⊢ (bigSep Finset.univ fun c : Dev nD => G (F := F) c : sProp 𝕄) := by
  rw [← bigSep_sep']
  exact bigSep_mono fun c _ => ghost_one c

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HR⟩
  ihave H2 := (own_pair_emb (embR : Emb (UP × Counters) 𝕄) (initOf (Pipeline.cells cfgs cellOf_inj) (Pipeline.launchToks cfgs cellOf_inj)) (1 : Counters)) $$ HR
  icases H2 with ⟨HP, -⟩
  ihave HP' := (show (BI.own (((Emb.inl : Emb UP (UP × Counters)).trans (embR : Emb (UP × Counters) 𝕄)) (initOf (Pipeline.cells cfgs cellOf_inj) (Pipeline.launchToks cfgs cellOf_inj))) : sProp 𝕄)
      ⊢ BI.own ((EP (F := F)) (initOf (Pipeline.cells cfgs cellOf_inj) (Pipeline.launchToks cfgs cellOf_inj))) from BI.Entails.refl _) $$ HP
  imod (Pipeline.fund_ghost (nD := nD) (τ := τ) cfgs (EP (F := F)) cellOf_inj) $$ HP' with ⟨Hg, Ht⟩
  imodintro
  isplitl [HH]; · iexact HH
  isplitl [Hg Ht]
  · iapply (ghost_G (F := F))
    isplitl [Hg]; · iexact Hg
    iexact Ht
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

/-! ## What the final memory says -/

def fq (d : Dev nD) (s' : Phys nD τ sig (Elt F)) : Prop :=
  s'.mem.mem (loc d main_arg0) = m (loc d main_arg0) ∧ s'.mem.mem (loc d main_arg1) = m (loc d main_arg1)
  ∧ s'.mem.mem (loc d main_arg2) = m (loc d main_arg2) ∧ s'.mem.mem (loc d main_arg3) = m (loc d main_arg3)
  ∧ s'.mem.mem (loc d main_arg4) = m (loc d main_arg4) ∧ s'.mem.mem (loc d main_arg5) = m (loc d main_arg5)
  ∧ Out12All m d (s'.mem.mem (loc d main_v12))

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, H2, H3, H4, H5, %f, H12, %hf⟩, HSI⟩
  ihave H := (persistent_entails_right (SI_pointsTo_agree (st := s') (ℓ := loc d main_arg0) (I := Finset.univ) (q := fullShare.left) (f := m (loc d main_arg0)))) $$ [HSI H0]
  · isplitl [HSI] <;> iassumption
  icases H with ⟨%h0, HSI, -⟩
  ihave H := (persistent_entails_right (SI_pointsTo_agree (st := s') (ℓ := loc d main_arg1) (I := Finset.univ) (q := fullShare.left) (f := m (loc d main_arg1)))) $$ [HSI H1]
  · isplitl [HSI] <;> iassumption
  icases H with ⟨%h1, HSI, -⟩
  ihave H := (persistent_entails_right (SI_pointsTo_agree (st := s') (ℓ := loc d main_arg2) (I := Finset.univ) (q := fullShare) (f := m (loc d main_arg2)))) $$ [HSI H2]
  · isplitl [HSI] <;> iassumption
  icases H with ⟨%h2, HSI, -⟩
  ihave H := (persistent_entails_right (SI_pointsTo_agree (st := s') (ℓ := loc d main_arg3) (I := Finset.univ) (q := fullShare) (f := m (loc d main_arg3)))) $$ [HSI H3]
  · isplitl [HSI] <;> iassumption
  icases H with ⟨%h3, HSI, -⟩
  ihave H := (persistent_entails_right (SI_pointsTo_agree (st := s') (ℓ := loc d main_arg4) (I := Finset.univ) (q := fullShare) (f := m (loc d main_arg4)))) $$ [HSI H4]
  · isplitl [HSI] <;> iassumption
  icases H with ⟨%h4, HSI, -⟩
  ihave H := (persistent_entails_right (SI_pointsTo_agree (st := s') (ℓ := loc d main_arg5) (I := Finset.univ) (q := fullShare) (f := m (loc d main_arg5)))) $$ [HSI H5]
  · isplitl [HSI] <;> iassumption
  icases H with ⟨%h5, HSI, -⟩
  ihave H := (SI_pointsTo_agree (st := s') (ℓ := loc d main_v12) (I := Finset.univ) (q := fullShare) (f := f)) $$ [HSI H12]
  · isplitl [HSI] <;> iassumption
  icases H with %h12
  ipureintro
  have e12 : s'.mem.mem (loc d main_v12) = f := funext fun i => h12 i (Finset.mem_univ i)
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i), e12.symm ▸ hf⟩

/-! ## The run -/

/-- Every final memory: the arguments unchanged, the result at the calls' value. -/
def QC : PUnit × MemSt nD τ sig (Elt F) → Prop := fun r => ∀ c : Dev nD,
  r.2.mem (loc c main_arg0) = m (loc c main_arg0) ∧ r.2.mem (loc c main_arg1) = m (loc c main_arg1)
  ∧ r.2.mem (loc c main_arg2) = m (loc c main_arg2) ∧ r.2.mem (loc c main_arg3) = m (loc c main_arg3)
  ∧ r.2.mem (loc c main_arg4) = m (loc c main_arg4) ∧ r.2.mem (loc c main_arg5) = m (loc c main_arg5)
  ∧ Out12All m c (r.2.mem (loc c main_v12))

theorem run_main [∀ e, Nonempty (Elt F e)] (hb1 : Body1 F) (hb3 : Body3 F) (hr0 : Region0 F) (hr1 : Region1 F)
    (hs0 : Split0 F m) (hj0 : Join0 F m) (hs1 : Split1 F m) (hj1 : Join1 F m) (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m hb1 hpre | 1 => tileObl1 m hb3 hpre)
    (fun q _ => SparseCore.Cfg.VecSplit.of_plain (vecSplit m q))
    m ρ main (G (F := F)) (FIN m) (u₀ (F := F)) (sep_elim_left.trans (hu₀ m)) (hmain m ρ hr0 hr1 hs0 hj0 hs1 hj1) (fq m) (hfin m) (QC m) (fun _ h => h)

end Cert.Kernel.Run

end
-- ==== Proof.RegBodyB.lean ====
import proofs.«204913_g64682207478566_cont_9to1c4b_713_31_alg».proof.Proof.CommonB
import proofs.«204913_g64682207478566_cont_9to1c4b_713_31_alg».proof.Proof.ValsB
import proofs.«204913_g64682207478566_cont_9to1c4b_713_31_alg».proof.Proof.Gen.Kernel.Launch
import proofs.«204913_g64682207478566_cont_9to1c4b_713_31_alg».proof.Proof.Gen.Kernel.Skeleton
import proofs.«204913_g64682207478566_cont_9to1c4b_713_31_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.RegBody

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => Common.𝕄F F

/-! ## The one-matmul body on whole staging memrefs

Both TensorCore calls run the same body: it loads the weight row and the staged block of the transposed table
whole, and stores their product over the whole output block. -/

theorem hz1 : (![0] : Fin 1 → Nat) = fun _ => 0 := funext fun a => by fin_cases a; rfl
theorem hz2 : (![0, 0] : Fin 2 → Nat) = fun _ => 0 := funext fun a => by fin_cases a <;> rfl

/-- The body of custom_call 0: the two inputs' memrefs are left as found, the output's holds the product. -/
theorem sound_kernel0 (c : Dev nD) (E : Set ℕ) (i : grid0.Coords)
    (arg1 : Memref sig .tc .vmem S100x16384 .f32) (harg1 : arg1.IsWhole) (arg2 : Memref sig .tc .vmem S1x100 .f32) (harg2 : arg2.IsWhole)
    (arg3 : Memref sig .tc .vmem S16384 .f32) (harg3 : arg3.IsWhole)
    (x0 : Vec F S100x16384 .f32) (w0 : Vec F S1x100 .f32) (Kont : PUnit → sProp 𝕄) :
    iprop(owns (c : Thread nD τ) arg1 fullShare x0 ∗ owns (c : Thread nD τ) arg2 fullShare w0 ∗ (∃ y, owns (c : Thread nD τ) arg3 fullShare y)
        ∗ (iprop(owns (c : Thread nD τ) arg1 fullShare x0 ∗ owns (c : Thread nD τ) arg2 fullShare w0
            ∗ owns (c : Thread nD τ) arg3 fullShare (k0_pay1 w0 x0)) -∗ Kont ⟨⟩))
      ⊢ wp frame (wpE (defs₀ (F := F)) Variants.none c none) E (cc0__mv_body i arg1 harg1 arg2 harg2 arg3 harg3) Kont := by
  simp only [cc0__mv_body_eq_skeleton]; unfold cc0__mv_body_skel
  unfold owns
  iintro ⟨⟨%f0, %hf0, H0⟩, ⟨%f1, %hf1, H1⟩, ⟨%y, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz1 inb_S16384_S16384_0 y⟩),
    View.canon_unit_zero hz1]
  show k0_pay1 (F := F) (View.ld (arg2.view.read (Elt F) f1) (Rect.unit (s := S1x100) ![0, 0] S1x100.size inb_S1x100_S1x100_0_0))
      (View.ld (arg1.view.read (Elt F) f0) (Rect.unit (s := S100x16384) ![0, 0] S100x16384.size inb_S100x16384_S100x16384_0_0)) = _
  rw [View.ld_unit_zero hz2, View.ld_unit_zero hz2]

/-- The body of custom_call 2: the two inputs' memrefs are left as found, the output's holds the product. -/
theorem sound_kernel2 (c : Dev nD) (E : Set ℕ) (i : grid2.Coords)
    (arg1 : Memref sig .tc .vmem S100x16384 .f32) (harg1 : arg1.IsWhole) (arg2 : Memref sig .tc .vmem S1x100 .f32) (harg2 : arg2.IsWhole)
    (arg3 : Memref sig .tc .vmem S16384 .f32) (harg3 : arg3.IsWhole)
    (x0 : Vec F S100x16384 .f32) (w0 : Vec F S1x100 .f32) (Kont : PUnit → sProp 𝕄) :
    iprop(owns (c : Thread nD τ) arg1 fullShare x0 ∗ owns (c : Thread nD τ) arg2 fullShare w0 ∗ (∃ y, owns (c : Thread nD τ) arg3 fullShare y)
        ∗ (iprop(owns (c : Thread nD τ) arg1 fullShare x0 ∗ owns (c : Thread nD τ) arg2 fullShare w0
            ∗ owns (c : Thread nD τ) arg3 fullShare (k2_pay1 w0 x0)) -∗ Kont ⟨⟩))
      ⊢ wp frame (wpE (defs₀ (F := F)) Variants.none c none) E (cc2__mv_body i arg1 harg1 arg2 harg2 arg3 harg3) Kont := by
  simp only [cc2__mv_body_eq_skeleton]; unfold cc2__mv_body_skel
  unfold owns
  iintro ⟨⟨%f0, %hf0, H0⟩, ⟨%f1, %hf1, H1⟩, ⟨%y, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz1 inb_S16384_S16384_0 y⟩),
    View.canon_unit_zero hz1]
  show k2_pay1 (F := F) (View.ld (arg2.view.read (Elt F) f1) (Rect.unit (s := S1x100) ![0, 0] S1x100.size inb_S1x100_S1x100_0_0))
      (View.ld (arg1.view.read (Elt F) f0) (Rect.unit (s := S100x16384) ![0, 0] S100x16384.size inb_S100x16384_S100x16384_0_0)) = _
  rw [View.ld_unit_zero hz2, View.ld_unit_zero hz2]

end Cert.Kernel.RegBody

end
-- ==== Proof.RegDataB.lean ====
import proofs.«204913_g64682207478566_cont_9to1c4b_713_31_alg».proof.Proof.CommonB
import proofs.«204913_g64682207478566_cont_9to1c4b_713_31_alg».proof.Proof.ValsB
import proofs.«204913_g64682207478566_cont_9to1c4b_713_31_alg».proof.Proof.Gen.Kernel.Launch
import proofs.«204913_g64682207478566_cont_9to1c4b_713_31_alg».proof.Proof.Gen.Kernel.Skeleton
import proofs.«204913_g64682207478566_cont_9to1c4b_713_31_alg».proof.Proof.Gen.Kernel.Points
import proofs.«204913_g64682207478566_cont_9to1c4b_713_31_alg».proof.Proof.RegBodyB
import Idealize.ShloMosaic.Lib.Pipeline.FrameBody
import Idealize.ShloMosaic.Lib.Pipeline.Value
import Idealize.ShloMosaic.Lib.Tactic

set_option maxRecDepth 16384

noncomputable section

namespace Cert.Kernel.RegData

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => Common.𝕄F F

open Cert.Kernel.RegBody

/-! ## The two TensorCore calls' proof data

What the body leaves in the output's staging buffer is constrained, not named: the last block of the transposed
table overhangs the array, the staged words past the array's end are whatever the staging buffer held, and the
product of those columns depends on them. The input windows are left as found. -/

section Call0

variable (A4 : S100x1000000.Idx → F .f32) (A1 : S1x100.Idx → F .f32) (A5 : S1000448.Idx → F .f32)

/-- The staged block of the transposed table at point `t`: the array's columns inside the array, `d` past its end. -/
def fetchedX0 (t : Fin cfg0.N) (d : S100x16384.Idx → F .f32) : S100x16384.Idx → F .f32 :=
  win0_0.fill (grid0.coords t) d ((win0_0.blk t).view.read (Elt F) A4)
/-- The staged weight row. -/
def fetchedW0 (t : Fin cfg0.N) (d : S1x100.Idx → F .f32) : S1x100.Idx → F .f32 :=
  win0_1.fill (grid0.coords t) d ((win0_1.blk t).view.read (Elt F) A1)

/-- What the body may leave in the output block at point `t`: the product of the weight row and some staged block. -/
def Out0 (t : Fin cfg0.N) (X : S16384.Idx → F .f32) : Prop :=
  ∃ d d1, X = k0_pay1 (fetchedW0 A1 t d1) (fetchedX0 A4 t d)

/-- The relational proof data of the first call on core `c`, owing `O` throughout with recorded pairs within `B`. -/
def rd0 (c : Dev nD) (O : CellTallies nD τ sig (HIx 2)) (B : Set (SemLoc sig × HIx 2)) :
    RDat τ (Elt F) (HIx 2) ℕ UU ℕ cfg0 c where
  A w := match w with
    | ⟨0, _⟩ => A4
    | ⟨1, _⟩ => A1
    | ⟨2, _⟩ => A5
  after w t Y X := match w with
    | ⟨0, _⟩ => X = Y
    | ⟨1, _⟩ => X = Y
    | ⟨2, _⟩ => Out0 A4 A1 t X
  Φ _ := Pipeline.scopedRest spec0 c
  q _ := fullShare
  owed _ := O
  recorded _ := B

/-- The body at point `t`, on the staging buffers the pipeline calls it with: whatever the input buffers hold they
    still hold; the output buffer holds their product. -/
theorem sound_body0 (c : Dev nD) (O : CellTallies nD τ sig (HIx 2)) (B : Set (SemLoc sig × HIx 2)) (t : Fin cfg0.N)
    (Y : (w : Fin cfg0.W) → (cfg0.win w).block.Idx → Elt F (cfg0.win w).elt) (hY : ∀ w, (rd0 A4 A1 A5 c O B).Finds w t (Y w)) :
    iprop((rd0 A4 A1 A5 c O B).Φ t.castSucc ∗ (rd0 A4 A1 A5 c O B).owesAt none t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rd0 A4 A1 A5 c O B).Φ t.succ ∗ (rd0 A4 A1 A5 c O B).owesAt none t.succ
            ∗ (∃ X, ⌜(rd0 A4 A1 A5 c O B).after 0 t (Y 0) X⌝ ∗ owns (c : Thread nD τ) (st0_0 t) fullShare X)
            ∗ (∃ X, ⌜(rd0 A4 A1 A5 c O B).after 1 t (Y 1) X⌝ ∗ owns (c : Thread nD τ) (st0_1 t) fullShare X)
            ∗ (∃ X, ⌜(rd0 A4 A1 A5 c O B).after 2 t (Y 2) X⌝ ∗ owns (c : Thread nD τ) (st0_2 t) fullShare X))) := by
  obtain ⟨d, hd⟩ := ((rd0 A4 A1 A5 c O B).finds_of_fetch (fetch0_0 t) (Y 0)).mp (hY 0)
  obtain ⟨d1, hd1⟩ := RDat.finds_in_eq_fetched (rd0 A4 A1 A5 c O B) 1 rfl (fun _ _ _ => rfl) (fun _ _ _ h => h) t (Y 1) (hY 1)
  unfold bodyAt0
  rw [show (rd0 A4 A1 A5 c O B).Φ t.succ = (rd0 A4 A1 A5 c O B).Φ t.castSucc from rfl,
    show (rd0 A4 A1 A5 c O B).owesAt none t.succ = (rd0 A4 A1 A5 c O B).owesAt none t.castSucc from rfl]
  iintro ⟨HΦ, Ho, H0, H1, H2⟩
  iapply (sound_kernel0 c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  swap; · iexact H2
  ipureintro
  exact ⟨d, d1, by rw [hd, hd1]; rfl⟩

theorem body_obligation0 (c : Dev nD) (O : CellTallies nD τ sig (HIx 2)) (B : Set (SemLoc sig × HIx 2)) :
    (rd0 A4 A1 A5 c O B).BodyObligation (defs₀ (F := F)) Variants.none none Set.univ := fun t Y hY => by
  rw [bigSep_W0, bigSep_W0]
  exact sound_body0 A4 A1 A5 c O B t Y hY

end Call0

section Call2

variable (A9 : S100x100000.Idx → F .f32) (A3 : S1x100.Idx → F .f32) (A10 : S100352.Idx → F .f32)

/-- The staged block of the transposed table at point `t`: the array's columns inside the array, `d` past its end. -/
def fetchedX2 (t : Fin cfg2.N) (d : S100x16384.Idx → F .f32) : S100x16384.Idx → F .f32 :=
  win2_0.fill (grid2.coords t) d ((win2_0.blk t).view.read (Elt F) A9)
/-- The staged weight row. -/
def fetchedW2 (t : Fin cfg2.N) (d : S1x100.Idx → F .f32) : S1x100.Idx → F .f32 :=
  win2_1.fill (grid2.coords t) d ((win2_1.blk t).view.read (Elt F) A3)

/-- What the body may leave in the output block at point `t`: the product of the weight row and some staged block. -/
def Out2 (t : Fin cfg2.N) (X : S16384.Idx → F .f32) : Prop :=
  ∃ d d1, X = k2_pay1 (fetchedW2 A3 t d1) (fetchedX2 A9 t d)

/-- The relational proof data of the second call on core `c`, owing `O` throughout with recorded pairs within `B`. -/
def rd2 (c : Dev nD) (O : CellTallies nD τ sig (HIx 2)) (B : Set (SemLoc sig × HIx 2)) :
    RDat τ (Elt F) (HIx 2) ℕ UU ℕ cfg2 c where
  A w := match w with
    | ⟨0, _⟩ => A9
    | ⟨1, _⟩ => A3
    | ⟨2, _⟩ => A10
  after w t Y X := match w with
    | ⟨0, _⟩ => X = Y
    | ⟨1, _⟩ => X = Y
    | ⟨2, _⟩ => Out2 A9 A3 t X
  Φ _ := Pipeline.scopedRest spec2 c
  q _ := fullShare
  owed _ := O
  recorded _ := B

/-- The body at point `t`, on the staging buffers the pipeline calls it with: whatever the input buffers hold they
    still hold; the output buffer holds their product. -/
theorem sound_body2 (c : Dev nD) (O : CellTallies nD τ sig (HIx 2)) (B : Set (SemLoc sig × HIx 2)) (t : Fin cfg2.N)
    (Y : (w : Fin cfg2.W) → (cfg2.win w).block.Idx → Elt F (cfg2.win w).elt) (hY : ∀ w, (rd2 A9 A3 A10 c O B).Finds w t (Y w)) :
    iprop((rd2 A9 A3 A10 c O B).Φ t.castSucc ∗ (rd2 A9 A3 A10 c O B).owesAt none t.castSucc
        ∗ owns (c : Thread nD τ) (st2_0 t) fullShare (Y 0) ∗ owns (c : Thread nD τ) (st2_1 t) fullShare (Y 1)
        ∗ owns (c : Thread nD τ) (st2_2 t) fullShare (Y 2))
      ⊢ wp frame (wpE (defs₀ (F := F)) Variants.none c none) Set.univ (bodyAt2 t) (fun _ =>
          iprop((rd2 A9 A3 A10 c O B).Φ t.succ ∗ (rd2 A9 A3 A10 c O B).owesAt none t.succ
            ∗ (∃ X, ⌜(rd2 A9 A3 A10 c O B).after 0 t (Y 0) X⌝ ∗ owns (c : Thread nD τ) (st2_0 t) fullShare X)
            ∗ (∃ X, ⌜(rd2 A9 A3 A10 c O B).after 1 t (Y 1) X⌝ ∗ owns (c : Thread nD τ) (st2_1 t) fullShare X)
            ∗ (∃ X, ⌜(rd2 A9 A3 A10 c O B).after 2 t (Y 2) X⌝ ∗ owns (c : Thread nD τ) (st2_2 t) fullShare X))) := by
  obtain ⟨d, hd⟩ := ((rd2 A9 A3 A10 c O B).finds_of_fetch (fetch2_0 t) (Y 0)).mp (hY 0)
  obtain ⟨d1, hd1⟩ := RDat.finds_in_eq_fetched (rd2 A9 A3 A10 c O B) 1 rfl (fun _ _ _ => rfl) (fun _ _ _ h => h) t (Y 1) (hY 1)
  unfold bodyAt2
  rw [show (rd2 A9 A3 A10 c O B).Φ t.succ = (rd2 A9 A3 A10 c O B).Φ t.castSucc from rfl,
    show (rd2 A9 A3 A10 c O B).owesAt none t.succ = (rd2 A9 A3 A10 c O B).owesAt none t.castSucc from rfl]
  iintro ⟨HΦ, Ho, H0, H1, H2⟩
  iapply (sound_kernel2 c Set.univ (grid2.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  swap; · iexact H2
  ipureintro
  exact ⟨d, d1, by rw [hd, hd1]; rfl⟩

theorem body_obligation2 (c : Dev nD) (O : CellTallies nD τ sig (HIx 2)) (B : Set (SemLoc sig × HIx 2)) :
    (rd2 A9 A3 A10 c O B).BodyObligation (defs₀ (F := F)) Variants.none none Set.univ := fun t Y hY => by
  rw [bigSep_W2, bigSep_W2]
  exact sound_body2 A9 A3 A10 c O B t Y hY

end Call2

end Cert.Kernel.RegData

end
-- ==== Proof.RegValB.lean ====
import proofs.«204913_g64682207478566_cont_9to1c4b_713_31_alg».proof.Proof.CommonB
import proofs.«204913_g64682207478566_cont_9to1c4b_713_31_alg».proof.Proof.ValsB
import proofs.«204913_g64682207478566_cont_9to1c4b_713_31_alg».proof.Proof.Gen.Kernel.Launch
import proofs.«204913_g64682207478566_cont_9to1c4b_713_31_alg».proof.Proof.Gen.Kernel.Skeleton
import proofs.«204913_g64682207478566_cont_9to1c4b_713_31_alg».proof.Proof.Gen.Kernel.Points
import proofs.«204913_g64682207478566_cont_9to1c4b_713_31_alg».proof.Proof.RegDataB
import Idealize.ShloMosaic.Lib.Pipeline.FrameBody
import Idealize.ShloMosaic.Lib.Pipeline.Value
import Idealize.ShloMosaic.Lib.Tactic

set_option maxRecDepth 16384

noncomputable section

namespace Cert.Kernel.RegVal

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => Common.𝕄F F

open Cert.Kernel.RegData
open Idealize.ShloMosaic.ValueIdx

/-! ## What the two TensorCore calls leave in their output arrays -/

section Call0

variable (A4 : S100x1000000.Idx → F .f32) (A1 : S1x100.Idx → F .f32) (A5 : S1000448.Idx → F .f32)

/-- The index maps and cuts of the three windows, decided over the grid: the table's block `t` is columns
    `16384 t …` cut at the table's 1000000 columns, the weight row is the one block, the output's block `t` is
    elements `16384 t …` cut at its 1000448 elements. -/
theorem idxX0 : ∀ t : Fin cfg0.N, win0_0.index t (0 : Fin 2) = 0 ∧ win0_0.index t (1 : Fin 2) = t.val
    ∧ win0_0.xsize (grid0.coords t) (0 : Fin 2) = 100
    ∧ win0_0.xsize (grid0.coords t) (1 : Fin 2) = (if 16384 * (t.val + 1) ≤ 1000000 then 16384 else 1000000 - 16384 * t.val) :=
  (by decide +kernel : ∀ t : Fin grid0.N, _)
theorem idxW0 : ∀ t : Fin cfg0.N, win0_1.index t (0 : Fin 2) = 0 ∧ win0_1.index t (1 : Fin 2) = 0
    ∧ win0_1.xsize (grid0.coords t) (0 : Fin 2) = 1 ∧ win0_1.xsize (grid0.coords t) (1 : Fin 2) = 100 :=
  (by decide +kernel : ∀ t : Fin grid0.N, _)
theorem idxY0 : ∀ t : Fin cfg0.N, win0_2.index t (0 : Fin 1) = t.val
    ∧ win0_2.xsize (grid0.coords t) (0 : Fin 1) = (if 16384 * (t.val + 1) ≤ 1000448 then 16384 else 1000448 - 16384 * t.val) :=
  (by decide +kernel : ∀ t : Fin grid0.N, _)

/-- The staged block of the table agrees with the table on the columns inside it. -/
theorem fetchedX0_in (t : Fin cfg0.N) (d : S100x16384.Idx → F .f32) (f : Fin 100) (col : Fin 16384)
    (h : 16384 * t.val + col.val < 1000000) :
    fetchedX0 A4 t d (ix2 f col) = A4 (ix2 f ⟨16384 * t.val + col.val, h⟩) := by
  obtain ⟨e0, e1, e2, e3⟩ := idxX0 t
  have hf : f.val < win0_0.xsize (grid0.coords t) (0 : Fin 2) := by rw [e2]; exact f.isLt
  have hc : col.val < win0_0.xsize (grid0.coords t) (1 : Fin 2) := by rw [e3]; have := col.isLt; split <;> omega
  let j : (win0_0.xblock (grid0.coords t)).Idx := fun a => match a with | ⟨0, _⟩ => ⟨f.val, hf⟩ | ⟨1, _⟩ => ⟨col.val, hc⟩
  have hj : (ix2 f col : S100x16384.Idx) = win0_0.xinj (grid0.coords t) j := by
    funext a; match a with | ⟨0, _⟩ => rfl | ⟨1, _⟩ => rfl
  have hemb : (win0_0.blk t).view.emb j = (ix2 f ⟨16384 * t.val + col.val, h⟩ : S100x1000000.Idx) := by
    funext a; apply Fin.ext
    match a with
    | ⟨0, _⟩ => show win0_0.index t (0 : Fin 2) * 100 + 1 * f.val = f.val; omega
    | ⟨1, _⟩ => show win0_0.index t (1 : Fin 2) * 16384 + 1 * col.val = 16384 * t.val + col.val; omega
  unfold fetchedX0
  rw [hj, win0_0.fill_xinj, View.read_apply, hemb]
  rfl

/-- The staged weight row is the weight row. -/
theorem fetchedW0_eq (t : Fin cfg0.N) (d : S1x100.Idx → F .f32) : fetchedW0 A1 t d = A1 := by
  obtain ⟨e0, e1, e2, e3⟩ := idxW0 t
  funext i
  have h0 : (i 0).val < win0_1.xsize (grid0.coords t) (0 : Fin 2) := by rw [e2]; exact (i 0).isLt
  have h1 : (i 1).val < win0_1.xsize (grid0.coords t) (1 : Fin 2) := by rw [e3]; exact (i 1).isLt
  let j : (win0_1.xblock (grid0.coords t)).Idx := fun a => match a with | ⟨0, _⟩ => ⟨(i 0).val, h0⟩ | ⟨1, _⟩ => ⟨(i 1).val, h1⟩
  have hj : i = win0_1.xinj (grid0.coords t) j := by
    funext a; match a with | ⟨0, _⟩ => rfl | ⟨1, _⟩ => rfl
  have hemb : (win0_1.blk t).view.emb j = i := by
    funext a; apply Fin.ext
    have b0 : (i 0).val < 1 := (i 0).isLt
    match a with
    | ⟨0, _⟩ => show win0_1.index t (0 : Fin 2) * 1 + 1 * (i 0).val = (i 0).val; omega
    | ⟨1, _⟩ => show win0_1.index t (1 : Fin 2) * 100 + 1 * (i 1).val = (i 1).val; omega
  calc fetchedW0 A1 t d i = win0_1.fill (grid0.coords t) d ((win0_1.blk t).view.read (Elt F) A1) (win0_1.xinj (grid0.coords t) j) := by
        rw [← hj]; rfl
    _ = (win0_1.blk t).view.read (Elt F) A1 j := win0_1.fill_xinj _ _ _ _
    _ = A1 i := by rw [View.read_apply, hemb]; rfl

/-- Element `16384 t + col` of the output array after block `t` was written back over it: the staging buffer's
    element `col`. -/
theorem write_at (t : Fin cfg0.N) (G₀ : S1000448.Idx → F .f32) (Xo : S16384.Idx → F .f32) (col : Fin 16384)
    (h : 16384 * t.val + col.val < 1000448) :
    (win0_2.blk t).view.write (Elt F) G₀ (win0_2.cut (grid0.coords t) Xo) Finset.univ (ix1 ⟨16384 * t.val + col.val, h⟩) = Xo (ix1 col) := by
  obtain ⟨e0, e1⟩ := idxY0 t
  have hc : col.val < win0_2.xsize (grid0.coords t) (0 : Fin 1) := by rw [e1]; have := col.isLt; split <;> omega
  let j : (win0_2.xblock (grid0.coords t)).Idx := fun a => match a with | ⟨0, _⟩ => ⟨col.val, hc⟩
  have hj : (ix1 col : S16384.Idx) = win0_2.xinj (grid0.coords t) j := by
    funext a; match a with | ⟨0, _⟩ => rfl
  have hemb : (win0_2.blk t).view.emb j = (ix1 ⟨16384 * t.val + col.val, h⟩ : S1000448.Idx) := by
    funext a; apply Fin.ext
    match a with
    | ⟨0, _⟩ => show win0_2.index t (0 : Fin 1) * 16384 + 1 * col.val = 16384 * t.val + col.val; omega
  rw [← hemb, View.write_emb_of_mem _ _ (Finset.mem_univ j), hj]
  rfl

/-- and elements of earlier blocks are as they were. -/
theorem write_off (t : Fin cfg0.N) (G₀ : S1000448.Idx → F .f32) (w : (win0_2.xblock (grid0.coords t)).Idx → F .f32) (n : Fin 1000448)
    (h : n.val < 16384 * t.val) :
    (win0_2.blk t).view.write (Elt F) G₀ w Finset.univ (ix1 n) = G₀ (ix1 n) := by
  obtain ⟨e0, e1⟩ := idxY0 t
  refine View.write_of_not_mem _ _ _ ?_
  rw [View.setOn_univ]
  show (ix1 n : S1000448.Idx) ∉ ((View.whole main_v5).slice (win0_2.rect t)).set
  rw [View.set_slice_whole, Rect.mem_set_unit]
  intro hm
  have := (hm (0 : Fin 1)).1
  change win0_2.index t (0 : Fin 1) * 16384 ≤ n.val at this
  omega

/-- WHAT THE WRITE-BACKS BELOW POINT `T` LEAVE: each block `t < T` of the output array is the product of the weight
    row and some staged block that agrees with the table on the columns inside it. -/
theorem arrAt_val (c : Dev nD) (O : CellTallies nD τ sig (HIx 2)) (B : Set (SemLoc sig × HIx 2)) :
    ∀ (T : ℕ), T ≤ 62 → ∀ G, (rd0 A4 A1 A5 c O B).ArrAt 2 T G →
      ∃ X : Fin 62 → FVec F S100x16384 .f32,
        (∀ t : Fin 62, t.val < T → ∀ (f : Fin 100) (col : Fin 16384) (h : 16384 * t.val + col.val < 1000000),
            X t (ix2 f col) = A4 (ix2 f ⟨16384 * t.val + col.val, h⟩))
        ∧ ∀ t : Fin 62, t.val < T → ∀ (col : Fin 16384) (h : 16384 * t.val + col.val < 1000448),
            G (ix1 ⟨16384 * t.val + col.val, h⟩) = k0_pay1 A1 (X t) (ix1 col) := by
  intro T
  induction T with
  | zero =>
    intro _ G _
    exact ⟨fun _ _ => A4 (ix2 ⟨0, by omega⟩ ⟨0, by omega⟩), fun t ht => absurd ht (Nat.not_lt_zero _), fun t ht => absurd ht (Nat.not_lt_zero _)⟩
  | succ T ih =>
    intro hT G hG
    have hN : cfg0.N = 62 := N_0
    have hlt : T < cfg0.N := by rw [hN]; omega
    have hT' : T < 62 := by omega
    rw [show T + 1 = (⟨T, hlt⟩ : Fin cfg0.N).val + 1 from rfl, RDat.ArrAt_succ, if_pos (flush0_2 _)] at hG
    obtain ⟨G₀, Xo, hG₀, ⟨Y, -, d, d1, hX⟩, rfl⟩ := hG
    obtain ⟨X, hXa, hXv⟩ := ih (by omega) G₀ hG₀
    refine ⟨Function.update X ⟨T, hT'⟩ (fetchedX0 A4 ⟨T, hlt⟩ d), ?_, ?_⟩
    · intro t ht f col h
      by_cases e : t = ⟨T, hT'⟩
      · subst e; rw [Function.update_self]; exact fetchedX0_in A4 ⟨T, hlt⟩ d f col h
      · have : t.val ≠ T := fun h' => e (Fin.ext h')
        rw [Function.update_of_ne e]; exact hXa t (by omega) f col h
    · intro t ht col h
      by_cases e : t = ⟨T, hT'⟩
      · subst e
        rw [Function.update_self, write_at ⟨T, hlt⟩ G₀ Xo col h, hX, fetchedW0_eq]
      · have hne : t.val ≠ T := fun h' => e (Fin.ext h')
        have hcol := col.isLt
        rw [Function.update_of_ne e, ← hXv t (by omega) col h]
        exact write_off ⟨T, hlt⟩ G₀ _ ⟨16384 * t.val + col.val, h⟩ (by show 16384 * t.val + col.val < 16384 * T; omega)

/-- The output array after the call. -/
theorem val0 (c : Dev nD) (O : CellTallies nD τ sig (HIx 2)) (B : Set (SemLoc sig × HIx 2)) (G : S1000448.Idx → F .f32)
    (h : (rd0 A4 A1 A5 c O B).ArrAt 2 cfg0.N G) : Vals.Reg0Val A1 A4 G := by
  have hN : cfg0.N = 62 := N_0
  rw [hN] at h
  obtain ⟨X, hXa, hXv⟩ := arrAt_val A4 A1 A5 c O B 62 le_rfl G h
  exact ⟨X, fun t f col hh => hXa t t.isLt f col hh, fun t col hh => hXv t t.isLt col hh⟩

end Call0

section Call2

variable (A9 : S100x100000.Idx → F .f32) (A3 : S1x100.Idx → F .f32) (A10 : S100352.Idx → F .f32)

/-- The index maps and cuts of the three windows, decided over the grid: the table's block `t` is columns
    `16384 t …` cut at the table's 100000 columns, the weight row is the one block, the output's block `t` is
    elements `16384 t …` cut at its 100352 elements. -/
theorem idxX2 : ∀ t : Fin cfg2.N, win2_0.index t (0 : Fin 2) = 0 ∧ win2_0.index t (1 : Fin 2) = t.val
    ∧ win2_0.xsize (grid2.coords t) (0 : Fin 2) = 100
    ∧ win2_0.xsize (grid2.coords t) (1 : Fin 2) = (if 16384 * (t.val + 1) ≤ 100000 then 16384 else 100000 - 16384 * t.val) :=
  (by decide +kernel : ∀ t : Fin grid2.N, _)
theorem idxW2 : ∀ t : Fin cfg2.N, win2_1.index t (0 : Fin 2) = 0 ∧ win2_1.index t (1 : Fin 2) = 0
    ∧ win2_1.xsize (grid2.coords t) (0 : Fin 2) = 1 ∧ win2_1.xsize (grid2.coords t) (1 : Fin 2) = 100 :=
  (by decide +kernel : ∀ t : Fin grid2.N, _)
theorem idxY2 : ∀ t : Fin cfg2.N, win2_2.index t (0 : Fin 1) = t.val
    ∧ win2_2.xsize (grid2.coords t) (0 : Fin 1) = (if 16384 * (t.val + 1) ≤ 100352 then 16384 else 100352 - 16384 * t.val) :=
  (by decide +kernel : ∀ t : Fin grid2.N, _)

/-- The staged block of the table agrees with the table on the columns inside it. -/
theorem fetchedX2_in (t : Fin cfg2.N) (d : S100x16384.Idx → F .f32) (f : Fin 100) (col : Fin 16384)
    (h : 16384 * t.val + col.val < 100000) :
    fetchedX2 A9 t d (ix2 f col) = A9 (ix2 f ⟨16384 * t.val + col.val, h⟩) := by
  obtain ⟨e0, e1, e2, e3⟩ := idxX2 t
  have hf : f.val < win2_0.xsize (grid2.coords t) (0 : Fin 2) := by rw [e2]; exact f.isLt
  have hc : col.val < win2_0.xsize (grid2.coords t) (1 : Fin 2) := by rw [e3]; have := col.isLt; split <;> omega
  let j : (win2_0.xblock (grid2.coords t)).Idx := fun a => match a with | ⟨0, _⟩ => ⟨f.val, hf⟩ | ⟨1, _⟩ => ⟨col.val, hc⟩
  have hj : (ix2 f col : S100x16384.Idx) = win2_0.xinj (grid2.coords t) j := by
    funext a; match a with | ⟨0, _⟩ => rfl | ⟨1, _⟩ => rfl
  have hemb : (win2_0.blk t).view.emb j = (ix2 f ⟨16384 * t.val + col.val, h⟩ : S100x100000.Idx) := by
    funext a; apply Fin.ext
    match a with
    | ⟨0, _⟩ => show win2_0.index t (0 : Fin 2) * 100 + 1 * f.val = f.val; omega
    | ⟨1, _⟩ => show win2_0.index t (1 : Fin 2) * 16384 + 1 * col.val = 16384 * t.val + col.val; omega
  unfold fetchedX2
  rw [hj, win2_0.fill_xinj, View.read_apply, hemb]
  rfl

/-- The staged weight row is the weight row. -/
theorem fetchedW2_eq (t : Fin cfg2.N) (d : S1x100.Idx → F .f32) : fetchedW2 A3 t d = A3 := by
  obtain ⟨e0, e1, e2, e3⟩ := idxW2 t
  funext i
  have h0 : (i 0).val < win2_1.xsize (grid2.coords t) (0 : Fin 2) := by rw [e2]; exact (i 0).isLt
  have h1 : (i 1).val < win2_1.xsize (grid2.coords t) (1 : Fin 2) := by rw [e3]; exact (i 1).isLt
  let j : (win2_1.xblock (grid2.coords t)).Idx := fun a => match a with | ⟨0, _⟩ => ⟨(i 0).val, h0⟩ | ⟨1, _⟩ => ⟨(i 1).val, h1⟩
  have hj : i = win2_1.xinj (grid2.coords t) j := by
    funext a; match a with | ⟨0, _⟩ => rfl | ⟨1, _⟩ => rfl
  have hemb : (win2_1.blk t).view.emb j = i := by
    funext a; apply Fin.ext
    have b0 : (i 0).val < 1 := (i 0).isLt
    match a with
    | ⟨0, _⟩ => show win2_1.index t (0 : Fin 2) * 1 + 1 * (i 0).val = (i 0).val; omega
    | ⟨1, _⟩ => show win2_1.index t (1 : Fin 2) * 100 + 1 * (i 1).val = (i 1).val; omega
  calc fetchedW2 A3 t d i = win2_1.fill (grid2.coords t) d ((win2_1.blk t).view.read (Elt F) A3) (win2_1.xinj (grid2.coords t) j) := by
        rw [← hj]; rfl
    _ = (win2_1.blk t).view.read (Elt F) A3 j := win2_1.fill_xinj _ _ _ _
    _ = A3 i := by rw [View.read_apply, hemb]; rfl

/-- Element `16384 t + col` of the output array after block `t` was written back over it: the staging buffer's
    element `col`. -/
theorem write_at2 (t : Fin cfg2.N) (G₀ : S100352.Idx → F .f32) (Xo : S16384.Idx → F .f32) (col : Fin 16384)
    (h : 16384 * t.val + col.val < 100352) :
    (win2_2.blk t).view.write (Elt F) G₀ (win2_2.cut (grid2.coords t) Xo) Finset.univ (ix1 ⟨16384 * t.val + col.val, h⟩) = Xo (ix1 col) := by
  obtain ⟨e0, e1⟩ := idxY2 t
  have hc : col.val < win2_2.xsize (grid2.coords t) (0 : Fin 1) := by rw [e1]; have := col.isLt; split <;> omega
  let j : (win2_2.xblock (grid2.coords t)).Idx := fun a => match a with | ⟨0, _⟩ => ⟨col.val, hc⟩
  have hj : (ix1 col : S16384.Idx) = win2_2.xinj (grid2.coords t) j := by
    funext a; match a with | ⟨0, _⟩ => rfl
  have hemb : (win2_2.blk t).view.emb j = (ix1 ⟨16384 * t.val + col.val, h⟩ : S100352.Idx) := by
    funext a; apply Fin.ext
    match a with
    | ⟨0, _⟩ => show win2_2.index t (0 : Fin 1) * 16384 + 1 * col.val = 16384 * t.val + col.val; omega
  rw [← hemb, View.write_emb_of_mem _ _ (Finset.mem_univ j), hj]
  rfl

/-- and elements of earlier blocks are as they were. -/
theorem write_off2 (t : Fin cfg2.N) (G₀ : S100352.Idx → F .f32) (w : (win2_2.xblock (grid2.coords t)).Idx → F .f32) (n : Fin 100352)
    (h : n.val < 16384 * t.val) :
    (win2_2.blk t).view.write (Elt F) G₀ w Finset.univ (ix1 n) = G₀ (ix1 n) := by
  obtain ⟨e0, e1⟩ := idxY2 t
  refine View.write_of_not_mem _ _ _ ?_
  rw [View.setOn_univ]
  show (ix1 n : S100352.Idx) ∉ ((View.whole main_v10).slice (win2_2.rect t)).set
  rw [View.set_slice_whole, Rect.mem_set_unit]
  intro hm
  have := (hm (0 : Fin 1)).1
  change win2_2.index t (0 : Fin 1) * 16384 ≤ n.val at this
  omega

/-- WHAT THE WRITE-BACKS BELOW POINT `T` LEAVE: each block `t < T` of the output array is the product of the weight
    row and some staged block that agrees with the table on the columns inside it. -/
theorem arrAt_val2 (c : Dev nD) (O : CellTallies nD τ sig (HIx 2)) (B : Set (SemLoc sig × HIx 2)) :
    ∀ (T : ℕ), T ≤ 7 → ∀ G, (rd2 A9 A3 A10 c O B).ArrAt 2 T G →
      ∃ X : Fin 7 → FVec F S100x16384 .f32,
        (∀ t : Fin 7, t.val < T → ∀ (f : Fin 100) (col : Fin 16384) (h : 16384 * t.val + col.val < 100000),
            X t (ix2 f col) = A9 (ix2 f ⟨16384 * t.val + col.val, h⟩))
        ∧ ∀ t : Fin 7, t.val < T → ∀ (col : Fin 16384) (h : 16384 * t.val + col.val < 100352),
            G (ix1 ⟨16384 * t.val + col.val, h⟩) = k2_pay1 A3 (X t) (ix1 col) := by
  intro T
  induction T with
  | zero =>
    intro _ G _
    exact ⟨fun _ _ => A9 (ix2 ⟨0, by omega⟩ ⟨0, by omega⟩), fun t ht => absurd ht (Nat.not_lt_zero _), fun t ht => absurd ht (Nat.not_lt_zero _)⟩
  | succ T ih =>
    intro hT G hG
    have hN : cfg2.N = 7 := N_2
    have hlt : T < cfg2.N := by rw [hN]; omega
    have hT' : T < 7 := by omega
    rw [show T + 1 = (⟨T, hlt⟩ : Fin cfg2.N).val + 1 from rfl, RDat.ArrAt_succ, if_pos (flush2_2 _)] at hG
    obtain ⟨G₀, Xo, hG₀, ⟨Y, -, d, d1, hX⟩, rfl⟩ := hG
    obtain ⟨X, hXa, hXv⟩ := ih (by omega) G₀ hG₀
    refine ⟨Function.update X ⟨T, hT'⟩ (fetchedX2 A9 ⟨T, hlt⟩ d), ?_, ?_⟩
    · intro t ht f col h
      by_cases e : t = ⟨T, hT'⟩
      · subst e; rw [Function.update_self]; exact fetchedX2_in A9 ⟨T, hlt⟩ d f col h
      · have : t.val ≠ T := fun h' => e (Fin.ext h')
        rw [Function.update_of_ne e]; exact hXa t (by omega) f col h
    · intro t ht col h
      by_cases e : t = ⟨T, hT'⟩
      · subst e
        rw [Function.update_self, write_at2 ⟨T, hlt⟩ G₀ Xo col h, hX, fetchedW2_eq]
      · have hne : t.val ≠ T := fun h' => e (Fin.ext h')
        have hcol := col.isLt
        rw [Function.update_of_ne e, ← hXv t (by omega) col h]
        exact write_off2 ⟨T, hlt⟩ G₀ _ ⟨16384 * t.val + col.val, h⟩ (by show 16384 * t.val + col.val < 16384 * T; omega)

/-- The output array after the call. -/
theorem val2 (c : Dev nD) (O : CellTallies nD τ sig (HIx 2)) (B : Set (SemLoc sig × HIx 2)) (G : S100352.Idx → F .f32)
    (h : (rd2 A9 A3 A10 c O B).ArrAt 2 cfg2.N G) : Vals.Reg1Val A3 A9 G := by
  have hN : cfg2.N = 7 := N_2
  rw [hN] at h
  obtain ⟨X, hXa, hXv⟩ := arrAt_val2 A9 A3 A10 c O B 7 le_rfl G h
  exact ⟨X, fun t f col hh => hXa t t.isLt f col hh, fun t col hh => hXv t t.isLt col hh⟩

end Call2

end Cert.Kernel.RegVal

end
-- ==== Proof.RegionsB.lean ====
import proofs.«204913_g64682207478566_cont_9to1c4b_713_31_alg».proof.Proof.CommonB
import proofs.«204913_g64682207478566_cont_9to1c4b_713_31_alg».proof.Proof.ValsB
import proofs.«204913_g64682207478566_cont_9to1c4b_713_31_alg».proof.Proof.Gen.Kernel.Launch
import proofs.«204913_g64682207478566_cont_9to1c4b_713_31_alg».proof.Proof.Gen.Kernel.Skeleton
import proofs.«204913_g64682207478566_cont_9to1c4b_713_31_alg».proof.Proof.Gen.Kernel.Points
import proofs.«204913_g64682207478566_cont_9to1c4b_713_31_alg».proof.Proof.RegDataB
import proofs.«204913_g64682207478566_cont_9to1c4b_713_31_alg».proof.Proof.RegValB
import Idealize.ShloMosaic.Lib.Pipeline.Regions
import Idealize.ShloMosaic.Lib.SparseCore.Launch
import Idealize.ShloMosaic.Lib.Pipeline.FrameBody
import Idealize.ShloMosaic.Lib.Pipeline.Value
import Idealize.ShloMosaic.Lib.Tactic

set_option maxRecDepth 16384

noncomputable section

namespace Cert.Kernel.Regions

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => Common.𝕄F F

open Cert.Kernel.RegData

/-! ## The two TensorCore calls as steps of @main beside the SparseCore calls -/

/-- Neither call prefetches a table. -/
abbrev adm : (p : Fin 2) → (pcfgs (F := F) p).Adm := fun p => (cfgs p).toPCfg_adm

/-- What the TensorCore owes before SparseCore call `n`, its recorded pairs bounded: the first conjunct of its state
    between calls. -/
def tcOwes (d : Dev nD) (n : ℕ) : sProp 𝕄 :=
  iprop(∃ W, ⌜(K (F := F)).WBelow (SparseCore.T d : Thread nD τ) W (8 * n)⌝ ∗ owes (SparseCore.T d : Thread nD τ) ((K (F := F)).Otc d n) W)

/-- The pairs at or below a level. -/
def Bnd (d : Dev nD) (b : ℕ) : Set (SemLoc sig × HIx 2) := {p | (K (F := F)).lev ((SparseCore.T d : Thread nD τ), p.1) p.2 ≤ b}

/-- The TensorCore owes nothing at the index of a kernel's own waits. -/
theorem mem_Bnd (d : Dev nD) (b : ℕ) (p : SemLoc sig × HIx 2) :
    p ∈ Bnd (F := F) d b ↔ (K (F := F)).lev ((SparseCore.T d : Thread nD τ), p.1) p.2 ≤ b := Iff.rfl

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

section Data

variable (A4 : S100x1000000.Idx → F .f32) (A1 : S1x100.Idx → F .f32) (A5 : S1000448.Idx → F .f32)
  (A9 : S100x100000.Idx → F .f32) (A3 : S1x100.Idx → F .f32) (A10 : S100352.Idx → F .f32)

/-- Both calls' proof data: the first entered owing what the TensorCore owes before SparseCore call 0, the second
    before call 1. -/
def rdats : (p : Fin 2) → (c : Dev nD) → RDat τ (Elt F) (HIx 2) ℕ UU ℕ (Pipeline.pin (pcfgs (F := F)) adm p) c
  | ⟨0, _⟩ => fun c => rd0 A4 A1 A5 c ((K (F := F)).Otc c 0) (Bnd (F := F) c (8 * 0))
  | ⟨1, _⟩ => fun c => rd2 A9 A3 A10 c ((K (F := F)).Otc c 1) (Bnd (F := F) c (8 * 1))

/-- One set of admissible tables pins each pipeline to its printed configuration. -/
theorem pin_eq : Pipeline.pin (pcfgs (F := F)) adm = cfgs := rfl

/-- A TensorCore call's line of @main is the call's line below the SparseCore dispatch, lifted. -/
theorem lift_entry (p : Fin 2) :
    (Prog.lift (.customCall (SparseCore.inner (Pipeline.entry p)) ()) : Prog (TpuEff nD τ sig (Elt F) (SparseCore.Sig (ΛP (F := F)) 2) .tc) PUnit)
      = SparseCore.liftProg (Prog.lift (.customCall (Pipeline.entry p) ())) := rfl

/-! ### TensorCore call 0 (custom_call 0) -/

theorem rdats_0 (c : Dev nD) : rdats A4 A1 A5 A9 A3 A10 0 c = rd0 A4 A1 A5 c ((K (F := F)).Otc c 0) (Bnd (F := F) c (8 * 0)) := rfl

theorem rd0_Φ (c : Dev nD) (O : CellTallies nD τ sig (HIx 2)) (B : Set (SemLoc sig × HIx 2)) (t : Fin (cfg0.N + 1)) :
    (rd0 A4 A1 A5 c O B).Φ t = Pipeline.scopedRest spec0 c := rfl

theorem arrays0_eq (c : Dev nD) (O : CellTallies nD τ sig (HIx 2)) (B : Set (SemLoc sig × HIx 2))
    (G : (w : Fin cfg0.W) → Buf (Elt F) ((cfg0.win w).arr.view.loc (c.tc : Thread nD τ))) :
    (rd0 A4 A1 A5 c O B).arrays G
      = iprop(((SparseCore.T c : Thread nD τ).loc main_v4 ↦{fullShare} G 0) ∗ ((SparseCore.T c : Thread nD τ).loc main_v1 ↦{fullShare} G 1) ∗ ((SparseCore.T c : Thread nD τ).loc main_v5 ↦{fullShare} G 2)) := by
  unfold RDat.arrays; rw [bigSep_W0, (arr_whole0 0).set_eq_univ, (arr_whole0 1).set_eq_univ, (arr_whole0 2).set_eq_univ]; rfl

theorem arraysAt0_eq (c : Dev nD) (O : CellTallies nD τ sig (HIx 2)) (B : Set (SemLoc sig × HIx 2)) (n : ℕ) :
    (rd0 A4 A1 A5 c O B).arraysAt n
      = iprop((∃ G, ⌜(rd0 A4 A1 A5 c O B).ArrAt 0 n G⌝ ∗ ((SparseCore.T c : Thread nD τ).loc main_v4 ↦{fullShare} G))
          ∗ (∃ G, ⌜(rd0 A4 A1 A5 c O B).ArrAt 1 n G⌝ ∗ ((SparseCore.T c : Thread nD τ).loc main_v1 ↦{fullShare} G))
          ∗ (∃ G, ⌜(rd0 A4 A1 A5 c O B).ArrAt 2 n G⌝ ∗ ((SparseCore.T c : Thread nD τ).loc main_v5 ↦{fullShare} G))) := by
  unfold RDat.arraysAt; rw [bigSep_W0, (arr_whole0 0).set_eq_univ, (arr_whole0 1).set_eq_univ, (arr_whole0 2).set_eq_univ]; rfl

/-- The thread state the call is entered from: what the TensorCore owes before SparseCore call 0, and the call's
    three arrays whole. -/
def pre0 (c : Dev nD) : sProp 𝕄 :=
  iprop(tcOwes c 0 ∗ ((SparseCore.T c : Thread nD τ).loc main_v4 ↦{fullShare} A4) ∗ ((SparseCore.T c : Thread nD τ).loc main_v1 ↦{fullShare} A1)
    ∗ ((SparseCore.T c : Thread nD τ).loc main_v5 ↦{fullShare} A5))
/-- The state it leaves: the same owed, the inputs as they were, the output at what the write-backs may leave. -/
def post0 (c : Dev nD) : sProp 𝕄 :=
  iprop(tcOwes c 0 ∗ ((SparseCore.T c : Thread nD τ).loc main_v4 ↦{fullShare} A4) ∗ ((SparseCore.T c : Thread nD τ).loc main_v1 ↦{fullShare} A1)
    ∗ ∃ fo, ⌜(rd0 A4 A1 A5 c ((K (F := F)).Otc c 0) (Bnd (F := F) c (8 * 0))).ArrAt 2 cfg0.N fo⌝ ∗ ((SparseCore.T c : Thread nD τ).loc main_v5 ↦{fullShare} fo))

include A4 A1 A5 A9 A3 A10 in
set_option backward.isDefEq.respectTransparency.types false in
theorem hwaits0 (lv : GSem nD τ sig → HIx 2 → ℕ) (hlv : (K (F := F)).Refines lv) (c : Dev nD) :
    (levAts (K (F := F)).L lv : sProp 𝕄) ⊢ Pipeline.RDat.cellsWaits (Pipeline.pin (pcfgs (F := F)) adm) (rdats A4 A1 A5 A9 A3 A10) (none : HIx 2) 0 c :=
  Pipeline.RDat.cellsWaits_intro (Pipeline.pin (pcfgs (F := F)) adm) (rdats A4 A1 A5 A9 A3 A10) (none : HIx 2) 0 c
    (R := levAts (K (F := F)).L lv) fun w s t =>
      show (levAts (K (F := F)).L lv : sProp 𝕄) ⊢ MayWait (SparseCore.T c : Thread nD τ) _ none ((K (F := F)).Otc c 0) from
        (K (F := F)).mayWait_none _ (Otc_none c 0) lv hlv

include A4 A1 A5 A9 A3 A10 in
set_option backward.isDefEq.respectTransparency.types false in
theorem hentry0 (lv : GSem nD τ sig → HIx 2 → ℕ) (c : Dev nD) :
    iprop(pre0 A4 A1 A5 c ∗ Pipeline.ownSems0 (fun k : PEmpty => k.elim) c ∗ levAts (K (F := F)).L lv)
      ⊢ |={Set.univ}=> iprop(((rdats A4 A1 A5 A9 A3 A10) 0 c).arrays ((rdats A4 A1 A5 A9 A3 A10) 0 c).A ∗ Pipeline.prefHeld (pcfgs (F := F) 0).pre c (fun _ => fullShare) (adm 0).1
        ∗ ((rdats A4 A1 A5 A9 A3 A10) 0 c).owesAt (none : HIx 2) 0 ∗ (iprop(emp) : sProp 𝕄) ∗ (iprop(emp) : sProp 𝕄)) := by
  rw [rdats_0, arrays0_eq]
  unfold pre0
  iintro ⟨⟨HO, H4, H1, H5⟩, -, -⟩
  imodintro
  isplitl [H4 H1 H5]
  · isplitl [H4]; · iexact H4
    isplitl [H1]; · iexact H1
    iexact H5
  isplitr; · unfold Pipeline.prefHeld; rw [show (Finset.univ : Finset (Fin 0)) = ∅ from rfl, BI.bigSep_empty]; iempintro
  isplitl [HO]
  · unfold tcOwes RDat.owesAt Pipeline.owesWithin
    icases HO with ⟨%W, %hW, HO⟩; iexists W; isplitr
    · ipureintro; exact fun p hp => Or.inl ((mem_Bnd c (8 * 0) p).mpr (hW p hp))
    iexact HO
  isplitr <;> iempintro

include A4 A1 A5 A9 A3 A10 in
set_option backward.isDefEq.respectTransparency.types false in
theorem hexit0 (c : Dev nD) :
    iprop(((rdats A4 A1 A5 A9 A3 A10) 0 c).arraysAt (Pipeline.pin (pcfgs (F := F)) adm 0).N ∗ ((rdats A4 A1 A5 A9 A3 A10) 0 c).owesAt (none : HIx 2) (Fin.last (Pipeline.pin (pcfgs (F := F)) adm 0).N)
        ∗ (iprop(emp) : sProp 𝕄) ∗ (iprop(emp) : sProp 𝕄))
      ⊢ |={Set.univ}=> post0 A4 A1 A5 c := by
  rw [rdats_0, arraysAt0_eq]
  unfold post0
  iintro ⟨⟨⟨%F0, %h0, H4⟩, ⟨%F1, %h1, H1⟩, ⟨%F2, %h2, H5⟩⟩, HO, -, -⟩
  rw [RDat.ArrAt_in _ 0 rfl] at h0
  rw [RDat.ArrAt_in _ 1 rfl] at h1
  subst h0; subst h1
  imodintro
  isplitl [HO]
  · unfold tcOwes RDat.owesAt Pipeline.owesWithin
    icases HO with ⟨%W, %hW, HO⟩; iexists W; isplitr
    · ipureintro
      intro p hp
      rcases hW hp with h | ⟨w, s, rfl⟩
      · exact (mem_Bnd c (8 * 0) p).mp h
      · exact Nat.zero_le _
    iexact HO
  isplitl [H4]; · iexact H4
  isplitl [H1]; · iexact H1
  iexists F2; isplitr; · ipureintro; exact h2
  iexact H5

set_option backward.isDefEq.respectTransparency.types false in
set_option maxHeartbeats 1000000 in
/-- The call as a step of @main: entered holding its three arrays whole, left holding the inputs as they were and the
    output at what the write-backs may leave. -/
def reg0 (lv : GSem nD τ sig → HIx 2 → ℕ) (hlv : (K (F := F)).Refines lv) :
    Pipeline.RDat.RegionSeg (pcfgs (F := F)) adm (rdats A4 A1 A5 A9 A3 A10) (none : HIx 2) defs₀ 𝒱₀ (K (F := F)).L lv 0 where
  win := launch0.win.to₀
  block_pos := launch0.block_pos
  stage_whole := launch0.stage_whole
  K := PEmpty
  osem k := k.elim
  ho := Pipeline.OwnSemFacts.none _
  hbody c := body_obligation0 A4 A1 A5 c ((K (F := F)).Otc c 0) (Bnd (F := F) c (8 * 0))
  hwaits c := hwaits0 A4 A1 A5 A9 A3 A10 lv hlv c
  pre := pre0 A4 A1 A5
  post := post0 A4 A1 A5
  X _ := iprop(emp)
  Y _ := iprop(emp)
  Z _ := iprop(emp)
  hentry c := hentry0 A4 A1 A5 A9 A3 A10 lv c
  hin c := by
    rw [rdats_0, rd0_Φ]
    iintro ⟨-, -, Hr⟩; iexact Hr
  hout c := by
    rw [Pipeline.ownSems0_none, rdats_0, rd0_Φ]
    iintro Hr
    isplitr; · iempintro
    isplitr; · iempintro
    iexact Hr
  hexit c := hexit0 A4 A1 A5 A9 A3 A10 c

include A4 A1 A5 A9 A3 A10 in
set_option backward.isDefEq.respectTransparency.types false in
set_option maxHeartbeats 2000000 in
/-- The call below the SparseCore dispatch: the region rule at its record. -/
theorem region0_inner (lv : GSem nD τ sig → HIx 2 → ℕ) (hlv : (K (F := F)).Refines lv) (d : Dev nD) :
    iprop(levAts (K (F := F)).L lv ∗ boundary (SparseCore.T d : Thread nD τ) ∗ pre0 A4 A1 A5 d
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (SparseCore.T d) none) Set.univ
          (Prog.op (.customCall (Pipeline.entry 0) ()) Prog.ret)
          (fun _ => iprop(boundary (SparseCore.T d : Thread nD τ) ∗ post0 A4 A1 A5 d)) := by
  have h := Pipeline.RDat.RegionSeg.wp (pcfgs (F := F)) adm (rdats A4 A1 A5 A9 A3 A10) (none : HIx 2) cellOf_inj (EP (F := F)) defs₀ 𝒱₀
      (K (F := F)).L lv (reg0 A4 A1 A5 A9 A3 A10 lv hlv) d none (fun u hu => nomatch hu) Prog.ret
      (fun _ => iprop(boundary (SparseCore.T d : Thread nD τ) ∗ post0 A4 A1 A5 d))
  rw [show (reg0 A4 A1 A5 A9 A3 A10 lv hlv).pre = pre0 A4 A1 A5 from rfl, show (reg0 A4 A1 A5 A9 A3 A10 lv hlv).post = post0 A4 A1 A5 from rfl] at h
  refine BIBase.Entails.trans ?_ h
  iintro ⟨Hlev, Hb, Hpre, Hg, Htk⟩
  isplitr
  · iintro H; rw [wp_ret]; imodintro; iexact H
  isplitl [Hb]; · iexact Hb
  isplitl [Hpre]; · iexact Hpre
  isplitl [Hlev]; · iexact Hlev
  isplitl [Hg]; · iexact Hg
  iexact Htk

include A4 A1 A5 A9 A3 A10 in
set_option backward.isDefEq.respectTransparency.types false in
set_option maxHeartbeats 2000000 in
/-- The same as the line of @main beside the SparseCore calls. -/
theorem region0_arr (lv : GSem nD τ sig → HIx 2 → ℕ) (hlv : (K (F := F)).Refines lv) (d : Dev nD) :
    iprop(levAts (K (F := F)).L lv ∗ boundary (SparseCore.T d : Thread nD τ) ∗ pre0 A4 A1 A5 d
        ∗ Pipeline.cellsGhost cfgs (EP (F := F)) 0 d ∗ Pipeline.toksInit cfgs (EP (F := F)) 0 d)
      ⊢ wp frame (wpE ((K (F := F)).defs D) 𝒱 (SparseCore.T d) none) Set.univ
          (Prog.lift (.customCall (SparseCore.inner (Pipeline.entry 0)) ()))
          (fun _ => iprop(boundary (SparseCore.T d : Thread nD τ) ∗ post0 A4 A1 A5 d)) := by
  rw [lift_entry]
  exact (region0_inner A4 A1 A5 A9 A3 A10 lv hlv d).trans
    ((K (F := F)).wp_liftProg D 𝒱 (SparseCore.T d) Set.univ none _ _)

/-! ### TensorCore call 1 (custom_call 2) -/

theorem rdats_1 (c : Dev nD) : rdats A4 A1 A5 A9 A3 A10 1 c = rd2 A9 A3 A10 c ((K (F := F)).Otc c 1) (Bnd (F := F) c (8 * 1)) := rfl

theorem rd2_Φ (c : Dev nD) (O : CellTallies nD τ sig (HIx 2)) (B : Set (SemLoc sig × HIx 2)) (t : Fin (cfg2.N + 1)) :
    (rd2 A9 A3 A10 c O B).Φ t = Pipeline.scopedRest spec2 c := rfl

theorem arrays1_eq (c : Dev nD) (O : CellTallies nD τ sig (HIx 2)) (B : Set (SemLoc sig × HIx 2))
    (G : (w : Fin cfg2.W) → Buf (Elt F) ((cfg2.win w).arr.view.loc (c.tc : Thread nD τ))) :
    (rd2 A9 A3 A10 c O B).arrays G
      = iprop(((SparseCore.T c : Thread nD τ).loc main_v9 ↦{fullShare} G 0) ∗ ((SparseCore.T c : Thread nD τ).loc main_v3 ↦{fullShare} G 1) ∗ ((SparseCore.T c : Thread nD τ).loc main_v10 ↦{fullShare} G 2)) := by
  unfold RDat.arrays; rw [bigSep_W2, (arr_whole2 0).set_eq_univ, (arr_whole2 1).set_eq_univ, (arr_whole2 2).set_eq_univ]; rfl

theorem arraysAt1_eq (c : Dev nD) (O : CellTallies nD τ sig (HIx 2)) (B : Set (SemLoc sig × HIx 2)) (n : ℕ) :
    (rd2 A9 A3 A10 c O B).arraysAt n
      = iprop((∃ G, ⌜(rd2 A9 A3 A10 c O B).ArrAt 0 n G⌝ ∗ ((SparseCore.T c : Thread nD τ).loc main_v9 ↦{fullShare} G))
          ∗ (∃ G, ⌜(rd2 A9 A3 A10 c O B).ArrAt 1 n G⌝ ∗ ((SparseCore.T c : Thread nD τ).loc main_v3 ↦{fullShare} G))
          ∗ (∃ G, ⌜(rd2 A9 A3 A10 c O B).ArrAt 2 n G⌝ ∗ ((SparseCore.T c : Thread nD τ).loc main_v10 ↦{fullShare} G))) := by
  unfold RDat.arraysAt; rw [bigSep_W2, (arr_whole2 0).set_eq_univ, (arr_whole2 1).set_eq_univ, (arr_whole2 2).set_eq_univ]; rfl

/-- The thread state the call is entered from: what the TensorCore owes before SparseCore call 1, and the call's
    three arrays whole. -/
def pre1 (c : Dev nD) : sProp 𝕄 :=
  iprop(tcOwes c 1 ∗ ((SparseCore.T c : Thread nD τ).loc main_v9 ↦{fullShare} A9) ∗ ((SparseCore.T c : Thread nD τ).loc main_v3 ↦{fullShare} A3)
    ∗ ((SparseCore.T c : Thread nD τ).loc main_v10 ↦{fullShare} A10))
/-- The state it leaves: the same owed, the inputs as they were, the output at what the write-backs may leave. -/
def post1 (c : Dev nD) : sProp 𝕄 :=
  iprop(tcOwes c 1 ∗ ((SparseCore.T c : Thread nD τ).loc main_v9 ↦{fullShare} A9) ∗ ((SparseCore.T c : Thread nD τ).loc main_v3 ↦{fullShare} A3)
    ∗ ∃ fo, ⌜(rd2 A9 A3 A10 c ((K (F := F)).Otc c 1) (Bnd (F := F) c (8 * 1))).ArrAt 2 cfg2.N fo⌝ ∗ ((SparseCore.T c : Thread nD τ).loc main_v10 ↦{fullShare} fo))

include A4 A1 A5 A9 A3 A10 in
set_option backward.isDefEq.respectTransparency.types false in
theorem hwaits1 (lv : GSem nD τ sig → HIx 2 → ℕ) (hlv : (K (F := F)).Refines lv) (c : Dev nD) :
    (levAts (K (F := F)).L lv : sProp 𝕄) ⊢ Pipeline.RDat.cellsWaits (Pipeline.pin (pcfgs (F := F)) adm) (rdats A4 A1 A5 A9 A3 A10) (none : HIx 2) 1 c :=
  Pipeline.RDat.cellsWaits_intro (Pipeline.pin (pcfgs (F := F)) adm) (rdats A4 A1 A5 A9 A3 A10) (none : HIx 2) 1 c
    (R := levAts (K (F := F)).L lv) fun w s t =>
      show (levAts (K (F := F)).L lv : sProp 𝕄) ⊢ MayWait (SparseCore.T c : Thread nD τ) _ none ((K (F := F)).Otc c 1) from
        (K (F := F)).mayWait_none _ (Otc_none c 1) lv hlv

include A4 A1 A5 A9 A3 A10 in
set_option backward.isDefEq.respectTransparency.types false in
theorem hentry1 (lv : GSem nD τ sig → HIx 2 → ℕ) (c : Dev nD) :
    iprop(pre1 A9 A3 A10 c ∗ Pipeline.ownSems0 (fun k : PEmpty => k.elim) c ∗ levAts (K (F := F)).L lv)
      ⊢ |={Set.univ}=> iprop(((rdats A4 A1 A5 A9 A3 A10) 1 c).arrays ((rdats A4 A1 A5 A9 A3 A10) 1 c).A ∗ Pipeline.prefHeld (pcfgs (F := F) 1).pre c (fun _ => fullShare) (adm 1).1
        ∗ ((rdats A4 A1 A5 A9 A3 A10) 1 c).owesAt (none : HIx 2) 0 ∗ (iprop(emp) : sProp 𝕄) ∗ (iprop(emp) : sProp 𝕄)) := by
  rw [rdats_1, arrays1_eq]
  unfold pre1
  iintro ⟨⟨HO, H4, H1, H5⟩, -, -⟩
  imodintro
  isplitl [H4 H1 H5]
  · isplitl [H4]; · iexact H4
    isplitl [H1]; · iexact H1
    iexact H5
  isplitr; · unfold Pipeline.prefHeld; rw [show (Finset.univ : Finset (Fin 0)) = ∅ from rfl, BI.bigSep_empty]; iempintro
  isplitl [HO]
  · unfold tcOwes RDat.owesAt Pipeline.owesWithin
    icases HO with ⟨%W, %hW, HO⟩; iexists W; isplitr
    · ipureintro; exact fun p hp => Or.inl ((mem_Bnd c (8 * 1) p).mpr (hW p hp))
    iexact HO
  isplitr <;> iempintro

include A4 A1 A5 A9 A3 A10 in
set_option backward.isDefEq.respectTransparency.types false in
theorem hexit1 (c : Dev nD) :
    iprop(((rdats A4 A1 A5 A9 A3 A10) 1 c).arraysAt (Pipeline.pin (pcfgs (F := F)) adm 1).N ∗ ((rdats A4 A1 A5 A9 A3 A10) 1 c).owesAt (none : HIx 2) (Fin.last (Pipeline.pin (pcfgs (F := F)) adm 1).N)
        ∗ (iprop(emp) : sProp 𝕄) ∗ (iprop(emp) : sProp 𝕄))
      ⊢ |={Set.univ}=> post1 A9 A3 A10 c := by
  rw [rdats_1, arraysAt1_eq]
  unfold post1
  iintro ⟨⟨⟨%F0, %h0, H4⟩, ⟨%F1, %h1, H1⟩, ⟨%F2, %h2, H5⟩⟩, HO, -, -⟩
  rw [RDat.ArrAt_in _ 0 rfl] at h0
  rw [RDat.ArrAt_in _ 1 rfl] at h1
  subst h0; subst h1
  imodintro
  isplitl [HO]
  · unfold tcOwes RDat.owesAt Pipeline.owesWithin
    icases HO with ⟨%W, %hW, HO⟩; iexists W; isplitr
    · ipureintro
      intro p hp
      rcases hW hp with h | ⟨w, s, rfl⟩
      · exact (mem_Bnd c (8 * 1) p).mp h
      · exact Nat.zero_le _
    iexact HO
  isplitl [H4]; · iexact H4
  isplitl [H1]; · iexact H1
  iexists F2; isplitr; · ipureintro; exact h2
  iexact H5

set_option backward.isDefEq.respectTransparency.types false in
set_option maxHeartbeats 1000000 in
/-- The call as a step of @main: entered holding its three arrays whole, left holding the inputs as they were and the
    output at what the write-backs may leave. -/
def reg1 (lv : GSem nD τ sig → HIx 2 → ℕ) (hlv : (K (F := F)).Refines lv) :
    Pipeline.RDat.RegionSeg (pcfgs (F := F)) adm (rdats A4 A1 A5 A9 A3 A10) (none : HIx 2) defs₀ 𝒱₀ (K (F := F)).L lv 1 where
  win := launch2.win.to₀
  block_pos := launch2.block_pos
  stage_whole := launch2.stage_whole
  K := PEmpty
  osem k := k.elim
  ho := Pipeline.OwnSemFacts.none _
  hbody c := body_obligation2 A9 A3 A10 c ((K (F := F)).Otc c 1) (Bnd (F := F) c (8 * 1))
  hwaits c := hwaits1 A4 A1 A5 A9 A3 A10 lv hlv c
  pre := pre1 A9 A3 A10
  post := post1 A9 A3 A10
  X _ := iprop(emp)
  Y _ := iprop(emp)
  Z _ := iprop(emp)
  hentry c := hentry1 A4 A1 A5 A9 A3 A10 lv c
  hin c := by
    rw [rdats_1, rd2_Φ]
    iintro ⟨-, -, Hr⟩; iexact Hr
  hout c := by
    rw [Pipeline.ownSems0_none, rdats_1, rd2_Φ]
    iintro Hr
    isplitr; · iempintro
    isplitr; · iempintro
    iexact Hr
  hexit c := hexit1 A4 A1 A5 A9 A3 A10 c

include A4 A1 A5 A9 A3 A10 in
set_option backward.isDefEq.respectTransparency.types false in
set_option maxHeartbeats 2000000 in
/-- The call below the SparseCore dispatch: the region rule at its record. -/
theorem region1_inner (lv : GSem nD τ sig → HIx 2 → ℕ) (hlv : (K (F := F)).Refines lv) (d : Dev nD) :
    iprop(levAts (K (F := F)).L lv ∗ boundary (SparseCore.T d : Thread nD τ) ∗ pre1 A9 A3 A10 d
        ∗ Pipeline.cellsGhost (Pipeline.pin (pcfgs (F := F)) adm) (EP (F := F)) 1 d ∗ Pipeline.toksInit (Pipeline.pin (pcfgs (F := F)) adm) (EP (F := F)) 1 d)
      ⊢ wp frame (wpE (D (F := F)) 𝒱 (SparseCore.T d) none) Set.univ
          (Prog.op (.customCall (Pipeline.entry 1) ()) Prog.ret)
          (fun _ => iprop(boundary (SparseCore.T d : Thread nD τ) ∗ post1 A9 A3 A10 d)) := by
  have h := Pipeline.RDat.RegionSeg.wp (pcfgs (F := F)) adm (rdats A4 A1 A5 A9 A3 A10) (none : HIx 2) cellOf_inj (EP (F := F)) defs₀ 𝒱₀
      (K (F := F)).L lv (reg1 A4 A1 A5 A9 A3 A10 lv hlv) d none (fun u hu => nomatch hu) Prog.ret
      (fun _ => iprop(boundary (SparseCore.T d : Thread nD τ) ∗ post1 A9 A3 A10 d))
  rw [show (reg1 A4 A1 A5 A9 A3 A10 lv hlv).pre = pre1 A9 A3 A10 from rfl, show (reg1 A4 A1 A5 A9 A3 A10 lv hlv).post = post1 A9 A3 A10 from rfl] at h
  refine BIBase.Entails.trans ?_ h
  iintro ⟨Hlev, Hb, Hpre, Hg, Htk⟩
  isplitr
  · iintro H; rw [wp_ret]; imodintro; iexact H
  isplitl [Hb]; · iexact Hb
  isplitl [Hpre]; · iexact Hpre
  isplitl [Hlev]; · iexact Hlev
  isplitl [Hg]; · iexact Hg
  iexact Htk

include A4 A1 A5 A9 A3 A10 in
set_option backward.isDefEq.respectTransparency.types false in
set_option maxHeartbeats 2000000 in
/-- The same as the line of @main beside the SparseCore calls. -/
theorem region1_arr (lv : GSem nD τ sig → HIx 2 → ℕ) (hlv : (K (F := F)).Refines lv) (d : Dev nD) :
    iprop(levAts (K (F := F)).L lv ∗ boundary (SparseCore.T d : Thread nD τ) ∗ pre1 A9 A3 A10 d
        ∗ Pipeline.cellsGhost cfgs (EP (F := F)) 1 d ∗ Pipeline.toksInit cfgs (EP (F := F)) 1 d)
      ⊢ wp frame (wpE ((K (F := F)).defs D) 𝒱 (SparseCore.T d) none) Set.univ
          (Prog.lift (.customCall (SparseCore.inner (Pipeline.entry 1)) ()))
          (fun _ => iprop(boundary (SparseCore.T d : Thread nD τ) ∗ post1 A9 A3 A10 d)) := by
  rw [lift_entry]
  exact (region1_inner A4 A1 A5 A9 A3 A10 lv hlv d).trans
    ((K (F := F)).wp_liftProg D 𝒱 (SparseCore.T d) Set.univ none _ _)

end Data

section Lines

open Idealize.ShloMosaic.ValueIdx

set_option backward.isDefEq.respectTransparency.types false in
set_option maxHeartbeats 2000000 in
/-- TensorCore CALL 0 AS A LINE OF @main on the TensorCore of `d`, between SparseCore calls: from the level facts, the
    region boundary, what the TensorCore owes before SparseCore call 0, the call's staging cells' ghost state, the table
    and the weight row at their contents and the output array at any, the line runs to a continuation that is handed the
    boundary, the same owed, the inputs unchanged, and the output array with every block the product of the weight row and
    a staged block that agrees with the table on the columns inside it. -/
theorem region0 (lv : GSem nD τ sig → HIx 2 → ℕ) (hlv : (K (F := F)).Refines lv) (d : Dev nD)
    (X4 : S100x1000000.Idx → F .f32) (W1 : S1x100.Idx → F .f32) (Φ : PUnit → sProp 𝕄) :
    iprop(levAts (K (F := F)).L lv ∗ boundary (SparseCore.T d : Thread nD τ) ∗ tcOwes d 0
        ∗ Pipeline.cellsGhost cfgs (EP (F := F)) 0 d ∗ Pipeline.toksInit cfgs (EP (F := F)) 0 d
        ∗ ((SparseCore.T d : Thread nD τ).loc main_v4 ↦{fullShare} X4) ∗ ((SparseCore.T d : Thread nD τ).loc main_v1 ↦{fullShare} W1) ∗ (∃ f, (SparseCore.T d : Thread nD τ).loc main_v5 ↦{fullShare} f)
        ∗ (∀ fo, ⌜Vals.Reg0Val W1 X4 fo⌝ -∗ iprop(boundary (SparseCore.T d : Thread nD τ) ∗ tcOwes d 0
            ∗ ((SparseCore.T d : Thread nD τ).loc main_v4 ↦{fullShare} X4) ∗ ((SparseCore.T d : Thread nD τ).loc main_v1 ↦{fullShare} W1) ∗ ((SparseCore.T d : Thread nD τ).loc main_v5 ↦{fullShare} fo)) -∗ Φ ⟨⟩))
      ⊢ wp frame (wpE ((K (F := F)).defs D) 𝒱 (SparseCore.T d) none) Set.univ
          (Prog.lift (.customCall (SparseCore.inner (Pipeline.entry 0)) ())) Φ := by
  iintro ⟨Hlev, Hb, HO, Hg, Htk, H4, H1, ⟨%Ao, H5⟩, Hk⟩
  iapply (wp_wand_r frame _ Set.univ)
  isplitr [Hk]
  · iapply (region0_arr X4 W1 Ao (fun _ => W1 (ix2 (0 : Fin 1) (0 : Fin 100))) W1 (fun _ => W1 (ix2 (0 : Fin 1) (0 : Fin 100))) lv hlv d)
    unfold pre0
    isplitl [Hlev]; · iexact Hlev
    isplitl [Hb]; · iexact Hb
    isplitl [HO H4 H1 H5]
    · isplitl [HO]; · iexact HO
      isplitl [H4]; · iexact H4
      isplitl [H1]; · iexact H1
      iexact H5
    isplitl [Hg]; · iexact Hg
    iexact Htk
  · iintro %_ ⟨Hb, Hpost⟩
    unfold post0
    icases Hpost with ⟨HO, H4, H1, ⟨%fo, %ho, H5⟩⟩
    iapply Hk $$ %fo %(RegVal.val0 X4 W1 Ao d _ _ fo ho)
    isplitl [Hb]; · iexact Hb
    isplitl [HO]; · iexact HO
    isplitl [H4]; · iexact H4
    isplitl [H1]; · iexact H1
    iexact H5

set_option backward.isDefEq.respectTransparency.types false in
set_option maxHeartbeats 2000000 in
/-- TensorCore CALL 1 AS A LINE OF @main on the TensorCore of `d`, between SparseCore calls: from the level facts, the
    region boundary, what the TensorCore owes before SparseCore call 1, the call's staging cells' ghost state, the table
    and the weight row at their contents and the output array at any, the line runs to a continuation that is handed the
    boundary, the same owed, the inputs unchanged, and the output array with every block the product of the weight row and
    a staged block that agrees with the table on the columns inside it. -/
theorem region1 (lv : GSem nD τ sig → HIx 2 → ℕ) (hlv : (K (F := F)).Refines lv) (d : Dev nD)
    (X9 : S100x100000.Idx → F .f32) (W3 : S1x100.Idx → F .f32) (Φ : PUnit → sProp 𝕄) :
    iprop(levAts (K (F := F)).L lv ∗ boundary (SparseCore.T d : Thread nD τ) ∗ tcOwes d 1
        ∗ Pipeline.cellsGhost cfgs (EP (F := F)) 1 d ∗ Pipeline.toksInit cfgs (EP (F := F)) 1 d
        ∗ ((SparseCore.T d : Thread nD τ).loc main_v9 ↦{fullShare} X9) ∗ ((SparseCore.T d : Thread nD τ).loc main_v3 ↦{fullShare} W3) ∗ (∃ f, (SparseCore.T d : Thread nD τ).loc main_v10 ↦{fullShare} f)
        ∗ (∀ fo, ⌜Vals.Reg1Val W3 X9 fo⌝ -∗ iprop(boundary (SparseCore.T d : Thread nD τ) ∗ tcOwes d 1
            ∗ ((SparseCore.T d : Thread nD τ).loc main_v9 ↦{fullShare} X9) ∗ ((SparseCore.T d : Thread nD τ).loc main_v3 ↦{fullShare} W3) ∗ ((SparseCore.T d : Thread nD τ).loc main_v10 ↦{fullShare} fo)) -∗ Φ ⟨⟩))
      ⊢ wp frame (wpE ((K (F := F)).defs D) 𝒱 (SparseCore.T d) none) Set.univ
          (Prog.lift (.customCall (SparseCore.inner (Pipeline.entry 1)) ())) Φ := by
  iintro ⟨Hlev, Hb, HO, Hg, Htk, H4, H1, ⟨%Ao, H5⟩, Hk⟩
  iapply (wp_wand_r frame _ Set.univ)
  isplitr [Hk]
  · iapply (region1_arr (fun _ => W3 (ix2 (0 : Fin 1) (0 : Fin 100))) W3 (fun _ => W3 (ix2 (0 : Fin 1) (0 : Fin 100))) X9 W3 Ao lv hlv d)
    unfold pre1
    isplitl [Hlev]; · iexact Hlev
    isplitl [Hb]; · iexact Hb
    isplitl [HO H4 H1 H5]
    · isplitl [HO]; · iexact HO
      isplitl [H4]; · iexact H4
      isplitl [H1]; · iexact H1
      iexact H5
    isplitl [Hg]; · iexact Hg
    iexact Htk
  · iintro %_ ⟨Hb, Hpost⟩
    unfold post1
    icases Hpost with ⟨HO, H4, H1, ⟨%fo, %ho, H5⟩⟩
    iapply Hk $$ %fo %(RegVal.val2 X9 W3 Ao d _ _ fo ho)
    isplitl [Hb]; · iexact Hb
    isplitl [HO]; · iexact HO
    isplitl [H4]; · iexact H4
    isplitl [H1]; · iexact H1
    iexact H5

end Lines

end Cert.Kernel.Regions

end
-- ==== Proof.ChkK1B.lean ====
/-
  The side conditions the gather body assumes of each id word it reads, for every word and every trip.

  In trip t of a chunk loop (eight trips), lane j of the sixteen reads row 16 t + j of a 128 x 128 buffer at the
  sixteen lanes starting at (v &&& 127) &&& 112, and sixteen words of a 512-word buffer starting at
  32 j + ((((v &&& 127) &&& 15) - j + 16) &&& 15).  The first start is a multiple of 16 and at most 112; the row is
  at most 16 * 7 + 15 = 127; the second start is at most 480 + 15.  None of the sums wraps in 32 bits.  Each
  statement below instantiates the general facts of ChkLib at its lane's constants j and 32 j.
-/
import proofs.«204913_g64682207478566_cont_9to1c4b_713_31_alg».proof.Kernel
import proofs.«204913_g64682207478566_cont_9to1c4b_713_31_alg».proof.Proof.ChkLib

namespace Cert.Kernel.ChkK1

open Idealize.ShloMosaic Cert.Proof.ChkLib

/-- Chunk loop 1 runs eight trips. -/
theorem lt8_1 (t : Fin k1_t1_loop.trips) : t.val < 8 := lt_of_lt_of_eq t.isLt trips_eq_8
/-- Chunk loop 2 runs eight trips. -/
theorem lt8_2 (t : Fin k1_t2_loop.trips) : t.val < 8 := lt_of_lt_of_eq t.isLt trips_eq_8
/-- Chunk loop 3 runs eight trips. -/
theorem lt8_3 (t : Fin k1_t3_loop.trips) : t.val < 8 := lt_of_lt_of_eq t.isLt trips_eq_8
/-- Chunk loop 4 runs eight trips. -/
theorem lt8_4 (t : Fin k1_t4_loop.trips) : t.val < 8 := lt_of_lt_of_eq t.isLt trips_eq_8

/-- Chunk loop 1, lane 0. -/
theorem chk1 : ∀ (t : Fin k1_t1_loop.trips) (v : BitVec 32), k1_chk1 t v := fun t v =>
  ⟨dvd_and_127_112 v,
   Fin.forall_fin_two.2 ⟨row_inb t.val (lt8_1 t) 0#32 (by decide), and_127_112_inb v⟩,
   Fin.forall_fin_one.2 (base_add_and_15_inb 0#32 _ (by decide))⟩

/-- Chunk loop 1, lane 1. -/
theorem chk2 : ∀ (t : Fin k1_t1_loop.trips) (v : BitVec 32), k1_chk2 t v := fun t v =>
  ⟨dvd_and_127_112 v,
   Fin.forall_fin_two.2 ⟨row_inb t.val (lt8_1 t) 1#32 (by decide), and_127_112_inb v⟩,
   Fin.forall_fin_one.2 (base_add_and_15_inb 32#32 _ (by decide))⟩

/-- Chunk loop 1, lane 2. -/
theorem chk3 : ∀ (t : Fin k1_t1_loop.trips) (v : BitVec 32), k1_chk3 t v := fun t v =>
  ⟨dvd_and_127_112 v,
   Fin.forall_fin_two.2 ⟨row_inb t.val (lt8_1 t) 2#32 (by decide), and_127_112_inb v⟩,
   Fin.forall_fin_one.2 (base_add_and_15_inb 64#32 _ (by decide))⟩

/-- Chunk loop 1, lane 3. -/
theorem chk4 : ∀ (t : Fin k1_t1_loop.trips) (v : BitVec 32), k1_chk4 t v := fun t v =>
  ⟨dvd_and_127_112 v,
   Fin.forall_fin_two.2 ⟨row_inb t.val (lt8_1 t) 3#32 (by decide), and_127_112_inb v⟩,
   Fin.forall_fin_one.2 (base_add_and_15_inb 96#32 _ (by decide))⟩

/-- Chunk loop 1, lane 4. -/
theorem chk5 : ∀ (t : Fin k1_t1_loop.trips) (v : BitVec 32), k1_chk5 t v := fun t v =>
  ⟨dvd_and_127_112 v,
   Fin.forall_fin_two.2 ⟨row_inb t.val (lt8_1 t) 4#32 (by decide), and_127_112_inb v⟩,
   Fin.forall_fin_one.2 (base_add_and_15_inb 128#32 _ (by decide))⟩

/-- Chunk loop 1, lane 5. -/
theorem chk6 : ∀ (t : Fin k1_t1_loop.trips) (v : BitVec 32), k1_chk6 t v := fun t v =>
  ⟨dvd_and_127_112 v,
   Fin.forall_fin_two.2 ⟨row_inb t.val (lt8_1 t) 5#32 (by decide), and_127_112_inb v⟩,
   Fin.forall_fin_one.2 (base_add_and_15_inb 160#32 _ (by decide))⟩

/-- Chunk loop 1, lane 6. -/
theorem chk7 : ∀ (t : Fin k1_t1_loop.trips) (v : BitVec 32), k1_chk7 t v := fun t v =>
  ⟨dvd_and_127_112 v,
   Fin.forall_fin_two.2 ⟨row_inb t.val (lt8_1 t) 6#32 (by decide), and_127_112_inb v⟩,
   Fin.forall_fin_one.2 (base_add_and_15_inb 192#32 _ (by decide))⟩

/-- Chunk loop 1, lane 7. -/
theorem chk8 : ∀ (t : Fin k1_t1_loop.trips) (v : BitVec 32), k1_chk8 t v := fun t v =>
  ⟨dvd_and_127_112 v,
   Fin.forall_fin_two.2 ⟨row_inb t.val (lt8_1 t) 7#32 (by decide), and_127_112_inb v⟩,
   Fin.forall_fin_one.2 (base_add_and_15_inb 224#32 _ (by decide))⟩

/-- Chunk loop 1, lane 8. -/
theorem chk9 : ∀ (t : Fin k1_t1_loop.trips) (v : BitVec 32), k1_chk9 t v := fun t v =>
  ⟨dvd_and_127_112 v,
   Fin.forall_fin_two.2 ⟨row_inb t.val (lt8_1 t) 8#32 (by decide), and_127_112_inb v⟩,
   Fin.forall_fin_one.2 (base_add_and_15_inb 256#32 _ (by decide))⟩

/-- Chunk loop 1, lane 9. -/
theorem chk10 : ∀ (t : Fin k1_t1_loop.trips) (v : BitVec 32), k1_chk10 t v := fun t v =>
  ⟨dvd_and_127_112 v,
   Fin.forall_fin_two.2 ⟨row_inb t.val (lt8_1 t) 9#32 (by decide), and_127_112_inb v⟩,
   Fin.forall_fin_one.2 (base_add_and_15_inb 288#32 _ (by decide))⟩

/-- Chunk loop 1, lane 10. -/
theorem chk11 : ∀ (t : Fin k1_t1_loop.trips) (v : BitVec 32), k1_chk11 t v := fun t v =>
  ⟨dvd_and_127_112 v,
   Fin.forall_fin_two.2 ⟨row_inb t.val (lt8_1 t) 10#32 (by decide), and_127_112_inb v⟩,
   Fin.forall_fin_one.2 (base_add_and_15_inb 320#32 _ (by decide))⟩

/-- Chunk loop 1, lane 11. -/
theorem chk12 : ∀ (t : Fin k1_t1_loop.trips) (v : BitVec 32), k1_chk12 t v := fun t v =>
  ⟨dvd_and_127_112 v,
   Fin.forall_fin_two.2 ⟨row_inb t.val (lt8_1 t) 11#32 (by decide), and_127_112_inb v⟩,
   Fin.forall_fin_one.2 (base_add_and_15_inb 352#32 _ (by decide))⟩

/-- Chunk loop 1, lane 12. -/
theorem chk13 : ∀ (t : Fin k1_t1_loop.trips) (v : BitVec 32), k1_chk13 t v := fun t v =>
  ⟨dvd_and_127_112 v,
   Fin.forall_fin_two.2 ⟨row_inb t.val (lt8_1 t) 12#32 (by decide), and_127_112_inb v⟩,
   Fin.forall_fin_one.2 (base_add_and_15_inb 384#32 _ (by decide))⟩

/-- Chunk loop 1, lane 13. -/
theorem chk14 : ∀ (t : Fin k1_t1_loop.trips) (v : BitVec 32), k1_chk14 t v := fun t v =>
  ⟨dvd_and_127_112 v,
   Fin.forall_fin_two.2 ⟨row_inb t.val (lt8_1 t) 13#32 (by decide), and_127_112_inb v⟩,
   Fin.forall_fin_one.2 (base_add_and_15_inb 416#32 _ (by decide))⟩

/-- Chunk loop 1, lane 14. -/
theorem chk15 : ∀ (t : Fin k1_t1_loop.trips) (v : BitVec 32), k1_chk15 t v := fun t v =>
  ⟨dvd_and_127_112 v,
   Fin.forall_fin_two.2 ⟨row_inb t.val (lt8_1 t) 14#32 (by decide), and_127_112_inb v⟩,
   Fin.forall_fin_one.2 (base_add_and_15_inb 448#32 _ (by decide))⟩

/-- Chunk loop 1, lane 15. -/
theorem chk16 : ∀ (t : Fin k1_t1_loop.trips) (v : BitVec 32), k1_chk16 t v := fun t v =>
  ⟨dvd_and_127_112 v,
   Fin.forall_fin_two.2 ⟨row_inb t.val (lt8_1 t) 15#32 (by decide), and_127_112_inb v⟩,
   Fin.forall_fin_one.2 (base_add_and_15_inb 480#32 _ (by decide))⟩

/-- Chunk loop 2, lane 0. -/
theorem chk17 : ∀ (t : Fin k1_t2_loop.trips) (v : BitVec 32), k1_chk17 t v := fun t v =>
  ⟨dvd_and_127_112 v,
   Fin.forall_fin_two.2 ⟨row_inb t.val (lt8_2 t) 0#32 (by decide), and_127_112_inb v⟩,
   Fin.forall_fin_one.2 (base_add_and_15_inb 0#32 _ (by decide))⟩

/-- Chunk loop 2, lane 1. -/
theorem chk18 : ∀ (t : Fin k1_t2_loop.trips) (v : BitVec 32), k1_chk18 t v := fun t v =>
  ⟨dvd_and_127_112 v,
   Fin.forall_fin_two.2 ⟨row_inb t.val (lt8_2 t) 1#32 (by decide), and_127_112_inb v⟩,
   Fin.forall_fin_one.2 (base_add_and_15_inb 32#32 _ (by decide))⟩

/-- Chunk loop 2, lane 2. -/
theorem chk19 : ∀ (t : Fin k1_t2_loop.trips) (v : BitVec 32), k1_chk19 t v := fun t v =>
  ⟨dvd_and_127_112 v,
   Fin.forall_fin_two.2 ⟨row_inb t.val (lt8_2 t) 2#32 (by decide), and_127_112_inb v⟩,
   Fin.forall_fin_one.2 (base_add_and_15_inb 64#32 _ (by decide))⟩

/-- Chunk loop 2, lane 3. -/
theorem chk20 : ∀ (t : Fin k1_t2_loop.trips) (v : BitVec 32), k1_chk20 t v := fun t v =>
  ⟨dvd_and_127_112 v,
   Fin.forall_fin_two.2 ⟨row_inb t.val (lt8_2 t) 3#32 (by decide), and_127_112_inb v⟩,
   Fin.forall_fin_one.2 (base_add_and_15_inb 96#32 _ (by decide))⟩

/-- Chunk loop 2, lane 4. -/
theorem chk21 : ∀ (t : Fin k1_t2_loop.trips) (v : BitVec 32), k1_chk21 t v := fun t v =>
  ⟨dvd_and_127_112 v,
   Fin.forall_fin_two.2 ⟨row_inb t.val (lt8_2 t) 4#32 (by decide), and_127_112_inb v⟩,
   Fin.forall_fin_one.2 (base_add_and_15_inb 128#32 _ (by decide))⟩

/-- Chunk loop 2, lane 5. -/
theorem chk22 : ∀ (t : Fin k1_t2_loop.trips) (v : BitVec 32), k1_chk22 t v := fun t v =>
  ⟨dvd_and_127_112 v,
   Fin.forall_fin_two.2 ⟨row_inb t.val (lt8_2 t) 5#32 (by decide), and_127_112_inb v⟩,
   Fin.forall_fin_one.2 (base_add_and_15_inb 160#32 _ (by decide))⟩

/-- Chunk loop 2, lane 6. -/
theorem chk23 : ∀ (t : Fin k1_t2_loop.trips) (v : BitVec 32), k1_chk23 t v := fun t v =>
  ⟨dvd_and_127_112 v,
   Fin.forall_fin_two.2 ⟨row_inb t.val (lt8_2 t) 6#32 (by decide), and_127_112_inb v⟩,
   Fin.forall_fin_one.2 (base_add_and_15_inb 192#32 _ (by decide))⟩

/-- Chunk loop 2, lane 7. -/
theorem chk24 : ∀ (t : Fin k1_t2_loop.trips) (v : BitVec 32), k1_chk24 t v := fun t v =>
  ⟨dvd_and_127_112 v,
   Fin.forall_fin_two.2 ⟨row_inb t.val (lt8_2 t) 7#32 (by decide), and_127_112_inb v⟩,
   Fin.forall_fin_one.2 (base_add_and_15_inb 224#32 _ (by decide))⟩

/-- Chunk loop 2, lane 8. -/
theorem chk25 : ∀ (t : Fin k1_t2_loop.trips) (v : BitVec 32), k1_chk25 t v := fun t v =>
  ⟨dvd_and_127_112 v,
   Fin.forall_fin_two.2 ⟨row_inb t.val (lt8_2 t) 8#32 (by decide), and_127_112_inb v⟩,
   Fin.forall_fin_one.2 (base_add_and_15_inb 256#32 _ (by decide))⟩

/-- Chunk loop 2, lane 9. -/
theorem chk26 : ∀ (t : Fin k1_t2_loop.trips) (v : BitVec 32), k1_chk26 t v := fun t v =>
  ⟨dvd_and_127_112 v,
   Fin.forall_fin_two.2 ⟨row_inb t.val (lt8_2 t) 9#32 (by decide), and_127_112_inb v⟩,
   Fin.forall_fin_one.2 (base_add_and_15_inb 288#32 _ (by decide))⟩

/-- Chunk loop 2, lane 10. -/
theorem chk27 : ∀ (t : Fin k1_t2_loop.trips) (v : BitVec 32), k1_chk27 t v := fun t v =>
  ⟨dvd_and_127_112 v,
   Fin.forall_fin_two.2 ⟨row_inb t.val (lt8_2 t) 10#32 (by decide), and_127_112_inb v⟩,
   Fin.forall_fin_one.2 (base_add_and_15_inb 320#32 _ (by decide))⟩

/-- Chunk loop 2, lane 11. -/
theorem chk28 : ∀ (t : Fin k1_t2_loop.trips) (v : BitVec 32), k1_chk28 t v := fun t v =>
  ⟨dvd_and_127_112 v,
   Fin.forall_fin_two.2 ⟨row_inb t.val (lt8_2 t) 11#32 (by decide), and_127_112_inb v⟩,
   Fin.forall_fin_one.2 (base_add_and_15_inb 352#32 _ (by decide))⟩

/-- Chunk loop 2, lane 12. -/
theorem chk29 : ∀ (t : Fin k1_t2_loop.trips) (v : BitVec 32), k1_chk29 t v := fun t v =>
  ⟨dvd_and_127_112 v,
   Fin.forall_fin_two.2 ⟨row_inb t.val (lt8_2 t) 12#32 (by decide), and_127_112_inb v⟩,
   Fin.forall_fin_one.2 (base_add_and_15_inb 384#32 _ (by decide))⟩

/-- Chunk loop 2, lane 13. -/
theorem chk30 : ∀ (t : Fin k1_t2_loop.trips) (v : BitVec 32), k1_chk30 t v := fun t v =>
  ⟨dvd_and_127_112 v,
   Fin.forall_fin_two.2 ⟨row_inb t.val (lt8_2 t) 13#32 (by decide), and_127_112_inb v⟩,
   Fin.forall_fin_one.2 (base_add_and_15_inb 416#32 _ (by decide))⟩

/-- Chunk loop 2, lane 14. -/
theorem chk31 : ∀ (t : Fin k1_t2_loop.trips) (v : BitVec 32), k1_chk31 t v := fun t v =>
  ⟨dvd_and_127_112 v,
   Fin.forall_fin_two.2 ⟨row_inb t.val (lt8_2 t) 14#32 (by decide), and_127_112_inb v⟩,
   Fin.forall_fin_one.2 (base_add_and_15_inb 448#32 _ (by decide))⟩

/-- Chunk loop 2, lane 15. -/
theorem chk32 : ∀ (t : Fin k1_t2_loop.trips) (v : BitVec 32), k1_chk32 t v := fun t v =>
  ⟨dvd_and_127_112 v,
   Fin.forall_fin_two.2 ⟨row_inb t.val (lt8_2 t) 15#32 (by decide), and_127_112_inb v⟩,
   Fin.forall_fin_one.2 (base_add_and_15_inb 480#32 _ (by decide))⟩

/-- Chunk loop 3, lane 0. -/
theorem chk33 : ∀ (t : Fin k1_t3_loop.trips) (v : BitVec 32), k1_chk33 t v := fun t v =>
  ⟨dvd_and_127_112 v,
   Fin.forall_fin_two.2 ⟨row_inb t.val (lt8_3 t) 0#32 (by decide), and_127_112_inb v⟩,
   Fin.forall_fin_one.2 (base_add_and_15_inb 0#32 _ (by decide))⟩

/-- Chunk loop 3, lane 1. -/
theorem chk34 : ∀ (t : Fin k1_t3_loop.trips) (v : BitVec 32), k1_chk34 t v := fun t v =>
  ⟨dvd_and_127_112 v,
   Fin.forall_fin_two.2 ⟨row_inb t.val (lt8_3 t) 1#32 (by decide), and_127_112_inb v⟩,
   Fin.forall_fin_one.2 (base_add_and_15_inb 32#32 _ (by decide))⟩

/-- Chunk loop 3, lane 2. -/
theorem chk35 : ∀ (t : Fin k1_t3_loop.trips) (v : BitVec 32), k1_chk35 t v := fun t v =>
  ⟨dvd_and_127_112 v,
   Fin.forall_fin_two.2 ⟨row_inb t.val (lt8_3 t) 2#32 (by decide), and_127_112_inb v⟩,
   Fin.forall_fin_one.2 (base_add_and_15_inb 64#32 _ (by decide))⟩

/-- Chunk loop 3, lane 3. -/
theorem chk36 : ∀ (t : Fin k1_t3_loop.trips) (v : BitVec 32), k1_chk36 t v := fun t v =>
  ⟨dvd_and_127_112 v,
   Fin.forall_fin_two.2 ⟨row_inb t.val (lt8_3 t) 3#32 (by decide), and_127_112_inb v⟩,
   Fin.forall_fin_one.2 (base_add_and_15_inb 96#32 _ (by decide))⟩

/-- Chunk loop 3, lane 4. -/
theorem chk37 : ∀ (t : Fin k1_t3_loop.trips) (v : BitVec 32), k1_chk37 t v := fun t v =>
  ⟨dvd_and_127_112 v,
   Fin.forall_fin_two.2 ⟨row_inb t.val (lt8_3 t) 4#32 (by decide), and_127_112_inb v⟩,
   Fin.forall_fin_one.2 (base_add_and_15_inb 128#32 _ (by decide))⟩

/-- Chunk loop 3, lane 5. -/
theorem chk38 : ∀ (t : Fin k1_t3_loop.trips) (v : BitVec 32), k1_chk38 t v := fun t v =>
  ⟨dvd_and_127_112 v,
   Fin.forall_fin_two.2 ⟨row_inb t.val (lt8_3 t) 5#32 (by decide), and_127_112_inb v⟩,
   Fin.forall_fin_one.2 (base_add_and_15_inb 160#32 _ (by decide))⟩

/-- Chunk loop 3, lane 6. -/
theorem chk39 : ∀ (t : Fin k1_t3_loop.trips) (v : BitVec 32), k1_chk39 t v := fun t v =>
  ⟨dvd_and_127_112 v,
   Fin.forall_fin_two.2 ⟨row_inb t.val (lt8_3 t) 6#32 (by decide), and_127_112_inb v⟩,
   Fin.forall_fin_one.2 (base_add_and_15_inb 192#32 _ (by decide))⟩

/-- Chunk loop 3, lane 7. -/
theorem chk40 : ∀ (t : Fin k1_t3_loop.trips) (v : BitVec 32), k1_chk40 t v := fun t v =>
  ⟨dvd_and_127_112 v,
   Fin.forall_fin_two.2 ⟨row_inb t.val (lt8_3 t) 7#32 (by decide), and_127_112_inb v⟩,
   Fin.forall_fin_one.2 (base_add_and_15_inb 224#32 _ (by decide))⟩

/-- Chunk loop 3, lane 8. -/
theorem chk41 : ∀ (t : Fin k1_t3_loop.trips) (v : BitVec 32), k1_chk41 t v := fun t v =>
  ⟨dvd_and_127_112 v,
   Fin.forall_fin_two.2 ⟨row_inb t.val (lt8_3 t) 8#32 (by decide), and_127_112_inb v⟩,
   Fin.forall_fin_one.2 (base_add_and_15_inb 256#32 _ (by decide))⟩

/-- Chunk loop 3, lane 9. -/
theorem chk42 : ∀ (t : Fin k1_t3_loop.trips) (v : BitVec 32), k1_chk42 t v := fun t v =>
  ⟨dvd_and_127_112 v,
   Fin.forall_fin_two.2 ⟨row_inb t.val (lt8_3 t) 9#32 (by decide), and_127_112_inb v⟩,
   Fin.forall_fin_one.2 (base_add_and_15_inb 288#32 _ (by decide))⟩

/-- Chunk loop 3, lane 10. -/
theorem chk43 : ∀ (t : Fin k1_t3_loop.trips) (v : BitVec 32), k1_chk43 t v := fun t v =>
  ⟨dvd_and_127_112 v,
   Fin.forall_fin_two.2 ⟨row_inb t.val (lt8_3 t) 10#32 (by decide), and_127_112_inb v⟩,
   Fin.forall_fin_one.2 (base_add_and_15_inb 320#32 _ (by decide))⟩

/-- Chunk loop 3, lane 11. -/
theorem chk44 : ∀ (t : Fin k1_t3_loop.trips) (v : BitVec 32), k1_chk44 t v := fun t v =>
  ⟨dvd_and_127_112 v,
   Fin.forall_fin_two.2 ⟨row_inb t.val (lt8_3 t) 11#32 (by decide), and_127_112_inb v⟩,
   Fin.forall_fin_one.2 (base_add_and_15_inb 352#32 _ (by decide))⟩

/-- Chunk loop 3, lane 12. -/
theorem chk45 : ∀ (t : Fin k1_t3_loop.trips) (v : BitVec 32), k1_chk45 t v := fun t v =>
  ⟨dvd_and_127_112 v,
   Fin.forall_fin_two.2 ⟨row_inb t.val (lt8_3 t) 12#32 (by decide), and_127_112_inb v⟩,
   Fin.forall_fin_one.2 (base_add_and_15_inb 384#32 _ (by decide))⟩

/-- Chunk loop 3, lane 13. -/
theorem chk46 : ∀ (t : Fin k1_t3_loop.trips) (v : BitVec 32), k1_chk46 t v := fun t v =>
  ⟨dvd_and_127_112 v,
   Fin.forall_fin_two.2 ⟨row_inb t.val (lt8_3 t) 13#32 (by decide), and_127_112_inb v⟩,
   Fin.forall_fin_one.2 (base_add_and_15_inb 416#32 _ (by decide))⟩

/-- Chunk loop 3, lane 14. -/
theorem chk47 : ∀ (t : Fin k1_t3_loop.trips) (v : BitVec 32), k1_chk47 t v := fun t v =>
  ⟨dvd_and_127_112 v,
   Fin.forall_fin_two.2 ⟨row_inb t.val (lt8_3 t) 14#32 (by decide), and_127_112_inb v⟩,
   Fin.forall_fin_one.2 (base_add_and_15_inb 448#32 _ (by decide))⟩

/-- Chunk loop 3, lane 15. -/
theorem chk48 : ∀ (t : Fin k1_t3_loop.trips) (v : BitVec 32), k1_chk48 t v := fun t v =>
  ⟨dvd_and_127_112 v,
   Fin.forall_fin_two.2 ⟨row_inb t.val (lt8_3 t) 15#32 (by decide), and_127_112_inb v⟩,
   Fin.forall_fin_one.2 (base_add_and_15_inb 480#32 _ (by decide))⟩

/-- Chunk loop 4, lane 0. -/
theorem chk49 : ∀ (t : Fin k1_t4_loop.trips) (v : BitVec 32), k1_chk49 t v := fun t v =>
  ⟨dvd_and_127_112 v,
   Fin.forall_fin_two.2 ⟨row_inb t.val (lt8_4 t) 0#32 (by decide), and_127_112_inb v⟩,
   Fin.forall_fin_one.2 (base_add_and_15_inb 0#32 _ (by decide))⟩

/-- Chunk loop 4, lane 1. -/
theorem chk50 : ∀ (t : Fin k1_t4_loop.trips) (v : BitVec 32), k1_chk50 t v := fun t v =>
  ⟨dvd_and_127_112 v,
   Fin.forall_fin_two.2 ⟨row_inb t.val (lt8_4 t) 1#32 (by decide), and_127_112_inb v⟩,
   Fin.forall_fin_one.2 (base_add_and_15_inb 32#32 _ (by decide))⟩

/-- Chunk loop 4, lane 2. -/
theorem chk51 : ∀ (t : Fin k1_t4_loop.trips) (v : BitVec 32), k1_chk51 t v := fun t v =>
  ⟨dvd_and_127_112 v,
   Fin.forall_fin_two.2 ⟨row_inb t.val (lt8_4 t) 2#32 (by decide), and_127_112_inb v⟩,
   Fin.forall_fin_one.2 (base_add_and_15_inb 64#32 _ (by decide))⟩

/-- Chunk loop 4, lane 3. -/
theorem chk52 : ∀ (t : Fin k1_t4_loop.trips) (v : BitVec 32), k1_chk52 t v := fun t v =>
  ⟨dvd_and_127_112 v,
   Fin.forall_fin_two.2 ⟨row_inb t.val (lt8_4 t) 3#32 (by decide), and_127_112_inb v⟩,
   Fin.forall_fin_one.2 (base_add_and_15_inb 96#32 _ (by decide))⟩

/-- Chunk loop 4, lane 4. -/
theorem chk53 : ∀ (t : Fin k1_t4_loop.trips) (v : BitVec 32), k1_chk53 t v := fun t v =>
  ⟨dvd_and_127_112 v,
   Fin.forall_fin_two.2 ⟨row_inb t.val (lt8_4 t) 4#32 (by decide), and_127_112_inb v⟩,
   Fin.forall_fin_one.2 (base_add_and_15_inb 128#32 _ (by decide))⟩

/-- Chunk loop 4, lane 5. -/
theorem chk54 : ∀ (t : Fin k1_t4_loop.trips) (v : BitVec 32), k1_chk54 t v := fun t v =>
  ⟨dvd_and_127_112 v,
   Fin.forall_fin_two.2 ⟨row_inb t.val (lt8_4 t) 5#32 (by decide), and_127_112_inb v⟩,
   Fin.forall_fin_one.2 (base_add_and_15_inb 160#32 _ (by decide))⟩

/-- Chunk loop 4, lane 6. -/
theorem chk55 : ∀ (t : Fin k1_t4_loop.trips) (v : BitVec 32), k1_chk55 t v := fun t v =>
  ⟨dvd_and_127_112 v,
   Fin.forall_fin_two.2 ⟨row_inb t.val (lt8_4 t) 6#32 (by decide), and_127_112_inb v⟩,
   Fin.forall_fin_one.2 (base_add_and_15_inb 192#32 _ (by decide))⟩

/-- Chunk loop 4, lane 7. -/
theorem chk56 : ∀ (t : Fin k1_t4_loop.trips) (v : BitVec 32), k1_chk56 t v := fun t v =>
  ⟨dvd_and_127_112 v,
   Fin.forall_fin_two.2 ⟨row_inb t.val (lt8_4 t) 7#32 (by decide), and_127_112_inb v⟩,
   Fin.forall_fin_one.2 (base_add_and_15_inb 224#32 _ (by decide))⟩

/-- Chunk loop 4, lane 8. -/
theorem chk57 : ∀ (t : Fin k1_t4_loop.trips) (v : BitVec 32), k1_chk57 t v := fun t v =>
  ⟨dvd_and_127_112 v,
   Fin.forall_fin_two.2 ⟨row_inb t.val (lt8_4 t) 8#32 (by decide), and_127_112_inb v⟩,
   Fin.forall_fin_one.2 (base_add_and_15_inb 256#32 _ (by decide))⟩

/-- Chunk loop 4, lane 9. -/
theorem chk58 : ∀ (t : Fin k1_t4_loop.trips) (v : BitVec 32), k1_chk58 t v := fun t v =>
  ⟨dvd_and_127_112 v,
   Fin.forall_fin_two.2 ⟨row_inb t.val (lt8_4 t) 9#32 (by decide), and_127_112_inb v⟩,
   Fin.forall_fin_one.2 (base_add_and_15_inb 288#32 _ (by decide))⟩

/-- Chunk loop 4, lane 10. -/
theorem chk59 : ∀ (t : Fin k1_t4_loop.trips) (v : BitVec 32), k1_chk59 t v := fun t v =>
  ⟨dvd_and_127_112 v,
   Fin.forall_fin_two.2 ⟨row_inb t.val (lt8_4 t) 10#32 (by decide), and_127_112_inb v⟩,
   Fin.forall_fin_one.2 (base_add_and_15_inb 320#32 _ (by decide))⟩

/-- Chunk loop 4, lane 11. -/
theorem chk60 : ∀ (t : Fin k1_t4_loop.trips) (v : BitVec 32), k1_chk60 t v := fun t v =>
  ⟨dvd_and_127_112 v,
   Fin.forall_fin_two.2 ⟨row_inb t.val (lt8_4 t) 11#32 (by decide), and_127_112_inb v⟩,
   Fin.forall_fin_one.2 (base_add_and_15_inb 352#32 _ (by decide))⟩

/-- Chunk loop 4, lane 12. -/
theorem chk61 : ∀ (t : Fin k1_t4_loop.trips) (v : BitVec 32), k1_chk61 t v := fun t v =>
  ⟨dvd_and_127_112 v,
   Fin.forall_fin_two.2 ⟨row_inb t.val (lt8_4 t) 12#32 (by decide), and_127_112_inb v⟩,
   Fin.forall_fin_one.2 (base_add_and_15_inb 384#32 _ (by decide))⟩

/-- Chunk loop 4, lane 13. -/
theorem chk62 : ∀ (t : Fin k1_t4_loop.trips) (v : BitVec 32), k1_chk62 t v := fun t v =>
  ⟨dvd_and_127_112 v,
   Fin.forall_fin_two.2 ⟨row_inb t.val (lt8_4 t) 13#32 (by decide), and_127_112_inb v⟩,
   Fin.forall_fin_one.2 (base_add_and_15_inb 416#32 _ (by decide))⟩

/-- Chunk loop 4, lane 14. -/
theorem chk63 : ∀ (t : Fin k1_t4_loop.trips) (v : BitVec 32), k1_chk63 t v := fun t v =>
  ⟨dvd_and_127_112 v,
   Fin.forall_fin_two.2 ⟨row_inb t.val (lt8_4 t) 14#32 (by decide), and_127_112_inb v⟩,
   Fin.forall_fin_one.2 (base_add_and_15_inb 448#32 _ (by decide))⟩

/-- Chunk loop 4, lane 15. -/
theorem chk64 : ∀ (t : Fin k1_t4_loop.trips) (v : BitVec 32), k1_chk64 t v := fun t v =>
  ⟨dvd_and_127_112 v,
   Fin.forall_fin_two.2 ⟨row_inb t.val (lt8_4 t) 15#32 (by decide), and_127_112_inb v⟩,
   Fin.forall_fin_one.2 (base_add_and_15_inb 480#32 _ (by decide))⟩

end Cert.Kernel.ChkK1
-- ==== Proof.ChkK3B.lean ====
/-
  The side conditions the gather body assumes of each id word it reads, for every word and every trip.

  In trip t of a chunk loop (eight trips), lane j of the sixteen reads row 16 t + j of a 128 x 128 buffer at the
  sixteen lanes starting at (v &&& 127) &&& 112, and sixteen words of a 512-word buffer starting at
  32 j + ((((v &&& 127) &&& 15) - j + 16) &&& 15).  The first start is a multiple of 16 and at most 112; the row is
  at most 16 * 7 + 15 = 127; the second start is at most 480 + 15.  None of the sums wraps in 32 bits.  Each
  statement below instantiates the general facts of ChkLib at its lane's constants j and 32 j.
-/
import proofs.«204913_g64682207478566_cont_9to1c4b_713_31_alg».proof.Kernel
import proofs.«204913_g64682207478566_cont_9to1c4b_713_31_alg».proof.Proof.ChkLib

namespace Cert.Kernel.ChkK3

open Idealize.ShloMosaic Cert.Proof.ChkLib

/-- Chunk loop 1 runs eight trips. -/
theorem lt8_1 (t : Fin k3_t1_loop.trips) : t.val < 8 := lt_of_lt_of_eq t.isLt trips_eq_8
/-- Chunk loop 2 runs eight trips. -/
theorem lt8_2 (t : Fin k3_t2_loop.trips) : t.val < 8 := lt_of_lt_of_eq t.isLt trips_eq_8
/-- Chunk loop 3 runs eight trips. -/
theorem lt8_3 (t : Fin k3_t3_loop.trips) : t.val < 8 := lt_of_lt_of_eq t.isLt trips_eq_8
/-- Chunk loop 4 runs eight trips. -/
theorem lt8_4 (t : Fin k3_t4_loop.trips) : t.val < 8 := lt_of_lt_of_eq t.isLt trips_eq_8

/-- Chunk loop 1, lane 0. -/
theorem chk1 : ∀ (t : Fin k3_t1_loop.trips) (v : BitVec 32), k3_chk1 t v := fun t v =>
  ⟨dvd_and_127_112 v,
   Fin.forall_fin_two.2 ⟨row_inb t.val (lt8_1 t) 0#32 (by decide), and_127_112_inb v⟩,
   Fin.forall_fin_one.2 (base_add_and_15_inb 0#32 _ (by decide))⟩

/-- Chunk loop 1, lane 1. -/
theorem chk2 : ∀ (t : Fin k3_t1_loop.trips) (v : BitVec 32), k3_chk2 t v := fun t v =>
  ⟨dvd_and_127_112 v,
   Fin.forall_fin_two.2 ⟨row_inb t.val (lt8_1 t) 1#32 (by decide), and_127_112_inb v⟩,
   Fin.forall_fin_one.2 (base_add_and_15_inb 32#32 _ (by decide))⟩

/-- Chunk loop 1, lane 2. -/
theorem chk3 : ∀ (t : Fin k3_t1_loop.trips) (v : BitVec 32), k3_chk3 t v := fun t v =>
  ⟨dvd_and_127_112 v,
   Fin.forall_fin_two.2 ⟨row_inb t.val (lt8_1 t) 2#32 (by decide), and_127_112_inb v⟩,
   Fin.forall_fin_one.2 (base_add_and_15_inb 64#32 _ (by decide))⟩

/-- Chunk loop 1, lane 3. -/
theorem chk4 : ∀ (t : Fin k3_t1_loop.trips) (v : BitVec 32), k3_chk4 t v := fun t v =>
  ⟨dvd_and_127_112 v,
   Fin.forall_fin_two.2 ⟨row_inb t.val (lt8_1 t) 3#32 (by decide), and_127_112_inb v⟩,
   Fin.forall_fin_one.2 (base_add_and_15_inb 96#32 _ (by decide))⟩

/-- Chunk loop 1, lane 4. -/
theorem chk5 : ∀ (t : Fin k3_t1_loop.trips) (v : BitVec 32), k3_chk5 t v := fun t v =>
  ⟨dvd_and_127_112 v,
   Fin.forall_fin_two.2 ⟨row_inb t.val (lt8_1 t) 4#32 (by decide), and_127_112_inb v⟩,
   Fin.forall_fin_one.2 (base_add_and_15_inb 128#32 _ (by decide))⟩

/-- Chunk loop 1, lane 5. -/
theorem chk6 : ∀ (t : Fin k3_t1_loop.trips) (v : BitVec 32), k3_chk6 t v := fun t v =>
  ⟨dvd_and_127_112 v,
   Fin.forall_fin_two.2 ⟨row_inb t.val (lt8_1 t) 5#32 (by decide), and_127_112_inb v⟩,
   Fin.forall_fin_one.2 (base_add_and_15_inb 160#32 _ (by decide))⟩

/-- Chunk loop 1, lane 6. -/
theorem chk7 : ∀ (t : Fin k3_t1_loop.trips) (v : BitVec 32), k3_chk7 t v := fun t v =>
  ⟨dvd_and_127_112 v,
   Fin.forall_fin_two.2 ⟨row_inb t.val (lt8_1 t) 6#32 (by decide), and_127_112_inb v⟩,
   Fin.forall_fin_one.2 (base_add_and_15_inb 192#32 _ (by decide))⟩

/-- Chunk loop 1, lane 7. -/
theorem chk8 : ∀ (t : Fin k3_t1_loop.trips) (v : BitVec 32), k3_chk8 t v := fun t v =>
  ⟨dvd_and_127_112 v,
   Fin.forall_fin_two.2 ⟨row_inb t.val (lt8_1 t) 7#32 (by decide), and_127_112_inb v⟩,
   Fin.forall_fin_one.2 (base_add_and_15_inb 224#32 _ (by decide))⟩

/-- Chunk loop 1, lane 8. -/
theorem chk9 : ∀ (t : Fin k3_t1_loop.trips) (v : BitVec 32), k3_chk9 t v := fun t v =>
  ⟨dvd_and_127_112 v,
   Fin.forall_fin_two.2 ⟨row_inb t.val (lt8_1 t) 8#32 (by decide), and_127_112_inb v⟩,
   Fin.forall_fin_one.2 (base_add_and_15_inb 256#32 _ (by decide))⟩

/-- Chunk loop 1, lane 9. -/
theorem chk10 : ∀ (t : Fin k3_t1_loop.trips) (v : BitVec 32), k3_chk10 t v := fun t v =>
  ⟨dvd_and_127_112 v,
   Fin.forall_fin_two.2 ⟨row_inb t.val (lt8_1 t) 9#32 (by decide), and_127_112_inb v⟩,
   Fin.forall_fin_one.2 (base_add_and_15_inb 288#32 _ (by decide))⟩

/-- Chunk loop 1, lane 10. -/
theorem chk11 : ∀ (t : Fin k3_t1_loop.trips) (v : BitVec 32), k3_chk11 t v := fun t v =>
  ⟨dvd_and_127_112 v,
   Fin.forall_fin_two.2 ⟨row_inb t.val (lt8_1 t) 10#32 (by decide), and_127_112_inb v⟩,
   Fin.forall_fin_one.2 (base_add_and_15_inb 320#32 _ (by decide))⟩

/-- Chunk loop 1, lane 11. -/
theorem chk12 : ∀ (t : Fin k3_t1_loop.trips) (v : BitVec 32), k3_chk12 t v := fun t v =>
  ⟨dvd_and_127_112 v,
   Fin.forall_fin_two.2 ⟨row_inb t.val (lt8_1 t) 11#32 (by decide), and_127_112_inb v⟩,
   Fin.forall_fin_one.2 (base_add_and_15_inb 352#32 _ (by decide))⟩

/-- Chunk loop 1, lane 12. -/
theorem chk13 : ∀ (t : Fin k3_t1_loop.trips) (v : BitVec 32), k3_chk13 t v := fun t v =>
  ⟨dvd_and_127_112 v,
   Fin.forall_fin_two.2 ⟨row_inb t.val (lt8_1 t) 12#32 (by decide), and_127_112_inb v⟩,
   Fin.forall_fin_one.2 (base_add_and_15_inb 384#32 _ (by decide))⟩

/-- Chunk loop 1, lane 13. -/
theorem chk14 : ∀ (t : Fin k3_t1_loop.trips) (v : BitVec 32), k3_chk14 t v := fun t v =>
  ⟨dvd_and_127_112 v,
   Fin.forall_fin_two.2 ⟨row_inb t.val (lt8_1 t) 13#32 (by decide), and_127_112_inb v⟩,
   Fin.forall_fin_one.2 (base_add_and_15_inb 416#32 _ (by decide))⟩

/-- Chunk loop 1, lane 14. -/
theorem chk15 : ∀ (t : Fin k3_t1_loop.trips) (v : BitVec 32), k3_chk15 t v := fun t v =>
  ⟨dvd_and_127_112 v,
   Fin.forall_fin_two.2 ⟨row_inb t.val (lt8_1 t) 14#32 (by decide), and_127_112_inb v⟩,
   Fin.forall_fin_one.2 (base_add_and_15_inb 448#32 _ (by decide))⟩

/-- Chunk loop 1, lane 15. -/
theorem chk16 : ∀ (t : Fin k3_t1_loop.trips) (v : BitVec 32), k3_chk16 t v := fun t v =>
  ⟨dvd_and_127_112 v,
   Fin.forall_fin_two.2 ⟨row_inb t.val (lt8_1 t) 15#32 (by decide), and_127_112_inb v⟩,
   Fin.forall_fin_one.2 (base_add_and_15_inb 480#32 _ (by decide))⟩

/-- Chunk loop 2, lane 0. -/
theorem chk17 : ∀ (t : Fin k3_t2_loop.trips) (v : BitVec 32), k3_chk17 t v := fun t v =>
  ⟨dvd_and_127_112 v,
   Fin.forall_fin_two.2 ⟨row_inb t.val (lt8_2 t) 0#32 (by decide), and_127_112_inb v⟩,
   Fin.forall_fin_one.2 (base_add_and_15_inb 0#32 _ (by decide))⟩

/-- Chunk loop 2, lane 1. -/
theorem chk18 : ∀ (t : Fin k3_t2_loop.trips) (v : BitVec 32), k3_chk18 t v := fun t v =>
  ⟨dvd_and_127_112 v,
   Fin.forall_fin_two.2 ⟨row_inb t.val (lt8_2 t) 1#32 (by decide), and_127_112_inb v⟩,
   Fin.forall_fin_one.2 (base_add_and_15_inb 32#32 _ (by decide))⟩

/-- Chunk loop 2, lane 2. -/
theorem chk19 : ∀ (t : Fin k3_t2_loop.trips) (v : BitVec 32), k3_chk19 t v := fun t v =>
  ⟨dvd_and_127_112 v,
   Fin.forall_fin_two.2 ⟨row_inb t.val (lt8_2 t) 2#32 (by decide), and_127_112_inb v⟩,
   Fin.forall_fin_one.2 (base_add_and_15_inb 64#32 _ (by decide))⟩

/-- Chunk loop 2, lane 3. -/
theorem chk20 : ∀ (t : Fin k3_t2_loop.trips) (v : BitVec 32), k3_chk20 t v := fun t v =>
  ⟨dvd_and_127_112 v,
   Fin.forall_fin_two.2 ⟨row_inb t.val (lt8_2 t) 3#32 (by decide), and_127_112_inb v⟩,
   Fin.forall_fin_one.2 (base_add_and_15_inb 96#32 _ (by decide))⟩

/-- Chunk loop 2, lane 4. -/
theorem chk21 : ∀ (t : Fin k3_t2_loop.trips) (v : BitVec 32), k3_chk21 t v := fun t v =>
  ⟨dvd_and_127_112 v,
   Fin.forall_fin_two.2 ⟨row_inb t.val (lt8_2 t) 4#32 (by decide), and_127_112_inb v⟩,
   Fin.forall_fin_one.2 (base_add_and_15_inb 128#32 _ (by decide))⟩

/-- Chunk loop 2, lane 5. -/
theorem chk22 : ∀ (t : Fin k3_t2_loop.trips) (v : BitVec 32), k3_chk22 t v := fun t v =>
  ⟨dvd_and_127_112 v,
   Fin.forall_fin_two.2 ⟨row_inb t.val (lt8_2 t) 5#32 (by decide), and_127_112_inb v⟩,
   Fin.forall_fin_one.2 (base_add_and_15_inb 160#32 _ (by decide))⟩

/-- Chunk loop 2, lane 6. -/
theorem chk23 : ∀ (t : Fin k3_t2_loop.trips) (v : BitVec 32), k3_chk23 t v := fun t v =>
  ⟨dvd_and_127_112 v,
   Fin.forall_fin_two.2 ⟨row_inb t.val (lt8_2 t) 6#32 (by decide), and_127_112_inb v⟩,
   Fin.forall_fin_one.2 (base_add_and_15_inb 192#32 _ (by decide))⟩

/-- Chunk loop 2, lane 7. -/
theorem chk24 : ∀ (t : Fin k3_t2_loop.trips) (v : BitVec 32), k3_chk24 t v := fun t v =>
  ⟨dvd_and_127_112 v,
   Fin.forall_fin_two.2 ⟨row_inb t.val (lt8_2 t) 7#32 (by decide), and_127_112_inb v⟩,
   Fin.forall_fin_one.2 (base_add_and_15_inb 224#32 _ (by decide))⟩

/-- Chunk loop 2, lane 8. -/
theorem chk25 : ∀ (t : Fin k3_t2_loop.trips) (v : BitVec 32), k3_chk25 t v := fun t v =>
  ⟨dvd_and_127_112 v,
   Fin.forall_fin_two.2 ⟨row_inb t.val (lt8_2 t) 8#32 (by decide), and_127_112_inb v⟩,
   Fin.forall_fin_one.2 (base_add_and_15_inb 256#32 _ (by decide))⟩

/-- Chunk loop 2, lane 9. -/
theorem chk26 : ∀ (t : Fin k3_t2_loop.trips) (v : BitVec 32), k3_chk26 t v := fun t v =>
  ⟨dvd_and_127_112 v,
   Fin.forall_fin_two.2 ⟨row_inb t.val (lt8_2 t) 9#32 (by decide), and_127_112_inb v⟩,
   Fin.forall_fin_one.2 (base_add_and_15_inb 288#32 _ (by decide))⟩

/-- Chunk loop 2, lane 10. -/
theorem chk27 : ∀ (t : Fin k3_t2_loop.trips) (v : BitVec 32), k3_chk27 t v := fun t v =>
  ⟨dvd_and_127_112 v,
   Fin.forall_fin_two.2 ⟨row_inb t.val (lt8_2 t) 10#32 (by decide), and_127_112_inb v⟩,
   Fin.forall_fin_one.2 (base_add_and_15_inb 320#32 _ (by decide))⟩

/-- Chunk loop 2, lane 11. -/
theorem chk28 : ∀ (t : Fin k3_t2_loop.trips) (v : BitVec 32), k3_chk28 t v := fun t v =>
  ⟨dvd_and_127_112 v,
   Fin.forall_fin_two.2 ⟨row_inb t.val (lt8_2 t) 11#32 (by decide), and_127_112_inb v⟩,
   Fin.forall_fin_one.2 (base_add_and_15_inb 352#32 _ (by decide))⟩

/-- Chunk loop 2, lane 12. -/
theorem chk29 : ∀ (t : Fin k3_t2_loop.trips) (v : BitVec 32), k3_chk29 t v := fun t v =>
  ⟨dvd_and_127_112 v,
   Fin.forall_fin_two.2 ⟨row_inb t.val (lt8_2 t) 12#32 (by decide), and_127_112_inb v⟩,
   Fin.forall_fin_one.2 (base_add_and_15_inb 384#32 _ (by decide))⟩

/-- Chunk loop 2, lane 13. -/
theorem chk30 : ∀ (t : Fin k3_t2_loop.trips) (v : BitVec 32), k3_chk30 t v := fun t v =>
  ⟨dvd_and_127_112 v,
   Fin.forall_fin_two.2 ⟨row_inb t.val (lt8_2 t) 13#32 (by decide), and_127_112_inb v⟩,
   Fin.forall_fin_one.2 (base_add_and_15_inb 416#32 _ (by decide))⟩

/-- Chunk loop 2, lane 14. -/
theorem chk31 : ∀ (t : Fin k3_t2_loop.trips) (v : BitVec 32), k3_chk31 t v := fun t v =>
  ⟨dvd_and_127_112 v,
   Fin.forall_fin_two.2 ⟨row_inb t.val (lt8_2 t) 14#32 (by decide), and_127_112_inb v⟩,
   Fin.forall_fin_one.2 (base_add_and_15_inb 448#32 _ (by decide))⟩

/-- Chunk loop 2, lane 15. -/
theorem chk32 : ∀ (t : Fin k3_t2_loop.trips) (v : BitVec 32), k3_chk32 t v := fun t v =>
  ⟨dvd_and_127_112 v,
   Fin.forall_fin_two.2 ⟨row_inb t.val (lt8_2 t) 15#32 (by decide), and_127_112_inb v⟩,
   Fin.forall_fin_one.2 (base_add_and_15_inb 480#32 _ (by decide))⟩

/-- Chunk loop 3, lane 0. -/
theorem chk33 : ∀ (t : Fin k3_t3_loop.trips) (v : BitVec 32), k3_chk33 t v := fun t v =>
  ⟨dvd_and_127_112 v,
   Fin.forall_fin_two.2 ⟨row_inb t.val (lt8_3 t) 0#32 (by decide), and_127_112_inb v⟩,
   Fin.forall_fin_one.2 (base_add_and_15_inb 0#32 _ (by decide))⟩

/-- Chunk loop 3, lane 1. -/
theorem chk34 : ∀ (t : Fin k3_t3_loop.trips) (v : BitVec 32), k3_chk34 t v := fun t v =>
  ⟨dvd_and_127_112 v,
   Fin.forall_fin_two.2 ⟨row_inb t.val (lt8_3 t) 1#32 (by decide), and_127_112_inb v⟩,
   Fin.forall_fin_one.2 (base_add_and_15_inb 32#32 _ (by decide))⟩

/-- Chunk loop 3, lane 2. -/
theorem chk35 : ∀ (t : Fin k3_t3_loop.trips) (v : BitVec 32), k3_chk35 t v := fun t v =>
  ⟨dvd_and_127_112 v,
   Fin.forall_fin_two.2 ⟨row_inb t.val (lt8_3 t) 2#32 (by decide), and_127_112_inb v⟩,
   Fin.forall_fin_one.2 (base_add_and_15_inb 64#32 _ (by decide))⟩

/-- Chunk loop 3, lane 3. -/
theorem chk36 : ∀ (t : Fin k3_t3_loop.trips) (v : BitVec 32), k3_chk36 t v := fun t v =>
  ⟨dvd_and_127_112 v,
   Fin.forall_fin_two.2 ⟨row_inb t.val (lt8_3 t) 3#32 (by decide), and_127_112_inb v⟩,
   Fin.forall_fin_one.2 (base_add_and_15_inb 96#32 _ (by decide))⟩

/-- Chunk loop 3, lane 4. -/
theorem chk37 : ∀ (t : Fin k3_t3_loop.trips) (v : BitVec 32), k3_chk37 t v := fun t v =>
  ⟨dvd_and_127_112 v,
   Fin.forall_fin_two.2 ⟨row_inb t.val (lt8_3 t) 4#32 (by decide), and_127_112_inb v⟩,
   Fin.forall_fin_one.2 (base_add_and_15_inb 128#32 _ (by decide))⟩

/-- Chunk loop 3, lane 5. -/
theorem chk38 : ∀ (t : Fin k3_t3_loop.trips) (v : BitVec 32), k3_chk38 t v := fun t v =>
  ⟨dvd_and_127_112 v,
   Fin.forall_fin_two.2 ⟨row_inb t.val (lt8_3 t) 5#32 (by decide), and_127_112_inb v⟩,
   Fin.forall_fin_one.2 (base_add_and_15_inb 160#32 _ (by decide))⟩

/-- Chunk loop 3, lane 6. -/
theorem chk39 : ∀ (t : Fin k3_t3_loop.trips) (v : BitVec 32), k3_chk39 t v := fun t v =>
  ⟨dvd_and_127_112 v,
   Fin.forall_fin_two.2 ⟨row_inb t.val (lt8_3 t) 6#32 (by decide), and_127_112_inb v⟩,
   Fin.forall_fin_one.2 (base_add_and_15_inb 192#32 _ (by decide))⟩

/-- Chunk loop 3, lane 7. -/
theorem chk40 : ∀ (t : Fin k3_t3_loop.trips) (v : BitVec 32), k3_chk40 t v := fun t v =>
  ⟨dvd_and_127_112 v,
   Fin.forall_fin_two.2 ⟨row_inb t.val (lt8_3 t) 7#32 (by decide), and_127_112_inb v⟩,
   Fin.forall_fin_one.2 (base_add_and_15_inb 224#32 _ (by decide))⟩

/-- Chunk loop 3, lane 8. -/
theorem chk41 : ∀ (t : Fin k3_t3_loop.trips) (v : BitVec 32), k3_chk41 t v := fun t v =>
  ⟨dvd_and_127_112 v,
   Fin.forall_fin_two.2 ⟨row_inb t.val (lt8_3 t) 8#32 (by decide), and_127_112_inb v⟩,
   Fin.forall_fin_one.2 (base_add_and_15_inb 256#32 _ (by decide))⟩

/-- Chunk loop 3, lane 9. -/
theorem chk42 : ∀ (t : Fin k3_t3_loop.trips) (v : BitVec 32), k3_chk42 t v := fun t v =>
  ⟨dvd_and_127_112 v,
   Fin.forall_fin_two.2 ⟨row_inb t.val (lt8_3 t) 9#32 (by decide), and_127_112_inb v⟩,
   Fin.forall_fin_one.2 (base_add_and_15_inb 288#32 _ (by decide))⟩

/-- Chunk loop 3, lane 10. -/
theorem chk43 : ∀ (t : Fin k3_t3_loop.trips) (v : BitVec 32), k3_chk43 t v := fun t v =>
  ⟨dvd_and_127_112 v,
   Fin.forall_fin_two.2 ⟨row_inb t.val (lt8_3 t) 10#32 (by decide), and_127_112_inb v⟩,
   Fin.forall_fin_one.2 (base_add_and_15_inb 320#32 _ (by decide))⟩

/-- Chunk loop 3, lane 11. -/
theorem chk44 : ∀ (t : Fin k3_t3_loop.trips) (v : BitVec 32), k3_chk44 t v := fun t v =>
  ⟨dvd_and_127_112 v,
   Fin.forall_fin_two.2 ⟨row_inb t.val (lt8_3 t) 11#32 (by decide), and_127_112_inb v⟩,
   Fin.forall_fin_one.2 (base_add_and_15_inb 352#32 _ (by decide))⟩

/-- Chunk loop 3, lane 12. -/
theorem chk45 : ∀ (t : Fin k3_t3_loop.trips) (v : BitVec 32), k3_chk45 t v := fun t v =>
  ⟨dvd_and_127_112 v,
   Fin.forall_fin_two.2 ⟨row_inb t.val (lt8_3 t) 12#32 (by decide), and_127_112_inb v⟩,
   Fin.forall_fin_one.2 (base_add_and_15_inb 384#32 _ (by decide))⟩

/-- Chunk loop 3, lane 13. -/
theorem chk46 : ∀ (t : Fin k3_t3_loop.trips) (v : BitVec 32), k3_chk46 t v := fun t v =>
  ⟨dvd_and_127_112 v,
   Fin.forall_fin_two.2 ⟨row_inb t.val (lt8_3 t) 13#32 (by decide), and_127_112_inb v⟩,
   Fin.forall_fin_one.2 (base_add_and_15_inb 416#32 _ (by decide))⟩

/-- Chunk loop 3, lane 14. -/
theorem chk47 : ∀ (t : Fin k3_t3_loop.trips) (v : BitVec 32), k3_chk47 t v := fun t v =>
  ⟨dvd_and_127_112 v,
   Fin.forall_fin_two.2 ⟨row_inb t.val (lt8_3 t) 14#32 (by decide), and_127_112_inb v⟩,
   Fin.forall_fin_one.2 (base_add_and_15_inb 448#32 _ (by decide))⟩

/-- Chunk loop 3, lane 15. -/
theorem chk48 : ∀ (t : Fin k3_t3_loop.trips) (v : BitVec 32), k3_chk48 t v := fun t v =>
  ⟨dvd_and_127_112 v,
   Fin.forall_fin_two.2 ⟨row_inb t.val (lt8_3 t) 15#32 (by decide), and_127_112_inb v⟩,
   Fin.forall_fin_one.2 (base_add_and_15_inb 480#32 _ (by decide))⟩

/-- Chunk loop 4, lane 0. -/
theorem chk49 : ∀ (t : Fin k3_t4_loop.trips) (v : BitVec 32), k3_chk49 t v := fun t v =>
  ⟨dvd_and_127_112 v,
   Fin.forall_fin_two.2 ⟨row_inb t.val (lt8_4 t) 0#32 (by decide), and_127_112_inb v⟩,
   Fin.forall_fin_one.2 (base_add_and_15_inb 0#32 _ (by decide))⟩

/-- Chunk loop 4, lane 1. -/
theorem chk50 : ∀ (t : Fin k3_t4_loop.trips) (v : BitVec 32), k3_chk50 t v := fun t v =>
  ⟨dvd_and_127_112 v,
   Fin.forall_fin_two.2 ⟨row_inb t.val (lt8_4 t) 1#32 (by decide), and_127_112_inb v⟩,
   Fin.forall_fin_one.2 (base_add_and_15_inb 32#32 _ (by decide))⟩

/-- Chunk loop 4, lane 2. -/
theorem chk51 : ∀ (t : Fin k3_t4_loop.trips) (v : BitVec 32), k3_chk51 t v := fun t v =>
  ⟨dvd_and_127_112 v,
   Fin.forall_fin_two.2 ⟨row_inb t.val (lt8_4 t) 2#32 (by decide), and_127_112_inb v⟩,
   Fin.forall_fin_one.2 (base_add_and_15_inb 64#32 _ (by decide))⟩

/-- Chunk loop 4, lane 3. -/
theorem chk52 : ∀ (t : Fin k3_t4_loop.trips) (v : BitVec 32), k3_chk52 t v := fun t v =>
  ⟨dvd_and_127_112 v,
   Fin.forall_fin_two.2 ⟨row_inb t.val (lt8_4 t) 3#32 (by decide), and_127_112_inb v⟩,
   Fin.forall_fin_one.2 (base_add_and_15_inb 96#32 _ (by decide))⟩

/-- Chunk loop 4, lane 4. -/
theorem chk53 : ∀ (t : Fin k3_t4_loop.trips) (v : BitVec 32), k3_chk53 t v := fun t v =>
  ⟨dvd_and_127_112 v,
   Fin.forall_fin_two.2 ⟨row_inb t.val (lt8_4 t) 4#32 (by decide), and_127_112_inb v⟩,
   Fin.forall_fin_one.2 (base_add_and_15_inb 128#32 _ (by decide))⟩

/-- Chunk loop 4, lane 5. -/
theorem chk54 : ∀ (t : Fin k3_t4_loop.trips) (v : BitVec 32), k3_chk54 t v := fun t v =>
  ⟨dvd_and_127_112 v,
   Fin.forall_fin_two.2 ⟨row_inb t.val (lt8_4 t) 5#32 (by decide), and_127_112_inb v⟩,
   Fin.forall_fin_one.2 (base_add_and_15_inb 160#32 _ (by decide))⟩

/-- Chunk loop 4, lane 6. -/
theorem chk55 : ∀ (t : Fin k3_t4_loop.trips) (v : BitVec 32), k3_chk55 t v := fun t v =>
  ⟨dvd_and_127_112 v,
   Fin.forall_fin_two.2 ⟨row_inb t.val (lt8_4 t) 6#32 (by decide), and_127_112_inb v⟩,
   Fin.forall_fin_one.2 (base_add_and_15_inb 192#32 _ (by decide))⟩

/-- Chunk loop 4, lane 7. -/
theorem chk56 : ∀ (t : Fin k3_t4_loop.trips) (v : BitVec 32), k3_chk56 t v := fun t v =>
  ⟨dvd_and_127_112 v,
   Fin.forall_fin_two.2 ⟨row_inb t.val (lt8_4 t) 7#32 (by decide), and_127_112_inb v⟩,
   Fin.forall_fin_one.2 (base_add_and_15_inb 224#32 _ (by decide))⟩

/-- Chunk loop 4, lane 8. -/
theorem chk57 : ∀ (t : Fin k3_t4_loop.trips) (v : BitVec 32), k3_chk57 t v := fun t v =>
  ⟨dvd_and_127_112 v,
   Fin.forall_fin_two.2 ⟨row_inb t.val (lt8_4 t) 8#32 (by decide), and_127_112_inb v⟩,
   Fin.forall_fin_one.2 (base_add_and_15_inb 256#32 _ (by decide))⟩

/-- Chunk loop 4, lane 9. -/
theorem chk58 : ∀ (t : Fin k3_t4_loop.trips) (v : BitVec 32), k3_chk58 t v := fun t v =>
  ⟨dvd_and_127_112 v,
   Fin.forall_fin_two.2 ⟨row_inb t.val (lt8_4 t) 9#32 (by decide), and_127_112_inb v⟩,
   Fin.forall_fin_one.2 (base_add_and_15_inb 288#32 _ (by decide))⟩

/-- Chunk loop 4, lane 10. -/
theorem chk59 : ∀ (t : Fin k3_t4_loop.trips) (v : BitVec 32), k3_chk59 t v := fun t v =>
  ⟨dvd_and_127_112 v,
   Fin.forall_fin_two.2 ⟨row_inb t.val (lt8_4 t) 10#32 (by decide), and_127_112_inb v⟩,
   Fin.forall_fin_one.2 (base_add_and_15_inb 320#32 _ (by decide))⟩

/-- Chunk loop 4, lane 11. -/
theorem chk60 : ∀ (t : Fin k3_t4_loop.trips) (v : BitVec 32), k3_chk60 t v := fun t v =>
  ⟨dvd_and_127_112 v,
   Fin.forall_fin_two.2 ⟨row_inb t.val (lt8_4 t) 11#32 (by decide), and_127_112_inb v⟩,
   Fin.forall_fin_one.2 (base_add_and_15_inb 352#32 _ (by decide))⟩

/-- Chunk loop 4, lane 12. -/
theorem chk61 : ∀ (t : Fin k3_t4_loop.trips) (v : BitVec 32), k3_chk61 t v := fun t v =>
  ⟨dvd_and_127_112 v,
   Fin.forall_fin_two.2 ⟨row_inb t.val (lt8_4 t) 12#32 (by decide), and_127_112_inb v⟩,
   Fin.forall_fin_one.2 (base_add_and_15_inb 384#32 _ (by decide))⟩

/-- Chunk loop 4, lane 13. -/
theorem chk62 : ∀ (t : Fin k3_t4_loop.trips) (v : BitVec 32), k3_chk62 t v := fun t v =>
  ⟨dvd_and_127_112 v,
   Fin.forall_fin_two.2 ⟨row_inb t.val (lt8_4 t) 13#32 (by decide), and_127_112_inb v⟩,
   Fin.forall_fin_one.2 (base_add_and_15_inb 416#32 _ (by decide))⟩

/-- Chunk loop 4, lane 14. -/
theorem chk63 : ∀ (t : Fin k3_t4_loop.trips) (v : BitVec 32), k3_chk63 t v := fun t v =>
  ⟨dvd_and_127_112 v,
   Fin.forall_fin_two.2 ⟨row_inb t.val (lt8_4 t) 14#32 (by decide), and_127_112_inb v⟩,
   Fin.forall_fin_one.2 (base_add_and_15_inb 448#32 _ (by decide))⟩

/-- Chunk loop 4, lane 15. -/
theorem chk64 : ∀ (t : Fin k3_t4_loop.trips) (v : BitVec 32), k3_chk64 t v := fun t v =>
  ⟨dvd_and_127_112 v,
   Fin.forall_fin_two.2 ⟨row_inb t.val (lt8_4 t) 15#32 (by decide), and_127_112_inb v⟩,
   Fin.forall_fin_one.2 (base_add_and_15_inb 480#32 _ (by decide))⟩

end Cert.Kernel.ChkK3
-- ==== Proof.Kernel.TileK1Defs.lean ====
/-
  One vector subcore's task of the first gather kernel: the names it is stated in, and the subcore's own scratch — seven
  buffers and five DMA semaphores of this kernel — peeled out of what a subcore owns (the second kernel's scratch stays
  in the remainder).
-/
import proofs.«204913_g64682207478566_cont_9to1c4b_713_31_alg».proof.Proof.CommonB
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import proofs.«204913_g64682207478566_cont_9to1c4b_713_31_alg».proof.Proof.Gen.Kernel

noncomputable section

namespace Cert.Kernel.TileK1

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays and the tile -/

abbrev iLoc (d : Dev nD) : Loc nD τ sig := (SparseCore.T d).loc main_arg0
abbrev tLoc (d : Dev nD) : Loc nD τ sig := (SparseCore.T d).loc main_v6
abbrev bLoc (d : Dev nD) : Loc nD τ sig := (SparseCore.T d).loc main_v7
abbrev oLoc (d : Dev nD) : Loc nD τ sig := (SparseCore.T d).loc main_v8

abbrev cV (L : grid1.Coords) : Fin τ.nSC := (L 0).castLE hcore1
abbrev jV (L : grid1.Coords) : Fin τ.nSub := (L 1).castLE hsub1

/-- The tile's 512 rows of the output, as the body slices them. -/
abbrev oRowSet (L : grid1.Coords) : Finset S16384.Idx :=
  ((Memref.whole main_v8_scv : Memref sig .scVector .hbm S16384 .f32).view.slice (Rect.unit (s := S16384) (k1_off1 L) S512.size (k1_off1_inb L))).set

abbrev cell (d : Dev nD) (L : grid1.Coords) (s : DmaSem sig) : GSem nD τ sig := (V d (cV L) (jV L), .dma s)

theorem cell_ne (thr : Thread nD τ) {a b : SemLoc sig} (h : a ≠ b) : ((thr, a) : GSem nD τ sig) ≠ (thr, b) :=
  fun e => h (congrArg Prod.snd e)

/-- The side conditions the body assumes at its 64 lane reads (four chunks of sixteen lanes), each for every trip and word. -/
structure ChkAll : Prop where
  h1 : ∀ t v, k1_chk1 t v
  h2 : ∀ t v, k1_chk2 t v
  h3 : ∀ t v, k1_chk3 t v
  h4 : ∀ t v, k1_chk4 t v
  h5 : ∀ t v, k1_chk5 t v
  h6 : ∀ t v, k1_chk6 t v
  h7 : ∀ t v, k1_chk7 t v
  h8 : ∀ t v, k1_chk8 t v
  h9 : ∀ t v, k1_chk9 t v
  h10 : ∀ t v, k1_chk10 t v
  h11 : ∀ t v, k1_chk11 t v
  h12 : ∀ t v, k1_chk12 t v
  h13 : ∀ t v, k1_chk13 t v
  h14 : ∀ t v, k1_chk14 t v
  h15 : ∀ t v, k1_chk15 t v
  h16 : ∀ t v, k1_chk16 t v
  h17 : ∀ t v, k1_chk17 t v
  h18 : ∀ t v, k1_chk18 t v
  h19 : ∀ t v, k1_chk19 t v
  h20 : ∀ t v, k1_chk20 t v
  h21 : ∀ t v, k1_chk21 t v
  h22 : ∀ t v, k1_chk22 t v
  h23 : ∀ t v, k1_chk23 t v
  h24 : ∀ t v, k1_chk24 t v
  h25 : ∀ t v, k1_chk25 t v
  h26 : ∀ t v, k1_chk26 t v
  h27 : ∀ t v, k1_chk27 t v
  h28 : ∀ t v, k1_chk28 t v
  h29 : ∀ t v, k1_chk29 t v
  h30 : ∀ t v, k1_chk30 t v
  h31 : ∀ t v, k1_chk31 t v
  h32 : ∀ t v, k1_chk32 t v
  h33 : ∀ t v, k1_chk33 t v
  h34 : ∀ t v, k1_chk34 t v
  h35 : ∀ t v, k1_chk35 t v
  h36 : ∀ t v, k1_chk36 t v
  h37 : ∀ t v, k1_chk37 t v
  h38 : ∀ t v, k1_chk38 t v
  h39 : ∀ t v, k1_chk39 t v
  h40 : ∀ t v, k1_chk40 t v
  h41 : ∀ t v, k1_chk41 t v
  h42 : ∀ t v, k1_chk42 t v
  h43 : ∀ t v, k1_chk43 t v
  h44 : ∀ t v, k1_chk44 t v
  h45 : ∀ t v, k1_chk45 t v
  h46 : ∀ t v, k1_chk46 t v
  h47 : ∀ t v, k1_chk47 t v
  h48 : ∀ t v, k1_chk48 t v
  h49 : ∀ t v, k1_chk49 t v
  h50 : ∀ t v, k1_chk50 t v
  h51 : ∀ t v, k1_chk51 t v
  h52 : ∀ t v, k1_chk52 t v
  h53 : ∀ t v, k1_chk53 t v
  h54 : ∀ t v, k1_chk54 t v
  h55 : ∀ t v, k1_chk55 t v
  h56 : ∀ t v, k1_chk56 t v
  h57 : ∀ t v, k1_chk57 t v
  h58 : ∀ t v, k1_chk58 t v
  h59 : ∀ t v, k1_chk59 t v
  h60 : ∀ t v, k1_chk60 t v
  h61 : ∀ t v, k1_chk61 t v
  h62 : ∀ t v, k1_chk62 t v
  h63 : ∀ t v, k1_chk63 t v
  h64 : ∀ t v, k1_chk64 t v

variable (d : Dev nD) (L : grid1.Coords)

/-- The five DMA semaphores of this kernel are among the subcore's own: they, at zero, and the rest. -/
theorem ownSems0_V :
    (ownSems0 (V d (cV L) (jV L)) : sProp 𝕄)
      = iprop(semVal (cell d L cc1_scratch7.sem) 0 ∗ semVal (cell d L cc1_scratch8.sem) 0 ∗ semVal (cell d L cc1_scoped0.sem) 0 ∗ semVal (cell d L cc1_scoped1.sem) 0 ∗ semVal (cell d L cc1_scoped2.sem) 0
          ∗ bigSep ((((((ownCells (V d (cV L) (jV L))).erase (cell d L cc1_scratch7.sem)).erase (cell d L cc1_scratch8.sem)).erase (cell d L cc1_scoped0.sem)).erase (cell d L cc1_scoped1.sem)).erase (cell d L cc1_scoped2.sem)) fun g => semVal g 0) := by
  unfold SparseCore.Cfg.ownSems0
  rw [SparseCore.bigSep_erase' ((mem_ownCells (g := (cell d L cc1_scratch7.sem))).mpr ⟨rfl, by show (SemLoc.dma cc1_scratch7.sem : SemLoc sig).isScoped .scVector = true; decide⟩),
    SparseCore.bigSep_erase' (Finset.mem_erase.mpr ⟨cell_ne _ (by decide), (mem_ownCells (g := (cell d L cc1_scratch8.sem))).mpr ⟨rfl, by show (SemLoc.dma cc1_scratch8.sem : SemLoc sig).isScoped .scVector = true; decide⟩⟩),
    SparseCore.bigSep_erase' (Finset.mem_erase.mpr ⟨cell_ne _ (by decide), Finset.mem_erase.mpr ⟨cell_ne _ (by decide), (mem_ownCells (g := (cell d L cc1_scoped0.sem))).mpr ⟨rfl, by show (SemLoc.dma cc1_scoped0.sem : SemLoc sig).isScoped .scVector = true; decide⟩⟩⟩),
    SparseCore.bigSep_erase' (Finset.mem_erase.mpr ⟨cell_ne _ (by decide), Finset.mem_erase.mpr ⟨cell_ne _ (by decide), Finset.mem_erase.mpr ⟨cell_ne _ (by decide), (mem_ownCells (g := (cell d L cc1_scoped1.sem))).mpr ⟨rfl, by show (SemLoc.dma cc1_scoped1.sem : SemLoc sig).isScoped .scVector = true; decide⟩⟩⟩⟩),
    SparseCore.bigSep_erase' (Finset.mem_erase.mpr ⟨cell_ne _ (by decide), Finset.mem_erase.mpr ⟨cell_ne _ (by decide), Finset.mem_erase.mpr ⟨cell_ne _ (by decide), Finset.mem_erase.mpr ⟨cell_ne _ (by decide), (mem_ownCells (g := (cell d L cc1_scoped2.sem))).mpr ⟨rfl, by show (SemLoc.dma cc1_scoped2.sem : SemLoc sig).isScoped .scVector = true; decide⟩⟩⟩⟩⟩)]

/-- The seven scratch buffers of this kernel are among the subcore's own: they, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f) ∗ (∃ f, (V d (cV L) (jV L)).loc cc1_scratch6 ↦{fullShare} f)
          ∗ bigSep ((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := ((Proc.scVector (cV L) (jV L)).devRef cc1_scratch6)) rfl⟩⟩⟩⟩⟩⟩)]

end Cert.Kernel.TileK1

end
-- ==== Proof.Kernel.TileK1.lean ====
/-
  One vector subcore's task of the first gather kernel, run from its resources to its resources (the frame): the two
  fetches of the tile's 512 ids and base values, the row numbers (each id shifted right by 7, hence below the table's
  row count), the four indirect gathers of 128 table rows into two buffers on two semaphores — one gather per semaphore
  at a time, the buffer untouched between a gather's issue and its wait —, the four loops of eight trips over the
  gathered rows, and the copy of the 512 results to the tile's rows of the output.
-/
import proofs.«204913_g64682207478566_cont_9to1c4b_713_31_alg».proof.Proof.Kernel.TileK1Defs
import proofs.«204913_g64682207478566_cont_9to1c4b_713_31_alg».proof.Proof.Gen.Kernel.Skeleton
import proofs.«204913_g64682207478566_cont_9to1c4b_713_31_alg».proof.Proof.ChkLib
import Idealize.ShloMosaic.Lib.Pipeline.Value

noncomputable section

namespace Cert.Kernel.TileK1

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Lean Elab Tactic Meta in
/-- Unfold, in the goal, the auxiliary value definitions the symbolic run made for the enclosing declaration. -/
elab "delta_run" : tactic => do
  let some decl ← Term.getDeclName? | throwError "delta_run: no enclosing declaration"
  let pre := decl ++ `sl
  let g ← getMainGoal
  let g' ← g.deltaTarget (fun n => pre.isPrefixOf n)
  replaceMainGoal [g']

variable {F : FTy → Type}

local notation "𝕄" => MT nD τ sig (HIx 2) (Elt F) ℕ UU ℕ

local notation "iV" => (Memref.whole Cert.Kernel.main_arg0_scv : Memref Cert.Kernel.sig Kind.scVector Space.hbm Cert.Kernel.S16384 EltTy.i32)
local notation "tV" => (Memref.whole Cert.Kernel.main_v6_scv : Memref Cert.Kernel.sig Kind.scVector Space.hbm Cert.Kernel.S7816x128 EltTy.f32)
local notation "bV" => (Memref.whole Cert.Kernel.main_v7_scv : Memref Cert.Kernel.sig Kind.scVector Space.hbm Cert.Kernel.S16384 EltTy.f32)
local notation "oV" => (Memref.whole Cert.Kernel.main_v8_scv : Memref Cert.Kernel.sig Kind.scVector Space.hbm Cert.Kernel.S16384 EltTy.f32)
local notation "a6" => (Memref.whole Cert.Kernel.cc1_scratch0 : Memref Cert.Kernel.sig Kind.scVector Space.vmem Cert.Kernel.S512 EltTy.i32)
local notation "a7" => (Memref.whole Cert.Kernel.cc1_scratch1 : Memref Cert.Kernel.sig Kind.scVector Space.vmem Cert.Kernel.S512 EltTy.i32)
local notation "a8" => (Memref.whole Cert.Kernel.cc1_scratch2 : Memref Cert.Kernel.sig Kind.scVector Space.vmem Cert.Kernel.S128x128 EltTy.f32)
local notation "a9" => (Memref.whole Cert.Kernel.cc1_scratch3 : Memref Cert.Kernel.sig Kind.scVector Space.vmem Cert.Kernel.S128x128 EltTy.f32)
local notation "a10" => (Memref.whole Cert.Kernel.cc1_scratch4 : Memref Cert.Kernel.sig Kind.scVector Space.vmem Cert.Kernel.S512 EltTy.f32)
local notation "a11" => (Memref.whole Cert.Kernel.cc1_scratch5 : Memref Cert.Kernel.sig Kind.scVector Space.vmem Cert.Kernel.S512 EltTy.f32)
local notation "a12" => (Memref.whole Cert.Kernel.cc1_scratch6 : Memref Cert.Kernel.sig Kind.scVector Space.vmem Cert.Kernel.S512 EltTy.f32)

variable [FloatOps F]
variable (d : Dev nD) (L : grid1.Coords)

/-- The tile's rows of the output, as the body's copy-out addresses them. -/
abbrev oRowK (L : grid1.Coords) : Memref sig .scVector .hbm S512 .f32 :=
  (oV).slice (Rect.unit (s := S16384) (k1_off1 L) S512.size (k1_off1_inb L)) (fun _ => rfl)

omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_bV (q : PosShare TreeShare) (f : Buf (Elt F) (bLoc d)) :
    ((bV).view.loc (V d (cV L) (jV L)) ↦{q} f : sProp 𝕄) = bLoc d ↦{q} f := rfl

/-- What a chunk's loop touches, buffer A: the ids, the base values, the gathered rows, the rotate buffer and the output
    buffer of the tile, each at some contents. -/
def invA (d : Dev nD) (L : grid1.Coords) (_ : Nat) (_ : BitVec 32) : sProp 𝕄 :=
  iprop((∃ f, (a6).view.loc (V d (cV L) (jV L)) ↦{fullShare} f) ∗ (∃ f, (a10).view.loc (V d (cV L) (jV L)) ↦{fullShare} f)
    ∗ (∃ f, (a8).view.loc (V d (cV L) (jV L)) ↦{fullShare} f) ∗ (∃ f, (a11).view.loc (V d (cV L) (jV L)) ↦{fullShare} f)
    ∗ (∃ f, (a12).view.loc (V d (cV L) (jV L)) ↦{fullShare} f))
/-- The same over buffer B. -/
def invB (d : Dev nD) (L : grid1.Coords) (_ : Nat) (_ : BitVec 32) : sProp 𝕄 :=
  iprop((∃ f, (a6).view.loc (V d (cV L) (jV L)) ↦{fullShare} f) ∗ (∃ f, (a10).view.loc (V d (cV L) (jV L)) ↦{fullShare} f)
    ∗ (∃ f, (a9).view.loc (V d (cV L) (jV L)) ↦{fullShare} f) ∗ (∃ f, (a11).view.loc (V d (cV L) (jV L)) ↦{fullShare} f)
    ∗ (∃ f, (a12).view.loc (V d (cV L) (jV L)) ↦{fullShare} f))

set_option maxHeartbeats 4000000 in
theorem tile_frame (qi qt qb : PosShare TreeShare)
    (ids : Buf (Elt F) (iLoc d)) (tbl : Buf (Elt F) (tLoc d)) (bs : Buf (Elt F) (bLoc d)) (o0 : Buf (Elt F) (oLoc d))
    (hin : ∀ j, (ids j).toNat ≤ 999999) (hchk : ChkAll) (hF : (K (F := F)).Facts)
    (O : CellTallies nD τ sig (HIx 2)) (W : Waits sig (HIx 2)) (hO : ∀ g, O g none = 0) :
    iprop(levAts (K (F := F)).L (K (F := F)).lev ∗ emp ∗ (((iLoc d ↦{qi} ids : sProp 𝕄)) ∗ (tLoc d ↦{qt} tbl) ∗ (bLoc d ↦{qb} bs) ∗ (oLoc d ↦[oRowSet L]{fullShare} o0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2)
          fun _ => iprop(((iLoc d ↦{qi} ids) ∗ (tLoc d ↦{qt} tbl) ∗ (bLoc d ↦{qb} bs) ∗ ∃ f, (oLoc d ↦[oRowSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Hb, Ho⟩, ⟨⟨%f6, H6⟩, ⟨%f7, H7⟩, ⟨%f8, H8⟩, ⟨%f9, H9⟩, ⟨%f10, H10⟩, ⟨%f11, H11⟩, ⟨%f12, H12⟩, Hbufs⟩, ⟨Hs13, Hs14, Hr0, Hr1, Hr2, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Hb' := (Entails.of_eq (pts_bV (F := F) d L _ _).symm) $$ Hb
  ihave Ho' := (Entails.of_eq (pts_oRowK (F := F) d L _).symm) $$ Ho
  ihave H6' := (Entails.of_eq (show ((V d (cV L) (jV L)).loc cc1_scratch0 ↦{fullShare} f6 : sProp 𝕄) = ((a6).view.loc (V d (cV L) (jV L)) ↦{fullShare} f6) from rfl)) $$ H6
  ihave H7' := (Entails.of_eq (show ((V d (cV L) (jV L)).loc cc1_scratch1 ↦{fullShare} f7 : sProp 𝕄) = ((a7).view.loc (V d (cV L) (jV L)) ↦{fullShare} f7) from rfl)) $$ H7
  ihave H8' := (Entails.of_eq (show ((V d (cV L) (jV L)).loc cc1_scratch2 ↦{fullShare} f8 : sProp 𝕄) = ((a8).view.loc (V d (cV L) (jV L)) ↦{fullShare} f8) from rfl)) $$ H8
  ihave H9' := (Entails.of_eq (show ((V d (cV L) (jV L)).loc cc1_scratch3 ↦{fullShare} f9 : sProp 𝕄) = ((a9).view.loc (V d (cV L) (jV L)) ↦{fullShare} f9) from rfl)) $$ H9
  ihave H10' := (Entails.of_eq (show ((V d (cV L) (jV L)).loc cc1_scratch4 ↦{fullShare} f10 : sProp 𝕄) = ((a10).view.loc (V d (cV L) (jV L)) ↦{fullShare} f10) from rfl)) $$ H10
  ihave H11' := (Entails.of_eq (show ((V d (cV L) (jV L)).loc cc1_scratch5 ↦{fullShare} f11 : sProp 𝕄) = ((a11).view.loc (V d (cV L) (jV L)) ↦{fullShare} f11) from rfl)) $$ H11
  ihave H12' := (Entails.of_eq (show ((V d (cV L) (jV L)).loc cc1_scratch6 ↦{fullShare} f12 : sProp 𝕄) = ((a12).view.loc (V d (cV L) (jV L)) ↦{fullShare} f12) from rfl)) $$ H12
  sl_exec
  -- what the prologue left in the row list: at every position the id there, shifted right by 7
  have hdma : ∀ y, (tile_frame.sl.dma0 d L ids y).toNat ≤ 999999 := fun y => by
    unfold tile_frame.sl.dma0
    rw [ReadAs.apply_same, View.read_apply]
    exact hin _
  have hrow : ∀ y : S512.Idx, (a7).view.read (Elt F) ((a7).view.writes (Elt F) (a7).view.junk (tile_frame.sl.H7'_32 d L ids f6)) y
      = IntOp.shrui .vector (tile_frame.sl.dma0 d L ids y) 7#32 := by
    intro y
    refine View.read_writes_apply_of_pieces (Val := Elt F) (a7).view _ (fun y => (IntOp.shrui .vector (tile_frame.sl.dma0 d L ids y) 7#32 : Elt F .i32)) _ ?_ y ?_
    · unfold tile_frame.sl.H7'_32
      simp only [List.forall_mem_cons, List.not_mem_nil, false_imp_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals (intro x; delta_run; simp only [k1_pay347, shapeCast_self, View.write_whole_univ, View.readAt_apply, View.read_whole, shrui, broadcast]; try rfl)
    · unfold tile_frame.sl.H7'_32
      exact View.cover_of_tiled _ ![16] rfl y
  have hset8 : (a8).view.set = Finset.univ := View.set_whole _
  have hset9 : (a9).view.set = Finset.univ := View.set_whole _
  have hinK : ∀ (off : Fin 1 → Nat) (inb : ∀ a, off a + S128.size a ≤ S512.size a) (h1 : ∀ a, (Rect.unit (s := S512) off S128.size inb).stride a = 1) x,
      (((a7).slice (Rect.unit (s := S512) off S128.size inb) h1).view.read (Elt F) ((a7).view.writes (Elt F) (a7).view.junk (tile_frame.sl.H7'_32 d L ids f6)) x).toNat < S7816x128.size gathers_S7816x128_S128x128.axis := by
    intro off inb h1 x
    have e : ((a7).slice (Rect.unit (s := S512) off S128.size inb) h1).view.read (Elt F) ((a7).view.writes (Elt F) (a7).view.junk (tile_frame.sl.H7'_32 d L ids f6)) x
        = (a7).view.read (Elt F) ((a7).view.writes (Elt F) (a7).view.junk (tile_frame.sl.H7'_32 d L ids f6)) ((Rect.unit (s := S512) off S128.size inb).toLoadRect.idx x) := rfl
    rw [e, hrow]
    exact Cert.Proof.ChkLib.shrui_7_lt_of_le_999999 _ (hdma _)
  -- the table's share and the row list's, halved: one half per semaphore
  ihave Hts := (pointsTo_share (PosShare.mem_left_op_right qt)).1 $$ Ht'
  icases Hts with ⟨HtL, HtR⟩
  ihave H7s := (pointsTo_share (PosShare.mem_left_op_right fullShare)).1 $$ H7'
  icases H7s with ⟨H7L, H7R⟩
  sl_exec
  -- chunk 0's loop
  sl_for (invA (F := F) d L) $$ [H6' H10' H8' H11' H12']
  case region =>
    intro k acc
    unfold invA
    iintro ⟨⟨%g6, H6⟩, ⟨%g10, H10⟩, ⟨%gB, HB⟩, ⟨%g11, H11⟩, ⟨%g12, H12⟩⟩
    sl_exec (disch := first | sl_exact (hchk.h1 _ _) | sl_exact (hchk.h2 _ _) | sl_exact (hchk.h3 _ _) | sl_exact (hchk.h4 _ _) | sl_exact (hchk.h5 _ _) | sl_exact (hchk.h6 _ _) | sl_exact (hchk.h7 _ _) | sl_exact (hchk.h8 _ _) | sl_exact (hchk.h9 _ _) | sl_exact (hchk.h10 _ _) | sl_exact (hchk.h11 _ _) | sl_exact (hchk.h12 _ _) | sl_exact (hchk.h13 _ _) | sl_exact (hchk.h14 _ _) | sl_exact (hchk.h15 _ _) | sl_exact (hchk.h16 _ _))
    sl_step
    isplitl [H6]; · iexists _; iexact H6
    isplitl [H10]; · iexists _; iexact H10
    isplitl [HB]; · iexists _; iexact HB
    isplitl [H11]; · iexists _; iexact H11
    iexists _; iexact H12
  · unfold invA
    isplitl [H6']; · iexists _; iexact H6'
    isplitl [H10']; · iexists _; iexact H10'
    isplitl [H8']; · iexists _; iexact H8'
    isplitl [H11']; · iexists _; iexact H11'
    iexists _; iexact H12'
  iintro %_ HI
  unfold invA
  icases HI with ⟨⟨%h6_1, H6'⟩, ⟨%h10_1, H10'⟩, ⟨%hB_1, H8'⟩, ⟨%h11_1, H11'⟩, ⟨%h12_1, H12'⟩⟩
  sl_exec
  -- chunk 1's loop
  sl_for (invB (F := F) d L) $$ [H6' H10' H9' H11' H12']
  case region =>
    intro k acc
    unfold invB
    iintro ⟨⟨%g6, H6⟩, ⟨%g10, H10⟩, ⟨%gB, HB⟩, ⟨%g11, H11⟩, ⟨%g12, H12⟩⟩
    sl_exec (disch := first | sl_exact (hchk.h17 _ _) | sl_exact (hchk.h18 _ _) | sl_exact (hchk.h19 _ _) | sl_exact (hchk.h20 _ _) | sl_exact (hchk.h21 _ _) | sl_exact (hchk.h22 _ _) | sl_exact (hchk.h23 _ _) | sl_exact (hchk.h24 _ _) | sl_exact (hchk.h25 _ _) | sl_exact (hchk.h26 _ _) | sl_exact (hchk.h27 _ _) | sl_exact (hchk.h28 _ _) | sl_exact (hchk.h29 _ _) | sl_exact (hchk.h30 _ _) | sl_exact (hchk.h31 _ _) | sl_exact (hchk.h32 _ _))
    sl_step
    isplitl [H6]; · iexists _; iexact H6
    isplitl [H10]; · iexists _; iexact H10
    isplitl [HB]; · iexists _; iexact HB
    isplitl [H11]; · iexists _; iexact H11
    iexists _; iexact H12
  · unfold invB
    isplitl [H6']; · iexists _; iexact H6'
    isplitl [H10']; · iexists _; iexact H10'
    isplitl [H9']; · iexists _; iexact H9'
    isplitl [H11']; · iexists _; iexact H11'
    iexists _; iexact H12'
  iintro %_ HI
  unfold invB
  icases HI with ⟨⟨%h6_2, H6'⟩, ⟨%h10_2, H10'⟩, ⟨%hB_2, H9'⟩, ⟨%h11_2, H11'⟩, ⟨%h12_2, H12'⟩⟩
  sl_exec
  -- chunk 2's loop
  sl_for (invA (F := F) d L) $$ [H6' H10' H8' H11' H12']
  case region =>
    intro k acc
    unfold invA
    iintro ⟨⟨%g6, H6⟩, ⟨%g10, H10⟩, ⟨%gB, HB⟩, ⟨%g11, H11⟩, ⟨%g12, H12⟩⟩
    sl_exec (disch := first | sl_exact (hchk.h33 _ _) | sl_exact (hchk.h34 _ _) | sl_exact (hchk.h35 _ _) | sl_exact (hchk.h36 _ _) | sl_exact (hchk.h37 _ _) | sl_exact (hchk.h38 _ _) | sl_exact (hchk.h39 _ _) | sl_exact (hchk.h40 _ _) | sl_exact (hchk.h41 _ _) | sl_exact (hchk.h42 _ _) | sl_exact (hchk.h43 _ _) | sl_exact (hchk.h44 _ _) | sl_exact (hchk.h45 _ _) | sl_exact (hchk.h46 _ _) | sl_exact (hchk.h47 _ _) | sl_exact (hchk.h48 _ _))
    sl_step
    isplitl [H6]; · iexists _; iexact H6
    isplitl [H10]; · iexists _; iexact H10
    isplitl [HB]; · iexists _; iexact HB
    isplitl [H11]; · iexists _; iexact H11
    iexists _; iexact H12
  · unfold invA
    isplitl [H6']; · iexists _; iexact H6'
    isplitl [H10']; · iexists _; iexact H10'
    isplitl [H8']; · iexists _; iexact H8'
    isplitl [H11']; · iexists _; iexact H11'
    iexists _; iexact H12'
  iintro %_ HI
  unfold invA
  icases HI with ⟨⟨%h6_3, H6'⟩, ⟨%h10_3, H10'⟩, ⟨%hB_3, H8'⟩, ⟨%h11_3, H11'⟩, ⟨%h12_3, H12'⟩⟩
  sl_exec
  -- chunk 3's loop
  sl_for (invB (F := F) d L) $$ [H6' H10' H9' H11' H12']
  case region =>
    intro k acc
    unfold invB
    iintro ⟨⟨%g6, H6⟩, ⟨%g10, H10⟩, ⟨%gB, HB⟩, ⟨%g11, H11⟩, ⟨%g12, H12⟩⟩
    sl_exec (disch := first | sl_exact (hchk.h49 _ _) | sl_exact (hchk.h50 _ _) | sl_exact (hchk.h51 _ _) | sl_exact (hchk.h52 _ _) | sl_exact (hchk.h53 _ _) | sl_exact (hchk.h54 _ _) | sl_exact (hchk.h55 _ _) | sl_exact (hchk.h56 _ _) | sl_exact (hchk.h57 _ _) | sl_exact (hchk.h58 _ _) | sl_exact (hchk.h59 _ _) | sl_exact (hchk.h60 _ _) | sl_exact (hchk.h61 _ _) | sl_exact (hchk.h62 _ _) | sl_exact (hchk.h63 _ _) | sl_exact (hchk.h64 _ _))
    sl_step
    isplitl [H6]; · iexists _; iexact H6
    isplitl [H10]; · iexists _; iexact H10
    isplitl [HB]; · iexists _; iexact HB
    isplitl [H11]; · iexists _; iexact H11
    iexists _; iexact H12
  · unfold invB
    isplitl [H6']; · iexists _; iexact H6'
    isplitl [H10']; · iexists _; iexact H10'
    isplitl [H9']; · iexists _; iexact H9'
    isplitl [H11']; · iexists _; iexact H11'
    iexists _; iexact H12'
  iintro %_ HI
  unfold invB
  icases HI with ⟨⟨%h6_4, H6'⟩, ⟨%h10_4, H10'⟩, ⟨%hB_4, H9'⟩, ⟨%h11_4, H11'⟩, ⟨%h12_4, H12'⟩⟩
  sl_exec
  sl_step
  ihave Ht := (pointsTo_share (PosShare.mem_left_op_right qt)).2 $$ [HtL HtR]; · isplitl [HtL] <;> iassumption
  ihave H7 := (pointsTo_share (PosShare.mem_left_op_right fullShare)).2 $$ [H7L H7R]; · isplitl [H7L] <;> iassumption
  isplitl [Hi' Ht Hb' Ho']
  · isplitl [Hi']; · iexact Hi'
    isplitl [Ht]; · iexact Ht
    isplitl [Hb']; · iexact Hb'
    iexists _; iexact Ho'
  isplitl [H6' H7 H8' H9' H10' H11' H12' Hbufs]
  · isplitl [H6']; · iexists _; iexact H6'
    isplitl [H7]; · iexists _; iexact H7
    isplitl [H8']; · iexists _; iexact H8'
    isplitl [H9']; · iexists _; iexact H9'
    isplitl [H10']; · iexists _; iexact H10'
    isplitl [H11']; · iexists _; iexact H11'
    isplitl [H12']; · iexists _; iexact H12'
    iexact Hbufs
  isplitl [Hs13 Hs14 Hr0 Hr1 Hr2 Hsems]
  · isplitl [Hs13]; · iexact Hs13
    isplitl [Hs14]; · iexact Hs14
    isplitl [Hr0]; · iexact Hr0
    isplitl [Hr1]; · iexact Hr1
    isplitl [Hr2]; · iexact Hr2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Kernel.TileK1

end
-- ==== Proof.LanePayK1B.lean ====
/-
  The gather body's per-lane values in normal form: casts of a vector to its own shape dropped, and each lane
  update select (lane = j) (res + t) res written as the update step of lane j.
-/
import proofs.«204913_g64682207478566_cont_9to1c4b_713_31_alg».proof.Proof.Gen.Kernel.Skeleton
import proofs.«204913_g64682207478566_cont_9to1c4b_713_31_alg».proof.Proof.LaneLib

noncomputable section

namespace Cert.Kernel.LanePayK1

open Cert.Kernel Cert.Kernel.Gen
open Idealize.ShloMosaic Idealize.ShloMosaic.ValueIdx
open Cert.Proof

variable {F : FTy → Type} [FloatOps F]

theorem k1_pay1_nf (v256 : Vec F S16 .i32) :
    k1_pay1 v256 = v256 := by
  unfold k1_pay1
  first | rfl | (simp only [shapeCast_self, LaneLib.step]; first | done | rfl)

theorem k1_pay2_nf (v256 : Vec F S16 .i32) :
    k1_pay2 v256 = extractStridedSlice S1 ![0] v256 slices_S16_o0_S1 := by
  unfold k1_pay2
  first | rfl | (simp only [k1_pay1_nf, shapeCast_self, LaneLib.step]; first | done | rfl)

theorem k1_pay3_nf (v270 : Vec F S1x16 .f32) :
    k1_pay3 v270 = shapeCast S16 v270 shapeCasts_S1x16_S16 := by
  unfold k1_pay3
  first | rfl | (simp only [shapeCast_self, LaneLib.step]; first | done | rfl)

theorem k1_pay4_nf (v270 : Vec F S1x16 .f32) :
    k1_pay4 v270 = shapeCast S16 v270 shapeCasts_S1x16_S16 := by
  unfold k1_pay4
  first | rfl | (simp only [k1_pay3_nf, shapeCast_self, LaneLib.step]; first | done | rfl)

theorem k1_pay5_nf (v270 : Vec F S1x16 .f32) :
    k1_pay5 v270 = shapeCast S16 v270 shapeCasts_S1x16_S16 := by
  unfold k1_pay5
  first | rfl | (simp only [k1_pay3_nf, shapeCast_self, LaneLib.step]; first | done | rfl)

theorem k1_pay6_nf (v227 : IVec S16 32) (v259 : Vec F S16 .f32) (v284 : Vec F S16 .f32) :
    k1_pay6 v227 v259 v284 = LaneLib.step v227 0#32 v259 v284 := by
  unfold k1_pay6
  first | rfl | (simp only [shapeCast_self, LaneLib.step]; first | done | rfl)

theorem k1_pay7_nf (v257 : IVec S16 32) :
    k1_pay7 v257 = extractStridedSlice S1 ![1] v257 slices_S16_o1_S1 := by
  unfold k1_pay7
  first | rfl | (simp only [shapeCast_self, LaneLib.step]; first | done | rfl)

theorem k1_pay8_nf (v299 : Vec F S1x16 .f32) :
    k1_pay8 v299 = shapeCast S16 v299 shapeCasts_S1x16_S16 := by
  unfold k1_pay8
  first | rfl | (simp only [shapeCast_self, LaneLib.step]; first | done | rfl)

theorem k1_pay9_nf (v299 : Vec F S1x16 .f32) :
    k1_pay9 v299 = shapeCast S16 v299 shapeCasts_S1x16_S16 := by
  unfold k1_pay9
  first | rfl | (simp only [k1_pay8_nf, shapeCast_self, LaneLib.step]; first | done | rfl)

theorem k1_pay10_nf (v299 : Vec F S1x16 .f32) :
    k1_pay10 v299 = shapeCast S16 v299 shapeCasts_S1x16_S16 := by
  unfold k1_pay10
  first | rfl | (simp only [k1_pay8_nf, shapeCast_self, LaneLib.step]; first | done | rfl)

theorem k1_pay11_nf (v227 : IVec S16 32) (v289 : FVec F S16 .f32) (v313 : Vec F S16 .f32) :
    k1_pay11 v227 v289 v313 = LaneLib.step v227 1#32 v289 v313 := by
  unfold k1_pay11
  first | rfl | (simp only [shapeCast_self, LaneLib.step]; first | done | rfl)

theorem k1_pay12_nf (v257 : IVec S16 32) :
    k1_pay12 v257 = extractStridedSlice S1 ![2] v257 slices_S16_o2_S1 := by
  unfold k1_pay12
  first | rfl | (simp only [shapeCast_self, LaneLib.step]; first | done | rfl)

theorem k1_pay13_nf (v328 : Vec F S1x16 .f32) :
    k1_pay13 v328 = shapeCast S16 v328 shapeCasts_S1x16_S16 := by
  unfold k1_pay13
  first | rfl | (simp only [shapeCast_self, LaneLib.step]; first | done | rfl)

theorem k1_pay14_nf (v328 : Vec F S1x16 .f32) :
    k1_pay14 v328 = shapeCast S16 v328 shapeCasts_S1x16_S16 := by
  unfold k1_pay14
  first | rfl | (simp only [k1_pay13_nf, shapeCast_self, LaneLib.step]; first | done | rfl)

theorem k1_pay15_nf (v329 : FVec F S16 .f32) :
    k1_pay15 v329 = v329 := by
  unfold k1_pay15
  first | rfl | (simp only [shapeCast_self, LaneLib.step]; first | done | rfl)

theorem k1_pay16_nf (v227 : IVec S16 32) (v318 : FVec F S16 .f32) (v342 : Vec F S16 .f32) :
    k1_pay16 v227 v318 v342 = LaneLib.step v227 2#32 v318 v342 := by
  unfold k1_pay16
  first | rfl | (simp only [shapeCast_self, LaneLib.step]; first | done | rfl)

theorem k1_pay17_nf (v257 : IVec S16 32) :
    k1_pay17 v257 = extractStridedSlice S1 ![3] v257 slices_S16_o3_S1 := by
  unfold k1_pay17
  first | rfl | (simp only [shapeCast_self, LaneLib.step]; first | done | rfl)

theorem k1_pay18_nf (v357 : Vec F S1x16 .f32) :
    k1_pay18 v357 = shapeCast S16 v357 shapeCasts_S1x16_S16 := by
  unfold k1_pay18
  first | rfl | (simp only [shapeCast_self, LaneLib.step]; first | done | rfl)

theorem k1_pay19_nf (v357 : Vec F S1x16 .f32) :
    k1_pay19 v357 = shapeCast S16 v357 shapeCasts_S1x16_S16 := by
  unfold k1_pay19
  first | rfl | (simp only [k1_pay18_nf, shapeCast_self, LaneLib.step]; first | done | rfl)

theorem k1_pay20_nf (v357 : Vec F S1x16 .f32) :
    k1_pay20 v357 = shapeCast S16 v357 shapeCasts_S1x16_S16 := by
  unfold k1_pay20
  first | rfl | (simp only [k1_pay18_nf, shapeCast_self, LaneLib.step]; first | done | rfl)

theorem k1_pay21_nf (v257 : IVec S16 32) :
    k1_pay21 v257 = extractStridedSlice S1 ![4] v257 slices_S16_o4_S1 := by
  unfold k1_pay21
  first | rfl | (simp only [shapeCast_self, LaneLib.step]; first | done | rfl)

theorem k1_pay22_nf (v386 : Vec F S1x16 .f32) :
    k1_pay22 v386 = shapeCast S16 v386 shapeCasts_S1x16_S16 := by
  unfold k1_pay22
  first | rfl | (simp only [shapeCast_self, LaneLib.step]; first | done | rfl)

theorem k1_pay23_nf (v386 : Vec F S1x16 .f32) :
    k1_pay23 v386 = shapeCast S16 v386 shapeCasts_S1x16_S16 := by
  unfold k1_pay23
  first | rfl | (simp only [k1_pay22_nf, shapeCast_self, LaneLib.step]; first | done | rfl)

theorem k1_pay24_nf (v386 : Vec F S1x16 .f32) :
    k1_pay24 v386 = shapeCast S16 v386 shapeCasts_S1x16_S16 := by
  unfold k1_pay24
  first | rfl | (simp only [k1_pay22_nf, shapeCast_self, LaneLib.step]; first | done | rfl)

theorem k1_pay25_nf (v227 : IVec S16 32) (v347 : FVec F S16 .f32) (v371 : Vec F S16 .f32) (v400 : Vec F S16 .f32) :
    k1_pay25 v227 v347 v371 v400 = LaneLib.step v227 4#32 (LaneLib.step v227 3#32 v347 v371) v400 := by
  unfold k1_pay25
  first | rfl | (simp only [shapeCast_self, LaneLib.step]; first | done | rfl)

theorem k1_pay26_nf (v257 : IVec S16 32) :
    k1_pay26 v257 = extractStridedSlice S1 ![5] v257 slices_S16_o5_S1 := by
  unfold k1_pay26
  first | rfl | (simp only [shapeCast_self, LaneLib.step]; first | done | rfl)

theorem k1_pay27_nf (v415 : Vec F S1x16 .f32) :
    k1_pay27 v415 = shapeCast S16 v415 shapeCasts_S1x16_S16 := by
  unfold k1_pay27
  first | rfl | (simp only [shapeCast_self, LaneLib.step]; first | done | rfl)

theorem k1_pay28_nf (v415 : Vec F S1x16 .f32) :
    k1_pay28 v415 = shapeCast S16 v415 shapeCasts_S1x16_S16 := by
  unfold k1_pay28
  first | rfl | (simp only [k1_pay27_nf, shapeCast_self, LaneLib.step]; first | done | rfl)

theorem k1_pay29_nf (v415 : Vec F S1x16 .f32) :
    k1_pay29 v415 = shapeCast S16 v415 shapeCasts_S1x16_S16 := by
  unfold k1_pay29
  first | rfl | (simp only [k1_pay27_nf, shapeCast_self, LaneLib.step]; first | done | rfl)

theorem k1_pay30_nf (v227 : IVec S16 32) (v405 : FVec F S16 .f32) (v429 : Vec F S16 .f32) :
    k1_pay30 v227 v405 v429 = LaneLib.step v227 5#32 v405 v429 := by
  unfold k1_pay30
  first | rfl | (simp only [shapeCast_self, LaneLib.step]; first | done | rfl)

theorem k1_pay31_nf (v257 : IVec S16 32) :
    k1_pay31 v257 = extractStridedSlice S1 ![6] v257 slices_S16_o6_S1 := by
  unfold k1_pay31
  first | rfl | (simp only [shapeCast_self, LaneLib.step]; first | done | rfl)

theorem k1_pay32_nf (v444 : Vec F S1x16 .f32) :
    k1_pay32 v444 = shapeCast S16 v444 shapeCasts_S1x16_S16 := by
  unfold k1_pay32
  first | rfl | (simp only [shapeCast_self, LaneLib.step]; first | done | rfl)

theorem k1_pay33_nf (v444 : Vec F S1x16 .f32) :
    k1_pay33 v444 = shapeCast S16 v444 shapeCasts_S1x16_S16 := by
  unfold k1_pay33
  first | rfl | (simp only [k1_pay32_nf, shapeCast_self, LaneLib.step]; first | done | rfl)

theorem k1_pay34_nf (v445 : FVec F S16 .f32) :
    k1_pay34 v445 = v445 := by
  unfold k1_pay34
  first | rfl | (simp only [shapeCast_self, LaneLib.step]; first | done | rfl)

theorem k1_pay35_nf (v227 : IVec S16 32) (v434 : FVec F S16 .f32) (v458 : Vec F S16 .f32) :
    k1_pay35 v227 v434 v458 = LaneLib.step v227 6#32 v434 v458 := by
  unfold k1_pay35
  first | rfl | (simp only [shapeCast_self, LaneLib.step]; first | done | rfl)

theorem k1_pay36_nf (v257 : IVec S16 32) :
    k1_pay36 v257 = extractStridedSlice S1 ![7] v257 slices_S16_o7_S1 := by
  unfold k1_pay36
  first | rfl | (simp only [shapeCast_self, LaneLib.step]; first | done | rfl)

theorem k1_pay37_nf (v473 : Vec F S1x16 .f32) :
    k1_pay37 v473 = shapeCast S16 v473 shapeCasts_S1x16_S16 := by
  unfold k1_pay37
  first | rfl | (simp only [shapeCast_self, LaneLib.step]; first | done | rfl)

theorem k1_pay38_nf (v473 : Vec F S1x16 .f32) :
    k1_pay38 v473 = shapeCast S16 v473 shapeCasts_S1x16_S16 := by
  unfold k1_pay38
  first | rfl | (simp only [k1_pay37_nf, shapeCast_self, LaneLib.step]; first | done | rfl)

theorem k1_pay39_nf (v473 : Vec F S1x16 .f32) :
    k1_pay39 v473 = shapeCast S16 v473 shapeCasts_S1x16_S16 := by
  unfold k1_pay39
  first | rfl | (simp only [k1_pay37_nf, shapeCast_self, LaneLib.step]; first | done | rfl)

theorem k1_pay40_nf (v487 : Vec F S16 .f32) :
    k1_pay40 v487 = v487 := by
  unfold k1_pay40
  first | rfl | (simp only [shapeCast_self, LaneLib.step]; first | done | rfl)

theorem k1_pay41_nf (v257 : IVec S16 32) :
    k1_pay41 v257 = extractStridedSlice S1 ![8] v257 slices_S16_o8_S1 := by
  unfold k1_pay41
  first | rfl | (simp only [shapeCast_self, LaneLib.step]; first | done | rfl)

theorem k1_pay42_nf (v502 : Vec F S1x16 .f32) :
    k1_pay42 v502 = shapeCast S16 v502 shapeCasts_S1x16_S16 := by
  unfold k1_pay42
  first | rfl | (simp only [shapeCast_self, LaneLib.step]; first | done | rfl)

theorem k1_pay43_nf (v502 : Vec F S1x16 .f32) :
    k1_pay43 v502 = shapeCast S16 v502 shapeCasts_S1x16_S16 := by
  unfold k1_pay43
  first | rfl | (simp only [k1_pay42_nf, shapeCast_self, LaneLib.step]; first | done | rfl)

theorem k1_pay44_nf (v502 : Vec F S1x16 .f32) :
    k1_pay44 v502 = shapeCast S16 v502 shapeCasts_S1x16_S16 := by
  unfold k1_pay44
  first | rfl | (simp only [k1_pay42_nf, shapeCast_self, LaneLib.step]; first | done | rfl)

theorem k1_pay45_nf (v227 : IVec S16 32) (v463 : FVec F S16 .f32) (v488 : FVec F S16 .f32) (c7_i32_184 : BitVec 32) (v516 : Vec F S16 .f32) :
    k1_pay45 v227 v463 v488 c7_i32_184 v516 = LaneLib.step v227 8#32 (LaneLib.step v227 c7_i32_184 v463 v488) v516 := by
  unfold k1_pay45
  first | rfl | (simp only [shapeCast_self, LaneLib.step]; first | done | rfl)

theorem k1_pay46_nf (v257 : IVec S16 32) :
    k1_pay46 v257 = extractStridedSlice S1 ![9] v257 slices_S16_o9_S1 := by
  unfold k1_pay46
  first | rfl | (simp only [shapeCast_self, LaneLib.step]; first | done | rfl)

theorem k1_pay47_nf (v531 : Vec F S1x16 .f32) :
    k1_pay47 v531 = shapeCast S16 v531 shapeCasts_S1x16_S16 := by
  unfold k1_pay47
  first | rfl | (simp only [shapeCast_self, LaneLib.step]; first | done | rfl)

theorem k1_pay48_nf (v531 : Vec F S1x16 .f32) :
    k1_pay48 v531 = shapeCast S16 v531 shapeCasts_S1x16_S16 := by
  unfold k1_pay48
  first | rfl | (simp only [k1_pay47_nf, shapeCast_self, LaneLib.step]; first | done | rfl)

theorem k1_pay49_nf (v531 : Vec F S1x16 .f32) :
    k1_pay49 v531 = shapeCast S16 v531 shapeCasts_S1x16_S16 := by
  unfold k1_pay49
  first | rfl | (simp only [k1_pay47_nf, shapeCast_self, LaneLib.step]; first | done | rfl)

theorem k1_pay50_nf (v227 : IVec S16 32) (v521 : FVec F S16 .f32) (v545 : Vec F S16 .f32) :
    k1_pay50 v227 v521 v545 = LaneLib.step v227 9#32 v521 v545 := by
  unfold k1_pay50
  first | rfl | (simp only [shapeCast_self, LaneLib.step]; first | done | rfl)

theorem k1_pay51_nf (v257 : IVec S16 32) :
    k1_pay51 v257 = extractStridedSlice S1 ![10] v257 slices_S16_o10_S1 := by
  unfold k1_pay51
  first | rfl | (simp only [shapeCast_self, LaneLib.step]; first | done | rfl)

theorem k1_pay52_nf (v560 : Vec F S1x16 .f32) :
    k1_pay52 v560 = shapeCast S16 v560 shapeCasts_S1x16_S16 := by
  unfold k1_pay52
  first | rfl | (simp only [shapeCast_self, LaneLib.step]; first | done | rfl)

theorem k1_pay53_nf (v560 : Vec F S1x16 .f32) :
    k1_pay53 v560 = shapeCast S16 v560 shapeCasts_S1x16_S16 := by
  unfold k1_pay53
  first | rfl | (simp only [k1_pay52_nf, shapeCast_self, LaneLib.step]; first | done | rfl)

theorem k1_pay54_nf (v560 : Vec F S1x16 .f32) :
    k1_pay54 v560 = shapeCast S16 v560 shapeCasts_S1x16_S16 := by
  unfold k1_pay54
  first | rfl | (simp only [k1_pay52_nf, shapeCast_self, LaneLib.step]; first | done | rfl)

theorem k1_pay55_nf (v257 : IVec S16 32) :
    k1_pay55 v257 = extractStridedSlice S1 ![11] v257 slices_S16_o11_S1 := by
  unfold k1_pay55
  first | rfl | (simp only [shapeCast_self, LaneLib.step]; first | done | rfl)

theorem k1_pay56_nf (v589 : Vec F S1x16 .f32) :
    k1_pay56 v589 = shapeCast S16 v589 shapeCasts_S1x16_S16 := by
  unfold k1_pay56
  first | rfl | (simp only [shapeCast_self, LaneLib.step]; first | done | rfl)

theorem k1_pay57_nf (v589 : Vec F S1x16 .f32) :
    k1_pay57 v589 = shapeCast S16 v589 shapeCasts_S1x16_S16 := by
  unfold k1_pay57
  first | rfl | (simp only [k1_pay56_nf, shapeCast_self, LaneLib.step]; first | done | rfl)

theorem k1_pay58_nf (v589 : Vec F S1x16 .f32) :
    k1_pay58 v589 = shapeCast S16 v589 shapeCasts_S1x16_S16 := by
  unfold k1_pay58
  first | rfl | (simp only [k1_pay56_nf, shapeCast_self, LaneLib.step]; first | done | rfl)

theorem k1_pay59_nf (v227 : IVec S16 32) (v550 : FVec F S16 .f32) (v574 : Vec F S16 .f32) (v603 : Vec F S16 .f32) :
    k1_pay59 v227 v550 v574 v603 = LaneLib.step v227 11#32 (LaneLib.step v227 10#32 v550 v574) v603 := by
  unfold k1_pay59
  first | rfl | (simp only [shapeCast_self, LaneLib.step]; first | done | rfl)

theorem k1_pay60_nf (v257 : IVec S16 32) :
    k1_pay60 v257 = extractStridedSlice S1 ![12] v257 slices_S16_o12_S1 := by
  unfold k1_pay60
  first | rfl | (simp only [shapeCast_self, LaneLib.step]; first | done | rfl)

theorem k1_pay61_nf (v618 : Vec F S1x16 .f32) :
    k1_pay61 v618 = shapeCast S16 v618 shapeCasts_S1x16_S16 := by
  unfold k1_pay61
  first | rfl | (simp only [shapeCast_self, LaneLib.step]; first | done | rfl)

theorem k1_pay62_nf (v618 : Vec F S1x16 .f32) :
    k1_pay62 v618 = shapeCast S16 v618 shapeCasts_S1x16_S16 := by
  unfold k1_pay62
  first | rfl | (simp only [k1_pay61_nf, shapeCast_self, LaneLib.step]; first | done | rfl)

theorem k1_pay63_nf (v618 : Vec F S1x16 .f32) :
    k1_pay63 v618 = shapeCast S16 v618 shapeCasts_S1x16_S16 := by
  unfold k1_pay63
  first | rfl | (simp only [k1_pay61_nf, shapeCast_self, LaneLib.step]; first | done | rfl)

theorem k1_pay64_nf (v227 : IVec S16 32) (v608 : FVec F S16 .f32) (v632 : Vec F S16 .f32) :
    k1_pay64 v227 v608 v632 = LaneLib.step v227 12#32 v608 v632 := by
  unfold k1_pay64
  first | rfl | (simp only [shapeCast_self, LaneLib.step]; first | done | rfl)

theorem k1_pay65_nf (v257 : IVec S16 32) :
    k1_pay65 v257 = extractStridedSlice S1 ![13] v257 slices_S16_o13_S1 := by
  unfold k1_pay65
  first | rfl | (simp only [shapeCast_self, LaneLib.step]; first | done | rfl)

theorem k1_pay66_nf (v647 : Vec F S1x16 .f32) :
    k1_pay66 v647 = shapeCast S16 v647 shapeCasts_S1x16_S16 := by
  unfold k1_pay66
  first | rfl | (simp only [shapeCast_self, LaneLib.step]; first | done | rfl)

theorem k1_pay67_nf (v648 : FVec F S16 .f32) :
    k1_pay67 v648 = v648 := by
  unfold k1_pay67
  first | rfl | (simp only [shapeCast_self, LaneLib.step]; first | done | rfl)

theorem k1_pay68_nf (v648 : FVec F S16 .f32) :
    k1_pay68 v648 = v648 := by
  unfold k1_pay68
  first | rfl | (simp only [shapeCast_self, LaneLib.step]; first | done | rfl)

theorem k1_pay69_nf (v227 : IVec S16 32) (v637 : FVec F S16 .f32) (v661 : Vec F S16 .f32) :
    k1_pay69 v227 v637 v661 = LaneLib.step v227 13#32 v637 v661 := by
  unfold k1_pay69
  first | rfl | (simp only [shapeCast_self, LaneLib.step]; first | done | rfl)

theorem k1_pay70_nf (v257 : IVec S16 32) :
    k1_pay70 v257 = extractStridedSlice S1 ![14] v257 slices_S16_o14_S1 := by
  unfold k1_pay70
  first | rfl | (simp only [shapeCast_self, LaneLib.step]; first | done | rfl)

theorem k1_pay71_nf (v676 : Vec F S1x16 .f32) :
    k1_pay71 v676 = shapeCast S16 v676 shapeCasts_S1x16_S16 := by
  unfold k1_pay71
  first | rfl | (simp only [shapeCast_self, LaneLib.step]; first | done | rfl)

theorem k1_pay72_nf (v676 : Vec F S1x16 .f32) :
    k1_pay72 v676 = shapeCast S16 v676 shapeCasts_S1x16_S16 := by
  unfold k1_pay72
  first | rfl | (simp only [k1_pay71_nf, shapeCast_self, LaneLib.step]; first | done | rfl)

theorem k1_pay73_nf (v676 : Vec F S1x16 .f32) :
    k1_pay73 v676 = shapeCast S16 v676 shapeCasts_S1x16_S16 := by
  unfold k1_pay73
  first | rfl | (simp only [k1_pay71_nf, shapeCast_self, LaneLib.step]; first | done | rfl)

theorem k1_pay74_nf (v257 : IVec S16 32) :
    k1_pay74 v257 = extractStridedSlice S1 ![15] v257 slices_S16_o15_S1 := by
  unfold k1_pay74
  first | rfl | (simp only [shapeCast_self, LaneLib.step]; first | done | rfl)

theorem k1_pay75_nf (v705 : Vec F S1x16 .f32) :
    k1_pay75 v705 = shapeCast S16 v705 shapeCasts_S1x16_S16 := by
  unfold k1_pay75
  first | rfl | (simp only [shapeCast_self, LaneLib.step]; first | done | rfl)

theorem k1_pay76_nf (v705 : Vec F S1x16 .f32) :
    k1_pay76 v705 = shapeCast S16 v705 shapeCasts_S1x16_S16 := by
  unfold k1_pay76
  first | rfl | (simp only [k1_pay75_nf, shapeCast_self, LaneLib.step]; first | done | rfl)

theorem k1_pay77_nf (v705 : Vec F S1x16 .f32) :
    k1_pay77 v705 = shapeCast S16 v705 shapeCasts_S1x16_S16 := by
  unfold k1_pay77
  first | rfl | (simp only [k1_pay75_nf, shapeCast_self, LaneLib.step]; first | done | rfl)

theorem k1_pay78_nf (v227 : IVec S16 32) (v666 : FVec F S16 .f32) (v690 : Vec F S16 .f32) (v719 : Vec F S16 .f32) :
    k1_pay78 v227 v666 v690 v719 = LaneLib.step v227 15#32 (LaneLib.step v227 14#32 v666 v690) v719 := by
  unfold k1_pay78
  first | rfl | (simp only [shapeCast_self, LaneLib.step]; first | done | rfl)

theorem k1_pay79_nf (v256 : Vec F S16 .i32) :
    k1_pay79 v256 = v256 := by
  unfold k1_pay79
  first | rfl | (simp only [shapeCast_self, LaneLib.step]; first | done | rfl)

theorem k1_pay80_nf (v256 : Vec F S16 .i32) :
    k1_pay80 v256 = extractStridedSlice S1 ![0] v256 slices_S16_o0_S1 := by
  unfold k1_pay80
  first | rfl | (simp only [k1_pay79_nf, shapeCast_self, LaneLib.step]; first | done | rfl)

theorem k1_pay81_nf (v270 : Vec F S1x16 .f32) :
    k1_pay81 v270 = shapeCast S16 v270 shapeCasts_S1x16_S16 := by
  unfold k1_pay81
  first | rfl | (simp only [shapeCast_self, LaneLib.step]; first | done | rfl)

theorem k1_pay82_nf (v270 : Vec F S1x16 .f32) :
    k1_pay82 v270 = shapeCast S16 v270 shapeCasts_S1x16_S16 := by
  unfold k1_pay82
  first | rfl | (simp only [k1_pay81_nf, shapeCast_self, LaneLib.step]; first | done | rfl)

theorem k1_pay83_nf (v270 : Vec F S1x16 .f32) :
    k1_pay83 v270 = shapeCast S16 v270 shapeCasts_S1x16_S16 := by
  unfold k1_pay83
  first | rfl | (simp only [k1_pay81_nf, shapeCast_self, LaneLib.step]; first | done | rfl)

theorem k1_pay84_nf (v227 : IVec S16 32) (v259 : Vec F S16 .f32) (v284 : Vec F S16 .f32) :
    k1_pay84 v227 v259 v284 = LaneLib.step v227 0#32 v259 v284 := by
  unfold k1_pay84
  first | rfl | (simp only [shapeCast_self, LaneLib.step]; first | done | rfl)

theorem k1_pay85_nf (v257 : IVec S16 32) :
    k1_pay85 v257 = extractStridedSlice S1 ![1] v257 slices_S16_o1_S1 := by
  unfold k1_pay85
  first | rfl | (simp only [shapeCast_self, LaneLib.step]; first | done | rfl)

theorem k1_pay86_nf (v299 : Vec F S1x16 .f32) :
    k1_pay86 v299 = shapeCast S16 v299 shapeCasts_S1x16_S16 := by
  unfold k1_pay86
  first | rfl | (simp only [shapeCast_self, LaneLib.step]; first | done | rfl)

theorem k1_pay87_nf (v299 : Vec F S1x16 .f32) :
    k1_pay87 v299 = shapeCast S16 v299 shapeCasts_S1x16_S16 := by
  unfold k1_pay87
  first | rfl | (simp only [k1_pay86_nf, shapeCast_self, LaneLib.step]; first | done | rfl)

theorem k1_pay88_nf (v299 : Vec F S1x16 .f32) :
    k1_pay88 v299 = shapeCast S16 v299 shapeCasts_S1x16_S16 := by
  unfold k1_pay88
  first | rfl | (simp only [k1_pay86_nf, shapeCast_self, LaneLib.step]; first | done | rfl)

theorem k1_pay89_nf (v227 : IVec S16 32) (v289 : FVec F S16 .f32) (v313 : Vec F S16 .f32) :
    k1_pay89 v227 v289 v313 = LaneLib.step v227 1#32 v289 v313 := by
  unfold k1_pay89
  first | rfl | (simp only [shapeCast_self, LaneLib.step]; first | done | rfl)

theorem k1_pay90_nf (v257 : IVec S16 32) :
    k1_pay90 v257 = extractStridedSlice S1 ![2] v257 slices_S16_o2_S1 := by
  unfold k1_pay90
  first | rfl | (simp only [shapeCast_self, LaneLib.step]; first | done | rfl)

theorem k1_pay91_nf (v328 : Vec F S1x16 .f32) :
    k1_pay91 v328 = shapeCast S16 v328 shapeCasts_S1x16_S16 := by
  unfold k1_pay91
  first | rfl | (simp only [shapeCast_self, LaneLib.step]; first | done | rfl)

theorem k1_pay92_nf (v328 : Vec F S1x16 .f32) :
    k1_pay92 v328 = shapeCast S16 v328 shapeCasts_S1x16_S16 := by
  unfold k1_pay92
  first | rfl | (simp only [k1_pay91_nf, shapeCast_self, LaneLib.step]; first | done | rfl)

theorem k1_pay93_nf (v329 : FVec F S16 .f32) :
    k1_pay93 v329 = v329 := by
  unfold k1_pay93
  first | rfl | (simp only [shapeCast_self, LaneLib.step]; first | done | rfl)

theorem k1_pay94_nf (v227 : IVec S16 32) (v318 : FVec F S16 .f32) (v342 : Vec F S16 .f32) :
    k1_pay94 v227 v318 v342 = LaneLib.step v227 2#32 v318 v342 := by
  unfold k1_pay94
  first | rfl | (simp only [shapeCast_self, LaneLib.step]; first | done | rfl)

theorem k1_pay95_nf (v257 : IVec S16 32) :
    k1_pay95 v257 = extractStridedSlice S1 ![3] v257 slices_S16_o3_S1 := by
  unfold k1_pay95
  first | rfl | (simp only [shapeCast_self, LaneLib.step]; first | done | rfl)

theorem k1_pay96_nf (v357 : Vec F S1x16 .f32) :
    k1_pay96 v357 = shapeCast S16 v357 shapeCasts_S1x16_S16 := by
  unfold k1_pay96
  first | rfl | (simp only [shapeCast_self, LaneLib.step]; first | done | rfl)

theorem k1_pay97_nf (v357 : Vec F S1x16 .f32) :
    k1_pay97 v357 = shapeCast S16 v357 shapeCasts_S1x16_S16 := by
  unfold k1_pay97
  first | rfl | (simp only [k1_pay96_nf, shapeCast_self, LaneLib.step]; first | done | rfl)

theorem k1_pay98_nf (v357 : Vec F S1x16 .f32) :
    k1_pay98 v357 = shapeCast S16 v357 shapeCasts_S1x16_S16 := by
  unfold k1_pay98
  first | rfl | (simp only [k1_pay96_nf, shapeCast_self, LaneLib.step]; first | done | rfl)

theorem k1_pay99_nf (v257 : IVec S16 32) :
    k1_pay99 v257 = extractStridedSlice S1 ![4] v257 slices_S16_o4_S1 := by
  unfold k1_pay99
  first | rfl | (simp only [shapeCast_self, LaneLib.step]; first | done | rfl)

theorem k1_pay100_nf (v386 : Vec F S1x16 .f32) :
    k1_pay100 v386 = shapeCast S16 v386 shapeCasts_S1x16_S16 := by
  unfold k1_pay100
  first | rfl | (simp only [shapeCast_self, LaneLib.step]; first | done | rfl)

theorem k1_pay101_nf (v386 : Vec F S1x16 .f32) :
    k1_pay101 v386 = shapeCast S16 v386 shapeCasts_S1x16_S16 := by
  unfold k1_pay101
  first | rfl | (simp only [k1_pay100_nf, shapeCast_self, LaneLib.step]; first | done | rfl)

theorem k1_pay102_nf (v386 : Vec F S1x16 .f32) :
    k1_pay102 v386 = shapeCast S16 v386 shapeCasts_S1x16_S16 := by
  unfold k1_pay102
  first | rfl | (simp only [k1_pay100_nf, shapeCast_self, LaneLib.step]; first | done | rfl)

theorem k1_pay103_nf (v227 : IVec S16 32) (v347 : FVec F S16 .f32) (v371 : Vec F S16 .f32) (v400 : Vec F S16 .f32) :
    k1_pay103 v227 v347 v371 v400 = LaneLib.step v227 4#32 (LaneLib.step v227 3#32 v347 v371) v400 := by
  unfold k1_pay103
  first | rfl | (simp only [shapeCast_self, LaneLib.step]; first | done | rfl)

theorem k1_pay104_nf (v257 : IVec S16 32) :
    k1_pay104 v257 = extractStridedSlice S1 ![5] v257 slices_S16_o5_S1 := by
  unfold k1_pay104
  first | rfl | (simp only [shapeCast_self, LaneLib.step]; first | done | rfl)

theorem k1_pay105_nf (v415 : Vec F S1x16 .f32) :
    k1_pay105 v415 = shapeCast S16 v415 shapeCasts_S1x16_S16 := by
  unfold k1_pay105
  first | rfl | (simp only [shapeCast_self, LaneLib.step]; first | done | rfl)

theorem k1_pay106_nf (v415 : Vec F S1x16 .f32) :
    k1_pay106 v415 = shapeCast S16 v415 shapeCasts_S1x16_S16 := by
  unfold k1_pay106
  first | rfl | (simp only [k1_pay105_nf, shapeCast_self, LaneLib.step]; first | done | rfl)

theorem k1_pay107_nf (v415 : Vec F S1x16 .f32) :
    k1_pay107 v415 = shapeCast S16 v415 shapeCasts_S1x16_S16 := by
  unfold k1_pay107
  first | rfl | (simp only [k1_pay105_nf, shapeCast_self, LaneLib.step]; first | done | rfl)

theorem k1_pay108_nf (v227 : IVec S16 32) (v405 : FVec F S16 .f32) (v429 : Vec F S16 .f32) :
    k1_pay108 v227 v405 v429 = LaneLib.step v227 5#32 v405 v429 := by
  unfold k1_pay108
  first | rfl | (simp only [shapeCast_self, LaneLib.step]; first | done | rfl)

theorem k1_pay109_nf (v257 : IVec S16 32) :
    k1_pay109 v257 = extractStridedSlice S1 ![6] v257 slices_S16_o6_S1 := by
  unfold k1_pay109
  first | rfl | (simp only [shapeCast_self, LaneLib.step]; first | done | rfl)

theorem k1_pay110_nf (v444 : Vec F S1x16 .f32) :
    k1_pay110 v444 = shapeCast S16 v444 shapeCasts_S1x16_S16 := by
  unfold k1_pay110
  first | rfl | (simp only [shapeCast_self, LaneLib.step]; first | done | rfl)

theorem k1_pay111_nf (v444 : Vec F S1x16 .f32) :
    k1_pay111 v444 = shapeCast S16 v444 shapeCasts_S1x16_S16 := by
  unfold k1_pay111
  first | rfl | (simp only [k1_pay110_nf, shapeCast_self, LaneLib.step]; first | done | rfl)

theorem k1_pay112_nf (v445 : FVec F S16 .f32) :
    k1_pay112 v445 = v445 := by
  unfold k1_pay112
  first | rfl | (simp only [shapeCast_self, LaneLib.step]; first | done | rfl)

theorem k1_pay113_nf (v227 : IVec S16 32) (v434 : FVec F S16 .f32) (v458 : Vec F S16 .f32) :
    k1_pay113 v227 v434 v458 = LaneLib.step v227 6#32 v434 v458 := by
  unfold k1_pay113
  first | rfl | (simp only [shapeCast_self, LaneLib.step]; first | done | rfl)

theorem k1_pay114_nf (v257 : IVec S16 32) :
    k1_pay114 v257 = extractStridedSlice S1 ![7] v257 slices_S16_o7_S1 := by
  unfold k1_pay114
  first | rfl | (simp only [shapeCast_self, LaneLib.step]; first | done | rfl)

theorem k1_pay115_nf (v473 : Vec F S1x16 .f32) :
    k1_pay115 v473 = shapeCast S16 v473 shapeCasts_S1x16_S16 := by
  unfold k1_pay115
  first | rfl | (simp only [shapeCast_self, LaneLib.step]; first | done | rfl)

theorem k1_pay116_nf (v473 : Vec F S1x16 .f32) :
    k1_pay116 v473 = shapeCast S16 v473 shapeCasts_S1x16_S16 := by
  unfold k1_pay116
  first | rfl | (simp only [k1_pay115_nf, shapeCast_self, LaneLib.step]; first | done | rfl)

theorem k1_pay117_nf (v473 : Vec F S1x16 .f32) :
    k1_pay117 v473 = shapeCast S16 v473 shapeCasts_S1x16_S16 := by
  unfold k1_pay117
  first | rfl | (simp only [k1_pay115_nf, shapeCast_self, LaneLib.step]; first | done | rfl)

theorem k1_pay118_nf (v487 : Vec F S16 .f32) :
    k1_pay118 v487 = v487 := by
  unfold k1_pay118
  first | rfl | (simp only [shapeCast_self, LaneLib.step]; first | done | rfl)

theorem k1_pay119_nf (v257 : IVec S16 32) :
    k1_pay119 v257 = extractStridedSlice S1 ![8] v257 slices_S16_o8_S1 := by
  unfold k1_pay119
  first | rfl | (simp only [shapeCast_self, LaneLib.step]; first | done | rfl)

theorem k1_pay120_nf (v502 : Vec F S1x16 .f32) :
    k1_pay120 v502 = shapeCast S16 v502 shapeCasts_S1x16_S16 := by
  unfold k1_pay120
  first | rfl | (simp only [shapeCast_self, LaneLib.step]; first | done | rfl)

theorem k1_pay121_nf (v502 : Vec F S1x16 .f32) :
    k1_pay121 v502 = shapeCast S16 v502 shapeCasts_S1x16_S16 := by
  unfold k1_pay121
  first | rfl | (simp only [k1_pay120_nf, shapeCast_self, LaneLib.step]; first | done | rfl)

theorem k1_pay122_nf (v502 : Vec F S1x16 .f32) :
    k1_pay122 v502 = shapeCast S16 v502 shapeCasts_S1x16_S16 := by
  unfold k1_pay122
  first | rfl | (simp only [k1_pay120_nf, shapeCast_self, LaneLib.step]; first | done | rfl)

theorem k1_pay123_nf (v227 : IVec S16 32) (v463 : FVec F S16 .f32) (v488 : FVec F S16 .f32) (c7_i32_184 : BitVec 32) (v516 : Vec F S16 .f32) :
    k1_pay123 v227 v463 v488 c7_i32_184 v516 = LaneLib.step v227 8#32 (LaneLib.step v227 c7_i32_184 v463 v488) v516 := by
  unfold k1_pay123
  first | rfl | (simp only [shapeCast_self, LaneLib.step]; first | done | rfl)

theorem k1_pay124_nf (v257 : IVec S16 32) :
    k1_pay124 v257 = extractStridedSlice S1 ![9] v257 slices_S16_o9_S1 := by
  unfold k1_pay124
  first | rfl | (simp only [shapeCast_self, LaneLib.step]; first | done | rfl)

theorem k1_pay125_nf (v531 : Vec F S1x16 .f32) :
    k1_pay125 v531 = shapeCast S16 v531 shapeCasts_S1x16_S16 := by
  unfold k1_pay125
  first | rfl | (simp only [shapeCast_self, LaneLib.step]; first | done | rfl)

theorem k1_pay126_nf (v531 : Vec F S1x16 .f32) :
    k1_pay126 v531 = shapeCast S16 v531 shapeCasts_S1x16_S16 := by
  unfold k1_pay126
  first | rfl | (simp only [k1_pay125_nf, shapeCast_self, LaneLib.step]; first | done | rfl)

theorem k1_pay127_nf (v531 : Vec F S1x16 .f32) :
    k1_pay127 v531 = shapeCast S16 v531 shapeCasts_S1x16_S16 := by
  unfold k1_pay127
  first | rfl | (simp only [k1_pay125_nf, shapeCast_self, LaneLib.step]; first | done | rfl)

theorem k1_pay128_nf (v227 : IVec S16 32) (v521 : FVec F S16 .f32) (v545 : Vec F S16 .f32) :
    k1_pay128 v227 v521 v545 = LaneLib.step v227 9#32 v521 v545 := by
  unfold k1_pay128
  first | rfl | (simp only [shapeCast_self, LaneLib.step]; first | done | rfl)

theorem k1_pay129_nf (v257 : IVec S16 32) :
    k1_pay129 v257 = extractStridedSlice S1 ![10] v257 slices_S16_o10_S1 := by
  unfold k1_pay129
  first | rfl | (simp only [shapeCast_self, LaneLib.step]; first | done | rfl)

theorem k1_pay130_nf (v560 : Vec F S1x16 .f32) :
    k1_pay130 v560 = shapeCast S16 v560 shapeCasts_S1x16_S16 := by
  unfold k1_pay130
  first | rfl | (simp only [shapeCast_self, LaneLib.step]; first | done | rfl)

theorem k1_pay131_nf (v560 : Vec F S1x16 .f32) :
    k1_pay131 v560 = shapeCast S16 v560 shapeCasts_S1x16_S16 := by
  unfold k1_pay131
  first | rfl | (simp only [k1_pay130_nf, shapeCast_self, LaneLib.step]; first | done | rfl)

theorem k1_pay132_nf (v560 : Vec F S1x16 .f32) :
    k1_pay132 v560 = shapeCast S16 v560 shapeCasts_S1x16_S16 := by
  unfold k1_pay132
  first | rfl | (simp only [k1_pay130_nf, shapeCast_self, LaneLib.step]; first | done | rfl)

theorem k1_pay133_nf (v257 : IVec S16 32) :
    k1_pay133 v257 = extractStridedSlice S1 ![11] v257 slices_S16_o11_S1 := by
  unfold k1_pay133
  first | rfl | (simp only [shapeCast_self, LaneLib.step]; first | done | rfl)

theorem k1_pay134_nf (v589 : Vec F S1x16 .f32) :
    k1_pay134 v589 = shapeCast S16 v589 shapeCasts_S1x16_S16 := by
  unfold k1_pay134
  first | rfl | (simp only [shapeCast_self, LaneLib.step]; first | done | rfl)

theorem k1_pay135_nf (v589 : Vec F S1x16 .f32) :
    k1_pay135 v589 = shapeCast S16 v589 shapeCasts_S1x16_S16 := by
  unfold k1_pay135
  first | rfl | (simp only [k1_pay134_nf, shapeCast_self, LaneLib.step]; first | done | rfl)

theorem k1_pay136_nf (v589 : Vec F S1x16 .f32) :
    k1_pay136 v589 = shapeCast S16 v589 shapeCasts_S1x16_S16 := by
  unfold k1_pay136
  first | rfl | (simp only [k1_pay134_nf, shapeCast_self, LaneLib.step]; first | done | rfl)

theorem k1_pay137_nf (v227 : IVec S16 32) (v550 : FVec F S16 .f32) (v574 : Vec F S16 .f32) (v603 : Vec F S16 .f32) :
    k1_pay137 v227 v550 v574 v603 = LaneLib.step v227 11#32 (LaneLib.step v227 10#32 v550 v574) v603 := by
  unfold k1_pay137
  first | rfl | (simp only [shapeCast_self, LaneLib.step]; first | done | rfl)

theorem k1_pay138_nf (v257 : IVec S16 32) :
    k1_pay138 v257 = extractStridedSlice S1 ![12] v257 slices_S16_o12_S1 := by
  unfold k1_pay138
  first | rfl | (simp only [shapeCast_self, LaneLib.step]; first | done | rfl)

theorem k1_pay139_nf (v618 : Vec F S1x16 .f32) :
    k1_pay139 v618 = shapeCast S16 v618 shapeCasts_S1x16_S16 := by
  unfold k1_pay139
  first | rfl | (simp only [shapeCast_self, LaneLib.step]; first | done | rfl)

theorem k1_pay140_nf (v618 : Vec F S1x16 .f32) :
    k1_pay140 v618 = shapeCast S16 v618 shapeCasts_S1x16_S16 := by
  unfold k1_pay140
  first | rfl | (simp only [k1_pay139_nf, shapeCast_self, LaneLib.step]; first | done | rfl)

theorem k1_pay141_nf (v618 : Vec F S1x16 .f32) :
    k1_pay141 v618 = shapeCast S16 v618 shapeCasts_S1x16_S16 := by
  unfold k1_pay141
  first | rfl | (simp only [k1_pay139_nf, shapeCast_self, LaneLib.step]; first | done | rfl)

theorem k1_pay142_nf (v227 : IVec S16 32) (v608 : FVec F S16 .f32) (v632 : Vec F S16 .f32) :
    k1_pay142 v227 v608 v632 = LaneLib.step v227 12#32 v608 v632 := by
  unfold k1_pay142
  first | rfl | (simp only [shapeCast_self, LaneLib.step]; first | done | rfl)

theorem k1_pay143_nf (v257 : IVec S16 32) :
    k1_pay143 v257 = extractStridedSlice S1 ![13] v257 slices_S16_o13_S1 := by
  unfold k1_pay143
  first | rfl | (simp only [shapeCast_self, LaneLib.step]; first | done | rfl)

theorem k1_pay144_nf (v647 : Vec F S1x16 .f32) :
    k1_pay144 v647 = shapeCast S16 v647 shapeCasts_S1x16_S16 := by
  unfold k1_pay144
  first | rfl | (simp only [shapeCast_self, LaneLib.step]; first | done | rfl)

theorem k1_pay145_nf (v648 : FVec F S16 .f32) :
    k1_pay145 v648 = v648 := by
  unfold k1_pay145
  first | rfl | (simp only [shapeCast_self, LaneLib.step]; first | done | rfl)

theorem k1_pay146_nf (v648 : FVec F S16 .f32) :
    k1_pay146 v648 = v648 := by
  unfold k1_pay146
  first | rfl | (simp only [shapeCast_self, LaneLib.step]; first | done | rfl)

theorem k1_pay147_nf (v227 : IVec S16 32) (v637 : FVec F S16 .f32) (v661 : Vec F S16 .f32) :
    k1_pay147 v227 v637 v661 = LaneLib.step v227 13#32 v637 v661 := by
  unfold k1_pay147
  first | rfl | (simp only [shapeCast_self, LaneLib.step]; first | done | rfl)

theorem k1_pay148_nf (v257 : IVec S16 32) :
    k1_pay148 v257 = extractStridedSlice S1 ![14] v257 slices_S16_o14_S1 := by
  unfold k1_pay148
  first | rfl | (simp only [shapeCast_self, LaneLib.step]; first | done | rfl)

theorem k1_pay149_nf (v676 : Vec F S1x16 .f32) :
    k1_pay149 v676 = shapeCast S16 v676 shapeCasts_S1x16_S16 := by
  unfold k1_pay149
  first | rfl | (simp only [shapeCast_self, LaneLib.step]; first | done | rfl)

theorem k1_pay150_nf (v676 : Vec F S1x16 .f32) :
    k1_pay150 v676 = shapeCast S16 v676 shapeCasts_S1x16_S16 := by
  unfold k1_pay150
  first | rfl | (simp only [k1_pay149_nf, shapeCast_self, LaneLib.step]; first | done | rfl)

theorem k1_pay151_nf (v676 : Vec F S1x16 .f32) :
    k1_pay151 v676 = shapeCast S16 v676 shapeCasts_S1x16_S16 := by
  unfold k1_pay151
  first | rfl | (simp only [k1_pay149_nf, shapeCast_self, LaneLib.step]; first | done | rfl)

theorem k1_pay152_nf (v257 : IVec S16 32) :
    k1_pay152 v257 = extractStridedSlice S1 ![15] v257 slices_S16_o15_S1 := by
  unfold k1_pay152
  first | rfl | (simp only [shapeCast_self, LaneLib.step]; first | done | rfl)

theorem k1_pay153_nf (v705 : Vec F S1x16 .f32) :
    k1_pay153 v705 = shapeCast S16 v705 shapeCasts_S1x16_S16 := by
  unfold k1_pay153
  first | rfl | (simp only [shapeCast_self, LaneLib.step]; first | done | rfl)

theorem k1_pay154_nf (v705 : Vec F S1x16 .f32) :
    k1_pay154 v705 = shapeCast S16 v705 shapeCasts_S1x16_S16 := by
  unfold k1_pay154
  first | rfl | (simp only [k1_pay153_nf, shapeCast_self, LaneLib.step]; first | done | rfl)

theorem k1_pay155_nf (v705 : Vec F S1x16 .f32) :
    k1_pay155 v705 = shapeCast S16 v705 shapeCasts_S1x16_S16 := by
  unfold k1_pay155
  first | rfl | (simp only [k1_pay153_nf, shapeCast_self, LaneLib.step]; first | done | rfl)

theorem k1_pay156_nf (v227 : IVec S16 32) (v666 : FVec F S16 .f32) (v690 : Vec F S16 .f32) (v719 : Vec F S16 .f32) :
    k1_pay156 v227 v666 v690 v719 = LaneLib.step v227 15#32 (LaneLib.step v227 14#32 v666 v690) v719 := by
  unfold k1_pay156
  first | rfl | (simp only [shapeCast_self, LaneLib.step]; first | done | rfl)

theorem k1_pay157_nf (v256 : Vec F S16 .i32) :
    k1_pay157 v256 = v256 := by
  unfold k1_pay157
  first | rfl | (simp only [shapeCast_self, LaneLib.step]; first | done | rfl)

theorem k1_pay158_nf (v256 : Vec F S16 .i32) :
    k1_pay158 v256 = extractStridedSlice S1 ![0] v256 slices_S16_o0_S1 := by
  unfold k1_pay158
  first | rfl | (simp only [k1_pay157_nf, shapeCast_self, LaneLib.step]; first | done | rfl)

theorem k1_pay159_nf (v270 : Vec F S1x16 .f32) :
    k1_pay159 v270 = shapeCast S16 v270 shapeCasts_S1x16_S16 := by
  unfold k1_pay159
  first | rfl | (simp only [shapeCast_self, LaneLib.step]; first | done | rfl)

theorem k1_pay160_nf (v270 : Vec F S1x16 .f32) :
    k1_pay160 v270 = shapeCast S16 v270 shapeCasts_S1x16_S16 := by
  unfold k1_pay160
  first | rfl | (simp only [k1_pay159_nf, shapeCast_self, LaneLib.step]; first | done | rfl)

theorem k1_pay161_nf (v270 : Vec F S1x16 .f32) :
    k1_pay161 v270 = shapeCast S16 v270 shapeCasts_S1x16_S16 := by
  unfold k1_pay161
  first | rfl | (simp only [k1_pay159_nf, shapeCast_self, LaneLib.step]; first | done | rfl)

theorem k1_pay162_nf (v227 : IVec S16 32) (v259 : Vec F S16 .f32) (v284 : Vec F S16 .f32) :
    k1_pay162 v227 v259 v284 = LaneLib.step v227 0#32 v259 v284 := by
  unfold k1_pay162
  first | rfl | (simp only [shapeCast_self, LaneLib.step]; first | done | rfl)

theorem k1_pay163_nf (v257 : IVec S16 32) :
    k1_pay163 v257 = extractStridedSlice S1 ![1] v257 slices_S16_o1_S1 := by
  unfold k1_pay163
  first | rfl | (simp only [shapeCast_self, LaneLib.step]; first | done | rfl)

theorem k1_pay164_nf (v299 : Vec F S1x16 .f32) :
    k1_pay164 v299 = shapeCast S16 v299 shapeCasts_S1x16_S16 := by
  unfold k1_pay164
  first | rfl | (simp only [shapeCast_self, LaneLib.step]; first | done | rfl)

theorem k1_pay165_nf (v299 : Vec F S1x16 .f32) :
    k1_pay165 v299 = shapeCast S16 v299 shapeCasts_S1x16_S16 := by
  unfold k1_pay165
  first | rfl | (simp only [k1_pay164_nf, shapeCast_self, LaneLib.step]; first | done | rfl)

theorem k1_pay166_nf (v299 : Vec F S1x16 .f32) :
    k1_pay166 v299 = shapeCast S16 v299 shapeCasts_S1x16_S16 := by
  unfold k1_pay166
  first | rfl | (simp only [k1_pay164_nf, shapeCast_self, LaneLib.step]; first | done | rfl)

theorem k1_pay167_nf (v227 : IVec S16 32) (v289 : FVec F S16 .f32) (v313 : Vec F S16 .f32) :
    k1_pay167 v227 v289 v313 = LaneLib.step v227 1#32 v289 v313 := by
  unfold k1_pay167
  first | rfl | (simp only [shapeCast_self, LaneLib.step]; first | done | rfl)

theorem k1_pay168_nf (v257 : IVec S16 32) :
    k1_pay168 v257 = extractStridedSlice S1 ![2] v257 slices_S16_o2_S1 := by
  unfold k1_pay168
  first | rfl | (simp only [shapeCast_self, LaneLib.step]; first | done | rfl)

theorem k1_pay169_nf (v328 : Vec F S1x16 .f32) :
    k1_pay169 v328 = shapeCast S16 v328 shapeCasts_S1x16_S16 := by
  unfold k1_pay169
  first | rfl | (simp only [shapeCast_self, LaneLib.step]; first | done | rfl)

theorem k1_pay170_nf (v328 : Vec F S1x16 .f32) :
    k1_pay170 v328 = shapeCast S16 v328 shapeCasts_S1x16_S16 := by
  unfold k1_pay170
  first | rfl | (simp only [k1_pay169_nf, shapeCast_self, LaneLib.step]; first | done | rfl)

theorem k1_pay171_nf (v329 : FVec F S16 .f32) :
    k1_pay171 v329 = v329 := by
  unfold k1_pay171
  first | rfl | (simp only [shapeCast_self, LaneLib.step]; first | done | rfl)

theorem k1_pay172_nf (v227 : IVec S16 32) (v318 : FVec F S16 .f32) (v342 : Vec F S16 .f32) :
    k1_pay172 v227 v318 v342 = LaneLib.step v227 2#32 v318 v342 := by
  unfold k1_pay172
  first | rfl | (simp only [shapeCast_self, LaneLib.step]; first | done | rfl)

theorem k1_pay173_nf (v257 : IVec S16 32) :
    k1_pay173 v257 = extractStridedSlice S1 ![3] v257 slices_S16_o3_S1 := by
  unfold k1_pay173
  first | rfl | (simp only [shapeCast_self, LaneLib.step]; first | done | rfl)

theorem k1_pay174_nf (v357 : Vec F S1x16 .f32) :
    k1_pay174 v357 = shapeCast S16 v357 shapeCasts_S1x16_S16 := by
  unfold k1_pay174
  first | rfl | (simp only [shapeCast_self, LaneLib.step]; first | done | rfl)

theorem k1_pay175_nf (v357 : Vec F S1x16 .f32) :
    k1_pay175 v357 = shapeCast S16 v357 shapeCasts_S1x16_S16 := by
  unfold k1_pay175
  first | rfl | (simp only [k1_pay174_nf, shapeCast_self, LaneLib.step]; first | done | rfl)

theorem k1_pay176_nf (v357 : Vec F S1x16 .f32) :
    k1_pay176 v357 = shapeCast S16 v357 shapeCasts_S1x16_S16 := by
  unfold k1_pay176
  first | rfl | (simp only [k1_pay174_nf, shapeCast_self, LaneLib.step]; first | done | rfl)

theorem k1_pay177_nf (v257 : IVec S16 32) :
    k1_pay177 v257 = extractStridedSlice S1 ![4] v257 slices_S16_o4_S1 := by
  unfold k1_pay177
  first | rfl | (simp only [shapeCast_self, LaneLib.step]; first | done | rfl)

theorem k1_pay178_nf (v386 : Vec F S1x16 .f32) :
    k1_pay178 v386 = shapeCast S16 v386 shapeCasts_S1x16_S16 := by
  unfold k1_pay178
  first | rfl | (simp only [shapeCast_self, LaneLib.step]; first | done | rfl)

theorem k1_pay179_nf (v386 : Vec F S1x16 .f32) :
    k1_pay179 v386 = shapeCast S16 v386 shapeCasts_S1x16_S16 := by
  unfold k1_pay179
  first | rfl | (simp only [k1_pay178_nf, shapeCast_self, LaneLib.step]; first | done | rfl)

theorem k1_pay180_nf (v386 : Vec F S1x16 .f32) :
    k1_pay180 v386 = shapeCast S16 v386 shapeCasts_S1x16_S16 := by
  unfold k1_pay180
  first | rfl | (simp only [k1_pay178_nf, shapeCast_self, LaneLib.step]; first | done | rfl)

theorem k1_pay181_nf (v227 : IVec S16 32) (v347 : FVec F S16 .f32) (v371 : Vec F S16 .f32) (v400 : Vec F S16 .f32) :
    k1_pay181 v227 v347 v371 v400 = LaneLib.step v227 4#32 (LaneLib.step v227 3#32 v347 v371) v400 := by
  unfold k1_pay181
  first | rfl | (simp only [shapeCast_self, LaneLib.step]; first | done | rfl)

theorem k1_pay182_nf (v257 : IVec S16 32) :
    k1_pay182 v257 = extractStridedSlice S1 ![5] v257 slices_S16_o5_S1 := by
  unfold k1_pay182
  first | rfl | (simp only [shapeCast_self, LaneLib.step]; first | done | rfl)

theorem k1_pay183_nf (v415 : Vec F S1x16 .f32) :
    k1_pay183 v415 = shapeCast S16 v415 shapeCasts_S1x16_S16 := by
  unfold k1_pay183
  first | rfl | (simp only [shapeCast_self, LaneLib.step]; first | done | rfl)

theorem k1_pay184_nf (v415 : Vec F S1x16 .f32) :
    k1_pay184 v415 = shapeCast S16 v415 shapeCasts_S1x16_S16 := by
  unfold k1_pay184
  first | rfl | (simp only [k1_pay183_nf, shapeCast_self, LaneLib.step]; first | done | rfl)

theorem k1_pay185_nf (v415 : Vec F S1x16 .f32) :
    k1_pay185 v415 = shapeCast S16 v415 shapeCasts_S1x16_S16 := by
  unfold k1_pay185
  first | rfl | (simp only [k1_pay183_nf, shapeCast_self, LaneLib.step]; first | done | rfl)

theorem k1_pay186_nf (v227 : IVec S16 32) (v405 : FVec F S16 .f32) (v429 : Vec F S16 .f32) :
    k1_pay186 v227 v405 v429 = LaneLib.step v227 5#32 v405 v429 := by
  unfold k1_pay186
  first | rfl | (simp only [shapeCast_self, LaneLib.step]; first | done | rfl)

theorem k1_pay187_nf (v257 : IVec S16 32) :
    k1_pay187 v257 = extractStridedSlice S1 ![6] v257 slices_S16_o6_S1 := by
  unfold k1_pay187
  first | rfl | (simp only [shapeCast_self, LaneLib.step]; first | done | rfl)

theorem k1_pay188_nf (v444 : Vec F S1x16 .f32) :
    k1_pay188 v444 = shapeCast S16 v444 shapeCasts_S1x16_S16 := by
  unfold k1_pay188
  first | rfl | (simp only [shapeCast_self, LaneLib.step]; first | done | rfl)

theorem k1_pay189_nf (v444 : Vec F S1x16 .f32) :
    k1_pay189 v444 = shapeCast S16 v444 shapeCasts_S1x16_S16 := by
  unfold k1_pay189
  first | rfl | (simp only [k1_pay188_nf, shapeCast_self, LaneLib.step]; first | done | rfl)

theorem k1_pay190_nf (v445 : FVec F S16 .f32) :
    k1_pay190 v445 = v445 := by
  unfold k1_pay190
  first | rfl | (simp only [shapeCast_self, LaneLib.step]; first | done | rfl)

theorem k1_pay191_nf (v227 : IVec S16 32) (v434 : FVec F S16 .f32) (v458 : Vec F S16 .f32) :
    k1_pay191 v227 v434 v458 = LaneLib.step v227 6#32 v434 v458 := by
  unfold k1_pay191
  first | rfl | (simp only [shapeCast_self, LaneLib.step]; first | done | rfl)

theorem k1_pay192_nf (v257 : IVec S16 32) :
    k1_pay192 v257 = extractStridedSlice S1 ![7] v257 slices_S16_o7_S1 := by
  unfold k1_pay192
  first | rfl | (simp only [shapeCast_self, LaneLib.step]; first | done | rfl)

theorem k1_pay193_nf (v473 : Vec F S1x16 .f32) :
    k1_pay193 v473 = shapeCast S16 v473 shapeCasts_S1x16_S16 := by
  unfold k1_pay193
  first | rfl | (simp only [shapeCast_self, LaneLib.step]; first | done | rfl)

theorem k1_pay194_nf (v473 : Vec F S1x16 .f32) :
    k1_pay194 v473 = shapeCast S16 v473 shapeCasts_S1x16_S16 := by
  unfold k1_pay194
  first | rfl | (simp only [k1_pay193_nf, shapeCast_self, LaneLib.step]; first | done | rfl)

theorem k1_pay195_nf (v473 : Vec F S1x16 .f32) :
    k1_pay195 v473 = shapeCast S16 v473 shapeCasts_S1x16_S16 := by
  unfold k1_pay195
  first | rfl | (simp only [k1_pay193_nf, shapeCast_self, LaneLib.step]; first | done | rfl)

theorem k1_pay196_nf (v487 : Vec F S16 .f32) :
    k1_pay196 v487 = v487 := by
  unfold k1_pay196
  first | rfl | (simp only [shapeCast_self, LaneLib.step]; first | done | rfl)

theorem k1_pay197_nf (v257 : IVec S16 32) :
    k1_pay197 v257 = extractStridedSlice S1 ![8] v257 slices_S16_o8_S1 := by
  unfold k1_pay197
  first | rfl | (simp only [shapeCast_self, LaneLib.step]; first | done | rfl)

theorem k1_pay198_nf (v502 : Vec F S1x16 .f32) :
    k1_pay198 v502 = shapeCast S16 v502 shapeCasts_S1x16_S16 := by
  unfold k1_pay198
  first | rfl | (simp only [shapeCast_self, LaneLib.step]; first | done | rfl)

theorem k1_pay199_nf (v502 : Vec F S1x16 .f32) :
    k1_pay199 v502 = shapeCast S16 v502 shapeCasts_S1x16_S16 := by
  unfold k1_pay199
  first | rfl | (simp only [k1_pay198_nf, shapeCast_self, LaneLib.step]; first | done | rfl)

theorem k1_pay200_nf (v502 : Vec F S1x16 .f32) :
    k1_pay200 v502 = shapeCast S16 v502 shapeCasts_S1x16_S16 := by
  unfold k1_pay200
  first | rfl | (simp only [k1_pay198_nf, shapeCast_self, LaneLib.step]; first | done | rfl)

theorem k1_pay201_nf (v227 : IVec S16 32) (v463 : FVec F S16 .f32) (v488 : FVec F S16 .f32) (c7_i32_184 : BitVec 32) (v516 : Vec F S16 .f32) :
    k1_pay201 v227 v463 v488 c7_i32_184 v516 = LaneLib.step v227 8#32 (LaneLib.step v227 c7_i32_184 v463 v488) v516 := by
  unfold k1_pay201
  first | rfl | (simp only [shapeCast_self, LaneLib.step]; first | done | rfl)

theorem k1_pay202_nf (v257 : IVec S16 32) :
    k1_pay202 v257 = extractStridedSlice S1 ![9] v257 slices_S16_o9_S1 := by
  unfold k1_pay202
  first | rfl | (simp only [shapeCast_self, LaneLib.step]; first | done | rfl)

theorem k1_pay203_nf (v531 : Vec F S1x16 .f32) :
    k1_pay203 v531 = shapeCast S16 v531 shapeCasts_S1x16_S16 := by
  unfold k1_pay203
  first | rfl | (simp only [shapeCast_self, LaneLib.step]; first | done | rfl)

theorem k1_pay204_nf (v531 : Vec F S1x16 .f32) :
    k1_pay204 v531 = shapeCast S16 v531 shapeCasts_S1x16_S16 := by
  unfold k1_pay204
  first | rfl | (simp only [k1_pay203_nf, shapeCast_self, LaneLib.step]; first | done | rfl)

theorem k1_pay205_nf (v531 : Vec F S1x16 .f32) :
    k1_pay205 v531 = shapeCast S16 v531 shapeCasts_S1x16_S16 := by
  unfold k1_pay205
  first | rfl | (simp only [k1_pay203_nf, shapeCast_self, LaneLib.step]; first | done | rfl)

theorem k1_pay206_nf (v227 : IVec S16 32) (v521 : FVec F S16 .f32) (v545 : Vec F S16 .f32) :
    k1_pay206 v227 v521 v545 = LaneLib.step v227 9#32 v521 v545 := by
  unfold k1_pay206
  first | rfl | (simp only [shapeCast_self, LaneLib.step]; first | done | rfl)

theorem k1_pay207_nf (v257 : IVec S16 32) :
    k1_pay207 v257 = extractStridedSlice S1 ![10] v257 slices_S16_o10_S1 := by
  unfold k1_pay207
  first | rfl | (simp only [shapeCast_self, LaneLib.step]; first | done | rfl)

theorem k1_pay208_nf (v560 : Vec F S1x16 .f32) :
    k1_pay208 v560 = shapeCast S16 v560 shapeCasts_S1x16_S16 := by
  unfold k1_pay208
  first | rfl | (simp only [shapeCast_self, LaneLib.step]; first | done | rfl)

theorem k1_pay209_nf (v560 : Vec F S1x16 .f32) :
    k1_pay209 v560 = shapeCast S16 v560 shapeCasts_S1x16_S16 := by
  unfold k1_pay209
  first | rfl | (simp only [k1_pay208_nf, shapeCast_self, LaneLib.step]; first | done | rfl)

theorem k1_pay210_nf (v560 : Vec F S1x16 .f32) :
    k1_pay210 v560 = shapeCast S16 v560 shapeCasts_S1x16_S16 := by
  unfold k1_pay210
  first | rfl | (simp only [k1_pay208_nf, shapeCast_self, LaneLib.step]; first | done | rfl)

theorem k1_pay211_nf (v257 : IVec S16 32) :
    k1_pay211 v257 = extractStridedSlice S1 ![11] v257 slices_S16_o11_S1 := by
  unfold k1_pay211
  first | rfl | (simp only [shapeCast_self, LaneLib.step]; first | done | rfl)

theorem k1_pay212_nf (v589 : Vec F S1x16 .f32) :
    k1_pay212 v589 = shapeCast S16 v589 shapeCasts_S1x16_S16 := by
  unfold k1_pay212
  first | rfl | (simp only [shapeCast_self, LaneLib.step]; first | done | rfl)

theorem k1_pay213_nf (v589 : Vec F S1x16 .f32) :
    k1_pay213 v589 = shapeCast S16 v589 shapeCasts_S1x16_S16 := by
  unfold k1_pay213
  first | rfl | (simp only [k1_pay212_nf, shapeCast_self, LaneLib.step]; first | done | rfl)

theorem k1_pay214_nf (v589 : Vec F S1x16 .f32) :
    k1_pay214 v589 = shapeCast S16 v589 shapeCasts_S1x16_S16 := by
  unfold k1_pay214
  first | rfl | (simp only [k1_pay212_nf, shapeCast_self, LaneLib.step]; first | done | rfl)

theorem k1_pay215_nf (v227 : IVec S16 32) (v550 : FVec F S16 .f32) (v574 : Vec F S16 .f32) (v603 : Vec F S16 .f32) :
    k1_pay215 v227 v550 v574 v603 = LaneLib.step v227 11#32 (LaneLib.step v227 10#32 v550 v574) v603 := by
  unfold k1_pay215
  first | rfl | (simp only [shapeCast_self, LaneLib.step]; first | done | rfl)

theorem k1_pay216_nf (v257 : IVec S16 32) :
    k1_pay216 v257 = extractStridedSlice S1 ![12] v257 slices_S16_o12_S1 := by
  unfold k1_pay216
  first | rfl | (simp only [shapeCast_self, LaneLib.step]; first | done | rfl)

theorem k1_pay217_nf (v618 : Vec F S1x16 .f32) :
    k1_pay217 v618 = shapeCast S16 v618 shapeCasts_S1x16_S16 := by
  unfold k1_pay217
  first | rfl | (simp only [shapeCast_self, LaneLib.step]; first | done | rfl)

theorem k1_pay218_nf (v618 : Vec F S1x16 .f32) :
    k1_pay218 v618 = shapeCast S16 v618 shapeCasts_S1x16_S16 := by
  unfold k1_pay218
  first | rfl | (simp only [k1_pay217_nf, shapeCast_self, LaneLib.step]; first | done | rfl)

theorem k1_pay219_nf (v618 : Vec F S1x16 .f32) :
    k1_pay219 v618 = shapeCast S16 v618 shapeCasts_S1x16_S16 := by
  unfold k1_pay219
  first | rfl | (simp only [k1_pay217_nf, shapeCast_self, LaneLib.step]; first | done | rfl)

theorem k1_pay220_nf (v227 : IVec S16 32) (v608 : FVec F S16 .f32) (v632 : Vec F S16 .f32) :
    k1_pay220 v227 v608 v632 = LaneLib.step v227 12#32 v608 v632 := by
  unfold k1_pay220
  first | rfl | (simp only [shapeCast_self, LaneLib.step]; first | done | rfl)

theorem k1_pay221_nf (v257 : IVec S16 32) :
    k1_pay221 v257 = extractStridedSlice S1 ![13] v257 slices_S16_o13_S1 := by
  unfold k1_pay221
  first | rfl | (simp only [shapeCast_self, LaneLib.step]; first | done | rfl)

theorem k1_pay222_nf (v647 : Vec F S1x16 .f32) :
    k1_pay222 v647 = shapeCast S16 v647 shapeCasts_S1x16_S16 := by
  unfold k1_pay222
  first | rfl | (simp only [shapeCast_self, LaneLib.step]; first | done | rfl)

theorem k1_pay223_nf (v648 : FVec F S16 .f32) :
    k1_pay223 v648 = v648 := by
  unfold k1_pay223
  first | rfl | (simp only [shapeCast_self, LaneLib.step]; first | done | rfl)

theorem k1_pay224_nf (v648 : FVec F S16 .f32) :
    k1_pay224 v648 = v648 := by
  unfold k1_pay224
  first | rfl | (simp only [shapeCast_self, LaneLib.step]; first | done | rfl)

theorem k1_pay225_nf (v227 : IVec S16 32) (v637 : FVec F S16 .f32) (v661 : Vec F S16 .f32) :
    k1_pay225 v227 v637 v661 = LaneLib.step v227 13#32 v637 v661 := by
  unfold k1_pay225
  first | rfl | (simp only [shapeCast_self, LaneLib.step]; first | done | rfl)

theorem k1_pay226_nf (v257 : IVec S16 32) :
    k1_pay226 v257 = extractStridedSlice S1 ![14] v257 slices_S16_o14_S1 := by
  unfold k1_pay226
  first | rfl | (simp only [shapeCast_self, LaneLib.step]; first | done | rfl)

theorem k1_pay227_nf (v676 : Vec F S1x16 .f32) :
    k1_pay227 v676 = shapeCast S16 v676 shapeCasts_S1x16_S16 := by
  unfold k1_pay227
  first | rfl | (simp only [shapeCast_self, LaneLib.step]; first | done | rfl)

theorem k1_pay228_nf (v676 : Vec F S1x16 .f32) :
    k1_pay228 v676 = shapeCast S16 v676 shapeCasts_S1x16_S16 := by
  unfold k1_pay228
  first | rfl | (simp only [k1_pay227_nf, shapeCast_self, LaneLib.step]; first | done | rfl)

theorem k1_pay229_nf (v676 : Vec F S1x16 .f32) :
    k1_pay229 v676 = shapeCast S16 v676 shapeCasts_S1x16_S16 := by
  unfold k1_pay229
  first | rfl | (simp only [k1_pay227_nf, shapeCast_self, LaneLib.step]; first | done | rfl)

theorem k1_pay230_nf (v257 : IVec S16 32) :
    k1_pay230 v257 = extractStridedSlice S1 ![15] v257 slices_S16_o15_S1 := by
  unfold k1_pay230
  first | rfl | (simp only [shapeCast_self, LaneLib.step]; first | done | rfl)

theorem k1_pay231_nf (v705 : Vec F S1x16 .f32) :
    k1_pay231 v705 = shapeCast S16 v705 shapeCasts_S1x16_S16 := by
  unfold k1_pay231
  first | rfl | (simp only [shapeCast_self, LaneLib.step]; first | done | rfl)

theorem k1_pay232_nf (v705 : Vec F S1x16 .f32) :
    k1_pay232 v705 = shapeCast S16 v705 shapeCasts_S1x16_S16 := by
  unfold k1_pay232
  first | rfl | (simp only [k1_pay231_nf, shapeCast_self, LaneLib.step]; first | done | rfl)

theorem k1_pay233_nf (v705 : Vec F S1x16 .f32) :
    k1_pay233 v705 = shapeCast S16 v705 shapeCasts_S1x16_S16 := by
  unfold k1_pay233
  first | rfl | (simp only [k1_pay231_nf, shapeCast_self, LaneLib.step]; first | done | rfl)

theorem k1_pay234_nf (v227 : IVec S16 32) (v666 : FVec F S16 .f32) (v690 : Vec F S16 .f32) (v719 : Vec F S16 .f32) :
    k1_pay234 v227 v666 v690 v719 = LaneLib.step v227 15#32 (LaneLib.step v227 14#32 v666 v690) v719 := by
  unfold k1_pay234
  first | rfl | (simp only [shapeCast_self, LaneLib.step]; first | done | rfl)

theorem k1_pay235_nf (v256 : Vec F S16 .i32) :
    k1_pay235 v256 = v256 := by
  unfold k1_pay235
  first | rfl | (simp only [shapeCast_self, LaneLib.step]; first | done | rfl)

theorem k1_pay236_nf (v256 : Vec F S16 .i32) :
    k1_pay236 v256 = extractStridedSlice S1 ![0] v256 slices_S16_o0_S1 := by
  unfold k1_pay236
  first | rfl | (simp only [k1_pay235_nf, shapeCast_self, LaneLib.step]; first | done | rfl)

theorem k1_pay237_nf (v270 : Vec F S1x16 .f32) :
    k1_pay237 v270 = shapeCast S16 v270 shapeCasts_S1x16_S16 := by
  unfold k1_pay237
  first | rfl | (simp only [shapeCast_self, LaneLib.step]; first | done | rfl)

theorem k1_pay238_nf (v270 : Vec F S1x16 .f32) :
    k1_pay238 v270 = shapeCast S16 v270 shapeCasts_S1x16_S16 := by
  unfold k1_pay238
  first | rfl | (simp only [k1_pay237_nf, shapeCast_self, LaneLib.step]; first | done | rfl)

theorem k1_pay239_nf (v270 : Vec F S1x16 .f32) :
    k1_pay239 v270 = shapeCast S16 v270 shapeCasts_S1x16_S16 := by
  unfold k1_pay239
  first | rfl | (simp only [k1_pay237_nf, shapeCast_self, LaneLib.step]; first | done | rfl)

theorem k1_pay240_nf (v227 : IVec S16 32) (v259 : Vec F S16 .f32) (v284 : Vec F S16 .f32) :
    k1_pay240 v227 v259 v284 = LaneLib.step v227 0#32 v259 v284 := by
  unfold k1_pay240
  first | rfl | (simp only [shapeCast_self, LaneLib.step]; first | done | rfl)

theorem k1_pay241_nf (v257 : IVec S16 32) :
    k1_pay241 v257 = extractStridedSlice S1 ![1] v257 slices_S16_o1_S1 := by
  unfold k1_pay241
  first | rfl | (simp only [shapeCast_self, LaneLib.step]; first | done | rfl)

theorem k1_pay242_nf (v299 : Vec F S1x16 .f32) :
    k1_pay242 v299 = shapeCast S16 v299 shapeCasts_S1x16_S16 := by
  unfold k1_pay242
  first | rfl | (simp only [shapeCast_self, LaneLib.step]; first | done | rfl)

theorem k1_pay243_nf (v299 : Vec F S1x16 .f32) :
    k1_pay243 v299 = shapeCast S16 v299 shapeCasts_S1x16_S16 := by
  unfold k1_pay243
  first | rfl | (simp only [k1_pay242_nf, shapeCast_self, LaneLib.step]; first | done | rfl)

theorem k1_pay244_nf (v299 : Vec F S1x16 .f32) :
    k1_pay244 v299 = shapeCast S16 v299 shapeCasts_S1x16_S16 := by
  unfold k1_pay244
  first | rfl | (simp only [k1_pay242_nf, shapeCast_self, LaneLib.step]; first | done | rfl)

theorem k1_pay245_nf (v227 : IVec S16 32) (v289 : FVec F S16 .f32) (v313 : Vec F S16 .f32) :
    k1_pay245 v227 v289 v313 = LaneLib.step v227 1#32 v289 v313 := by
  unfold k1_pay245
  first | rfl | (simp only [shapeCast_self, LaneLib.step]; first | done | rfl)

theorem k1_pay246_nf (v257 : IVec S16 32) :
    k1_pay246 v257 = extractStridedSlice S1 ![2] v257 slices_S16_o2_S1 := by
  unfold k1_pay246
  first | rfl | (simp only [shapeCast_self, LaneLib.step]; first | done | rfl)

theorem k1_pay247_nf (v328 : Vec F S1x16 .f32) :
    k1_pay247 v328 = shapeCast S16 v328 shapeCasts_S1x16_S16 := by
  unfold k1_pay247
  first | rfl | (simp only [shapeCast_self, LaneLib.step]; first | done | rfl)

theorem k1_pay248_nf (v328 : Vec F S1x16 .f32) :
    k1_pay248 v328 = shapeCast S16 v328 shapeCasts_S1x16_S16 := by
  unfold k1_pay248
  first | rfl | (simp only [k1_pay247_nf, shapeCast_self, LaneLib.step]; first | done | rfl)

theorem k1_pay249_nf (v329 : FVec F S16 .f32) :
    k1_pay249 v329 = v329 := by
  unfold k1_pay249
  first | rfl | (simp only [shapeCast_self, LaneLib.step]; first | done | rfl)

theorem k1_pay250_nf (v227 : IVec S16 32) (v318 : FVec F S16 .f32) (v342 : Vec F S16 .f32) :
    k1_pay250 v227 v318 v342 = LaneLib.step v227 2#32 v318 v342 := by
  unfold k1_pay250
  first | rfl | (simp only [shapeCast_self, LaneLib.step]; first | done | rfl)

theorem k1_pay251_nf (v257 : IVec S16 32) :
    k1_pay251 v257 = extractStridedSlice S1 ![3] v257 slices_S16_o3_S1 := by
  unfold k1_pay251
  first | rfl | (simp only [shapeCast_self, LaneLib.step]; first | done | rfl)

theorem k1_pay252_nf (v357 : Vec F S1x16 .f32) :
    k1_pay252 v357 = shapeCast S16 v357 shapeCasts_S1x16_S16 := by
  unfold k1_pay252
  first | rfl | (simp only [shapeCast_self, LaneLib.step]; first | done | rfl)

theorem k1_pay253_nf (v357 : Vec F S1x16 .f32) :
    k1_pay253 v357 = shapeCast S16 v357 shapeCasts_S1x16_S16 := by
  unfold k1_pay253
  first | rfl | (simp only [k1_pay252_nf, shapeCast_self, LaneLib.step]; first | done | rfl)

theorem k1_pay254_nf (v357 : Vec F S1x16 .f32) :
    k1_pay254 v357 = shapeCast S16 v357 shapeCasts_S1x16_S16 := by
  unfold k1_pay254
  first | rfl | (simp only [k1_pay252_nf, shapeCast_self, LaneLib.step]; first | done | rfl)

theorem k1_pay255_nf (v257 : IVec S16 32) :
    k1_pay255 v257 = extractStridedSlice S1 ![4] v257 slices_S16_o4_S1 := by
  unfold k1_pay255
  first | rfl | (simp only [shapeCast_self, LaneLib.step]; first | done | rfl)

theorem k1_pay256_nf (v386 : Vec F S1x16 .f32) :
    k1_pay256 v386 = shapeCast S16 v386 shapeCasts_S1x16_S16 := by
  unfold k1_pay256
  first | rfl | (simp only [shapeCast_self, LaneLib.step]; first | done | rfl)

theorem k1_pay257_nf (v386 : Vec F S1x16 .f32) :
    k1_pay257 v386 = shapeCast S16 v386 shapeCasts_S1x16_S16 := by
  unfold k1_pay257
  first | rfl | (simp only [k1_pay256_nf, shapeCast_self, LaneLib.step]; first | done | rfl)

theorem k1_pay258_nf (v386 : Vec F S1x16 .f32) :
    k1_pay258 v386 = shapeCast S16 v386 shapeCasts_S1x16_S16 := by
  unfold k1_pay258
  first | rfl | (simp only [k1_pay256_nf, shapeCast_self, LaneLib.step]; first | done | rfl)

theorem k1_pay259_nf (v227 : IVec S16 32) (v347 : FVec F S16 .f32) (v371 : Vec F S16 .f32) (v400 : Vec F S16 .f32) :
    k1_pay259 v227 v347 v371 v400 = LaneLib.step v227 4#32 (LaneLib.step v227 3#32 v347 v371) v400 := by
  unfold k1_pay259
  first | rfl | (simp only [shapeCast_self, LaneLib.step]; first | done | rfl)

theorem k1_pay260_nf (v257 : IVec S16 32) :
    k1_pay260 v257 = extractStridedSlice S1 ![5] v257 slices_S16_o5_S1 := by
  unfold k1_pay260
  first | rfl | (simp only [shapeCast_self, LaneLib.step]; first | done | rfl)

theorem k1_pay261_nf (v415 : Vec F S1x16 .f32) :
    k1_pay261 v415 = shapeCast S16 v415 shapeCasts_S1x16_S16 := by
  unfold k1_pay261
  first | rfl | (simp only [shapeCast_self, LaneLib.step]; first | done | rfl)

theorem k1_pay262_nf (v415 : Vec F S1x16 .f32) :
    k1_pay262 v415 = shapeCast S16 v415 shapeCasts_S1x16_S16 := by
  unfold k1_pay262
  first | rfl | (simp only [k1_pay261_nf, shapeCast_self, LaneLib.step]; first | done | rfl)

theorem k1_pay263_nf (v415 : Vec F S1x16 .f32) :
    k1_pay263 v415 = shapeCast S16 v415 shapeCasts_S1x16_S16 := by
  unfold k1_pay263
  first | rfl | (simp only [k1_pay261_nf, shapeCast_self, LaneLib.step]; first | done | rfl)

theorem k1_pay264_nf (v227 : IVec S16 32) (v405 : FVec F S16 .f32) (v429 : Vec F S16 .f32) :
    k1_pay264 v227 v405 v429 = LaneLib.step v227 5#32 v405 v429 := by
  unfold k1_pay264
  first | rfl | (simp only [shapeCast_self, LaneLib.step]; first | done | rfl)

theorem k1_pay265_nf (v257 : IVec S16 32) :
    k1_pay265 v257 = extractStridedSlice S1 ![6] v257 slices_S16_o6_S1 := by
  unfold k1_pay265
  first | rfl | (simp only [shapeCast_self, LaneLib.step]; first | done | rfl)

theorem k1_pay266_nf (v444 : Vec F S1x16 .f32) :
    k1_pay266 v444 = shapeCast S16 v444 shapeCasts_S1x16_S16 := by
  unfold k1_pay266
  first | rfl | (simp only [shapeCast_self, LaneLib.step]; first | done | rfl)

theorem k1_pay267_nf (v444 : Vec F S1x16 .f32) :
    k1_pay267 v444 = shapeCast S16 v444 shapeCasts_S1x16_S16 := by
  unfold k1_pay267
  first | rfl | (simp only [k1_pay266_nf, shapeCast_self, LaneLib.step]; first | done | rfl)

theorem k1_pay268_nf (v445 : FVec F S16 .f32) :
    k1_pay268 v445 = v445 := by
  unfold k1_pay268
  first | rfl | (simp only [shapeCast_self, LaneLib.step]; first | done | rfl)

theorem k1_pay269_nf (v227 : IVec S16 32) (v434 : FVec F S16 .f32) (v458 : Vec F S16 .f32) :
    k1_pay269 v227 v434 v458 = LaneLib.step v227 6#32 v434 v458 := by
  unfold k1_pay269
  first | rfl | (simp only [shapeCast_self, LaneLib.step]; first | done | rfl)

theorem k1_pay270_nf (v257 : IVec S16 32) :
    k1_pay270 v257 = extractStridedSlice S1 ![7] v257 slices_S16_o7_S1 := by
  unfold k1_pay270
  first | rfl | (simp only [shapeCast_self, LaneLib.step]; first | done | rfl)

theorem k1_pay271_nf (v473 : Vec F S1x16 .f32) :
    k1_pay271 v473 = shapeCast S16 v473 shapeCasts_S1x16_S16 := by
  unfold k1_pay271
  first | rfl | (simp only [shapeCast_self, LaneLib.step]; first | done | rfl)

theorem k1_pay272_nf (v473 : Vec F S1x16 .f32) :
    k1_pay272 v473 = shapeCast S16 v473 shapeCasts_S1x16_S16 := by
  unfold k1_pay272
  first | rfl | (simp only [k1_pay271_nf, shapeCast_self, LaneLib.step]; first | done | rfl)

theorem k1_pay273_nf (v473 : Vec F S1x16 .f32) :
    k1_pay273 v473 = shapeCast S16 v473 shapeCasts_S1x16_S16 := by
  unfold k1_pay273
  first | rfl | (simp only [k1_pay271_nf, shapeCast_self, LaneLib.step]; first | done | rfl)

theorem k1_pay274_nf (v487 : Vec F S16 .f32) :
    k1_pay274 v487 = v487 := by
  unfold k1_pay274
  first | rfl | (simp only [shapeCast_self, LaneLib.step]; first | done | rfl)

theorem k1_pay275_nf (v257 : IVec S16 32) :
    k1_pay275 v257 = extractStridedSlice S1 ![8] v257 slices_S16_o8_S1 := by
  unfold k1_pay275
  first | rfl | (simp only [shapeCast_self, LaneLib.step]; first | done | rfl)

theorem k1_pay276_nf (v502 : Vec F S1x16 .f32) :
    k1_pay276 v502 = shapeCast S16 v502 shapeCasts_S1x16_S16 := by
  unfold k1_pay276
  first | rfl | (simp only [shapeCast_self, LaneLib.step]; first | done | rfl)

theorem k1_pay277_nf (v502 : Vec F S1x16 .f32) :
    k1_pay277 v502 = shapeCast S16 v502 shapeCasts_S1x16_S16 := by
  unfold k1_pay277
  first | rfl | (simp only [k1_pay276_nf, shapeCast_self, LaneLib.step]; first | done | rfl)

theorem k1_pay278_nf (v502 : Vec F S1x16 .f32) :
    k1_pay278 v502 = shapeCast S16 v502 shapeCasts_S1x16_S16 := by
  unfold k1_pay278
  first | rfl | (simp only [k1_pay276_nf, shapeCast_self, LaneLib.step]; first | done | rfl)

theorem k1_pay279_nf (v227 : IVec S16 32) (v463 : FVec F S16 .f32) (v488 : FVec F S16 .f32) (c7_i32_184 : BitVec 32) (v516 : Vec F S16 .f32) :
    k1_pay279 v227 v463 v488 c7_i32_184 v516 = LaneLib.step v227 8#32 (LaneLib.step v227 c7_i32_184 v463 v488) v516 := by
  unfold k1_pay279
  first | rfl | (simp only [shapeCast_self, LaneLib.step]; first | done | rfl)

theorem k1_pay280_nf (v257 : IVec S16 32) :
    k1_pay280 v257 = extractStridedSlice S1 ![9] v257 slices_S16_o9_S1 := by
  unfold k1_pay280
  first | rfl | (simp only [shapeCast_self, LaneLib.step]; first | done | rfl)

theorem k1_pay281_nf (v531 : Vec F S1x16 .f32) :
    k1_pay281 v531 = shapeCast S16 v531 shapeCasts_S1x16_S16 := by
  unfold k1_pay281
  first | rfl | (simp only [shapeCast_self, LaneLib.step]; first | done | rfl)

theorem k1_pay282_nf (v531 : Vec F S1x16 .f32) :
    k1_pay282 v531 = shapeCast S16 v531 shapeCasts_S1x16_S16 := by
  unfold k1_pay282
  first | rfl | (simp only [k1_pay281_nf, shapeCast_self, LaneLib.step]; first | done | rfl)

theorem k1_pay283_nf (v531 : Vec F S1x16 .f32) :
    k1_pay283 v531 = shapeCast S16 v531 shapeCasts_S1x16_S16 := by
  unfold k1_pay283
  first | rfl | (simp only [k1_pay281_nf, shapeCast_self, LaneLib.step]; first | done | rfl)

theorem k1_pay284_nf (v227 : IVec S16 32) (v521 : FVec F S16 .f32) (v545 : Vec F S16 .f32) :
    k1_pay284 v227 v521 v545 = LaneLib.step v227 9#32 v521 v545 := by
  unfold k1_pay284
  first | rfl | (simp only [shapeCast_self, LaneLib.step]; first | done | rfl)

theorem k1_pay285_nf (v257 : IVec S16 32) :
    k1_pay285 v257 = extractStridedSlice S1 ![10] v257 slices_S16_o10_S1 := by
  unfold k1_pay285
  first | rfl | (simp only [shapeCast_self, LaneLib.step]; first | done | rfl)

theorem k1_pay286_nf (v560 : Vec F S1x16 .f32) :
    k1_pay286 v560 = shapeCast S16 v560 shapeCasts_S1x16_S16 := by
  unfold k1_pay286
  first | rfl | (simp only [shapeCast_self, LaneLib.step]; first | done | rfl)

theorem k1_pay287_nf (v560 : Vec F S1x16 .f32) :
    k1_pay287 v560 = shapeCast S16 v560 shapeCasts_S1x16_S16 := by
  unfold k1_pay287
  first | rfl | (simp only [k1_pay286_nf, shapeCast_self, LaneLib.step]; first | done | rfl)

theorem k1_pay288_nf (v560 : Vec F S1x16 .f32) :
    k1_pay288 v560 = shapeCast S16 v560 shapeCasts_S1x16_S16 := by
  unfold k1_pay288
  first | rfl | (simp only [k1_pay286_nf, shapeCast_self, LaneLib.step]; first | done | rfl)

theorem k1_pay289_nf (v257 : IVec S16 32) :
    k1_pay289 v257 = extractStridedSlice S1 ![11] v257 slices_S16_o11_S1 := by
  unfold k1_pay289
  first | rfl | (simp only [shapeCast_self, LaneLib.step]; first | done | rfl)

theorem k1_pay290_nf (v589 : Vec F S1x16 .f32) :
    k1_pay290 v589 = shapeCast S16 v589 shapeCasts_S1x16_S16 := by
  unfold k1_pay290
  first | rfl | (simp only [shapeCast_self, LaneLib.step]; first | done | rfl)

theorem k1_pay291_nf (v589 : Vec F S1x16 .f32) :
    k1_pay291 v589 = shapeCast S16 v589 shapeCasts_S1x16_S16 := by
  unfold k1_pay291
  first | rfl | (simp only [k1_pay290_nf, shapeCast_self, LaneLib.step]; first | done | rfl)

theorem k1_pay292_nf (v589 : Vec F S1x16 .f32) :
    k1_pay292 v589 = shapeCast S16 v589 shapeCasts_S1x16_S16 := by
  unfold k1_pay292
  first | rfl | (simp only [k1_pay290_nf, shapeCast_self, LaneLib.step]; first | done | rfl)

theorem k1_pay293_nf (v227 : IVec S16 32) (v550 : FVec F S16 .f32) (v574 : Vec F S16 .f32) (v603 : Vec F S16 .f32) :
    k1_pay293 v227 v550 v574 v603 = LaneLib.step v227 11#32 (LaneLib.step v227 10#32 v550 v574) v603 := by
  unfold k1_pay293
  first | rfl | (simp only [shapeCast_self, LaneLib.step]; first | done | rfl)

theorem k1_pay294_nf (v257 : IVec S16 32) :
    k1_pay294 v257 = extractStridedSlice S1 ![12] v257 slices_S16_o12_S1 := by
  unfold k1_pay294
  first | rfl | (simp only [shapeCast_self, LaneLib.step]; first | done | rfl)

theorem k1_pay295_nf (v618 : Vec F S1x16 .f32) :
    k1_pay295 v618 = shapeCast S16 v618 shapeCasts_S1x16_S16 := by
  unfold k1_pay295
  first | rfl | (simp only [shapeCast_self, LaneLib.step]; first | done | rfl)

theorem k1_pay296_nf (v618 : Vec F S1x16 .f32) :
    k1_pay296 v618 = shapeCast S16 v618 shapeCasts_S1x16_S16 := by
  unfold k1_pay296
  first | rfl | (simp only [k1_pay295_nf, shapeCast_self, LaneLib.step]; first | done | rfl)

theorem k1_pay297_nf (v618 : Vec F S1x16 .f32) :
    k1_pay297 v618 = shapeCast S16 v618 shapeCasts_S1x16_S16 := by
  unfold k1_pay297
  first | rfl | (simp only [k1_pay295_nf, shapeCast_self, LaneLib.step]; first | done | rfl)

theorem k1_pay298_nf (v227 : IVec S16 32) (v608 : FVec F S16 .f32) (v632 : Vec F S16 .f32) :
    k1_pay298 v227 v608 v632 = LaneLib.step v227 12#32 v608 v632 := by
  unfold k1_pay298
  first | rfl | (simp only [shapeCast_self, LaneLib.step]; first | done | rfl)

theorem k1_pay299_nf (v257 : IVec S16 32) :
    k1_pay299 v257 = extractStridedSlice S1 ![13] v257 slices_S16_o13_S1 := by
  unfold k1_pay299
  first | rfl | (simp only [shapeCast_self, LaneLib.step]; first | done | rfl)

theorem k1_pay300_nf (v647 : Vec F S1x16 .f32) :
    k1_pay300 v647 = shapeCast S16 v647 shapeCasts_S1x16_S16 := by
  unfold k1_pay300
  first | rfl | (simp only [shapeCast_self, LaneLib.step]; first | done | rfl)

theorem k1_pay301_nf (v648 : FVec F S16 .f32) :
    k1_pay301 v648 = v648 := by
  unfold k1_pay301
  first | rfl | (simp only [shapeCast_self, LaneLib.step]; first | done | rfl)

theorem k1_pay302_nf (v648 : FVec F S16 .f32) :
    k1_pay302 v648 = v648 := by
  unfold k1_pay302
  first | rfl | (simp only [shapeCast_self, LaneLib.step]; first | done | rfl)

theorem k1_pay303_nf (v227 : IVec S16 32) (v637 : FVec F S16 .f32) (v661 : Vec F S16 .f32) :
    k1_pay303 v227 v637 v661 = LaneLib.step v227 13#32 v637 v661 := by
  unfold k1_pay303
  first | rfl | (simp only [shapeCast_self, LaneLib.step]; first | done | rfl)

theorem k1_pay304_nf (v257 : IVec S16 32) :
    k1_pay304 v257 = extractStridedSlice S1 ![14] v257 slices_S16_o14_S1 := by
  unfold k1_pay304
  first | rfl | (simp only [shapeCast_self, LaneLib.step]; first | done | rfl)

theorem k1_pay305_nf (v676 : Vec F S1x16 .f32) :
    k1_pay305 v676 = shapeCast S16 v676 shapeCasts_S1x16_S16 := by
  unfold k1_pay305
  first | rfl | (simp only [shapeCast_self, LaneLib.step]; first | done | rfl)

theorem k1_pay306_nf (v676 : Vec F S1x16 .f32) :
    k1_pay306 v676 = shapeCast S16 v676 shapeCasts_S1x16_S16 := by
  unfold k1_pay306
  first | rfl | (simp only [k1_pay305_nf, shapeCast_self, LaneLib.step]; first | done | rfl)

theorem k1_pay307_nf (v676 : Vec F S1x16 .f32) :
    k1_pay307 v676 = shapeCast S16 v676 shapeCasts_S1x16_S16 := by
  unfold k1_pay307
  first | rfl | (simp only [k1_pay305_nf, shapeCast_self, LaneLib.step]; first | done | rfl)

theorem k1_pay308_nf (v257 : IVec S16 32) :
    k1_pay308 v257 = extractStridedSlice S1 ![15] v257 slices_S16_o15_S1 := by
  unfold k1_pay308
  first | rfl | (simp only [shapeCast_self, LaneLib.step]; first | done | rfl)

theorem k1_pay309_nf (v705 : Vec F S1x16 .f32) :
    k1_pay309 v705 = shapeCast S16 v705 shapeCasts_S1x16_S16 := by
  unfold k1_pay309
  first | rfl | (simp only [shapeCast_self, LaneLib.step]; first | done | rfl)

theorem k1_pay310_nf (v705 : Vec F S1x16 .f32) :
    k1_pay310 v705 = shapeCast S16 v705 shapeCasts_S1x16_S16 := by
  unfold k1_pay310
  first | rfl | (simp only [k1_pay309_nf, shapeCast_self, LaneLib.step]; first | done | rfl)

theorem k1_pay311_nf (v705 : Vec F S1x16 .f32) :
    k1_pay311 v705 = shapeCast S16 v705 shapeCasts_S1x16_S16 := by
  unfold k1_pay311
  first | rfl | (simp only [k1_pay309_nf, shapeCast_self, LaneLib.step]; first | done | rfl)

theorem k1_pay312_nf (v227 : IVec S16 32) (v666 : FVec F S16 .f32) (v690 : Vec F S16 .f32) (v719 : Vec F S16 .f32) :
    k1_pay312 v227 v666 v690 v719 = LaneLib.step v227 15#32 (LaneLib.step v227 14#32 v666 v690) v719 := by
  unfold k1_pay312
  first | rfl | (simp only [shapeCast_self, LaneLib.step]; first | done | rfl)

theorem k1_pay317_nf (v27 : IVec S16 32) :
    k1_pay317 v27 = v27 := by
  unfold k1_pay317
  first | rfl | (simp only [shapeCast_self, LaneLib.step]; first | done | rfl)

theorem k1_pay329_nf (v104 : IVec S16 32) :
    k1_pay329 v104 = v104 := by
  unfold k1_pay329
  first | rfl | (simp only [shapeCast_self, LaneLib.step]; first | done | rfl)

theorem k1_pay341_nf (v181 : IVec S16 32) :
    k1_pay341 v181 = v181 := by
  unfold k1_pay341
  first | rfl | (simp only [shapeCast_self, LaneLib.step]; first | done | rfl)

end Cert.Kernel.LanePayK1

end
-- ==== Proof.Kernel.RegionK1.lean ====
/-
  The four chunk loops of the first gather kernel's tile, one trip each at a symbolic trip: a trip reads sixteen ids and
  base values, and for lane j takes the sixteen-lane group of the gathered row 16 k + j that holds the id's lane, stores
  it twice in the rotate buffer at [32 j, 32 j + 32), and reads sixteen lanes from 32 j + ((id mod 16) - j mod 16): lane
  j of that read is the group's entry (id mod 16), that is the row's entry at the id's lane (id mod 128). The select
  keeps the other lanes, so after sixteen steps lane l holds base[l] plus its own row's entry.
-/
import proofs.«204913_g64682207478566_cont_9to1c4b_713_31_alg».proof.Proof.Kernel.TileK1Defs
import proofs.«204913_g64682207478566_cont_9to1c4b_713_31_alg».proof.Proof.Gen.Kernel.Skeleton
import proofs.«204913_g64682207478566_cont_9to1c4b_713_31_alg».proof.Proof.ChkLib
import Idealize.ShloMosaic.Lib.Pipeline.Value
import Idealize.ShloMosaic.Lib.ValueIdx
import proofs.«204913_g64682207478566_cont_9to1c4b_713_31_alg».proof.Proof.IdBits
import proofs.«204913_g64682207478566_cont_9to1c4b_713_31_alg».proof.Proof.LaneLib
import proofs.«204913_g64682207478566_cont_9to1c4b_713_31_alg».proof.Proof.LanePayK1B
import proofs.«204913_g64682207478566_cont_9to1c4b_713_31_alg».proof.Proof.LaneTrip
import proofs.«204913_g64682207478566_cont_9to1c4b_713_31_alg».proof.Proof.LaneSteps

noncomputable section

namespace Cert.Kernel.TileK1

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof

open Lean Elab Tactic Meta in
/-- Unfold, in the goal, the named auxiliary value definitions the symbolic run made for the enclosing declaration. -/
elab "delta_sl " "[" ids:ident,* "]" : tactic => do
  let some decl ← Term.getDeclName? | throwError "delta_sl: no enclosing declaration"
  let pre := decl ++ `sl
  let names := ids.getElems.map (·.getId)
  let g ← getMainGoal
  let g' ← g.deltaTarget (fun n => names.any (fun m => n == pre ++ m))
  replaceMainGoal [g']

variable {F : FTy → Type}

local notation "𝕄" => MT nD τ sig (HIx 2) (Elt F) ℕ UU ℕ

local notation "iV" => (Memref.whole Cert.Kernel.main_arg0_scv : Memref Cert.Kernel.sig Kind.scVector Space.hbm Cert.Kernel.S16384 EltTy.i32)
local notation "tV" => (Memref.whole Cert.Kernel.main_v6_scv : Memref Cert.Kernel.sig Kind.scVector Space.hbm Cert.Kernel.S7816x128 EltTy.f32)
local notation "bV" => (Memref.whole Cert.Kernel.main_v7_scv : Memref Cert.Kernel.sig Kind.scVector Space.hbm Cert.Kernel.S16384 EltTy.f32)
local notation "oV" => (Memref.whole Cert.Kernel.main_v8_scv : Memref Cert.Kernel.sig Kind.scVector Space.hbm Cert.Kernel.S16384 EltTy.f32)
local notation "a6" => (Memref.whole Cert.Kernel.cc1_scratch0 : Memref Cert.Kernel.sig Kind.scVector Space.vmem Cert.Kernel.S512 EltTy.i32)
local notation "a7" => (Memref.whole Cert.Kernel.cc1_scratch1 : Memref Cert.Kernel.sig Kind.scVector Space.vmem Cert.Kernel.S512 EltTy.i32)
local notation "a8" => (Memref.whole Cert.Kernel.cc1_scratch2 : Memref Cert.Kernel.sig Kind.scVector Space.vmem Cert.Kernel.S128x128 EltTy.f32)
local notation "a9" => (Memref.whole Cert.Kernel.cc1_scratch3 : Memref Cert.Kernel.sig Kind.scVector Space.vmem Cert.Kernel.S128x128 EltTy.f32)
local notation "a10" => (Memref.whole Cert.Kernel.cc1_scratch4 : Memref Cert.Kernel.sig Kind.scVector Space.vmem Cert.Kernel.S512 EltTy.f32)
local notation "a11" => (Memref.whole Cert.Kernel.cc1_scratch5 : Memref Cert.Kernel.sig Kind.scVector Space.vmem Cert.Kernel.S512 EltTy.f32)
local notation "a12" => (Memref.whole Cert.Kernel.cc1_scratch6 : Memref Cert.Kernel.sig Kind.scVector Space.vmem Cert.Kernel.S512 EltTy.f32)

variable [FloatOps F]
variable (d : Dev nD) (L : grid1.Coords)

/-- What a trip's sixteen results are: lane `l` of trip `k` of chunk `c` is the base value at entry `128 c + 16 k + l` plus the
    gathered buffer's row `16 k + l` at the lane the id at that entry selects (the id modulo 128). -/
def LaneOK (c k : Nat) (i6 : S512.Idx → BitVec 32) (b10 : S512.Idx → F .f32) (rB : S128x128.Idx → F .f32) (v : S16.Idx → F .f32) : Prop :=
  ∀ (l : Fin 16) (h1 : 128 * c + 16 * k + l.val < 512) (h2 : 16 * k + l.val < 128),
    v (ix1 l) = FloatOps.addf (b10 (ix1 ⟨128 * c + 16 * k + l.val, h1⟩))
      (rB (ix2 ⟨16 * k + l.val, h2⟩ ⟨(i6 (ix1 ⟨128 * c + 16 * k + l.val, h1⟩)).toNat % 128, Nat.mod_lt _ (by decide)⟩))

set_option maxHeartbeats 4000000 in
/-- Trip `k` of chunk 0's loop: the ids, the base values and the gathered rows are read only; the trip stores its sixteen
    results, each the base value plus the gathered row's entry at the id's lane. -/
theorem region1 (hchk : ChkAll) (k : Fin k1_t1_loop.trips) (acc : BitVec 32)
    (g6 : Buf (Elt F) ((a6).view.loc (V d (cV L) (jV L)))) (g10 : Buf (Elt F) ((a10).view.loc (V d (cV L) (jV L)))) (gB : Buf (Elt F) ((a8).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a8).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k1_t1_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a8).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k1_off35 k) S16.size (k1_off35_inb k), v⟩])
                ∗ ⌜LaneOK 0 k.val ((a6).view.read (Elt F) g6) ((a10).view.read (Elt F) g10) ((a8).view.read (Elt F) gB) v⌝) := by
  iintro ⟨H6, H10, HB, H11, H12⟩
  sl_exec (disch := first | sl_exact (hchk.h1 _ _) | sl_exact (hchk.h2 _ _) | sl_exact (hchk.h3 _ _) | sl_exact (hchk.h4 _ _) | sl_exact (hchk.h5 _ _) | sl_exact (hchk.h6 _ _) | sl_exact (hchk.h7 _ _) | sl_exact (hchk.h8 _ _) | sl_exact (hchk.h9 _ _) | sl_exact (hchk.h10 _ _) | sl_exact (hchk.h11 _ _) | sl_exact (hchk.h12 _ _) | sl_exact (hchk.h13 _ _) | sl_exact (hchk.h14 _ _) | sl_exact (hchk.h15 _ _) | sl_exact (hchk.h16 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k1_t1_abs.2.1
  have hoff : (k1_off2 k) 0 = 128 * 0 + 16 * k.val := by
    rw [k1_off2_eq]
    show 16 * k.val = 128 * 0 + 16 * k.val
    omega
  have hid : ∀ (j : Fin 16) (h : 128 * 0 + 16 * k.val + j.val < 512),
      (((a6).view.slice (Rect.unit (s := S512) (k1_off2 k) S16.size (k1_off2_inb k))).read (Elt F) g6) (ix1 j) = (a6).view.read (Elt F) g6 (ix1 ⟨128 * 0 + 16 * k.val + j.val, h⟩) :=
    fun j h => LaneTrip.chunk_read (a6).view g6 (k1_off2 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
  obtain ⟨j, hj⟩ := l
  interval_cases j
  · rw [LaneSteps.nested16_at_0 _ hiota]
    refine congrArg₂ FloatOps.addf (LaneTrip.chunk_read (a10).view g10 (k1_off2 k) _ hoff _ ⟨0, hj⟩ h1) ?_
    have hA0 : ∀ w : BitVec 32, (k1_off3 k w) 0 = 16 * k.val + 0 := fun w => ChkLib.row_toNat k.val hk 0#32 (by decide)
    have hA1 : ∀ w : BitVec 32, (k1_off3 k w) 1 = ((w &&& 127#32) &&& 112#32).toNat := fun w => rfl
    have hB : ∀ w : BitVec 32, (k1_off4 w) 0 = 32 * 0 + (w.toNat % 16 + 16 - 0) % 16 :=
      fun w => IdBits.start_toNat 0#32 w 0#32 (by decide) (by decide)
    have hw : region1.sl.v264 d L k g6 = (a6).view.read (Elt F) g6 (ix1 ⟨128 * 0 + 16 * k.val + 0, h1⟩) := by
      delta_sl [v264]
      simp only [LanePayK1.k1_pay2_nf, LanePayK1.k1_pay1_nf, View.readAt_rect]
      exact (LaneLib.extract_lane (((a6).view.slice (Rect.unit (s := S512) (k1_off2 k) S16.size (k1_off2_inb k))).read (Elt F) g6) 0 (by decide) _ _).trans (hid ⟨0, by decide⟩ h1)
    delta_sl [v284, H11_2, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off3 k (region1.sl.v264 d L k g6)) (k1_off4 (region1.sl.v264 d L k g6)) ![0] ![16] _ _ _ _ shapeCasts_S1x16_S16 k.val 0 (region1.sl.v264 d L k g6) _ hk (by decide) (hA0 _) (hA1 _) (hB _) rfl rfl h2 hw
  · rw [LaneSteps.nested16_at_1 _ hiota]
    refine congrArg₂ FloatOps.addf (LaneTrip.chunk_read (a10).view g10 (k1_off2 k) _ hoff _ ⟨1, hj⟩ h1) ?_
    have hA0 : ∀ w : BitVec 32, (k1_off5 k w) 0 = 16 * k.val + 1 := fun w => ChkLib.row_toNat k.val hk 1#32 (by decide)
    have hA1 : ∀ w : BitVec 32, (k1_off5 k w) 1 = ((w &&& 127#32) &&& 112#32).toNat := fun w => rfl
    have hB : ∀ w : BitVec 32, (k1_off6 w) 0 = 32 * 1 + (w.toNat % 16 + 16 - 1) % 16 :=
      fun w => IdBits.start_toNat 32#32 w 1#32 (by decide) (by decide)
    have hw : region1.sl.v293 d L k g6 = (a6).view.read (Elt F) g6 (ix1 ⟨128 * 0 + 16 * k.val + 1, h1⟩) := by
      delta_sl [v293, r]
      simp only [LanePayK1.k1_pay7_nf, LanePayK1.k1_pay1_nf, View.readAt_rect]
      exact (LaneLib.extract_lane (((a6).view.slice (Rect.unit (s := S512) (k1_off2 k) S16.size (k1_off2_inb k))).read (Elt F) g6) 1 (by decide) _ _).trans (hid ⟨1, by decide⟩ h1)
    delta_sl [v313, H11_4, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off5 k (region1.sl.v293 d L k g6)) (k1_off6 (region1.sl.v293 d L k g6)) ![32] ![48] _ _ _ _ shapeCasts_S1x16_S16 k.val 1 (region1.sl.v293 d L k g6) _ hk (by decide) (hA0 _) (hA1 _) (hB _) rfl rfl h2 hw
  · rw [LaneSteps.nested16_at_2 _ hiota]
    refine congrArg₂ FloatOps.addf (LaneTrip.chunk_read (a10).view g10 (k1_off2 k) _ hoff _ ⟨2, hj⟩ h1) ?_
    have hA0 : ∀ w : BitVec 32, (k1_off7 k w) 0 = 16 * k.val + 2 := fun w => ChkLib.row_toNat k.val hk 2#32 (by decide)
    have hA1 : ∀ w : BitVec 32, (k1_off7 k w) 1 = ((w &&& 127#32) &&& 112#32).toNat := fun w => rfl
    have hB : ∀ w : BitVec 32, (k1_off8 w) 0 = 32 * 2 + (w.toNat % 16 + 16 - 2) % 16 :=
      fun w => IdBits.start_toNat 64#32 w 2#32 (by decide) (by decide)
    have hw : region1.sl.v322 d L k g6 = (a6).view.read (Elt F) g6 (ix1 ⟨128 * 0 + 16 * k.val + 2, h1⟩) := by
      delta_sl [v322, r]
      simp only [LanePayK1.k1_pay12_nf, LanePayK1.k1_pay1_nf, View.readAt_rect]
      exact (LaneLib.extract_lane (((a6).view.slice (Rect.unit (s := S512) (k1_off2 k) S16.size (k1_off2_inb k))).read (Elt F) g6) 2 (by decide) _ _).trans (hid ⟨2, by decide⟩ h1)
    delta_sl [v342, H11_6, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off7 k (region1.sl.v322 d L k g6)) (k1_off8 (region1.sl.v322 d L k g6)) ![64] ![80] _ _ _ _ shapeCasts_S1x16_S16 k.val 2 (region1.sl.v322 d L k g6) _ hk (by decide) (hA0 _) (hA1 _) (hB _) rfl rfl h2 hw
  · rw [LaneSteps.nested16_at_3 _ hiota]
    refine congrArg₂ FloatOps.addf (LaneTrip.chunk_read (a10).view g10 (k1_off2 k) _ hoff _ ⟨3, hj⟩ h1) ?_
    have hA0 : ∀ w : BitVec 32, (k1_off9 k w) 0 = 16 * k.val + 3 := fun w => ChkLib.row_toNat k.val hk 3#32 (by decide)
    have hA1 : ∀ w : BitVec 32, (k1_off9 k w) 1 = ((w &&& 127#32) &&& 112#32).toNat := fun w => rfl
    have hB : ∀ w : BitVec 32, (k1_off10 w) 0 = 32 * 3 + (w.toNat % 16 + 16 - 3) % 16 :=
      fun w => IdBits.start_toNat 96#32 w 3#32 (by decide) (by decide)
    have hw : region1.sl.v351 d L k g6 = (a6).view.read (Elt F) g6 (ix1 ⟨128 * 0 + 16 * k.val + 3, h1⟩) := by
      delta_sl [v351, r]
      simp only [LanePayK1.k1_pay17_nf, LanePayK1.k1_pay1_nf, View.readAt_rect]
      exact (LaneLib.extract_lane (((a6).view.slice (Rect.unit (s := S512) (k1_off2 k) S16.size (k1_off2_inb k))).read (Elt F) g6) 3 (by decide) _ _).trans (hid ⟨3, by decide⟩ h1)
    delta_sl [v371, H11_8, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off9 k (region1.sl.v351 d L k g6)) (k1_off10 (region1.sl.v351 d L k g6)) ![96] ![112] _ _ _ _ shapeCasts_S1x16_S16 k.val 3 (region1.sl.v351 d L k g6) _ hk (by decide) (hA0 _) (hA1 _) (hB _) rfl rfl h2 hw
  · rw [LaneSteps.nested16_at_4 _ hiota]
    refine congrArg₂ FloatOps.addf (LaneTrip.chunk_read (a10).view g10 (k1_off2 k) _ hoff _ ⟨4, hj⟩ h1) ?_
    have hA0 : ∀ w : BitVec 32, (k1_off11 k w) 0 = 16 * k.val + 4 := fun w => ChkLib.row_toNat k.val hk 4#32 (by decide)
    have hA1 : ∀ w : BitVec 32, (k1_off11 k w) 1 = ((w &&& 127#32) &&& 112#32).toNat := fun w => rfl
    have hB : ∀ w : BitVec 32, (k1_off12 w) 0 = 32 * 4 + (w.toNat % 16 + 16 - 4) % 16 :=
      fun w => IdBits.start_toNat 128#32 w 4#32 (by decide) (by decide)
    have hw : region1.sl.v380 d L k g6 = (a6).view.read (Elt F) g6 (ix1 ⟨128 * 0 + 16 * k.val + 4, h1⟩) := by
      delta_sl [v380, r]
      simp only [LanePayK1.k1_pay21_nf, LanePayK1.k1_pay1_nf, View.readAt_rect]
      exact (LaneLib.extract_lane (((a6).view.slice (Rect.unit (s := S512) (k1_off2 k) S16.size (k1_off2_inb k))).read (Elt F) g6) 4 (by decide) _ _).trans (hid ⟨4, by decide⟩ h1)
    delta_sl [v400, H11_10, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off11 k (region1.sl.v380 d L k g6)) (k1_off12 (region1.sl.v380 d L k g6)) ![128] ![144] _ _ _ _ shapeCasts_S1x16_S16 k.val 4 (region1.sl.v380 d L k g6) _ hk (by decide) (hA0 _) (hA1 _) (hB _) rfl rfl h2 hw
  · rw [LaneSteps.nested16_at_5 _ hiota]
    refine congrArg₂ FloatOps.addf (LaneTrip.chunk_read (a10).view g10 (k1_off2 k) _ hoff _ ⟨5, hj⟩ h1) ?_
    have hA0 : ∀ w : BitVec 32, (k1_off13 k w) 0 = 16 * k.val + 5 := fun w => ChkLib.row_toNat k.val hk 5#32 (by decide)
    have hA1 : ∀ w : BitVec 32, (k1_off13 k w) 1 = ((w &&& 127#32) &&& 112#32).toNat := fun w => rfl
    have hB : ∀ w : BitVec 32, (k1_off14 w) 0 = 32 * 5 + (w.toNat % 16 + 16 - 5) % 16 :=
      fun w => IdBits.start_toNat 160#32 w 5#32 (by decide) (by decide)
    have hw : region1.sl.v409 d L k g6 = (a6).view.read (Elt F) g6 (ix1 ⟨128 * 0 + 16 * k.val + 5, h1⟩) := by
      delta_sl [v409, r]
      simp only [LanePayK1.k1_pay26_nf, LanePayK1.k1_pay1_nf, View.readAt_rect]
      exact (LaneLib.extract_lane (((a6).view.slice (Rect.unit (s := S512) (k1_off2 k) S16.size (k1_off2_inb k))).read (Elt F) g6) 5 (by decide) _ _).trans (hid ⟨5, by decide⟩ h1)
    delta_sl [v429, H11_12, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off13 k (region1.sl.v409 d L k g6)) (k1_off14 (region1.sl.v409 d L k g6)) ![160] ![176] _ _ _ _ shapeCasts_S1x16_S16 k.val 5 (region1.sl.v409 d L k g6) _ hk (by decide) (hA0 _) (hA1 _) (hB _) rfl rfl h2 hw
  · rw [LaneSteps.nested16_at_6 _ hiota]
    refine congrArg₂ FloatOps.addf (LaneTrip.chunk_read (a10).view g10 (k1_off2 k) _ hoff _ ⟨6, hj⟩ h1) ?_
    have hA0 : ∀ w : BitVec 32, (k1_off15 k w) 0 = 16 * k.val + 6 := fun w => ChkLib.row_toNat k.val hk 6#32 (by decide)
    have hA1 : ∀ w : BitVec 32, (k1_off15 k w) 1 = ((w &&& 127#32) &&& 112#32).toNat := fun w => rfl
    have hB : ∀ w : BitVec 32, (k1_off16 w) 0 = 32 * 6 + (w.toNat % 16 + 16 - 6) % 16 :=
      fun w => IdBits.start_toNat 192#32 w 6#32 (by decide) (by decide)
    have hw : region1.sl.v438 d L k g6 = (a6).view.read (Elt F) g6 (ix1 ⟨128 * 0 + 16 * k.val + 6, h1⟩) := by
      delta_sl [v438, r]
      simp only [LanePayK1.k1_pay31_nf, LanePayK1.k1_pay1_nf, View.readAt_rect]
      exact (LaneLib.extract_lane (((a6).view.slice (Rect.unit (s := S512) (k1_off2 k) S16.size (k1_off2_inb k))).read (Elt F) g6) 6 (by decide) _ _).trans (hid ⟨6, by decide⟩ h1)
    delta_sl [v458, H11_14, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off15 k (region1.sl.v438 d L k g6)) (k1_off16 (region1.sl.v438 d L k g6)) ![192] ![208] _ _ _ _ shapeCasts_S1x16_S16 k.val 6 (region1.sl.v438 d L k g6) _ hk (by decide) (hA0 _) (hA1 _) (hB _) rfl rfl h2 hw
  · rw [LaneSteps.nested16_at_7 _ hiota]
    refine congrArg₂ FloatOps.addf (LaneTrip.chunk_read (a10).view g10 (k1_off2 k) _ hoff _ ⟨7, hj⟩ h1) ?_
    have hA0 : ∀ w : BitVec 32, (k1_off17 k w) 0 = 16 * k.val + 7 := fun w => ChkLib.row_toNat k.val hk 7#32 (by decide)
    have hA1 : ∀ w : BitVec 32, (k1_off17 k w) 1 = ((w &&& 127#32) &&& 112#32).toNat := fun w => rfl
    have hB : ∀ w : BitVec 32, (k1_off18 w) 0 = 32 * 7 + (w.toNat % 16 + 16 - 7) % 16 :=
      fun w => IdBits.start_toNat 224#32 w 7#32 (by decide) (by decide)
    have hw : region1.sl.v467 d L k g6 = (a6).view.read (Elt F) g6 (ix1 ⟨128 * 0 + 16 * k.val + 7, h1⟩) := by
      delta_sl [v467, r]
      simp only [LanePayK1.k1_pay36_nf, LanePayK1.k1_pay1_nf, View.readAt_rect]
      exact (LaneLib.extract_lane (((a6).view.slice (Rect.unit (s := S512) (k1_off2 k) S16.size (k1_off2_inb k))).read (Elt F) g6) 7 (by decide) _ _).trans (hid ⟨7, by decide⟩ h1)
    delta_sl [v487, H11_16, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off17 k (region1.sl.v467 d L k g6)) (k1_off18 (region1.sl.v467 d L k g6)) ![224] ![240] _ _ _ _ shapeCasts_S1x16_S16 k.val 7 (region1.sl.v467 d L k g6) _ hk (by decide) (hA0 _) (hA1 _) (hB _) rfl rfl h2 hw
  · rw [LaneSteps.nested16_at_8 _ hiota]
    refine congrArg₂ FloatOps.addf (LaneTrip.chunk_read (a10).view g10 (k1_off2 k) _ hoff _ ⟨8, hj⟩ h1) ?_
    have hA0 : ∀ w : BitVec 32, (k1_off19 k w) 0 = 16 * k.val + 8 := fun w => ChkLib.row_toNat k.val hk 8#32 (by decide)
    have hA1 : ∀ w : BitVec 32, (k1_off19 k w) 1 = ((w &&& 127#32) &&& 112#32).toNat := fun w => rfl
    have hB : ∀ w : BitVec 32, (k1_off20 w) 0 = 32 * 8 + (w.toNat % 16 + 16 - 8) % 16 :=
      fun w => IdBits.start_toNat 256#32 w 8#32 (by decide) (by decide)
    have hw : region1.sl.v496 d L k g6 = (a6).view.read (Elt F) g6 (ix1 ⟨128 * 0 + 16 * k.val + 8, h1⟩) := by
      delta_sl [v496, r]
      simp only [LanePayK1.k1_pay41_nf, LanePayK1.k1_pay1_nf, View.readAt_rect]
      exact (LaneLib.extract_lane (((a6).view.slice (Rect.unit (s := S512) (k1_off2 k) S16.size (k1_off2_inb k))).read (Elt F) g6) 8 (by decide) _ _).trans (hid ⟨8, by decide⟩ h1)
    delta_sl [v516, H11_18, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off19 k (region1.sl.v496 d L k g6)) (k1_off20 (region1.sl.v496 d L k g6)) ![256] ![272] _ _ _ _ shapeCasts_S1x16_S16 k.val 8 (region1.sl.v496 d L k g6) _ hk (by decide) (hA0 _) (hA1 _) (hB _) rfl rfl h2 hw
  · rw [LaneSteps.nested16_at_9 _ hiota]
    refine congrArg₂ FloatOps.addf (LaneTrip.chunk_read (a10).view g10 (k1_off2 k) _ hoff _ ⟨9, hj⟩ h1) ?_
    have hA0 : ∀ w : BitVec 32, (k1_off21 k w) 0 = 16 * k.val + 9 := fun w => ChkLib.row_toNat k.val hk 9#32 (by decide)
    have hA1 : ∀ w : BitVec 32, (k1_off21 k w) 1 = ((w &&& 127#32) &&& 112#32).toNat := fun w => rfl
    have hB : ∀ w : BitVec 32, (k1_off22 w) 0 = 32 * 9 + (w.toNat % 16 + 16 - 9) % 16 :=
      fun w => IdBits.start_toNat 288#32 w 9#32 (by decide) (by decide)
    have hw : region1.sl.v525 d L k g6 = (a6).view.read (Elt F) g6 (ix1 ⟨128 * 0 + 16 * k.val + 9, h1⟩) := by
      delta_sl [v525, r]
      simp only [LanePayK1.k1_pay46_nf, LanePayK1.k1_pay1_nf, View.readAt_rect]
      exact (LaneLib.extract_lane (((a6).view.slice (Rect.unit (s := S512) (k1_off2 k) S16.size (k1_off2_inb k))).read (Elt F) g6) 9 (by decide) _ _).trans (hid ⟨9, by decide⟩ h1)
    delta_sl [v545, H11_20, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off21 k (region1.sl.v525 d L k g6)) (k1_off22 (region1.sl.v525 d L k g6)) ![288] ![304] _ _ _ _ shapeCasts_S1x16_S16 k.val 9 (region1.sl.v525 d L k g6) _ hk (by decide) (hA0 _) (hA1 _) (hB _) rfl rfl h2 hw
  · rw [LaneSteps.nested16_at_10 _ hiota]
    refine congrArg₂ FloatOps.addf (LaneTrip.chunk_read (a10).view g10 (k1_off2 k) _ hoff _ ⟨10, hj⟩ h1) ?_
    have hA0 : ∀ w : BitVec 32, (k1_off23 k w) 0 = 16 * k.val + 10 := fun w => ChkLib.row_toNat k.val hk 10#32 (by decide)
    have hA1 : ∀ w : BitVec 32, (k1_off23 k w) 1 = ((w &&& 127#32) &&& 112#32).toNat := fun w => rfl
    have hB : ∀ w : BitVec 32, (k1_off24 w) 0 = 32 * 10 + (w.toNat % 16 + 16 - 10) % 16 :=
      fun w => IdBits.start_toNat 320#32 w 10#32 (by decide) (by decide)
    have hw : region1.sl.v554 d L k g6 = (a6).view.read (Elt F) g6 (ix1 ⟨128 * 0 + 16 * k.val + 10, h1⟩) := by
      delta_sl [v554, r]
      simp only [LanePayK1.k1_pay51_nf, LanePayK1.k1_pay1_nf, View.readAt_rect]
      exact (LaneLib.extract_lane (((a6).view.slice (Rect.unit (s := S512) (k1_off2 k) S16.size (k1_off2_inb k))).read (Elt F) g6) 10 (by decide) _ _).trans (hid ⟨10, by decide⟩ h1)
    delta_sl [v574, H11_22, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off23 k (region1.sl.v554 d L k g6)) (k1_off24 (region1.sl.v554 d L k g6)) ![320] ![336] _ _ _ _ shapeCasts_S1x16_S16 k.val 10 (region1.sl.v554 d L k g6) _ hk (by decide) (hA0 _) (hA1 _) (hB _) rfl rfl h2 hw
  · rw [LaneSteps.nested16_at_11 _ hiota]
    refine congrArg₂ FloatOps.addf (LaneTrip.chunk_read (a10).view g10 (k1_off2 k) _ hoff _ ⟨11, hj⟩ h1) ?_
    have hA0 : ∀ w : BitVec 32, (k1_off25 k w) 0 = 16 * k.val + 11 := fun w => ChkLib.row_toNat k.val hk 11#32 (by decide)
    have hA1 : ∀ w : BitVec 32, (k1_off25 k w) 1 = ((w &&& 127#32) &&& 112#32).toNat := fun w => rfl
    have hB : ∀ w : BitVec 32, (k1_off26 w) 0 = 32 * 11 + (w.toNat % 16 + 16 - 11) % 16 :=
      fun w => IdBits.start_toNat 352#32 w 11#32 (by decide) (by decide)
    have hw : region1.sl.v583 d L k g6 = (a6).view.read (Elt F) g6 (ix1 ⟨128 * 0 + 16 * k.val + 11, h1⟩) := by
      delta_sl [v583, r]
      simp only [LanePayK1.k1_pay55_nf, LanePayK1.k1_pay1_nf, View.readAt_rect]
      exact (LaneLib.extract_lane (((a6).view.slice (Rect.unit (s := S512) (k1_off2 k) S16.size (k1_off2_inb k))).read (Elt F) g6) 11 (by decide) _ _).trans (hid ⟨11, by decide⟩ h1)
    delta_sl [v603, H11_24, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off25 k (region1.sl.v583 d L k g6)) (k1_off26 (region1.sl.v583 d L k g6)) ![352] ![368] _ _ _ _ shapeCasts_S1x16_S16 k.val 11 (region1.sl.v583 d L k g6) _ hk (by decide) (hA0 _) (hA1 _) (hB _) rfl rfl h2 hw
  · rw [LaneSteps.nested16_at_12 _ hiota]
    refine congrArg₂ FloatOps.addf (LaneTrip.chunk_read (a10).view g10 (k1_off2 k) _ hoff _ ⟨12, hj⟩ h1) ?_
    have hA0 : ∀ w : BitVec 32, (k1_off27 k w) 0 = 16 * k.val + 12 := fun w => ChkLib.row_toNat k.val hk 12#32 (by decide)
    have hA1 : ∀ w : BitVec 32, (k1_off27 k w) 1 = ((w &&& 127#32) &&& 112#32).toNat := fun w => rfl
    have hB : ∀ w : BitVec 32, (k1_off28 w) 0 = 32 * 12 + (w.toNat % 16 + 16 - 12) % 16 :=
      fun w => IdBits.start_toNat 384#32 w 12#32 (by decide) (by decide)
    have hw : region1.sl.v612 d L k g6 = (a6).view.read (Elt F) g6 (ix1 ⟨128 * 0 + 16 * k.val + 12, h1⟩) := by
      delta_sl [v612, r]
      simp only [LanePayK1.k1_pay60_nf, LanePayK1.k1_pay1_nf, View.readAt_rect]
      exact (LaneLib.extract_lane (((a6).view.slice (Rect.unit (s := S512) (k1_off2 k) S16.size (k1_off2_inb k))).read (Elt F) g6) 12 (by decide) _ _).trans (hid ⟨12, by decide⟩ h1)
    delta_sl [v632, H11_26, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off27 k (region1.sl.v612 d L k g6)) (k1_off28 (region1.sl.v612 d L k g6)) ![384] ![400] _ _ _ _ shapeCasts_S1x16_S16 k.val 12 (region1.sl.v612 d L k g6) _ hk (by decide) (hA0 _) (hA1 _) (hB _) rfl rfl h2 hw
  · rw [LaneSteps.nested16_at_13 _ hiota]
    refine congrArg₂ FloatOps.addf (LaneTrip.chunk_read (a10).view g10 (k1_off2 k) _ hoff _ ⟨13, hj⟩ h1) ?_
    have hA0 : ∀ w : BitVec 32, (k1_off29 k w) 0 = 16 * k.val + 13 := fun w => ChkLib.row_toNat k.val hk 13#32 (by decide)
    have hA1 : ∀ w : BitVec 32, (k1_off29 k w) 1 = ((w &&& 127#32) &&& 112#32).toNat := fun w => rfl
    have hB : ∀ w : BitVec 32, (k1_off30 w) 0 = 32 * 13 + (w.toNat % 16 + 16 - 13) % 16 :=
      fun w => IdBits.start_toNat 416#32 w 13#32 (by decide) (by decide)
    have hw : region1.sl.v641 d L k g6 = (a6).view.read (Elt F) g6 (ix1 ⟨128 * 0 + 16 * k.val + 13, h1⟩) := by
      delta_sl [v641, r]
      simp only [LanePayK1.k1_pay65_nf, LanePayK1.k1_pay1_nf, View.readAt_rect]
      exact (LaneLib.extract_lane (((a6).view.slice (Rect.unit (s := S512) (k1_off2 k) S16.size (k1_off2_inb k))).read (Elt F) g6) 13 (by decide) _ _).trans (hid ⟨13, by decide⟩ h1)
    delta_sl [v661, H11_28, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off29 k (region1.sl.v641 d L k g6)) (k1_off30 (region1.sl.v641 d L k g6)) ![416] ![432] _ _ _ _ shapeCasts_S1x16_S16 k.val 13 (region1.sl.v641 d L k g6) _ hk (by decide) (hA0 _) (hA1 _) (hB _) rfl rfl h2 hw
  · rw [LaneSteps.nested16_at_14 _ hiota]
    refine congrArg₂ FloatOps.addf (LaneTrip.chunk_read (a10).view g10 (k1_off2 k) _ hoff _ ⟨14, hj⟩ h1) ?_
    have hA0 : ∀ w : BitVec 32, (k1_off31 k w) 0 = 16 * k.val + 14 := fun w => ChkLib.row_toNat k.val hk 14#32 (by decide)
    have hA1 : ∀ w : BitVec 32, (k1_off31 k w) 1 = ((w &&& 127#32) &&& 112#32).toNat := fun w => rfl
    have hB : ∀ w : BitVec 32, (k1_off32 w) 0 = 32 * 14 + (w.toNat % 16 + 16 - 14) % 16 :=
      fun w => IdBits.start_toNat 448#32 w 14#32 (by decide) (by decide)
    have hw : region1.sl.v670 d L k g6 = (a6).view.read (Elt F) g6 (ix1 ⟨128 * 0 + 16 * k.val + 14, h1⟩) := by
      delta_sl [v670, r]
      simp only [LanePayK1.k1_pay70_nf, LanePayK1.k1_pay1_nf, View.readAt_rect]
      exact (LaneLib.extract_lane (((a6).view.slice (Rect.unit (s := S512) (k1_off2 k) S16.size (k1_off2_inb k))).read (Elt F) g6) 14 (by decide) _ _).trans (hid ⟨14, by decide⟩ h1)
    delta_sl [v690, H11_30, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off31 k (region1.sl.v670 d L k g6)) (k1_off32 (region1.sl.v670 d L k g6)) ![448] ![464] _ _ _ _ shapeCasts_S1x16_S16 k.val 14 (region1.sl.v670 d L k g6) _ hk (by decide) (hA0 _) (hA1 _) (hB _) rfl rfl h2 hw
  · rw [LaneSteps.nested16_at_15 _ hiota]
    refine congrArg₂ FloatOps.addf (LaneTrip.chunk_read (a10).view g10 (k1_off2 k) _ hoff _ ⟨15, hj⟩ h1) ?_
    have hA0 : ∀ w : BitVec 32, (k1_off33 k w) 0 = 16 * k.val + 15 := fun w => ChkLib.row_toNat k.val hk 15#32 (by decide)
    have hA1 : ∀ w : BitVec 32, (k1_off33 k w) 1 = ((w &&& 127#32) &&& 112#32).toNat := fun w => rfl
    have hB : ∀ w : BitVec 32, (k1_off34 w) 0 = 32 * 15 + (w.toNat % 16 + 16 - 15) % 16 :=
      fun w => IdBits.start_toNat 480#32 w 15#32 (by decide) (by decide)
    have hw : region1.sl.v699 d L k g6 = (a6).view.read (Elt F) g6 (ix1 ⟨128 * 0 + 16 * k.val + 15, h1⟩) := by
      delta_sl [v699, r]
      simp only [LanePayK1.k1_pay74_nf, LanePayK1.k1_pay1_nf, View.readAt_rect]
      exact (LaneLib.extract_lane (((a6).view.slice (Rect.unit (s := S512) (k1_off2 k) S16.size (k1_off2_inb k))).read (Elt F) g6) 15 (by decide) _ _).trans (hid ⟨15, by decide⟩ h1)
    delta_sl [v719, H11_32, r_3, r_4, r_8, r_15]
    simp only [LanePayK1.k1_pay1_nf, LanePayK1.k1_pay2_nf, LanePayK1.k1_pay3_nf, LanePayK1.k1_pay4_nf, LanePayK1.k1_pay5_nf, LanePayK1.k1_pay6_nf, LanePayK1.k1_pay7_nf, LanePayK1.k1_pay8_nf, LanePayK1.k1_pay9_nf, LanePayK1.k1_pay10_nf, LanePayK1.k1_pay11_nf, LanePayK1.k1_pay12_nf, LanePayK1.k1_pay13_nf, LanePayK1.k1_pay14_nf, LanePayK1.k1_pay15_nf, LanePayK1.k1_pay16_nf, LanePayK1.k1_pay17_nf, LanePayK1.k1_pay18_nf, LanePayK1.k1_pay19_nf, LanePayK1.k1_pay20_nf, LanePayK1.k1_pay21_nf, LanePayK1.k1_pay22_nf, LanePayK1.k1_pay23_nf, LanePayK1.k1_pay24_nf, LanePayK1.k1_pay25_nf, LanePayK1.k1_pay26_nf, LanePayK1.k1_pay27_nf, LanePayK1.k1_pay28_nf, LanePayK1.k1_pay29_nf, LanePayK1.k1_pay30_nf, LanePayK1.k1_pay31_nf, LanePayK1.k1_pay32_nf, LanePayK1.k1_pay33_nf, LanePayK1.k1_pay34_nf, LanePayK1.k1_pay35_nf, LanePayK1.k1_pay36_nf, LanePayK1.k1_pay37_nf, LanePayK1.k1_pay38_nf, LanePayK1.k1_pay39_nf, LanePayK1.k1_pay40_nf, LanePayK1.k1_pay41_nf, LanePayK1.k1_pay42_nf, LanePayK1.k1_pay43_nf, LanePayK1.k1_pay44_nf, LanePayK1.k1_pay45_nf, LanePayK1.k1_pay46_nf, LanePayK1.k1_pay47_nf, LanePayK1.k1_pay48_nf, LanePayK1.k1_pay49_nf, LanePayK1.k1_pay50_nf, LanePayK1.k1_pay51_nf, LanePayK1.k1_pay52_nf, LanePayK1.k1_pay53_nf, LanePayK1.k1_pay54_nf, LanePayK1.k1_pay55_nf, LanePayK1.k1_pay56_nf, LanePayK1.k1_pay57_nf, LanePayK1.k1_pay58_nf, LanePayK1.k1_pay59_nf, LanePayK1.k1_pay60_nf, LanePayK1.k1_pay61_nf, LanePayK1.k1_pay62_nf, LanePayK1.k1_pay63_nf, LanePayK1.k1_pay64_nf, LanePayK1.k1_pay65_nf, LanePayK1.k1_pay66_nf, LanePayK1.k1_pay67_nf, LanePayK1.k1_pay68_nf, LanePayK1.k1_pay69_nf, LanePayK1.k1_pay70_nf, LanePayK1.k1_pay71_nf, LanePayK1.k1_pay72_nf, LanePayK1.k1_pay73_nf, LanePayK1.k1_pay74_nf, LanePayK1.k1_pay75_nf, LanePayK1.k1_pay76_nf, LanePayK1.k1_pay77_nf, LanePayK1.k1_pay78_nf, View.readAt_rect]
    exact LaneTrip.lane_value_at (a11).view _ (a8).view gB _ (k1_off33 k (region1.sl.v699 d L k g6)) (k1_off34 (region1.sl.v699 d L k g6)) ![480] ![496] _ _ _ _ shapeCasts_S1x16_S16 k.val 15 (region1.sl.v699 d L k g6) _ hk (by decide) (hA0 _) (hA1 _) (hB _) rfl rfl h2 hw

set_option maxHeartbeats 4000000 in
/-- Trip `k` of chunk 1's loop: the ids, the base values and the gathered rows are read only; the trip stores its sixteen
    results, each the base value plus the gathered row's entry at the id's lane. -/
theorem region2 (hchk : ChkAll) (k : Fin k1_t2_loop.trips) (acc : BitVec 32)
    (g6 : Buf (Elt F) ((a6).view.loc (V d (cV L) (jV L)))) (g10 : Buf (Elt F) ((a10).view.loc (V d (cV L) (jV L)))) (gB : Buf (Elt F) ((a9).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a9).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k1_t2_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a9).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k1_off69 k) S16.size (k1_off69_inb k), v⟩])
                ∗ ⌜LaneOK 1 k.val ((a6).view.read (Elt F) g6) ((a10).view.read (Elt F) g10) ((a9).view.read (Elt F) gB) v⌝) := by
  iintro ⟨H6, H10, HB, H11, H12⟩
  sl_exec (disch := first | sl_exact (hchk.h17 _ _) | sl_exact (hchk.h18 _ _) | sl_exact (hchk.h19 _ _) | sl_exact (hchk.h20 _ _) | sl_exact (hchk.h21 _ _) | sl_exact (hchk.h22 _ _) | sl_exact (hchk.h23 _ _) | sl_exact (hchk.h24 _ _) | sl_exact (hchk.h25 _ _) | sl_exact (hchk.h26 _ _) | sl_exact (hchk.h27 _ _) | sl_exact (hchk.h28 _ _) | sl_exact (hchk.h29 _ _) | sl_exact (hchk.h30 _ _) | sl_exact (hchk.h31 _ _) | sl_exact (hchk.h32 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k1_t2_abs.2.1
  have hoff : (k1_off36 k) 0 = 128 * 1 + 16 * k.val := by
    rw [k1_off36_eq]
    show 16 * k.val + 128 = 128 * 1 + 16 * k.val
    omega
  have hid : ∀ (j : Fin 16) (h : 128 * 1 + 16 * k.val + j.val < 512),
      (((a6).view.slice (Rect.unit (s := S512) (k1_off36 k) S16.size (k1_off36_inb k))).read (Elt F) g6) (ix1 j) = (a6).view.read (Elt F) g6 (ix1 ⟨128 * 1 + 16 * k.val + j.val, h⟩) :=
    fun j h => LaneTrip.chunk_read (a6).view g6 (k1_off36 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
  obtain ⟨j, hj⟩ := l
  interval_cases j
  · rw [LaneSteps.nested16_at_0 _ hiota]
    refine congrArg₂ FloatOps.addf (LaneTrip.chunk_read (a10).view g10 (k1_off36 k) _ hoff _ ⟨0, hj⟩ h1) ?_
    have hA0 : ∀ w : BitVec 32, (k1_off37 k w) 0 = 16 * k.val + 0 := fun w => ChkLib.row_toNat k.val hk 0#32 (by decide)
    have hA1 : ∀ w : BitVec 32, (k1_off37 k w) 1 = ((w &&& 127#32) &&& 112#32).toNat := fun w => rfl
    have hB : ∀ w : BitVec 32, (k1_off38 w) 0 = 32 * 0 + (w.toNat % 16 + 16 - 0) % 16 :=
      fun w => IdBits.start_toNat 0#32 w 0#32 (by decide) (by decide)
    have hw : region2.sl.v264 d L k g6 = (a6).view.read (Elt F) g6 (ix1 ⟨128 * 1 + 16 * k.val + 0, h1⟩) := by
      delta_sl [v264]
      simp only [LanePayK1.k1_pay80_nf, LanePayK1.k1_pay79_nf, View.readAt_rect]
      exact (LaneLib.extract_lane (((a6).view.slice (Rect.unit (s := S512) (k1_off36 k) S16.size (k1_off36_inb k))).read (Elt F) g6) 0 (by decide) _ _).trans (hid ⟨0, by decide⟩ h1)
    delta_sl [v284, H11_2, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off37 k (region2.sl.v264 d L k g6)) (k1_off38 (region2.sl.v264 d L k g6)) ![0] ![16] _ _ _ _ shapeCasts_S1x16_S16 k.val 0 (region2.sl.v264 d L k g6) _ hk (by decide) (hA0 _) (hA1 _) (hB _) rfl rfl h2 hw
  · rw [LaneSteps.nested16_at_1 _ hiota]
    refine congrArg₂ FloatOps.addf (LaneTrip.chunk_read (a10).view g10 (k1_off36 k) _ hoff _ ⟨1, hj⟩ h1) ?_
    have hA0 : ∀ w : BitVec 32, (k1_off39 k w) 0 = 16 * k.val + 1 := fun w => ChkLib.row_toNat k.val hk 1#32 (by decide)
    have hA1 : ∀ w : BitVec 32, (k1_off39 k w) 1 = ((w &&& 127#32) &&& 112#32).toNat := fun w => rfl
    have hB : ∀ w : BitVec 32, (k1_off40 w) 0 = 32 * 1 + (w.toNat % 16 + 16 - 1) % 16 :=
      fun w => IdBits.start_toNat 32#32 w 1#32 (by decide) (by decide)
    have hw : region2.sl.v293 d L k g6 = (a6).view.read (Elt F) g6 (ix1 ⟨128 * 1 + 16 * k.val + 1, h1⟩) := by
      delta_sl [v293, r]
      simp only [LanePayK1.k1_pay85_nf, LanePayK1.k1_pay79_nf, View.readAt_rect]
      exact (LaneLib.extract_lane (((a6).view.slice (Rect.unit (s := S512) (k1_off36 k) S16.size (k1_off36_inb k))).read (Elt F) g6) 1 (by decide) _ _).trans (hid ⟨1, by decide⟩ h1)
    delta_sl [v313, H11_4, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off39 k (region2.sl.v293 d L k g6)) (k1_off40 (region2.sl.v293 d L k g6)) ![32] ![48] _ _ _ _ shapeCasts_S1x16_S16 k.val 1 (region2.sl.v293 d L k g6) _ hk (by decide) (hA0 _) (hA1 _) (hB _) rfl rfl h2 hw
  · rw [LaneSteps.nested16_at_2 _ hiota]
    refine congrArg₂ FloatOps.addf (LaneTrip.chunk_read (a10).view g10 (k1_off36 k) _ hoff _ ⟨2, hj⟩ h1) ?_
    have hA0 : ∀ w : BitVec 32, (k1_off41 k w) 0 = 16 * k.val + 2 := fun w => ChkLib.row_toNat k.val hk 2#32 (by decide)
    have hA1 : ∀ w : BitVec 32, (k1_off41 k w) 1 = ((w &&& 127#32) &&& 112#32).toNat := fun w => rfl
    have hB : ∀ w : BitVec 32, (k1_off42 w) 0 = 32 * 2 + (w.toNat % 16 + 16 - 2) % 16 :=
      fun w => IdBits.start_toNat 64#32 w 2#32 (by decide) (by decide)
    have hw : region2.sl.v322 d L k g6 = (a6).view.read (Elt F) g6 (ix1 ⟨128 * 1 + 16 * k.val + 2, h1⟩) := by
      delta_sl [v322, r]
      simp only [LanePayK1.k1_pay90_nf, LanePayK1.k1_pay79_nf, View.readAt_rect]
      exact (LaneLib.extract_lane (((a6).view.slice (Rect.unit (s := S512) (k1_off36 k) S16.size (k1_off36_inb k))).read (Elt F) g6) 2 (by decide) _ _).trans (hid ⟨2, by decide⟩ h1)
    delta_sl [v342, H11_6, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off41 k (region2.sl.v322 d L k g6)) (k1_off42 (region2.sl.v322 d L k g6)) ![64] ![80] _ _ _ _ shapeCasts_S1x16_S16 k.val 2 (region2.sl.v322 d L k g6) _ hk (by decide) (hA0 _) (hA1 _) (hB _) rfl rfl h2 hw
  · rw [LaneSteps.nested16_at_3 _ hiota]
    refine congrArg₂ FloatOps.addf (LaneTrip.chunk_read (a10).view g10 (k1_off36 k) _ hoff _ ⟨3, hj⟩ h1) ?_
    have hA0 : ∀ w : BitVec 32, (k1_off43 k w) 0 = 16 * k.val + 3 := fun w => ChkLib.row_toNat k.val hk 3#32 (by decide)
    have hA1 : ∀ w : BitVec 32, (k1_off43 k w) 1 = ((w &&& 127#32) &&& 112#32).toNat := fun w => rfl
    have hB : ∀ w : BitVec 32, (k1_off44 w) 0 = 32 * 3 + (w.toNat % 16 + 16 - 3) % 16 :=
      fun w => IdBits.start_toNat 96#32 w 3#32 (by decide) (by decide)
    have hw : region2.sl.v351 d L k g6 = (a6).view.read (Elt F) g6 (ix1 ⟨128 * 1 + 16 * k.val + 3, h1⟩) := by
      delta_sl [v351, r]
      simp only [LanePayK1.k1_pay95_nf, LanePayK1.k1_pay79_nf, View.readAt_rect]
      exact (LaneLib.extract_lane (((a6).view.slice (Rect.unit (s := S512) (k1_off36 k) S16.size (k1_off36_inb k))).read (Elt F) g6) 3 (by decide) _ _).trans (hid ⟨3, by decide⟩ h1)
    delta_sl [v371, H11_8, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off43 k (region2.sl.v351 d L k g6)) (k1_off44 (region2.sl.v351 d L k g6)) ![96] ![112] _ _ _ _ shapeCasts_S1x16_S16 k.val 3 (region2.sl.v351 d L k g6) _ hk (by decide) (hA0 _) (hA1 _) (hB _) rfl rfl h2 hw
  · rw [LaneSteps.nested16_at_4 _ hiota]
    refine congrArg₂ FloatOps.addf (LaneTrip.chunk_read (a10).view g10 (k1_off36 k) _ hoff _ ⟨4, hj⟩ h1) ?_
    have hA0 : ∀ w : BitVec 32, (k1_off45 k w) 0 = 16 * k.val + 4 := fun w => ChkLib.row_toNat k.val hk 4#32 (by decide)
    have hA1 : ∀ w : BitVec 32, (k1_off45 k w) 1 = ((w &&& 127#32) &&& 112#32).toNat := fun w => rfl
    have hB : ∀ w : BitVec 32, (k1_off46 w) 0 = 32 * 4 + (w.toNat % 16 + 16 - 4) % 16 :=
      fun w => IdBits.start_toNat 128#32 w 4#32 (by decide) (by decide)
    have hw : region2.sl.v380 d L k g6 = (a6).view.read (Elt F) g6 (ix1 ⟨128 * 1 + 16 * k.val + 4, h1⟩) := by
      delta_sl [v380, r]
      simp only [LanePayK1.k1_pay99_nf, LanePayK1.k1_pay79_nf, View.readAt_rect]
      exact (LaneLib.extract_lane (((a6).view.slice (Rect.unit (s := S512) (k1_off36 k) S16.size (k1_off36_inb k))).read (Elt F) g6) 4 (by decide) _ _).trans (hid ⟨4, by decide⟩ h1)
    delta_sl [v400, H11_10, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off45 k (region2.sl.v380 d L k g6)) (k1_off46 (region2.sl.v380 d L k g6)) ![128] ![144] _ _ _ _ shapeCasts_S1x16_S16 k.val 4 (region2.sl.v380 d L k g6) _ hk (by decide) (hA0 _) (hA1 _) (hB _) rfl rfl h2 hw
  · rw [LaneSteps.nested16_at_5 _ hiota]
    refine congrArg₂ FloatOps.addf (LaneTrip.chunk_read (a10).view g10 (k1_off36 k) _ hoff _ ⟨5, hj⟩ h1) ?_
    have hA0 : ∀ w : BitVec 32, (k1_off47 k w) 0 = 16 * k.val + 5 := fun w => ChkLib.row_toNat k.val hk 5#32 (by decide)
    have hA1 : ∀ w : BitVec 32, (k1_off47 k w) 1 = ((w &&& 127#32) &&& 112#32).toNat := fun w => rfl
    have hB : ∀ w : BitVec 32, (k1_off48 w) 0 = 32 * 5 + (w.toNat % 16 + 16 - 5) % 16 :=
      fun w => IdBits.start_toNat 160#32 w 5#32 (by decide) (by decide)
    have hw : region2.sl.v409 d L k g6 = (a6).view.read (Elt F) g6 (ix1 ⟨128 * 1 + 16 * k.val + 5, h1⟩) := by
      delta_sl [v409, r]
      simp only [LanePayK1.k1_pay104_nf, LanePayK1.k1_pay79_nf, View.readAt_rect]
      exact (LaneLib.extract_lane (((a6).view.slice (Rect.unit (s := S512) (k1_off36 k) S16.size (k1_off36_inb k))).read (Elt F) g6) 5 (by decide) _ _).trans (hid ⟨5, by decide⟩ h1)
    delta_sl [v429, H11_12, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off47 k (region2.sl.v409 d L k g6)) (k1_off48 (region2.sl.v409 d L k g6)) ![160] ![176] _ _ _ _ shapeCasts_S1x16_S16 k.val 5 (region2.sl.v409 d L k g6) _ hk (by decide) (hA0 _) (hA1 _) (hB _) rfl rfl h2 hw
  · rw [LaneSteps.nested16_at_6 _ hiota]
    refine congrArg₂ FloatOps.addf (LaneTrip.chunk_read (a10).view g10 (k1_off36 k) _ hoff _ ⟨6, hj⟩ h1) ?_
    have hA0 : ∀ w : BitVec 32, (k1_off49 k w) 0 = 16 * k.val + 6 := fun w => ChkLib.row_toNat k.val hk 6#32 (by decide)
    have hA1 : ∀ w : BitVec 32, (k1_off49 k w) 1 = ((w &&& 127#32) &&& 112#32).toNat := fun w => rfl
    have hB : ∀ w : BitVec 32, (k1_off50 w) 0 = 32 * 6 + (w.toNat % 16 + 16 - 6) % 16 :=
      fun w => IdBits.start_toNat 192#32 w 6#32 (by decide) (by decide)
    have hw : region2.sl.v438 d L k g6 = (a6).view.read (Elt F) g6 (ix1 ⟨128 * 1 + 16 * k.val + 6, h1⟩) := by
      delta_sl [v438, r]
      simp only [LanePayK1.k1_pay109_nf, LanePayK1.k1_pay79_nf, View.readAt_rect]
      exact (LaneLib.extract_lane (((a6).view.slice (Rect.unit (s := S512) (k1_off36 k) S16.size (k1_off36_inb k))).read (Elt F) g6) 6 (by decide) _ _).trans (hid ⟨6, by decide⟩ h1)
    delta_sl [v458, H11_14, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off49 k (region2.sl.v438 d L k g6)) (k1_off50 (region2.sl.v438 d L k g6)) ![192] ![208] _ _ _ _ shapeCasts_S1x16_S16 k.val 6 (region2.sl.v438 d L k g6) _ hk (by decide) (hA0 _) (hA1 _) (hB _) rfl rfl h2 hw
  · rw [LaneSteps.nested16_at_7 _ hiota]
    refine congrArg₂ FloatOps.addf (LaneTrip.chunk_read (a10).view g10 (k1_off36 k) _ hoff _ ⟨7, hj⟩ h1) ?_
    have hA0 : ∀ w : BitVec 32, (k1_off51 k w) 0 = 16 * k.val + 7 := fun w => ChkLib.row_toNat k.val hk 7#32 (by decide)
    have hA1 : ∀ w : BitVec 32, (k1_off51 k w) 1 = ((w &&& 127#32) &&& 112#32).toNat := fun w => rfl
    have hB : ∀ w : BitVec 32, (k1_off52 w) 0 = 32 * 7 + (w.toNat % 16 + 16 - 7) % 16 :=
      fun w => IdBits.start_toNat 224#32 w 7#32 (by decide) (by decide)
    have hw : region2.sl.v467 d L k g6 = (a6).view.read (Elt F) g6 (ix1 ⟨128 * 1 + 16 * k.val + 7, h1⟩) := by
      delta_sl [v467, r]
      simp only [LanePayK1.k1_pay114_nf, LanePayK1.k1_pay79_nf, View.readAt_rect]
      exact (LaneLib.extract_lane (((a6).view.slice (Rect.unit (s := S512) (k1_off36 k) S16.size (k1_off36_inb k))).read (Elt F) g6) 7 (by decide) _ _).trans (hid ⟨7, by decide⟩ h1)
    delta_sl [v487, H11_16, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off51 k (region2.sl.v467 d L k g6)) (k1_off52 (region2.sl.v467 d L k g6)) ![224] ![240] _ _ _ _ shapeCasts_S1x16_S16 k.val 7 (region2.sl.v467 d L k g6) _ hk (by decide) (hA0 _) (hA1 _) (hB _) rfl rfl h2 hw
  · rw [LaneSteps.nested16_at_8 _ hiota]
    refine congrArg₂ FloatOps.addf (LaneTrip.chunk_read (a10).view g10 (k1_off36 k) _ hoff _ ⟨8, hj⟩ h1) ?_
    have hA0 : ∀ w : BitVec 32, (k1_off53 k w) 0 = 16 * k.val + 8 := fun w => ChkLib.row_toNat k.val hk 8#32 (by decide)
    have hA1 : ∀ w : BitVec 32, (k1_off53 k w) 1 = ((w &&& 127#32) &&& 112#32).toNat := fun w => rfl
    have hB : ∀ w : BitVec 32, (k1_off54 w) 0 = 32 * 8 + (w.toNat % 16 + 16 - 8) % 16 :=
      fun w => IdBits.start_toNat 256#32 w 8#32 (by decide) (by decide)
    have hw : region2.sl.v496 d L k g6 = (a6).view.read (Elt F) g6 (ix1 ⟨128 * 1 + 16 * k.val + 8, h1⟩) := by
      delta_sl [v496, r]
      simp only [LanePayK1.k1_pay119_nf, LanePayK1.k1_pay79_nf, View.readAt_rect]
      exact (LaneLib.extract_lane (((a6).view.slice (Rect.unit (s := S512) (k1_off36 k) S16.size (k1_off36_inb k))).read (Elt F) g6) 8 (by decide) _ _).trans (hid ⟨8, by decide⟩ h1)
    delta_sl [v516, H11_18, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off53 k (region2.sl.v496 d L k g6)) (k1_off54 (region2.sl.v496 d L k g6)) ![256] ![272] _ _ _ _ shapeCasts_S1x16_S16 k.val 8 (region2.sl.v496 d L k g6) _ hk (by decide) (hA0 _) (hA1 _) (hB _) rfl rfl h2 hw
  · rw [LaneSteps.nested16_at_9 _ hiota]
    refine congrArg₂ FloatOps.addf (LaneTrip.chunk_read (a10).view g10 (k1_off36 k) _ hoff _ ⟨9, hj⟩ h1) ?_
    have hA0 : ∀ w : BitVec 32, (k1_off55 k w) 0 = 16 * k.val + 9 := fun w => ChkLib.row_toNat k.val hk 9#32 (by decide)
    have hA1 : ∀ w : BitVec 32, (k1_off55 k w) 1 = ((w &&& 127#32) &&& 112#32).toNat := fun w => rfl
    have hB : ∀ w : BitVec 32, (k1_off56 w) 0 = 32 * 9 + (w.toNat % 16 + 16 - 9) % 16 :=
      fun w => IdBits.start_toNat 288#32 w 9#32 (by decide) (by decide)
    have hw : region2.sl.v525 d L k g6 = (a6).view.read (Elt F) g6 (ix1 ⟨128 * 1 + 16 * k.val + 9, h1⟩) := by
      delta_sl [v525, r]
      simp only [LanePayK1.k1_pay124_nf, LanePayK1.k1_pay79_nf, View.readAt_rect]
      exact (LaneLib.extract_lane (((a6).view.slice (Rect.unit (s := S512) (k1_off36 k) S16.size (k1_off36_inb k))).read (Elt F) g6) 9 (by decide) _ _).trans (hid ⟨9, by decide⟩ h1)
    delta_sl [v545, H11_20, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off55 k (region2.sl.v525 d L k g6)) (k1_off56 (region2.sl.v525 d L k g6)) ![288] ![304] _ _ _ _ shapeCasts_S1x16_S16 k.val 9 (region2.sl.v525 d L k g6) _ hk (by decide) (hA0 _) (hA1 _) (hB _) rfl rfl h2 hw
  · rw [LaneSteps.nested16_at_10 _ hiota]
    refine congrArg₂ FloatOps.addf (LaneTrip.chunk_read (a10).view g10 (k1_off36 k) _ hoff _ ⟨10, hj⟩ h1) ?_
    have hA0 : ∀ w : BitVec 32, (k1_off57 k w) 0 = 16 * k.val + 10 := fun w => ChkLib.row_toNat k.val hk 10#32 (by decide)
    have hA1 : ∀ w : BitVec 32, (k1_off57 k w) 1 = ((w &&& 127#32) &&& 112#32).toNat := fun w => rfl
    have hB : ∀ w : BitVec 32, (k1_off58 w) 0 = 32 * 10 + (w.toNat % 16 + 16 - 10) % 16 :=
      fun w => IdBits.start_toNat 320#32 w 10#32 (by decide) (by decide)
    have hw : region2.sl.v554 d L k g6 = (a6).view.read (Elt F) g6 (ix1 ⟨128 * 1 + 16 * k.val + 10, h1⟩) := by
      delta_sl [v554, r]
      simp only [LanePayK1.k1_pay129_nf, LanePayK1.k1_pay79_nf, View.readAt_rect]
      exact (LaneLib.extract_lane (((a6).view.slice (Rect.unit (s := S512) (k1_off36 k) S16.size (k1_off36_inb k))).read (Elt F) g6) 10 (by decide) _ _).trans (hid ⟨10, by decide⟩ h1)
    delta_sl [v574, H11_22, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off57 k (region2.sl.v554 d L k g6)) (k1_off58 (region2.sl.v554 d L k g6)) ![320] ![336] _ _ _ _ shapeCasts_S1x16_S16 k.val 10 (region2.sl.v554 d L k g6) _ hk (by decide) (hA0 _) (hA1 _) (hB _) rfl rfl h2 hw
  · rw [LaneSteps.nested16_at_11 _ hiota]
    refine congrArg₂ FloatOps.addf (LaneTrip.chunk_read (a10).view g10 (k1_off36 k) _ hoff _ ⟨11, hj⟩ h1) ?_
    have hA0 : ∀ w : BitVec 32, (k1_off59 k w) 0 = 16 * k.val + 11 := fun w => ChkLib.row_toNat k.val hk 11#32 (by decide)
    have hA1 : ∀ w : BitVec 32, (k1_off59 k w) 1 = ((w &&& 127#32) &&& 112#32).toNat := fun w => rfl
    have hB : ∀ w : BitVec 32, (k1_off60 w) 0 = 32 * 11 + (w.toNat % 16 + 16 - 11) % 16 :=
      fun w => IdBits.start_toNat 352#32 w 11#32 (by decide) (by decide)
    have hw : region2.sl.v583 d L k g6 = (a6).view.read (Elt F) g6 (ix1 ⟨128 * 1 + 16 * k.val + 11, h1⟩) := by
      delta_sl [v583, r]
      simp only [LanePayK1.k1_pay133_nf, LanePayK1.k1_pay79_nf, View.readAt_rect]
      exact (LaneLib.extract_lane (((a6).view.slice (Rect.unit (s := S512) (k1_off36 k) S16.size (k1_off36_inb k))).read (Elt F) g6) 11 (by decide) _ _).trans (hid ⟨11, by decide⟩ h1)
    delta_sl [v603, H11_24, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off59 k (region2.sl.v583 d L k g6)) (k1_off60 (region2.sl.v583 d L k g6)) ![352] ![368] _ _ _ _ shapeCasts_S1x16_S16 k.val 11 (region2.sl.v583 d L k g6) _ hk (by decide) (hA0 _) (hA1 _) (hB _) rfl rfl h2 hw
  · rw [LaneSteps.nested16_at_12 _ hiota]
    refine congrArg₂ FloatOps.addf (LaneTrip.chunk_read (a10).view g10 (k1_off36 k) _ hoff _ ⟨12, hj⟩ h1) ?_
    have hA0 : ∀ w : BitVec 32, (k1_off61 k w) 0 = 16 * k.val + 12 := fun w => ChkLib.row_toNat k.val hk 12#32 (by decide)
    have hA1 : ∀ w : BitVec 32, (k1_off61 k w) 1 = ((w &&& 127#32) &&& 112#32).toNat := fun w => rfl
    have hB : ∀ w : BitVec 32, (k1_off62 w) 0 = 32 * 12 + (w.toNat % 16 + 16 - 12) % 16 :=
      fun w => IdBits.start_toNat 384#32 w 12#32 (by decide) (by decide)
    have hw : region2.sl.v612 d L k g6 = (a6).view.read (Elt F) g6 (ix1 ⟨128 * 1 + 16 * k.val + 12, h1⟩) := by
      delta_sl [v612, r]
      simp only [LanePayK1.k1_pay138_nf, LanePayK1.k1_pay79_nf, View.readAt_rect]
      exact (LaneLib.extract_lane (((a6).view.slice (Rect.unit (s := S512) (k1_off36 k) S16.size (k1_off36_inb k))).read (Elt F) g6) 12 (by decide) _ _).trans (hid ⟨12, by decide⟩ h1)
    delta_sl [v632, H11_26, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off61 k (region2.sl.v612 d L k g6)) (k1_off62 (region2.sl.v612 d L k g6)) ![384] ![400] _ _ _ _ shapeCasts_S1x16_S16 k.val 12 (region2.sl.v612 d L k g6) _ hk (by decide) (hA0 _) (hA1 _) (hB _) rfl rfl h2 hw
  · rw [LaneSteps.nested16_at_13 _ hiota]
    refine congrArg₂ FloatOps.addf (LaneTrip.chunk_read (a10).view g10 (k1_off36 k) _ hoff _ ⟨13, hj⟩ h1) ?_
    have hA0 : ∀ w : BitVec 32, (k1_off63 k w) 0 = 16 * k.val + 13 := fun w => ChkLib.row_toNat k.val hk 13#32 (by decide)
    have hA1 : ∀ w : BitVec 32, (k1_off63 k w) 1 = ((w &&& 127#32) &&& 112#32).toNat := fun w => rfl
    have hB : ∀ w : BitVec 32, (k1_off64 w) 0 = 32 * 13 + (w.toNat % 16 + 16 - 13) % 16 :=
      fun w => IdBits.start_toNat 416#32 w 13#32 (by decide) (by decide)
    have hw : region2.sl.v641 d L k g6 = (a6).view.read (Elt F) g6 (ix1 ⟨128 * 1 + 16 * k.val + 13, h1⟩) := by
      delta_sl [v641, r]
      simp only [LanePayK1.k1_pay143_nf, LanePayK1.k1_pay79_nf, View.readAt_rect]
      exact (LaneLib.extract_lane (((a6).view.slice (Rect.unit (s := S512) (k1_off36 k) S16.size (k1_off36_inb k))).read (Elt F) g6) 13 (by decide) _ _).trans (hid ⟨13, by decide⟩ h1)
    delta_sl [v661, H11_28, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off63 k (region2.sl.v641 d L k g6)) (k1_off64 (region2.sl.v641 d L k g6)) ![416] ![432] _ _ _ _ shapeCasts_S1x16_S16 k.val 13 (region2.sl.v641 d L k g6) _ hk (by decide) (hA0 _) (hA1 _) (hB _) rfl rfl h2 hw
  · rw [LaneSteps.nested16_at_14 _ hiota]
    refine congrArg₂ FloatOps.addf (LaneTrip.chunk_read (a10).view g10 (k1_off36 k) _ hoff _ ⟨14, hj⟩ h1) ?_
    have hA0 : ∀ w : BitVec 32, (k1_off65 k w) 0 = 16 * k.val + 14 := fun w => ChkLib.row_toNat k.val hk 14#32 (by decide)
    have hA1 : ∀ w : BitVec 32, (k1_off65 k w) 1 = ((w &&& 127#32) &&& 112#32).toNat := fun w => rfl
    have hB : ∀ w : BitVec 32, (k1_off66 w) 0 = 32 * 14 + (w.toNat % 16 + 16 - 14) % 16 :=
      fun w => IdBits.start_toNat 448#32 w 14#32 (by decide) (by decide)
    have hw : region2.sl.v670 d L k g6 = (a6).view.read (Elt F) g6 (ix1 ⟨128 * 1 + 16 * k.val + 14, h1⟩) := by
      delta_sl [v670, r]
      simp only [LanePayK1.k1_pay148_nf, LanePayK1.k1_pay79_nf, View.readAt_rect]
      exact (LaneLib.extract_lane (((a6).view.slice (Rect.unit (s := S512) (k1_off36 k) S16.size (k1_off36_inb k))).read (Elt F) g6) 14 (by decide) _ _).trans (hid ⟨14, by decide⟩ h1)
    delta_sl [v690, H11_30, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off65 k (region2.sl.v670 d L k g6)) (k1_off66 (region2.sl.v670 d L k g6)) ![448] ![464] _ _ _ _ shapeCasts_S1x16_S16 k.val 14 (region2.sl.v670 d L k g6) _ hk (by decide) (hA0 _) (hA1 _) (hB _) rfl rfl h2 hw
  · rw [LaneSteps.nested16_at_15 _ hiota]
    refine congrArg₂ FloatOps.addf (LaneTrip.chunk_read (a10).view g10 (k1_off36 k) _ hoff _ ⟨15, hj⟩ h1) ?_
    have hA0 : ∀ w : BitVec 32, (k1_off67 k w) 0 = 16 * k.val + 15 := fun w => ChkLib.row_toNat k.val hk 15#32 (by decide)
    have hA1 : ∀ w : BitVec 32, (k1_off67 k w) 1 = ((w &&& 127#32) &&& 112#32).toNat := fun w => rfl
    have hB : ∀ w : BitVec 32, (k1_off68 w) 0 = 32 * 15 + (w.toNat % 16 + 16 - 15) % 16 :=
      fun w => IdBits.start_toNat 480#32 w 15#32 (by decide) (by decide)
    have hw : region2.sl.v699 d L k g6 = (a6).view.read (Elt F) g6 (ix1 ⟨128 * 1 + 16 * k.val + 15, h1⟩) := by
      delta_sl [v699, r]
      simp only [LanePayK1.k1_pay152_nf, LanePayK1.k1_pay79_nf, View.readAt_rect]
      exact (LaneLib.extract_lane (((a6).view.slice (Rect.unit (s := S512) (k1_off36 k) S16.size (k1_off36_inb k))).read (Elt F) g6) 15 (by decide) _ _).trans (hid ⟨15, by decide⟩ h1)
    delta_sl [v719, H11_32, r_3, r_4, r_8, r_15]
    simp only [LanePayK1.k1_pay79_nf, LanePayK1.k1_pay80_nf, LanePayK1.k1_pay81_nf, LanePayK1.k1_pay82_nf, LanePayK1.k1_pay83_nf, LanePayK1.k1_pay84_nf, LanePayK1.k1_pay85_nf, LanePayK1.k1_pay86_nf, LanePayK1.k1_pay87_nf, LanePayK1.k1_pay88_nf, LanePayK1.k1_pay89_nf, LanePayK1.k1_pay90_nf, LanePayK1.k1_pay91_nf, LanePayK1.k1_pay92_nf, LanePayK1.k1_pay93_nf, LanePayK1.k1_pay94_nf, LanePayK1.k1_pay95_nf, LanePayK1.k1_pay96_nf, LanePayK1.k1_pay97_nf, LanePayK1.k1_pay98_nf, LanePayK1.k1_pay99_nf, LanePayK1.k1_pay100_nf, LanePayK1.k1_pay101_nf, LanePayK1.k1_pay102_nf, LanePayK1.k1_pay103_nf, LanePayK1.k1_pay104_nf, LanePayK1.k1_pay105_nf, LanePayK1.k1_pay106_nf, LanePayK1.k1_pay107_nf, LanePayK1.k1_pay108_nf, LanePayK1.k1_pay109_nf, LanePayK1.k1_pay110_nf, LanePayK1.k1_pay111_nf, LanePayK1.k1_pay112_nf, LanePayK1.k1_pay113_nf, LanePayK1.k1_pay114_nf, LanePayK1.k1_pay115_nf, LanePayK1.k1_pay116_nf, LanePayK1.k1_pay117_nf, LanePayK1.k1_pay118_nf, LanePayK1.k1_pay119_nf, LanePayK1.k1_pay120_nf, LanePayK1.k1_pay121_nf, LanePayK1.k1_pay122_nf, LanePayK1.k1_pay123_nf, LanePayK1.k1_pay124_nf, LanePayK1.k1_pay125_nf, LanePayK1.k1_pay126_nf, LanePayK1.k1_pay127_nf, LanePayK1.k1_pay128_nf, LanePayK1.k1_pay129_nf, LanePayK1.k1_pay130_nf, LanePayK1.k1_pay131_nf, LanePayK1.k1_pay132_nf, LanePayK1.k1_pay133_nf, LanePayK1.k1_pay134_nf, LanePayK1.k1_pay135_nf, LanePayK1.k1_pay136_nf, LanePayK1.k1_pay137_nf, LanePayK1.k1_pay138_nf, LanePayK1.k1_pay139_nf, LanePayK1.k1_pay140_nf, LanePayK1.k1_pay141_nf, LanePayK1.k1_pay142_nf, LanePayK1.k1_pay143_nf, LanePayK1.k1_pay144_nf, LanePayK1.k1_pay145_nf, LanePayK1.k1_pay146_nf, LanePayK1.k1_pay147_nf, LanePayK1.k1_pay148_nf, LanePayK1.k1_pay149_nf, LanePayK1.k1_pay150_nf, LanePayK1.k1_pay151_nf, LanePayK1.k1_pay152_nf, LanePayK1.k1_pay153_nf, LanePayK1.k1_pay154_nf, LanePayK1.k1_pay155_nf, LanePayK1.k1_pay156_nf, View.readAt_rect]
    exact LaneTrip.lane_value_at (a11).view _ (a9).view gB _ (k1_off67 k (region2.sl.v699 d L k g6)) (k1_off68 (region2.sl.v699 d L k g6)) ![480] ![496] _ _ _ _ shapeCasts_S1x16_S16 k.val 15 (region2.sl.v699 d L k g6) _ hk (by decide) (hA0 _) (hA1 _) (hB _) rfl rfl h2 hw

set_option maxHeartbeats 4000000 in
/-- Trip `k` of chunk 2's loop: the ids, the base values and the gathered rows are read only; the trip stores its sixteen
    results, each the base value plus the gathered row's entry at the id's lane. -/
theorem region3 (hchk : ChkAll) (k : Fin k1_t3_loop.trips) (acc : BitVec 32)
    (g6 : Buf (Elt F) ((a6).view.loc (V d (cV L) (jV L)))) (g10 : Buf (Elt F) ((a10).view.loc (V d (cV L) (jV L)))) (gB : Buf (Elt F) ((a8).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a8).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k1_t3_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a8).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k1_off103 k) S16.size (k1_off103_inb k), v⟩])
                ∗ ⌜LaneOK 2 k.val ((a6).view.read (Elt F) g6) ((a10).view.read (Elt F) g10) ((a8).view.read (Elt F) gB) v⌝) := by
  iintro ⟨H6, H10, HB, H11, H12⟩
  sl_exec (disch := first | sl_exact (hchk.h33 _ _) | sl_exact (hchk.h34 _ _) | sl_exact (hchk.h35 _ _) | sl_exact (hchk.h36 _ _) | sl_exact (hchk.h37 _ _) | sl_exact (hchk.h38 _ _) | sl_exact (hchk.h39 _ _) | sl_exact (hchk.h40 _ _) | sl_exact (hchk.h41 _ _) | sl_exact (hchk.h42 _ _) | sl_exact (hchk.h43 _ _) | sl_exact (hchk.h44 _ _) | sl_exact (hchk.h45 _ _) | sl_exact (hchk.h46 _ _) | sl_exact (hchk.h47 _ _) | sl_exact (hchk.h48 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k1_t3_abs.2.1
  have hoff : (k1_off70 k) 0 = 128 * 2 + 16 * k.val := by
    rw [k1_off70_eq]
    show 16 * k.val + 256 = 128 * 2 + 16 * k.val
    omega
  have hid : ∀ (j : Fin 16) (h : 128 * 2 + 16 * k.val + j.val < 512),
      (((a6).view.slice (Rect.unit (s := S512) (k1_off70 k) S16.size (k1_off70_inb k))).read (Elt F) g6) (ix1 j) = (a6).view.read (Elt F) g6 (ix1 ⟨128 * 2 + 16 * k.val + j.val, h⟩) :=
    fun j h => LaneTrip.chunk_read (a6).view g6 (k1_off70 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
  obtain ⟨j, hj⟩ := l
  interval_cases j
  · rw [LaneSteps.nested16_at_0 _ hiota]
    refine congrArg₂ FloatOps.addf (LaneTrip.chunk_read (a10).view g10 (k1_off70 k) _ hoff _ ⟨0, hj⟩ h1) ?_
    have hA0 : ∀ w : BitVec 32, (k1_off71 k w) 0 = 16 * k.val + 0 := fun w => ChkLib.row_toNat k.val hk 0#32 (by decide)
    have hA1 : ∀ w : BitVec 32, (k1_off71 k w) 1 = ((w &&& 127#32) &&& 112#32).toNat := fun w => rfl
    have hB : ∀ w : BitVec 32, (k1_off72 w) 0 = 32 * 0 + (w.toNat % 16 + 16 - 0) % 16 :=
      fun w => IdBits.start_toNat 0#32 w 0#32 (by decide) (by decide)
    have hw : region3.sl.v264 d L k g6 = (a6).view.read (Elt F) g6 (ix1 ⟨128 * 2 + 16 * k.val + 0, h1⟩) := by
      delta_sl [v264]
      simp only [LanePayK1.k1_pay158_nf, LanePayK1.k1_pay157_nf, View.readAt_rect]
      exact (LaneLib.extract_lane (((a6).view.slice (Rect.unit (s := S512) (k1_off70 k) S16.size (k1_off70_inb k))).read (Elt F) g6) 0 (by decide) _ _).trans (hid ⟨0, by decide⟩ h1)
    delta_sl [v284, H11_2, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off71 k (region3.sl.v264 d L k g6)) (k1_off72 (region3.sl.v264 d L k g6)) ![0] ![16] _ _ _ _ shapeCasts_S1x16_S16 k.val 0 (region3.sl.v264 d L k g6) _ hk (by decide) (hA0 _) (hA1 _) (hB _) rfl rfl h2 hw
  · rw [LaneSteps.nested16_at_1 _ hiota]
    refine congrArg₂ FloatOps.addf (LaneTrip.chunk_read (a10).view g10 (k1_off70 k) _ hoff _ ⟨1, hj⟩ h1) ?_
    have hA0 : ∀ w : BitVec 32, (k1_off73 k w) 0 = 16 * k.val + 1 := fun w => ChkLib.row_toNat k.val hk 1#32 (by decide)
    have hA1 : ∀ w : BitVec 32, (k1_off73 k w) 1 = ((w &&& 127#32) &&& 112#32).toNat := fun w => rfl
    have hB : ∀ w : BitVec 32, (k1_off74 w) 0 = 32 * 1 + (w.toNat % 16 + 16 - 1) % 16 :=
      fun w => IdBits.start_toNat 32#32 w 1#32 (by decide) (by decide)
    have hw : region3.sl.v293 d L k g6 = (a6).view.read (Elt F) g6 (ix1 ⟨128 * 2 + 16 * k.val + 1, h1⟩) := by
      delta_sl [v293, r]
      simp only [LanePayK1.k1_pay163_nf, LanePayK1.k1_pay157_nf, View.readAt_rect]
      exact (LaneLib.extract_lane (((a6).view.slice (Rect.unit (s := S512) (k1_off70 k) S16.size (k1_off70_inb k))).read (Elt F) g6) 1 (by decide) _ _).trans (hid ⟨1, by decide⟩ h1)
    delta_sl [v313, H11_4, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off73 k (region3.sl.v293 d L k g6)) (k1_off74 (region3.sl.v293 d L k g6)) ![32] ![48] _ _ _ _ shapeCasts_S1x16_S16 k.val 1 (region3.sl.v293 d L k g6) _ hk (by decide) (hA0 _) (hA1 _) (hB _) rfl rfl h2 hw
  · rw [LaneSteps.nested16_at_2 _ hiota]
    refine congrArg₂ FloatOps.addf (LaneTrip.chunk_read (a10).view g10 (k1_off70 k) _ hoff _ ⟨2, hj⟩ h1) ?_
    have hA0 : ∀ w : BitVec 32, (k1_off75 k w) 0 = 16 * k.val + 2 := fun w => ChkLib.row_toNat k.val hk 2#32 (by decide)
    have hA1 : ∀ w : BitVec 32, (k1_off75 k w) 1 = ((w &&& 127#32) &&& 112#32).toNat := fun w => rfl
    have hB : ∀ w : BitVec 32, (k1_off76 w) 0 = 32 * 2 + (w.toNat % 16 + 16 - 2) % 16 :=
      fun w => IdBits.start_toNat 64#32 w 2#32 (by decide) (by decide)
    have hw : region3.sl.v322 d L k g6 = (a6).view.read (Elt F) g6 (ix1 ⟨128 * 2 + 16 * k.val + 2, h1⟩) := by
      delta_sl [v322, r]
      simp only [LanePayK1.k1_pay168_nf, LanePayK1.k1_pay157_nf, View.readAt_rect]
      exact (LaneLib.extract_lane (((a6).view.slice (Rect.unit (s := S512) (k1_off70 k) S16.size (k1_off70_inb k))).read (Elt F) g6) 2 (by decide) _ _).trans (hid ⟨2, by decide⟩ h1)
    delta_sl [v342, H11_6, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off75 k (region3.sl.v322 d L k g6)) (k1_off76 (region3.sl.v322 d L k g6)) ![64] ![80] _ _ _ _ shapeCasts_S1x16_S16 k.val 2 (region3.sl.v322 d L k g6) _ hk (by decide) (hA0 _) (hA1 _) (hB _) rfl rfl h2 hw
  · rw [LaneSteps.nested16_at_3 _ hiota]
    refine congrArg₂ FloatOps.addf (LaneTrip.chunk_read (a10).view g10 (k1_off70 k) _ hoff _ ⟨3, hj⟩ h1) ?_
    have hA0 : ∀ w : BitVec 32, (k1_off77 k w) 0 = 16 * k.val + 3 := fun w => ChkLib.row_toNat k.val hk 3#32 (by decide)
    have hA1 : ∀ w : BitVec 32, (k1_off77 k w) 1 = ((w &&& 127#32) &&& 112#32).toNat := fun w => rfl
    have hB : ∀ w : BitVec 32, (k1_off78 w) 0 = 32 * 3 + (w.toNat % 16 + 16 - 3) % 16 :=
      fun w => IdBits.start_toNat 96#32 w 3#32 (by decide) (by decide)
    have hw : region3.sl.v351 d L k g6 = (a6).view.read (Elt F) g6 (ix1 ⟨128 * 2 + 16 * k.val + 3, h1⟩) := by
      delta_sl [v351, r]
      simp only [LanePayK1.k1_pay173_nf, LanePayK1.k1_pay157_nf, View.readAt_rect]
      exact (LaneLib.extract_lane (((a6).view.slice (Rect.unit (s := S512) (k1_off70 k) S16.size (k1_off70_inb k))).read (Elt F) g6) 3 (by decide) _ _).trans (hid ⟨3, by decide⟩ h1)
    delta_sl [v371, H11_8, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off77 k (region3.sl.v351 d L k g6)) (k1_off78 (region3.sl.v351 d L k g6)) ![96] ![112] _ _ _ _ shapeCasts_S1x16_S16 k.val 3 (region3.sl.v351 d L k g6) _ hk (by decide) (hA0 _) (hA1 _) (hB _) rfl rfl h2 hw
  · rw [LaneSteps.nested16_at_4 _ hiota]
    refine congrArg₂ FloatOps.addf (LaneTrip.chunk_read (a10).view g10 (k1_off70 k) _ hoff _ ⟨4, hj⟩ h1) ?_
    have hA0 : ∀ w : BitVec 32, (k1_off79 k w) 0 = 16 * k.val + 4 := fun w => ChkLib.row_toNat k.val hk 4#32 (by decide)
    have hA1 : ∀ w : BitVec 32, (k1_off79 k w) 1 = ((w &&& 127#32) &&& 112#32).toNat := fun w => rfl
    have hB : ∀ w : BitVec 32, (k1_off80 w) 0 = 32 * 4 + (w.toNat % 16 + 16 - 4) % 16 :=
      fun w => IdBits.start_toNat 128#32 w 4#32 (by decide) (by decide)
    have hw : region3.sl.v380 d L k g6 = (a6).view.read (Elt F) g6 (ix1 ⟨128 * 2 + 16 * k.val + 4, h1⟩) := by
      delta_sl [v380, r]
      simp only [LanePayK1.k1_pay177_nf, LanePayK1.k1_pay157_nf, View.readAt_rect]
      exact (LaneLib.extract_lane (((a6).view.slice (Rect.unit (s := S512) (k1_off70 k) S16.size (k1_off70_inb k))).read (Elt F) g6) 4 (by decide) _ _).trans (hid ⟨4, by decide⟩ h1)
    delta_sl [v400, H11_10, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off79 k (region3.sl.v380 d L k g6)) (k1_off80 (region3.sl.v380 d L k g6)) ![128] ![144] _ _ _ _ shapeCasts_S1x16_S16 k.val 4 (region3.sl.v380 d L k g6) _ hk (by decide) (hA0 _) (hA1 _) (hB _) rfl rfl h2 hw
  · rw [LaneSteps.nested16_at_5 _ hiota]
    refine congrArg₂ FloatOps.addf (LaneTrip.chunk_read (a10).view g10 (k1_off70 k) _ hoff _ ⟨5, hj⟩ h1) ?_
    have hA0 : ∀ w : BitVec 32, (k1_off81 k w) 0 = 16 * k.val + 5 := fun w => ChkLib.row_toNat k.val hk 5#32 (by decide)
    have hA1 : ∀ w : BitVec 32, (k1_off81 k w) 1 = ((w &&& 127#32) &&& 112#32).toNat := fun w => rfl
    have hB : ∀ w : BitVec 32, (k1_off82 w) 0 = 32 * 5 + (w.toNat % 16 + 16 - 5) % 16 :=
      fun w => IdBits.start_toNat 160#32 w 5#32 (by decide) (by decide)
    have hw : region3.sl.v409 d L k g6 = (a6).view.read (Elt F) g6 (ix1 ⟨128 * 2 + 16 * k.val + 5, h1⟩) := by
      delta_sl [v409, r]
      simp only [LanePayK1.k1_pay182_nf, LanePayK1.k1_pay157_nf, View.readAt_rect]
      exact (LaneLib.extract_lane (((a6).view.slice (Rect.unit (s := S512) (k1_off70 k) S16.size (k1_off70_inb k))).read (Elt F) g6) 5 (by decide) _ _).trans (hid ⟨5, by decide⟩ h1)
    delta_sl [v429, H11_12, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off81 k (region3.sl.v409 d L k g6)) (k1_off82 (region3.sl.v409 d L k g6)) ![160] ![176] _ _ _ _ shapeCasts_S1x16_S16 k.val 5 (region3.sl.v409 d L k g6) _ hk (by decide) (hA0 _) (hA1 _) (hB _) rfl rfl h2 hw
  · rw [LaneSteps.nested16_at_6 _ hiota]
    refine congrArg₂ FloatOps.addf (LaneTrip.chunk_read (a10).view g10 (k1_off70 k) _ hoff _ ⟨6, hj⟩ h1) ?_
    have hA0 : ∀ w : BitVec 32, (k1_off83 k w) 0 = 16 * k.val + 6 := fun w => ChkLib.row_toNat k.val hk 6#32 (by decide)
    have hA1 : ∀ w : BitVec 32, (k1_off83 k w) 1 = ((w &&& 127#32) &&& 112#32).toNat := fun w => rfl
    have hB : ∀ w : BitVec 32, (k1_off84 w) 0 = 32 * 6 + (w.toNat % 16 + 16 - 6) % 16 :=
      fun w => IdBits.start_toNat 192#32 w 6#32 (by decide) (by decide)
    have hw : region3.sl.v438 d L k g6 = (a6).view.read (Elt F) g6 (ix1 ⟨128 * 2 + 16 * k.val + 6, h1⟩) := by
      delta_sl [v438, r]
      simp only [LanePayK1.k1_pay187_nf, LanePayK1.k1_pay157_nf, View.readAt_rect]
      exact (LaneLib.extract_lane (((a6).view.slice (Rect.unit (s := S512) (k1_off70 k) S16.size (k1_off70_inb k))).read (Elt F) g6) 6 (by decide) _ _).trans (hid ⟨6, by decide⟩ h1)
    delta_sl [v458, H11_14, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off83 k (region3.sl.v438 d L k g6)) (k1_off84 (region3.sl.v438 d L k g6)) ![192] ![208] _ _ _ _ shapeCasts_S1x16_S16 k.val 6 (region3.sl.v438 d L k g6) _ hk (by decide) (hA0 _) (hA1 _) (hB _) rfl rfl h2 hw
  · rw [LaneSteps.nested16_at_7 _ hiota]
    refine congrArg₂ FloatOps.addf (LaneTrip.chunk_read (a10).view g10 (k1_off70 k) _ hoff _ ⟨7, hj⟩ h1) ?_
    have hA0 : ∀ w : BitVec 32, (k1_off85 k w) 0 = 16 * k.val + 7 := fun w => ChkLib.row_toNat k.val hk 7#32 (by decide)
    have hA1 : ∀ w : BitVec 32, (k1_off85 k w) 1 = ((w &&& 127#32) &&& 112#32).toNat := fun w => rfl
    have hB : ∀ w : BitVec 32, (k1_off86 w) 0 = 32 * 7 + (w.toNat % 16 + 16 - 7) % 16 :=
      fun w => IdBits.start_toNat 224#32 w 7#32 (by decide) (by decide)
    have hw : region3.sl.v467 d L k g6 = (a6).view.read (Elt F) g6 (ix1 ⟨128 * 2 + 16 * k.val + 7, h1⟩) := by
      delta_sl [v467, r]
      simp only [LanePayK1.k1_pay192_nf, LanePayK1.k1_pay157_nf, View.readAt_rect]
      exact (LaneLib.extract_lane (((a6).view.slice (Rect.unit (s := S512) (k1_off70 k) S16.size (k1_off70_inb k))).read (Elt F) g6) 7 (by decide) _ _).trans (hid ⟨7, by decide⟩ h1)
    delta_sl [v487, H11_16, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off85 k (region3.sl.v467 d L k g6)) (k1_off86 (region3.sl.v467 d L k g6)) ![224] ![240] _ _ _ _ shapeCasts_S1x16_S16 k.val 7 (region3.sl.v467 d L k g6) _ hk (by decide) (hA0 _) (hA1 _) (hB _) rfl rfl h2 hw
  · rw [LaneSteps.nested16_at_8 _ hiota]
    refine congrArg₂ FloatOps.addf (LaneTrip.chunk_read (a10).view g10 (k1_off70 k) _ hoff _ ⟨8, hj⟩ h1) ?_
    have hA0 : ∀ w : BitVec 32, (k1_off87 k w) 0 = 16 * k.val + 8 := fun w => ChkLib.row_toNat k.val hk 8#32 (by decide)
    have hA1 : ∀ w : BitVec 32, (k1_off87 k w) 1 = ((w &&& 127#32) &&& 112#32).toNat := fun w => rfl
    have hB : ∀ w : BitVec 32, (k1_off88 w) 0 = 32 * 8 + (w.toNat % 16 + 16 - 8) % 16 :=
      fun w => IdBits.start_toNat 256#32 w 8#32 (by decide) (by decide)
    have hw : region3.sl.v496 d L k g6 = (a6).view.read (Elt F) g6 (ix1 ⟨128 * 2 + 16 * k.val + 8, h1⟩) := by
      delta_sl [v496, r]
      simp only [LanePayK1.k1_pay197_nf, LanePayK1.k1_pay157_nf, View.readAt_rect]
      exact (LaneLib.extract_lane (((a6).view.slice (Rect.unit (s := S512) (k1_off70 k) S16.size (k1_off70_inb k))).read (Elt F) g6) 8 (by decide) _ _).trans (hid ⟨8, by decide⟩ h1)
    delta_sl [v516, H11_18, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off87 k (region3.sl.v496 d L k g6)) (k1_off88 (region3.sl.v496 d L k g6)) ![256] ![272] _ _ _ _ shapeCasts_S1x16_S16 k.val 8 (region3.sl.v496 d L k g6) _ hk (by decide) (hA0 _) (hA1 _) (hB _) rfl rfl h2 hw
  · rw [LaneSteps.nested16_at_9 _ hiota]
    refine congrArg₂ FloatOps.addf (LaneTrip.chunk_read (a10).view g10 (k1_off70 k) _ hoff _ ⟨9, hj⟩ h1) ?_
    have hA0 : ∀ w : BitVec 32, (k1_off89 k w) 0 = 16 * k.val + 9 := fun w => ChkLib.row_toNat k.val hk 9#32 (by decide)
    have hA1 : ∀ w : BitVec 32, (k1_off89 k w) 1 = ((w &&& 127#32) &&& 112#32).toNat := fun w => rfl
    have hB : ∀ w : BitVec 32, (k1_off90 w) 0 = 32 * 9 + (w.toNat % 16 + 16 - 9) % 16 :=
      fun w => IdBits.start_toNat 288#32 w 9#32 (by decide) (by decide)
    have hw : region3.sl.v525 d L k g6 = (a6).view.read (Elt F) g6 (ix1 ⟨128 * 2 + 16 * k.val + 9, h1⟩) := by
      delta_sl [v525, r]
      simp only [LanePayK1.k1_pay202_nf, LanePayK1.k1_pay157_nf, View.readAt_rect]
      exact (LaneLib.extract_lane (((a6).view.slice (Rect.unit (s := S512) (k1_off70 k) S16.size (k1_off70_inb k))).read (Elt F) g6) 9 (by decide) _ _).trans (hid ⟨9, by decide⟩ h1)
    delta_sl [v545, H11_20, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off89 k (region3.sl.v525 d L k g6)) (k1_off90 (region3.sl.v525 d L k g6)) ![288] ![304] _ _ _ _ shapeCasts_S1x16_S16 k.val 9 (region3.sl.v525 d L k g6) _ hk (by decide) (hA0 _) (hA1 _) (hB _) rfl rfl h2 hw
  · rw [LaneSteps.nested16_at_10 _ hiota]
    refine congrArg₂ FloatOps.addf (LaneTrip.chunk_read (a10).view g10 (k1_off70 k) _ hoff _ ⟨10, hj⟩ h1) ?_
    have hA0 : ∀ w : BitVec 32, (k1_off91 k w) 0 = 16 * k.val + 10 := fun w => ChkLib.row_toNat k.val hk 10#32 (by decide)
    have hA1 : ∀ w : BitVec 32, (k1_off91 k w) 1 = ((w &&& 127#32) &&& 112#32).toNat := fun w => rfl
    have hB : ∀ w : BitVec 32, (k1_off92 w) 0 = 32 * 10 + (w.toNat % 16 + 16 - 10) % 16 :=
      fun w => IdBits.start_toNat 320#32 w 10#32 (by decide) (by decide)
    have hw : region3.sl.v554 d L k g6 = (a6).view.read (Elt F) g6 (ix1 ⟨128 * 2 + 16 * k.val + 10, h1⟩) := by
      delta_sl [v554, r]
      simp only [LanePayK1.k1_pay207_nf, LanePayK1.k1_pay157_nf, View.readAt_rect]
      exact (LaneLib.extract_lane (((a6).view.slice (Rect.unit (s := S512) (k1_off70 k) S16.size (k1_off70_inb k))).read (Elt F) g6) 10 (by decide) _ _).trans (hid ⟨10, by decide⟩ h1)
    delta_sl [v574, H11_22, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off91 k (region3.sl.v554 d L k g6)) (k1_off92 (region3.sl.v554 d L k g6)) ![320] ![336] _ _ _ _ shapeCasts_S1x16_S16 k.val 10 (region3.sl.v554 d L k g6) _ hk (by decide) (hA0 _) (hA1 _) (hB _) rfl rfl h2 hw
  · rw [LaneSteps.nested16_at_11 _ hiota]
    refine congrArg₂ FloatOps.addf (LaneTrip.chunk_read (a10).view g10 (k1_off70 k) _ hoff _ ⟨11, hj⟩ h1) ?_
    have hA0 : ∀ w : BitVec 32, (k1_off93 k w) 0 = 16 * k.val + 11 := fun w => ChkLib.row_toNat k.val hk 11#32 (by decide)
    have hA1 : ∀ w : BitVec 32, (k1_off93 k w) 1 = ((w &&& 127#32) &&& 112#32).toNat := fun w => rfl
    have hB : ∀ w : BitVec 32, (k1_off94 w) 0 = 32 * 11 + (w.toNat % 16 + 16 - 11) % 16 :=
      fun w => IdBits.start_toNat 352#32 w 11#32 (by decide) (by decide)
    have hw : region3.sl.v583 d L k g6 = (a6).view.read (Elt F) g6 (ix1 ⟨128 * 2 + 16 * k.val + 11, h1⟩) := by
      delta_sl [v583, r]
      simp only [LanePayK1.k1_pay211_nf, LanePayK1.k1_pay157_nf, View.readAt_rect]
      exact (LaneLib.extract_lane (((a6).view.slice (Rect.unit (s := S512) (k1_off70 k) S16.size (k1_off70_inb k))).read (Elt F) g6) 11 (by decide) _ _).trans (hid ⟨11, by decide⟩ h1)
    delta_sl [v603, H11_24, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off93 k (region3.sl.v583 d L k g6)) (k1_off94 (region3.sl.v583 d L k g6)) ![352] ![368] _ _ _ _ shapeCasts_S1x16_S16 k.val 11 (region3.sl.v583 d L k g6) _ hk (by decide) (hA0 _) (hA1 _) (hB _) rfl rfl h2 hw
  · rw [LaneSteps.nested16_at_12 _ hiota]
    refine congrArg₂ FloatOps.addf (LaneTrip.chunk_read (a10).view g10 (k1_off70 k) _ hoff _ ⟨12, hj⟩ h1) ?_
    have hA0 : ∀ w : BitVec 32, (k1_off95 k w) 0 = 16 * k.val + 12 := fun w => ChkLib.row_toNat k.val hk 12#32 (by decide)
    have hA1 : ∀ w : BitVec 32, (k1_off95 k w) 1 = ((w &&& 127#32) &&& 112#32).toNat := fun w => rfl
    have hB : ∀ w : BitVec 32, (k1_off96 w) 0 = 32 * 12 + (w.toNat % 16 + 16 - 12) % 16 :=
      fun w => IdBits.start_toNat 384#32 w 12#32 (by decide) (by decide)
    have hw : region3.sl.v612 d L k g6 = (a6).view.read (Elt F) g6 (ix1 ⟨128 * 2 + 16 * k.val + 12, h1⟩) := by
      delta_sl [v612, r]
      simp only [LanePayK1.k1_pay216_nf, LanePayK1.k1_pay157_nf, View.readAt_rect]
      exact (LaneLib.extract_lane (((a6).view.slice (Rect.unit (s := S512) (k1_off70 k) S16.size (k1_off70_inb k))).read (Elt F) g6) 12 (by decide) _ _).trans (hid ⟨12, by decide⟩ h1)
    delta_sl [v632, H11_26, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off95 k (region3.sl.v612 d L k g6)) (k1_off96 (region3.sl.v612 d L k g6)) ![384] ![400] _ _ _ _ shapeCasts_S1x16_S16 k.val 12 (region3.sl.v612 d L k g6) _ hk (by decide) (hA0 _) (hA1 _) (hB _) rfl rfl h2 hw
  · rw [LaneSteps.nested16_at_13 _ hiota]
    refine congrArg₂ FloatOps.addf (LaneTrip.chunk_read (a10).view g10 (k1_off70 k) _ hoff _ ⟨13, hj⟩ h1) ?_
    have hA0 : ∀ w : BitVec 32, (k1_off97 k w) 0 = 16 * k.val + 13 := fun w => ChkLib.row_toNat k.val hk 13#32 (by decide)
    have hA1 : ∀ w : BitVec 32, (k1_off97 k w) 1 = ((w &&& 127#32) &&& 112#32).toNat := fun w => rfl
    have hB : ∀ w : BitVec 32, (k1_off98 w) 0 = 32 * 13 + (w.toNat % 16 + 16 - 13) % 16 :=
      fun w => IdBits.start_toNat 416#32 w 13#32 (by decide) (by decide)
    have hw : region3.sl.v641 d L k g6 = (a6).view.read (Elt F) g6 (ix1 ⟨128 * 2 + 16 * k.val + 13, h1⟩) := by
      delta_sl [v641, r]
      simp only [LanePayK1.k1_pay221_nf, LanePayK1.k1_pay157_nf, View.readAt_rect]
      exact (LaneLib.extract_lane (((a6).view.slice (Rect.unit (s := S512) (k1_off70 k) S16.size (k1_off70_inb k))).read (Elt F) g6) 13 (by decide) _ _).trans (hid ⟨13, by decide⟩ h1)
    delta_sl [v661, H11_28, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off97 k (region3.sl.v641 d L k g6)) (k1_off98 (region3.sl.v641 d L k g6)) ![416] ![432] _ _ _ _ shapeCasts_S1x16_S16 k.val 13 (region3.sl.v641 d L k g6) _ hk (by decide) (hA0 _) (hA1 _) (hB _) rfl rfl h2 hw
  · rw [LaneSteps.nested16_at_14 _ hiota]
    refine congrArg₂ FloatOps.addf (LaneTrip.chunk_read (a10).view g10 (k1_off70 k) _ hoff _ ⟨14, hj⟩ h1) ?_
    have hA0 : ∀ w : BitVec 32, (k1_off99 k w) 0 = 16 * k.val + 14 := fun w => ChkLib.row_toNat k.val hk 14#32 (by decide)
    have hA1 : ∀ w : BitVec 32, (k1_off99 k w) 1 = ((w &&& 127#32) &&& 112#32).toNat := fun w => rfl
    have hB : ∀ w : BitVec 32, (k1_off100 w) 0 = 32 * 14 + (w.toNat % 16 + 16 - 14) % 16 :=
      fun w => IdBits.start_toNat 448#32 w 14#32 (by decide) (by decide)
    have hw : region3.sl.v670 d L k g6 = (a6).view.read (Elt F) g6 (ix1 ⟨128 * 2 + 16 * k.val + 14, h1⟩) := by
      delta_sl [v670, r]
      simp only [LanePayK1.k1_pay226_nf, LanePayK1.k1_pay157_nf, View.readAt_rect]
      exact (LaneLib.extract_lane (((a6).view.slice (Rect.unit (s := S512) (k1_off70 k) S16.size (k1_off70_inb k))).read (Elt F) g6) 14 (by decide) _ _).trans (hid ⟨14, by decide⟩ h1)
    delta_sl [v690, H11_30, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off99 k (region3.sl.v670 d L k g6)) (k1_off100 (region3.sl.v670 d L k g6)) ![448] ![464] _ _ _ _ shapeCasts_S1x16_S16 k.val 14 (region3.sl.v670 d L k g6) _ hk (by decide) (hA0 _) (hA1 _) (hB _) rfl rfl h2 hw
  · rw [LaneSteps.nested16_at_15 _ hiota]
    refine congrArg₂ FloatOps.addf (LaneTrip.chunk_read (a10).view g10 (k1_off70 k) _ hoff _ ⟨15, hj⟩ h1) ?_
    have hA0 : ∀ w : BitVec 32, (k1_off101 k w) 0 = 16 * k.val + 15 := fun w => ChkLib.row_toNat k.val hk 15#32 (by decide)
    have hA1 : ∀ w : BitVec 32, (k1_off101 k w) 1 = ((w &&& 127#32) &&& 112#32).toNat := fun w => rfl
    have hB : ∀ w : BitVec 32, (k1_off102 w) 0 = 32 * 15 + (w.toNat % 16 + 16 - 15) % 16 :=
      fun w => IdBits.start_toNat 480#32 w 15#32 (by decide) (by decide)
    have hw : region3.sl.v699 d L k g6 = (a6).view.read (Elt F) g6 (ix1 ⟨128 * 2 + 16 * k.val + 15, h1⟩) := by
      delta_sl [v699, r]
      simp only [LanePayK1.k1_pay230_nf, LanePayK1.k1_pay157_nf, View.readAt_rect]
      exact (LaneLib.extract_lane (((a6).view.slice (Rect.unit (s := S512) (k1_off70 k) S16.size (k1_off70_inb k))).read (Elt F) g6) 15 (by decide) _ _).trans (hid ⟨15, by decide⟩ h1)
    delta_sl [v719, H11_32, r_3, r_4, r_8, r_15]
    simp only [LanePayK1.k1_pay157_nf, LanePayK1.k1_pay158_nf, LanePayK1.k1_pay159_nf, LanePayK1.k1_pay160_nf, LanePayK1.k1_pay161_nf, LanePayK1.k1_pay162_nf, LanePayK1.k1_pay163_nf, LanePayK1.k1_pay164_nf, LanePayK1.k1_pay165_nf, LanePayK1.k1_pay166_nf, LanePayK1.k1_pay167_nf, LanePayK1.k1_pay168_nf, LanePayK1.k1_pay169_nf, LanePayK1.k1_pay170_nf, LanePayK1.k1_pay171_nf, LanePayK1.k1_pay172_nf, LanePayK1.k1_pay173_nf, LanePayK1.k1_pay174_nf, LanePayK1.k1_pay175_nf, LanePayK1.k1_pay176_nf, LanePayK1.k1_pay177_nf, LanePayK1.k1_pay178_nf, LanePayK1.k1_pay179_nf, LanePayK1.k1_pay180_nf, LanePayK1.k1_pay181_nf, LanePayK1.k1_pay182_nf, LanePayK1.k1_pay183_nf, LanePayK1.k1_pay184_nf, LanePayK1.k1_pay185_nf, LanePayK1.k1_pay186_nf, LanePayK1.k1_pay187_nf, LanePayK1.k1_pay188_nf, LanePayK1.k1_pay189_nf, LanePayK1.k1_pay190_nf, LanePayK1.k1_pay191_nf, LanePayK1.k1_pay192_nf, LanePayK1.k1_pay193_nf, LanePayK1.k1_pay194_nf, LanePayK1.k1_pay195_nf, LanePayK1.k1_pay196_nf, LanePayK1.k1_pay197_nf, LanePayK1.k1_pay198_nf, LanePayK1.k1_pay199_nf, LanePayK1.k1_pay200_nf, LanePayK1.k1_pay201_nf, LanePayK1.k1_pay202_nf, LanePayK1.k1_pay203_nf, LanePayK1.k1_pay204_nf, LanePayK1.k1_pay205_nf, LanePayK1.k1_pay206_nf, LanePayK1.k1_pay207_nf, LanePayK1.k1_pay208_nf, LanePayK1.k1_pay209_nf, LanePayK1.k1_pay210_nf, LanePayK1.k1_pay211_nf, LanePayK1.k1_pay212_nf, LanePayK1.k1_pay213_nf, LanePayK1.k1_pay214_nf, LanePayK1.k1_pay215_nf, LanePayK1.k1_pay216_nf, LanePayK1.k1_pay217_nf, LanePayK1.k1_pay218_nf, LanePayK1.k1_pay219_nf, LanePayK1.k1_pay220_nf, LanePayK1.k1_pay221_nf, LanePayK1.k1_pay222_nf, LanePayK1.k1_pay223_nf, LanePayK1.k1_pay224_nf, LanePayK1.k1_pay225_nf, LanePayK1.k1_pay226_nf, LanePayK1.k1_pay227_nf, LanePayK1.k1_pay228_nf, LanePayK1.k1_pay229_nf, LanePayK1.k1_pay230_nf, LanePayK1.k1_pay231_nf, LanePayK1.k1_pay232_nf, LanePayK1.k1_pay233_nf, LanePayK1.k1_pay234_nf, View.readAt_rect]
    exact LaneTrip.lane_value_at (a11).view _ (a8).view gB _ (k1_off101 k (region3.sl.v699 d L k g6)) (k1_off102 (region3.sl.v699 d L k g6)) ![480] ![496] _ _ _ _ shapeCasts_S1x16_S16 k.val 15 (region3.sl.v699 d L k g6) _ hk (by decide) (hA0 _) (hA1 _) (hB _) rfl rfl h2 hw

set_option maxHeartbeats 4000000 in
/-- Trip `k` of chunk 3's loop: the ids, the base values and the gathered rows are read only; the trip stores its sixteen
    results, each the base value plus the gathered row's entry at the id's lane. -/
theorem region4 (hchk : ChkAll) (k : Fin k1_t4_loop.trips) (acc : BitVec 32)
    (g6 : Buf (Elt F) ((a6).view.loc (V d (cV L) (jV L)))) (g10 : Buf (Elt F) ((a10).view.loc (V d (cV L) (jV L)))) (gB : Buf (Elt F) ((a9).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a9).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k1_t4_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a9).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k1_off137 k) S16.size (k1_off137_inb k), v⟩])
                ∗ ⌜LaneOK 3 k.val ((a6).view.read (Elt F) g6) ((a10).view.read (Elt F) g10) ((a9).view.read (Elt F) gB) v⌝) := by
  iintro ⟨H6, H10, HB, H11, H12⟩
  sl_exec (disch := first | sl_exact (hchk.h49 _ _) | sl_exact (hchk.h50 _ _) | sl_exact (hchk.h51 _ _) | sl_exact (hchk.h52 _ _) | sl_exact (hchk.h53 _ _) | sl_exact (hchk.h54 _ _) | sl_exact (hchk.h55 _ _) | sl_exact (hchk.h56 _ _) | sl_exact (hchk.h57 _ _) | sl_exact (hchk.h58 _ _) | sl_exact (hchk.h59 _ _) | sl_exact (hchk.h60 _ _) | sl_exact (hchk.h61 _ _) | sl_exact (hchk.h62 _ _) | sl_exact (hchk.h63 _ _) | sl_exact (hchk.h64 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k1_t4_abs.2.1
  have hoff : (k1_off104 k) 0 = 128 * 3 + 16 * k.val := by
    rw [k1_off104_eq]
    show 16 * k.val + 384 = 128 * 3 + 16 * k.val
    omega
  have hid : ∀ (j : Fin 16) (h : 128 * 3 + 16 * k.val + j.val < 512),
      (((a6).view.slice (Rect.unit (s := S512) (k1_off104 k) S16.size (k1_off104_inb k))).read (Elt F) g6) (ix1 j) = (a6).view.read (Elt F) g6 (ix1 ⟨128 * 3 + 16 * k.val + j.val, h⟩) :=
    fun j h => LaneTrip.chunk_read (a6).view g6 (k1_off104 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
  obtain ⟨j, hj⟩ := l
  interval_cases j
  · rw [LaneSteps.nested16_at_0 _ hiota]
    refine congrArg₂ FloatOps.addf (LaneTrip.chunk_read (a10).view g10 (k1_off104 k) _ hoff _ ⟨0, hj⟩ h1) ?_
    have hA0 : ∀ w : BitVec 32, (k1_off105 k w) 0 = 16 * k.val + 0 := fun w => ChkLib.row_toNat k.val hk 0#32 (by decide)
    have hA1 : ∀ w : BitVec 32, (k1_off105 k w) 1 = ((w &&& 127#32) &&& 112#32).toNat := fun w => rfl
    have hB : ∀ w : BitVec 32, (k1_off106 w) 0 = 32 * 0 + (w.toNat % 16 + 16 - 0) % 16 :=
      fun w => IdBits.start_toNat 0#32 w 0#32 (by decide) (by decide)
    have hw : region4.sl.v264 d L k g6 = (a6).view.read (Elt F) g6 (ix1 ⟨128 * 3 + 16 * k.val + 0, h1⟩) := by
      delta_sl [v264]
      simp only [LanePayK1.k1_pay236_nf, LanePayK1.k1_pay235_nf, View.readAt_rect]
      exact (LaneLib.extract_lane (((a6).view.slice (Rect.unit (s := S512) (k1_off104 k) S16.size (k1_off104_inb k))).read (Elt F) g6) 0 (by decide) _ _).trans (hid ⟨0, by decide⟩ h1)
    delta_sl [v284, H11_2, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off105 k (region4.sl.v264 d L k g6)) (k1_off106 (region4.sl.v264 d L k g6)) ![0] ![16] _ _ _ _ shapeCasts_S1x16_S16 k.val 0 (region4.sl.v264 d L k g6) _ hk (by decide) (hA0 _) (hA1 _) (hB _) rfl rfl h2 hw
  · rw [LaneSteps.nested16_at_1 _ hiota]
    refine congrArg₂ FloatOps.addf (LaneTrip.chunk_read (a10).view g10 (k1_off104 k) _ hoff _ ⟨1, hj⟩ h1) ?_
    have hA0 : ∀ w : BitVec 32, (k1_off107 k w) 0 = 16 * k.val + 1 := fun w => ChkLib.row_toNat k.val hk 1#32 (by decide)
    have hA1 : ∀ w : BitVec 32, (k1_off107 k w) 1 = ((w &&& 127#32) &&& 112#32).toNat := fun w => rfl
    have hB : ∀ w : BitVec 32, (k1_off108 w) 0 = 32 * 1 + (w.toNat % 16 + 16 - 1) % 16 :=
      fun w => IdBits.start_toNat 32#32 w 1#32 (by decide) (by decide)
    have hw : region4.sl.v293 d L k g6 = (a6).view.read (Elt F) g6 (ix1 ⟨128 * 3 + 16 * k.val + 1, h1⟩) := by
      delta_sl [v293, r]
      simp only [LanePayK1.k1_pay241_nf, LanePayK1.k1_pay235_nf, View.readAt_rect]
      exact (LaneLib.extract_lane (((a6).view.slice (Rect.unit (s := S512) (k1_off104 k) S16.size (k1_off104_inb k))).read (Elt F) g6) 1 (by decide) _ _).trans (hid ⟨1, by decide⟩ h1)
    delta_sl [v313, H11_4, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off107 k (region4.sl.v293 d L k g6)) (k1_off108 (region4.sl.v293 d L k g6)) ![32] ![48] _ _ _ _ shapeCasts_S1x16_S16 k.val 1 (region4.sl.v293 d L k g6) _ hk (by decide) (hA0 _) (hA1 _) (hB _) rfl rfl h2 hw
  · rw [LaneSteps.nested16_at_2 _ hiota]
    refine congrArg₂ FloatOps.addf (LaneTrip.chunk_read (a10).view g10 (k1_off104 k) _ hoff _ ⟨2, hj⟩ h1) ?_
    have hA0 : ∀ w : BitVec 32, (k1_off109 k w) 0 = 16 * k.val + 2 := fun w => ChkLib.row_toNat k.val hk 2#32 (by decide)
    have hA1 : ∀ w : BitVec 32, (k1_off109 k w) 1 = ((w &&& 127#32) &&& 112#32).toNat := fun w => rfl
    have hB : ∀ w : BitVec 32, (k1_off110 w) 0 = 32 * 2 + (w.toNat % 16 + 16 - 2) % 16 :=
      fun w => IdBits.start_toNat 64#32 w 2#32 (by decide) (by decide)
    have hw : region4.sl.v322 d L k g6 = (a6).view.read (Elt F) g6 (ix1 ⟨128 * 3 + 16 * k.val + 2, h1⟩) := by
      delta_sl [v322, r]
      simp only [LanePayK1.k1_pay246_nf, LanePayK1.k1_pay235_nf, View.readAt_rect]
      exact (LaneLib.extract_lane (((a6).view.slice (Rect.unit (s := S512) (k1_off104 k) S16.size (k1_off104_inb k))).read (Elt F) g6) 2 (by decide) _ _).trans (hid ⟨2, by decide⟩ h1)
    delta_sl [v342, H11_6, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off109 k (region4.sl.v322 d L k g6)) (k1_off110 (region4.sl.v322 d L k g6)) ![64] ![80] _ _ _ _ shapeCasts_S1x16_S16 k.val 2 (region4.sl.v322 d L k g6) _ hk (by decide) (hA0 _) (hA1 _) (hB _) rfl rfl h2 hw
  · rw [LaneSteps.nested16_at_3 _ hiota]
    refine congrArg₂ FloatOps.addf (LaneTrip.chunk_read (a10).view g10 (k1_off104 k) _ hoff _ ⟨3, hj⟩ h1) ?_
    have hA0 : ∀ w : BitVec 32, (k1_off111 k w) 0 = 16 * k.val + 3 := fun w => ChkLib.row_toNat k.val hk 3#32 (by decide)
    have hA1 : ∀ w : BitVec 32, (k1_off111 k w) 1 = ((w &&& 127#32) &&& 112#32).toNat := fun w => rfl
    have hB : ∀ w : BitVec 32, (k1_off112 w) 0 = 32 * 3 + (w.toNat % 16 + 16 - 3) % 16 :=
      fun w => IdBits.start_toNat 96#32 w 3#32 (by decide) (by decide)
    have hw : region4.sl.v351 d L k g6 = (a6).view.read (Elt F) g6 (ix1 ⟨128 * 3 + 16 * k.val + 3, h1⟩) := by
      delta_sl [v351, r]
      simp only [LanePayK1.k1_pay251_nf, LanePayK1.k1_pay235_nf, View.readAt_rect]
      exact (LaneLib.extract_lane (((a6).view.slice (Rect.unit (s := S512) (k1_off104 k) S16.size (k1_off104_inb k))).read (Elt F) g6) 3 (by decide) _ _).trans (hid ⟨3, by decide⟩ h1)
    delta_sl [v371, H11_8, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off111 k (region4.sl.v351 d L k g6)) (k1_off112 (region4.sl.v351 d L k g6)) ![96] ![112] _ _ _ _ shapeCasts_S1x16_S16 k.val 3 (region4.sl.v351 d L k g6) _ hk (by decide) (hA0 _) (hA1 _) (hB _) rfl rfl h2 hw
  · rw [LaneSteps.nested16_at_4 _ hiota]
    refine congrArg₂ FloatOps.addf (LaneTrip.chunk_read (a10).view g10 (k1_off104 k) _ hoff _ ⟨4, hj⟩ h1) ?_
    have hA0 : ∀ w : BitVec 32, (k1_off113 k w) 0 = 16 * k.val + 4 := fun w => ChkLib.row_toNat k.val hk 4#32 (by decide)
    have hA1 : ∀ w : BitVec 32, (k1_off113 k w) 1 = ((w &&& 127#32) &&& 112#32).toNat := fun w => rfl
    have hB : ∀ w : BitVec 32, (k1_off114 w) 0 = 32 * 4 + (w.toNat % 16 + 16 - 4) % 16 :=
      fun w => IdBits.start_toNat 128#32 w 4#32 (by decide) (by decide)
    have hw : region4.sl.v380 d L k g6 = (a6).view.read (Elt F) g6 (ix1 ⟨128 * 3 + 16 * k.val + 4, h1⟩) := by
      delta_sl [v380, r]
      simp only [LanePayK1.k1_pay255_nf, LanePayK1.k1_pay235_nf, View.readAt_rect]
      exact (LaneLib.extract_lane (((a6).view.slice (Rect.unit (s := S512) (k1_off104 k) S16.size (k1_off104_inb k))).read (Elt F) g6) 4 (by decide) _ _).trans (hid ⟨4, by decide⟩ h1)
    delta_sl [v400, H11_10, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off113 k (region4.sl.v380 d L k g6)) (k1_off114 (region4.sl.v380 d L k g6)) ![128] ![144] _ _ _ _ shapeCasts_S1x16_S16 k.val 4 (region4.sl.v380 d L k g6) _ hk (by decide) (hA0 _) (hA1 _) (hB _) rfl rfl h2 hw
  · rw [LaneSteps.nested16_at_5 _ hiota]
    refine congrArg₂ FloatOps.addf (LaneTrip.chunk_read (a10).view g10 (k1_off104 k) _ hoff _ ⟨5, hj⟩ h1) ?_
    have hA0 : ∀ w : BitVec 32, (k1_off115 k w) 0 = 16 * k.val + 5 := fun w => ChkLib.row_toNat k.val hk 5#32 (by decide)
    have hA1 : ∀ w : BitVec 32, (k1_off115 k w) 1 = ((w &&& 127#32) &&& 112#32).toNat := fun w => rfl
    have hB : ∀ w : BitVec 32, (k1_off116 w) 0 = 32 * 5 + (w.toNat % 16 + 16 - 5) % 16 :=
      fun w => IdBits.start_toNat 160#32 w 5#32 (by decide) (by decide)
    have hw : region4.sl.v409 d L k g6 = (a6).view.read (Elt F) g6 (ix1 ⟨128 * 3 + 16 * k.val + 5, h1⟩) := by
      delta_sl [v409, r]
      simp only [LanePayK1.k1_pay260_nf, LanePayK1.k1_pay235_nf, View.readAt_rect]
      exact (LaneLib.extract_lane (((a6).view.slice (Rect.unit (s := S512) (k1_off104 k) S16.size (k1_off104_inb k))).read (Elt F) g6) 5 (by decide) _ _).trans (hid ⟨5, by decide⟩ h1)
    delta_sl [v429, H11_12, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off115 k (region4.sl.v409 d L k g6)) (k1_off116 (region4.sl.v409 d L k g6)) ![160] ![176] _ _ _ _ shapeCasts_S1x16_S16 k.val 5 (region4.sl.v409 d L k g6) _ hk (by decide) (hA0 _) (hA1 _) (hB _) rfl rfl h2 hw
  · rw [LaneSteps.nested16_at_6 _ hiota]
    refine congrArg₂ FloatOps.addf (LaneTrip.chunk_read (a10).view g10 (k1_off104 k) _ hoff _ ⟨6, hj⟩ h1) ?_
    have hA0 : ∀ w : BitVec 32, (k1_off117 k w) 0 = 16 * k.val + 6 := fun w => ChkLib.row_toNat k.val hk 6#32 (by decide)
    have hA1 : ∀ w : BitVec 32, (k1_off117 k w) 1 = ((w &&& 127#32) &&& 112#32).toNat := fun w => rfl
    have hB : ∀ w : BitVec 32, (k1_off118 w) 0 = 32 * 6 + (w.toNat % 16 + 16 - 6) % 16 :=
      fun w => IdBits.start_toNat 192#32 w 6#32 (by decide) (by decide)
    have hw : region4.sl.v438 d L k g6 = (a6).view.read (Elt F) g6 (ix1 ⟨128 * 3 + 16 * k.val + 6, h1⟩) := by
      delta_sl [v438, r]
      simp only [LanePayK1.k1_pay265_nf, LanePayK1.k1_pay235_nf, View.readAt_rect]
      exact (LaneLib.extract_lane (((a6).view.slice (Rect.unit (s := S512) (k1_off104 k) S16.size (k1_off104_inb k))).read (Elt F) g6) 6 (by decide) _ _).trans (hid ⟨6, by decide⟩ h1)
    delta_sl [v458, H11_14, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off117 k (region4.sl.v438 d L k g6)) (k1_off118 (region4.sl.v438 d L k g6)) ![192] ![208] _ _ _ _ shapeCasts_S1x16_S16 k.val 6 (region4.sl.v438 d L k g6) _ hk (by decide) (hA0 _) (hA1 _) (hB _) rfl rfl h2 hw
  · rw [LaneSteps.nested16_at_7 _ hiota]
    refine congrArg₂ FloatOps.addf (LaneTrip.chunk_read (a10).view g10 (k1_off104 k) _ hoff _ ⟨7, hj⟩ h1) ?_
    have hA0 : ∀ w : BitVec 32, (k1_off119 k w) 0 = 16 * k.val + 7 := fun w => ChkLib.row_toNat k.val hk 7#32 (by decide)
    have hA1 : ∀ w : BitVec 32, (k1_off119 k w) 1 = ((w &&& 127#32) &&& 112#32).toNat := fun w => rfl
    have hB : ∀ w : BitVec 32, (k1_off120 w) 0 = 32 * 7 + (w.toNat % 16 + 16 - 7) % 16 :=
      fun w => IdBits.start_toNat 224#32 w 7#32 (by decide) (by decide)
    have hw : region4.sl.v467 d L k g6 = (a6).view.read (Elt F) g6 (ix1 ⟨128 * 3 + 16 * k.val + 7, h1⟩) := by
      delta_sl [v467, r]
      simp only [LanePayK1.k1_pay270_nf, LanePayK1.k1_pay235_nf, View.readAt_rect]
      exact (LaneLib.extract_lane (((a6).view.slice (Rect.unit (s := S512) (k1_off104 k) S16.size (k1_off104_inb k))).read (Elt F) g6) 7 (by decide) _ _).trans (hid ⟨7, by decide⟩ h1)
    delta_sl [v487, H11_16, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off119 k (region4.sl.v467 d L k g6)) (k1_off120 (region4.sl.v467 d L k g6)) ![224] ![240] _ _ _ _ shapeCasts_S1x16_S16 k.val 7 (region4.sl.v467 d L k g6) _ hk (by decide) (hA0 _) (hA1 _) (hB _) rfl rfl h2 hw
  · rw [LaneSteps.nested16_at_8 _ hiota]
    refine congrArg₂ FloatOps.addf (LaneTrip.chunk_read (a10).view g10 (k1_off104 k) _ hoff _ ⟨8, hj⟩ h1) ?_
    have hA0 : ∀ w : BitVec 32, (k1_off121 k w) 0 = 16 * k.val + 8 := fun w => ChkLib.row_toNat k.val hk 8#32 (by decide)
    have hA1 : ∀ w : BitVec 32, (k1_off121 k w) 1 = ((w &&& 127#32) &&& 112#32).toNat := fun w => rfl
    have hB : ∀ w : BitVec 32, (k1_off122 w) 0 = 32 * 8 + (w.toNat % 16 + 16 - 8) % 16 :=
      fun w => IdBits.start_toNat 256#32 w 8#32 (by decide) (by decide)
    have hw : region4.sl.v496 d L k g6 = (a6).view.read (Elt F) g6 (ix1 ⟨128 * 3 + 16 * k.val + 8, h1⟩) := by
      delta_sl [v496, r]
      simp only [LanePayK1.k1_pay275_nf, LanePayK1.k1_pay235_nf, View.readAt_rect]
      exact (LaneLib.extract_lane (((a6).view.slice (Rect.unit (s := S512) (k1_off104 k) S16.size (k1_off104_inb k))).read (Elt F) g6) 8 (by decide) _ _).trans (hid ⟨8, by decide⟩ h1)
    delta_sl [v516, H11_18, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off121 k (region4.sl.v496 d L k g6)) (k1_off122 (region4.sl.v496 d L k g6)) ![256] ![272] _ _ _ _ shapeCasts_S1x16_S16 k.val 8 (region4.sl.v496 d L k g6) _ hk (by decide) (hA0 _) (hA1 _) (hB _) rfl rfl h2 hw
  · rw [LaneSteps.nested16_at_9 _ hiota]
    refine congrArg₂ FloatOps.addf (LaneTrip.chunk_read (a10).view g10 (k1_off104 k) _ hoff _ ⟨9, hj⟩ h1) ?_
    have hA0 : ∀ w : BitVec 32, (k1_off123 k w) 0 = 16 * k.val + 9 := fun w => ChkLib.row_toNat k.val hk 9#32 (by decide)
    have hA1 : ∀ w : BitVec 32, (k1_off123 k w) 1 = ((w &&& 127#32) &&& 112#32).toNat := fun w => rfl
    have hB : ∀ w : BitVec 32, (k1_off124 w) 0 = 32 * 9 + (w.toNat % 16 + 16 - 9) % 16 :=
      fun w => IdBits.start_toNat 288#32 w 9#32 (by decide) (by decide)
    have hw : region4.sl.v525 d L k g6 = (a6).view.read (Elt F) g6 (ix1 ⟨128 * 3 + 16 * k.val + 9, h1⟩) := by
      delta_sl [v525, r]
      simp only [LanePayK1.k1_pay280_nf, LanePayK1.k1_pay235_nf, View.readAt_rect]
      exact (LaneLib.extract_lane (((a6).view.slice (Rect.unit (s := S512) (k1_off104 k) S16.size (k1_off104_inb k))).read (Elt F) g6) 9 (by decide) _ _).trans (hid ⟨9, by decide⟩ h1)
    delta_sl [v545, H11_20, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off123 k (region4.sl.v525 d L k g6)) (k1_off124 (region4.sl.v525 d L k g6)) ![288] ![304] _ _ _ _ shapeCasts_S1x16_S16 k.val 9 (region4.sl.v525 d L k g6) _ hk (by decide) (hA0 _) (hA1 _) (hB _) rfl rfl h2 hw
  · rw [LaneSteps.nested16_at_10 _ hiota]
    refine congrArg₂ FloatOps.addf (LaneTrip.chunk_read (a10).view g10 (k1_off104 k) _ hoff _ ⟨10, hj⟩ h1) ?_
    have hA0 : ∀ w : BitVec 32, (k1_off125 k w) 0 = 16 * k.val + 10 := fun w => ChkLib.row_toNat k.val hk 10#32 (by decide)
    have hA1 : ∀ w : BitVec 32, (k1_off125 k w) 1 = ((w &&& 127#32) &&& 112#32).toNat := fun w => rfl
    have hB : ∀ w : BitVec 32, (k1_off126 w) 0 = 32 * 10 + (w.toNat % 16 + 16 - 10) % 16 :=
      fun w => IdBits.start_toNat 320#32 w 10#32 (by decide) (by decide)
    have hw : region4.sl.v554 d L k g6 = (a6).view.read (Elt F) g6 (ix1 ⟨128 * 3 + 16 * k.val + 10, h1⟩) := by
      delta_sl [v554, r]
      simp only [LanePayK1.k1_pay285_nf, LanePayK1.k1_pay235_nf, View.readAt_rect]
      exact (LaneLib.extract_lane (((a6).view.slice (Rect.unit (s := S512) (k1_off104 k) S16.size (k1_off104_inb k))).read (Elt F) g6) 10 (by decide) _ _).trans (hid ⟨10, by decide⟩ h1)
    delta_sl [v574, H11_22, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off125 k (region4.sl.v554 d L k g6)) (k1_off126 (region4.sl.v554 d L k g6)) ![320] ![336] _ _ _ _ shapeCasts_S1x16_S16 k.val 10 (region4.sl.v554 d L k g6) _ hk (by decide) (hA0 _) (hA1 _) (hB _) rfl rfl h2 hw
  · rw [LaneSteps.nested16_at_11 _ hiota]
    refine congrArg₂ FloatOps.addf (LaneTrip.chunk_read (a10).view g10 (k1_off104 k) _ hoff _ ⟨11, hj⟩ h1) ?_
    have hA0 : ∀ w : BitVec 32, (k1_off127 k w) 0 = 16 * k.val + 11 := fun w => ChkLib.row_toNat k.val hk 11#32 (by decide)
    have hA1 : ∀ w : BitVec 32, (k1_off127 k w) 1 = ((w &&& 127#32) &&& 112#32).toNat := fun w => rfl
    have hB : ∀ w : BitVec 32, (k1_off128 w) 0 = 32 * 11 + (w.toNat % 16 + 16 - 11) % 16 :=
      fun w => IdBits.start_toNat 352#32 w 11#32 (by decide) (by decide)
    have hw : region4.sl.v583 d L k g6 = (a6).view.read (Elt F) g6 (ix1 ⟨128 * 3 + 16 * k.val + 11, h1⟩) := by
      delta_sl [v583, r]
      simp only [LanePayK1.k1_pay289_nf, LanePayK1.k1_pay235_nf, View.readAt_rect]
      exact (LaneLib.extract_lane (((a6).view.slice (Rect.unit (s := S512) (k1_off104 k) S16.size (k1_off104_inb k))).read (Elt F) g6) 11 (by decide) _ _).trans (hid ⟨11, by decide⟩ h1)
    delta_sl [v603, H11_24, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off127 k (region4.sl.v583 d L k g6)) (k1_off128 (region4.sl.v583 d L k g6)) ![352] ![368] _ _ _ _ shapeCasts_S1x16_S16 k.val 11 (region4.sl.v583 d L k g6) _ hk (by decide) (hA0 _) (hA1 _) (hB _) rfl rfl h2 hw
  · rw [LaneSteps.nested16_at_12 _ hiota]
    refine congrArg₂ FloatOps.addf (LaneTrip.chunk_read (a10).view g10 (k1_off104 k) _ hoff _ ⟨12, hj⟩ h1) ?_
    have hA0 : ∀ w : BitVec 32, (k1_off129 k w) 0 = 16 * k.val + 12 := fun w => ChkLib.row_toNat k.val hk 12#32 (by decide)
    have hA1 : ∀ w : BitVec 32, (k1_off129 k w) 1 = ((w &&& 127#32) &&& 112#32).toNat := fun w => rfl
    have hB : ∀ w : BitVec 32, (k1_off130 w) 0 = 32 * 12 + (w.toNat % 16 + 16 - 12) % 16 :=
      fun w => IdBits.start_toNat 384#32 w 12#32 (by decide) (by decide)
    have hw : region4.sl.v612 d L k g6 = (a6).view.read (Elt F) g6 (ix1 ⟨128 * 3 + 16 * k.val + 12, h1⟩) := by
      delta_sl [v612, r]
      simp only [LanePayK1.k1_pay294_nf, LanePayK1.k1_pay235_nf, View.readAt_rect]
      exact (LaneLib.extract_lane (((a6).view.slice (Rect.unit (s := S512) (k1_off104 k) S16.size (k1_off104_inb k))).read (Elt F) g6) 12 (by decide) _ _).trans (hid ⟨12, by decide⟩ h1)
    delta_sl [v632, H11_26, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off129 k (region4.sl.v612 d L k g6)) (k1_off130 (region4.sl.v612 d L k g6)) ![384] ![400] _ _ _ _ shapeCasts_S1x16_S16 k.val 12 (region4.sl.v612 d L k g6) _ hk (by decide) (hA0 _) (hA1 _) (hB _) rfl rfl h2 hw
  · rw [LaneSteps.nested16_at_13 _ hiota]
    refine congrArg₂ FloatOps.addf (LaneTrip.chunk_read (a10).view g10 (k1_off104 k) _ hoff _ ⟨13, hj⟩ h1) ?_
    have hA0 : ∀ w : BitVec 32, (k1_off131 k w) 0 = 16 * k.val + 13 := fun w => ChkLib.row_toNat k.val hk 13#32 (by decide)
    have hA1 : ∀ w : BitVec 32, (k1_off131 k w) 1 = ((w &&& 127#32) &&& 112#32).toNat := fun w => rfl
    have hB : ∀ w : BitVec 32, (k1_off132 w) 0 = 32 * 13 + (w.toNat % 16 + 16 - 13) % 16 :=
      fun w => IdBits.start_toNat 416#32 w 13#32 (by decide) (by decide)
    have hw : region4.sl.v641 d L k g6 = (a6).view.read (Elt F) g6 (ix1 ⟨128 * 3 + 16 * k.val + 13, h1⟩) := by
      delta_sl [v641, r]
      simp only [LanePayK1.k1_pay299_nf, LanePayK1.k1_pay235_nf, View.readAt_rect]
      exact (LaneLib.extract_lane (((a6).view.slice (Rect.unit (s := S512) (k1_off104 k) S16.size (k1_off104_inb k))).read (Elt F) g6) 13 (by decide) _ _).trans (hid ⟨13, by decide⟩ h1)
    delta_sl [v661, H11_28, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off131 k (region4.sl.v641 d L k g6)) (k1_off132 (region4.sl.v641 d L k g6)) ![416] ![432] _ _ _ _ shapeCasts_S1x16_S16 k.val 13 (region4.sl.v641 d L k g6) _ hk (by decide) (hA0 _) (hA1 _) (hB _) rfl rfl h2 hw
  · rw [LaneSteps.nested16_at_14 _ hiota]
    refine congrArg₂ FloatOps.addf (LaneTrip.chunk_read (a10).view g10 (k1_off104 k) _ hoff _ ⟨14, hj⟩ h1) ?_
    have hA0 : ∀ w : BitVec 32, (k1_off133 k w) 0 = 16 * k.val + 14 := fun w => ChkLib.row_toNat k.val hk 14#32 (by decide)
    have hA1 : ∀ w : BitVec 32, (k1_off133 k w) 1 = ((w &&& 127#32) &&& 112#32).toNat := fun w => rfl
    have hB : ∀ w : BitVec 32, (k1_off134 w) 0 = 32 * 14 + (w.toNat % 16 + 16 - 14) % 16 :=
      fun w => IdBits.start_toNat 448#32 w 14#32 (by decide) (by decide)
    have hw : region4.sl.v670 d L k g6 = (a6).view.read (Elt F) g6 (ix1 ⟨128 * 3 + 16 * k.val + 14, h1⟩) := by
      delta_sl [v670, r]
      simp only [LanePayK1.k1_pay304_nf, LanePayK1.k1_pay235_nf, View.readAt_rect]
      exact (LaneLib.extract_lane (((a6).view.slice (Rect.unit (s := S512) (k1_off104 k) S16.size (k1_off104_inb k))).read (Elt F) g6) 14 (by decide) _ _).trans (hid ⟨14, by decide⟩ h1)
    delta_sl [v690, H11_30, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off133 k (region4.sl.v670 d L k g6)) (k1_off134 (region4.sl.v670 d L k g6)) ![448] ![464] _ _ _ _ shapeCasts_S1x16_S16 k.val 14 (region4.sl.v670 d L k g6) _ hk (by decide) (hA0 _) (hA1 _) (hB _) rfl rfl h2 hw
  · rw [LaneSteps.nested16_at_15 _ hiota]
    refine congrArg₂ FloatOps.addf (LaneTrip.chunk_read (a10).view g10 (k1_off104 k) _ hoff _ ⟨15, hj⟩ h1) ?_
    have hA0 : ∀ w : BitVec 32, (k1_off135 k w) 0 = 16 * k.val + 15 := fun w => ChkLib.row_toNat k.val hk 15#32 (by decide)
    have hA1 : ∀ w : BitVec 32, (k1_off135 k w) 1 = ((w &&& 127#32) &&& 112#32).toNat := fun w => rfl
    have hB : ∀ w : BitVec 32, (k1_off136 w) 0 = 32 * 15 + (w.toNat % 16 + 16 - 15) % 16 :=
      fun w => IdBits.start_toNat 480#32 w 15#32 (by decide) (by decide)
    have hw : region4.sl.v699 d L k g6 = (a6).view.read (Elt F) g6 (ix1 ⟨128 * 3 + 16 * k.val + 15, h1⟩) := by
      delta_sl [v699, r]
      simp only [LanePayK1.k1_pay308_nf, LanePayK1.k1_pay235_nf, View.readAt_rect]
      exact (LaneLib.extract_lane (((a6).view.slice (Rect.unit (s := S512) (k1_off104 k) S16.size (k1_off104_inb k))).read (Elt F) g6) 15 (by decide) _ _).trans (hid ⟨15, by decide⟩ h1)
    delta_sl [v719, H11_32, r_3, r_4, r_8, r_15]
    simp only [LanePayK1.k1_pay235_nf, LanePayK1.k1_pay236_nf, LanePayK1.k1_pay237_nf, LanePayK1.k1_pay238_nf, LanePayK1.k1_pay239_nf, LanePayK1.k1_pay240_nf, LanePayK1.k1_pay241_nf, LanePayK1.k1_pay242_nf, LanePayK1.k1_pay243_nf, LanePayK1.k1_pay244_nf, LanePayK1.k1_pay245_nf, LanePayK1.k1_pay246_nf, LanePayK1.k1_pay247_nf, LanePayK1.k1_pay248_nf, LanePayK1.k1_pay249_nf, LanePayK1.k1_pay250_nf, LanePayK1.k1_pay251_nf, LanePayK1.k1_pay252_nf, LanePayK1.k1_pay253_nf, LanePayK1.k1_pay254_nf, LanePayK1.k1_pay255_nf, LanePayK1.k1_pay256_nf, LanePayK1.k1_pay257_nf, LanePayK1.k1_pay258_nf, LanePayK1.k1_pay259_nf, LanePayK1.k1_pay260_nf, LanePayK1.k1_pay261_nf, LanePayK1.k1_pay262_nf, LanePayK1.k1_pay263_nf, LanePayK1.k1_pay264_nf, LanePayK1.k1_pay265_nf, LanePayK1.k1_pay266_nf, LanePayK1.k1_pay267_nf, LanePayK1.k1_pay268_nf, LanePayK1.k1_pay269_nf, LanePayK1.k1_pay270_nf, LanePayK1.k1_pay271_nf, LanePayK1.k1_pay272_nf, LanePayK1.k1_pay273_nf, LanePayK1.k1_pay274_nf, LanePayK1.k1_pay275_nf, LanePayK1.k1_pay276_nf, LanePayK1.k1_pay277_nf, LanePayK1.k1_pay278_nf, LanePayK1.k1_pay279_nf, LanePayK1.k1_pay280_nf, LanePayK1.k1_pay281_nf, LanePayK1.k1_pay282_nf, LanePayK1.k1_pay283_nf, LanePayK1.k1_pay284_nf, LanePayK1.k1_pay285_nf, LanePayK1.k1_pay286_nf, LanePayK1.k1_pay287_nf, LanePayK1.k1_pay288_nf, LanePayK1.k1_pay289_nf, LanePayK1.k1_pay290_nf, LanePayK1.k1_pay291_nf, LanePayK1.k1_pay292_nf, LanePayK1.k1_pay293_nf, LanePayK1.k1_pay294_nf, LanePayK1.k1_pay295_nf, LanePayK1.k1_pay296_nf, LanePayK1.k1_pay297_nf, LanePayK1.k1_pay298_nf, LanePayK1.k1_pay299_nf, LanePayK1.k1_pay300_nf, LanePayK1.k1_pay301_nf, LanePayK1.k1_pay302_nf, LanePayK1.k1_pay303_nf, LanePayK1.k1_pay304_nf, LanePayK1.k1_pay305_nf, LanePayK1.k1_pay306_nf, LanePayK1.k1_pay307_nf, LanePayK1.k1_pay308_nf, LanePayK1.k1_pay309_nf, LanePayK1.k1_pay310_nf, LanePayK1.k1_pay311_nf, LanePayK1.k1_pay312_nf, View.readAt_rect]
    exact LaneTrip.lane_value_at (a11).view _ (a9).view gB _ (k1_off135 k (region4.sl.v699 d L k g6)) (k1_off136 (region4.sl.v699 d L k g6)) ![480] ![496] _ _ _ _ shapeCasts_S1x16_S16 k.val 15 (region4.sl.v699 d L k g6) _ hk (by decide) (hA0 _) (hA1 _) (hB _) rfl rfl h2 hw

end Cert.Kernel.TileK1

end
-- ==== Proof.GatherValB.lean ====
import proofs.«204913_g64682207478566_cont_9to1c4b_713_31_alg».proof.Proof.Gen.Kernel
import Idealize.ShloMosaic.Lib.SparseCore.Stream
import Idealize.ShloMosaic.Lib.ValueIdx
import Idealize.ShloMosaic.Lib.Writes
import Idealize.ShloMosaic.Lib.Pipeline.FrameBody
import Idealize.ShloMosaic.Lib.Pipeline.Value

noncomputable section

namespace Cert.Kernel.GatherVal

open Cert.Kernel
open Idealize.ShloMosaic Idealize.ShloMosaic.ValueIdx

/-! ## What an indirect gather of 128 rows leaves, read at an element

Row `r` of the destination is the table's row that entry `r` of the offset list names. -/

variable {F : FTy → Type} [FloatOps F]

/-- A rank-one shape's row-major position of an index is its one coordinate. -/
theorem rowMajor_symm_one {n : Nat} (k : Fin (⟨1, ![n]⟩ : Shape).numel) :
    (⟨1, ![n]⟩ : Shape).rowMajor.symm k = ix1 (⟨k.val, (lt_of_lt_of_eq k.isLt (Shape.numel_rank1 _) : k.val < n)⟩ : Fin n) := by
  refine (Equiv.symm_apply_eq _).mpr (Fin.ext ?_)
  rw [Shape.rowMajor_val_one]
  rfl

/-- The gather's payload at row `r`, lane `l`: the table at the row the list's entry `r` names, lane `l`. -/
theorem gather_apply {z : Nat} (hg : (⟨2, ![z, 128]⟩ : Shape).Gathers 0 S128x128)
    (g : (⟨2, ![z, 128]⟩ : Shape).Idx → Elt F .f32) (idx : S128.Idx → Elt F .i32)
    (hn : S128.numel = S128x128.size hg.axis') (hin : ∀ x, (idx x).toNat < (⟨2, ![z, 128]⟩ : Shape).size hg.axis)
    (r l : Fin 128) :
    SparseCore.gatherPayload hg g (SparseCore.rows idx hn hin) (ix2 r l)
      = g (ix2 ⟨(idx (ix1 r)).toNat, hin (ix1 r)⟩ l) := by
  unfold SparseCore.gatherPayload
  congr 1
  funext b; apply Fin.ext
  match b with
  | ⟨0, hb⟩ =>
    have h0 := Shape.Gathers.idx_axis hg (SparseCore.rows idx hn hin) (ix2 r l)
    have : (hg.idx (SparseCore.rows idx hn hin) (ix2 r l) hg.axis).val = (idx (ix1 r)).toNat := by
      rw [h0]
      unfold SparseCore.rows
      show (idx (S128.rowMajor.symm _)).toNat = _
      rw [rowMajor_symm_one]
      rfl
    exact this
  | ⟨1, hb⟩ =>
    exact Shape.Gathers.idx_of_ne hg (SparseCore.rows idx hn hin) (ix2 r l) ⟨1, hb⟩ (by show (1 : Nat) ≠ 0; decide)

/-! ## Reads through the slices the kernel makes -/

section Reads

variable {sig : RefSig} {κ : Kind} {sp : Space} {Val : EltTy → Type}

/-- Entry `r` of a 128-entry slice of the 512-entry row list is entry `off + r` of the list. -/
theorem slice_read_ix1 (m : Memref sig κ sp S512 .i32) (off : Fin 1 → Nat) (inb : ∀ a, off a + S128.size a ≤ S512.size a)
    (h1 : ∀ a, (Rect.unit (s := S512) off S128.size inb).stride a = 1) (fo : m.view.ty.Contents Val) (r : Fin 128) :
    (m.slice (Rect.unit (s := S512) off S128.size inb) h1).view.read Val fo (ix1 r)
      = m.view.read Val fo (ix1 ⟨off 0 + r.val, by have hi : off 0 + 128 ≤ 512 := inb 0; have hr := r.isLt; show off 0 + r.val < 512; omega⟩) := by
  have e : (m.slice (Rect.unit (s := S512) off S128.size inb) h1).view.read Val fo (ix1 r)
      = m.view.read Val fo ((Rect.unit (s := S512) off S128.size inb).toLoadRect.idx (ix1 r)) := rfl
  rw [e]
  congr 1
  funext a; apply Fin.ext
  match a with
  | ⟨0, _⟩ => show off 0 + 1 * r.val = off 0 + r.val; omega

/-- A slice that is the whole memref at zero offsets reads what the memref reads. -/
theorem read_slice_full {S : Shape} {e : EltTy} (m : Memref sig κ sp S e) {off : Fin S.rank → Nat} (h : off = fun _ => 0)
    (inb : ∀ a, off a + S.size a ≤ S.size a) (h1 : ∀ a, (Rect.unit (s := S) off S.size inb).stride a = 1) (f : m.view.ty.Contents Val) :
    (m.slice (Rect.unit (s := S) off S.size inb) h1).view.read Val f = m.view.read Val f :=
  View.ld_unit_zero h inb (m.view.read Val f)

/-- A buffer written once through the whole-shape rectangle reads the payload. -/
theorem read_writes_whole {S : Shape} {e : EltTy} (v : View sig κ sp S e) (f : v.ty.Contents Val) (w : S.Idx → Val e) :
    v.read Val (v.writes Val f [(⟨Rect.whole S, w⟩ : View.Piece Val S e)]) = w := by
  funext x
  have h := View.read_writes_cons_emb (v := v) (f := f) (Rect.whole S) w [] x
  rwa [Rect.emb_whole_apply] at h

end Reads

end Cert.Kernel.GatherVal

end
-- ==== Proof.TileValLibB.lean ====
import proofs.«204913_g64682207478566_cont_9to1c4b_713_31_alg».proof.Proof.ValsB
import proofs.«204913_g64682207478566_cont_9to1c4b_713_31_alg».proof.Proof.ChkLib
import Idealize.ShloMosaic.Lib.Writes
import Idealize.ShloMosaic.Lib.ValueIdx

noncomputable section

namespace Cert.Kernel.TileValLib

open Cert.Kernel Cert.Kernel.Gen Cert.Kernel.Common
open Idealize.ShloMosaic Idealize.ShloMosaic.ValueIdx

/-! ## Pure steps of a tile's value: the output scratch filled sixteen lanes at a time, the tile's rows of a batch
array, and the row and lane an id selects -/

section Writes

variable {sig : RefSig} {κ : Kind} {sp : Space} {e : EltTy} {Val : EltTy → Type}

/-- Sixteen more entries of a 512-entry buffer: if the entries below `n` read `val`, and the sixteen written at `n` are
    `val`'s next sixteen, the entries below `n + 16` read `val`. -/
theorem writes_step (vw : View sig κ sp S512 e) (fo : vw.ty.Contents Val) (off : Fin 1 → Nat)
    (inb : ∀ a, off a + S16.size a ≤ S512.size a) (n : Nat) (hoff : off 0 = n)
    (v : S16.Idx → Val e) (val : Fin 512 → Val e)
    (hgood : ∀ r : Fin 512, r.val < n → vw.read Val fo (ix1 r) = val r)
    (hv : ∀ (l : Fin 16) (h : n + l.val < 512), v (ix1 l) = val ⟨n + l.val, h⟩) :
    ∀ r : Fin 512, r.val < n + 16 →
      vw.read Val (vw.writes Val fo [(⟨Rect.unit (s := S512) off S16.size inb, v⟩ : View.Piece Val S512 e)]) (ix1 r) = val r := by
  intro r hr
  by_cases h : r.val < n
  · rw [View.read_writes_apply_of_forall_not_mem (v := vw) (f := fo) (ix1 r) _ (fun p hp => by
      rw [List.mem_singleton] at hp; subst hp
      rw [Rect.mem_set_unit]
      intro hm
      have h0 := (hm (0 : Fin 1)).1
      change off 0 ≤ r.val at h0
      omega)]
    exact hgood r h
  · have hi : off 0 + 16 ≤ 512 := inb 0
    have hl : r.val - n < 16 := by omega
    have hemb : (Rect.unit (s := S512) off S16.size inb).emb (ix1 (⟨r.val - n, hl⟩ : Fin 16)) = (ix1 r : S512.Idx) := by
      funext a; apply Fin.ext
      match a with
      | ⟨0, _⟩ => show off 0 + 1 * (r.val - n) = r.val; omega
    rw [← hemb, View.read_writes_cons_emb]
    rw [hv ⟨r.val - n, hl⟩ (by show n + (r.val - n) < 512; have := r.isLt; omega)]
    congr 1
    apply Fin.ext
    show n + (r.val - n) = r.val
    omega

end Writes

section Rows

variable {sig' : RefSig} {κ : Kind} {sp : Space} {e : EltTy} {Val : EltTy → Type}

/-- Entry `r` of the tile's 512 rows of a batch array is the array's entry at the tile's row `r`. -/
theorem slice_read_bidx (m : Memref sig' κ sp S16384 e) (L : grid1.Coords)
    (h1 : ∀ a, (Rect.unit (s := S16384) (k1_off1 L) S512.size (k1_off1_inb L)).stride a = 1) (f : m.view.ty.Contents Val) (r : Fin 512) :
    (m.slice (Rect.unit (s := S16384) (k1_off1 L) S512.size (k1_off1_inb L)) h1).view.read Val f (ix1 r)
      = m.view.read Val f (Vals.bidx L r) := by
  have e0 : (m.slice (Rect.unit (s := S16384) (k1_off1 L) S512.size (k1_off1_inb L)) h1).view.read Val f (ix1 r)
      = m.view.read Val f ((Rect.unit (s := S16384) (k1_off1 L) S512.size (k1_off1_inb L)).toLoadRect.idx (ix1 r)) := rfl
  rw [e0]
  congr 1
  funext a; apply Fin.ext
  match a with
  | ⟨0, _⟩ => show (k1_off1 L) 0 + 1 * r.val = (k1_off1 L) 0 + r.val; omega

/-- The tile's copy-out, first kernel: the output array's entry at the tile's row `r` is entry `r` of what was copied. -/
theorem copyout_bidx (L : grid1.Coords)
    (h1 : ∀ a, (Rect.unit (s := S16384) (k1_off1 L) S512.size (k1_off1_inb L)).stride a = 1)
    (o0 : S16384.Idx → Val .f32) (w : S512.Idx → Val .f32) (r : Fin 512) :
    (((Memref.whole main_v8_scv : Memref sig .scVector .hbm S16384 .f32).slice
        (Rect.unit (s := S16384) (k1_off1 L) S512.size (k1_off1_inb L)) h1).view.write Val o0 w Finset.univ) (Vals.bidx L r) = w (ix1 r) := by
  have hemb : ((Memref.whole main_v8_scv : Memref sig .scVector .hbm S16384 .f32).slice
      (Rect.unit (s := S16384) (k1_off1 L) S512.size (k1_off1_inb L)) h1).view.emb (ix1 r) = Vals.bidx L r := by
    funext a; apply Fin.ext
    match a with
    | ⟨0, _⟩ => show (k1_off1 L) 0 + 1 * r.val = (k1_off1 L) 0 + r.val; omega
  rw [← hemb, View.write_emb_of_mem _ _ (Finset.mem_univ _)]
  rfl

/-- The same for the second kernel's output array. -/
theorem copyout_bidx3 (L : grid1.Coords)
    (h1 : ∀ a, (Rect.unit (s := S16384) (k1_off1 L) S512.size (k1_off1_inb L)).stride a = 1)
    (o0 : S16384.Idx → Val .f32) (w : S512.Idx → Val .f32) (r : Fin 512) :
    (((Memref.whole main_v12_scv : Memref sig .scVector .hbm S16384 .f32).slice
        (Rect.unit (s := S16384) (k1_off1 L) S512.size (k1_off1_inb L)) h1).view.write Val o0 w Finset.univ) (Vals.bidx L r) = w (ix1 r) := by
  have hemb : ((Memref.whole main_v12_scv : Memref sig .scVector .hbm S16384 .f32).slice
      (Rect.unit (s := S16384) (k1_off1 L) S512.size (k1_off1_inb L)) h1).view.emb (ix1 r) = Vals.bidx L r := by
    funext a; apply Fin.ext
    match a with
    | ⟨0, _⟩ => show (k1_off1 L) 0 + 1 * r.val = (k1_off1 L) 0 + r.val; omega
  rw [← hemb, View.write_emb_of_mem _ _ (Finset.mem_univ _)]
  rfl

/-- The copy-out as one listed write through the whole slice: the array's entry at the tile's row `r` is entry `r` of what was
    copied. -/
theorem copyout_writes_bidx (L : grid1.Coords)
    (h1 : ∀ a, (Rect.unit (s := S16384) (k1_off1 L) S512.size (k1_off1_inb L)).stride a = 1)
    (o0 : S16384.Idx → Val .f32) (w : S512.Idx → Val .f32) (r : Fin 512) :
    (((Memref.whole main_v8_scv : Memref sig .scVector .hbm S16384 .f32).slice
        (Rect.unit (s := S16384) (k1_off1 L) S512.size (k1_off1_inb L)) h1).view.writes Val o0
          [(⟨Rect.whole S512, w⟩ : View.Piece Val S512 .f32)]) (Vals.bidx L r) = w (ix1 r) := by
  have hemb : ((((Memref.whole main_v8_scv : Memref sig .scVector .hbm S16384 .f32).slice
      (Rect.unit (s := S16384) (k1_off1 L) S512.size (k1_off1_inb L)) h1).view).slice (Rect.whole S512)).emb (ix1 r) = Vals.bidx L r := by
    show ((Memref.whole main_v8_scv : Memref sig .scVector .hbm S16384 .f32).slice
      (Rect.unit (s := S16384) (k1_off1 L) S512.size (k1_off1_inb L)) h1).view.emb ((Rect.whole S512).emb (ix1 r)) = _
    rw [Rect.emb_whole_apply]
    funext a; apply Fin.ext
    match a with
    | ⟨0, _⟩ => show (k1_off1 L) 0 + 1 * r.val = (k1_off1 L) 0 + r.val; omega
  rw [View.writes_singleton, ← hemb, View.write_emb_of_mem _ _ (Finset.mem_univ _)]
  rfl

/-- The copy-out as one listed write through the whole slice: the array's entry at the tile's row `r` is entry `r` of what was
    copied. -/
theorem copyout_writes_bidx3 (L : grid1.Coords)
    (h1 : ∀ a, (Rect.unit (s := S16384) (k1_off1 L) S512.size (k1_off1_inb L)).stride a = 1)
    (o0 : S16384.Idx → Val .f32) (w : S512.Idx → Val .f32) (r : Fin 512) :
    (((Memref.whole main_v12_scv : Memref sig .scVector .hbm S16384 .f32).slice
        (Rect.unit (s := S16384) (k1_off1 L) S512.size (k1_off1_inb L)) h1).view.writes Val o0
          [(⟨Rect.whole S512, w⟩ : View.Piece Val S512 .f32)]) (Vals.bidx L r) = w (ix1 r) := by
  have hemb : ((((Memref.whole main_v12_scv : Memref sig .scVector .hbm S16384 .f32).slice
      (Rect.unit (s := S16384) (k1_off1 L) S512.size (k1_off1_inb L)) h1).view).slice (Rect.whole S512)).emb (ix1 r) = Vals.bidx L r := by
    show ((Memref.whole main_v12_scv : Memref sig .scVector .hbm S16384 .f32).slice
      (Rect.unit (s := S16384) (k1_off1 L) S512.size (k1_off1_inb L)) h1).view.emb ((Rect.whole S512).emb (ix1 r)) = _
    rw [Rect.emb_whole_apply]
    funext a; apply Fin.ext
    match a with
    | ⟨0, _⟩ => show (k1_off1 L) 0 + 1 * r.val = (k1_off1 L) 0 + r.val; omega
  rw [View.writes_singleton, ← hemb, View.write_emb_of_mem _ _ (Finset.mem_univ _)]
  rfl

end Rows

/-! ## The row and the lane an id selects -/

/-- An id in the user table's range, shifted right by seven, is the row it selects of the 7816-row table. -/
theorem shrui_eq_trow (v : BitVec 32) (h : v.toNat ≤ 999999) :
    (IntOp.shrui .vector v 7#32).toNat = (Vals.trow 7816 (by decide) v).val := by
  rw [Cert.Proof.ChkLib.toNat_shrui_7]
  show v.toNat / 128 = v.toNat / 128 % 7816
  rw [Nat.mod_eq_of_lt (by omega)]
/-- The same in the course table's range, for the 784-row table. -/
theorem shrui_eq_trow' (v : BitVec 32) (h : v.toNat ≤ 99999) :
    (IntOp.shrui .vector v 7#32).toNat = (Vals.trow 784 (by decide) v).val := by
  rw [Cert.Proof.ChkLib.toNat_shrui_7]
  show v.toNat / 128 = v.toNat / 128 % 784
  rw [Nat.mod_eq_of_lt (by omega)]
/-- An id's residue modulo 128 is the lane it selects. -/
theorem mod_eq_tlane (v : BitVec 32) : v.toNat % 128 = (Vals.tlane v).val := rfl

end Cert.Kernel.TileValLib

end
-- ==== Proof.TileLinkB.lean ====
import proofs.«204913_g64682207478566_cont_9to1c4b_713_31_alg».proof.Proof.TileValLibB
import proofs.«204913_g64682207478566_cont_9to1c4b_713_31_alg».proof.Proof.GatherValB

noncomputable section

namespace Cert.Kernel.TileLink

open Cert.Kernel Cert.Kernel.Gen Cert.Kernel.Common
open Idealize.ShloMosaic Idealize.ShloMosaic.ValueIdx

/-! ## From a tile's scratch copies to the batch arrays: the ids and base values it copied, the rows it gathered, and the
lane sum in the batch arrays' terms -/

variable {F : FTy → Type} [FloatOps F]

section Kernel1

local notation "a6" => (Memref.whole cc1_scratch0 : Memref sig Kind.scVector Space.vmem S512 EltTy.i32)
local notation "a7" => (Memref.whole cc1_scratch1 : Memref sig Kind.scVector Space.vmem S512 EltTy.i32)
local notation "a10" => (Memref.whole cc1_scratch4 : Memref sig Kind.scVector Space.vmem S512 EltTy.f32)
local notation "iV" => (Memref.whole main_arg0_scv : Memref sig Kind.scVector Space.hbm S16384 EltTy.i32)
local notation "bV" => (Memref.whole main_v7_scv : Memref sig Kind.scVector Space.hbm S16384 EltTy.f32)
local notation "tV" => (Memref.whole main_v6_scv : Memref sig Kind.scVector Space.hbm S7816x128 EltTy.f32)

/-- (L1) The ids the tile copied into its scratch: entry `r` is the batch's id at the tile's row `r`. -/
theorem ids_read1 (L : grid1.Coords)
    (h1 : ∀ a, (Rect.unit (s := S16384) (k1_off1 L) S512.size (k1_off1_inb L)).stride a = 1)
    (f6 : S512.Idx → Elt F .i32) (ids : S16384.Idx → Elt F .i32) (r : Fin 512) :
    (a6).view.read (Elt F) (View.write (Elt F) (a6).view f6
        (ReadAs.same.apply (View.read (Elt F) ((iV).slice (Rect.unit (s := S16384) (k1_off1 L) S512.size (k1_off1_inb L)) h1).view ids)) Finset.univ) (ix1 r)
      = ids (Vals.bidx L r) := by
  show (View.whole cc1_scratch0).read (Elt F) ((View.whole cc1_scratch0).write (Elt F) f6 _ Finset.univ) (ix1 r) = _
  rw [View.write_whole_univ, View.read_whole, ReadAs.apply_same, TileValLib.slice_read_bidx]
  rfl

/-- (L1) The base values likewise. -/
theorem base_read1 (L : grid1.Coords)
    (h1 : ∀ a, (Rect.unit (s := S16384) (k1_off1 L) S512.size (k1_off1_inb L)).stride a = 1)
    (f10 : S512.Idx → Elt F .f32) (bs : S16384.Idx → Elt F .f32) (r : Fin 512) :
    (a10).view.read (Elt F) (View.write (Elt F) (a10).view f10
        (ReadAs.same.apply (View.read (Elt F) ((bV).slice (Rect.unit (s := S16384) (k1_off1 L) S512.size (k1_off1_inb L)) h1).view bs)) Finset.univ) (ix1 r)
      = bs (Vals.bidx L r) := by
  show (View.whole cc1_scratch4).read (Elt F) ((View.whole cc1_scratch4).write (Elt F) f10 _ Finset.univ) (ix1 r) = _
  rw [View.write_whole_univ, View.read_whole, ReadAs.apply_same, TileValLib.slice_read_bidx]
  rfl

/-- (L2) A gathered buffer read at row `i`, lane `j`: the table at the row the id at position `off + i` of the tile selects,
    lane `j` — the row list holding every id shifted right by seven, the ids in the table's range. -/
theorem gathered_read1 {κB : Kind} {spB : Space} (vB : View sig κB spB S128x128 .f32) (junk0 : vB.ty.Contents (Elt F))
    (tbl : S7816x128.Idx → Elt F .f32) (FO : S512.Idx → Elt F .i32) (i6 : S512.Idx → BitVec 32)
    (hrow : ∀ y : S512.Idx, (a7).view.read (Elt F) FO y = IntOp.shrui .vector (i6 y) 7#32) (hlt : ∀ y, (i6 y).toNat ≤ 999999)
    (off : Fin 1 → Nat) (inb : ∀ a, off a + S128.size a ≤ S512.size a)
    (h1 : ∀ a, (Rect.unit (s := S7816x128) ![0, 0] S7816x128.size inb_S7816x128_S7816x128_0_0).stride a = 1)
    (h1' : ∀ a, (Rect.unit (s := S512) off S128.size inb).stride a = 1)
    (hn : S128.numel = S128x128.size gathers_S7816x128_S128x128.axis')
    (hin' : ∀ x, (View.read (Elt F) ((a7).slice (Rect.unit (s := S512) off S128.size inb) h1').view FO x).toNat < S7816x128.size gathers_S7816x128_S128x128.axis)
    (Lt : List (View.Piece (Elt F) S128x128 .f32)) (i j : Fin 128) :
    vB.read (Elt F) (vB.writes (Elt F) junk0 ((⟨Rect.whole S128x128, SparseCore.gatherPayload gathers_S7816x128_S128x128
          (View.read (Elt F) ((tV).slice (Rect.unit (s := S7816x128) ![0, 0] S7816x128.size inb_S7816x128_S7816x128_0_0) h1).view tbl)
          (SparseCore.rows (View.read (Elt F) ((a7).slice (Rect.unit (s := S512) off S128.size inb) h1').view FO) hn hin')⟩ : View.Piece (Elt F) S128x128 .f32) :: Lt)) (ix2 i j)
      = tbl (ix2 (Vals.trow 7816 (by decide) (i6 (ix1 ⟨off 0 + i.val, by have hi : off 0 + 128 ≤ 512 := inb 0; have := i.isLt; omega⟩))) j) := by
  have hw := View.read_writes_cons_emb (v := vB) (f := junk0) (Rect.whole S128x128)
    (SparseCore.gatherPayload gathers_S7816x128_S128x128
      (View.read (Elt F) ((tV).slice (Rect.unit (s := S7816x128) ![0, 0] S7816x128.size inb_S7816x128_S7816x128_0_0) h1).view tbl)
      (SparseCore.rows (View.read (Elt F) ((a7).slice (Rect.unit (s := S512) off S128.size inb) h1').view FO) hn hin')) Lt (ix2 i j)
  rw [Rect.emb_whole_apply] at hw
  refine hw.trans ?_
  refine (GatherVal.gather_apply gathers_S7816x128_S128x128 _ _ hn hin' i j).trans ?_
  have hrs := GatherVal.read_slice_full (Val := Elt F) (tV) (off := ![0, 0]) (funext fun a => by fin_cases a <;> rfl)
    inb_S7816x128_S7816x128_0_0 h1 tbl
  refine (congrFun hrs _).trans ?_
  show tbl _ = tbl _
  congr 1
  funext b; apply Fin.ext
  match b with
  | ⟨0, _⟩ =>
    show (View.read (Elt F) ((a7).slice (Rect.unit (s := S512) off S128.size inb) h1').view FO (ix1 i)).toNat = _
    rw [GatherVal.slice_read_ix1, hrow, TileValLib.shrui_eq_trow _ (hlt _)]
  | ⟨1, _⟩ => rfl

/-- (L3) The link: a lane's sum over the scratch copies is the batch row's base value plus the table entry its id selects. -/
theorem link1 (L : grid1.Coords) (ids : S16384.Idx → BitVec 32) (bs : S16384.Idx → F .f32) (tbl : S7816x128.Idx → F .f32)
    (i6 : S512.Idx → BitVec 32) (b10 : S512.Idx → F .f32) (rB : S128x128.Idx → F .f32) (c : Nat)
    (hi6 : ∀ r : Fin 512, i6 (ix1 r) = ids (Vals.bidx L r)) (hb10 : ∀ r : Fin 512, b10 (ix1 r) = bs (Vals.bidx L r))
    (hrB : ∀ (i j : Fin 128) (h : 128 * c + i.val < 512),
      rB (ix2 i j) = tbl (ix2 (Vals.trow 7816 (by decide) (i6 (ix1 ⟨128 * c + i.val, h⟩))) j)) :
    ∀ (k : Nat) (l : Fin 16) (h1 : 128 * c + 16 * k + l.val < 512) (h2 : 16 * k + l.val < 128),
      FloatOps.addf (b10 (ix1 ⟨128 * c + 16 * k + l.val, h1⟩))
          (rB (ix2 ⟨16 * k + l.val, h2⟩ ⟨(i6 (ix1 ⟨128 * c + 16 * k + l.val, h1⟩)).toNat % 128, Nat.mod_lt _ (by decide)⟩))
        = FloatOps.addf (bs (Vals.bidx L ⟨128 * c + 16 * k + l.val, h1⟩))
            (tbl (ix2 (Vals.trow 7816 (by decide) (ids (Vals.bidx L ⟨128 * c + 16 * k + l.val, h1⟩)))
              (Vals.tlane (ids (Vals.bidx L ⟨128 * c + 16 * k + l.val, h1⟩))))) := by
  intro k l h1 h2
  have e : (⟨128 * c + (⟨16 * k + l.val, h2⟩ : Fin 128).val, by show 128 * c + (16 * k + l.val) < 512; omega⟩ : Fin 512)
      = ⟨128 * c + 16 * k + l.val, h1⟩ := Fin.ext (by show 128 * c + (16 * k + l.val) = 128 * c + 16 * k + l.val; omega)
  rw [hb10, hrB ⟨16 * k + l.val, h2⟩ _ (by show 128 * c + (16 * k + l.val) < 512; omega), e]
  simp only [hi6]
  rfl

end Kernel1

section Kernel3

local notation "a6" => (Memref.whole cc3_scratch0 : Memref sig Kind.scVector Space.vmem S512 EltTy.i32)
local notation "a7" => (Memref.whole cc3_scratch1 : Memref sig Kind.scVector Space.vmem S512 EltTy.i32)
local notation "a10" => (Memref.whole cc3_scratch4 : Memref sig Kind.scVector Space.vmem S512 EltTy.f32)
local notation "iV" => (Memref.whole main_arg1_scv : Memref sig Kind.scVector Space.hbm S16384 EltTy.i32)
local notation "bV" => (Memref.whole main_v8_scv : Memref sig Kind.scVector Space.hbm S16384 EltTy.f32)
local notation "tV" => (Memref.whole main_v11_scv : Memref sig Kind.scVector Space.hbm S784x128 EltTy.f32)

/-- (L1) The ids the tile copied into its scratch: entry `r` is the batch's id at the tile's row `r`. -/
theorem ids_read3 (L : grid1.Coords)
    (h1 : ∀ a, (Rect.unit (s := S16384) (k1_off1 L) S512.size (k1_off1_inb L)).stride a = 1)
    (f6 : S512.Idx → Elt F .i32) (ids : S16384.Idx → Elt F .i32) (r : Fin 512) :
    (a6).view.read (Elt F) (View.write (Elt F) (a6).view f6
        (ReadAs.same.apply (View.read (Elt F) ((iV).slice (Rect.unit (s := S16384) (k1_off1 L) S512.size (k1_off1_inb L)) h1).view ids)) Finset.univ) (ix1 r)
      = ids (Vals.bidx L r) := by
  show (View.whole cc3_scratch0).read (Elt F) ((View.whole cc3_scratch0).write (Elt F) f6 _ Finset.univ) (ix1 r) = _
  rw [View.write_whole_univ, View.read_whole, ReadAs.apply_same, TileValLib.slice_read_bidx]
  rfl

/-- (L1) The base values likewise. -/
theorem base_read3 (L : grid1.Coords)
    (h1 : ∀ a, (Rect.unit (s := S16384) (k1_off1 L) S512.size (k1_off1_inb L)).stride a = 1)
    (f10 : S512.Idx → Elt F .f32) (bs : S16384.Idx → Elt F .f32) (r : Fin 512) :
    (a10).view.read (Elt F) (View.write (Elt F) (a10).view f10
        (ReadAs.same.apply (View.read (Elt F) ((bV).slice (Rect.unit (s := S16384) (k1_off1 L) S512.size (k1_off1_inb L)) h1).view bs)) Finset.univ) (ix1 r)
      = bs (Vals.bidx L r) := by
  show (View.whole cc3_scratch4).read (Elt F) ((View.whole cc3_scratch4).write (Elt F) f10 _ Finset.univ) (ix1 r) = _
  rw [View.write_whole_univ, View.read_whole, ReadAs.apply_same, TileValLib.slice_read_bidx]
  rfl

/-- (L2) A gathered buffer read at row `i`, lane `j`: the table at the row the id at position `off + i` of the tile selects,
    lane `j` — the row list holding every id shifted right by seven, the ids in the table's range. -/
theorem gathered_read3 {κB : Kind} {spB : Space} (vB : View sig κB spB S128x128 .f32) (junk0 : vB.ty.Contents (Elt F))
    (tbl : S784x128.Idx → Elt F .f32) (FO : S512.Idx → Elt F .i32) (i6 : S512.Idx → BitVec 32)
    (hrow : ∀ y : S512.Idx, (a7).view.read (Elt F) FO y = IntOp.shrui .vector (i6 y) 7#32) (hlt : ∀ y, (i6 y).toNat ≤ 99999)
    (off : Fin 1 → Nat) (inb : ∀ a, off a + S128.size a ≤ S512.size a)
    (h1 : ∀ a, (Rect.unit (s := S784x128) ![0, 0] S784x128.size inb_S784x128_S784x128_0_0).stride a = 1)
    (h1' : ∀ a, (Rect.unit (s := S512) off S128.size inb).stride a = 1)
    (hn : S128.numel = S128x128.size gathers_S784x128_S128x128.axis')
    (hin' : ∀ x, (View.read (Elt F) ((a7).slice (Rect.unit (s := S512) off S128.size inb) h1').view FO x).toNat < S784x128.size gathers_S784x128_S128x128.axis)
    (Lt : List (View.Piece (Elt F) S128x128 .f32)) (i j : Fin 128) :
    vB.read (Elt F) (vB.writes (Elt F) junk0 ((⟨Rect.whole S128x128, SparseCore.gatherPayload gathers_S784x128_S128x128
          (View.read (Elt F) ((tV).slice (Rect.unit (s := S784x128) ![0, 0] S784x128.size inb_S784x128_S784x128_0_0) h1).view tbl)
          (SparseCore.rows (View.read (Elt F) ((a7).slice (Rect.unit (s := S512) off S128.size inb) h1').view FO) hn hin')⟩ : View.Piece (Elt F) S128x128 .f32) :: Lt)) (ix2 i j)
      = tbl (ix2 (Vals.trow 784 (by decide) (i6 (ix1 ⟨off 0 + i.val, by have hi : off 0 + 128 ≤ 512 := inb 0; have := i.isLt; omega⟩))) j) := by
  have hw := View.read_writes_cons_emb (v := vB) (f := junk0) (Rect.whole S128x128)
    (SparseCore.gatherPayload gathers_S784x128_S128x128
      (View.read (Elt F) ((tV).slice (Rect.unit (s := S784x128) ![0, 0] S784x128.size inb_S784x128_S784x128_0_0) h1).view tbl)
      (SparseCore.rows (View.read (Elt F) ((a7).slice (Rect.unit (s := S512) off S128.size inb) h1').view FO) hn hin')) Lt (ix2 i j)
  rw [Rect.emb_whole_apply] at hw
  refine hw.trans ?_
  refine (GatherVal.gather_apply gathers_S784x128_S128x128 _ _ hn hin' i j).trans ?_
  have hrs := GatherVal.read_slice_full (Val := Elt F) (tV) (off := ![0, 0]) (funext fun a => by fin_cases a <;> rfl)
    inb_S784x128_S784x128_0_0 h1 tbl
  refine (congrFun hrs _).trans ?_
  show tbl _ = tbl _
  congr 1
  funext b; apply Fin.ext
  match b with
  | ⟨0, _⟩ =>
    show (View.read (Elt F) ((a7).slice (Rect.unit (s := S512) off S128.size inb) h1').view FO (ix1 i)).toNat = _
    rw [GatherVal.slice_read_ix1, hrow, TileValLib.shrui_eq_trow' _ (hlt _)]
  | ⟨1, _⟩ => rfl

/-- (L3) The link: a lane's sum over the scratch copies is the batch row's base value plus the table entry its id selects. -/
theorem link3 (L : grid1.Coords) (ids : S16384.Idx → BitVec 32) (bs : S16384.Idx → F .f32) (tbl : S784x128.Idx → F .f32)
    (i6 : S512.Idx → BitVec 32) (b10 : S512.Idx → F .f32) (rB : S128x128.Idx → F .f32) (c : Nat)
    (hi6 : ∀ r : Fin 512, i6 (ix1 r) = ids (Vals.bidx L r)) (hb10 : ∀ r : Fin 512, b10 (ix1 r) = bs (Vals.bidx L r))
    (hrB : ∀ (i j : Fin 128) (h : 128 * c + i.val < 512),
      rB (ix2 i j) = tbl (ix2 (Vals.trow 784 (by decide) (i6 (ix1 ⟨128 * c + i.val, h⟩))) j)) :
    ∀ (k : Nat) (l : Fin 16) (h1 : 128 * c + 16 * k + l.val < 512) (h2 : 16 * k + l.val < 128),
      FloatOps.addf (b10 (ix1 ⟨128 * c + 16 * k + l.val, h1⟩))
          (rB (ix2 ⟨16 * k + l.val, h2⟩ ⟨(i6 (ix1 ⟨128 * c + 16 * k + l.val, h1⟩)).toNat % 128, Nat.mod_lt _ (by decide)⟩))
        = FloatOps.addf (bs (Vals.bidx L ⟨128 * c + 16 * k + l.val, h1⟩))
            (tbl (ix2 (Vals.trow 784 (by decide) (ids (Vals.bidx L ⟨128 * c + 16 * k + l.val, h1⟩)))
              (Vals.tlane (ids (Vals.bidx L ⟨128 * c + 16 * k + l.val, h1⟩))))) := by
  intro k l h1 h2
  have e : (⟨128 * c + (⟨16 * k + l.val, h2⟩ : Fin 128).val, by show 128 * c + (16 * k + l.val) < 512; omega⟩ : Fin 512)
      = ⟨128 * c + 16 * k + l.val, h1⟩ := Fin.ext (by show 128 * c + (16 * k + l.val) = 128 * c + 16 * k + l.val; omega)
  rw [hb10, hrB ⟨16 * k + l.val, h2⟩ _ (by show 128 * c + (16 * k + l.val) < 512; omega), e]
  simp only [hi6]
  rfl

end Kernel3

end Cert.Kernel.TileLink

end
-- ==== Proof.Kernel.TileK1V.lean ====
/-
  One vector subcore's task of the first gather kernel with its value: as the frame, and moreover the tile's 512 output
  entries end at the base value plus the table entry the id selects. The value is carried in the loops' invariants:
  before trip g of chunk c the output buffer is right below entry 128 c + 16 g; a trip's sixteen results are right by
  the trip theorem, the gathered buffer's row r being the table's row (id at 128 c + r) / 128 and the id's lane being
  id mod 128; the copy-out moves the 512 entries to the tile's rows of the output.
-/
import proofs.«204913_g64682207478566_cont_9to1c4b_713_31_alg».proof.Proof.Kernel.TileK1
import proofs.«204913_g64682207478566_cont_9to1c4b_713_31_alg».proof.Proof.Kernel.RegionK1
import proofs.«204913_g64682207478566_cont_9to1c4b_713_31_alg».proof.Proof.ValsB
import proofs.«204913_g64682207478566_cont_9to1c4b_713_31_alg».proof.Proof.GatherValB
import proofs.«204913_g64682207478566_cont_9to1c4b_713_31_alg».proof.Proof.TileValLibB
import proofs.«204913_g64682207478566_cont_9to1c4b_713_31_alg».proof.Proof.TileLinkB
import proofs.«204913_g64682207478566_cont_9to1c4b_713_31_alg».proof.Proof.Gen.Kernel.Skeleton
import proofs.«204913_g64682207478566_cont_9to1c4b_713_31_alg».proof.Proof.ChkLib
import Idealize.ShloMosaic.Lib.Pipeline.Value
import Idealize.ShloMosaic.Lib.ValueIdx

noncomputable section

namespace Cert.Kernel.TileK1

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "iV" => (Memref.whole Cert.Kernel.main_arg0_scv : Memref Cert.Kernel.sig Kind.scVector Space.hbm Cert.Kernel.S16384 EltTy.i32)
local notation "tV" => (Memref.whole Cert.Kernel.main_v6_scv : Memref Cert.Kernel.sig Kind.scVector Space.hbm Cert.Kernel.S7816x128 EltTy.f32)
local notation "bV" => (Memref.whole Cert.Kernel.main_v7_scv : Memref Cert.Kernel.sig Kind.scVector Space.hbm Cert.Kernel.S16384 EltTy.f32)
local notation "oV" => (Memref.whole Cert.Kernel.main_v8_scv : Memref Cert.Kernel.sig Kind.scVector Space.hbm Cert.Kernel.S16384 EltTy.f32)
local notation "a6" => (Memref.whole Cert.Kernel.cc1_scratch0 : Memref Cert.Kernel.sig Kind.scVector Space.vmem Cert.Kernel.S512 EltTy.i32)
local notation "a7" => (Memref.whole Cert.Kernel.cc1_scratch1 : Memref Cert.Kernel.sig Kind.scVector Space.vmem Cert.Kernel.S512 EltTy.i32)
local notation "a8" => (Memref.whole Cert.Kernel.cc1_scratch2 : Memref Cert.Kernel.sig Kind.scVector Space.vmem Cert.Kernel.S128x128 EltTy.f32)
local notation "a9" => (Memref.whole Cert.Kernel.cc1_scratch3 : Memref Cert.Kernel.sig Kind.scVector Space.vmem Cert.Kernel.S128x128 EltTy.f32)
local notation "a10" => (Memref.whole Cert.Kernel.cc1_scratch4 : Memref Cert.Kernel.sig Kind.scVector Space.vmem Cert.Kernel.S512 EltTy.f32)
local notation "a11" => (Memref.whole Cert.Kernel.cc1_scratch5 : Memref Cert.Kernel.sig Kind.scVector Space.vmem Cert.Kernel.S512 EltTy.f32)
local notation "a12" => (Memref.whole Cert.Kernel.cc1_scratch6 : Memref Cert.Kernel.sig Kind.scVector Space.vmem Cert.Kernel.S512 EltTy.f32)

variable [FloatOps F]
variable (d : Dev nD) (L : grid1.Coords)

/-- The value a tile leaves at its entry `r`: the base value there plus the table's entry at the row and lane the id selects. -/
def VAL (L : grid1.Coords) (ids : IVec S16384 32) (bs : FVec F S16384 .f32) (tbl : FVec F S7816x128 .f32) (r : Fin 512) : F .f32 :=
  FloatOps.addf (bs (Vals.bidx L r)) (tbl (ix2 (Vals.trow 7816 (by decide) (ids (Vals.bidx L r))) (Vals.tlane (ids (Vals.bidx L r)))))

/-- A chunk's loop over buffer A before trip `g`: the ids, the base values and the gathered rows as they stand, the rotate
    buffer at some contents, and the output buffer correct below entry `128 c + 16 g`. -/
def invVA (d : Dev nD) (L : grid1.Coords) (F6 : Buf (Elt F) ((a6).view.loc (V d (cV L) (jV L)))) (F10 : Buf (Elt F) ((a10).view.loc (V d (cV L) (jV L))))
    (FB : Buf (Elt F) ((a8).view.loc (V d (cV L) (jV L)))) (c : Nat) (val : Fin 512 → F .f32) (g : Nat) (_ : BitVec 32) : sProp 𝕄 :=
  iprop(((a6).view.loc (V d (cV L) (jV L)) ↦{fullShare} F6) ∗ ((a10).view.loc (V d (cV L) (jV L)) ↦{fullShare} F10) ∗ ((a8).view.loc (V d (cV L) (jV L)) ↦{fullShare} FB)
    ∗ (∃ f, (a11).view.loc (V d (cV L) (jV L)) ↦{fullShare} f)
    ∗ ∃ fo, ((a12).view.loc (V d (cV L) (jV L)) ↦{fullShare} fo) ∗ ⌜∀ r : Fin 512, r.val < 128 * c + 16 * g → (a12).view.read (Elt F) fo (ix1 r) = val r⌝)
/-- The same over buffer B. -/
def invVB (d : Dev nD) (L : grid1.Coords) (F6 : Buf (Elt F) ((a6).view.loc (V d (cV L) (jV L)))) (F10 : Buf (Elt F) ((a10).view.loc (V d (cV L) (jV L))))
    (FB : Buf (Elt F) ((a9).view.loc (V d (cV L) (jV L)))) (c : Nat) (val : Fin 512 → F .f32) (g : Nat) (_ : BitVec 32) : sProp 𝕄 :=
  iprop(((a6).view.loc (V d (cV L) (jV L)) ↦{fullShare} F6) ∗ ((a10).view.loc (V d (cV L) (jV L)) ↦{fullShare} F10) ∗ ((a9).view.loc (V d (cV L) (jV L)) ↦{fullShare} FB)
    ∗ (∃ f, (a11).view.loc (V d (cV L) (jV L)) ↦{fullShare} f)
    ∗ ∃ fo, ((a12).view.loc (V d (cV L) (jV L)) ↦{fullShare} fo) ∗ ⌜∀ r : Fin 512, r.val < 128 * c + 16 * g → (a12).view.read (Elt F) fo (ix1 r) = val r⌝)
set_option maxHeartbeats 4000000 in
theorem tile_body (qi qt qb : PosShare TreeShare)
    (ids : Buf (Elt F) (iLoc d)) (tbl : Buf (Elt F) (tLoc d)) (bs : Buf (Elt F) (bLoc d)) (o0 : Buf (Elt F) (oLoc d))
    (hin : ∀ j, (ids j).toNat ≤ 999999) (hchk : ChkAll) (hF : (K (F := F)).Facts)
    (O : CellTallies nD τ sig (HIx 2)) (W : Waits sig (HIx 2)) (hO : ∀ g, O g none = 0) :
    iprop(levAts (K (F := F)).L (K (F := F)).lev ∗ emp ∗ (((iLoc d ↦{qi} ids : sProp 𝕄)) ∗ (tLoc d ↦{qt} tbl) ∗ (bLoc d ↦{qb} bs) ∗ (oLoc d ↦[oRowSet L]{fullShare} o0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc1_scratch7 cc1_scratch8 cc1_scoped0 cc1_scoped1 cc1_scoped2)
          fun _ => iprop(((iLoc d ↦{qi} ids) ∗ (tLoc d ↦{qt} tbl) ∗ (bLoc d ↦{qb} bs)
              ∗ ∃ f : Buf (Elt F) (oLoc d), (oLoc d ↦[oRowSet L]{fullShare} f) ∗ ⌜Vals.TileVal (R := 7816) (by decide) L ids bs tbl f⌝)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Hb, Ho⟩, ⟨⟨%f6, H6⟩, ⟨%f7, H7⟩, ⟨%f8, H8⟩, ⟨%f9, H9⟩, ⟨%f10, H10⟩, ⟨%f11, H11⟩, ⟨%f12, H12⟩, Hbufs⟩, ⟨Hs13, Hs14, Hr0, Hr1, Hr2, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Hb' := (Entails.of_eq (pts_bV (F := F) d L _ _).symm) $$ Hb
  ihave Ho' := (Entails.of_eq (pts_oRowK (F := F) d L _).symm) $$ Ho
  ihave H6' := (Entails.of_eq (show ((V d (cV L) (jV L)).loc cc1_scratch0 ↦{fullShare} f6 : sProp 𝕄) = ((a6).view.loc (V d (cV L) (jV L)) ↦{fullShare} f6) from rfl)) $$ H6
  ihave H7' := (Entails.of_eq (show ((V d (cV L) (jV L)).loc cc1_scratch1 ↦{fullShare} f7 : sProp 𝕄) = ((a7).view.loc (V d (cV L) (jV L)) ↦{fullShare} f7) from rfl)) $$ H7
  ihave H8' := (Entails.of_eq (show ((V d (cV L) (jV L)).loc cc1_scratch2 ↦{fullShare} f8 : sProp 𝕄) = ((a8).view.loc (V d (cV L) (jV L)) ↦{fullShare} f8) from rfl)) $$ H8
  ihave H9' := (Entails.of_eq (show ((V d (cV L) (jV L)).loc cc1_scratch3 ↦{fullShare} f9 : sProp 𝕄) = ((a9).view.loc (V d (cV L) (jV L)) ↦{fullShare} f9) from rfl)) $$ H9
  ihave H10' := (Entails.of_eq (show ((V d (cV L) (jV L)).loc cc1_scratch4 ↦{fullShare} f10 : sProp 𝕄) = ((a10).view.loc (V d (cV L) (jV L)) ↦{fullShare} f10) from rfl)) $$ H10
  ihave H11' := (Entails.of_eq (show ((V d (cV L) (jV L)).loc cc1_scratch5 ↦{fullShare} f11 : sProp 𝕄) = ((a11).view.loc (V d (cV L) (jV L)) ↦{fullShare} f11) from rfl)) $$ H11
  ihave H12' := (Entails.of_eq (show ((V d (cV L) (jV L)).loc cc1_scratch6 ↦{fullShare} f12 : sProp 𝕄) = ((a12).view.loc (V d (cV L) (jV L)) ↦{fullShare} f12) from rfl)) $$ H12
  sl_exec
  -- what the prologue left in the row list: at every position the id there, shifted right by 7
  have hdma : ∀ y, (tile_body.sl.dma0 d L ids y).toNat ≤ 999999 := fun y => by
    unfold tile_body.sl.dma0
    rw [ReadAs.apply_same, View.read_apply]
    exact hin _
  have hrow : ∀ y : S512.Idx, (a7).view.read (Elt F) ((a7).view.writes (Elt F) (a7).view.junk (tile_body.sl.H7'_32 d L ids f6)) y
      = IntOp.shrui .vector (tile_body.sl.dma0 d L ids y) 7#32 := by
    intro y
    refine View.read_writes_apply_of_pieces (Val := Elt F) (a7).view _ (fun y => (IntOp.shrui .vector (tile_body.sl.dma0 d L ids y) 7#32 : Elt F .i32)) _ ?_ y ?_
    · unfold tile_body.sl.H7'_32
      simp only [List.forall_mem_cons, List.not_mem_nil, false_imp_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals (intro x; delta_run; simp only [k1_pay347, shapeCast_self, View.write_whole_univ, View.readAt_apply, View.read_whole, shrui, broadcast]; try rfl)
    · unfold tile_body.sl.H7'_32
      exact View.cover_of_tiled _ ![16] rfl y
  have hset8 : (a8).view.set = Finset.univ := View.set_whole _
  have hset9 : (a9).view.set = Finset.univ := View.set_whole _
  have hinK : ∀ (off : Fin 1 → Nat) (inb : ∀ a, off a + S128.size a ≤ S512.size a) (h1 : ∀ a, (Rect.unit (s := S512) off S128.size inb).stride a = 1) x,
      (((a7).slice (Rect.unit (s := S512) off S128.size inb) h1).view.read (Elt F) ((a7).view.writes (Elt F) (a7).view.junk (tile_body.sl.H7'_32 d L ids f6)) x).toNat < S7816x128.size gathers_S7816x128_S128x128.axis := by
    intro off inb h1 x
    have e : ((a7).slice (Rect.unit (s := S512) off S128.size inb) h1).view.read (Elt F) ((a7).view.writes (Elt F) (a7).view.junk (tile_body.sl.H7'_32 d L ids f6)) x
        = (a7).view.read (Elt F) ((a7).view.writes (Elt F) (a7).view.junk (tile_body.sl.H7'_32 d L ids f6)) ((Rect.unit (s := S512) off S128.size inb).toLoadRect.idx x) := rfl
    rw [e, hrow]
    exact Cert.Proof.ChkLib.shrui_7_lt_of_le_999999 _ (hdma _)
  -- the table's share and the row list's, halved: one half per semaphore
  ihave Hts := (pointsTo_share (PosShare.mem_left_op_right qt)).1 $$ Ht'
  icases Hts with ⟨HtL, HtR⟩
  ihave H7s := (pointsTo_share (PosShare.mem_left_op_right fullShare)).1 $$ H7'
  icases H7s with ⟨H7L, H7R⟩
  sl_exec
  -- the ids and the base values as the tile holds them
  have hi6 : ∀ r : Fin 512, (a6).view.read (Elt F) (View.write (Elt F) (a6).view f6 (tile_body.sl.dma0 d L ids) Finset.univ) (ix1 r) = ids (Vals.bidx L r) :=
    fun r => TileLink.ids_read1 L _ f6 ids r
  have hb10 : ∀ r : Fin 512, (a10).view.read (Elt F) (View.write (Elt F) (a10).view f10 (tile_body.sl.dma0_1 d L bs) Finset.univ) (ix1 r) = bs (Vals.bidx L r) :=
    fun r => TileLink.base_read1 L _ f10 bs r
  have h6eq : (a6).view.read (Elt F) (View.write (Elt F) (a6).view f6 (tile_body.sl.dma0 d L ids) Finset.univ) = tile_body.sl.dma0 d L ids := by
    simp only [Memref.view_whole, View.write_whole_univ, View.read_whole]
  have hrow' : ∀ y : S512.Idx, (a7).view.read (Elt F) ((a7).view.writes (Elt F) (a7).view.junk (tile_body.sl.H7'_32 d L ids f6)) y = IntOp.shrui .vector ((a6).view.read (Elt F) (View.write (Elt F) (a6).view f6 (tile_body.sl.dma0 d L ids) Finset.univ) y) 7#32 := by
    intro y; rw [h6eq]; exact hrow y
  have hlt' : ∀ y : S512.Idx, ((a6).view.read (Elt F) (View.write (Elt F) (a6).view f6 (tile_body.sl.dma0 d L ids) Finset.univ) y).toNat ≤ 999999 := by
    intro y; rw [h6eq]; exact hdma y
  -- chunk 0: what its buffer holds, then its loop
  have hrB1 : ∀ (i j : Fin 128) (h : 128 * 0 + i.val < 512), (a8).view.read (Elt F) ((a8).view.writes (Elt F) (a8).view.junk [⟨Rect.whole _, tile_body.sl.gather0 d L ids tbl f6 hinK⟩]) (ix2 i j)
      = tbl (ix2 (Vals.trow 7816 (by decide) ((a6).view.read (Elt F) (View.write (Elt F) (a6).view f6 (tile_body.sl.dma0 d L ids) Finset.univ) (ix1 ⟨128 * 0 + i.val, h⟩))) j) :=
    fun i j h => TileLink.gathered_read1 (a8).view _ tbl ((a7).view.writes (Elt F) (a7).view.junk (tile_body.sl.H7'_32 d L ids f6)) _ hrow' hlt' ![0] inb_S512_S128_0 _ _ _ _ _ i j
  have hlink1 := TileLink.link1 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a8).view.read (Elt F) ((a8).view.writes (Elt F) (a8).view.junk [⟨Rect.whole _, tile_body.sl.gather0 d L ids tbl f6 hinK⟩])) 0 hi6 hb10 hrB1
  sl_for (invVA (F := F) d L (View.write (Elt F) (a6).view f6 (tile_body.sl.dma0 d L ids) Finset.univ) (View.write (Elt F) (a10).view f10 (tile_body.sl.dma0_1 d L bs) Finset.univ) ((a8).view.writes (Elt F) (a8).view.junk [⟨Rect.whole _, tile_body.sl.gather0 d L ids tbl f6 hinK⟩]) 0 (VAL L ids bs tbl)) $$ [H6' H10' H8' H11' H12']
  case region =>
    intro k acc
    unfold invVA
    iintro ⟨H6, H10, HB, ⟨%g11, H11⟩, %fo, H12, %hgood⟩
    ihave Hwp := (region1 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k1_off35 k) 0 = 128 * 0 + 16 * k.val := by
      rw [k1_off35_eq]; show (16 * k.val : Nat) = _; omega
    have hstep := TileValLib.writes_step (Val := Elt F) (a12).view fo (k1_off35 k) (k1_off35_inb k) (128 * 0 + 16 * k.val) hoff v (VAL L ids bs tbl) hgood
      (fun l h => (hv l h (by omega)).trans (hlink1 k.val l h (by omega)))
    intro r hr
    exact hstep r (by omega)
  · unfold invVA
    isplitl [H6']; · iexact H6'
    isplitl [H10']; · iexact H10'
    isplitl [H8']; · iexact H8'
    isplitl [H11']; · iexists _; iexact H11'
    iexists _; isplitl [H12']; · iexact H12'
    ipureintro
    exact fun r hr => absurd hr (by omega)
  iintro %_ HI
  unfold invVA
  icases HI with ⟨H6', H10', H8', ⟨%h11_1, H11'⟩, %fo1, H12', %hgood1⟩
  sl_exec
  -- chunk 1: what its buffer holds, then its loop
  have hrB2 : ∀ (i j : Fin 128) (h : 128 * 1 + i.val < 512), (a9).view.read (Elt F) ((a9).view.writes (Elt F) (a9).view.junk [⟨Rect.whole _, tile_body.sl.gather1 d L ids tbl f6 hinK⟩]) (ix2 i j)
      = tbl (ix2 (Vals.trow 7816 (by decide) ((a6).view.read (Elt F) (View.write (Elt F) (a6).view f6 (tile_body.sl.dma0 d L ids) Finset.univ) (ix1 ⟨128 * 1 + i.val, h⟩))) j) :=
    fun i j h => TileLink.gathered_read1 (a9).view _ tbl ((a7).view.writes (Elt F) (a7).view.junk (tile_body.sl.H7'_32 d L ids f6)) _ hrow' hlt' ![128] inb_S512_S128_128 _ _ _ _ _ i j
  have hlink2 := TileLink.link1 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a9).view.read (Elt F) ((a9).view.writes (Elt F) (a9).view.junk [⟨Rect.whole _, tile_body.sl.gather1 d L ids tbl f6 hinK⟩])) 1 hi6 hb10 hrB2
  sl_for (invVB (F := F) d L (View.write (Elt F) (a6).view f6 (tile_body.sl.dma0 d L ids) Finset.univ) (View.write (Elt F) (a10).view f10 (tile_body.sl.dma0_1 d L bs) Finset.univ) ((a9).view.writes (Elt F) (a9).view.junk [⟨Rect.whole _, tile_body.sl.gather1 d L ids tbl f6 hinK⟩]) 1 (VAL L ids bs tbl)) $$ [H6' H10' H9' H11' H12']
  case region =>
    intro k acc
    unfold invVB
    iintro ⟨H6, H10, HB, ⟨%g11, H11⟩, %fo, H12, %hgood⟩
    ihave Hwp := (region2 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k1_off69 k) 0 = 128 * 1 + 16 * k.val := by
      rw [k1_off69_eq]; show (16 * k.val + 128 : Nat) = _; omega
    have hstep := TileValLib.writes_step (Val := Elt F) (a12).view fo (k1_off69 k) (k1_off69_inb k) (128 * 1 + 16 * k.val) hoff v (VAL L ids bs tbl) hgood
      (fun l h => (hv l h (by omega)).trans (hlink2 k.val l h (by omega)))
    intro r hr
    exact hstep r (by omega)
  · unfold invVB
    isplitl [H6']; · iexact H6'
    isplitl [H10']; · iexact H10'
    isplitl [H9']; · iexact H9'
    isplitl [H11']; · iexists _; iexact H11'
    iexists _; isplitl [H12']; · iexact H12'
    ipureintro
    intro r hr
    exact hgood1 r (by rw [show Scf.trips k1_t1_loop.lb k1_t1_loop.ub k1_t1_loop.st = 8 from Cert.Proof.ChkLib.trips_eq_8]; omega)
  iintro %_ HI
  unfold invVB
  icases HI with ⟨H6', H10', H9', ⟨%h11_2, H11'⟩, %fo2, H12', %hgood2⟩
  sl_exec
  -- chunk 2: what its buffer holds, then its loop
  have hrB3 : ∀ (i j : Fin 128) (h : 128 * 2 + i.val < 512), (a8).view.read (Elt F) ((a8).view.writes (Elt F) (a8).view.junk [⟨Rect.whole _, tile_body.sl.gather0_1 d L ids tbl f6 hinK⟩, ⟨Rect.whole _, tile_body.sl.gather0 d L ids tbl f6 hinK⟩]) (ix2 i j)
      = tbl (ix2 (Vals.trow 7816 (by decide) ((a6).view.read (Elt F) (View.write (Elt F) (a6).view f6 (tile_body.sl.dma0 d L ids) Finset.univ) (ix1 ⟨128 * 2 + i.val, h⟩))) j) :=
    fun i j h => TileLink.gathered_read1 (a8).view _ tbl ((a7).view.writes (Elt F) (a7).view.junk (tile_body.sl.H7'_32 d L ids f6)) _ hrow' hlt' ![256] inb_S512_S128_256 _ _ _ _ _ i j
  have hlink3 := TileLink.link1 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a8).view.read (Elt F) ((a8).view.writes (Elt F) (a8).view.junk [⟨Rect.whole _, tile_body.sl.gather0_1 d L ids tbl f6 hinK⟩, ⟨Rect.whole _, tile_body.sl.gather0 d L ids tbl f6 hinK⟩])) 2 hi6 hb10 hrB3
  sl_for (invVA (F := F) d L (View.write (Elt F) (a6).view f6 (tile_body.sl.dma0 d L ids) Finset.univ) (View.write (Elt F) (a10).view f10 (tile_body.sl.dma0_1 d L bs) Finset.univ) ((a8).view.writes (Elt F) (a8).view.junk [⟨Rect.whole _, tile_body.sl.gather0_1 d L ids tbl f6 hinK⟩, ⟨Rect.whole _, tile_body.sl.gather0 d L ids tbl f6 hinK⟩]) 2 (VAL L ids bs tbl)) $$ [H6' H10' H8' H11' H12']
  case region =>
    intro k acc
    unfold invVA
    iintro ⟨H6, H10, HB, ⟨%g11, H11⟩, %fo, H12, %hgood⟩
    ihave Hwp := (region3 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k1_off103 k) 0 = 128 * 2 + 16 * k.val := by
      rw [k1_off103_eq]; show (16 * k.val + 256 : Nat) = _; omega
    have hstep := TileValLib.writes_step (Val := Elt F) (a12).view fo (k1_off103 k) (k1_off103_inb k) (128 * 2 + 16 * k.val) hoff v (VAL L ids bs tbl) hgood
      (fun l h => (hv l h (by omega)).trans (hlink3 k.val l h (by omega)))
    intro r hr
    exact hstep r (by omega)
  · unfold invVA
    isplitl [H6']; · iexact H6'
    isplitl [H10']; · iexact H10'
    isplitl [H8']; · iexact H8'
    isplitl [H11']; · iexists _; iexact H11'
    iexists _; isplitl [H12']; · iexact H12'
    ipureintro
    intro r hr
    exact hgood2 r (by rw [show Scf.trips k1_t2_loop.lb k1_t2_loop.ub k1_t2_loop.st = 8 from Cert.Proof.ChkLib.trips_eq_8]; omega)
  iintro %_ HI
  unfold invVA
  icases HI with ⟨H6', H10', H8', ⟨%h11_3, H11'⟩, %fo3, H12', %hgood3⟩
  sl_exec
  -- chunk 3: what its buffer holds, then its loop
  have hrB4 : ∀ (i j : Fin 128) (h : 128 * 3 + i.val < 512), (a9).view.read (Elt F) ((a9).view.writes (Elt F) (a9).view.junk [⟨Rect.whole _, tile_body.sl.gather0_2 d L ids tbl f6 hinK⟩, ⟨Rect.whole _, tile_body.sl.gather1 d L ids tbl f6 hinK⟩]) (ix2 i j)
      = tbl (ix2 (Vals.trow 7816 (by decide) ((a6).view.read (Elt F) (View.write (Elt F) (a6).view f6 (tile_body.sl.dma0 d L ids) Finset.univ) (ix1 ⟨128 * 3 + i.val, h⟩))) j) :=
    fun i j h => TileLink.gathered_read1 (a9).view _ tbl ((a7).view.writes (Elt F) (a7).view.junk (tile_body.sl.H7'_32 d L ids f6)) _ hrow' hlt' ![384] inb_S512_S128_384 _ _ _ _ _ i j
  have hlink4 := TileLink.link1 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a9).view.read (Elt F) ((a9).view.writes (Elt F) (a9).view.junk [⟨Rect.whole _, tile_body.sl.gather0_2 d L ids tbl f6 hinK⟩, ⟨Rect.whole _, tile_body.sl.gather1 d L ids tbl f6 hinK⟩])) 3 hi6 hb10 hrB4
  sl_for (invVB (F := F) d L (View.write (Elt F) (a6).view f6 (tile_body.sl.dma0 d L ids) Finset.univ) (View.write (Elt F) (a10).view f10 (tile_body.sl.dma0_1 d L bs) Finset.univ) ((a9).view.writes (Elt F) (a9).view.junk [⟨Rect.whole _, tile_body.sl.gather0_2 d L ids tbl f6 hinK⟩, ⟨Rect.whole _, tile_body.sl.gather1 d L ids tbl f6 hinK⟩]) 3 (VAL L ids bs tbl)) $$ [H6' H10' H9' H11' H12']
  case region =>
    intro k acc
    unfold invVB
    iintro ⟨H6, H10, HB, ⟨%g11, H11⟩, %fo, H12, %hgood⟩
    ihave Hwp := (region4 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k1_off137 k) 0 = 128 * 3 + 16 * k.val := by
      rw [k1_off137_eq]; show (16 * k.val + 384 : Nat) = _; omega
    have hstep := TileValLib.writes_step (Val := Elt F) (a12).view fo (k1_off137 k) (k1_off137_inb k) (128 * 3 + 16 * k.val) hoff v (VAL L ids bs tbl) hgood
      (fun l h => (hv l h (by omega)).trans (hlink4 k.val l h (by omega)))
    intro r hr
    exact hstep r (by omega)
  · unfold invVB
    isplitl [H6']; · iexact H6'
    isplitl [H10']; · iexact H10'
    isplitl [H9']; · iexact H9'
    isplitl [H11']; · iexists _; iexact H11'
    iexists _; isplitl [H12']; · iexact H12'
    ipureintro
    intro r hr
    exact hgood3 r (by rw [show Scf.trips k1_t3_loop.lb k1_t3_loop.ub k1_t3_loop.st = 8 from Cert.Proof.ChkLib.trips_eq_8]; omega)
  iintro %_ HI
  unfold invVB
  icases HI with ⟨H6', H10', H9', ⟨%h11_4, H11'⟩, %fo4, H12', %hgood4⟩
  sl_exec
  sl_step
  ihave Ht := (pointsTo_share (PosShare.mem_left_op_right qt)).2 $$ [HtL HtR]; · isplitl [HtL] <;> iassumption
  ihave H7 := (pointsTo_share (PosShare.mem_left_op_right fullShare)).2 $$ [H7L H7R]; · isplitl [H7L] <;> iassumption
  isplitl [Hi' Ht Hb' Ho']
  · isplitl [Hi']; · iexact Hi'
    isplitl [Ht]; · iexact Ht
    isplitl [Hb']; · iexact Hb'
    iexists _; isplitl [Ho']; · iexact Ho'
    ipureintro
    intro r
    refine (TileValLib.copyout_writes_bidx (Val := Elt F) L _ o0 _ r).trans ?_
    show tile_body.sl.dma0_2 d L fo4 (ix1 r) = _
    unfold tile_body.sl.dma0_2
    rw [ReadAs.apply_same]
    exact hgood4 r (by rw [show Scf.trips k1_t4_loop.lb k1_t4_loop.ub k1_t4_loop.st = 8 from Cert.Proof.ChkLib.trips_eq_8]; omega)
  isplitl [H6' H7 H8' H9' H10' H11' H12' Hbufs]
  · isplitl [H6']; · iexists _; iexact H6'
    isplitl [H7]; · iexists _; iexact H7
    isplitl [H8']; · iexists _; iexact H8'
    isplitl [H9']; · iexists _; iexact H9'
    isplitl [H10']; · iexists _; iexact H10'
    isplitl [H11']; · iexists _; iexact H11'
    isplitl [H12']; · iexists _; iexact H12'
    iexact Hbufs
  isplitl [Hs13 Hs14 Hr0 Hr1 Hr2 Hsems]
  · isplitl [Hs13]; · iexact Hs13
    isplitl [Hs14]; · iexact Hs14
    isplitl [Hr0]; · iexact Hr0
    isplitl [Hr1]; · iexact Hr1
    isplitl [Hr2]; · iexact Hr2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Kernel.TileK1

end
-- ==== Proof.Kernel.TileK3Defs.lean ====
/-
  One vector subcore's task of the second gather kernel: the names it is stated in, and the subcore's own scratch — seven
  buffers and five DMA semaphores of this kernel — peeled out of what a subcore owns (the first kernel's scratch stays
  in the remainder).
-/
import proofs.«204913_g64682207478566_cont_9to1c4b_713_31_alg».proof.Proof.CommonB
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import proofs.«204913_g64682207478566_cont_9to1c4b_713_31_alg».proof.Proof.Gen.Kernel

noncomputable section

namespace Cert.Kernel.TileK3

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays and the tile -/

abbrev iLoc (d : Dev nD) : Loc nD τ sig := (SparseCore.T d).loc main_arg1
abbrev tLoc (d : Dev nD) : Loc nD τ sig := (SparseCore.T d).loc main_v11
abbrev bLoc (d : Dev nD) : Loc nD τ sig := (SparseCore.T d).loc main_v8
abbrev oLoc (d : Dev nD) : Loc nD τ sig := (SparseCore.T d).loc main_v12

abbrev cV (L : grid3.Coords) : Fin τ.nSC := (L 0).castLE hcore3
abbrev jV (L : grid3.Coords) : Fin τ.nSub := (L 1).castLE hsub3

/-- The tile's 512 rows of the output, as the body slices them. -/
abbrev oRowSet (L : grid3.Coords) : Finset S16384.Idx :=
  ((Memref.whole main_v12_scv : Memref sig .scVector .hbm S16384 .f32).view.slice (Rect.unit (s := S16384) (k3_off1 L) S512.size (k3_off1_inb L))).set

abbrev cell (d : Dev nD) (L : grid3.Coords) (s : DmaSem sig) : GSem nD τ sig := (V d (cV L) (jV L), .dma s)

theorem cell_ne (thr : Thread nD τ) {a b : SemLoc sig} (h : a ≠ b) : ((thr, a) : GSem nD τ sig) ≠ (thr, b) :=
  fun e => h (congrArg Prod.snd e)

/-- The side conditions the body assumes at its 64 lane reads (four chunks of sixteen lanes), each for every trip and word. -/
structure ChkAll : Prop where
  h1 : ∀ t v, k3_chk1 t v
  h2 : ∀ t v, k3_chk2 t v
  h3 : ∀ t v, k3_chk3 t v
  h4 : ∀ t v, k3_chk4 t v
  h5 : ∀ t v, k3_chk5 t v
  h6 : ∀ t v, k3_chk6 t v
  h7 : ∀ t v, k3_chk7 t v
  h8 : ∀ t v, k3_chk8 t v
  h9 : ∀ t v, k3_chk9 t v
  h10 : ∀ t v, k3_chk10 t v
  h11 : ∀ t v, k3_chk11 t v
  h12 : ∀ t v, k3_chk12 t v
  h13 : ∀ t v, k3_chk13 t v
  h14 : ∀ t v, k3_chk14 t v
  h15 : ∀ t v, k3_chk15 t v
  h16 : ∀ t v, k3_chk16 t v
  h17 : ∀ t v, k3_chk17 t v
  h18 : ∀ t v, k3_chk18 t v
  h19 : ∀ t v, k3_chk19 t v
  h20 : ∀ t v, k3_chk20 t v
  h21 : ∀ t v, k3_chk21 t v
  h22 : ∀ t v, k3_chk22 t v
  h23 : ∀ t v, k3_chk23 t v
  h24 : ∀ t v, k3_chk24 t v
  h25 : ∀ t v, k3_chk25 t v
  h26 : ∀ t v, k3_chk26 t v
  h27 : ∀ t v, k3_chk27 t v
  h28 : ∀ t v, k3_chk28 t v
  h29 : ∀ t v, k3_chk29 t v
  h30 : ∀ t v, k3_chk30 t v
  h31 : ∀ t v, k3_chk31 t v
  h32 : ∀ t v, k3_chk32 t v
  h33 : ∀ t v, k3_chk33 t v
  h34 : ∀ t v, k3_chk34 t v
  h35 : ∀ t v, k3_chk35 t v
  h36 : ∀ t v, k3_chk36 t v
  h37 : ∀ t v, k3_chk37 t v
  h38 : ∀ t v, k3_chk38 t v
  h39 : ∀ t v, k3_chk39 t v
  h40 : ∀ t v, k3_chk40 t v
  h41 : ∀ t v, k3_chk41 t v
  h42 : ∀ t v, k3_chk42 t v
  h43 : ∀ t v, k3_chk43 t v
  h44 : ∀ t v, k3_chk44 t v
  h45 : ∀ t v, k3_chk45 t v
  h46 : ∀ t v, k3_chk46 t v
  h47 : ∀ t v, k3_chk47 t v
  h48 : ∀ t v, k3_chk48 t v
  h49 : ∀ t v, k3_chk49 t v
  h50 : ∀ t v, k3_chk50 t v
  h51 : ∀ t v, k3_chk51 t v
  h52 : ∀ t v, k3_chk52 t v
  h53 : ∀ t v, k3_chk53 t v
  h54 : ∀ t v, k3_chk54 t v
  h55 : ∀ t v, k3_chk55 t v
  h56 : ∀ t v, k3_chk56 t v
  h57 : ∀ t v, k3_chk57 t v
  h58 : ∀ t v, k3_chk58 t v
  h59 : ∀ t v, k3_chk59 t v
  h60 : ∀ t v, k3_chk60 t v
  h61 : ∀ t v, k3_chk61 t v
  h62 : ∀ t v, k3_chk62 t v
  h63 : ∀ t v, k3_chk63 t v
  h64 : ∀ t v, k3_chk64 t v

variable (d : Dev nD) (L : grid3.Coords)

/-- The five DMA semaphores of this kernel are among the subcore's own: they, at zero, and the rest. -/
theorem ownSems0_V :
    (ownSems0 (V d (cV L) (jV L)) : sProp 𝕄)
      = iprop(semVal (cell d L cc3_scratch7.sem) 0 ∗ semVal (cell d L cc3_scratch8.sem) 0 ∗ semVal (cell d L cc3_scoped0.sem) 0 ∗ semVal (cell d L cc3_scoped1.sem) 0 ∗ semVal (cell d L cc3_scoped2.sem) 0
          ∗ bigSep ((((((ownCells (V d (cV L) (jV L))).erase (cell d L cc3_scratch7.sem)).erase (cell d L cc3_scratch8.sem)).erase (cell d L cc3_scoped0.sem)).erase (cell d L cc3_scoped1.sem)).erase (cell d L cc3_scoped2.sem)) fun g => semVal g 0) := by
  unfold SparseCore.Cfg.ownSems0
  rw [SparseCore.bigSep_erase' ((mem_ownCells (g := (cell d L cc3_scratch7.sem))).mpr ⟨rfl, by show (SemLoc.dma cc3_scratch7.sem : SemLoc sig).isScoped .scVector = true; decide⟩),
    SparseCore.bigSep_erase' (Finset.mem_erase.mpr ⟨cell_ne _ (by decide), (mem_ownCells (g := (cell d L cc3_scratch8.sem))).mpr ⟨rfl, by show (SemLoc.dma cc3_scratch8.sem : SemLoc sig).isScoped .scVector = true; decide⟩⟩),
    SparseCore.bigSep_erase' (Finset.mem_erase.mpr ⟨cell_ne _ (by decide), Finset.mem_erase.mpr ⟨cell_ne _ (by decide), (mem_ownCells (g := (cell d L cc3_scoped0.sem))).mpr ⟨rfl, by show (SemLoc.dma cc3_scoped0.sem : SemLoc sig).isScoped .scVector = true; decide⟩⟩⟩),
    SparseCore.bigSep_erase' (Finset.mem_erase.mpr ⟨cell_ne _ (by decide), Finset.mem_erase.mpr ⟨cell_ne _ (by decide), Finset.mem_erase.mpr ⟨cell_ne _ (by decide), (mem_ownCells (g := (cell d L cc3_scoped1.sem))).mpr ⟨rfl, by show (SemLoc.dma cc3_scoped1.sem : SemLoc sig).isScoped .scVector = true; decide⟩⟩⟩⟩),
    SparseCore.bigSep_erase' (Finset.mem_erase.mpr ⟨cell_ne _ (by decide), Finset.mem_erase.mpr ⟨cell_ne _ (by decide), Finset.mem_erase.mpr ⟨cell_ne _ (by decide), Finset.mem_erase.mpr ⟨cell_ne _ (by decide), (mem_ownCells (g := (cell d L cc3_scoped2.sem))).mpr ⟨rfl, by show (SemLoc.dma cc3_scoped2.sem : SemLoc sig).isScoped .scVector = true; decide⟩⟩⟩⟩⟩)]

/-- The seven scratch buffers of this kernel are among the subcore's own: they, at some contents, and the rest. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f) ∗ (∃ f, (V d (cV L) (jV L)).loc cc3_scratch3 ↦{fullShare} f) ∗ (∃ f, (V d (cV L) (jV L)).loc cc3_scratch4 ↦{fullShare} f) ∗ (∃ f, (V d (cV L) (jV L)).loc cc3_scratch5 ↦{fullShare} f) ∗ (∃ f, (V d (cV L) (jV L)).loc cc3_scratch6 ↦{fullShare} f)
          ∗ bigSep ((((((((ownRefs (τ := τ) (.scVector (cV L) (jV L))).erase ((Proc.scVector (cV L) (jV L)).devRef cc3_scratch0)).erase ((Proc.scVector (cV L) (jV L)).devRef cc3_scratch1)).erase ((Proc.scVector (cV L) (jV L)).devRef cc3_scratch2)).erase ((Proc.scVector (cV L) (jV L)).devRef cc3_scratch3)).erase ((Proc.scVector (cV L) (jV L)).devRef cc3_scratch4)).erase ((Proc.scVector (cV L) (jV L)).devRef cc3_scratch5)).erase ((Proc.scVector (cV L) (jV L)).devRef cc3_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc3_scratch0)) rfl)).trans ?_
  rw [SparseCore.bigSep_erase' (Finset.mem_erase.mpr ⟨fun e => absurd (Proc.devRef_injective _ e) (show (cc3_scratch1 : Ref sig .scVector) ≠ cc3_scratch0 by decide), SparseCore.Cfg.mem_ownRefs_of_owner (p := Proc.scVector (cV L) (jV L)) (b := ((Proc.scVector (cV L) (jV L)).devRef cc3_scratch1)) rfl⟩),
    SparseCore.bigSep_erase' (Finset.mem_erase.mpr ⟨fun e => absurd (Proc.devRef_injective _ e) (show (cc3_scratch2 : Ref sig .scVector) ≠ cc3_scratch1 by decide), Finset.mem_erase.mpr ⟨fun e => absurd (Proc.devRef_injective _ e) (show (cc3_scratch2 : Ref sig .scVector) ≠ cc3_scratch0 by decide), SparseCore.Cfg.mem_ownRefs_of_owner (p := Proc.scVector (cV L) (jV L)) (b := ((Proc.scVector (cV L) (jV L)).devRef cc3_scratch2)) rfl⟩⟩),
    SparseCore.bigSep_erase' (Finset.mem_erase.mpr ⟨fun e => absurd (Proc.devRef_injective _ e) (show (cc3_scratch3 : Ref sig .scVector) ≠ cc3_scratch2 by decide), Finset.mem_erase.mpr ⟨fun e => absurd (Proc.devRef_injective _ e) (show (cc3_scratch3 : Ref sig .scVector) ≠ cc3_scratch1 by decide), Finset.mem_erase.mpr ⟨fun e => absurd (Proc.devRef_injective _ e) (show (cc3_scratch3 : Ref sig .scVector) ≠ cc3_scratch0 by decide), SparseCore.Cfg.mem_ownRefs_of_owner (p := Proc.scVector (cV L) (jV L)) (b := ((Proc.scVector (cV L) (jV L)).devRef cc3_scratch3)) rfl⟩⟩⟩),
    SparseCore.bigSep_erase' (Finset.mem_erase.mpr ⟨fun e => absurd (Proc.devRef_injective _ e) (show (cc3_scratch4 : Ref sig .scVector) ≠ cc3_scratch3 by decide), Finset.mem_erase.mpr ⟨fun e => absurd (Proc.devRef_injective _ e) (show (cc3_scratch4 : Ref sig .scVector) ≠ cc3_scratch2 by decide), Finset.mem_erase.mpr ⟨fun e => absurd (Proc.devRef_injective _ e) (show (cc3_scratch4 : Ref sig .scVector) ≠ cc3_scratch1 by decide), Finset.mem_erase.mpr ⟨fun e => absurd (Proc.devRef_injective _ e) (show (cc3_scratch4 : Ref sig .scVector) ≠ cc3_scratch0 by decide), SparseCore.Cfg.mem_ownRefs_of_owner (p := Proc.scVector (cV L) (jV L)) (b := ((Proc.scVector (cV L) (jV L)).devRef cc3_scratch4)) rfl⟩⟩⟩⟩),
    SparseCore.bigSep_erase' (Finset.mem_erase.mpr ⟨fun e => absurd (Proc.devRef_injective _ e) (show (cc3_scratch5 : Ref sig .scVector) ≠ cc3_scratch4 by decide), Finset.mem_erase.mpr ⟨fun e => absurd (Proc.devRef_injective _ e) (show (cc3_scratch5 : Ref sig .scVector) ≠ cc3_scratch3 by decide), Finset.mem_erase.mpr ⟨fun e => absurd (Proc.devRef_injective _ e) (show (cc3_scratch5 : Ref sig .scVector) ≠ cc3_scratch2 by decide), Finset.mem_erase.mpr ⟨fun e => absurd (Proc.devRef_injective _ e) (show (cc3_scratch5 : Ref sig .scVector) ≠ cc3_scratch1 by decide), Finset.mem_erase.mpr ⟨fun e => absurd (Proc.devRef_injective _ e) (show (cc3_scratch5 : Ref sig .scVector) ≠ cc3_scratch0 by decide), SparseCore.Cfg.mem_ownRefs_of_owner (p := Proc.scVector (cV L) (jV L)) (b := ((Proc.scVector (cV L) (jV L)).devRef cc3_scratch5)) rfl⟩⟩⟩⟩⟩),
    SparseCore.bigSep_erase' (Finset.mem_erase.mpr ⟨fun e => absurd (Proc.devRef_injective _ e) (show (cc3_scratch6 : Ref sig .scVector) ≠ cc3_scratch5 by decide), Finset.mem_erase.mpr ⟨fun e => absurd (Proc.devRef_injective _ e) (show (cc3_scratch6 : Ref sig .scVector) ≠ cc3_scratch4 by decide), Finset.mem_erase.mpr ⟨fun e => absurd (Proc.devRef_injective _ e) (show (cc3_scratch6 : Ref sig .scVector) ≠ cc3_scratch3 by decide), Finset.mem_erase.mpr ⟨fun e => absurd (Proc.devRef_injective _ e) (show (cc3_scratch6 : Ref sig .scVector) ≠ cc3_scratch2 by decide), Finset.mem_erase.mpr ⟨fun e => absurd (Proc.devRef_injective _ e) (show (cc3_scratch6 : Ref sig .scVector) ≠ cc3_scratch1 by decide), Finset.mem_erase.mpr ⟨fun e => absurd (Proc.devRef_injective _ e) (show (cc3_scratch6 : Ref sig .scVector) ≠ cc3_scratch0 by decide), SparseCore.Cfg.mem_ownRefs_of_owner (p := Proc.scVector (cV L) (jV L)) (b := ((Proc.scVector (cV L) (jV L)).devRef cc3_scratch6)) rfl⟩⟩⟩⟩⟩⟩)]

end Cert.Kernel.TileK3

end
-- ==== Proof.Kernel.TileK3.lean ====
/-
  One vector subcore's task of the second gather kernel, run from its resources to its resources (the frame): the two
  fetches of the tile's 512 ids and base values, the row numbers (each id shifted right by 7, hence below the table's
  row count), the four indirect gathers of 128 table rows into two buffers on two semaphores — one gather per semaphore
  at a time, the buffer untouched between a gather's issue and its wait —, the four loops of eight trips over the
  gathered rows, and the copy of the 512 results to the tile's rows of the output.
-/
import proofs.«204913_g64682207478566_cont_9to1c4b_713_31_alg».proof.Proof.Kernel.TileK3Defs
import proofs.«204913_g64682207478566_cont_9to1c4b_713_31_alg».proof.Proof.Gen.Kernel.Skeleton
import proofs.«204913_g64682207478566_cont_9to1c4b_713_31_alg».proof.Proof.ChkLib
import Idealize.ShloMosaic.Lib.Pipeline.Value

noncomputable section

namespace Cert.Kernel.TileK3

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Lean Elab Tactic Meta in
/-- Unfold, in the goal, the auxiliary value definitions the symbolic run made for the enclosing declaration. -/
elab "delta_run" : tactic => do
  let some decl ← Term.getDeclName? | throwError "delta_run: no enclosing declaration"
  let pre := decl ++ `sl
  let g ← getMainGoal
  let g' ← g.deltaTarget (fun n => pre.isPrefixOf n)
  replaceMainGoal [g']

variable {F : FTy → Type}

local notation "𝕄" => MT nD τ sig (HIx 2) (Elt F) ℕ UU ℕ

local notation "iV" => (Memref.whole Cert.Kernel.main_arg1_scv : Memref Cert.Kernel.sig Kind.scVector Space.hbm Cert.Kernel.S16384 EltTy.i32)
local notation "tV" => (Memref.whole Cert.Kernel.main_v11_scv : Memref Cert.Kernel.sig Kind.scVector Space.hbm Cert.Kernel.S784x128 EltTy.f32)
local notation "bV" => (Memref.whole Cert.Kernel.main_v8_scv : Memref Cert.Kernel.sig Kind.scVector Space.hbm Cert.Kernel.S16384 EltTy.f32)
local notation "oV" => (Memref.whole Cert.Kernel.main_v12_scv : Memref Cert.Kernel.sig Kind.scVector Space.hbm Cert.Kernel.S16384 EltTy.f32)
local notation "a6" => (Memref.whole Cert.Kernel.cc3_scratch0 : Memref Cert.Kernel.sig Kind.scVector Space.vmem Cert.Kernel.S512 EltTy.i32)
local notation "a7" => (Memref.whole Cert.Kernel.cc3_scratch1 : Memref Cert.Kernel.sig Kind.scVector Space.vmem Cert.Kernel.S512 EltTy.i32)
local notation "a8" => (Memref.whole Cert.Kernel.cc3_scratch2 : Memref Cert.Kernel.sig Kind.scVector Space.vmem Cert.Kernel.S128x128 EltTy.f32)
local notation "a9" => (Memref.whole Cert.Kernel.cc3_scratch3 : Memref Cert.Kernel.sig Kind.scVector Space.vmem Cert.Kernel.S128x128 EltTy.f32)
local notation "a10" => (Memref.whole Cert.Kernel.cc3_scratch4 : Memref Cert.Kernel.sig Kind.scVector Space.vmem Cert.Kernel.S512 EltTy.f32)
local notation "a11" => (Memref.whole Cert.Kernel.cc3_scratch5 : Memref Cert.Kernel.sig Kind.scVector Space.vmem Cert.Kernel.S512 EltTy.f32)
local notation "a12" => (Memref.whole Cert.Kernel.cc3_scratch6 : Memref Cert.Kernel.sig Kind.scVector Space.vmem Cert.Kernel.S512 EltTy.f32)

variable [FloatOps F]
variable (d : Dev nD) (L : grid3.Coords)

/-- The tile's rows of the output, as the body's copy-out addresses them. -/
abbrev oRowK (L : grid3.Coords) : Memref sig .scVector .hbm S512 .f32 :=
  (oV).slice (Rect.unit (s := S16384) (k3_off1 L) S512.size (k3_off1_inb L)) (fun _ => rfl)

omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_bV (q : PosShare TreeShare) (f : Buf (Elt F) (bLoc d)) :
    ((bV).view.loc (V d (cV L) (jV L)) ↦{q} f : sProp 𝕄) = bLoc d ↦{q} f := rfl

/-- What a chunk's loop touches, buffer A: the ids, the base values, the gathered rows, the rotate buffer and the output
    buffer of the tile, each at some contents. -/
def invA (d : Dev nD) (L : grid3.Coords) (_ : Nat) (_ : BitVec 32) : sProp 𝕄 :=
  iprop((∃ f, (a6).view.loc (V d (cV L) (jV L)) ↦{fullShare} f) ∗ (∃ f, (a10).view.loc (V d (cV L) (jV L)) ↦{fullShare} f)
    ∗ (∃ f, (a8).view.loc (V d (cV L) (jV L)) ↦{fullShare} f) ∗ (∃ f, (a11).view.loc (V d (cV L) (jV L)) ↦{fullShare} f)
    ∗ (∃ f, (a12).view.loc (V d (cV L) (jV L)) ↦{fullShare} f))
/-- The same over buffer B. -/
def invB (d : Dev nD) (L : grid3.Coords) (_ : Nat) (_ : BitVec 32) : sProp 𝕄 :=
  iprop((∃ f, (a6).view.loc (V d (cV L) (jV L)) ↦{fullShare} f) ∗ (∃ f, (a10).view.loc (V d (cV L) (jV L)) ↦{fullShare} f)
    ∗ (∃ f, (a9).view.loc (V d (cV L) (jV L)) ↦{fullShare} f) ∗ (∃ f, (a11).view.loc (V d (cV L) (jV L)) ↦{fullShare} f)
    ∗ (∃ f, (a12).view.loc (V d (cV L) (jV L)) ↦{fullShare} f))

set_option maxHeartbeats 4000000 in
theorem tile_frame (qi qt qb : PosShare TreeShare)
    (ids : Buf (Elt F) (iLoc d)) (tbl : Buf (Elt F) (tLoc d)) (bs : Buf (Elt F) (bLoc d)) (o0 : Buf (Elt F) (oLoc d))
    (hin : ∀ j, (ids j).toNat ≤ 99999) (hchk : ChkAll) (hF : (K (F := F)).Facts)
    (O : CellTallies nD τ sig (HIx 2)) (W : Waits sig (HIx 2)) (hO : ∀ g, O g none = 0) :
    iprop(levAts (K (F := F)).L (K (F := F)).lev ∗ emp ∗ (((iLoc d ↦{qi} ids : sProp 𝕄)) ∗ (tLoc d ↦{qt} tbl) ∗ (bLoc d ↦{qb} bs) ∗ (oLoc d ↦[oRowSet L]{fullShare} o0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__sc_gather_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2)
          fun _ => iprop(((iLoc d ↦{qi} ids) ∗ (tLoc d ↦{qt} tbl) ∗ (bLoc d ↦{qb} bs) ∗ ∃ f, (oLoc d ↦[oRowSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_gather_body_eq_skeleton]; unfold cc3__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Hb, Ho⟩, ⟨⟨%f6, H6⟩, ⟨%f7, H7⟩, ⟨%f8, H8⟩, ⟨%f9, H9⟩, ⟨%f10, H10⟩, ⟨%f11, H11⟩, ⟨%f12, H12⟩, Hbufs⟩, ⟨Hs13, Hs14, Hr0, Hr1, Hr2, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Hb' := (Entails.of_eq (pts_bV (F := F) d L _ _).symm) $$ Hb
  ihave Ho' := (Entails.of_eq (pts_oRowK (F := F) d L _).symm) $$ Ho
  ihave H6' := (Entails.of_eq (show ((V d (cV L) (jV L)).loc cc3_scratch0 ↦{fullShare} f6 : sProp 𝕄) = ((a6).view.loc (V d (cV L) (jV L)) ↦{fullShare} f6) from rfl)) $$ H6
  ihave H7' := (Entails.of_eq (show ((V d (cV L) (jV L)).loc cc3_scratch1 ↦{fullShare} f7 : sProp 𝕄) = ((a7).view.loc (V d (cV L) (jV L)) ↦{fullShare} f7) from rfl)) $$ H7
  ihave H8' := (Entails.of_eq (show ((V d (cV L) (jV L)).loc cc3_scratch2 ↦{fullShare} f8 : sProp 𝕄) = ((a8).view.loc (V d (cV L) (jV L)) ↦{fullShare} f8) from rfl)) $$ H8
  ihave H9' := (Entails.of_eq (show ((V d (cV L) (jV L)).loc cc3_scratch3 ↦{fullShare} f9 : sProp 𝕄) = ((a9).view.loc (V d (cV L) (jV L)) ↦{fullShare} f9) from rfl)) $$ H9
  ihave H10' := (Entails.of_eq (show ((V d (cV L) (jV L)).loc cc3_scratch4 ↦{fullShare} f10 : sProp 𝕄) = ((a10).view.loc (V d (cV L) (jV L)) ↦{fullShare} f10) from rfl)) $$ H10
  ihave H11' := (Entails.of_eq (show ((V d (cV L) (jV L)).loc cc3_scratch5 ↦{fullShare} f11 : sProp 𝕄) = ((a11).view.loc (V d (cV L) (jV L)) ↦{fullShare} f11) from rfl)) $$ H11
  ihave H12' := (Entails.of_eq (show ((V d (cV L) (jV L)).loc cc3_scratch6 ↦{fullShare} f12 : sProp 𝕄) = ((a12).view.loc (V d (cV L) (jV L)) ↦{fullShare} f12) from rfl)) $$ H12
  sl_exec
  -- what the prologue left in the row list: at every position the id there, shifted right by 7
  have hdma : ∀ y, (tile_frame.sl.dma0 d L ids y).toNat ≤ 99999 := fun y => by
    unfold tile_frame.sl.dma0
    rw [ReadAs.apply_same, View.read_apply]
    exact hin _
  have hrow : ∀ y : S512.Idx, (a7).view.read (Elt F) ((a7).view.writes (Elt F) (a7).view.junk (tile_frame.sl.H7'_32 d L ids f6)) y
      = IntOp.shrui .vector (tile_frame.sl.dma0 d L ids y) 7#32 := by
    intro y
    refine View.read_writes_apply_of_pieces (Val := Elt F) (a7).view _ (fun y => (IntOp.shrui .vector (tile_frame.sl.dma0 d L ids y) 7#32 : Elt F .i32)) _ ?_ y ?_
    · unfold tile_frame.sl.H7'_32
      simp only [List.forall_mem_cons, List.not_mem_nil, false_imp_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals (intro x; delta_run; simp only [k3_pay347, shapeCast_self, View.write_whole_univ, View.readAt_apply, View.read_whole, shrui, broadcast]; try rfl)
    · unfold tile_frame.sl.H7'_32
      exact View.cover_of_tiled _ ![16] rfl y
  have hset8 : (a8).view.set = Finset.univ := View.set_whole _
  have hset9 : (a9).view.set = Finset.univ := View.set_whole _
  have hinK : ∀ (off : Fin 1 → Nat) (inb : ∀ a, off a + S128.size a ≤ S512.size a) (h1 : ∀ a, (Rect.unit (s := S512) off S128.size inb).stride a = 1) x,
      (((a7).slice (Rect.unit (s := S512) off S128.size inb) h1).view.read (Elt F) ((a7).view.writes (Elt F) (a7).view.junk (tile_frame.sl.H7'_32 d L ids f6)) x).toNat < S784x128.size gathers_S784x128_S128x128.axis := by
    intro off inb h1 x
    have e : ((a7).slice (Rect.unit (s := S512) off S128.size inb) h1).view.read (Elt F) ((a7).view.writes (Elt F) (a7).view.junk (tile_frame.sl.H7'_32 d L ids f6)) x
        = (a7).view.read (Elt F) ((a7).view.writes (Elt F) (a7).view.junk (tile_frame.sl.H7'_32 d L ids f6)) ((Rect.unit (s := S512) off S128.size inb).toLoadRect.idx x) := rfl
    rw [e, hrow]
    exact Cert.Proof.ChkLib.shrui_7_lt_of_le_99999 _ (hdma _)
  -- the table's share and the row list's, halved: one half per semaphore
  ihave Hts := (pointsTo_share (PosShare.mem_left_op_right qt)).1 $$ Ht'
  icases Hts with ⟨HtL, HtR⟩
  ihave H7s := (pointsTo_share (PosShare.mem_left_op_right fullShare)).1 $$ H7'
  icases H7s with ⟨H7L, H7R⟩
  sl_exec
  -- chunk 0's loop
  sl_for (invA (F := F) d L) $$ [H6' H10' H8' H11' H12']
  case region =>
    intro k acc
    unfold invA
    iintro ⟨⟨%g6, H6⟩, ⟨%g10, H10⟩, ⟨%gB, HB⟩, ⟨%g11, H11⟩, ⟨%g12, H12⟩⟩
    sl_exec (disch := first | sl_exact (hchk.h1 _ _) | sl_exact (hchk.h2 _ _) | sl_exact (hchk.h3 _ _) | sl_exact (hchk.h4 _ _) | sl_exact (hchk.h5 _ _) | sl_exact (hchk.h6 _ _) | sl_exact (hchk.h7 _ _) | sl_exact (hchk.h8 _ _) | sl_exact (hchk.h9 _ _) | sl_exact (hchk.h10 _ _) | sl_exact (hchk.h11 _ _) | sl_exact (hchk.h12 _ _) | sl_exact (hchk.h13 _ _) | sl_exact (hchk.h14 _ _) | sl_exact (hchk.h15 _ _) | sl_exact (hchk.h16 _ _))
    sl_step
    isplitl [H6]; · iexists _; iexact H6
    isplitl [H10]; · iexists _; iexact H10
    isplitl [HB]; · iexists _; iexact HB
    isplitl [H11]; · iexists _; iexact H11
    iexists _; iexact H12
  · unfold invA
    isplitl [H6']; · iexists _; iexact H6'
    isplitl [H10']; · iexists _; iexact H10'
    isplitl [H8']; · iexists _; iexact H8'
    isplitl [H11']; · iexists _; iexact H11'
    iexists _; iexact H12'
  iintro %_ HI
  unfold invA
  icases HI with ⟨⟨%h6_1, H6'⟩, ⟨%h10_1, H10'⟩, ⟨%hB_1, H8'⟩, ⟨%h11_1, H11'⟩, ⟨%h12_1, H12'⟩⟩
  sl_exec
  -- chunk 1's loop
  sl_for (invB (F := F) d L) $$ [H6' H10' H9' H11' H12']
  case region =>
    intro k acc
    unfold invB
    iintro ⟨⟨%g6, H6⟩, ⟨%g10, H10⟩, ⟨%gB, HB⟩, ⟨%g11, H11⟩, ⟨%g12, H12⟩⟩
    sl_exec (disch := first | sl_exact (hchk.h17 _ _) | sl_exact (hchk.h18 _ _) | sl_exact (hchk.h19 _ _) | sl_exact (hchk.h20 _ _) | sl_exact (hchk.h21 _ _) | sl_exact (hchk.h22 _ _) | sl_exact (hchk.h23 _ _) | sl_exact (hchk.h24 _ _) | sl_exact (hchk.h25 _ _) | sl_exact (hchk.h26 _ _) | sl_exact (hchk.h27 _ _) | sl_exact (hchk.h28 _ _) | sl_exact (hchk.h29 _ _) | sl_exact (hchk.h30 _ _) | sl_exact (hchk.h31 _ _) | sl_exact (hchk.h32 _ _))
    sl_step
    isplitl [H6]; · iexists _; iexact H6
    isplitl [H10]; · iexists _; iexact H10
    isplitl [HB]; · iexists _; iexact HB
    isplitl [H11]; · iexists _; iexact H11
    iexists _; iexact H12
  · unfold invB
    isplitl [H6']; · iexists _; iexact H6'
    isplitl [H10']; · iexists _; iexact H10'
    isplitl [H9']; · iexists _; iexact H9'
    isplitl [H11']; · iexists _; iexact H11'
    iexists _; iexact H12'
  iintro %_ HI
  unfold invB
  icases HI with ⟨⟨%h6_2, H6'⟩, ⟨%h10_2, H10'⟩, ⟨%hB_2, H9'⟩, ⟨%h11_2, H11'⟩, ⟨%h12_2, H12'⟩⟩
  sl_exec
  -- chunk 2's loop
  sl_for (invA (F := F) d L) $$ [H6' H10' H8' H11' H12']
  case region =>
    intro k acc
    unfold invA
    iintro ⟨⟨%g6, H6⟩, ⟨%g10, H10⟩, ⟨%gB, HB⟩, ⟨%g11, H11⟩, ⟨%g12, H12⟩⟩
    sl_exec (disch := first | sl_exact (hchk.h33 _ _) | sl_exact (hchk.h34 _ _) | sl_exact (hchk.h35 _ _) | sl_exact (hchk.h36 _ _) | sl_exact (hchk.h37 _ _) | sl_exact (hchk.h38 _ _) | sl_exact (hchk.h39 _ _) | sl_exact (hchk.h40 _ _) | sl_exact (hchk.h41 _ _) | sl_exact (hchk.h42 _ _) | sl_exact (hchk.h43 _ _) | sl_exact (hchk.h44 _ _) | sl_exact (hchk.h45 _ _) | sl_exact (hchk.h46 _ _) | sl_exact (hchk.h47 _ _) | sl_exact (hchk.h48 _ _))
    sl_step
    isplitl [H6]; · iexists _; iexact H6
    isplitl [H10]; · iexists _; iexact H10
    isplitl [HB]; · iexists _; iexact HB
    isplitl [H11]; · iexists _; iexact H11
    iexists _; iexact H12
  · unfold invA
    isplitl [H6']; · iexists _; iexact H6'
    isplitl [H10']; · iexists _; iexact H10'
    isplitl [H8']; · iexists _; iexact H8'
    isplitl [H11']; · iexists _; iexact H11'
    iexists _; iexact H12'
  iintro %_ HI
  unfold invA
  icases HI with ⟨⟨%h6_3, H6'⟩, ⟨%h10_3, H10'⟩, ⟨%hB_3, H8'⟩, ⟨%h11_3, H11'⟩, ⟨%h12_3, H12'⟩⟩
  sl_exec
  -- chunk 3's loop
  sl_for (invB (F := F) d L) $$ [H6' H10' H9' H11' H12']
  case region =>
    intro k acc
    unfold invB
    iintro ⟨⟨%g6, H6⟩, ⟨%g10, H10⟩, ⟨%gB, HB⟩, ⟨%g11, H11⟩, ⟨%g12, H12⟩⟩
    sl_exec (disch := first | sl_exact (hchk.h49 _ _) | sl_exact (hchk.h50 _ _) | sl_exact (hchk.h51 _ _) | sl_exact (hchk.h52 _ _) | sl_exact (hchk.h53 _ _) | sl_exact (hchk.h54 _ _) | sl_exact (hchk.h55 _ _) | sl_exact (hchk.h56 _ _) | sl_exact (hchk.h57 _ _) | sl_exact (hchk.h58 _ _) | sl_exact (hchk.h59 _ _) | sl_exact (hchk.h60 _ _) | sl_exact (hchk.h61 _ _) | sl_exact (hchk.h62 _ _) | sl_exact (hchk.h63 _ _) | sl_exact (hchk.h64 _ _))
    sl_step
    isplitl [H6]; · iexists _; iexact H6
    isplitl [H10]; · iexists _; iexact H10
    isplitl [HB]; · iexists _; iexact HB
    isplitl [H11]; · iexists _; iexact H11
    iexists _; iexact H12
  · unfold invB
    isplitl [H6']; · iexists _; iexact H6'
    isplitl [H10']; · iexists _; iexact H10'
    isplitl [H9']; · iexists _; iexact H9'
    isplitl [H11']; · iexists _; iexact H11'
    iexists _; iexact H12'
  iintro %_ HI
  unfold invB
  icases HI with ⟨⟨%h6_4, H6'⟩, ⟨%h10_4, H10'⟩, ⟨%hB_4, H9'⟩, ⟨%h11_4, H11'⟩, ⟨%h12_4, H12'⟩⟩
  sl_exec
  sl_step
  ihave Ht := (pointsTo_share (PosShare.mem_left_op_right qt)).2 $$ [HtL HtR]; · isplitl [HtL] <;> iassumption
  ihave H7 := (pointsTo_share (PosShare.mem_left_op_right fullShare)).2 $$ [H7L H7R]; · isplitl [H7L] <;> iassumption
  isplitl [Hi' Ht Hb' Ho']
  · isplitl [Hi']; · iexact Hi'
    isplitl [Ht]; · iexact Ht
    isplitl [Hb']; · iexact Hb'
    iexists _; iexact Ho'
  isplitl [H6' H7 H8' H9' H10' H11' H12' Hbufs]
  · isplitl [H6']; · iexists _; iexact H6'
    isplitl [H7]; · iexists _; iexact H7
    isplitl [H8']; · iexists _; iexact H8'
    isplitl [H9']; · iexists _; iexact H9'
    isplitl [H10']; · iexists _; iexact H10'
    isplitl [H11']; · iexists _; iexact H11'
    isplitl [H12']; · iexists _; iexact H12'
    iexact Hbufs
  isplitl [Hs13 Hs14 Hr0 Hr1 Hr2 Hsems]
  · isplitl [Hs13]; · iexact Hs13
    isplitl [Hs14]; · iexact Hs14
    isplitl [Hr0]; · iexact Hr0
    isplitl [Hr1]; · iexact Hr1
    isplitl [Hr2]; · iexact Hr2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Kernel.TileK3

end
-- ==== Proof.LanePayK3B.lean ====
/-
  The gather body's per-lane values in normal form: casts of a vector to its own shape dropped, and each lane
  update select (lane = j) (res + t) res written as the update step of lane j.
-/
import proofs.«204913_g64682207478566_cont_9to1c4b_713_31_alg».proof.Proof.Gen.Kernel.Skeleton
import proofs.«204913_g64682207478566_cont_9to1c4b_713_31_alg».proof.Proof.LaneLib

noncomputable section

namespace Cert.Kernel.LanePayK3

open Cert.Kernel Cert.Kernel.Gen
open Idealize.ShloMosaic Idealize.ShloMosaic.ValueIdx
open Cert.Proof

variable {F : FTy → Type} [FloatOps F]

theorem k3_pay1_nf (v256 : Vec F S16 .i32) :
    k3_pay1 v256 = v256 := by
  unfold k3_pay1
  first | rfl | (simp only [shapeCast_self, LaneLib.step]; first | done | rfl)

theorem k3_pay2_nf (v256 : Vec F S16 .i32) :
    k3_pay2 v256 = extractStridedSlice S1 ![0] v256 slices_S16_o0_S1 := by
  unfold k3_pay2
  first | rfl | (simp only [k3_pay1_nf, shapeCast_self, LaneLib.step]; first | done | rfl)

theorem k3_pay3_nf (v270 : Vec F S1x16 .f32) :
    k3_pay3 v270 = shapeCast S16 v270 shapeCasts_S1x16_S16 := by
  unfold k3_pay3
  first | rfl | (simp only [shapeCast_self, LaneLib.step]; first | done | rfl)

theorem k3_pay4_nf (v270 : Vec F S1x16 .f32) :
    k3_pay4 v270 = shapeCast S16 v270 shapeCasts_S1x16_S16 := by
  unfold k3_pay4
  first | rfl | (simp only [k3_pay3_nf, shapeCast_self, LaneLib.step]; first | done | rfl)

theorem k3_pay5_nf (v270 : Vec F S1x16 .f32) :
    k3_pay5 v270 = shapeCast S16 v270 shapeCasts_S1x16_S16 := by
  unfold k3_pay5
  first | rfl | (simp only [k3_pay3_nf, shapeCast_self, LaneLib.step]; first | done | rfl)

theorem k3_pay6_nf (v227 : IVec S16 32) (v259 : Vec F S16 .f32) (v284 : Vec F S16 .f32) :
    k3_pay6 v227 v259 v284 = LaneLib.step v227 0#32 v259 v284 := by
  unfold k3_pay6
  first | rfl | (simp only [shapeCast_self, LaneLib.step]; first | done | rfl)

theorem k3_pay7_nf (v257 : IVec S16 32) :
    k3_pay7 v257 = extractStridedSlice S1 ![1] v257 slices_S16_o1_S1 := by
  unfold k3_pay7
  first | rfl | (simp only [shapeCast_self, LaneLib.step]; first | done | rfl)

theorem k3_pay8_nf (v299 : Vec F S1x16 .f32) :
    k3_pay8 v299 = shapeCast S16 v299 shapeCasts_S1x16_S16 := by
  unfold k3_pay8
  first | rfl | (simp only [shapeCast_self, LaneLib.step]; first | done | rfl)

theorem k3_pay9_nf (v299 : Vec F S1x16 .f32) :
    k3_pay9 v299 = shapeCast S16 v299 shapeCasts_S1x16_S16 := by
  unfold k3_pay9
  first | rfl | (simp only [k3_pay8_nf, shapeCast_self, LaneLib.step]; first | done | rfl)

theorem k3_pay10_nf (v299 : Vec F S1x16 .f32) :
    k3_pay10 v299 = shapeCast S16 v299 shapeCasts_S1x16_S16 := by
  unfold k3_pay10
  first | rfl | (simp only [k3_pay8_nf, shapeCast_self, LaneLib.step]; first | done | rfl)

theorem k3_pay11_nf (v227 : IVec S16 32) (v289 : FVec F S16 .f32) (v313 : Vec F S16 .f32) :
    k3_pay11 v227 v289 v313 = LaneLib.step v227 1#32 v289 v313 := by
  unfold k3_pay11
  first | rfl | (simp only [shapeCast_self, LaneLib.step]; first | done | rfl)

theorem k3_pay12_nf (v257 : IVec S16 32) :
    k3_pay12 v257 = extractStridedSlice S1 ![2] v257 slices_S16_o2_S1 := by
  unfold k3_pay12
  first | rfl | (simp only [shapeCast_self, LaneLib.step]; first | done | rfl)

theorem k3_pay13_nf (v328 : Vec F S1x16 .f32) :
    k3_pay13 v328 = shapeCast S16 v328 shapeCasts_S1x16_S16 := by
  unfold k3_pay13
  first | rfl | (simp only [shapeCast_self, LaneLib.step]; first | done | rfl)

theorem k3_pay14_nf (v328 : Vec F S1x16 .f32) :
    k3_pay14 v328 = shapeCast S16 v328 shapeCasts_S1x16_S16 := by
  unfold k3_pay14
  first | rfl | (simp only [k3_pay13_nf, shapeCast_self, LaneLib.step]; first | done | rfl)

theorem k3_pay15_nf (v329 : FVec F S16 .f32) :
    k3_pay15 v329 = v329 := by
  unfold k3_pay15
  first | rfl | (simp only [shapeCast_self, LaneLib.step]; first | done | rfl)

theorem k3_pay16_nf (v227 : IVec S16 32) (v318 : FVec F S16 .f32) (v342 : Vec F S16 .f32) :
    k3_pay16 v227 v318 v342 = LaneLib.step v227 2#32 v318 v342 := by
  unfold k3_pay16
  first | rfl | (simp only [shapeCast_self, LaneLib.step]; first | done | rfl)

theorem k3_pay17_nf (v257 : IVec S16 32) :
    k3_pay17 v257 = extractStridedSlice S1 ![3] v257 slices_S16_o3_S1 := by
  unfold k3_pay17
  first | rfl | (simp only [shapeCast_self, LaneLib.step]; first | done | rfl)

theorem k3_pay18_nf (v357 : Vec F S1x16 .f32) :
    k3_pay18 v357 = shapeCast S16 v357 shapeCasts_S1x16_S16 := by
  unfold k3_pay18
  first | rfl | (simp only [shapeCast_self, LaneLib.step]; first | done | rfl)

theorem k3_pay19_nf (v357 : Vec F S1x16 .f32) :
    k3_pay19 v357 = shapeCast S16 v357 shapeCasts_S1x16_S16 := by
  unfold k3_pay19
  first | rfl | (simp only [k3_pay18_nf, shapeCast_self, LaneLib.step]; first | done | rfl)

theorem k3_pay20_nf (v357 : Vec F S1x16 .f32) :
    k3_pay20 v357 = shapeCast S16 v357 shapeCasts_S1x16_S16 := by
  unfold k3_pay20
  first | rfl | (simp only [k3_pay18_nf, shapeCast_self, LaneLib.step]; first | done | rfl)

theorem k3_pay21_nf (v257 : IVec S16 32) :
    k3_pay21 v257 = extractStridedSlice S1 ![4] v257 slices_S16_o4_S1 := by
  unfold k3_pay21
  first | rfl | (simp only [shapeCast_self, LaneLib.step]; first | done | rfl)

theorem k3_pay22_nf (v386 : Vec F S1x16 .f32) :
    k3_pay22 v386 = shapeCast S16 v386 shapeCasts_S1x16_S16 := by
  unfold k3_pay22
  first | rfl | (simp only [shapeCast_self, LaneLib.step]; first | done | rfl)

theorem k3_pay23_nf (v386 : Vec F S1x16 .f32) :
    k3_pay23 v386 = shapeCast S16 v386 shapeCasts_S1x16_S16 := by
  unfold k3_pay23
  first | rfl | (simp only [k3_pay22_nf, shapeCast_self, LaneLib.step]; first | done | rfl)

theorem k3_pay24_nf (v386 : Vec F S1x16 .f32) :
    k3_pay24 v386 = shapeCast S16 v386 shapeCasts_S1x16_S16 := by
  unfold k3_pay24
  first | rfl | (simp only [k3_pay22_nf, shapeCast_self, LaneLib.step]; first | done | rfl)

theorem k3_pay25_nf (v227 : IVec S16 32) (v347 : FVec F S16 .f32) (v371 : Vec F S16 .f32) (v400 : Vec F S16 .f32) :
    k3_pay25 v227 v347 v371 v400 = LaneLib.step v227 4#32 (LaneLib.step v227 3#32 v347 v371) v400 := by
  unfold k3_pay25
  first | rfl | (simp only [shapeCast_self, LaneLib.step]; first | done | rfl)

theorem k3_pay26_nf (v257 : IVec S16 32) :
    k3_pay26 v257 = extractStridedSlice S1 ![5] v257 slices_S16_o5_S1 := by
  unfold k3_pay26
  first | rfl | (simp only [shapeCast_self, LaneLib.step]; first | done | rfl)

theorem k3_pay27_nf (v415 : Vec F S1x16 .f32) :
    k3_pay27 v415 = shapeCast S16 v415 shapeCasts_S1x16_S16 := by
  unfold k3_pay27
  first | rfl | (simp only [shapeCast_self, LaneLib.step]; first | done | rfl)

theorem k3_pay28_nf (v415 : Vec F S1x16 .f32) :
    k3_pay28 v415 = shapeCast S16 v415 shapeCasts_S1x16_S16 := by
  unfold k3_pay28
  first | rfl | (simp only [k3_pay27_nf, shapeCast_self, LaneLib.step]; first | done | rfl)

theorem k3_pay29_nf (v415 : Vec F S1x16 .f32) :
    k3_pay29 v415 = shapeCast S16 v415 shapeCasts_S1x16_S16 := by
  unfold k3_pay29
  first | rfl | (simp only [k3_pay27_nf, shapeCast_self, LaneLib.step]; first | done | rfl)

theorem k3_pay30_nf (v227 : IVec S16 32) (v405 : FVec F S16 .f32) (v429 : Vec F S16 .f32) :
    k3_pay30 v227 v405 v429 = LaneLib.step v227 5#32 v405 v429 := by
  unfold k3_pay30
  first | rfl | (simp only [shapeCast_self, LaneLib.step]; first | done | rfl)

theorem k3_pay31_nf (v257 : IVec S16 32) :
    k3_pay31 v257 = extractStridedSlice S1 ![6] v257 slices_S16_o6_S1 := by
  unfold k3_pay31
  first | rfl | (simp only [shapeCast_self, LaneLib.step]; first | done | rfl)

theorem k3_pay32_nf (v444 : Vec F S1x16 .f32) :
    k3_pay32 v444 = shapeCast S16 v444 shapeCasts_S1x16_S16 := by
  unfold k3_pay32
  first | rfl | (simp only [shapeCast_self, LaneLib.step]; first | done | rfl)

theorem k3_pay33_nf (v444 : Vec F S1x16 .f32) :
    k3_pay33 v444 = shapeCast S16 v444 shapeCasts_S1x16_S16 := by
  unfold k3_pay33
  first | rfl | (simp only [k3_pay32_nf, shapeCast_self, LaneLib.step]; first | done | rfl)

theorem k3_pay34_nf (v445 : FVec F S16 .f32) :
    k3_pay34 v445 = v445 := by
  unfold k3_pay34
  first | rfl | (simp only [shapeCast_self, LaneLib.step]; first | done | rfl)

theorem k3_pay35_nf (v227 : IVec S16 32) (v434 : FVec F S16 .f32) (v458 : Vec F S16 .f32) :
    k3_pay35 v227 v434 v458 = LaneLib.step v227 6#32 v434 v458 := by
  unfold k3_pay35
  first | rfl | (simp only [shapeCast_self, LaneLib.step]; first | done | rfl)

theorem k3_pay36_nf (v257 : IVec S16 32) :
    k3_pay36 v257 = extractStridedSlice S1 ![7] v257 slices_S16_o7_S1 := by
  unfold k3_pay36
  first | rfl | (simp only [shapeCast_self, LaneLib.step]; first | done | rfl)

theorem k3_pay37_nf (v473 : Vec F S1x16 .f32) :
    k3_pay37 v473 = shapeCast S16 v473 shapeCasts_S1x16_S16 := by
  unfold k3_pay37
  first | rfl | (simp only [shapeCast_self, LaneLib.step]; first | done | rfl)

theorem k3_pay38_nf (v473 : Vec F S1x16 .f32) :
    k3_pay38 v473 = shapeCast S16 v473 shapeCasts_S1x16_S16 := by
  unfold k3_pay38
  first | rfl | (simp only [k3_pay37_nf, shapeCast_self, LaneLib.step]; first | done | rfl)

theorem k3_pay39_nf (v473 : Vec F S1x16 .f32) :
    k3_pay39 v473 = shapeCast S16 v473 shapeCasts_S1x16_S16 := by
  unfold k3_pay39
  first | rfl | (simp only [k3_pay37_nf, shapeCast_self, LaneLib.step]; first | done | rfl)

theorem k3_pay40_nf (v487 : Vec F S16 .f32) :
    k3_pay40 v487 = v487 := by
  unfold k3_pay40
  first | rfl | (simp only [shapeCast_self, LaneLib.step]; first | done | rfl)

theorem k3_pay41_nf (v257 : IVec S16 32) :
    k3_pay41 v257 = extractStridedSlice S1 ![8] v257 slices_S16_o8_S1 := by
  unfold k3_pay41
  first | rfl | (simp only [shapeCast_self, LaneLib.step]; first | done | rfl)

theorem k3_pay42_nf (v502 : Vec F S1x16 .f32) :
    k3_pay42 v502 = shapeCast S16 v502 shapeCasts_S1x16_S16 := by
  unfold k3_pay42
  first | rfl | (simp only [shapeCast_self, LaneLib.step]; first | done | rfl)

theorem k3_pay43_nf (v502 : Vec F S1x16 .f32) :
    k3_pay43 v502 = shapeCast S16 v502 shapeCasts_S1x16_S16 := by
  unfold k3_pay43
  first | rfl | (simp only [k3_pay42_nf, shapeCast_self, LaneLib.step]; first | done | rfl)

theorem k3_pay44_nf (v502 : Vec F S1x16 .f32) :
    k3_pay44 v502 = shapeCast S16 v502 shapeCasts_S1x16_S16 := by
  unfold k3_pay44
  first | rfl | (simp only [k3_pay42_nf, shapeCast_self, LaneLib.step]; first | done | rfl)

theorem k3_pay45_nf (v227 : IVec S16 32) (v463 : FVec F S16 .f32) (v488 : FVec F S16 .f32) (c7_i32_184 : BitVec 32) (v516 : Vec F S16 .f32) :
    k3_pay45 v227 v463 v488 c7_i32_184 v516 = LaneLib.step v227 8#32 (LaneLib.step v227 c7_i32_184 v463 v488) v516 := by
  unfold k3_pay45
  first | rfl | (simp only [shapeCast_self, LaneLib.step]; first | done | rfl)

theorem k3_pay46_nf (v257 : IVec S16 32) :
    k3_pay46 v257 = extractStridedSlice S1 ![9] v257 slices_S16_o9_S1 := by
  unfold k3_pay46
  first | rfl | (simp only [shapeCast_self, LaneLib.step]; first | done | rfl)

theorem k3_pay47_nf (v531 : Vec F S1x16 .f32) :
    k3_pay47 v531 = shapeCast S16 v531 shapeCasts_S1x16_S16 := by
  unfold k3_pay47
  first | rfl | (simp only [shapeCast_self, LaneLib.step]; first | done | rfl)

theorem k3_pay48_nf (v531 : Vec F S1x16 .f32) :
    k3_pay48 v531 = shapeCast S16 v531 shapeCasts_S1x16_S16 := by
  unfold k3_pay48
  first | rfl | (simp only [k3_pay47_nf, shapeCast_self, LaneLib.step]; first | done | rfl)

theorem k3_pay49_nf (v531 : Vec F S1x16 .f32) :
    k3_pay49 v531 = shapeCast S16 v531 shapeCasts_S1x16_S16 := by
  unfold k3_pay49
  first | rfl | (simp only [k3_pay47_nf, shapeCast_self, LaneLib.step]; first | done | rfl)

theorem k3_pay50_nf (v227 : IVec S16 32) (v521 : FVec F S16 .f32) (v545 : Vec F S16 .f32) :
    k3_pay50 v227 v521 v545 = LaneLib.step v227 9#32 v521 v545 := by
  unfold k3_pay50
  first | rfl | (simp only [shapeCast_self, LaneLib.step]; first | done | rfl)

theorem k3_pay51_nf (v257 : IVec S16 32) :
    k3_pay51 v257 = extractStridedSlice S1 ![10] v257 slices_S16_o10_S1 := by
  unfold k3_pay51
  first | rfl | (simp only [shapeCast_self, LaneLib.step]; first | done | rfl)

theorem k3_pay52_nf (v560 : Vec F S1x16 .f32) :
    k3_pay52 v560 = shapeCast S16 v560 shapeCasts_S1x16_S16 := by
  unfold k3_pay52
  first | rfl | (simp only [shapeCast_self, LaneLib.step]; first | done | rfl)

theorem k3_pay53_nf (v560 : Vec F S1x16 .f32) :
    k3_pay53 v560 = shapeCast S16 v560 shapeCasts_S1x16_S16 := by
  unfold k3_pay53
  first | rfl | (simp only [k3_pay52_nf, shapeCast_self, LaneLib.step]; first | done | rfl)

theorem k3_pay54_nf (v560 : Vec F S1x16 .f32) :
    k3_pay54 v560 = shapeCast S16 v560 shapeCasts_S1x16_S16 := by
  unfold k3_pay54
  first | rfl | (simp only [k3_pay52_nf, shapeCast_self, LaneLib.step]; first | done | rfl)

theorem k3_pay55_nf (v257 : IVec S16 32) :
    k3_pay55 v257 = extractStridedSlice S1 ![11] v257 slices_S16_o11_S1 := by
  unfold k3_pay55
  first | rfl | (simp only [shapeCast_self, LaneLib.step]; first | done | rfl)

theorem k3_pay56_nf (v589 : Vec F S1x16 .f32) :
    k3_pay56 v589 = shapeCast S16 v589 shapeCasts_S1x16_S16 := by
  unfold k3_pay56
  first | rfl | (simp only [shapeCast_self, LaneLib.step]; first | done | rfl)

theorem k3_pay57_nf (v589 : Vec F S1x16 .f32) :
    k3_pay57 v589 = shapeCast S16 v589 shapeCasts_S1x16_S16 := by
  unfold k3_pay57
  first | rfl | (simp only [k3_pay56_nf, shapeCast_self, LaneLib.step]; first | done | rfl)

theorem k3_pay58_nf (v589 : Vec F S1x16 .f32) :
    k3_pay58 v589 = shapeCast S16 v589 shapeCasts_S1x16_S16 := by
  unfold k3_pay58
  first | rfl | (simp only [k3_pay56_nf, shapeCast_self, LaneLib.step]; first | done | rfl)

theorem k3_pay59_nf (v227 : IVec S16 32) (v550 : FVec F S16 .f32) (v574 : Vec F S16 .f32) (v603 : Vec F S16 .f32) :
    k3_pay59 v227 v550 v574 v603 = LaneLib.step v227 11#32 (LaneLib.step v227 10#32 v550 v574) v603 := by
  unfold k3_pay59
  first | rfl | (simp only [shapeCast_self, LaneLib.step]; first | done | rfl)

theorem k3_pay60_nf (v257 : IVec S16 32) :
    k3_pay60 v257 = extractStridedSlice S1 ![12] v257 slices_S16_o12_S1 := by
  unfold k3_pay60
  first | rfl | (simp only [shapeCast_self, LaneLib.step]; first | done | rfl)

theorem k3_pay61_nf (v618 : Vec F S1x16 .f32) :
    k3_pay61 v618 = shapeCast S16 v618 shapeCasts_S1x16_S16 := by
  unfold k3_pay61
  first | rfl | (simp only [shapeCast_self, LaneLib.step]; first | done | rfl)

theorem k3_pay62_nf (v618 : Vec F S1x16 .f32) :
    k3_pay62 v618 = shapeCast S16 v618 shapeCasts_S1x16_S16 := by
  unfold k3_pay62
  first | rfl | (simp only [k3_pay61_nf, shapeCast_self, LaneLib.step]; first | done | rfl)

theorem k3_pay63_nf (v618 : Vec F S1x16 .f32) :
    k3_pay63 v618 = shapeCast S16 v618 shapeCasts_S1x16_S16 := by
  unfold k3_pay63
  first | rfl | (simp only [k3_pay61_nf, shapeCast_self, LaneLib.step]; first | done | rfl)

theorem k3_pay64_nf (v227 : IVec S16 32) (v608 : FVec F S16 .f32) (v632 : Vec F S16 .f32) :
    k3_pay64 v227 v608 v632 = LaneLib.step v227 12#32 v608 v632 := by
  unfold k3_pay64
  first | rfl | (simp only [shapeCast_self, LaneLib.step]; first | done | rfl)

theorem k3_pay65_nf (v257 : IVec S16 32) :
    k3_pay65 v257 = extractStridedSlice S1 ![13] v257 slices_S16_o13_S1 := by
  unfold k3_pay65
  first | rfl | (simp only [shapeCast_self, LaneLib.step]; first | done | rfl)

theorem k3_pay66_nf (v647 : Vec F S1x16 .f32) :
    k3_pay66 v647 = shapeCast S16 v647 shapeCasts_S1x16_S16 := by
  unfold k3_pay66
  first | rfl | (simp only [shapeCast_self, LaneLib.step]; first | done | rfl)

theorem k3_pay67_nf (v648 : FVec F S16 .f32) :
    k3_pay67 v648 = v648 := by
  unfold k3_pay67
  first | rfl | (simp only [shapeCast_self, LaneLib.step]; first | done | rfl)

theorem k3_pay68_nf (v648 : FVec F S16 .f32) :
    k3_pay68 v648 = v648 := by
  unfold k3_pay68
  first | rfl | (simp only [shapeCast_self, LaneLib.step]; first | done | rfl)

theorem k3_pay69_nf (v227 : IVec S16 32) (v637 : FVec F S16 .f32) (v661 : Vec F S16 .f32) :
    k3_pay69 v227 v637 v661 = LaneLib.step v227 13#32 v637 v661 := by
  unfold k3_pay69
  first | rfl | (simp only [shapeCast_self, LaneLib.step]; first | done | rfl)

theorem k3_pay70_nf (v257 : IVec S16 32) :
    k3_pay70 v257 = extractStridedSlice S1 ![14] v257 slices_S16_o14_S1 := by
  unfold k3_pay70
  first | rfl | (simp only [shapeCast_self, LaneLib.step]; first | done | rfl)

theorem k3_pay71_nf (v676 : Vec F S1x16 .f32) :
    k3_pay71 v676 = shapeCast S16 v676 shapeCasts_S1x16_S16 := by
  unfold k3_pay71
  first | rfl | (simp only [shapeCast_self, LaneLib.step]; first | done | rfl)

theorem k3_pay72_nf (v676 : Vec F S1x16 .f32) :
    k3_pay72 v676 = shapeCast S16 v676 shapeCasts_S1x16_S16 := by
  unfold k3_pay72
  first | rfl | (simp only [k3_pay71_nf, shapeCast_self, LaneLib.step]; first | done | rfl)

theorem k3_pay73_nf (v676 : Vec F S1x16 .f32) :
    k3_pay73 v676 = shapeCast S16 v676 shapeCasts_S1x16_S16 := by
  unfold k3_pay73
  first | rfl | (simp only [k3_pay71_nf, shapeCast_self, LaneLib.step]; first | done | rfl)

theorem k3_pay74_nf (v257 : IVec S16 32) :
    k3_pay74 v257 = extractStridedSlice S1 ![15] v257 slices_S16_o15_S1 := by
  unfold k3_pay74
  first | rfl | (simp only [shapeCast_self, LaneLib.step]; first | done | rfl)

theorem k3_pay75_nf (v705 : Vec F S1x16 .f32) :
    k3_pay75 v705 = shapeCast S16 v705 shapeCasts_S1x16_S16 := by
  unfold k3_pay75
  first | rfl | (simp only [shapeCast_self, LaneLib.step]; first | done | rfl)

theorem k3_pay76_nf (v705 : Vec F S1x16 .f32) :
    k3_pay76 v705 = shapeCast S16 v705 shapeCasts_S1x16_S16 := by
  unfold k3_pay76
  first | rfl | (simp only [k3_pay75_nf, shapeCast_self, LaneLib.step]; first | done | rfl)

theorem k3_pay77_nf (v705 : Vec F S1x16 .f32) :
    k3_pay77 v705 = shapeCast S16 v705 shapeCasts_S1x16_S16 := by
  unfold k3_pay77
  first | rfl | (simp only [k3_pay75_nf, shapeCast_self, LaneLib.step]; first | done | rfl)

theorem k3_pay78_nf (v227 : IVec S16 32) (v666 : FVec F S16 .f32) (v690 : Vec F S16 .f32) (v719 : Vec F S16 .f32) :
    k3_pay78 v227 v666 v690 v719 = LaneLib.step v227 15#32 (LaneLib.step v227 14#32 v666 v690) v719 := by
  unfold k3_pay78
  first | rfl | (simp only [shapeCast_self, LaneLib.step]; first | done | rfl)

theorem k3_pay79_nf (v256 : Vec F S16 .i32) :
    k3_pay79 v256 = v256 := by
  unfold k3_pay79
  first | rfl | (simp only [shapeCast_self, LaneLib.step]; first | done | rfl)

theorem k3_pay80_nf (v256 : Vec F S16 .i32) :
    k3_pay80 v256 = extractStridedSlice S1 ![0] v256 slices_S16_o0_S1 := by
  unfold k3_pay80
  first | rfl | (simp only [k3_pay79_nf, shapeCast_self, LaneLib.step]; first | done | rfl)

theorem k3_pay81_nf (v270 : Vec F S1x16 .f32) :
    k3_pay81 v270 = shapeCast S16 v270 shapeCasts_S1x16_S16 := by
  unfold k3_pay81
  first | rfl | (simp only [shapeCast_self, LaneLib.step]; first | done | rfl)

theorem k3_pay82_nf (v270 : Vec F S1x16 .f32) :
    k3_pay82 v270 = shapeCast S16 v270 shapeCasts_S1x16_S16 := by
  unfold k3_pay82
  first | rfl | (simp only [k3_pay81_nf, shapeCast_self, LaneLib.step]; first | done | rfl)

theorem k3_pay83_nf (v270 : Vec F S1x16 .f32) :
    k3_pay83 v270 = shapeCast S16 v270 shapeCasts_S1x16_S16 := by
  unfold k3_pay83
  first | rfl | (simp only [k3_pay81_nf, shapeCast_self, LaneLib.step]; first | done | rfl)

theorem k3_pay84_nf (v227 : IVec S16 32) (v259 : Vec F S16 .f32) (v284 : Vec F S16 .f32) :
    k3_pay84 v227 v259 v284 = LaneLib.step v227 0#32 v259 v284 := by
  unfold k3_pay84
  first | rfl | (simp only [shapeCast_self, LaneLib.step]; first | done | rfl)

theorem k3_pay85_nf (v257 : IVec S16 32) :
    k3_pay85 v257 = extractStridedSlice S1 ![1] v257 slices_S16_o1_S1 := by
  unfold k3_pay85
  first | rfl | (simp only [shapeCast_self, LaneLib.step]; first | done | rfl)

theorem k3_pay86_nf (v299 : Vec F S1x16 .f32) :
    k3_pay86 v299 = shapeCast S16 v299 shapeCasts_S1x16_S16 := by
  unfold k3_pay86
  first | rfl | (simp only [shapeCast_self, LaneLib.step]; first | done | rfl)

theorem k3_pay87_nf (v299 : Vec F S1x16 .f32) :
    k3_pay87 v299 = shapeCast S16 v299 shapeCasts_S1x16_S16 := by
  unfold k3_pay87
  first | rfl | (simp only [k3_pay86_nf, shapeCast_self, LaneLib.step]; first | done | rfl)

theorem k3_pay88_nf (v299 : Vec F S1x16 .f32) :
    k3_pay88 v299 = shapeCast S16 v299 shapeCasts_S1x16_S16 := by
  unfold k3_pay88
  first | rfl | (simp only [k3_pay86_nf, shapeCast_self, LaneLib.step]; first | done | rfl)

theorem k3_pay89_nf (v227 : IVec S16 32) (v289 : FVec F S16 .f32) (v313 : Vec F S16 .f32) :
    k3_pay89 v227 v289 v313 = LaneLib.step v227 1#32 v289 v313 := by
  unfold k3_pay89
  first | rfl | (simp only [shapeCast_self, LaneLib.step]; first | done | rfl)

theorem k3_pay90_nf (v257 : IVec S16 32) :
    k3_pay90 v257 = extractStridedSlice S1 ![2] v257 slices_S16_o2_S1 := by
  unfold k3_pay90
  first | rfl | (simp only [shapeCast_self, LaneLib.step]; first | done | rfl)

theorem k3_pay91_nf (v328 : Vec F S1x16 .f32) :
    k3_pay91 v328 = shapeCast S16 v328 shapeCasts_S1x16_S16 := by
  unfold k3_pay91
  first | rfl | (simp only [shapeCast_self, LaneLib.step]; first | done | rfl)

theorem k3_pay92_nf (v328 : Vec F S1x16 .f32) :
    k3_pay92 v328 = shapeCast S16 v328 shapeCasts_S1x16_S16 := by
  unfold k3_pay92
  first | rfl | (simp only [k3_pay91_nf, shapeCast_self, LaneLib.step]; first | done | rfl)

theorem k3_pay93_nf (v329 : FVec F S16 .f32) :
    k3_pay93 v329 = v329 := by
  unfold k3_pay93
  first | rfl | (simp only [shapeCast_self, LaneLib.step]; first | done | rfl)

theorem k3_pay94_nf (v227 : IVec S16 32) (v318 : FVec F S16 .f32) (v342 : Vec F S16 .f32) :
    k3_pay94 v227 v318 v342 = LaneLib.step v227 2#32 v318 v342 := by
  unfold k3_pay94
  first | rfl | (simp only [shapeCast_self, LaneLib.step]; first | done | rfl)

theorem k3_pay95_nf (v257 : IVec S16 32) :
    k3_pay95 v257 = extractStridedSlice S1 ![3] v257 slices_S16_o3_S1 := by
  unfold k3_pay95
  first | rfl | (simp only [shapeCast_self, LaneLib.step]; first | done | rfl)

theorem k3_pay96_nf (v357 : Vec F S1x16 .f32) :
    k3_pay96 v357 = shapeCast S16 v357 shapeCasts_S1x16_S16 := by
  unfold k3_pay96
  first | rfl | (simp only [shapeCast_self, LaneLib.step]; first | done | rfl)

theorem k3_pay97_nf (v357 : Vec F S1x16 .f32) :
    k3_pay97 v357 = shapeCast S16 v357 shapeCasts_S1x16_S16 := by
  unfold k3_pay97
  first | rfl | (simp only [k3_pay96_nf, shapeCast_self, LaneLib.step]; first | done | rfl)

theorem k3_pay98_nf (v357 : Vec F S1x16 .f32) :
    k3_pay98 v357 = shapeCast S16 v357 shapeCasts_S1x16_S16 := by
  unfold k3_pay98
  first | rfl | (simp only [k3_pay96_nf, shapeCast_self, LaneLib.step]; first | done | rfl)

theorem k3_pay99_nf (v257 : IVec S16 32) :
    k3_pay99 v257 = extractStridedSlice S1 ![4] v257 slices_S16_o4_S1 := by
  unfold k3_pay99
  first | rfl | (simp only [shapeCast_self, LaneLib.step]; first | done | rfl)

theorem k3_pay100_nf (v386 : Vec F S1x16 .f32) :
    k3_pay100 v386 = shapeCast S16 v386 shapeCasts_S1x16_S16 := by
  unfold k3_pay100
  first | rfl | (simp only [shapeCast_self, LaneLib.step]; first | done | rfl)

theorem k3_pay101_nf (v386 : Vec F S1x16 .f32) :
    k3_pay101 v386 = shapeCast S16 v386 shapeCasts_S1x16_S16 := by
  unfold k3_pay101
  first | rfl | (simp only [k3_pay100_nf, shapeCast_self, LaneLib.step]; first | done | rfl)

theorem k3_pay102_nf (v386 : Vec F S1x16 .f32) :
    k3_pay102 v386 = shapeCast S16 v386 shapeCasts_S1x16_S16 := by
  unfold k3_pay102
  first | rfl | (simp only [k3_pay100_nf, shapeCast_self, LaneLib.step]; first | done | rfl)

theorem k3_pay103_nf (v227 : IVec S16 32) (v347 : FVec F S16 .f32) (v371 : Vec F S16 .f32) (v400 : Vec F S16 .f32) :
    k3_pay103 v227 v347 v371 v400 = LaneLib.step v227 4#32 (LaneLib.step v227 3#32 v347 v371) v400 := by
  unfold k3_pay103
  first | rfl | (simp only [shapeCast_self, LaneLib.step]; first | done | rfl)

theorem k3_pay104_nf (v257 : IVec S16 32) :
    k3_pay104 v257 = extractStridedSlice S1 ![5] v257 slices_S16_o5_S1 := by
  unfold k3_pay104
  first | rfl | (simp only [shapeCast_self, LaneLib.step]; first | done | rfl)

theorem k3_pay105_nf (v415 : Vec F S1x16 .f32) :
    k3_pay105 v415 = shapeCast S16 v415 shapeCasts_S1x16_S16 := by
  unfold k3_pay105
  first | rfl | (simp only [shapeCast_self, LaneLib.step]; first | done | rfl)

theorem k3_pay106_nf (v415 : Vec F S1x16 .f32) :
    k3_pay106 v415 = shapeCast S16 v415 shapeCasts_S1x16_S16 := by
  unfold k3_pay106
  first | rfl | (simp only [k3_pay105_nf, shapeCast_self, LaneLib.step]; first | done | rfl)

theorem k3_pay107_nf (v415 : Vec F S1x16 .f32) :
    k3_pay107 v415 = shapeCast S16 v415 shapeCasts_S1x16_S16 := by
  unfold k3_pay107
  first | rfl | (simp only [k3_pay105_nf, shapeCast_self, LaneLib.step]; first | done | rfl)

theorem k3_pay108_nf (v227 : IVec S16 32) (v405 : FVec F S16 .f32) (v429 : Vec F S16 .f32) :
    k3_pay108 v227 v405 v429 = LaneLib.step v227 5#32 v405 v429 := by
  unfold k3_pay108
  first | rfl | (simp only [shapeCast_self, LaneLib.step]; first | done | rfl)

theorem k3_pay109_nf (v257 : IVec S16 32) :
    k3_pay109 v257 = extractStridedSlice S1 ![6] v257 slices_S16_o6_S1 := by
  unfold k3_pay109
  first | rfl | (simp only [shapeCast_self, LaneLib.step]; first | done | rfl)

theorem k3_pay110_nf (v444 : Vec F S1x16 .f32) :
    k3_pay110 v444 = shapeCast S16 v444 shapeCasts_S1x16_S16 := by
  unfold k3_pay110
  first | rfl | (simp only [shapeCast_self, LaneLib.step]; first | done | rfl)

theorem k3_pay111_nf (v444 : Vec F S1x16 .f32) :
    k3_pay111 v444 = shapeCast S16 v444 shapeCasts_S1x16_S16 := by
  unfold k3_pay111
  first | rfl | (simp only [k3_pay110_nf, shapeCast_self, LaneLib.step]; first | done | rfl)

theorem k3_pay112_nf (v445 : FVec F S16 .f32) :
    k3_pay112 v445 = v445 := by
  unfold k3_pay112
  first | rfl | (simp only [shapeCast_self, LaneLib.step]; first | done | rfl)

theorem k3_pay113_nf (v227 : IVec S16 32) (v434 : FVec F S16 .f32) (v458 : Vec F S16 .f32) :
    k3_pay113 v227 v434 v458 = LaneLib.step v227 6#32 v434 v458 := by
  unfold k3_pay113
  first | rfl | (simp only [shapeCast_self, LaneLib.step]; first | done | rfl)

theorem k3_pay114_nf (v257 : IVec S16 32) :
    k3_pay114 v257 = extractStridedSlice S1 ![7] v257 slices_S16_o7_S1 := by
  unfold k3_pay114
  first | rfl | (simp only [shapeCast_self, LaneLib.step]; first | done | rfl)

theorem k3_pay115_nf (v473 : Vec F S1x16 .f32) :
    k3_pay115 v473 = shapeCast S16 v473 shapeCasts_S1x16_S16 := by
  unfold k3_pay115
  first | rfl | (simp only [shapeCast_self, LaneLib.step]; first | done | rfl)

theorem k3_pay116_nf (v473 : Vec F S1x16 .f32) :
    k3_pay116 v473 = shapeCast S16 v473 shapeCasts_S1x16_S16 := by
  unfold k3_pay116
  first | rfl | (simp only [k3_pay115_nf, shapeCast_self, LaneLib.step]; first | done | rfl)

theorem k3_pay117_nf (v473 : Vec F S1x16 .f32) :
    k3_pay117 v473 = shapeCast S16 v473 shapeCasts_S1x16_S16 := by
  unfold k3_pay117
  first | rfl | (simp only [k3_pay115_nf, shapeCast_self, LaneLib.step]; first | done | rfl)

theorem k3_pay118_nf (v487 : Vec F S16 .f32) :
    k3_pay118 v487 = v487 := by
  unfold k3_pay118
  first | rfl | (simp only [shapeCast_self, LaneLib.step]; first | done | rfl)

theorem k3_pay119_nf (v257 : IVec S16 32) :
    k3_pay119 v257 = extractStridedSlice S1 ![8] v257 slices_S16_o8_S1 := by
  unfold k3_pay119
  first | rfl | (simp only [shapeCast_self, LaneLib.step]; first | done | rfl)

theorem k3_pay120_nf (v502 : Vec F S1x16 .f32) :
    k3_pay120 v502 = shapeCast S16 v502 shapeCasts_S1x16_S16 := by
  unfold k3_pay120
  first | rfl | (simp only [shapeCast_self, LaneLib.step]; first | done | rfl)

theorem k3_pay121_nf (v502 : Vec F S1x16 .f32) :
    k3_pay121 v502 = shapeCast S16 v502 shapeCasts_S1x16_S16 := by
  unfold k3_pay121
  first | rfl | (simp only [k3_pay120_nf, shapeCast_self, LaneLib.step]; first | done | rfl)

theorem k3_pay122_nf (v502 : Vec F S1x16 .f32) :
    k3_pay122 v502 = shapeCast S16 v502 shapeCasts_S1x16_S16 := by
  unfold k3_pay122
  first | rfl | (simp only [k3_pay120_nf, shapeCast_self, LaneLib.step]; first | done | rfl)

theorem k3_pay123_nf (v227 : IVec S16 32) (v463 : FVec F S16 .f32) (v488 : FVec F S16 .f32) (c7_i32_184 : BitVec 32) (v516 : Vec F S16 .f32) :
    k3_pay123 v227 v463 v488 c7_i32_184 v516 = LaneLib.step v227 8#32 (LaneLib.step v227 c7_i32_184 v463 v488) v516 := by
  unfold k3_pay123
  first | rfl | (simp only [shapeCast_self, LaneLib.step]; first | done | rfl)

theorem k3_pay124_nf (v257 : IVec S16 32) :
    k3_pay124 v257 = extractStridedSlice S1 ![9] v257 slices_S16_o9_S1 := by
  unfold k3_pay124
  first | rfl | (simp only [shapeCast_self, LaneLib.step]; first | done | rfl)

theorem k3_pay125_nf (v531 : Vec F S1x16 .f32) :
    k3_pay125 v531 = shapeCast S16 v531 shapeCasts_S1x16_S16 := by
  unfold k3_pay125
  first | rfl | (simp only [shapeCast_self, LaneLib.step]; first | done | rfl)

theorem k3_pay126_nf (v531 : Vec F S1x16 .f32) :
    k3_pay126 v531 = shapeCast S16 v531 shapeCasts_S1x16_S16 := by
  unfold k3_pay126
  first | rfl | (simp only [k3_pay125_nf, shapeCast_self, LaneLib.step]; first | done | rfl)

theorem k3_pay127_nf (v531 : Vec F S1x16 .f32) :
    k3_pay127 v531 = shapeCast S16 v531 shapeCasts_S1x16_S16 := by
  unfold k3_pay127
  first | rfl | (simp only [k3_pay125_nf, shapeCast_self, LaneLib.step]; first | done | rfl)

theorem k3_pay128_nf (v227 : IVec S16 32) (v521 : FVec F S16 .f32) (v545 : Vec F S16 .f32) :
    k3_pay128 v227 v521 v545 = LaneLib.step v227 9#32 v521 v545 := by
  unfold k3_pay128
  first | rfl | (simp only [shapeCast_self, LaneLib.step]; first | done | rfl)

theorem k3_pay129_nf (v257 : IVec S16 32) :
    k3_pay129 v257 = extractStridedSlice S1 ![10] v257 slices_S16_o10_S1 := by
  unfold k3_pay129
  first | rfl | (simp only [shapeCast_self, LaneLib.step]; first | done | rfl)

theorem k3_pay130_nf (v560 : Vec F S1x16 .f32) :
    k3_pay130 v560 = shapeCast S16 v560 shapeCasts_S1x16_S16 := by
  unfold k3_pay130
  first | rfl | (simp only [shapeCast_self, LaneLib.step]; first | done | rfl)

theorem k3_pay131_nf (v560 : Vec F S1x16 .f32) :
    k3_pay131 v560 = shapeCast S16 v560 shapeCasts_S1x16_S16 := by
  unfold k3_pay131
  first | rfl | (simp only [k3_pay130_nf, shapeCast_self, LaneLib.step]; first | done | rfl)

theorem k3_pay132_nf (v560 : Vec F S1x16 .f32) :
    k3_pay132 v560 = shapeCast S16 v560 shapeCasts_S1x16_S16 := by
  unfold k3_pay132
  first | rfl | (simp only [k3_pay130_nf, shapeCast_self, LaneLib.step]; first | done | rfl)

theorem k3_pay133_nf (v257 : IVec S16 32) :
    k3_pay133 v257 = extractStridedSlice S1 ![11] v257 slices_S16_o11_S1 := by
  unfold k3_pay133
  first | rfl | (simp only [shapeCast_self, LaneLib.step]; first | done | rfl)

theorem k3_pay134_nf (v589 : Vec F S1x16 .f32) :
    k3_pay134 v589 = shapeCast S16 v589 shapeCasts_S1x16_S16 := by
  unfold k3_pay134
  first | rfl | (simp only [shapeCast_self, LaneLib.step]; first | done | rfl)

theorem k3_pay135_nf (v589 : Vec F S1x16 .f32) :
    k3_pay135 v589 = shapeCast S16 v589 shapeCasts_S1x16_S16 := by
  unfold k3_pay135
  first | rfl | (simp only [k3_pay134_nf, shapeCast_self, LaneLib.step]; first | done | rfl)

theorem k3_pay136_nf (v589 : Vec F S1x16 .f32) :
    k3_pay136 v589 = shapeCast S16 v589 shapeCasts_S1x16_S16 := by
  unfold k3_pay136
  first | rfl | (simp only [k3_pay134_nf, shapeCast_self, LaneLib.step]; first | done | rfl)

theorem k3_pay137_nf (v227 : IVec S16 32) (v550 : FVec F S16 .f32) (v574 : Vec F S16 .f32) (v603 : Vec F S16 .f32) :
    k3_pay137 v227 v550 v574 v603 = LaneLib.step v227 11#32 (LaneLib.step v227 10#32 v550 v574) v603 := by
  unfold k3_pay137
  first | rfl | (simp only [shapeCast_self, LaneLib.step]; first | done | rfl)

theorem k3_pay138_nf (v257 : IVec S16 32) :
    k3_pay138 v257 = extractStridedSlice S1 ![12] v257 slices_S16_o12_S1 := by
  unfold k3_pay138
  first | rfl | (simp only [shapeCast_self, LaneLib.step]; first | done | rfl)

theorem k3_pay139_nf (v618 : Vec F S1x16 .f32) :
    k3_pay139 v618 = shapeCast S16 v618 shapeCasts_S1x16_S16 := by
  unfold k3_pay139
  first | rfl | (simp only [shapeCast_self, LaneLib.step]; first | done | rfl)

theorem k3_pay140_nf (v618 : Vec F S1x16 .f32) :
    k3_pay140 v618 = shapeCast S16 v618 shapeCasts_S1x16_S16 := by
  unfold k3_pay140
  first | rfl | (simp only [k3_pay139_nf, shapeCast_self, LaneLib.step]; first | done | rfl)

theorem k3_pay141_nf (v618 : Vec F S1x16 .f32) :
    k3_pay141 v618 = shapeCast S16 v618 shapeCasts_S1x16_S16 := by
  unfold k3_pay141
  first | rfl | (simp only [k3_pay139_nf, shapeCast_self, LaneLib.step]; first | done | rfl)

theorem k3_pay142_nf (v227 : IVec S16 32) (v608 : FVec F S16 .f32) (v632 : Vec F S16 .f32) :
    k3_pay142 v227 v608 v632 = LaneLib.step v227 12#32 v608 v632 := by
  unfold k3_pay142
  first | rfl | (simp only [shapeCast_self, LaneLib.step]; first | done | rfl)

theorem k3_pay143_nf (v257 : IVec S16 32) :
    k3_pay143 v257 = extractStridedSlice S1 ![13] v257 slices_S16_o13_S1 := by
  unfold k3_pay143
  first | rfl | (simp only [shapeCast_self, LaneLib.step]; first | done | rfl)

theorem k3_pay144_nf (v647 : Vec F S1x16 .f32) :
    k3_pay144 v647 = shapeCast S16 v647 shapeCasts_S1x16_S16 := by
  unfold k3_pay144
  first | rfl | (simp only [shapeCast_self, LaneLib.step]; first | done | rfl)

theorem k3_pay145_nf (v648 : FVec F S16 .f32) :
    k3_pay145 v648 = v648 := by
  unfold k3_pay145
  first | rfl | (simp only [shapeCast_self, LaneLib.step]; first | done | rfl)

theorem k3_pay146_nf (v648 : FVec F S16 .f32) :
    k3_pay146 v648 = v648 := by
  unfold k3_pay146
  first | rfl | (simp only [shapeCast_self, LaneLib.step]; first | done | rfl)

theorem k3_pay147_nf (v227 : IVec S16 32) (v637 : FVec F S16 .f32) (v661 : Vec F S16 .f32) :
    k3_pay147 v227 v637 v661 = LaneLib.step v227 13#32 v637 v661 := by
  unfold k3_pay147
  first | rfl | (simp only [shapeCast_self, LaneLib.step]; first | done | rfl)

theorem k3_pay148_nf (v257 : IVec S16 32) :
    k3_pay148 v257 = extractStridedSlice S1 ![14] v257 slices_S16_o14_S1 := by
  unfold k3_pay148
  first | rfl | (simp only [shapeCast_self, LaneLib.step]; first | done | rfl)

theorem k3_pay149_nf (v676 : Vec F S1x16 .f32) :
    k3_pay149 v676 = shapeCast S16 v676 shapeCasts_S1x16_S16 := by
  unfold k3_pay149
  first | rfl | (simp only [shapeCast_self, LaneLib.step]; first | done | rfl)

theorem k3_pay150_nf (v676 : Vec F S1x16 .f32) :
    k3_pay150 v676 = shapeCast S16 v676 shapeCasts_S1x16_S16 := by
  unfold k3_pay150
  first | rfl | (simp only [k3_pay149_nf, shapeCast_self, LaneLib.step]; first | done | rfl)

theorem k3_pay151_nf (v676 : Vec F S1x16 .f32) :
    k3_pay151 v676 = shapeCast S16 v676 shapeCasts_S1x16_S16 := by
  unfold k3_pay151
  first | rfl | (simp only [k3_pay149_nf, shapeCast_self, LaneLib.step]; first | done | rfl)

theorem k3_pay152_nf (v257 : IVec S16 32) :
    k3_pay152 v257 = extractStridedSlice S1 ![15] v257 slices_S16_o15_S1 := by
  unfold k3_pay152
  first | rfl | (simp only [shapeCast_self, LaneLib.step]; first | done | rfl)

theorem k3_pay153_nf (v705 : Vec F S1x16 .f32) :
    k3_pay153 v705 = shapeCast S16 v705 shapeCasts_S1x16_S16 := by
  unfold k3_pay153
  first | rfl | (simp only [shapeCast_self, LaneLib.step]; first | done | rfl)

theorem k3_pay154_nf (v705 : Vec F S1x16 .f32) :
    k3_pay154 v705 = shapeCast S16 v705 shapeCasts_S1x16_S16 := by
  unfold k3_pay154
  first | rfl | (simp only [k3_pay153_nf, shapeCast_self, LaneLib.step]; first | done | rfl)

theorem k3_pay155_nf (v705 : Vec F S1x16 .f32) :
    k3_pay155 v705 = shapeCast S16 v705 shapeCasts_S1x16_S16 := by
  unfold k3_pay155
  first | rfl | (simp only [k3_pay153_nf, shapeCast_self, LaneLib.step]; first | done | rfl)

theorem k3_pay156_nf (v227 : IVec S16 32) (v666 : FVec F S16 .f32) (v690 : Vec F S16 .f32) (v719 : Vec F S16 .f32) :
    k3_pay156 v227 v666 v690 v719 = LaneLib.step v227 15#32 (LaneLib.step v227 14#32 v666 v690) v719 := by
  unfold k3_pay156
  first | rfl | (simp only [shapeCast_self, LaneLib.step]; first | done | rfl)

theorem k3_pay157_nf (v256 : Vec F S16 .i32) :
    k3_pay157 v256 = v256 := by
  unfold k3_pay157
  first | rfl | (simp only [shapeCast_self, LaneLib.step]; first | done | rfl)

theorem k3_pay158_nf (v256 : Vec F S16 .i32) :
    k3_pay158 v256 = extractStridedSlice S1 ![0] v256 slices_S16_o0_S1 := by
  unfold k3_pay158
  first | rfl | (simp only [k3_pay157_nf, shapeCast_self, LaneLib.step]; first | done | rfl)

theorem k3_pay159_nf (v270 : Vec F S1x16 .f32) :
    k3_pay159 v270 = shapeCast S16 v270 shapeCasts_S1x16_S16 := by
  unfold k3_pay159
  first | rfl | (simp only [shapeCast_self, LaneLib.step]; first | done | rfl)

theorem k3_pay160_nf (v270 : Vec F S1x16 .f32) :
    k3_pay160 v270 = shapeCast S16 v270 shapeCasts_S1x16_S16 := by
  unfold k3_pay160
  first | rfl | (simp only [k3_pay159_nf, shapeCast_self, LaneLib.step]; first | done | rfl)

theorem k3_pay161_nf (v270 : Vec F S1x16 .f32) :
    k3_pay161 v270 = shapeCast S16 v270 shapeCasts_S1x16_S16 := by
  unfold k3_pay161
  first | rfl | (simp only [k3_pay159_nf, shapeCast_self, LaneLib.step]; first | done | rfl)

theorem k3_pay162_nf (v227 : IVec S16 32) (v259 : Vec F S16 .f32) (v284 : Vec F S16 .f32) :
    k3_pay162 v227 v259 v284 = LaneLib.step v227 0#32 v259 v284 := by
  unfold k3_pay162
  first | rfl | (simp only [shapeCast_self, LaneLib.step]; first | done | rfl)

theorem k3_pay163_nf (v257 : IVec S16 32) :
    k3_pay163 v257 = extractStridedSlice S1 ![1] v257 slices_S16_o1_S1 := by
  unfold k3_pay163
  first | rfl | (simp only [shapeCast_self, LaneLib.step]; first | done | rfl)

theorem k3_pay164_nf (v299 : Vec F S1x16 .f32) :
    k3_pay164 v299 = shapeCast S16 v299 shapeCasts_S1x16_S16 := by
  unfold k3_pay164
  first | rfl | (simp only [shapeCast_self, LaneLib.step]; first | done | rfl)

theorem k3_pay165_nf (v299 : Vec F S1x16 .f32) :
    k3_pay165 v299 = shapeCast S16 v299 shapeCasts_S1x16_S16 := by
  unfold k3_pay165
  first | rfl | (simp only [k3_pay164_nf, shapeCast_self, LaneLib.step]; first | done | rfl)

theorem k3_pay166_nf (v299 : Vec F S1x16 .f32) :
    k3_pay166 v299 = shapeCast S16 v299 shapeCasts_S1x16_S16 := by
  unfold k3_pay166
  first | rfl | (simp only [k3_pay164_nf, shapeCast_self, LaneLib.step]; first | done | rfl)

theorem k3_pay167_nf (v227 : IVec S16 32) (v289 : FVec F S16 .f32) (v313 : Vec F S16 .f32) :
    k3_pay167 v227 v289 v313 = LaneLib.step v227 1#32 v289 v313 := by
  unfold k3_pay167
  first | rfl | (simp only [shapeCast_self, LaneLib.step]; first | done | rfl)

theorem k3_pay168_nf (v257 : IVec S16 32) :
    k3_pay168 v257 = extractStridedSlice S1 ![2] v257 slices_S16_o2_S1 := by
  unfold k3_pay168
  first | rfl | (simp only [shapeCast_self, LaneLib.step]; first | done | rfl)

theorem k3_pay169_nf (v328 : Vec F S1x16 .f32) :
    k3_pay169 v328 = shapeCast S16 v328 shapeCasts_S1x16_S16 := by
  unfold k3_pay169
  first | rfl | (simp only [shapeCast_self, LaneLib.step]; first | done | rfl)

theorem k3_pay170_nf (v328 : Vec F S1x16 .f32) :
    k3_pay170 v328 = shapeCast S16 v328 shapeCasts_S1x16_S16 := by
  unfold k3_pay170
  first | rfl | (simp only [k3_pay169_nf, shapeCast_self, LaneLib.step]; first | done | rfl)

theorem k3_pay171_nf (v329 : FVec F S16 .f32) :
    k3_pay171 v329 = v329 := by
  unfold k3_pay171
  first | rfl | (simp only [shapeCast_self, LaneLib.step]; first | done | rfl)

theorem k3_pay172_nf (v227 : IVec S16 32) (v318 : FVec F S16 .f32) (v342 : Vec F S16 .f32) :
    k3_pay172 v227 v318 v342 = LaneLib.step v227 2#32 v318 v342 := by
  unfold k3_pay172
  first | rfl | (simp only [shapeCast_self, LaneLib.step]; first | done | rfl)

theorem k3_pay173_nf (v257 : IVec S16 32) :
    k3_pay173 v257 = extractStridedSlice S1 ![3] v257 slices_S16_o3_S1 := by
  unfold k3_pay173
  first | rfl | (simp only [shapeCast_self, LaneLib.step]; first | done | rfl)

theorem k3_pay174_nf (v357 : Vec F S1x16 .f32) :
    k3_pay174 v357 = shapeCast S16 v357 shapeCasts_S1x16_S16 := by
  unfold k3_pay174
  first | rfl | (simp only [shapeCast_self, LaneLib.step]; first | done | rfl)

theorem k3_pay175_nf (v357 : Vec F S1x16 .f32) :
    k3_pay175 v357 = shapeCast S16 v357 shapeCasts_S1x16_S16 := by
  unfold k3_pay175
  first | rfl | (simp only [k3_pay174_nf, shapeCast_self, LaneLib.step]; first | done | rfl)

theorem k3_pay176_nf (v357 : Vec F S1x16 .f32) :
    k3_pay176 v357 = shapeCast S16 v357 shapeCasts_S1x16_S16 := by
  unfold k3_pay176
  first | rfl | (simp only [k3_pay174_nf, shapeCast_self, LaneLib.step]; first | done | rfl)

theorem k3_pay177_nf (v257 : IVec S16 32) :
    k3_pay177 v257 = extractStridedSlice S1 ![4] v257 slices_S16_o4_S1 := by
  unfold k3_pay177
  first | rfl | (simp only [shapeCast_self, LaneLib.step]; first | done | rfl)

theorem k3_pay178_nf (v386 : Vec F S1x16 .f32) :
    k3_pay178 v386 = shapeCast S16 v386 shapeCasts_S1x16_S16 := by
  unfold k3_pay178
  first | rfl | (simp only [shapeCast_self, LaneLib.step]; first | done | rfl)

theorem k3_pay179_nf (v386 : Vec F S1x16 .f32) :
    k3_pay179 v386 = shapeCast S16 v386 shapeCasts_S1x16_S16 := by
  unfold k3_pay179
  first | rfl | (simp only [k3_pay178_nf, shapeCast_self, LaneLib.step]; first | done | rfl)

theorem k3_pay180_nf (v386 : Vec F S1x16 .f32) :
    k3_pay180 v386 = shapeCast S16 v386 shapeCasts_S1x16_S16 := by
  unfold k3_pay180
  first | rfl | (simp only [k3_pay178_nf, shapeCast_self, LaneLib.step]; first | done | rfl)

theorem k3_pay181_nf (v227 : IVec S16 32) (v347 : FVec F S16 .f32) (v371 : Vec F S16 .f32) (v400 : Vec F S16 .f32) :
    k3_pay181 v227 v347 v371 v400 = LaneLib.step v227 4#32 (LaneLib.step v227 3#32 v347 v371) v400 := by
  unfold k3_pay181
  first | rfl | (simp only [shapeCast_self, LaneLib.step]; first | done | rfl)

theorem k3_pay182_nf (v257 : IVec S16 32) :
    k3_pay182 v257 = extractStridedSlice S1 ![5] v257 slices_S16_o5_S1 := by
  unfold k3_pay182
  first | rfl | (simp only [shapeCast_self, LaneLib.step]; first | done | rfl)

theorem k3_pay183_nf (v415 : Vec F S1x16 .f32) :
    k3_pay183 v415 = shapeCast S16 v415 shapeCasts_S1x16_S16 := by
  unfold k3_pay183
  first | rfl | (simp only [shapeCast_self, LaneLib.step]; first | done | rfl)

theorem k3_pay184_nf (v415 : Vec F S1x16 .f32) :
    k3_pay184 v415 = shapeCast S16 v415 shapeCasts_S1x16_S16 := by
  unfold k3_pay184
  first | rfl | (simp only [k3_pay183_nf, shapeCast_self, LaneLib.step]; first | done | rfl)

theorem k3_pay185_nf (v415 : Vec F S1x16 .f32) :
    k3_pay185 v415 = shapeCast S16 v415 shapeCasts_S1x16_S16 := by
  unfold k3_pay185
  first | rfl | (simp only [k3_pay183_nf, shapeCast_self, LaneLib.step]; first | done | rfl)

theorem k3_pay186_nf (v227 : IVec S16 32) (v405 : FVec F S16 .f32) (v429 : Vec F S16 .f32) :
    k3_pay186 v227 v405 v429 = LaneLib.step v227 5#32 v405 v429 := by
  unfold k3_pay186
  first | rfl | (simp only [shapeCast_self, LaneLib.step]; first | done | rfl)

theorem k3_pay187_nf (v257 : IVec S16 32) :
    k3_pay187 v257 = extractStridedSlice S1 ![6] v257 slices_S16_o6_S1 := by
  unfold k3_pay187
  first | rfl | (simp only [shapeCast_self, LaneLib.step]; first | done | rfl)

theorem k3_pay188_nf (v444 : Vec F S1x16 .f32) :
    k3_pay188 v444 = shapeCast S16 v444 shapeCasts_S1x16_S16 := by
  unfold k3_pay188
  first | rfl | (simp only [shapeCast_self, LaneLib.step]; first | done | rfl)

theorem k3_pay189_nf (v444 : Vec F S1x16 .f32) :
    k3_pay189 v444 = shapeCast S16 v444 shapeCasts_S1x16_S16 := by
  unfold k3_pay189
  first | rfl | (simp only [k3_pay188_nf, shapeCast_self, LaneLib.step]; first | done | rfl)

theorem k3_pay190_nf (v445 : FVec F S16 .f32) :
    k3_pay190 v445 = v445 := by
  unfold k3_pay190
  first | rfl | (simp only [shapeCast_self, LaneLib.step]; first | done | rfl)

theorem k3_pay191_nf (v227 : IVec S16 32) (v434 : FVec F S16 .f32) (v458 : Vec F S16 .f32) :
    k3_pay191 v227 v434 v458 = LaneLib.step v227 6#32 v434 v458 := by
  unfold k3_pay191
  first | rfl | (simp only [shapeCast_self, LaneLib.step]; first | done | rfl)

theorem k3_pay192_nf (v257 : IVec S16 32) :
    k3_pay192 v257 = extractStridedSlice S1 ![7] v257 slices_S16_o7_S1 := by
  unfold k3_pay192
  first | rfl | (simp only [shapeCast_self, LaneLib.step]; first | done | rfl)

theorem k3_pay193_nf (v473 : Vec F S1x16 .f32) :
    k3_pay193 v473 = shapeCast S16 v473 shapeCasts_S1x16_S16 := by
  unfold k3_pay193
  first | rfl | (simp only [shapeCast_self, LaneLib.step]; first | done | rfl)

theorem k3_pay194_nf (v473 : Vec F S1x16 .f32) :
    k3_pay194 v473 = shapeCast S16 v473 shapeCasts_S1x16_S16 := by
  unfold k3_pay194
  first | rfl | (simp only [k3_pay193_nf, shapeCast_self, LaneLib.step]; first | done | rfl)

theorem k3_pay195_nf (v473 : Vec F S1x16 .f32) :
    k3_pay195 v473 = shapeCast S16 v473 shapeCasts_S1x16_S16 := by
  unfold k3_pay195
  first | rfl | (simp only [k3_pay193_nf, shapeCast_self, LaneLib.step]; first | done | rfl)

theorem k3_pay196_nf (v487 : Vec F S16 .f32) :
    k3_pay196 v487 = v487 := by
  unfold k3_pay196
  first | rfl | (simp only [shapeCast_self, LaneLib.step]; first | done | rfl)

theorem k3_pay197_nf (v257 : IVec S16 32) :
    k3_pay197 v257 = extractStridedSlice S1 ![8] v257 slices_S16_o8_S1 := by
  unfold k3_pay197
  first | rfl | (simp only [shapeCast_self, LaneLib.step]; first | done | rfl)

theorem k3_pay198_nf (v502 : Vec F S1x16 .f32) :
    k3_pay198 v502 = shapeCast S16 v502 shapeCasts_S1x16_S16 := by
  unfold k3_pay198
  first | rfl | (simp only [shapeCast_self, LaneLib.step]; first | done | rfl)

theorem k3_pay199_nf (v502 : Vec F S1x16 .f32) :
    k3_pay199 v502 = shapeCast S16 v502 shapeCasts_S1x16_S16 := by
  unfold k3_pay199
  first | rfl | (simp only [k3_pay198_nf, shapeCast_self, LaneLib.step]; first | done | rfl)

theorem k3_pay200_nf (v502 : Vec F S1x16 .f32) :
    k3_pay200 v502 = shapeCast S16 v502 shapeCasts_S1x16_S16 := by
  unfold k3_pay200
  first | rfl | (simp only [k3_pay198_nf, shapeCast_self, LaneLib.step]; first | done | rfl)

theorem k3_pay201_nf (v227 : IVec S16 32) (v463 : FVec F S16 .f32) (v488 : FVec F S16 .f32) (c7_i32_184 : BitVec 32) (v516 : Vec F S16 .f32) :
    k3_pay201 v227 v463 v488 c7_i32_184 v516 = LaneLib.step v227 8#32 (LaneLib.step v227 c7_i32_184 v463 v488) v516 := by
  unfold k3_pay201
  first | rfl | (simp only [shapeCast_self, LaneLib.step]; first | done | rfl)

theorem k3_pay202_nf (v257 : IVec S16 32) :
    k3_pay202 v257 = extractStridedSlice S1 ![9] v257 slices_S16_o9_S1 := by
  unfold k3_pay202
  first | rfl | (simp only [shapeCast_self, LaneLib.step]; first | done | rfl)

theorem k3_pay203_nf (v531 : Vec F S1x16 .f32) :
    k3_pay203 v531 = shapeCast S16 v531 shapeCasts_S1x16_S16 := by
  unfold k3_pay203
  first | rfl | (simp only [shapeCast_self, LaneLib.step]; first | done | rfl)

theorem k3_pay204_nf (v531 : Vec F S1x16 .f32) :
    k3_pay204 v531 = shapeCast S16 v531 shapeCasts_S1x16_S16 := by
  unfold k3_pay204
  first | rfl | (simp only [k3_pay203_nf, shapeCast_self, LaneLib.step]; first | done | rfl)

theorem k3_pay205_nf (v531 : Vec F S1x16 .f32) :
    k3_pay205 v531 = shapeCast S16 v531 shapeCasts_S1x16_S16 := by
  unfold k3_pay205
  first | rfl | (simp only [k3_pay203_nf, shapeCast_self, LaneLib.step]; first | done | rfl)

theorem k3_pay206_nf (v227 : IVec S16 32) (v521 : FVec F S16 .f32) (v545 : Vec F S16 .f32) :
    k3_pay206 v227 v521 v545 = LaneLib.step v227 9#32 v521 v545 := by
  unfold k3_pay206
  first | rfl | (simp only [shapeCast_self, LaneLib.step]; first | done | rfl)

theorem k3_pay207_nf (v257 : IVec S16 32) :
    k3_pay207 v257 = extractStridedSlice S1 ![10] v257 slices_S16_o10_S1 := by
  unfold k3_pay207
  first | rfl | (simp only [shapeCast_self, LaneLib.step]; first | done | rfl)

theorem k3_pay208_nf (v560 : Vec F S1x16 .f32) :
    k3_pay208 v560 = shapeCast S16 v560 shapeCasts_S1x16_S16 := by
  unfold k3_pay208
  first | rfl | (simp only [shapeCast_self, LaneLib.step]; first | done | rfl)

theorem k3_pay209_nf (v560 : Vec F S1x16 .f32) :
    k3_pay209 v560 = shapeCast S16 v560 shapeCasts_S1x16_S16 := by
  unfold k3_pay209
  first | rfl | (simp only [k3_pay208_nf, shapeCast_self, LaneLib.step]; first | done | rfl)

theorem k3_pay210_nf (v560 : Vec F S1x16 .f32) :
    k3_pay210 v560 = shapeCast S16 v560 shapeCasts_S1x16_S16 := by
  unfold k3_pay210
  first | rfl | (simp only [k3_pay208_nf, shapeCast_self, LaneLib.step]; first | done | rfl)

theorem k3_pay211_nf (v257 : IVec S16 32) :
    k3_pay211 v257 = extractStridedSlice S1 ![11] v257 slices_S16_o11_S1 := by
  unfold k3_pay211
  first | rfl | (simp only [shapeCast_self, LaneLib.step]; first | done | rfl)

theorem k3_pay212_nf (v589 : Vec F S1x16 .f32) :
    k3_pay212 v589 = shapeCast S16 v589 shapeCasts_S1x16_S16 := by
  unfold k3_pay212
  first | rfl | (simp only [shapeCast_self, LaneLib.step]; first | done | rfl)

theorem k3_pay213_nf (v589 : Vec F S1x16 .f32) :
    k3_pay213 v589 = shapeCast S16 v589 shapeCasts_S1x16_S16 := by
  unfold k3_pay213
  first | rfl | (simp only [k3_pay212_nf, shapeCast_self, LaneLib.step]; first | done | rfl)

theorem k3_pay214_nf (v589 : Vec F S1x16 .f32) :
    k3_pay214 v589 = shapeCast S16 v589 shapeCasts_S1x16_S16 := by
  unfold k3_pay214
  first | rfl | (simp only [k3_pay212_nf, shapeCast_self, LaneLib.step]; first | done | rfl)

theorem k3_pay215_nf (v227 : IVec S16 32) (v550 : FVec F S16 .f32) (v574 : Vec F S16 .f32) (v603 : Vec F S16 .f32) :
    k3_pay215 v227 v550 v574 v603 = LaneLib.step v227 11#32 (LaneLib.step v227 10#32 v550 v574) v603 := by
  unfold k3_pay215
  first | rfl | (simp only [shapeCast_self, LaneLib.step]; first | done | rfl)

theorem k3_pay216_nf (v257 : IVec S16 32) :
    k3_pay216 v257 = extractStridedSlice S1 ![12] v257 slices_S16_o12_S1 := by
  unfold k3_pay216
  first | rfl | (simp only [shapeCast_self, LaneLib.step]; first | done | rfl)

theorem k3_pay217_nf (v618 : Vec F S1x16 .f32) :
    k3_pay217 v618 = shapeCast S16 v618 shapeCasts_S1x16_S16 := by
  unfold k3_pay217
  first | rfl | (simp only [shapeCast_self, LaneLib.step]; first | done | rfl)

theorem k3_pay218_nf (v618 : Vec F S1x16 .f32) :
    k3_pay218 v618 = shapeCast S16 v618 shapeCasts_S1x16_S16 := by
  unfold k3_pay218
  first | rfl | (simp only [k3_pay217_nf, shapeCast_self, LaneLib.step]; first | done | rfl)

theorem k3_pay219_nf (v618 : Vec F S1x16 .f32) :
    k3_pay219 v618 = shapeCast S16 v618 shapeCasts_S1x16_S16 := by
  unfold k3_pay219
  first | rfl | (simp only [k3_pay217_nf, shapeCast_self, LaneLib.step]; first | done | rfl)

theorem k3_pay220_nf (v227 : IVec S16 32) (v608 : FVec F S16 .f32) (v632 : Vec F S16 .f32) :
    k3_pay220 v227 v608 v632 = LaneLib.step v227 12#32 v608 v632 := by
  unfold k3_pay220
  first | rfl | (simp only [shapeCast_self, LaneLib.step]; first | done | rfl)

theorem k3_pay221_nf (v257 : IVec S16 32) :
    k3_pay221 v257 = extractStridedSlice S1 ![13] v257 slices_S16_o13_S1 := by
  unfold k3_pay221
  first | rfl | (simp only [shapeCast_self, LaneLib.step]; first | done | rfl)

theorem k3_pay222_nf (v647 : Vec F S1x16 .f32) :
    k3_pay222 v647 = shapeCast S16 v647 shapeCasts_S1x16_S16 := by
  unfold k3_pay222
  first | rfl | (simp only [shapeCast_self, LaneLib.step]; first | done | rfl)

theorem k3_pay223_nf (v648 : FVec F S16 .f32) :
    k3_pay223 v648 = v648 := by
  unfold k3_pay223
  first | rfl | (simp only [shapeCast_self, LaneLib.step]; first | done | rfl)

theorem k3_pay224_nf (v648 : FVec F S16 .f32) :
    k3_pay224 v648 = v648 := by
  unfold k3_pay224
  first | rfl | (simp only [shapeCast_self, LaneLib.step]; first | done | rfl)

theorem k3_pay225_nf (v227 : IVec S16 32) (v637 : FVec F S16 .f32) (v661 : Vec F S16 .f32) :
    k3_pay225 v227 v637 v661 = LaneLib.step v227 13#32 v637 v661 := by
  unfold k3_pay225
  first | rfl | (simp only [shapeCast_self, LaneLib.step]; first | done | rfl)

theorem k3_pay226_nf (v257 : IVec S16 32) :
    k3_pay226 v257 = extractStridedSlice S1 ![14] v257 slices_S16_o14_S1 := by
  unfold k3_pay226
  first | rfl | (simp only [shapeCast_self, LaneLib.step]; first | done | rfl)

theorem k3_pay227_nf (v676 : Vec F S1x16 .f32) :
    k3_pay227 v676 = shapeCast S16 v676 shapeCasts_S1x16_S16 := by
  unfold k3_pay227
  first | rfl | (simp only [shapeCast_self, LaneLib.step]; first | done | rfl)

theorem k3_pay228_nf (v676 : Vec F S1x16 .f32) :
    k3_pay228 v676 = shapeCast S16 v676 shapeCasts_S1x16_S16 := by
  unfold k3_pay228
  first | rfl | (simp only [k3_pay227_nf, shapeCast_self, LaneLib.step]; first | done | rfl)

theorem k3_pay229_nf (v676 : Vec F S1x16 .f32) :
    k3_pay229 v676 = shapeCast S16 v676 shapeCasts_S1x16_S16 := by
  unfold k3_pay229
  first | rfl | (simp only [k3_pay227_nf, shapeCast_self, LaneLib.step]; first | done | rfl)

theorem k3_pay230_nf (v257 : IVec S16 32) :
    k3_pay230 v257 = extractStridedSlice S1 ![15] v257 slices_S16_o15_S1 := by
  unfold k3_pay230
  first | rfl | (simp only [shapeCast_self, LaneLib.step]; first | done | rfl)

theorem k3_pay231_nf (v705 : Vec F S1x16 .f32) :
    k3_pay231 v705 = shapeCast S16 v705 shapeCasts_S1x16_S16 := by
  unfold k3_pay231
  first | rfl | (simp only [shapeCast_self, LaneLib.step]; first | done | rfl)

theorem k3_pay232_nf (v705 : Vec F S1x16 .f32) :
    k3_pay232 v705 = shapeCast S16 v705 shapeCasts_S1x16_S16 := by
  unfold k3_pay232
  first | rfl | (simp only [k3_pay231_nf, shapeCast_self, LaneLib.step]; first | done | rfl)

theorem k3_pay233_nf (v705 : Vec F S1x16 .f32) :
    k3_pay233 v705 = shapeCast S16 v705 shapeCasts_S1x16_S16 := by
  unfold k3_pay233
  first | rfl | (simp only [k3_pay231_nf, shapeCast_self, LaneLib.step]; first | done | rfl)

theorem k3_pay234_nf (v227 : IVec S16 32) (v666 : FVec F S16 .f32) (v690 : Vec F S16 .f32) (v719 : Vec F S16 .f32) :
    k3_pay234 v227 v666 v690 v719 = LaneLib.step v227 15#32 (LaneLib.step v227 14#32 v666 v690) v719 := by
  unfold k3_pay234
  first | rfl | (simp only [shapeCast_self, LaneLib.step]; first | done | rfl)

theorem k3_pay235_nf (v256 : Vec F S16 .i32) :
    k3_pay235 v256 = v256 := by
  unfold k3_pay235
  first | rfl | (simp only [shapeCast_self, LaneLib.step]; first | done | rfl)

theorem k3_pay236_nf (v256 : Vec F S16 .i32) :
    k3_pay236 v256 = extractStridedSlice S1 ![0] v256 slices_S16_o0_S1 := by
  unfold k3_pay236
  first | rfl | (simp only [k3_pay235_nf, shapeCast_self, LaneLib.step]; first | done | rfl)

theorem k3_pay237_nf (v270 : Vec F S1x16 .f32) :
    k3_pay237 v270 = shapeCast S16 v270 shapeCasts_S1x16_S16 := by
  unfold k3_pay237
  first | rfl | (simp only [shapeCast_self, LaneLib.step]; first | done | rfl)

theorem k3_pay238_nf (v270 : Vec F S1x16 .f32) :
    k3_pay238 v270 = shapeCast S16 v270 shapeCasts_S1x16_S16 := by
  unfold k3_pay238
  first | rfl | (simp only [k3_pay237_nf, shapeCast_self, LaneLib.step]; first | done | rfl)

theorem k3_pay239_nf (v270 : Vec F S1x16 .f32) :
    k3_pay239 v270 = shapeCast S16 v270 shapeCasts_S1x16_S16 := by
  unfold k3_pay239
  first | rfl | (simp only [k3_pay237_nf, shapeCast_self, LaneLib.step]; first | done | rfl)

theorem k3_pay240_nf (v227 : IVec S16 32) (v259 : Vec F S16 .f32) (v284 : Vec F S16 .f32) :
    k3_pay240 v227 v259 v284 = LaneLib.step v227 0#32 v259 v284 := by
  unfold k3_pay240
  first | rfl | (simp only [shapeCast_self, LaneLib.step]; first | done | rfl)

theorem k3_pay241_nf (v257 : IVec S16 32) :
    k3_pay241 v257 = extractStridedSlice S1 ![1] v257 slices_S16_o1_S1 := by
  unfold k3_pay241
  first | rfl | (simp only [shapeCast_self, LaneLib.step]; first | done | rfl)

theorem k3_pay242_nf (v299 : Vec F S1x16 .f32) :
    k3_pay242 v299 = shapeCast S16 v299 shapeCasts_S1x16_S16 := by
  unfold k3_pay242
  first | rfl | (simp only [shapeCast_self, LaneLib.step]; first | done | rfl)

theorem k3_pay243_nf (v299 : Vec F S1x16 .f32) :
    k3_pay243 v299 = shapeCast S16 v299 shapeCasts_S1x16_S16 := by
  unfold k3_pay243
  first | rfl | (simp only [k3_pay242_nf, shapeCast_self, LaneLib.step]; first | done | rfl)

theorem k3_pay244_nf (v299 : Vec F S1x16 .f32) :
    k3_pay244 v299 = shapeCast S16 v299 shapeCasts_S1x16_S16 := by
  unfold k3_pay244
  first | rfl | (simp only [k3_pay242_nf, shapeCast_self, LaneLib.step]; first | done | rfl)

theorem k3_pay245_nf (v227 : IVec S16 32) (v289 : FVec F S16 .f32) (v313 : Vec F S16 .f32) :
    k3_pay245 v227 v289 v313 = LaneLib.step v227 1#32 v289 v313 := by
  unfold k3_pay245
  first | rfl | (simp only [shapeCast_self, LaneLib.step]; first | done | rfl)

theorem k3_pay246_nf (v257 : IVec S16 32) :
    k3_pay246 v257 = extractStridedSlice S1 ![2] v257 slices_S16_o2_S1 := by
  unfold k3_pay246
  first | rfl | (simp only [shapeCast_self, LaneLib.step]; first | done | rfl)

theorem k3_pay247_nf (v328 : Vec F S1x16 .f32) :
    k3_pay247 v328 = shapeCast S16 v328 shapeCasts_S1x16_S16 := by
  unfold k3_pay247
  first | rfl | (simp only [shapeCast_self, LaneLib.step]; first | done | rfl)

theorem k3_pay248_nf (v328 : Vec F S1x16 .f32) :
    k3_pay248 v328 = shapeCast S16 v328 shapeCasts_S1x16_S16 := by
  unfold k3_pay248
  first | rfl | (simp only [k3_pay247_nf, shapeCast_self, LaneLib.step]; first | done | rfl)

theorem k3_pay249_nf (v329 : FVec F S16 .f32) :
    k3_pay249 v329 = v329 := by
  unfold k3_pay249
  first | rfl | (simp only [shapeCast_self, LaneLib.step]; first | done | rfl)

theorem k3_pay250_nf (v227 : IVec S16 32) (v318 : FVec F S16 .f32) (v342 : Vec F S16 .f32) :
    k3_pay250 v227 v318 v342 = LaneLib.step v227 2#32 v318 v342 := by
  unfold k3_pay250
  first | rfl | (simp only [shapeCast_self, LaneLib.step]; first | done | rfl)

theorem k3_pay251_nf (v257 : IVec S16 32) :
    k3_pay251 v257 = extractStridedSlice S1 ![3] v257 slices_S16_o3_S1 := by
  unfold k3_pay251
  first | rfl | (simp only [shapeCast_self, LaneLib.step]; first | done | rfl)

theorem k3_pay252_nf (v357 : Vec F S1x16 .f32) :
    k3_pay252 v357 = shapeCast S16 v357 shapeCasts_S1x16_S16 := by
  unfold k3_pay252
  first | rfl | (simp only [shapeCast_self, LaneLib.step]; first | done | rfl)

theorem k3_pay253_nf (v357 : Vec F S1x16 .f32) :
    k3_pay253 v357 = shapeCast S16 v357 shapeCasts_S1x16_S16 := by
  unfold k3_pay253
  first | rfl | (simp only [k3_pay252_nf, shapeCast_self, LaneLib.step]; first | done | rfl)

theorem k3_pay254_nf (v357 : Vec F S1x16 .f32) :
    k3_pay254 v357 = shapeCast S16 v357 shapeCasts_S1x16_S16 := by
  unfold k3_pay254
  first | rfl | (simp only [k3_pay252_nf, shapeCast_self, LaneLib.step]; first | done | rfl)

theorem k3_pay255_nf (v257 : IVec S16 32) :
    k3_pay255 v257 = extractStridedSlice S1 ![4] v257 slices_S16_o4_S1 := by
  unfold k3_pay255
  first | rfl | (simp only [shapeCast_self, LaneLib.step]; first | done | rfl)

theorem k3_pay256_nf (v386 : Vec F S1x16 .f32) :
    k3_pay256 v386 = shapeCast S16 v386 shapeCasts_S1x16_S16 := by
  unfold k3_pay256
  first | rfl | (simp only [shapeCast_self, LaneLib.step]; first | done | rfl)

theorem k3_pay257_nf (v386 : Vec F S1x16 .f32) :
    k3_pay257 v386 = shapeCast S16 v386 shapeCasts_S1x16_S16 := by
  unfold k3_pay257
  first | rfl | (simp only [k3_pay256_nf, shapeCast_self, LaneLib.step]; first | done | rfl)

theorem k3_pay258_nf (v386 : Vec F S1x16 .f32) :
    k3_pay258 v386 = shapeCast S16 v386 shapeCasts_S1x16_S16 := by
  unfold k3_pay258
  first | rfl | (simp only [k3_pay256_nf, shapeCast_self, LaneLib.step]; first | done | rfl)

theorem k3_pay259_nf (v227 : IVec S16 32) (v347 : FVec F S16 .f32) (v371 : Vec F S16 .f32) (v400 : Vec F S16 .f32) :
    k3_pay259 v227 v347 v371 v400 = LaneLib.step v227 4#32 (LaneLib.step v227 3#32 v347 v371) v400 := by
  unfold k3_pay259
  first | rfl | (simp only [shapeCast_self, LaneLib.step]; first | done | rfl)

theorem k3_pay260_nf (v257 : IVec S16 32) :
    k3_pay260 v257 = extractStridedSlice S1 ![5] v257 slices_S16_o5_S1 := by
  unfold k3_pay260
  first | rfl | (simp only [shapeCast_self, LaneLib.step]; first | done | rfl)

theorem k3_pay261_nf (v415 : Vec F S1x16 .f32) :
    k3_pay261 v415 = shapeCast S16 v415 shapeCasts_S1x16_S16 := by
  unfold k3_pay261
  first | rfl | (simp only [shapeCast_self, LaneLib.step]; first | done | rfl)

theorem k3_pay262_nf (v415 : Vec F S1x16 .f32) :
    k3_pay262 v415 = shapeCast S16 v415 shapeCasts_S1x16_S16 := by
  unfold k3_pay262
  first | rfl | (simp only [k3_pay261_nf, shapeCast_self, LaneLib.step]; first | done | rfl)

theorem k3_pay263_nf (v415 : Vec F S1x16 .f32) :
    k3_pay263 v415 = shapeCast S16 v415 shapeCasts_S1x16_S16 := by
  unfold k3_pay263
  first | rfl | (simp only [k3_pay261_nf, shapeCast_self, LaneLib.step]; first | done | rfl)

theorem k3_pay264_nf (v227 : IVec S16 32) (v405 : FVec F S16 .f32) (v429 : Vec F S16 .f32) :
    k3_pay264 v227 v405 v429 = LaneLib.step v227 5#32 v405 v429 := by
  unfold k3_pay264
  first | rfl | (simp only [shapeCast_self, LaneLib.step]; first | done | rfl)

theorem k3_pay265_nf (v257 : IVec S16 32) :
    k3_pay265 v257 = extractStridedSlice S1 ![6] v257 slices_S16_o6_S1 := by
  unfold k3_pay265
  first | rfl | (simp only [shapeCast_self, LaneLib.step]; first | done | rfl)

theorem k3_pay266_nf (v444 : Vec F S1x16 .f32) :
    k3_pay266 v444 = shapeCast S16 v444 shapeCasts_S1x16_S16 := by
  unfold k3_pay266
  first | rfl | (simp only [shapeCast_self, LaneLib.step]; first | done | rfl)

theorem k3_pay267_nf (v444 : Vec F S1x16 .f32) :
    k3_pay267 v444 = shapeCast S16 v444 shapeCasts_S1x16_S16 := by
  unfold k3_pay267
  first | rfl | (simp only [k3_pay266_nf, shapeCast_self, LaneLib.step]; first | done | rfl)

theorem k3_pay268_nf (v445 : FVec F S16 .f32) :
    k3_pay268 v445 = v445 := by
  unfold k3_pay268
  first | rfl | (simp only [shapeCast_self, LaneLib.step]; first | done | rfl)

theorem k3_pay269_nf (v227 : IVec S16 32) (v434 : FVec F S16 .f32) (v458 : Vec F S16 .f32) :
    k3_pay269 v227 v434 v458 = LaneLib.step v227 6#32 v434 v458 := by
  unfold k3_pay269
  first | rfl | (simp only [shapeCast_self, LaneLib.step]; first | done | rfl)

theorem k3_pay270_nf (v257 : IVec S16 32) :
    k3_pay270 v257 = extractStridedSlice S1 ![7] v257 slices_S16_o7_S1 := by
  unfold k3_pay270
  first | rfl | (simp only [shapeCast_self, LaneLib.step]; first | done | rfl)

theorem k3_pay271_nf (v473 : Vec F S1x16 .f32) :
    k3_pay271 v473 = shapeCast S16 v473 shapeCasts_S1x16_S16 := by
  unfold k3_pay271
  first | rfl | (simp only [shapeCast_self, LaneLib.step]; first | done | rfl)

theorem k3_pay272_nf (v473 : Vec F S1x16 .f32) :
    k3_pay272 v473 = shapeCast S16 v473 shapeCasts_S1x16_S16 := by
  unfold k3_pay272
  first | rfl | (simp only [k3_pay271_nf, shapeCast_self, LaneLib.step]; first | done | rfl)

theorem k3_pay273_nf (v473 : Vec F S1x16 .f32) :
    k3_pay273 v473 = shapeCast S16 v473 shapeCasts_S1x16_S16 := by
  unfold k3_pay273
  first | rfl | (simp only [k3_pay271_nf, shapeCast_self, LaneLib.step]; first | done | rfl)

theorem k3_pay274_nf (v487 : Vec F S16 .f32) :
    k3_pay274 v487 = v487 := by
  unfold k3_pay274
  first | rfl | (simp only [shapeCast_self, LaneLib.step]; first | done | rfl)

theorem k3_pay275_nf (v257 : IVec S16 32) :
    k3_pay275 v257 = extractStridedSlice S1 ![8] v257 slices_S16_o8_S1 := by
  unfold k3_pay275
  first | rfl | (simp only [shapeCast_self, LaneLib.step]; first | done | rfl)

theorem k3_pay276_nf (v502 : Vec F S1x16 .f32) :
    k3_pay276 v502 = shapeCast S16 v502 shapeCasts_S1x16_S16 := by
  unfold k3_pay276
  first | rfl | (simp only [shapeCast_self, LaneLib.step]; first | done | rfl)

theorem k3_pay277_nf (v502 : Vec F S1x16 .f32) :
    k3_pay277 v502 = shapeCast S16 v502 shapeCasts_S1x16_S16 := by
  unfold k3_pay277
  first | rfl | (simp only [k3_pay276_nf, shapeCast_self, LaneLib.step]; first | done | rfl)

theorem k3_pay278_nf (v502 : Vec F S1x16 .f32) :
    k3_pay278 v502 = shapeCast S16 v502 shapeCasts_S1x16_S16 := by
  unfold k3_pay278
  first | rfl | (simp only [k3_pay276_nf, shapeCast_self, LaneLib.step]; first | done | rfl)

theorem k3_pay279_nf (v227 : IVec S16 32) (v463 : FVec F S16 .f32) (v488 : FVec F S16 .f32) (c7_i32_184 : BitVec 32) (v516 : Vec F S16 .f32) :
    k3_pay279 v227 v463 v488 c7_i32_184 v516 = LaneLib.step v227 8#32 (LaneLib.step v227 c7_i32_184 v463 v488) v516 := by
  unfold k3_pay279
  first | rfl | (simp only [shapeCast_self, LaneLib.step]; first | done | rfl)

theorem k3_pay280_nf (v257 : IVec S16 32) :
    k3_pay280 v257 = extractStridedSlice S1 ![9] v257 slices_S16_o9_S1 := by
  unfold k3_pay280
  first | rfl | (simp only [shapeCast_self, LaneLib.step]; first | done | rfl)

theorem k3_pay281_nf (v531 : Vec F S1x16 .f32) :
    k3_pay281 v531 = shapeCast S16 v531 shapeCasts_S1x16_S16 := by
  unfold k3_pay281
  first | rfl | (simp only [shapeCast_self, LaneLib.step]; first | done | rfl)

theorem k3_pay282_nf (v531 : Vec F S1x16 .f32) :
    k3_pay282 v531 = shapeCast S16 v531 shapeCasts_S1x16_S16 := by
  unfold k3_pay282
  first | rfl | (simp only [k3_pay281_nf, shapeCast_self, LaneLib.step]; first | done | rfl)

theorem k3_pay283_nf (v531 : Vec F S1x16 .f32) :
    k3_pay283 v531 = shapeCast S16 v531 shapeCasts_S1x16_S16 := by
  unfold k3_pay283
  first | rfl | (simp only [k3_pay281_nf, shapeCast_self, LaneLib.step]; first | done | rfl)

theorem k3_pay284_nf (v227 : IVec S16 32) (v521 : FVec F S16 .f32) (v545 : Vec F S16 .f32) :
    k3_pay284 v227 v521 v545 = LaneLib.step v227 9#32 v521 v545 := by
  unfold k3_pay284
  first | rfl | (simp only [shapeCast_self, LaneLib.step]; first | done | rfl)

theorem k3_pay285_nf (v257 : IVec S16 32) :
    k3_pay285 v257 = extractStridedSlice S1 ![10] v257 slices_S16_o10_S1 := by
  unfold k3_pay285
  first | rfl | (simp only [shapeCast_self, LaneLib.step]; first | done | rfl)

theorem k3_pay286_nf (v560 : Vec F S1x16 .f32) :
    k3_pay286 v560 = shapeCast S16 v560 shapeCasts_S1x16_S16 := by
  unfold k3_pay286
  first | rfl | (simp only [shapeCast_self, LaneLib.step]; first | done | rfl)

theorem k3_pay287_nf (v560 : Vec F S1x16 .f32) :
    k3_pay287 v560 = shapeCast S16 v560 shapeCasts_S1x16_S16 := by
  unfold k3_pay287
  first | rfl | (simp only [k3_pay286_nf, shapeCast_self, LaneLib.step]; first | done | rfl)

theorem k3_pay288_nf (v560 : Vec F S1x16 .f32) :
    k3_pay288 v560 = shapeCast S16 v560 shapeCasts_S1x16_S16 := by
  unfold k3_pay288
  first | rfl | (simp only [k3_pay286_nf, shapeCast_self, LaneLib.step]; first | done | rfl)

theorem k3_pay289_nf (v257 : IVec S16 32) :
    k3_pay289 v257 = extractStridedSlice S1 ![11] v257 slices_S16_o11_S1 := by
  unfold k3_pay289
  first | rfl | (simp only [shapeCast_self, LaneLib.step]; first | done | rfl)

theorem k3_pay290_nf (v589 : Vec F S1x16 .f32) :
    k3_pay290 v589 = shapeCast S16 v589 shapeCasts_S1x16_S16 := by
  unfold k3_pay290
  first | rfl | (simp only [shapeCast_self, LaneLib.step]; first | done | rfl)

theorem k3_pay291_nf (v589 : Vec F S1x16 .f32) :
    k3_pay291 v589 = shapeCast S16 v589 shapeCasts_S1x16_S16 := by
  unfold k3_pay291
  first | rfl | (simp only [k3_pay290_nf, shapeCast_self, LaneLib.step]; first | done | rfl)

theorem k3_pay292_nf (v589 : Vec F S1x16 .f32) :
    k3_pay292 v589 = shapeCast S16 v589 shapeCasts_S1x16_S16 := by
  unfold k3_pay292
  first | rfl | (simp only [k3_pay290_nf, shapeCast_self, LaneLib.step]; first | done | rfl)

theorem k3_pay293_nf (v227 : IVec S16 32) (v550 : FVec F S16 .f32) (v574 : Vec F S16 .f32) (v603 : Vec F S16 .f32) :
    k3_pay293 v227 v550 v574 v603 = LaneLib.step v227 11#32 (LaneLib.step v227 10#32 v550 v574) v603 := by
  unfold k3_pay293
  first | rfl | (simp only [shapeCast_self, LaneLib.step]; first | done | rfl)

theorem k3_pay294_nf (v257 : IVec S16 32) :
    k3_pay294 v257 = extractStridedSlice S1 ![12] v257 slices_S16_o12_S1 := by
  unfold k3_pay294
  first | rfl | (simp only [shapeCast_self, LaneLib.step]; first | done | rfl)

theorem k3_pay295_nf (v618 : Vec F S1x16 .f32) :
    k3_pay295 v618 = shapeCast S16 v618 shapeCasts_S1x16_S16 := by
  unfold k3_pay295
  first | rfl | (simp only [shapeCast_self, LaneLib.step]; first | done | rfl)

theorem k3_pay296_nf (v618 : Vec F S1x16 .f32) :
    k3_pay296 v618 = shapeCast S16 v618 shapeCasts_S1x16_S16 := by
  unfold k3_pay296
  first | rfl | (simp only [k3_pay295_nf, shapeCast_self, LaneLib.step]; first | done | rfl)

theorem k3_pay297_nf (v618 : Vec F S1x16 .f32) :
    k3_pay297 v618 = shapeCast S16 v618 shapeCasts_S1x16_S16 := by
  unfold k3_pay297
  first | rfl | (simp only [k3_pay295_nf, shapeCast_self, LaneLib.step]; first | done | rfl)

theorem k3_pay298_nf (v227 : IVec S16 32) (v608 : FVec F S16 .f32) (v632 : Vec F S16 .f32) :
    k3_pay298 v227 v608 v632 = LaneLib.step v227 12#32 v608 v632 := by
  unfold k3_pay298
  first | rfl | (simp only [shapeCast_self, LaneLib.step]; first | done | rfl)

theorem k3_pay299_nf (v257 : IVec S16 32) :
    k3_pay299 v257 = extractStridedSlice S1 ![13] v257 slices_S16_o13_S1 := by
  unfold k3_pay299
  first | rfl | (simp only [shapeCast_self, LaneLib.step]; first | done | rfl)

theorem k3_pay300_nf (v647 : Vec F S1x16 .f32) :
    k3_pay300 v647 = shapeCast S16 v647 shapeCasts_S1x16_S16 := by
  unfold k3_pay300
  first | rfl | (simp only [shapeCast_self, LaneLib.step]; first | done | rfl)

theorem k3_pay301_nf (v648 : FVec F S16 .f32) :
    k3_pay301 v648 = v648 := by
  unfold k3_pay301
  first | rfl | (simp only [shapeCast_self, LaneLib.step]; first | done | rfl)

theorem k3_pay302_nf (v648 : FVec F S16 .f32) :
    k3_pay302 v648 = v648 := by
  unfold k3_pay302
  first | rfl | (simp only [shapeCast_self, LaneLib.step]; first | done | rfl)

theorem k3_pay303_nf (v227 : IVec S16 32) (v637 : FVec F S16 .f32) (v661 : Vec F S16 .f32) :
    k3_pay303 v227 v637 v661 = LaneLib.step v227 13#32 v637 v661 := by
  unfold k3_pay303
  first | rfl | (simp only [shapeCast_self, LaneLib.step]; first | done | rfl)

theorem k3_pay304_nf (v257 : IVec S16 32) :
    k3_pay304 v257 = extractStridedSlice S1 ![14] v257 slices_S16_o14_S1 := by
  unfold k3_pay304
  first | rfl | (simp only [shapeCast_self, LaneLib.step]; first | done | rfl)

theorem k3_pay305_nf (v676 : Vec F S1x16 .f32) :
    k3_pay305 v676 = shapeCast S16 v676 shapeCasts_S1x16_S16 := by
  unfold k3_pay305
  first | rfl | (simp only [shapeCast_self, LaneLib.step]; first | done | rfl)

theorem k3_pay306_nf (v676 : Vec F S1x16 .f32) :
    k3_pay306 v676 = shapeCast S16 v676 shapeCasts_S1x16_S16 := by
  unfold k3_pay306
  first | rfl | (simp only [k3_pay305_nf, shapeCast_self, LaneLib.step]; first | done | rfl)

theorem k3_pay307_nf (v676 : Vec F S1x16 .f32) :
    k3_pay307 v676 = shapeCast S16 v676 shapeCasts_S1x16_S16 := by
  unfold k3_pay307
  first | rfl | (simp only [k3_pay305_nf, shapeCast_self, LaneLib.step]; first | done | rfl)

theorem k3_pay308_nf (v257 : IVec S16 32) :
    k3_pay308 v257 = extractStridedSlice S1 ![15] v257 slices_S16_o15_S1 := by
  unfold k3_pay308
  first | rfl | (simp only [shapeCast_self, LaneLib.step]; first | done | rfl)

theorem k3_pay309_nf (v705 : Vec F S1x16 .f32) :
    k3_pay309 v705 = shapeCast S16 v705 shapeCasts_S1x16_S16 := by
  unfold k3_pay309
  first | rfl | (simp only [shapeCast_self, LaneLib.step]; first | done | rfl)

theorem k3_pay310_nf (v705 : Vec F S1x16 .f32) :
    k3_pay310 v705 = shapeCast S16 v705 shapeCasts_S1x16_S16 := by
  unfold k3_pay310
  first | rfl | (simp only [k3_pay309_nf, shapeCast_self, LaneLib.step]; first | done | rfl)

theorem k3_pay311_nf (v705 : Vec F S1x16 .f32) :
    k3_pay311 v705 = shapeCast S16 v705 shapeCasts_S1x16_S16 := by
  unfold k3_pay311
  first | rfl | (simp only [k3_pay309_nf, shapeCast_self, LaneLib.step]; first | done | rfl)

theorem k3_pay312_nf (v227 : IVec S16 32) (v666 : FVec F S16 .f32) (v690 : Vec F S16 .f32) (v719 : Vec F S16 .f32) :
    k3_pay312 v227 v666 v690 v719 = LaneLib.step v227 15#32 (LaneLib.step v227 14#32 v666 v690) v719 := by
  unfold k3_pay312
  first | rfl | (simp only [shapeCast_self, LaneLib.step]; first | done | rfl)

theorem k3_pay317_nf (v27 : IVec S16 32) :
    k3_pay317 v27 = v27 := by
  unfold k3_pay317
  first | rfl | (simp only [shapeCast_self, LaneLib.step]; first | done | rfl)

theorem k3_pay329_nf (v104 : IVec S16 32) :
    k3_pay329 v104 = v104 := by
  unfold k3_pay329
  first | rfl | (simp only [shapeCast_self, LaneLib.step]; first | done | rfl)

theorem k3_pay341_nf (v181 : IVec S16 32) :
    k3_pay341 v181 = v181 := by
  unfold k3_pay341
  first | rfl | (simp only [shapeCast_self, LaneLib.step]; first | done | rfl)

end Cert.Kernel.LanePayK3

end
-- ==== Proof.Kernel.RegionK3.lean ====
/-
  The four chunk loops of the second gather kernel's tile, one trip each at a symbolic trip: a trip reads sixteen ids and
  base values, and for lane j takes the sixteen-lane group of the gathered row 16 k + j that holds the id's lane, stores
  it twice in the rotate buffer at [32 j, 32 j + 32), and reads sixteen lanes from 32 j + ((id mod 16) - j mod 16): lane
  j of that read is the group's entry (id mod 16), that is the row's entry at the id's lane (id mod 128). The select
  keeps the other lanes, so after sixteen steps lane l holds base[l] plus its own row's entry.
-/
import proofs.«204913_g64682207478566_cont_9to1c4b_713_31_alg».proof.Proof.Kernel.TileK3Defs
import proofs.«204913_g64682207478566_cont_9to1c4b_713_31_alg».proof.Proof.Gen.Kernel.Skeleton
import proofs.«204913_g64682207478566_cont_9to1c4b_713_31_alg».proof.Proof.ChkLib
import Idealize.ShloMosaic.Lib.Pipeline.Value
import Idealize.ShloMosaic.Lib.ValueIdx
import proofs.«204913_g64682207478566_cont_9to1c4b_713_31_alg».proof.Proof.IdBits
import proofs.«204913_g64682207478566_cont_9to1c4b_713_31_alg».proof.Proof.LaneLib
import proofs.«204913_g64682207478566_cont_9to1c4b_713_31_alg».proof.Proof.LanePayK3B
import proofs.«204913_g64682207478566_cont_9to1c4b_713_31_alg».proof.Proof.LaneTrip
import proofs.«204913_g64682207478566_cont_9to1c4b_713_31_alg».proof.Proof.LaneSteps

noncomputable section

namespace Cert.Kernel.TileK3

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof

open Lean Elab Tactic Meta in
/-- Unfold, in the goal, the named auxiliary value definitions the symbolic run made for the enclosing declaration. -/
elab "delta_sl " "[" ids:ident,* "]" : tactic => do
  let some decl ← Term.getDeclName? | throwError "delta_sl: no enclosing declaration"
  let pre := decl ++ `sl
  let names := ids.getElems.map (·.getId)
  let g ← getMainGoal
  let g' ← g.deltaTarget (fun n => names.any (fun m => n == pre ++ m))
  replaceMainGoal [g']

variable {F : FTy → Type}

local notation "𝕄" => MT nD τ sig (HIx 2) (Elt F) ℕ UU ℕ

local notation "iV" => (Memref.whole Cert.Kernel.main_arg1_scv : Memref Cert.Kernel.sig Kind.scVector Space.hbm Cert.Kernel.S16384 EltTy.i32)
local notation "tV" => (Memref.whole Cert.Kernel.main_v11_scv : Memref Cert.Kernel.sig Kind.scVector Space.hbm Cert.Kernel.S784x128 EltTy.f32)
local notation "bV" => (Memref.whole Cert.Kernel.main_v8_scv : Memref Cert.Kernel.sig Kind.scVector Space.hbm Cert.Kernel.S16384 EltTy.f32)
local notation "oV" => (Memref.whole Cert.Kernel.main_v12_scv : Memref Cert.Kernel.sig Kind.scVector Space.hbm Cert.Kernel.S16384 EltTy.f32)
local notation "a6" => (Memref.whole Cert.Kernel.cc3_scratch0 : Memref Cert.Kernel.sig Kind.scVector Space.vmem Cert.Kernel.S512 EltTy.i32)
local notation "a7" => (Memref.whole Cert.Kernel.cc3_scratch1 : Memref Cert.Kernel.sig Kind.scVector Space.vmem Cert.Kernel.S512 EltTy.i32)
local notation "a8" => (Memref.whole Cert.Kernel.cc3_scratch2 : Memref Cert.Kernel.sig Kind.scVector Space.vmem Cert.Kernel.S128x128 EltTy.f32)
local notation "a9" => (Memref.whole Cert.Kernel.cc3_scratch3 : Memref Cert.Kernel.sig Kind.scVector Space.vmem Cert.Kernel.S128x128 EltTy.f32)
local notation "a10" => (Memref.whole Cert.Kernel.cc3_scratch4 : Memref Cert.Kernel.sig Kind.scVector Space.vmem Cert.Kernel.S512 EltTy.f32)
local notation "a11" => (Memref.whole Cert.Kernel.cc3_scratch5 : Memref Cert.Kernel.sig Kind.scVector Space.vmem Cert.Kernel.S512 EltTy.f32)
local notation "a12" => (Memref.whole Cert.Kernel.cc3_scratch6 : Memref Cert.Kernel.sig Kind.scVector Space.vmem Cert.Kernel.S512 EltTy.f32)

variable [FloatOps F]
variable (d : Dev nD) (L : grid3.Coords)

/-- What a trip's sixteen results are: lane `l` of trip `k` of chunk `c` is the base value at entry `128 c + 16 k + l` plus the
    gathered buffer's row `16 k + l` at the lane the id at that entry selects (the id modulo 128). -/
def LaneOK (c k : Nat) (i6 : S512.Idx → BitVec 32) (b10 : S512.Idx → F .f32) (rB : S128x128.Idx → F .f32) (v : S16.Idx → F .f32) : Prop :=
  ∀ (l : Fin 16) (h1 : 128 * c + 16 * k + l.val < 512) (h2 : 16 * k + l.val < 128),
    v (ix1 l) = FloatOps.addf (b10 (ix1 ⟨128 * c + 16 * k + l.val, h1⟩))
      (rB (ix2 ⟨16 * k + l.val, h2⟩ ⟨(i6 (ix1 ⟨128 * c + 16 * k + l.val, h1⟩)).toNat % 128, Nat.mod_lt _ (by decide)⟩))

set_option maxHeartbeats 4000000 in
/-- Trip `k` of chunk 0's loop: the ids, the base values and the gathered rows are read only; the trip stores its sixteen
    results, each the base value plus the gathered row's entry at the id's lane. -/
theorem region1 (hchk : ChkAll) (k : Fin k3_t1_loop.trips) (acc : BitVec 32)
    (g6 : Buf (Elt F) ((a6).view.loc (V d (cV L) (jV L)))) (g10 : Buf (Elt F) ((a10).view.loc (V d (cV L) (jV L)))) (gB : Buf (Elt F) ((a8).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a8).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k3_t1_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a8).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k3_off35 k) S16.size (k3_off35_inb k), v⟩])
                ∗ ⌜LaneOK 0 k.val ((a6).view.read (Elt F) g6) ((a10).view.read (Elt F) g10) ((a8).view.read (Elt F) gB) v⌝) := by
  iintro ⟨H6, H10, HB, H11, H12⟩
  sl_exec (disch := first | sl_exact (hchk.h1 _ _) | sl_exact (hchk.h2 _ _) | sl_exact (hchk.h3 _ _) | sl_exact (hchk.h4 _ _) | sl_exact (hchk.h5 _ _) | sl_exact (hchk.h6 _ _) | sl_exact (hchk.h7 _ _) | sl_exact (hchk.h8 _ _) | sl_exact (hchk.h9 _ _) | sl_exact (hchk.h10 _ _) | sl_exact (hchk.h11 _ _) | sl_exact (hchk.h12 _ _) | sl_exact (hchk.h13 _ _) | sl_exact (hchk.h14 _ _) | sl_exact (hchk.h15 _ _) | sl_exact (hchk.h16 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k3_t1_abs.2.1
  have hoff : (k3_off2 k) 0 = 128 * 0 + 16 * k.val := by
    rw [k3_off2_eq]
    show 16 * k.val = 128 * 0 + 16 * k.val
    omega
  have hid : ∀ (j : Fin 16) (h : 128 * 0 + 16 * k.val + j.val < 512),
      (((a6).view.slice (Rect.unit (s := S512) (k3_off2 k) S16.size (k3_off2_inb k))).read (Elt F) g6) (ix1 j) = (a6).view.read (Elt F) g6 (ix1 ⟨128 * 0 + 16 * k.val + j.val, h⟩) :=
    fun j h => LaneTrip.chunk_read (a6).view g6 (k3_off2 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
  obtain ⟨j, hj⟩ := l
  interval_cases j
  · rw [LaneSteps.nested16_at_0 _ hiota]
    refine congrArg₂ FloatOps.addf (LaneTrip.chunk_read (a10).view g10 (k3_off2 k) _ hoff _ ⟨0, hj⟩ h1) ?_
    have hA0 : ∀ w : BitVec 32, (k3_off3 k w) 0 = 16 * k.val + 0 := fun w => ChkLib.row_toNat k.val hk 0#32 (by decide)
    have hA1 : ∀ w : BitVec 32, (k3_off3 k w) 1 = ((w &&& 127#32) &&& 112#32).toNat := fun w => rfl
    have hB : ∀ w : BitVec 32, (k3_off4 w) 0 = 32 * 0 + (w.toNat % 16 + 16 - 0) % 16 :=
      fun w => IdBits.start_toNat 0#32 w 0#32 (by decide) (by decide)
    have hw : region1.sl.v264 d L k g6 = (a6).view.read (Elt F) g6 (ix1 ⟨128 * 0 + 16 * k.val + 0, h1⟩) := by
      delta_sl [v264]
      simp only [LanePayK3.k3_pay2_nf, LanePayK3.k3_pay1_nf, View.readAt_rect]
      exact (LaneLib.extract_lane (((a6).view.slice (Rect.unit (s := S512) (k3_off2 k) S16.size (k3_off2_inb k))).read (Elt F) g6) 0 (by decide) _ _).trans (hid ⟨0, by decide⟩ h1)
    delta_sl [v284, H11_2, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off3 k (region1.sl.v264 d L k g6)) (k3_off4 (region1.sl.v264 d L k g6)) ![0] ![16] _ _ _ _ shapeCasts_S1x16_S16 k.val 0 (region1.sl.v264 d L k g6) _ hk (by decide) (hA0 _) (hA1 _) (hB _) rfl rfl h2 hw
  · rw [LaneSteps.nested16_at_1 _ hiota]
    refine congrArg₂ FloatOps.addf (LaneTrip.chunk_read (a10).view g10 (k3_off2 k) _ hoff _ ⟨1, hj⟩ h1) ?_
    have hA0 : ∀ w : BitVec 32, (k3_off5 k w) 0 = 16 * k.val + 1 := fun w => ChkLib.row_toNat k.val hk 1#32 (by decide)
    have hA1 : ∀ w : BitVec 32, (k3_off5 k w) 1 = ((w &&& 127#32) &&& 112#32).toNat := fun w => rfl
    have hB : ∀ w : BitVec 32, (k3_off6 w) 0 = 32 * 1 + (w.toNat % 16 + 16 - 1) % 16 :=
      fun w => IdBits.start_toNat 32#32 w 1#32 (by decide) (by decide)
    have hw : region1.sl.v293 d L k g6 = (a6).view.read (Elt F) g6 (ix1 ⟨128 * 0 + 16 * k.val + 1, h1⟩) := by
      delta_sl [v293, r]
      simp only [LanePayK3.k3_pay7_nf, LanePayK3.k3_pay1_nf, View.readAt_rect]
      exact (LaneLib.extract_lane (((a6).view.slice (Rect.unit (s := S512) (k3_off2 k) S16.size (k3_off2_inb k))).read (Elt F) g6) 1 (by decide) _ _).trans (hid ⟨1, by decide⟩ h1)
    delta_sl [v313, H11_4, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off5 k (region1.sl.v293 d L k g6)) (k3_off6 (region1.sl.v293 d L k g6)) ![32] ![48] _ _ _ _ shapeCasts_S1x16_S16 k.val 1 (region1.sl.v293 d L k g6) _ hk (by decide) (hA0 _) (hA1 _) (hB _) rfl rfl h2 hw
  · rw [LaneSteps.nested16_at_2 _ hiota]
    refine congrArg₂ FloatOps.addf (LaneTrip.chunk_read (a10).view g10 (k3_off2 k) _ hoff _ ⟨2, hj⟩ h1) ?_
    have hA0 : ∀ w : BitVec 32, (k3_off7 k w) 0 = 16 * k.val + 2 := fun w => ChkLib.row_toNat k.val hk 2#32 (by decide)
    have hA1 : ∀ w : BitVec 32, (k3_off7 k w) 1 = ((w &&& 127#32) &&& 112#32).toNat := fun w => rfl
    have hB : ∀ w : BitVec 32, (k3_off8 w) 0 = 32 * 2 + (w.toNat % 16 + 16 - 2) % 16 :=
      fun w => IdBits.start_toNat 64#32 w 2#32 (by decide) (by decide)
    have hw : region1.sl.v322 d L k g6 = (a6).view.read (Elt F) g6 (ix1 ⟨128 * 0 + 16 * k.val + 2, h1⟩) := by
      delta_sl [v322, r]
      simp only [LanePayK3.k3_pay12_nf, LanePayK3.k3_pay1_nf, View.readAt_rect]
      exact (LaneLib.extract_lane (((a6).view.slice (Rect.unit (s := S512) (k3_off2 k) S16.size (k3_off2_inb k))).read (Elt F) g6) 2 (by decide) _ _).trans (hid ⟨2, by decide⟩ h1)
    delta_sl [v342, H11_6, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off7 k (region1.sl.v322 d L k g6)) (k3_off8 (region1.sl.v322 d L k g6)) ![64] ![80] _ _ _ _ shapeCasts_S1x16_S16 k.val 2 (region1.sl.v322 d L k g6) _ hk (by decide) (hA0 _) (hA1 _) (hB _) rfl rfl h2 hw
  · rw [LaneSteps.nested16_at_3 _ hiota]
    refine congrArg₂ FloatOps.addf (LaneTrip.chunk_read (a10).view g10 (k3_off2 k) _ hoff _ ⟨3, hj⟩ h1) ?_
    have hA0 : ∀ w : BitVec 32, (k3_off9 k w) 0 = 16 * k.val + 3 := fun w => ChkLib.row_toNat k.val hk 3#32 (by decide)
    have hA1 : ∀ w : BitVec 32, (k3_off9 k w) 1 = ((w &&& 127#32) &&& 112#32).toNat := fun w => rfl
    have hB : ∀ w : BitVec 32, (k3_off10 w) 0 = 32 * 3 + (w.toNat % 16 + 16 - 3) % 16 :=
      fun w => IdBits.start_toNat 96#32 w 3#32 (by decide) (by decide)
    have hw : region1.sl.v351 d L k g6 = (a6).view.read (Elt F) g6 (ix1 ⟨128 * 0 + 16 * k.val + 3, h1⟩) := by
      delta_sl [v351, r]
      simp only [LanePayK3.k3_pay17_nf, LanePayK3.k3_pay1_nf, View.readAt_rect]
      exact (LaneLib.extract_lane (((a6).view.slice (Rect.unit (s := S512) (k3_off2 k) S16.size (k3_off2_inb k))).read (Elt F) g6) 3 (by decide) _ _).trans (hid ⟨3, by decide⟩ h1)
    delta_sl [v371, H11_8, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off9 k (region1.sl.v351 d L k g6)) (k3_off10 (region1.sl.v351 d L k g6)) ![96] ![112] _ _ _ _ shapeCasts_S1x16_S16 k.val 3 (region1.sl.v351 d L k g6) _ hk (by decide) (hA0 _) (hA1 _) (hB _) rfl rfl h2 hw
  · rw [LaneSteps.nested16_at_4 _ hiota]
    refine congrArg₂ FloatOps.addf (LaneTrip.chunk_read (a10).view g10 (k3_off2 k) _ hoff _ ⟨4, hj⟩ h1) ?_
    have hA0 : ∀ w : BitVec 32, (k3_off11 k w) 0 = 16 * k.val + 4 := fun w => ChkLib.row_toNat k.val hk 4#32 (by decide)
    have hA1 : ∀ w : BitVec 32, (k3_off11 k w) 1 = ((w &&& 127#32) &&& 112#32).toNat := fun w => rfl
    have hB : ∀ w : BitVec 32, (k3_off12 w) 0 = 32 * 4 + (w.toNat % 16 + 16 - 4) % 16 :=
      fun w => IdBits.start_toNat 128#32 w 4#32 (by decide) (by decide)
    have hw : region1.sl.v380 d L k g6 = (a6).view.read (Elt F) g6 (ix1 ⟨128 * 0 + 16 * k.val + 4, h1⟩) := by
      delta_sl [v380, r]
      simp only [LanePayK3.k3_pay21_nf, LanePayK3.k3_pay1_nf, View.readAt_rect]
      exact (LaneLib.extract_lane (((a6).view.slice (Rect.unit (s := S512) (k3_off2 k) S16.size (k3_off2_inb k))).read (Elt F) g6) 4 (by decide) _ _).trans (hid ⟨4, by decide⟩ h1)
    delta_sl [v400, H11_10, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off11 k (region1.sl.v380 d L k g6)) (k3_off12 (region1.sl.v380 d L k g6)) ![128] ![144] _ _ _ _ shapeCasts_S1x16_S16 k.val 4 (region1.sl.v380 d L k g6) _ hk (by decide) (hA0 _) (hA1 _) (hB _) rfl rfl h2 hw
  · rw [LaneSteps.nested16_at_5 _ hiota]
    refine congrArg₂ FloatOps.addf (LaneTrip.chunk_read (a10).view g10 (k3_off2 k) _ hoff _ ⟨5, hj⟩ h1) ?_
    have hA0 : ∀ w : BitVec 32, (k3_off13 k w) 0 = 16 * k.val + 5 := fun w => ChkLib.row_toNat k.val hk 5#32 (by decide)
    have hA1 : ∀ w : BitVec 32, (k3_off13 k w) 1 = ((w &&& 127#32) &&& 112#32).toNat := fun w => rfl
    have hB : ∀ w : BitVec 32, (k3_off14 w) 0 = 32 * 5 + (w.toNat % 16 + 16 - 5) % 16 :=
      fun w => IdBits.start_toNat 160#32 w 5#32 (by decide) (by decide)
    have hw : region1.sl.v409 d L k g6 = (a6).view.read (Elt F) g6 (ix1 ⟨128 * 0 + 16 * k.val + 5, h1⟩) := by
      delta_sl [v409, r]
      simp only [LanePayK3.k3_pay26_nf, LanePayK3.k3_pay1_nf, View.readAt_rect]
      exact (LaneLib.extract_lane (((a6).view.slice (Rect.unit (s := S512) (k3_off2 k) S16.size (k3_off2_inb k))).read (Elt F) g6) 5 (by decide) _ _).trans (hid ⟨5, by decide⟩ h1)
    delta_sl [v429, H11_12, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off13 k (region1.sl.v409 d L k g6)) (k3_off14 (region1.sl.v409 d L k g6)) ![160] ![176] _ _ _ _ shapeCasts_S1x16_S16 k.val 5 (region1.sl.v409 d L k g6) _ hk (by decide) (hA0 _) (hA1 _) (hB _) rfl rfl h2 hw
  · rw [LaneSteps.nested16_at_6 _ hiota]
    refine congrArg₂ FloatOps.addf (LaneTrip.chunk_read (a10).view g10 (k3_off2 k) _ hoff _ ⟨6, hj⟩ h1) ?_
    have hA0 : ∀ w : BitVec 32, (k3_off15 k w) 0 = 16 * k.val + 6 := fun w => ChkLib.row_toNat k.val hk 6#32 (by decide)
    have hA1 : ∀ w : BitVec 32, (k3_off15 k w) 1 = ((w &&& 127#32) &&& 112#32).toNat := fun w => rfl
    have hB : ∀ w : BitVec 32, (k3_off16 w) 0 = 32 * 6 + (w.toNat % 16 + 16 - 6) % 16 :=
      fun w => IdBits.start_toNat 192#32 w 6#32 (by decide) (by decide)
    have hw : region1.sl.v438 d L k g6 = (a6).view.read (Elt F) g6 (ix1 ⟨128 * 0 + 16 * k.val + 6, h1⟩) := by
      delta_sl [v438, r]
      simp only [LanePayK3.k3_pay31_nf, LanePayK3.k3_pay1_nf, View.readAt_rect]
      exact (LaneLib.extract_lane (((a6).view.slice (Rect.unit (s := S512) (k3_off2 k) S16.size (k3_off2_inb k))).read (Elt F) g6) 6 (by decide) _ _).trans (hid ⟨6, by decide⟩ h1)
    delta_sl [v458, H11_14, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off15 k (region1.sl.v438 d L k g6)) (k3_off16 (region1.sl.v438 d L k g6)) ![192] ![208] _ _ _ _ shapeCasts_S1x16_S16 k.val 6 (region1.sl.v438 d L k g6) _ hk (by decide) (hA0 _) (hA1 _) (hB _) rfl rfl h2 hw
  · rw [LaneSteps.nested16_at_7 _ hiota]
    refine congrArg₂ FloatOps.addf (LaneTrip.chunk_read (a10).view g10 (k3_off2 k) _ hoff _ ⟨7, hj⟩ h1) ?_
    have hA0 : ∀ w : BitVec 32, (k3_off17 k w) 0 = 16 * k.val + 7 := fun w => ChkLib.row_toNat k.val hk 7#32 (by decide)
    have hA1 : ∀ w : BitVec 32, (k3_off17 k w) 1 = ((w &&& 127#32) &&& 112#32).toNat := fun w => rfl
    have hB : ∀ w : BitVec 32, (k3_off18 w) 0 = 32 * 7 + (w.toNat % 16 + 16 - 7) % 16 :=
      fun w => IdBits.start_toNat 224#32 w 7#32 (by decide) (by decide)
    have hw : region1.sl.v467 d L k g6 = (a6).view.read (Elt F) g6 (ix1 ⟨128 * 0 + 16 * k.val + 7, h1⟩) := by
      delta_sl [v467, r]
      simp only [LanePayK3.k3_pay36_nf, LanePayK3.k3_pay1_nf, View.readAt_rect]
      exact (LaneLib.extract_lane (((a6).view.slice (Rect.unit (s := S512) (k3_off2 k) S16.size (k3_off2_inb k))).read (Elt F) g6) 7 (by decide) _ _).trans (hid ⟨7, by decide⟩ h1)
    delta_sl [v487, H11_16, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off17 k (region1.sl.v467 d L k g6)) (k3_off18 (region1.sl.v467 d L k g6)) ![224] ![240] _ _ _ _ shapeCasts_S1x16_S16 k.val 7 (region1.sl.v467 d L k g6) _ hk (by decide) (hA0 _) (hA1 _) (hB _) rfl rfl h2 hw
  · rw [LaneSteps.nested16_at_8 _ hiota]
    refine congrArg₂ FloatOps.addf (LaneTrip.chunk_read (a10).view g10 (k3_off2 k) _ hoff _ ⟨8, hj⟩ h1) ?_
    have hA0 : ∀ w : BitVec 32, (k3_off19 k w) 0 = 16 * k.val + 8 := fun w => ChkLib.row_toNat k.val hk 8#32 (by decide)
    have hA1 : ∀ w : BitVec 32, (k3_off19 k w) 1 = ((w &&& 127#32) &&& 112#32).toNat := fun w => rfl
    have hB : ∀ w : BitVec 32, (k3_off20 w) 0 = 32 * 8 + (w.toNat % 16 + 16 - 8) % 16 :=
      fun w => IdBits.start_toNat 256#32 w 8#32 (by decide) (by decide)
    have hw : region1.sl.v496 d L k g6 = (a6).view.read (Elt F) g6 (ix1 ⟨128 * 0 + 16 * k.val + 8, h1⟩) := by
      delta_sl [v496, r]
      simp only [LanePayK3.k3_pay41_nf, LanePayK3.k3_pay1_nf, View.readAt_rect]
      exact (LaneLib.extract_lane (((a6).view.slice (Rect.unit (s := S512) (k3_off2 k) S16.size (k3_off2_inb k))).read (Elt F) g6) 8 (by decide) _ _).trans (hid ⟨8, by decide⟩ h1)
    delta_sl [v516, H11_18, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off19 k (region1.sl.v496 d L k g6)) (k3_off20 (region1.sl.v496 d L k g6)) ![256] ![272] _ _ _ _ shapeCasts_S1x16_S16 k.val 8 (region1.sl.v496 d L k g6) _ hk (by decide) (hA0 _) (hA1 _) (hB _) rfl rfl h2 hw
  · rw [LaneSteps.nested16_at_9 _ hiota]
    refine congrArg₂ FloatOps.addf (LaneTrip.chunk_read (a10).view g10 (k3_off2 k) _ hoff _ ⟨9, hj⟩ h1) ?_
    have hA0 : ∀ w : BitVec 32, (k3_off21 k w) 0 = 16 * k.val + 9 := fun w => ChkLib.row_toNat k.val hk 9#32 (by decide)
    have hA1 : ∀ w : BitVec 32, (k3_off21 k w) 1 = ((w &&& 127#32) &&& 112#32).toNat := fun w => rfl
    have hB : ∀ w : BitVec 32, (k3_off22 w) 0 = 32 * 9 + (w.toNat % 16 + 16 - 9) % 16 :=
      fun w => IdBits.start_toNat 288#32 w 9#32 (by decide) (by decide)
    have hw : region1.sl.v525 d L k g6 = (a6).view.read (Elt F) g6 (ix1 ⟨128 * 0 + 16 * k.val + 9, h1⟩) := by
      delta_sl [v525, r]
      simp only [LanePayK3.k3_pay46_nf, LanePayK3.k3_pay1_nf, View.readAt_rect]
      exact (LaneLib.extract_lane (((a6).view.slice (Rect.unit (s := S512) (k3_off2 k) S16.size (k3_off2_inb k))).read (Elt F) g6) 9 (by decide) _ _).trans (hid ⟨9, by decide⟩ h1)
    delta_sl [v545, H11_20, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off21 k (region1.sl.v525 d L k g6)) (k3_off22 (region1.sl.v525 d L k g6)) ![288] ![304] _ _ _ _ shapeCasts_S1x16_S16 k.val 9 (region1.sl.v525 d L k g6) _ hk (by decide) (hA0 _) (hA1 _) (hB _) rfl rfl h2 hw
  · rw [LaneSteps.nested16_at_10 _ hiota]
    refine congrArg₂ FloatOps.addf (LaneTrip.chunk_read (a10).view g10 (k3_off2 k) _ hoff _ ⟨10, hj⟩ h1) ?_
    have hA0 : ∀ w : BitVec 32, (k3_off23 k w) 0 = 16 * k.val + 10 := fun w => ChkLib.row_toNat k.val hk 10#32 (by decide)
    have hA1 : ∀ w : BitVec 32, (k3_off23 k w) 1 = ((w &&& 127#32) &&& 112#32).toNat := fun w => rfl
    have hB : ∀ w : BitVec 32, (k3_off24 w) 0 = 32 * 10 + (w.toNat % 16 + 16 - 10) % 16 :=
      fun w => IdBits.start_toNat 320#32 w 10#32 (by decide) (by decide)
    have hw : region1.sl.v554 d L k g6 = (a6).view.read (Elt F) g6 (ix1 ⟨128 * 0 + 16 * k.val + 10, h1⟩) := by
      delta_sl [v554, r]
      simp only [LanePayK3.k3_pay51_nf, LanePayK3.k3_pay1_nf, View.readAt_rect]
      exact (LaneLib.extract_lane (((a6).view.slice (Rect.unit (s := S512) (k3_off2 k) S16.size (k3_off2_inb k))).read (Elt F) g6) 10 (by decide) _ _).trans (hid ⟨10, by decide⟩ h1)
    delta_sl [v574, H11_22, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off23 k (region1.sl.v554 d L k g6)) (k3_off24 (region1.sl.v554 d L k g6)) ![320] ![336] _ _ _ _ shapeCasts_S1x16_S16 k.val 10 (region1.sl.v554 d L k g6) _ hk (by decide) (hA0 _) (hA1 _) (hB _) rfl rfl h2 hw
  · rw [LaneSteps.nested16_at_11 _ hiota]
    refine congrArg₂ FloatOps.addf (LaneTrip.chunk_read (a10).view g10 (k3_off2 k) _ hoff _ ⟨11, hj⟩ h1) ?_
    have hA0 : ∀ w : BitVec 32, (k3_off25 k w) 0 = 16 * k.val + 11 := fun w => ChkLib.row_toNat k.val hk 11#32 (by decide)
    have hA1 : ∀ w : BitVec 32, (k3_off25 k w) 1 = ((w &&& 127#32) &&& 112#32).toNat := fun w => rfl
    have hB : ∀ w : BitVec 32, (k3_off26 w) 0 = 32 * 11 + (w.toNat % 16 + 16 - 11) % 16 :=
      fun w => IdBits.start_toNat 352#32 w 11#32 (by decide) (by decide)
    have hw : region1.sl.v583 d L k g6 = (a6).view.read (Elt F) g6 (ix1 ⟨128 * 0 + 16 * k.val + 11, h1⟩) := by
      delta_sl [v583, r]
      simp only [LanePayK3.k3_pay55_nf, LanePayK3.k3_pay1_nf, View.readAt_rect]
      exact (LaneLib.extract_lane (((a6).view.slice (Rect.unit (s := S512) (k3_off2 k) S16.size (k3_off2_inb k))).read (Elt F) g6) 11 (by decide) _ _).trans (hid ⟨11, by decide⟩ h1)
    delta_sl [v603, H11_24, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off25 k (region1.sl.v583 d L k g6)) (k3_off26 (region1.sl.v583 d L k g6)) ![352] ![368] _ _ _ _ shapeCasts_S1x16_S16 k.val 11 (region1.sl.v583 d L k g6) _ hk (by decide) (hA0 _) (hA1 _) (hB _) rfl rfl h2 hw
  · rw [LaneSteps.nested16_at_12 _ hiota]
    refine congrArg₂ FloatOps.addf (LaneTrip.chunk_read (a10).view g10 (k3_off2 k) _ hoff _ ⟨12, hj⟩ h1) ?_
    have hA0 : ∀ w : BitVec 32, (k3_off27 k w) 0 = 16 * k.val + 12 := fun w => ChkLib.row_toNat k.val hk 12#32 (by decide)
    have hA1 : ∀ w : BitVec 32, (k3_off27 k w) 1 = ((w &&& 127#32) &&& 112#32).toNat := fun w => rfl
    have hB : ∀ w : BitVec 32, (k3_off28 w) 0 = 32 * 12 + (w.toNat % 16 + 16 - 12) % 16 :=
      fun w => IdBits.start_toNat 384#32 w 12#32 (by decide) (by decide)
    have hw : region1.sl.v612 d L k g6 = (a6).view.read (Elt F) g6 (ix1 ⟨128 * 0 + 16 * k.val + 12, h1⟩) := by
      delta_sl [v612, r]
      simp only [LanePayK3.k3_pay60_nf, LanePayK3.k3_pay1_nf, View.readAt_rect]
      exact (LaneLib.extract_lane (((a6).view.slice (Rect.unit (s := S512) (k3_off2 k) S16.size (k3_off2_inb k))).read (Elt F) g6) 12 (by decide) _ _).trans (hid ⟨12, by decide⟩ h1)
    delta_sl [v632, H11_26, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off27 k (region1.sl.v612 d L k g6)) (k3_off28 (region1.sl.v612 d L k g6)) ![384] ![400] _ _ _ _ shapeCasts_S1x16_S16 k.val 12 (region1.sl.v612 d L k g6) _ hk (by decide) (hA0 _) (hA1 _) (hB _) rfl rfl h2 hw
  · rw [LaneSteps.nested16_at_13 _ hiota]
    refine congrArg₂ FloatOps.addf (LaneTrip.chunk_read (a10).view g10 (k3_off2 k) _ hoff _ ⟨13, hj⟩ h1) ?_
    have hA0 : ∀ w : BitVec 32, (k3_off29 k w) 0 = 16 * k.val + 13 := fun w => ChkLib.row_toNat k.val hk 13#32 (by decide)
    have hA1 : ∀ w : BitVec 32, (k3_off29 k w) 1 = ((w &&& 127#32) &&& 112#32).toNat := fun w => rfl
    have hB : ∀ w : BitVec 32, (k3_off30 w) 0 = 32 * 13 + (w.toNat % 16 + 16 - 13) % 16 :=
      fun w => IdBits.start_toNat 416#32 w 13#32 (by decide) (by decide)
    have hw : region1.sl.v641 d L k g6 = (a6).view.read (Elt F) g6 (ix1 ⟨128 * 0 + 16 * k.val + 13, h1⟩) := by
      delta_sl [v641, r]
      simp only [LanePayK3.k3_pay65_nf, LanePayK3.k3_pay1_nf, View.readAt_rect]
      exact (LaneLib.extract_lane (((a6).view.slice (Rect.unit (s := S512) (k3_off2 k) S16.size (k3_off2_inb k))).read (Elt F) g6) 13 (by decide) _ _).trans (hid ⟨13, by decide⟩ h1)
    delta_sl [v661, H11_28, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off29 k (region1.sl.v641 d L k g6)) (k3_off30 (region1.sl.v641 d L k g6)) ![416] ![432] _ _ _ _ shapeCasts_S1x16_S16 k.val 13 (region1.sl.v641 d L k g6) _ hk (by decide) (hA0 _) (hA1 _) (hB _) rfl rfl h2 hw
  · rw [LaneSteps.nested16_at_14 _ hiota]
    refine congrArg₂ FloatOps.addf (LaneTrip.chunk_read (a10).view g10 (k3_off2 k) _ hoff _ ⟨14, hj⟩ h1) ?_
    have hA0 : ∀ w : BitVec 32, (k3_off31 k w) 0 = 16 * k.val + 14 := fun w => ChkLib.row_toNat k.val hk 14#32 (by decide)
    have hA1 : ∀ w : BitVec 32, (k3_off31 k w) 1 = ((w &&& 127#32) &&& 112#32).toNat := fun w => rfl
    have hB : ∀ w : BitVec 32, (k3_off32 w) 0 = 32 * 14 + (w.toNat % 16 + 16 - 14) % 16 :=
      fun w => IdBits.start_toNat 448#32 w 14#32 (by decide) (by decide)
    have hw : region1.sl.v670 d L k g6 = (a6).view.read (Elt F) g6 (ix1 ⟨128 * 0 + 16 * k.val + 14, h1⟩) := by
      delta_sl [v670, r]
      simp only [LanePayK3.k3_pay70_nf, LanePayK3.k3_pay1_nf, View.readAt_rect]
      exact (LaneLib.extract_lane (((a6).view.slice (Rect.unit (s := S512) (k3_off2 k) S16.size (k3_off2_inb k))).read (Elt F) g6) 14 (by decide) _ _).trans (hid ⟨14, by decide⟩ h1)
    delta_sl [v690, H11_30, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off31 k (region1.sl.v670 d L k g6)) (k3_off32 (region1.sl.v670 d L k g6)) ![448] ![464] _ _ _ _ shapeCasts_S1x16_S16 k.val 14 (region1.sl.v670 d L k g6) _ hk (by decide) (hA0 _) (hA1 _) (hB _) rfl rfl h2 hw
  · rw [LaneSteps.nested16_at_15 _ hiota]
    refine congrArg₂ FloatOps.addf (LaneTrip.chunk_read (a10).view g10 (k3_off2 k) _ hoff _ ⟨15, hj⟩ h1) ?_
    have hA0 : ∀ w : BitVec 32, (k3_off33 k w) 0 = 16 * k.val + 15 := fun w => ChkLib.row_toNat k.val hk 15#32 (by decide)
    have hA1 : ∀ w : BitVec 32, (k3_off33 k w) 1 = ((w &&& 127#32) &&& 112#32).toNat := fun w => rfl
    have hB : ∀ w : BitVec 32, (k3_off34 w) 0 = 32 * 15 + (w.toNat % 16 + 16 - 15) % 16 :=
      fun w => IdBits.start_toNat 480#32 w 15#32 (by decide) (by decide)
    have hw : region1.sl.v699 d L k g6 = (a6).view.read (Elt F) g6 (ix1 ⟨128 * 0 + 16 * k.val + 15, h1⟩) := by
      delta_sl [v699, r]
      simp only [LanePayK3.k3_pay74_nf, LanePayK3.k3_pay1_nf, View.readAt_rect]
      exact (LaneLib.extract_lane (((a6).view.slice (Rect.unit (s := S512) (k3_off2 k) S16.size (k3_off2_inb k))).read (Elt F) g6) 15 (by decide) _ _).trans (hid ⟨15, by decide⟩ h1)
    delta_sl [v719, H11_32, r_3, r_4, r_8, r_15]
    simp only [LanePayK3.k3_pay1_nf, LanePayK3.k3_pay2_nf, LanePayK3.k3_pay3_nf, LanePayK3.k3_pay4_nf, LanePayK3.k3_pay5_nf, LanePayK3.k3_pay6_nf, LanePayK3.k3_pay7_nf, LanePayK3.k3_pay8_nf, LanePayK3.k3_pay9_nf, LanePayK3.k3_pay10_nf, LanePayK3.k3_pay11_nf, LanePayK3.k3_pay12_nf, LanePayK3.k3_pay13_nf, LanePayK3.k3_pay14_nf, LanePayK3.k3_pay15_nf, LanePayK3.k3_pay16_nf, LanePayK3.k3_pay17_nf, LanePayK3.k3_pay18_nf, LanePayK3.k3_pay19_nf, LanePayK3.k3_pay20_nf, LanePayK3.k3_pay21_nf, LanePayK3.k3_pay22_nf, LanePayK3.k3_pay23_nf, LanePayK3.k3_pay24_nf, LanePayK3.k3_pay25_nf, LanePayK3.k3_pay26_nf, LanePayK3.k3_pay27_nf, LanePayK3.k3_pay28_nf, LanePayK3.k3_pay29_nf, LanePayK3.k3_pay30_nf, LanePayK3.k3_pay31_nf, LanePayK3.k3_pay32_nf, LanePayK3.k3_pay33_nf, LanePayK3.k3_pay34_nf, LanePayK3.k3_pay35_nf, LanePayK3.k3_pay36_nf, LanePayK3.k3_pay37_nf, LanePayK3.k3_pay38_nf, LanePayK3.k3_pay39_nf, LanePayK3.k3_pay40_nf, LanePayK3.k3_pay41_nf, LanePayK3.k3_pay42_nf, LanePayK3.k3_pay43_nf, LanePayK3.k3_pay44_nf, LanePayK3.k3_pay45_nf, LanePayK3.k3_pay46_nf, LanePayK3.k3_pay47_nf, LanePayK3.k3_pay48_nf, LanePayK3.k3_pay49_nf, LanePayK3.k3_pay50_nf, LanePayK3.k3_pay51_nf, LanePayK3.k3_pay52_nf, LanePayK3.k3_pay53_nf, LanePayK3.k3_pay54_nf, LanePayK3.k3_pay55_nf, LanePayK3.k3_pay56_nf, LanePayK3.k3_pay57_nf, LanePayK3.k3_pay58_nf, LanePayK3.k3_pay59_nf, LanePayK3.k3_pay60_nf, LanePayK3.k3_pay61_nf, LanePayK3.k3_pay62_nf, LanePayK3.k3_pay63_nf, LanePayK3.k3_pay64_nf, LanePayK3.k3_pay65_nf, LanePayK3.k3_pay66_nf, LanePayK3.k3_pay67_nf, LanePayK3.k3_pay68_nf, LanePayK3.k3_pay69_nf, LanePayK3.k3_pay70_nf, LanePayK3.k3_pay71_nf, LanePayK3.k3_pay72_nf, LanePayK3.k3_pay73_nf, LanePayK3.k3_pay74_nf, LanePayK3.k3_pay75_nf, LanePayK3.k3_pay76_nf, LanePayK3.k3_pay77_nf, LanePayK3.k3_pay78_nf, View.readAt_rect]
    exact LaneTrip.lane_value_at (a11).view _ (a8).view gB _ (k3_off33 k (region1.sl.v699 d L k g6)) (k3_off34 (region1.sl.v699 d L k g6)) ![480] ![496] _ _ _ _ shapeCasts_S1x16_S16 k.val 15 (region1.sl.v699 d L k g6) _ hk (by decide) (hA0 _) (hA1 _) (hB _) rfl rfl h2 hw

set_option maxHeartbeats 4000000 in
/-- Trip `k` of chunk 1's loop: the ids, the base values and the gathered rows are read only; the trip stores its sixteen
    results, each the base value plus the gathered row's entry at the id's lane. -/
theorem region2 (hchk : ChkAll) (k : Fin k3_t2_loop.trips) (acc : BitVec 32)
    (g6 : Buf (Elt F) ((a6).view.loc (V d (cV L) (jV L)))) (g10 : Buf (Elt F) ((a10).view.loc (V d (cV L) (jV L)))) (gB : Buf (Elt F) ((a9).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a9).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k3_t2_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a9).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k3_off69 k) S16.size (k3_off69_inb k), v⟩])
                ∗ ⌜LaneOK 1 k.val ((a6).view.read (Elt F) g6) ((a10).view.read (Elt F) g10) ((a9).view.read (Elt F) gB) v⌝) := by
  iintro ⟨H6, H10, HB, H11, H12⟩
  sl_exec (disch := first | sl_exact (hchk.h17 _ _) | sl_exact (hchk.h18 _ _) | sl_exact (hchk.h19 _ _) | sl_exact (hchk.h20 _ _) | sl_exact (hchk.h21 _ _) | sl_exact (hchk.h22 _ _) | sl_exact (hchk.h23 _ _) | sl_exact (hchk.h24 _ _) | sl_exact (hchk.h25 _ _) | sl_exact (hchk.h26 _ _) | sl_exact (hchk.h27 _ _) | sl_exact (hchk.h28 _ _) | sl_exact (hchk.h29 _ _) | sl_exact (hchk.h30 _ _) | sl_exact (hchk.h31 _ _) | sl_exact (hchk.h32 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k3_t2_abs.2.1
  have hoff : (k3_off36 k) 0 = 128 * 1 + 16 * k.val := by
    rw [k3_off36_eq]
    show 16 * k.val + 128 = 128 * 1 + 16 * k.val
    omega
  have hid : ∀ (j : Fin 16) (h : 128 * 1 + 16 * k.val + j.val < 512),
      (((a6).view.slice (Rect.unit (s := S512) (k3_off36 k) S16.size (k3_off36_inb k))).read (Elt F) g6) (ix1 j) = (a6).view.read (Elt F) g6 (ix1 ⟨128 * 1 + 16 * k.val + j.val, h⟩) :=
    fun j h => LaneTrip.chunk_read (a6).view g6 (k3_off36 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
  obtain ⟨j, hj⟩ := l
  interval_cases j
  · rw [LaneSteps.nested16_at_0 _ hiota]
    refine congrArg₂ FloatOps.addf (LaneTrip.chunk_read (a10).view g10 (k3_off36 k) _ hoff _ ⟨0, hj⟩ h1) ?_
    have hA0 : ∀ w : BitVec 32, (k3_off37 k w) 0 = 16 * k.val + 0 := fun w => ChkLib.row_toNat k.val hk 0#32 (by decide)
    have hA1 : ∀ w : BitVec 32, (k3_off37 k w) 1 = ((w &&& 127#32) &&& 112#32).toNat := fun w => rfl
    have hB : ∀ w : BitVec 32, (k3_off38 w) 0 = 32 * 0 + (w.toNat % 16 + 16 - 0) % 16 :=
      fun w => IdBits.start_toNat 0#32 w 0#32 (by decide) (by decide)
    have hw : region2.sl.v264 d L k g6 = (a6).view.read (Elt F) g6 (ix1 ⟨128 * 1 + 16 * k.val + 0, h1⟩) := by
      delta_sl [v264]
      simp only [LanePayK3.k3_pay80_nf, LanePayK3.k3_pay79_nf, View.readAt_rect]
      exact (LaneLib.extract_lane (((a6).view.slice (Rect.unit (s := S512) (k3_off36 k) S16.size (k3_off36_inb k))).read (Elt F) g6) 0 (by decide) _ _).trans (hid ⟨0, by decide⟩ h1)
    delta_sl [v284, H11_2, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off37 k (region2.sl.v264 d L k g6)) (k3_off38 (region2.sl.v264 d L k g6)) ![0] ![16] _ _ _ _ shapeCasts_S1x16_S16 k.val 0 (region2.sl.v264 d L k g6) _ hk (by decide) (hA0 _) (hA1 _) (hB _) rfl rfl h2 hw
  · rw [LaneSteps.nested16_at_1 _ hiota]
    refine congrArg₂ FloatOps.addf (LaneTrip.chunk_read (a10).view g10 (k3_off36 k) _ hoff _ ⟨1, hj⟩ h1) ?_
    have hA0 : ∀ w : BitVec 32, (k3_off39 k w) 0 = 16 * k.val + 1 := fun w => ChkLib.row_toNat k.val hk 1#32 (by decide)
    have hA1 : ∀ w : BitVec 32, (k3_off39 k w) 1 = ((w &&& 127#32) &&& 112#32).toNat := fun w => rfl
    have hB : ∀ w : BitVec 32, (k3_off40 w) 0 = 32 * 1 + (w.toNat % 16 + 16 - 1) % 16 :=
      fun w => IdBits.start_toNat 32#32 w 1#32 (by decide) (by decide)
    have hw : region2.sl.v293 d L k g6 = (a6).view.read (Elt F) g6 (ix1 ⟨128 * 1 + 16 * k.val + 1, h1⟩) := by
      delta_sl [v293, r]
      simp only [LanePayK3.k3_pay85_nf, LanePayK3.k3_pay79_nf, View.readAt_rect]
      exact (LaneLib.extract_lane (((a6).view.slice (Rect.unit (s := S512) (k3_off36 k) S16.size (k3_off36_inb k))).read (Elt F) g6) 1 (by decide) _ _).trans (hid ⟨1, by decide⟩ h1)
    delta_sl [v313, H11_4, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off39 k (region2.sl.v293 d L k g6)) (k3_off40 (region2.sl.v293 d L k g6)) ![32] ![48] _ _ _ _ shapeCasts_S1x16_S16 k.val 1 (region2.sl.v293 d L k g6) _ hk (by decide) (hA0 _) (hA1 _) (hB _) rfl rfl h2 hw
  · rw [LaneSteps.nested16_at_2 _ hiota]
    refine congrArg₂ FloatOps.addf (LaneTrip.chunk_read (a10).view g10 (k3_off36 k) _ hoff _ ⟨2, hj⟩ h1) ?_
    have hA0 : ∀ w : BitVec 32, (k3_off41 k w) 0 = 16 * k.val + 2 := fun w => ChkLib.row_toNat k.val hk 2#32 (by decide)
    have hA1 : ∀ w : BitVec 32, (k3_off41 k w) 1 = ((w &&& 127#32) &&& 112#32).toNat := fun w => rfl
    have hB : ∀ w : BitVec 32, (k3_off42 w) 0 = 32 * 2 + (w.toNat % 16 + 16 - 2) % 16 :=
      fun w => IdBits.start_toNat 64#32 w 2#32 (by decide) (by decide)
    have hw : region2.sl.v322 d L k g6 = (a6).view.read (Elt F) g6 (ix1 ⟨128 * 1 + 16 * k.val + 2, h1⟩) := by
      delta_sl [v322, r]
      simp only [LanePayK3.k3_pay90_nf, LanePayK3.k3_pay79_nf, View.readAt_rect]
      exact (LaneLib.extract_lane (((a6).view.slice (Rect.unit (s := S512) (k3_off36 k) S16.size (k3_off36_inb k))).read (Elt F) g6) 2 (by decide) _ _).trans (hid ⟨2, by decide⟩ h1)
    delta_sl [v342, H11_6, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off41 k (region2.sl.v322 d L k g6)) (k3_off42 (region2.sl.v322 d L k g6)) ![64] ![80] _ _ _ _ shapeCasts_S1x16_S16 k.val 2 (region2.sl.v322 d L k g6) _ hk (by decide) (hA0 _) (hA1 _) (hB _) rfl rfl h2 hw
  · rw [LaneSteps.nested16_at_3 _ hiota]
    refine congrArg₂ FloatOps.addf (LaneTrip.chunk_read (a10).view g10 (k3_off36 k) _ hoff _ ⟨3, hj⟩ h1) ?_
    have hA0 : ∀ w : BitVec 32, (k3_off43 k w) 0 = 16 * k.val + 3 := fun w => ChkLib.row_toNat k.val hk 3#32 (by decide)
    have hA1 : ∀ w : BitVec 32, (k3_off43 k w) 1 = ((w &&& 127#32) &&& 112#32).toNat := fun w => rfl
    have hB : ∀ w : BitVec 32, (k3_off44 w) 0 = 32 * 3 + (w.toNat % 16 + 16 - 3) % 16 :=
      fun w => IdBits.start_toNat 96#32 w 3#32 (by decide) (by decide)
    have hw : region2.sl.v351 d L k g6 = (a6).view.read (Elt F) g6 (ix1 ⟨128 * 1 + 16 * k.val + 3, h1⟩) := by
      delta_sl [v351, r]
      simp only [LanePayK3.k3_pay95_nf, LanePayK3.k3_pay79_nf, View.readAt_rect]
      exact (LaneLib.extract_lane (((a6).view.slice (Rect.unit (s := S512) (k3_off36 k) S16.size (k3_off36_inb k))).read (Elt F) g6) 3 (by decide) _ _).trans (hid ⟨3, by decide⟩ h1)
    delta_sl [v371, H11_8, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off43 k (region2.sl.v351 d L k g6)) (k3_off44 (region2.sl.v351 d L k g6)) ![96] ![112] _ _ _ _ shapeCasts_S1x16_S16 k.val 3 (region2.sl.v351 d L k g6) _ hk (by decide) (hA0 _) (hA1 _) (hB _) rfl rfl h2 hw
  · rw [LaneSteps.nested16_at_4 _ hiota]
    refine congrArg₂ FloatOps.addf (LaneTrip.chunk_read (a10).view g10 (k3_off36 k) _ hoff _ ⟨4, hj⟩ h1) ?_
    have hA0 : ∀ w : BitVec 32, (k3_off45 k w) 0 = 16 * k.val + 4 := fun w => ChkLib.row_toNat k.val hk 4#32 (by decide)
    have hA1 : ∀ w : BitVec 32, (k3_off45 k w) 1 = ((w &&& 127#32) &&& 112#32).toNat := fun w => rfl
    have hB : ∀ w : BitVec 32, (k3_off46 w) 0 = 32 * 4 + (w.toNat % 16 + 16 - 4) % 16 :=
      fun w => IdBits.start_toNat 128#32 w 4#32 (by decide) (by decide)
    have hw : region2.sl.v380 d L k g6 = (a6).view.read (Elt F) g6 (ix1 ⟨128 * 1 + 16 * k.val + 4, h1⟩) := by
      delta_sl [v380, r]
      simp only [LanePayK3.k3_pay99_nf, LanePayK3.k3_pay79_nf, View.readAt_rect]
      exact (LaneLib.extract_lane (((a6).view.slice (Rect.unit (s := S512) (k3_off36 k) S16.size (k3_off36_inb k))).read (Elt F) g6) 4 (by decide) _ _).trans (hid ⟨4, by decide⟩ h1)
    delta_sl [v400, H11_10, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off45 k (region2.sl.v380 d L k g6)) (k3_off46 (region2.sl.v380 d L k g6)) ![128] ![144] _ _ _ _ shapeCasts_S1x16_S16 k.val 4 (region2.sl.v380 d L k g6) _ hk (by decide) (hA0 _) (hA1 _) (hB _) rfl rfl h2 hw
  · rw [LaneSteps.nested16_at_5 _ hiota]
    refine congrArg₂ FloatOps.addf (LaneTrip.chunk_read (a10).view g10 (k3_off36 k) _ hoff _ ⟨5, hj⟩ h1) ?_
    have hA0 : ∀ w : BitVec 32, (k3_off47 k w) 0 = 16 * k.val + 5 := fun w => ChkLib.row_toNat k.val hk 5#32 (by decide)
    have hA1 : ∀ w : BitVec 32, (k3_off47 k w) 1 = ((w &&& 127#32) &&& 112#32).toNat := fun w => rfl
    have hB : ∀ w : BitVec 32, (k3_off48 w) 0 = 32 * 5 + (w.toNat % 16 + 16 - 5) % 16 :=
      fun w => IdBits.start_toNat 160#32 w 5#32 (by decide) (by decide)
    have hw : region2.sl.v409 d L k g6 = (a6).view.read (Elt F) g6 (ix1 ⟨128 * 1 + 16 * k.val + 5, h1⟩) := by
      delta_sl [v409, r]
      simp only [LanePayK3.k3_pay104_nf, LanePayK3.k3_pay79_nf, View.readAt_rect]
      exact (LaneLib.extract_lane (((a6).view.slice (Rect.unit (s := S512) (k3_off36 k) S16.size (k3_off36_inb k))).read (Elt F) g6) 5 (by decide) _ _).trans (hid ⟨5, by decide⟩ h1)
    delta_sl [v429, H11_12, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off47 k (region2.sl.v409 d L k g6)) (k3_off48 (region2.sl.v409 d L k g6)) ![160] ![176] _ _ _ _ shapeCasts_S1x16_S16 k.val 5 (region2.sl.v409 d L k g6) _ hk (by decide) (hA0 _) (hA1 _) (hB _) rfl rfl h2 hw
  · rw [LaneSteps.nested16_at_6 _ hiota]
    refine congrArg₂ FloatOps.addf (LaneTrip.chunk_read (a10).view g10 (k3_off36 k) _ hoff _ ⟨6, hj⟩ h1) ?_
    have hA0 : ∀ w : BitVec 32, (k3_off49 k w) 0 = 16 * k.val + 6 := fun w => ChkLib.row_toNat k.val hk 6#32 (by decide)
    have hA1 : ∀ w : BitVec 32, (k3_off49 k w) 1 = ((w &&& 127#32) &&& 112#32).toNat := fun w => rfl
    have hB : ∀ w : BitVec 32, (k3_off50 w) 0 = 32 * 6 + (w.toNat % 16 + 16 - 6) % 16 :=
      fun w => IdBits.start_toNat 192#32 w 6#32 (by decide) (by decide)
    have hw : region2.sl.v438 d L k g6 = (a6).view.read (Elt F) g6 (ix1 ⟨128 * 1 + 16 * k.val + 6, h1⟩) := by
      delta_sl [v438, r]
      simp only [LanePayK3.k3_pay109_nf, LanePayK3.k3_pay79_nf, View.readAt_rect]
      exact (LaneLib.extract_lane (((a6).view.slice (Rect.unit (s := S512) (k3_off36 k) S16.size (k3_off36_inb k))).read (Elt F) g6) 6 (by decide) _ _).trans (hid ⟨6, by decide⟩ h1)
    delta_sl [v458, H11_14, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off49 k (region2.sl.v438 d L k g6)) (k3_off50 (region2.sl.v438 d L k g6)) ![192] ![208] _ _ _ _ shapeCasts_S1x16_S16 k.val 6 (region2.sl.v438 d L k g6) _ hk (by decide) (hA0 _) (hA1 _) (hB _) rfl rfl h2 hw
  · rw [LaneSteps.nested16_at_7 _ hiota]
    refine congrArg₂ FloatOps.addf (LaneTrip.chunk_read (a10).view g10 (k3_off36 k) _ hoff _ ⟨7, hj⟩ h1) ?_
    have hA0 : ∀ w : BitVec 32, (k3_off51 k w) 0 = 16 * k.val + 7 := fun w => ChkLib.row_toNat k.val hk 7#32 (by decide)
    have hA1 : ∀ w : BitVec 32, (k3_off51 k w) 1 = ((w &&& 127#32) &&& 112#32).toNat := fun w => rfl
    have hB : ∀ w : BitVec 32, (k3_off52 w) 0 = 32 * 7 + (w.toNat % 16 + 16 - 7) % 16 :=
      fun w => IdBits.start_toNat 224#32 w 7#32 (by decide) (by decide)
    have hw : region2.sl.v467 d L k g6 = (a6).view.read (Elt F) g6 (ix1 ⟨128 * 1 + 16 * k.val + 7, h1⟩) := by
      delta_sl [v467, r]
      simp only [LanePayK3.k3_pay114_nf, LanePayK3.k3_pay79_nf, View.readAt_rect]
      exact (LaneLib.extract_lane (((a6).view.slice (Rect.unit (s := S512) (k3_off36 k) S16.size (k3_off36_inb k))).read (Elt F) g6) 7 (by decide) _ _).trans (hid ⟨7, by decide⟩ h1)
    delta_sl [v487, H11_16, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off51 k (region2.sl.v467 d L k g6)) (k3_off52 (region2.sl.v467 d L k g6)) ![224] ![240] _ _ _ _ shapeCasts_S1x16_S16 k.val 7 (region2.sl.v467 d L k g6) _ hk (by decide) (hA0 _) (hA1 _) (hB _) rfl rfl h2 hw
  · rw [LaneSteps.nested16_at_8 _ hiota]
    refine congrArg₂ FloatOps.addf (LaneTrip.chunk_read (a10).view g10 (k3_off36 k) _ hoff _ ⟨8, hj⟩ h1) ?_
    have hA0 : ∀ w : BitVec 32, (k3_off53 k w) 0 = 16 * k.val + 8 := fun w => ChkLib.row_toNat k.val hk 8#32 (by decide)
    have hA1 : ∀ w : BitVec 32, (k3_off53 k w) 1 = ((w &&& 127#32) &&& 112#32).toNat := fun w => rfl
    have hB : ∀ w : BitVec 32, (k3_off54 w) 0 = 32 * 8 + (w.toNat % 16 + 16 - 8) % 16 :=
      fun w => IdBits.start_toNat 256#32 w 8#32 (by decide) (by decide)
    have hw : region2.sl.v496 d L k g6 = (a6).view.read (Elt F) g6 (ix1 ⟨128 * 1 + 16 * k.val + 8, h1⟩) := by
      delta_sl [v496, r]
      simp only [LanePayK3.k3_pay119_nf, LanePayK3.k3_pay79_nf, View.readAt_rect]
      exact (LaneLib.extract_lane (((a6).view.slice (Rect.unit (s := S512) (k3_off36 k) S16.size (k3_off36_inb k))).read (Elt F) g6) 8 (by decide) _ _).trans (hid ⟨8, by decide⟩ h1)
    delta_sl [v516, H11_18, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off53 k (region2.sl.v496 d L k g6)) (k3_off54 (region2.sl.v496 d L k g6)) ![256] ![272] _ _ _ _ shapeCasts_S1x16_S16 k.val 8 (region2.sl.v496 d L k g6) _ hk (by decide) (hA0 _) (hA1 _) (hB _) rfl rfl h2 hw
  · rw [LaneSteps.nested16_at_9 _ hiota]
    refine congrArg₂ FloatOps.addf (LaneTrip.chunk_read (a10).view g10 (k3_off36 k) _ hoff _ ⟨9, hj⟩ h1) ?_
    have hA0 : ∀ w : BitVec 32, (k3_off55 k w) 0 = 16 * k.val + 9 := fun w => ChkLib.row_toNat k.val hk 9#32 (by decide)
    have hA1 : ∀ w : BitVec 32, (k3_off55 k w) 1 = ((w &&& 127#32) &&& 112#32).toNat := fun w => rfl
    have hB : ∀ w : BitVec 32, (k3_off56 w) 0 = 32 * 9 + (w.toNat % 16 + 16 - 9) % 16 :=
      fun w => IdBits.start_toNat 288#32 w 9#32 (by decide) (by decide)
    have hw : region2.sl.v525 d L k g6 = (a6).view.read (Elt F) g6 (ix1 ⟨128 * 1 + 16 * k.val + 9, h1⟩) := by
      delta_sl [v525, r]
      simp only [LanePayK3.k3_pay124_nf, LanePayK3.k3_pay79_nf, View.readAt_rect]
      exact (LaneLib.extract_lane (((a6).view.slice (Rect.unit (s := S512) (k3_off36 k) S16.size (k3_off36_inb k))).read (Elt F) g6) 9 (by decide) _ _).trans (hid ⟨9, by decide⟩ h1)
    delta_sl [v545, H11_20, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off55 k (region2.sl.v525 d L k g6)) (k3_off56 (region2.sl.v525 d L k g6)) ![288] ![304] _ _ _ _ shapeCasts_S1x16_S16 k.val 9 (region2.sl.v525 d L k g6) _ hk (by decide) (hA0 _) (hA1 _) (hB _) rfl rfl h2 hw
  · rw [LaneSteps.nested16_at_10 _ hiota]
    refine congrArg₂ FloatOps.addf (LaneTrip.chunk_read (a10).view g10 (k3_off36 k) _ hoff _ ⟨10, hj⟩ h1) ?_
    have hA0 : ∀ w : BitVec 32, (k3_off57 k w) 0 = 16 * k.val + 10 := fun w => ChkLib.row_toNat k.val hk 10#32 (by decide)
    have hA1 : ∀ w : BitVec 32, (k3_off57 k w) 1 = ((w &&& 127#32) &&& 112#32).toNat := fun w => rfl
    have hB : ∀ w : BitVec 32, (k3_off58 w) 0 = 32 * 10 + (w.toNat % 16 + 16 - 10) % 16 :=
      fun w => IdBits.start_toNat 320#32 w 10#32 (by decide) (by decide)
    have hw : region2.sl.v554 d L k g6 = (a6).view.read (Elt F) g6 (ix1 ⟨128 * 1 + 16 * k.val + 10, h1⟩) := by
      delta_sl [v554, r]
      simp only [LanePayK3.k3_pay129_nf, LanePayK3.k3_pay79_nf, View.readAt_rect]
      exact (LaneLib.extract_lane (((a6).view.slice (Rect.unit (s := S512) (k3_off36 k) S16.size (k3_off36_inb k))).read (Elt F) g6) 10 (by decide) _ _).trans (hid ⟨10, by decide⟩ h1)
    delta_sl [v574, H11_22, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off57 k (region2.sl.v554 d L k g6)) (k3_off58 (region2.sl.v554 d L k g6)) ![320] ![336] _ _ _ _ shapeCasts_S1x16_S16 k.val 10 (region2.sl.v554 d L k g6) _ hk (by decide) (hA0 _) (hA1 _) (hB _) rfl rfl h2 hw
  · rw [LaneSteps.nested16_at_11 _ hiota]
    refine congrArg₂ FloatOps.addf (LaneTrip.chunk_read (a10).view g10 (k3_off36 k) _ hoff _ ⟨11, hj⟩ h1) ?_
    have hA0 : ∀ w : BitVec 32, (k3_off59 k w) 0 = 16 * k.val + 11 := fun w => ChkLib.row_toNat k.val hk 11#32 (by decide)
    have hA1 : ∀ w : BitVec 32, (k3_off59 k w) 1 = ((w &&& 127#32) &&& 112#32).toNat := fun w => rfl
    have hB : ∀ w : BitVec 32, (k3_off60 w) 0 = 32 * 11 + (w.toNat % 16 + 16 - 11) % 16 :=
      fun w => IdBits.start_toNat 352#32 w 11#32 (by decide) (by decide)
    have hw : region2.sl.v583 d L k g6 = (a6).view.read (Elt F) g6 (ix1 ⟨128 * 1 + 16 * k.val + 11, h1⟩) := by
      delta_sl [v583, r]
      simp only [LanePayK3.k3_pay133_nf, LanePayK3.k3_pay79_nf, View.readAt_rect]
      exact (LaneLib.extract_lane (((a6).view.slice (Rect.unit (s := S512) (k3_off36 k) S16.size (k3_off36_inb k))).read (Elt F) g6) 11 (by decide) _ _).trans (hid ⟨11, by decide⟩ h1)
    delta_sl [v603, H11_24, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off59 k (region2.sl.v583 d L k g6)) (k3_off60 (region2.sl.v583 d L k g6)) ![352] ![368] _ _ _ _ shapeCasts_S1x16_S16 k.val 11 (region2.sl.v583 d L k g6) _ hk (by decide) (hA0 _) (hA1 _) (hB _) rfl rfl h2 hw
  · rw [LaneSteps.nested16_at_12 _ hiota]
    refine congrArg₂ FloatOps.addf (LaneTrip.chunk_read (a10).view g10 (k3_off36 k) _ hoff _ ⟨12, hj⟩ h1) ?_
    have hA0 : ∀ w : BitVec 32, (k3_off61 k w) 0 = 16 * k.val + 12 := fun w => ChkLib.row_toNat k.val hk 12#32 (by decide)
    have hA1 : ∀ w : BitVec 32, (k3_off61 k w) 1 = ((w &&& 127#32) &&& 112#32).toNat := fun w => rfl
    have hB : ∀ w : BitVec 32, (k3_off62 w) 0 = 32 * 12 + (w.toNat % 16 + 16 - 12) % 16 :=
      fun w => IdBits.start_toNat 384#32 w 12#32 (by decide) (by decide)
    have hw : region2.sl.v612 d L k g6 = (a6).view.read (Elt F) g6 (ix1 ⟨128 * 1 + 16 * k.val + 12, h1⟩) := by
      delta_sl [v612, r]
      simp only [LanePayK3.k3_pay138_nf, LanePayK3.k3_pay79_nf, View.readAt_rect]
      exact (LaneLib.extract_lane (((a6).view.slice (Rect.unit (s := S512) (k3_off36 k) S16.size (k3_off36_inb k))).read (Elt F) g6) 12 (by decide) _ _).trans (hid ⟨12, by decide⟩ h1)
    delta_sl [v632, H11_26, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off61 k (region2.sl.v612 d L k g6)) (k3_off62 (region2.sl.v612 d L k g6)) ![384] ![400] _ _ _ _ shapeCasts_S1x16_S16 k.val 12 (region2.sl.v612 d L k g6) _ hk (by decide) (hA0 _) (hA1 _) (hB _) rfl rfl h2 hw
  · rw [LaneSteps.nested16_at_13 _ hiota]
    refine congrArg₂ FloatOps.addf (LaneTrip.chunk_read (a10).view g10 (k3_off36 k) _ hoff _ ⟨13, hj⟩ h1) ?_
    have hA0 : ∀ w : BitVec 32, (k3_off63 k w) 0 = 16 * k.val + 13 := fun w => ChkLib.row_toNat k.val hk 13#32 (by decide)
    have hA1 : ∀ w : BitVec 32, (k3_off63 k w) 1 = ((w &&& 127#32) &&& 112#32).toNat := fun w => rfl
    have hB : ∀ w : BitVec 32, (k3_off64 w) 0 = 32 * 13 + (w.toNat % 16 + 16 - 13) % 16 :=
      fun w => IdBits.start_toNat 416#32 w 13#32 (by decide) (by decide)
    have hw : region2.sl.v641 d L k g6 = (a6).view.read (Elt F) g6 (ix1 ⟨128 * 1 + 16 * k.val + 13, h1⟩) := by
      delta_sl [v641, r]
      simp only [LanePayK3.k3_pay143_nf, LanePayK3.k3_pay79_nf, View.readAt_rect]
      exact (LaneLib.extract_lane (((a6).view.slice (Rect.unit (s := S512) (k3_off36 k) S16.size (k3_off36_inb k))).read (Elt F) g6) 13 (by decide) _ _).trans (hid ⟨13, by decide⟩ h1)
    delta_sl [v661, H11_28, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off63 k (region2.sl.v641 d L k g6)) (k3_off64 (region2.sl.v641 d L k g6)) ![416] ![432] _ _ _ _ shapeCasts_S1x16_S16 k.val 13 (region2.sl.v641 d L k g6) _ hk (by decide) (hA0 _) (hA1 _) (hB _) rfl rfl h2 hw
  · rw [LaneSteps.nested16_at_14 _ hiota]
    refine congrArg₂ FloatOps.addf (LaneTrip.chunk_read (a10).view g10 (k3_off36 k) _ hoff _ ⟨14, hj⟩ h1) ?_
    have hA0 : ∀ w : BitVec 32, (k3_off65 k w) 0 = 16 * k.val + 14 := fun w => ChkLib.row_toNat k.val hk 14#32 (by decide)
    have hA1 : ∀ w : BitVec 32, (k3_off65 k w) 1 = ((w &&& 127#32) &&& 112#32).toNat := fun w => rfl
    have hB : ∀ w : BitVec 32, (k3_off66 w) 0 = 32 * 14 + (w.toNat % 16 + 16 - 14) % 16 :=
      fun w => IdBits.start_toNat 448#32 w 14#32 (by decide) (by decide)
    have hw : region2.sl.v670 d L k g6 = (a6).view.read (Elt F) g6 (ix1 ⟨128 * 1 + 16 * k.val + 14, h1⟩) := by
      delta_sl [v670, r]
      simp only [LanePayK3.k3_pay148_nf, LanePayK3.k3_pay79_nf, View.readAt_rect]
      exact (LaneLib.extract_lane (((a6).view.slice (Rect.unit (s := S512) (k3_off36 k) S16.size (k3_off36_inb k))).read (Elt F) g6) 14 (by decide) _ _).trans (hid ⟨14, by decide⟩ h1)
    delta_sl [v690, H11_30, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off65 k (region2.sl.v670 d L k g6)) (k3_off66 (region2.sl.v670 d L k g6)) ![448] ![464] _ _ _ _ shapeCasts_S1x16_S16 k.val 14 (region2.sl.v670 d L k g6) _ hk (by decide) (hA0 _) (hA1 _) (hB _) rfl rfl h2 hw
  · rw [LaneSteps.nested16_at_15 _ hiota]
    refine congrArg₂ FloatOps.addf (LaneTrip.chunk_read (a10).view g10 (k3_off36 k) _ hoff _ ⟨15, hj⟩ h1) ?_
    have hA0 : ∀ w : BitVec 32, (k3_off67 k w) 0 = 16 * k.val + 15 := fun w => ChkLib.row_toNat k.val hk 15#32 (by decide)
    have hA1 : ∀ w : BitVec 32, (k3_off67 k w) 1 = ((w &&& 127#32) &&& 112#32).toNat := fun w => rfl
    have hB : ∀ w : BitVec 32, (k3_off68 w) 0 = 32 * 15 + (w.toNat % 16 + 16 - 15) % 16 :=
      fun w => IdBits.start_toNat 480#32 w 15#32 (by decide) (by decide)
    have hw : region2.sl.v699 d L k g6 = (a6).view.read (Elt F) g6 (ix1 ⟨128 * 1 + 16 * k.val + 15, h1⟩) := by
      delta_sl [v699, r]
      simp only [LanePayK3.k3_pay152_nf, LanePayK3.k3_pay79_nf, View.readAt_rect]
      exact (LaneLib.extract_lane (((a6).view.slice (Rect.unit (s := S512) (k3_off36 k) S16.size (k3_off36_inb k))).read (Elt F) g6) 15 (by decide) _ _).trans (hid ⟨15, by decide⟩ h1)
    delta_sl [v719, H11_32, r_3, r_4, r_8, r_15]
    simp only [LanePayK3.k3_pay79_nf, LanePayK3.k3_pay80_nf, LanePayK3.k3_pay81_nf, LanePayK3.k3_pay82_nf, LanePayK3.k3_pay83_nf, LanePayK3.k3_pay84_nf, LanePayK3.k3_pay85_nf, LanePayK3.k3_pay86_nf, LanePayK3.k3_pay87_nf, LanePayK3.k3_pay88_nf, LanePayK3.k3_pay89_nf, LanePayK3.k3_pay90_nf, LanePayK3.k3_pay91_nf, LanePayK3.k3_pay92_nf, LanePayK3.k3_pay93_nf, LanePayK3.k3_pay94_nf, LanePayK3.k3_pay95_nf, LanePayK3.k3_pay96_nf, LanePayK3.k3_pay97_nf, LanePayK3.k3_pay98_nf, LanePayK3.k3_pay99_nf, LanePayK3.k3_pay100_nf, LanePayK3.k3_pay101_nf, LanePayK3.k3_pay102_nf, LanePayK3.k3_pay103_nf, LanePayK3.k3_pay104_nf, LanePayK3.k3_pay105_nf, LanePayK3.k3_pay106_nf, LanePayK3.k3_pay107_nf, LanePayK3.k3_pay108_nf, LanePayK3.k3_pay109_nf, LanePayK3.k3_pay110_nf, LanePayK3.k3_pay111_nf, LanePayK3.k3_pay112_nf, LanePayK3.k3_pay113_nf, LanePayK3.k3_pay114_nf, LanePayK3.k3_pay115_nf, LanePayK3.k3_pay116_nf, LanePayK3.k3_pay117_nf, LanePayK3.k3_pay118_nf, LanePayK3.k3_pay119_nf, LanePayK3.k3_pay120_nf, LanePayK3.k3_pay121_nf, LanePayK3.k3_pay122_nf, LanePayK3.k3_pay123_nf, LanePayK3.k3_pay124_nf, LanePayK3.k3_pay125_nf, LanePayK3.k3_pay126_nf, LanePayK3.k3_pay127_nf, LanePayK3.k3_pay128_nf, LanePayK3.k3_pay129_nf, LanePayK3.k3_pay130_nf, LanePayK3.k3_pay131_nf, LanePayK3.k3_pay132_nf, LanePayK3.k3_pay133_nf, LanePayK3.k3_pay134_nf, LanePayK3.k3_pay135_nf, LanePayK3.k3_pay136_nf, LanePayK3.k3_pay137_nf, LanePayK3.k3_pay138_nf, LanePayK3.k3_pay139_nf, LanePayK3.k3_pay140_nf, LanePayK3.k3_pay141_nf, LanePayK3.k3_pay142_nf, LanePayK3.k3_pay143_nf, LanePayK3.k3_pay144_nf, LanePayK3.k3_pay145_nf, LanePayK3.k3_pay146_nf, LanePayK3.k3_pay147_nf, LanePayK3.k3_pay148_nf, LanePayK3.k3_pay149_nf, LanePayK3.k3_pay150_nf, LanePayK3.k3_pay151_nf, LanePayK3.k3_pay152_nf, LanePayK3.k3_pay153_nf, LanePayK3.k3_pay154_nf, LanePayK3.k3_pay155_nf, LanePayK3.k3_pay156_nf, View.readAt_rect]
    exact LaneTrip.lane_value_at (a11).view _ (a9).view gB _ (k3_off67 k (region2.sl.v699 d L k g6)) (k3_off68 (region2.sl.v699 d L k g6)) ![480] ![496] _ _ _ _ shapeCasts_S1x16_S16 k.val 15 (region2.sl.v699 d L k g6) _ hk (by decide) (hA0 _) (hA1 _) (hB _) rfl rfl h2 hw

set_option maxHeartbeats 4000000 in
/-- Trip `k` of chunk 2's loop: the ids, the base values and the gathered rows are read only; the trip stores its sixteen
    results, each the base value plus the gathered row's entry at the id's lane. -/
theorem region3 (hchk : ChkAll) (k : Fin k3_t3_loop.trips) (acc : BitVec 32)
    (g6 : Buf (Elt F) ((a6).view.loc (V d (cV L) (jV L)))) (g10 : Buf (Elt F) ((a10).view.loc (V d (cV L) (jV L)))) (gB : Buf (Elt F) ((a8).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a8).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k3_t3_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a8).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k3_off103 k) S16.size (k3_off103_inb k), v⟩])
                ∗ ⌜LaneOK 2 k.val ((a6).view.read (Elt F) g6) ((a10).view.read (Elt F) g10) ((a8).view.read (Elt F) gB) v⌝) := by
  iintro ⟨H6, H10, HB, H11, H12⟩
  sl_exec (disch := first | sl_exact (hchk.h33 _ _) | sl_exact (hchk.h34 _ _) | sl_exact (hchk.h35 _ _) | sl_exact (hchk.h36 _ _) | sl_exact (hchk.h37 _ _) | sl_exact (hchk.h38 _ _) | sl_exact (hchk.h39 _ _) | sl_exact (hchk.h40 _ _) | sl_exact (hchk.h41 _ _) | sl_exact (hchk.h42 _ _) | sl_exact (hchk.h43 _ _) | sl_exact (hchk.h44 _ _) | sl_exact (hchk.h45 _ _) | sl_exact (hchk.h46 _ _) | sl_exact (hchk.h47 _ _) | sl_exact (hchk.h48 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k3_t3_abs.2.1
  have hoff : (k3_off70 k) 0 = 128 * 2 + 16 * k.val := by
    rw [k3_off70_eq]
    show 16 * k.val + 256 = 128 * 2 + 16 * k.val
    omega
  have hid : ∀ (j : Fin 16) (h : 128 * 2 + 16 * k.val + j.val < 512),
      (((a6).view.slice (Rect.unit (s := S512) (k3_off70 k) S16.size (k3_off70_inb k))).read (Elt F) g6) (ix1 j) = (a6).view.read (Elt F) g6 (ix1 ⟨128 * 2 + 16 * k.val + j.val, h⟩) :=
    fun j h => LaneTrip.chunk_read (a6).view g6 (k3_off70 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
  obtain ⟨j, hj⟩ := l
  interval_cases j
  · rw [LaneSteps.nested16_at_0 _ hiota]
    refine congrArg₂ FloatOps.addf (LaneTrip.chunk_read (a10).view g10 (k3_off70 k) _ hoff _ ⟨0, hj⟩ h1) ?_
    have hA0 : ∀ w : BitVec 32, (k3_off71 k w) 0 = 16 * k.val + 0 := fun w => ChkLib.row_toNat k.val hk 0#32 (by decide)
    have hA1 : ∀ w : BitVec 32, (k3_off71 k w) 1 = ((w &&& 127#32) &&& 112#32).toNat := fun w => rfl
    have hB : ∀ w : BitVec 32, (k3_off72 w) 0 = 32 * 0 + (w.toNat % 16 + 16 - 0) % 16 :=
      fun w => IdBits.start_toNat 0#32 w 0#32 (by decide) (by decide)
    have hw : region3.sl.v264 d L k g6 = (a6).view.read (Elt F) g6 (ix1 ⟨128 * 2 + 16 * k.val + 0, h1⟩) := by
      delta_sl [v264]
      simp only [LanePayK3.k3_pay158_nf, LanePayK3.k3_pay157_nf, View.readAt_rect]
      exact (LaneLib.extract_lane (((a6).view.slice (Rect.unit (s := S512) (k3_off70 k) S16.size (k3_off70_inb k))).read (Elt F) g6) 0 (by decide) _ _).trans (hid ⟨0, by decide⟩ h1)
    delta_sl [v284, H11_2, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off71 k (region3.sl.v264 d L k g6)) (k3_off72 (region3.sl.v264 d L k g6)) ![0] ![16] _ _ _ _ shapeCasts_S1x16_S16 k.val 0 (region3.sl.v264 d L k g6) _ hk (by decide) (hA0 _) (hA1 _) (hB _) rfl rfl h2 hw
  · rw [LaneSteps.nested16_at_1 _ hiota]
    refine congrArg₂ FloatOps.addf (LaneTrip.chunk_read (a10).view g10 (k3_off70 k) _ hoff _ ⟨1, hj⟩ h1) ?_
    have hA0 : ∀ w : BitVec 32, (k3_off73 k w) 0 = 16 * k.val + 1 := fun w => ChkLib.row_toNat k.val hk 1#32 (by decide)
    have hA1 : ∀ w : BitVec 32, (k3_off73 k w) 1 = ((w &&& 127#32) &&& 112#32).toNat := fun w => rfl
    have hB : ∀ w : BitVec 32, (k3_off74 w) 0 = 32 * 1 + (w.toNat % 16 + 16 - 1) % 16 :=
      fun w => IdBits.start_toNat 32#32 w 1#32 (by decide) (by decide)
    have hw : region3.sl.v293 d L k g6 = (a6).view.read (Elt F) g6 (ix1 ⟨128 * 2 + 16 * k.val + 1, h1⟩) := by
      delta_sl [v293, r]
      simp only [LanePayK3.k3_pay163_nf, LanePayK3.k3_pay157_nf, View.readAt_rect]
      exact (LaneLib.extract_lane (((a6).view.slice (Rect.unit (s := S512) (k3_off70 k) S16.size (k3_off70_inb k))).read (Elt F) g6) 1 (by decide) _ _).trans (hid ⟨1, by decide⟩ h1)
    delta_sl [v313, H11_4, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off73 k (region3.sl.v293 d L k g6)) (k3_off74 (region3.sl.v293 d L k g6)) ![32] ![48] _ _ _ _ shapeCasts_S1x16_S16 k.val 1 (region3.sl.v293 d L k g6) _ hk (by decide) (hA0 _) (hA1 _) (hB _) rfl rfl h2 hw
  · rw [LaneSteps.nested16_at_2 _ hiota]
    refine congrArg₂ FloatOps.addf (LaneTrip.chunk_read (a10).view g10 (k3_off70 k) _ hoff _ ⟨2, hj⟩ h1) ?_
    have hA0 : ∀ w : BitVec 32, (k3_off75 k w) 0 = 16 * k.val + 2 := fun w => ChkLib.row_toNat k.val hk 2#32 (by decide)
    have hA1 : ∀ w : BitVec 32, (k3_off75 k w) 1 = ((w &&& 127#32) &&& 112#32).toNat := fun w => rfl
    have hB : ∀ w : BitVec 32, (k3_off76 w) 0 = 32 * 2 + (w.toNat % 16 + 16 - 2) % 16 :=
      fun w => IdBits.start_toNat 64#32 w 2#32 (by decide) (by decide)
    have hw : region3.sl.v322 d L k g6 = (a6).view.read (Elt F) g6 (ix1 ⟨128 * 2 + 16 * k.val + 2, h1⟩) := by
      delta_sl [v322, r]
      simp only [LanePayK3.k3_pay168_nf, LanePayK3.k3_pay157_nf, View.readAt_rect]
      exact (LaneLib.extract_lane (((a6).view.slice (Rect.unit (s := S512) (k3_off70 k) S16.size (k3_off70_inb k))).read (Elt F) g6) 2 (by decide) _ _).trans (hid ⟨2, by decide⟩ h1)
    delta_sl [v342, H11_6, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off75 k (region3.sl.v322 d L k g6)) (k3_off76 (region3.sl.v322 d L k g6)) ![64] ![80] _ _ _ _ shapeCasts_S1x16_S16 k.val 2 (region3.sl.v322 d L k g6) _ hk (by decide) (hA0 _) (hA1 _) (hB _) rfl rfl h2 hw
  · rw [LaneSteps.nested16_at_3 _ hiota]
    refine congrArg₂ FloatOps.addf (LaneTrip.chunk_read (a10).view g10 (k3_off70 k) _ hoff _ ⟨3, hj⟩ h1) ?_
    have hA0 : ∀ w : BitVec 32, (k3_off77 k w) 0 = 16 * k.val + 3 := fun w => ChkLib.row_toNat k.val hk 3#32 (by decide)
    have hA1 : ∀ w : BitVec 32, (k3_off77 k w) 1 = ((w &&& 127#32) &&& 112#32).toNat := fun w => rfl
    have hB : ∀ w : BitVec 32, (k3_off78 w) 0 = 32 * 3 + (w.toNat % 16 + 16 - 3) % 16 :=
      fun w => IdBits.start_toNat 96#32 w 3#32 (by decide) (by decide)
    have hw : region3.sl.v351 d L k g6 = (a6).view.read (Elt F) g6 (ix1 ⟨128 * 2 + 16 * k.val + 3, h1⟩) := by
      delta_sl [v351, r]
      simp only [LanePayK3.k3_pay173_nf, LanePayK3.k3_pay157_nf, View.readAt_rect]
      exact (LaneLib.extract_lane (((a6).view.slice (Rect.unit (s := S512) (k3_off70 k) S16.size (k3_off70_inb k))).read (Elt F) g6) 3 (by decide) _ _).trans (hid ⟨3, by decide⟩ h1)
    delta_sl [v371, H11_8, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off77 k (region3.sl.v351 d L k g6)) (k3_off78 (region3.sl.v351 d L k g6)) ![96] ![112] _ _ _ _ shapeCasts_S1x16_S16 k.val 3 (region3.sl.v351 d L k g6) _ hk (by decide) (hA0 _) (hA1 _) (hB _) rfl rfl h2 hw
  · rw [LaneSteps.nested16_at_4 _ hiota]
    refine congrArg₂ FloatOps.addf (LaneTrip.chunk_read (a10).view g10 (k3_off70 k) _ hoff _ ⟨4, hj⟩ h1) ?_
    have hA0 : ∀ w : BitVec 32, (k3_off79 k w) 0 = 16 * k.val + 4 := fun w => ChkLib.row_toNat k.val hk 4#32 (by decide)
    have hA1 : ∀ w : BitVec 32, (k3_off79 k w) 1 = ((w &&& 127#32) &&& 112#32).toNat := fun w => rfl
    have hB : ∀ w : BitVec 32, (k3_off80 w) 0 = 32 * 4 + (w.toNat % 16 + 16 - 4) % 16 :=
      fun w => IdBits.start_toNat 128#32 w 4#32 (by decide) (by decide)
    have hw : region3.sl.v380 d L k g6 = (a6).view.read (Elt F) g6 (ix1 ⟨128 * 2 + 16 * k.val + 4, h1⟩) := by
      delta_sl [v380, r]
      simp only [LanePayK3.k3_pay177_nf, LanePayK3.k3_pay157_nf, View.readAt_rect]
      exact (LaneLib.extract_lane (((a6).view.slice (Rect.unit (s := S512) (k3_off70 k) S16.size (k3_off70_inb k))).read (Elt F) g6) 4 (by decide) _ _).trans (hid ⟨4, by decide⟩ h1)
    delta_sl [v400, H11_10, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off79 k (region3.sl.v380 d L k g6)) (k3_off80 (region3.sl.v380 d L k g6)) ![128] ![144] _ _ _ _ shapeCasts_S1x16_S16 k.val 4 (region3.sl.v380 d L k g6) _ hk (by decide) (hA0 _) (hA1 _) (hB _) rfl rfl h2 hw
  · rw [LaneSteps.nested16_at_5 _ hiota]
    refine congrArg₂ FloatOps.addf (LaneTrip.chunk_read (a10).view g10 (k3_off70 k) _ hoff _ ⟨5, hj⟩ h1) ?_
    have hA0 : ∀ w : BitVec 32, (k3_off81 k w) 0 = 16 * k.val + 5 := fun w => ChkLib.row_toNat k.val hk 5#32 (by decide)
    have hA1 : ∀ w : BitVec 32, (k3_off81 k w) 1 = ((w &&& 127#32) &&& 112#32).toNat := fun w => rfl
    have hB : ∀ w : BitVec 32, (k3_off82 w) 0 = 32 * 5 + (w.toNat % 16 + 16 - 5) % 16 :=
      fun w => IdBits.start_toNat 160#32 w 5#32 (by decide) (by decide)
    have hw : region3.sl.v409 d L k g6 = (a6).view.read (Elt F) g6 (ix1 ⟨128 * 2 + 16 * k.val + 5, h1⟩) := by
      delta_sl [v409, r]
      simp only [LanePayK3.k3_pay182_nf, LanePayK3.k3_pay157_nf, View.readAt_rect]
      exact (LaneLib.extract_lane (((a6).view.slice (Rect.unit (s := S512) (k3_off70 k) S16.size (k3_off70_inb k))).read (Elt F) g6) 5 (by decide) _ _).trans (hid ⟨5, by decide⟩ h1)
    delta_sl [v429, H11_12, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off81 k (region3.sl.v409 d L k g6)) (k3_off82 (region3.sl.v409 d L k g6)) ![160] ![176] _ _ _ _ shapeCasts_S1x16_S16 k.val 5 (region3.sl.v409 d L k g6) _ hk (by decide) (hA0 _) (hA1 _) (hB _) rfl rfl h2 hw
  · rw [LaneSteps.nested16_at_6 _ hiota]
    refine congrArg₂ FloatOps.addf (LaneTrip.chunk_read (a10).view g10 (k3_off70 k) _ hoff _ ⟨6, hj⟩ h1) ?_
    have hA0 : ∀ w : BitVec 32, (k3_off83 k w) 0 = 16 * k.val + 6 := fun w => ChkLib.row_toNat k.val hk 6#32 (by decide)
    have hA1 : ∀ w : BitVec 32, (k3_off83 k w) 1 = ((w &&& 127#32) &&& 112#32).toNat := fun w => rfl
    have hB : ∀ w : BitVec 32, (k3_off84 w) 0 = 32 * 6 + (w.toNat % 16 + 16 - 6) % 16 :=
      fun w => IdBits.start_toNat 192#32 w 6#32 (by decide) (by decide)
    have hw : region3.sl.v438 d L k g6 = (a6).view.read (Elt F) g6 (ix1 ⟨128 * 2 + 16 * k.val + 6, h1⟩) := by
      delta_sl [v438, r]
      simp only [LanePayK3.k3_pay187_nf, LanePayK3.k3_pay157_nf, View.readAt_rect]
      exact (LaneLib.extract_lane (((a6).view.slice (Rect.unit (s := S512) (k3_off70 k) S16.size (k3_off70_inb k))).read (Elt F) g6) 6 (by decide) _ _).trans (hid ⟨6, by decide⟩ h1)
    delta_sl [v458, H11_14, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off83 k (region3.sl.v438 d L k g6)) (k3_off84 (region3.sl.v438 d L k g6)) ![192] ![208] _ _ _ _ shapeCasts_S1x16_S16 k.val 6 (region3.sl.v438 d L k g6) _ hk (by decide) (hA0 _) (hA1 _) (hB _) rfl rfl h2 hw
  · rw [LaneSteps.nested16_at_7 _ hiota]
    refine congrArg₂ FloatOps.addf (LaneTrip.chunk_read (a10).view g10 (k3_off70 k) _ hoff _ ⟨7, hj⟩ h1) ?_
    have hA0 : ∀ w : BitVec 32, (k3_off85 k w) 0 = 16 * k.val + 7 := fun w => ChkLib.row_toNat k.val hk 7#32 (by decide)
    have hA1 : ∀ w : BitVec 32, (k3_off85 k w) 1 = ((w &&& 127#32) &&& 112#32).toNat := fun w => rfl
    have hB : ∀ w : BitVec 32, (k3_off86 w) 0 = 32 * 7 + (w.toNat % 16 + 16 - 7) % 16 :=
      fun w => IdBits.start_toNat 224#32 w 7#32 (by decide) (by decide)
    have hw : region3.sl.v467 d L k g6 = (a6).view.read (Elt F) g6 (ix1 ⟨128 * 2 + 16 * k.val + 7, h1⟩) := by
      delta_sl [v467, r]
      simp only [LanePayK3.k3_pay192_nf, LanePayK3.k3_pay157_nf, View.readAt_rect]
      exact (LaneLib.extract_lane (((a6).view.slice (Rect.unit (s := S512) (k3_off70 k) S16.size (k3_off70_inb k))).read (Elt F) g6) 7 (by decide) _ _).trans (hid ⟨7, by decide⟩ h1)
    delta_sl [v487, H11_16, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off85 k (region3.sl.v467 d L k g6)) (k3_off86 (region3.sl.v467 d L k g6)) ![224] ![240] _ _ _ _ shapeCasts_S1x16_S16 k.val 7 (region3.sl.v467 d L k g6) _ hk (by decide) (hA0 _) (hA1 _) (hB _) rfl rfl h2 hw
  · rw [LaneSteps.nested16_at_8 _ hiota]
    refine congrArg₂ FloatOps.addf (LaneTrip.chunk_read (a10).view g10 (k3_off70 k) _ hoff _ ⟨8, hj⟩ h1) ?_
    have hA0 : ∀ w : BitVec 32, (k3_off87 k w) 0 = 16 * k.val + 8 := fun w => ChkLib.row_toNat k.val hk 8#32 (by decide)
    have hA1 : ∀ w : BitVec 32, (k3_off87 k w) 1 = ((w &&& 127#32) &&& 112#32).toNat := fun w => rfl
    have hB : ∀ w : BitVec 32, (k3_off88 w) 0 = 32 * 8 + (w.toNat % 16 + 16 - 8) % 16 :=
      fun w => IdBits.start_toNat 256#32 w 8#32 (by decide) (by decide)
    have hw : region3.sl.v496 d L k g6 = (a6).view.read (Elt F) g6 (ix1 ⟨128 * 2 + 16 * k.val + 8, h1⟩) := by
      delta_sl [v496, r]
      simp only [LanePayK3.k3_pay197_nf, LanePayK3.k3_pay157_nf, View.readAt_rect]
      exact (LaneLib.extract_lane (((a6).view.slice (Rect.unit (s := S512) (k3_off70 k) S16.size (k3_off70_inb k))).read (Elt F) g6) 8 (by decide) _ _).trans (hid ⟨8, by decide⟩ h1)
    delta_sl [v516, H11_18, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off87 k (region3.sl.v496 d L k g6)) (k3_off88 (region3.sl.v496 d L k g6)) ![256] ![272] _ _ _ _ shapeCasts_S1x16_S16 k.val 8 (region3.sl.v496 d L k g6) _ hk (by decide) (hA0 _) (hA1 _) (hB _) rfl rfl h2 hw
  · rw [LaneSteps.nested16_at_9 _ hiota]
    refine congrArg₂ FloatOps.addf (LaneTrip.chunk_read (a10).view g10 (k3_off70 k) _ hoff _ ⟨9, hj⟩ h1) ?_
    have hA0 : ∀ w : BitVec 32, (k3_off89 k w) 0 = 16 * k.val + 9 := fun w => ChkLib.row_toNat k.val hk 9#32 (by decide)
    have hA1 : ∀ w : BitVec 32, (k3_off89 k w) 1 = ((w &&& 127#32) &&& 112#32).toNat := fun w => rfl
    have hB : ∀ w : BitVec 32, (k3_off90 w) 0 = 32 * 9 + (w.toNat % 16 + 16 - 9) % 16 :=
      fun w => IdBits.start_toNat 288#32 w 9#32 (by decide) (by decide)
    have hw : region3.sl.v525 d L k g6 = (a6).view.read (Elt F) g6 (ix1 ⟨128 * 2 + 16 * k.val + 9, h1⟩) := by
      delta_sl [v525, r]
      simp only [LanePayK3.k3_pay202_nf, LanePayK3.k3_pay157_nf, View.readAt_rect]
      exact (LaneLib.extract_lane (((a6).view.slice (Rect.unit (s := S512) (k3_off70 k) S16.size (k3_off70_inb k))).read (Elt F) g6) 9 (by decide) _ _).trans (hid ⟨9, by decide⟩ h1)
    delta_sl [v545, H11_20, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off89 k (region3.sl.v525 d L k g6)) (k3_off90 (region3.sl.v525 d L k g6)) ![288] ![304] _ _ _ _ shapeCasts_S1x16_S16 k.val 9 (region3.sl.v525 d L k g6) _ hk (by decide) (hA0 _) (hA1 _) (hB _) rfl rfl h2 hw
  · rw [LaneSteps.nested16_at_10 _ hiota]
    refine congrArg₂ FloatOps.addf (LaneTrip.chunk_read (a10).view g10 (k3_off70 k) _ hoff _ ⟨10, hj⟩ h1) ?_
    have hA0 : ∀ w : BitVec 32, (k3_off91 k w) 0 = 16 * k.val + 10 := fun w => ChkLib.row_toNat k.val hk 10#32 (by decide)
    have hA1 : ∀ w : BitVec 32, (k3_off91 k w) 1 = ((w &&& 127#32) &&& 112#32).toNat := fun w => rfl
    have hB : ∀ w : BitVec 32, (k3_off92 w) 0 = 32 * 10 + (w.toNat % 16 + 16 - 10) % 16 :=
      fun w => IdBits.start_toNat 320#32 w 10#32 (by decide) (by decide)
    have hw : region3.sl.v554 d L k g6 = (a6).view.read (Elt F) g6 (ix1 ⟨128 * 2 + 16 * k.val + 10, h1⟩) := by
      delta_sl [v554, r]
      simp only [LanePayK3.k3_pay207_nf, LanePayK3.k3_pay157_nf, View.readAt_rect]
      exact (LaneLib.extract_lane (((a6).view.slice (Rect.unit (s := S512) (k3_off70 k) S16.size (k3_off70_inb k))).read (Elt F) g6) 10 (by decide) _ _).trans (hid ⟨10, by decide⟩ h1)
    delta_sl [v574, H11_22, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off91 k (region3.sl.v554 d L k g6)) (k3_off92 (region3.sl.v554 d L k g6)) ![320] ![336] _ _ _ _ shapeCasts_S1x16_S16 k.val 10 (region3.sl.v554 d L k g6) _ hk (by decide) (hA0 _) (hA1 _) (hB _) rfl rfl h2 hw
  · rw [LaneSteps.nested16_at_11 _ hiota]
    refine congrArg₂ FloatOps.addf (LaneTrip.chunk_read (a10).view g10 (k3_off70 k) _ hoff _ ⟨11, hj⟩ h1) ?_
    have hA0 : ∀ w : BitVec 32, (k3_off93 k w) 0 = 16 * k.val + 11 := fun w => ChkLib.row_toNat k.val hk 11#32 (by decide)
    have hA1 : ∀ w : BitVec 32, (k3_off93 k w) 1 = ((w &&& 127#32) &&& 112#32).toNat := fun w => rfl
    have hB : ∀ w : BitVec 32, (k3_off94 w) 0 = 32 * 11 + (w.toNat % 16 + 16 - 11) % 16 :=
      fun w => IdBits.start_toNat 352#32 w 11#32 (by decide) (by decide)
    have hw : region3.sl.v583 d L k g6 = (a6).view.read (Elt F) g6 (ix1 ⟨128 * 2 + 16 * k.val + 11, h1⟩) := by
      delta_sl [v583, r]
      simp only [LanePayK3.k3_pay211_nf, LanePayK3.k3_pay157_nf, View.readAt_rect]
      exact (LaneLib.extract_lane (((a6).view.slice (Rect.unit (s := S512) (k3_off70 k) S16.size (k3_off70_inb k))).read (Elt F) g6) 11 (by decide) _ _).trans (hid ⟨11, by decide⟩ h1)
    delta_sl [v603, H11_24, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off93 k (region3.sl.v583 d L k g6)) (k3_off94 (region3.sl.v583 d L k g6)) ![352] ![368] _ _ _ _ shapeCasts_S1x16_S16 k.val 11 (region3.sl.v583 d L k g6) _ hk (by decide) (hA0 _) (hA1 _) (hB _) rfl rfl h2 hw
  · rw [LaneSteps.nested16_at_12 _ hiota]
    refine congrArg₂ FloatOps.addf (LaneTrip.chunk_read (a10).view g10 (k3_off70 k) _ hoff _ ⟨12, hj⟩ h1) ?_
    have hA0 : ∀ w : BitVec 32, (k3_off95 k w) 0 = 16 * k.val + 12 := fun w => ChkLib.row_toNat k.val hk 12#32 (by decide)
    have hA1 : ∀ w : BitVec 32, (k3_off95 k w) 1 = ((w &&& 127#32) &&& 112#32).toNat := fun w => rfl
    have hB : ∀ w : BitVec 32, (k3_off96 w) 0 = 32 * 12 + (w.toNat % 16 + 16 - 12) % 16 :=
      fun w => IdBits.start_toNat 384#32 w 12#32 (by decide) (by decide)
    have hw : region3.sl.v612 d L k g6 = (a6).view.read (Elt F) g6 (ix1 ⟨128 * 2 + 16 * k.val + 12, h1⟩) := by
      delta_sl [v612, r]
      simp only [LanePayK3.k3_pay216_nf, LanePayK3.k3_pay157_nf, View.readAt_rect]
      exact (LaneLib.extract_lane (((a6).view.slice (Rect.unit (s := S512) (k3_off70 k) S16.size (k3_off70_inb k))).read (Elt F) g6) 12 (by decide) _ _).trans (hid ⟨12, by decide⟩ h1)
    delta_sl [v632, H11_26, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off95 k (region3.sl.v612 d L k g6)) (k3_off96 (region3.sl.v612 d L k g6)) ![384] ![400] _ _ _ _ shapeCasts_S1x16_S16 k.val 12 (region3.sl.v612 d L k g6) _ hk (by decide) (hA0 _) (hA1 _) (hB _) rfl rfl h2 hw
  · rw [LaneSteps.nested16_at_13 _ hiota]
    refine congrArg₂ FloatOps.addf (LaneTrip.chunk_read (a10).view g10 (k3_off70 k) _ hoff _ ⟨13, hj⟩ h1) ?_
    have hA0 : ∀ w : BitVec 32, (k3_off97 k w) 0 = 16 * k.val + 13 := fun w => ChkLib.row_toNat k.val hk 13#32 (by decide)
    have hA1 : ∀ w : BitVec 32, (k3_off97 k w) 1 = ((w &&& 127#32) &&& 112#32).toNat := fun w => rfl
    have hB : ∀ w : BitVec 32, (k3_off98 w) 0 = 32 * 13 + (w.toNat % 16 + 16 - 13) % 16 :=
      fun w => IdBits.start_toNat 416#32 w 13#32 (by decide) (by decide)
    have hw : region3.sl.v641 d L k g6 = (a6).view.read (Elt F) g6 (ix1 ⟨128 * 2 + 16 * k.val + 13, h1⟩) := by
      delta_sl [v641, r]
      simp only [LanePayK3.k3_pay221_nf, LanePayK3.k3_pay157_nf, View.readAt_rect]
      exact (LaneLib.extract_lane (((a6).view.slice (Rect.unit (s := S512) (k3_off70 k) S16.size (k3_off70_inb k))).read (Elt F) g6) 13 (by decide) _ _).trans (hid ⟨13, by decide⟩ h1)
    delta_sl [v661, H11_28, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off97 k (region3.sl.v641 d L k g6)) (k3_off98 (region3.sl.v641 d L k g6)) ![416] ![432] _ _ _ _ shapeCasts_S1x16_S16 k.val 13 (region3.sl.v641 d L k g6) _ hk (by decide) (hA0 _) (hA1 _) (hB _) rfl rfl h2 hw
  · rw [LaneSteps.nested16_at_14 _ hiota]
    refine congrArg₂ FloatOps.addf (LaneTrip.chunk_read (a10).view g10 (k3_off70 k) _ hoff _ ⟨14, hj⟩ h1) ?_
    have hA0 : ∀ w : BitVec 32, (k3_off99 k w) 0 = 16 * k.val + 14 := fun w => ChkLib.row_toNat k.val hk 14#32 (by decide)
    have hA1 : ∀ w : BitVec 32, (k3_off99 k w) 1 = ((w &&& 127#32) &&& 112#32).toNat := fun w => rfl
    have hB : ∀ w : BitVec 32, (k3_off100 w) 0 = 32 * 14 + (w.toNat % 16 + 16 - 14) % 16 :=
      fun w => IdBits.start_toNat 448#32 w 14#32 (by decide) (by decide)
    have hw : region3.sl.v670 d L k g6 = (a6).view.read (Elt F) g6 (ix1 ⟨128 * 2 + 16 * k.val + 14, h1⟩) := by
      delta_sl [v670, r]
      simp only [LanePayK3.k3_pay226_nf, LanePayK3.k3_pay157_nf, View.readAt_rect]
      exact (LaneLib.extract_lane (((a6).view.slice (Rect.unit (s := S512) (k3_off70 k) S16.size (k3_off70_inb k))).read (Elt F) g6) 14 (by decide) _ _).trans (hid ⟨14, by decide⟩ h1)
    delta_sl [v690, H11_30, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off99 k (region3.sl.v670 d L k g6)) (k3_off100 (region3.sl.v670 d L k g6)) ![448] ![464] _ _ _ _ shapeCasts_S1x16_S16 k.val 14 (region3.sl.v670 d L k g6) _ hk (by decide) (hA0 _) (hA1 _) (hB _) rfl rfl h2 hw
  · rw [LaneSteps.nested16_at_15 _ hiota]
    refine congrArg₂ FloatOps.addf (LaneTrip.chunk_read (a10).view g10 (k3_off70 k) _ hoff _ ⟨15, hj⟩ h1) ?_
    have hA0 : ∀ w : BitVec 32, (k3_off101 k w) 0 = 16 * k.val + 15 := fun w => ChkLib.row_toNat k.val hk 15#32 (by decide)
    have hA1 : ∀ w : BitVec 32, (k3_off101 k w) 1 = ((w &&& 127#32) &&& 112#32).toNat := fun w => rfl
    have hB : ∀ w : BitVec 32, (k3_off102 w) 0 = 32 * 15 + (w.toNat % 16 + 16 - 15) % 16 :=
      fun w => IdBits.start_toNat 480#32 w 15#32 (by decide) (by decide)
    have hw : region3.sl.v699 d L k g6 = (a6).view.read (Elt F) g6 (ix1 ⟨128 * 2 + 16 * k.val + 15, h1⟩) := by
      delta_sl [v699, r]
      simp only [LanePayK3.k3_pay230_nf, LanePayK3.k3_pay157_nf, View.readAt_rect]
      exact (LaneLib.extract_lane (((a6).view.slice (Rect.unit (s := S512) (k3_off70 k) S16.size (k3_off70_inb k))).read (Elt F) g6) 15 (by decide) _ _).trans (hid ⟨15, by decide⟩ h1)
    delta_sl [v719, H11_32, r_3, r_4, r_8, r_15]
    simp only [LanePayK3.k3_pay157_nf, LanePayK3.k3_pay158_nf, LanePayK3.k3_pay159_nf, LanePayK3.k3_pay160_nf, LanePayK3.k3_pay161_nf, LanePayK3.k3_pay162_nf, LanePayK3.k3_pay163_nf, LanePayK3.k3_pay164_nf, LanePayK3.k3_pay165_nf, LanePayK3.k3_pay166_nf, LanePayK3.k3_pay167_nf, LanePayK3.k3_pay168_nf, LanePayK3.k3_pay169_nf, LanePayK3.k3_pay170_nf, LanePayK3.k3_pay171_nf, LanePayK3.k3_pay172_nf, LanePayK3.k3_pay173_nf, LanePayK3.k3_pay174_nf, LanePayK3.k3_pay175_nf, LanePayK3.k3_pay176_nf, LanePayK3.k3_pay177_nf, LanePayK3.k3_pay178_nf, LanePayK3.k3_pay179_nf, LanePayK3.k3_pay180_nf, LanePayK3.k3_pay181_nf, LanePayK3.k3_pay182_nf, LanePayK3.k3_pay183_nf, LanePayK3.k3_pay184_nf, LanePayK3.k3_pay185_nf, LanePayK3.k3_pay186_nf, LanePayK3.k3_pay187_nf, LanePayK3.k3_pay188_nf, LanePayK3.k3_pay189_nf, LanePayK3.k3_pay190_nf, LanePayK3.k3_pay191_nf, LanePayK3.k3_pay192_nf, LanePayK3.k3_pay193_nf, LanePayK3.k3_pay194_nf, LanePayK3.k3_pay195_nf, LanePayK3.k3_pay196_nf, LanePayK3.k3_pay197_nf, LanePayK3.k3_pay198_nf, LanePayK3.k3_pay199_nf, LanePayK3.k3_pay200_nf, LanePayK3.k3_pay201_nf, LanePayK3.k3_pay202_nf, LanePayK3.k3_pay203_nf, LanePayK3.k3_pay204_nf, LanePayK3.k3_pay205_nf, LanePayK3.k3_pay206_nf, LanePayK3.k3_pay207_nf, LanePayK3.k3_pay208_nf, LanePayK3.k3_pay209_nf, LanePayK3.k3_pay210_nf, LanePayK3.k3_pay211_nf, LanePayK3.k3_pay212_nf, LanePayK3.k3_pay213_nf, LanePayK3.k3_pay214_nf, LanePayK3.k3_pay215_nf, LanePayK3.k3_pay216_nf, LanePayK3.k3_pay217_nf, LanePayK3.k3_pay218_nf, LanePayK3.k3_pay219_nf, LanePayK3.k3_pay220_nf, LanePayK3.k3_pay221_nf, LanePayK3.k3_pay222_nf, LanePayK3.k3_pay223_nf, LanePayK3.k3_pay224_nf, LanePayK3.k3_pay225_nf, LanePayK3.k3_pay226_nf, LanePayK3.k3_pay227_nf, LanePayK3.k3_pay228_nf, LanePayK3.k3_pay229_nf, LanePayK3.k3_pay230_nf, LanePayK3.k3_pay231_nf, LanePayK3.k3_pay232_nf, LanePayK3.k3_pay233_nf, LanePayK3.k3_pay234_nf, View.readAt_rect]
    exact LaneTrip.lane_value_at (a11).view _ (a8).view gB _ (k3_off101 k (region3.sl.v699 d L k g6)) (k3_off102 (region3.sl.v699 d L k g6)) ![480] ![496] _ _ _ _ shapeCasts_S1x16_S16 k.val 15 (region3.sl.v699 d L k g6) _ hk (by decide) (hA0 _) (hA1 _) (hB _) rfl rfl h2 hw

set_option maxHeartbeats 4000000 in
/-- Trip `k` of chunk 3's loop: the ids, the base values and the gathered rows are read only; the trip stores its sixteen
    results, each the base value plus the gathered row's entry at the id's lane. -/
theorem region4 (hchk : ChkAll) (k : Fin k3_t4_loop.trips) (acc : BitVec 32)
    (g6 : Buf (Elt F) ((a6).view.loc (V d (cV L) (jV L)))) (g10 : Buf (Elt F) ((a10).view.loc (V d (cV L) (jV L)))) (gB : Buf (Elt F) ((a9).view.loc (V d (cV L) (jV L))))
    (g11 : Buf (Elt F) ((a11).view.loc (V d (cV L) (jV L)))) (g12 : Buf (Elt F) ((a12).view.loc (V d (cV L) (jV L)))) :
    iprop((((a6).view.loc (V d (cV L) (jV L)) ↦{fullShare} g6 : sProp 𝕄)) ∗ ((a10).view.loc (V d (cV L) (jV L)) ↦{fullShare} g10) ∗ ((a9).view.loc (V d (cV L) (jV L)) ↦{fullShare} gB)
        ∗ ((a11).view.loc (V d (cV L) (jV L)) ↦{fullShare} g11) ∗ ((a12).view.loc (V d (cV L) (jV L)) ↦{fullShare} g12))
      ⊢ wp frame (wpE (defs₀ (F := F)) 𝒱₀ (V d (cV L) (jV L)) none) Set.univ
          (k3_t4_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2
            (iota .scVector S16 32 [0] iota_S16_d0_w32_scVector) k acc)
          fun _ => iprop(((a6).view.loc (V d (cV L) (jV L)) ↦{fullShare} g6) ∗ ((a10).view.loc (V d (cV L) (jV L)) ↦{fullShare} g10) ∗ ((a9).view.loc (V d (cV L) (jV L)) ↦{fullShare} gB)
            ∗ (∃ f, (a11).view.loc (V d (cV L) (jV L)) ↦{fullShare} f)
            ∗ ∃ v : S16.Idx → Elt F .f32, ((a12).view.loc (V d (cV L) (jV L)) ↦{fullShare}
                  (a12).view.writes (Elt F) g12 [⟨Rect.unit (s := S512) (k3_off137 k) S16.size (k3_off137_inb k), v⟩])
                ∗ ⌜LaneOK 3 k.val ((a6).view.read (Elt F) g6) ((a10).view.read (Elt F) g10) ((a9).view.read (Elt F) gB) v⌝) := by
  iintro ⟨H6, H10, HB, H11, H12⟩
  sl_exec (disch := first | sl_exact (hchk.h49 _ _) | sl_exact (hchk.h50 _ _) | sl_exact (hchk.h51 _ _) | sl_exact (hchk.h52 _ _) | sl_exact (hchk.h53 _ _) | sl_exact (hchk.h54 _ _) | sl_exact (hchk.h55 _ _) | sl_exact (hchk.h56 _ _) | sl_exact (hchk.h57 _ _) | sl_exact (hchk.h58 _ _) | sl_exact (hchk.h59 _ _) | sl_exact (hchk.h60 _ _) | sl_exact (hchk.h61 _ _) | sl_exact (hchk.h62 _ _) | sl_exact (hchk.h63 _ _) | sl_exact (hchk.h64 _ _))
  sl_step
  isplitl [H6]; · iexact H6
  isplitl [H10]; · iexact H10
  isplitl [HB]; · iexact HB
  isplitl [H11]; · iexists _; iexact H11
  iexists _; isplitl [H12]; · iexact H12
  ipureintro
  intro l h1 h2
  have hk : k.val < 8 := lt_of_lt_of_le k.isLt k3_t4_abs.2.1
  have hoff : (k3_off104 k) 0 = 128 * 3 + 16 * k.val := by
    rw [k3_off104_eq]
    show 16 * k.val + 384 = 128 * 3 + 16 * k.val
    omega
  have hid : ∀ (j : Fin 16) (h : 128 * 3 + 16 * k.val + j.val < 512),
      (((a6).view.slice (Rect.unit (s := S512) (k3_off104 k) S16.size (k3_off104_inb k))).read (Elt F) g6) (ix1 j) = (a6).view.read (Elt F) g6 (ix1 ⟨128 * 3 + 16 * k.val + j.val, h⟩) :=
    fun j h => LaneTrip.chunk_read (a6).view g6 (k3_off104 k) _ hoff _ j h
  have hiota : ∀ l : S16.Idx, (iota .scVector S16 32 [0] iota_S16_d0_w32_scVector) l = BitVec.ofNat 32 (l 0).val := LaneLib.iota_lane _ _
  delta_sl [r_17, r_16, r_14, r_13, r_12, r_11, r_10, r_9, r_7, r_6, r_5, r_2, r_1]
  simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
  obtain ⟨j, hj⟩ := l
  interval_cases j
  · rw [LaneSteps.nested16_at_0 _ hiota]
    refine congrArg₂ FloatOps.addf (LaneTrip.chunk_read (a10).view g10 (k3_off104 k) _ hoff _ ⟨0, hj⟩ h1) ?_
    have hA0 : ∀ w : BitVec 32, (k3_off105 k w) 0 = 16 * k.val + 0 := fun w => ChkLib.row_toNat k.val hk 0#32 (by decide)
    have hA1 : ∀ w : BitVec 32, (k3_off105 k w) 1 = ((w &&& 127#32) &&& 112#32).toNat := fun w => rfl
    have hB : ∀ w : BitVec 32, (k3_off106 w) 0 = 32 * 0 + (w.toNat % 16 + 16 - 0) % 16 :=
      fun w => IdBits.start_toNat 0#32 w 0#32 (by decide) (by decide)
    have hw : region4.sl.v264 d L k g6 = (a6).view.read (Elt F) g6 (ix1 ⟨128 * 3 + 16 * k.val + 0, h1⟩) := by
      delta_sl [v264]
      simp only [LanePayK3.k3_pay236_nf, LanePayK3.k3_pay235_nf, View.readAt_rect]
      exact (LaneLib.extract_lane (((a6).view.slice (Rect.unit (s := S512) (k3_off104 k) S16.size (k3_off104_inb k))).read (Elt F) g6) 0 (by decide) _ _).trans (hid ⟨0, by decide⟩ h1)
    delta_sl [v284, H11_2, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off105 k (region4.sl.v264 d L k g6)) (k3_off106 (region4.sl.v264 d L k g6)) ![0] ![16] _ _ _ _ shapeCasts_S1x16_S16 k.val 0 (region4.sl.v264 d L k g6) _ hk (by decide) (hA0 _) (hA1 _) (hB _) rfl rfl h2 hw
  · rw [LaneSteps.nested16_at_1 _ hiota]
    refine congrArg₂ FloatOps.addf (LaneTrip.chunk_read (a10).view g10 (k3_off104 k) _ hoff _ ⟨1, hj⟩ h1) ?_
    have hA0 : ∀ w : BitVec 32, (k3_off107 k w) 0 = 16 * k.val + 1 := fun w => ChkLib.row_toNat k.val hk 1#32 (by decide)
    have hA1 : ∀ w : BitVec 32, (k3_off107 k w) 1 = ((w &&& 127#32) &&& 112#32).toNat := fun w => rfl
    have hB : ∀ w : BitVec 32, (k3_off108 w) 0 = 32 * 1 + (w.toNat % 16 + 16 - 1) % 16 :=
      fun w => IdBits.start_toNat 32#32 w 1#32 (by decide) (by decide)
    have hw : region4.sl.v293 d L k g6 = (a6).view.read (Elt F) g6 (ix1 ⟨128 * 3 + 16 * k.val + 1, h1⟩) := by
      delta_sl [v293, r]
      simp only [LanePayK3.k3_pay241_nf, LanePayK3.k3_pay235_nf, View.readAt_rect]
      exact (LaneLib.extract_lane (((a6).view.slice (Rect.unit (s := S512) (k3_off104 k) S16.size (k3_off104_inb k))).read (Elt F) g6) 1 (by decide) _ _).trans (hid ⟨1, by decide⟩ h1)
    delta_sl [v313, H11_4, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off107 k (region4.sl.v293 d L k g6)) (k3_off108 (region4.sl.v293 d L k g6)) ![32] ![48] _ _ _ _ shapeCasts_S1x16_S16 k.val 1 (region4.sl.v293 d L k g6) _ hk (by decide) (hA0 _) (hA1 _) (hB _) rfl rfl h2 hw
  · rw [LaneSteps.nested16_at_2 _ hiota]
    refine congrArg₂ FloatOps.addf (LaneTrip.chunk_read (a10).view g10 (k3_off104 k) _ hoff _ ⟨2, hj⟩ h1) ?_
    have hA0 : ∀ w : BitVec 32, (k3_off109 k w) 0 = 16 * k.val + 2 := fun w => ChkLib.row_toNat k.val hk 2#32 (by decide)
    have hA1 : ∀ w : BitVec 32, (k3_off109 k w) 1 = ((w &&& 127#32) &&& 112#32).toNat := fun w => rfl
    have hB : ∀ w : BitVec 32, (k3_off110 w) 0 = 32 * 2 + (w.toNat % 16 + 16 - 2) % 16 :=
      fun w => IdBits.start_toNat 64#32 w 2#32 (by decide) (by decide)
    have hw : region4.sl.v322 d L k g6 = (a6).view.read (Elt F) g6 (ix1 ⟨128 * 3 + 16 * k.val + 2, h1⟩) := by
      delta_sl [v322, r]
      simp only [LanePayK3.k3_pay246_nf, LanePayK3.k3_pay235_nf, View.readAt_rect]
      exact (LaneLib.extract_lane (((a6).view.slice (Rect.unit (s := S512) (k3_off104 k) S16.size (k3_off104_inb k))).read (Elt F) g6) 2 (by decide) _ _).trans (hid ⟨2, by decide⟩ h1)
    delta_sl [v342, H11_6, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off109 k (region4.sl.v322 d L k g6)) (k3_off110 (region4.sl.v322 d L k g6)) ![64] ![80] _ _ _ _ shapeCasts_S1x16_S16 k.val 2 (region4.sl.v322 d L k g6) _ hk (by decide) (hA0 _) (hA1 _) (hB _) rfl rfl h2 hw
  · rw [LaneSteps.nested16_at_3 _ hiota]
    refine congrArg₂ FloatOps.addf (LaneTrip.chunk_read (a10).view g10 (k3_off104 k) _ hoff _ ⟨3, hj⟩ h1) ?_
    have hA0 : ∀ w : BitVec 32, (k3_off111 k w) 0 = 16 * k.val + 3 := fun w => ChkLib.row_toNat k.val hk 3#32 (by decide)
    have hA1 : ∀ w : BitVec 32, (k3_off111 k w) 1 = ((w &&& 127#32) &&& 112#32).toNat := fun w => rfl
    have hB : ∀ w : BitVec 32, (k3_off112 w) 0 = 32 * 3 + (w.toNat % 16 + 16 - 3) % 16 :=
      fun w => IdBits.start_toNat 96#32 w 3#32 (by decide) (by decide)
    have hw : region4.sl.v351 d L k g6 = (a6).view.read (Elt F) g6 (ix1 ⟨128 * 3 + 16 * k.val + 3, h1⟩) := by
      delta_sl [v351, r]
      simp only [LanePayK3.k3_pay251_nf, LanePayK3.k3_pay235_nf, View.readAt_rect]
      exact (LaneLib.extract_lane (((a6).view.slice (Rect.unit (s := S512) (k3_off104 k) S16.size (k3_off104_inb k))).read (Elt F) g6) 3 (by decide) _ _).trans (hid ⟨3, by decide⟩ h1)
    delta_sl [v371, H11_8, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off111 k (region4.sl.v351 d L k g6)) (k3_off112 (region4.sl.v351 d L k g6)) ![96] ![112] _ _ _ _ shapeCasts_S1x16_S16 k.val 3 (region4.sl.v351 d L k g6) _ hk (by decide) (hA0 _) (hA1 _) (hB _) rfl rfl h2 hw
  · rw [LaneSteps.nested16_at_4 _ hiota]
    refine congrArg₂ FloatOps.addf (LaneTrip.chunk_read (a10).view g10 (k3_off104 k) _ hoff _ ⟨4, hj⟩ h1) ?_
    have hA0 : ∀ w : BitVec 32, (k3_off113 k w) 0 = 16 * k.val + 4 := fun w => ChkLib.row_toNat k.val hk 4#32 (by decide)
    have hA1 : ∀ w : BitVec 32, (k3_off113 k w) 1 = ((w &&& 127#32) &&& 112#32).toNat := fun w => rfl
    have hB : ∀ w : BitVec 32, (k3_off114 w) 0 = 32 * 4 + (w.toNat % 16 + 16 - 4) % 16 :=
      fun w => IdBits.start_toNat 128#32 w 4#32 (by decide) (by decide)
    have hw : region4.sl.v380 d L k g6 = (a6).view.read (Elt F) g6 (ix1 ⟨128 * 3 + 16 * k.val + 4, h1⟩) := by
      delta_sl [v380, r]
      simp only [LanePayK3.k3_pay255_nf, LanePayK3.k3_pay235_nf, View.readAt_rect]
      exact (LaneLib.extract_lane (((a6).view.slice (Rect.unit (s := S512) (k3_off104 k) S16.size (k3_off104_inb k))).read (Elt F) g6) 4 (by decide) _ _).trans (hid ⟨4, by decide⟩ h1)
    delta_sl [v400, H11_10, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off113 k (region4.sl.v380 d L k g6)) (k3_off114 (region4.sl.v380 d L k g6)) ![128] ![144] _ _ _ _ shapeCasts_S1x16_S16 k.val 4 (region4.sl.v380 d L k g6) _ hk (by decide) (hA0 _) (hA1 _) (hB _) rfl rfl h2 hw
  · rw [LaneSteps.nested16_at_5 _ hiota]
    refine congrArg₂ FloatOps.addf (LaneTrip.chunk_read (a10).view g10 (k3_off104 k) _ hoff _ ⟨5, hj⟩ h1) ?_
    have hA0 : ∀ w : BitVec 32, (k3_off115 k w) 0 = 16 * k.val + 5 := fun w => ChkLib.row_toNat k.val hk 5#32 (by decide)
    have hA1 : ∀ w : BitVec 32, (k3_off115 k w) 1 = ((w &&& 127#32) &&& 112#32).toNat := fun w => rfl
    have hB : ∀ w : BitVec 32, (k3_off116 w) 0 = 32 * 5 + (w.toNat % 16 + 16 - 5) % 16 :=
      fun w => IdBits.start_toNat 160#32 w 5#32 (by decide) (by decide)
    have hw : region4.sl.v409 d L k g6 = (a6).view.read (Elt F) g6 (ix1 ⟨128 * 3 + 16 * k.val + 5, h1⟩) := by
      delta_sl [v409, r]
      simp only [LanePayK3.k3_pay260_nf, LanePayK3.k3_pay235_nf, View.readAt_rect]
      exact (LaneLib.extract_lane (((a6).view.slice (Rect.unit (s := S512) (k3_off104 k) S16.size (k3_off104_inb k))).read (Elt F) g6) 5 (by decide) _ _).trans (hid ⟨5, by decide⟩ h1)
    delta_sl [v429, H11_12, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off115 k (region4.sl.v409 d L k g6)) (k3_off116 (region4.sl.v409 d L k g6)) ![160] ![176] _ _ _ _ shapeCasts_S1x16_S16 k.val 5 (region4.sl.v409 d L k g6) _ hk (by decide) (hA0 _) (hA1 _) (hB _) rfl rfl h2 hw
  · rw [LaneSteps.nested16_at_6 _ hiota]
    refine congrArg₂ FloatOps.addf (LaneTrip.chunk_read (a10).view g10 (k3_off104 k) _ hoff _ ⟨6, hj⟩ h1) ?_
    have hA0 : ∀ w : BitVec 32, (k3_off117 k w) 0 = 16 * k.val + 6 := fun w => ChkLib.row_toNat k.val hk 6#32 (by decide)
    have hA1 : ∀ w : BitVec 32, (k3_off117 k w) 1 = ((w &&& 127#32) &&& 112#32).toNat := fun w => rfl
    have hB : ∀ w : BitVec 32, (k3_off118 w) 0 = 32 * 6 + (w.toNat % 16 + 16 - 6) % 16 :=
      fun w => IdBits.start_toNat 192#32 w 6#32 (by decide) (by decide)
    have hw : region4.sl.v438 d L k g6 = (a6).view.read (Elt F) g6 (ix1 ⟨128 * 3 + 16 * k.val + 6, h1⟩) := by
      delta_sl [v438, r]
      simp only [LanePayK3.k3_pay265_nf, LanePayK3.k3_pay235_nf, View.readAt_rect]
      exact (LaneLib.extract_lane (((a6).view.slice (Rect.unit (s := S512) (k3_off104 k) S16.size (k3_off104_inb k))).read (Elt F) g6) 6 (by decide) _ _).trans (hid ⟨6, by decide⟩ h1)
    delta_sl [v458, H11_14, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off117 k (region4.sl.v438 d L k g6)) (k3_off118 (region4.sl.v438 d L k g6)) ![192] ![208] _ _ _ _ shapeCasts_S1x16_S16 k.val 6 (region4.sl.v438 d L k g6) _ hk (by decide) (hA0 _) (hA1 _) (hB _) rfl rfl h2 hw
  · rw [LaneSteps.nested16_at_7 _ hiota]
    refine congrArg₂ FloatOps.addf (LaneTrip.chunk_read (a10).view g10 (k3_off104 k) _ hoff _ ⟨7, hj⟩ h1) ?_
    have hA0 : ∀ w : BitVec 32, (k3_off119 k w) 0 = 16 * k.val + 7 := fun w => ChkLib.row_toNat k.val hk 7#32 (by decide)
    have hA1 : ∀ w : BitVec 32, (k3_off119 k w) 1 = ((w &&& 127#32) &&& 112#32).toNat := fun w => rfl
    have hB : ∀ w : BitVec 32, (k3_off120 w) 0 = 32 * 7 + (w.toNat % 16 + 16 - 7) % 16 :=
      fun w => IdBits.start_toNat 224#32 w 7#32 (by decide) (by decide)
    have hw : region4.sl.v467 d L k g6 = (a6).view.read (Elt F) g6 (ix1 ⟨128 * 3 + 16 * k.val + 7, h1⟩) := by
      delta_sl [v467, r]
      simp only [LanePayK3.k3_pay270_nf, LanePayK3.k3_pay235_nf, View.readAt_rect]
      exact (LaneLib.extract_lane (((a6).view.slice (Rect.unit (s := S512) (k3_off104 k) S16.size (k3_off104_inb k))).read (Elt F) g6) 7 (by decide) _ _).trans (hid ⟨7, by decide⟩ h1)
    delta_sl [v487, H11_16, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off119 k (region4.sl.v467 d L k g6)) (k3_off120 (region4.sl.v467 d L k g6)) ![224] ![240] _ _ _ _ shapeCasts_S1x16_S16 k.val 7 (region4.sl.v467 d L k g6) _ hk (by decide) (hA0 _) (hA1 _) (hB _) rfl rfl h2 hw
  · rw [LaneSteps.nested16_at_8 _ hiota]
    refine congrArg₂ FloatOps.addf (LaneTrip.chunk_read (a10).view g10 (k3_off104 k) _ hoff _ ⟨8, hj⟩ h1) ?_
    have hA0 : ∀ w : BitVec 32, (k3_off121 k w) 0 = 16 * k.val + 8 := fun w => ChkLib.row_toNat k.val hk 8#32 (by decide)
    have hA1 : ∀ w : BitVec 32, (k3_off121 k w) 1 = ((w &&& 127#32) &&& 112#32).toNat := fun w => rfl
    have hB : ∀ w : BitVec 32, (k3_off122 w) 0 = 32 * 8 + (w.toNat % 16 + 16 - 8) % 16 :=
      fun w => IdBits.start_toNat 256#32 w 8#32 (by decide) (by decide)
    have hw : region4.sl.v496 d L k g6 = (a6).view.read (Elt F) g6 (ix1 ⟨128 * 3 + 16 * k.val + 8, h1⟩) := by
      delta_sl [v496, r]
      simp only [LanePayK3.k3_pay275_nf, LanePayK3.k3_pay235_nf, View.readAt_rect]
      exact (LaneLib.extract_lane (((a6).view.slice (Rect.unit (s := S512) (k3_off104 k) S16.size (k3_off104_inb k))).read (Elt F) g6) 8 (by decide) _ _).trans (hid ⟨8, by decide⟩ h1)
    delta_sl [v516, H11_18, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off121 k (region4.sl.v496 d L k g6)) (k3_off122 (region4.sl.v496 d L k g6)) ![256] ![272] _ _ _ _ shapeCasts_S1x16_S16 k.val 8 (region4.sl.v496 d L k g6) _ hk (by decide) (hA0 _) (hA1 _) (hB _) rfl rfl h2 hw
  · rw [LaneSteps.nested16_at_9 _ hiota]
    refine congrArg₂ FloatOps.addf (LaneTrip.chunk_read (a10).view g10 (k3_off104 k) _ hoff _ ⟨9, hj⟩ h1) ?_
    have hA0 : ∀ w : BitVec 32, (k3_off123 k w) 0 = 16 * k.val + 9 := fun w => ChkLib.row_toNat k.val hk 9#32 (by decide)
    have hA1 : ∀ w : BitVec 32, (k3_off123 k w) 1 = ((w &&& 127#32) &&& 112#32).toNat := fun w => rfl
    have hB : ∀ w : BitVec 32, (k3_off124 w) 0 = 32 * 9 + (w.toNat % 16 + 16 - 9) % 16 :=
      fun w => IdBits.start_toNat 288#32 w 9#32 (by decide) (by decide)
    have hw : region4.sl.v525 d L k g6 = (a6).view.read (Elt F) g6 (ix1 ⟨128 * 3 + 16 * k.val + 9, h1⟩) := by
      delta_sl [v525, r]
      simp only [LanePayK3.k3_pay280_nf, LanePayK3.k3_pay235_nf, View.readAt_rect]
      exact (LaneLib.extract_lane (((a6).view.slice (Rect.unit (s := S512) (k3_off104 k) S16.size (k3_off104_inb k))).read (Elt F) g6) 9 (by decide) _ _).trans (hid ⟨9, by decide⟩ h1)
    delta_sl [v545, H11_20, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off123 k (region4.sl.v525 d L k g6)) (k3_off124 (region4.sl.v525 d L k g6)) ![288] ![304] _ _ _ _ shapeCasts_S1x16_S16 k.val 9 (region4.sl.v525 d L k g6) _ hk (by decide) (hA0 _) (hA1 _) (hB _) rfl rfl h2 hw
  · rw [LaneSteps.nested16_at_10 _ hiota]
    refine congrArg₂ FloatOps.addf (LaneTrip.chunk_read (a10).view g10 (k3_off104 k) _ hoff _ ⟨10, hj⟩ h1) ?_
    have hA0 : ∀ w : BitVec 32, (k3_off125 k w) 0 = 16 * k.val + 10 := fun w => ChkLib.row_toNat k.val hk 10#32 (by decide)
    have hA1 : ∀ w : BitVec 32, (k3_off125 k w) 1 = ((w &&& 127#32) &&& 112#32).toNat := fun w => rfl
    have hB : ∀ w : BitVec 32, (k3_off126 w) 0 = 32 * 10 + (w.toNat % 16 + 16 - 10) % 16 :=
      fun w => IdBits.start_toNat 320#32 w 10#32 (by decide) (by decide)
    have hw : region4.sl.v554 d L k g6 = (a6).view.read (Elt F) g6 (ix1 ⟨128 * 3 + 16 * k.val + 10, h1⟩) := by
      delta_sl [v554, r]
      simp only [LanePayK3.k3_pay285_nf, LanePayK3.k3_pay235_nf, View.readAt_rect]
      exact (LaneLib.extract_lane (((a6).view.slice (Rect.unit (s := S512) (k3_off104 k) S16.size (k3_off104_inb k))).read (Elt F) g6) 10 (by decide) _ _).trans (hid ⟨10, by decide⟩ h1)
    delta_sl [v574, H11_22, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off125 k (region4.sl.v554 d L k g6)) (k3_off126 (region4.sl.v554 d L k g6)) ![320] ![336] _ _ _ _ shapeCasts_S1x16_S16 k.val 10 (region4.sl.v554 d L k g6) _ hk (by decide) (hA0 _) (hA1 _) (hB _) rfl rfl h2 hw
  · rw [LaneSteps.nested16_at_11 _ hiota]
    refine congrArg₂ FloatOps.addf (LaneTrip.chunk_read (a10).view g10 (k3_off104 k) _ hoff _ ⟨11, hj⟩ h1) ?_
    have hA0 : ∀ w : BitVec 32, (k3_off127 k w) 0 = 16 * k.val + 11 := fun w => ChkLib.row_toNat k.val hk 11#32 (by decide)
    have hA1 : ∀ w : BitVec 32, (k3_off127 k w) 1 = ((w &&& 127#32) &&& 112#32).toNat := fun w => rfl
    have hB : ∀ w : BitVec 32, (k3_off128 w) 0 = 32 * 11 + (w.toNat % 16 + 16 - 11) % 16 :=
      fun w => IdBits.start_toNat 352#32 w 11#32 (by decide) (by decide)
    have hw : region4.sl.v583 d L k g6 = (a6).view.read (Elt F) g6 (ix1 ⟨128 * 3 + 16 * k.val + 11, h1⟩) := by
      delta_sl [v583, r]
      simp only [LanePayK3.k3_pay289_nf, LanePayK3.k3_pay235_nf, View.readAt_rect]
      exact (LaneLib.extract_lane (((a6).view.slice (Rect.unit (s := S512) (k3_off104 k) S16.size (k3_off104_inb k))).read (Elt F) g6) 11 (by decide) _ _).trans (hid ⟨11, by decide⟩ h1)
    delta_sl [v603, H11_24, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off127 k (region4.sl.v583 d L k g6)) (k3_off128 (region4.sl.v583 d L k g6)) ![352] ![368] _ _ _ _ shapeCasts_S1x16_S16 k.val 11 (region4.sl.v583 d L k g6) _ hk (by decide) (hA0 _) (hA1 _) (hB _) rfl rfl h2 hw
  · rw [LaneSteps.nested16_at_12 _ hiota]
    refine congrArg₂ FloatOps.addf (LaneTrip.chunk_read (a10).view g10 (k3_off104 k) _ hoff _ ⟨12, hj⟩ h1) ?_
    have hA0 : ∀ w : BitVec 32, (k3_off129 k w) 0 = 16 * k.val + 12 := fun w => ChkLib.row_toNat k.val hk 12#32 (by decide)
    have hA1 : ∀ w : BitVec 32, (k3_off129 k w) 1 = ((w &&& 127#32) &&& 112#32).toNat := fun w => rfl
    have hB : ∀ w : BitVec 32, (k3_off130 w) 0 = 32 * 12 + (w.toNat % 16 + 16 - 12) % 16 :=
      fun w => IdBits.start_toNat 384#32 w 12#32 (by decide) (by decide)
    have hw : region4.sl.v612 d L k g6 = (a6).view.read (Elt F) g6 (ix1 ⟨128 * 3 + 16 * k.val + 12, h1⟩) := by
      delta_sl [v612, r]
      simp only [LanePayK3.k3_pay294_nf, LanePayK3.k3_pay235_nf, View.readAt_rect]
      exact (LaneLib.extract_lane (((a6).view.slice (Rect.unit (s := S512) (k3_off104 k) S16.size (k3_off104_inb k))).read (Elt F) g6) 12 (by decide) _ _).trans (hid ⟨12, by decide⟩ h1)
    delta_sl [v632, H11_26, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off129 k (region4.sl.v612 d L k g6)) (k3_off130 (region4.sl.v612 d L k g6)) ![384] ![400] _ _ _ _ shapeCasts_S1x16_S16 k.val 12 (region4.sl.v612 d L k g6) _ hk (by decide) (hA0 _) (hA1 _) (hB _) rfl rfl h2 hw
  · rw [LaneSteps.nested16_at_13 _ hiota]
    refine congrArg₂ FloatOps.addf (LaneTrip.chunk_read (a10).view g10 (k3_off104 k) _ hoff _ ⟨13, hj⟩ h1) ?_
    have hA0 : ∀ w : BitVec 32, (k3_off131 k w) 0 = 16 * k.val + 13 := fun w => ChkLib.row_toNat k.val hk 13#32 (by decide)
    have hA1 : ∀ w : BitVec 32, (k3_off131 k w) 1 = ((w &&& 127#32) &&& 112#32).toNat := fun w => rfl
    have hB : ∀ w : BitVec 32, (k3_off132 w) 0 = 32 * 13 + (w.toNat % 16 + 16 - 13) % 16 :=
      fun w => IdBits.start_toNat 416#32 w 13#32 (by decide) (by decide)
    have hw : region4.sl.v641 d L k g6 = (a6).view.read (Elt F) g6 (ix1 ⟨128 * 3 + 16 * k.val + 13, h1⟩) := by
      delta_sl [v641, r]
      simp only [LanePayK3.k3_pay299_nf, LanePayK3.k3_pay235_nf, View.readAt_rect]
      exact (LaneLib.extract_lane (((a6).view.slice (Rect.unit (s := S512) (k3_off104 k) S16.size (k3_off104_inb k))).read (Elt F) g6) 13 (by decide) _ _).trans (hid ⟨13, by decide⟩ h1)
    delta_sl [v661, H11_28, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off131 k (region4.sl.v641 d L k g6)) (k3_off132 (region4.sl.v641 d L k g6)) ![416] ![432] _ _ _ _ shapeCasts_S1x16_S16 k.val 13 (region4.sl.v641 d L k g6) _ hk (by decide) (hA0 _) (hA1 _) (hB _) rfl rfl h2 hw
  · rw [LaneSteps.nested16_at_14 _ hiota]
    refine congrArg₂ FloatOps.addf (LaneTrip.chunk_read (a10).view g10 (k3_off104 k) _ hoff _ ⟨14, hj⟩ h1) ?_
    have hA0 : ∀ w : BitVec 32, (k3_off133 k w) 0 = 16 * k.val + 14 := fun w => ChkLib.row_toNat k.val hk 14#32 (by decide)
    have hA1 : ∀ w : BitVec 32, (k3_off133 k w) 1 = ((w &&& 127#32) &&& 112#32).toNat := fun w => rfl
    have hB : ∀ w : BitVec 32, (k3_off134 w) 0 = 32 * 14 + (w.toNat % 16 + 16 - 14) % 16 :=
      fun w => IdBits.start_toNat 448#32 w 14#32 (by decide) (by decide)
    have hw : region4.sl.v670 d L k g6 = (a6).view.read (Elt F) g6 (ix1 ⟨128 * 3 + 16 * k.val + 14, h1⟩) := by
      delta_sl [v670, r]
      simp only [LanePayK3.k3_pay304_nf, LanePayK3.k3_pay235_nf, View.readAt_rect]
      exact (LaneLib.extract_lane (((a6).view.slice (Rect.unit (s := S512) (k3_off104 k) S16.size (k3_off104_inb k))).read (Elt F) g6) 14 (by decide) _ _).trans (hid ⟨14, by decide⟩ h1)
    delta_sl [v690, H11_30, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off133 k (region4.sl.v670 d L k g6)) (k3_off134 (region4.sl.v670 d L k g6)) ![448] ![464] _ _ _ _ shapeCasts_S1x16_S16 k.val 14 (region4.sl.v670 d L k g6) _ hk (by decide) (hA0 _) (hA1 _) (hB _) rfl rfl h2 hw
  · rw [LaneSteps.nested16_at_15 _ hiota]
    refine congrArg₂ FloatOps.addf (LaneTrip.chunk_read (a10).view g10 (k3_off104 k) _ hoff _ ⟨15, hj⟩ h1) ?_
    have hA0 : ∀ w : BitVec 32, (k3_off135 k w) 0 = 16 * k.val + 15 := fun w => ChkLib.row_toNat k.val hk 15#32 (by decide)
    have hA1 : ∀ w : BitVec 32, (k3_off135 k w) 1 = ((w &&& 127#32) &&& 112#32).toNat := fun w => rfl
    have hB : ∀ w : BitVec 32, (k3_off136 w) 0 = 32 * 15 + (w.toNat % 16 + 16 - 15) % 16 :=
      fun w => IdBits.start_toNat 480#32 w 15#32 (by decide) (by decide)
    have hw : region4.sl.v699 d L k g6 = (a6).view.read (Elt F) g6 (ix1 ⟨128 * 3 + 16 * k.val + 15, h1⟩) := by
      delta_sl [v699, r]
      simp only [LanePayK3.k3_pay308_nf, LanePayK3.k3_pay235_nf, View.readAt_rect]
      exact (LaneLib.extract_lane (((a6).view.slice (Rect.unit (s := S512) (k3_off104 k) S16.size (k3_off104_inb k))).read (Elt F) g6) 15 (by decide) _ _).trans (hid ⟨15, by decide⟩ h1)
    delta_sl [v719, H11_32, r_3, r_4, r_8, r_15]
    simp only [LanePayK3.k3_pay235_nf, LanePayK3.k3_pay236_nf, LanePayK3.k3_pay237_nf, LanePayK3.k3_pay238_nf, LanePayK3.k3_pay239_nf, LanePayK3.k3_pay240_nf, LanePayK3.k3_pay241_nf, LanePayK3.k3_pay242_nf, LanePayK3.k3_pay243_nf, LanePayK3.k3_pay244_nf, LanePayK3.k3_pay245_nf, LanePayK3.k3_pay246_nf, LanePayK3.k3_pay247_nf, LanePayK3.k3_pay248_nf, LanePayK3.k3_pay249_nf, LanePayK3.k3_pay250_nf, LanePayK3.k3_pay251_nf, LanePayK3.k3_pay252_nf, LanePayK3.k3_pay253_nf, LanePayK3.k3_pay254_nf, LanePayK3.k3_pay255_nf, LanePayK3.k3_pay256_nf, LanePayK3.k3_pay257_nf, LanePayK3.k3_pay258_nf, LanePayK3.k3_pay259_nf, LanePayK3.k3_pay260_nf, LanePayK3.k3_pay261_nf, LanePayK3.k3_pay262_nf, LanePayK3.k3_pay263_nf, LanePayK3.k3_pay264_nf, LanePayK3.k3_pay265_nf, LanePayK3.k3_pay266_nf, LanePayK3.k3_pay267_nf, LanePayK3.k3_pay268_nf, LanePayK3.k3_pay269_nf, LanePayK3.k3_pay270_nf, LanePayK3.k3_pay271_nf, LanePayK3.k3_pay272_nf, LanePayK3.k3_pay273_nf, LanePayK3.k3_pay274_nf, LanePayK3.k3_pay275_nf, LanePayK3.k3_pay276_nf, LanePayK3.k3_pay277_nf, LanePayK3.k3_pay278_nf, LanePayK3.k3_pay279_nf, LanePayK3.k3_pay280_nf, LanePayK3.k3_pay281_nf, LanePayK3.k3_pay282_nf, LanePayK3.k3_pay283_nf, LanePayK3.k3_pay284_nf, LanePayK3.k3_pay285_nf, LanePayK3.k3_pay286_nf, LanePayK3.k3_pay287_nf, LanePayK3.k3_pay288_nf, LanePayK3.k3_pay289_nf, LanePayK3.k3_pay290_nf, LanePayK3.k3_pay291_nf, LanePayK3.k3_pay292_nf, LanePayK3.k3_pay293_nf, LanePayK3.k3_pay294_nf, LanePayK3.k3_pay295_nf, LanePayK3.k3_pay296_nf, LanePayK3.k3_pay297_nf, LanePayK3.k3_pay298_nf, LanePayK3.k3_pay299_nf, LanePayK3.k3_pay300_nf, LanePayK3.k3_pay301_nf, LanePayK3.k3_pay302_nf, LanePayK3.k3_pay303_nf, LanePayK3.k3_pay304_nf, LanePayK3.k3_pay305_nf, LanePayK3.k3_pay306_nf, LanePayK3.k3_pay307_nf, LanePayK3.k3_pay308_nf, LanePayK3.k3_pay309_nf, LanePayK3.k3_pay310_nf, LanePayK3.k3_pay311_nf, LanePayK3.k3_pay312_nf, View.readAt_rect]
    exact LaneTrip.lane_value_at (a11).view _ (a9).view gB _ (k3_off135 k (region4.sl.v699 d L k g6)) (k3_off136 (region4.sl.v699 d L k g6)) ![480] ![496] _ _ _ _ shapeCasts_S1x16_S16 k.val 15 (region4.sl.v699 d L k g6) _ hk (by decide) (hA0 _) (hA1 _) (hB _) rfl rfl h2 hw

end Cert.Kernel.TileK3

end
-- ==== Proof.Kernel.TileK3V.lean ====
/-
  One vector subcore's task of the second gather kernel with its value: as the frame, and moreover the tile's 512 output
  entries end at the base value plus the table entry the id selects. The value is carried in the loops' invariants:
  before trip g of chunk c the output buffer is right below entry 128 c + 16 g; a trip's sixteen results are right by
  the trip theorem, the gathered buffer's row r being the table's row (id at 128 c + r) / 128 and the id's lane being
  id mod 128; the copy-out moves the 512 entries to the tile's rows of the output.
-/
import proofs.«204913_g64682207478566_cont_9to1c4b_713_31_alg».proof.Proof.Kernel.TileK3
import proofs.«204913_g64682207478566_cont_9to1c4b_713_31_alg».proof.Proof.Kernel.RegionK3
import proofs.«204913_g64682207478566_cont_9to1c4b_713_31_alg».proof.Proof.ValsB
import proofs.«204913_g64682207478566_cont_9to1c4b_713_31_alg».proof.Proof.GatherValB
import proofs.«204913_g64682207478566_cont_9to1c4b_713_31_alg».proof.Proof.TileValLibB
import proofs.«204913_g64682207478566_cont_9to1c4b_713_31_alg».proof.Proof.TileLinkB
import proofs.«204913_g64682207478566_cont_9to1c4b_713_31_alg».proof.Proof.Gen.Kernel.Skeleton
import proofs.«204913_g64682207478566_cont_9to1c4b_713_31_alg».proof.Proof.ChkLib
import Idealize.ShloMosaic.Lib.Pipeline.Value
import Idealize.ShloMosaic.Lib.ValueIdx

noncomputable section

namespace Cert.Kernel.TileK3

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "iV" => (Memref.whole Cert.Kernel.main_arg1_scv : Memref Cert.Kernel.sig Kind.scVector Space.hbm Cert.Kernel.S16384 EltTy.i32)
local notation "tV" => (Memref.whole Cert.Kernel.main_v11_scv : Memref Cert.Kernel.sig Kind.scVector Space.hbm Cert.Kernel.S784x128 EltTy.f32)
local notation "bV" => (Memref.whole Cert.Kernel.main_v8_scv : Memref Cert.Kernel.sig Kind.scVector Space.hbm Cert.Kernel.S16384 EltTy.f32)
local notation "oV" => (Memref.whole Cert.Kernel.main_v12_scv : Memref Cert.Kernel.sig Kind.scVector Space.hbm Cert.Kernel.S16384 EltTy.f32)
local notation "a6" => (Memref.whole Cert.Kernel.cc3_scratch0 : Memref Cert.Kernel.sig Kind.scVector Space.vmem Cert.Kernel.S512 EltTy.i32)
local notation "a7" => (Memref.whole Cert.Kernel.cc3_scratch1 : Memref Cert.Kernel.sig Kind.scVector Space.vmem Cert.Kernel.S512 EltTy.i32)
local notation "a8" => (Memref.whole Cert.Kernel.cc3_scratch2 : Memref Cert.Kernel.sig Kind.scVector Space.vmem Cert.Kernel.S128x128 EltTy.f32)
local notation "a9" => (Memref.whole Cert.Kernel.cc3_scratch3 : Memref Cert.Kernel.sig Kind.scVector Space.vmem Cert.Kernel.S128x128 EltTy.f32)
local notation "a10" => (Memref.whole Cert.Kernel.cc3_scratch4 : Memref Cert.Kernel.sig Kind.scVector Space.vmem Cert.Kernel.S512 EltTy.f32)
local notation "a11" => (Memref.whole Cert.Kernel.cc3_scratch5 : Memref Cert.Kernel.sig Kind.scVector Space.vmem Cert.Kernel.S512 EltTy.f32)
local notation "a12" => (Memref.whole Cert.Kernel.cc3_scratch6 : Memref Cert.Kernel.sig Kind.scVector Space.vmem Cert.Kernel.S512 EltTy.f32)

variable [FloatOps F]
variable (d : Dev nD) (L : grid3.Coords)

/-- The value a tile leaves at its entry `r`: the base value there plus the table's entry at the row and lane the id selects. -/
def VAL (L : grid3.Coords) (ids : IVec S16384 32) (bs : FVec F S16384 .f32) (tbl : FVec F S784x128 .f32) (r : Fin 512) : F .f32 :=
  FloatOps.addf (bs (Vals.bidx L r)) (tbl (ix2 (Vals.trow 784 (by decide) (ids (Vals.bidx L r))) (Vals.tlane (ids (Vals.bidx L r)))))

/-- A chunk's loop over buffer A before trip `g`: the ids, the base values and the gathered rows as they stand, the rotate
    buffer at some contents, and the output buffer correct below entry `128 c + 16 g`. -/
def invVA (d : Dev nD) (L : grid3.Coords) (F6 : Buf (Elt F) ((a6).view.loc (V d (cV L) (jV L)))) (F10 : Buf (Elt F) ((a10).view.loc (V d (cV L) (jV L))))
    (FB : Buf (Elt F) ((a8).view.loc (V d (cV L) (jV L)))) (c : Nat) (val : Fin 512 → F .f32) (g : Nat) (_ : BitVec 32) : sProp 𝕄 :=
  iprop(((a6).view.loc (V d (cV L) (jV L)) ↦{fullShare} F6) ∗ ((a10).view.loc (V d (cV L) (jV L)) ↦{fullShare} F10) ∗ ((a8).view.loc (V d (cV L) (jV L)) ↦{fullShare} FB)
    ∗ (∃ f, (a11).view.loc (V d (cV L) (jV L)) ↦{fullShare} f)
    ∗ ∃ fo, ((a12).view.loc (V d (cV L) (jV L)) ↦{fullShare} fo) ∗ ⌜∀ r : Fin 512, r.val < 128 * c + 16 * g → (a12).view.read (Elt F) fo (ix1 r) = val r⌝)
/-- The same over buffer B. -/
def invVB (d : Dev nD) (L : grid3.Coords) (F6 : Buf (Elt F) ((a6).view.loc (V d (cV L) (jV L)))) (F10 : Buf (Elt F) ((a10).view.loc (V d (cV L) (jV L))))
    (FB : Buf (Elt F) ((a9).view.loc (V d (cV L) (jV L)))) (c : Nat) (val : Fin 512 → F .f32) (g : Nat) (_ : BitVec 32) : sProp 𝕄 :=
  iprop(((a6).view.loc (V d (cV L) (jV L)) ↦{fullShare} F6) ∗ ((a10).view.loc (V d (cV L) (jV L)) ↦{fullShare} F10) ∗ ((a9).view.loc (V d (cV L) (jV L)) ↦{fullShare} FB)
    ∗ (∃ f, (a11).view.loc (V d (cV L) (jV L)) ↦{fullShare} f)
    ∗ ∃ fo, ((a12).view.loc (V d (cV L) (jV L)) ↦{fullShare} fo) ∗ ⌜∀ r : Fin 512, r.val < 128 * c + 16 * g → (a12).view.read (Elt F) fo (ix1 r) = val r⌝)
set_option maxHeartbeats 4000000 in
theorem tile_body (qi qt qb : PosShare TreeShare)
    (ids : Buf (Elt F) (iLoc d)) (tbl : Buf (Elt F) (tLoc d)) (bs : Buf (Elt F) (bLoc d)) (o0 : Buf (Elt F) (oLoc d))
    (hin : ∀ j, (ids j).toNat ≤ 99999) (hchk : ChkAll) (hF : (K (F := F)).Facts)
    (O : CellTallies nD τ sig (HIx 2)) (W : Waits sig (HIx 2)) (hO : ∀ g, O g none = 0) :
    iprop(levAts (K (F := F)).L (K (F := F)).lev ∗ emp ∗ (((iLoc d ↦{qi} ids : sProp 𝕄)) ∗ (tLoc d ↦{qt} tbl) ∗ (bLoc d ↦{qb} bs) ∗ (oLoc d ↦[oRowSet L]{fullShare} o0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__sc_gather_body L iV (Memref.isWhole_whole _) tV (Memref.isWhole_whole _) bV (Memref.isWhole_whole _) oV (Memref.isWhole_whole _)
            a6 (Memref.isWhole_whole _) a7 (Memref.isWhole_whole _) a8 (Memref.isWhole_whole _) a9 (Memref.isWhole_whole _) a10 (Memref.isWhole_whole _)
            a11 (Memref.isWhole_whole _) a12 (Memref.isWhole_whole _) cc3_scratch7 cc3_scratch8 cc3_scoped0 cc3_scoped1 cc3_scoped2)
          fun _ => iprop(((iLoc d ↦{qi} ids) ∗ (tLoc d ↦{qt} tbl) ∗ (bLoc d ↦{qb} bs)
              ∗ ∃ f : Buf (Elt F) (oLoc d), (oLoc d ↦[oRowSet L]{fullShare} f) ∗ ⌜Vals.TileVal (R := 784) (by decide) L ids bs tbl f⌝)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_gather_body_eq_skeleton]; unfold cc3__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Hb, Ho⟩, ⟨⟨%f6, H6⟩, ⟨%f7, H7⟩, ⟨%f8, H8⟩, ⟨%f9, H9⟩, ⟨%f10, H10⟩, ⟨%f11, H11⟩, ⟨%f12, H12⟩, Hbufs⟩, ⟨Hs13, Hs14, Hr0, Hr1, Hr2, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Hb' := (Entails.of_eq (pts_bV (F := F) d L _ _).symm) $$ Hb
  ihave Ho' := (Entails.of_eq (pts_oRowK (F := F) d L _).symm) $$ Ho
  ihave H6' := (Entails.of_eq (show ((V d (cV L) (jV L)).loc cc3_scratch0 ↦{fullShare} f6 : sProp 𝕄) = ((a6).view.loc (V d (cV L) (jV L)) ↦{fullShare} f6) from rfl)) $$ H6
  ihave H7' := (Entails.of_eq (show ((V d (cV L) (jV L)).loc cc3_scratch1 ↦{fullShare} f7 : sProp 𝕄) = ((a7).view.loc (V d (cV L) (jV L)) ↦{fullShare} f7) from rfl)) $$ H7
  ihave H8' := (Entails.of_eq (show ((V d (cV L) (jV L)).loc cc3_scratch2 ↦{fullShare} f8 : sProp 𝕄) = ((a8).view.loc (V d (cV L) (jV L)) ↦{fullShare} f8) from rfl)) $$ H8
  ihave H9' := (Entails.of_eq (show ((V d (cV L) (jV L)).loc cc3_scratch3 ↦{fullShare} f9 : sProp 𝕄) = ((a9).view.loc (V d (cV L) (jV L)) ↦{fullShare} f9) from rfl)) $$ H9
  ihave H10' := (Entails.of_eq (show ((V d (cV L) (jV L)).loc cc3_scratch4 ↦{fullShare} f10 : sProp 𝕄) = ((a10).view.loc (V d (cV L) (jV L)) ↦{fullShare} f10) from rfl)) $$ H10
  ihave H11' := (Entails.of_eq (show ((V d (cV L) (jV L)).loc cc3_scratch5 ↦{fullShare} f11 : sProp 𝕄) = ((a11).view.loc (V d (cV L) (jV L)) ↦{fullShare} f11) from rfl)) $$ H11
  ihave H12' := (Entails.of_eq (show ((V d (cV L) (jV L)).loc cc3_scratch6 ↦{fullShare} f12 : sProp 𝕄) = ((a12).view.loc (V d (cV L) (jV L)) ↦{fullShare} f12) from rfl)) $$ H12
  sl_exec
  -- what the prologue left in the row list: at every position the id there, shifted right by 7
  have hdma : ∀ y, (tile_body.sl.dma0 d L ids y).toNat ≤ 99999 := fun y => by
    unfold tile_body.sl.dma0
    rw [ReadAs.apply_same, View.read_apply]
    exact hin _
  have hrow : ∀ y : S512.Idx, (a7).view.read (Elt F) ((a7).view.writes (Elt F) (a7).view.junk (tile_body.sl.H7'_32 d L ids f6)) y
      = IntOp.shrui .vector (tile_body.sl.dma0 d L ids y) 7#32 := by
    intro y
    refine View.read_writes_apply_of_pieces (Val := Elt F) (a7).view _ (fun y => (IntOp.shrui .vector (tile_body.sl.dma0 d L ids y) 7#32 : Elt F .i32)) _ ?_ y ?_
    · unfold tile_body.sl.H7'_32
      simp only [List.forall_mem_cons, List.not_mem_nil, false_imp_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals (intro x; delta_run; simp only [k3_pay347, shapeCast_self, View.write_whole_univ, View.readAt_apply, View.read_whole, shrui, broadcast]; try rfl)
    · unfold tile_body.sl.H7'_32
      exact View.cover_of_tiled _ ![16] rfl y
  have hset8 : (a8).view.set = Finset.univ := View.set_whole _
  have hset9 : (a9).view.set = Finset.univ := View.set_whole _
  have hinK : ∀ (off : Fin 1 → Nat) (inb : ∀ a, off a + S128.size a ≤ S512.size a) (h1 : ∀ a, (Rect.unit (s := S512) off S128.size inb).stride a = 1) x,
      (((a7).slice (Rect.unit (s := S512) off S128.size inb) h1).view.read (Elt F) ((a7).view.writes (Elt F) (a7).view.junk (tile_body.sl.H7'_32 d L ids f6)) x).toNat < S784x128.size gathers_S784x128_S128x128.axis := by
    intro off inb h1 x
    have e : ((a7).slice (Rect.unit (s := S512) off S128.size inb) h1).view.read (Elt F) ((a7).view.writes (Elt F) (a7).view.junk (tile_body.sl.H7'_32 d L ids f6)) x
        = (a7).view.read (Elt F) ((a7).view.writes (Elt F) (a7).view.junk (tile_body.sl.H7'_32 d L ids f6)) ((Rect.unit (s := S512) off S128.size inb).toLoadRect.idx x) := rfl
    rw [e, hrow]
    exact Cert.Proof.ChkLib.shrui_7_lt_of_le_99999 _ (hdma _)
  -- the table's share and the row list's, halved: one half per semaphore
  ihave Hts := (pointsTo_share (PosShare.mem_left_op_right qt)).1 $$ Ht'
  icases Hts with ⟨HtL, HtR⟩
  ihave H7s := (pointsTo_share (PosShare.mem_left_op_right fullShare)).1 $$ H7'
  icases H7s with ⟨H7L, H7R⟩
  sl_exec
  -- the ids and the base values as the tile holds them
  have hi6 : ∀ r : Fin 512, (a6).view.read (Elt F) (View.write (Elt F) (a6).view f6 (tile_body.sl.dma0 d L ids) Finset.univ) (ix1 r) = ids (Vals.bidx L r) :=
    fun r => TileLink.ids_read3 L _ f6 ids r
  have hb10 : ∀ r : Fin 512, (a10).view.read (Elt F) (View.write (Elt F) (a10).view f10 (tile_body.sl.dma0_1 d L bs) Finset.univ) (ix1 r) = bs (Vals.bidx L r) :=
    fun r => TileLink.base_read3 L _ f10 bs r
  have h6eq : (a6).view.read (Elt F) (View.write (Elt F) (a6).view f6 (tile_body.sl.dma0 d L ids) Finset.univ) = tile_body.sl.dma0 d L ids := by
    simp only [Memref.view_whole, View.write_whole_univ, View.read_whole]
  have hrow' : ∀ y : S512.Idx, (a7).view.read (Elt F) ((a7).view.writes (Elt F) (a7).view.junk (tile_body.sl.H7'_32 d L ids f6)) y = IntOp.shrui .vector ((a6).view.read (Elt F) (View.write (Elt F) (a6).view f6 (tile_body.sl.dma0 d L ids) Finset.univ) y) 7#32 := by
    intro y; rw [h6eq]; exact hrow y
  have hlt' : ∀ y : S512.Idx, ((a6).view.read (Elt F) (View.write (Elt F) (a6).view f6 (tile_body.sl.dma0 d L ids) Finset.univ) y).toNat ≤ 99999 := by
    intro y; rw [h6eq]; exact hdma y
  -- chunk 0: what its buffer holds, then its loop
  have hrB1 : ∀ (i j : Fin 128) (h : 128 * 0 + i.val < 512), (a8).view.read (Elt F) ((a8).view.writes (Elt F) (a8).view.junk [⟨Rect.whole _, tile_body.sl.gather0 d L ids tbl f6 hinK⟩]) (ix2 i j)
      = tbl (ix2 (Vals.trow 784 (by decide) ((a6).view.read (Elt F) (View.write (Elt F) (a6).view f6 (tile_body.sl.dma0 d L ids) Finset.univ) (ix1 ⟨128 * 0 + i.val, h⟩))) j) :=
    fun i j h => TileLink.gathered_read3 (a8).view _ tbl ((a7).view.writes (Elt F) (a7).view.junk (tile_body.sl.H7'_32 d L ids f6)) _ hrow' hlt' ![0] inb_S512_S128_0 _ _ _ _ _ i j
  have hlink1 := TileLink.link3 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a8).view.read (Elt F) ((a8).view.writes (Elt F) (a8).view.junk [⟨Rect.whole _, tile_body.sl.gather0 d L ids tbl f6 hinK⟩])) 0 hi6 hb10 hrB1
  sl_for (invVA (F := F) d L (View.write (Elt F) (a6).view f6 (tile_body.sl.dma0 d L ids) Finset.univ) (View.write (Elt F) (a10).view f10 (tile_body.sl.dma0_1 d L bs) Finset.univ) ((a8).view.writes (Elt F) (a8).view.junk [⟨Rect.whole _, tile_body.sl.gather0 d L ids tbl f6 hinK⟩]) 0 (VAL L ids bs tbl)) $$ [H6' H10' H8' H11' H12']
  case region =>
    intro k acc
    unfold invVA
    iintro ⟨H6, H10, HB, ⟨%g11, H11⟩, %fo, H12, %hgood⟩
    ihave Hwp := (region1 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k3_off35 k) 0 = 128 * 0 + 16 * k.val := by
      rw [k3_off35_eq]; show (16 * k.val : Nat) = _; omega
    have hstep := TileValLib.writes_step (Val := Elt F) (a12).view fo (k3_off35 k) (k3_off35_inb k) (128 * 0 + 16 * k.val) hoff v (VAL L ids bs tbl) hgood
      (fun l h => (hv l h (by omega)).trans (hlink1 k.val l h (by omega)))
    intro r hr
    exact hstep r (by omega)
  · unfold invVA
    isplitl [H6']; · iexact H6'
    isplitl [H10']; · iexact H10'
    isplitl [H8']; · iexact H8'
    isplitl [H11']; · iexists _; iexact H11'
    iexists _; isplitl [H12']; · iexact H12'
    ipureintro
    exact fun r hr => absurd hr (by omega)
  iintro %_ HI
  unfold invVA
  icases HI with ⟨H6', H10', H8', ⟨%h11_1, H11'⟩, %fo1, H12', %hgood1⟩
  sl_exec
  -- chunk 1: what its buffer holds, then its loop
  have hrB2 : ∀ (i j : Fin 128) (h : 128 * 1 + i.val < 512), (a9).view.read (Elt F) ((a9).view.writes (Elt F) (a9).view.junk [⟨Rect.whole _, tile_body.sl.gather1 d L ids tbl f6 hinK⟩]) (ix2 i j)
      = tbl (ix2 (Vals.trow 784 (by decide) ((a6).view.read (Elt F) (View.write (Elt F) (a6).view f6 (tile_body.sl.dma0 d L ids) Finset.univ) (ix1 ⟨128 * 1 + i.val, h⟩))) j) :=
    fun i j h => TileLink.gathered_read3 (a9).view _ tbl ((a7).view.writes (Elt F) (a7).view.junk (tile_body.sl.H7'_32 d L ids f6)) _ hrow' hlt' ![128] inb_S512_S128_128 _ _ _ _ _ i j
  have hlink2 := TileLink.link3 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a9).view.read (Elt F) ((a9).view.writes (Elt F) (a9).view.junk [⟨Rect.whole _, tile_body.sl.gather1 d L ids tbl f6 hinK⟩])) 1 hi6 hb10 hrB2
  sl_for (invVB (F := F) d L (View.write (Elt F) (a6).view f6 (tile_body.sl.dma0 d L ids) Finset.univ) (View.write (Elt F) (a10).view f10 (tile_body.sl.dma0_1 d L bs) Finset.univ) ((a9).view.writes (Elt F) (a9).view.junk [⟨Rect.whole _, tile_body.sl.gather1 d L ids tbl f6 hinK⟩]) 1 (VAL L ids bs tbl)) $$ [H6' H10' H9' H11' H12']
  case region =>
    intro k acc
    unfold invVB
    iintro ⟨H6, H10, HB, ⟨%g11, H11⟩, %fo, H12, %hgood⟩
    ihave Hwp := (region2 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k3_off69 k) 0 = 128 * 1 + 16 * k.val := by
      rw [k3_off69_eq]; show (16 * k.val + 128 : Nat) = _; omega
    have hstep := TileValLib.writes_step (Val := Elt F) (a12).view fo (k3_off69 k) (k3_off69_inb k) (128 * 1 + 16 * k.val) hoff v (VAL L ids bs tbl) hgood
      (fun l h => (hv l h (by omega)).trans (hlink2 k.val l h (by omega)))
    intro r hr
    exact hstep r (by omega)
  · unfold invVB
    isplitl [H6']; · iexact H6'
    isplitl [H10']; · iexact H10'
    isplitl [H9']; · iexact H9'
    isplitl [H11']; · iexists _; iexact H11'
    iexists _; isplitl [H12']; · iexact H12'
    ipureintro
    intro r hr
    exact hgood1 r (by rw [show Scf.trips k3_t1_loop.lb k3_t1_loop.ub k3_t1_loop.st = 8 from Cert.Proof.ChkLib.trips_eq_8]; omega)
  iintro %_ HI
  unfold invVB
  icases HI with ⟨H6', H10', H9', ⟨%h11_2, H11'⟩, %fo2, H12', %hgood2⟩
  sl_exec
  -- chunk 2: what its buffer holds, then its loop
  have hrB3 : ∀ (i j : Fin 128) (h : 128 * 2 + i.val < 512), (a8).view.read (Elt F) ((a8).view.writes (Elt F) (a8).view.junk [⟨Rect.whole _, tile_body.sl.gather0_1 d L ids tbl f6 hinK⟩, ⟨Rect.whole _, tile_body.sl.gather0 d L ids tbl f6 hinK⟩]) (ix2 i j)
      = tbl (ix2 (Vals.trow 784 (by decide) ((a6).view.read (Elt F) (View.write (Elt F) (a6).view f6 (tile_body.sl.dma0 d L ids) Finset.univ) (ix1 ⟨128 * 2 + i.val, h⟩))) j) :=
    fun i j h => TileLink.gathered_read3 (a8).view _ tbl ((a7).view.writes (Elt F) (a7).view.junk (tile_body.sl.H7'_32 d L ids f6)) _ hrow' hlt' ![256] inb_S512_S128_256 _ _ _ _ _ i j
  have hlink3 := TileLink.link3 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a8).view.read (Elt F) ((a8).view.writes (Elt F) (a8).view.junk [⟨Rect.whole _, tile_body.sl.gather0_1 d L ids tbl f6 hinK⟩, ⟨Rect.whole _, tile_body.sl.gather0 d L ids tbl f6 hinK⟩])) 2 hi6 hb10 hrB3
  sl_for (invVA (F := F) d L (View.write (Elt F) (a6).view f6 (tile_body.sl.dma0 d L ids) Finset.univ) (View.write (Elt F) (a10).view f10 (tile_body.sl.dma0_1 d L bs) Finset.univ) ((a8).view.writes (Elt F) (a8).view.junk [⟨Rect.whole _, tile_body.sl.gather0_1 d L ids tbl f6 hinK⟩, ⟨Rect.whole _, tile_body.sl.gather0 d L ids tbl f6 hinK⟩]) 2 (VAL L ids bs tbl)) $$ [H6' H10' H8' H11' H12']
  case region =>
    intro k acc
    unfold invVA
    iintro ⟨H6, H10, HB, ⟨%g11, H11⟩, %fo, H12, %hgood⟩
    ihave Hwp := (region3 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k3_off103 k) 0 = 128 * 2 + 16 * k.val := by
      rw [k3_off103_eq]; show (16 * k.val + 256 : Nat) = _; omega
    have hstep := TileValLib.writes_step (Val := Elt F) (a12).view fo (k3_off103 k) (k3_off103_inb k) (128 * 2 + 16 * k.val) hoff v (VAL L ids bs tbl) hgood
      (fun l h => (hv l h (by omega)).trans (hlink3 k.val l h (by omega)))
    intro r hr
    exact hstep r (by omega)
  · unfold invVA
    isplitl [H6']; · iexact H6'
    isplitl [H10']; · iexact H10'
    isplitl [H8']; · iexact H8'
    isplitl [H11']; · iexists _; iexact H11'
    iexists _; isplitl [H12']; · iexact H12'
    ipureintro
    intro r hr
    exact hgood2 r (by rw [show Scf.trips k3_t2_loop.lb k3_t2_loop.ub k3_t2_loop.st = 8 from Cert.Proof.ChkLib.trips_eq_8]; omega)
  iintro %_ HI
  unfold invVA
  icases HI with ⟨H6', H10', H8', ⟨%h11_3, H11'⟩, %fo3, H12', %hgood3⟩
  sl_exec
  -- chunk 3: what its buffer holds, then its loop
  have hrB4 : ∀ (i j : Fin 128) (h : 128 * 3 + i.val < 512), (a9).view.read (Elt F) ((a9).view.writes (Elt F) (a9).view.junk [⟨Rect.whole _, tile_body.sl.gather0_2 d L ids tbl f6 hinK⟩, ⟨Rect.whole _, tile_body.sl.gather1 d L ids tbl f6 hinK⟩]) (ix2 i j)
      = tbl (ix2 (Vals.trow 784 (by decide) ((a6).view.read (Elt F) (View.write (Elt F) (a6).view f6 (tile_body.sl.dma0 d L ids) Finset.univ) (ix1 ⟨128 * 3 + i.val, h⟩))) j) :=
    fun i j h => TileLink.gathered_read3 (a9).view _ tbl ((a7).view.writes (Elt F) (a7).view.junk (tile_body.sl.H7'_32 d L ids f6)) _ hrow' hlt' ![384] inb_S512_S128_384 _ _ _ _ _ i j
  have hlink4 := TileLink.link3 L ids bs tbl ((a6).view.read (Elt F) (View.write (Elt F) (a6).view f6 (tile_body.sl.dma0 d L ids) Finset.univ)) ((a10).view.read (Elt F) (View.write (Elt F) (a10).view f10 (tile_body.sl.dma0_1 d L bs) Finset.univ))
    ((a9).view.read (Elt F) ((a9).view.writes (Elt F) (a9).view.junk [⟨Rect.whole _, tile_body.sl.gather0_2 d L ids tbl f6 hinK⟩, ⟨Rect.whole _, tile_body.sl.gather1 d L ids tbl f6 hinK⟩])) 3 hi6 hb10 hrB4
  sl_for (invVB (F := F) d L (View.write (Elt F) (a6).view f6 (tile_body.sl.dma0 d L ids) Finset.univ) (View.write (Elt F) (a10).view f10 (tile_body.sl.dma0_1 d L bs) Finset.univ) ((a9).view.writes (Elt F) (a9).view.junk [⟨Rect.whole _, tile_body.sl.gather0_2 d L ids tbl f6 hinK⟩, ⟨Rect.whole _, tile_body.sl.gather1 d L ids tbl f6 hinK⟩]) 3 (VAL L ids bs tbl)) $$ [H6' H10' H9' H11' H12']
  case region =>
    intro k acc
    unfold invVB
    iintro ⟨H6, H10, HB, ⟨%g11, H11⟩, %fo, H12, %hgood⟩
    ihave Hwp := (region4 (F := F) d L hchk k acc _ _ _ g11 fo) $$ [H6 H10 HB H11 H12]
    · isplitl [H6]; · iexact H6
      isplitl [H10]; · iexact H10
      isplitl [HB]; · iexact HB
      isplitl [H11]; · iexact H11
      iexact H12
    iapply (wp_mono frame _ _ (fun _ => ?_)) $$ Hwp
    iintro ⟨H6, H10, HB, H11, %v, H12, %hv⟩
    isplitl [H6]; · iexact H6
    isplitl [H10]; · iexact H10
    isplitl [HB]; · iexact HB
    isplitl [H11]; · iexact H11
    iexists _; isplitl [H12]; · iexact H12
    ipureintro
    have hk8 : k.val < 8 := lt_of_lt_of_eq k.isLt Cert.Proof.ChkLib.trips_eq_8
    have hoff : (k3_off137 k) 0 = 128 * 3 + 16 * k.val := by
      rw [k3_off137_eq]; show (16 * k.val + 384 : Nat) = _; omega
    have hstep := TileValLib.writes_step (Val := Elt F) (a12).view fo (k3_off137 k) (k3_off137_inb k) (128 * 3 + 16 * k.val) hoff v (VAL L ids bs tbl) hgood
      (fun l h => (hv l h (by omega)).trans (hlink4 k.val l h (by omega)))
    intro r hr
    exact hstep r (by omega)
  · unfold invVB
    isplitl [H6']; · iexact H6'
    isplitl [H10']; · iexact H10'
    isplitl [H9']; · iexact H9'
    isplitl [H11']; · iexists _; iexact H11'
    iexists _; isplitl [H12']; · iexact H12'
    ipureintro
    intro r hr
    exact hgood3 r (by rw [show Scf.trips k3_t3_loop.lb k3_t3_loop.ub k3_t3_loop.st = 8 from Cert.Proof.ChkLib.trips_eq_8]; omega)
  iintro %_ HI
  unfold invVB
  icases HI with ⟨H6', H10', H9', ⟨%h11_4, H11'⟩, %fo4, H12', %hgood4⟩
  sl_exec
  sl_step
  ihave Ht := (pointsTo_share (PosShare.mem_left_op_right qt)).2 $$ [HtL HtR]; · isplitl [HtL] <;> iassumption
  ihave H7 := (pointsTo_share (PosShare.mem_left_op_right fullShare)).2 $$ [H7L H7R]; · isplitl [H7L] <;> iassumption
  isplitl [Hi' Ht Hb' Ho']
  · isplitl [Hi']; · iexact Hi'
    isplitl [Ht]; · iexact Ht
    isplitl [Hb']; · iexact Hb'
    iexists _; isplitl [Ho']; · iexact Ho'
    ipureintro
    intro r
    refine (TileValLib.copyout_writes_bidx3 (Val := Elt F) L _ o0 _ r).trans ?_
    show tile_body.sl.dma0_2 d L fo4 (ix1 r) = _
    unfold tile_body.sl.dma0_2
    rw [ReadAs.apply_same]
    exact hgood4 r (by rw [show Scf.trips k3_t4_loop.lb k3_t4_loop.ub k3_t4_loop.st = 8 from Cert.Proof.ChkLib.trips_eq_8]; omega)
  isplitl [H6' H7 H8' H9' H10' H11' H12' Hbufs]
  · isplitl [H6']; · iexists _; iexact H6'
    isplitl [H7]; · iexists _; iexact H7
    isplitl [H8']; · iexists _; iexact H8'
    isplitl [H9']; · iexists _; iexact H9'
    isplitl [H10']; · iexists _; iexact H10'
    isplitl [H11']; · iexists _; iexact H11'
    isplitl [H12']; · iexists _; iexact H12'
    iexact Hbufs
  isplitl [Hs13 Hs14 Hr0 Hr1 Hr2 Hsems]
  · isplitl [Hs13]; · iexact Hs13
    isplitl [Hs14]; · iexact Hs14
    isplitl [Hr0]; · iexact Hr0
    isplitl [Hr1]; · iexact Hr1
    isplitl [Hr2]; · iexact Hr2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Kernel.TileK3

end
-- ==== Proof.Kernel.BridgeK3.lean ====
/-
  The second gather kernel's tile, in the first's terms: both kernels cut the batch into the same 32 runs of 512 rows
  (tile (c, s) starts at row 1024 s + 512 c in both), so the rows a tile of the second kernel owns of its output are
  the rows the first kernel's tile owns, and the two tiles run on the same vector subcore.
-/
import proofs.«204913_g64682207478566_cont_9to1c4b_713_31_alg».proof.Proof.Kernel.TileK3Defs
import proofs.«204913_g64682207478566_cont_9to1c4b_713_31_alg».proof.Proof.Kernel.TileK1Defs
import proofs.«204913_g64682207478566_cont_9to1c4b_713_31_alg».proof.Proof.PayMB

noncomputable section

namespace Cert.Kernel.BridgeK3

open Cert.Kernel Cert.Kernel.Gen Cert.Kernel.Common Cert.Kernel.PayM

open Idealize.ShloMosaic

/-- The two kernels' tiles start at the same row. -/
theorem off3_eq (L : grid1.Coords) : k3_off1 L = k1_off1 L := (k3_off1_eq L).trans (k1_off1_eq L).symm

/-- A run of 512 rows is determined by where it starts. -/
theorem unit_off (o o' : Fin 1 → Nat) (e : o = o') (h : ∀ a, o a + S512.size a ≤ S16384.size a)
    (h' : ∀ a, o' a + S512.size a ≤ S16384.size a) :
    Rect.unit (s := S16384) o S512.size h = Rect.unit (s := S16384) o' S512.size h' := by
  subst e; rfl

/-- The rows of the first kernel's tile, as its body slices them, are the tile's rows. -/
theorem oRowSet1_eq (L : grid1.Coords) : TileK1.oRowSet L = rowSet L := rfl

/-- The rows of the second kernel's tile, as its body slices them, are the same rows. -/
theorem oRowSet3_eq (L : grid1.Coords) : TileK3.oRowSet L = rowSet L := by
  have e1 : rowSet L = (Rect.unit (s := S16384) (k1_off1 L) S512.size (k1_off1_inb L)).set := by
    show ((View.whole (main_v8_scv : Ref sig .scVector)).slice _).set = _
    exact View.set_slice_whole _ _
  have e3 : TileK3.oRowSet L = (Rect.unit (s := S16384) (k3_off1 L) S512.size (k3_off1_inb L)).set := by
    show ((View.whole (main_v12_scv : Ref sig .scVector)).slice _).set = _
    exact View.set_slice_whole _ _
  rw [e3, e1, unit_off _ _ (off3_eq L)]

/-- The two kernels' tiles run on the same vector subcore. -/
theorem cV_eq (L : grid1.Coords) : TileK3.cV L = TileK1.cV L := rfl
theorem jV_eq (L : grid1.Coords) : TileK3.jV L = TileK1.jV L := rfl

end Cert.Kernel.BridgeK3

end
-- ==== Proof.WireB.lean ====
/-
  The pieces plugged together: the 64 side conditions of each gather kernel's lane reads, one tile's task of each kernel,
  and the two TensorCore regions, in the form the launch asks for.
-/
import proofs.«204913_g64682207478566_cont_9to1c4b_713_31_alg».proof.Proof.TileOblB
import proofs.«204913_g64682207478566_cont_9to1c4b_713_31_alg».proof.Proof.HMainB
import proofs.«204913_g64682207478566_cont_9to1c4b_713_31_alg».proof.Proof.RunB
import proofs.«204913_g64682207478566_cont_9to1c4b_713_31_alg».proof.Proof.RegionsB
import proofs.«204913_g64682207478566_cont_9to1c4b_713_31_alg».proof.Proof.ChkK1B
import proofs.«204913_g64682207478566_cont_9to1c4b_713_31_alg».proof.Proof.ChkK3B
import proofs.«204913_g64682207478566_cont_9to1c4b_713_31_alg».proof.Proof.Kernel.TileK1V
import proofs.«204913_g64682207478566_cont_9to1c4b_713_31_alg».proof.Proof.Kernel.TileK3V
import proofs.«204913_g64682207478566_cont_9to1c4b_713_31_alg».proof.Proof.Kernel.BridgeK3

noncomputable section

namespace Cert.Kernel.Wire

open Cert.Kernel Cert.Kernel.Gen Cert.Kernel.Common Cert.Kernel.HMain Cert.Kernel.TileObl

open Idealize.ShloMosaic

variable {F : FTy → Type} [FloatOps F]

theorem chk1 : Cert.Kernel.TileK1.ChkAll := ⟨Cert.Kernel.ChkK1.chk1, Cert.Kernel.ChkK1.chk2, Cert.Kernel.ChkK1.chk3, Cert.Kernel.ChkK1.chk4, Cert.Kernel.ChkK1.chk5, Cert.Kernel.ChkK1.chk6, Cert.Kernel.ChkK1.chk7, Cert.Kernel.ChkK1.chk8, Cert.Kernel.ChkK1.chk9, Cert.Kernel.ChkK1.chk10, Cert.Kernel.ChkK1.chk11, Cert.Kernel.ChkK1.chk12, Cert.Kernel.ChkK1.chk13, Cert.Kernel.ChkK1.chk14, Cert.Kernel.ChkK1.chk15, Cert.Kernel.ChkK1.chk16, Cert.Kernel.ChkK1.chk17, Cert.Kernel.ChkK1.chk18, Cert.Kernel.ChkK1.chk19, Cert.Kernel.ChkK1.chk20, Cert.Kernel.ChkK1.chk21, Cert.Kernel.ChkK1.chk22, Cert.Kernel.ChkK1.chk23, Cert.Kernel.ChkK1.chk24, Cert.Kernel.ChkK1.chk25, Cert.Kernel.ChkK1.chk26, Cert.Kernel.ChkK1.chk27, Cert.Kernel.ChkK1.chk28, Cert.Kernel.ChkK1.chk29, Cert.Kernel.ChkK1.chk30, Cert.Kernel.ChkK1.chk31, Cert.Kernel.ChkK1.chk32, Cert.Kernel.ChkK1.chk33, Cert.Kernel.ChkK1.chk34, Cert.Kernel.ChkK1.chk35, Cert.Kernel.ChkK1.chk36, Cert.Kernel.ChkK1.chk37, Cert.Kernel.ChkK1.chk38, Cert.Kernel.ChkK1.chk39, Cert.Kernel.ChkK1.chk40, Cert.Kernel.ChkK1.chk41, Cert.Kernel.ChkK1.chk42, Cert.Kernel.ChkK1.chk43, Cert.Kernel.ChkK1.chk44, Cert.Kernel.ChkK1.chk45, Cert.Kernel.ChkK1.chk46, Cert.Kernel.ChkK1.chk47, Cert.Kernel.ChkK1.chk48, Cert.Kernel.ChkK1.chk49, Cert.Kernel.ChkK1.chk50, Cert.Kernel.ChkK1.chk51, Cert.Kernel.ChkK1.chk52, Cert.Kernel.ChkK1.chk53, Cert.Kernel.ChkK1.chk54, Cert.Kernel.ChkK1.chk55, Cert.Kernel.ChkK1.chk56, Cert.Kernel.ChkK1.chk57, Cert.Kernel.ChkK1.chk58, Cert.Kernel.ChkK1.chk59, Cert.Kernel.ChkK1.chk60, Cert.Kernel.ChkK1.chk61, Cert.Kernel.ChkK1.chk62, Cert.Kernel.ChkK1.chk63, Cert.Kernel.ChkK1.chk64⟩
theorem chk3 : Cert.Kernel.TileK3.ChkAll := ⟨Cert.Kernel.ChkK3.chk1, Cert.Kernel.ChkK3.chk2, Cert.Kernel.ChkK3.chk3, Cert.Kernel.ChkK3.chk4, Cert.Kernel.ChkK3.chk5, Cert.Kernel.ChkK3.chk6, Cert.Kernel.ChkK3.chk7, Cert.Kernel.ChkK3.chk8, Cert.Kernel.ChkK3.chk9, Cert.Kernel.ChkK3.chk10, Cert.Kernel.ChkK3.chk11, Cert.Kernel.ChkK3.chk12, Cert.Kernel.ChkK3.chk13, Cert.Kernel.ChkK3.chk14, Cert.Kernel.ChkK3.chk15, Cert.Kernel.ChkK3.chk16, Cert.Kernel.ChkK3.chk17, Cert.Kernel.ChkK3.chk18, Cert.Kernel.ChkK3.chk19, Cert.Kernel.ChkK3.chk20, Cert.Kernel.ChkK3.chk21, Cert.Kernel.ChkK3.chk22, Cert.Kernel.ChkK3.chk23, Cert.Kernel.ChkK3.chk24, Cert.Kernel.ChkK3.chk25, Cert.Kernel.ChkK3.chk26, Cert.Kernel.ChkK3.chk27, Cert.Kernel.ChkK3.chk28, Cert.Kernel.ChkK3.chk29, Cert.Kernel.ChkK3.chk30, Cert.Kernel.ChkK3.chk31, Cert.Kernel.ChkK3.chk32, Cert.Kernel.ChkK3.chk33, Cert.Kernel.ChkK3.chk34, Cert.Kernel.ChkK3.chk35, Cert.Kernel.ChkK3.chk36, Cert.Kernel.ChkK3.chk37, Cert.Kernel.ChkK3.chk38, Cert.Kernel.ChkK3.chk39, Cert.Kernel.ChkK3.chk40, Cert.Kernel.ChkK3.chk41, Cert.Kernel.ChkK3.chk42, Cert.Kernel.ChkK3.chk43, Cert.Kernel.ChkK3.chk44, Cert.Kernel.ChkK3.chk45, Cert.Kernel.ChkK3.chk46, Cert.Kernel.ChkK3.chk47, Cert.Kernel.ChkK3.chk48, Cert.Kernel.ChkK3.chk49, Cert.Kernel.ChkK3.chk50, Cert.Kernel.ChkK3.chk51, Cert.Kernel.ChkK3.chk52, Cert.Kernel.ChkK3.chk53, Cert.Kernel.ChkK3.chk54, Cert.Kernel.ChkK3.chk55, Cert.Kernel.ChkK3.chk56, Cert.Kernel.ChkK3.chk57, Cert.Kernel.ChkK3.chk58, Cert.Kernel.ChkK3.chk59, Cert.Kernel.ChkK3.chk60, Cert.Kernel.ChkK3.chk61, Cert.Kernel.ChkK3.chk62, Cert.Kernel.ChkK3.chk63, Cert.Kernel.ChkK3.chk64⟩

theorem body1 : Body1 F := fun d L qi qt qb ids tbl bs o0 hin O W hO =>
  Cert.Kernel.TileK1.tile_body d L qi qt qb ids tbl bs o0 hin chk1 Cert.Kernel.Run.facts O W hO
theorem body3 : Body3 F := fun d L qi qt qb ids tbl bs o0 hin O W hO => by
  have h := Cert.Kernel.TileK3.tile_body d L qi qt qb ids tbl bs o0 hin chk3 Cert.Kernel.Run.facts O W hO
  simp only [Cert.Kernel.BridgeK3.oRowSet3_eq] at h
  exact h

theorem reg0 : Region0 F := fun lv hlv d X4 W1 Φ => Cert.Kernel.Regions.region0 lv hlv d X4 W1 Φ
theorem reg1 : Region1 F := fun lv hlv d X9 W3 Φ => Cert.Kernel.Regions.region1 lv hlv d X9 W3 Φ

end Cert.Kernel.Wire

end
-- ==== Proof.Spec.lean ====
/-
  The function both programs compute, index by index, on the extended reals.
  Row u of the user table and row c of the course table are contracted with the two halves of the weight
  column; the bias is added.  For batch element i with user id u_i and course id c_i:
      G i = (b + Σ_f w[f] · U[u_i, f]) + Σ_f w[100 + f] · C[c_i, f].
  Ids are read as naturals and reduced modulo the table's height, which is the identity on ids in range.
-/
import Idealize.ShloMosaic.PureOps.Ideal
import Idealize.ShloMosaic.Lib.ValueIdx

noncomputable section

open scoped BigOperators

namespace Cert.Spec

open Idealize.ShloMosaic Idealize.ShloMosaic.ValueIdx

abbrev S16384 : Shape := ⟨1, ![16384]⟩
abbrev S1000000x100 : Shape := ⟨2, ![1000000, 100]⟩
abbrev S100000x100 : Shape := ⟨2, ![100000, 100]⟩
abbrev S200x1 : Shape := ⟨2, ![200, 1]⟩
abbrev S1 : Shape := ⟨1, ![1]⟩

/-- The user-table row a word selects. -/
def urow (v : BitVec 32) : Fin 1000000 := ⟨v.toNat % 1000000, Nat.mod_lt _ (by decide)⟩
/-- The course-table row a word selects. -/
def crow (v : BitVec 32) : Fin 100000 := ⟨v.toNat % 100000, Nat.mod_lt _ (by decide)⟩

/-- Entry `f` of the first half of the weight column. -/
def wlo (w : S200x1.Idx → EReal) (f : Fin 100) : EReal := w (ix2 ⟨f.val, by omega⟩ 0)
/-- Entry `f` of the second half of the weight column. -/
def whi (w : S200x1.Idx → EReal) (f : Fin 100) : EReal := w (ix2 ⟨100 + f.val, by omega⟩ 0)

/-- The user table projected on the first half of the weights, at row `u`. -/
def projU (uf : S1000000x100.Idx → EReal) (w : S200x1.Idx → EReal) (u : Fin 1000000) : EReal :=
  ∑ f : Fin 100, wlo w f * uf (ix2 u f)
/-- The course table projected on the second half of the weights, at row `c`. -/
def projC (cf : S100000x100.Idx → EReal) (w : S200x1.Idx → EReal) (c : Fin 100000) : EReal :=
  ∑ f : Fin 100, whi w f * cf (ix2 c f)

/-- The result, index by index. -/
def G (uid cid : S16384.Idx → BitVec 32) (uf : S1000000x100.Idx → EReal) (cf : S100000x100.Idx → EReal)
    (w : S200x1.Idx → EReal) (b : S1.Idx → EReal) : S16384.Idx → EReal :=
  fun i => (b (ix1 0) + projU uf w (urow (uid i))) + projC cf w (crow (cid i))

end Cert.Spec

end
-- ==== Proof.KernelValueB.lean ====
/-
  The value the kernel leaves in its result array is the common closed form G.

  The result of call 1 at batch index i is (bias + T6[u / 128, u mod 128]) + T11[c / 128, c mod 128], where u, c
  are the user and course ids at i, T6 is the projected user table (one matrix product per block of 16384
  columns, laid out in rows of 128 lanes) and T11 the projected course table.  Row-major position
  128 (u / 128) + u mod 128 = u of T6 is entry u mod 16384 of block u / 16384, the product of the weight row with
  column u of the transposed user table: the sum over the hundred features f of w[f] U[u, f].  Likewise for courses
  with w[100 + f] C[c, f].
-/
import proofs.«204913_g64682207478566_cont_9to1c4b_713_31_alg».proof.Proof.PayMB
import proofs.«204913_g64682207478566_cont_9to1c4b_713_31_alg».proof.Proof.Spec
import Idealize.ShloMosaic.Lib.ValueIdx
import Idealize.ShloMosaic.Lib.Pipeline.Value
import Idealize.ShloMosaic.PureOps.Ideal.Laws

noncomputable section

open scoped BigOperators

namespace Cert.Kernel.KernelValue

open Cert.Kernel Cert.Kernel.Gen Cert.Kernel.Common Cert.Kernel.Vals
open Idealize.ShloMosaic Idealize.ShloMosaic.ValueIdx

/-! ## One block's matrix product at a column -/

/-- The contraction index of the product has one axis of extent 100. -/
abbrev dotD : DotDims S1x100 S100x16384 S1x16384 := dot_S1x100_S100x16384_S1x16384_1_0_0_1_n_n

/-- The left operand's index at output column col and feature f. -/
theorem lhsIdx_eq (col : Fin 16384) (f : Fin 100) :
    dotD.lhsIdx (ix2 (0 : Fin 1) col) ((contrEquiv1 dotD 100 rfl rfl).symm f) = ix2 (0 : Fin 1) f := by
  funext a
  refine Fin.ext ?_
  match a with
  | ⟨0, _⟩ => exact (Nat.lt_one_iff.mp (dotD.lhsIdx _ _ ⟨0, by decide⟩).isLt)
  | ⟨1, _⟩ =>
    exact (DotDims.lhsIdx_val_of_single (d := dotD) (cl := (1 : Fin 2)) rfl _ _).trans (contrEquiv1_symm_val dotD 100 rfl rfl f)

/-- The right operand's index at output column col and feature f. -/
theorem rhsIdx_eq (col : Fin 16384) (f : Fin 100) :
    dotD.rhsIdx (ix2 (0 : Fin 1) col) ((contrEquiv1 dotD 100 rfl rfl).symm f) = ix2 f col := by
  funext a
  refine Fin.ext ?_
  match a with
  | ⟨0, _⟩ =>
    exact (DotDims.rhsIdx_val_of_single (d := dotD) (cr := (0 : Fin 2)) rfl _ _).trans (contrEquiv1_symm_val dotD 100 rfl rfl f)
  | ⟨1, _⟩ => rfl

/-- A block's product at column col: the sum over the features of weight times table entry. -/
theorem k0_pay1_apply (W : Vec Ideal S1x100 .f32) (X : Vec Ideal S100x16384 .f32) (col : Fin 16384) :
    k0_pay1 (F := Ideal) W X (ix1 col) = ∑ f : Fin 100, W (ix2 (0 : Fin 1) f) * X (ix2 f col) := by
  unfold k0_pay1
  simp only [shapeCast_self, matmul]
  rw [shapeCast_apply _ shapeCasts_S1x16384_S16384 (ix1 col) (ix2 (0 : Fin 1) col) (by
    rw [Shape.rowMajor_val_two, Shape.rowMajor_val_one]; show 0 * 16384 + col.val = col.val; omega)]
  rw [Ideal.matmul_constant_zero_apply, ← Equiv.sum_comp (contrEquiv1 dotD 100 rfl rfl).symm]
  exact Finset.sum_congr rfl fun f _ => by rw [lhsIdx_eq, rhsIdx_eq]

/-- The same for the second region's payload. -/
theorem k2_pay1_apply (W : Vec Ideal S1x100 .f32) (X : Vec Ideal S100x16384 .f32) (col : Fin 16384) :
    k2_pay1 (F := Ideal) W X (ix1 col) = ∑ f : Fin 100, W (ix2 (0 : Fin 1) f) * X (ix2 f col) := by
  unfold k2_pay1
  simp only [shapeCast_self, matmul]
  rw [shapeCast_apply _ shapeCasts_S1x16384_S16384 (ix1 col) (ix2 (0 : Fin 1) col) (by
    rw [Shape.rowMajor_val_two, Shape.rowMajor_val_one]; show 0 * 16384 + col.val = col.val; omega)]
  rw [Ideal.matmul_constant_zero_apply, ← Equiv.sum_comp (contrEquiv1 dotD 100 rfl rfl).symm]
  exact Finset.sum_congr rfl fun f _ => by rw [lhsIdx_eq, rhsIdx_eq]

/-! ## The host operations at an index -/

section Host

variable (m : (ℓ : Loc nD τ sig) → Buf (Elt Ideal) ℓ) (d : Dev nD)

/-- Entry f of the first weight row is entry f of the weight column. -/
theorem W1_apply (f : Fin 100) :
    PayM.W1 m d (ix2 (0 : Fin 1) f)
      = (m (PayM.loc d main_arg4) : FVec Ideal S200x1 .f32) (ix2 (⟨f.val, by omega⟩ : Fin 200) (0 : Fin 1)) := by
  unfold PayM.W1
  rw [transpose_apply [1, 0] _ transposes_S100x1_S1x100_1_0 (ix2 (0 : Fin 1) f) (ix2 f (0 : Fin 1)) (by
        intro b; match b with | ⟨0, _⟩ => rfl | ⟨1, _⟩ => rfl)]
  exact extractStridedSlice_apply ![0, 0] _ slices_S200x1_S100x1_0_0 (ix2 f (0 : Fin 1))
    (ix2 (⟨f.val, by omega⟩ : Fin 200) (0 : Fin 1)) (by
        intro a; match a with | ⟨0, _⟩ => exact (Nat.zero_add _).symm | ⟨1, _⟩ => rfl)

/-- Entry f of the second weight row is entry 100 + f of the weight column. -/
theorem W3_apply (f : Fin 100) :
    PayM.W3 m d (ix2 (0 : Fin 1) f)
      = (m (PayM.loc d main_arg4) : FVec Ideal S200x1 .f32) (ix2 (⟨100 + f.val, by omega⟩ : Fin 200) (0 : Fin 1)) := by
  unfold PayM.W3
  rw [transpose_apply [1, 0] _ transposes_S100x1_S1x100_1_0 (ix2 (0 : Fin 1) f) (ix2 f (0 : Fin 1)) (by
        intro b; match b with | ⟨0, _⟩ => rfl | ⟨1, _⟩ => rfl)]
  exact extractStridedSlice_apply ![100, 0] _ slices_S200x1_S100x1_100_0 (ix2 f (0 : Fin 1))
    (ix2 (⟨100 + f.val, by omega⟩ : Fin 200) (0 : Fin 1)) (by
        intro a; match a with | ⟨0, _⟩ => rfl | ⟨1, _⟩ => rfl)

/-- The transposed user table at (f, n) is the user table at (n, f). -/
theorem X4_apply (f : Fin 100) (n : Fin 1000000) :
    PayM.X4 m d (ix2 f n) = (m (PayM.loc d main_arg2) : FVec Ideal S1000000x100 .f32) (ix2 n f) := by
  unfold PayM.X4
  exact transpose_apply [1, 0] _ transposes_S1000000x100_S100x1000000_1_0 (ix2 f n) (ix2 n f) (by
        intro b; match b with | ⟨0, _⟩ => rfl | ⟨1, _⟩ => rfl)

/-- The transposed course table at (f, n) is the course table at (n, f). -/
theorem X9_apply (f : Fin 100) (n : Fin 100000) :
    PayM.X9 m d (ix2 f n) = (m (PayM.loc d main_arg3) : FVec Ideal S100000x100 .f32) (ix2 n f) := by
  unfold PayM.X9
  exact transpose_apply [1, 0] _ transposes_S100000x100_S100x100000_1_0 (ix2 f n) (ix2 n f) (by
        intro b; match b with | ⟨0, _⟩ => rfl | ⟨1, _⟩ => rfl)

/-- The broadcast bias is the bias everywhere. -/
theorem B7_apply (i : S16384.Idx) :
    PayM.B7 m d i = (m (PayM.loc d main_arg5) : FVec Ideal S1 .f32) (ix1 (0 : Fin 1)) := by
  unfold PayM.B7
  exact broadcastInDim_apply ![0] bcast_S1_S16384_0 _ i (ix1 (0 : Fin 1)) (by
        intro a; match a with | ⟨0, _⟩ => rfl)

end Host

/-! ## The projected tables at a row and lane -/

/-- The projected user table, reshaped to 128 lanes, at the row and lane of an id u below 1000000: block u / 16384,
    column u mod 16384, whose columns all lie inside the table. -/
theorem tbl6_entry (W : FVec Ideal S1x100 .f32) (X4 : FVec Ideal S100x1000000 .f32) (f5 : FVec Ideal S1000448 .f32)
    (h : Reg0Val W X4 f5) (u : Nat) (hu : u < 1000000) (row : Fin 7816) (lane : Fin 128)
    (hrl : 128 * row.val + lane.val = u) :
    shapeCast S7816x128 f5 shapeCasts_S1000448_S7816x128 (ix2 row lane)
      = ∑ f : Fin 100, W (ix2 (0 : Fin 1) f) * X4 (ix2 f (⟨u, hu⟩ : Fin 1000000)) := by
  obtain ⟨X, hX, hf5⟩ := h
  have ht : u / 16384 < 62 := by omega
  have hc : u % 16384 < 16384 := Nat.mod_lt _ (by decide)
  have hin : 16384 * (⟨u / 16384, ht⟩ : Fin 62).val + (⟨u % 16384, hc⟩ : Fin 16384).val < 1000448 := by
    show 16384 * (u / 16384) + u % 16384 < 1000448; omega
  have hin' : 16384 * (⟨u / 16384, ht⟩ : Fin 62).val + (⟨u % 16384, hc⟩ : Fin 16384).val < 1000000 := by
    show 16384 * (u / 16384) + u % 16384 < 1000000; omega
  rw [shapeCast_apply f5 shapeCasts_S1000448_S7816x128 (ix2 row lane)
    (ix1 (⟨16384 * (⟨u / 16384, ht⟩ : Fin 62).val + (⟨u % 16384, hc⟩ : Fin 16384).val, hin⟩ : Fin 1000448)) (by
      rw [Shape.rowMajor_val_two, Shape.rowMajor_val_one]
      show 16384 * (u / 16384) + u % 16384 = row.val * 128 + lane.val
      omega)]
  rw [hf5 ⟨u / 16384, ht⟩ ⟨u % 16384, hc⟩ hin, k0_pay1_apply]
  refine Finset.sum_congr rfl fun f _ => ?_
  rw [hX ⟨u / 16384, ht⟩ f ⟨u % 16384, hc⟩ hin']
  congr 2
  refine congrArg (ix2 f) (Fin.ext ?_)
  show 16384 * (u / 16384) + u % 16384 = u
  omega

/-- The projected course table at the row and lane of an id c below 100000. -/
theorem tbl11_entry (W : FVec Ideal S1x100 .f32) (X9 : FVec Ideal S100x100000 .f32) (f10 : FVec Ideal S100352 .f32)
    (h : Reg1Val W X9 f10) (u : Nat) (hu : u < 100000) (row : Fin 784) (lane : Fin 128)
    (hrl : 128 * row.val + lane.val = u) :
    shapeCast S784x128 f10 shapeCasts_S100352_S784x128 (ix2 row lane)
      = ∑ f : Fin 100, W (ix2 (0 : Fin 1) f) * X9 (ix2 f (⟨u, hu⟩ : Fin 100000)) := by
  obtain ⟨X, hX, hf10⟩ := h
  have ht : u / 16384 < 7 := by omega
  have hc : u % 16384 < 16384 := Nat.mod_lt _ (by decide)
  have hin : 16384 * (⟨u / 16384, ht⟩ : Fin 7).val + (⟨u % 16384, hc⟩ : Fin 16384).val < 100352 := by
    show 16384 * (u / 16384) + u % 16384 < 100352; omega
  have hin' : 16384 * (⟨u / 16384, ht⟩ : Fin 7).val + (⟨u % 16384, hc⟩ : Fin 16384).val < 100000 := by
    show 16384 * (u / 16384) + u % 16384 < 100000; omega
  rw [shapeCast_apply f10 shapeCasts_S100352_S784x128 (ix2 row lane)
    (ix1 (⟨16384 * (⟨u / 16384, ht⟩ : Fin 7).val + (⟨u % 16384, hc⟩ : Fin 16384).val, hin⟩ : Fin 100352)) (by
      rw [Shape.rowMajor_val_two, Shape.rowMajor_val_one]
      show 16384 * (u / 16384) + u % 16384 = row.val * 128 + lane.val
      omega)]
  rw [hf10 ⟨u / 16384, ht⟩ ⟨u % 16384, hc⟩ hin, k2_pay1_apply]
  refine Finset.sum_congr rfl fun f _ => ?_
  rw [hX ⟨u / 16384, ht⟩ f ⟨u % 16384, hc⟩ hin']
  congr 2
  refine congrArg (ix2 f) (Fin.ext ?_)
  show 16384 * (u / 16384) + u % 16384 = u
  omega

/-! ## Batch indices and tiles -/

/-- Every batch index is row r of the tile (c, s) with 1024 s + 512 c + r its position. -/
theorem exists_bidx (i : S16384.Idx) : ∃ (c : Fin 2) (s : Fin 16) (r : Fin 512), i = bidx (PayM.coords c s) r := by
  have hn : (i 0).val < 16384 := (i 0).isLt
  refine ⟨⟨(i 0).val / 512 % 2, Nat.mod_lt _ (by decide)⟩, ⟨(i 0).val / 1024, by omega⟩,
    ⟨(i 0).val % 512, Nat.mod_lt _ (by decide)⟩, ?_⟩
  refine (eq_ix1 i).trans ?_
  unfold bidx
  refine congrArg ix1 (Fin.ext ?_)
  show (i 0).val = (k1_off1 _) 0 + (i 0).val % 512
  rw [k1_off1_eq]
  show (i 0).val = 1024 * ((i 0).val / 1024) + 512 * ((i 0).val / 512 % 2) + (i 0).val % 512
  omega

/-! ## The two projections as the closed form writes them -/

section Proj

variable (m : (ℓ : Loc nD τ sig) → Buf (Elt Ideal) ℓ) (d : Dev nD)

/-- The weight row times column u of the transposed user table is the user table's row u projected on the first
    half of the weights. -/
theorem projU_eq (v : BitVec 32) (hv : v.toNat < 1000000) :
    ∑ f : Fin 100, PayM.W1 m d (ix2 (0 : Fin 1) f) * PayM.X4 m d (ix2 f (⟨v.toNat, hv⟩ : Fin 1000000))
      = Cert.Spec.projU (m (PayM.loc d main_arg2)) (m (PayM.loc d main_arg4)) (Cert.Spec.urow v) := by
  unfold Cert.Spec.projU Cert.Spec.wlo
  have e : Cert.Spec.urow v = (⟨v.toNat, hv⟩ : Fin 1000000) := Fin.ext (Nat.mod_eq_of_lt hv)
  rw [e]
  exact Finset.sum_congr rfl fun f _ => by rw [W1_apply, X4_apply]

/-- The same for courses and the second half of the weights. -/
theorem projC_eq (v : BitVec 32) (hv : v.toNat < 100000) :
    ∑ f : Fin 100, PayM.W3 m d (ix2 (0 : Fin 1) f) * PayM.X9 m d (ix2 f (⟨v.toNat, hv⟩ : Fin 100000))
      = Cert.Spec.projC (m (PayM.loc d main_arg3)) (m (PayM.loc d main_arg4)) (Cert.Spec.crow v) := by
  unfold Cert.Spec.projC Cert.Spec.whi
  have e : Cert.Spec.crow v = (⟨v.toNat, hv⟩ : Fin 100000) := Fin.ext (Nat.mod_eq_of_lt hv)
  rw [e]
  exact Finset.sum_congr rfl fun f _ => by rw [W3_apply, X9_apply]

end Proj

/-! ## The result -/

/-- What the second call leaves on every tile's rows, for ids in range, is the closed form. -/
theorem out_eq_G (m : (ℓ : Loc nD τ sig) → Buf (Elt Ideal) ℓ) (d : Dev nD)
    (hU : ∀ i, ((m (PayM.loc d main_arg0) : IVec S16384 32) i).toNat ≤ 999999)
    (hC : ∀ i, ((m (PayM.loc d main_arg1) : IVec S16384 32) i).toNat ≤ 99999)
    (f : FVec Ideal S16384 .f32) (h : PayM.Out12All (F := Ideal) m d f) :
    f = Cert.Spec.G (m (PayM.loc d main_arg0)) (m (PayM.loc d main_arg1)) (m (PayM.loc d main_arg2))
          (m (PayM.loc d main_arg3)) (m (PayM.loc d main_arg4)) (m (PayM.loc d main_arg5)) := by
  funext i
  obtain ⟨c, s, r, rfl⟩ := exists_bidx i
  obtain ⟨tbl11, bs, ⟨f10, hf10, rfl⟩, hbs, hT⟩ := h c s
  obtain ⟨tbl6, ⟨f5, hf5, rfl⟩, hT0⟩ := hbs c s
  have hu : ((m (PayM.loc d main_arg0) : IVec S16384 32) (bidx (PayM.coords c s) r)).toNat < 1000000 :=
    Nat.lt_succ_of_le (hU _)
  have hc : ((m (PayM.loc d main_arg1) : IVec S16384 32) (bidx (PayM.coords c s) r)).toNat < 100000 :=
    Nat.lt_succ_of_le (hC _)
  rw [hT r, hT0 r, Ideal.addf_def, Ideal.addf_def]
  rw [tbl6_entry _ _ f5 hf5 _ hu (trow 7816 (by decide) _) (tlane _) (by
        show 128 * (((m (PayM.loc d main_arg0) : IVec S16384 32) (bidx (PayM.coords c s) r)).toNat / 128 % 7816)
          + ((m (PayM.loc d main_arg0) : IVec S16384 32) (bidx (PayM.coords c s) r)).toNat % 128 = _
        omega),
    tbl11_entry _ _ f10 hf10 _ hc (trow 784 (by decide) _) (tlane _) (by
        show 128 * (((m (PayM.loc d main_arg1) : IVec S16384 32) (bidx (PayM.coords c s) r)).toNat / 128 % 784)
          + ((m (PayM.loc d main_arg1) : IVec S16384 32) (bidx (PayM.coords c s) r)).toNat % 128 = _
        omega)]
  rw [B7_apply, projU_eq m d _ hu, projC_eq m d _ hc]
  rfl

end Cert.Kernel.KernelValue

end
-- ==== Proof.SplitJoinB.lean ====
/-
  The split of a call's operands among the 32 tiles, and the join of the tiles' results.

  Tile (c, s) has number 2 s + c among the 32.  Of every array all tiles read it is handed leaf 2 s + c of the
  depth-5 halving of the share the call holds; of the array the call writes it is handed its own 512 rows
  [512 (2 s + c), 512 (2 s + c) + 512).  The 32 row sets are pairwise disjoint and cover the 16384 rows, so the
  whole array splits into them and their contents join into one array; what a tile's result says of its contents
  only reads the tile's own rows, so it holds of the joined array too.
-/
import proofs.«204913_g64682207478566_cont_9to1c4b_713_31_alg».proof.Proof.PayMB
import proofs.«204913_g64682207478566_cont_9to1c4b_713_31_alg».proof.Proof.KernelValueB

noncomputable section

namespace Cert.Kernel.SplitJoin

open Cert.Kernel Cert.Kernel.Gen Cert.Kernel.Common Cert.Kernel.Vals Cert.Kernel.PayM

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Shares

variable {F : FTy → Type} [FloatOps F]

local notation "𝕄" => 𝕄F F

variable (m : (ℓ : Loc nD τ sig) → Buf (Elt F) ℓ)

/-! ## Tiles by number -/

/-- Tile (c, s) has number 2 s + c: a bijection between the 2 x 16 tiles and the 32 leaves. -/
def widE : Fin 2 × Fin 16 ≃ Fin (2 ^ 5) where
  toFun p := wid p.1 p.2
  invFun j := (⟨j.val % 2, Nat.mod_lt _ (by decide)⟩, ⟨j.val / 2, by have h : j.val < 32 := j.isLt; omega⟩)
  left_inv p := by
    have h1 : p.1.val < 2 := p.1.isLt
    apply Prod.ext <;> apply Fin.ext
    · show (2 * p.2.val + p.1.val) % 2 = p.1.val; omega
    · show (2 * p.2.val + p.1.val) / 2 = p.2.val; omega
  right_inv j := by
    apply Fin.ext
    show 2 * (j.val / 2) + j.val % 2 = j.val
    omega

/-- A points-to at a share is the tiles' leaves of it. -/
theorem pts_tiles {ℓ : Loc nD τ sig} (q : PosShare TreeShare) (f : Buf (Elt F) ℓ) :
    (ℓ ↦{q} f : sProp 𝕄) = bigSep Finset.univ fun p : Fin 2 × Fin 16 => ℓ ↦{lf q p.1 p.2} f :=
  (pointsTo_leaves Finset.univ f 5 q).trans
    (bigSep_univ_equiv widE (fun j : Fin (2 ^ 5) => (ℓ ↦{leaf 5 q j} f : sProp 𝕄)))

/-! ## The tiles' rows -/

/-- A tile's rows are the 512 from its offset. -/
theorem rowSet_unit (L : grid1.Coords) :
    rowSet L = (Rect.unit (s := S16384) (k1_off1 L) S512.size (k1_off1_inb L)).set := by
  show ((View.whole (main_v8_scv : Ref sig .scVector)).slice _).set = _
  exact View.set_slice_whole _ _

/-- Tile (c, s) starts at row 1024 s + 512 c. -/
theorem off_coords (c : Fin 2) (s : Fin 16) : (k1_off1 (coords c s)) 0 = 1024 * s.val + 512 * c.val := by
  rw [k1_off1_eq]; rfl

/-- Different tiles have disjoint rows. -/
theorem rows_disjoint : ∀ p ∈ (Finset.univ : Finset (Fin 2 × Fin 16)), ∀ p' ∈ (Finset.univ : Finset (Fin 2 × Fin 16)),
    p ≠ p' → Disjoint (rowSet (coords p.1 p.2)) (rowSet (coords p'.1 p'.2)) := by
  intro p _ p' _ hne
  rw [rowSet_unit, rowSet_unit]
  refine Rect.unit_disjoint (0 : Fin 1) ?_
  rw [off_coords, off_coords]
  show 1024 * p.2.val + 512 * p.1.val + 512 ≤ 1024 * p'.2.val + 512 * p'.1.val
    ∨ 1024 * p'.2.val + 512 * p'.1.val + 512 ≤ 1024 * p.2.val + 512 * p.1.val
  have hn : ¬ (p.1.val = p'.1.val ∧ p.2.val = p'.2.val) := fun ⟨h1, h2⟩ => hne (Prod.ext (Fin.ext h1) (Fin.ext h2))
  have h1 : p.1.val < 2 := p.1.isLt
  have h2 : p'.1.val < 2 := p'.1.isLt
  omega

/-- Row r of a tile is one of the tile's rows. -/
theorem mem_rowSet (L : grid1.Coords) (r : Fin 512) : bidx L r ∈ rowSet L := by
  rw [rowSet_unit, Rect.mem_set_unit]
  intro a
  obtain rfl : a = (0 : Fin 1) := Subsingleton.elim _ _
  show (k1_off1 L) 0 ≤ (k1_off1 L) 0 + r.val ∧ (k1_off1 L) 0 + r.val < (k1_off1 L) 0 + 512
  have := r.isLt
  omega

/-- The tiles' rows are all the rows. -/
theorem rows_cover :
    (Finset.univ : Finset (Fin 2 × Fin 16)).biUnion (fun p => rowSet (coords p.1 p.2)) = Finset.univ := by
  ext i
  simp only [Finset.mem_biUnion, Finset.mem_univ, true_and, iff_true]
  obtain ⟨c, s, r, rfl⟩ := KernelValue.exists_bidx i
  exact ⟨(c, s), mem_rowSet _ r⟩

/-- The first call's output array is the tiles' rows of it. -/
theorem rows_tiles8 (d : Dev nD) (f : Buf (Elt F) (loc d main_v8)) :
    (loc d main_v8 ↦{fullShare} f : sProp 𝕄)
      = bigSep Finset.univ fun p : Fin 2 × Fin 16 => loc d main_v8 ↦[rowSet (coords p.1 p.2)]{fullShare} f := by
  rw [← pointsTo_biUnion Finset.univ (ℓ := loc d main_v8) (fun p : Fin 2 × Fin 16 => rowSet (coords p.1 p.2)) rows_disjoint,
    rows_cover]
  try rfl

/-- The second call's output array is the tiles' rows of it. -/
theorem rows_tiles12 (d : Dev nD) (f : Buf (Elt F) (loc d main_v12)) :
    (loc d main_v12 ↦{fullShare} f : sProp 𝕄)
      = bigSep Finset.univ fun p : Fin 2 × Fin 16 => loc d main_v12 ↦[rowSet (coords p.1 p.2)]{fullShare} f := by
  rw [← pointsTo_biUnion Finset.univ (ℓ := loc d main_v12) (fun p : Fin 2 × Fin 16 => rowSet (coords p.1 p.2)) rows_disjoint,
    rows_cover]
  try rfl

/-- What a tile's result says of an array only reads the tile's rows. -/
theorem tileVal_congr {R : Nat} (hR : 0 < R) (L : grid1.Coords) (ids : S16384.Idx → BitVec 32) (bs : S16384.Idx → F .f32)
    (tbl : (⟨2, ![R, 128]⟩ : Shape).Idx → F .f32) (f g : S16384.Idx → F .f32) (hfg : ∀ i ∈ rowSet L, g i = f i)
    (h : TileVal hR L ids bs tbl f) : TileVal hR L ids bs tbl g :=
  fun r => (hfg _ (mem_rowSet L r)).trans (h r)

/-! ## The cores' and tiles' conjunctions as one over the 32 tiles -/

theorem st0_tiles (d : Dev nD) :
    (bigSep Finset.univ fun c : Fin ((K (F := F)).nCore 0) => (P m).st 0 d c : sProp 𝕄)
      = bigSep Finset.univ fun p : Fin 2 × Fin 16 => go0 m d p.1 p.2 :=
  (show _ = bigSep Finset.univ (fun c : Fin 2 => bigSep Finset.univ fun s : Fin 16 => go0 m d c s) from rfl).trans
    (bigSep_univ_prod (fun p : Fin 2 × Fin 16 => go0 m d p.1 p.2)).symm

theorem dn0_tiles (d : Dev nD) :
    (bigSep Finset.univ fun c : Fin ((K (F := F)).nCore 0) => (P m).dn 0 d c : sProp 𝕄)
      = bigSep Finset.univ fun p : Fin 2 × Fin 16 => td0 m d p.1 p.2 :=
  (show _ = bigSep Finset.univ (fun c : Fin 2 => bigSep Finset.univ fun s : Fin 16 => td0 m d c s) from rfl).trans
    (bigSep_univ_prod (fun p : Fin 2 × Fin 16 => td0 m d p.1 p.2)).symm

theorem st1_tiles (d : Dev nD) :
    (bigSep Finset.univ fun c : Fin ((K (F := F)).nCore 1) => (P m).st 1 d c : sProp 𝕄)
      = bigSep Finset.univ fun p : Fin 2 × Fin 16 => go1 m d p.1 p.2 :=
  (show _ = bigSep Finset.univ (fun c : Fin 2 => bigSep Finset.univ fun s : Fin 16 => go1 m d c s) from rfl).trans
    (bigSep_univ_prod (fun p : Fin 2 × Fin 16 => go1 m d p.1 p.2)).symm

theorem dn1_tiles (d : Dev nD) :
    (bigSep Finset.univ fun c : Fin ((K (F := F)).nCore 1) => (P m).dn 1 d c : sProp 𝕄)
      = bigSep Finset.univ fun p : Fin 2 × Fin 16 => td1 m d p.1 p.2 :=
  (show _ = bigSep Finset.univ (fun c : Fin 2 => bigSep Finset.univ fun s : Fin 16 => td1 m d c s) from rfl).trans
    (bigSep_univ_prod (fun p : Fin 2 × Fin 16 => td1 m d p.1 p.2)).symm

/-! ## Two steps on the conjunction over the tiles -/

/-- Each tile may forget which array it was handed, keeping a fact about it. -/
theorem tiles_exists_intro {ℓ : Loc nD τ sig} (t₀ : Buf (Elt F) ℓ) (φ : Buf (Elt F) ℓ → Prop) (h : φ t₀) :
    (bigSep Finset.univ fun p : Fin 2 × Fin 16 => (ℓ ↦{lf fullShare p.1 p.2} t₀ : sProp 𝕄))
      ⊢ bigSep Finset.univ fun p : Fin 2 × Fin 16 =>
          iprop(∃ t : Buf (Elt F) ℓ, (ℓ ↦{lf fullShare p.1 p.2} t) ∗ ⌜φ t⌝) :=
  bigSep_mono fun p _ =>
    (show (ℓ ↦{lf fullShare p.1 p.2} t₀ : sProp 𝕄)
        ⊢ iprop(∃ t : Buf (Elt F) ℓ, (ℓ ↦{lf fullShare p.1 p.2} t) ∗ ⌜φ t⌝) from by
      iintro H; iexists t₀
      isplitl [H]; · iexact H
      ipureintro; exact h)

/-- The tiles' facts about their rows, gathered. -/
theorem tiles_pure_out {ℓ : Loc nD τ sig} (Kf : Fin 2 × Fin 16 → Finset (Idx ℓ)) (fs : Fin 2 × Fin 16 → Buf (Elt F) ℓ)
    (φ : Fin 2 × Fin 16 → Prop) :
    (bigSep Finset.univ fun p : Fin 2 × Fin 16 => iprop((ℓ ↦[Kf p]{fullShare} fs p) ∗ ⌜φ p⌝) : sProp 𝕄)
      ⊢ iprop(⌜∀ p ∈ (Finset.univ : Finset (Fin 2 × Fin 16)), φ p⌝
          ∗ bigSep Finset.univ fun p : Fin 2 × Fin 16 => ℓ ↦[Kf p]{fullShare} fs p) :=
  (bigSep_mono fun p _ =>
    (show (iprop((ℓ ↦[Kf p]{fullShare} fs p) ∗ ⌜φ p⌝) : sProp 𝕄) ⊢ iprop(⌜φ p⌝ ∗ (ℓ ↦[Kf p]{fullShare} fs p)) from by
      iintro ⟨Hp, %hp⟩
      isplitr
      · ipureintro; exact hp
      · iexact Hp)).trans
    (bigSep_pure_sep Finset.univ φ (fun p : Fin 2 × Fin 16 => (ℓ ↦[Kf p]{fullShare} fs p : sProp 𝕄)))

/-! ## Call 0 -/

/-- The first call's operands are its tiles' operands. -/
theorem split0 (d : Dev nD) (tbl : Buf (Elt F) (loc d main_v6)) (hT : Tbl6 m d tbl) :
    iprop((loc d main_arg0 ↦{fullShare.right} m (loc d main_arg0)) ∗ (loc d main_v6 ↦{fullShare} tbl)
        ∗ (loc d main_v7 ↦{fullShare} (B7 m d : Buf (Elt F) (loc d main_v7))) ∗ (loc d main_v8 ↦{fullShare} m (loc d main_v8)))
      ⊢ (bigSep Finset.univ fun c : Fin ((K (F := F)).nCore 0) => (P m).st 0 d c : sProp 𝕄) := by
  rw [st0_tiles]
  unfold go0
  rw [bigSep_sep', bigSep_sep', bigSep_sep',
    pts_tiles (F := F) (ℓ := loc d main_arg0) fullShare.right (m (loc d main_arg0)),
    pts_tiles (F := F) (ℓ := loc d main_v6) fullShare tbl,
    pts_tiles (F := F) (ℓ := loc d main_v7) fullShare (B7 m d),
    rows_tiles8 (F := F) d (m (loc d main_v8))]
  iintro ⟨HA, HB, HC, HD⟩
  isplitl [HA]; · iexact HA
  isplitl [HB]
  · iapply (tiles_exists_intro (F := F) (ℓ := loc d main_v6) tbl (fun t => Tbl6 m d t) hT) $$ HB
  isplitl [HC]; · iexact HC
  iexact HD

/-- The tiles' results of the first call are one array with the call's result on every tile's rows. -/
theorem join0 (d : Dev nD) :
    (bigSep Finset.univ fun c : Fin ((K (F := F)).nCore 0) => (P m).dn 0 d c : sProp 𝕄)
      ⊢ iprop(∃ f : Buf (Elt F) (loc d main_v8), (loc d main_v8 ↦{fullShare} f) ∗ ⌜Acc8All m d f⌝) := by
  rw [dn0_tiles]
  unfold td0
  haveI : Nonempty (Buf (Elt F) (loc d main_v8)) := ⟨m (loc d main_v8)⟩
  refine (bigSep_exists_pi Finset.univ (fun (p : Fin 2 × Fin 16) (f : Buf (Elt F) (loc d main_v8)) =>
    iprop((loc d main_v8 ↦[rowSet (coords p.1 p.2)]{fullShare} f) ∗ ⌜Acc8 m d (coords p.1 p.2) f⌝))).trans ?_
  iintro ⟨%fs, H⟩
  ihave H2 := (tiles_pure_out (F := F) (ℓ := loc d main_v8) (fun p => rowSet (coords p.1 p.2)) fs
    (fun p => Acc8 m d (coords p.1 p.2) (fs p))) $$ H
  icases H2 with ⟨%hφ, Hpts⟩
  ihave H3 := (pointsTo_biUnion_join (ℓ := loc d main_v8) (q := fullShare) (Val := Elt F) Finset.univ
    (fun p : Fin 2 × Fin 16 => rowSet (coords p.1 p.2)) fs (m (loc d main_v8)) rows_disjoint) $$ Hpts
  icases H3 with ⟨%g, %hg, Hg⟩
  rw [rows_cover]
  iexists g
  isplitl [Hg]; · iexact Hg
  ipureintro
  intro c s
  obtain ⟨tbl, hT, hV⟩ := hφ (c, s) (Finset.mem_univ _)
  exact ⟨tbl, hT, tileVal_congr _ _ _ _ _ _ _ (hg (c, s) (Finset.mem_univ _)) hV⟩

/-! ## Call 1 -/

/-- The second call's operands are its tiles' operands. -/
theorem split1 (d : Dev nD) (tbl : Buf (Elt F) (loc d main_v11)) (hT : Tbl11 m d tbl)
    (bs : Buf (Elt F) (loc d main_v8)) (hB : Acc8All m d bs) :
    iprop((loc d main_arg1 ↦{fullShare.right} m (loc d main_arg1)) ∗ (loc d main_v11 ↦{fullShare} tbl)
        ∗ (loc d main_v8 ↦{fullShare} bs) ∗ (loc d main_v12 ↦{fullShare} m (loc d main_v12)))
      ⊢ (bigSep Finset.univ fun c : Fin ((K (F := F)).nCore 1) => (P m).st 1 d c : sProp 𝕄) := by
  rw [st1_tiles]
  unfold go1
  rw [bigSep_sep', bigSep_sep', bigSep_sep',
    pts_tiles (F := F) (ℓ := loc d main_arg1) fullShare.right (m (loc d main_arg1)),
    pts_tiles (F := F) (ℓ := loc d main_v11) fullShare tbl,
    pts_tiles (F := F) (ℓ := loc d main_v8) fullShare bs,
    rows_tiles12 (F := F) d (m (loc d main_v12))]
  iintro ⟨HA, HB, HC, HD⟩
  isplitl [HA]; · iexact HA
  isplitl [HB]
  · iapply (tiles_exists_intro (F := F) (ℓ := loc d main_v11) tbl (fun t => Tbl11 m d t) hT) $$ HB
  isplitl [HC]
  · iapply (tiles_exists_intro (F := F) (ℓ := loc d main_v8) bs (fun t => Acc8All m d t) hB) $$ HC
  iexact HD

/-- The tiles' results of the second call are one array with the call's result on every tile's rows. -/
theorem join1 (d : Dev nD) :
    (bigSep Finset.univ fun c : Fin ((K (F := F)).nCore 1) => (P m).dn 1 d c : sProp 𝕄)
      ⊢ iprop(∃ f : Buf (Elt F) (loc d main_v12), (loc d main_v12 ↦{fullShare} f) ∗ ⌜Out12All m d f⌝) := by
  rw [dn1_tiles]
  unfold td1
  haveI : Nonempty (Buf (Elt F) (loc d main_v12)) := ⟨m (loc d main_v12)⟩
  refine (bigSep_exists_pi Finset.univ (fun (p : Fin 2 × Fin 16) (f : Buf (Elt F) (loc d main_v12)) =>
    iprop((loc d main_v12 ↦[rowSet (coords p.1 p.2)]{fullShare} f) ∗ ⌜Out12 m d (coords p.1 p.2) f⌝))).trans ?_
  iintro ⟨%fs, H⟩
  ihave H2 := (tiles_pure_out (F := F) (ℓ := loc d main_v12) (fun p => rowSet (coords p.1 p.2)) fs
    (fun p => Out12 m d (coords p.1 p.2) (fs p))) $$ H
  icases H2 with ⟨%hφ, Hpts⟩
  ihave H3 := (pointsTo_biUnion_join (ℓ := loc d main_v12) (q := fullShare) (Val := Elt F) Finset.univ
    (fun p : Fin 2 × Fin 16 => rowSet (coords p.1 p.2)) fs (m (loc d main_v12)) rows_disjoint) $$ Hpts
  icases H3 with ⟨%g, %hg, Hg⟩
  rw [rows_cover]
  iexists g
  isplitl [Hg]; · iexact Hg
  ipureintro
  intro c s
  obtain ⟨tbl, bs, hT, hB, hV⟩ := hφ (c, s) (Finset.mem_univ _)
  exact ⟨tbl, bs, hT, hB, tileVal_congr _ _ _ _ _ _ _ (hg (c, s) (Finset.mem_univ _)) hV⟩

end Cert.Kernel.SplitJoin

end
-- ==== Proof.PreRanges.lean ====
/-
  The printed precondition, decoded: the two id arrays lie in the tables' row ranges.
  The precondition is a conjunction of `jnp.all` reductions; the conjuncts on the ids are the signed
  comparisons 0 ≤ x and x ≤ 999999 (resp. 99999).  A word that is nonnegative as a signed word reads the
  same signed and unsigned, so its unsigned value is at most the bound.
-/
import proofs.«204913_g64682207478566_cont_9to1c4b_713_31_alg».proof.Pre_input_domain
import Idealize.ShloMosaic.Lib.ReduceAll

noncomputable section

namespace Cert.Proof.Pre

open Idealize.ShloMosaic

instance : Subsingleton Cert.Pre_input_domain.S_.Idx := ⟨fun a b => funext fun d => d.elim0⟩

/-- A word in [0, n] signed, n < 2³¹, is at most n unsigned. -/
theorem toNat_le (w : BitVec 32) (n : Nat) (hn : n < 2 ^ 31) (h0 : IntOp.cmpi .sge w (0#32) = 1#1)
    (h1 : IntOp.cmpi .sle w (BitVec.ofNat 32 n) = 1#1) : w.toNat ≤ n := by
  rw [IntOp.cmpi_sge] at h0
  rw [IntOp.cmpi_sle] at h1
  have hz : (0#32 : BitVec 32).toInt = 0 := by decide
  rw [hz] at h0
  have hw : w.toInt = (w.toNat : Int) := by
    have := (BitVec.toInt_pos_iff (x := w)).1 h0
    exact BitVec.toInt_eq_toNat_of_lt this
  have hn' : (BitVec.ofNat 32 n).toInt = (n : Int) := by
    rw [BitVec.toInt_eq_toNat_of_lt (by rw [BitVec.toNat_ofNat]; omega), BitVec.toNat_ofNat]
    congr 1; omega
  rw [hw, hn'] at h1
  exact_mod_cast h1

/-- The precondition gives the id ranges. -/
theorem ranges_of_fn {F : FTy → Type} [FloatOps F] [hP : Cert.Pre_input_domain.Facts]
    (a0 a1 : IVec Cert.Pre_input_domain.S16384 32) (a2 : FVec F Cert.Pre_input_domain.S1000000x100 .f32)
    (a3 : FVec F Cert.Pre_input_domain.S100000x100 .f32) (a4 : FVec F Cert.Pre_input_domain.S200x1 .f32)
    (a5 : FVec F Cert.Pre_input_domain.S1 .f32)
    (h : Cert.Pre_input_domain.fn (F := F) a0 a1 a2 a3 a4 a5 = fun _ => 1#1) :
    (∀ i, (a0 i).toNat ≤ 999999) ∧ (∀ i, (a1 i).toNat ≤ 99999) := by
  have e := congrFun h (fun d => d.elim0)
  dsimp only [Cert.Pre_input_domain.fn, Cert.Pre_input_domain.fn_part1] at e
  simp only [andi] at e
  obtain ⟨⟨-, hU⟩, hC⟩ := IntOp.andi_eq_one.1 e |>.imp_left (fun h => IntOp.andi_eq_one.1 h)
  constructor
  · intro i
    have hi := Host.reduce_andi_all _ _ _ _ _ hU i
    simp only [andi, cmpi, broadcastInDim, constantI] at hi
    obtain ⟨h0, h1⟩ := IntOp.andi_eq_one.1 hi
    exact toNat_le _ 999999 (by decide) h0 h1
  · intro i
    have hi := Host.reduce_andi_all _ _ _ _ _ hC i
    simp only [andi, cmpi, broadcastInDim, constantI] at hi
    obtain ⟨h0, h1⟩ := IntOp.andi_eq_one.1 hi
    exact toNat_le _ 99999 (by decide) h0 h1

end Cert.Proof.Pre

end
-- ==== Proof.ClaimsB.lean ====
/-
  The kernel's run from the precondition, at any float instance: the precondition's id ranges are what the tiles'
  gathers need; the split and join of the calls' operands are plugged in.
-/
import proofs.«204913_g64682207478566_cont_9to1c4b_713_31_alg».proof.Proof.RunB
import proofs.«204913_g64682207478566_cont_9to1c4b_713_31_alg».proof.Proof.SplitJoinB
import proofs.«204913_g64682207478566_cont_9to1c4b_713_31_alg».proof.Proof.KernelValueB
import proofs.«204913_g64682207478566_cont_9to1c4b_713_31_alg».proof.Proof.PreRanges
import proofs.«204913_g64682207478566_cont_9to1c4b_713_31_alg».proof.Proof.Gen.Pre_input_domain

noncomputable section

namespace Cert.Kernel.Claims

open Cert.Kernel Cert.Kernel.Gen Cert.Kernel.Common Cert.Kernel.Vals Cert.Kernel.PayM Cert.Kernel.HMain Cert.Kernel.TileObl Cert.Kernel.Run

open Idealize.ShloMosaic Idealize.ShloMosaic.TcCoe
open Idealize.SL.Sem

/-- The precondition gives what the proof asks of the launch memory: the ids name rows of their tables. -/
theorem ok_of_pre {F : FTy → Type} [FloatOps F] (m : (ℓ : Loc nD τ sig) → Buf (Elt F) ℓ)
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : PreOK m :=
  ⟨fun d => (Cert.Proof.Pre.ranges_of_fn _ _ _ _ _ _ (h d)).1, fun d => (Cert.Proof.Pre.ranges_of_fn _ _ _ _ _ _ (h d)).2⟩

/-- The program's run at any float instance, from the tiles' bodies and the regions. -/
theorem run {F : FTy → Type} [FloatOps F] [∀ e, Nonempty (Elt F e)] (hb1 : Body1 F) (hb3 : Body3 F) (hr0 : Region0 F) (hr1 : Region1 F)
    (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (QC m) :=
  run_main m ρ hb1 hb3 hr0 hr1 (Cert.Kernel.SplitJoin.split0 m) (Cert.Kernel.SplitJoin.join0 m) (Cert.Kernel.SplitJoin.split1 m) (Cert.Kernel.SplitJoin.join1 m) hpre

end Cert.Kernel.Claims

end
-- ==== Proof.ClaimsBits.lean ====
/-
  At the bit-exact instance: the printed kernel's frame — the same run, read at words, with the value dropped.
-/
import proofs.«204913_g64682207478566_cont_9to1c4b_713_31_alg».proof.Proof.ClaimsB

noncomputable section

namespace Cert.Kernel.ClaimsBits

open Cert.Kernel Cert.Kernel.Gen Cert.Kernel.Common Cert.Kernel.Vals Cert.Kernel.PayM Cert.Kernel.HMain Cert.Kernel.TileObl Cert.Kernel.Run Cert.Kernel.Claims

open Idealize.ShloMosaic Idealize.ShloMosaic.TcCoe
open Idealize.SL.Sem

theorem frame (hb1 : Body1 Bits) (hb3 : Body3 Bits) (hr0 : Region0 Bits) (hr1 : Region1 Bits) : Cert.frame_Kernel := fun m ρ hpre =>
  (θ_run (Cert.Kernel.defs (F := Bits)) _ _).mono
    (fun _ h c => ⟨(h c).1, (h c).2.1, (h c).2.2.1, (h c).2.2.2.1, (h c).2.2.2.2.1, (h c).2.2.2.2.2.1⟩)
    (run (F := Bits) hb1 hb3 hr0 hr1 m ρ (ok_of_pre m hpre))

end Cert.Kernel.ClaimsBits

end
-- ==== Proof.KernelValue.lean ====
/-
  The value the kernel leaves in its result array is the common closed form G.

  The result of call 1 at batch index i is (bias + T6[u / 128, u mod 128]) + T11[c / 128, c mod 128], where u, c
  are the user and course ids at i, T6 is the projected user table (one matrix product per block of 16384
  columns, laid out in rows of 128 lanes) and T11 the projected course table.  Row-major position
  128 (u / 128) + u mod 128 = u of T6 is entry u mod 16384 of block u / 16384, the product of the weight row with
  column u of the transposed user table: the sum over the hundred features f of w[f] U[u, f].  Likewise for courses
  with w[100 + f] C[c, f].
-/
import proofs.«204913_g64682207478566_cont_9to1c4b_713_31_alg».proof.Proof.PayM
import proofs.«204913_g64682207478566_cont_9to1c4b_713_31_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.KernelValue

open Cert.KernelIdeal Cert.KernelIdeal.Gen Cert.KernelIdeal.Common Cert.KernelIdeal.Vals
open Idealize.ShloMosaic Idealize.ShloMosaic.ValueIdx

/-! ## One block's matrix product at a column -/

/-- The contraction index of the product has one axis of extent 100. -/
abbrev dotD : DotDims S1x100 S100x16384 S1x16384 := dot_S1x100_S100x16384_S1x16384_1_0_0_1_n_n

/-- The left operand's index at output column col and feature f. -/
theorem lhsIdx_eq (col : Fin 16384) (f : Fin 100) :
    dotD.lhsIdx (ix2 (0 : Fin 1) col) ((contrEquiv1 dotD 100 rfl rfl).symm f) = ix2 (0 : Fin 1) f := by
  funext a
  refine Fin.ext ?_
  match a with
  | ⟨0, _⟩ => exact (Nat.lt_one_iff.mp (dotD.lhsIdx _ _ ⟨0, by decide⟩).isLt)
  | ⟨1, _⟩ =>
    exact (DotDims.lhsIdx_val_of_single (d := dotD) (cl := (1 : Fin 2)) rfl _ _).trans (contrEquiv1_symm_val dotD 100 rfl rfl f)

/-- The right operand's index at output column col and feature f. -/
theorem rhsIdx_eq (col : Fin 16384) (f : Fin 100) :
    dotD.rhsIdx (ix2 (0 : Fin 1) col) ((contrEquiv1 dotD 100 rfl rfl).symm f) = ix2 f col := by
  funext a
  refine Fin.ext ?_
  match a with
  | ⟨0, _⟩ =>
    exact (DotDims.rhsIdx_val_of_single (d := dotD) (cr := (0 : Fin 2)) rfl _ _).trans (contrEquiv1_symm_val dotD 100 rfl rfl f)
  | ⟨1, _⟩ => rfl

/-- A block's product at column col: the sum over the features of weight times table entry. -/
theorem k0_pay1_apply (W : Vec Ideal S1x100 .f32) (X : Vec Ideal S100x16384 .f32) (col : Fin 16384) :
    k0_pay1 (F := Ideal) W X (ix1 col) = ∑ f : Fin 100, W (ix2 (0 : Fin 1) f) * X (ix2 f col) := by
  unfold k0_pay1
  simp only [shapeCast_self, matmul]
  rw [shapeCast_apply _ shapeCasts_S1x16384_S16384 (ix1 col) (ix2 (0 : Fin 1) col) (by
    rw [Shape.rowMajor_val_two, Shape.rowMajor_val_one]; show 0 * 16384 + col.val = col.val; omega)]
  rw [Ideal.matmul_constant_zero_apply, ← Equiv.sum_comp (contrEquiv1 dotD 100 rfl rfl).symm]
  exact Finset.sum_congr rfl fun f _ => by rw [lhsIdx_eq, rhsIdx_eq]

/-- The same for the second region's payload. -/
theorem k2_pay1_apply (W : Vec Ideal S1x100 .f32) (X : Vec Ideal S100x16384 .f32) (col : Fin 16384) :
    k2_pay1 (F := Ideal) W X (ix1 col) = ∑ f : Fin 100, W (ix2 (0 : Fin 1) f) * X (ix2 f col) := by
  unfold k2_pay1
  simp only [shapeCast_self, matmul]
  rw [shapeCast_apply _ shapeCasts_S1x16384_S16384 (ix1 col) (ix2 (0 : Fin 1) col) (by
    rw [Shape.rowMajor_val_two, Shape.rowMajor_val_one]; show 0 * 16384 + col.val = col.val; omega)]
  rw [Ideal.matmul_constant_zero_apply, ← Equiv.sum_comp (contrEquiv1 dotD 100 rfl rfl).symm]
  exact Finset.sum_congr rfl fun f _ => by rw [lhsIdx_eq, rhsIdx_eq]

/-! ## The host operations at an index -/

section Host

variable (m : (ℓ : Loc nD τ sig) → Buf (Elt Ideal) ℓ) (d : Dev nD)

/-- Entry f of the first weight row is entry f of the weight column. -/
theorem W1_apply (f : Fin 100) :
    PayM.W1 m d (ix2 (0 : Fin 1) f)
      = (m (PayM.loc d main_arg4) : FVec Ideal S200x1 .f32) (ix2 (⟨f.val, by omega⟩ : Fin 200) (0 : Fin 1)) := by
  unfold PayM.W1
  rw [transpose_apply [1, 0] _ transposes_S100x1_S1x100_1_0 (ix2 (0 : Fin 1) f) (ix2 f (0 : Fin 1)) (by
        intro b; match b with | ⟨0, _⟩ => rfl | ⟨1, _⟩ => rfl)]
  exact extractStridedSlice_apply ![0, 0] _ slices_S200x1_S100x1_0_0 (ix2 f (0 : Fin 1))
    (ix2 (⟨f.val, by omega⟩ : Fin 200) (0 : Fin 1)) (by
        intro a; match a with | ⟨0, _⟩ => exact (Nat.zero_add _).symm | ⟨1, _⟩ => rfl)

/-- Entry f of the second weight row is entry 100 + f of the weight column. -/
theorem W3_apply (f : Fin 100) :
    PayM.W3 m d (ix2 (0 : Fin 1) f)
      = (m (PayM.loc d main_arg4) : FVec Ideal S200x1 .f32) (ix2 (⟨100 + f.val, by omega⟩ : Fin 200) (0 : Fin 1)) := by
  unfold PayM.W3
  rw [transpose_apply [1, 0] _ transposes_S100x1_S1x100_1_0 (ix2 (0 : Fin 1) f) (ix2 f (0 : Fin 1)) (by
        intro b; match b with | ⟨0, _⟩ => rfl | ⟨1, _⟩ => rfl)]
  exact extractStridedSlice_apply ![100, 0] _ slices_S200x1_S100x1_100_0 (ix2 f (0 : Fin 1))
    (ix2 (⟨100 + f.val, by omega⟩ : Fin 200) (0 : Fin 1)) (by
        intro a; match a with | ⟨0, _⟩ => rfl | ⟨1, _⟩ => rfl)

/-- The transposed user table at (f, n) is the user table at (n, f). -/
theorem X4_apply (f : Fin 100) (n : Fin 1000000) :
    PayM.X4 m d (ix2 f n) = (m (PayM.loc d main_arg2) : FVec Ideal S1000000x100 .f32) (ix2 n f) := by
  unfold PayM.X4
  exact transpose_apply [1, 0] _ transposes_S1000000x100_S100x1000000_1_0 (ix2 f n) (ix2 n f) (by
        intro b; match b with | ⟨0, _⟩ => rfl | ⟨1, _⟩ => rfl)

/-- The transposed course table at (f, n) is the course table at (n, f). -/
theorem X9_apply (f : Fin 100) (n : Fin 100000) :
    PayM.X9 m d (ix2 f n) = (m (PayM.loc d main_arg3) : FVec Ideal S100000x100 .f32) (ix2 n f) := by
  unfold PayM.X9
  exact transpose_apply [1, 0] _ transposes_S100000x100_S100x100000_1_0 (ix2 f n) (ix2 n f) (by
        intro b; match b with | ⟨0, _⟩ => rfl | ⟨1, _⟩ => rfl)

/-- The broadcast bias is the bias everywhere. -/
theorem B7_apply (i : S16384.Idx) :
    PayM.B7 m d i = (m (PayM.loc d main_arg5) : FVec Ideal S1 .f32) (ix1 (0 : Fin 1)) := by
  unfold PayM.B7
  exact broadcastInDim_apply ![0] bcast_S1_S16384_0 _ i (ix1 (0 : Fin 1)) (by
        intro a; match a with | ⟨0, _⟩ => rfl)

end Host

/-! ## The projected tables at a row and lane -/

/-- The projected user table, reshaped to 128 lanes, at the row and lane of an id u below 1000000: block u / 16384,
    column u mod 16384, whose columns all lie inside the table. -/
theorem tbl6_entry (W : FVec Ideal S1x100 .f32) (X4 : FVec Ideal S100x1000000 .f32) (f5 : FVec Ideal S1000448 .f32)
    (h : Reg0Val W X4 f5) (u : Nat) (hu : u < 1000000) (row : Fin 7816) (lane : Fin 128)
    (hrl : 128 * row.val + lane.val = u) :
    shapeCast S7816x128 f5 shapeCasts_S1000448_S7816x128 (ix2 row lane)
      = ∑ f : Fin 100, W (ix2 (0 : Fin 1) f) * X4 (ix2 f (⟨u, hu⟩ : Fin 1000000)) := by
  obtain ⟨X, hX, hf5⟩ := h
  have ht : u / 16384 < 62 := by omega
  have hc : u % 16384 < 16384 := Nat.mod_lt _ (by decide)
  have hin : 16384 * (⟨u / 16384, ht⟩ : Fin 62).val + (⟨u % 16384, hc⟩ : Fin 16384).val < 1000448 := by
    show 16384 * (u / 16384) + u % 16384 < 1000448; omega
  have hin' : 16384 * (⟨u / 16384, ht⟩ : Fin 62).val + (⟨u % 16384, hc⟩ : Fin 16384).val < 1000000 := by
    show 16384 * (u / 16384) + u % 16384 < 1000000; omega
  rw [shapeCast_apply f5 shapeCasts_S1000448_S7816x128 (ix2 row lane)
    (ix1 (⟨16384 * (⟨u / 16384, ht⟩ : Fin 62).val + (⟨u % 16384, hc⟩ : Fin 16384).val, hin⟩ : Fin 1000448)) (by
      rw [Shape.rowMajor_val_two, Shape.rowMajor_val_one]
      show 16384 * (u / 16384) + u % 16384 = row.val * 128 + lane.val
      omega)]
  rw [hf5 ⟨u / 16384, ht⟩ ⟨u % 16384, hc⟩ hin, k0_pay1_apply]
  refine Finset.sum_congr rfl fun f _ => ?_
  rw [hX ⟨u / 16384, ht⟩ f ⟨u % 16384, hc⟩ hin']
  congr 2
  refine congrArg (ix2 f) (Fin.ext ?_)
  show 16384 * (u / 16384) + u % 16384 = u
  omega

/-- The projected course table at the row and lane of an id c below 100000. -/
theorem tbl11_entry (W : FVec Ideal S1x100 .f32) (X9 : FVec Ideal S100x100000 .f32) (f10 : FVec Ideal S100352 .f32)
    (h : Reg1Val W X9 f10) (u : Nat) (hu : u < 100000) (row : Fin 784) (lane : Fin 128)
    (hrl : 128 * row.val + lane.val = u) :
    shapeCast S784x128 f10 shapeCasts_S100352_S784x128 (ix2 row lane)
      = ∑ f : Fin 100, W (ix2 (0 : Fin 1) f) * X9 (ix2 f (⟨u, hu⟩ : Fin 100000)) := by
  obtain ⟨X, hX, hf10⟩ := h
  have ht : u / 16384 < 7 := by omega
  have hc : u % 16384 < 16384 := Nat.mod_lt _ (by decide)
  have hin : 16384 * (⟨u / 16384, ht⟩ : Fin 7).val + (⟨u % 16384, hc⟩ : Fin 16384).val < 100352 := by
    show 16384 * (u / 16384) + u % 16384 < 100352; omega
  have hin' : 16384 * (⟨u / 16384, ht⟩ : Fin 7).val + (⟨u % 16384, hc⟩ : Fin 16384).val < 100000 := by
    show 16384 * (u / 16384) + u % 16384 < 100000; omega
  rw [shapeCast_apply f10 shapeCasts_S100352_S784x128 (ix2 row lane)
    (ix1 (⟨16384 * (⟨u / 16384, ht⟩ : Fin 7).val + (⟨u % 16384, hc⟩ : Fin 16384).val, hin⟩ : Fin 100352)) (by
      rw [Shape.rowMajor_val_two, Shape.rowMajor_val_one]
      show 16384 * (u / 16384) + u % 16384 = row.val * 128 + lane.val
      omega)]
  rw [hf10 ⟨u / 16384, ht⟩ ⟨u % 16384, hc⟩ hin, k2_pay1_apply]
  refine Finset.sum_congr rfl fun f _ => ?_
  rw [hX ⟨u / 16384, ht⟩ f ⟨u % 16384, hc⟩ hin']
  congr 2
  refine congrArg (ix2 f) (Fin.ext ?_)
  show 16384 * (u / 16384) + u % 16384 = u
  omega

/-! ## Batch indices and tiles -/

/-- Every batch index is row r of the tile (c, s) with 1024 s + 512 c + r its position. -/
theorem exists_bidx (i : S16384.Idx) : ∃ (c : Fin 2) (s : Fin 16) (r : Fin 512), i = bidx (PayM.coords c s) r := by
  have hn : (i 0).val < 16384 := (i 0).isLt
  refine ⟨⟨(i 0).val / 512 % 2, Nat.mod_lt _ (by decide)⟩, ⟨(i 0).val / 1024, by omega⟩,
    ⟨(i 0).val % 512, Nat.mod_lt _ (by decide)⟩, ?_⟩
  refine (eq_ix1 i).trans ?_
  unfold bidx
  refine congrArg ix1 (Fin.ext ?_)
  show (i 0).val = (k1_off1 _) 0 + (i 0).val % 512
  rw [k1_off1_eq]
  show (i 0).val = 1024 * ((i 0).val / 1024) + 512 * ((i 0).val / 512 % 2) + (i 0).val % 512
  omega

/-! ## The two projections as the closed form writes them -/

section Proj

variable (m : (ℓ : Loc nD τ sig) → Buf (Elt Ideal) ℓ) (d : Dev nD)

/-- The weight row times column u of the transposed user table is the user table's row u projected on the first
    half of the weights. -/
theorem projU_eq (v : BitVec 32) (hv : v.toNat < 1000000) :
    ∑ f : Fin 100, PayM.W1 m d (ix2 (0 : Fin 1) f) * PayM.X4 m d (ix2 f (⟨v.toNat, hv⟩ : Fin 1000000))
      = Cert.Spec.projU (m (PayM.loc d main_arg2)) (m (PayM.loc d main_arg4)) (Cert.Spec.urow v) := by
  unfold Cert.Spec.projU Cert.Spec.wlo
  have e : Cert.Spec.urow v = (⟨v.toNat, hv⟩ : Fin 1000000) := Fin.ext (Nat.mod_eq_of_lt hv)
  rw [e]
  exact Finset.sum_congr rfl fun f _ => by rw [W1_apply, X4_apply]

/-- The same for courses and the second half of the weights. -/
theorem projC_eq (v : BitVec 32) (hv : v.toNat < 100000) :
    ∑ f : Fin 100, PayM.W3 m d (ix2 (0 : Fin 1) f) * PayM.X9 m d (ix2 f (⟨v.toNat, hv⟩ : Fin 100000))
      = Cert.Spec.projC (m (PayM.loc d main_arg3)) (m (PayM.loc d main_arg4)) (Cert.Spec.crow v) := by
  unfold Cert.Spec.projC Cert.Spec.whi
  have e : Cert.Spec.crow v = (⟨v.toNat, hv⟩ : Fin 100000) := Fin.ext (Nat.mod_eq_of_lt hv)
  rw [e]
  exact Finset.sum_congr rfl fun f _ => by rw [W3_apply, X9_apply]

end Proj

/-! ## The result -/

/-- What the second call leaves on every tile's rows, for ids in range, is the closed form. -/
theorem out_eq_G (m : (ℓ : Loc nD τ sig) → Buf (Elt Ideal) ℓ) (d : Dev nD)
    (hU : ∀ i, ((m (PayM.loc d main_arg0) : IVec S16384 32) i).toNat ≤ 999999)
    (hC : ∀ i, ((m (PayM.loc d main_arg1) : IVec S16384 32) i).toNat ≤ 99999)
    (f : FVec Ideal S16384 .f32) (h : PayM.Out12All (F := Ideal) m d f) :
    f = Cert.Spec.G (m (PayM.loc d main_arg0)) (m (PayM.loc d main_arg1)) (m (PayM.loc d main_arg2))
          (m (PayM.loc d main_arg3)) (m (PayM.loc d main_arg4)) (m (PayM.loc d main_arg5)) := by
  funext i
  obtain ⟨c, s, r, rfl⟩ := exists_bidx i
  obtain ⟨tbl11, bs, ⟨f10, hf10, rfl⟩, hbs, hT⟩ := h c s
  obtain ⟨tbl6, ⟨f5, hf5, rfl⟩, hT0⟩ := hbs c s
  have hu : ((m (PayM.loc d main_arg0) : IVec S16384 32) (bidx (PayM.coords c s) r)).toNat < 1000000 :=
    Nat.lt_succ_of_le (hU _)
  have hc : ((m (PayM.loc d main_arg1) : IVec S16384 32) (bidx (PayM.coords c s) r)).toNat < 100000 :=
    Nat.lt_succ_of_le (hC _)
  rw [hT r, hT0 r, Ideal.addf_def, Ideal.addf_def]
  rw [tbl6_entry _ _ f5 hf5 _ hu (trow 7816 (by decide) _) (tlane _) (by
        show 128 * (((m (PayM.loc d main_arg0) : IVec S16384 32) (bidx (PayM.coords c s) r)).toNat / 128 % 7816)
          + ((m (PayM.loc d main_arg0) : IVec S16384 32) (bidx (PayM.coords c s) r)).toNat % 128 = _
        omega),
    tbl11_entry _ _ f10 hf10 _ hc (trow 784 (by decide) _) (tlane _) (by
        show 128 * (((m (PayM.loc d main_arg1) : IVec S16384 32) (bidx (PayM.coords c s) r)).toNat / 128 % 784)
          + ((m (PayM.loc d main_arg1) : IVec S16384 32) (bidx (PayM.coords c s) r)).toNat % 128 = _
        omega)]
  rw [B7_apply, projU_eq m d _ hu, projC_eq m d _ hc]
  rfl

end Cert.KernelIdeal.KernelValue

end
-- ==== Proof.SplitJoin.lean ====
/-
  The split of a call's operands among the 32 tiles, and the join of the tiles' results.

  Tile (c, s) has number 2 s + c among the 32.  Of every array all tiles read it is handed leaf 2 s + c of the
  depth-5 halving of the share the call holds; of the array the call writes it is handed its own 512 rows
  [512 (2 s + c), 512 (2 s + c) + 512).  The 32 row sets are pairwise disjoint and cover the 16384 rows, so the
  whole array splits into them and their contents join into one array; what a tile's result says of its contents
  only reads the tile's own rows, so it holds of the joined array too.
-/
import proofs.«204913_g64682207478566_cont_9to1c4b_713_31_alg».proof.Proof.PayM
import proofs.«204913_g64682207478566_cont_9to1c4b_713_31_alg».proof.Proof.KernelValue

noncomputable section

namespace Cert.KernelIdeal.SplitJoin

open Cert.KernelIdeal Cert.KernelIdeal.Gen Cert.KernelIdeal.Common Cert.KernelIdeal.Vals Cert.KernelIdeal.PayM

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Shares

variable {F : FTy → Type} [FloatOps F]

local notation "𝕄" => 𝕄F F

variable (m : (ℓ : Loc nD τ sig) → Buf (Elt F) ℓ)

/-! ## Tiles by number -/

/-- Tile (c, s) has number 2 s + c: a bijection between the 2 x 16 tiles and the 32 leaves. -/
def widE : Fin 2 × Fin 16 ≃ Fin (2 ^ 5) where
  toFun p := wid p.1 p.2
  invFun j := (⟨j.val % 2, Nat.mod_lt _ (by decide)⟩, ⟨j.val / 2, by have h : j.val < 32 := j.isLt; omega⟩)
  left_inv p := by
    have h1 : p.1.val < 2 := p.1.isLt
    apply Prod.ext <;> apply Fin.ext
    · show (2 * p.2.val + p.1.val) % 2 = p.1.val; omega
    · show (2 * p.2.val + p.1.val) / 2 = p.2.val; omega
  right_inv j := by
    apply Fin.ext
    show 2 * (j.val / 2) + j.val % 2 = j.val
    omega

/-- A points-to at a share is the tiles' leaves of it. -/
theorem pts_tiles {ℓ : Loc nD τ sig} (q : PosShare TreeShare) (f : Buf (Elt F) ℓ) :
    (ℓ ↦{q} f : sProp 𝕄) = bigSep Finset.univ fun p : Fin 2 × Fin 16 => ℓ ↦{lf q p.1 p.2} f :=
  (pointsTo_leaves Finset.univ f 5 q).trans
    (bigSep_univ_equiv widE (fun j : Fin (2 ^ 5) => (ℓ ↦{leaf 5 q j} f : sProp 𝕄)))

/-! ## The tiles' rows -/

/-- A tile's rows are the 512 from its offset. -/
theorem rowSet_unit (L : grid1.Coords) :
    rowSet L = (Rect.unit (s := S16384) (k1_off1 L) S512.size (k1_off1_inb L)).set := by
  show ((View.whole (main_v8_scv : Ref sig .scVector)).slice _).set = _
  exact View.set_slice_whole _ _

/-- Tile (c, s) starts at row 1024 s + 512 c. -/
theorem off_coords (c : Fin 2) (s : Fin 16) : (k1_off1 (coords c s)) 0 = 1024 * s.val + 512 * c.val := by
  rw [k1_off1_eq]; rfl

/-- Different tiles have disjoint rows. -/
theorem rows_disjoint : ∀ p ∈ (Finset.univ : Finset (Fin 2 × Fin 16)), ∀ p' ∈ (Finset.univ : Finset (Fin 2 × Fin 16)),
    p ≠ p' → Disjoint (rowSet (coords p.1 p.2)) (rowSet (coords p'.1 p'.2)) := by
  intro p _ p' _ hne
  rw [rowSet_unit, rowSet_unit]
  refine Rect.unit_disjoint (0 : Fin 1) ?_
  rw [off_coords, off_coords]
  show 1024 * p.2.val + 512 * p.1.val + 512 ≤ 1024 * p'.2.val + 512 * p'.1.val
    ∨ 1024 * p'.2.val + 512 * p'.1.val + 512 ≤ 1024 * p.2.val + 512 * p.1.val
  have hn : ¬ (p.1.val = p'.1.val ∧ p.2.val = p'.2.val) := fun ⟨h1, h2⟩ => hne (Prod.ext (Fin.ext h1) (Fin.ext h2))
  have h1 : p.1.val < 2 := p.1.isLt
  have h2 : p'.1.val < 2 := p'.1.isLt
  omega

/-- Row r of a tile is one of the tile's rows. -/
theorem mem_rowSet (L : grid1.Coords) (r : Fin 512) : bidx L r ∈ rowSet L := by
  rw [rowSet_unit, Rect.mem_set_unit]
  intro a
  obtain rfl : a = (0 : Fin 1) := Subsingleton.elim _ _
  show (k1_off1 L) 0 ≤ (k1_off1 L) 0 + r.val ∧ (k1_off1 L) 0 + r.val < (k1_off1 L) 0 + 512
  have := r.isLt
  omega

/-- The tiles' rows are all the rows. -/
theorem rows_cover :
    (Finset.univ : Finset (Fin 2 × Fin 16)).biUnion (fun p => rowSet (coords p.1 p.2)) = Finset.univ := by
  ext i
  simp only [Finset.mem_biUnion, Finset.mem_univ, true_and, iff_true]
  obtain ⟨c, s, r, rfl⟩ := KernelValue.exists_bidx i
  exact ⟨(c, s), mem_rowSet _ r⟩

/-- The first call's output array is the tiles' rows of it. -/
theorem rows_tiles8 (d : Dev nD) (f : Buf (Elt F) (loc d main_v8)) :
    (loc d main_v8 ↦{fullShare} f : sProp 𝕄)
      = bigSep Finset.univ fun p : Fin 2 × Fin 16 => loc d main_v8 ↦[rowSet (coords p.1 p.2)]{fullShare} f := by
  rw [← pointsTo_biUnion Finset.univ (ℓ := loc d main_v8) (fun p : Fin 2 × Fin 16 => rowSet (coords p.1 p.2)) rows_disjoint,
    rows_cover]
  try rfl

/-- The second call's output array is the tiles' rows of it. -/
theorem rows_tiles12 (d : Dev nD) (f : Buf (Elt F) (loc d main_v12)) :
    (loc d main_v12 ↦{fullShare} f : sProp 𝕄)
      = bigSep Finset.univ fun p : Fin 2 × Fin 16 => loc d main_v12 ↦[rowSet (coords p.1 p.2)]{fullShare} f := by
  rw [← pointsTo_biUnion Finset.univ (ℓ := loc d main_v12) (fun p : Fin 2 × Fin 16 => rowSet (coords p.1 p.2)) rows_disjoint,
    rows_cover]
  try rfl

/-- What a tile's result says of an array only reads the tile's rows. -/
theorem tileVal_congr {R : Nat} (hR : 0 < R) (L : grid1.Coords) (ids : S16384.Idx → BitVec 32) (bs : S16384.Idx → F .f32)
    (tbl : (⟨2, ![R, 128]⟩ : Shape).Idx → F .f32) (f g : S16384.Idx → F .f32) (hfg : ∀ i ∈ rowSet L, g i = f i)
    (h : TileVal hR L ids bs tbl f) : TileVal hR L ids bs tbl g :=
  fun r => (hfg _ (mem_rowSet L r)).trans (h r)

/-! ## The cores' and tiles' conjunctions as one over the 32 tiles -/

theorem st0_tiles (d : Dev nD) :
    (bigSep Finset.univ fun c : Fin ((K (F := F)).nCore 0) => (P m).st 0 d c : sProp 𝕄)
      = bigSep Finset.univ fun p : Fin 2 × Fin 16 => go0 m d p.1 p.2 :=
  (show _ = bigSep Finset.univ (fun c : Fin 2 => bigSep Finset.univ fun s : Fin 16 => go0 m d c s) from rfl).trans
    (bigSep_univ_prod (fun p : Fin 2 × Fin 16 => go0 m d p.1 p.2)).symm

theorem dn0_tiles (d : Dev nD) :
    (bigSep Finset.univ fun c : Fin ((K (F := F)).nCore 0) => (P m).dn 0 d c : sProp 𝕄)
      = bigSep Finset.univ fun p : Fin 2 × Fin 16 => td0 m d p.1 p.2 :=
  (show _ = bigSep Finset.univ (fun c : Fin 2 => bigSep Finset.univ fun s : Fin 16 => td0 m d c s) from rfl).trans
    (bigSep_univ_prod (fun p : Fin 2 × Fin 16 => td0 m d p.1 p.2)).symm

theorem st1_tiles (d : Dev nD) :
    (bigSep Finset.univ fun c : Fin ((K (F := F)).nCore 1) => (P m).st 1 d c : sProp 𝕄)
      = bigSep Finset.univ fun p : Fin 2 × Fin 16 => go1 m d p.1 p.2 :=
  (show _ = bigSep Finset.univ (fun c : Fin 2 => bigSep Finset.univ fun s : Fin 16 => go1 m d c s) from rfl).trans
    (bigSep_univ_prod (fun p : Fin 2 × Fin 16 => go1 m d p.1 p.2)).symm

theorem dn1_tiles (d : Dev nD) :
    (bigSep Finset.univ fun c : Fin ((K (F := F)).nCore 1) => (P m).dn 1 d c : sProp 𝕄)
      = bigSep Finset.univ fun p : Fin 2 × Fin 16 => td1 m d p.1 p.2 :=
  (show _ = bigSep Finset.univ (fun c : Fin 2 => bigSep Finset.univ fun s : Fin 16 => td1 m d c s) from rfl).trans
    (bigSep_univ_prod (fun p : Fin 2 × Fin 16 => td1 m d p.1 p.2)).symm

/-! ## Two steps on the conjunction over the tiles -/

/-- Each tile may forget which array it was handed, keeping a fact about it. -/
theorem tiles_exists_intro {ℓ : Loc nD τ sig} (t₀ : Buf (Elt F) ℓ) (φ : Buf (Elt F) ℓ → Prop) (h : φ t₀) :
    (bigSep Finset.univ fun p : Fin 2 × Fin 16 => (ℓ ↦{lf fullShare p.1 p.2} t₀ : sProp 𝕄))
      ⊢ bigSep Finset.univ fun p : Fin 2 × Fin 16 =>
          iprop(∃ t : Buf (Elt F) ℓ, (ℓ ↦{lf fullShare p.1 p.2} t) ∗ ⌜φ t⌝) :=
  bigSep_mono fun p _ =>
    (show (ℓ ↦{lf fullShare p.1 p.2} t₀ : sProp 𝕄)
        ⊢ iprop(∃ t : Buf (Elt F) ℓ, (ℓ ↦{lf fullShare p.1 p.2} t) ∗ ⌜φ t⌝) from by
      iintro H; iexists t₀
      isplitl [H]; · iexact H
      ipureintro; exact h)

/-- The tiles' facts about their rows, gathered. -/
theorem tiles_pure_out {ℓ : Loc nD τ sig} (Kf : Fin 2 × Fin 16 → Finset (Idx ℓ)) (fs : Fin 2 × Fin 16 → Buf (Elt F) ℓ)
    (φ : Fin 2 × Fin 16 → Prop) :
    (bigSep Finset.univ fun p : Fin 2 × Fin 16 => iprop((ℓ ↦[Kf p]{fullShare} fs p) ∗ ⌜φ p⌝) : sProp 𝕄)
      ⊢ iprop(⌜∀ p ∈ (Finset.univ : Finset (Fin 2 × Fin 16)), φ p⌝
          ∗ bigSep Finset.univ fun p : Fin 2 × Fin 16 => ℓ ↦[Kf p]{fullShare} fs p) :=
  (bigSep_mono fun p _ =>
    (show (iprop((ℓ ↦[Kf p]{fullShare} fs p) ∗ ⌜φ p⌝) : sProp 𝕄) ⊢ iprop(⌜φ p⌝ ∗ (ℓ ↦[Kf p]{fullShare} fs p)) from by
      iintro ⟨Hp, %hp⟩
      isplitr
      · ipureintro; exact hp
      · iexact Hp)).trans
    (bigSep_pure_sep Finset.univ φ (fun p : Fin 2 × Fin 16 => (ℓ ↦[Kf p]{fullShare} fs p : sProp 𝕄)))

/-! ## Call 0 -/

/-- The first call's operands are its tiles' operands. -/
theorem split0 (d : Dev nD) (tbl : Buf (Elt F) (loc d main_v6)) (hT : Tbl6 m d tbl) :
    iprop((loc d main_arg0 ↦{fullShare.right} m (loc d main_arg0)) ∗ (loc d main_v6 ↦{fullShare} tbl)
        ∗ (loc d main_v7 ↦{fullShare} (B7 m d : Buf (Elt F) (loc d main_v7))) ∗ (loc d main_v8 ↦{fullShare} m (loc d main_v8)))
      ⊢ (bigSep Finset.univ fun c : Fin ((K (F := F)).nCore 0) => (P m).st 0 d c : sProp 𝕄) := by
  rw [st0_tiles]
  unfold go0
  rw [bigSep_sep', bigSep_sep', bigSep_sep',
    pts_tiles (F := F) (ℓ := loc d main_arg0) fullShare.right (m (loc d main_arg0)),
    pts_tiles (F := F) (ℓ := loc d main_v6) fullShare tbl,
    pts_tiles (F := F) (ℓ := loc d main_v7) fullShare (B7 m d),
    rows_tiles8 (F := F) d (m (loc d main_v8))]
  iintro ⟨HA, HB, HC, HD⟩
  isplitl [HA]; · iexact HA
  isplitl [HB]
  · iapply (tiles_exists_intro (F := F) (ℓ := loc d main_v6) tbl (fun t => Tbl6 m d t) hT) $$ HB
  isplitl [HC]; · iexact HC
  iexact HD

/-- The tiles' results of the first call are one array with the call's result on every tile's rows. -/
theorem join0 (d : Dev nD) :
    (bigSep Finset.univ fun c : Fin ((K (F := F)).nCore 0) => (P m).dn 0 d c : sProp 𝕄)
      ⊢ iprop(∃ f : Buf (Elt F) (loc d main_v8), (loc d main_v8 ↦{fullShare} f) ∗ ⌜Acc8All m d f⌝) := by
  rw [dn0_tiles]
  unfold td0
  haveI : Nonempty (Buf (Elt F) (loc d main_v8)) := ⟨m (loc d main_v8)⟩
  refine (bigSep_exists_pi Finset.univ (fun (p : Fin 2 × Fin 16) (f : Buf (Elt F) (loc d main_v8)) =>
    iprop((loc d main_v8 ↦[rowSet (coords p.1 p.2)]{fullShare} f) ∗ ⌜Acc8 m d (coords p.1 p.2) f⌝))).trans ?_
  iintro ⟨%fs, H⟩
  ihave H2 := (tiles_pure_out (F := F) (ℓ := loc d main_v8) (fun p => rowSet (coords p.1 p.2)) fs
    (fun p => Acc8 m d (coords p.1 p.2) (fs p))) $$ H
  icases H2 with ⟨%hφ, Hpts⟩
  ihave H3 := (pointsTo_biUnion_join (ℓ := loc d main_v8) (q := fullShare) (Val := Elt F) Finset.univ
    (fun p : Fin 2 × Fin 16 => rowSet (coords p.1 p.2)) fs (m (loc d main_v8)) rows_disjoint) $$ Hpts
  icases H3 with ⟨%g, %hg, Hg⟩
  rw [rows_cover]
  iexists g
  isplitl [Hg]; · iexact Hg
  ipureintro
  intro c s
  obtain ⟨tbl, hT, hV⟩ := hφ (c, s) (Finset.mem_univ _)
  exact ⟨tbl, hT, tileVal_congr _ _ _ _ _ _ _ (hg (c, s) (Finset.mem_univ _)) hV⟩

/-! ## Call 1 -/

/-- The second call's operands are its tiles' operands. -/
theorem split1 (d : Dev nD) (tbl : Buf (Elt F) (loc d main_v11)) (hT : Tbl11 m d tbl)
    (bs : Buf (Elt F) (loc d main_v8)) (hB : Acc8All m d bs) :
    iprop((loc d main_arg1 ↦{fullShare.right} m (loc d main_arg1)) ∗ (loc d main_v11 ↦{fullShare} tbl)
        ∗ (loc d main_v8 ↦{fullShare} bs) ∗ (loc d main_v12 ↦{fullShare} m (loc d main_v12)))
      ⊢ (bigSep Finset.univ fun c : Fin ((K (F := F)).nCore 1) => (P m).st 1 d c : sProp 𝕄) := by
  rw [st1_tiles]
  unfold go1
  rw [bigSep_sep', bigSep_sep', bigSep_sep',
    pts_tiles (F := F) (ℓ := loc d main_arg1) fullShare.right (m (loc d main_arg1)),
    pts_tiles (F := F) (ℓ := loc d main_v11) fullShare tbl,
    pts_tiles (F := F) (ℓ := loc d main_v8) fullShare bs,
    rows_tiles12 (F := F) d (m (loc d main_v12))]
  iintro ⟨HA, HB, HC, HD⟩
  isplitl [HA]; · iexact HA
  isplitl [HB]
  · iapply (tiles_exists_intro (F := F) (ℓ := loc d main_v11) tbl (fun t => Tbl11 m d t) hT) $$ HB
  isplitl [HC]
  · iapply (tiles_exists_intro (F := F) (ℓ := loc d main_v8) bs (fun t => Acc8All m d t) hB) $$ HC
  iexact HD

/-- The tiles' results of the second call are one array with the call's result on every tile's rows. -/
theorem join1 (d : Dev nD) :
    (bigSep Finset.univ fun c : Fin ((K (F := F)).nCore 1) => (P m).dn 1 d c : sProp 𝕄)
      ⊢ iprop(∃ f : Buf (Elt F) (loc d main_v12), (loc d main_v12 ↦{fullShare} f) ∗ ⌜Out12All m d f⌝) := by
  rw [dn1_tiles]
  unfold td1
  haveI : Nonempty (Buf (Elt F) (loc d main_v12)) := ⟨m (loc d main_v12)⟩
  refine (bigSep_exists_pi Finset.univ (fun (p : Fin 2 × Fin 16) (f : Buf (Elt F) (loc d main_v12)) =>
    iprop((loc d main_v12 ↦[rowSet (coords p.1 p.2)]{fullShare} f) ∗ ⌜Out12 m d (coords p.1 p.2) f⌝))).trans ?_
  iintro ⟨%fs, H⟩
  ihave H2 := (tiles_pure_out (F := F) (ℓ := loc d main_v12) (fun p => rowSet (coords p.1 p.2)) fs
    (fun p => Out12 m d (coords p.1 p.2) (fs p))) $$ H
  icases H2 with ⟨%hφ, Hpts⟩
  ihave H3 := (pointsTo_biUnion_join (ℓ := loc d main_v12) (q := fullShare) (Val := Elt F) Finset.univ
    (fun p : Fin 2 × Fin 16 => rowSet (coords p.1 p.2)) fs (m (loc d main_v12)) rows_disjoint) $$ Hpts
  icases H3 with ⟨%g, %hg, Hg⟩
  rw [rows_cover]
  iexists g
  isplitl [Hg]; · iexact Hg
  ipureintro
  intro c s
  obtain ⟨tbl, bs, hT, hB, hV⟩ := hφ (c, s) (Finset.mem_univ _)
  exact ⟨tbl, bs, hT, hB, tileVal_congr _ _ _ _ _ _ _ (hg (c, s) (Finset.mem_univ _)) hV⟩

end Cert.KernelIdeal.SplitJoin

end
-- ==== Proof.Claims.lean ====
/-
  The kernel's run from the precondition, at any float instance: the precondition's id ranges are what the tiles'
  gathers need; the split and join of the calls' operands are plugged in.
-/
import proofs.«204913_g64682207478566_cont_9to1c4b_713_31_alg».proof.Proof.Run
import proofs.«204913_g64682207478566_cont_9to1c4b_713_31_alg».proof.Proof.SplitJoin
import proofs.«204913_g64682207478566_cont_9to1c4b_713_31_alg».proof.Proof.KernelValue
import proofs.«204913_g64682207478566_cont_9to1c4b_713_31_alg».proof.Proof.PreRanges
import proofs.«204913_g64682207478566_cont_9to1c4b_713_31_alg».proof.Proof.Gen.Pre_input_domain

noncomputable section

namespace Cert.KernelIdeal.Claims

open Cert.KernelIdeal Cert.KernelIdeal.Gen Cert.KernelIdeal.Common Cert.KernelIdeal.Vals Cert.KernelIdeal.PayM Cert.KernelIdeal.HMain Cert.KernelIdeal.TileObl Cert.KernelIdeal.Run

open Idealize.ShloMosaic Idealize.ShloMosaic.TcCoe
open Idealize.SL.Sem

/-- The precondition gives what the proof asks of the launch memory: the ids name rows of their tables. -/
theorem ok_of_pre {F : FTy → Type} [FloatOps F] (m : (ℓ : Loc nD τ sig) → Buf (Elt F) ℓ)
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : PreOK m :=
  ⟨fun d => (Cert.Proof.Pre.ranges_of_fn _ _ _ _ _ _ (h d)).1, fun d => (Cert.Proof.Pre.ranges_of_fn _ _ _ _ _ _ (h d)).2⟩

/-- The program's run at any float instance, from the tiles' bodies and the regions. -/
theorem run {F : FTy → Type} [FloatOps F] [∀ e, Nonempty (Elt F e)] (hb1 : Body1 F) (hb3 : Body3 F) (hr0 : Region0 F) (hr1 : Region1 F)
    (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (QC m) :=
  run_main m ρ hb1 hb3 hr0 hr1 (Cert.KernelIdeal.SplitJoin.split0 m) (Cert.KernelIdeal.SplitJoin.join0 m) (Cert.KernelIdeal.SplitJoin.split1 m) (Cert.KernelIdeal.SplitJoin.join1 m) hpre

end Cert.KernelIdeal.Claims

end
-- ==== Proof.ClaimsIdeal.lean ====
/-
  At the ideal instance: the idealized kernel's frame, and its run with the result array at the closed form
  G = (b + Σ_f w[f]·U[u_i, f]) + Σ_f w[100 + f]·C[c_i, f]  that the reference computes as well.
-/
import proofs.«204913_g64682207478566_cont_9to1c4b_713_31_alg».proof.Proof.Claims

noncomputable section

namespace Cert.KernelIdeal.ClaimsIdeal

open Cert.KernelIdeal Cert.KernelIdeal.Gen Cert.KernelIdeal.Common Cert.KernelIdeal.Vals Cert.KernelIdeal.PayM Cert.KernelIdeal.HMain Cert.KernelIdeal.TileObl Cert.KernelIdeal.Run Cert.KernelIdeal.Claims

open Idealize.ShloMosaic Idealize.ShloMosaic.TcCoe
open Idealize.SL.Sem

theorem frame (hb1 : Body1 Ideal) (hb3 : Body3 Ideal) (hr0 : Region0 Ideal) (hr1 : Region1 Ideal) : Cert.frame_KernelIdeal := fun m ρ hpre =>
  (θ_run (Cert.KernelIdeal.defs (F := Ideal)) _ _).mono
    (fun _ h c => ⟨(h c).1, (h c).2.1, (h c).2.2.1, (h c).2.2.2.1, (h c).2.2.2.2.1, (h c).2.2.2.2.2.1⟩)
    (run (F := Ideal) hb1 hb3 hr0 hr1 m ρ (ok_of_pre m hpre))

/-- At the ideal instance the run ends with the result array at the common closed form. -/
theorem run_value (hb1 : Body1 Ideal) (hb3 : Body3 Ideal) (hr0 : Region0 Ideal) (hr1 : Region1 Ideal)
    (m : (ℓ : Loc nD τ sig) → Buf (Elt Ideal) ℓ) (ρ : Dev nD → PrngReg) (hpre : PreOK m) :
    θ_run (Cert.KernelIdeal.defs (F := Ideal)) (Cert.KernelIdeal.threads (F := Ideal)) ⟨m, fun _ => 0, ρ⟩ (fun r => ∀ c : Dev nD,
      r.2.mem ((c.tc : Thread nD τ).loc main_v12) = Cert.Spec.G (m (loc c main_arg0)) (m (loc c main_arg1)) (m (loc c main_arg2)) (m (loc c main_arg3)) (m (loc c main_arg4)) (m (loc c main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.KernelIdeal.defs (F := Ideal)) _ _).mono
    (fun _ h c => ⟨Cert.KernelIdeal.KernelValue.out_eq_G m c (hpre.1 c) (hpre.2 c) _ (h c).2.2.2.2.2.2,
      (h c).1, (h c).2.1, (h c).2.2.1, (h c).2.2.2.1, (h c).2.2.2.2.1, (h c).2.2.2.2.2.1⟩)
    (run (F := Ideal) hb1 hb3 hr0 hr1 m ρ hpre)

end Cert.KernelIdeal.ClaimsIdeal

end
-- ==== Proof.RefRun.lean ====
/-
  The reference's @main as one straight line of host operations, and its run.
  The two row lookups (an index wrap, a gather of rows, a select against the in-range mask) are outlined
  functions of the module; unfolded at their call sites, @main is a list of 52 operations, each writing a
  buffer of its own.  Every weakly fair execution terminates with each buffer at the fold of the operations
  over the launch contents.
-/
import proofs.«204913_g64682207478566_cont_9to1c4b_713_31_alg».proof.ReferenceIdeal
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem Idealize.ShloMosaic.StableHlo

variable {F : FTy → Type} [FloatOps F] [hR : Cert.ReferenceIdeal.Facts]

/-- @main's operations in order, the two lookups unfolded (23 operations each: the wrap of a negative index,
    the clamp's mask, the gather of rows, the select), then the concatenation, the product with the weight
    column, the bias and the reshape. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000000x100_S16384x1_S16384x100_1_0_n_n_0_1_1100 x i),
    TRef.unary main_call0.v12 main_call0.v14 (broadcastInDim S16384x100 ![0] bcast_S16384_S16384x100_0),
    TRef.nullary main_call0.cst (constant S_ .f32 0x7FC00000#32),
    TRef.unary main_call0.cst main_call0.v15 (broadcastInDim S16384x100 ![] bcast_S_S16384x100),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S100000x100_S16384x1_S16384x100_1_0_n_n_0_1_1100 x i),
    TRef.unary main_call1.v12 main_call1.v14 (broadcastInDim S16384x100 ![0] bcast_S16384_S16384x100_0),
    TRef.nullary main_call1.cst (constant S_ .f32 0x7FC00000#32),
    TRef.unary main_call1.cst main_call1.v15 (broadcastInDim S16384x100 ![] bcast_S_S16384x100),
    TRef.ternary main_call1.v14 main_call1.v13 main_call1.v15 main_call1.v16 select,
    binary main_v0 main_v1 main_v2 ((fun a b => concatenate S16384x200 1 [⟨S16384x100, a⟩, ⟨S16384x100, b⟩] concatenates_S16384x100_S16384x100_S16384x200_d1) : (⟨S16384x100, .f32⟩ : BufTy).Contents (Elt F) → (⟨S16384x100, .f32⟩ : BufTy).Contents (Elt F) → (⟨S16384x200, .f32⟩ : BufTy).Contents (Elt F)),
    binary main_v2 main_arg4 main_v3 ((fun l r => Host.dotGeneral dot_S16384x200_S200x1_S16384x1_1_0_0_1_n_n none l r) : (⟨S16384x200, .f32⟩ : BufTy).Contents (Elt F) → (⟨S200x1, .f32⟩ : BufTy).Contents (Elt F) → (⟨S16384x1, .f32⟩ : BufTy).Contents (Elt F)),
    unary main_arg5 main_v4 (broadcastInDim S1x1 ![1] bcast_S1_S1x1_1 : (⟨S1, .f32⟩ : BufTy).Contents (Elt F) → (⟨S1x1, .f32⟩ : BufTy).Contents (Elt F)),
    unary main_v4 main_v5 (broadcastInDim S16384x1 ![0, 1] bcast_S1x1_S16384x1_0_1 : (⟨S1x1, .f32⟩ : BufTy).Contents (Elt F) → (⟨S16384x1, .f32⟩ : BufTy).Contents (Elt F)),
    binary main_v3 main_v5 main_v6 (addf : (⟨S16384x1, .f32⟩ : BufTy).Contents (Elt F) → (⟨S16384x1, .f32⟩ : BufTy).Contents (Elt F) → (⟨S16384x1, .f32⟩ : BufTy).Contents (Elt F)),
    reshape main_v6 main_v7 rfl shapeCasts_S16384x1_S16384 ]

set_option maxRecDepth 4096 in
/-- @main is that straight line: the functions' definitions unfolded at their calls, sequencing reassociated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., unary_bufs_sub .., binary_bufs_sub .., reshape_bufs_sub ..⟩

/-- From any memory with zero counters every weakly fair execution of @main terminates, and every buffer ends at
    the operations' fold over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefLookup.lean ====
/-
  A row lookup, index by index.
  `jnp.take(table, ids, axis=0)` is lowered to: the index with the table's height added where it is negative, a
  gather of the rows at those indices (each start index read signed and clamped into the table), and a select
  against the mask "0 ≤ index ≤ height − 1", filling the rows outside it.  For ids in range the wrap is the
  identity, the clamp is the identity and the mask is all ones, so row i of the lookup is row ids[i] of the table.
-/
import proofs.«204913_g64682207478566_cont_9to1c4b_713_31_alg».proof.ReferenceIdeal
import Idealize.ShloMosaic.Lib.ValueIdx
import Idealize.ShloMosaic.Lib.Pipeline.Value
import Idealize.ShloMosaic.PureOps.Reduce
import Idealize.ShloMosaic.Lib.Affine

noncomputable section

open scoped BigOperators

namespace Cert.Proof.Ref

open Idealize.ShloMosaic Idealize.ShloMosaic.ValueIdx

/-! ## A reduction by `and` of all ones -/

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_ones f l (fun n hn => h n (List.mem_cons_of_mem _ hn))

/-- A `stablehlo.reduce` by `and` from 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ (fun n _ => hx n)

/-! ## The gather of rows -/

section Gather
variable {α : Type}

/-- The dimension numbers of a gather of whole rows of an [N, C] table at B start indices [B, 1]. -/
abbrev rowDims (N B C : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The gather read at (t, f): the table at the row the start index names, read signed and clamped into
    [0, N − 1], column f. -/
theorem gather_rows_apply {N B C w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (y : (⟨2, ![B, C]⟩ : Shape).Idx) :
    Host.gather (rowDims N B C wf) x idx y = x (ix2 ⟨min (idx (ix2 (y 0) 0)).toInt.toNat (N - 1), by omega⟩ (y 1)) := by
  unfold Host.gather
  congr 1
  funext a
  refine Fin.ext ?_
  show (rowDims N B C wf).start y idx a + (rowDims N B C wf).batchCoord y a + (rowDims N B C wf).offCoord y a = _
  rw [GatherDims.batchCoord_eq_zero _ _ _ List.not_mem_nil]
  have ha : a = (0 : Fin 2) ∨ a = (1 : Fin 2) := by
    rcases a with ⟨v, hv⟩
    change v < 2 at hv
    interval_cases v
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N B C wf).startIndexMap from List.mem_singleton.mpr rfl)]
    have hsi : (rowDims N B C wf).siIdx y ⟨List.idxOf (0 : Fin 2) (rowDims N B C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  · have h1 : (1 : Fin 2) ∉ (rowDims N B C wf).startIndexMap := by
      show (1 : Fin 2) ∉ [(0 : Fin 2)]
      decide
    have h2 : (1 : Fin 2) ∈ (rowDims N B C wf).sKept := by
      rw [GatherDims.mem_sKept]
      exact ⟨by show (1 : Fin 2) ∉ [(0 : Fin 2)]; decide, List.not_mem_nil⟩
    unfold GatherDims.start GatherDims.offCoord
    rw [dif_neg h1, dif_pos h2]
    simp only [Nat.zero_add]
    rfl

end Gather

/-! ## The row lookup -/

section Lookup

open Cert.ReferenceIdeal Cert.ReferenceIdeal.Facts₀

variable {F : FTy → Type} [FloatOps F] [hR : Cert.ReferenceIdeal.Facts]

/-- `jnp.take(tab, ids, axis=0)` as it is lowered, for a table of height `N` (`big` is the word N, `bigm1` the
    word N − 1): the operations of the outlined function, composed. -/
def lookup {N : Nat} (gd : GatherDims ⟨2, ![N, 100]⟩ S16384x1 S16384x100) (big bigm1 : BitVec 32)
    (tab : FVec F ⟨2, ![N, 100]⟩ .f32) (ids : IVec S16384 32) : FVec F S16384x100 .f32 :=
  select
    (broadcastInDim S16384x100 ![0] bcast_S16384_S16384x100_0
      (Host.reduce IntOp.andi
        (andi
          (cmpi .sge
            (broadcastInDim S16384x1 ![0] bcast_S16384_S16384x1_0
              (select (cmpi .slt ids (broadcastInDim S16384 ![] bcast_S_S16384 (constantI S_ 32 0#32)))
                (addi ids (broadcastInDim S16384 ![] bcast_S_S16384 (constantI S_ 32 big))) ids))
            (broadcastInDim S16384x1 ![] bcast_S_S16384x1 (constantI S_ 32 0#32)))
          (cmpi .sle
            (broadcastInDim S16384x1 ![0] bcast_S16384_S16384x1_0
              (select (cmpi .slt ids (broadcastInDim S16384 ![] bcast_S_S16384 (constantI S_ 32 0#32)))
                (addi ids (broadcastInDim S16384 ![] bcast_S_S16384 (constantI S_ 32 big))) ids))
            (broadcastInDim S16384x1 ![0, 1] bcast_S1x1_S16384x1_0_1
              (broadcastInDim S1x1 ![1] bcast_S1_S1x1_1 (constantI S1 32 bigm1)))))
        (constantI S_ 1 1#1) reducesTo_S16384x1_S16384_d1 h_S_))
    (Host.gather gd tab
      (broadcastInDim S16384x1 ![0] bcast_S16384_S16384x1_0
        (select (cmpi .slt ids (broadcastInDim S16384 ![] bcast_S_S16384 (constantI S_ 32 0#32)))
          (addi ids (broadcastInDim S16384 ![] bcast_S_S16384 (constantI S_ 32 big))) ids)))
    (broadcastInDim S16384x100 ![] bcast_S_S16384x100 (constant S_ .f32 0x7FC00000#32))

/-- A word at most M < 2³¹ unsigned is nonnegative signed, and reads the same signed. -/
theorem toInt_of_le {v : BitVec 32} {M : Nat} (hM : M < 2 ^ 31) (hv : v.toNat ≤ M) : v.toInt = (v.toNat : Int) :=
  BitVec.toInt_eq_toNat_of_lt (by omega)

/-- The wrap of negative indices is the identity on ids in range. -/
theorem wrap_eq (big : BitVec 32) (ids : IVec S16384 32) {M : Nat} (hM : M < 2 ^ 31) (hids : ∀ i, (ids i).toNat ≤ M) :
    select (cmpi .slt ids (broadcastInDim S16384 ![] bcast_S_S16384 (constantI S_ 32 0#32)))
        (addi ids (broadcastInDim S16384 ![] bcast_S_S16384 (constantI S_ 32 big))) ids = ids := by
  funext i
  rw [select_apply]
  have h0 : cmpi .slt ids (broadcastInDim S16384 ![] bcast_S_S16384 (constantI S_ 32 0#32)) i = 0#1 := by
    apply eq_zero_of_ne_one
    show ¬ IntOp.cmpi .slt (ids i) 0#32 = 1#1
    rw [IntOp.cmpi_slt, toInt_of_le hM (hids i)]
    have hz : (0#32 : BitVec 32).toInt = 0 := by decide
    rw [hz]; omega
  rw [h0, select_zero]

/-- The start indices as a column: row i holds ids[i]. -/
theorem column_apply (ids : IVec S16384 32) (k : S16384x1.Idx) :
    broadcastInDim S16384x1 ![0] bcast_S16384_S16384x1_0 ids k = ids (ix1 (k 0)) :=
  broadcastInDim_apply _ _ _ _ _ (fun a => by
    match a with
    | ⟨0, _⟩ => rfl)

/-- THE LOOKUP READ AT (i, f): for ids in [0, M], M + 1 = N the table's height, row ids[i] of the table, column f. -/
theorem lookup_apply {N M : Nat} (hMN : M + 1 = N) (hN : N < 2 ^ 31)
    (wf : GatherDims.WF ⟨2, ![N, 100]⟩ ⟨2, ![16384, 1]⟩ ⟨2, ![16384, 100]⟩ [1] [0] [] [0] [] 1 ![1, 100])
    (tab : FVec F ⟨2, ![N, 100]⟩ .f32) (ids : IVec S16384 32) (hids : ∀ i, (ids i).toNat ≤ M) (j : S16384x100.Idx) :
    lookup (rowDims N 16384 100 wf) (BitVec.ofNat 32 N) (BitVec.ofNat 32 M) tab ids j
      = tab (ix2 ⟨(ids (ix1 (j 0))).toNat % N, Nat.mod_lt _ (by omega)⟩ (j 1)) := by
  have hM : M < 2 ^ 31 := by omega
  unfold lookup
  rw [wrap_eq _ ids hM hids, select_apply]
  -- the mask is all ones
  have hmask : ∀ k : S16384x1.Idx,
      andi (cmpi .sge (broadcastInDim S16384x1 ![0] bcast_S16384_S16384x1_0 ids)
              (broadcastInDim S16384x1 ![] bcast_S_S16384x1 (constantI S_ 32 0#32)))
           (cmpi .sle (broadcastInDim S16384x1 ![0] bcast_S16384_S16384x1_0 ids)
              (broadcastInDim S16384x1 ![0, 1] bcast_S1x1_S16384x1_0_1
                (broadcastInDim S1x1 ![1] bcast_S1_S1x1_1 (constantI S1 32 (BitVec.ofNat 32 M))))) k = 1#1 := by
    intro k
    show IntOp.andi (IntOp.cmpi .sge (broadcastInDim S16384x1 ![0] bcast_S16384_S16384x1_0 ids k) 0#32)
      (IntOp.cmpi .sle (broadcastInDim S16384x1 ![0] bcast_S16384_S16384x1_0 ids k) (BitVec.ofNat 32 M)) = 1#1
    rw [column_apply, IntOp.andi_eq_one, IntOp.cmpi_sge, IntOp.cmpi_sle, toInt_of_le hM (hids _)]
    have hz : (0#32 : BitVec 32).toInt = 0 := by decide
    have hm : (BitVec.ofNat 32 M).toInt = (M : Int) := by
      rw [BitVec.toInt_eq_toNat_of_lt (by rw [BitVec.toNat_ofNat]; omega), BitVec.toNat_ofNat]
      congr 1; omega
    rw [hz, hm]
    exact ⟨by omega, by exact_mod_cast hids _⟩
  have h14 : broadcastInDim S16384x100 ![0] bcast_S16384_S16384x100_0
      (Host.reduce IntOp.andi
        (andi (cmpi .sge (broadcastInDim S16384x1 ![0] bcast_S16384_S16384x1_0 ids)
              (broadcastInDim S16384x1 ![] bcast_S_S16384x1 (constantI S_ 32 0#32)))
           (cmpi .sle (broadcastInDim S16384x1 ![0] bcast_S16384_S16384x1_0 ids)
              (broadcastInDim S16384x1 ![0, 1] bcast_S1x1_S16384x1_0_1
                (broadcastInDim S1x1 ![1] bcast_S1_S1x1_1 (constantI S1 32 (BitVec.ofNat 32 M))))))
        (constantI S_ 1 1#1) reducesTo_S16384x1_S16384_d1 h_S_) j = 1#1 := by
    refine (broadcastInDim_apply _ _ _ j (ix1 (j 0)) (fun a => by
      match a with
      | ⟨0, _⟩ => rfl)).trans ?_
    exact reduce_andi_ones _ _ _ _ hmask (fun _ => rfl) _
  rw [h14, select_one, gather_rows_apply (by omega)]
  have hcol : broadcastInDim S16384x1 ![0] bcast_S16384_S16384x1_0 ids (ix2 (j 0) 0) = ids (ix1 (j 0)) :=
    column_apply ids _
  have e1 : (ids (ix1 (j 0))).toInt.toNat = (ids (ix1 (j 0))).toNat := by
    rw [toInt_of_le hM (hids _)]; rfl
  have e2 := hids (ix1 (j 0))
  refine congrArg (fun a : Fin N => tab (ix2 a (j 1))) (Fin.ext ?_)
  show min (broadcastInDim S16384x1 ![0] bcast_S16384_S16384x1_0 ids (ix2 (j 0) 0)).toInt.toNat (N - 1)
    = (ids (ix1 (j 0))).toNat % N
  rw [hcol, e1, Nat.mod_eq_of_lt (by omega)]
  omega

end Lookup

end Cert.Proof.Ref

end
-- ==== Proof.RefValue.lean ====
/-
  The reference's value, index by index.
  The two row lookups side by side, times the weight column, is the sum over the first hundred weights against
  the user row plus the sum over the last hundred against the course row; the bias is added and the column is read
  as a vector.  On the extended reals addition and multiplication are commutative and addition is associative,
  which puts the three terms and the factors in the order of the closed form.
-/
import proofs.«204913_g64682207478566_cont_9to1c4b_713_31_alg».proof.Proof.RefLookup
import proofs.«204913_g64682207478566_cont_9to1c4b_713_31_alg».proof.Proof.Spec
import Idealize.ShloMosaic.Lib.StackMember
import Idealize.ShloMosaic.PureOps.Ideal.Laws

noncomputable section

open scoped BigOperators

namespace Cert.Proof.Ref

open Idealize.ShloMosaic Idealize.ShloMosaic.ValueIdx

/-! ## The whole function -/

section Out

open Cert.ReferenceIdeal Cert.ReferenceIdeal.Facts₀

variable {F : FTy → Type} [FloatOps F] [hR : Cert.ReferenceIdeal.Facts]

/-- @main's operations composed: the two lookups side by side, times the weight column, plus the bias, as a vector. -/
def out (a0 a1 : IVec S16384 32) (a2 : FVec F S1000000x100 .f32) (a3 : FVec F S100000x100 .f32)
    (a4 : FVec F S200x1 .f32) (a5 : FVec F S1 .f32) : FVec F S16384 .f32 :=
  shapeCast S16384
    (addf
      (Host.dotGeneral dot_S16384x200_S200x1_S16384x1_1_0_0_1_n_n none
        (concatenate S16384x200 1
          [⟨S16384x100, lookup gather_S1000000x100_S16384x1_S16384x100_1_0_n_n_0_1_1100 1000000#32 999999#32 a2 a0⟩,
            ⟨S16384x100, lookup gather_S100000x100_S16384x1_S16384x100_1_0_n_n_0_1_1100 100000#32 99999#32 a3 a1⟩]
          concatenates_S16384x100_S16384x100_S16384x200_d1) a4)
      (broadcastInDim S16384x1 ![0, 1] bcast_S1x1_S16384x1_0_1 (broadcastInDim S1x1 ![1] bcast_S1_S1x1_1 a5)))
    shapeCasts_S16384x1_S16384

/-- A sum over two hundred coordinates is the sum over the first hundred plus the sum over the last hundred. -/
theorem sum_200 (g : Fin 200 → EReal) :
    ∑ c, g c = ∑ f : Fin 100, g ⟨f.val, by omega⟩ + ∑ f : Fin 100, g ⟨100 + f.val, by omega⟩ :=
  Fin.sum_univ_add (a := 100) (b := 100) (g : Fin (100 + 100) → EReal)

/-- THE REFERENCE IS THE CLOSED FORM: for ids in range, at the ideal values. -/
theorem out_eq_G (a0 a1 : IVec S16384 32) (a2 : FVec Ideal S1000000x100 .f32) (a3 : FVec Ideal S100000x100 .f32)
    (a4 : FVec Ideal S200x1 .f32) (a5 : FVec Ideal S1 .f32)
    (hU : ∀ i, (a0 i).toNat ≤ 999999) (hC : ∀ i, (a1 i).toNat ≤ 99999) :
    out (F := Ideal) a0 a1 a2 a3 a4 a5 = Cert.Spec.G a0 a1 a2 a3 a4 a5 := by
  funext i
  obtain ⟨r, rfl⟩ : ∃ r : Fin 16384, i = ix1 r := ⟨i 0, eq_ix1 i⟩
  unfold out
  refine (shapeCast_apply _ _ (ix1 r) (ix2 r 0 : S16384x1.Idx)
    (by rw [Shape.rowMajor_val_two, Shape.rowMajor_val_one]; simp)).trans ?_
  rw [addf_apply]
  -- the bias
  have hb : broadcastInDim S16384x1 ![0, 1] bcast_S1x1_S16384x1_0_1 (broadcastInDim S1x1 ![1] bcast_S1_S1x1_1 a5)
      (ix2 r 0) = a5 (ix1 0) := by
    refine (broadcastInDim_apply _ _ _ (ix2 r 0) (ix2 0 0) (fun a => by
      match a with
      | ⟨0, _⟩ => rfl
      | ⟨1, _⟩ => rfl)).trans ?_
    exact broadcastInDim_apply _ _ _ (ix2 0 0) (ix1 0) (fun a => by
      match a with
      | ⟨0, _⟩ => rfl)
  rw [hb]
  -- the product with the weight column, as a sum over the two hundred features
  have hd : dot_S16384x200_S200x1_S16384x1_1_0_0_1_n_n = DotDims.plain 16384 200 1 := rfl
  rw [hd, StackMember.dotGeneral_plain_apply, sum_200]
  -- the two lookups
  have hgU : gather_S1000000x100_S16384x1_S16384x100_1_0_n_n_0_1_1100
      = rowDims 1000000 16384 100 gather_S1000000x100_S16384x1_S16384x100_1_0_n_n_0_1_1100_wf := rfl
  have hgC : gather_S100000x100_S16384x1_S16384x100_1_0_n_n_0_1_1100
      = rowDims 100000 16384 100 gather_S100000x100_S16384x1_S16384x100_1_0_n_n_0_1_1100_wf := rfl
  have hL : ∀ f : Fin 100,
      concatenate S16384x200 1
          [⟨S16384x100, lookup gather_S1000000x100_S16384x1_S16384x100_1_0_n_n_0_1_1100 1000000#32 999999#32 a2 a0⟩,
            ⟨S16384x100, lookup gather_S100000x100_S16384x1_S16384x100_1_0_n_n_0_1_1100 100000#32 99999#32 a3 a1⟩]
          concatenates_S16384x100_S16384x100_S16384x200_d1 (ix2 r ⟨f.val, by omega⟩)
        = a2 (ix2 (Cert.Spec.urow (a0 (ix1 r))) f) := by
    intro f
    refine (concatenate_pair_apply_left (t := S16384x200) (s₁ := S16384x100) (s₂ := S16384x100) (1 : Fin 2) _ _ _ (ix2 r ⟨f.val, by omega⟩ : S16384x200.Idx) rfl (ix2 r f) (fun b => by
      match b with
      | ⟨0, _⟩ => rfl
      | ⟨1, _⟩ => rfl)).trans ?_
    rw [hgU]
    refine (lookup_apply (N := 1000000) (M := 999999) rfl (by decide) _ a2 a0 hU (ix2 r f)).trans ?_
    rfl
  have hRt : ∀ f : Fin 100,
      concatenate S16384x200 1
          [⟨S16384x100, lookup gather_S1000000x100_S16384x1_S16384x100_1_0_n_n_0_1_1100 1000000#32 999999#32 a2 a0⟩,
            ⟨S16384x100, lookup gather_S100000x100_S16384x1_S16384x100_1_0_n_n_0_1_1100 100000#32 99999#32 a3 a1⟩]
          concatenates_S16384x100_S16384x100_S16384x200_d1 (ix2 r ⟨100 + f.val, by omega⟩)
        = a3 (ix2 (Cert.Spec.crow (a1 (ix1 r))) f) := by
    intro f
    refine (concatenate_pair_apply_right (t := S16384x200) (s₁ := S16384x100) (s₂ := S16384x100) (1 : Fin 2) _ _ _ (ix2 r ⟨100 + f.val, by omega⟩ : S16384x200.Idx) rfl rfl (ix2 r f)
      (fun b hb => by
        match b with
        | ⟨0, _⟩ => rfl
        | ⟨1, _⟩ => exact absurd rfl hb)
      (by show f.val + 100 = 100 + f.val; omega)).trans ?_
    rw [hgC]
    refine (lookup_apply (N := 100000) (M := 99999) rfl (by decide) _ a3 a1 hC (ix2 r f)).trans ?_
    rfl
  simp only [hL, hRt]
  -- the closed form, up to the order of the factors and of the three terms
  unfold Cert.Spec.G Cert.Spec.projU Cert.Spec.projC Cert.Spec.wlo Cert.Spec.whi
  rw [Finset.sum_congr rfl (fun f _ => mul_comm (a2 (ix2 (Cert.Spec.urow (a0 (ix1 r))) f)) _),
    Finset.sum_congr rfl (fun f _ => mul_comm (a3 (ix2 (Cert.Spec.crow (a1 (ix1 r))) f)) _)]
  rw [add_comm _ (a5 (ix1 0)), add_assoc]

end Out

end Cert.Proof.Ref

end
-- ==== Proof.RefClaim.lean ====
/-
  The reference's run and value, assembled.
  @main's 52 operations are the two lookups' 46 followed by six: what the result buffer holds after the line is
  read back in two steps — each lookup's result buffer holds the lookup of its table at its ids, and the last
  six operations put the two side by side, contract with the weight column, add the bias and reshape.  Under
  the id ranges that term is the closed form; the argument buffers are written by no operation.
-/
import proofs.«204913_g64682207478566_cont_9to1c4b_713_31_alg».proof.Defs
import proofs.«204913_g64682207478566_cont_9to1c4b_713_31_alg».proof.Proof.PreRanges
import proofs.«204913_g64682207478566_cont_9to1c4b_713_31_alg».proof.Proof.RefRun
import proofs.«204913_g64682207478566_cont_9to1c4b_713_31_alg».proof.Proof.RefValue

noncomputable section

namespace Cert.Proof.Ref

open Cert.ReferenceIdeal Cert.ReferenceIdeal.Facts₀ Idealize.ShloMosaic Idealize.ShloMosaic.TcCoe Idealize.SL.Sem Idealize.ShloMosaic.StableHlo

section Fold

variable {F : FTy → Type} [FloatOps F] [hR : Cert.ReferenceIdeal.Facts]

/-- The two lookups' operations. -/
abbrev opsL : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000000x100_S16384x1_S16384x100_1_0_n_n_0_1_1100 x i),
    TRef.unary main_call0.v12 main_call0.v14 (broadcastInDim S16384x100 ![0] bcast_S16384_S16384x100_0),
    TRef.nullary main_call0.cst (constant S_ .f32 0x7FC00000#32),
    TRef.unary main_call0.cst main_call0.v15 (broadcastInDim S16384x100 ![] bcast_S_S16384x100),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S100000x100_S16384x1_S16384x100_1_0_n_n_0_1_1100 x i),
    TRef.unary main_call1.v12 main_call1.v14 (broadcastInDim S16384x100 ![0] bcast_S16384_S16384x100_0),
    TRef.nullary main_call1.cst (constant S_ .f32 0x7FC00000#32),
    TRef.unary main_call1.cst main_call1.v15 (broadcastInDim S16384x100 ![] bcast_S_S16384x100),
    TRef.ternary main_call1.v14 main_call1.v13 main_call1.v15 main_call1.v16 select ]

/-- The operations after them. -/
abbrev opsM : List (HloOp τ sig (Elt F)) :=
  [ binary main_v0 main_v1 main_v2 ((fun a b => concatenate S16384x200 1 [⟨S16384x100, a⟩, ⟨S16384x100, b⟩] concatenates_S16384x100_S16384x100_S16384x200_d1) : (⟨S16384x100, .f32⟩ : BufTy).Contents (Elt F) → (⟨S16384x100, .f32⟩ : BufTy).Contents (Elt F) → (⟨S16384x200, .f32⟩ : BufTy).Contents (Elt F)),
    binary main_v2 main_arg4 main_v3 ((fun l r => Host.dotGeneral dot_S16384x200_S200x1_S16384x1_1_0_0_1_n_n none l r) : (⟨S16384x200, .f32⟩ : BufTy).Contents (Elt F) → (⟨S200x1, .f32⟩ : BufTy).Contents (Elt F) → (⟨S16384x1, .f32⟩ : BufTy).Contents (Elt F)),
    unary main_arg5 main_v4 (broadcastInDim S1x1 ![1] bcast_S1_S1x1_1 : (⟨S1, .f32⟩ : BufTy).Contents (Elt F) → (⟨S1x1, .f32⟩ : BufTy).Contents (Elt F)),
    unary main_v4 main_v5 (broadcastInDim S16384x1 ![0, 1] bcast_S1x1_S16384x1_0_1 : (⟨S1x1, .f32⟩ : BufTy).Contents (Elt F) → (⟨S16384x1, .f32⟩ : BufTy).Contents (Elt F)),
    binary main_v3 main_v5 main_v6 (addf : (⟨S16384x1, .f32⟩ : BufTy).Contents (Elt F) → (⟨S16384x1, .f32⟩ : BufTy).Contents (Elt F) → (⟨S16384x1, .f32⟩ : BufTy).Contents (Elt F)),
    reshape main_v6 main_v7 rfl shapeCasts_S16384x1_S16384 ]

theorem ops_split : (ops : List (HloOp τ sig (Elt F))) = opsL ++ opsM := rfl

/-- A line run after another folds over the first line's result. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih _

attribute [local irreducible] Host.reduce Host.gather in
set_option maxRecDepth 8192 in
set_option maxHeartbeats 1000000 in
/-- After the lookups' operations the first result buffer holds the lookup of the user table at the user ids. -/
theorem after_v0 (V : Valuation τ sig (Elt F)) :
    after opsL V (main_v0 : DevRef τ sig)
      = lookup gather_S1000000x100_S16384x1_S16384x100_1_0_n_n_0_1_1100 1000000#32 999999#32
          (V (main_arg2 : DevRef τ sig)) (V (main_arg0 : DevRef τ sig)) := by
  after_results_simp
  rfl

attribute [local irreducible] Host.reduce Host.gather in
set_option maxRecDepth 8192 in
set_option maxHeartbeats 1000000 in
/-- … and the second the lookup of the course table at the course ids. -/
theorem after_v1 (V : Valuation τ sig (Elt F)) :
    after opsL V (main_v1 : DevRef τ sig)
      = lookup gather_S100000x100_S16384x1_S16384x100_1_0_n_n_0_1_1100 100000#32 99999#32
          (V (main_arg3 : DevRef τ sig)) (V (main_arg1 : DevRef τ sig)) := by
  after_results_simp
  rfl

set_option maxRecDepth 8192 in
set_option maxHeartbeats 1000000 in
/-- The lookups' operations write no argument buffer. -/
theorem after_L_args (V : Valuation τ sig (Elt F)) :
    after opsL V (main_arg0 : DevRef τ sig) = V (main_arg0 : DevRef τ sig)
    ∧ after opsL V (main_arg1 : DevRef τ sig) = V (main_arg1 : DevRef τ sig)
    ∧ after opsL V (main_arg2 : DevRef τ sig) = V (main_arg2 : DevRef τ sig)
    ∧ after opsL V (main_arg3 : DevRef τ sig) = V (main_arg3 : DevRef τ sig)
    ∧ after opsL V (main_arg4 : DevRef τ sig) = V (main_arg4 : DevRef τ sig)
    ∧ after opsL V (main_arg5 : DevRef τ sig) = V (main_arg5 : DevRef τ sig) := by
  refine ⟨?_, ?_, ?_, ?_, ?_, ?_⟩ <;> after_results_simp

/-- The last six operations, composed, over the two lookups' results, the weights and the bias. -/
def outM (x0 x1 : FVec F S16384x100 .f32) (a4 : FVec F S200x1 .f32) (a5 : FVec F S1 .f32) : FVec F S16384 .f32 :=
  shapeCast S16384
    (addf
      (Host.dotGeneral dot_S16384x200_S200x1_S16384x1_1_0_0_1_n_n none
        (concatenate S16384x200 1 [⟨S16384x100, x0⟩, ⟨S16384x100, x1⟩] concatenates_S16384x100_S16384x100_S16384x200_d1) a4)
      (broadcastInDim S16384x1 ![0, 1] bcast_S1x1_S16384x1_0_1 (broadcastInDim S1x1 ![1] bcast_S1_S1x1_1 a5)))
    shapeCasts_S16384x1_S16384

set_option maxRecDepth 8192 in
theorem after_M (W : Valuation τ sig (Elt F)) :
    after opsM W (main_v7 : DevRef τ sig)
      = outM (W (main_v0 : DevRef τ sig)) (W (main_v1 : DevRef τ sig)) (W (main_arg4 : DevRef τ sig)) (W (main_arg5 : DevRef τ sig)) := by
  after_results_simp
  rfl

set_option maxRecDepth 8192 in
/-- The last six operations write no argument buffer. -/
theorem after_M_args (W : Valuation τ sig (Elt F)) :
    after opsM W (main_arg0 : DevRef τ sig) = W (main_arg0 : DevRef τ sig)
    ∧ after opsM W (main_arg1 : DevRef τ sig) = W (main_arg1 : DevRef τ sig)
    ∧ after opsM W (main_arg2 : DevRef τ sig) = W (main_arg2 : DevRef τ sig)
    ∧ after opsM W (main_arg3 : DevRef τ sig) = W (main_arg3 : DevRef τ sig)
    ∧ after opsM W (main_arg4 : DevRef τ sig) = W (main_arg4 : DevRef τ sig)
    ∧ after opsM W (main_arg5 : DevRef τ sig) = W (main_arg5 : DevRef τ sig) := by
  refine ⟨?_, ?_, ?_, ?_, ?_, ?_⟩ <;> after_results_simp

/-- THE RESULT BUFFER AFTER THE WHOLE LINE: the composed term of the six arguments. -/
theorem after_out (V : Valuation τ sig (Elt F)) :
    after ops V (main_v7 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, after_append', after_M, after_v0, after_v1, (after_L_args V).2.2.2.2.1, (after_L_args V).2.2.2.2.2]
  rfl

/-- The whole line writes no argument buffer. -/
theorem after_args (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig) := by
  rw [ops_split, after_append']
  obtain ⟨m0, m1, m2, m3, m4, m5⟩ := after_M_args (after opsL V)
  obtain ⟨l0, l1, l2, l3, l4, l5⟩ := after_L_args V
  exact ⟨m0.trans l0, m1.trans l1, m2.trans l2, m3.trans l3, m4.trans l4, m5.trans l5⟩

end Fold

variable [hR : Cert.ReferenceIdeal.Facts]

/-- THE REFERENCE'S RUN AND VALUE: from any memory whose ids lie in the tables' row ranges, every weakly fair execution
    terminates with the result buffer at the closed form of the six arguments, the arguments unchanged. -/
theorem run (m' : (ℓ : Loc nD τ sig) → Buf (Elt Ideal) ℓ) (g' : Dev nD → PrngReg)
    (hU : ∀ (c : Dev nD) (i : S16384.Idx), ((m' ((c.tc : Thread nD τ).loc main_arg0) : IVec S16384 32) i).toNat ≤ 999999)
    (hC : ∀ (c : Dev nD) (i : S16384.Idx), ((m' ((c.tc : Thread nD τ).loc main_arg1) : IVec S16384 32) i).toNat ≤ 99999) :
    θ_run (defs (F := Ideal)) (onTc (τ := τ) (main (F := Ideal))) ⟨m', fun _ => 0, g'⟩ (fun r => ∀ c : Dev nD,
      r.2.mem ((c.tc : Thread nD τ).loc main_v7) = Cert.Spec.G (m' ((c.tc : Thread nD τ).loc main_arg0)) (m' ((c.tc : Thread nD τ).loc main_arg1)) (m' ((c.tc : Thread nD τ).loc main_arg2))
          (m' ((c.tc : Thread nD τ).loc main_arg3)) (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run defs _ _).mono (fun _ h c => by
    obtain ⟨e0, e1, e2, e3, e4, e5⟩ := after_args (F := Ideal) (launchContents m' c)
    exact ⟨(h c main_v7).trans ((after_out (launchContents m' c)).trans (out_eq_G _ _ _ _ _ _ (hU c) (hC c))),
      (h c main_arg0).trans e0, (h c main_arg1).trans e1, (h c main_arg2).trans e2, (h c main_arg3).trans e3,
      (h c main_arg4).trans e4, (h c main_arg5).trans e5⟩)
    (run_after m' g')

/-- `Cert.frame_ReferenceIdeal` (Defs.lean): the ranges from the precondition, the rest from the run. -/
theorem frame [hP : Cert.Pre_input_domain.Facts] : Cert.frame_ReferenceIdeal := fun m g hpre =>
  (θ_run _ _ _).mono (fun _ h c => (h c).2)
    (run m g (fun c => (Cert.Proof.Pre.ranges_of_fn (F := Ideal) _ _ _ _ _ _ (hpre c)).1)
      (fun c => (Cert.Proof.Pre.ranges_of_fn (F := Ideal) _ _ _ _ _ _ (hpre c)).2))

end Cert.Proof.Ref

end
-- ==== Proof.Algebraic.lean ====
/-
  The two idealized programs end with equal results: the kernel's run ends with its result array at the closed
  form G of its arguments, the reference's run at G of its own arguments, and the arguments agree.
-/
import proofs.«204913_g64682207478566_cont_9to1c4b_713_31_alg».proof.Proof.ClaimsIdeal
import proofs.«204913_g64682207478566_cont_9to1c4b_713_31_alg».proof.Proof.RefClaim
import proofs.«204913_g64682207478566_cont_9to1c4b_713_31_alg».proof.Proof.Gen.ReferenceIdeal

noncomputable section

namespace Cert.KernelIdeal.Algebraic

open Cert.KernelIdeal Cert.KernelIdeal.Gen Cert.KernelIdeal.Common Cert.KernelIdeal.Vals Cert.KernelIdeal.PayM Cert.KernelIdeal.HMain Cert.KernelIdeal.TileObl Cert.KernelIdeal.Run Cert.KernelIdeal.Claims Cert.KernelIdeal.ClaimsIdeal

open Idealize.ShloMosaic Idealize.ShloMosaic.TcCoe
open Idealize.SL.Sem

theorem algebraic (hb1 : Body1 Ideal) (hb3 : Body3 Ideal) (hr0 : Region0 Ideal) (hr1 : Region1 Ideal) : Cert.algebraic_KernelIdeal_ReferenceIdeal := by
  intro m g m' g' hpre hagree
  have hok : PreOK m := ok_of_pre m hpre
  refine ⟨fun c => Cert.Spec.G (m (loc c main_arg0)) (m (loc c main_arg1)) (m (loc c main_arg2)) (m (loc c main_arg3)) (m (loc c main_arg4)) (m (loc c main_arg5)),
    run_value hb1 hb3 hr0 hr1 m g hok, ?_⟩
  have hU' : ∀ (c : Dev Cert.ReferenceIdeal.nD) (i : Cert.ReferenceIdeal.S16384.Idx), (m' ((c.tc : Thread Cert.ReferenceIdeal.nD Cert.ReferenceIdeal.τ).loc Cert.ReferenceIdeal.main_arg0) i).toNat ≤ 999999 := by
    intro c i; rw [(hagree c).1]; exact hok.1 c i
  have hC' : ∀ (c : Dev Cert.ReferenceIdeal.nD) (i : Cert.ReferenceIdeal.S16384.Idx), (m' ((c.tc : Thread Cert.ReferenceIdeal.nD Cert.ReferenceIdeal.τ).loc Cert.ReferenceIdeal.main_arg1) i).toNat ≤ 99999 := by
    intro c i; rw [(hagree c).2.1]; exact hok.2 c i
  refine (θ_run (Cert.ReferenceIdeal.defs (F := Ideal)) _ _).mono (fun _ h c => ⟨(h c).1.trans ?_, (h c).2⟩) (Cert.Proof.Ref.run m' g' hU' hC')
  rw [(hagree c).1, (hagree c).2.1, (hagree c).2.2.1, (hagree c).2.2.2.1, (hagree c).2.2.2.2.1, (hagree c).2.2.2.2.2]

end Cert.KernelIdeal.Algebraic

end
-- ==== Proof.lean ====
/-
  The certificate: a recommendation score  b + w_lo · U[u] + w_hi · C[c]  per batch element, computed by the kernel as two
  one-matmul projections of the embedding tables on the TensorCore (each table contracted once with its half of the
  weight column) followed by two SparseCore gather-and-add passes over the batch (each tile of 512 batch rows gathers
  the 128-lane table rows its ids select, picks the id's lane, and adds it to the running value), and by the reference
  as a gather of the embedding rows, a concatenation and one matrix product plus bias.  On the extended reals both are
  (b + Σ_f w[f]·U[u,f]) + Σ_f w[100+f]·C[c,f]: the sum over the 200 concatenated features splits in its two halves, and
  addition and multiplication commute.  The frames: every weakly fair execution of the TensorCore, the two sequencers
  and the thirty-two tiles terminates with the arguments unchanged — the ids name rows of the tables under the
  precondition, the assumed side conditions of the lane reads hold for every word, each indirect copy has its own
  semaphore and its destination is not touched between issue and wait.  The idealization rewrote nothing.
-/
import proofs.«204913_g64682207478566_cont_9to1c4b_713_31_alg».proof.Defs
import proofs.«204913_g64682207478566_cont_9to1c4b_713_31_alg».proof.Proof.Gen.Kernel
import proofs.«204913_g64682207478566_cont_9to1c4b_713_31_alg».proof.Proof.Gen.KernelIdeal
import proofs.«204913_g64682207478566_cont_9to1c4b_713_31_alg».proof.Proof.Gen.ReferenceIdeal
import proofs.«204913_g64682207478566_cont_9to1c4b_713_31_alg».proof.Proof.Gen.Pre_input_domain
import proofs.«204913_g64682207478566_cont_9to1c4b_713_31_alg».proof.Proof.Wire
import proofs.«204913_g64682207478566_cont_9to1c4b_713_31_alg».proof.Proof.WireB
import proofs.«204913_g64682207478566_cont_9to1c4b_713_31_alg».proof.Proof.ClaimsBits
import proofs.«204913_g64682207478566_cont_9to1c4b_713_31_alg».proof.Proof.ClaimsIdeal
import proofs.«204913_g64682207478566_cont_9to1c4b_713_31_alg».proof.Proof.Algebraic
import proofs.«204913_g64682207478566_cont_9to1c4b_713_31_alg».proof.Proof.RefClaim

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts,
  Cert.Kernel.ClaimsBits.frame Cert.Kernel.Wire.body1 Cert.Kernel.Wire.body3 Cert.Kernel.Wire.reg0 Cert.Kernel.Wire.reg1,
  Cert.KernelIdeal.ClaimsIdeal.frame Cert.KernelIdeal.Wire.body1 Cert.KernelIdeal.Wire.body3 Cert.KernelIdeal.Wire.reg0 Cert.KernelIdeal.Wire.reg1,
  Cert.Proof.Ref.frame,
  trivial,
  Cert.KernelIdeal.Algebraic.algebraic Cert.KernelIdeal.Wire.body1 Cert.KernelIdeal.Wire.body3 Cert.KernelIdeal.Wire.reg0 Cert.KernelIdeal.Wire.reg1⟩

end Cert.Proof

end
